-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v201)) (v1 : (c : Dev Cert.KernelIdeal.nD) → Buf (Elt Ideal) ((c.tc : Thread Cert.KernelIdeal.nD Cert.KernelIdeal.τ).loc Cert.KernelIdeal.main_v375)) (v2 : (c : Dev Cert.KernelIdeal.nD) → Buf (Elt Ideal) ((c.tc : Thread Cert.KernelIdeal.nD Cert.KernelIdeal.τ).loc Cert.KernelIdeal.main_v386)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v201) = v0 c
          ∧ r.2.mem ((c.tc : Thread Cert.KernelIdeal.nD Cert.KernelIdeal.τ).loc Cert.KernelIdeal.main_v375) = v1 c
          ∧ r.2.mem ((c.tc : Thread Cert.KernelIdeal.nD Cert.KernelIdeal.τ).loc Cert.KernelIdeal.main_v386) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v237) = v0 c
          ∧ r.2.mem ((c.tc : Thread Cert.ReferenceIdeal.nD Cert.ReferenceIdeal.τ).loc Cert.ReferenceIdeal.main_v427) = v1 c
          ∧ r.2.mem ((c.tc : Thread Cert.ReferenceIdeal.nD Cert.ReferenceIdeal.τ).loc Cert.ReferenceIdeal.main_v438) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S1000000 : Shape := ⟨1, ![1000000]⟩
abbrev S100000x128 : Shape := ⟨2, ![100000, 128]⟩
abbrev S50000x128 : Shape := ⟨2, ![50000, 128]⟩
abbrev S128x128 : Shape := ⟨2, ![128, 128]⟩
abbrev S2x3x128x128 : Shape := ⟨4, ![2, 3, 128, 128]⟩
abbrev S2x128x128 : Shape := ⟨3, ![2, 128, 128]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S2x3x128x128 : S_.BroadcastsInDim S2x3x128x128 (![] : Fin 0 → Fin S2x3x128x128.rank)
  reducesTo_S2x3x128x128_S_d0_1_2_3 : S2x3x128x128.ReducesTo [0, 1, 2, 3] S_
  bcast_S_S2x128x128 : S_.BroadcastsInDim S2x128x128 (![] : Fin 0 → Fin S2x128x128.rank)
  reducesTo_S2x128x128_S_d0_1_2 : S2x128x128.ReducesTo [0, 1, 2] S_

variable [Facts]

def fn_part2 {F : FTy → Type} [FloatOps F] (main_arg11 : FVec F S2x128x128 .f32) (main_v33 : IVec S_ 1) : IVec S_ 1 :=
  let main_v34 : FVec F S2x128x128 .f32 := Host.absf main_arg11
  let main_cst_12 : FVec F S_ .f32 := constant S_ .f32 0x7F800000#32
  let main_v35 : FVec F S2x128x128 .f32 := broadcastInDim S2x128x128 ![] bcast_S_S2x128x128 main_cst_12
  let main_v36 : IVec S2x128x128 1 := cmpf .olt main_v34 main_v35
  let main_c_13 : IVec S_ 1 := constantI S_ 1 1#1
  let main_v37 : IVec S_ 1 := (fun x v => Host.reduce IntOp.andi x v reducesTo_S2x128x128_S_d0_1_2 h_S_) main_v36 main_c_13
  let main_v38 : IVec S_ 1 := andi main_v33 main_v37
  main_v38

def fn_part1 {F : FTy → Type} [FloatOps F] (main_arg8 : FVec F S128x128 .f32) (main_arg9 : FVec F S2x3x128x128 .f32) (main_arg10 : FVec F S2x3x128x128 .f32) (main_arg11 : FVec F S2x128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S2x3x128x128 .f32 := Host.absf main_arg9
  let main_cst_8 : FVec F S_ .f32 := constant S_ .f32 0x7F800000#32
  let main_v25 : FVec F S2x3x128x128 .f32 := broadcastInDim S2x3x128x128 ![] bcast_S_S2x3x128x128 main_cst_8
  let main_v26 : IVec S2x3x128x128 1 := cmpf .olt main_v24 main_v25
  let main_c_9 : IVec S_ 1 := constantI S_ 1 1#1
  let main_v27 : IVec S_ 1 := (fun x v => Host.reduce IntOp.andi x v reducesTo_S2x3x128x128_S_d0_1_2_3 h_S_) main_v26 main_c_9
  let main_v28 : IVec S_ 1 := andi main_v23 main_v27
  let main_v29 : FVec F S2x3x128x128 .f32 := Host.absf main_arg10
  let main_cst_10 : FVec F S_ .f32 := constant S_ .f32 0x7F800000#32
  let main_v30 : FVec F S2x3x128x128 .f32 := broadcastInDim S2x3x128x128 ![] bcast_S_S2x3x128x128 main_cst_10
  let main_v31 : IVec S2x3x128x128 1 := cmpf .olt main_v29 main_v30
  let main_c_11 : IVec S_ 1 := constantI S_ 1 1#1
  let main_v32 : IVec S_ 1 := (fun x v => Host.reduce IntOp.andi x v reducesTo_S2x3x128x128_S_d0_1_2_3 h_S_) main_v31 main_c_11
  let main_v33 : IVec S_ 1 := andi main_v28 main_v32
  fn_part2 (F := F) main_arg11 main_v33

def fn {F : FTy → Type} [FloatOps F] (main_arg0 : IVec S4096 32) (main_arg1 : IVec S4096 32) (main_arg2 : IVec S1000000 32) (main_arg3 : IVec S1000000 32) (main_arg4 : FVec F S1000000 .f32) (main_arg5 : FVec F S100000x128 .f32) (main_arg6 : FVec F S50000x128 .f32) (main_arg7 : FVec F S128x128 .f32) (main_arg8 : FVec F S128x128 .f32) (main_arg9 : FVec F S2x3x128x128 .f32) (main_arg10 : FVec F S2x3x128x128 .f32) (main_arg11 : FVec F S2x128x128 .f32) : IVec S_ 1 :=
  let main_v0 : FVec F S1000000 .f32 := Host.absf main_arg4
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S100000x128 .f32 := Host.absf main_arg5
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S50000x128 .f32 := Host.absf main_arg6
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg8 main_arg9 main_arg10 main_arg11 main_v13 main_v16
-- ==== Kernel.lean ====
abbrev S4096 : Shape := ⟨1, ![4096]⟩
abbrev S1000000 : Shape := ⟨1, ![1000000]⟩
abbrev S100000x128 : Shape := ⟨2, ![100000, 128]⟩
abbrev S50000x128 : Shape := ⟨2, ![50000, 128]⟩
abbrev S128x128 : Shape := ⟨2, ![128, 128]⟩
abbrev S2x3x128x128 : Shape := ⟨4, ![2, 3, 128, 128]⟩
abbrev S2x128x128 : Shape := ⟨3, ![2, 128, 128]⟩
abbrev S2000x128 : Shape := ⟨2, ![2000, 128]⟩
abbrev S1000000x1 : Shape := ⟨2, ![1000000, 1]⟩
abbrev S_ : Shape := ⟨0, ![]⟩
abbrev S1000000x128 : Shape := ⟨2, ![1000000, 128]⟩
abbrev S1x3x128x128 : Shape := ⟨4, ![1, 3, 128, 128]⟩
abbrev S3x128x128 : Shape := ⟨3, ![3, 128, 128]⟩
abbrev S1x128x128 : Shape := ⟨3, ![1, 128, 128]⟩
abbrev S4096x1 : Shape := ⟨2, ![4096, 1]⟩
abbrev S4096x128 : Shape := ⟨2, ![4096, 128]⟩
abbrev S256x128 : Shape := ⟨2, ![256, 128]⟩
abbrev S4096x256 : Shape := ⟨2, ![4096, 256]⟩

abbrev nBuf : Space → Nat
  | .hbm => 511
  | .vmem => 102
  | .smem => 0
  | _ => 0

abbrev hbmTy0_0 (i : Nat) : BufTy := match i % 128 with
  | 0 => ⟨S4096, .i32⟩
  | 1 => ⟨S4096, .i32⟩
  | 2 => ⟨S1000000, .i32⟩
  | 3 => ⟨S1000000, .i32⟩
  | 4 => ⟨S1000000, .f32⟩
  | 5 => ⟨S100000x128, .f32⟩
  | 6 => ⟨S50000x128, .f32⟩
  | 7 => ⟨S128x128, .f32⟩
  | 8 => ⟨S128x128, .f32⟩
  | 9 => ⟨S2x3x128x128, .f32⟩
  | 10 => ⟨S2x3x128x128, .f32⟩
  | 11 => ⟨S2x128x128, .f32⟩
  | 12 => ⟨S100000x128, .f32⟩
  | 13 => ⟨S50000x128, .f32⟩
  | 14 => ⟨S1000000x1, .f32⟩
  | 15 => ⟨S_, .i32⟩
  | 16 => ⟨S1000000, .i32⟩
  | 17 => ⟨S1000000, .i1⟩
  | 18 => ⟨S_, .i32⟩
  | 19 => ⟨S1000000, .i32⟩
  | 20 => ⟨S1000000, .i32⟩
  | 21 => ⟨S1000000, .i32⟩
  | 22 => ⟨S1000000x1, .i32⟩
  | 23 => ⟨S1000000x128, .f32⟩
  | 24 => ⟨S1000000x128, .f32⟩
  | 25 => ⟨S1000000x128, .f32⟩
  | 26 => ⟨S_, .f32⟩
  | 27 => ⟨S100000x128, .f32⟩
  | 28 => ⟨S1000000x1, .i32⟩
  | 29 => ⟨S100000x128, .f32⟩
  | 30 => ⟨S1000000x1, .f32⟩
  | 31 => ⟨S_, .i32⟩
  | 32 => ⟨S1000000, .i32⟩
  | 33 => ⟨S1000000, .i1⟩
  | 34 => ⟨S_, .i32⟩
  | 35 => ⟨S1000000, .i32⟩
  | 36 => ⟨S1000000, .i32⟩
  | 37 => ⟨S1000000, .i32⟩
  | 38 => ⟨S1000000x1, .i32⟩
  | 39 => ⟨S1000000x128, .f32⟩
  | 40 => ⟨S1000000x128, .f32⟩
  | 41 => ⟨S1000000x128, .f32⟩
  | 42 => ⟨S_, .f32⟩
  | 43 => ⟨S50000x128, .f32⟩
  | 44 => ⟨S1000000x1, .i32⟩
  | 45 => ⟨S50000x128, .f32⟩
  | 46 => ⟨S100000x128, .f32⟩
  | 47 => ⟨S50000x128, .f32⟩
  | 48 => ⟨S1x3x128x128, .f32⟩
  | 49 => ⟨S3x128x128, .f32⟩
  | 50 => ⟨S128x128, .f32⟩
  | 51 => ⟨S1x128x128, .f32⟩
  | 52 => ⟨S128x128, .f32⟩
  | 53 => ⟨S128x128, .f32⟩
  | 54 => ⟨S128x128, .f32⟩
  | 55 => ⟨S_, .f32⟩
  | 56 => ⟨S128x128, .f32⟩
  | 57 => ⟨S128x128, .f32⟩
  | 58 => ⟨S128x128, .f32⟩
  | 59 => ⟨S128x128, .f32⟩
  | 60 => ⟨S1x128x128, .f32⟩
  | 61 => ⟨S128x128, .f32⟩
  | 62 => ⟨S128x128, .f32⟩
  | 63 => ⟨S128x128, .f32⟩
  | 64 => ⟨S_, .f32⟩
  | 65 => ⟨S128x128, .f32⟩
  | 66 => ⟨S128x128, .f32⟩
  | 67 => ⟨S128x128, .f32⟩
  | 68 => ⟨S128x128, .f32⟩
  | 69 => ⟨S1x128x128, .f32⟩
  | 70 => ⟨S128x128, .f32⟩
  | 71 => ⟨S128x128, .f32⟩
  | 72 => ⟨S128x128, .f32⟩
  | 73 => ⟨S_, .f32⟩
  | 74 => ⟨S128x128, .f32⟩
  | 75 => ⟨S128x128, .f32⟩
  | 76 => ⟨S128x128, .f32⟩
  | 77 => ⟨S128x128, .f32⟩
  | 78 => ⟨S100000x128, .f32⟩
  | 79 => ⟨S1x3x128x128, .f32⟩
  | 80 => ⟨S3x128x128, .f32⟩
  | 81 => ⟨S128x128, .f32⟩
  | 82 => ⟨S1x128x128, .f32⟩
  | 83 => ⟨S128x128, .f32⟩
  | 84 => ⟨S128x128, .f32⟩
  | 85 => ⟨S128x128, .f32⟩
  | 86 => ⟨S_, .f32⟩
  | 87 => ⟨S128x128, .f32⟩
  | 88 => ⟨S128x128, .f32⟩
  | 89 => ⟨S128x128, .f32⟩
  | 90 => ⟨S128x128, .f32⟩
  | 91 => ⟨S1x128x128, .f32⟩
  | 92 => ⟨S128x128, .f32⟩
  | 93 => ⟨S128x128, .f32⟩
  | 94 => ⟨S128x128, .f32⟩
  | 95 => ⟨S_, .f32⟩
  | 96 => ⟨S128x128, .f32⟩
  | 97 => ⟨S128x128, .f32⟩
  | 98 => ⟨S128x128, .f32⟩
  | 99 => ⟨S128x128, .f32⟩
  | 100 => ⟨S1x128x128, .f32⟩
  | 101 => ⟨S128x128, .f32⟩
  | 102 => ⟨S128x128, .f32⟩
  | 103 => ⟨S128x128, .f32⟩
  | 104 => ⟨S_, .f32⟩
  | 105 => ⟨S128x128, .f32⟩
  | 106 => ⟨S128x128, .f32⟩
  | 107 => ⟨S128x128, .f32⟩
  | 108 => ⟨S128x128, .f32⟩
  | 109 => ⟨S50000x128, .f32⟩
  | 110 => ⟨S100000x128, .f32⟩
  | 111 => ⟨S100000x128, .f32⟩
  | 112 => ⟨S50000x128, .f32⟩
  | 113 => ⟨S50000x128, .f32⟩
  | 114 => ⟨S1000000x1, .f32⟩
  | 115 => ⟨S_, .i32⟩
  | 116 => ⟨S1000000, .i32⟩
  | 117 => ⟨S1000000, .i1⟩
  | 118 => ⟨S_, .i32⟩
  | 119 => ⟨S1000000, .i32⟩
  | 120 => ⟨S1000000, .i32⟩
  | 121 => ⟨S1000000, .i32⟩
  | 122 => ⟨S1000000x1, .i32⟩
  | 123 => ⟨S1000000x128, .f32⟩
  | 124 => ⟨S1000000x128, .f32⟩
  | 125 => ⟨S1000000x128, .f32⟩
  | 126 => ⟨S_, .f32⟩
  | 127 => ⟨S100000x128, .f32⟩
  | _ => ⟨S4096, .i32⟩

abbrev hbmTy0_1 (i : Nat) : BufTy := match i % 128 with
  | 0 => ⟨S1000000x1, .i32⟩
  | 1 => ⟨S100000x128, .f32⟩
  | 2 => ⟨S1000000x1, .f32⟩
  | 3 => ⟨S_, .i32⟩
  | 4 => ⟨S1000000, .i32⟩
  | 5 => ⟨S1000000, .i1⟩
  | 6 => ⟨S_, .i32⟩
  | 7 => ⟨S1000000, .i32⟩
  | 8 => ⟨S1000000, .i32⟩
  | 9 => ⟨S1000000, .i32⟩
  | 10 => ⟨S1000000x1, .i32⟩
  | 11 => ⟨S1000000x128, .f32⟩
  | 12 => ⟨S1000000x128, .f32⟩
  | 13 => ⟨S1000000x128, .f32⟩
  | 14 => ⟨S_, .f32⟩
  | 15 => ⟨S50000x128, .f32⟩
  | 16 => ⟨S1000000x1, .i32⟩
  | 17 => ⟨S50000x128, .f32⟩
  | 18 => ⟨S100000x128, .f32⟩
  | 19 => ⟨S50000x128, .f32⟩
  | 20 => ⟨S1x3x128x128, .f32⟩
  | 21 => ⟨S3x128x128, .f32⟩
  | 22 => ⟨S128x128, .f32⟩
  | 23 => ⟨S1x128x128, .f32⟩
  | 24 => ⟨S128x128, .f32⟩
  | 25 => ⟨S128x128, .f32⟩
  | 26 => ⟨S128x128, .f32⟩
  | 27 => ⟨S_, .f32⟩
  | 28 => ⟨S128x128, .f32⟩
  | 29 => ⟨S128x128, .f32⟩
  | 30 => ⟨S128x128, .f32⟩
  | 31 => ⟨S128x128, .f32⟩
  | 32 => ⟨S1x128x128, .f32⟩
  | 33 => ⟨S128x128, .f32⟩
  | 34 => ⟨S128x128, .f32⟩
  | 35 => ⟨S128x128, .f32⟩
  | 36 => ⟨S_, .f32⟩
  | 37 => ⟨S128x128, .f32⟩
  | 38 => ⟨S128x128, .f32⟩
  | 39 => ⟨S128x128, .f32⟩
  | 40 => ⟨S128x128, .f32⟩
  | 41 => ⟨S1x128x128, .f32⟩
  | 42 => ⟨S128x128, .f32⟩
  | 43 => ⟨S128x128, .f32⟩
  | 44 => ⟨S128x128, .f32⟩
  | 45 => ⟨S_, .f32⟩
  | 46 => ⟨S128x128, .f32⟩
  | 47 => ⟨S128x128, .f32⟩
  | 48 => ⟨S128x128, .f32⟩
  | 49 => ⟨S128x128, .f32⟩
  | 50 => ⟨S100000x128, .f32⟩
  | 51 => ⟨S1x3x128x128, .f32⟩
  | 52 => ⟨S3x128x128, .f32⟩
  | 53 => ⟨S128x128, .f32⟩
  | 54 => ⟨S1x128x128, .f32⟩
  | 55 => ⟨S128x128, .f32⟩
  | 56 => ⟨S128x128, .f32⟩
  | 57 => ⟨S128x128, .f32⟩
  | 58 => ⟨S_, .f32⟩
  | 59 => ⟨S128x128, .f32⟩
  | 60 => ⟨S128x128, .f32⟩
  | 61 => ⟨S128x128, .f32⟩
  | 62 => ⟨S128x128, .f32⟩
  | 63 => ⟨S1x128x128, .f32⟩
  | 64 => ⟨S128x128, .f32⟩
  | 65 => ⟨S128x128, .f32⟩
  | 66 => ⟨S128x128, .f32⟩
  | 67 => ⟨S_, .f32⟩
  | 68 => ⟨S128x128, .f32⟩
  | 69 => ⟨S128x128, .f32⟩
  | 70 => ⟨S128x128, .f32⟩
  | 71 => ⟨S128x128, .f32⟩
  | 72 => ⟨S1x128x128, .f32⟩
  | 73 => ⟨S128x128, .f32⟩
  | 74 => ⟨S128x128, .f32⟩
  | 75 => ⟨S128x128, .f32⟩
  | 76 => ⟨S_, .f32⟩
  | 77 => ⟨S128x128, .f32⟩
  | 78 => ⟨S128x128, .f32⟩
  | 79 => ⟨S128x128, .f32⟩
  | 80 => ⟨S128x128, .f32⟩
  | 81 => ⟨S50000x128, .f32⟩
  | 82 => ⟨S100000x128, .f32⟩
  | 83 => ⟨S100000x128, .f32⟩
  | 84 => ⟨S50000x128, .f32⟩
  | 85 => ⟨S50000x128, .f32⟩
  | 86 => ⟨S_, .f32⟩
  | 87 => ⟨S100000x128, .f32⟩
  | 88 => ⟨S100000x128, .f32⟩
  | 89 => ⟨S100000x128, .f32⟩
  | 90 => ⟨S100000x128, .f32⟩
  | 91 => ⟨S_, .f32⟩
  | 92 => ⟨S50000x128, .f32⟩
  | 93 => ⟨S50000x128, .f32⟩
  | 94 => ⟨S50000x128, .f32⟩
  | 95 => ⟨S50000x128, .f32⟩
  | 96 => ⟨S_, .i32⟩
  | 97 => ⟨S4096, .i32⟩
  | 98 => ⟨S4096, .i1⟩
  | 99 => ⟨S_, .i32⟩
  | 100 => ⟨S4096, .i32⟩
  | 101 => ⟨S4096, .i32⟩
  | 102 => ⟨S4096, .i32⟩
  | 103 => ⟨S4096x1, .i32⟩
  | 104 => ⟨S4096x128, .f32⟩
  | 105 => ⟨S_, .i32⟩
  | 106 => ⟨S4096, .i32⟩
  | 107 => ⟨S4096, .i1⟩
  | 108 => ⟨S_, .i32⟩
  | 109 => ⟨S4096, .i32⟩
  | 110 => ⟨S4096, .i32⟩
  | 111 => ⟨S4096, .i32⟩
  | 112 => ⟨S4096x1, .i32⟩
  | 113 => ⟨S4096x128, .f32⟩
  | 114 => ⟨S4096x128, .f32⟩
  | 115 => ⟨S_, .f32⟩
  | 116 => ⟨S4096, .f32⟩
  | 117 => ⟨S4096, .i32⟩
  | 118 => ⟨S4096, .i32⟩
  | 119 => ⟨S_, .i32⟩
  | 120 => ⟨S4096, .i32⟩
  | 121 => ⟨S4096, .i1⟩
  | 122 => ⟨S_, .i32⟩
  | 123 => ⟨S4096, .i32⟩
  | 124 => ⟨S4096, .i32⟩
  | 125 => ⟨S4096, .i32⟩
  | 126 => ⟨S4096x1, .i32⟩
  | 127 => ⟨S4096x128, .f32⟩
  | _ => ⟨S4096, .i32⟩

abbrev hbmTy0_2 (i : Nat) : BufTy := match i % 128 with
  | 0 => ⟨S_, .i32⟩
  | 1 => ⟨S4096, .i32⟩
  | 2 => ⟨S4096, .i1⟩
  | 3 => ⟨S_, .i32⟩
  | 4 => ⟨S4096, .i32⟩
  | 5 => ⟨S4096, .i32⟩
  | 6 => ⟨S4096, .i32⟩
  | 7 => ⟨S4096x1, .i32⟩
  | 8 => ⟨S4096x128, .f32⟩
  | 9 => ⟨S1x128x128, .f32⟩
  | 10 => ⟨S128x128, .f32⟩
  | 11 => ⟨S4096x128, .f32⟩
  | 12 => ⟨S_, .f32⟩
  | 13 => ⟨S4096, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x128, .f32⟩
  | 20 => ⟨S4096x128, .f32⟩
  | 21 => ⟨S4096x128, .f32⟩
  | 22 => ⟨S_, .f32⟩
  | 23 => ⟨S4096, .f32⟩
  | 24 => ⟨S4096x1, .f32⟩
  | 25 => ⟨S4096x1, .f32⟩
  | 26 => ⟨S_, .f32⟩
  | 27 => ⟨S4096x1, .f32⟩
  | 28 => ⟨S4096x1, .f32⟩
  | 29 => ⟨S4096x128, .f32⟩
  | 30 => ⟨S4096x128, .f32⟩
  | 31 => ⟨S4096x128, .f32⟩
  | 32 => ⟨S4096x128, .f32⟩
  | 33 => ⟨S_, .f32⟩
  | 34 => ⟨S4096, .f32⟩
  | 35 => ⟨S_, .f32⟩
  | 36 => ⟨S4096, .f32⟩
  | 37 => ⟨S4096, .f32⟩
  | 38 => ⟨S4096, .f32⟩
  | 39 => ⟨S4096x1, .f32⟩
  | 40 => ⟨S4096, .f32⟩
  | 41 => ⟨S_, .f32⟩
  | 42 => ⟨S4096, .f32⟩
  | 43 => ⟨S4096, .f32⟩
  | 44 => ⟨S4096, .f32⟩
  | 45 => ⟨S_, .f32⟩
  | 46 => ⟨S4096, .f32⟩
  | 47 => ⟨S4096, .f32⟩
  | 48 => ⟨S4096, .f32⟩
  | 49 => ⟨S4096, .f32⟩
  | 50 => ⟨S_, .f32⟩
  | 51 => ⟨S_, .f32⟩
  | 52 => ⟨S_, .f32⟩
  | 53 => ⟨S_, .f32⟩
  | 54 => ⟨S_, .i32⟩
  | 55 => ⟨S4096, .i32⟩
  | 56 => ⟨S4096, .i1⟩
  | 57 => ⟨S_, .i32⟩
  | 58 => ⟨S4096, .i32⟩
  | 59 => ⟨S4096, .i32⟩
  | 60 => ⟨S4096, .i32⟩
  | 61 => ⟨S4096x1, .i32⟩
  | 62 => ⟨S4096x128, .f32⟩
  | 63 => ⟨S_, .i32⟩
  | 64 => ⟨S4096, .i32⟩
  | 65 => ⟨S4096, .i1⟩
  | 66 => ⟨S_, .i32⟩
  | 67 => ⟨S4096, .i32⟩
  | 68 => ⟨S4096, .i32⟩
  | 69 => ⟨S4096, .i32⟩
  | 70 => ⟨S4096x1, .i32⟩
  | 71 => ⟨S4096x128, .f32⟩
  | 72 => ⟨S1x128x128, .f32⟩
  | 73 => ⟨S128x128, .f32⟩
  | 74 => ⟨S4096x128, .f32⟩
  | 75 => ⟨S_, .f32⟩
  | 76 => ⟨S4096, .f32⟩
  | 77 => ⟨S4096x1, .f32⟩
  | 78 => ⟨S4096x1, .f32⟩
  | 79 => ⟨S_, .f32⟩
  | 80 => ⟨S4096x1, .f32⟩
  | 81 => ⟨S4096x1, .f32⟩
  | 82 => ⟨S4096x128, .f32⟩
  | 83 => ⟨S4096x128, .f32⟩
  | 84 => ⟨S4096x128, .f32⟩
  | 85 => ⟨S_, .f32⟩
  | 86 => ⟨S4096, .f32⟩
  | 87 => ⟨S4096x1, .f32⟩
  | 88 => ⟨S4096x1, .f32⟩
  | 89 => ⟨S_, .f32⟩
  | 90 => ⟨S4096x1, .f32⟩
  | 91 => ⟨S4096x1, .f32⟩
  | 92 => ⟨S4096x128, .f32⟩
  | 93 => ⟨S4096x128, .f32⟩
  | 94 => ⟨S4096x128, .f32⟩
  | 95 => ⟨S4096x128, .f32⟩
  | 96 => ⟨S_, .f32⟩
  | 97 => ⟨S4096, .f32⟩
  | 98 => ⟨S_, .f32⟩
  | 99 => ⟨S4096, .f32⟩
  | 100 => ⟨S4096, .f32⟩
  | 101 => ⟨S4096, .f32⟩
  | 102 => ⟨S4096x1, .f32⟩
  | 103 => ⟨S4096, .f32⟩
  | 104 => ⟨S_, .f32⟩
  | 105 => ⟨S4096, .f32⟩
  | 106 => ⟨S4096, .f32⟩
  | 107 => ⟨S4096, .f32⟩
  | 108 => ⟨S_, .f32⟩
  | 109 => ⟨S4096, .f32⟩
  | 110 => ⟨S4096, .f32⟩
  | 111 => ⟨S4096, .f32⟩
  | 112 => ⟨S4096, .f32⟩
  | 113 => ⟨S_, .f32⟩
  | 114 => ⟨S_, .f32⟩
  | 115 => ⟨S_, .f32⟩
  | 116 => ⟨S_, .i32⟩
  | 117 => ⟨S4096, .i32⟩
  | 118 => ⟨S4096, .i1⟩
  | 119 => ⟨S_, .i32⟩
  | 120 => ⟨S4096, .i32⟩
  | 121 => ⟨S4096, .i32⟩
  | 122 => ⟨S4096, .i32⟩
  | 123 => ⟨S4096x1, .i32⟩
  | 124 => ⟨S4096x128, .f32⟩
  | 125 => ⟨S_, .i32⟩
  | 126 => ⟨S4096, .i32⟩
  | 127 => ⟨S4096, .i1⟩
  | _ => ⟨S4096, .i32⟩

abbrev hbmTy0_3 (i : Nat) : BufTy := match i % 128 with
  | 0 => ⟨S_, .i32⟩
  | 1 => ⟨S4096, .i32⟩
  | 2 => ⟨S4096, .i32⟩
  | 3 => ⟨S4096, .i32⟩
  | 4 => ⟨S4096x1, .i32⟩
  | 5 => ⟨S4096x128, .f32⟩
  | 6 => ⟨S1x128x128, .f32⟩
  | 7 => ⟨S128x128, .f32⟩
  | 8 => ⟨S4096x128, .f32⟩
  | 9 => ⟨S_, .f32⟩
  | 10 => ⟨S4096, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S4096x128, .f32⟩
  | 17 => ⟨S4096x128, .f32⟩
  | 18 => ⟨S4096x128, .f32⟩
  | 19 => ⟨S_, .f32⟩
  | 20 => ⟨S4096, .f32⟩
  | 21 => ⟨S4096x1, .f32⟩
  | 22 => ⟨S4096x1, .f32⟩
  | 23 => ⟨S_, .f32⟩
  | 24 => ⟨S4096x1, .f32⟩
  | 25 => ⟨S4096x1, .f32⟩
  | 26 => ⟨S4096x128, .f32⟩
  | 27 => ⟨S4096x128, .f32⟩
  | 28 => ⟨S4096x128, .f32⟩
  | 29 => ⟨S4096x128, .f32⟩
  | 30 => ⟨S_, .f32⟩
  | 31 => ⟨S4096, .f32⟩
  | 32 => ⟨S_, .f32⟩
  | 33 => ⟨S4096, .f32⟩
  | 34 => ⟨S4096, .f32⟩
  | 35 => ⟨S4096, .f32⟩
  | 36 => ⟨S4096x1, .f32⟩
  | 37 => ⟨S4096, .f32⟩
  | 38 => ⟨S_, .f32⟩
  | 39 => ⟨S4096, .f32⟩
  | 40 => ⟨S4096, .f32⟩
  | 41 => ⟨S4096, .f32⟩
  | 42 => ⟨S_, .f32⟩
  | 43 => ⟨S4096, .f32⟩
  | 44 => ⟨S4096, .f32⟩
  | 45 => ⟨S4096, .f32⟩
  | 46 => ⟨S4096, .f32⟩
  | 47 => ⟨S_, .f32⟩
  | 48 => ⟨S_, .f32⟩
  | 49 => ⟨S_, .f32⟩
  | 50 => ⟨S_, .i32⟩
  | 51 => ⟨S4096, .i32⟩
  | 52 => ⟨S4096, .i1⟩
  | 53 => ⟨S_, .i32⟩
  | 54 => ⟨S4096, .i32⟩
  | 55 => ⟨S4096, .i32⟩
  | 56 => ⟨S4096, .i32⟩
  | 57 => ⟨S4096x1, .i32⟩
  | 58 => ⟨S4096x128, .f32⟩
  | 59 => ⟨S_, .i32⟩
  | 60 => ⟨S4096, .i32⟩
  | 61 => ⟨S4096, .i1⟩
  | 62 => ⟨S_, .i32⟩
  | 63 => ⟨S4096, .i32⟩
  | 64 => ⟨S4096, .i32⟩
  | 65 => ⟨S4096, .i32⟩
  | 66 => ⟨S4096x1, .i32⟩
  | 67 => ⟨S4096x128, .f32⟩
  | 68 => ⟨S1x128x128, .f32⟩
  | 69 => ⟨S128x128, .f32⟩
  | 70 => ⟨S4096x128, .f32⟩
  | 71 => ⟨S_, .f32⟩
  | 72 => ⟨S4096, .f32⟩
  | 73 => ⟨S4096x1, .f32⟩
  | 74 => ⟨S4096x1, .f32⟩
  | 75 => ⟨S_, .f32⟩
  | 76 => ⟨S4096x1, .f32⟩
  | 77 => ⟨S4096x1, .f32⟩
  | 78 => ⟨S4096x128, .f32⟩
  | 79 => ⟨S4096x128, .f32⟩
  | 80 => ⟨S4096x128, .f32⟩
  | 81 => ⟨S_, .f32⟩
  | 82 => ⟨S4096, .f32⟩
  | 83 => ⟨S4096x1, .f32⟩
  | 84 => ⟨S4096x1, .f32⟩
  | 85 => ⟨S_, .f32⟩
  | 86 => ⟨S4096x1, .f32⟩
  | 87 => ⟨S4096x1, .f32⟩
  | 88 => ⟨S4096x128, .f32⟩
  | 89 => ⟨S4096x128, .f32⟩
  | 90 => ⟨S4096x128, .f32⟩
  | 91 => ⟨S4096x128, .f32⟩
  | 92 => ⟨S_, .f32⟩
  | 93 => ⟨S4096, .f32⟩
  | 94 => ⟨S_, .f32⟩
  | 95 => ⟨S4096, .f32⟩
  | 96 => ⟨S4096, .f32⟩
  | 97 => ⟨S4096, .f32⟩
  | 98 => ⟨S4096x1, .f32⟩
  | 99 => ⟨S4096, .f32⟩
  | 100 => ⟨S_, .f32⟩
  | 101 => ⟨S4096, .f32⟩
  | 102 => ⟨S4096, .f32⟩
  | 103 => ⟨S4096, .f32⟩
  | 104 => ⟨S_, .f32⟩
  | 105 => ⟨S4096, .f32⟩
  | 106 => ⟨S4096, .f32⟩
  | 107 => ⟨S4096, .f32⟩
  | 108 => ⟨S4096, .f32⟩
  | 109 => ⟨S_, .f32⟩
  | 110 => ⟨S_, .f32⟩
  | 111 => ⟨S_, .f32⟩
  | 112 => ⟨S100000x128, .f32⟩
  | 113 => ⟨S_, .f32⟩
  | 114 => ⟨S_, .f32⟩
  | 115 => ⟨S50000x128, .f32⟩
  | 116 => ⟨S_, .f32⟩
  | 117 => ⟨S_, .f32⟩
  | 118 => ⟨S_, .f32⟩
  | 119 => ⟨S128x128, .f32⟩
  | 120 => ⟨S_, .f32⟩
  | 121 => ⟨S_, .f32⟩
  | 122 => ⟨S_, .f32⟩
  | 123 => ⟨S128x128, .f32⟩
  | 124 => ⟨S_, .f32⟩
  | 125 => ⟨S_, .f32⟩
  | 126 => ⟨S_, .f32⟩
  | _ => ⟨S4096, .i32⟩

abbrev hbmTy (i : Nat) : BufTy := match i / 128 with
  | 0 => hbmTy0_0 i
  | 1 => hbmTy0_1 i
  | 2 => hbmTy0_2 i
  | 3 => hbmTy0_3 i
  | _ => ⟨S4096, .i32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S128x128, .f32⟩
  | .local _ .vmem, ⟨24, _⟩ => ⟨S2000x128, .f32⟩
  | .local _ .vmem, ⟨25, _⟩ => ⟨S2000x128, .f32⟩
  | .local _ .vmem, ⟨26, _⟩ => ⟨S128x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S128x128, .f32⟩
  | .local _ .vmem, ⟨34, _⟩ => ⟨S128x128, .f32⟩
  | .local _ .vmem, ⟨35, _⟩ => ⟨S2000x128, .f32⟩
  | .local _ .vmem, ⟨36, _⟩ => ⟨S2000x128, .f32⟩
  | .local _ .vmem, ⟨37, _⟩ => ⟨S128x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S128x128, .f32⟩
  | .local _ .vmem, ⟨53, _⟩ => ⟨S128x128, .f32⟩
  | .local _ .vmem, ⟨54, _⟩ => ⟨S2000x128, .f32⟩
  | .local _ .vmem, ⟨55, _⟩ => ⟨S2000x128, .f32⟩
  | .local _ .vmem, ⟨56, _⟩ => ⟨S128x128, .f32⟩
  | .local _ .vmem, ⟨57, _⟩ => ⟨S2000x128, .f32⟩
  | .local _ .vmem, ⟨58, _⟩ => ⟨S2000x128, .f32⟩
  | .local _ .vmem, ⟨59, _⟩ => ⟨S2000x128, .f32⟩
  | .local _ .vmem, ⟨60, _⟩ => ⟨S2000x128, .f32⟩
  | .local _ .vmem, ⟨61, _⟩ => ⟨S2000x128, .f32⟩
  | .local _ .vmem, ⟨62, _⟩ => ⟨S2000x128, .f32⟩
  | .local _ .vmem, ⟨63, _⟩ => ⟨S128x128, .f32⟩
  | .local _ .vmem, ⟨64, _⟩ => ⟨S128x128, .f32⟩
  | .local _ .vmem, ⟨65, _⟩ => ⟨S2000x128, .f32⟩
  | .local _ .vmem, ⟨66, _⟩ => ⟨S2000x128, .f32⟩
  | .local _ .vmem, ⟨67, _⟩ => ⟨S128x128, .f32⟩
  | .local _ .vmem, ⟨68, _⟩ => ⟨S2000x128, .f32⟩
  | .local _ .vmem, ⟨69, _⟩ => ⟨S2000x128, .f32⟩
  | .local _ .vmem, ⟨70, _⟩ => ⟨S4096x128, .f32⟩
  | .local _ .vmem, ⟨71, _⟩ => ⟨S128x128, .f32⟩
  | .local _ .vmem, ⟨72, _⟩ => ⟨S4096x128, .f32⟩
  | .local _ .vmem, ⟨73, _⟩ => ⟨S4096x128, .f32⟩
  | .local _ .vmem, ⟨74, _⟩ => ⟨S256x128, .f32⟩
  | .local _ .vmem, ⟨75, _⟩ => ⟨S256x128, .f32⟩
  | .local _ .vmem, ⟨76, _⟩ => ⟨S4096x1, .f32⟩
  | .local _ .vmem, ⟨77, _⟩ => ⟨S4096x1, .f32⟩
  | .local _ .vmem, ⟨78, _⟩ => ⟨S4096x128, .f32⟩
  | .local _ .vmem, ⟨79, _⟩ => ⟨S128x128, .f32⟩
  | .local _ .vmem, ⟨80, _⟩ => ⟨S4096x128, .f32⟩
  | .local _ .vmem, ⟨81, _⟩ => ⟨S4096x128, .f32⟩
  | .local _ .vmem, ⟨82, _⟩ => ⟨S256x128, .f32⟩
  | .local _ .vmem, ⟨83, _⟩ => ⟨S256x128, .f32⟩
  | .local _ .vmem, ⟨84, _⟩ => ⟨S4096x1, .f32⟩
  | .local _ .vmem, ⟨85, _⟩ => ⟨S4096x1, .f32⟩
  | .local _ .vmem, ⟨86, _⟩ => ⟨S4096x128, .f32⟩
  | .local _ .vmem, ⟨87, _⟩ => ⟨S128x128, .f32⟩
  | .local _ .vmem, ⟨88, _⟩ => ⟨S4096x128, .f32⟩
  | .local _ .vmem, ⟨89, _⟩ => ⟨S4096x128, .f32⟩
  | .local _ .vmem, ⟨90, _⟩ => ⟨S256x128, .f32⟩
  | .local _ .vmem, ⟨91, _⟩ => ⟨S256x128, .f32⟩
  | .local _ .vmem, ⟨92, _⟩ => ⟨S4096x1, .f32⟩
  | .local _ .vmem, ⟨93, _⟩ => ⟨S4096x1, .f32⟩
  | .local _ .vmem, ⟨94, _⟩ => ⟨S4096x128, .f32⟩
  | .local _ .vmem, ⟨95, _⟩ => ⟨S128x128, .f32⟩
  | .local _ .vmem, ⟨96, _⟩ => ⟨S4096x128, .f32⟩
  | .local _ .vmem, ⟨97, _⟩ => ⟨S4096x128, .f32⟩
  | .local _ .vmem, ⟨98, _⟩ => ⟨S256x128, .f32⟩
  | .local _ .vmem, ⟨99, _⟩ => ⟨S256x128, .f32⟩
  | .local _ .vmem, ⟨100, _⟩ => ⟨S4096x1, .f32⟩
  | .local _ .vmem, ⟨101, _⟩ => ⟨S4096x1, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | _, _ => false

abbrev semScoped : Fin 0 → Bool
  | ⟨_, h⟩ => absurd h (Nat.not_lt_zero _)

abbrev dmaSemScoped : Fin 94 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | _ => false

abbrev sig : RefSig :=
  ofTc nBuf bufTy 0 94 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_1 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_4 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_6 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_7 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_8 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_9 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_c_10 : Ref sig .tc := ⟨.hbm, 115, rfl⟩
abbrev main_v91 : Ref sig .tc := ⟨.hbm, 116, rfl⟩
abbrev main_v92 : Ref sig .tc := ⟨.hbm, 117, rfl⟩
abbrev main_c_11 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_12 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_c_13 : Ref sig .tc := ⟨.hbm, 131, rfl⟩
abbrev main_v104 : Ref sig .tc := ⟨.hbm, 132, rfl⟩
abbrev main_v105 : Ref sig .tc := ⟨.hbm, 133, rfl⟩
abbrev main_c_14 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_cst_15 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_cst_16 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_cst_17 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_cst_18 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_cst_19 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_cst_20 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_cst_21 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_cst_22 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_cst_23 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_c_24 : Ref sig .tc := ⟨.hbm, 224, rfl⟩
abbrev main_v186 : Ref sig .tc := ⟨.hbm, 225, rfl⟩
abbrev main_v187 : Ref sig .tc := ⟨.hbm, 226, rfl⟩
abbrev main_c_25 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_c_26 : Ref sig .tc := ⟨.hbm, 233, rfl⟩
abbrev main_v193 : Ref sig .tc := ⟨.hbm, 234, rfl⟩
abbrev main_v194 : Ref sig .tc := ⟨.hbm, 235, rfl⟩
abbrev main_c_27 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_cst_28 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_c_29 : Ref sig .tc := ⟨.hbm, 247, rfl⟩
abbrev main_v204 : Ref sig .tc := ⟨.hbm, 248, rfl⟩
abbrev main_v205 : Ref sig .tc := ⟨.hbm, 249, rfl⟩
abbrev main_c_30 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_c_31 : Ref sig .tc := ⟨.hbm, 256, rfl⟩
abbrev main_v211 : Ref sig .tc := ⟨.hbm, 257, rfl⟩
abbrev main_v212 : Ref sig .tc := ⟨.hbm, 258, rfl⟩
abbrev main_c_32 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_call2_v0 : Ref sig .tc := ⟨.hbm, 267, rfl⟩
abbrev main_call2_cst : Ref sig .tc := ⟨.hbm, 268, rfl⟩
abbrev main_call2_v1 : Ref sig .tc := ⟨.hbm, 269, rfl⟩
abbrev main_call2_v2 : Ref sig .tc := ⟨.hbm, 270, rfl⟩
abbrev main_v220 : Ref sig .tc := ⟨.hbm, 271, rfl⟩
abbrev main_cst_33 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_call3_v0 : Ref sig .tc := ⟨.hbm, 277, rfl⟩
abbrev main_call3_cst : Ref sig .tc := ⟨.hbm, 278, rfl⟩
abbrev main_call3_v1 : Ref sig .tc := ⟨.hbm, 279, rfl⟩
abbrev main_call3_v2 : Ref sig .tc := ⟨.hbm, 280, rfl⟩
abbrev main_v225 : Ref sig .tc := ⟨.hbm, 281, rfl⟩
abbrev main_cst_34 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_cst_35 : Ref sig .tc := ⟨.hbm, 289, rfl⟩
abbrev main_v232 : Ref sig .tc := ⟨.hbm, 290, rfl⟩
abbrev main_cst_36 : Ref sig .tc := ⟨.hbm, 291, rfl⟩
abbrev main_v233 : Ref sig .tc := ⟨.hbm, 292, rfl⟩
abbrev main_v234 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_cst_37 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev main_cst_38 : Ref sig .tc := ⟨.hbm, 301, rfl⟩
abbrev main_v241 : Ref sig .tc := ⟨.hbm, 302, rfl⟩
abbrev main_v242 : Ref sig .tc := ⟨.hbm, 303, rfl⟩
abbrev main_v243 : Ref sig .tc := ⟨.hbm, 304, rfl⟩
abbrev main_v244 : Ref sig .tc := ⟨.hbm, 305, rfl⟩
abbrev main_cst_39 : Ref sig .tc := ⟨.hbm, 306, rfl⟩
abbrev main_v245 : Ref sig .tc := ⟨.hbm, 307, rfl⟩
abbrev main_cst_40 : Ref sig .tc := ⟨.hbm, 308, rfl⟩
abbrev main_v246 : Ref sig .tc := ⟨.hbm, 309, rfl⟩
abbrev main_c_41 : Ref sig .tc := ⟨.hbm, 310, rfl⟩
abbrev main_v247 : Ref sig .tc := ⟨.hbm, 311, rfl⟩
abbrev main_v248 : Ref sig .tc := ⟨.hbm, 312, rfl⟩
abbrev main_c_42 : Ref sig .tc := ⟨.hbm, 313, rfl⟩
abbrev main_v249 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_v253 : Ref sig .tc := ⟨.hbm, 318, rfl⟩
abbrev main_c_43 : Ref sig .tc := ⟨.hbm, 319, rfl⟩
abbrev main_v254 : Ref sig .tc := ⟨.hbm, 320, rfl⟩
abbrev main_v255 : Ref sig .tc := ⟨.hbm, 321, rfl⟩
abbrev main_c_44 : Ref sig .tc := ⟨.hbm, 322, rfl⟩
abbrev main_v256 : Ref sig .tc := ⟨.hbm, 323, rfl⟩
abbrev main_v257 : Ref sig .tc := ⟨.hbm, 324, rfl⟩
abbrev main_v258 : Ref sig .tc := ⟨.hbm, 325, rfl⟩
abbrev main_v259 : Ref sig .tc := ⟨.hbm, 326, rfl⟩
abbrev main_v260 : Ref sig .tc := ⟨.hbm, 327, rfl⟩
abbrev main_v261 : Ref sig .tc := ⟨.hbm, 328, rfl⟩
abbrev main_v262 : Ref sig .tc := ⟨.hbm, 329, rfl⟩
abbrev main_call4_v0 : Ref sig .tc := ⟨.hbm, 330, rfl⟩
abbrev main_call4_cst : Ref sig .tc := ⟨.hbm, 331, rfl⟩
abbrev main_call4_v1 : Ref sig .tc := ⟨.hbm, 332, rfl⟩
abbrev main_call4_v2 : Ref sig .tc := ⟨.hbm, 333, rfl⟩
abbrev main_v263 : Ref sig .tc := ⟨.hbm, 334, rfl⟩
abbrev main_cst_45 : Ref sig .tc := ⟨.hbm, 335, rfl⟩
abbrev main_v264 : Ref sig .tc := ⟨.hbm, 336, rfl⟩
abbrev main_v265 : Ref sig .tc := ⟨.hbm, 337, rfl⟩
abbrev main_v266 : Ref sig .tc := ⟨.hbm, 338, rfl⟩
abbrev main_v267 : Ref sig .tc := ⟨.hbm, 339, rfl⟩
abbrev main_call5_v0 : Ref sig .tc := ⟨.hbm, 340, rfl⟩
abbrev main_call5_cst : Ref sig .tc := ⟨.hbm, 341, rfl⟩
abbrev main_call5_v1 : Ref sig .tc := ⟨.hbm, 342, rfl⟩
abbrev main_call5_v2 : Ref sig .tc := ⟨.hbm, 343, rfl⟩
abbrev main_v268 : Ref sig .tc := ⟨.hbm, 344, rfl⟩
abbrev main_cst_46 : Ref sig .tc := ⟨.hbm, 345, rfl⟩
abbrev main_v269 : Ref sig .tc := ⟨.hbm, 346, rfl⟩
abbrev main_v270 : Ref sig .tc := ⟨.hbm, 347, rfl⟩
abbrev main_v271 : Ref sig .tc := ⟨.hbm, 348, rfl⟩
abbrev main_v272 : Ref sig .tc := ⟨.hbm, 349, rfl⟩
abbrev main_v273 : Ref sig .tc := ⟨.hbm, 350, rfl⟩
abbrev main_v274 : Ref sig .tc := ⟨.hbm, 351, rfl⟩
abbrev main_cst_47 : Ref sig .tc := ⟨.hbm, 352, rfl⟩
abbrev main_v275 : Ref sig .tc := ⟨.hbm, 353, rfl⟩
abbrev main_cst_48 : Ref sig .tc := ⟨.hbm, 354, rfl⟩
abbrev main_v276 : Ref sig .tc := ⟨.hbm, 355, rfl⟩
abbrev main_v277 : Ref sig .tc := ⟨.hbm, 356, rfl⟩
abbrev main_v278 : Ref sig .tc := ⟨.hbm, 357, rfl⟩
abbrev main_v279 : Ref sig .tc := ⟨.hbm, 358, rfl⟩
abbrev main_v280 : Ref sig .tc := ⟨.hbm, 359, rfl⟩
abbrev main_cst_49 : Ref sig .tc := ⟨.hbm, 360, rfl⟩
abbrev main_v281 : Ref sig .tc := ⟨.hbm, 361, rfl⟩
abbrev main_v282 : Ref sig .tc := ⟨.hbm, 362, rfl⟩
abbrev main_v283 : Ref sig .tc := ⟨.hbm, 363, rfl⟩
abbrev main_cst_50 : Ref sig .tc := ⟨.hbm, 364, rfl⟩
abbrev main_v284 : Ref sig .tc := ⟨.hbm, 365, rfl⟩
abbrev main_v285 : Ref sig .tc := ⟨.hbm, 366, rfl⟩
abbrev main_v286 : Ref sig .tc := ⟨.hbm, 367, rfl⟩
abbrev main_v287 : Ref sig .tc := ⟨.hbm, 368, rfl⟩
abbrev main_cst_51 : Ref sig .tc := ⟨.hbm, 369, rfl⟩
abbrev main_v288 : Ref sig .tc := ⟨.hbm, 370, rfl⟩
abbrev main_v289 : Ref sig .tc := ⟨.hbm, 371, rfl⟩
abbrev main_c_52 : Ref sig .tc := ⟨.hbm, 372, rfl⟩
abbrev main_v290 : Ref sig .tc := ⟨.hbm, 373, rfl⟩
abbrev main_v291 : Ref sig .tc := ⟨.hbm, 374, rfl⟩
abbrev main_c_53 : Ref sig .tc := ⟨.hbm, 375, rfl⟩
abbrev main_v292 : Ref sig .tc := ⟨.hbm, 376, rfl⟩
abbrev main_v293 : Ref sig .tc := ⟨.hbm, 377, rfl⟩
abbrev main_v294 : Ref sig .tc := ⟨.hbm, 378, rfl⟩
abbrev main_v295 : Ref sig .tc := ⟨.hbm, 379, rfl⟩
abbrev main_v296 : Ref sig .tc := ⟨.hbm, 380, rfl⟩
abbrev main_c_54 : Ref sig .tc := ⟨.hbm, 381, rfl⟩
abbrev main_v297 : Ref sig .tc := ⟨.hbm, 382, rfl⟩
abbrev main_v298 : Ref sig .tc := ⟨.hbm, 383, rfl⟩
abbrev main_c_55 : Ref sig .tc := ⟨.hbm, 384, rfl⟩
abbrev main_v299 : Ref sig .tc := ⟨.hbm, 385, rfl⟩
abbrev main_v300 : Ref sig .tc := ⟨.hbm, 386, rfl⟩
abbrev main_v301 : Ref sig .tc := ⟨.hbm, 387, rfl⟩
abbrev main_v302 : Ref sig .tc := ⟨.hbm, 388, rfl⟩
abbrev main_v303 : Ref sig .tc := ⟨.hbm, 389, rfl⟩
abbrev main_v304 : Ref sig .tc := ⟨.hbm, 390, rfl⟩
abbrev main_v305 : Ref sig .tc := ⟨.hbm, 391, rfl⟩
abbrev main_call6_v0 : Ref sig .tc := ⟨.hbm, 392, rfl⟩
abbrev main_call6_cst : Ref sig .tc := ⟨.hbm, 393, rfl⟩
abbrev main_call6_v1 : Ref sig .tc := ⟨.hbm, 394, rfl⟩
abbrev main_call6_v2 : Ref sig .tc := ⟨.hbm, 395, rfl⟩
abbrev main_v306 : Ref sig .tc := ⟨.hbm, 396, rfl⟩
abbrev main_cst_56 : Ref sig .tc := ⟨.hbm, 397, rfl⟩
abbrev main_v307 : Ref sig .tc := ⟨.hbm, 398, rfl⟩
abbrev main_v308 : Ref sig .tc := ⟨.hbm, 399, rfl⟩
abbrev main_v309 : Ref sig .tc := ⟨.hbm, 400, rfl⟩
abbrev main_v310 : Ref sig .tc := ⟨.hbm, 401, rfl⟩
abbrev main_call7_v0 : Ref sig .tc := ⟨.hbm, 402, rfl⟩
abbrev main_call7_cst : Ref sig .tc := ⟨.hbm, 403, rfl⟩
abbrev main_call7_v1 : Ref sig .tc := ⟨.hbm, 404, rfl⟩
abbrev main_call7_v2 : Ref sig .tc := ⟨.hbm, 405, rfl⟩
abbrev main_v311 : Ref sig .tc := ⟨.hbm, 406, rfl⟩
abbrev main_cst_57 : Ref sig .tc := ⟨.hbm, 407, rfl⟩
abbrev main_v312 : Ref sig .tc := ⟨.hbm, 408, rfl⟩
abbrev main_v313 : Ref sig .tc := ⟨.hbm, 409, rfl⟩
abbrev main_v314 : Ref sig .tc := ⟨.hbm, 410, rfl⟩
abbrev main_v315 : Ref sig .tc := ⟨.hbm, 411, rfl⟩
abbrev main_v316 : Ref sig .tc := ⟨.hbm, 412, rfl⟩
abbrev main_v317 : Ref sig .tc := ⟨.hbm, 413, rfl⟩
abbrev main_cst_58 : Ref sig .tc := ⟨.hbm, 414, rfl⟩
abbrev main_v318 : Ref sig .tc := ⟨.hbm, 415, rfl⟩
abbrev main_cst_59 : Ref sig .tc := ⟨.hbm, 416, rfl⟩
abbrev main_v319 : Ref sig .tc := ⟨.hbm, 417, rfl⟩
abbrev main_v320 : Ref sig .tc := ⟨.hbm, 418, rfl⟩
abbrev main_v321 : Ref sig .tc := ⟨.hbm, 419, rfl⟩
abbrev main_v322 : Ref sig .tc := ⟨.hbm, 420, rfl⟩
abbrev main_v323 : Ref sig .tc := ⟨.hbm, 421, rfl⟩
abbrev main_cst_60 : Ref sig .tc := ⟨.hbm, 422, rfl⟩
abbrev main_v324 : Ref sig .tc := ⟨.hbm, 423, rfl⟩
abbrev main_v325 : Ref sig .tc := ⟨.hbm, 424, rfl⟩
abbrev main_v326 : Ref sig .tc := ⟨.hbm, 425, rfl⟩
abbrev main_cst_61 : Ref sig .tc := ⟨.hbm, 426, rfl⟩
abbrev main_v327 : Ref sig .tc := ⟨.hbm, 427, rfl⟩
abbrev main_v328 : Ref sig .tc := ⟨.hbm, 428, rfl⟩
abbrev main_v329 : Ref sig .tc := ⟨.hbm, 429, rfl⟩
abbrev main_v330 : Ref sig .tc := ⟨.hbm, 430, rfl⟩
abbrev main_cst_62 : Ref sig .tc := ⟨.hbm, 431, rfl⟩
abbrev main_v331 : Ref sig .tc := ⟨.hbm, 432, rfl⟩
abbrev main_v332 : Ref sig .tc := ⟨.hbm, 433, rfl⟩
abbrev main_c_63 : Ref sig .tc := ⟨.hbm, 434, rfl⟩
abbrev main_v333 : Ref sig .tc := ⟨.hbm, 435, rfl⟩
abbrev main_v334 : Ref sig .tc := ⟨.hbm, 436, rfl⟩
abbrev main_c_64 : Ref sig .tc := ⟨.hbm, 437, rfl⟩
abbrev main_v335 : Ref sig .tc := ⟨.hbm, 438, rfl⟩
abbrev main_v336 : Ref sig .tc := ⟨.hbm, 439, rfl⟩
abbrev main_v337 : Ref sig .tc := ⟨.hbm, 440, rfl⟩
abbrev main_v338 : Ref sig .tc := ⟨.hbm, 441, rfl⟩
abbrev main_v339 : Ref sig .tc := ⟨.hbm, 442, rfl⟩
abbrev main_c_65 : Ref sig .tc := ⟨.hbm, 443, rfl⟩
abbrev main_v340 : Ref sig .tc := ⟨.hbm, 444, rfl⟩
abbrev main_v341 : Ref sig .tc := ⟨.hbm, 445, rfl⟩
abbrev main_c_66 : Ref sig .tc := ⟨.hbm, 446, rfl⟩
abbrev main_v342 : Ref sig .tc := ⟨.hbm, 447, rfl⟩
abbrev main_v343 : Ref sig .tc := ⟨.hbm, 448, rfl⟩
abbrev main_v344 : Ref sig .tc := ⟨.hbm, 449, rfl⟩
abbrev main_v345 : Ref sig .tc := ⟨.hbm, 450, rfl⟩
abbrev main_v346 : Ref sig .tc := ⟨.hbm, 451, rfl⟩
abbrev main_v347 : Ref sig .tc := ⟨.hbm, 452, rfl⟩
abbrev main_v348 : Ref sig .tc := ⟨.hbm, 453, rfl⟩
abbrev main_call8_v0 : Ref sig .tc := ⟨.hbm, 454, rfl⟩
abbrev main_call8_cst : Ref sig .tc := ⟨.hbm, 455, rfl⟩
abbrev main_call8_v1 : Ref sig .tc := ⟨.hbm, 456, rfl⟩
abbrev main_call8_v2 : Ref sig .tc := ⟨.hbm, 457, rfl⟩
abbrev main_v349 : Ref sig .tc := ⟨.hbm, 458, rfl⟩
abbrev main_cst_67 : Ref sig .tc := ⟨.hbm, 459, rfl⟩
abbrev main_v350 : Ref sig .tc := ⟨.hbm, 460, rfl⟩
abbrev main_v351 : Ref sig .tc := ⟨.hbm, 461, rfl⟩
abbrev main_v352 : Ref sig .tc := ⟨.hbm, 462, rfl⟩
abbrev main_v353 : Ref sig .tc := ⟨.hbm, 463, rfl⟩
abbrev main_call9_v0 : Ref sig .tc := ⟨.hbm, 464, rfl⟩
abbrev main_call9_cst : Ref sig .tc := ⟨.hbm, 465, rfl⟩
abbrev main_call9_v1 : Ref sig .tc := ⟨.hbm, 466, rfl⟩
abbrev main_call9_v2 : Ref sig .tc := ⟨.hbm, 467, rfl⟩
abbrev main_v354 : Ref sig .tc := ⟨.hbm, 468, rfl⟩
abbrev main_cst_68 : Ref sig .tc := ⟨.hbm, 469, rfl⟩
abbrev main_v355 : Ref sig .tc := ⟨.hbm, 470, rfl⟩
abbrev main_v356 : Ref sig .tc := ⟨.hbm, 471, rfl⟩
abbrev main_v357 : Ref sig .tc := ⟨.hbm, 472, rfl⟩
abbrev main_v358 : Ref sig .tc := ⟨.hbm, 473, rfl⟩
abbrev main_v359 : Ref sig .tc := ⟨.hbm, 474, rfl⟩
abbrev main_v360 : Ref sig .tc := ⟨.hbm, 475, rfl⟩
abbrev main_cst_69 : Ref sig .tc := ⟨.hbm, 476, rfl⟩
abbrev main_v361 : Ref sig .tc := ⟨.hbm, 477, rfl⟩
abbrev main_cst_70 : Ref sig .tc := ⟨.hbm, 478, rfl⟩
abbrev main_v362 : Ref sig .tc := ⟨.hbm, 479, rfl⟩
abbrev main_v363 : Ref sig .tc := ⟨.hbm, 480, rfl⟩
abbrev main_v364 : Ref sig .tc := ⟨.hbm, 481, rfl⟩
abbrev main_v365 : Ref sig .tc := ⟨.hbm, 482, rfl⟩
abbrev main_v366 : Ref sig .tc := ⟨.hbm, 483, rfl⟩
abbrev main_cst_71 : Ref sig .tc := ⟨.hbm, 484, rfl⟩
abbrev main_v367 : Ref sig .tc := ⟨.hbm, 485, rfl⟩
abbrev main_v368 : Ref sig .tc := ⟨.hbm, 486, rfl⟩
abbrev main_v369 : Ref sig .tc := ⟨.hbm, 487, rfl⟩
abbrev main_cst_72 : Ref sig .tc := ⟨.hbm, 488, rfl⟩
abbrev main_v370 : Ref sig .tc := ⟨.hbm, 489, rfl⟩
abbrev main_v371 : Ref sig .tc := ⟨.hbm, 490, rfl⟩
abbrev main_v372 : Ref sig .tc := ⟨.hbm, 491, rfl⟩
abbrev main_v373 : Ref sig .tc := ⟨.hbm, 492, rfl⟩
abbrev main_cst_73 : Ref sig .tc := ⟨.hbm, 493, rfl⟩
abbrev main_v374 : Ref sig .tc := ⟨.hbm, 494, rfl⟩
abbrev main_v375 : Ref sig .tc := ⟨.hbm, 495, rfl⟩
abbrev main_v376 : Ref sig .tc := ⟨.hbm, 496, rfl⟩
abbrev main_cst_74 : Ref sig .tc := ⟨.hbm, 497, rfl⟩
abbrev main_v377 : Ref sig .tc := ⟨.hbm, 498, rfl⟩
abbrev main_v378 : Ref sig .tc := ⟨.hbm, 499, rfl⟩
abbrev main_cst_75 : Ref sig .tc := ⟨.hbm, 500, rfl⟩
abbrev main_v379 : Ref sig .tc := ⟨.hbm, 501, rfl⟩
abbrev main_v380 : Ref sig .tc := ⟨.hbm, 502, rfl⟩
abbrev main_v381 : Ref sig .tc := ⟨.hbm, 503, rfl⟩
abbrev main_cst_76 : Ref sig .tc := ⟨.hbm, 504, rfl⟩
abbrev main_v382 : Ref sig .tc := ⟨.hbm, 505, rfl⟩
abbrev main_v383 : Ref sig .tc := ⟨.hbm, 506, rfl⟩
abbrev main_v384 : Ref sig .tc := ⟨.hbm, 507, rfl⟩
abbrev main_cst_77 : Ref sig .tc := ⟨.hbm, 508, rfl⟩
abbrev main_v385 : Ref sig .tc := ⟨.hbm, 509, rfl⟩
abbrev main_v386 : Ref sig .tc := ⟨.hbm, 510, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg1_1 : Ref sig .tc := ⟨.vmem, 17, rfl⟩
abbrev cc4_stg0_0 : Ref sig .tc := ⟨.vmem, 18, rfl⟩
abbrev cc4_stg0_1 : Ref sig .tc := ⟨.vmem, 19, rfl⟩
abbrev cc4_stg1_0 : Ref sig .tc := ⟨.vmem, 20, rfl⟩
abbrev cc4_stg1_1 : Ref sig .tc := ⟨.vmem, 21, rfl⟩
abbrev cc4_stg2_0 : Ref sig .tc := ⟨.vmem, 22, rfl⟩
abbrev cc4_scratch0 : Ref sig .tc := ⟨.vmem, 23, rfl⟩
abbrev cc5_stg0_0 : Ref sig .tc := ⟨.vmem, 24, rfl⟩
abbrev cc5_stg0_1 : Ref sig .tc := ⟨.vmem, 25, rfl⟩
abbrev cc5_stg1_0 : Ref sig .tc := ⟨.vmem, 26, rfl⟩
abbrev cc5_stg2_0 : Ref sig .tc := ⟨.vmem, 27, rfl⟩
abbrev cc5_stg2_1 : Ref sig .tc := ⟨.vmem, 28, rfl⟩
abbrev cc6_stg0_0 : Ref sig .tc := ⟨.vmem, 29, rfl⟩
abbrev cc6_stg0_1 : Ref sig .tc := ⟨.vmem, 30, rfl⟩
abbrev cc6_stg1_0 : Ref sig .tc := ⟨.vmem, 31, rfl⟩
abbrev cc6_stg1_1 : Ref sig .tc := ⟨.vmem, 32, rfl⟩
abbrev cc6_stg2_0 : Ref sig .tc := ⟨.vmem, 33, rfl⟩
abbrev cc6_scratch0 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg1_1 : Ref sig .tc := ⟨.vmem, 43, rfl⟩
abbrev cc9_stg0_0 : Ref sig .tc := ⟨.vmem, 44, rfl⟩
abbrev cc9_stg0_1 : Ref sig .tc := ⟨.vmem, 45, rfl⟩
abbrev cc9_stg1_0 : Ref sig .tc := ⟨.vmem, 46, rfl⟩
abbrev cc9_stg1_1 : Ref sig .tc := ⟨.vmem, 47, rfl⟩
abbrev cc10_stg0_0 : Ref sig .tc := ⟨.vmem, 48, rfl⟩
abbrev cc10_stg0_1 : Ref sig .tc := ⟨.vmem, 49, rfl⟩
abbrev cc10_stg1_0 : Ref sig .tc := ⟨.vmem, 50, rfl⟩
abbrev cc10_stg1_1 : Ref sig .tc := ⟨.vmem, 51, rfl⟩
abbrev cc10_stg2_0 : Ref sig .tc := ⟨.vmem, 52, rfl⟩
abbrev cc10_scratch0 : Ref sig .tc := ⟨.vmem, 53, rfl⟩
abbrev cc11_stg0_0 : Ref sig .tc := ⟨.vmem, 54, rfl⟩
abbrev cc11_stg0_1 : Ref sig .tc := ⟨.vmem, 55, rfl⟩
abbrev cc11_stg1_0 : Ref sig .tc := ⟨.vmem, 56, rfl⟩
abbrev cc11_stg2_0 : Ref sig .tc := ⟨.vmem, 57, rfl⟩
abbrev cc11_stg2_1 : Ref sig .tc := ⟨.vmem, 58, rfl⟩
abbrev cc12_stg0_0 : Ref sig .tc := ⟨.vmem, 59, rfl⟩
abbrev cc12_stg0_1 : Ref sig .tc := ⟨.vmem, 60, rfl⟩
abbrev cc12_stg1_0 : Ref sig .tc := ⟨.vmem, 61, rfl⟩
abbrev cc12_stg1_1 : Ref sig .tc := ⟨.vmem, 62, rfl⟩
abbrev cc12_stg2_0 : Ref sig .tc := ⟨.vmem, 63, rfl⟩
abbrev cc12_scratch0 : Ref sig .tc := ⟨.vmem, 64, rfl⟩
abbrev cc13_stg0_0 : Ref sig .tc := ⟨.vmem, 65, rfl⟩
abbrev cc13_stg0_1 : Ref sig .tc := ⟨.vmem, 66, rfl⟩
abbrev cc13_stg1_0 : Ref sig .tc := ⟨.vmem, 67, rfl⟩
abbrev cc13_stg2_0 : Ref sig .tc := ⟨.vmem, 68, rfl⟩
abbrev cc13_stg2_1 : Ref sig .tc := ⟨.vmem, 69, rfl⟩
abbrev cc14_stg0_0 : Ref sig .tc := ⟨.vmem, 70, rfl⟩
abbrev cc14_stg1_0 : Ref sig .tc := ⟨.vmem, 71, rfl⟩
abbrev cc14_stg2_0 : Ref sig .tc := ⟨.vmem, 72, rfl⟩
abbrev cc15_stg0_0 : Ref sig .tc := ⟨.vmem, 73, rfl⟩
abbrev cc15_stg1_0 : Ref sig .tc := ⟨.vmem, 74, rfl⟩
abbrev cc15_stg1_1 : Ref sig .tc := ⟨.vmem, 75, rfl⟩
abbrev cc15_stg2_0 : Ref sig .tc := ⟨.vmem, 76, rfl⟩
abbrev cc15_scratch0 : Ref sig .tc := ⟨.vmem, 77, rfl⟩
abbrev cc16_stg0_0 : Ref sig .tc := ⟨.vmem, 78, rfl⟩
abbrev cc16_stg1_0 : Ref sig .tc := ⟨.vmem, 79, rfl⟩
abbrev cc16_stg2_0 : Ref sig .tc := ⟨.vmem, 80, rfl⟩
abbrev cc17_stg0_0 : Ref sig .tc := ⟨.vmem, 81, rfl⟩
abbrev cc17_stg1_0 : Ref sig .tc := ⟨.vmem, 82, rfl⟩
abbrev cc17_stg1_1 : Ref sig .tc := ⟨.vmem, 83, rfl⟩
abbrev cc17_stg2_0 : Ref sig .tc := ⟨.vmem, 84, rfl⟩
abbrev cc17_scratch0 : Ref sig .tc := ⟨.vmem, 85, rfl⟩
abbrev cc18_stg0_0 : Ref sig .tc := ⟨.vmem, 86, rfl⟩
abbrev cc18_stg1_0 : Ref sig .tc := ⟨.vmem, 87, rfl⟩
abbrev cc18_stg2_0 : Ref sig .tc := ⟨.vmem, 88, rfl⟩
abbrev cc19_stg0_0 : Ref sig .tc := ⟨.vmem, 89, rfl⟩
abbrev cc19_stg1_0 : Ref sig .tc := ⟨.vmem, 90, rfl⟩
abbrev cc19_stg1_1 : Ref sig .tc := ⟨.vmem, 91, rfl⟩
abbrev cc19_stg2_0 : Ref sig .tc := ⟨.vmem, 92, rfl⟩
abbrev cc19_scratch0 : Ref sig .tc := ⟨.vmem, 93, rfl⟩
abbrev cc20_stg0_0 : Ref sig .tc := ⟨.vmem, 94, rfl⟩
abbrev cc20_stg1_0 : Ref sig .tc := ⟨.vmem, 95, rfl⟩
abbrev cc20_stg2_0 : Ref sig .tc := ⟨.vmem, 96, rfl⟩
abbrev cc21_stg0_0 : Ref sig .tc := ⟨.vmem, 97, rfl⟩
abbrev cc21_stg1_0 : Ref sig .tc := ⟨.vmem, 98, rfl⟩
abbrev cc21_stg1_1 : Ref sig .tc := ⟨.vmem, 99, rfl⟩
abbrev cc21_stg2_0 : Ref sig .tc := ⟨.vmem, 100, rfl⟩
abbrev cc21_scratch0 : Ref sig .tc := ⟨.vmem, 101, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc3_sem0_0 : DmaSem sig := 14
abbrev cc3_sem0_1 : DmaSem sig := 15
abbrev cc3_sem1_0 : DmaSem sig := 16
abbrev cc3_sem1_1 : DmaSem sig := 17
abbrev cc4_sem0_0 : DmaSem sig := 18
abbrev cc4_sem0_1 : DmaSem sig := 19
abbrev cc4_sem1_0 : DmaSem sig := 20
abbrev cc4_sem1_1 : DmaSem sig := 21
abbrev cc4_sem2_0 : DmaSem sig := 22
abbrev cc5_sem0_0 : DmaSem sig := 23
abbrev cc5_sem0_1 : DmaSem sig := 24
abbrev cc5_sem1_0 : DmaSem sig := 25
abbrev cc5_sem2_0 : DmaSem sig := 26
abbrev cc5_sem2_1 : DmaSem sig := 27
abbrev cc6_sem0_0 : DmaSem sig := 28
abbrev cc6_sem0_1 : DmaSem sig := 29
abbrev cc6_sem1_0 : DmaSem sig := 30
abbrev cc6_sem1_1 : DmaSem sig := 31
abbrev cc6_sem2_0 : DmaSem sig := 32
abbrev cc7_sem0_0 : DmaSem sig := 33
abbrev cc7_sem0_1 : DmaSem sig := 34
abbrev cc7_sem1_0 : DmaSem sig := 35
abbrev cc7_sem2_0 : DmaSem sig := 36
abbrev cc7_sem2_1 : DmaSem sig := 37
abbrev cc8_sem0_0 : DmaSem sig := 38
abbrev cc8_sem0_1 : DmaSem sig := 39
abbrev cc8_sem1_0 : DmaSem sig := 40
abbrev cc8_sem1_1 : DmaSem sig := 41
abbrev cc9_sem0_0 : DmaSem sig := 42
abbrev cc9_sem0_1 : DmaSem sig := 43
abbrev cc9_sem1_0 : DmaSem sig := 44
abbrev cc9_sem1_1 : DmaSem sig := 45
abbrev cc10_sem0_0 : DmaSem sig := 46
abbrev cc10_sem0_1 : DmaSem sig := 47
abbrev cc10_sem1_0 : DmaSem sig := 48
abbrev cc10_sem1_1 : DmaSem sig := 49
abbrev cc10_sem2_0 : DmaSem sig := 50
abbrev cc11_sem0_0 : DmaSem sig := 51
abbrev cc11_sem0_1 : DmaSem sig := 52
abbrev cc11_sem1_0 : DmaSem sig := 53
abbrev cc11_sem2_0 : DmaSem sig := 54
abbrev cc11_sem2_1 : DmaSem sig := 55
abbrev cc12_sem0_0 : DmaSem sig := 56
abbrev cc12_sem0_1 : DmaSem sig := 57
abbrev cc12_sem1_0 : DmaSem sig := 58
abbrev cc12_sem1_1 : DmaSem sig := 59
abbrev cc12_sem2_0 : DmaSem sig := 60
abbrev cc13_sem0_0 : DmaSem sig := 61
abbrev cc13_sem0_1 : DmaSem sig := 62
abbrev cc13_sem1_0 : DmaSem sig := 63
abbrev cc13_sem2_0 : DmaSem sig := 64
abbrev cc13_sem2_1 : DmaSem sig := 65
abbrev cc14_sem0_0 : DmaSem sig := 66
abbrev cc14_sem1_0 : DmaSem sig := 67
abbrev cc14_sem2_0 : DmaSem sig := 68
abbrev cc15_sem0_0 : DmaSem sig := 69
abbrev cc15_sem1_0 : DmaSem sig := 70
abbrev cc15_sem1_1 : DmaSem sig := 71
abbrev cc15_sem2_0 : DmaSem sig := 72
abbrev cc16_sem0_0 : DmaSem sig := 73
abbrev cc16_sem1_0 : DmaSem sig := 74
abbrev cc16_sem2_0 : DmaSem sig := 75
abbrev cc17_sem0_0 : DmaSem sig := 76
abbrev cc17_sem1_0 : DmaSem sig := 77
abbrev cc17_sem1_1 : DmaSem sig := 78
abbrev cc17_sem2_0 : DmaSem sig := 79
abbrev cc18_sem0_0 : DmaSem sig := 80
abbrev cc18_sem1_0 : DmaSem sig := 81
abbrev cc18_sem2_0 : DmaSem sig := 82
abbrev cc19_sem0_0 : DmaSem sig := 83
abbrev cc19_sem1_0 : DmaSem sig := 84
abbrev cc19_sem1_1 : DmaSem sig := 85
abbrev cc19_sem2_0 : DmaSem sig := 86
abbrev cc20_sem0_0 : DmaSem sig := 87
abbrev cc20_sem1_0 : DmaSem sig := 88
abbrev cc20_sem2_0 : DmaSem sig := 89
abbrev cc21_sem0_0 : DmaSem sig := 90
abbrev cc21_sem1_0 : DmaSem sig := 91
abbrev cc21_sem1_1 : DmaSem sig := 92
abbrev cc21_sem2_0 : DmaSem sig := 93

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨1, ![50], ![false]⟩

def k4_cond2 (i : grid4.Coords) : BitVec 1 :=
  let arg0 : BitVec 32 := BitVec.ofNat 32 (i 0).val
  let c49_i32 : BitVec 32 := 49#32
  let v14 : BitVec 1 := Scalar.cmpi .eq arg0 c49_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def k6_cond2 (i : grid6.Coords) : BitVec 1 :=
  let arg0 : BitVec 32 := BitVec.ofNat 32 (i 0).val
  let c24_i32 : BitVec 32 := 24#32
  let v14 : BitVec 1 := Scalar.cmpi .eq arg0 c24_i32
  let v15 : BitVec 32 := Scalar.extui v14
  let c0_i32_8 : BitVec 32 := 0#32
  let v16 : BitVec 1 := Scalar.cmpi .ne v15 c0_i32_8
  v16

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev grid10 : Pipeline.Grid := ⟨1, ![50], ![false]⟩

def k10_cond2 (i : grid10.Coords) : BitVec 1 :=
  let arg0 : BitVec 32 := BitVec.ofNat 32 (i 0).val
  let c49_i32 : BitVec 32 := 49#32
  let v15 : BitVec 1 := Scalar.cmpi .eq arg0 c49_i32
  let v16 : BitVec 32 := Scalar.extui v15
  let c0_i32_8 : BitVec 32 := 0#32
  let v17 : BitVec 1 := Scalar.cmpi .ne v16 c0_i32_8
  v17

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S128x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev grid11 : Pipeline.Grid := ⟨1, ![50], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S128x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S2000x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![25], ![false]⟩

def k12_cond2 (i : grid12.Coords) : BitVec 1 :=
  let arg0 : BitVec 32 := BitVec.ofNat 32 (i 0).val
  let c24_i32 : BitVec 32 := 24#32
  let v15 : BitVec 1 := Scalar.cmpi .eq arg0 c24_i32
  let v16 : BitVec 32 := Scalar.extui v15
  let c0_i32_8 : BitVec 32 := 0#32
  let v17 : BitVec 1 := Scalar.cmpi .ne v16 c0_i32_8
  v17

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S2000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S2000x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S128x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev grid13 : Pipeline.Grid := ⟨1, ![25], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S128x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S2000x128 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![1], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 1 → Memref sig .tc .vmem S4096x128 .f32 := fun | 0 => Memref.whole cc14_stg0_0 | ⟨_ + 1, h⟩ => absurd h (Nat.not_lt.2 (Nat.le_add_left _ _))
abbrev sem14_0 : Fin 1 → DmaSem sig := fun | 0 => cc14_sem0_0 | ⟨_ + 1, h⟩ => absurd h (Nat.not_lt.2 (Nat.le_add_left _ _))
abbrev reads14_0 : Fin grid14.rank → Bool := ![true]

abbrev stage14_1 : Fin 1 → Memref sig .tc .vmem S128x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S4096x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![true]

abbrev grid15 : Pipeline.Grid := ⟨1, ![16], ![false]⟩

def k15_cond2 (i : grid15.Coords) : BitVec 1 :=
  let arg0 : BitVec 32 := BitVec.ofNat 32 (i 0).val
  let c15_i32 : BitVec 32 := 15#32
  let v20 : BitVec 1 := Scalar.cmpi .eq arg0 c15_i32
  let v21 : BitVec 32 := Scalar.extui v20
  let c0_i32_10 : BitVec 32 := 0#32
  let v22 : BitVec 1 := Scalar.cmpi .ne v21 c0_i32_10
  v22

def cc15_transform_0 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage15_0 : Fin 1 → Memref sig .tc .vmem S4096x128 .f32 := fun | 0 => Memref.whole cc15_stg0_0 | ⟨_ + 1, h⟩ => absurd h (Nat.not_lt.2 (Nat.le_add_left _ _))
abbrev sem15_0 : Fin 1 → DmaSem sig := fun | 0 => cc15_sem0_0 | ⟨_ + 1, h⟩ => absurd h (Nat.not_lt.2 (Nat.le_add_left _ _))
abbrev reads15_0 : Fin grid15.rank → Bool := ![false]

abbrev stage15_1 : Fin 2 → Memref sig .tc .vmem S256x128 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 1 → Memref sig .tc .vmem S4096x1 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev grid16 : Pipeline.Grid := ⟨1, ![1], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 1 → Memref sig .tc .vmem S4096x128 .f32 := fun | 0 => Memref.whole cc16_stg0_0 | ⟨_ + 1, h⟩ => absurd h (Nat.not_lt.2 (Nat.le_add_left _ _))
abbrev sem16_0 : Fin 1 → DmaSem sig := fun | 0 => cc16_sem0_0 | ⟨_ + 1, h⟩ => absurd h (Nat.not_lt.2 (Nat.le_add_left _ _))
abbrev reads16_0 : Fin grid16.rank → Bool := ![true]

abbrev stage16_1 : Fin 1 → Memref sig .tc .vmem S128x128 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S4096x128 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![true]

abbrev grid17 : Pipeline.Grid := ⟨1, ![16], ![false]⟩

def k17_cond2 (i : grid17.Coords) : BitVec 1 :=
  let arg0 : BitVec 32 := BitVec.ofNat 32 (i 0).val
  let c15_i32 : BitVec 32 := 15#32
  let v20 : BitVec 1 := Scalar.cmpi .eq arg0 c15_i32
  let v21 : BitVec 32 := Scalar.extui v20
  let c0_i32_10 : BitVec 32 := 0#32
  let v22 : BitVec 1 := Scalar.cmpi .ne v21 c0_i32_10
  v22

def cc17_transform_0 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_1 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage17_0 : Fin 1 → Memref sig .tc .vmem S4096x128 .f32 := fun | 0 => Memref.whole cc17_stg0_0 | ⟨_ + 1, h⟩ => absurd h (Nat.not_lt.2 (Nat.le_add_left _ _))
abbrev sem17_0 : Fin 1 → DmaSem sig := fun | 0 => cc17_sem0_0 | ⟨_ + 1, h⟩ => absurd h (Nat.not_lt.2 (Nat.le_add_left _ _))
abbrev reads17_0 : Fin grid17.rank → Bool := ![false]

abbrev stage17_1 : Fin 2 → Memref sig .tc .vmem S256x128 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true]

abbrev stage17_2 : Fin 1 → Memref sig .tc .vmem S4096x1 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev grid18 : Pipeline.Grid := ⟨1, ![1], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 1 → Memref sig .tc .vmem S4096x128 .f32 := fun | 0 => Memref.whole cc18_stg0_0 | ⟨_ + 1, h⟩ => absurd h (Nat.not_lt.2 (Nat.le_add_left _ _))
abbrev sem18_0 : Fin 1 → DmaSem sig := fun | 0 => cc18_sem0_0 | ⟨_ + 1, h⟩ => absurd h (Nat.not_lt.2 (Nat.le_add_left _ _))
abbrev reads18_0 : Fin grid18.rank → Bool := ![true]

abbrev stage18_1 : Fin 1 → Memref sig .tc .vmem S128x128 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 1 → Memref sig .tc .vmem S4096x128 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![true]

abbrev grid19 : Pipeline.Grid := ⟨1, ![16], ![false]⟩

def k19_cond2 (i : grid19.Coords) : BitVec 1 :=
  let arg0 : BitVec 32 := BitVec.ofNat 32 (i 0).val
  let c15_i32 : BitVec 32 := 15#32
  let v20 : BitVec 1 := Scalar.cmpi .eq arg0 c15_i32
  let v21 : BitVec 32 := Scalar.extui v20
  let c0_i32_10 : BitVec 32 := 0#32
  let v22 : BitVec 1 := Scalar.cmpi .ne v21 c0_i32_10
  v22

def cc19_transform_0 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_1 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage19_0 : Fin 1 → Memref sig .tc .vmem S4096x128 .f32 := fun | 0 => Memref.whole cc19_stg0_0 | ⟨_ + 1, h⟩ => absurd h (Nat.not_lt.2 (Nat.le_add_left _ _))
abbrev sem19_0 : Fin 1 → DmaSem sig := fun | 0 => cc19_sem0_0 | ⟨_ + 1, h⟩ => absurd h (Nat.not_lt.2 (Nat.le_add_left _ _))
abbrev reads19_0 : Fin grid19.rank → Bool := ![false]

abbrev stage19_1 : Fin 2 → Memref sig .tc .vmem S256x128 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true]

abbrev stage19_2 : Fin 1 → Memref sig .tc .vmem S4096x1 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev grid20 : Pipeline.Grid := ⟨1, ![1], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_2 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 1 → Memref sig .tc .vmem S4096x128 .f32 := fun | 0 => Memref.whole cc20_stg0_0 | ⟨_ + 1, h⟩ => absurd h (Nat.not_lt.2 (Nat.le_add_left _ _))
abbrev sem20_0 : Fin 1 → DmaSem sig := fun | 0 => cc20_sem0_0 | ⟨_ + 1, h⟩ => absurd h (Nat.not_lt.2 (Nat.le_add_left _ _))
abbrev reads20_0 : Fin grid20.rank → Bool := ![true]

abbrev stage20_1 : Fin 1 → Memref sig .tc .vmem S128x128 .f32 := fun | 0 => Memref.whole cc20_stg1_0 | ⟨_ + 1, h⟩ => absurd h (Nat.not_lt.2 (Nat.le_add_left _ _))
abbrev sem20_1 : Fin 1 → DmaSem sig := fun | 0 => cc20_sem1_0 | ⟨_ + 1, h⟩ => absurd h (Nat.not_lt.2 (Nat.le_add_left _ _))
abbrev reads20_1 : Fin grid20.rank → Bool := ![false]

abbrev stage20_2 : Fin 1 → Memref sig .tc .vmem S4096x128 .f32 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))
abbrev reads20_2 : Fin grid20.rank → Bool := ![true]

abbrev grid21 : Pipeline.Grid := ⟨1, ![16], ![false]⟩

def k21_cond2 (i : grid21.Coords) : BitVec 1 :=
  let arg0 : BitVec 32 := BitVec.ofNat 32 (i 0).val
  let c15_i32 : BitVec 32 := 15#32
  let v20 : BitVec 1 := Scalar.cmpi .eq arg0 c15_i32
  let v21 : BitVec 32 := Scalar.extui v20
  let c0_i32_10 : BitVec 32 := 0#32
  let v22 : BitVec 1 := Scalar.cmpi .ne v21 c0_i32_10
  v22

def cc21_transform_0 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_1 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_2 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage21_0 : Fin 1 → Memref sig .tc .vmem S4096x128 .f32 := fun | 0 => Memref.whole cc21_stg0_0 | ⟨_ + 1, h⟩ => absurd h (Nat.not_lt.2 (Nat.le_add_left _ _))
abbrev sem21_0 : Fin 1 → DmaSem sig := fun | 0 => cc21_sem0_0 | ⟨_ + 1, h⟩ => absurd h (Nat.not_lt.2 (Nat.le_add_left _ _))
abbrev reads21_0 : Fin grid21.rank → Bool := ![false]

abbrev stage21_1 : Fin 2 → Memref sig .tc .vmem S256x128 .f32 := fun | 0 => Memref.whole cc21_stg1_0 | 1 => Memref.whole cc21_stg1_1 | ⟨_ + 2, h⟩ => absurd h (Nat.not_lt.2 (Nat.le_add_left _ _))
abbrev sem21_1 : Fin 2 → DmaSem sig := fun | 0 => cc21_sem1_0 | 1 => cc21_sem1_1 | ⟨_ + 2, h⟩ => absurd h (Nat.not_lt.2 (Nat.le_add_left _ _))
abbrev reads21_1 : Fin grid21.rank → Bool := ![true]

abbrev stage21_2 : Fin 1 → Memref sig .tc .vmem S4096x1 .f32 := fun | 0 => Memref.whole cc21_stg2_0 | ⟨_ + 1, h⟩ => absurd h (Nat.not_lt.2 (Nat.le_add_left _ _))
abbrev sem21_2 : Fin 1 → DmaSem sig := fun | 0 => cc21_sem2_0 | ⟨_ + 1, h⟩ => absurd h (Nat.not_lt.2 (Nat.le_add_left _ _))
abbrev reads21_2 : Fin grid21.rank → Bool := ![false]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x128_0_1 : S1000000x1.BroadcastsInDim S1000000x128 (![0, 1] : Fin 2 → Fin S1000000x128.rank)
  bcast_S_S100000x128 : S_.BroadcastsInDim S100000x128 (![] : Fin 0 → Fin S100000x128.rank)
  bcast_S_S50000x128 : S_.BroadcastsInDim S50000x128 (![] : Fin 0 → Fin S50000x128.rank)
  shapeCasts_S2000x128_S2000x128 : S2000x128.ShapeCasts S2000x128
  slices_S2x3x128x128_S1x3x128x128_0_0_0_0 : S2x3x128x128.Slices ![0, 0, 0, 0] S1x3x128x128
  shapeCasts_S1x3x128x128_S3x128x128 : S1x3x128x128.ShapeCasts S3x128x128
  shapeCasts_S128x128_S128x128 : S128x128.ShapeCasts S128x128
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  bcast_S_S128x128 : S_.BroadcastsInDim S128x128 (![] : Fin 0 → Fin S128x128.rank)
  slices_S3x128x128_S1x128x128_1_0_0 : S3x128x128.Slices ![1, 0, 0] S1x128x128
  slices_S3x128x128_S1x128x128_2_0_0 : S3x128x128.Slices ![2, 0, 0] S1x128x128
  slices_S2x3x128x128_S1x3x128x128_1_0_0_0 : S2x3x128x128.Slices ![1, 0, 0, 0] S1x3x128x128
  bcast_S_S4096 : S_.BroadcastsInDim S4096 (![] : Fin 0 → Fin S4096.rank)
  bcast_S4096_S4096x1_0 : S4096.BroadcastsInDim S4096x1 (![0] : Fin 1 → Fin S4096x1.rank)
  reducesTo_S4096x128_S4096_d1 : S4096x128.ReducesTo [1] S4096
  h_S_ : 0 < S_.numel
  slices_S2x128x128_S1x128x128_0_0_0 : S2x128x128.Slices ![0, 0, 0] S1x128x128
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  reduces_S4096x256_S4096 : S4096x256.Reduces [1] S4096
  shapeCasts_S4096_S4096x1 : S4096.ShapeCasts S4096x1
  shapeCasts_S4096x1_S4096 : S4096x1.ShapeCasts S4096
  reducesTo_S4096_S_d0 : S4096.ReducesTo [0] S_
  slices_S2x128x128_S1x128x128_1_0_0 : S2x128x128.Slices ![1, 0, 0] S1x128x128
  reducesTo_S100000x128_S_d0_1 : S100000x128.ReducesTo [0, 1] S_
  reducesTo_S50000x128_S_d0_1 : S50000x128.ReducesTo [0, 1] S_
  reducesTo_S128x128_S_d0_1 : S128x128.ReducesTo [0, 1] S_
  dot_S2000x128_S128x128_S2000x128_1_0_0_1_n_n_wf : DotDims.WF S2000x128 S128x128 S2000x128 [1] [0] [0] [1] [] []
  gather_S50000x128_S1000000x1_S1000000x128_1_0_n_n_0_1_1128_wf : GatherDims.WF S50000x128 S1000000x1 S1000000x128 [1] [0] [] [0] [] 1 ![1, 128]
  scatter_S100000x128_S1000000x1_S1000000x128_1_0_0_1_wf : ScatterDims.WF S100000x128 S1000000x1 S1000000x128 [1] [0] [0] 1
  gather_S100000x128_S1000000x1_S1000000x128_1_0_n_n_0_1_1128_wf : GatherDims.WF S100000x128 S1000000x1 S1000000x128 [1] [0] [] [0] [] 1 ![1, 128]
  scatter_S50000x128_S1000000x1_S1000000x128_1_0_0_1_wf : ScatterDims.WF S50000x128 S1000000x1 S1000000x128 [1] [0] [0] 1
  dot_S2000x128_S2000x128_S128x128_0_0_1_1_n_n_wf : DotDims.WF S2000x128 S2000x128 S128x128 [0] [0] [1] [1] [] []
  dot_S128x128_S128x128_S128x128_1_0_0_1_n_n_wf : DotDims.WF S128x128 S128x128 S128x128 [1] [0] [0] [1] [] []
  gather_S100000x128_S4096x1_S4096x128_1_0_n_n_0_1_1128_wf : GatherDims.WF S100000x128 S4096x1 S4096x128 [1] [0] [] [0] [] 1 ![1, 128]
  gather_S50000x128_S4096x1_S4096x128_1_0_n_n_0_1_1128_wf : GatherDims.WF S50000x128 S4096x1 S4096x128 [1] [0] [] [0] [] 1 ![1, 128]
  dot_S4096x128_S128x128_S4096x128_1_0_0_1_n_n_wf : DotDims.WF S4096x128 S128x128 S4096x128 [1] [0] [0] [1] [] []
  dot_S4096x128_S256x128_S4096x256_1_1_0_0_n_n_wf : DotDims.WF S4096x128 S256x128 S4096x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S100000x128.size a
  hwx5_2 : ∀ i : grid5.Coords, EltTy.bits .f32 = 32 ∨ (Rect.block (s := S100000x128) S2000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S50000x128.size a
  hwx6_1 : ∀ i : grid6.Coords, EltTy.bits .f32 = 32 ∨ (Rect.block (s := S50000x128) S2000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x128.size a ≤ S50000x128.size a
  hwx7_2 : ∀ i : grid7.Coords, EltTy.bits .f32 = 32 ∨ (Rect.block (s := S50000x128) S2000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S100000x128.size a
  hwx8_0 : ∀ i : grid8.Coords, EltTy.bits .f32 = 32 ∨ (Rect.block (s := S100000x128) S2000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x128.size a ≤ S100000x128.size a
  hwx8_1 : ∀ i : grid8.Coords, EltTy.bits .f32 = 32 ∨ (Rect.block (s := S100000x128) S2000x128.size (cc8_transform_1 i) (hinb8_1 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x128.size a ≤ S50000x128.size a
  hwx9_1 : ∀ i : grid9.Coords, EltTy.bits .f32 = 32 ∨ (Rect.block (s := S50000x128) S2000x128.size (cc9_transform_1 i) (hinb9_1 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S100000x128.size a
  hwx10_0 : ∀ i : grid10.Coords, EltTy.bits .f32 = 32 ∨ (Rect.block (s := S100000x128) S2000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x128.size a ≤ S100000x128.size a
  hwx10_1 : ∀ i : grid10.Coords, EltTy.bits .f32 = 32 ∨ (Rect.block (s := S100000x128) S2000x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128x128.size a ≤ S128x128.size a
  hwx10_2 : ∀ i : grid10.Coords, EltTy.bits .f32 = 32 ∨ (Rect.block (s := S128x128) S128x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x128.size a ≤ S100000x128.size a
  hwx11_0 : ∀ i : grid11.Coords, EltTy.bits .f32 = 32 ∨ (Rect.block (s := S100000x128) S2000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x128.size a ≤ S128x128.size a
  hwx11_1 : ∀ i : grid11.Coords, EltTy.bits .f32 = 32 ∨ (Rect.block (s := S128x128) S128x128.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S2000x128.size a ≤ S100000x128.size a
  hwx11_2 : ∀ i : grid11.Coords, EltTy.bits .f32 = 32 ∨ (Rect.block (s := S100000x128) S2000x128.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x128.size a ≤ S50000x128.size a
  hwx12_0 : ∀ i : grid12.Coords, EltTy.bits .f32 = 32 ∨ (Rect.block (s := S50000x128) S2000x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S2000x128.size a ≤ S50000x128.size a
  hwx12_1 : ∀ i : grid12.Coords, EltTy.bits .f32 = 32 ∨ (Rect.block (s := S50000x128) S2000x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S128x128.size a ≤ S128x128.size a
  hwx12_2 : ∀ i : grid12.Coords, EltTy.bits .f32 = 32 ∨ (Rect.block (s := S128x128) S128x128.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x128.size a ≤ S50000x128.size a
  hwx13_0 : ∀ i : grid13.Coords, EltTy.bits .f32 = 32 ∨ (Rect.block (s := S50000x128) S2000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S128x128.size a ≤ S128x128.size a
  hwx13_1 : ∀ i : grid13.Coords, EltTy.bits .f32 = 32 ∨ (Rect.block (s := S128x128) S128x128.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S2000x128.size a ≤ S50000x128.size a
  hwx13_2 : ∀ i : grid13.Coords, EltTy.bits .f32 = 32 ∨ (Rect.block (s := S50000x128) S2000x128.size (cc13_transform_2 i) (hinb13_2 i)).WholeWords (EltTy.packing .f32)
  hrank14 : 0 < grid14.rank
  hstage14_0 : ∀ j, (stage14_0 j).IsWhole
  nbuf14_0 : grid14.bufCount reads14_0 false = 1
  hreads14_0 : ∀ i i' : grid14.Coords, (∀ a, reads14_0 a = true → i a = i' a) → cc14_transform_0 i = cc14_transform_0 i'
  hinb14_0 : ∀ (i : grid14.Coords) a, (cc14_transform_0 i a + 1) * S4096x128.size a ≤ S4096x128.size a
  hwx14_0 : ∀ i : grid14.Coords, EltTy.bits .f32 = 32 ∨ (Rect.block (s := S4096x128) S4096x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S128x128.size a ≤ S128x128.size a
  hwx14_1 : ∀ i : grid14.Coords, EltTy.bits .f32 = 32 ∨ (Rect.block (s := S128x128) S128x128.size (cc14_transform_1 i) (hinb14_1 i)).WholeWords (EltTy.packing .f32)
  hstage14_2 : ∀ j, (stage14_2 j).IsWhole
  nbuf14_2 : grid14.bufCount reads14_2 false = 1
  hreads14_2 : ∀ i i' : grid14.Coords, (∀ a, reads14_2 a = true → i a = i' a) → cc14_transform_2 i = cc14_transform_2 i'
  hinb14_2 : ∀ (i : grid14.Coords) a, (cc14_transform_2 i a + 1) * S4096x128.size a ≤ S4096x128.size a
  hwx14_2 : ∀ i : grid14.Coords, EltTy.bits .f32 = 32 ∨ (Rect.block (s := S4096x128) S4096x128.size (cc14_transform_2 i) (hinb14_2 i)).WholeWords (EltTy.packing .f32)
  hrank15 : 0 < grid15.rank
  hstage15_0 : ∀ j, (stage15_0 j).IsWhole
  nbuf15_0 : grid15.bufCount reads15_0 true = 1
  hreads15_0 : ∀ i i' : grid15.Coords, (∀ a, reads15_0 a = true → i a = i' a) → cc15_transform_0 i = cc15_transform_0 i'
  hinb15_0 : ∀ (i : grid15.Coords) a, (cc15_transform_0 i a + 1) * S4096x128.size a ≤ S4096x128.size a
  hwx15_0 : ∀ i : grid15.Coords, EltTy.bits .f32 = 32 ∨ (Rect.block (s := S4096x128) S4096x128.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S256x128.size a ≤ S4096x128.size a
  hwx15_1 : ∀ i : grid15.Coords, EltTy.bits .f32 = 32 ∨ (Rect.block (s := S4096x128) S256x128.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S4096x1.size a ≤ S4096x1.size a
  hwx15_2 : ∀ i : grid15.Coords, EltTy.bits .f32 = 32 ∨ (Rect.block (s := S4096x1) S4096x1.size (cc15_transform_2 i) (hinb15_2 i)).WholeWords (EltTy.packing .f32)
  hrank16 : 0 < grid16.rank
  hstage16_0 : ∀ j, (stage16_0 j).IsWhole
  nbuf16_0 : grid16.bufCount reads16_0 false = 1
  hreads16_0 : ∀ i i' : grid16.Coords, (∀ a, reads16_0 a = true → i a = i' a) → cc16_transform_0 i = cc16_transform_0 i'
  hinb16_0 : ∀ (i : grid16.Coords) a, (cc16_transform_0 i a + 1) * S4096x128.size a ≤ S4096x128.size a
  hwx16_0 : ∀ i : grid16.Coords, EltTy.bits .f32 = 32 ∨ (Rect.block (s := S4096x128) S4096x128.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S128x128.size a ≤ S128x128.size a
  hwx16_1 : ∀ i : grid16.Coords, EltTy.bits .f32 = 32 ∨ (Rect.block (s := S128x128) S128x128.size (cc16_transform_1 i) (hinb16_1 i)).WholeWords (EltTy.packing .f32)
  hstage16_2 : ∀ j, (stage16_2 j).IsWhole
  nbuf16_2 : grid16.bufCount reads16_2 false = 1
  hreads16_2 : ∀ i i' : grid16.Coords, (∀ a, reads16_2 a = true → i a = i' a) → cc16_transform_2 i = cc16_transform_2 i'
  hinb16_2 : ∀ (i : grid16.Coords) a, (cc16_transform_2 i a + 1) * S4096x128.size a ≤ S4096x128.size a
  hwx16_2 : ∀ i : grid16.Coords, EltTy.bits .f32 = 32 ∨ (Rect.block (s := S4096x128) S4096x128.size (cc16_transform_2 i) (hinb16_2 i)).WholeWords (EltTy.packing .f32)
  hrank17 : 0 < grid17.rank
  hstage17_0 : ∀ j, (stage17_0 j).IsWhole
  nbuf17_0 : grid17.bufCount reads17_0 true = 1
  hreads17_0 : ∀ i i' : grid17.Coords, (∀ a, reads17_0 a = true → i a = i' a) → cc17_transform_0 i = cc17_transform_0 i'
  hinb17_0 : ∀ (i : grid17.Coords) a, (cc17_transform_0 i a + 1) * S4096x128.size a ≤ S4096x128.size a
  hwx17_0 : ∀ i : grid17.Coords, EltTy.bits .f32 = 32 ∨ (Rect.block (s := S4096x128) S4096x128.size (cc17_transform_0 i) (hinb17_0 i)).WholeWords (EltTy.packing .f32)
  hstage17_1 : ∀ j, (stage17_1 j).IsWhole
  nbuf17_1 : grid17.bufCount reads17_1 false = 2
  hreads17_1 : ∀ i i' : grid17.Coords, (∀ a, reads17_1 a = true → i a = i' a) → cc17_transform_1 i = cc17_transform_1 i'
  hinb17_1 : ∀ (i : grid17.Coords) a, (cc17_transform_1 i a + 1) * S256x128.size a ≤ S4096x128.size a
  hwx17_1 : ∀ i : grid17.Coords, EltTy.bits .f32 = 32 ∨ (Rect.block (s := S4096x128) S256x128.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S4096x1.size a ≤ S4096x1.size a
  hwx17_2 : ∀ i : grid17.Coords, EltTy.bits .f32 = 32 ∨ (Rect.block (s := S4096x1) S4096x1.size (cc17_transform_2 i) (hinb17_2 i)).WholeWords (EltTy.packing .f32)
  hrank18 : 0 < grid18.rank
  hstage18_0 : ∀ j, (stage18_0 j).IsWhole
  nbuf18_0 : grid18.bufCount reads18_0 false = 1
  hreads18_0 : ∀ i i' : grid18.Coords, (∀ a, reads18_0 a = true → i a = i' a) → cc18_transform_0 i = cc18_transform_0 i'
  hinb18_0 : ∀ (i : grid18.Coords) a, (cc18_transform_0 i a + 1) * S4096x128.size a ≤ S4096x128.size a
  hwx18_0 : ∀ i : grid18.Coords, EltTy.bits .f32 = 32 ∨ (Rect.block (s := S4096x128) S4096x128.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S128x128.size a ≤ S128x128.size a
  hwx18_1 : ∀ i : grid18.Coords, EltTy.bits .f32 = 32 ∨ (Rect.block (s := S128x128) S128x128.size (cc18_transform_1 i) (hinb18_1 i)).WholeWords (EltTy.packing .f32)
  hstage18_2 : ∀ j, (stage18_2 j).IsWhole
  nbuf18_2 : grid18.bufCount reads18_2 false = 1
  hreads18_2 : ∀ i i' : grid18.Coords, (∀ a, reads18_2 a = true → i a = i' a) → cc18_transform_2 i = cc18_transform_2 i'
  hinb18_2 : ∀ (i : grid18.Coords) a, (cc18_transform_2 i a + 1) * S4096x128.size a ≤ S4096x128.size a
  hwx18_2 : ∀ i : grid18.Coords, EltTy.bits .f32 = 32 ∨ (Rect.block (s := S4096x128) S4096x128.size (cc18_transform_2 i) (hinb18_2 i)).WholeWords (EltTy.packing .f32)
  hrank19 : 0 < grid19.rank
  hstage19_0 : ∀ j, (stage19_0 j).IsWhole
  nbuf19_0 : grid19.bufCount reads19_0 true = 1
  hreads19_0 : ∀ i i' : grid19.Coords, (∀ a, reads19_0 a = true → i a = i' a) → cc19_transform_0 i = cc19_transform_0 i'
  hinb19_0 : ∀ (i : grid19.Coords) a, (cc19_transform_0 i a + 1) * S4096x128.size a ≤ S4096x128.size a
  hwx19_0 : ∀ i : grid19.Coords, EltTy.bits .f32 = 32 ∨ (Rect.block (s := S4096x128) S4096x128.size (cc19_transform_0 i) (hinb19_0 i)).WholeWords (EltTy.packing .f32)
  hstage19_1 : ∀ j, (stage19_1 j).IsWhole
  nbuf19_1 : grid19.bufCount reads19_1 false = 2
  hreads19_1 : ∀ i i' : grid19.Coords, (∀ a, reads19_1 a = true → i a = i' a) → cc19_transform_1 i = cc19_transform_1 i'
  hinb19_1 : ∀ (i : grid19.Coords) a, (cc19_transform_1 i a + 1) * S256x128.size a ≤ S4096x128.size a
  hwx19_1 : ∀ i : grid19.Coords, EltTy.bits .f32 = 32 ∨ (Rect.block (s := S4096x128) S256x128.size (cc19_transform_1 i) (hinb19_1 i)).WholeWords (EltTy.packing .f32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S4096x1.size a ≤ S4096x1.size a
  hwx19_2 : ∀ i : grid19.Coords, EltTy.bits .f32 = 32 ∨ (Rect.block (s := S4096x1) S4096x1.size (cc19_transform_2 i) (hinb19_2 i)).WholeWords (EltTy.packing .f32)
  hrank20 : 0 < grid20.rank
  hstage20_0 : ∀ j, (stage20_0 j).IsWhole
  nbuf20_0 : grid20.bufCount reads20_0 false = 1
  hreads20_0 : ∀ i i' : grid20.Coords, (∀ a, reads20_0 a = true → i a = i' a) → cc20_transform_0 i = cc20_transform_0 i'
  hinb20_0 : ∀ (i : grid20.Coords) a, (cc20_transform_0 i a + 1) * S4096x128.size a ≤ S4096x128.size a
  hwx20_0 : ∀ i : grid20.Coords, EltTy.bits .f32 = 32 ∨ (Rect.block (s := S4096x128) S4096x128.size (cc20_transform_0 i) (hinb20_0 i)).WholeWords (EltTy.packing .f32)
  hstage20_1 : ∀ j, (stage20_1 j).IsWhole
  nbuf20_1 : grid20.bufCount reads20_1 true = 1
  hreads20_1 : ∀ i i' : grid20.Coords, (∀ a, reads20_1 a = true → i a = i' a) → cc20_transform_1 i = cc20_transform_1 i'
  hinb20_1 : ∀ (i : grid20.Coords) a, (cc20_transform_1 i a + 1) * S128x128.size a ≤ S128x128.size a
  hwx20_1 : ∀ i : grid20.Coords, EltTy.bits .f32 = 32 ∨ (Rect.block (s := S128x128) S128x128.size (cc20_transform_1 i) (hinb20_1 i)).WholeWords (EltTy.packing .f32)
  hstage20_2 : ∀ j, (stage20_2 j).IsWhole
  nbuf20_2 : grid20.bufCount reads20_2 false = 1
  hreads20_2 : ∀ i i' : grid20.Coords, (∀ a, reads20_2 a = true → i a = i' a) → cc20_transform_2 i = cc20_transform_2 i'
  hinb20_2 : ∀ (i : grid20.Coords) a, (cc20_transform_2 i a + 1) * S4096x128.size a ≤ S4096x128.size a
  hwx20_2 : ∀ i : grid20.Coords, EltTy.bits .f32 = 32 ∨ (Rect.block (s := S4096x128) S4096x128.size (cc20_transform_2 i) (hinb20_2 i)).WholeWords (EltTy.packing .f32)
  hrank21 : 0 < grid21.rank
  hstage21_0 : ∀ j, (stage21_0 j).IsWhole
  nbuf21_0 : grid21.bufCount reads21_0 true = 1
  hreads21_0 : ∀ i i' : grid21.Coords, (∀ a, reads21_0 a = true → i a = i' a) → cc21_transform_0 i = cc21_transform_0 i'
  hinb21_0 : ∀ (i : grid21.Coords) a, (cc21_transform_0 i a + 1) * S4096x128.size a ≤ S4096x128.size a
  hwx21_0 : ∀ i : grid21.Coords, EltTy.bits .f32 = 32 ∨ (Rect.block (s := S4096x128) S4096x128.size (cc21_transform_0 i) (hinb21_0 i)).WholeWords (EltTy.packing .f32)
  hstage21_1 : ∀ j, (stage21_1 j).IsWhole
  nbuf21_1 : grid21.bufCount reads21_1 false = 2
  hreads21_1 : ∀ i i' : grid21.Coords, (∀ a, reads21_1 a = true → i a = i' a) → cc21_transform_1 i = cc21_transform_1 i'
  hinb21_1 : ∀ (i : grid21.Coords) a, (cc21_transform_1 i a + 1) * S256x128.size a ≤ S4096x128.size a
  hwx21_1 : ∀ i : grid21.Coords, EltTy.bits .f32 = 32 ∨ (Rect.block (s := S4096x128) S256x128.size (cc21_transform_1 i) (hinb21_1 i)).WholeWords (EltTy.packing .f32)
  hstage21_2 : ∀ j, (stage21_2 j).IsWhole
  nbuf21_2 : grid21.bufCount reads21_2 true = 1
  hreads21_2 : ∀ i i' : grid21.Coords, (∀ a, reads21_2 a = true → i a = i' a) → cc21_transform_2 i = cc21_transform_2 i'
  hinb21_2 : ∀ (i : grid21.Coords) a, (cc21_transform_2 i a + 1) * S4096x1.size a ≤ S4096x1.size a
  hwx21_2 : ∀ i : grid21.Coords, EltTy.bits .f32 = 32 ∨ (Rect.block (s := S4096x1) S4096x1.size (cc21_transform_2 i) (hinb21_2 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def dot_S2000x128_S2000x128_S128x128_0_0_1_1_n_n : DotDims S2000x128 S2000x128 S128x128 where
  lhsContracting := [0]
  rhsContracting := [0]
  lhsNonContracting := [1]
  rhsNonContracting := [1]
  lhsBatch := []
  rhsBatch := []
  wf := dot_S2000x128_S2000x128_S128x128_0_0_1_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def gather_S100000x128_S4096x1_S4096x128_1_0_n_n_0_1_1128 : GatherDims S100000x128 S4096x1 S4096x128 where
  offsetDims := [1]
  collapsedSliceDims := [0]
  operandBatchingDims := []
  startIndicesBatchingDims := []
  startIndexMap := [0]
  indexVectorDim := 1
  sliceSizes := ![1, 128]
  wf := gather_S100000x128_S4096x1_S4096x128_1_0_n_n_0_1_1128_wf
def gather_S50000x128_S4096x1_S4096x128_1_0_n_n_0_1_1128 : GatherDims S50000x128 S4096x1 S4096x128 where
  offsetDims := [1]
  collapsedSliceDims := [0]
  operandBatchingDims := []
  startIndicesBatchingDims := []
  startIndexMap := [0]
  indexVectorDim := 1
  sliceSizes := ![1, 128]
  wf := gather_S50000x128_S4096x1_S4096x128_1_0_n_n_0_1_1128_wf
def comparator_i32_d0 : BitVec 32 → BitVec 32 → BitVec 1 :=
  fun l r =>
    let v1 := IntOp.cmpi .slt l r
    v1
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S256x128_S4096x256_1_1_0_0_n_n : DotDims S4096x128 S256x128 S4096x256 where
  lhsContracting := [1]
  rhsContracting := [1]
  lhsNonContracting := [0]
  rhsNonContracting := [0]
  lhsBatch := []
  rhsBatch := []
  wf := dot_S4096x128_S256x128_S4096x256_1_1_0_0_n_n_wf

abbrev win0_0 : Pipeline.Window sig grid0 :=
  Pipeline.Window.ofSpec (Memref.whole main_arg5) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg6) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v14) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S2000x128.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v27) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S2000x128.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v0) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v32) S128x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v56) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v57) S2000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v1) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v60) S128x128.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev win7_0 : Pipeline.Window sig grid7 :=
  Pipeline.Window.ofSpec (Memref.whole main_v1) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v84) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v85) S2000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v102) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v116) S2000x128.size cc8_transform_1 reads8_1 true false 2 stage8_1 sem8_1
    hrank8 hreads8_1 hinb8_1 nbuf8_1 (Memref.isWhole_whole _) hwx8_1 hstage8_1

abbrev win8 : Fin 2 → Pipeline.Window sig grid8 := fun | 0 => win8_0 | 1 => win8_1 | ⟨_ + 2, h⟩ => absurd h (Nat.not_lt.2 (Nat.le_add_left _ _))
abbrev spec8 : Fin 2 → Pipeline.WinSpec sig grid8.rank := fun w => (win8 w).toWinSpec

abbrev win9_0 : Pipeline.Window sig grid9 :=
  Pipeline.Window.ofSpec (Memref.whole main_v115) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v117) S2000x128.size cc9_transform_1 reads9_1 true false 2 stage9_1 sem9_1
    hrank9 hreads9_1 hinb9_1 nbuf9_1 (Memref.isWhole_whole _) hwx9_1 hstage9_1

abbrev win9 : Fin 2 → Pipeline.Window sig grid9 := fun | 0 => win9_0 | 1 => win9_1 | ⟨_ + 2, h⟩ => absurd h (Nat.not_lt.2 (Nat.le_add_left _ _))
abbrev spec9 : Fin 2 → Pipeline.WinSpec sig grid9.rank := fun w => (win9 w).toWinSpec

abbrev win10_0 : Pipeline.Window sig grid10 :=
  Pipeline.Window.ofSpec (Memref.whole main_v0) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v87) S2000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v120) S128x128.size cc10_transform_2 reads10_2 true true 1 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev idle10 : Fin 3 → grid10.Coords → Bool := fun | 0 => fun _ => false | 1 => fun _ => false | 2 => fun i => !(k10_cond2 i == 1#1) | ⟨_ + 3, h⟩ => absurd h (Nat.not_lt.2 (Nat.le_add_left _ _))

abbrev win11_0 : Pipeline.Window sig grid11 :=
  Pipeline.Window.ofSpec (Memref.whole main_v0) S2000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v144) S128x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v145) S2000x128.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v1) S2000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v89) S2000x128.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v148) S128x128.size cc12_transform_2 reads12_2 true true 1 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev idle12 : Fin 3 → grid12.Coords → Bool := fun | 0 => fun _ => false | 1 => fun _ => false | 2 => fun i => !(k12_cond2 i == 1#1) | ⟨_ + 3, h⟩ => absurd h (Nat.not_lt.2 (Nat.le_add_left _ _))

abbrev win13_0 : Pipeline.Window sig grid13 :=
  Pipeline.Window.ofSpec (Memref.whole main_v1) S2000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v172) S128x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v173) S2000x128.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v224) S4096x128.size cc14_transform_0 reads14_0 false false 1 stage14_0 sem14_0
    hrank14 hreads14_0 hinb14_0 nbuf14_0 (Memref.isWhole_whole _) hwx14_0 hstage14_0

abbrev win14_1 : Pipeline.Window sig grid14 :=
  Pipeline.Window.ofSpec (Memref.whole main_v219) S128x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v230) S4096x128.size cc14_transform_2 reads14_2 true false 1 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev win15_0 : Pipeline.Window sig grid15 :=
  Pipeline.Window.ofSpec (Memref.whole main_v229) S4096x128.size cc15_transform_0 reads15_0 false true 1 stage15_0 sem15_0
    hrank15 hreads15_0 hinb15_0 nbuf15_0 (Memref.isWhole_whole _) hwx15_0 hstage15_0

abbrev win15_1 : Pipeline.Window sig grid15 :=
  Pipeline.Window.ofSpec (Memref.whole main_v230) S256x128.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v236) S4096x1.size cc15_transform_2 reads15_2 true true 1 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev idle15 : Fin 3 → grid15.Coords → Bool := fun | 0 => fun _ => false | 1 => fun _ => false | 2 => fun i => !(k15_cond2 i == 1#1) | ⟨_ + 3, h⟩ => absurd h (Nat.not_lt.2 (Nat.le_add_left _ _))

abbrev win16_0 : Pipeline.Window sig grid16 :=
  Pipeline.Window.ofSpec (Memref.whole main_v267) S4096x128.size cc16_transform_0 reads16_0 false false 1 stage16_0 sem16_0
    hrank16 hreads16_0 hinb16_0 nbuf16_0 (Memref.isWhole_whole _) hwx16_0 hstage16_0

abbrev win16_1 : Pipeline.Window sig grid16 :=
  Pipeline.Window.ofSpec (Memref.whole main_v262) S128x128.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v273) S4096x128.size cc16_transform_2 reads16_2 true false 1 stage16_2 sem16_2
    hrank16 hreads16_2 hinb16_2 nbuf16_2 (Memref.isWhole_whole _) hwx16_2 hstage16_2

abbrev win16 : Fin 3 → Pipeline.Window sig grid16 := fun | 0 => win16_0 | 1 => win16_1 | 2 => win16_2 | ⟨_ + 3, h⟩ => absurd h (Nat.not_lt.2 (Nat.le_add_left _ _))
abbrev spec16 : Fin 3 → Pipeline.WinSpec sig grid16.rank := fun w => (win16 w).toWinSpec

abbrev win17_0 : Pipeline.Window sig grid17 :=
  Pipeline.Window.ofSpec (Memref.whole main_v272) S4096x128.size cc17_transform_0 reads17_0 false true 1 stage17_0 sem17_0
    hrank17 hreads17_0 hinb17_0 nbuf17_0 (Memref.isWhole_whole _) hwx17_0 hstage17_0

abbrev win17_1 : Pipeline.Window sig grid17 :=
  Pipeline.Window.ofSpec (Memref.whole main_v273) S256x128.size cc17_transform_1 reads17_1 false false 2 stage17_1 sem17_1
    hrank17 hreads17_1 hinb17_1 nbuf17_1 (Memref.isWhole_whole _) hwx17_1 hstage17_1

abbrev win17_2 : Pipeline.Window sig grid17 :=
  Pipeline.Window.ofSpec (Memref.whole main_v279) S4096x1.size cc17_transform_2 reads17_2 true true 1 stage17_2 sem17_2
    hrank17 hreads17_2 hinb17_2 nbuf17_2 (Memref.isWhole_whole _) hwx17_2 hstage17_2

abbrev win17 : Fin 3 → Pipeline.Window sig grid17 := fun | 0 => win17_0 | 1 => win17_1 | 2 => win17_2 | ⟨_ + 3, h⟩ => absurd h (Nat.not_lt.2 (Nat.le_add_left _ _))
abbrev spec17 : Fin 3 → Pipeline.WinSpec sig grid17.rank := fun w => (win17 w).toWinSpec

abbrev idle17 : Fin 3 → grid17.Coords → Bool := fun | 0 => fun _ => false | 1 => fun _ => false | 2 => fun i => !(k17_cond2 i == 1#1) | ⟨_ + 3, h⟩ => absurd h (Nat.not_lt.2 (Nat.le_add_left _ _))

abbrev win18_0 : Pipeline.Window sig grid18 :=
  Pipeline.Window.ofSpec (Memref.whole main_v310) S4096x128.size cc18_transform_0 reads18_0 false false 1 stage18_0 sem18_0
    hrank18 hreads18_0 hinb18_0 nbuf18_0 (Memref.isWhole_whole _) hwx18_0 hstage18_0

abbrev win18_1 : Pipeline.Window sig grid18 :=
  Pipeline.Window.ofSpec (Memref.whole main_v305) S128x128.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v316) S4096x128.size cc18_transform_2 reads18_2 true false 1 stage18_2 sem18_2
    hrank18 hreads18_2 hinb18_2 nbuf18_2 (Memref.isWhole_whole _) hwx18_2 hstage18_2

abbrev win18 : Fin 3 → Pipeline.Window sig grid18 := fun | 0 => win18_0 | 1 => win18_1 | 2 => win18_2 | ⟨_ + 3, h⟩ => absurd h (Nat.not_lt.2 (Nat.le_add_left _ _))
abbrev spec18 : Fin 3 → Pipeline.WinSpec sig grid18.rank := fun w => (win18 w).toWinSpec

abbrev win19_0 : Pipeline.Window sig grid19 :=
  Pipeline.Window.ofSpec (Memref.whole main_v315) S4096x128.size cc19_transform_0 reads19_0 false true 1 stage19_0 sem19_0
    hrank19 hreads19_0 hinb19_0 nbuf19_0 (Memref.isWhole_whole _) hwx19_0 hstage19_0

abbrev win19_1 : Pipeline.Window sig grid19 :=
  Pipeline.Window.ofSpec (Memref.whole main_v316) S256x128.size cc19_transform_1 reads19_1 false false 2 stage19_1 sem19_1
    hrank19 hreads19_1 hinb19_1 nbuf19_1 (Memref.isWhole_whole _) hwx19_1 hstage19_1

abbrev win19_2 : Pipeline.Window sig grid19 :=
  Pipeline.Window.ofSpec (Memref.whole main_v322) S4096x1.size cc19_transform_2 reads19_2 true true 1 stage19_2 sem19_2
    hrank19 hreads19_2 hinb19_2 nbuf19_2 (Memref.isWhole_whole _) hwx19_2 hstage19_2

abbrev win19 : Fin 3 → Pipeline.Window sig grid19 := fun | 0 => win19_0 | 1 => win19_1 | 2 => win19_2 | ⟨_ + 3, h⟩ => absurd h (Nat.not_lt.2 (Nat.le_add_left _ _))
abbrev spec19 : Fin 3 → Pipeline.WinSpec sig grid19.rank := fun w => (win19 w).toWinSpec

abbrev idle19 : Fin 3 → grid19.Coords → Bool := fun | 0 => fun _ => false | 1 => fun _ => false | 2 => fun i => !(k19_cond2 i == 1#1) | ⟨_ + 3, h⟩ => absurd h (Nat.not_lt.2 (Nat.le_add_left _ _))

abbrev win20_0 : Pipeline.Window sig grid20 :=
  Pipeline.Window.ofSpec (Memref.whole main_v353) S4096x128.size cc20_transform_0 reads20_0 false false 1 stage20_0 sem20_0
    hrank20 hreads20_0 hinb20_0 nbuf20_0 (Memref.isWhole_whole _) hwx20_0 hstage20_0

abbrev win20_1 : Pipeline.Window sig grid20 :=
  Pipeline.Window.ofSpec (Memref.whole main_v348) S128x128.size cc20_transform_1 reads20_1 false true 1 stage20_1 sem20_1
    hrank20 hreads20_1 hinb20_1 nbuf20_1 (Memref.isWhole_whole _) hwx20_1 hstage20_1

abbrev win20_2 : Pipeline.Window sig grid20 :=
  Pipeline.Window.ofSpec (Memref.whole main_v359) S4096x128.size cc20_transform_2 reads20_2 true false 1 stage20_2 sem20_2
    hrank20 hreads20_2 hinb20_2 nbuf20_2 (Memref.isWhole_whole _) hwx20_2 hstage20_2

abbrev win20 : Fin 3 → Pipeline.Window sig grid20 := fun | 0 => win20_0 | 1 => win20_1 | 2 => win20_2 | ⟨_ + 3, h⟩ => absurd h (Nat.not_lt.2 (Nat.le_add_left _ _))
abbrev spec20 : Fin 3 → Pipeline.WinSpec sig grid20.rank := fun w => (win20 w).toWinSpec

abbrev win21_0 : Pipeline.Window sig grid21 :=
  Pipeline.Window.ofSpec (Memref.whole main_v358) S4096x128.size cc21_transform_0 reads21_0 false true 1 stage21_0 sem21_0
    hrank21 hreads21_0 hinb21_0 nbuf21_0 (Memref.isWhole_whole _) hwx21_0 hstage21_0

abbrev win21_1 : Pipeline.Window sig grid21 :=
  Pipeline.Window.ofSpec (Memref.whole main_v359) S256x128.size cc21_transform_1 reads21_1 false false 2 stage21_1 sem21_1
    hrank21 hreads21_1 hinb21_1 nbuf21_1 (Memref.isWhole_whole _) hwx21_1 hstage21_1

abbrev win21_2 : Pipeline.Window sig grid21 :=
  Pipeline.Window.ofSpec (Memref.whole main_v365) S4096x1.size cc21_transform_2 reads21_2 true true 1 stage21_2 sem21_2
    hrank21 hreads21_2 hinb21_2 nbuf21_2 (Memref.isWhole_whole _) hwx21_2 hstage21_2

abbrev win21 : Fin 3 → Pipeline.Window sig grid21 := fun | 0 => win21_0 | 1 => win21_1 | 2 => win21_2 | ⟨_ + 3, h⟩ => absurd h (Nat.not_lt.2 (Nat.le_add_left _ _))
abbrev spec21 : Fin 3 → Pipeline.WinSpec sig grid21.rank := fun w => (win21 w).toWinSpec

abbrev idle21 : Fin 3 → grid21.Coords → Bool := fun | 0 => fun _ => false | 1 => fun _ => false | 2 => fun i => !(k21_cond2 i == 1#1) | ⟨_ + 3, h⟩ => absurd h (Nat.not_lt.2 (Nat.le_add_left _ _))

class Facts : Prop extends Facts₀ where

variable [Facts]
-- ==== ReferenceIdeal.lean ====
abbrev S4096 : Shape := ⟨1, ![4096]⟩
abbrev S1000000 : Shape := ⟨1, ![1000000]⟩
abbrev S100000x128 : Shape := ⟨2, ![100000, 128]⟩
abbrev S50000x128 : Shape := ⟨2, ![50000, 128]⟩
abbrev S128x128 : Shape := ⟨2, ![128, 128]⟩
abbrev S2x3x128x128 : Shape := ⟨4, ![2, 3, 128, 128]⟩
abbrev S2x128x128 : Shape := ⟨3, ![2, 128, 128]⟩
abbrev S1000000x1 : Shape := ⟨2, ![1000000, 1]⟩
abbrev S_ : Shape := ⟨0, ![]⟩
abbrev S1000000x128 : Shape := ⟨2, ![1000000, 128]⟩
abbrev S1x3x128x128 : Shape := ⟨4, ![1, 3, 128, 128]⟩
abbrev S3x128x128 : Shape := ⟨3, ![3, 128, 128]⟩
abbrev S128x100000 : Shape := ⟨2, ![128, 100000]⟩
abbrev S1x128x128 : Shape := ⟨3, ![1, 128, 128]⟩
abbrev S128x50000 : Shape := ⟨2, ![128, 50000]⟩
abbrev S4096x1 : Shape := ⟨2, ![4096, 1]⟩
abbrev S4096x128 : Shape := ⟨2, ![4096, 128]⟩
abbrev S128x4096 : Shape := ⟨2, ![128, 4096]⟩
abbrev S4096x4096 : Shape := ⟨2, ![4096, 4096]⟩

abbrev nBuf : Space → Nat
  | .hbm => 583
  | .vmem => 0
  | .smem => 0
  | _ => 0

abbrev hbmTy0_0 (i : Nat) : BufTy := match i % 128 with
  | 0 => ⟨S4096, .i32⟩
  | 1 => ⟨S4096, .i32⟩
  | 2 => ⟨S1000000, .i32⟩
  | 3 => ⟨S1000000, .i32⟩
  | 4 => ⟨S1000000, .f32⟩
  | 5 => ⟨S100000x128, .f32⟩
  | 6 => ⟨S50000x128, .f32⟩
  | 7 => ⟨S128x128, .f32⟩
  | 8 => ⟨S128x128, .f32⟩
  | 9 => ⟨S2x3x128x128, .f32⟩
  | 10 => ⟨S2x3x128x128, .f32⟩
  | 11 => ⟨S2x128x128, .f32⟩
  | 12 => ⟨S100000x128, .f32⟩
  | 13 => ⟨S50000x128, .f32⟩
  | 14 => ⟨S1000000x1, .f32⟩
  | 15 => ⟨S_, .i32⟩
  | 16 => ⟨S1000000, .i32⟩
  | 17 => ⟨S1000000, .i1⟩
  | 18 => ⟨S_, .i32⟩
  | 19 => ⟨S1000000, .i32⟩
  | 20 => ⟨S1000000, .i32⟩
  | 21 => ⟨S1000000, .i32⟩
  | 22 => ⟨S1000000x1, .i32⟩
  | 23 => ⟨S1000000x128, .f32⟩
  | 24 => ⟨S1000000x128, .f32⟩
  | 25 => ⟨S1000000x128, .f32⟩
  | 26 => ⟨S_, .f32⟩
  | 27 => ⟨S100000x128, .f32⟩
  | 28 => ⟨S1000000x1, .i32⟩
  | 29 => ⟨S100000x128, .f32⟩
  | 30 => ⟨S_, .f32⟩
  | 31 => ⟨S100000x128, .f32⟩
  | 32 => ⟨S100000x128, .f32⟩
  | 33 => ⟨S100000x128, .f32⟩
  | 34 => ⟨S1000000x1, .f32⟩
  | 35 => ⟨S_, .i32⟩
  | 36 => ⟨S1000000, .i32⟩
  | 37 => ⟨S1000000, .i1⟩
  | 38 => ⟨S_, .i32⟩
  | 39 => ⟨S1000000, .i32⟩
  | 40 => ⟨S1000000, .i32⟩
  | 41 => ⟨S1000000, .i32⟩
  | 42 => ⟨S1000000x1, .i32⟩
  | 43 => ⟨S1000000x128, .f32⟩
  | 44 => ⟨S1000000x128, .f32⟩
  | 45 => ⟨S1000000x128, .f32⟩
  | 46 => ⟨S_, .f32⟩
  | 47 => ⟨S50000x128, .f32⟩
  | 48 => ⟨S1000000x1, .i32⟩
  | 49 => ⟨S50000x128, .f32⟩
  | 50 => ⟨S_, .f32⟩
  | 51 => ⟨S50000x128, .f32⟩
  | 52 => ⟨S50000x128, .f32⟩
  | 53 => ⟨S50000x128, .f32⟩
  | 54 => ⟨S1x3x128x128, .f32⟩
  | 55 => ⟨S3x128x128, .f32⟩
  | 56 => ⟨S128x100000, .f32⟩
  | 57 => ⟨S128x128, .f32⟩
  | 58 => ⟨S_, .f32⟩
  | 59 => ⟨S128x128, .f32⟩
  | 60 => ⟨S128x128, .f32⟩
  | 61 => ⟨S128x128, .f32⟩
  | 62 => ⟨S1x128x128, .f32⟩
  | 63 => ⟨S128x128, .f32⟩
  | 64 => ⟨S128x128, .f32⟩
  | 65 => ⟨S128x128, .f32⟩
  | 66 => ⟨S_, .f32⟩
  | 67 => ⟨S128x128, .f32⟩
  | 68 => ⟨S128x128, .f32⟩
  | 69 => ⟨S128x128, .f32⟩
  | 70 => ⟨S128x128, .f32⟩
  | 71 => ⟨S1x128x128, .f32⟩
  | 72 => ⟨S128x128, .f32⟩
  | 73 => ⟨S128x128, .f32⟩
  | 74 => ⟨S128x128, .f32⟩
  | 75 => ⟨S_, .f32⟩
  | 76 => ⟨S128x128, .f32⟩
  | 77 => ⟨S128x128, .f32⟩
  | 78 => ⟨S128x128, .f32⟩
  | 79 => ⟨S128x128, .f32⟩
  | 80 => ⟨S1x128x128, .f32⟩
  | 81 => ⟨S128x128, .f32⟩
  | 82 => ⟨S128x128, .f32⟩
  | 83 => ⟨S128x128, .f32⟩
  | 84 => ⟨S_, .f32⟩
  | 85 => ⟨S128x128, .f32⟩
  | 86 => ⟨S128x128, .f32⟩
  | 87 => ⟨S128x128, .f32⟩
  | 88 => ⟨S128x128, .f32⟩
  | 89 => ⟨S100000x128, .f32⟩
  | 90 => ⟨S_, .f32⟩
  | 91 => ⟨S100000x128, .f32⟩
  | 92 => ⟨S100000x128, .f32⟩
  | 93 => ⟨S100000x128, .f32⟩
  | 94 => ⟨S1x3x128x128, .f32⟩
  | 95 => ⟨S3x128x128, .f32⟩
  | 96 => ⟨S128x50000, .f32⟩
  | 97 => ⟨S128x128, .f32⟩
  | 98 => ⟨S_, .f32⟩
  | 99 => ⟨S128x128, .f32⟩
  | 100 => ⟨S128x128, .f32⟩
  | 101 => ⟨S128x128, .f32⟩
  | 102 => ⟨S1x128x128, .f32⟩
  | 103 => ⟨S128x128, .f32⟩
  | 104 => ⟨S128x128, .f32⟩
  | 105 => ⟨S128x128, .f32⟩
  | 106 => ⟨S_, .f32⟩
  | 107 => ⟨S128x128, .f32⟩
  | 108 => ⟨S128x128, .f32⟩
  | 109 => ⟨S128x128, .f32⟩
  | 110 => ⟨S128x128, .f32⟩
  | 111 => ⟨S1x128x128, .f32⟩
  | 112 => ⟨S128x128, .f32⟩
  | 113 => ⟨S128x128, .f32⟩
  | 114 => ⟨S128x128, .f32⟩
  | 115 => ⟨S_, .f32⟩
  | 116 => ⟨S128x128, .f32⟩
  | 117 => ⟨S128x128, .f32⟩
  | 118 => ⟨S128x128, .f32⟩
  | 119 => ⟨S128x128, .f32⟩
  | 120 => ⟨S1x128x128, .f32⟩
  | 121 => ⟨S128x128, .f32⟩
  | 122 => ⟨S128x128, .f32⟩
  | 123 => ⟨S128x128, .f32⟩
  | 124 => ⟨S_, .f32⟩
  | 125 => ⟨S128x128, .f32⟩
  | 126 => ⟨S128x128, .f32⟩
  | 127 => ⟨S128x128, .f32⟩
  | _ => ⟨S4096, .i32⟩

abbrev hbmTy0_1 (i : Nat) : BufTy := match i % 128 with
  | 0 => ⟨S128x128, .f32⟩
  | 1 => ⟨S50000x128, .f32⟩
  | 2 => ⟨S_, .f32⟩
  | 3 => ⟨S50000x128, .f32⟩
  | 4 => ⟨S50000x128, .f32⟩
  | 5 => ⟨S50000x128, .f32⟩
  | 6 => ⟨S100000x128, .f32⟩
  | 7 => ⟨S100000x128, .f32⟩
  | 8 => ⟨S50000x128, .f32⟩
  | 9 => ⟨S50000x128, .f32⟩
  | 10 => ⟨S1000000x1, .f32⟩
  | 11 => ⟨S_, .i32⟩
  | 12 => ⟨S1000000, .i32⟩
  | 13 => ⟨S1000000, .i1⟩
  | 14 => ⟨S_, .i32⟩
  | 15 => ⟨S1000000, .i32⟩
  | 16 => ⟨S1000000, .i32⟩
  | 17 => ⟨S1000000, .i32⟩
  | 18 => ⟨S1000000x1, .i32⟩
  | 19 => ⟨S1000000x128, .f32⟩
  | 20 => ⟨S1000000x128, .f32⟩
  | 21 => ⟨S1000000x128, .f32⟩
  | 22 => ⟨S_, .f32⟩
  | 23 => ⟨S100000x128, .f32⟩
  | 24 => ⟨S1000000x1, .i32⟩
  | 25 => ⟨S100000x128, .f32⟩
  | 26 => ⟨S_, .f32⟩
  | 27 => ⟨S100000x128, .f32⟩
  | 28 => ⟨S100000x128, .f32⟩
  | 29 => ⟨S100000x128, .f32⟩
  | 30 => ⟨S1000000x1, .f32⟩
  | 31 => ⟨S_, .i32⟩
  | 32 => ⟨S1000000, .i32⟩
  | 33 => ⟨S1000000, .i1⟩
  | 34 => ⟨S_, .i32⟩
  | 35 => ⟨S1000000, .i32⟩
  | 36 => ⟨S1000000, .i32⟩
  | 37 => ⟨S1000000, .i32⟩
  | 38 => ⟨S1000000x1, .i32⟩
  | 39 => ⟨S1000000x128, .f32⟩
  | 40 => ⟨S1000000x128, .f32⟩
  | 41 => ⟨S1000000x128, .f32⟩
  | 42 => ⟨S_, .f32⟩
  | 43 => ⟨S50000x128, .f32⟩
  | 44 => ⟨S1000000x1, .i32⟩
  | 45 => ⟨S50000x128, .f32⟩
  | 46 => ⟨S_, .f32⟩
  | 47 => ⟨S50000x128, .f32⟩
  | 48 => ⟨S50000x128, .f32⟩
  | 49 => ⟨S50000x128, .f32⟩
  | 50 => ⟨S1x3x128x128, .f32⟩
  | 51 => ⟨S3x128x128, .f32⟩
  | 52 => ⟨S128x100000, .f32⟩
  | 53 => ⟨S128x128, .f32⟩
  | 54 => ⟨S_, .f32⟩
  | 55 => ⟨S128x128, .f32⟩
  | 56 => ⟨S128x128, .f32⟩
  | 57 => ⟨S128x128, .f32⟩
  | 58 => ⟨S1x128x128, .f32⟩
  | 59 => ⟨S128x128, .f32⟩
  | 60 => ⟨S128x128, .f32⟩
  | 61 => ⟨S128x128, .f32⟩
  | 62 => ⟨S_, .f32⟩
  | 63 => ⟨S128x128, .f32⟩
  | 64 => ⟨S128x128, .f32⟩
  | 65 => ⟨S128x128, .f32⟩
  | 66 => ⟨S128x128, .f32⟩
  | 67 => ⟨S1x128x128, .f32⟩
  | 68 => ⟨S128x128, .f32⟩
  | 69 => ⟨S128x128, .f32⟩
  | 70 => ⟨S128x128, .f32⟩
  | 71 => ⟨S_, .f32⟩
  | 72 => ⟨S128x128, .f32⟩
  | 73 => ⟨S128x128, .f32⟩
  | 74 => ⟨S128x128, .f32⟩
  | 75 => ⟨S128x128, .f32⟩
  | 76 => ⟨S1x128x128, .f32⟩
  | 77 => ⟨S128x128, .f32⟩
  | 78 => ⟨S128x128, .f32⟩
  | 79 => ⟨S128x128, .f32⟩
  | 80 => ⟨S_, .f32⟩
  | 81 => ⟨S128x128, .f32⟩
  | 82 => ⟨S128x128, .f32⟩
  | 83 => ⟨S128x128, .f32⟩
  | 84 => ⟨S128x128, .f32⟩
  | 85 => ⟨S100000x128, .f32⟩
  | 86 => ⟨S_, .f32⟩
  | 87 => ⟨S100000x128, .f32⟩
  | 88 => ⟨S100000x128, .f32⟩
  | 89 => ⟨S100000x128, .f32⟩
  | 90 => ⟨S1x3x128x128, .f32⟩
  | 91 => ⟨S3x128x128, .f32⟩
  | 92 => ⟨S128x50000, .f32⟩
  | 93 => ⟨S128x128, .f32⟩
  | 94 => ⟨S_, .f32⟩
  | 95 => ⟨S128x128, .f32⟩
  | 96 => ⟨S128x128, .f32⟩
  | 97 => ⟨S128x128, .f32⟩
  | 98 => ⟨S1x128x128, .f32⟩
  | 99 => ⟨S128x128, .f32⟩
  | 100 => ⟨S128x128, .f32⟩
  | 101 => ⟨S128x128, .f32⟩
  | 102 => ⟨S_, .f32⟩
  | 103 => ⟨S128x128, .f32⟩
  | 104 => ⟨S128x128, .f32⟩
  | 105 => ⟨S128x128, .f32⟩
  | 106 => ⟨S128x128, .f32⟩
  | 107 => ⟨S1x128x128, .f32⟩
  | 108 => ⟨S128x128, .f32⟩
  | 109 => ⟨S128x128, .f32⟩
  | 110 => ⟨S128x128, .f32⟩
  | 111 => ⟨S_, .f32⟩
  | 112 => ⟨S128x128, .f32⟩
  | 113 => ⟨S128x128, .f32⟩
  | 114 => ⟨S128x128, .f32⟩
  | 115 => ⟨S128x128, .f32⟩
  | 116 => ⟨S1x128x128, .f32⟩
  | 117 => ⟨S128x128, .f32⟩
  | 118 => ⟨S128x128, .f32⟩
  | 119 => ⟨S128x128, .f32⟩
  | 120 => ⟨S_, .f32⟩
  | 121 => ⟨S128x128, .f32⟩
  | 122 => ⟨S128x128, .f32⟩
  | 123 => ⟨S128x128, .f32⟩
  | 124 => ⟨S128x128, .f32⟩
  | 125 => ⟨S50000x128, .f32⟩
  | 126 => ⟨S_, .f32⟩
  | 127 => ⟨S50000x128, .f32⟩
  | _ => ⟨S4096, .i32⟩

abbrev hbmTy0_2 (i : Nat) : BufTy := match i % 128 with
  | 0 => ⟨S50000x128, .f32⟩
  | 1 => ⟨S50000x128, .f32⟩
  | 2 => ⟨S100000x128, .f32⟩
  | 3 => ⟨S100000x128, .f32⟩
  | 4 => ⟨S50000x128, .f32⟩
  | 5 => ⟨S50000x128, .f32⟩
  | 6 => ⟨S_, .f32⟩
  | 7 => ⟨S100000x128, .f32⟩
  | 8 => ⟨S100000x128, .f32⟩
  | 9 => ⟨S100000x128, .f32⟩
  | 10 => ⟨S100000x128, .f32⟩
  | 11 => ⟨S_, .f32⟩
  | 12 => ⟨S50000x128, .f32⟩
  | 13 => ⟨S50000x128, .f32⟩
  | 14 => ⟨S50000x128, .f32⟩
  | 15 => ⟨S50000x128, .f32⟩
  | 16 => ⟨S_, .i32⟩
  | 17 => ⟨S4096, .i32⟩
  | 18 => ⟨S4096, .i1⟩
  | 19 => ⟨S_, .i32⟩
  | 20 => ⟨S4096, .i32⟩
  | 21 => ⟨S4096, .i32⟩
  | 22 => ⟨S4096, .i32⟩
  | 23 => ⟨S4096x1, .i32⟩
  | 24 => ⟨S4096x128, .f32⟩
  | 25 => ⟨S_, .i32⟩
  | 26 => ⟨S4096, .i32⟩
  | 27 => ⟨S4096, .i1⟩
  | 28 => ⟨S_, .i32⟩
  | 29 => ⟨S4096, .i32⟩
  | 30 => ⟨S4096, .i32⟩
  | 31 => ⟨S4096, .i32⟩
  | 32 => ⟨S4096x1, .i32⟩
  | 33 => ⟨S4096x128, .f32⟩
  | 34 => ⟨S4096x128, .f32⟩
  | 35 => ⟨S_, .f32⟩
  | 36 => ⟨S4096, .f32⟩
  | 37 => ⟨S4096, .i32⟩
  | 38 => ⟨S4096, .i32⟩
  | 39 => ⟨S_, .i32⟩
  | 40 => ⟨S4096, .i32⟩
  | 41 => ⟨S4096, .i1⟩
  | 42 => ⟨S_, .i32⟩
  | 43 => ⟨S4096, .i32⟩
  | 44 => ⟨S4096, .i32⟩
  | 45 => ⟨S4096, .i32⟩
  | 46 => ⟨S4096x1, .i32⟩
  | 47 => ⟨S4096x128, .f32⟩
  | 48 => ⟨S4096x128, .f32⟩
  | 49 => ⟨S_, .f32⟩
  | 50 => ⟨S4096, .f32⟩
  | 51 => ⟨S4096x1, .f32⟩
  | 52 => ⟨S4096x1, .f32⟩
  | 53 => ⟨S_, .f32⟩
  | 54 => ⟨S4096x1, .f32⟩
  | 55 => ⟨S4096x1, .f32⟩
  | 56 => ⟨S4096x128, .f32⟩
  | 57 => ⟨S4096x128, .f32⟩
  | 58 => ⟨S1x128x128, .f32⟩
  | 59 => ⟨S128x128, .f32⟩
  | 60 => ⟨S4096x128, .f32⟩
  | 61 => ⟨S_, .i32⟩
  | 62 => ⟨S4096, .i32⟩
  | 63 => ⟨S4096, .i1⟩
  | 64 => ⟨S_, .i32⟩
  | 65 => ⟨S4096, .i32⟩
  | 66 => ⟨S4096, .i32⟩
  | 67 => ⟨S4096, .i32⟩
  | 68 => ⟨S4096x1, .i32⟩
  | 69 => ⟨S4096x128, .f32⟩
  | 70 => ⟨S4096x128, .f32⟩
  | 71 => ⟨S_, .f32⟩
  | 72 => ⟨S4096, .f32⟩
  | 73 => ⟨S4096x1, .f32⟩
  | 74 => ⟨S4096x1, .f32⟩
  | 75 => ⟨S_, .f32⟩
  | 76 => ⟨S4096x1, .f32⟩
  | 77 => ⟨S4096x1, .f32⟩
  | 78 => ⟨S4096x128, .f32⟩
  | 79 => ⟨S4096x128, .f32⟩
  | 80 => ⟨S4096x128, .f32⟩
  | 81 => ⟨S_, .f32⟩
  | 82 => ⟨S4096, .f32⟩
  | 83 => ⟨S_, .f32⟩
  | 84 => ⟨S4096, .f32⟩
  | 85 => ⟨S4096, .f32⟩
  | 86 => ⟨S4096, .f32⟩
  | 87 => ⟨S128x4096, .f32⟩
  | 88 => ⟨S4096x4096, .f32⟩
  | 89 => ⟨S_, .f32⟩
  | 90 => ⟨S4096x4096, .f32⟩
  | 91 => ⟨S4096x4096, .f32⟩
  | 92 => ⟨S4096x4096, .f32⟩
  | 93 => ⟨S_, .f32⟩
  | 94 => ⟨S4096, .f32⟩
  | 95 => ⟨S_, .f32⟩
  | 96 => ⟨S4096, .f32⟩
  | 97 => ⟨S4096, .f32⟩
  | 98 => ⟨S4096, .f32⟩
  | 99 => ⟨S_, .f32⟩
  | 100 => ⟨S4096, .f32⟩
  | 101 => ⟨S4096, .f32⟩
  | 102 => ⟨S4096, .f32⟩
  | 103 => ⟨S4096, .f32⟩
  | 104 => ⟨S_, .f32⟩
  | 105 => ⟨S_, .f32⟩
  | 106 => ⟨S_, .f32⟩
  | 107 => ⟨S_, .f32⟩
  | 108 => ⟨S_, .i32⟩
  | 109 => ⟨S4096, .i32⟩
  | 110 => ⟨S4096, .i1⟩
  | 111 => ⟨S_, .i32⟩
  | 112 => ⟨S4096, .i32⟩
  | 113 => ⟨S4096, .i32⟩
  | 114 => ⟨S4096, .i32⟩
  | 115 => ⟨S4096x1, .i32⟩
  | 116 => ⟨S4096x128, .f32⟩
  | 117 => ⟨S4096x128, .f32⟩
  | 118 => ⟨S_, .f32⟩
  | 119 => ⟨S4096, .f32⟩
  | 120 => ⟨S4096x1, .f32⟩
  | 121 => ⟨S4096x1, .f32⟩
  | 122 => ⟨S_, .f32⟩
  | 123 => ⟨S4096x1, .f32⟩
  | 124 => ⟨S4096x1, .f32⟩
  | 125 => ⟨S4096x128, .f32⟩
  | 126 => ⟨S4096x128, .f32⟩
  | 127 => ⟨S1x128x128, .f32⟩
  | _ => ⟨S4096, .i32⟩

abbrev hbmTy0_3 (i : Nat) : BufTy := match i % 128 with
  | 0 => ⟨S128x128, .f32⟩
  | 1 => ⟨S4096x128, .f32⟩
  | 2 => ⟨S_, .i32⟩
  | 3 => ⟨S4096, .i32⟩
  | 4 => ⟨S4096, .i1⟩
  | 5 => ⟨S_, .i32⟩
  | 6 => ⟨S4096, .i32⟩
  | 7 => ⟨S4096, .i32⟩
  | 8 => ⟨S4096, .i32⟩
  | 9 => ⟨S4096x1, .i32⟩
  | 10 => ⟨S4096x128, .f32⟩
  | 11 => ⟨S4096x128, .f32⟩
  | 12 => ⟨S_, .f32⟩
  | 13 => ⟨S4096, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x128, .f32⟩
  | 20 => ⟨S4096x128, .f32⟩
  | 21 => ⟨S4096x128, .f32⟩
  | 22 => ⟨S_, .f32⟩
  | 23 => ⟨S4096, .f32⟩
  | 24 => ⟨S_, .f32⟩
  | 25 => ⟨S4096, .f32⟩
  | 26 => ⟨S4096, .f32⟩
  | 27 => ⟨S4096, .f32⟩
  | 28 => ⟨S128x4096, .f32⟩
  | 29 => ⟨S4096x4096, .f32⟩
  | 30 => ⟨S_, .f32⟩
  | 31 => ⟨S4096x4096, .f32⟩
  | 32 => ⟨S4096x4096, .f32⟩
  | 33 => ⟨S4096x4096, .f32⟩
  | 34 => ⟨S_, .f32⟩
  | 35 => ⟨S4096, .f32⟩
  | 36 => ⟨S_, .f32⟩
  | 37 => ⟨S4096, .f32⟩
  | 38 => ⟨S4096, .f32⟩
  | 39 => ⟨S4096, .f32⟩
  | 40 => ⟨S_, .f32⟩
  | 41 => ⟨S4096, .f32⟩
  | 42 => ⟨S4096, .f32⟩
  | 43 => ⟨S4096, .f32⟩
  | 44 => ⟨S4096, .f32⟩
  | 45 => ⟨S_, .f32⟩
  | 46 => ⟨S_, .f32⟩
  | 47 => ⟨S_, .f32⟩
  | 48 => ⟨S_, .i32⟩
  | 49 => ⟨S4096, .i32⟩
  | 50 => ⟨S4096, .i1⟩
  | 51 => ⟨S_, .i32⟩
  | 52 => ⟨S4096, .i32⟩
  | 53 => ⟨S4096, .i32⟩
  | 54 => ⟨S4096, .i32⟩
  | 55 => ⟨S4096x1, .i32⟩
  | 56 => ⟨S4096x128, .f32⟩
  | 57 => ⟨S4096x128, .f32⟩
  | 58 => ⟨S_, .f32⟩
  | 59 => ⟨S4096, .f32⟩
  | 60 => ⟨S4096x1, .f32⟩
  | 61 => ⟨S4096x1, .f32⟩
  | 62 => ⟨S_, .f32⟩
  | 63 => ⟨S4096x1, .f32⟩
  | 64 => ⟨S4096x1, .f32⟩
  | 65 => ⟨S4096x128, .f32⟩
  | 66 => ⟨S4096x128, .f32⟩
  | 67 => ⟨S1x128x128, .f32⟩
  | 68 => ⟨S128x128, .f32⟩
  | 69 => ⟨S4096x128, .f32⟩
  | 70 => ⟨S_, .i32⟩
  | 71 => ⟨S4096, .i32⟩
  | 72 => ⟨S4096, .i1⟩
  | 73 => ⟨S_, .i32⟩
  | 74 => ⟨S4096, .i32⟩
  | 75 => ⟨S4096, .i32⟩
  | 76 => ⟨S4096, .i32⟩
  | 77 => ⟨S4096x1, .i32⟩
  | 78 => ⟨S4096x128, .f32⟩
  | 79 => ⟨S4096x128, .f32⟩
  | 80 => ⟨S_, .f32⟩
  | 81 => ⟨S4096, .f32⟩
  | 82 => ⟨S4096x1, .f32⟩
  | 83 => ⟨S4096x1, .f32⟩
  | 84 => ⟨S_, .f32⟩
  | 85 => ⟨S4096x1, .f32⟩
  | 86 => ⟨S4096x1, .f32⟩
  | 87 => ⟨S4096x128, .f32⟩
  | 88 => ⟨S4096x128, .f32⟩
  | 89 => ⟨S4096x128, .f32⟩
  | 90 => ⟨S_, .f32⟩
  | 91 => ⟨S4096, .f32⟩
  | 92 => ⟨S_, .f32⟩
  | 93 => ⟨S4096, .f32⟩
  | 94 => ⟨S4096, .f32⟩
  | 95 => ⟨S4096, .f32⟩
  | 96 => ⟨S128x4096, .f32⟩
  | 97 => ⟨S4096x4096, .f32⟩
  | 98 => ⟨S_, .f32⟩
  | 99 => ⟨S4096x4096, .f32⟩
  | 100 => ⟨S4096x4096, .f32⟩
  | 101 => ⟨S4096x4096, .f32⟩
  | 102 => ⟨S_, .f32⟩
  | 103 => ⟨S4096, .f32⟩
  | 104 => ⟨S_, .f32⟩
  | 105 => ⟨S4096, .f32⟩
  | 106 => ⟨S4096, .f32⟩
  | 107 => ⟨S4096, .f32⟩
  | 108 => ⟨S_, .f32⟩
  | 109 => ⟨S4096, .f32⟩
  | 110 => ⟨S4096, .f32⟩
  | 111 => ⟨S4096, .f32⟩
  | 112 => ⟨S4096, .f32⟩
  | 113 => ⟨S_, .f32⟩
  | 114 => ⟨S_, .f32⟩
  | 115 => ⟨S_, .f32⟩
  | 116 => ⟨S_, .i32⟩
  | 117 => ⟨S4096, .i32⟩
  | 118 => ⟨S4096, .i1⟩
  | 119 => ⟨S_, .i32⟩
  | 120 => ⟨S4096, .i32⟩
  | 121 => ⟨S4096, .i32⟩
  | 122 => ⟨S4096, .i32⟩
  | 123 => ⟨S4096x1, .i32⟩
  | 124 => ⟨S4096x128, .f32⟩
  | 125 => ⟨S4096x128, .f32⟩
  | 126 => ⟨S_, .f32⟩
  | 127 => ⟨S4096, .f32⟩
  | _ => ⟨S4096, .i32⟩

abbrev hbmTy0_4 (i : Nat) : BufTy := match i % 128 with
  | 0 => ⟨S4096x1, .f32⟩
  | 1 => ⟨S4096x1, .f32⟩
  | 2 => ⟨S_, .f32⟩
  | 3 => ⟨S4096x1, .f32⟩
  | 4 => ⟨S4096x1, .f32⟩
  | 5 => ⟨S4096x128, .f32⟩
  | 6 => ⟨S4096x128, .f32⟩
  | 7 => ⟨S1x128x128, .f32⟩
  | 8 => ⟨S128x128, .f32⟩
  | 9 => ⟨S4096x128, .f32⟩
  | 10 => ⟨S_, .i32⟩
  | 11 => ⟨S4096, .i32⟩
  | 12 => ⟨S4096, .i1⟩
  | 13 => ⟨S_, .i32⟩
  | 14 => ⟨S4096, .i32⟩
  | 15 => ⟨S4096, .i32⟩
  | 16 => ⟨S4096, .i32⟩
  | 17 => ⟨S4096x1, .i32⟩
  | 18 => ⟨S4096x128, .f32⟩
  | 19 => ⟨S4096x128, .f32⟩
  | 20 => ⟨S_, .f32⟩
  | 21 => ⟨S4096, .f32⟩
  | 22 => ⟨S4096x1, .f32⟩
  | 23 => ⟨S4096x1, .f32⟩
  | 24 => ⟨S_, .f32⟩
  | 25 => ⟨S4096x1, .f32⟩
  | 26 => ⟨S4096x1, .f32⟩
  | 27 => ⟨S4096x128, .f32⟩
  | 28 => ⟨S4096x128, .f32⟩
  | 29 => ⟨S4096x128, .f32⟩
  | 30 => ⟨S_, .f32⟩
  | 31 => ⟨S4096, .f32⟩
  | 32 => ⟨S_, .f32⟩
  | 33 => ⟨S4096, .f32⟩
  | 34 => ⟨S4096, .f32⟩
  | 35 => ⟨S4096, .f32⟩
  | 36 => ⟨S128x4096, .f32⟩
  | 37 => ⟨S4096x4096, .f32⟩
  | 38 => ⟨S_, .f32⟩
  | 39 => ⟨S4096x4096, .f32⟩
  | 40 => ⟨S4096x4096, .f32⟩
  | 41 => ⟨S4096x4096, .f32⟩
  | 42 => ⟨S_, .f32⟩
  | 43 => ⟨S4096, .f32⟩
  | 44 => ⟨S_, .f32⟩
  | 45 => ⟨S4096, .f32⟩
  | 46 => ⟨S4096, .f32⟩
  | 47 => ⟨S4096, .f32⟩
  | 48 => ⟨S_, .f32⟩
  | 49 => ⟨S4096, .f32⟩
  | 50 => ⟨S4096, .f32⟩
  | 51 => ⟨S4096, .f32⟩
  | 52 => ⟨S4096, .f32⟩
  | 53 => ⟨S_, .f32⟩
  | 54 => ⟨S_, .f32⟩
  | 55 => ⟨S_, .f32⟩
  | 56 => ⟨S100000x128, .f32⟩
  | 57 => ⟨S_, .f32⟩
  | 58 => ⟨S_, .f32⟩
  | 59 => ⟨S50000x128, .f32⟩
  | 60 => ⟨S_, .f32⟩
  | 61 => ⟨S_, .f32⟩
  | 62 => ⟨S_, .f32⟩
  | 63 => ⟨S128x128, .f32⟩
  | 64 => ⟨S_, .f32⟩
  | 65 => ⟨S_, .f32⟩
  | 66 => ⟨S_, .f32⟩
  | 67 => ⟨S128x128, .f32⟩
  | 68 => ⟨S_, .f32⟩
  | 69 => ⟨S_, .f32⟩
  | 70 => ⟨S_, .f32⟩
  | _ => ⟨S4096, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_8 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_9 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_10 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_11 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_12 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_13 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_14 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_15 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_c_16 : Ref sig .tc := ⟨.hbm, 139, rfl⟩
abbrev main_v109 : Ref sig .tc := ⟨.hbm, 140, rfl⟩
abbrev main_v110 : Ref sig .tc := ⟨.hbm, 141, rfl⟩
abbrev main_c_17 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_cst_18 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_cst_19 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_c_20 : Ref sig .tc := ⟨.hbm, 159, rfl⟩
abbrev main_v125 : Ref sig .tc := ⟨.hbm, 160, rfl⟩
abbrev main_v126 : Ref sig .tc := ⟨.hbm, 161, rfl⟩
abbrev main_c_21 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_cst_22 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_cst_23 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_cst_24 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_cst_25 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_cst_26 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_cst_27 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_cst_28 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_cst_29 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_cst_30 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_cst_31 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_cst_32 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_cst_33 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_v212 : Ref sig .tc := ⟨.hbm, 260, rfl⟩
abbrev main_v213 : Ref sig .tc := ⟨.hbm, 261, rfl⟩
abbrev main_cst_34 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_cst_35 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_c_36 : Ref sig .tc := ⟨.hbm, 272, rfl⟩
abbrev main_v222 : Ref sig .tc := ⟨.hbm, 273, rfl⟩
abbrev main_v223 : Ref sig .tc := ⟨.hbm, 274, rfl⟩
abbrev main_c_37 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_c_38 : Ref sig .tc := ⟨.hbm, 281, rfl⟩
abbrev main_v229 : Ref sig .tc := ⟨.hbm, 282, rfl⟩
abbrev main_v230 : Ref sig .tc := ⟨.hbm, 283, rfl⟩
abbrev main_c_39 : Ref sig .tc := ⟨.hbm, 284, rfl⟩
abbrev main_v231 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_cst_40 : Ref sig .tc := ⟨.hbm, 291, rfl⟩
abbrev main_v237 : Ref sig .tc := ⟨.hbm, 292, rfl⟩
abbrev main_v238 : Ref sig .tc := ⟨.hbm, 293, rfl⟩
abbrev main_v239 : Ref sig .tc := ⟨.hbm, 294, rfl⟩
abbrev main_c_41 : Ref sig .tc := ⟨.hbm, 295, rfl⟩
abbrev main_v240 : Ref sig .tc := ⟨.hbm, 296, rfl⟩
abbrev main_v241 : Ref sig .tc := ⟨.hbm, 297, rfl⟩
abbrev main_c_42 : Ref sig .tc := ⟨.hbm, 298, rfl⟩
abbrev main_v242 : Ref sig .tc := ⟨.hbm, 299, rfl⟩
abbrev main_v243 : Ref sig .tc := ⟨.hbm, 300, rfl⟩
abbrev main_v244 : Ref sig .tc := ⟨.hbm, 301, rfl⟩
abbrev main_v245 : Ref sig .tc := ⟨.hbm, 302, rfl⟩
abbrev main_v246 : Ref sig .tc := ⟨.hbm, 303, rfl⟩
abbrev main_call2_v0 : Ref sig .tc := ⟨.hbm, 304, rfl⟩
abbrev main_call2_cst : Ref sig .tc := ⟨.hbm, 305, rfl⟩
abbrev main_call2_v1 : Ref sig .tc := ⟨.hbm, 306, rfl⟩
abbrev main_call2_v2 : Ref sig .tc := ⟨.hbm, 307, rfl⟩
abbrev main_v247 : Ref sig .tc := ⟨.hbm, 308, rfl⟩
abbrev main_cst_43 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_c_44 : Ref sig .tc := ⟨.hbm, 317, rfl⟩
abbrev main_v255 : Ref sig .tc := ⟨.hbm, 318, rfl⟩
abbrev main_v256 : Ref sig .tc := ⟨.hbm, 319, rfl⟩
abbrev main_c_45 : Ref sig .tc := ⟨.hbm, 320, rfl⟩
abbrev main_v257 : Ref sig .tc := ⟨.hbm, 321, rfl⟩
abbrev main_v258 : Ref sig .tc := ⟨.hbm, 322, rfl⟩
abbrev main_v259 : Ref sig .tc := ⟨.hbm, 323, rfl⟩
abbrev main_v260 : Ref sig .tc := ⟨.hbm, 324, rfl⟩
abbrev main_v261 : Ref sig .tc := ⟨.hbm, 325, rfl⟩
abbrev main_call3_v0 : Ref sig .tc := ⟨.hbm, 326, rfl⟩
abbrev main_call3_cst : Ref sig .tc := ⟨.hbm, 327, rfl⟩
abbrev main_call3_v1 : Ref sig .tc := ⟨.hbm, 328, rfl⟩
abbrev main_call3_v2 : Ref sig .tc := ⟨.hbm, 329, rfl⟩
abbrev main_v262 : Ref sig .tc := ⟨.hbm, 330, rfl⟩
abbrev main_cst_46 : Ref sig .tc := ⟨.hbm, 331, rfl⟩
abbrev main_v263 : Ref sig .tc := ⟨.hbm, 332, rfl⟩
abbrev main_v264 : Ref sig .tc := ⟨.hbm, 333, rfl⟩
abbrev main_v265 : Ref sig .tc := ⟨.hbm, 334, rfl⟩
abbrev main_v266 : Ref sig .tc := ⟨.hbm, 335, rfl⟩
abbrev main_v267 : Ref sig .tc := ⟨.hbm, 336, rfl⟩
abbrev main_cst_47 : Ref sig .tc := ⟨.hbm, 337, rfl⟩
abbrev main_v268 : Ref sig .tc := ⟨.hbm, 338, rfl⟩
abbrev main_cst_48 : Ref sig .tc := ⟨.hbm, 339, rfl⟩
abbrev main_v269 : Ref sig .tc := ⟨.hbm, 340, rfl⟩
abbrev main_v270 : Ref sig .tc := ⟨.hbm, 341, rfl⟩
abbrev main_v271 : Ref sig .tc := ⟨.hbm, 342, rfl⟩
abbrev main_v272 : Ref sig .tc := ⟨.hbm, 343, rfl⟩
abbrev main_v273 : Ref sig .tc := ⟨.hbm, 344, rfl⟩
abbrev main_cst_49 : Ref sig .tc := ⟨.hbm, 345, rfl⟩
abbrev main_v274 : Ref sig .tc := ⟨.hbm, 346, rfl⟩
abbrev main_v275 : Ref sig .tc := ⟨.hbm, 347, rfl⟩
abbrev main_v276 : Ref sig .tc := ⟨.hbm, 348, rfl⟩
abbrev main_cst_50 : Ref sig .tc := ⟨.hbm, 349, rfl⟩
abbrev main_v277 : Ref sig .tc := ⟨.hbm, 350, rfl⟩
abbrev main_cst_51 : Ref sig .tc := ⟨.hbm, 351, rfl⟩
abbrev main_v278 : Ref sig .tc := ⟨.hbm, 352, rfl⟩
abbrev main_v279 : Ref sig .tc := ⟨.hbm, 353, rfl⟩
abbrev main_v280 : Ref sig .tc := ⟨.hbm, 354, rfl⟩
abbrev main_cst_52 : Ref sig .tc := ⟨.hbm, 355, rfl⟩
abbrev main_v281 : Ref sig .tc := ⟨.hbm, 356, rfl⟩
abbrev main_v282 : Ref sig .tc := ⟨.hbm, 357, rfl⟩
abbrev main_v283 : Ref sig .tc := ⟨.hbm, 358, rfl⟩
abbrev main_v284 : Ref sig .tc := ⟨.hbm, 359, rfl⟩
abbrev main_cst_53 : Ref sig .tc := ⟨.hbm, 360, rfl⟩
abbrev main_v285 : Ref sig .tc := ⟨.hbm, 361, rfl⟩
abbrev main_cst_54 : Ref sig .tc := ⟨.hbm, 362, rfl⟩
abbrev main_v286 : Ref sig .tc := ⟨.hbm, 363, rfl⟩
abbrev main_c_55 : Ref sig .tc := ⟨.hbm, 364, rfl⟩
abbrev main_v287 : Ref sig .tc := ⟨.hbm, 365, rfl⟩
abbrev main_v288 : Ref sig .tc := ⟨.hbm, 366, rfl⟩
abbrev main_c_56 : Ref sig .tc := ⟨.hbm, 367, rfl⟩
abbrev main_v289 : Ref sig .tc := ⟨.hbm, 368, rfl⟩
abbrev main_v290 : Ref sig .tc := ⟨.hbm, 369, rfl⟩
abbrev main_v291 : Ref sig .tc := ⟨.hbm, 370, rfl⟩
abbrev main_v292 : Ref sig .tc := ⟨.hbm, 371, rfl⟩
abbrev main_v293 : Ref sig .tc := ⟨.hbm, 372, rfl⟩
abbrev main_call4_v0 : Ref sig .tc := ⟨.hbm, 373, rfl⟩
abbrev main_call4_cst : Ref sig .tc := ⟨.hbm, 374, rfl⟩
abbrev main_call4_v1 : Ref sig .tc := ⟨.hbm, 375, rfl⟩
abbrev main_call4_v2 : Ref sig .tc := ⟨.hbm, 376, rfl⟩
abbrev main_v294 : Ref sig .tc := ⟨.hbm, 377, rfl⟩
abbrev main_cst_57 : Ref sig .tc := ⟨.hbm, 378, rfl⟩
abbrev main_v295 : Ref sig .tc := ⟨.hbm, 379, rfl⟩
abbrev main_v296 : Ref sig .tc := ⟨.hbm, 380, rfl⟩
abbrev main_v297 : Ref sig .tc := ⟨.hbm, 381, rfl⟩
abbrev main_v298 : Ref sig .tc := ⟨.hbm, 382, rfl⟩
abbrev main_v299 : Ref sig .tc := ⟨.hbm, 383, rfl⟩
abbrev main_v300 : Ref sig .tc := ⟨.hbm, 384, rfl⟩
abbrev main_v301 : Ref sig .tc := ⟨.hbm, 385, rfl⟩
abbrev main_c_58 : Ref sig .tc := ⟨.hbm, 386, rfl⟩
abbrev main_v302 : Ref sig .tc := ⟨.hbm, 387, rfl⟩
abbrev main_v303 : Ref sig .tc := ⟨.hbm, 388, rfl⟩
abbrev main_c_59 : Ref sig .tc := ⟨.hbm, 389, rfl⟩
abbrev main_v304 : Ref sig .tc := ⟨.hbm, 390, rfl⟩
abbrev main_v305 : Ref sig .tc := ⟨.hbm, 391, rfl⟩
abbrev main_v306 : Ref sig .tc := ⟨.hbm, 392, rfl⟩
abbrev main_v307 : Ref sig .tc := ⟨.hbm, 393, rfl⟩
abbrev main_v308 : Ref sig .tc := ⟨.hbm, 394, rfl⟩
abbrev main_call5_v0 : Ref sig .tc := ⟨.hbm, 395, rfl⟩
abbrev main_call5_cst : Ref sig .tc := ⟨.hbm, 396, rfl⟩
abbrev main_call5_v1 : Ref sig .tc := ⟨.hbm, 397, rfl⟩
abbrev main_call5_v2 : Ref sig .tc := ⟨.hbm, 398, rfl⟩
abbrev main_v309 : Ref sig .tc := ⟨.hbm, 399, rfl⟩
abbrev main_cst_60 : Ref sig .tc := ⟨.hbm, 400, rfl⟩
abbrev main_v310 : Ref sig .tc := ⟨.hbm, 401, rfl⟩
abbrev main_v311 : Ref sig .tc := ⟨.hbm, 402, rfl⟩
abbrev main_v312 : Ref sig .tc := ⟨.hbm, 403, rfl⟩
abbrev main_v313 : Ref sig .tc := ⟨.hbm, 404, rfl⟩
abbrev main_v314 : Ref sig .tc := ⟨.hbm, 405, rfl⟩
abbrev main_cst_61 : Ref sig .tc := ⟨.hbm, 406, rfl⟩
abbrev main_v315 : Ref sig .tc := ⟨.hbm, 407, rfl⟩
abbrev main_cst_62 : Ref sig .tc := ⟨.hbm, 408, rfl⟩
abbrev main_v316 : Ref sig .tc := ⟨.hbm, 409, rfl⟩
abbrev main_v317 : Ref sig .tc := ⟨.hbm, 410, rfl⟩
abbrev main_v318 : Ref sig .tc := ⟨.hbm, 411, rfl⟩
abbrev main_v319 : Ref sig .tc := ⟨.hbm, 412, rfl⟩
abbrev main_v320 : Ref sig .tc := ⟨.hbm, 413, rfl⟩
abbrev main_cst_63 : Ref sig .tc := ⟨.hbm, 414, rfl⟩
abbrev main_v321 : Ref sig .tc := ⟨.hbm, 415, rfl⟩
abbrev main_v322 : Ref sig .tc := ⟨.hbm, 416, rfl⟩
abbrev main_v323 : Ref sig .tc := ⟨.hbm, 417, rfl⟩
abbrev main_cst_64 : Ref sig .tc := ⟨.hbm, 418, rfl⟩
abbrev main_v324 : Ref sig .tc := ⟨.hbm, 419, rfl⟩
abbrev main_cst_65 : Ref sig .tc := ⟨.hbm, 420, rfl⟩
abbrev main_v325 : Ref sig .tc := ⟨.hbm, 421, rfl⟩
abbrev main_v326 : Ref sig .tc := ⟨.hbm, 422, rfl⟩
abbrev main_v327 : Ref sig .tc := ⟨.hbm, 423, rfl⟩
abbrev main_cst_66 : Ref sig .tc := ⟨.hbm, 424, rfl⟩
abbrev main_v328 : Ref sig .tc := ⟨.hbm, 425, rfl⟩
abbrev main_v329 : Ref sig .tc := ⟨.hbm, 426, rfl⟩
abbrev main_v330 : Ref sig .tc := ⟨.hbm, 427, rfl⟩
abbrev main_v331 : Ref sig .tc := ⟨.hbm, 428, rfl⟩
abbrev main_cst_67 : Ref sig .tc := ⟨.hbm, 429, rfl⟩
abbrev main_v332 : Ref sig .tc := ⟨.hbm, 430, rfl⟩
abbrev main_v333 : Ref sig .tc := ⟨.hbm, 431, rfl⟩
abbrev main_c_68 : Ref sig .tc := ⟨.hbm, 432, rfl⟩
abbrev main_v334 : Ref sig .tc := ⟨.hbm, 433, rfl⟩
abbrev main_v335 : Ref sig .tc := ⟨.hbm, 434, rfl⟩
abbrev main_c_69 : Ref sig .tc := ⟨.hbm, 435, rfl⟩
abbrev main_v336 : Ref sig .tc := ⟨.hbm, 436, rfl⟩
abbrev main_v337 : Ref sig .tc := ⟨.hbm, 437, rfl⟩
abbrev main_v338 : Ref sig .tc := ⟨.hbm, 438, rfl⟩
abbrev main_v339 : Ref sig .tc := ⟨.hbm, 439, rfl⟩
abbrev main_v340 : Ref sig .tc := ⟨.hbm, 440, rfl⟩
abbrev main_call6_v0 : Ref sig .tc := ⟨.hbm, 441, rfl⟩
abbrev main_call6_cst : Ref sig .tc := ⟨.hbm, 442, rfl⟩
abbrev main_call6_v1 : Ref sig .tc := ⟨.hbm, 443, rfl⟩
abbrev main_call6_v2 : Ref sig .tc := ⟨.hbm, 444, rfl⟩
abbrev main_v341 : Ref sig .tc := ⟨.hbm, 445, rfl⟩
abbrev main_cst_70 : Ref sig .tc := ⟨.hbm, 446, rfl⟩
abbrev main_v342 : Ref sig .tc := ⟨.hbm, 447, rfl⟩
abbrev main_v343 : Ref sig .tc := ⟨.hbm, 448, rfl⟩
abbrev main_v344 : Ref sig .tc := ⟨.hbm, 449, rfl⟩
abbrev main_v345 : Ref sig .tc := ⟨.hbm, 450, rfl⟩
abbrev main_v346 : Ref sig .tc := ⟨.hbm, 451, rfl⟩
abbrev main_v347 : Ref sig .tc := ⟨.hbm, 452, rfl⟩
abbrev main_v348 : Ref sig .tc := ⟨.hbm, 453, rfl⟩
abbrev main_c_71 : Ref sig .tc := ⟨.hbm, 454, rfl⟩
abbrev main_v349 : Ref sig .tc := ⟨.hbm, 455, rfl⟩
abbrev main_v350 : Ref sig .tc := ⟨.hbm, 456, rfl⟩
abbrev main_c_72 : Ref sig .tc := ⟨.hbm, 457, rfl⟩
abbrev main_v351 : Ref sig .tc := ⟨.hbm, 458, rfl⟩
abbrev main_v352 : Ref sig .tc := ⟨.hbm, 459, rfl⟩
abbrev main_v353 : Ref sig .tc := ⟨.hbm, 460, rfl⟩
abbrev main_v354 : Ref sig .tc := ⟨.hbm, 461, rfl⟩
abbrev main_v355 : Ref sig .tc := ⟨.hbm, 462, rfl⟩
abbrev main_call7_v0 : Ref sig .tc := ⟨.hbm, 463, rfl⟩
abbrev main_call7_cst : Ref sig .tc := ⟨.hbm, 464, rfl⟩
abbrev main_call7_v1 : Ref sig .tc := ⟨.hbm, 465, rfl⟩
abbrev main_call7_v2 : Ref sig .tc := ⟨.hbm, 466, rfl⟩
abbrev main_v356 : Ref sig .tc := ⟨.hbm, 467, rfl⟩
abbrev main_cst_73 : Ref sig .tc := ⟨.hbm, 468, rfl⟩
abbrev main_v357 : Ref sig .tc := ⟨.hbm, 469, rfl⟩
abbrev main_v358 : Ref sig .tc := ⟨.hbm, 470, rfl⟩
abbrev main_v359 : Ref sig .tc := ⟨.hbm, 471, rfl⟩
abbrev main_v360 : Ref sig .tc := ⟨.hbm, 472, rfl⟩
abbrev main_v361 : Ref sig .tc := ⟨.hbm, 473, rfl⟩
abbrev main_cst_74 : Ref sig .tc := ⟨.hbm, 474, rfl⟩
abbrev main_v362 : Ref sig .tc := ⟨.hbm, 475, rfl⟩
abbrev main_cst_75 : Ref sig .tc := ⟨.hbm, 476, rfl⟩
abbrev main_v363 : Ref sig .tc := ⟨.hbm, 477, rfl⟩
abbrev main_v364 : Ref sig .tc := ⟨.hbm, 478, rfl⟩
abbrev main_v365 : Ref sig .tc := ⟨.hbm, 479, rfl⟩
abbrev main_v366 : Ref sig .tc := ⟨.hbm, 480, rfl⟩
abbrev main_v367 : Ref sig .tc := ⟨.hbm, 481, rfl⟩
abbrev main_cst_76 : Ref sig .tc := ⟨.hbm, 482, rfl⟩
abbrev main_v368 : Ref sig .tc := ⟨.hbm, 483, rfl⟩
abbrev main_v369 : Ref sig .tc := ⟨.hbm, 484, rfl⟩
abbrev main_v370 : Ref sig .tc := ⟨.hbm, 485, rfl⟩
abbrev main_cst_77 : Ref sig .tc := ⟨.hbm, 486, rfl⟩
abbrev main_v371 : Ref sig .tc := ⟨.hbm, 487, rfl⟩
abbrev main_cst_78 : Ref sig .tc := ⟨.hbm, 488, rfl⟩
abbrev main_v372 : Ref sig .tc := ⟨.hbm, 489, rfl⟩
abbrev main_v373 : Ref sig .tc := ⟨.hbm, 490, rfl⟩
abbrev main_v374 : Ref sig .tc := ⟨.hbm, 491, rfl⟩
abbrev main_cst_79 : Ref sig .tc := ⟨.hbm, 492, rfl⟩
abbrev main_v375 : Ref sig .tc := ⟨.hbm, 493, rfl⟩
abbrev main_v376 : Ref sig .tc := ⟨.hbm, 494, rfl⟩
abbrev main_v377 : Ref sig .tc := ⟨.hbm, 495, rfl⟩
abbrev main_v378 : Ref sig .tc := ⟨.hbm, 496, rfl⟩
abbrev main_cst_80 : Ref sig .tc := ⟨.hbm, 497, rfl⟩
abbrev main_v379 : Ref sig .tc := ⟨.hbm, 498, rfl⟩
abbrev main_v380 : Ref sig .tc := ⟨.hbm, 499, rfl⟩
abbrev main_c_81 : Ref sig .tc := ⟨.hbm, 500, rfl⟩
abbrev main_v381 : Ref sig .tc := ⟨.hbm, 501, rfl⟩
abbrev main_v382 : Ref sig .tc := ⟨.hbm, 502, rfl⟩
abbrev main_c_82 : Ref sig .tc := ⟨.hbm, 503, rfl⟩
abbrev main_v383 : Ref sig .tc := ⟨.hbm, 504, rfl⟩
abbrev main_v384 : Ref sig .tc := ⟨.hbm, 505, rfl⟩
abbrev main_v385 : Ref sig .tc := ⟨.hbm, 506, rfl⟩
abbrev main_v386 : Ref sig .tc := ⟨.hbm, 507, rfl⟩
abbrev main_v387 : Ref sig .tc := ⟨.hbm, 508, rfl⟩
abbrev main_call8_v0 : Ref sig .tc := ⟨.hbm, 509, rfl⟩
abbrev main_call8_cst : Ref sig .tc := ⟨.hbm, 510, rfl⟩
abbrev main_call8_v1 : Ref sig .tc := ⟨.hbm, 511, rfl⟩
abbrev main_call8_v2 : Ref sig .tc := ⟨.hbm, 512, rfl⟩
abbrev main_v388 : Ref sig .tc := ⟨.hbm, 513, rfl⟩
abbrev main_cst_83 : Ref sig .tc := ⟨.hbm, 514, rfl⟩
abbrev main_v389 : Ref sig .tc := ⟨.hbm, 515, rfl⟩
abbrev main_v390 : Ref sig .tc := ⟨.hbm, 516, rfl⟩
abbrev main_v391 : Ref sig .tc := ⟨.hbm, 517, rfl⟩
abbrev main_v392 : Ref sig .tc := ⟨.hbm, 518, rfl⟩
abbrev main_v393 : Ref sig .tc := ⟨.hbm, 519, rfl⟩
abbrev main_v394 : Ref sig .tc := ⟨.hbm, 520, rfl⟩
abbrev main_v395 : Ref sig .tc := ⟨.hbm, 521, rfl⟩
abbrev main_c_84 : Ref sig .tc := ⟨.hbm, 522, rfl⟩
abbrev main_v396 : Ref sig .tc := ⟨.hbm, 523, rfl⟩
abbrev main_v397 : Ref sig .tc := ⟨.hbm, 524, rfl⟩
abbrev main_c_85 : Ref sig .tc := ⟨.hbm, 525, rfl⟩
abbrev main_v398 : Ref sig .tc := ⟨.hbm, 526, rfl⟩
abbrev main_v399 : Ref sig .tc := ⟨.hbm, 527, rfl⟩
abbrev main_v400 : Ref sig .tc := ⟨.hbm, 528, rfl⟩
abbrev main_v401 : Ref sig .tc := ⟨.hbm, 529, rfl⟩
abbrev main_v402 : Ref sig .tc := ⟨.hbm, 530, rfl⟩
abbrev main_call9_v0 : Ref sig .tc := ⟨.hbm, 531, rfl⟩
abbrev main_call9_cst : Ref sig .tc := ⟨.hbm, 532, rfl⟩
abbrev main_call9_v1 : Ref sig .tc := ⟨.hbm, 533, rfl⟩
abbrev main_call9_v2 : Ref sig .tc := ⟨.hbm, 534, rfl⟩
abbrev main_v403 : Ref sig .tc := ⟨.hbm, 535, rfl⟩
abbrev main_cst_86 : Ref sig .tc := ⟨.hbm, 536, rfl⟩
abbrev main_v404 : Ref sig .tc := ⟨.hbm, 537, rfl⟩
abbrev main_v405 : Ref sig .tc := ⟨.hbm, 538, rfl⟩
abbrev main_v406 : Ref sig .tc := ⟨.hbm, 539, rfl⟩
abbrev main_v407 : Ref sig .tc := ⟨.hbm, 540, rfl⟩
abbrev main_v408 : Ref sig .tc := ⟨.hbm, 541, rfl⟩
abbrev main_cst_87 : Ref sig .tc := ⟨.hbm, 542, rfl⟩
abbrev main_v409 : Ref sig .tc := ⟨.hbm, 543, rfl⟩
abbrev main_cst_88 : Ref sig .tc := ⟨.hbm, 544, rfl⟩
abbrev main_v410 : Ref sig .tc := ⟨.hbm, 545, rfl⟩
abbrev main_v411 : Ref sig .tc := ⟨.hbm, 546, rfl⟩
abbrev main_v412 : Ref sig .tc := ⟨.hbm, 547, rfl⟩
abbrev main_v413 : Ref sig .tc := ⟨.hbm, 548, rfl⟩
abbrev main_v414 : Ref sig .tc := ⟨.hbm, 549, rfl⟩
abbrev main_cst_89 : Ref sig .tc := ⟨.hbm, 550, rfl⟩
abbrev main_v415 : Ref sig .tc := ⟨.hbm, 551, rfl⟩
abbrev main_v416 : Ref sig .tc := ⟨.hbm, 552, rfl⟩
abbrev main_v417 : Ref sig .tc := ⟨.hbm, 553, rfl⟩
abbrev main_cst_90 : Ref sig .tc := ⟨.hbm, 554, rfl⟩
abbrev main_v418 : Ref sig .tc := ⟨.hbm, 555, rfl⟩
abbrev main_cst_91 : Ref sig .tc := ⟨.hbm, 556, rfl⟩
abbrev main_v419 : Ref sig .tc := ⟨.hbm, 557, rfl⟩
abbrev main_v420 : Ref sig .tc := ⟨.hbm, 558, rfl⟩
abbrev main_v421 : Ref sig .tc := ⟨.hbm, 559, rfl⟩
abbrev main_cst_92 : Ref sig .tc := ⟨.hbm, 560, rfl⟩
abbrev main_v422 : Ref sig .tc := ⟨.hbm, 561, rfl⟩
abbrev main_v423 : Ref sig .tc := ⟨.hbm, 562, rfl⟩
abbrev main_v424 : Ref sig .tc := ⟨.hbm, 563, rfl⟩
abbrev main_v425 : Ref sig .tc := ⟨.hbm, 564, rfl⟩
abbrev main_cst_93 : Ref sig .tc := ⟨.hbm, 565, rfl⟩
abbrev main_v426 : Ref sig .tc := ⟨.hbm, 566, rfl⟩
abbrev main_v427 : Ref sig .tc := ⟨.hbm, 567, rfl⟩
abbrev main_v428 : Ref sig .tc := ⟨.hbm, 568, rfl⟩
abbrev main_cst_94 : Ref sig .tc := ⟨.hbm, 569, rfl⟩
abbrev main_v429 : Ref sig .tc := ⟨.hbm, 570, rfl⟩
abbrev main_v430 : Ref sig .tc := ⟨.hbm, 571, rfl⟩
abbrev main_cst_95 : Ref sig .tc := ⟨.hbm, 572, rfl⟩
abbrev main_v431 : Ref sig .tc := ⟨.hbm, 573, rfl⟩
abbrev main_v432 : Ref sig .tc := ⟨.hbm, 574, rfl⟩
abbrev main_v433 : Ref sig .tc := ⟨.hbm, 575, rfl⟩
abbrev main_cst_96 : Ref sig .tc := ⟨.hbm, 576, rfl⟩
abbrev main_v434 : Ref sig .tc := ⟨.hbm, 577, rfl⟩
abbrev main_v435 : Ref sig .tc := ⟨.hbm, 578, rfl⟩
abbrev main_v436 : Ref sig .tc := ⟨.hbm, 579, rfl⟩
abbrev main_cst_97 : Ref sig .tc := ⟨.hbm, 580, rfl⟩
abbrev main_v437 : Ref sig .tc := ⟨.hbm, 581, rfl⟩
abbrev main_v438 : Ref sig .tc := ⟨.hbm, 582, rfl⟩

abbrev nD : Nat := 1
abbrev τ : Topo := Topo.v7x

variable {F : FTy → Type} [FloatOps F]

class Facts₀ : Prop where
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x128_0_1 : S1000000x1.BroadcastsInDim S1000000x128 (![0, 1] : Fin 2 → Fin S1000000x128.rank)
  bcast_S_S100000x128 : S_.BroadcastsInDim S100000x128 (![] : Fin 0 → Fin S100000x128.rank)
  bcast_S_S50000x128 : S_.BroadcastsInDim S50000x128 (![] : Fin 0 → Fin S50000x128.rank)
  slices_S2x3x128x128_S1x3x128x128_0_0_0_0 : S2x3x128x128.Slices ![0, 0, 0, 0] S1x3x128x128
  shapeCasts_S1x3x128x128_S3x128x128 : S1x3x128x128.ShapeCasts S3x128x128
  transposes_S100000x128_S128x100000_1_0 : S100000x128.Transposes [1, 0] S128x100000
  bcast_S_S128x128 : S_.BroadcastsInDim S128x128 (![] : Fin 0 → Fin S128x128.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128x128_S1x128x128_1_0_0 : S3x128x128.Slices ![1, 0, 0] S1x128x128
  slices_S3x128x128_S1x128x128_2_0_0 : S3x128x128.Slices ![2, 0, 0] S1x128x128
  transposes_S50000x128_S128x50000_1_0 : S50000x128.Transposes [1, 0] S128x50000
  slices_S2x3x128x128_S1x3x128x128_1_0_0_0 : S2x3x128x128.Slices ![1, 0, 0, 0] S1x3x128x128
  bcast_S_S4096 : S_.BroadcastsInDim S4096 (![] : Fin 0 → Fin S4096.rank)
  bcast_S4096_S4096x1_0 : S4096.BroadcastsInDim S4096x1 (![0] : Fin 1 → Fin S4096x1.rank)
  reducesTo_S4096x128_S4096_d1 : S4096x128.ReducesTo [1] S4096
  h_S_ : 0 < S_.numel
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  slices_S2x128x128_S1x128x128_0_0_0 : S2x128x128.Slices ![0, 0, 0] S1x128x128
  transposes_S4096x128_S128x4096_1_0 : S4096x128.Transposes [1, 0] S128x4096
  bcast_S_S4096x4096 : S_.BroadcastsInDim S4096x4096 (![] : Fin 0 → Fin S4096x4096.rank)
  reducesTo_S4096x4096_S4096_d1 : S4096x4096.ReducesTo [1] S4096
  reducesTo_S4096_S_d0 : S4096.ReducesTo [0] S_
  slices_S2x128x128_S1x128x128_1_0_0 : S2x128x128.Slices ![1, 0, 0] S1x128x128
  reducesTo_S100000x128_S_d0_1 : S100000x128.ReducesTo [0, 1] S_
  reducesTo_S50000x128_S_d0_1 : S50000x128.ReducesTo [0, 1] S_
  reducesTo_S128x128_S_d0_1 : S128x128.ReducesTo [0, 1] S_
  dot_S100000x128_S128x128_S100000x128_1_0_0_1_n_n_wf : DotDims.WF S100000x128 S128x128 S100000x128 [1] [0] [0] [1] [] []
  dot_S50000x128_S128x128_S50000x128_1_0_0_1_n_n_wf : DotDims.WF S50000x128 S128x128 S50000x128 [1] [0] [0] [1] [] []
  gather_S50000x128_S1000000x1_S1000000x128_1_0_n_n_0_1_1128_wf : GatherDims.WF S50000x128 S1000000x1 S1000000x128 [1] [0] [] [0] [] 1 ![1, 128]
  scatter_S100000x128_S1000000x1_S1000000x128_1_0_0_1_wf : ScatterDims.WF S100000x128 S1000000x1 S1000000x128 [1] [0] [0] 1
  gather_S100000x128_S1000000x1_S1000000x128_1_0_n_n_0_1_1128_wf : GatherDims.WF S100000x128 S1000000x1 S1000000x128 [1] [0] [] [0] [] 1 ![1, 128]
  scatter_S50000x128_S1000000x1_S1000000x128_1_0_0_1_wf : ScatterDims.WF S50000x128 S1000000x1 S1000000x128 [1] [0] [0] 1
  dot_S128x100000_S100000x128_S128x128_1_0_0_1_n_n_wf : DotDims.WF S128x100000 S100000x128 S128x128 [1] [0] [0] [1] [] []
  dot_S128x128_S128x128_S128x128_1_0_0_1_n_n_wf : DotDims.WF S128x128 S128x128 S128x128 [1] [0] [0] [1] [] []
  dot_S128x50000_S50000x128_S128x128_1_0_0_1_n_n_wf : DotDims.WF S128x50000 S50000x128 S128x128 [1] [0] [0] [1] [] []
  gather_S100000x128_S4096x1_S4096x128_1_0_n_n_0_1_1128_wf : GatherDims.WF S100000x128 S4096x1 S4096x128 [1] [0] [] [0] [] 1 ![1, 128]
  gather_S50000x128_S4096x1_S4096x128_1_0_n_n_0_1_1128_wf : GatherDims.WF S50000x128 S4096x1 S4096x128 [1] [0] [] [0] [] 1 ![1, 128]
  dot_S4096x128_S128x128_S4096x128_1_0_0_1_n_n_wf : DotDims.WF S4096x128 S128x128 S4096x128 [1] [0] [0] [1] [] []
  dot_S4096x128_S128x4096_S4096x4096_1_0_0_1_n_n_wf : DotDims.WF S4096x128 S128x4096 S4096x4096 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def dot_S128x100000_S100000x128_S128x128_1_0_0_1_n_n : DotDims S128x100000 S100000x128 S128x128 where
  lhsContracting := [1]
  rhsContracting := [0]
  lhsNonContracting := [0]
  rhsNonContracting := [1]
  lhsBatch := []
  rhsBatch := []
  wf := dot_S128x100000_S100000x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x50000_S50000x128_S128x128_1_0_0_1_n_n : DotDims S128x50000 S50000x128 S128x128 where
  lhsContracting := [1]
  rhsContracting := [0]
  lhsNonContracting := [0]
  rhsNonContracting := [1]
  lhsBatch := []
  rhsBatch := []
  wf := dot_S128x50000_S50000x128_S128x128_1_0_0_1_n_n_wf
def gather_S100000x128_S4096x1_S4096x128_1_0_n_n_0_1_1128 : GatherDims S100000x128 S4096x1 S4096x128 where
  offsetDims := [1]
  collapsedSliceDims := [0]
  operandBatchingDims := []
  startIndicesBatchingDims := []
  startIndexMap := [0]
  indexVectorDim := 1
  sliceSizes := ![1, 128]
  wf := gather_S100000x128_S4096x1_S4096x128_1_0_n_n_0_1_1128_wf
def gather_S50000x128_S4096x1_S4096x128_1_0_n_n_0_1_1128 : GatherDims S50000x128 S4096x1 S4096x128 where
  offsetDims := [1]
  collapsedSliceDims := [0]
  operandBatchingDims := []
  startIndicesBatchingDims := []
  startIndexMap := [0]
  indexVectorDim := 1
  sliceSizes := ![1, 128]
  wf := gather_S50000x128_S4096x1_S4096x128_1_0_n_n_0_1_1128_wf
def comparator_i32_d0 : BitVec 32 → BitVec 32 → BitVec 1 :=
  fun l r =>
    let v1 := IntOp.cmpi .slt l r
    v1
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf

class Facts : Prop extends Facts₀ where

variable [Facts]
-- ==== Proof.KB.Reg0.lean ====
import proofs.«126270_j6725918785969_1_alg».proof.Proof.Gen.Kernel.Launch
import proofs.«126270_j6725918785969_1_alg».proof.Proof.Gen.Kernel.Skeleton
import proofs.«126270_j6725918785969_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: a row-tiled matrix product

Two input windows and one output window. Window 0 cuts the left factor into blocks of rows (`S2000x128`);
window 1 is the whole right factor (`S128x128`), the same block at every grid point; window 2 is the block of
the result's rows (`S2000x128`). At a grid point the body loads both input blocks, multiplies them into a zero
accumulator and stores the result over the whole output block. Stated at a
parameter `V`, the buffer contents the region is entered from.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's current staging buffer holds its block of rows at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right factor's staging buffer holds the whole factor at every point: fetched at the first point, its
    block index never moves afterwards. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes: each buffer whole. -/
abbrev r0_a : Rect S2000x128 := Rect.unit (s := S2000x128) ![0, 0] S2000x128.size inb_S2000x128_S2000x128_0_0
abbrev r0_b : Rect S128x128 := Rect.unit (s := S128x128) ![0, 0] S128x128.size inb_S128x128_S128x128_0_0

/-- The output buffer after the body: its one store, of the product of the two input blocks. -/
def out0_2 (x0 : Vec F S2000x128 .f32) (x1 : Vec F S128x128 .f32) : Vec F S2000x128 .f32 :=
  View.canon [⟨r0_a, k0_pay1 (View.ld x0 r0_a) (View.ld x1 r0_b)⟩]

/-- The store covers the buffer. -/
theorem cover0_2 (p0 : Vec F S2000x128 .f32) (y : S2000x128.Idx) :
    ∃ pc ∈ ([⟨r0_a, p0⟩] : List (View.Piece (Elt F) S2000x128 .f32)), y ∈ pc.1.set :=
  View.cover_of_tiled [⟨r0_a, p0⟩] S2000x128.size (by rfl) y

set_option maxHeartbeats 1000000 in
/-- The body on whole staging memrefs, the inputs' at contents `x0`, `x1` and the output's at anything, runs to the
    continuation with the inputs' as they were and the output's at `out0_2 x0 x1`. -/
theorem sound_kernel0 (c : Dev nD) (E : Set ℕ) (i : grid0.Coords) (arg0 : Memref sig .tc .vmem S2000x128 .f32) (harg0 : arg0.IsWhole) (arg1 : Memref sig .tc .vmem S128x128 .f32) (harg1 : arg1.IsWhole) (arg2 : Memref sig .tc .vmem S2000x128 .f32) (harg2 : arg2.IsWhole)
    (x0 : Vec F S2000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__mm_big_kernel i arg0 harg0 arg1 harg1 arg2 harg2) K := by
  simp only [cc0__mm_big_kernel_eq_skeleton]; unfold cc0__mm_big_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at point `t` each
    input's buffer at its block and the output's at `out0_2` of them; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant
    and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KB.Reg1.lean ====
import proofs.«126270_j6725918785969_1_alg».proof.Proof.Gen.Kernel.Launch
import proofs.«126270_j6725918785969_1_alg».proof.Proof.Gen.Kernel.Skeleton
import proofs.«126270_j6725918785969_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: a row-tiled matrix product

Two input windows and one output window. Window 0 cuts the left factor into blocks of rows (`S2000x128`);
window 1 is the whole right factor (`S128x128`), the same block at every grid point; window 2 is the block of
the result's rows (`S2000x128`). At a grid point the body loads both input blocks, multiplies them into a zero
accumulator and stores the result over the whole output block. Stated at a
parameter `V`, the buffer contents the region is entered from.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left factor's current staging buffer holds its block of rows at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right factor's staging buffer holds the whole factor at every point: fetched at the first point, its
    block index never moves afterwards. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes: each buffer whole. -/
abbrev r1_a : Rect S2000x128 := Rect.unit (s := S2000x128) ![0, 0] S2000x128.size inb_S2000x128_S2000x128_0_0
abbrev r1_b : Rect S128x128 := Rect.unit (s := S128x128) ![0, 0] S128x128.size inb_S128x128_S128x128_0_0

/-- The output buffer after the body: its one store, of the product of the two input blocks. -/
def out1_2 (x0 : Vec F S2000x128 .f32) (x1 : Vec F S128x128 .f32) : Vec F S2000x128 .f32 :=
  View.canon [⟨r1_a, k1_pay1 (View.ld x0 r1_a) (View.ld x1 r1_b)⟩]

/-- The store covers the buffer. -/
theorem cover1_2 (p0 : Vec F S2000x128 .f32) (y : S2000x128.Idx) :
    ∃ pc ∈ ([⟨r1_a, p0⟩] : List (View.Piece (Elt F) S2000x128 .f32)), y ∈ pc.1.set :=
  View.cover_of_tiled [⟨r1_a, p0⟩] S2000x128.size (by rfl) y

set_option maxHeartbeats 1000000 in
/-- The body on whole staging memrefs, the inputs' at contents `x0`, `x1` and the output's at anything, runs to the
    continuation with the inputs' as they were and the output's at `out1_2 x0 x1`. -/
theorem sound_kernel1 (c : Dev nD) (E : Set ℕ) (i : grid1.Coords) (arg0 : Memref sig .tc .vmem S2000x128 .f32) (harg0 : arg0.IsWhole) (arg1 : Memref sig .tc .vmem S128x128 .f32) (harg1 : arg1.IsWhole) (arg2 : Memref sig .tc .vmem S2000x128 .f32) (harg2 : arg2.IsWhole)
    (x0 : Vec F S2000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__mm_big_kernel i arg0 harg0 arg1 harg1 arg2 harg2) K := by
  simp only [cc1__mm_big_kernel_eq_skeleton]; unfold cc1__mm_big_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core `c`: the arrays as the region finds them; after the body at point `t` each
    input's buffer at its block and the output's at `out1_2` of them; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant
    and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KB.Reg2.lean ====
import proofs.«126270_j6725918785969_1_alg».proof.Proof.Gen.Kernel.Launch
import proofs.«126270_j6725918785969_1_alg».proof.Proof.Gen.Kernel.Skeleton
import proofs.«126270_j6725918785969_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: the row-tiled leaky rectifier `max (x / 2) x`

One input window and one output window, both cut into blocks of 2000 rows; at every grid point the body
loads the input block, computes `max (0.5 · x) x` entry by entry and stores the result over the whole
output block. Stated at a parameter `V`, the buffer contents the region is entered from: the block each
window holds at a point, what the body leaves in the output buffer, the body's triple, the pipeline's
proof data and the body obligation at every point.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point, for any proof data whose array
    is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The one rectangle the body reads and writes: the whole block. -/
abbrev r2_0 : Rect S2000x128 := Rect.unit (s := S2000x128) ![0, 0] S2000x128.size inb_S2000x128_S2000x128_0_0

/-- The output buffer after the body: its one store, of `max (0.5 · x) x` of the input block. -/
def out2_1 (x0 : Vec F S2000x128 .f32) : Vec F S2000x128 .f32 :=
  View.canon [⟨r2_0, k2_pay1 (View.ld x0 r2_0)⟩]

/-- The store covers the buffer. -/
theorem cover2_1 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

set_option maxHeartbeats 1000000 in
/-- The body on whole staging memrefs, the input's at contents `x0` and the output's at anything, runs to the
    continuation with the input's as it was and the output's at `out2_1 x0`. -/
theorem sound_kernel2 (c : Dev nD) (E : Set ℕ) (i : grid2.Coords) (arg0 : Memref sig .tc .vmem S2000x128 .f32) (harg0 : arg0.IsWhole) (arg1 : Memref sig .tc .vmem S2000x128 .f32) (harg1 : arg1.IsWhole)
    (x0 : Vec F S2000x128 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out2_1 x0)) -∗ K ⟨⟩))
      ⊢ wp frame (wpE (defs₀ (F := F)) Variants.none c none) E (cc2__leaky_kernel i arg0 harg0 arg1 harg1) K := by
  simp only [cc2__leaky_kernel_eq_skeleton]; unfold cc2__leaky_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-- The pipeline's proof data on core `c`: the arrays as the region finds them; after the body at point `t` the
    input's buffer at its block and the output's at `out2_1` of it; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]

theorem before2_0 (c : Dev nD) (t : Fin cfg2.N) (d) : (dat2 V c).before 0 t d = iblk2 V c 0 t :=
  before2_0_of V (dat2 V c) (A_eq2 V c 0) (after2_0 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

/-- The body at any point: the input's memref holds its block, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ _ _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KB.Reg3.lean ====
import proofs.«126270_j6725918785969_1_alg».proof.Proof.Gen.Kernel.Launch
import proofs.«126270_j6725918785969_1_alg».proof.Proof.Gen.Kernel.Skeleton
import proofs.«126270_j6725918785969_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 3: the row-tiled leaky rectifier `max (x / 2) x`

One input window and one output window, both cut into blocks of 2000 rows; at every grid point the body
loads the input block, computes `max (0.5 · x) x` entry by entry and stores the result over the whole
output block. Stated at a parameter `V`, the buffer contents the region is entered from: the block each
window holds at a point, what the body leaves in the output buffer, the body's triple, the pipeline's
proof data and the body obligation at every point.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window's current staging buffer holds its block at every point, for any proof data whose array
    is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The one rectangle the body reads and writes: the whole block. -/
abbrev r3_0 : Rect S2000x128 := Rect.unit (s := S2000x128) ![0, 0] S2000x128.size inb_S2000x128_S2000x128_0_0

/-- The output buffer after the body: its one store, of `max (0.5 · x) x` of the input block. -/
def out3_1 (x0 : Vec F S2000x128 .f32) : Vec F S2000x128 .f32 :=
  View.canon [⟨r3_0, k3_pay1 (View.ld x0 r3_0)⟩]

/-- The store covers the buffer. -/
theorem cover3_1 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

set_option maxHeartbeats 1000000 in
/-- The body on whole staging memrefs, the input's at contents `x0` and the output's at anything, runs to the
    continuation with the input's as it was and the output's at `out3_1 x0`. -/
theorem sound_kernel3 (c : Dev nD) (E : Set ℕ) (i : grid3.Coords) (arg0 : Memref sig .tc .vmem S2000x128 .f32) (harg0 : arg0.IsWhole) (arg1 : Memref sig .tc .vmem S2000x128 .f32) (harg1 : arg1.IsWhole)
    (x0 : Vec F S2000x128 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out3_1 x0)) -∗ K ⟨⟩))
      ⊢ wp frame (wpE (defs₀ (F := F)) Variants.none c none) E (cc3__leaky_kernel i arg0 harg0 arg1 harg1) K := by
  simp only [cc3__leaky_kernel_eq_skeleton]; unfold cc3__leaky_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-- The pipeline's proof data on core `c`: the arrays as the region finds them; after the body at point `t` the
    input's buffer at its block and the output's at `out3_1` of it; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

theorem before3_0 (c : Dev nD) (t : Fin cfg3.N) (d) : (dat3 V c).before 0 t d = iblk3 V c 0 t :=
  before3_0_of V (dat3 V c) (A_eq3 V c 0) (after3_0 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

/-- The body at any point: the input's memref holds its block, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ _ _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KB.Reg4.lean ====
import proofs.«126270_j6725918785969_1_alg».proof.Proof.Gen.Kernel.Launch
import proofs.«126270_j6725918785969_1_alg».proof.Proof.Gen.Kernel.Skeleton
import proofs.«126270_j6725918785969_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 4: the product `lhsᵀ · rhs` reduced over fifty blocks of rows, then the leaky rectifier

Two input windows, each cut into fifty blocks of 2000 rows, and one 128 × 128 output window whose block index
never moves. The kernel keeps a 128 × 128 accumulator in a scratch buffer of its own: at the first grid point it
zeroes it, at every point it adds the product of the transposed left block and the right block, and at the last
point only it stores `max (x / 2) x` of the accumulator into the output's staging buffer, which is written back
there and nowhere else. So the body has three control cases — first point, middle point, last point —, the
accumulator's contents are carried from point to point by the region invariant, and the output window is idle
everywhere but at the last point. Stated at a parameter `V`, the buffer contents the region is entered from.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, decided over the grid -/

/-- The condition of the body's first conditional: the reduction coordinate is zero. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val % 50 = 0 :=
  (by decide +kernel : ∀ t : Fin grid4.N, cond4_0 (grid4.coords t) ↔ t.val % 50 = 0)

/-- The condition of the body's second conditional: the reduction coordinate is the last. -/
abbrev cond4_1 (i : grid4.Coords) : Prop := k4_cond2 i = 1#1
/-- It holds at the last point only. -/
theorem hcond4_1 : ∀ t : Fin cfg4.N, cond4_1 (grid4.coords t) ↔ t.val % 50 = 49 :=
  (by decide +kernel : ∀ t : Fin grid4.N, cond4_1 (grid4.coords t) ↔ t.val % 50 = 49)

/-! ## Where the windows are idle -/

/-- The two inputs are never idle. -/
theorem liveAt4_0 : ∀ t : Fin cfg4.N, cfg4.idle 0 (grid4.coords t) = false := by decide +kernel
theorem liveAt4_1 : ∀ t : Fin cfg4.N, cfg4.idle 1 (grid4.coords t) = false := by decide +kernel
/-- Where the second condition fails the output is idle and is not written back. -/
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
/-- Where it holds the output is live. -/
theorem liveAt4_2 : ∀ t : Fin cfg4.N, cond4_1 (grid4.coords t) → cfg4.idle 2 (grid4.coords t) = false := by decide +kernel

/-! ## The memrefs the body is called with -/

/-- One staging buffer of the output window, through which its contents are stated. -/
abbrev VO4_2 : View sig .tc .vmem S128x128 .f32 := (Memref.whole cc4_stg2_0 : Memref sig .tc .vmem S128x128 .f32).view
/-- Each window's current staging memref at point `t`, and its wholeness. -/
abbrev ms4_0 (t : Fin cfg4.N) : Memref sig .tc .vmem S2000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
/-- The accumulator: a whole scoped buffer of the kernel's own, passed beside the windows. -/
abbrev scM4_0 : Memref sig .tc .vmem S128x128 .f32 := Memref.whole cc4_scratch0
/-- The accumulator as a view: what it holds is stated through it. -/
abbrev VS4_0 : View sig .tc .vmem S128x128 .f32 := scM4_0.view

/-- The region invariant of a body that need not describe its scratch, with the accumulator as a memref owned at
    some contents and every other scoped buffer unopened. -/
theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

set_option maxHeartbeats 1000000 in
/-- THE FIRST POINT (the first conditional taken, the second not). On whole memrefs — the inputs' at their contents,
    the output's at contents handed back untouched, the accumulator at anything — the body runs to the continuation
    holding the inputs' and the output's as they were and the accumulator with its stores' pieces written (last
    first): zero, then zero plus the product of the two blocks. The pieces are what the run finds. -/
noncomputable def kernelRun4_A (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : cond4_0 i) (hc1 : ¬cond4_1 i)
    (x0 : Vec F S2000x128 .f32) (x1 : Vec F S2000x128 .f32) :
    Σ' (L2 : List (View.Piece (Elt F) S128x128 .f32)), { LS0 : List (View.Piece (Elt F) S128x128 .f32) //
      ∀ (xi2 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc4__mm_reduce_k_kernel i arg1 harg1 arg2 harg2 arg3 harg3 arg4 harg4) K } := by
  refine ⟨[], ?_, fun xi2 E K => ?run⟩
  case run =>
    simp only [cc4__mm_reduce_k_kernel_eq_skeleton]; unfold cc4__mm_reduce_k_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A MIDDLE POINT (neither conditional taken). The accumulator comes in at the contents `xs0` the point before left
    and goes out with one piece written: `xs0` plus the product of the two blocks. The output is handed back untouched. -/
noncomputable def kernelRun4_B (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond4_0 i) (hc1 : ¬cond4_1 i)
    (x0 : Vec F S2000x128 .f32) (x1 : Vec F S2000x128 .f32) (xs0 : Vec F S128x128 .f32) :
    Σ' (L2 : List (View.Piece (Elt F) S128x128 .f32)), { LS0 : List (View.Piece (Elt F) S128x128 .f32) //
      ∀ (xi2 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc4__mm_reduce_k_kernel i arg1 harg1 arg2 harg2 arg3 harg3 arg4 harg4) K } := by
  refine ⟨[], ?_, fun xi2 E K => ?run⟩
  case run =>
    simp only [cc4__mm_reduce_k_kernel_eq_skeleton]; unfold cc4__mm_reduce_k_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- THE LAST POINT (the first conditional not taken, the second taken). The accumulator comes in at `xs0`, goes out
    with `xs0` plus the product written, and the output, at anything before, goes out with one piece written: the
    rectifier of the accumulator's final contents. -/
noncomputable def kernelRun4_C (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond4_0 i) (hc1 : cond4_1 i)
    (x0 : Vec F S2000x128 .f32) (x1 : Vec F S2000x128 .f32) (xs0 : Vec F S128x128 .f32) :
    Σ' (L2 : List (View.Piece (Elt F) S128x128 .f32)), { LS0 : List (View.Piece (Elt F) S128x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc4__mm_reduce_k_kernel i arg1 harg1 arg2 harg2 arg3 harg3 arg4 harg4) K } := by
  refine ⟨?_, ?_, fun E K => ?run⟩
  case run =>
    simp only [cc4__mm_reduce_k_kernel_eq_skeleton]; unfold cc4__mm_reduce_k_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input's current staging buffer holds its block of rows at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## What each case leaves in the output's buffer and in the accumulator -/

/-- The first point's stores cover the accumulator. -/
theorem scover4_A_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : cond4_0 i) (hc1 : ¬cond4_1 i)
    (x0 : Vec F S2000x128 .f32) (x1 : Vec F S2000x128 .f32) (y : S128x128.Idx) :
    ∃ pc ∈ (kernelRun4_A c i arg1 harg1 arg2 harg2 arg3 harg3 arg4 harg4 hc0 hc1 x0 x1).2.1, y ∈ pc.1.set :=
  View.cover_of_tiledL (kernelRun4_A c i arg1 harg1 arg2 harg2 arg3 harg3 arg4 harg4 hc0 hc1 x0 x1).2.1 S128x128.size (by sl_kernel_rfl) y

/-- What the first point leaves in the accumulator: its pieces read back. -/
def sout4_A_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : cond4_0 i) (hc1 : ¬cond4_1 i)
    (x0 : Vec F S2000x128 .f32) (x1 : Vec F S2000x128 .f32) : Vec F S128x128 .f32 :=
  VS4_0.read (Elt F) (VS4_0.writes (Elt F) VS4_0.junk (kernelRun4_A c i arg1 harg1 arg2 harg2 arg3 harg3 arg4 harg4 hc0 hc1 x0 x1).2.1)

/-- A middle point's store covers the accumulator. -/
theorem scover4_B_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond4_0 i) (hc1 : ¬cond4_1 i)
    (x0 : Vec F S2000x128 .f32) (x1 : Vec F S2000x128 .f32) (xs0 : Vec F S128x128 .f32) (y : S128x128.Idx) :
    ∃ pc ∈ (kernelRun4_B c i arg1 harg1 arg2 harg2 arg3 harg3 arg4 harg4 hc0 hc1 x0 x1 xs0).2.1, y ∈ pc.1.set :=
  View.cover_of_tiledL (kernelRun4_B c i arg1 harg1 arg2 harg2 arg3 harg3 arg4 harg4 hc0 hc1 x0 x1 xs0).2.1 S128x128.size (by sl_kernel_rfl) y

/-- What a middle point leaves in the accumulator. -/
def sout4_B_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond4_0 i) (hc1 : ¬cond4_1 i)
    (x0 : Vec F S2000x128 .f32) (x1 : Vec F S2000x128 .f32) (xs0 : Vec F S128x128 .f32) : Vec F S128x128 .f32 :=
  VS4_0.read (Elt F) (VS4_0.writes (Elt F) VS4_0.junk (kernelRun4_B c i arg1 harg1 arg2 harg2 arg3 harg3 arg4 harg4 hc0 hc1 x0 x1 xs0).2.1)

/-- The last point's store covers the output's buffer. -/
theorem cover4_C_2 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond4_0 i) (hc1 : cond4_1 i)
    (x0 : Vec F S2000x128 .f32) (x1 : Vec F S2000x128 .f32) (xs0 : Vec F S128x128 .f32) (y : S128x128.Idx) :
    ∃ pc ∈ (kernelRun4_C c i arg1 harg1 arg2 harg2 arg3 harg3 arg4 harg4 hc0 hc1 x0 x1 xs0).1, y ∈ pc.1.set :=
  View.cover_of_tiledL (kernelRun4_C c i arg1 harg1 arg2 harg2 arg3 harg3 arg4 harg4 hc0 hc1 x0 x1 xs0).1 S128x128.size (by sl_kernel_rfl) y

/-- What the last point leaves in the output's buffer. -/
def out4_C_2 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond4_0 i) (hc1 : cond4_1 i)
    (x0 : Vec F S2000x128 .f32) (x1 : Vec F S2000x128 .f32) (xs0 : Vec F S128x128 .f32) : Vec F S128x128 .f32 :=
  VO4_2.read (Elt F) (VO4_2.writes (Elt F) VO4_2.junk (kernelRun4_C c i arg1 harg1 arg2 harg2 arg3 harg3 arg4 harg4 hc0 hc1 x0 x1 xs0).1)

/-- The last point's store covers the accumulator. -/
theorem scover4_C_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond4_0 i) (hc1 : cond4_1 i)
    (x0 : Vec F S2000x128 .f32) (x1 : Vec F S2000x128 .f32) (xs0 : Vec F S128x128 .f32) (y : S128x128.Idx) :
    ∃ pc ∈ (kernelRun4_C c i arg1 harg1 arg2 harg2 arg3 harg3 arg4 harg4 hc0 hc1 x0 x1 xs0).2.1, y ∈ pc.1.set :=
  View.cover_of_tiledL (kernelRun4_C c i arg1 harg1 arg2 harg2 arg3 harg3 arg4 harg4 hc0 hc1 x0 x1 xs0).2.1 S128x128.size (by sl_kernel_rfl) y

/-- What the last point leaves in the accumulator. -/
def sout4_C_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond4_0 i) (hc1 : cond4_1 i)
    (x0 : Vec F S2000x128 .f32) (x1 : Vec F S2000x128 .f32) (xs0 : Vec F S128x128 .f32) : Vec F S128x128 .f32 :=
  VS4_0.read (Elt F) (VS4_0.writes (Elt F) VS4_0.junk (kernelRun4_C c i arg1 harg1 arg2 harg2 arg3 harg3 arg4 harg4 hc0 hc1 x0 x1 xs0).2.1)

/-! ## What the output's buffer and the accumulator hold after each point -/

/-- The output's buffer at a point that stores nothing into it: a placeholder nothing consults, the window being
    neither written back there nor read at the next point. -/
def idle4_2 : Vec F S128x128 .f32 := VO4_2.read (Elt F) VO4_2.junk

/-- THE ACCUMULATION. What the output's staging buffer and the accumulator hold after the body at position `n`: the
    case the closed forms select at `n`, run at the point's memrefs and input blocks, the accumulator coming in at
    what position `n - 1` left in it. After the first point the accumulator is zero plus the first product; after a
    later point what it held plus that point's product; after the last point the output's buffer holds the
    rectifier of the whole sum. -/
def outsAt4 (c : Dev nD) : (n : ℕ) → n < cfg4.N → Vec F S128x128 .f32 × Vec F S128x128 .f32
  | 0, hn => (idle4_2, sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 50 = 0 then
      if h1 : (n + 1) % 50 = 49 then
        False.elim (by omega)
      else
        (idle4_2, sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 50 = 49 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2,
         sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2)
      else
        (idle4_2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2)

/-- `outsAt4` at the first point. -/
theorem outsAt4_A (c : Dev nD) (t : Fin cfg4.N) (h0 : t.val % 50 = 0) (h1 : ¬t.val % 50 = 49) :
    outsAt4 V c t.val t.isLt = (idle4_2, sout4_A_0 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

/-- `outsAt4` at a middle point: over what the point before left. -/
theorem outsAt4_B (c : Dev nD) (t : Fin cfg4.N) (h0 : ¬t.val % 50 = 0) (h1 : ¬t.val % 50 = 49) :
    outsAt4 V c t.val t.isLt = (idle4_2, sout4_B_0 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt4` at the last point: over what the point before left. -/
theorem outsAt4_C (c : Dev nD) (t : Fin cfg4.N) (h0 : ¬t.val % 50 = 0) (h1 : t.val % 50 = 49) :
    outsAt4 V c t.val t.isLt = (out4_C_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2,
      sout4_C_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point every scoped buffer that is no staging buffer at
    anything, and the generator register at some state; afterwards the accumulator at what the point before left in
    it (`outsAt4`'s second component), every other such buffer unopened, and the register. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2)) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare ((outsAt4 V c n hn).2)) ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2)) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The pipeline's proof data -/

/-- The proof data on core `c`: the arrays as the region finds them; after the body at point `t` each input's
    buffer at its block and the output's at `outsAt4`'s first component; the invariant `PhiS4`; nothing owed; full
    shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point. The inputs' memrefs hold their blocks; the closed forms say which case the point is in;
    the invariant hands the body the accumulator — at anything at the first point, at what the point before left
    afterwards —, every other scoped buffer and the generator register riding along unread, and takes the
    accumulator back at this point's contents; the output's buffer is handed back untouched except at the last
    point, where it is left at the rectifier of the sum; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 50 := lt_of_lt_of_eq t.isLt (show cfg4.N = 50 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  by_cases h0 : t.val % 50 = 0
  · have h1 : ¬t.val % 50 = 49 := by omega
    have hz : t.val = 0 := by omega
    rw [Dat.leavesExact_idle (dat4 V c) 2 t (idleAt4_2 t (fun h => h1 ((hcond4_1 t).mp h))) (noFlush4_2 t (fun h => h1 ((hcond4_1 t).mp h)))]
    rw [outsAt4_A V c t h0 h1]
    unfold sout4_A_0; (try dsimp only)
    rw [PhiS4_castSucc V c t, PhiS4_zero V c _ _ hz, PhiA4_eq]
    iintro ⟨⟨⟨HS0, Hrest⟩, Hg⟩, Ho, ⟨%d0, H0⟩, ⟨%d1, H1⟩, ⟨%d2, H2⟩⟩
    iapply ((kernelRun4_A c (grid4.coords t) _ _ _ _ _ _ _ _ ((hcond4_0 t).mpr h0) (fun h => h1 ((hcond4_1 t).mp h)) (iblk4 V c 0 t) (iblk4 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover4_A_0 c _ _ _ _ _ _ _ _ _ _ _ _ _)
        iexact Hrest
      iexact Hg
    isplitl [Ho]; · iexact Ho
    isplitl [H0]; · iexact H0
    isplitl [H1]; · iexact H1
    iexists _; iexact H2
  · have hz : t.val ≠ 0 := by omega
    by_cases h1 : t.val % 50 = 49
    · rw [show (dat4 V c).leavesExact 2 t = owns (c : Thread nD τ) (ms4_2 t) fullShare ((dat4 V c).after 2 t) from by
        unfold Dat.leavesExact; rw [liveAt4_2 t ((hcond4_1 t).mpr h1)], after4_2]
      rw [outsAt4_C V c t h0 h1]
      unfold out4_C_2 sout4_C_0; (try dsimp only)
      rw [PhiS4_castSucc V c t, PhiS4_pos V c _ _ hz]
      iintro ⟨⟨⟨HS0, Hrest⟩, Hg⟩, Ho, ⟨%d0, H0⟩, ⟨%d1, H1⟩, ⟨%d2, H2⟩⟩
      iapply ((kernelRun4_C c (grid4.coords t) _ _ _ _ _ _ _ _ (fun h => h0 ((hcond4_0 t).mp h)) ((hcond4_1 t).mpr h1) (iblk4 V c 0 t) (iblk4 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover4_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_C_2 c _ _ _ _ _ _ _ _ _ _ _ _ _ _)
    · rw [Dat.leavesExact_idle (dat4 V c) 2 t (idleAt4_2 t (fun h => h1 ((hcond4_1 t).mp h))) (noFlush4_2 t (fun h => h1 ((hcond4_1 t).mp h)))]
      rw [outsAt4_B V c t h0 h1]
      unfold sout4_B_0; (try dsimp only)
      rw [PhiS4_castSucc V c t, PhiS4_pos V c _ _ hz]
      iintro ⟨⟨⟨HS0, Hrest⟩, Hg⟩, Ho, ⟨%d0, H0⟩, ⟨%d1, H1⟩, ⟨%d2, H2⟩⟩
      iapply ((kernelRun4_B c (grid4.coords t) _ _ _ _ _ _ _ _ (fun h => h0 ((hcond4_0 t).mp h)) (fun h => h1 ((hcond4_1 t).mp h)) (iblk4 V c 0 t) (iblk4 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover4_B_0 c _ _ _ _ _ _ _ _ _ _ _ _ _ _)
          iexact Hrest
        iexact Hg
      isplitl [Ho]; · iexact Ho
      isplitl [H0]; · iexact H0
      isplitl [H1]; · iexact H1
      iexists _; iexact H2

/-- The body obligation, at every point. -/
theorem body_obligation4 (c : Dev nD) : BodyObligation (dat4 (F := F) V c) (defs₀ (F := F)) Variants.none () Set.univ := fun t => by
  rw [bigSep_W4, bigSep_W4]
  exact sound_body4 V c t

/-! ## Into the invariant and out of it -/

/-- What the launch hands the region — the generator register, no prefetched table, the scoped buffers no window
    stages — is the invariant before the first point. -/
theorem hin4 (c : Dev nD) :
    iprop((∃ r, prngReg c r) ∗ Pipeline.prefHeld (pcfgs (F := F) 4).pre c (fun _ => fullShare) ((cfgs 4).toPCfg_adm).1 ∗ Pipeline.scopedRest spec4 c)
      ⊢ (dat4 V c).Φ 0 := by
  rw [show (dat4 V c).Φ 0 = PhiS4 V c 0 (Nat.zero_le _) from rfl, PhiS4_zero V c 0 _ rfl]; unfold Pipeline.ΦA
  iintro ⟨Hp, -, Hr⟩
  isplitl [Hr]; · iexact Hr
  iexact Hp

/-- After any point but the first the invariant gives the scoped buffers and the register back: the accumulator's
    named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hrest⟩, Hg⟩
  isplitl [HS0 Hrest]
  · isplitl [HS0]
    · iexists _; iexact HS0
    iexact Hrest
  iexact Hg

/-- The same after the last point, as the region hands it back: the register, no semaphore of the kernel's own, the
    scoped buffers. -/
theorem hout4 (c : Dev nD) :
    (dat4 V c).Φ (Fin.last cfg4.N)
      ⊢ iprop((∃ r, prngReg c r) ∗ Pipeline.ownSems0 (Ix := Unit) (Name := ℕ) (U := UR sig nD τ) (Lvl := ℕ) (Val := Elt F) (τ := τ) (fun k : PEmpty => k.elim) c ∗ Pipeline.scopedRest spec4 c) := by
  refine (Phi_out4 V c _ (by rw [Fin.val_last]; have : cfg4.N = 50 := N_4; omega)).trans ?_
  rw [Pipeline.ownSems0_none]; unfold Pipeline.ΦA
  iintro ⟨Hr, Hp⟩
  isplitl [Hp]; · iexact Hp
  isplitr; · iempintro
  iexact Hr

end Cert.Kernel.Fr

end
-- ==== Proof.KB.Reg5.lean ====
import proofs.«126270_j6725918785969_1_alg».proof.Proof.Gen.Kernel.Launch
import proofs.«126270_j6725918785969_1_alg».proof.Proof.Gen.Kernel.Skeleton
import proofs.«126270_j6725918785969_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 5: a row-tiled matrix product followed by the leaky rectifier

Two input windows and one output window. Window 0 cuts the left factor into blocks of rows (`S2000x128`);
window 1 is the whole right factor (`S128x128`), the same block at every grid point; window 2 is the block of
the result's rows (`S2000x128`). At a grid point the body loads both input blocks, multiplies them into a zero
accumulator, takes `max (0.5 · y) y` entry by entry and stores the result over the whole output block. Stated at a
parameter `V`, the buffer contents the region is entered from.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The left factor's current staging buffer holds its block of rows at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The right factor's staging buffer holds the whole factor at every point: fetched at the first point, its
    block index never moves afterwards. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The rectangles the body reads and writes: each buffer whole. -/
abbrev r5_a : Rect S2000x128 := Rect.unit (s := S2000x128) ![0, 0] S2000x128.size inb_S2000x128_S2000x128_0_0
abbrev r5_b : Rect S128x128 := Rect.unit (s := S128x128) ![0, 0] S128x128.size inb_S128x128_S128x128_0_0

/-- The output buffer after the body: its one store, of the product of the two input blocks. -/
def out5_2 (x0 : Vec F S2000x128 .f32) (x1 : Vec F S128x128 .f32) : Vec F S2000x128 .f32 :=
  View.canon [⟨r5_a, k5_pay1 (View.ld x0 r5_a) (View.ld x1 r5_b)⟩]

/-- The store covers the buffer. -/
theorem cover5_2 (p0 : Vec F S2000x128 .f32) (y : S2000x128.Idx) :
    ∃ pc ∈ ([⟨r5_a, p0⟩] : List (View.Piece (Elt F) S2000x128 .f32)), y ∈ pc.1.set :=
  View.cover_of_tiled [⟨r5_a, p0⟩] S2000x128.size (by rfl) y

set_option maxHeartbeats 1000000 in
/-- The body on whole staging memrefs, the inputs' at contents `x0`, `x1` and the output's at anything, runs to the
    continuation with the inputs' as they were and the output's at `out5_2 x0 x1`. -/
theorem sound_kernel5 (c : Dev nD) (E : Set ℕ) (i : grid5.Coords) (arg0 : Memref sig .tc .vmem S2000x128 .f32) (harg0 : arg0.IsWhole) (arg1 : Memref sig .tc .vmem S128x128 .f32) (harg1 : arg1.IsWhole) (arg2 : Memref sig .tc .vmem S2000x128 .f32) (harg2 : arg2.IsWhole)
    (x0 : Vec F S2000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out5_2 x0 x1)) -∗ K ⟨⟩))
      ⊢ wp frame (wpE (defs₀ (F := F)) Variants.none c none) E (cc5__mm_big_kernel i arg0 harg0 arg1 harg1 arg2 harg2) K := by
  simp only [cc5__mm_big_kernel_eq_skeleton]; unfold cc5__mm_big_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The pipeline's proof data on core `c`: the arrays as the region finds them; after the body at point `t` each
    input's buffer at its block and the output's at `out5_2` of them; the invariant the scoped rest and the
    generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so the body's triple applies; the invariant
    and the core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.KB.Reg6.lean ====
import proofs.«126270_j6725918785969_1_alg».proof.Proof.Gen.Kernel.Launch
import proofs.«126270_j6725918785969_1_alg».proof.Proof.Gen.Kernel.Skeleton
import proofs.«126270_j6725918785969_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 6: the product `lhsᵀ · rhs` reduced over twenty-five blocks of rows, then the leaky rectifier

Two input windows, each cut into twenty-five blocks of 2000 rows, and one 128 × 128 output window whose block index
never moves. The kernel keeps a 128 × 128 accumulator in a scratch buffer of its own: at the first grid point it
zeroes it, at every point it adds the product of the transposed left block and the right block, and at the last
point only it stores `max (x / 2) x` of the accumulator into the output's staging buffer, which is written back
there and nowhere else. So the body has three control cases — first point, middle point, last point —, the
accumulator's contents are carried from point to point by the region invariant, and the output window is idle
everywhere but at the last point. Stated at a parameter `V`, the buffer contents the region is entered from.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, decided over the grid -/

/-- The condition of the body's first conditional: the reduction coordinate is zero. -/
abbrev cond6_0 (i : grid6.Coords) : Prop := (Scalar.cmpi .ne (Scalar.extui (Scalar.cmpi .eq (BitVec.ofNat 32 (i 0).val) 0#32)) 0#32) = 1#1
/-- It holds at the first point only. -/
theorem hcond6_0 : ∀ t : Fin cfg6.N, cond6_0 (grid6.coords t) ↔ t.val % 25 = 0 :=
  (by decide +kernel : ∀ t : Fin grid6.N, cond6_0 (grid6.coords t) ↔ t.val % 25 = 0)

/-- The condition of the body's second conditional: the reduction coordinate is the last. -/
abbrev cond6_1 (i : grid6.Coords) : Prop := k6_cond2 i = 1#1
/-- It holds at the last point only. -/
theorem hcond6_1 : ∀ t : Fin cfg6.N, cond6_1 (grid6.coords t) ↔ t.val % 25 = 24 :=
  (by decide +kernel : ∀ t : Fin grid6.N, cond6_1 (grid6.coords t) ↔ t.val % 25 = 24)

/-! ## Where the windows are idle -/

/-- The two inputs are never idle. -/
theorem liveAt6_0 : ∀ t : Fin cfg6.N, cfg6.idle 0 (grid6.coords t) = false := by decide +kernel
theorem liveAt6_1 : ∀ t : Fin cfg6.N, cfg6.idle 1 (grid6.coords t) = false := by decide +kernel
/-- Where the second condition fails the output is idle and is not written back. -/
theorem idleAt6_2 : ∀ t : Fin cfg6.N, ¬cond6_1 (grid6.coords t) → cfg6.idle 2 (grid6.coords t) = true := by decide +kernel
theorem noFlush6_2 : ∀ t : Fin cfg6.N, ¬cond6_1 (grid6.coords t) → (cfg6.win 2).flush t = false := by decide +kernel
/-- Where it holds the output is live. -/
theorem liveAt6_2 : ∀ t : Fin cfg6.N, cond6_1 (grid6.coords t) → cfg6.idle 2 (grid6.coords t) = false := by decide +kernel

/-! ## The memrefs the body is called with -/

/-- One staging buffer of the output window, through which its contents are stated. -/
abbrev VO6_2 : View sig .tc .vmem S128x128 .f32 := (Memref.whole cc6_stg2_0 : Memref sig .tc .vmem S128x128 .f32).view
/-- Each window's current staging memref at point `t`, and its wholeness. -/
abbrev ms6_0 (t : Fin cfg6.N) : Memref sig .tc .vmem S2000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S2000x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S128x128 .f32 := win6_2.stage (cfg6.slots t 2)
abbrev hs6_2 (t : Fin cfg6.N) : (ms6_2 t).IsWhole := hstage6_2 ((cfg6.slots t 2).cast nbuf6_2)
/-- The accumulator: a whole scoped buffer of the kernel's own, passed beside the windows. -/
abbrev scM6_0 : Memref sig .tc .vmem S128x128 .f32 := Memref.whole cc6_scratch0
/-- The accumulator as a view: what it holds is stated through it. -/
abbrev VS6_0 : View sig .tc .vmem S128x128 .f32 := scM6_0.view

/-- The region invariant of a body that need not describe its scratch, with the accumulator as a memref owned at
    some contents and every other scoped buffer unopened. -/
theorem PhiA6_eq (c : Dev nD) :
    (Pipeline.ΦA spec6 c : sProp 𝕄)
      = iprop(iprop(iprop((∃ d, owns (c : Thread nD τ) scM6_0 fullShare d))
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6_0, owns_whole]; try rfl

set_option maxHeartbeats 1000000 in
/-- THE FIRST POINT (the first conditional taken, the second not). On whole memrefs — the inputs' at their contents,
    the output's at contents handed back untouched, the accumulator at anything — the body runs to the continuation
    holding the inputs' and the output's as they were and the accumulator with its stores' pieces written (last
    first): zero, then zero plus the product of the two blocks. The pieces are what the run finds. -/
noncomputable def kernelRun6_A (c : Dev nD) (i : grid6.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : cond6_0 i) (hc1 : ¬cond6_1 i)
    (x0 : Vec F S2000x128 .f32) (x1 : Vec F S2000x128 .f32) :
    Σ' (L2 : List (View.Piece (Elt F) S128x128 .f32)), { LS0 : List (View.Piece (Elt F) S128x128 .f32) //
      ∀ (xi2 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc6__mm_reduce_k_kernel i arg1 harg1 arg2 harg2 arg3 harg3 arg4 harg4) K } := by
  refine ⟨[], ?_, fun xi2 E K => ?run⟩
  case run =>
    simp only [cc6__mm_reduce_k_kernel_eq_skeleton]; unfold cc6__mm_reduce_k_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A MIDDLE POINT (neither conditional taken). The accumulator comes in at the contents `xs0` the point before left
    and goes out with one piece written: `xs0` plus the product of the two blocks. The output is handed back untouched. -/
noncomputable def kernelRun6_B (c : Dev nD) (i : grid6.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond6_0 i) (hc1 : ¬cond6_1 i)
    (x0 : Vec F S2000x128 .f32) (x1 : Vec F S2000x128 .f32) (xs0 : Vec F S128x128 .f32) :
    Σ' (L2 : List (View.Piece (Elt F) S128x128 .f32)), { LS0 : List (View.Piece (Elt F) S128x128 .f32) //
      ∀ (xi2 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc6__mm_reduce_k_kernel i arg1 harg1 arg2 harg2 arg3 harg3 arg4 harg4) K } := by
  refine ⟨[], ?_, fun xi2 E K => ?run⟩
  case run =>
    simp only [cc6__mm_reduce_k_kernel_eq_skeleton]; unfold cc6__mm_reduce_k_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- THE LAST POINT (the first conditional not taken, the second taken). The accumulator comes in at `xs0`, goes out
    with `xs0` plus the product written, and the output, at anything before, goes out with one piece written: the
    rectifier of the accumulator's final contents. -/
noncomputable def kernelRun6_C (c : Dev nD) (i : grid6.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond6_0 i) (hc1 : cond6_1 i)
    (x0 : Vec F S2000x128 .f32) (x1 : Vec F S2000x128 .f32) (xs0 : Vec F S128x128 .f32) :
    Σ' (L2 : List (View.Piece (Elt F) S128x128 .f32)), { LS0 : List (View.Piece (Elt F) S128x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc6__mm_reduce_k_kernel i arg1 harg1 arg2 harg2 arg3 harg3 arg4 harg4) K } := by
  refine ⟨?_, ?_, fun E K => ?run⟩
  case run =>
    simp only [cc6__mm_reduce_k_kernel_eq_skeleton]; unfold cc6__mm_reduce_k_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Each input's current staging buffer holds its block of rows at every point. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## What each case leaves in the output's buffer and in the accumulator -/

/-- The first point's stores cover the accumulator. -/
theorem scover6_A_0 (c : Dev nD) (i : grid6.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : cond6_0 i) (hc1 : ¬cond6_1 i)
    (x0 : Vec F S2000x128 .f32) (x1 : Vec F S2000x128 .f32) (y : S128x128.Idx) :
    ∃ pc ∈ (kernelRun6_A c i arg1 harg1 arg2 harg2 arg3 harg3 arg4 harg4 hc0 hc1 x0 x1).2.1, y ∈ pc.1.set :=
  View.cover_of_tiledL (kernelRun6_A c i arg1 harg1 arg2 harg2 arg3 harg3 arg4 harg4 hc0 hc1 x0 x1).2.1 S128x128.size (by sl_kernel_rfl) y

/-- What the first point leaves in the accumulator: its pieces read back. -/
def sout6_A_0 (c : Dev nD) (i : grid6.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : cond6_0 i) (hc1 : ¬cond6_1 i)
    (x0 : Vec F S2000x128 .f32) (x1 : Vec F S2000x128 .f32) : Vec F S128x128 .f32 :=
  VS6_0.read (Elt F) (VS6_0.writes (Elt F) VS6_0.junk (kernelRun6_A c i arg1 harg1 arg2 harg2 arg3 harg3 arg4 harg4 hc0 hc1 x0 x1).2.1)

/-- A middle point's store covers the accumulator. -/
theorem scover6_B_0 (c : Dev nD) (i : grid6.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond6_0 i) (hc1 : ¬cond6_1 i)
    (x0 : Vec F S2000x128 .f32) (x1 : Vec F S2000x128 .f32) (xs0 : Vec F S128x128 .f32) (y : S128x128.Idx) :
    ∃ pc ∈ (kernelRun6_B c i arg1 harg1 arg2 harg2 arg3 harg3 arg4 harg4 hc0 hc1 x0 x1 xs0).2.1, y ∈ pc.1.set :=
  View.cover_of_tiledL (kernelRun6_B c i arg1 harg1 arg2 harg2 arg3 harg3 arg4 harg4 hc0 hc1 x0 x1 xs0).2.1 S128x128.size (by sl_kernel_rfl) y

/-- What a middle point leaves in the accumulator. -/
def sout6_B_0 (c : Dev nD) (i : grid6.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond6_0 i) (hc1 : ¬cond6_1 i)
    (x0 : Vec F S2000x128 .f32) (x1 : Vec F S2000x128 .f32) (xs0 : Vec F S128x128 .f32) : Vec F S128x128 .f32 :=
  VS6_0.read (Elt F) (VS6_0.writes (Elt F) VS6_0.junk (kernelRun6_B c i arg1 harg1 arg2 harg2 arg3 harg3 arg4 harg4 hc0 hc1 x0 x1 xs0).2.1)

/-- The last point's store covers the output's buffer. -/
theorem cover6_C_2 (c : Dev nD) (i : grid6.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond6_0 i) (hc1 : cond6_1 i)
    (x0 : Vec F S2000x128 .f32) (x1 : Vec F S2000x128 .f32) (xs0 : Vec F S128x128 .f32) (y : S128x128.Idx) :
    ∃ pc ∈ (kernelRun6_C c i arg1 harg1 arg2 harg2 arg3 harg3 arg4 harg4 hc0 hc1 x0 x1 xs0).1, y ∈ pc.1.set :=
  View.cover_of_tiledL (kernelRun6_C c i arg1 harg1 arg2 harg2 arg3 harg3 arg4 harg4 hc0 hc1 x0 x1 xs0).1 S128x128.size (by sl_kernel_rfl) y

/-- What the last point leaves in the output's buffer. -/
def out6_C_2 (c : Dev nD) (i : grid6.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond6_0 i) (hc1 : cond6_1 i)
    (x0 : Vec F S2000x128 .f32) (x1 : Vec F S2000x128 .f32) (xs0 : Vec F S128x128 .f32) : Vec F S128x128 .f32 :=
  VO6_2.read (Elt F) (VO6_2.writes (Elt F) VO6_2.junk (kernelRun6_C c i arg1 harg1 arg2 harg2 arg3 harg3 arg4 harg4 hc0 hc1 x0 x1 xs0).1)

/-- The last point's store covers the accumulator. -/
theorem scover6_C_0 (c : Dev nD) (i : grid6.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond6_0 i) (hc1 : cond6_1 i)
    (x0 : Vec F S2000x128 .f32) (x1 : Vec F S2000x128 .f32) (xs0 : Vec F S128x128 .f32) (y : S128x128.Idx) :
    ∃ pc ∈ (kernelRun6_C c i arg1 harg1 arg2 harg2 arg3 harg3 arg4 harg4 hc0 hc1 x0 x1 xs0).2.1, y ∈ pc.1.set :=
  View.cover_of_tiledL (kernelRun6_C c i arg1 harg1 arg2 harg2 arg3 harg3 arg4 harg4 hc0 hc1 x0 x1 xs0).2.1 S128x128.size (by sl_kernel_rfl) y

/-- What the last point leaves in the accumulator. -/
def sout6_C_0 (c : Dev nD) (i : grid6.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond6_0 i) (hc1 : cond6_1 i)
    (x0 : Vec F S2000x128 .f32) (x1 : Vec F S2000x128 .f32) (xs0 : Vec F S128x128 .f32) : Vec F S128x128 .f32 :=
  VS6_0.read (Elt F) (VS6_0.writes (Elt F) VS6_0.junk (kernelRun6_C c i arg1 harg1 arg2 harg2 arg3 harg3 arg4 harg4 hc0 hc1 x0 x1 xs0).2.1)

/-! ## What the output's buffer and the accumulator hold after each point -/

/-- The output's buffer at a point that stores nothing into it: a placeholder nothing consults, the window being
    neither written back there nor read at the next point. -/
def idle6_2 : Vec F S128x128 .f32 := VO6_2.read (Elt F) VO6_2.junk

/-- THE ACCUMULATION. What the output's staging buffer and the accumulator hold after the body at position `n`: the
    case the closed forms select at `n`, run at the point's memrefs and input blocks, the accumulator coming in at
    what position `n - 1` left in it. After the first point the accumulator is zero plus the first product; after a
    later point what it held plus that point's product; after the last point the output's buffer holds the
    rectifier of the whole sum. -/
def outsAt6 (c : Dev nD) : (n : ℕ) → n < cfg6.N → Vec F S128x128 .f32 × Vec F S128x128 .f32
  | 0, hn => (idle6_2, sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩))
  | n + 1, hn =>
    if h0 : (n + 1) % 25 = 0 then
      if h1 : (n + 1) % 25 = 24 then
        False.elim (by omega)
      else
        (idle6_2, sout6_A_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩))
    else
      if h1 : (n + 1) % 25 = 24 then
        (out6_C_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (outsAt6 c n (Nat.lt_of_succ_lt hn)).2,
         sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (outsAt6 c n (Nat.lt_of_succ_lt hn)).2)
      else
        (idle6_2, sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (outsAt6 c n (Nat.lt_of_succ_lt hn)).2)

/-- `outsAt6` at the first point. -/
theorem outsAt6_A (c : Dev nD) (t : Fin cfg6.N) (h0 : t.val % 25 = 0) (h1 : ¬t.val % 25 = 24) :
    outsAt6 V c t.val t.isLt = (idle6_2, sout6_A_0 c (grid6.coords t) (ms6_0 t) (hs6_0 t) (ms6_1 t) (hs6_1 t) (ms6_2 t) (hs6_2 t) scM6_0 (Memref.isWhole_whole _) ((hcond6_0 t).mpr h0) (fun h => h1 ((hcond6_1 t).mp h)) (iblk6 V c 0 t) (iblk6 V c 1 t)) := by
  obtain ⟨n, hn⟩ := t
  cases n with
  | zero => exact rfl
  | succ n => exact (dif_pos h0).trans ((dif_neg h1).trans rfl)

/-- `outsAt6` at a middle point: over what the point before left. -/
theorem outsAt6_B (c : Dev nD) (t : Fin cfg6.N) (h0 : ¬t.val % 25 = 0) (h1 : ¬t.val % 25 = 24) :
    outsAt6 V c t.val t.isLt = (idle6_2, sout6_B_0 c (grid6.coords t) (ms6_0 t) (hs6_0 t) (ms6_1 t) (hs6_1 t) (ms6_2 t) (hs6_2 t) scM6_0 (Memref.isWhole_whole _) (fun h => h0 ((hcond6_0 t).mp h)) (fun h => h1 ((hcond6_1 t).mp h)) (iblk6 V c 0 t) (iblk6 V c 1 t) (outsAt6 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt6` at the last point: over what the point before left. -/
theorem outsAt6_C (c : Dev nD) (t : Fin cfg6.N) (h0 : ¬t.val % 25 = 0) (h1 : t.val % 25 = 24) :
    outsAt6 V c t.val t.isLt = (out6_C_2 c (grid6.coords t) (ms6_0 t) (hs6_0 t) (ms6_1 t) (hs6_1 t) (ms6_2 t) (hs6_2 t) scM6_0 (Memref.isWhole_whole _) (fun h => h0 ((hcond6_0 t).mp h)) ((hcond6_1 t).mpr h1) (iblk6 V c 0 t) (iblk6 V c 1 t) (outsAt6 V c (t.val - 1) (Nat.lt_of_le_of_lt (Nat.sub_le _ _) t.isLt)).2,
      sout6_C_0 c (grid6.coords t) (ms6_0 t) (hs6_0 t) (ms6_1 t) (hs6_1 t) (ms6_2 t) (hs6_2 t) scM6_0 (Memref.isWhole_whole _) (fun h => h0 ((hcond6_0 t).mp h)) ((hcond6_1 t).mpr h1) (iblk6 V c 0 t) (iblk6 V c 1 t) (outsAt6 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point every scoped buffer that is no staging buffer at
    anything, and the generator register at some state; afterwards the accumulator at what the point before left in
    it (`outsAt6`'s second component), every other such buffer unopened, and the register. -/
def PhiS6 (c : Dev nD) : (n : ℕ) → n ≤ cfg6.N → sProp 𝕄
  | 0, _ => Pipeline.ΦA spec6 c
  | n + 1, hn => iprop(iprop(iprop(owns (c : Thread nD τ) scM6_0 fullShare ((outsAt6 V c n hn).2)) ∗ Pipeline.scopedRestBut (Ix := Unit) (Name := ℕ) (U := UR sig nD τ) (Lvl := ℕ) (Val := Elt F) spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare ((outsAt6 V c n hn).2)) ∗ Pipeline.scopedRestBut (Ix := Unit) (Name := ℕ) (U := UR sig nD τ) (Lvl := ℕ) (Val := Elt F) spec6 c [cc6_scratch0]) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare ((outsAt6 V c (n - 1) (by omega)).2)) ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

/-! ## The pipeline's proof data -/

/-- The proof data on core `c`: the arrays as the region finds them; after the body at point `t` each input's
    buffer at its block and the output's at `outsAt6`'s first component; the invariant `PhiS6`; nothing owed; full
    shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = (outsAt6 V c t.val t.isLt).1 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation -/

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4800000 in
/-- The body at any point. The inputs' memrefs hold their blocks; the closed forms say which case the point is in;
    the invariant hands the body the accumulator — at anything at the first point, at what the point before left
    afterwards —, every other scoped buffer and the generator register riding along unread, and takes the
    accumulator back at this point's contents; the output's buffer is handed back untouched except at the last
    point, where it is left at the rectifier of the sum; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  have hN : t.val < 25 := lt_of_lt_of_eq t.isLt (show cfg6.N = 25 from N_6)
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  by_cases h0 : t.val % 25 = 0
  · have h1 : ¬t.val % 25 = 24 := by omega
    have hz : t.val = 0 := by omega
    rw [Dat.leavesExact_idle (dat6 V c) 2 t (idleAt6_2 t (fun h => h1 ((hcond6_1 t).mp h))) (noFlush6_2 t (fun h => h1 ((hcond6_1 t).mp h)))]
    rw [outsAt6_A V c t h0 h1]
    unfold sout6_A_0; (try dsimp only)
    rw [PhiS6_castSucc V c t, PhiS6_zero V c _ _ hz, PhiA6_eq]
    iintro ⟨⟨⟨HS0, Hrest⟩, Hg⟩, Ho, ⟨%d0, H0⟩, ⟨%d1, H1⟩, ⟨%d2, H2⟩⟩
    iapply ((kernelRun6_A c (grid6.coords t) _ _ _ _ _ _ _ _ ((hcond6_0 t).mpr h0) (fun h => h1 ((hcond6_1 t).mp h)) (iblk6 V c 0 t) (iblk6 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover6_A_0 c _ _ _ _ _ _ _ _ _ _ _ _ _)
        iexact Hrest
      iexact Hg
    isplitl [Ho]; · iexact Ho
    isplitl [H0]; · iexact H0
    isplitl [H1]; · iexact H1
    iexists _; iexact H2
  · have hz : t.val ≠ 0 := by omega
    by_cases h1 : t.val % 25 = 24
    · rw [show (dat6 V c).leavesExact 2 t = owns (c : Thread nD τ) (ms6_2 t) fullShare ((dat6 V c).after 2 t) from by
        unfold Dat.leavesExact; rw [liveAt6_2 t ((hcond6_1 t).mpr h1)], after6_2]
      rw [outsAt6_C V c t h0 h1]
      unfold out6_C_2 sout6_C_0; (try dsimp only)
      rw [PhiS6_castSucc V c t, PhiS6_pos V c _ _ hz]
      iintro ⟨⟨⟨HS0, Hrest⟩, Hg⟩, Ho, ⟨%d0, H0⟩, ⟨%d1, H1⟩, ⟨%d2, H2⟩⟩
      iapply ((kernelRun6_C c (grid6.coords t) _ _ _ _ _ _ _ _ (fun h => h0 ((hcond6_0 t).mp h)) ((hcond6_1 t).mpr h1) (iblk6 V c 0 t) (iblk6 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover6_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover6_C_2 c _ _ _ _ _ _ _ _ _ _ _ _ _ _)
    · rw [Dat.leavesExact_idle (dat6 V c) 2 t (idleAt6_2 t (fun h => h1 ((hcond6_1 t).mp h))) (noFlush6_2 t (fun h => h1 ((hcond6_1 t).mp h)))]
      rw [outsAt6_B V c t h0 h1]
      unfold sout6_B_0; (try dsimp only)
      rw [PhiS6_castSucc V c t, PhiS6_pos V c _ _ hz]
      iintro ⟨⟨⟨HS0, Hrest⟩, Hg⟩, Ho, ⟨%d0, H0⟩, ⟨%d1, H1⟩, ⟨%d2, H2⟩⟩
      iapply ((kernelRun6_B c (grid6.coords t) _ _ _ _ _ _ _ _ (fun h => h0 ((hcond6_0 t).mp h)) (fun h => h1 ((hcond6_1 t).mp h)) (iblk6 V c 0 t) (iblk6 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover6_B_0 c _ _ _ _ _ _ _ _ _ _ _ _ _ _)
          iexact Hrest
        iexact Hg
      isplitl [Ho]; · iexact Ho
      isplitl [H0]; · iexact H0
      isplitl [H1]; · iexact H1
      iexists _; iexact H2

/-- The body obligation, at every point. -/
theorem body_obligation6 (c : Dev nD) : BodyObligation (dat6 (F := F) V c) (defs₀ (F := F)) Variants.none () Set.univ := fun t => by
  rw [bigSep_W6, bigSep_W6]
  exact sound_body6 V c t

/-! ## Into the invariant and out of it -/

/-- What the launch hands the region — the generator register, no prefetched table, the scoped buffers no window
    stages — is the invariant before the first point. -/
theorem hin6 (c : Dev nD) :
    iprop((∃ r, prngReg c r) ∗ Pipeline.prefHeld (pcfgs (F := F) 6).pre c (fun _ => fullShare) ((cfgs 6).toPCfg_adm).1 ∗ Pipeline.scopedRest spec6 c)
      ⊢ (dat6 V c).Φ 0 := by
  rw [show (dat6 V c).Φ 0 = PhiS6 V c 0 (Nat.zero_le _) from rfl, PhiS6_zero V c 0 _ rfl]; unfold Pipeline.ΦA
  iintro ⟨Hp, -, Hr⟩
  isplitl [Hr]; · iexact Hr
  iexact Hp

/-- After any point but the first the invariant gives the scoped buffers and the register back: the accumulator's
    named contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS0, Hrest⟩, Hg⟩
  isplitl [HS0 Hrest]
  · isplitl [HS0]
    · iexists _; iexact HS0
    iexact Hrest
  iexact Hg

/-- The same after the last point, as the region hands it back: the register, no semaphore of the kernel's own, the
    scoped buffers. -/
theorem hout6 (c : Dev nD) :
    (dat6 V c).Φ (Fin.last cfg6.N)
      ⊢ iprop((∃ r, prngReg c r) ∗ Pipeline.ownSems0 (Ix := Unit) (Name := ℕ) (U := UR sig nD τ) (Lvl := ℕ) (Val := Elt F) (τ := τ) (fun k : PEmpty => k.elim) c ∗ Pipeline.scopedRest spec6 c) := by
  refine (Phi_out6 V c _ (by rw [Fin.val_last]; have : cfg6.N = 25 := N_6; omega)).trans ?_
  rw [Pipeline.ownSems0_none]; unfold Pipeline.ΦA
  iintro ⟨Hr, Hp⟩
  isplitl [Hp]; · iexact Hp
  isplitr; · iempintro
  iexact Hr

end Cert.Kernel.Fr

end
-- ==== Proof.KB.Reg7.lean ====
import proofs.«126270_j6725918785969_1_alg».proof.Proof.Gen.Kernel.Launch
import proofs.«126270_j6725918785969_1_alg».proof.Proof.Gen.Kernel.Skeleton
import proofs.«126270_j6725918785969_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 7: a row-tiled matrix product followed by the leaky rectifier

Two input windows and one output window. Window 0 cuts the left factor into blocks of rows (`S2000x128`);
window 1 is the whole right factor (`S128x128`), the same block at every grid point; window 2 is the block of
the result's rows (`S2000x128`). At a grid point the body loads both input blocks, multiplies them into a zero
accumulator, takes `max (0.5 · y) y` entry by entry and stores the result over the whole output block. Stated at a
parameter `V`, the buffer contents the region is entered from.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The left factor's current staging buffer holds its block of rows at every point. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The right factor's staging buffer holds the whole factor at every point: fetched at the first point, its
    block index never moves afterwards. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- The rectangles the body reads and writes: each buffer whole. -/
abbrev r7_a : Rect S2000x128 := Rect.unit (s := S2000x128) ![0, 0] S2000x128.size inb_S2000x128_S2000x128_0_0
abbrev r7_b : Rect S128x128 := Rect.unit (s := S128x128) ![0, 0] S128x128.size inb_S128x128_S128x128_0_0

/-- The output buffer after the body: its one store, of the product of the two input blocks. -/
def out7_2 (x0 : Vec F S2000x128 .f32) (x1 : Vec F S128x128 .f32) : Vec F S2000x128 .f32 :=
  View.canon [⟨r7_a, k7_pay1 (View.ld x0 r7_a) (View.ld x1 r7_b)⟩]

/-- The store covers the buffer. -/
theorem cover7_2 (p0 : Vec F S2000x128 .f32) (y : S2000x128.Idx) :
    ∃ pc ∈ ([⟨r7_a, p0⟩] : List (View.Piece (Elt F) S2000x128 .f32)), y ∈ pc.1.set :=
  View.cover_of_tiled [⟨r7_a, p0⟩] S2000x128.size (by rfl) y

set_option maxHeartbeats 1000000 in
/-- The body on whole staging memrefs, the inputs' at contents `x0`, `x1` and the output's at anything, runs to the
    continuation with the inputs' as they were and the output's at `out7_2 x0 x1`. -/
theorem sound_kernel7 (c : Dev nD) (E : Set ℕ) (i : grid7.Coords) (arg0 : Memref sig .tc .vmem S2000x128 .f32) (harg0 : arg0.IsWhole) (arg1 : Memref sig .tc .vmem S128x128 .f32) (harg1 : arg1.IsWhole) (arg2 : Memref sig .tc .vmem S2000x128 .f32) (harg2 : arg2.IsWhole)
    (x0 : Vec F S2000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out7_2 x0 x1)) -∗ K ⟨⟩))
      ⊢ wp frame (wpE (defs₀ (F := F)) Variants.none c none) E (cc7__mm_big_kernel i arg0 harg0 arg1 harg1 arg2 harg2) K := by
  simp only [cc7__mm_big_kernel_eq_skeleton]; unfold cc7__mm_big_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-- The pipeline's proof data on core `c`: the arrays as the region finds them; after the body at point `t` each
    input's buffer at its block and the output's at `out7_2` of them; the invariant the scoped rest and the
    generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

/-- The body at any point: the inputs' memrefs hold their blocks, so the body's triple applies; the invariant
    and the core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Fr

end
-- ==== Proof.KB.Reg8.lean ====
import proofs.«126270_j6725918785969_1_alg».proof.Proof.Gen.Kernel.Launch
import proofs.«126270_j6725918785969_1_alg».proof.Proof.Gen.Kernel.Skeleton
import proofs.«126270_j6725918785969_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 8: the row-tiled leaky rectifier `max (x / 2) x`

One input window and one output window, both cut into blocks of 2000 rows; at every grid point the body
loads the input block, computes `max (0.5 · x) x` entry by entry and stores the result over the whole
output block. Stated at a parameter `V`, the buffer contents the region is entered from: the block each
window holds at a point, what the body leaves in the output buffer, the body's triple, the pipeline's
proof data and the body obligation at every point.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The input window's current staging buffer holds its block at every point, for any proof data whose array
    is the entry contents and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- The one rectangle the body reads and writes: the whole block. -/
abbrev r8_0 : Rect S2000x128 := Rect.unit (s := S2000x128) ![0, 0] S2000x128.size inb_S2000x128_S2000x128_0_0

/-- The output buffer after the body: its one store, of `max (0.5 · x) x` of the input block. -/
def out8_1 (x0 : Vec F S2000x128 .f32) : Vec F S2000x128 .f32 :=
  View.canon [⟨r8_0, k8_pay1 (View.ld x0 r8_0)⟩]

/-- The store covers the buffer. -/
theorem cover8_1 (p0 : Vec F S2000x128 .f32) (y : S2000x128.Idx) :
    ∃ pc ∈ ([⟨r8_0, p0⟩] : List (View.Piece (Elt F) S2000x128 .f32)), y ∈ pc.1.set :=
  View.cover_of_tiled [⟨r8_0, p0⟩] S2000x128.size (by rfl) y

set_option maxHeartbeats 1000000 in
/-- The body on whole staging memrefs, the input's at contents `x0` and the output's at anything, runs to the
    continuation with the input's as it was and the output's at `out8_1 x0`. -/
theorem sound_kernel8 (c : Dev nD) (E : Set ℕ) (i : grid8.Coords) (arg0 : Memref sig .tc .vmem S2000x128 .f32) (harg0 : arg0.IsWhole) (arg1 : Memref sig .tc .vmem S2000x128 .f32) (harg1 : arg1.IsWhole)
    (x0 : Vec F S2000x128 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out8_1 x0)) -∗ K ⟨⟩))
      ⊢ wp frame (wpE (defs₀ (F := F)) Variants.none c none) E (cc8__leaky_kernel i arg0 harg0 arg1 harg1) K := by
  simp only [cc8__leaky_kernel_eq_skeleton]; unfold cc8__leaky_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover8_1 _)

/-- The pipeline's proof data on core `c`: the arrays as the region finds them; after the body at point `t` the
    input's buffer at its block and the output's at `out8_1` of it; the invariant the scoped rest and the
    generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => out8_1 (iblk8 V c 0 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = out8_1 (iblk8 V c 0 t) := by dsimp only [dat8]

theorem before8_0 (c : Dev nD) (t : Fin cfg8.N) (d) : (dat8 V c).before 0 t d = iblk8 V c 0 t :=
  before8_0_of V (dat8 V c) (A_eq8 V c 0) (after8_0 V c) t d

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t))

/-- The body at any point: the input's memref holds its block, so the body's triple applies; the invariant and
    the core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0]
  rw [show (dat8 V c).Φ t.succ = (dat8 V c).Φ t.castSucc from rfl,
    show (dat8 V c).owesAt () t.succ = (dat8 V c).owesAt () t.castSucc from rfl,
    after8_0, after8_1]
  iintro ⟨HΦ, Ho, ⟨%d0, H0⟩, ⟨%d1, H1⟩⟩
  iapply (sound_kernel8 c Set.univ _ _ _ _ _ (iblk8 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Fr

end
-- ==== Proof.KB.Reg9.lean ====
import proofs.«126270_j6725918785969_1_alg».proof.Proof.Gen.Kernel.Launch
import proofs.«126270_j6725918785969_1_alg».proof.Proof.Gen.Kernel.Skeleton
import proofs.«126270_j6725918785969_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 9: the row-tiled leaky rectifier `max (x / 2) x`

One input window and one output window, both cut into blocks of 2000 rows; at every grid point the body
loads the input block, computes `max (0.5 · x) x` entry by entry and stores the result over the whole
output block. Stated at a parameter `V`, the buffer contents the region is entered from: the block each
window holds at a point, what the body leaves in the output buffer, the body's triple, the pipeline's
proof data and the body obligation at every point.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The input window's current staging buffer holds its block at every point, for any proof data whose array
    is the entry contents and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- The one rectangle the body reads and writes: the whole block. -/
abbrev r9_0 : Rect S2000x128 := Rect.unit (s := S2000x128) ![0, 0] S2000x128.size inb_S2000x128_S2000x128_0_0

/-- The output buffer after the body: its one store, of `max (0.5 · x) x` of the input block. -/
def out9_1 (x0 : Vec F S2000x128 .f32) : Vec F S2000x128 .f32 :=
  View.canon [⟨r9_0, k9_pay1 (View.ld x0 r9_0)⟩]

/-- The store covers the buffer. -/
theorem cover9_1 (p0 : Vec F S2000x128 .f32) (y : S2000x128.Idx) :
    ∃ pc ∈ ([⟨r9_0, p0⟩] : List (View.Piece (Elt F) S2000x128 .f32)), y ∈ pc.1.set :=
  View.cover_of_tiled [⟨r9_0, p0⟩] S2000x128.size (by rfl) y

set_option maxHeartbeats 1000000 in
/-- The body on whole staging memrefs, the input's at contents `x0` and the output's at anything, runs to the
    continuation with the input's as it was and the output's at `out9_1 x0`. -/
theorem sound_kernel9 (c : Dev nD) (E : Set ℕ) (i : grid9.Coords) (arg0 : Memref sig .tc .vmem S2000x128 .f32) (harg0 : arg0.IsWhole) (arg1 : Memref sig .tc .vmem S2000x128 .f32) (harg1 : arg1.IsWhole)
    (x0 : Vec F S2000x128 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out9_1 x0)) -∗ K ⟨⟩))
      ⊢ wp frame (wpE (defs₀ (F := F)) Variants.none c none) E (cc9__leaky_kernel i arg0 harg0 arg1 harg1) K := by
  simp only [cc9__leaky_kernel_eq_skeleton]; unfold cc9__leaky_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover9_1 _)

/-- The pipeline's proof data on core `c`: the arrays as the region finds them; after the body at point `t` the
    input's buffer at its block and the output's at `out9_1` of it; the invariant the scoped rest and the
    generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => out9_1 (iblk9 V c 0 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = out9_1 (iblk9 V c 0 t) := by dsimp only [dat9]

theorem before9_0 (c : Dev nD) (t : Fin cfg9.N) (d) : (dat9 V c).before 0 t d = iblk9 V c 0 t :=
  before9_0_of V (dat9 V c) (A_eq9 V c 0) (after9_0 V c) t d

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t))

/-- The body at any point: the input's memref holds its block, so the body's triple applies; the invariant and
    the core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0]
  rw [show (dat9 V c).Φ t.succ = (dat9 V c).Φ t.castSucc from rfl,
    show (dat9 V c).owesAt () t.succ = (dat9 V c).owesAt () t.castSucc from rfl,
    after9_0, after9_1]
  iintro ⟨HΦ, Ho, ⟨%d0, H0⟩, ⟨%d1, H1⟩⟩
  iapply (sound_kernel9 c Set.univ _ _ _ _ _ (iblk9 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Fr

end
-- ==== Proof.KB.Reg10.lean ====
import proofs.«126270_j6725918785969_1_alg».proof.Proof.Gen.Kernel.Launch
import proofs.«126270_j6725918785969_1_alg».proof.Proof.Gen.Kernel.Skeleton
import proofs.«126270_j6725918785969_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 10: the product `lhsᵀ · rhs` reduced over fifty blocks of rows, then the leaky rectifier

Two input windows, each cut into fifty blocks of 2000 rows, and one 128 × 128 output window whose block index
never moves. The kernel keeps a 128 × 128 accumulator in a scratch buffer of its own: at the first grid point it
zeroes it, at every point it adds the product of the transposed left block and the right block, and at the last
point only it stores `max (x / 2) x` of the accumulator into the output's staging buffer, which is written back
there and nowhere else. So the body has three control cases — first point, middle point, last point —, the
accumulator's contents are carried from point to point by the region invariant, and the output window is idle
everywhere but at the last point. Stated at a parameter `V`, the buffer contents the region is entered from.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, decided over the grid -/

/-- The condition of the body's first conditional: the reduction coordinate is zero. -/
abbrev cond10_0 (i : grid10.Coords) : Prop := (Scalar.cmpi .ne (Scalar.extui (Scalar.cmpi .eq (BitVec.ofNat 32 (i 0).val) 0#32)) 0#32) = 1#1
/-- It holds at the first point only. -/
theorem hcond10_0 : ∀ t : Fin cfg10.N, cond10_0 (grid10.coords t) ↔ t.val % 50 = 0 :=
  (by decide +kernel : ∀ t : Fin grid10.N, cond10_0 (grid10.coords t) ↔ t.val % 50 = 0)

/-- The condition of the body's second conditional: the reduction coordinate is the last. -/
abbrev cond10_1 (i : grid10.Coords) : Prop := k10_cond2 i = 1#1
/-- It holds at the last point only. -/
theorem hcond10_1 : ∀ t : Fin cfg10.N, cond10_1 (grid10.coords t) ↔ t.val % 50 = 49 :=
  (by decide +kernel : ∀ t : Fin grid10.N, cond10_1 (grid10.coords t) ↔ t.val % 50 = 49)

/-! ## Where the windows are idle -/

/-- The two inputs are never idle. -/
theorem liveAt10_0 : ∀ t : Fin cfg10.N, cfg10.idle 0 (grid10.coords t) = false := by decide +kernel
theorem liveAt10_1 : ∀ t : Fin cfg10.N, cfg10.idle 1 (grid10.coords t) = false := by decide +kernel
/-- Where the second condition fails the output is idle and is not written back. -/
theorem idleAt10_2 : ∀ t : Fin cfg10.N, ¬cond10_1 (grid10.coords t) → cfg10.idle 2 (grid10.coords t) = true := by decide +kernel
theorem noFlush10_2 : ∀ t : Fin cfg10.N, ¬cond10_1 (grid10.coords t) → (cfg10.win 2).flush t = false := by decide +kernel
/-- Where it holds the output is live. -/
theorem liveAt10_2 : ∀ t : Fin cfg10.N, cond10_1 (grid10.coords t) → cfg10.idle 2 (grid10.coords t) = false := by decide +kernel

/-! ## The memrefs the body is called with -/

/-- One staging buffer of the output window, through which its contents are stated. -/
abbrev VO10_2 : View sig .tc .vmem S128x128 .f32 := (Memref.whole cc10_stg2_0 : Memref sig .tc .vmem S128x128 .f32).view
/-- Each window's current staging memref at point `t`, and its wholeness. -/
abbrev ms10_0 (t : Fin cfg10.N) : Memref sig .tc .vmem S2000x128 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S2000x128 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S128x128 .f32 := win10_2.stage (cfg10.slots t 2)
abbrev hs10_2 (t : Fin cfg10.N) : (ms10_2 t).IsWhole := hstage10_2 ((cfg10.slots t 2).cast nbuf10_2)
/-- The accumulator: a whole scoped buffer of the kernel's own, passed beside the windows. -/
abbrev scM10_0 : Memref sig .tc .vmem S128x128 .f32 := Memref.whole cc10_scratch0
/-- The accumulator as a view: what it holds is stated through it. -/
abbrev VS10_0 : View sig .tc .vmem S128x128 .f32 := scM10_0.view

/-- The region invariant of a body that need not describe its scratch, with the accumulator as a memref owned at
    some contents and every other scoped buffer unopened. -/
theorem PhiA10_eq (c : Dev nD) :
    (Pipeline.ΦA spec10 c : sProp 𝕄)
      = iprop(iprop(iprop((∃ d, owns (c : Thread nD τ) scM10_0 fullShare d))
          ∗ Pipeline.scopedRestBut (Ix := Unit) (Name := ℕ) (U := UR sig nD τ) (Lvl := ℕ) (Val := Elt F) spec10 c [cc10_scratch0]) ∗ (∃ r, prngReg c r)) := by
  unfold Pipeline.ΦA; rw [scopedRest10_split]; simp only [scM10_0, owns_whole]; try rfl

set_option maxHeartbeats 1000000 in
/-- THE FIRST POINT (the first conditional taken, the second not). On whole memrefs — the inputs' at their contents,
    the output's at contents handed back untouched, the accumulator at anything — the body runs to the continuation
    holding the inputs' and the output's as they were and the accumulator with its stores' pieces written (last
    first): zero, then zero plus the product of the two blocks. The pieces are what the run finds. -/
noncomputable def kernelRun10_A (c : Dev nD) (i : grid10.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : cond10_0 i) (hc1 : ¬cond10_1 i)
    (x0 : Vec F S2000x128 .f32) (x1 : Vec F S2000x128 .f32) :
    Σ' (L2 : List (View.Piece (Elt F) S128x128 .f32)), { LS0 : List (View.Piece (Elt F) S128x128 .f32) //
      ∀ (xi2 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc10__mm_reduce_k_kernel i arg1 harg1 arg2 harg2 arg3 harg3 arg4 harg4) K } := by
  refine ⟨[], ?_, fun xi2 E K => ?run⟩
  case run =>
    simp only [cc10__mm_reduce_k_kernel_eq_skeleton]; unfold cc10__mm_reduce_k_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A MIDDLE POINT (neither conditional taken). The accumulator comes in at the contents `xs0` the point before left
    and goes out with one piece written: `xs0` plus the product of the two blocks. The output is handed back untouched. -/
noncomputable def kernelRun10_B (c : Dev nD) (i : grid10.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond10_0 i) (hc1 : ¬cond10_1 i)
    (x0 : Vec F S2000x128 .f32) (x1 : Vec F S2000x128 .f32) (xs0 : Vec F S128x128 .f32) :
    Σ' (L2 : List (View.Piece (Elt F) S128x128 .f32)), { LS0 : List (View.Piece (Elt F) S128x128 .f32) //
      ∀ (xi2 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc10__mm_reduce_k_kernel i arg1 harg1 arg2 harg2 arg3 harg3 arg4 harg4) K } := by
  refine ⟨[], ?_, fun xi2 E K => ?run⟩
  case run =>
    simp only [cc10__mm_reduce_k_kernel_eq_skeleton]; unfold cc10__mm_reduce_k_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- THE LAST POINT (the first conditional not taken, the second taken). The accumulator comes in at `xs0`, goes out
    with `xs0` plus the product written, and the output, at anything before, goes out with one piece written: the
    rectifier of the accumulator's final contents. -/
noncomputable def kernelRun10_C (c : Dev nD) (i : grid10.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond10_0 i) (hc1 : cond10_1 i)
    (x0 : Vec F S2000x128 .f32) (x1 : Vec F S2000x128 .f32) (xs0 : Vec F S128x128 .f32) :
    Σ' (L2 : List (View.Piece (Elt F) S128x128 .f32)), { LS0 : List (View.Piece (Elt F) S128x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc10__mm_reduce_k_kernel i arg1 harg1 arg2 harg2 arg3 harg3 arg4 harg4) K } := by
  refine ⟨?_, ?_, fun E K => ?run⟩
  case run =>
    simp only [cc10__mm_reduce_k_kernel_eq_skeleton]; unfold cc10__mm_reduce_k_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

variable (V : (c : Dev nD) → (b : Ref sig .tc) → Buf (Elt F) ((c : Thread nD τ).loc b))

/-! ## The windows' blocks -/

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Each input's current staging buffer holds its block of rows at every point. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## What each case leaves in the output's buffer and in the accumulator -/

/-- The first point's stores cover the accumulator. -/
theorem scover10_A_0 (c : Dev nD) (i : grid10.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : cond10_0 i) (hc1 : ¬cond10_1 i)
    (x0 : Vec F S2000x128 .f32) (x1 : Vec F S2000x128 .f32) (y : S128x128.Idx) :
    ∃ pc ∈ (kernelRun10_A c i arg1 harg1 arg2 harg2 arg3 harg3 arg4 harg4 hc0 hc1 x0 x1).2.1, y ∈ pc.1.set :=
  View.cover_of_tiledL (kernelRun10_A c i arg1 harg1 arg2 harg2 arg3 harg3 arg4 harg4 hc0 hc1 x0 x1).2.1 S128x128.size (by sl_kernel_rfl) y

/-- What the first point leaves in the accumulator: its pieces read back. -/
def sout10_A_0 (c : Dev nD) (i : grid10.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : cond10_0 i) (hc1 : ¬cond10_1 i)
    (x0 : Vec F S2000x128 .f32) (x1 : Vec F S2000x128 .f32) : Vec F S128x128 .f32 :=
  VS10_0.read (Elt F) (VS10_0.writes (Elt F) VS10_0.junk (kernelRun10_A c i arg1 harg1 arg2 harg2 arg3 harg3 arg4 harg4 hc0 hc1 x0 x1).2.1)

/-- A middle point's store covers the accumulator. -/
theorem scover10_B_0 (c : Dev nD) (i : grid10.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond10_0 i) (hc1 : ¬cond10_1 i)
    (x0 : Vec F S2000x128 .f32) (x1 : Vec F S2000x128 .f32) (xs0 : Vec F S128x128 .f32) (y : S128x128.Idx) :
    ∃ pc ∈ (kernelRun10_B c i arg1 harg1 arg2 harg2 arg3 harg3 arg4 harg4 hc0 hc1 x0 x1 xs0).2.1, y ∈ pc.1.set :=
  View.cover_of_tiledL (kernelRun10_B c i arg1 harg1 arg2 harg2 arg3 harg3 arg4 harg4 hc0 hc1 x0 x1 xs0).2.1 S128x128.size (by sl_kernel_rfl) y

/-- What a middle point leaves in the accumulator. -/
def sout10_B_0 (c : Dev nD) (i : grid10.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond10_0 i) (hc1 : ¬cond10_1 i)
    (x0 : Vec F S2000x128 .f32) (x1 : Vec F S2000x128 .f32) (xs0 : Vec F S128x128 .f32) : Vec F S128x128 .f32 :=
  VS10_0.read (Elt F) (VS10_0.writes (Elt F) VS10_0.junk (kernelRun10_B c i arg1 harg1 arg2 harg2 arg3 harg3 arg4 harg4 hc0 hc1 x0 x1 xs0).2.1)

/-- The last point's store covers the output's buffer. -/
theorem cover10_C_2 (c : Dev nD) (i : grid10.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond10_0 i) (hc1 : cond10_1 i)
    (x0 : Vec F S2000x128 .f32) (x1 : Vec F S2000x128 .f32) (xs0 : Vec F S128x128 .f32) (y : S128x128.Idx) :
    ∃ pc ∈ (kernelRun10_C c i arg1 harg1 arg2 harg2 arg3 harg3 arg4 harg4 hc0 hc1 x0 x1 xs0).1, y ∈ pc.1.set :=
  View.cover_of_tiledL (kernelRun10_C c i arg1 harg1 arg2 harg2 arg3 harg3 arg4 harg4 hc0 hc1 x0 x1 xs0).1 S128x128.size (by sl_kernel_rfl) y

/-- What the last point leaves in the output's buffer. -/
def out10_C_2 (c : Dev nD) (i : grid10.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond10_0 i) (hc1 : cond10_1 i)
    (x0 : Vec F S2000x128 .f32) (x1 : Vec F S2000x128 .f32) (xs0 : Vec F S128x128 .f32) : Vec F S128x128 .f32 :=
  VO10_2.read (Elt F) (VO10_2.writes (Elt F) VO10_2.junk (kernelRun10_C c i arg1 harg1 arg2 harg2 arg3 harg3 arg4 harg4 hc0 hc1 x0 x1 xs0).1)

/-- The last point's store covers the accumulator. -/
theorem scover10_C_0 (c : Dev nD) (i : grid10.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond10_0 i) (hc1 : cond10_1 i)
    (x0 : Vec F S2000x128 .f32) (x1 : Vec F S2000x128 .f32) (xs0 : Vec F S128x128 .f32) (y : S128x128.Idx) :
    ∃ pc ∈ (kernelRun10_C c i arg1 harg1 arg2 harg2 arg3 harg3 arg4 harg4 hc0 hc1 x0 x1 xs0).2.1, y ∈ pc.1.set :=
  View.cover_of_tiledL (kernelRun10_C c i arg1 harg1 arg2 harg2 arg3 harg3 arg4 harg4 hc0 hc1 x0 x1 xs0).2.1 S128x128.size (by sl_kernel_rfl) y

/-- What the last point leaves in the accumulator. -/
def sout10_C_0 (c : Dev nD) (i : grid10.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond10_0 i) (hc1 : cond10_1 i)
    (x0 : Vec F S2000x128 .f32) (x1 : Vec F S2000x128 .f32) (xs0 : Vec F S128x128 .f32) : Vec F S128x128 .f32 :=
  VS10_0.read (Elt F) (VS10_0.writes (Elt F) VS10_0.junk (kernelRun10_C c i arg1 harg1 arg2 harg2 arg3 harg3 arg4 harg4 hc0 hc1 x0 x1 xs0).2.1)

/-! ## What the output's buffer and the accumulator hold after each point -/

/-- The output's buffer at a point that stores nothing into it: a placeholder nothing consults, the window being
    neither written back there nor read at the next point. -/
def idle10_2 : Vec F S128x128 .f32 := VO10_2.read (Elt F) VO10_2.junk

/-- THE ACCUMULATION. What the output's staging buffer and the accumulator hold after the body at position `n`: the
    case the closed forms select at `n`, run at the point's memrefs and input blocks, the accumulator coming in at
    what position `n - 1` left in it. After the first point the accumulator is zero plus the first product; after a
    later point what it held plus that point's product; after the last point the output's buffer holds the
    rectifier of the whole sum. -/
def outsAt10 (c : Dev nD) : (n : ℕ) → n < cfg10.N → Vec F S128x128 .f32 × Vec F S128x128 .f32
  | 0, hn => (idle10_2, sout10_A_0 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) scM10_0 (Memref.isWhole_whole _) ((hcond10_0 ⟨0, hn⟩).mpr (Nat.zero_mod _)) (fun h => (fun h => by (try dsimp only at h); omega) ((hcond10_1 ⟨0, hn⟩).mp h)) (iblk10 V c 0 ⟨0, hn⟩) (iblk10 V c 1 ⟨0, hn⟩))
  | n + 1, hn =>
    if h0 : (n + 1) % 50 = 0 then
      if h1 : (n + 1) % 50 = 49 then
        False.elim (by omega)
      else
        (idle10_2, sout10_A_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) ((hcond10_0 ⟨n + 1, hn⟩).mpr h0) (fun h => h1 ((hcond10_1 ⟨n + 1, hn⟩).mp h)) (iblk10 V c 0 ⟨n + 1, hn⟩) (iblk10 V c 1 ⟨n + 1, hn⟩))
    else
      if h1 : (n + 1) % 50 = 49 then
        (out10_C_2 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => h0 ((hcond10_0 ⟨n + 1, hn⟩).mp h)) ((hcond10_1 ⟨n + 1, hn⟩).mpr h1) (iblk10 V c 0 ⟨n + 1, hn⟩) (iblk10 V c 1 ⟨n + 1, hn⟩) (outsAt10 c n (Nat.lt_of_succ_lt hn)).2,
         sout10_C_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => h0 ((hcond10_0 ⟨n + 1, hn⟩).mp h)) ((hcond10_1 ⟨n + 1, hn⟩).mpr h1) (iblk10 V c 0 ⟨n + 1, hn⟩) (iblk10 V c 1 ⟨n + 1, hn⟩) (outsAt10 c n (Nat.lt_of_succ_lt hn)).2)
      else
        (idle10_2, sout10_B_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => h0 ((hcond10_0 ⟨n + 1, hn⟩).mp h)) (fun h => h1 ((hcond10_1 ⟨n + 1, hn⟩).mp h)) (iblk10 V c 0 ⟨n + 1, hn⟩) (iblk10 V c 1 ⟨n + 1, hn⟩) (outsAt10 c n (Nat.lt_of_succ_lt hn)).2)

/-- `outsAt10` at the first point. -/
theorem outsAt10_A (c : Dev nD) (t : Fin cfg10.N) (h0 : t.val % 50 = 0) (h1 : ¬t.val % 50 = 49) :
    outsAt10 V c t.val t.isLt = (idle10_2, sout10_A_0 c (grid10.coords t) (ms10_0 t) (hs10_0 t) (ms10_1 t) (hs10_1 t) (ms10_2 t) (hs10_2 t) scM10_0 (Memref.isWhole_whole _) ((hcond10_0 t).mpr h0) (fun h => h1 ((hcond10_1 t).mp h)) (iblk10 V c 0 t) (iblk10 V c 1 t)) := by
  obtain ⟨n, hn⟩ := t
  cases n with
  | zero => exact rfl
  | succ n => exact (dif_pos h0).trans ((dif_neg h1).trans rfl)

/-- `outsAt10` at a middle point: over what the point before left. -/
theorem outsAt10_B (c : Dev nD) (t : Fin cfg10.N) (h0 : ¬t.val % 50 = 0) (h1 : ¬t.val % 50 = 49) :
    outsAt10 V c t.val t.isLt = (idle10_2, sout10_B_0 c (grid10.coords t) (ms10_0 t) (hs10_0 t) (ms10_1 t) (hs10_1 t) (ms10_2 t) (hs10_2 t) scM10_0 (Memref.isWhole_whole _) (fun h => h0 ((hcond10_0 t).mp h)) (fun h => h1 ((hcond10_1 t).mp h)) (iblk10 V c 0 t) (iblk10 V c 1 t) (outsAt10 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt10` at the last point: over what the point before left. -/
theorem outsAt10_C (c : Dev nD) (t : Fin cfg10.N) (h0 : ¬t.val % 50 = 0) (h1 : t.val % 50 = 49) :
    outsAt10 V c t.val t.isLt = (out10_C_2 c (grid10.coords t) (ms10_0 t) (hs10_0 t) (ms10_1 t) (hs10_1 t) (ms10_2 t) (hs10_2 t) scM10_0 (Memref.isWhole_whole _) (fun h => h0 ((hcond10_0 t).mp h)) ((hcond10_1 t).mpr h1) (iblk10 V c 0 t) (iblk10 V c 1 t) (outsAt10 V c (t.val - 1) (Nat.lt_of_le_of_lt (Nat.sub_le _ _) t.isLt)).2,
      sout10_C_0 c (grid10.coords t) (ms10_0 t) (hs10_0 t) (ms10_1 t) (hs10_1 t) (ms10_2 t) (hs10_2 t) scM10_0 (Memref.isWhole_whole _) (fun h => h0 ((hcond10_0 t).mp h)) ((hcond10_1 t).mpr h1) (iblk10 V c 0 t) (iblk10 V c 1 t) (outsAt10 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point every scoped buffer that is no staging buffer at
    anything, and the generator register at some state; afterwards the accumulator at what the point before left in
    it (`outsAt10`'s second component), every other such buffer unopened, and the register. -/
def PhiS10 (c : Dev nD) : (n : ℕ) → n ≤ cfg10.N → sProp 𝕄
  | 0, _ => Pipeline.ΦA spec10 c
  | n + 1, hn => iprop(iprop(iprop(owns (c : Thread nD τ) scM10_0 fullShare ((outsAt10 V c n hn).2)) ∗ Pipeline.scopedRestBut (Ix := Unit) (Name := ℕ) (U := UR sig nD τ) (Lvl := ℕ) (Val := Elt F) spec10 c [cc10_scratch0]) ∗ (∃ r, prngReg c r))

theorem PhiS10_zero (c : Dev nD) (n : ℕ) (h : n ≤ cfg10.N) (hz : n = 0) : PhiS10 V c n h = Pipeline.ΦA spec10 c := by
  subst hz; rfl

theorem PhiS10_succ (c : Dev nD) (n : ℕ) (hn : n < cfg10.N) :
    PhiS10 V c (n + 1) hn = iprop(iprop(iprop(owns (c : Thread nD τ) scM10_0 fullShare ((outsAt10 V c n hn).2)) ∗ Pipeline.scopedRestBut (Ix := Unit) (Name := ℕ) (U := UR sig nD τ) (Lvl := ℕ) (Val := Elt F) spec10 c [cc10_scratch0]) ∗ (∃ r, prngReg c r)) := rfl

theorem PhiS10_pos (c : Dev nD) (n : ℕ) (h : n ≤ cfg10.N) (hz : n ≠ 0) :
    PhiS10 V c n h = iprop(iprop(iprop(owns (c : Thread nD τ) scM10_0 fullShare ((outsAt10 V c (n - 1) (by omega)).2)) ∗ Pipeline.scopedRestBut (Ix := Unit) (Name := ℕ) (U := UR sig nD τ) (Lvl := ℕ) (Val := Elt F) spec10 c [cc10_scratch0]) ∗ (∃ r, prngReg c r)) := by
  cases n with
  | zero => exact absurd rfl hz
  | succ n => rfl

/-! ## The pipeline's proof data -/

/-- The proof data on core `c`: the arrays as the region finds them; after the body at point `t` each input's
    buffer at its block and the output's at `outsAt10`'s first component; the invariant `PhiS10`; nothing owed; full
    shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => (outsAt10 V c t.val t.isLt).1
  Φ t := PhiS10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem PhiS10_castSucc (c : Dev nD) (t : Fin cfg10.N) :
    (dat10 V c).Φ t.castSucc = PhiS10 V c t.val (Nat.le_of_lt t.isLt) := by
  dsimp only [dat10]; simp only [Fin.coe_castSucc]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = (outsAt10 V c t.val t.isLt).1 := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation -/

/-- What the body is called with at point `t`, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t)

set_option maxHeartbeats 4800000 in
/-- The body at any point. The inputs' memrefs hold their blocks; the closed forms say which case the point is in;
    the invariant hands the body the accumulator — at anything at the first point, at what the point before left
    afterwards —, every other scoped buffer and the generator register riding along unread, and takes the
    accumulator back at this point's contents; the output's buffer is handed back untouched except at the last
    point, where it is left at the rectifier of the sum; the core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl]
  rw [show (dat10 V c).Φ t.succ = PhiS10 V c (t.val + 1) t.isLt from rfl, PhiS10_succ]
  have hN : t.val < 50 := lt_of_lt_of_eq t.isLt (show cfg10.N = 50 from N_10)
  rw [show (dat10 V c).leavesExact 0 t = owns (c : Thread nD τ) (ms10_0 t) fullShare ((dat10 V c).after 0 t) from by
    unfold Dat.leavesExact; rw [liveAt10_0 t], after10_0]
  rw [show (dat10 V c).leavesExact 1 t = owns (c : Thread nD τ) (ms10_1 t) fullShare ((dat10 V c).after 1 t) from by
    unfold Dat.leavesExact; rw [liveAt10_1 t], after10_1]
  by_cases h0 : t.val % 50 = 0
  · have h1 : ¬t.val % 50 = 49 := by omega
    have hz : t.val = 0 := by omega
    rw [Dat.leavesExact_idle (dat10 V c) 2 t (idleAt10_2 t (fun h => h1 ((hcond10_1 t).mp h))) (noFlush10_2 t (fun h => h1 ((hcond10_1 t).mp h)))]
    rw [outsAt10_A V c t h0 h1]
    unfold sout10_A_0; (try dsimp only)
    rw [PhiS10_castSucc V c t, PhiS10_zero V c _ _ hz, PhiA10_eq]
    iintro ⟨⟨⟨HS0, Hrest⟩, Hg⟩, Ho, ⟨%d0, H0⟩, ⟨%d1, H1⟩, ⟨%d2, H2⟩⟩
    iapply ((kernelRun10_A c (grid10.coords t) _ _ _ _ _ _ _ _ ((hcond10_0 t).mpr h0) (fun h => h1 ((hcond10_1 t).mp h)) (iblk10 V c 0 t) (iblk10 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover10_A_0 c _ _ _ _ _ _ _ _ _ _ _ _ _)
        iexact Hrest
      iexact Hg
    isplitl [Ho]; · iexact Ho
    isplitl [H0]; · iexact H0
    isplitl [H1]; · iexact H1
    iexists _; iexact H2
  · have hz : t.val ≠ 0 := by omega
    by_cases h1 : t.val % 50 = 49
    · rw [show (dat10 V c).leavesExact 2 t = owns (c : Thread nD τ) (ms10_2 t) fullShare ((dat10 V c).after 2 t) from by
        unfold Dat.leavesExact; rw [liveAt10_2 t ((hcond10_1 t).mpr h1)], after10_2]
      rw [outsAt10_C V c t h0 h1]
      unfold out10_C_2 sout10_C_0; (try dsimp only)
      rw [PhiS10_castSucc V c t, PhiS10_pos V c _ _ hz]
      iintro ⟨⟨⟨HS0, Hrest⟩, Hg⟩, Ho, ⟨%d0, H0⟩, ⟨%d1, H1⟩, ⟨%d2, H2⟩⟩
      iapply ((kernelRun10_C c (grid10.coords t) _ _ _ _ _ _ _ _ (fun h => h0 ((hcond10_0 t).mp h)) ((hcond10_1 t).mpr h1) (iblk10 V c 0 t) (iblk10 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover10_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover10_C_2 c _ _ _ _ _ _ _ _ _ _ _ _ _ _)
    · rw [Dat.leavesExact_idle (dat10 V c) 2 t (idleAt10_2 t (fun h => h1 ((hcond10_1 t).mp h))) (noFlush10_2 t (fun h => h1 ((hcond10_1 t).mp h)))]
      rw [outsAt10_B V c t h0 h1]
      unfold sout10_B_0; (try dsimp only)
      rw [PhiS10_castSucc V c t, PhiS10_pos V c _ _ hz]
      iintro ⟨⟨⟨HS0, Hrest⟩, Hg⟩, Ho, ⟨%d0, H0⟩, ⟨%d1, H1⟩, ⟨%d2, H2⟩⟩
      iapply ((kernelRun10_B c (grid10.coords t) _ _ _ _ _ _ _ _ (fun h => h0 ((hcond10_0 t).mp h)) (fun h => h1 ((hcond10_1 t).mp h)) (iblk10 V c 0 t) (iblk10 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover10_B_0 c _ _ _ _ _ _ _ _ _ _ _ _ _ _)
          iexact Hrest
        iexact Hg
      isplitl [Ho]; · iexact Ho
      isplitl [H0]; · iexact H0
      isplitl [H1]; · iexact H1
      iexists _; iexact H2

/-- The body obligation, at every point. -/
theorem body_obligation10 (c : Dev nD) : BodyObligation (dat10 (F := F) V c) (defs₀ (F := F)) Variants.none () Set.univ := fun t => by
  rw [bigSep_W10, bigSep_W10]
  exact sound_body10 V c t

/-! ## Into the invariant and out of it -/

/-- What the launch hands the region — the generator register, no prefetched table, the scoped buffers no window
    stages — is the invariant before the first point. -/
theorem hin10 (c : Dev nD) :
    iprop((∃ r, prngReg c r) ∗ Pipeline.prefHeld (pcfgs (F := F) 10).pre c (fun _ => fullShare) ((cfgs 10).toPCfg_adm).1 ∗ Pipeline.scopedRest spec10 c)
      ⊢ (dat10 V c).Φ 0 := by
  rw [show (dat10 V c).Φ 0 = PhiS10 V c 0 (Nat.zero_le _) from rfl, PhiS10_zero V c 0 _ rfl]; unfold Pipeline.ΦA
  iintro ⟨Hp, -, Hr⟩
  isplitl [Hr]; · iexact Hr
  iexact Hp

/-- After any point but the first the invariant gives the scoped buffers and the register back: the accumulator's
    named contents are forgotten. -/
theorem Phi_out10 (c : Dev nD) (t : Fin (cfg10.N + 1)) (ht : t.val ≠ 0) : (dat10 V c).Φ t ⊢ Pipeline.ΦA spec10 c := by
  rw [show (dat10 V c).Φ t = PhiS10 V c t.val (Nat.le_of_lt_succ t.isLt) from rfl, PhiS10_pos V c _ _ ht, PhiA10_eq]
  iintro ⟨⟨HS0, Hrest⟩, Hg⟩
  isplitl [HS0 Hrest]
  · isplitl [HS0]
    · iexists _; iexact HS0
    iexact Hrest
  iexact Hg

/-- The same after the last point, as the region hands it back: the register, no semaphore of the kernel's own, the
    scoped buffers. -/
theorem hout10 (c : Dev nD) :
    (dat10 V c).Φ (Fin.last cfg10.N)
      ⊢ iprop((∃ r, prngReg c r) ∗ Pipeline.ownSems0 (Ix := Unit) (Name := ℕ) (U := UR sig nD τ) (Lvl := ℕ) (Val := Elt F) (τ := τ) (fun k : PEmpty => k.elim) c ∗ Pipeline.scopedRest spec10 c) := by
  refine (Phi_out10 V c _ (by rw [Fin.val_last]; have : cfg10.N = 50 := N_10; omega)).trans ?_
  rw [Pipeline.ownSems0_none]; unfold Pipeline.ΦA
  iintro ⟨Hr, Hp⟩
  isplitl [Hp]; · iexact Hp
  isplitr; · iempintro
  iexact Hr

end Cert.Kernel.Fr

end
-- ==== Proof.KB.Reg11.lean ====
import proofs.«126270_j6725918785969_1_alg».proof.Proof.Gen.Kernel.Launch
import proofs.«126270_j6725918785969_1_alg».proof.Proof.Gen.Kernel.Skeleton
import proofs.«126270_j6725918785969_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 11: a row-tiled matrix product followed by the leaky rectifier

Two input windows and one output window. Window 0 cuts the left factor into blocks of rows (`S2000x128`);
window 1 is the whole right factor (`S128x128`), the same block at every grid point; window 2 is the block of
the result's rows (`S2000x128`). At a grid point the body loads both input blocks, multiplies them into a zero
accumulator, takes `max (0.5 · y) y` entry by entry and stores the result over the whole output block. Stated at a
parameter `V`, the buffer contents the region is entered from.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- The left factor's current staging buffer holds its block of rows at every point. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- The right factor's staging buffer holds the whole factor at every point: fetched at the first point, its
    block index never moves afterwards. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- The rectangles the body reads and writes: each buffer whole. -/
abbrev r11_a : Rect S2000x128 := Rect.unit (s := S2000x128) ![0, 0] S2000x128.size inb_S2000x128_S2000x128_0_0
abbrev r11_b : Rect S128x128 := Rect.unit (s := S128x128) ![0, 0] S128x128.size inb_S128x128_S128x128_0_0

/-- The output buffer after the body: its one store, of the product of the two input blocks. -/
def out11_2 (x0 : Vec F S2000x128 .f32) (x1 : Vec F S128x128 .f32) : Vec F S2000x128 .f32 :=
  View.canon [⟨r11_a, k11_pay1 (View.ld x0 r11_a) (View.ld x1 r11_b)⟩]

/-- The store covers the buffer. -/
theorem cover11_2 (p0 : Vec F S2000x128 .f32) (y : S2000x128.Idx) :
    ∃ pc ∈ ([⟨r11_a, p0⟩] : List (View.Piece (Elt F) S2000x128 .f32)), y ∈ pc.1.set :=
  View.cover_of_tiled [⟨r11_a, p0⟩] S2000x128.size (by rfl) y

set_option maxHeartbeats 1000000 in
/-- The body on whole staging memrefs, the inputs' at contents `x0`, `x1` and the output's at anything, runs to the
    continuation with the inputs' as they were and the output's at `out11_2 x0 x1`. -/
theorem sound_kernel11 (c : Dev nD) (E : Set ℕ) (i : grid11.Coords) (arg0 : Memref sig .tc .vmem S2000x128 .f32) (harg0 : arg0.IsWhole) (arg1 : Memref sig .tc .vmem S128x128 .f32) (harg1 : arg1.IsWhole) (arg2 : Memref sig .tc .vmem S2000x128 .f32) (harg2 : arg2.IsWhole)
    (x0 : Vec F S2000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out11_2 x0 x1)) -∗ K ⟨⟩))
      ⊢ wp frame (wpE (defs₀ (F := F)) Variants.none c none) E (cc11__mm_big_kernel i arg0 harg0 arg1 harg1 arg2 harg2) K := by
  simp only [cc11__mm_big_kernel_eq_skeleton]; unfold cc11__mm_big_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover11_2 _)

/-- The pipeline's proof data on core `c`: the arrays as the region finds them; after the body at point `t` each
    input's buffer at its block and the output's at `out11_2` of them; the invariant the scoped rest and the
    generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => out11_2 (iblk11 V c 0 t) (iblk11 V c 1 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = out11_2 (iblk11 V c 0 t) (iblk11 V c 1 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d

/-- What the body is called with at point `t`, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t))

/-- The body at any point: the inputs' memrefs hold their blocks, so the body's triple applies; the invariant
    and the core's dues pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).Φ t.succ = (dat11 V c).Φ t.castSucc from rfl,
    show (dat11 V c).owesAt () t.succ = (dat11 V c).owesAt () t.castSucc from rfl,
    after11_0, after11_1, after11_2]
  iintro ⟨HΦ, Ho, ⟨%d0, H0⟩, ⟨%d1, H1⟩, ⟨%d2, H2⟩⟩
  iapply (sound_kernel11 c Set.univ _ _ _ _ _ _ _ (iblk11 V c 0 t) (iblk11 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Fr

end
-- ==== Proof.KB.Reg12.lean ====
import proofs.«126270_j6725918785969_1_alg».proof.Proof.Gen.Kernel.Launch
import proofs.«126270_j6725918785969_1_alg».proof.Proof.Gen.Kernel.Skeleton
import proofs.«126270_j6725918785969_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 12: the product `lhsᵀ · rhs` reduced over twenty-five blocks of rows, then the leaky rectifier

Two input windows, each cut into twenty-five blocks of 2000 rows, and one 128 × 128 output window whose block index
never moves. The kernel keeps a 128 × 128 accumulator in a scratch buffer of its own: at the first grid point it
zeroes it, at every point it adds the product of the transposed left block and the right block, and at the last
point only it stores `max (x / 2) x` of the accumulator into the output's staging buffer, which is written back
there and nowhere else. So the body has three control cases — first point, middle point, last point —, the
accumulator's contents are carried from point to point by the region invariant, and the output window is idle
everywhere but at the last point. Stated at a parameter `V`, the buffer contents the region is entered from.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, decided over the grid -/

/-- The condition of the body's first conditional: the reduction coordinate is zero. -/
abbrev cond12_0 (i : grid12.Coords) : Prop := (Scalar.cmpi .ne (Scalar.extui (Scalar.cmpi .eq (BitVec.ofNat 32 (i 0).val) 0#32)) 0#32) = 1#1
/-- It holds at the first point only. -/
theorem hcond12_0 : ∀ t : Fin cfg12.N, cond12_0 (grid12.coords t) ↔ t.val % 25 = 0 :=
  (by decide +kernel : ∀ t : Fin grid12.N, cond12_0 (grid12.coords t) ↔ t.val % 25 = 0)

/-- The condition of the body's second conditional: the reduction coordinate is the last. -/
abbrev cond12_1 (i : grid12.Coords) : Prop := k12_cond2 i = 1#1
/-- It holds at the last point only. -/
theorem hcond12_1 : ∀ t : Fin cfg12.N, cond12_1 (grid12.coords t) ↔ t.val % 25 = 24 :=
  (by decide +kernel : ∀ t : Fin grid12.N, cond12_1 (grid12.coords t) ↔ t.val % 25 = 24)

/-! ## Where the windows are idle -/

/-- The two inputs are never idle. -/
theorem liveAt12_0 : ∀ t : Fin cfg12.N, cfg12.idle 0 (grid12.coords t) = false := by decide +kernel
theorem liveAt12_1 : ∀ t : Fin cfg12.N, cfg12.idle 1 (grid12.coords t) = false := by decide +kernel
/-- Where the second condition fails the output is idle and is not written back. -/
theorem idleAt12_2 : ∀ t : Fin cfg12.N, ¬cond12_1 (grid12.coords t) → cfg12.idle 2 (grid12.coords t) = true := by decide +kernel
theorem noFlush12_2 : ∀ t : Fin cfg12.N, ¬cond12_1 (grid12.coords t) → (cfg12.win 2).flush t = false := by decide +kernel
/-- Where it holds the output is live. -/
theorem liveAt12_2 : ∀ t : Fin cfg12.N, cond12_1 (grid12.coords t) → cfg12.idle 2 (grid12.coords t) = false := by decide +kernel

/-! ## The memrefs the body is called with -/

/-- One staging buffer of the output window, through which its contents are stated. -/
abbrev VO12_2 : View sig .tc .vmem S128x128 .f32 := (Memref.whole cc12_stg2_0 : Memref sig .tc .vmem S128x128 .f32).view
/-- Each window's current staging memref at point `t`, and its wholeness. -/
abbrev ms12_0 (t : Fin cfg12.N) : Memref sig .tc .vmem S2000x128 .f32 := win12_0.stage (cfg12.slots t 0)
abbrev hs12_0 (t : Fin cfg12.N) : (ms12_0 t).IsWhole := hstage12_0 ((cfg12.slots t 0).cast nbuf12_0)
abbrev ms12_1 (t : Fin cfg12.N) : Memref sig .tc .vmem S2000x128 .f32 := win12_1.stage (cfg12.slots t 1)
abbrev hs12_1 (t : Fin cfg12.N) : (ms12_1 t).IsWhole := hstage12_1 ((cfg12.slots t 1).cast nbuf12_1)
abbrev ms12_2 (t : Fin cfg12.N) : Memref sig .tc .vmem S128x128 .f32 := win12_2.stage (cfg12.slots t 2)
abbrev hs12_2 (t : Fin cfg12.N) : (ms12_2 t).IsWhole := hstage12_2 ((cfg12.slots t 2).cast nbuf12_2)
/-- The accumulator: a whole scoped buffer of the kernel's own, passed beside the windows. -/
abbrev scM12_0 : Memref sig .tc .vmem S128x128 .f32 := Memref.whole cc12_scratch0
/-- The accumulator as a view: what it holds is stated through it. -/
abbrev VS12_0 : View sig .tc .vmem S128x128 .f32 := scM12_0.view

/-- The region invariant of a body that need not describe its scratch, with the accumulator as a memref owned at
    some contents and every other scoped buffer unopened. -/
theorem PhiA12_eq (c : Dev nD) :
    (Pipeline.ΦA spec12 c : sProp 𝕄)
      = iprop(iprop(iprop((∃ d, owns (c : Thread nD τ) scM12_0 fullShare d))
          ∗ Pipeline.scopedRestBut (Ix := Unit) (Name := ℕ) (U := UR sig nD τ) (Lvl := ℕ) (Val := Elt F) spec12 c [cc12_scratch0]) ∗ (∃ r, prngReg c r)) := by
  unfold Pipeline.ΦA; rw [scopedRest12_split]; simp only [scM12_0, owns_whole]; try rfl

set_option maxHeartbeats 1000000 in
/-- THE FIRST POINT (the first conditional taken, the second not). On whole memrefs — the inputs' at their contents,
    the output's at contents handed back untouched, the accumulator at anything — the body runs to the continuation
    holding the inputs' and the output's as they were and the accumulator with its stores' pieces written (last
    first): zero, then zero plus the product of the two blocks. The pieces are what the run finds. -/
noncomputable def kernelRun12_A (c : Dev nD) (i : grid12.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : cond12_0 i) (hc1 : ¬cond12_1 i)
    (x0 : Vec F S2000x128 .f32) (x1 : Vec F S2000x128 .f32) :
    Σ' (L2 : List (View.Piece (Elt F) S128x128 .f32)), { LS0 : List (View.Piece (Elt F) S128x128 .f32) //
      ∀ (xi2 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc12__mm_reduce_k_kernel i arg1 harg1 arg2 harg2 arg3 harg3 arg4 harg4) K } := by
  refine ⟨[], ?_, fun xi2 E K => ?run⟩
  case run =>
    simp only [cc12__mm_reduce_k_kernel_eq_skeleton]; unfold cc12__mm_reduce_k_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A MIDDLE POINT (neither conditional taken). The accumulator comes in at the contents `xs0` the point before left
    and goes out with one piece written: `xs0` plus the product of the two blocks. The output is handed back untouched. -/
noncomputable def kernelRun12_B (c : Dev nD) (i : grid12.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond12_0 i) (hc1 : ¬cond12_1 i)
    (x0 : Vec F S2000x128 .f32) (x1 : Vec F S2000x128 .f32) (xs0 : Vec F S128x128 .f32) :
    Σ' (L2 : List (View.Piece (Elt F) S128x128 .f32)), { LS0 : List (View.Piece (Elt F) S128x128 .f32) //
      ∀ (xi2 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc12__mm_reduce_k_kernel i arg1 harg1 arg2 harg2 arg3 harg3 arg4 harg4) K } := by
  refine ⟨[], ?_, fun xi2 E K => ?run⟩
  case run =>
    simp only [cc12__mm_reduce_k_kernel_eq_skeleton]; unfold cc12__mm_reduce_k_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- THE LAST POINT (the first conditional not taken, the second taken). The accumulator comes in at `xs0`, goes out
    with `xs0` plus the product written, and the output, at anything before, goes out with one piece written: the
    rectifier of the accumulator's final contents. -/
noncomputable def kernelRun12_C (c : Dev nD) (i : grid12.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond12_0 i) (hc1 : cond12_1 i)
    (x0 : Vec F S2000x128 .f32) (x1 : Vec F S2000x128 .f32) (xs0 : Vec F S128x128 .f32) :
    Σ' (L2 : List (View.Piece (Elt F) S128x128 .f32)), { LS0 : List (View.Piece (Elt F) S128x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc12__mm_reduce_k_kernel i arg1 harg1 arg2 harg2 arg3 harg3 arg4 harg4) K } := by
  refine ⟨?_, ?_, fun E K => ?run⟩
  case run =>
    simp only [cc12__mm_reduce_k_kernel_eq_skeleton]; unfold cc12__mm_reduce_k_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

variable (V : (c : Dev nD) → (b : Ref sig .tc) → Buf (Elt F) ((c : Thread nD τ).loc b))

/-! ## The windows' blocks -/

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Each input's current staging buffer holds its block of rows at every point. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-! ## What each case leaves in the output's buffer and in the accumulator -/

/-- The first point's stores cover the accumulator. -/
theorem scover12_A_0 (c : Dev nD) (i : grid12.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : cond12_0 i) (hc1 : ¬cond12_1 i)
    (x0 : Vec F S2000x128 .f32) (x1 : Vec F S2000x128 .f32) (y : S128x128.Idx) :
    ∃ pc ∈ (kernelRun12_A c i arg1 harg1 arg2 harg2 arg3 harg3 arg4 harg4 hc0 hc1 x0 x1).2.1, y ∈ pc.1.set :=
  View.cover_of_tiledL (kernelRun12_A c i arg1 harg1 arg2 harg2 arg3 harg3 arg4 harg4 hc0 hc1 x0 x1).2.1 S128x128.size (by sl_kernel_rfl) y

/-- What the first point leaves in the accumulator: its pieces read back. -/
def sout12_A_0 (c : Dev nD) (i : grid12.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : cond12_0 i) (hc1 : ¬cond12_1 i)
    (x0 : Vec F S2000x128 .f32) (x1 : Vec F S2000x128 .f32) : Vec F S128x128 .f32 :=
  VS12_0.read (Elt F) (VS12_0.writes (Elt F) VS12_0.junk (kernelRun12_A c i arg1 harg1 arg2 harg2 arg3 harg3 arg4 harg4 hc0 hc1 x0 x1).2.1)

/-- A middle point's store covers the accumulator. -/
theorem scover12_B_0 (c : Dev nD) (i : grid12.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond12_0 i) (hc1 : ¬cond12_1 i)
    (x0 : Vec F S2000x128 .f32) (x1 : Vec F S2000x128 .f32) (xs0 : Vec F S128x128 .f32) (y : S128x128.Idx) :
    ∃ pc ∈ (kernelRun12_B c i arg1 harg1 arg2 harg2 arg3 harg3 arg4 harg4 hc0 hc1 x0 x1 xs0).2.1, y ∈ pc.1.set :=
  View.cover_of_tiledL (kernelRun12_B c i arg1 harg1 arg2 harg2 arg3 harg3 arg4 harg4 hc0 hc1 x0 x1 xs0).2.1 S128x128.size (by sl_kernel_rfl) y

/-- What a middle point leaves in the accumulator. -/
def sout12_B_0 (c : Dev nD) (i : grid12.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond12_0 i) (hc1 : ¬cond12_1 i)
    (x0 : Vec F S2000x128 .f32) (x1 : Vec F S2000x128 .f32) (xs0 : Vec F S128x128 .f32) : Vec F S128x128 .f32 :=
  VS12_0.read (Elt F) (VS12_0.writes (Elt F) VS12_0.junk (kernelRun12_B c i arg1 harg1 arg2 harg2 arg3 harg3 arg4 harg4 hc0 hc1 x0 x1 xs0).2.1)

/-- The last point's store covers the output's buffer. -/
theorem cover12_C_2 (c : Dev nD) (i : grid12.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond12_0 i) (hc1 : cond12_1 i)
    (x0 : Vec F S2000x128 .f32) (x1 : Vec F S2000x128 .f32) (xs0 : Vec F S128x128 .f32) (y : S128x128.Idx) :
    ∃ pc ∈ (kernelRun12_C c i arg1 harg1 arg2 harg2 arg3 harg3 arg4 harg4 hc0 hc1 x0 x1 xs0).1, y ∈ pc.1.set :=
  View.cover_of_tiledL (kernelRun12_C c i arg1 harg1 arg2 harg2 arg3 harg3 arg4 harg4 hc0 hc1 x0 x1 xs0).1 S128x128.size (by sl_kernel_rfl) y

/-- What the last point leaves in the output's buffer. -/
def out12_C_2 (c : Dev nD) (i : grid12.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond12_0 i) (hc1 : cond12_1 i)
    (x0 : Vec F S2000x128 .f32) (x1 : Vec F S2000x128 .f32) (xs0 : Vec F S128x128 .f32) : Vec F S128x128 .f32 :=
  VO12_2.read (Elt F) (VO12_2.writes (Elt F) VO12_2.junk (kernelRun12_C c i arg1 harg1 arg2 harg2 arg3 harg3 arg4 harg4 hc0 hc1 x0 x1 xs0).1)

/-- The last point's store covers the accumulator. -/
theorem scover12_C_0 (c : Dev nD) (i : grid12.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond12_0 i) (hc1 : cond12_1 i)
    (x0 : Vec F S2000x128 .f32) (x1 : Vec F S2000x128 .f32) (xs0 : Vec F S128x128 .f32) (y : S128x128.Idx) :
    ∃ pc ∈ (kernelRun12_C c i arg1 harg1 arg2 harg2 arg3 harg3 arg4 harg4 hc0 hc1 x0 x1 xs0).2.1, y ∈ pc.1.set :=
  View.cover_of_tiledL (kernelRun12_C c i arg1 harg1 arg2 harg2 arg3 harg3 arg4 harg4 hc0 hc1 x0 x1 xs0).2.1 S128x128.size (by sl_kernel_rfl) y

/-- What the last point leaves in the accumulator. -/
def sout12_C_0 (c : Dev nD) (i : grid12.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond12_0 i) (hc1 : cond12_1 i)
    (x0 : Vec F S2000x128 .f32) (x1 : Vec F S2000x128 .f32) (xs0 : Vec F S128x128 .f32) : Vec F S128x128 .f32 :=
  VS12_0.read (Elt F) (VS12_0.writes (Elt F) VS12_0.junk (kernelRun12_C c i arg1 harg1 arg2 harg2 arg3 harg3 arg4 harg4 hc0 hc1 x0 x1 xs0).2.1)

/-! ## What the output's buffer and the accumulator hold after each point -/

/-- The output's buffer at a point that stores nothing into it: a placeholder nothing consults, the window being
    neither written back there nor read at the next point. -/
def idle12_2 : Vec F S128x128 .f32 := VO12_2.read (Elt F) VO12_2.junk

/-- THE ACCUMULATION. What the output's staging buffer and the accumulator hold after the body at position `n`: the
    case the closed forms select at `n`, run at the point's memrefs and input blocks, the accumulator coming in at
    what position `n - 1` left in it. After the first point the accumulator is zero plus the first product; after a
    later point what it held plus that point's product; after the last point the output's buffer holds the
    rectifier of the whole sum. -/
def outsAt12 (c : Dev nD) : (n : ℕ) → n < cfg12.N → Vec F S128x128 .f32 × Vec F S128x128 .f32
  | 0, hn => (idle12_2, sout12_A_0 c (grid12.coords ⟨0, hn⟩) (ms12_0 ⟨0, hn⟩) (hs12_0 ⟨0, hn⟩) (ms12_1 ⟨0, hn⟩) (hs12_1 ⟨0, hn⟩) (ms12_2 ⟨0, hn⟩) (hs12_2 ⟨0, hn⟩) scM12_0 (Memref.isWhole_whole _) ((hcond12_0 ⟨0, hn⟩).mpr (Nat.zero_mod _)) (fun h => (fun h => by (try dsimp only at h); omega) ((hcond12_1 ⟨0, hn⟩).mp h)) (iblk12 V c 0 ⟨0, hn⟩) (iblk12 V c 1 ⟨0, hn⟩))
  | n + 1, hn =>
    if h0 : (n + 1) % 25 = 0 then
      if h1 : (n + 1) % 25 = 24 then
        False.elim (by omega)
      else
        (idle12_2, sout12_A_0 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) scM12_0 (Memref.isWhole_whole _) ((hcond12_0 ⟨n + 1, hn⟩).mpr h0) (fun h => h1 ((hcond12_1 ⟨n + 1, hn⟩).mp h)) (iblk12 V c 0 ⟨n + 1, hn⟩) (iblk12 V c 1 ⟨n + 1, hn⟩))
    else
      if h1 : (n + 1) % 25 = 24 then
        (out12_C_2 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) scM12_0 (Memref.isWhole_whole _) (fun h => h0 ((hcond12_0 ⟨n + 1, hn⟩).mp h)) ((hcond12_1 ⟨n + 1, hn⟩).mpr h1) (iblk12 V c 0 ⟨n + 1, hn⟩) (iblk12 V c 1 ⟨n + 1, hn⟩) (outsAt12 c n (Nat.lt_of_succ_lt hn)).2,
         sout12_C_0 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) scM12_0 (Memref.isWhole_whole _) (fun h => h0 ((hcond12_0 ⟨n + 1, hn⟩).mp h)) ((hcond12_1 ⟨n + 1, hn⟩).mpr h1) (iblk12 V c 0 ⟨n + 1, hn⟩) (iblk12 V c 1 ⟨n + 1, hn⟩) (outsAt12 c n (Nat.lt_of_succ_lt hn)).2)
      else
        (idle12_2, sout12_B_0 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) scM12_0 (Memref.isWhole_whole _) (fun h => h0 ((hcond12_0 ⟨n + 1, hn⟩).mp h)) (fun h => h1 ((hcond12_1 ⟨n + 1, hn⟩).mp h)) (iblk12 V c 0 ⟨n + 1, hn⟩) (iblk12 V c 1 ⟨n + 1, hn⟩) (outsAt12 c n (Nat.lt_of_succ_lt hn)).2)

/-- `outsAt12` at the first point. -/
theorem outsAt12_A (c : Dev nD) (t : Fin cfg12.N) (h0 : t.val % 25 = 0) (h1 : ¬t.val % 25 = 24) :
    outsAt12 V c t.val t.isLt = (idle12_2, sout12_A_0 c (grid12.coords t) (ms12_0 t) (hs12_0 t) (ms12_1 t) (hs12_1 t) (ms12_2 t) (hs12_2 t) scM12_0 (Memref.isWhole_whole _) ((hcond12_0 t).mpr h0) (fun h => h1 ((hcond12_1 t).mp h)) (iblk12 V c 0 t) (iblk12 V c 1 t)) := by
  obtain ⟨n, hn⟩ := t
  cases n with
  | zero => exact rfl
  | succ n => exact (dif_pos h0).trans ((dif_neg h1).trans rfl)

/-- `outsAt12` at a middle point: over what the point before left. -/
theorem outsAt12_B (c : Dev nD) (t : Fin cfg12.N) (h0 : ¬t.val % 25 = 0) (h1 : ¬t.val % 25 = 24) :
    outsAt12 V c t.val t.isLt = (idle12_2, sout12_B_0 c (grid12.coords t) (ms12_0 t) (hs12_0 t) (ms12_1 t) (hs12_1 t) (ms12_2 t) (hs12_2 t) scM12_0 (Memref.isWhole_whole _) (fun h => h0 ((hcond12_0 t).mp h)) (fun h => h1 ((hcond12_1 t).mp h)) (iblk12 V c 0 t) (iblk12 V c 1 t) (outsAt12 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt12` at the last point: over what the point before left. -/
theorem outsAt12_C (c : Dev nD) (t : Fin cfg12.N) (h0 : ¬t.val % 25 = 0) (h1 : t.val % 25 = 24) :
    outsAt12 V c t.val t.isLt = (out12_C_2 c (grid12.coords t) (ms12_0 t) (hs12_0 t) (ms12_1 t) (hs12_1 t) (ms12_2 t) (hs12_2 t) scM12_0 (Memref.isWhole_whole _) (fun h => h0 ((hcond12_0 t).mp h)) ((hcond12_1 t).mpr h1) (iblk12 V c 0 t) (iblk12 V c 1 t) (outsAt12 V c (t.val - 1) (Nat.lt_of_le_of_lt (Nat.sub_le _ _) t.isLt)).2,
      sout12_C_0 c (grid12.coords t) (ms12_0 t) (hs12_0 t) (ms12_1 t) (hs12_1 t) (ms12_2 t) (hs12_2 t) scM12_0 (Memref.isWhole_whole _) (fun h => h0 ((hcond12_0 t).mp h)) ((hcond12_1 t).mpr h1) (iblk12 V c 0 t) (iblk12 V c 1 t) (outsAt12 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point every scoped buffer that is no staging buffer at
    anything, and the generator register at some state; afterwards the accumulator at what the point before left in
    it (`outsAt12`'s second component), every other such buffer unopened, and the register. -/
def PhiS12 (c : Dev nD) : (n : ℕ) → n ≤ cfg12.N → sProp 𝕄
  | 0, _ => Pipeline.ΦA spec12 c
  | n + 1, hn => iprop(iprop(iprop(owns (c : Thread nD τ) scM12_0 fullShare ((outsAt12 V c n hn).2)) ∗ Pipeline.scopedRestBut (Ix := Unit) (Name := ℕ) (U := UR sig nD τ) (Lvl := ℕ) (Val := Elt F) spec12 c [cc12_scratch0]) ∗ (∃ r, prngReg c r))

theorem PhiS12_zero (c : Dev nD) (n : ℕ) (h : n ≤ cfg12.N) (hz : n = 0) : PhiS12 V c n h = Pipeline.ΦA spec12 c := by
  subst hz; rfl

theorem PhiS12_succ (c : Dev nD) (n : ℕ) (hn : n < cfg12.N) :
    PhiS12 V c (n + 1) hn = iprop(iprop(iprop(owns (c : Thread nD τ) scM12_0 fullShare ((outsAt12 V c n hn).2)) ∗ Pipeline.scopedRestBut (Ix := Unit) (Name := ℕ) (U := UR sig nD τ) (Lvl := ℕ) (Val := Elt F) spec12 c [cc12_scratch0]) ∗ (∃ r, prngReg c r)) := rfl

theorem PhiS12_pos (c : Dev nD) (n : ℕ) (h : n ≤ cfg12.N) (hz : n ≠ 0) :
    PhiS12 V c n h = iprop(iprop(iprop(owns (c : Thread nD τ) scM12_0 fullShare ((outsAt12 V c (n - 1) (by omega)).2)) ∗ Pipeline.scopedRestBut (Ix := Unit) (Name := ℕ) (U := UR sig nD τ) (Lvl := ℕ) (Val := Elt F) spec12 c [cc12_scratch0]) ∗ (∃ r, prngReg c r)) := by
  cases n with
  | zero => exact absurd rfl hz
  | succ n => rfl

/-! ## The pipeline's proof data -/

/-- The proof data on core `c`: the arrays as the region finds them; after the body at point `t` each input's
    buffer at its block and the output's at `outsAt12`'s first component; the invariant `PhiS12`; nothing owed; full
    shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => (outsAt12 V c t.val t.isLt).1
  Φ t := PhiS12 V c t.val (Nat.le_of_lt_succ t.isLt)
  q _ := fullShare
  owed _ := 0

theorem A_eq12 (c : Dev nD) (w : Fin cfg12.W) : (dat12 V c).A w = V c (Pipeline.arrRef spec12 w) := by
  dsimp only [dat12]

theorem PhiS12_castSucc (c : Dev nD) (t : Fin cfg12.N) :
    (dat12 V c).Φ t.castSucc = PhiS12 V c t.val (Nat.le_of_lt t.isLt) := by
  dsimp only [dat12]; simp only [Fin.coe_castSucc]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = (outsAt12 V c t.val t.isLt).1 := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-! ## The body obligation -/

/-- What the body is called with at point `t`, -/
def bodyPre12 (c : Dev nD) (t : Fin cfg12.N) : sProp 𝕄 :=
  iprop((dat12 V c).Φ t.castSucc ∗ (dat12 V c).owesAt () t.castSucc
    ∗ (∃ d, owns (c : Thread nD τ) (ms12_0 t) fullShare ((dat12 V c).before 0 t d))
    ∗ (∃ d, owns (c : Thread nD τ) (ms12_1 t) fullShare ((dat12 V c).before 1 t d))
    ∗ (∃ d, owns (c : Thread nD τ) (ms12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ (dat12 V c).leavesExact 0 t
    ∗ (dat12 V c).leavesExact 1 t
    ∗ (dat12 V c).leavesExact 2 t)

set_option maxHeartbeats 4800000 in
/-- The body at any point. The inputs' memrefs hold their blocks; the closed forms say which case the point is in;
    the invariant hands the body the accumulator — at anything at the first point, at what the point before left
    afterwards —, every other scoped buffer and the generator register riding along unread, and takes the
    accumulator back at this point's contents; the output's buffer is handed back untouched except at the last
    point, where it is left at the rectifier of the sum; the core owes nothing throughout. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).owesAt () t.succ = (dat12 V c).owesAt () t.castSucc from rfl]
  rw [show (dat12 V c).Φ t.succ = PhiS12 V c (t.val + 1) t.isLt from rfl, PhiS12_succ]
  have hN : t.val < 25 := lt_of_lt_of_eq t.isLt (show cfg12.N = 25 from N_12)
  rw [show (dat12 V c).leavesExact 0 t = owns (c : Thread nD τ) (ms12_0 t) fullShare ((dat12 V c).after 0 t) from by
    unfold Dat.leavesExact; rw [liveAt12_0 t], after12_0]
  rw [show (dat12 V c).leavesExact 1 t = owns (c : Thread nD τ) (ms12_1 t) fullShare ((dat12 V c).after 1 t) from by
    unfold Dat.leavesExact; rw [liveAt12_1 t], after12_1]
  by_cases h0 : t.val % 25 = 0
  · have h1 : ¬t.val % 25 = 24 := by omega
    have hz : t.val = 0 := by omega
    rw [Dat.leavesExact_idle (dat12 V c) 2 t (idleAt12_2 t (fun h => h1 ((hcond12_1 t).mp h))) (noFlush12_2 t (fun h => h1 ((hcond12_1 t).mp h)))]
    rw [outsAt12_A V c t h0 h1]
    unfold sout12_A_0; (try dsimp only)
    rw [PhiS12_castSucc V c t, PhiS12_zero V c _ _ hz, PhiA12_eq]
    iintro ⟨⟨⟨HS0, Hrest⟩, Hg⟩, Ho, ⟨%d0, H0⟩, ⟨%d1, H1⟩, ⟨%d2, H2⟩⟩
    iapply ((kernelRun12_A c (grid12.coords t) _ _ _ _ _ _ _ _ ((hcond12_0 t).mpr h0) (fun h => h1 ((hcond12_1 t).mp h)) (iblk12 V c 0 t) (iblk12 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover12_A_0 c _ _ _ _ _ _ _ _ _ _ _ _ _)
        iexact Hrest
      iexact Hg
    isplitl [Ho]; · iexact Ho
    isplitl [H0]; · iexact H0
    isplitl [H1]; · iexact H1
    iexists _; iexact H2
  · have hz : t.val ≠ 0 := by omega
    by_cases h1 : t.val % 25 = 24
    · rw [show (dat12 V c).leavesExact 2 t = owns (c : Thread nD τ) (ms12_2 t) fullShare ((dat12 V c).after 2 t) from by
        unfold Dat.leavesExact; rw [liveAt12_2 t ((hcond12_1 t).mpr h1)], after12_2]
      rw [outsAt12_C V c t h0 h1]
      unfold out12_C_2 sout12_C_0; (try dsimp only)
      rw [PhiS12_castSucc V c t, PhiS12_pos V c _ _ hz]
      iintro ⟨⟨⟨HS0, Hrest⟩, Hg⟩, Ho, ⟨%d0, H0⟩, ⟨%d1, H1⟩, ⟨%d2, H2⟩⟩
      iapply ((kernelRun12_C c (grid12.coords t) _ _ _ _ _ _ _ _ (fun h => h0 ((hcond12_0 t).mp h)) ((hcond12_1 t).mpr h1) (iblk12 V c 0 t) (iblk12 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover12_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover12_C_2 c _ _ _ _ _ _ _ _ _ _ _ _ _ _)
    · rw [Dat.leavesExact_idle (dat12 V c) 2 t (idleAt12_2 t (fun h => h1 ((hcond12_1 t).mp h))) (noFlush12_2 t (fun h => h1 ((hcond12_1 t).mp h)))]
      rw [outsAt12_B V c t h0 h1]
      unfold sout12_B_0; (try dsimp only)
      rw [PhiS12_castSucc V c t, PhiS12_pos V c _ _ hz]
      iintro ⟨⟨⟨HS0, Hrest⟩, Hg⟩, Ho, ⟨%d0, H0⟩, ⟨%d1, H1⟩, ⟨%d2, H2⟩⟩
      iapply ((kernelRun12_B c (grid12.coords t) _ _ _ _ _ _ _ _ (fun h => h0 ((hcond12_0 t).mp h)) (fun h => h1 ((hcond12_1 t).mp h)) (iblk12 V c 0 t) (iblk12 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover12_B_0 c _ _ _ _ _ _ _ _ _ _ _ _ _ _)
          iexact Hrest
        iexact Hg
      isplitl [Ho]; · iexact Ho
      isplitl [H0]; · iexact H0
      isplitl [H1]; · iexact H1
      iexists _; iexact H2

/-- The body obligation, at every point. -/
theorem body_obligation12 (c : Dev nD) : BodyObligation (dat12 (F := F) V c) (defs₀ (F := F)) Variants.none () Set.univ := fun t => by
  rw [bigSep_W12, bigSep_W12]
  exact sound_body12 V c t

/-! ## Into the invariant and out of it -/

/-- What the launch hands the region — the generator register, no prefetched table, the scoped buffers no window
    stages — is the invariant before the first point. -/
theorem hin12 (c : Dev nD) :
    iprop((∃ r, prngReg c r) ∗ Pipeline.prefHeld (pcfgs (F := F) 12).pre c (fun _ => fullShare) ((cfgs 12).toPCfg_adm).1 ∗ Pipeline.scopedRest spec12 c)
      ⊢ (dat12 V c).Φ 0 := by
  rw [show (dat12 V c).Φ 0 = PhiS12 V c 0 (Nat.zero_le _) from rfl, PhiS12_zero V c 0 _ rfl]; unfold Pipeline.ΦA
  iintro ⟨Hp, -, Hr⟩
  isplitl [Hr]; · iexact Hr
  iexact Hp

/-- After any point but the first the invariant gives the scoped buffers and the register back: the accumulator's
    named contents are forgotten. -/
theorem Phi_out12 (c : Dev nD) (t : Fin (cfg12.N + 1)) (ht : t.val ≠ 0) : (dat12 V c).Φ t ⊢ Pipeline.ΦA spec12 c := by
  rw [show (dat12 V c).Φ t = PhiS12 V c t.val (Nat.le_of_lt_succ t.isLt) from rfl, PhiS12_pos V c _ _ ht, PhiA12_eq]
  iintro ⟨⟨HS0, Hrest⟩, Hg⟩
  isplitl [HS0 Hrest]
  · isplitl [HS0]
    · iexists _; iexact HS0
    iexact Hrest
  iexact Hg

/-- The same after the last point, as the region hands it back: the register, no semaphore of the kernel's own, the
    scoped buffers. -/
theorem hout12 (c : Dev nD) :
    (dat12 V c).Φ (Fin.last cfg12.N)
      ⊢ iprop((∃ r, prngReg c r) ∗ Pipeline.ownSems0 (Ix := Unit) (Name := ℕ) (U := UR sig nD τ) (Lvl := ℕ) (Val := Elt F) (τ := τ) (fun k : PEmpty => k.elim) c ∗ Pipeline.scopedRest spec12 c) := by
  refine (Phi_out12 V c _ (by rw [Fin.val_last]; have : cfg12.N = 25 := N_12; omega)).trans ?_
  rw [Pipeline.ownSems0_none]; unfold Pipeline.ΦA
  iintro ⟨Hr, Hp⟩
  isplitl [Hp]; · iexact Hp
  isplitr; · iempintro
  iexact Hr

end Cert.Kernel.Fr

end
-- ==== Proof.KB.Reg13.lean ====
import proofs.«126270_j6725918785969_1_alg».proof.Proof.Gen.Kernel.Launch
import proofs.«126270_j6725918785969_1_alg».proof.Proof.Gen.Kernel.Skeleton
import proofs.«126270_j6725918785969_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 13: a row-tiled matrix product followed by the leaky rectifier

Two input windows and one output window. Window 0 cuts the left factor into blocks of rows (`S2000x128`);
window 1 is the whole right factor (`S128x128`), the same block at every grid point; window 2 is the block of
the result's rows (`S2000x128`). At a grid point the body loads both input blocks, multiplies them into a zero
accumulator, takes `max (0.5 · y) y` entry by entry and stores the result over the whole output block. Stated at a
parameter `V`, the buffer contents the region is entered from.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- The left factor's current staging buffer holds its block of rows at every point. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- The right factor's staging buffer holds the whole factor at every point: fetched at the first point, its
    block index never moves afterwards. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- The rectangles the body reads and writes: each buffer whole. -/
abbrev r13_a : Rect S2000x128 := Rect.unit (s := S2000x128) ![0, 0] S2000x128.size inb_S2000x128_S2000x128_0_0
abbrev r13_b : Rect S128x128 := Rect.unit (s := S128x128) ![0, 0] S128x128.size inb_S128x128_S128x128_0_0

/-- The output buffer after the body: its one store, of the product of the two input blocks. -/
def out13_2 (x0 : Vec F S2000x128 .f32) (x1 : Vec F S128x128 .f32) : Vec F S2000x128 .f32 :=
  View.canon [⟨r13_a, k13_pay1 (View.ld x0 r13_a) (View.ld x1 r13_b)⟩]

/-- The store covers the buffer. -/
theorem cover13_2 (p0 : Vec F S2000x128 .f32) (y : S2000x128.Idx) :
    ∃ pc ∈ ([⟨r13_a, p0⟩] : List (View.Piece (Elt F) S2000x128 .f32)), y ∈ pc.1.set :=
  View.cover_of_tiled [⟨r13_a, p0⟩] S2000x128.size (by rfl) y

set_option maxHeartbeats 1000000 in
/-- The body on whole staging memrefs, the inputs' at contents `x0`, `x1` and the output's at anything, runs to the
    continuation with the inputs' as they were and the output's at `out13_2 x0 x1`. -/
theorem sound_kernel13 (c : Dev nD) (E : Set ℕ) (i : grid13.Coords) (arg0 : Memref sig .tc .vmem S2000x128 .f32) (harg0 : arg0.IsWhole) (arg1 : Memref sig .tc .vmem S128x128 .f32) (harg1 : arg1.IsWhole) (arg2 : Memref sig .tc .vmem S2000x128 .f32) (harg2 : arg2.IsWhole)
    (x0 : Vec F S2000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out13_2 x0 x1)) -∗ K ⟨⟩))
      ⊢ wp frame (wpE (defs₀ (F := F)) Variants.none c none) E (cc13__mm_big_kernel i arg0 harg0 arg1 harg1 arg2 harg2) K := by
  simp only [cc13__mm_big_kernel_eq_skeleton]; unfold cc13__mm_big_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover13_2 _)

/-- The pipeline's proof data on core `c`: the arrays as the region finds them; after the body at point `t` each
    input's buffer at its block and the output's at `out13_2` of them; the invariant the scoped rest and the
    generator register, untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => out13_2 (iblk13 V c 0 t) (iblk13 V c 1 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = out13_2 (iblk13 V c 0 t) (iblk13 V c 1 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

/-- What the body is called with at point `t`, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t))

/-- The body at any point: the inputs' memrefs hold their blocks, so the body's triple applies; the invariant
    and the core's dues pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).Φ t.succ = (dat13 V c).Φ t.castSucc from rfl,
    show (dat13 V c).owesAt () t.succ = (dat13 V c).owesAt () t.castSucc from rfl,
    after13_0, after13_1, after13_2]
  iintro ⟨HΦ, Ho, ⟨%d0, H0⟩, ⟨%d1, H1⟩, ⟨%d2, H2⟩⟩
  iapply (sound_kernel13 c Set.univ _ _ _ _ _ _ _ (iblk13 V c 0 t) (iblk13 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation13 (c : Dev nD) : BodyObligation (dat13 (F := F) V c) (defs₀ (F := F)) Variants.none () Set.univ := fun t => by
  rw [bigSep_W13, bigSep_W13]
  exact sound_body13 V c t

end Cert.Kernel.Fr

end
-- ==== Proof.KB.Reg14.lean ====
import proofs.«126270_j6725918785969_1_alg».proof.Proof.Gen.Kernel.Launch
import proofs.«126270_j6725918785969_1_alg».proof.Proof.Gen.Kernel.Skeleton
import proofs.«126270_j6725918785969_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 14: a row-tiled matrix product

Two input windows and one output window. Window 0 cuts the left factor into blocks of rows (`S4096x128`);
window 1 is the whole right factor (`S128x128`), the same block at every grid point; window 2 is the block of
the result's rows (`S4096x128`). At a grid point the body loads both input blocks, multiplies them into a zero
accumulator and stores the result over the whole output block. Stated at a
parameter `V`, the buffer contents the region is entered from.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- The left factor's current staging buffer holds its block of rows at every point. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- The right factor's staging buffer holds the whole factor at every point: fetched at the first point, its
    block index never moves afterwards. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- The rectangles the body reads and writes: each buffer whole. -/
abbrev r14_a : Rect S4096x128 := Rect.unit (s := S4096x128) ![0, 0] S4096x128.size inb_S4096x128_S4096x128_0_0
abbrev r14_b : Rect S128x128 := Rect.unit (s := S128x128) ![0, 0] S128x128.size inb_S128x128_S128x128_0_0

/-- The output buffer after the body: its one store, of the product of the two input blocks. -/
def out14_2 (x0 : Vec F S4096x128 .f32) (x1 : Vec F S128x128 .f32) : Vec F S4096x128 .f32 :=
  View.canon [⟨r14_a, k14_pay1 (View.ld x0 r14_a) (View.ld x1 r14_b)⟩]

/-- The store covers the buffer. -/
theorem cover14_2 (p0 : Vec F S4096x128 .f32) (y : S4096x128.Idx) :
    ∃ pc ∈ ([⟨r14_a, p0⟩] : List (View.Piece (Elt F) S4096x128 .f32)), y ∈ pc.1.set :=
  View.cover_of_tiled [⟨r14_a, p0⟩] S4096x128.size (by rfl) y

set_option maxHeartbeats 1000000 in
/-- The body on whole staging memrefs, the inputs' at contents `x0`, `x1` and the output's at anything, runs to the
    continuation with the inputs' as they were and the output's at `out14_2 x0 x1`. -/
theorem sound_kernel14 (c : Dev nD) (E : Set ℕ) (i : grid14.Coords) (arg0 : Memref sig .tc .vmem S4096x128 .f32) (harg0 : arg0.IsWhole) (arg1 : Memref sig .tc .vmem S128x128 .f32) (harg1 : arg1.IsWhole) (arg2 : Memref sig .tc .vmem S4096x128 .f32) (harg2 : arg2.IsWhole)
    (x0 : Vec F S4096x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out14_2 x0 x1)) -∗ K ⟨⟩))
      ⊢ wp frame (wpE (defs₀ (F := F)) Variants.none c none) E (cc14__mm_big_kernel i arg0 harg0 arg1 harg1 arg2 harg2) K := by
  simp only [cc14__mm_big_kernel_eq_skeleton]; unfold cc14__mm_big_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover14_2 _)

/-- The pipeline's proof data on core `c`: the arrays as the region finds them; after the body at point `t` each
    input's buffer at its block and the output's at `out14_2` of them; the invariant the scoped rest and the
    generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => out14_2 (iblk14 V c 0 t) (iblk14 V c 1 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = out14_2 (iblk14 V c 0 t) (iblk14 V c 1 t) := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d

/-- What the body is called with at point `t`, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t))

/-- The body at any point: the inputs' memrefs hold their blocks, so the body's triple applies; the invariant
    and the core's dues pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1]
  rw [show (dat14 V c).Φ t.succ = (dat14 V c).Φ t.castSucc from rfl,
    show (dat14 V c).owesAt () t.succ = (dat14 V c).owesAt () t.castSucc from rfl,
    after14_0, after14_1, after14_2]
  iintro ⟨HΦ, Ho, ⟨%d0, H0⟩, ⟨%d1, H1⟩, ⟨%d2, H2⟩⟩
  iapply (sound_kernel14 c Set.univ _ _ _ _ _ _ _ (iblk14 V c 0 t) (iblk14 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation14 (c : Dev nD) : BodyObligation (dat14 (F := F) V c) (defs₀ (F := F)) Variants.none () Set.univ := fun t => by
  rw [bigSep_W14, bigSep_W14]
  exact sound_body14 V c t

end Cert.Kernel.Fr

end
-- ==== Proof.KB.Reg15.lean ====
import proofs.«126270_j6725918785969_1_alg».proof.Proof.Gen.Kernel.Launch
import proofs.«126270_j6725918785969_1_alg».proof.Proof.Gen.Kernel.Skeleton
import proofs.«126270_j6725918785969_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 15: the row sums of `exp (x · yᵀ)` reduced over sixteen blocks of columns

Two input windows — the 4096 × 128 left factor whole, its block index never moving, and the right factor cut into
sixteen blocks of 256 rows — and one 4096 × 1 output window whose block index never moves. The kernel keeps a
4096 × 1 accumulator in a scratch buffer of its own: at the first grid point it zeroes it, at every point it adds,
row by row, the sum over the block's 256 columns of `exp (p / 1)`, where `p` is the product of the left factor and
the transposed right block (both rounded to bf16 before the product) and the division by the constant one is
entry by entry, and at the last point only it copies the accumulator into the output's staging buffer, which is
written back there and nowhere else. So the body has three control cases — first point, middle point, last
point —, the accumulator's contents are carried from point to point by the region invariant, and the output
window is idle everywhere but at the last point. Stated at a parameter `V`, the buffer contents the region is
entered from.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, decided over the grid -/

/-- The condition of the body's first conditional: the reduction coordinate is zero. -/
abbrev cond15_0 (i : grid15.Coords) : Prop := (Scalar.cmpi .ne (Scalar.extui (Scalar.cmpi .eq (BitVec.ofNat 32 (i 0).val) 0#32)) 0#32) = 1#1
/-- It holds at the first point only. -/
theorem hcond15_0 : ∀ t : Fin cfg15.N, cond15_0 (grid15.coords t) ↔ t.val % 16 = 0 :=
  (by decide +kernel : ∀ t : Fin grid15.N, cond15_0 (grid15.coords t) ↔ t.val % 16 = 0)

/-- The condition of the body's second conditional: the reduction coordinate is the last. -/
abbrev cond15_1 (i : grid15.Coords) : Prop := k15_cond2 i = 1#1
/-- It holds at the last point only. -/
theorem hcond15_1 : ∀ t : Fin cfg15.N, cond15_1 (grid15.coords t) ↔ t.val % 16 = 15 :=
  (by decide +kernel : ∀ t : Fin grid15.N, cond15_1 (grid15.coords t) ↔ t.val % 16 = 15)

/-! ## Where the windows are idle -/

/-- The two inputs are never idle. -/
theorem liveAt15_0 : ∀ t : Fin cfg15.N, cfg15.idle 0 (grid15.coords t) = false := by decide +kernel
theorem liveAt15_1 : ∀ t : Fin cfg15.N, cfg15.idle 1 (grid15.coords t) = false := by decide +kernel
/-- Where the second condition fails the output is idle and is not written back. -/
theorem idleAt15_2 : ∀ t : Fin cfg15.N, ¬cond15_1 (grid15.coords t) → cfg15.idle 2 (grid15.coords t) = true := by decide +kernel
theorem noFlush15_2 : ∀ t : Fin cfg15.N, ¬cond15_1 (grid15.coords t) → (cfg15.win 2).flush t = false := by decide +kernel
/-- Where it holds the output is live. -/
theorem liveAt15_2 : ∀ t : Fin cfg15.N, cond15_1 (grid15.coords t) → cfg15.idle 2 (grid15.coords t) = false := by decide +kernel

/-! ## The memrefs the body is called with -/

/-- One staging buffer of the output window, through which its contents are stated. -/
abbrev VO15_2 : View sig .tc .vmem S4096x1 .f32 := (Memref.whole cc15_stg2_0 : Memref sig .tc .vmem S4096x1 .f32).view
/-- Each window's current staging memref at point `t`, and its wholeness. -/
abbrev ms15_0 (t : Fin cfg15.N) : Memref sig .tc .vmem S4096x128 .f32 := win15_0.stage (cfg15.slots t 0)
abbrev hs15_0 (t : Fin cfg15.N) : (ms15_0 t).IsWhole := hstage15_0 ((cfg15.slots t 0).cast nbuf15_0)
abbrev ms15_1 (t : Fin cfg15.N) : Memref sig .tc .vmem S256x128 .f32 := win15_1.stage (cfg15.slots t 1)
abbrev hs15_1 (t : Fin cfg15.N) : (ms15_1 t).IsWhole := hstage15_1 ((cfg15.slots t 1).cast nbuf15_1)
abbrev ms15_2 (t : Fin cfg15.N) : Memref sig .tc .vmem S4096x1 .f32 := win15_2.stage (cfg15.slots t 2)
abbrev hs15_2 (t : Fin cfg15.N) : (ms15_2 t).IsWhole := hstage15_2 ((cfg15.slots t 2).cast nbuf15_2)
/-- The accumulator: a whole scoped buffer of the kernel's own, passed beside the windows. -/
abbrev scM15_0 : Memref sig .tc .vmem S4096x1 .f32 := Memref.whole cc15_scratch0
/-- The accumulator as a view: what it holds is stated through it. -/
abbrev VS15_0 : View sig .tc .vmem S4096x1 .f32 := scM15_0.view

/-- The region invariant of a body that need not describe its scratch, with the accumulator as a memref owned at
    some contents and every other scoped buffer unopened. -/
theorem PhiA15_eq (c : Dev nD) :
    (Pipeline.ΦA spec15 c : sProp 𝕄)
      = iprop(iprop(iprop((∃ d, owns (c : Thread nD τ) scM15_0 fullShare d))
          ∗ Pipeline.scopedRestBut (Ix := Unit) (Name := ℕ) (U := UR sig nD τ) (Lvl := ℕ) (Val := Elt F) spec15 c [cc15_scratch0]) ∗ (∃ r, prngReg c r)) := by
  unfold Pipeline.ΦA; rw [scopedRest15_split]; simp only [scM15_0, owns_whole]; try rfl

set_option maxHeartbeats 1000000 in
/-- THE FIRST POINT (the first conditional taken, the second not). On whole memrefs — the inputs' at their contents,
    the output's at contents handed back untouched, the accumulator at anything — the body runs to the continuation
    holding the inputs' and the output's as they were and the accumulator with its stores' pieces written (last
    first): zero, then zero plus the row sums of the exponentials of the two blocks' product. The pieces are what the run finds. -/
noncomputable def kernelRun15_A (c : Dev nD) (i : grid15.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : cond15_0 i) (hc1 : ¬cond15_1 i)
    (x0 : Vec F S4096x128 .f32) (x1 : Vec F S256x128 .f32) :
    Σ' (L2 : List (View.Piece (Elt F) S4096x1 .f32)), { LS0 : List (View.Piece (Elt F) S4096x1 .f32) //
      ∀ (xi2 : Vec F S4096x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc15__ssl_neg_kernel i arg1 harg1 arg2 harg2 arg3 harg3 arg4 harg4) K } := by
  refine ⟨[], ?_, fun xi2 E K => ?run⟩
  case run =>
    simp only [cc15__ssl_neg_kernel_eq_skeleton]; unfold cc15__ssl_neg_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A MIDDLE POINT (neither conditional taken). The accumulator comes in at the contents `xs0` the point before left
    and goes out with one piece written: `xs0` plus the row sums of the exponentials of the two blocks' product. The output is handed back untouched. -/
noncomputable def kernelRun15_B (c : Dev nD) (i : grid15.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond15_0 i) (hc1 : ¬cond15_1 i)
    (x0 : Vec F S4096x128 .f32) (x1 : Vec F S256x128 .f32) (xs0 : Vec F S4096x1 .f32) :
    Σ' (L2 : List (View.Piece (Elt F) S4096x1 .f32)), { LS0 : List (View.Piece (Elt F) S4096x1 .f32) //
      ∀ (xi2 : Vec F S4096x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc15__ssl_neg_kernel i arg1 harg1 arg2 harg2 arg3 harg3 arg4 harg4) K } := by
  refine ⟨[], ?_, fun xi2 E K => ?run⟩
  case run =>
    simp only [cc15__ssl_neg_kernel_eq_skeleton]; unfold cc15__ssl_neg_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- THE LAST POINT (the first conditional not taken, the second taken). The accumulator comes in at `xs0`, goes out
    with `xs0` plus the row sums written, and the output, at anything before, goes out with one piece written: the
    accumulator's final contents. -/
noncomputable def kernelRun15_C (c : Dev nD) (i : grid15.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond15_0 i) (hc1 : cond15_1 i)
    (x0 : Vec F S4096x128 .f32) (x1 : Vec F S256x128 .f32) (xs0 : Vec F S4096x1 .f32) :
    Σ' (L2 : List (View.Piece (Elt F) S4096x1 .f32)), { LS0 : List (View.Piece (Elt F) S4096x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc15__ssl_neg_kernel i arg1 harg1 arg2 harg2 arg3 harg3 arg4 harg4) K } := by
  refine ⟨?_, ?_, fun E K => ?run⟩
  case run =>
    simp only [cc15__ssl_neg_kernel_eq_skeleton]; unfold cc15__ssl_neg_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

variable (V : (c : Dev nD) → (b : Ref sig .tc) → Buf (Elt F) ((c : Thread nD τ).loc b))

/-! ## The windows' blocks -/

/-- Window `w`'s block at point `t`, read off its array as the region finds it. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- Each input's current staging buffer holds its block at every point, fetched there or not. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

/-! ## What each case leaves in the output's buffer and in the accumulator -/

/-- The first point's stores cover the accumulator. -/
theorem scover15_A_0 (c : Dev nD) (i : grid15.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : cond15_0 i) (hc1 : ¬cond15_1 i)
    (x0 : Vec F S4096x128 .f32) (x1 : Vec F S256x128 .f32) (y : S4096x1.Idx) :
    ∃ pc ∈ (kernelRun15_A c i arg1 harg1 arg2 harg2 arg3 harg3 arg4 harg4 hc0 hc1 x0 x1).2.1, y ∈ pc.1.set :=
  View.cover_of_tiledL (kernelRun15_A c i arg1 harg1 arg2 harg2 arg3 harg3 arg4 harg4 hc0 hc1 x0 x1).2.1 S4096x1.size (by sl_kernel_rfl) y

/-- What the first point leaves in the accumulator: its pieces read back. -/
def sout15_A_0 (c : Dev nD) (i : grid15.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : cond15_0 i) (hc1 : ¬cond15_1 i)
    (x0 : Vec F S4096x128 .f32) (x1 : Vec F S256x128 .f32) : Vec F S4096x1 .f32 :=
  VS15_0.read (Elt F) (VS15_0.writes (Elt F) VS15_0.junk (kernelRun15_A c i arg1 harg1 arg2 harg2 arg3 harg3 arg4 harg4 hc0 hc1 x0 x1).2.1)

/-- A middle point's store covers the accumulator. -/
theorem scover15_B_0 (c : Dev nD) (i : grid15.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond15_0 i) (hc1 : ¬cond15_1 i)
    (x0 : Vec F S4096x128 .f32) (x1 : Vec F S256x128 .f32) (xs0 : Vec F S4096x1 .f32) (y : S4096x1.Idx) :
    ∃ pc ∈ (kernelRun15_B c i arg1 harg1 arg2 harg2 arg3 harg3 arg4 harg4 hc0 hc1 x0 x1 xs0).2.1, y ∈ pc.1.set :=
  View.cover_of_tiledL (kernelRun15_B c i arg1 harg1 arg2 harg2 arg3 harg3 arg4 harg4 hc0 hc1 x0 x1 xs0).2.1 S4096x1.size (by sl_kernel_rfl) y

/-- What a middle point leaves in the accumulator. -/
def sout15_B_0 (c : Dev nD) (i : grid15.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond15_0 i) (hc1 : ¬cond15_1 i)
    (x0 : Vec F S4096x128 .f32) (x1 : Vec F S256x128 .f32) (xs0 : Vec F S4096x1 .f32) : Vec F S4096x1 .f32 :=
  VS15_0.read (Elt F) (VS15_0.writes (Elt F) VS15_0.junk (kernelRun15_B c i arg1 harg1 arg2 harg2 arg3 harg3 arg4 harg4 hc0 hc1 x0 x1 xs0).2.1)

/-- The last point's store covers the output's buffer. -/
theorem cover15_C_2 (c : Dev nD) (i : grid15.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond15_0 i) (hc1 : cond15_1 i)
    (x0 : Vec F S4096x128 .f32) (x1 : Vec F S256x128 .f32) (xs0 : Vec F S4096x1 .f32) (y : S4096x1.Idx) :
    ∃ pc ∈ (kernelRun15_C c i arg1 harg1 arg2 harg2 arg3 harg3 arg4 harg4 hc0 hc1 x0 x1 xs0).1, y ∈ pc.1.set :=
  View.cover_of_tiledL (kernelRun15_C c i arg1 harg1 arg2 harg2 arg3 harg3 arg4 harg4 hc0 hc1 x0 x1 xs0).1 S4096x1.size (by sl_kernel_rfl) y

/-- What the last point leaves in the output's buffer. -/
def out15_C_2 (c : Dev nD) (i : grid15.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond15_0 i) (hc1 : cond15_1 i)
    (x0 : Vec F S4096x128 .f32) (x1 : Vec F S256x128 .f32) (xs0 : Vec F S4096x1 .f32) : Vec F S4096x1 .f32 :=
  VO15_2.read (Elt F) (VO15_2.writes (Elt F) VO15_2.junk (kernelRun15_C c i arg1 harg1 arg2 harg2 arg3 harg3 arg4 harg4 hc0 hc1 x0 x1 xs0).1)

/-- The last point's store covers the accumulator. -/
theorem scover15_C_0 (c : Dev nD) (i : grid15.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond15_0 i) (hc1 : cond15_1 i)
    (x0 : Vec F S4096x128 .f32) (x1 : Vec F S256x128 .f32) (xs0 : Vec F S4096x1 .f32) (y : S4096x1.Idx) :
    ∃ pc ∈ (kernelRun15_C c i arg1 harg1 arg2 harg2 arg3 harg3 arg4 harg4 hc0 hc1 x0 x1 xs0).2.1, y ∈ pc.1.set :=
  View.cover_of_tiledL (kernelRun15_C c i arg1 harg1 arg2 harg2 arg3 harg3 arg4 harg4 hc0 hc1 x0 x1 xs0).2.1 S4096x1.size (by sl_kernel_rfl) y

/-- What the last point leaves in the accumulator. -/
def sout15_C_0 (c : Dev nD) (i : grid15.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond15_0 i) (hc1 : cond15_1 i)
    (x0 : Vec F S4096x128 .f32) (x1 : Vec F S256x128 .f32) (xs0 : Vec F S4096x1 .f32) : Vec F S4096x1 .f32 :=
  VS15_0.read (Elt F) (VS15_0.writes (Elt F) VS15_0.junk (kernelRun15_C c i arg1 harg1 arg2 harg2 arg3 harg3 arg4 harg4 hc0 hc1 x0 x1 xs0).2.1)

/-! ## What the output's buffer and the accumulator hold after each point -/

/-- The output's buffer at a point that stores nothing into it: a placeholder nothing consults, the window being
    neither written back there nor read at the next point. -/
def idle15_2 : Vec F S4096x1 .f32 := VO15_2.read (Elt F) VO15_2.junk

/-- THE ACCUMULATION. What the output's staging buffer and the accumulator hold after the body at position `n`: the
    case the closed forms select at `n`, run at the point's memrefs and input blocks, the accumulator coming in at
    what position `n - 1` left in it. After the first point the accumulator is zero plus the first block's row sums;
    after a later point what it held plus that point's row sums; after the last point the output's buffer holds
    the whole sum. -/
def outsAt15 (c : Dev nD) : (n : ℕ) → n < cfg15.N → Vec F S4096x1 .f32 × Vec F S4096x1 .f32
  | 0, hn => (idle15_2, sout15_A_0 c (grid15.coords ⟨0, hn⟩) (ms15_0 ⟨0, hn⟩) (hs15_0 ⟨0, hn⟩) (ms15_1 ⟨0, hn⟩) (hs15_1 ⟨0, hn⟩) (ms15_2 ⟨0, hn⟩) (hs15_2 ⟨0, hn⟩) scM15_0 (Memref.isWhole_whole _) ((hcond15_0 ⟨0, hn⟩).mpr (Nat.zero_mod _)) (fun h => (fun h => by (try dsimp only at h); omega) ((hcond15_1 ⟨0, hn⟩).mp h)) (iblk15 V c 0 ⟨0, hn⟩) (iblk15 V c 1 ⟨0, hn⟩))
  | n + 1, hn =>
    if h0 : (n + 1) % 16 = 0 then
      if h1 : (n + 1) % 16 = 15 then
        False.elim (by omega)
      else
        (idle15_2, sout15_A_0 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) scM15_0 (Memref.isWhole_whole _) ((hcond15_0 ⟨n + 1, hn⟩).mpr h0) (fun h => h1 ((hcond15_1 ⟨n + 1, hn⟩).mp h)) (iblk15 V c 0 ⟨n + 1, hn⟩) (iblk15 V c 1 ⟨n + 1, hn⟩))
    else
      if h1 : (n + 1) % 16 = 15 then
        (out15_C_2 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) scM15_0 (Memref.isWhole_whole _) (fun h => h0 ((hcond15_0 ⟨n + 1, hn⟩).mp h)) ((hcond15_1 ⟨n + 1, hn⟩).mpr h1) (iblk15 V c 0 ⟨n + 1, hn⟩) (iblk15 V c 1 ⟨n + 1, hn⟩) (outsAt15 c n (Nat.lt_of_succ_lt hn)).2,
         sout15_C_0 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) scM15_0 (Memref.isWhole_whole _) (fun h => h0 ((hcond15_0 ⟨n + 1, hn⟩).mp h)) ((hcond15_1 ⟨n + 1, hn⟩).mpr h1) (iblk15 V c 0 ⟨n + 1, hn⟩) (iblk15 V c 1 ⟨n + 1, hn⟩) (outsAt15 c n (Nat.lt_of_succ_lt hn)).2)
      else
        (idle15_2, sout15_B_0 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) scM15_0 (Memref.isWhole_whole _) (fun h => h0 ((hcond15_0 ⟨n + 1, hn⟩).mp h)) (fun h => h1 ((hcond15_1 ⟨n + 1, hn⟩).mp h)) (iblk15 V c 0 ⟨n + 1, hn⟩) (iblk15 V c 1 ⟨n + 1, hn⟩) (outsAt15 c n (Nat.lt_of_succ_lt hn)).2)

/-- `outsAt15` at the first point. -/
theorem outsAt15_A (c : Dev nD) (t : Fin cfg15.N) (h0 : t.val % 16 = 0) (h1 : ¬t.val % 16 = 15) :
    outsAt15 V c t.val t.isLt = (idle15_2, sout15_A_0 c (grid15.coords t) (ms15_0 t) (hs15_0 t) (ms15_1 t) (hs15_1 t) (ms15_2 t) (hs15_2 t) scM15_0 (Memref.isWhole_whole _) ((hcond15_0 t).mpr h0) (fun h => h1 ((hcond15_1 t).mp h)) (iblk15 V c 0 t) (iblk15 V c 1 t)) := by
  obtain ⟨n, hn⟩ := t
  cases n with
  | zero => exact rfl
  | succ n => exact (dif_pos h0).trans ((dif_neg h1).trans rfl)

/-- `outsAt15` at a middle point: over what the point before left. -/
theorem outsAt15_B (c : Dev nD) (t : Fin cfg15.N) (h0 : ¬t.val % 16 = 0) (h1 : ¬t.val % 16 = 15) :
    outsAt15 V c t.val t.isLt = (idle15_2, sout15_B_0 c (grid15.coords t) (ms15_0 t) (hs15_0 t) (ms15_1 t) (hs15_1 t) (ms15_2 t) (hs15_2 t) scM15_0 (Memref.isWhole_whole _) (fun h => h0 ((hcond15_0 t).mp h)) (fun h => h1 ((hcond15_1 t).mp h)) (iblk15 V c 0 t) (iblk15 V c 1 t) (outsAt15 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt15` at the last point: over what the point before left. -/
theorem outsAt15_C (c : Dev nD) (t : Fin cfg15.N) (h0 : ¬t.val % 16 = 0) (h1 : t.val % 16 = 15) :
    outsAt15 V c t.val t.isLt = (out15_C_2 c (grid15.coords t) (ms15_0 t) (hs15_0 t) (ms15_1 t) (hs15_1 t) (ms15_2 t) (hs15_2 t) scM15_0 (Memref.isWhole_whole _) (fun h => h0 ((hcond15_0 t).mp h)) ((hcond15_1 t).mpr h1) (iblk15 V c 0 t) (iblk15 V c 1 t) (outsAt15 V c (t.val - 1) (Nat.lt_of_le_of_lt (Nat.sub_le _ _) t.isLt)).2,
      sout15_C_0 c (grid15.coords t) (ms15_0 t) (hs15_0 t) (ms15_1 t) (hs15_1 t) (ms15_2 t) (hs15_2 t) scM15_0 (Memref.isWhole_whole _) (fun h => h0 ((hcond15_0 t).mp h)) ((hcond15_1 t).mpr h1) (iblk15 V c 0 t) (iblk15 V c 1 t) (outsAt15 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point every scoped buffer that is no staging buffer at
    anything, and the generator register at some state; afterwards the accumulator at what the point before left in
    it (`outsAt15`'s second component), every other such buffer unopened, and the register. -/
def PhiS15 (c : Dev nD) : (n : ℕ) → n ≤ cfg15.N → sProp 𝕄
  | 0, _ => Pipeline.ΦA spec15 c
  | n + 1, hn => iprop(iprop(iprop(owns (c : Thread nD τ) scM15_0 fullShare ((outsAt15 V c n hn).2)) ∗ Pipeline.scopedRestBut (Ix := Unit) (Name := ℕ) (U := UR sig nD τ) (Lvl := ℕ) (Val := Elt F) spec15 c [cc15_scratch0]) ∗ (∃ r, prngReg c r))

theorem PhiS15_zero (c : Dev nD) (n : ℕ) (h : n ≤ cfg15.N) (hz : n = 0) : PhiS15 V c n h = Pipeline.ΦA spec15 c := by
  subst hz; rfl

theorem PhiS15_succ (c : Dev nD) (n : ℕ) (hn : n < cfg15.N) :
    PhiS15 V c (n + 1) hn = iprop(iprop(iprop(owns (c : Thread nD τ) scM15_0 fullShare ((outsAt15 V c n hn).2)) ∗ Pipeline.scopedRestBut (Ix := Unit) (Name := ℕ) (U := UR sig nD τ) (Lvl := ℕ) (Val := Elt F) spec15 c [cc15_scratch0]) ∗ (∃ r, prngReg c r)) := rfl

theorem PhiS15_pos (c : Dev nD) (n : ℕ) (h : n ≤ cfg15.N) (hz : n ≠ 0) :
    PhiS15 V c n h = iprop(iprop(iprop(owns (c : Thread nD τ) scM15_0 fullShare ((outsAt15 V c (n - 1) (by omega)).2)) ∗ Pipeline.scopedRestBut (Ix := Unit) (Name := ℕ) (U := UR sig nD τ) (Lvl := ℕ) (Val := Elt F) spec15 c [cc15_scratch0]) ∗ (∃ r, prngReg c r)) := by
  cases n with
  | zero => exact absurd rfl hz
  | succ n => rfl

/-! ## The pipeline's proof data -/

/-- The proof data on core `c`: the arrays as the region finds them; after the body at point `t` each input's
    buffer at its block and the output's at `outsAt15`'s first component; the invariant `PhiS15`; nothing owed; full
    shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => (outsAt15 V c t.val t.isLt).1
  Φ t := PhiS15 V c t.val (Nat.le_of_lt_succ t.isLt)
  q _ := fullShare
  owed _ := 0

theorem A_eq15 (c : Dev nD) (w : Fin cfg15.W) : (dat15 V c).A w = V c (Pipeline.arrRef spec15 w) := by
  dsimp only [dat15]

theorem PhiS15_castSucc (c : Dev nD) (t : Fin cfg15.N) :
    (dat15 V c).Φ t.castSucc = PhiS15 V c t.val (Nat.le_of_lt t.isLt) := by
  dsimp only [dat15]; simp only [Fin.coe_castSucc]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = (outsAt15 V c t.val t.isLt).1 := by dsimp only [dat15]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d

/-! ## The body obligation -/

/-- What the body is called with at point `t`, -/
def bodyPre15 (c : Dev nD) (t : Fin cfg15.N) : sProp 𝕄 :=
  iprop((dat15 V c).Φ t.castSucc ∗ (dat15 V c).owesAt () t.castSucc
    ∗ (∃ d, owns (c : Thread nD τ) (ms15_0 t) fullShare ((dat15 V c).before 0 t d))
    ∗ (∃ d, owns (c : Thread nD τ) (ms15_1 t) fullShare ((dat15 V c).before 1 t d))
    ∗ (∃ d, owns (c : Thread nD τ) (ms15_2 t) fullShare ((dat15 V c).before 2 t d)))

/-- and what it returns. -/
def bodyPost15 (c : Dev nD) (t : Fin cfg15.N) : sProp 𝕄 :=
  iprop((dat15 V c).Φ t.succ ∗ (dat15 V c).owesAt () t.succ
    ∗ (dat15 V c).leavesExact 0 t
    ∗ (dat15 V c).leavesExact 1 t
    ∗ (dat15 V c).leavesExact 2 t)

set_option maxHeartbeats 4800000 in
/-- The body at any point. The inputs' memrefs hold their blocks; the closed forms say which case the point is in;
    the invariant hands the body the accumulator — at anything at the first point, at what the point before left
    afterwards —, every other scoped buffer and the generator register riding along unread, and takes the
    accumulator back at this point's contents; the output's buffer is handed back untouched except at the last
    point, where it is left at the whole sum; the core owes nothing throughout. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1]
  rw [show (dat15 V c).owesAt () t.succ = (dat15 V c).owesAt () t.castSucc from rfl]
  rw [show (dat15 V c).Φ t.succ = PhiS15 V c (t.val + 1) t.isLt from rfl, PhiS15_succ]
  have hN : t.val < 16 := lt_of_lt_of_eq t.isLt (show cfg15.N = 16 from N_15)
  rw [show (dat15 V c).leavesExact 0 t = owns (c : Thread nD τ) (ms15_0 t) fullShare ((dat15 V c).after 0 t) from by
    unfold Dat.leavesExact; rw [liveAt15_0 t], after15_0]
  rw [show (dat15 V c).leavesExact 1 t = owns (c : Thread nD τ) (ms15_1 t) fullShare ((dat15 V c).after 1 t) from by
    unfold Dat.leavesExact; rw [liveAt15_1 t], after15_1]
  by_cases h0 : t.val % 16 = 0
  · have h1 : ¬t.val % 16 = 15 := by omega
    have hz : t.val = 0 := by omega
    rw [Dat.leavesExact_idle (dat15 V c) 2 t (idleAt15_2 t (fun h => h1 ((hcond15_1 t).mp h))) (noFlush15_2 t (fun h => h1 ((hcond15_1 t).mp h)))]
    rw [outsAt15_A V c t h0 h1]
    unfold sout15_A_0; (try dsimp only)
    rw [PhiS15_castSucc V c t, PhiS15_zero V c _ _ hz, PhiA15_eq]
    iintro ⟨⟨⟨HS0, Hrest⟩, Hg⟩, Ho, ⟨%d0, H0⟩, ⟨%d1, H1⟩, ⟨%d2, H2⟩⟩
    iapply ((kernelRun15_A c (grid15.coords t) _ _ _ _ _ _ _ _ ((hcond15_0 t).mpr h0) (fun h => h1 ((hcond15_1 t).mp h)) (iblk15 V c 0 t) (iblk15 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover15_A_0 c _ _ _ _ _ _ _ _ _ _ _ _ _)
        iexact Hrest
      iexact Hg
    isplitl [Ho]; · iexact Ho
    isplitl [H0]; · iexact H0
    isplitl [H1]; · iexact H1
    iexists _; iexact H2
  · have hz : t.val ≠ 0 := by omega
    by_cases h1 : t.val % 16 = 15
    · rw [show (dat15 V c).leavesExact 2 t = owns (c : Thread nD τ) (ms15_2 t) fullShare ((dat15 V c).after 2 t) from by
        unfold Dat.leavesExact; rw [liveAt15_2 t ((hcond15_1 t).mpr h1)], after15_2]
      rw [outsAt15_C V c t h0 h1]
      unfold out15_C_2 sout15_C_0; (try dsimp only)
      rw [PhiS15_castSucc V c t, PhiS15_pos V c _ _ hz]
      iintro ⟨⟨⟨HS0, Hrest⟩, Hg⟩, Ho, ⟨%d0, H0⟩, ⟨%d1, H1⟩, ⟨%d2, H2⟩⟩
      iapply ((kernelRun15_C c (grid15.coords t) _ _ _ _ _ _ _ _ (fun h => h0 ((hcond15_0 t).mp h)) ((hcond15_1 t).mpr h1) (iblk15 V c 0 t) (iblk15 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover15_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover15_C_2 c _ _ _ _ _ _ _ _ _ _ _ _ _ _)
    · rw [Dat.leavesExact_idle (dat15 V c) 2 t (idleAt15_2 t (fun h => h1 ((hcond15_1 t).mp h))) (noFlush15_2 t (fun h => h1 ((hcond15_1 t).mp h)))]
      rw [outsAt15_B V c t h0 h1]
      unfold sout15_B_0; (try dsimp only)
      rw [PhiS15_castSucc V c t, PhiS15_pos V c _ _ hz]
      iintro ⟨⟨⟨HS0, Hrest⟩, Hg⟩, Ho, ⟨%d0, H0⟩, ⟨%d1, H1⟩, ⟨%d2, H2⟩⟩
      iapply ((kernelRun15_B c (grid15.coords t) _ _ _ _ _ _ _ _ (fun h => h0 ((hcond15_0 t).mp h)) (fun h => h1 ((hcond15_1 t).mp h)) (iblk15 V c 0 t) (iblk15 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover15_B_0 c _ _ _ _ _ _ _ _ _ _ _ _ _ _)
          iexact Hrest
        iexact Hg
      isplitl [Ho]; · iexact Ho
      isplitl [H0]; · iexact H0
      isplitl [H1]; · iexact H1
      iexists _; iexact H2

/-- The body obligation, at every point. -/
theorem body_obligation15 (c : Dev nD) : BodyObligation (dat15 (F := F) V c) (defs₀ (F := F)) Variants.none () Set.univ := fun t => by
  rw [bigSep_W15, bigSep_W15]
  exact sound_body15 V c t

/-! ## Into the invariant and out of it -/

/-- What the launch hands the region — the generator register, no prefetched table, the scoped buffers no window
    stages — is the invariant before the first point. -/
theorem hin15 (c : Dev nD) :
    iprop((∃ r, prngReg c r) ∗ Pipeline.prefHeld (pcfgs (F := F) 15).pre c (fun _ => fullShare) ((cfgs 15).toPCfg_adm).1 ∗ Pipeline.scopedRest spec15 c)
      ⊢ (dat15 V c).Φ 0 := by
  rw [show (dat15 V c).Φ 0 = PhiS15 V c 0 (Nat.zero_le _) from rfl, PhiS15_zero V c 0 _ rfl]; unfold Pipeline.ΦA
  iintro ⟨Hp, -, Hr⟩
  isplitl [Hr]; · iexact Hr
  iexact Hp

/-- After any point but the first the invariant gives the scoped buffers and the register back: the accumulator's
    named contents are forgotten. -/
theorem Phi_out15 (c : Dev nD) (t : Fin (cfg15.N + 1)) (ht : t.val ≠ 0) : (dat15 V c).Φ t ⊢ Pipeline.ΦA spec15 c := by
  rw [show (dat15 V c).Φ t = PhiS15 V c t.val (Nat.le_of_lt_succ t.isLt) from rfl, PhiS15_pos V c _ _ ht, PhiA15_eq]
  iintro ⟨⟨HS0, Hrest⟩, Hg⟩
  isplitl [HS0 Hrest]
  · isplitl [HS0]
    · iexists _; iexact HS0
    iexact Hrest
  iexact Hg

/-- The same after the last point, as the region hands it back: the register, no semaphore of the kernel's own, the
    scoped buffers. -/
theorem hout15 (c : Dev nD) :
    (dat15 V c).Φ (Fin.last cfg15.N)
      ⊢ iprop((∃ r, prngReg c r) ∗ Pipeline.ownSems0 (Ix := Unit) (Name := ℕ) (U := UR sig nD τ) (Lvl := ℕ) (Val := Elt F) (τ := τ) (fun k : PEmpty => k.elim) c ∗ Pipeline.scopedRest spec15 c) := by
  refine (Phi_out15 V c _ (by rw [Fin.val_last]; have : cfg15.N = 16 := N_15; omega)).trans ?_
  rw [Pipeline.ownSems0_none]; unfold Pipeline.ΦA
  iintro ⟨Hr, Hp⟩
  isplitl [Hp]; · iexact Hp
  isplitr; · iempintro
  iexact Hr

end Cert.Kernel.Fr

end
-- ==== Proof.KB.Reg16.lean ====
import proofs.«126270_j6725918785969_1_alg».proof.Proof.Gen.Kernel.Launch
import proofs.«126270_j6725918785969_1_alg».proof.Proof.Gen.Kernel.Skeleton
import proofs.«126270_j6725918785969_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 16: a row-tiled matrix product

Two input windows and one output window. Window 0 cuts the left factor into blocks of rows (`S4096x128`);
window 1 is the whole right factor (`S128x128`), the same block at every grid point; window 2 is the block of
the result's rows (`S4096x128`). At a grid point the body loads both input blocks, multiplies them into a zero
accumulator and stores the result over the whole output block. Stated at a
parameter `V`, the buffer contents the region is entered from.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- The left factor's current staging buffer holds its block of rows at every point. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

/-- The right factor's staging buffer holds the whole factor at every point: fetched at the first point, its
    block index never moves afterwards. -/
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

/-- The rectangles the body reads and writes: each buffer whole. -/
abbrev r16_a : Rect S4096x128 := Rect.unit (s := S4096x128) ![0, 0] S4096x128.size inb_S4096x128_S4096x128_0_0
abbrev r16_b : Rect S128x128 := Rect.unit (s := S128x128) ![0, 0] S128x128.size inb_S128x128_S128x128_0_0

/-- The output buffer after the body: its one store, of the product of the two input blocks. -/
def out16_2 (x0 : Vec F S4096x128 .f32) (x1 : Vec F S128x128 .f32) : Vec F S4096x128 .f32 :=
  View.canon [⟨r16_a, k16_pay1 (View.ld x0 r16_a) (View.ld x1 r16_b)⟩]

/-- The store covers the buffer. -/
theorem cover16_2 (p0 : Vec F S4096x128 .f32) (y : S4096x128.Idx) :
    ∃ pc ∈ ([⟨r16_a, p0⟩] : List (View.Piece (Elt F) S4096x128 .f32)), y ∈ pc.1.set :=
  View.cover_of_tiled [⟨r16_a, p0⟩] S4096x128.size (by rfl) y

set_option maxHeartbeats 1000000 in
/-- The body on whole staging memrefs, the inputs' at contents `x0`, `x1` and the output's at anything, runs to the
    continuation with the inputs' as they were and the output's at `out16_2 x0 x1`. -/
theorem sound_kernel16 (c : Dev nD) (E : Set ℕ) (i : grid16.Coords) (arg0 : Memref sig .tc .vmem S4096x128 .f32) (harg0 : arg0.IsWhole) (arg1 : Memref sig .tc .vmem S128x128 .f32) (harg1 : arg1.IsWhole) (arg2 : Memref sig .tc .vmem S4096x128 .f32) (harg2 : arg2.IsWhole)
    (x0 : Vec F S4096x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out16_2 x0 x1)) -∗ K ⟨⟩))
      ⊢ wp frame (wpE (defs₀ (F := F)) Variants.none c none) E (cc16__mm_big_kernel i arg0 harg0 arg1 harg1 arg2 harg2) K := by
  simp only [cc16__mm_big_kernel_eq_skeleton]; unfold cc16__mm_big_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover16_2 _)

/-- The pipeline's proof data on core `c`: the arrays as the region finds them; after the body at point `t` each
    input's buffer at its block and the output's at `out16_2` of them; the invariant the scoped rest and the
    generator register, untouched; nothing owed; full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => out16_2 (iblk16 V c 0 t) (iblk16 V c 1 t)
  Φ _ := Pipeline.ΦA spec16 c
  q _ := fullShare
  owed _ := 0

theorem A_eq16 (c : Dev nD) (w : Fin cfg16.W) : (dat16 V c).A w = V c (Pipeline.arrRef spec16 w) := by
  dsimp only [dat16]

theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = out16_2 (iblk16 V c 0 t) (iblk16 V c 1 t) := by dsimp only [dat16]

theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d

/-- What the body is called with at point `t`, -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d)))

/-- and what it returns. -/
def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t))

/-- The body at any point: the inputs' memrefs hold their blocks, so the body's triple applies; the invariant
    and the core's dues pass through unread. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1]
  rw [show (dat16 V c).Φ t.succ = (dat16 V c).Φ t.castSucc from rfl,
    show (dat16 V c).owesAt () t.succ = (dat16 V c).owesAt () t.castSucc from rfl,
    after16_0, after16_1, after16_2]
  iintro ⟨HΦ, Ho, ⟨%d0, H0⟩, ⟨%d1, H1⟩, ⟨%d2, H2⟩⟩
  iapply (sound_kernel16 c Set.univ _ _ _ _ _ _ _ (iblk16 V c 0 t) (iblk16 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation16 (c : Dev nD) : BodyObligation (dat16 (F := F) V c) (defs₀ (F := F)) Variants.none () Set.univ := fun t => by
  rw [bigSep_W16, bigSep_W16]
  exact sound_body16 V c t

end Cert.Kernel.Fr

end
-- ==== Proof.KB.Reg17.lean ====
import proofs.«126270_j6725918785969_1_alg».proof.Proof.Gen.Kernel.Launch
import proofs.«126270_j6725918785969_1_alg».proof.Proof.Gen.Kernel.Skeleton
import proofs.«126270_j6725918785969_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 17: the row sums of `exp (x · yᵀ)` reduced over sixteen blocks of columns

Two input windows — the 4096 × 128 left factor whole, its block index never moving, and the right factor cut into
sixteen blocks of 256 rows — and one 4096 × 1 output window whose block index never moves. The kernel keeps a
4096 × 1 accumulator in a scratch buffer of its own: at the first grid point it zeroes it, at every point it adds,
row by row, the sum over the block's 256 columns of `exp (p / 1)`, where `p` is the product of the left factor and
the transposed right block (both rounded to bf16 before the product) and the division by the constant one is
entry by entry, and at the last point only it copies the accumulator into the output's staging buffer, which is
written back there and nowhere else. So the body has three control cases — first point, middle point, last
point —, the accumulator's contents are carried from point to point by the region invariant, and the output
window is idle everywhere but at the last point. Stated at a parameter `V`, the buffer contents the region is
entered from.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, decided over the grid -/

/-- The condition of the body's first conditional: the reduction coordinate is zero. -/
abbrev cond17_0 (i : grid17.Coords) : Prop := (Scalar.cmpi .ne (Scalar.extui (Scalar.cmpi .eq (BitVec.ofNat 32 (i 0).val) 0#32)) 0#32) = 1#1
/-- It holds at the first point only. -/
theorem hcond17_0 : ∀ t : Fin cfg17.N, cond17_0 (grid17.coords t) ↔ t.val % 16 = 0 :=
  (by decide +kernel : ∀ t : Fin grid17.N, cond17_0 (grid17.coords t) ↔ t.val % 16 = 0)

/-- The condition of the body's second conditional: the reduction coordinate is the last. -/
abbrev cond17_1 (i : grid17.Coords) : Prop := k17_cond2 i = 1#1
/-- It holds at the last point only. -/
theorem hcond17_1 : ∀ t : Fin cfg17.N, cond17_1 (grid17.coords t) ↔ t.val % 16 = 15 :=
  (by decide +kernel : ∀ t : Fin grid17.N, cond17_1 (grid17.coords t) ↔ t.val % 16 = 15)

/-! ## Where the windows are idle -/

/-- The two inputs are never idle. -/
theorem liveAt17_0 : ∀ t : Fin cfg17.N, cfg17.idle 0 (grid17.coords t) = false := by decide +kernel
theorem liveAt17_1 : ∀ t : Fin cfg17.N, cfg17.idle 1 (grid17.coords t) = false := by decide +kernel
/-- Where the second condition fails the output is idle and is not written back. -/
theorem idleAt17_2 : ∀ t : Fin cfg17.N, ¬cond17_1 (grid17.coords t) → cfg17.idle 2 (grid17.coords t) = true := by decide +kernel
theorem noFlush17_2 : ∀ t : Fin cfg17.N, ¬cond17_1 (grid17.coords t) → (cfg17.win 2).flush t = false := by decide +kernel
/-- Where it holds the output is live. -/
theorem liveAt17_2 : ∀ t : Fin cfg17.N, cond17_1 (grid17.coords t) → cfg17.idle 2 (grid17.coords t) = false := by decide +kernel

/-! ## The memrefs the body is called with -/

/-- One staging buffer of the output window, through which its contents are stated. -/
abbrev VO17_2 : View sig .tc .vmem S4096x1 .f32 := (Memref.whole cc17_stg2_0 : Memref sig .tc .vmem S4096x1 .f32).view
/-- Each window's current staging memref at point `t`, and its wholeness. -/
abbrev ms17_0 (t : Fin cfg17.N) : Memref sig .tc .vmem S4096x128 .f32 := win17_0.stage (cfg17.slots t 0)
abbrev hs17_0 (t : Fin cfg17.N) : (ms17_0 t).IsWhole := hstage17_0 ((cfg17.slots t 0).cast nbuf17_0)
abbrev ms17_1 (t : Fin cfg17.N) : Memref sig .tc .vmem S256x128 .f32 := win17_1.stage (cfg17.slots t 1)
abbrev hs17_1 (t : Fin cfg17.N) : (ms17_1 t).IsWhole := hstage17_1 ((cfg17.slots t 1).cast nbuf17_1)
abbrev ms17_2 (t : Fin cfg17.N) : Memref sig .tc .vmem S4096x1 .f32 := win17_2.stage (cfg17.slots t 2)
abbrev hs17_2 (t : Fin cfg17.N) : (ms17_2 t).IsWhole := hstage17_2 ((cfg17.slots t 2).cast nbuf17_2)
/-- The accumulator: a whole scoped buffer of the kernel's own, passed beside the windows. -/
abbrev scM17_0 : Memref sig .tc .vmem S4096x1 .f32 := Memref.whole cc17_scratch0
/-- The accumulator as a view: what it holds is stated through it. -/
abbrev VS17_0 : View sig .tc .vmem S4096x1 .f32 := scM17_0.view

/-- The region invariant of a body that need not describe its scratch, with the accumulator as a memref owned at
    some contents and every other scoped buffer unopened. -/
theorem PhiA17_eq (c : Dev nD) :
    (Pipeline.ΦA spec17 c : sProp 𝕄)
      = iprop(iprop(iprop((∃ d, owns (c : Thread nD τ) scM17_0 fullShare d))
          ∗ Pipeline.scopedRestBut (Ix := Unit) (Name := ℕ) (U := UR sig nD τ) (Lvl := ℕ) (Val := Elt F) spec17 c [cc17_scratch0]) ∗ (∃ r, prngReg c r)) := by
  unfold Pipeline.ΦA; rw [scopedRest17_split]; simp only [scM17_0, owns_whole]; try rfl

set_option maxHeartbeats 1000000 in
/-- THE FIRST POINT (the first conditional taken, the second not). On whole memrefs — the inputs' at their contents,
    the output's at contents handed back untouched, the accumulator at anything — the body runs to the continuation
    holding the inputs' and the output's as they were and the accumulator with its stores' pieces written (last
    first): zero, then zero plus the row sums of the exponentials of the two blocks' product. The pieces are what the run finds. -/
noncomputable def kernelRun17_A (c : Dev nD) (i : grid17.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : cond17_0 i) (hc1 : ¬cond17_1 i)
    (x0 : Vec F S4096x128 .f32) (x1 : Vec F S256x128 .f32) :
    Σ' (L2 : List (View.Piece (Elt F) S4096x1 .f32)), { LS0 : List (View.Piece (Elt F) S4096x1 .f32) //
      ∀ (xi2 : Vec F S4096x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc17__ssl_neg_kernel i arg1 harg1 arg2 harg2 arg3 harg3 arg4 harg4) K } := by
  refine ⟨[], ?_, fun xi2 E K => ?run⟩
  case run =>
    simp only [cc17__ssl_neg_kernel_eq_skeleton]; unfold cc17__ssl_neg_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A MIDDLE POINT (neither conditional taken). The accumulator comes in at the contents `xs0` the point before left
    and goes out with one piece written: `xs0` plus the row sums of the exponentials of the two blocks' product. The output is handed back untouched. -/
noncomputable def kernelRun17_B (c : Dev nD) (i : grid17.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond17_0 i) (hc1 : ¬cond17_1 i)
    (x0 : Vec F S4096x128 .f32) (x1 : Vec F S256x128 .f32) (xs0 : Vec F S4096x1 .f32) :
    Σ' (L2 : List (View.Piece (Elt F) S4096x1 .f32)), { LS0 : List (View.Piece (Elt F) S4096x1 .f32) //
      ∀ (xi2 : Vec F S4096x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc17__ssl_neg_kernel i arg1 harg1 arg2 harg2 arg3 harg3 arg4 harg4) K } := by
  refine ⟨[], ?_, fun xi2 E K => ?run⟩
  case run =>
    simp only [cc17__ssl_neg_kernel_eq_skeleton]; unfold cc17__ssl_neg_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- THE LAST POINT (the first conditional not taken, the second taken). The accumulator comes in at `xs0`, goes out
    with `xs0` plus the row sums written, and the output, at anything before, goes out with one piece written: the
    accumulator's final contents. -/
noncomputable def kernelRun17_C (c : Dev nD) (i : grid17.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond17_0 i) (hc1 : cond17_1 i)
    (x0 : Vec F S4096x128 .f32) (x1 : Vec F S256x128 .f32) (xs0 : Vec F S4096x1 .f32) :
    Σ' (L2 : List (View.Piece (Elt F) S4096x1 .f32)), { LS0 : List (View.Piece (Elt F) S4096x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc17__ssl_neg_kernel i arg1 harg1 arg2 harg2 arg3 harg3 arg4 harg4) K } := by
  refine ⟨?_, ?_, fun E K => ?run⟩
  case run =>
    simp only [cc17__ssl_neg_kernel_eq_skeleton]; unfold cc17__ssl_neg_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

variable (V : (c : Dev nD) → (b : Ref sig .tc) → Buf (Elt F) ((c : Thread nD τ).loc b))

/-! ## The windows' blocks -/

/-- Window `w`'s block at point `t`, read off its array as the region finds it. -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- Each input's current staging buffer holds its block at every point, fetched there or not. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

/-! ## What each case leaves in the output's buffer and in the accumulator -/

/-- The first point's stores cover the accumulator. -/
theorem scover17_A_0 (c : Dev nD) (i : grid17.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : cond17_0 i) (hc1 : ¬cond17_1 i)
    (x0 : Vec F S4096x128 .f32) (x1 : Vec F S256x128 .f32) (y : S4096x1.Idx) :
    ∃ pc ∈ (kernelRun17_A c i arg1 harg1 arg2 harg2 arg3 harg3 arg4 harg4 hc0 hc1 x0 x1).2.1, y ∈ pc.1.set :=
  View.cover_of_tiledL (kernelRun17_A c i arg1 harg1 arg2 harg2 arg3 harg3 arg4 harg4 hc0 hc1 x0 x1).2.1 S4096x1.size (by sl_kernel_rfl) y

/-- What the first point leaves in the accumulator: its pieces read back. -/
def sout17_A_0 (c : Dev nD) (i : grid17.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : cond17_0 i) (hc1 : ¬cond17_1 i)
    (x0 : Vec F S4096x128 .f32) (x1 : Vec F S256x128 .f32) : Vec F S4096x1 .f32 :=
  VS17_0.read (Elt F) (VS17_0.writes (Elt F) VS17_0.junk (kernelRun17_A c i arg1 harg1 arg2 harg2 arg3 harg3 arg4 harg4 hc0 hc1 x0 x1).2.1)

/-- A middle point's store covers the accumulator. -/
theorem scover17_B_0 (c : Dev nD) (i : grid17.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond17_0 i) (hc1 : ¬cond17_1 i)
    (x0 : Vec F S4096x128 .f32) (x1 : Vec F S256x128 .f32) (xs0 : Vec F S4096x1 .f32) (y : S4096x1.Idx) :
    ∃ pc ∈ (kernelRun17_B c i arg1 harg1 arg2 harg2 arg3 harg3 arg4 harg4 hc0 hc1 x0 x1 xs0).2.1, y ∈ pc.1.set :=
  View.cover_of_tiledL (kernelRun17_B c i arg1 harg1 arg2 harg2 arg3 harg3 arg4 harg4 hc0 hc1 x0 x1 xs0).2.1 S4096x1.size (by sl_kernel_rfl) y

/-- What a middle point leaves in the accumulator. -/
def sout17_B_0 (c : Dev nD) (i : grid17.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond17_0 i) (hc1 : ¬cond17_1 i)
    (x0 : Vec F S4096x128 .f32) (x1 : Vec F S256x128 .f32) (xs0 : Vec F S4096x1 .f32) : Vec F S4096x1 .f32 :=
  VS17_0.read (Elt F) (VS17_0.writes (Elt F) VS17_0.junk (kernelRun17_B c i arg1 harg1 arg2 harg2 arg3 harg3 arg4 harg4 hc0 hc1 x0 x1 xs0).2.1)

/-- The last point's store covers the output's buffer. -/
theorem cover17_C_2 (c : Dev nD) (i : grid17.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond17_0 i) (hc1 : cond17_1 i)
    (x0 : Vec F S4096x128 .f32) (x1 : Vec F S256x128 .f32) (xs0 : Vec F S4096x1 .f32) (y : S4096x1.Idx) :
    ∃ pc ∈ (kernelRun17_C c i arg1 harg1 arg2 harg2 arg3 harg3 arg4 harg4 hc0 hc1 x0 x1 xs0).1, y ∈ pc.1.set :=
  View.cover_of_tiledL (kernelRun17_C c i arg1 harg1 arg2 harg2 arg3 harg3 arg4 harg4 hc0 hc1 x0 x1 xs0).1 S4096x1.size (by sl_kernel_rfl) y

/-- What the last point leaves in the output's buffer. -/
def out17_C_2 (c : Dev nD) (i : grid17.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond17_0 i) (hc1 : cond17_1 i)
    (x0 : Vec F S4096x128 .f32) (x1 : Vec F S256x128 .f32) (xs0 : Vec F S4096x1 .f32) : Vec F S4096x1 .f32 :=
  VO17_2.read (Elt F) (VO17_2.writes (Elt F) VO17_2.junk (kernelRun17_C c i arg1 harg1 arg2 harg2 arg3 harg3 arg4 harg4 hc0 hc1 x0 x1 xs0).1)

/-- The last point's store covers the accumulator. -/
theorem scover17_C_0 (c : Dev nD) (i : grid17.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond17_0 i) (hc1 : cond17_1 i)
    (x0 : Vec F S4096x128 .f32) (x1 : Vec F S256x128 .f32) (xs0 : Vec F S4096x1 .f32) (y : S4096x1.Idx) :
    ∃ pc ∈ (kernelRun17_C c i arg1 harg1 arg2 harg2 arg3 harg3 arg4 harg4 hc0 hc1 x0 x1 xs0).2.1, y ∈ pc.1.set :=
  View.cover_of_tiledL (kernelRun17_C c i arg1 harg1 arg2 harg2 arg3 harg3 arg4 harg4 hc0 hc1 x0 x1 xs0).2.1 S4096x1.size (by sl_kernel_rfl) y

/-- What the last point leaves in the accumulator. -/
def sout17_C_0 (c : Dev nD) (i : grid17.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond17_0 i) (hc1 : cond17_1 i)
    (x0 : Vec F S4096x128 .f32) (x1 : Vec F S256x128 .f32) (xs0 : Vec F S4096x1 .f32) : Vec F S4096x1 .f32 :=
  VS17_0.read (Elt F) (VS17_0.writes (Elt F) VS17_0.junk (kernelRun17_C c i arg1 harg1 arg2 harg2 arg3 harg3 arg4 harg4 hc0 hc1 x0 x1 xs0).2.1)

/-! ## What the output's buffer and the accumulator hold after each point -/

/-- The output's buffer at a point that stores nothing into it: a placeholder nothing consults, the window being
    neither written back there nor read at the next point. -/
def idle17_2 : Vec F S4096x1 .f32 := VO17_2.read (Elt F) VO17_2.junk

/-- THE ACCUMULATION. What the output's staging buffer and the accumulator hold after the body at position `n`: the
    case the closed forms select at `n`, run at the point's memrefs and input blocks, the accumulator coming in at
    what position `n - 1` left in it. After the first point the accumulator is zero plus the first block's row sums;
    after a later point what it held plus that point's row sums; after the last point the output's buffer holds
    the whole sum. -/
def outsAt17 (c : Dev nD) : (n : ℕ) → n < cfg17.N → Vec F S4096x1 .f32 × Vec F S4096x1 .f32
  | 0, hn => (idle17_2, sout17_A_0 c (grid17.coords ⟨0, hn⟩) (ms17_0 ⟨0, hn⟩) (hs17_0 ⟨0, hn⟩) (ms17_1 ⟨0, hn⟩) (hs17_1 ⟨0, hn⟩) (ms17_2 ⟨0, hn⟩) (hs17_2 ⟨0, hn⟩) scM17_0 (Memref.isWhole_whole _) ((hcond17_0 ⟨0, hn⟩).mpr (Nat.zero_mod _)) (fun h => (fun h => by (try dsimp only at h); omega) ((hcond17_1 ⟨0, hn⟩).mp h)) (iblk17 V c 0 ⟨0, hn⟩) (iblk17 V c 1 ⟨0, hn⟩))
  | n + 1, hn =>
    if h0 : (n + 1) % 16 = 0 then
      if h1 : (n + 1) % 16 = 15 then
        False.elim (by omega)
      else
        (idle17_2, sout17_A_0 c (grid17.coords ⟨n + 1, hn⟩) (ms17_0 ⟨n + 1, hn⟩) (hs17_0 ⟨n + 1, hn⟩) (ms17_1 ⟨n + 1, hn⟩) (hs17_1 ⟨n + 1, hn⟩) (ms17_2 ⟨n + 1, hn⟩) (hs17_2 ⟨n + 1, hn⟩) scM17_0 (Memref.isWhole_whole _) ((hcond17_0 ⟨n + 1, hn⟩).mpr h0) (fun h => h1 ((hcond17_1 ⟨n + 1, hn⟩).mp h)) (iblk17 V c 0 ⟨n + 1, hn⟩) (iblk17 V c 1 ⟨n + 1, hn⟩))
    else
      if h1 : (n + 1) % 16 = 15 then
        (out17_C_2 c (grid17.coords ⟨n + 1, hn⟩) (ms17_0 ⟨n + 1, hn⟩) (hs17_0 ⟨n + 1, hn⟩) (ms17_1 ⟨n + 1, hn⟩) (hs17_1 ⟨n + 1, hn⟩) (ms17_2 ⟨n + 1, hn⟩) (hs17_2 ⟨n + 1, hn⟩) scM17_0 (Memref.isWhole_whole _) (fun h => h0 ((hcond17_0 ⟨n + 1, hn⟩).mp h)) ((hcond17_1 ⟨n + 1, hn⟩).mpr h1) (iblk17 V c 0 ⟨n + 1, hn⟩) (iblk17 V c 1 ⟨n + 1, hn⟩) (outsAt17 c n (Nat.lt_of_succ_lt hn)).2,
         sout17_C_0 c (grid17.coords ⟨n + 1, hn⟩) (ms17_0 ⟨n + 1, hn⟩) (hs17_0 ⟨n + 1, hn⟩) (ms17_1 ⟨n + 1, hn⟩) (hs17_1 ⟨n + 1, hn⟩) (ms17_2 ⟨n + 1, hn⟩) (hs17_2 ⟨n + 1, hn⟩) scM17_0 (Memref.isWhole_whole _) (fun h => h0 ((hcond17_0 ⟨n + 1, hn⟩).mp h)) ((hcond17_1 ⟨n + 1, hn⟩).mpr h1) (iblk17 V c 0 ⟨n + 1, hn⟩) (iblk17 V c 1 ⟨n + 1, hn⟩) (outsAt17 c n (Nat.lt_of_succ_lt hn)).2)
      else
        (idle17_2, sout17_B_0 c (grid17.coords ⟨n + 1, hn⟩) (ms17_0 ⟨n + 1, hn⟩) (hs17_0 ⟨n + 1, hn⟩) (ms17_1 ⟨n + 1, hn⟩) (hs17_1 ⟨n + 1, hn⟩) (ms17_2 ⟨n + 1, hn⟩) (hs17_2 ⟨n + 1, hn⟩) scM17_0 (Memref.isWhole_whole _) (fun h => h0 ((hcond17_0 ⟨n + 1, hn⟩).mp h)) (fun h => h1 ((hcond17_1 ⟨n + 1, hn⟩).mp h)) (iblk17 V c 0 ⟨n + 1, hn⟩) (iblk17 V c 1 ⟨n + 1, hn⟩) (outsAt17 c n (Nat.lt_of_succ_lt hn)).2)

/-- `outsAt17` at the first point. -/
theorem outsAt17_A (c : Dev nD) (t : Fin cfg17.N) (h0 : t.val % 16 = 0) (h1 : ¬t.val % 16 = 15) :
    outsAt17 V c t.val t.isLt = (idle17_2, sout17_A_0 c (grid17.coords t) (ms17_0 t) (hs17_0 t) (ms17_1 t) (hs17_1 t) (ms17_2 t) (hs17_2 t) scM17_0 (Memref.isWhole_whole _) ((hcond17_0 t).mpr h0) (fun h => h1 ((hcond17_1 t).mp h)) (iblk17 V c 0 t) (iblk17 V c 1 t)) := by
  obtain ⟨n, hn⟩ := t
  cases n with
  | zero => exact rfl
  | succ n => exact (dif_pos h0).trans ((dif_neg h1).trans rfl)

/-- `outsAt17` at a middle point: over what the point before left. -/
theorem outsAt17_B (c : Dev nD) (t : Fin cfg17.N) (h0 : ¬t.val % 16 = 0) (h1 : ¬t.val % 16 = 15) :
    outsAt17 V c t.val t.isLt = (idle17_2, sout17_B_0 c (grid17.coords t) (ms17_0 t) (hs17_0 t) (ms17_1 t) (hs17_1 t) (ms17_2 t) (hs17_2 t) scM17_0 (Memref.isWhole_whole _) (fun h => h0 ((hcond17_0 t).mp h)) (fun h => h1 ((hcond17_1 t).mp h)) (iblk17 V c 0 t) (iblk17 V c 1 t) (outsAt17 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt17` at the last point: over what the point before left. -/
theorem outsAt17_C (c : Dev nD) (t : Fin cfg17.N) (h0 : ¬t.val % 16 = 0) (h1 : t.val % 16 = 15) :
    outsAt17 V c t.val t.isLt = (out17_C_2 c (grid17.coords t) (ms17_0 t) (hs17_0 t) (ms17_1 t) (hs17_1 t) (ms17_2 t) (hs17_2 t) scM17_0 (Memref.isWhole_whole _) (fun h => h0 ((hcond17_0 t).mp h)) ((hcond17_1 t).mpr h1) (iblk17 V c 0 t) (iblk17 V c 1 t) (outsAt17 V c (t.val - 1) (Nat.lt_of_le_of_lt (Nat.sub_le _ _) t.isLt)).2,
      sout17_C_0 c (grid17.coords t) (ms17_0 t) (hs17_0 t) (ms17_1 t) (hs17_1 t) (ms17_2 t) (hs17_2 t) scM17_0 (Memref.isWhole_whole _) (fun h => h0 ((hcond17_0 t).mp h)) ((hcond17_1 t).mpr h1) (iblk17 V c 0 t) (iblk17 V c 1 t) (outsAt17 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point every scoped buffer that is no staging buffer at
    anything, and the generator register at some state; afterwards the accumulator at what the point before left in
    it (`outsAt17`'s second component), every other such buffer unopened, and the register. -/
def PhiS17 (c : Dev nD) : (n : ℕ) → n ≤ cfg17.N → sProp 𝕄
  | 0, _ => Pipeline.ΦA spec17 c
  | n + 1, hn => iprop(iprop(iprop(owns (c : Thread nD τ) scM17_0 fullShare ((outsAt17 V c n hn).2)) ∗ Pipeline.scopedRestBut (Ix := Unit) (Name := ℕ) (U := UR sig nD τ) (Lvl := ℕ) (Val := Elt F) spec17 c [cc17_scratch0]) ∗ (∃ r, prngReg c r))

theorem PhiS17_zero (c : Dev nD) (n : ℕ) (h : n ≤ cfg17.N) (hz : n = 0) : PhiS17 V c n h = Pipeline.ΦA spec17 c := by
  subst hz; rfl

theorem PhiS17_succ (c : Dev nD) (n : ℕ) (hn : n < cfg17.N) :
    PhiS17 V c (n + 1) hn = iprop(iprop(iprop(owns (c : Thread nD τ) scM17_0 fullShare ((outsAt17 V c n hn).2)) ∗ Pipeline.scopedRestBut (Ix := Unit) (Name := ℕ) (U := UR sig nD τ) (Lvl := ℕ) (Val := Elt F) spec17 c [cc17_scratch0]) ∗ (∃ r, prngReg c r)) := rfl

theorem PhiS17_pos (c : Dev nD) (n : ℕ) (h : n ≤ cfg17.N) (hz : n ≠ 0) :
    PhiS17 V c n h = iprop(iprop(iprop(owns (c : Thread nD τ) scM17_0 fullShare ((outsAt17 V c (n - 1) (by omega)).2)) ∗ Pipeline.scopedRestBut (Ix := Unit) (Name := ℕ) (U := UR sig nD τ) (Lvl := ℕ) (Val := Elt F) spec17 c [cc17_scratch0]) ∗ (∃ r, prngReg c r)) := by
  cases n with
  | zero => exact absurd rfl hz
  | succ n => rfl

/-! ## The pipeline's proof data -/

/-- The proof data on core `c`: the arrays as the region finds them; after the body at point `t` each input's
    buffer at its block and the output's at `outsAt17`'s first component; the invariant `PhiS17`; nothing owed; full
    shares. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => (outsAt17 V c t.val t.isLt).1
  Φ t := PhiS17 V c t.val (Nat.le_of_lt_succ t.isLt)
  q _ := fullShare
  owed _ := 0

theorem A_eq17 (c : Dev nD) (w : Fin cfg17.W) : (dat17 V c).A w = V c (Pipeline.arrRef spec17 w) := by
  dsimp only [dat17]

theorem PhiS17_castSucc (c : Dev nD) (t : Fin cfg17.N) :
    (dat17 V c).Φ t.castSucc = PhiS17 V c t.val (Nat.le_of_lt t.isLt) := by
  dsimp only [dat17]; simp only [Fin.coe_castSucc]

theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = (outsAt17 V c t.val t.isLt).1 := by dsimp only [dat17]

theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d

/-! ## The body obligation -/

/-- What the body is called with at point `t`, -/
def bodyPre17 (c : Dev nD) (t : Fin cfg17.N) : sProp 𝕄 :=
  iprop((dat17 V c).Φ t.castSucc ∗ (dat17 V c).owesAt () t.castSucc
    ∗ (∃ d, owns (c : Thread nD τ) (ms17_0 t) fullShare ((dat17 V c).before 0 t d))
    ∗ (∃ d, owns (c : Thread nD τ) (ms17_1 t) fullShare ((dat17 V c).before 1 t d))
    ∗ (∃ d, owns (c : Thread nD τ) (ms17_2 t) fullShare ((dat17 V c).before 2 t d)))

/-- and what it returns. -/
def bodyPost17 (c : Dev nD) (t : Fin cfg17.N) : sProp 𝕄 :=
  iprop((dat17 V c).Φ t.succ ∗ (dat17 V c).owesAt () t.succ
    ∗ (dat17 V c).leavesExact 0 t
    ∗ (dat17 V c).leavesExact 1 t
    ∗ (dat17 V c).leavesExact 2 t)

set_option maxHeartbeats 4800000 in
/-- The body at any point. The inputs' memrefs hold their blocks; the closed forms say which case the point is in;
    the invariant hands the body the accumulator — at anything at the first point, at what the point before left
    afterwards —, every other scoped buffer and the generator register riding along unread, and takes the
    accumulator back at this point's contents; the output's buffer is handed back untouched except at the last
    point, where it is left at the whole sum; the core owes nothing throughout. -/
theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1]
  rw [show (dat17 V c).owesAt () t.succ = (dat17 V c).owesAt () t.castSucc from rfl]
  rw [show (dat17 V c).Φ t.succ = PhiS17 V c (t.val + 1) t.isLt from rfl, PhiS17_succ]
  have hN : t.val < 16 := lt_of_lt_of_eq t.isLt (show cfg17.N = 16 from N_17)
  rw [show (dat17 V c).leavesExact 0 t = owns (c : Thread nD τ) (ms17_0 t) fullShare ((dat17 V c).after 0 t) from by
    unfold Dat.leavesExact; rw [liveAt17_0 t], after17_0]
  rw [show (dat17 V c).leavesExact 1 t = owns (c : Thread nD τ) (ms17_1 t) fullShare ((dat17 V c).after 1 t) from by
    unfold Dat.leavesExact; rw [liveAt17_1 t], after17_1]
  by_cases h0 : t.val % 16 = 0
  · have h1 : ¬t.val % 16 = 15 := by omega
    have hz : t.val = 0 := by omega
    rw [Dat.leavesExact_idle (dat17 V c) 2 t (idleAt17_2 t (fun h => h1 ((hcond17_1 t).mp h))) (noFlush17_2 t (fun h => h1 ((hcond17_1 t).mp h)))]
    rw [outsAt17_A V c t h0 h1]
    unfold sout17_A_0; (try dsimp only)
    rw [PhiS17_castSucc V c t, PhiS17_zero V c _ _ hz, PhiA17_eq]
    iintro ⟨⟨⟨HS0, Hrest⟩, Hg⟩, Ho, ⟨%d0, H0⟩, ⟨%d1, H1⟩, ⟨%d2, H2⟩⟩
    iapply ((kernelRun17_A c (grid17.coords t) _ _ _ _ _ _ _ _ ((hcond17_0 t).mpr h0) (fun h => h1 ((hcond17_1 t).mp h)) (iblk17 V c 0 t) (iblk17 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover17_A_0 c _ _ _ _ _ _ _ _ _ _ _ _ _)
        iexact Hrest
      iexact Hg
    isplitl [Ho]; · iexact Ho
    isplitl [H0]; · iexact H0
    isplitl [H1]; · iexact H1
    iexists _; iexact H2
  · have hz : t.val ≠ 0 := by omega
    by_cases h1 : t.val % 16 = 15
    · rw [show (dat17 V c).leavesExact 2 t = owns (c : Thread nD τ) (ms17_2 t) fullShare ((dat17 V c).after 2 t) from by
        unfold Dat.leavesExact; rw [liveAt17_2 t ((hcond17_1 t).mpr h1)], after17_2]
      rw [outsAt17_C V c t h0 h1]
      unfold out17_C_2 sout17_C_0; (try dsimp only)
      rw [PhiS17_castSucc V c t, PhiS17_pos V c _ _ hz]
      iintro ⟨⟨⟨HS0, Hrest⟩, Hg⟩, Ho, ⟨%d0, H0⟩, ⟨%d1, H1⟩, ⟨%d2, H2⟩⟩
      iapply ((kernelRun17_C c (grid17.coords t) _ _ _ _ _ _ _ _ (fun h => h0 ((hcond17_0 t).mp h)) ((hcond17_1 t).mpr h1) (iblk17 V c 0 t) (iblk17 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover17_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover17_C_2 c _ _ _ _ _ _ _ _ _ _ _ _ _ _)
    · rw [Dat.leavesExact_idle (dat17 V c) 2 t (idleAt17_2 t (fun h => h1 ((hcond17_1 t).mp h))) (noFlush17_2 t (fun h => h1 ((hcond17_1 t).mp h)))]
      rw [outsAt17_B V c t h0 h1]
      unfold sout17_B_0; (try dsimp only)
      rw [PhiS17_castSucc V c t, PhiS17_pos V c _ _ hz]
      iintro ⟨⟨⟨HS0, Hrest⟩, Hg⟩, Ho, ⟨%d0, H0⟩, ⟨%d1, H1⟩, ⟨%d2, H2⟩⟩
      iapply ((kernelRun17_B c (grid17.coords t) _ _ _ _ _ _ _ _ (fun h => h0 ((hcond17_0 t).mp h)) (fun h => h1 ((hcond17_1 t).mp h)) (iblk17 V c 0 t) (iblk17 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover17_B_0 c _ _ _ _ _ _ _ _ _ _ _ _ _ _)
          iexact Hrest
        iexact Hg
      isplitl [Ho]; · iexact Ho
      isplitl [H0]; · iexact H0
      isplitl [H1]; · iexact H1
      iexists _; iexact H2

/-- The body obligation, at every point. -/
theorem body_obligation17 (c : Dev nD) : BodyObligation (dat17 (F := F) V c) (defs₀ (F := F)) Variants.none () Set.univ := fun t => by
  rw [bigSep_W17, bigSep_W17]
  exact sound_body17 V c t

/-! ## Into the invariant and out of it -/

/-- What the launch hands the region — the generator register, no prefetched table, the scoped buffers no window
    stages — is the invariant before the first point. -/
theorem hin17 (c : Dev nD) :
    iprop((∃ r, prngReg c r) ∗ Pipeline.prefHeld (pcfgs (F := F) 17).pre c (fun _ => fullShare) ((cfgs 17).toPCfg_adm).1 ∗ Pipeline.scopedRest spec17 c)
      ⊢ (dat17 V c).Φ 0 := by
  rw [show (dat17 V c).Φ 0 = PhiS17 V c 0 (Nat.zero_le _) from rfl, PhiS17_zero V c 0 _ rfl]; unfold Pipeline.ΦA
  iintro ⟨Hp, -, Hr⟩
  isplitl [Hr]; · iexact Hr
  iexact Hp

/-- After any point but the first the invariant gives the scoped buffers and the register back: the accumulator's
    named contents are forgotten. -/
theorem Phi_out17 (c : Dev nD) (t : Fin (cfg17.N + 1)) (ht : t.val ≠ 0) : (dat17 V c).Φ t ⊢ Pipeline.ΦA spec17 c := by
  rw [show (dat17 V c).Φ t = PhiS17 V c t.val (Nat.le_of_lt_succ t.isLt) from rfl, PhiS17_pos V c _ _ ht, PhiA17_eq]
  iintro ⟨⟨HS0, Hrest⟩, Hg⟩
  isplitl [HS0 Hrest]
  · isplitl [HS0]
    · iexists _; iexact HS0
    iexact Hrest
  iexact Hg

/-- The same after the last point, as the region hands it back: the register, no semaphore of the kernel's own, the
    scoped buffers. -/
theorem hout17 (c : Dev nD) :
    (dat17 V c).Φ (Fin.last cfg17.N)
      ⊢ iprop((∃ r, prngReg c r) ∗ Pipeline.ownSems0 (Ix := Unit) (Name := ℕ) (U := UR sig nD τ) (Lvl := ℕ) (Val := Elt F) (τ := τ) (fun k : PEmpty => k.elim) c ∗ Pipeline.scopedRest spec17 c) := by
  refine (Phi_out17 V c _ (by rw [Fin.val_last]; have : cfg17.N = 16 := N_17; omega)).trans ?_
  rw [Pipeline.ownSems0_none]; unfold Pipeline.ΦA
  iintro ⟨Hr, Hp⟩
  isplitl [Hp]; · iexact Hp
  isplitr; · iempintro
  iexact Hr

end Cert.Kernel.Fr

end
-- ==== Proof.KB.Reg18.lean ====
import proofs.«126270_j6725918785969_1_alg».proof.Proof.Gen.Kernel.Launch
import proofs.«126270_j6725918785969_1_alg».proof.Proof.Gen.Kernel.Skeleton
import proofs.«126270_j6725918785969_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 18: a row-tiled matrix product

Two input windows and one output window. Window 0 cuts the left factor into blocks of rows (`S4096x128`);
window 1 is the whole right factor (`S128x128`), the same block at every grid point; window 2 is the block of
the result's rows (`S4096x128`). At a grid point the body loads both input blocks, multiplies them into a zero
accumulator and stores the result over the whole output block. Stated at a
parameter `V`, the buffer contents the region is entered from.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-- The left factor's current staging buffer holds its block of rows at every point. -/
theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)

/-- The right factor's staging buffer holds the whole factor at every point: fetched at the first point, its
    block index never moves afterwards. -/
theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

/-- The rectangles the body reads and writes: each buffer whole. -/
abbrev r18_a : Rect S4096x128 := Rect.unit (s := S4096x128) ![0, 0] S4096x128.size inb_S4096x128_S4096x128_0_0
abbrev r18_b : Rect S128x128 := Rect.unit (s := S128x128) ![0, 0] S128x128.size inb_S128x128_S128x128_0_0

/-- The output buffer after the body: its one store, of the product of the two input blocks. -/
def out18_2 (x0 : Vec F S4096x128 .f32) (x1 : Vec F S128x128 .f32) : Vec F S4096x128 .f32 :=
  View.canon [⟨r18_a, k18_pay1 (View.ld x0 r18_a) (View.ld x1 r18_b)⟩]

/-- The store covers the buffer. -/
theorem cover18_2 (p0 : Vec F S4096x128 .f32) (y : S4096x128.Idx) :
    ∃ pc ∈ ([⟨r18_a, p0⟩] : List (View.Piece (Elt F) S4096x128 .f32)), y ∈ pc.1.set :=
  View.cover_of_tiled [⟨r18_a, p0⟩] S4096x128.size (by rfl) y

set_option maxHeartbeats 1000000 in
/-- The body on whole staging memrefs, the inputs' at contents `x0`, `x1` and the output's at anything, runs to the
    continuation with the inputs' as they were and the output's at `out18_2 x0 x1`. -/
theorem sound_kernel18 (c : Dev nD) (E : Set ℕ) (i : grid18.Coords) (arg0 : Memref sig .tc .vmem S4096x128 .f32) (harg0 : arg0.IsWhole) (arg1 : Memref sig .tc .vmem S128x128 .f32) (harg1 : arg1.IsWhole) (arg2 : Memref sig .tc .vmem S4096x128 .f32) (harg2 : arg2.IsWhole)
    (x0 : Vec F S4096x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out18_2 x0 x1)) -∗ K ⟨⟩))
      ⊢ wp frame (wpE (defs₀ (F := F)) Variants.none c none) E (cc18__mm_big_kernel i arg0 harg0 arg1 harg1 arg2 harg2) K := by
  simp only [cc18__mm_big_kernel_eq_skeleton]; unfold cc18__mm_big_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover18_2 _)

/-- The pipeline's proof data on core `c`: the arrays as the region finds them; after the body at point `t` each
    input's buffer at its block and the output's at `out18_2` of them; the invariant the scoped rest and the
    generator register, untouched; nothing owed; full shares. -/
def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => out18_2 (iblk18 V c 0 t) (iblk18 V c 1 t)
  Φ _ := Pipeline.ΦA spec18 c
  q _ := fullShare
  owed _ := 0

theorem A_eq18 (c : Dev nD) (w : Fin cfg18.W) : (dat18 V c).A w = V c (Pipeline.arrRef spec18 w) := by
  dsimp only [dat18]

theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = out18_2 (iblk18 V c 0 t) (iblk18 V c 1 t) := by dsimp only [dat18]

theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d

/-- What the body is called with at point `t`, -/
def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d)))

/-- and what it returns. -/
def bodyPost18 (c : Dev nD) (t : Fin cfg18.N) : sProp 𝕄 :=
  iprop((dat18 V c).Φ t.succ ∗ (dat18 V c).owesAt () t.succ
    ∗ owns (c : Thread nD τ) (st18_0 t) fullShare ((dat18 V c).after 0 t)
    ∗ owns (c : Thread nD τ) (st18_1 t) fullShare ((dat18 V c).after 1 t)
    ∗ owns (c : Thread nD τ) (st18_2 t) fullShare ((dat18 V c).after 2 t))

/-- The body at any point: the inputs' memrefs hold their blocks, so the body's triple applies; the invariant
    and the core's dues pass through unread. -/
theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1]
  rw [show (dat18 V c).Φ t.succ = (dat18 V c).Φ t.castSucc from rfl,
    show (dat18 V c).owesAt () t.succ = (dat18 V c).owesAt () t.castSucc from rfl,
    after18_0, after18_1, after18_2]
  iintro ⟨HΦ, Ho, ⟨%d0, H0⟩, ⟨%d1, H1⟩, ⟨%d2, H2⟩⟩
  iapply (sound_kernel18 c Set.univ _ _ _ _ _ _ _ (iblk18 V c 0 t) (iblk18 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation18 (c : Dev nD) : BodyObligation (dat18 (F := F) V c) (defs₀ (F := F)) Variants.none () Set.univ := fun t => by
  rw [bigSep_W18, bigSep_W18]
  exact sound_body18 V c t

end Cert.Kernel.Fr

end
-- ==== Proof.KB.Reg19.lean ====
import proofs.«126270_j6725918785969_1_alg».proof.Proof.Gen.Kernel.Launch
import proofs.«126270_j6725918785969_1_alg».proof.Proof.Gen.Kernel.Skeleton
import proofs.«126270_j6725918785969_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 19: the row sums of `exp (x · yᵀ)` reduced over sixteen blocks of columns

Two input windows — the 4096 × 128 left factor whole, its block index never moving, and the right factor cut into
sixteen blocks of 256 rows — and one 4096 × 1 output window whose block index never moves. The kernel keeps a
4096 × 1 accumulator in a scratch buffer of its own: at the first grid point it zeroes it, at every point it adds,
row by row, the sum over the block's 256 columns of `exp (p / 1)`, where `p` is the product of the left factor and
the transposed right block (both rounded to bf16 before the product) and the division by the constant one is
entry by entry, and at the last point only it copies the accumulator into the output's staging buffer, which is
written back there and nowhere else. So the body has three control cases — first point, middle point, last
point —, the accumulator's contents are carried from point to point by the region invariant, and the output
window is idle everywhere but at the last point. Stated at a parameter `V`, the buffer contents the region is
entered from.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, decided over the grid -/

/-- The condition of the body's first conditional: the reduction coordinate is zero. -/
abbrev cond19_0 (i : grid19.Coords) : Prop := (Scalar.cmpi .ne (Scalar.extui (Scalar.cmpi .eq (BitVec.ofNat 32 (i 0).val) 0#32)) 0#32) = 1#1
/-- It holds at the first point only. -/
theorem hcond19_0 : ∀ t : Fin cfg19.N, cond19_0 (grid19.coords t) ↔ t.val % 16 = 0 :=
  (by decide +kernel : ∀ t : Fin grid19.N, cond19_0 (grid19.coords t) ↔ t.val % 16 = 0)

/-- The condition of the body's second conditional: the reduction coordinate is the last. -/
abbrev cond19_1 (i : grid19.Coords) : Prop := k19_cond2 i = 1#1
/-- It holds at the last point only. -/
theorem hcond19_1 : ∀ t : Fin cfg19.N, cond19_1 (grid19.coords t) ↔ t.val % 16 = 15 :=
  (by decide +kernel : ∀ t : Fin grid19.N, cond19_1 (grid19.coords t) ↔ t.val % 16 = 15)

/-! ## Where the windows are idle -/

/-- The two inputs are never idle. -/
theorem liveAt19_0 : ∀ t : Fin cfg19.N, cfg19.idle 0 (grid19.coords t) = false := by decide +kernel
theorem liveAt19_1 : ∀ t : Fin cfg19.N, cfg19.idle 1 (grid19.coords t) = false := by decide +kernel
/-- Where the second condition fails the output is idle and is not written back. -/
theorem idleAt19_2 : ∀ t : Fin cfg19.N, ¬cond19_1 (grid19.coords t) → cfg19.idle 2 (grid19.coords t) = true := by decide +kernel
theorem noFlush19_2 : ∀ t : Fin cfg19.N, ¬cond19_1 (grid19.coords t) → (cfg19.win 2).flush t = false := by decide +kernel
/-- Where it holds the output is live. -/
theorem liveAt19_2 : ∀ t : Fin cfg19.N, cond19_1 (grid19.coords t) → cfg19.idle 2 (grid19.coords t) = false := by decide +kernel

/-! ## The memrefs the body is called with -/

/-- One staging buffer of the output window, through which its contents are stated. -/
abbrev VO19_2 : View sig .tc .vmem S4096x1 .f32 := (Memref.whole cc19_stg2_0 : Memref sig .tc .vmem S4096x1 .f32).view
/-- Each window's current staging memref at point `t`, and its wholeness. -/
abbrev ms19_0 (t : Fin cfg19.N) : Memref sig .tc .vmem S4096x128 .f32 := win19_0.stage (cfg19.slots t 0)
abbrev hs19_0 (t : Fin cfg19.N) : (ms19_0 t).IsWhole := hstage19_0 ((cfg19.slots t 0).cast nbuf19_0)
abbrev ms19_1 (t : Fin cfg19.N) : Memref sig .tc .vmem S256x128 .f32 := win19_1.stage (cfg19.slots t 1)
abbrev hs19_1 (t : Fin cfg19.N) : (ms19_1 t).IsWhole := hstage19_1 ((cfg19.slots t 1).cast nbuf19_1)
abbrev ms19_2 (t : Fin cfg19.N) : Memref sig .tc .vmem S4096x1 .f32 := win19_2.stage (cfg19.slots t 2)
abbrev hs19_2 (t : Fin cfg19.N) : (ms19_2 t).IsWhole := hstage19_2 ((cfg19.slots t 2).cast nbuf19_2)
/-- The accumulator: a whole scoped buffer of the kernel's own, passed beside the windows. -/
abbrev scM19_0 : Memref sig .tc .vmem S4096x1 .f32 := Memref.whole cc19_scratch0
/-- The accumulator as a view: what it holds is stated through it. -/
abbrev VS19_0 : View sig .tc .vmem S4096x1 .f32 := scM19_0.view

/-- The region invariant of a body that need not describe its scratch, with the accumulator as a memref owned at
    some contents and every other scoped buffer unopened. -/
theorem PhiA19_eq (c : Dev nD) :
    (Pipeline.ΦA spec19 c : sProp 𝕄)
      = iprop(iprop(iprop((∃ d, owns (c : Thread nD τ) scM19_0 fullShare d))
          ∗ Pipeline.scopedRestBut (Ix := Unit) (Name := ℕ) (U := UR sig nD τ) (Lvl := ℕ) (Val := Elt F) spec19 c [cc19_scratch0]) ∗ (∃ r, prngReg c r)) := by
  unfold Pipeline.ΦA; rw [scopedRest19_split]; simp only [scM19_0, owns_whole]; try rfl

set_option maxHeartbeats 1000000 in
/-- THE FIRST POINT (the first conditional taken, the second not). On whole memrefs — the inputs' at their contents,
    the output's at contents handed back untouched, the accumulator at anything — the body runs to the continuation
    holding the inputs' and the output's as they were and the accumulator with its stores' pieces written (last
    first): zero, then zero plus the row sums of the exponentials of the two blocks' product. The pieces are what the run finds. -/
noncomputable def kernelRun19_A (c : Dev nD) (i : grid19.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : cond19_0 i) (hc1 : ¬cond19_1 i)
    (x0 : Vec F S4096x128 .f32) (x1 : Vec F S256x128 .f32) :
    Σ' (L2 : List (View.Piece (Elt F) S4096x1 .f32)), { LS0 : List (View.Piece (Elt F) S4096x1 .f32) //
      ∀ (xi2 : Vec F S4096x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc19__ssl_neg_kernel i arg1 harg1 arg2 harg2 arg3 harg3 arg4 harg4) K } := by
  refine ⟨[], ?_, fun xi2 E K => ?run⟩
  case run =>
    simp only [cc19__ssl_neg_kernel_eq_skeleton]; unfold cc19__ssl_neg_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A MIDDLE POINT (neither conditional taken). The accumulator comes in at the contents `xs0` the point before left
    and goes out with one piece written: `xs0` plus the row sums of the exponentials of the two blocks' product. The output is handed back untouched. -/
noncomputable def kernelRun19_B (c : Dev nD) (i : grid19.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond19_0 i) (hc1 : ¬cond19_1 i)
    (x0 : Vec F S4096x128 .f32) (x1 : Vec F S256x128 .f32) (xs0 : Vec F S4096x1 .f32) :
    Σ' (L2 : List (View.Piece (Elt F) S4096x1 .f32)), { LS0 : List (View.Piece (Elt F) S4096x1 .f32) //
      ∀ (xi2 : Vec F S4096x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc19__ssl_neg_kernel i arg1 harg1 arg2 harg2 arg3 harg3 arg4 harg4) K } := by
  refine ⟨[], ?_, fun xi2 E K => ?run⟩
  case run =>
    simp only [cc19__ssl_neg_kernel_eq_skeleton]; unfold cc19__ssl_neg_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- THE LAST POINT (the first conditional not taken, the second taken). The accumulator comes in at `xs0`, goes out
    with `xs0` plus the row sums written, and the output, at anything before, goes out with one piece written: the
    accumulator's final contents. -/
noncomputable def kernelRun19_C (c : Dev nD) (i : grid19.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond19_0 i) (hc1 : cond19_1 i)
    (x0 : Vec F S4096x128 .f32) (x1 : Vec F S256x128 .f32) (xs0 : Vec F S4096x1 .f32) :
    Σ' (L2 : List (View.Piece (Elt F) S4096x1 .f32)), { LS0 : List (View.Piece (Elt F) S4096x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc19__ssl_neg_kernel i arg1 harg1 arg2 harg2 arg3 harg3 arg4 harg4) K } := by
  refine ⟨?_, ?_, fun E K => ?run⟩
  case run =>
    simp only [cc19__ssl_neg_kernel_eq_skeleton]; unfold cc19__ssl_neg_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

variable (V : (c : Dev nD) → (b : Ref sig .tc) → Buf (Elt F) ((c : Thread nD τ).loc b))

/-! ## The windows' blocks -/

/-- Window `w`'s block at point `t`, read off its array as the region finds it. -/
def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- Each input's current staging buffer holds its block at every point, fetched there or not. -/
theorem before19_0_of {c : Dev nD} (dat : Dat τ (Elt F) Unit ℕ (UR sig nD τ) ℕ cfg19 c) (hA : dat.A 0 = V c (Pipeline.arrRef spec19 0))
    (hafter : ∀ t, dat.after 0 t = iblk19 V c 0 t) (t : Fin cfg19.N) (d) : dat.before 0 t d = iblk19 V c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)
theorem before19_1_of {c : Dev nD} (dat : Dat τ (Elt F) Unit ℕ (UR sig nD τ) ℕ cfg19 c) (hA : dat.A 1 = V c (Pipeline.arrRef spec19 1))
    (hafter : ∀ t, dat.after 1 t = iblk19 V c 1 t) (t : Fin cfg19.N) (d) : dat.before 1 t d = iblk19 V c 1 t :=
  (dat.before_in_eq_fetched 1 rfl (fun _ => rfl) (fun _ _ _ => rfl) (fun t => by rw [hafter]; unfold Dat.blockOf iblk19; rw [hA]; try rfl) t d).trans
    (by unfold Dat.fetched Dat.blockOf iblk19; rw [hA]; try rfl)

/-! ## What each case leaves in the output's buffer and in the accumulator -/

/-- The first point's stores cover the accumulator. -/
theorem scover19_A_0 (c : Dev nD) (i : grid19.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : cond19_0 i) (hc1 : ¬cond19_1 i)
    (x0 : Vec F S4096x128 .f32) (x1 : Vec F S256x128 .f32) (y : S4096x1.Idx) :
    ∃ pc ∈ (kernelRun19_A c i arg1 harg1 arg2 harg2 arg3 harg3 arg4 harg4 hc0 hc1 x0 x1).2.1, y ∈ pc.1.set :=
  View.cover_of_tiledL (kernelRun19_A c i arg1 harg1 arg2 harg2 arg3 harg3 arg4 harg4 hc0 hc1 x0 x1).2.1 S4096x1.size (by sl_kernel_rfl) y

/-- What the first point leaves in the accumulator: its pieces read back. -/
def sout19_A_0 (c : Dev nD) (i : grid19.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : cond19_0 i) (hc1 : ¬cond19_1 i)
    (x0 : Vec F S4096x128 .f32) (x1 : Vec F S256x128 .f32) : Vec F S4096x1 .f32 :=
  VS19_0.read (Elt F) (VS19_0.writes (Elt F) VS19_0.junk (kernelRun19_A c i arg1 harg1 arg2 harg2 arg3 harg3 arg4 harg4 hc0 hc1 x0 x1).2.1)

/-- A middle point's store covers the accumulator. -/
theorem scover19_B_0 (c : Dev nD) (i : grid19.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond19_0 i) (hc1 : ¬cond19_1 i)
    (x0 : Vec F S4096x128 .f32) (x1 : Vec F S256x128 .f32) (xs0 : Vec F S4096x1 .f32) (y : S4096x1.Idx) :
    ∃ pc ∈ (kernelRun19_B c i arg1 harg1 arg2 harg2 arg3 harg3 arg4 harg4 hc0 hc1 x0 x1 xs0).2.1, y ∈ pc.1.set :=
  View.cover_of_tiledL (kernelRun19_B c i arg1 harg1 arg2 harg2 arg3 harg3 arg4 harg4 hc0 hc1 x0 x1 xs0).2.1 S4096x1.size (by sl_kernel_rfl) y

/-- What a middle point leaves in the accumulator. -/
def sout19_B_0 (c : Dev nD) (i : grid19.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond19_0 i) (hc1 : ¬cond19_1 i)
    (x0 : Vec F S4096x128 .f32) (x1 : Vec F S256x128 .f32) (xs0 : Vec F S4096x1 .f32) : Vec F S4096x1 .f32 :=
  VS19_0.read (Elt F) (VS19_0.writes (Elt F) VS19_0.junk (kernelRun19_B c i arg1 harg1 arg2 harg2 arg3 harg3 arg4 harg4 hc0 hc1 x0 x1 xs0).2.1)

/-- The last point's store covers the output's buffer. -/
theorem cover19_C_2 (c : Dev nD) (i : grid19.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond19_0 i) (hc1 : cond19_1 i)
    (x0 : Vec F S4096x128 .f32) (x1 : Vec F S256x128 .f32) (xs0 : Vec F S4096x1 .f32) (y : S4096x1.Idx) :
    ∃ pc ∈ (kernelRun19_C c i arg1 harg1 arg2 harg2 arg3 harg3 arg4 harg4 hc0 hc1 x0 x1 xs0).1, y ∈ pc.1.set :=
  View.cover_of_tiledL (kernelRun19_C c i arg1 harg1 arg2 harg2 arg3 harg3 arg4 harg4 hc0 hc1 x0 x1 xs0).1 S4096x1.size (by sl_kernel_rfl) y

/-- What the last point leaves in the output's buffer. -/
def out19_C_2 (c : Dev nD) (i : grid19.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond19_0 i) (hc1 : cond19_1 i)
    (x0 : Vec F S4096x128 .f32) (x1 : Vec F S256x128 .f32) (xs0 : Vec F S4096x1 .f32) : Vec F S4096x1 .f32 :=
  VO19_2.read (Elt F) (VO19_2.writes (Elt F) VO19_2.junk (kernelRun19_C c i arg1 harg1 arg2 harg2 arg3 harg3 arg4 harg4 hc0 hc1 x0 x1 xs0).1)

/-- The last point's store covers the accumulator. -/
theorem scover19_C_0 (c : Dev nD) (i : grid19.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond19_0 i) (hc1 : cond19_1 i)
    (x0 : Vec F S4096x128 .f32) (x1 : Vec F S256x128 .f32) (xs0 : Vec F S4096x1 .f32) (y : S4096x1.Idx) :
    ∃ pc ∈ (kernelRun19_C c i arg1 harg1 arg2 harg2 arg3 harg3 arg4 harg4 hc0 hc1 x0 x1 xs0).2.1, y ∈ pc.1.set :=
  View.cover_of_tiledL (kernelRun19_C c i arg1 harg1 arg2 harg2 arg3 harg3 arg4 harg4 hc0 hc1 x0 x1 xs0).2.1 S4096x1.size (by sl_kernel_rfl) y

/-- What the last point leaves in the accumulator. -/
def sout19_C_0 (c : Dev nD) (i : grid19.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond19_0 i) (hc1 : cond19_1 i)
    (x0 : Vec F S4096x128 .f32) (x1 : Vec F S256x128 .f32) (xs0 : Vec F S4096x1 .f32) : Vec F S4096x1 .f32 :=
  VS19_0.read (Elt F) (VS19_0.writes (Elt F) VS19_0.junk (kernelRun19_C c i arg1 harg1 arg2 harg2 arg3 harg3 arg4 harg4 hc0 hc1 x0 x1 xs0).2.1)

/-! ## What the output's buffer and the accumulator hold after each point -/

/-- The output's buffer at a point that stores nothing into it: a placeholder nothing consults, the window being
    neither written back there nor read at the next point. -/
def idle19_2 : Vec F S4096x1 .f32 := VO19_2.read (Elt F) VO19_2.junk

/-- THE ACCUMULATION. What the output's staging buffer and the accumulator hold after the body at position `n`: the
    case the closed forms select at `n`, run at the point's memrefs and input blocks, the accumulator coming in at
    what position `n - 1` left in it. After the first point the accumulator is zero plus the first block's row sums;
    after a later point what it held plus that point's row sums; after the last point the output's buffer holds
    the whole sum. -/
def outsAt19 (c : Dev nD) : (n : ℕ) → n < cfg19.N → Vec F S4096x1 .f32 × Vec F S4096x1 .f32
  | 0, hn => (idle19_2, sout19_A_0 c (grid19.coords ⟨0, hn⟩) (ms19_0 ⟨0, hn⟩) (hs19_0 ⟨0, hn⟩) (ms19_1 ⟨0, hn⟩) (hs19_1 ⟨0, hn⟩) (ms19_2 ⟨0, hn⟩) (hs19_2 ⟨0, hn⟩) scM19_0 (Memref.isWhole_whole _) ((hcond19_0 ⟨0, hn⟩).mpr (Nat.zero_mod _)) (fun h => (fun h => by (try dsimp only at h); omega) ((hcond19_1 ⟨0, hn⟩).mp h)) (iblk19 V c 0 ⟨0, hn⟩) (iblk19 V c 1 ⟨0, hn⟩))
  | n + 1, hn =>
    if h0 : (n + 1) % 16 = 0 then
      if h1 : (n + 1) % 16 = 15 then
        False.elim (by omega)
      else
        (idle19_2, sout19_A_0 c (grid19.coords ⟨n + 1, hn⟩) (ms19_0 ⟨n + 1, hn⟩) (hs19_0 ⟨n + 1, hn⟩) (ms19_1 ⟨n + 1, hn⟩) (hs19_1 ⟨n + 1, hn⟩) (ms19_2 ⟨n + 1, hn⟩) (hs19_2 ⟨n + 1, hn⟩) scM19_0 (Memref.isWhole_whole _) ((hcond19_0 ⟨n + 1, hn⟩).mpr h0) (fun h => h1 ((hcond19_1 ⟨n + 1, hn⟩).mp h)) (iblk19 V c 0 ⟨n + 1, hn⟩) (iblk19 V c 1 ⟨n + 1, hn⟩))
    else
      if h1 : (n + 1) % 16 = 15 then
        (out19_C_2 c (grid19.coords ⟨n + 1, hn⟩) (ms19_0 ⟨n + 1, hn⟩) (hs19_0 ⟨n + 1, hn⟩) (ms19_1 ⟨n + 1, hn⟩) (hs19_1 ⟨n + 1, hn⟩) (ms19_2 ⟨n + 1, hn⟩) (hs19_2 ⟨n + 1, hn⟩) scM19_0 (Memref.isWhole_whole _) (fun h => h0 ((hcond19_0 ⟨n + 1, hn⟩).mp h)) ((hcond19_1 ⟨n + 1, hn⟩).mpr h1) (iblk19 V c 0 ⟨n + 1, hn⟩) (iblk19 V c 1 ⟨n + 1, hn⟩) (outsAt19 c n (Nat.lt_of_succ_lt hn)).2,
         sout19_C_0 c (grid19.coords ⟨n + 1, hn⟩) (ms19_0 ⟨n + 1, hn⟩) (hs19_0 ⟨n + 1, hn⟩) (ms19_1 ⟨n + 1, hn⟩) (hs19_1 ⟨n + 1, hn⟩) (ms19_2 ⟨n + 1, hn⟩) (hs19_2 ⟨n + 1, hn⟩) scM19_0 (Memref.isWhole_whole _) (fun h => h0 ((hcond19_0 ⟨n + 1, hn⟩).mp h)) ((hcond19_1 ⟨n + 1, hn⟩).mpr h1) (iblk19 V c 0 ⟨n + 1, hn⟩) (iblk19 V c 1 ⟨n + 1, hn⟩) (outsAt19 c n (Nat.lt_of_succ_lt hn)).2)
      else
        (idle19_2, sout19_B_0 c (grid19.coords ⟨n + 1, hn⟩) (ms19_0 ⟨n + 1, hn⟩) (hs19_0 ⟨n + 1, hn⟩) (ms19_1 ⟨n + 1, hn⟩) (hs19_1 ⟨n + 1, hn⟩) (ms19_2 ⟨n + 1, hn⟩) (hs19_2 ⟨n + 1, hn⟩) scM19_0 (Memref.isWhole_whole _) (fun h => h0 ((hcond19_0 ⟨n + 1, hn⟩).mp h)) (fun h => h1 ((hcond19_1 ⟨n + 1, hn⟩).mp h)) (iblk19 V c 0 ⟨n + 1, hn⟩) (iblk19 V c 1 ⟨n + 1, hn⟩) (outsAt19 c n (Nat.lt_of_succ_lt hn)).2)

/-- `outsAt19` at the first point. -/
theorem outsAt19_A (c : Dev nD) (t : Fin cfg19.N) (h0 : t.val % 16 = 0) (h1 : ¬t.val % 16 = 15) :
    outsAt19 V c t.val t.isLt = (idle19_2, sout19_A_0 c (grid19.coords t) (ms19_0 t) (hs19_0 t) (ms19_1 t) (hs19_1 t) (ms19_2 t) (hs19_2 t) scM19_0 (Memref.isWhole_whole _) ((hcond19_0 t).mpr h0) (fun h => h1 ((hcond19_1 t).mp h)) (iblk19 V c 0 t) (iblk19 V c 1 t)) := by
  obtain ⟨n, hn⟩ := t
  cases n with
  | zero => exact rfl
  | succ n => exact (dif_pos h0).trans ((dif_neg h1).trans rfl)

/-- `outsAt19` at a middle point: over what the point before left. -/
theorem outsAt19_B (c : Dev nD) (t : Fin cfg19.N) (h0 : ¬t.val % 16 = 0) (h1 : ¬t.val % 16 = 15) :
    outsAt19 V c t.val t.isLt = (idle19_2, sout19_B_0 c (grid19.coords t) (ms19_0 t) (hs19_0 t) (ms19_1 t) (hs19_1 t) (ms19_2 t) (hs19_2 t) scM19_0 (Memref.isWhole_whole _) (fun h => h0 ((hcond19_0 t).mp h)) (fun h => h1 ((hcond19_1 t).mp h)) (iblk19 V c 0 t) (iblk19 V c 1 t) (outsAt19 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt19` at the last point: over what the point before left. -/
theorem outsAt19_C (c : Dev nD) (t : Fin cfg19.N) (h0 : ¬t.val % 16 = 0) (h1 : t.val % 16 = 15) :
    outsAt19 V c t.val t.isLt = (out19_C_2 c (grid19.coords t) (ms19_0 t) (hs19_0 t) (ms19_1 t) (hs19_1 t) (ms19_2 t) (hs19_2 t) scM19_0 (Memref.isWhole_whole _) (fun h => h0 ((hcond19_0 t).mp h)) ((hcond19_1 t).mpr h1) (iblk19 V c 0 t) (iblk19 V c 1 t) (outsAt19 V c (t.val - 1) (Nat.lt_of_le_of_lt (Nat.sub_le _ _) t.isLt)).2,
      sout19_C_0 c (grid19.coords t) (ms19_0 t) (hs19_0 t) (ms19_1 t) (hs19_1 t) (ms19_2 t) (hs19_2 t) scM19_0 (Memref.isWhole_whole _) (fun h => h0 ((hcond19_0 t).mp h)) ((hcond19_1 t).mpr h1) (iblk19 V c 0 t) (iblk19 V c 1 t) (outsAt19 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point every scoped buffer that is no staging buffer at
    anything, and the generator register at some state; afterwards the accumulator at what the point before left in
    it (`outsAt19`'s second component), every other such buffer unopened, and the register. -/
def PhiS19 (c : Dev nD) : (n : ℕ) → n ≤ cfg19.N → sProp 𝕄
  | 0, _ => Pipeline.ΦA spec19 c
  | n + 1, hn => iprop(iprop(iprop(owns (c : Thread nD τ) scM19_0 fullShare ((outsAt19 V c n hn).2)) ∗ Pipeline.scopedRestBut (Ix := Unit) (Name := ℕ) (U := UR sig nD τ) (Lvl := ℕ) (Val := Elt F) spec19 c [cc19_scratch0]) ∗ (∃ r, prngReg c r))

theorem PhiS19_zero (c : Dev nD) (n : ℕ) (h : n ≤ cfg19.N) (hz : n = 0) : PhiS19 V c n h = Pipeline.ΦA spec19 c := by
  subst hz; rfl

theorem PhiS19_succ (c : Dev nD) (n : ℕ) (hn : n < cfg19.N) :
    PhiS19 V c (n + 1) hn = iprop(iprop(iprop(owns (c : Thread nD τ) scM19_0 fullShare ((outsAt19 V c n hn).2)) ∗ Pipeline.scopedRestBut (Ix := Unit) (Name := ℕ) (U := UR sig nD τ) (Lvl := ℕ) (Val := Elt F) spec19 c [cc19_scratch0]) ∗ (∃ r, prngReg c r)) := rfl

theorem PhiS19_pos (c : Dev nD) (n : ℕ) (h : n ≤ cfg19.N) (hz : n ≠ 0) :
    PhiS19 V c n h = iprop(iprop(iprop(owns (c : Thread nD τ) scM19_0 fullShare ((outsAt19 V c (n - 1) (by omega)).2)) ∗ Pipeline.scopedRestBut (Ix := Unit) (Name := ℕ) (U := UR sig nD τ) (Lvl := ℕ) (Val := Elt F) spec19 c [cc19_scratch0]) ∗ (∃ r, prngReg c r)) := by
  cases n with
  | zero => exact absurd rfl hz
  | succ n => rfl

/-! ## The pipeline's proof data -/

/-- The proof data on core `c`: the arrays as the region finds them; after the body at point `t` each input's
    buffer at its block and the output's at `outsAt19`'s first component; the invariant `PhiS19`; nothing owed; full
    shares. -/
def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => (outsAt19 V c t.val t.isLt).1
  Φ t := PhiS19 V c t.val (Nat.le_of_lt_succ t.isLt)
  q _ := fullShare
  owed _ := 0

theorem A_eq19 (c : Dev nD) (w : Fin cfg19.W) : (dat19 V c).A w = V c (Pipeline.arrRef spec19 w) := by
  dsimp only [dat19]

theorem PhiS19_castSucc (c : Dev nD) (t : Fin cfg19.N) :
    (dat19 V c).Φ t.castSucc = PhiS19 V c t.val (Nat.le_of_lt t.isLt) := by
  dsimp only [dat19]; simp only [Fin.coe_castSucc]

theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = (outsAt19 V c t.val t.isLt).1 := by dsimp only [dat19]

theorem before19_0 (c : Dev nD) (t : Fin cfg19.N) (d) : (dat19 V c).before 0 t d = iblk19 V c 0 t :=
  before19_0_of V (dat19 V c) (A_eq19 V c 0) (after19_0 V c) t d
theorem before19_1 (c : Dev nD) (t : Fin cfg19.N) (d) : (dat19 V c).before 1 t d = iblk19 V c 1 t :=
  before19_1_of V (dat19 V c) (A_eq19 V c 1) (after19_1 V c) t d

/-! ## The body obligation -/

/-- What the body is called with at point `t`, -/
def bodyPre19 (c : Dev nD) (t : Fin cfg19.N) : sProp 𝕄 :=
  iprop((dat19 V c).Φ t.castSucc ∗ (dat19 V c).owesAt () t.castSucc
    ∗ (∃ d, owns (c : Thread nD τ) (ms19_0 t) fullShare ((dat19 V c).before 0 t d))
    ∗ (∃ d, owns (c : Thread nD τ) (ms19_1 t) fullShare ((dat19 V c).before 1 t d))
    ∗ (∃ d, owns (c : Thread nD τ) (ms19_2 t) fullShare ((dat19 V c).before 2 t d)))

/-- and what it returns. -/
def bodyPost19 (c : Dev nD) (t : Fin cfg19.N) : sProp 𝕄 :=
  iprop((dat19 V c).Φ t.succ ∗ (dat19 V c).owesAt () t.succ
    ∗ (dat19 V c).leavesExact 0 t
    ∗ (dat19 V c).leavesExact 1 t
    ∗ (dat19 V c).leavesExact 2 t)

set_option maxHeartbeats 4800000 in
/-- The body at any point. The inputs' memrefs hold their blocks; the closed forms say which case the point is in;
    the invariant hands the body the accumulator — at anything at the first point, at what the point before left
    afterwards —, every other scoped buffer and the generator register riding along unread, and takes the
    accumulator back at this point's contents; the output's buffer is handed back untouched except at the last
    point, where it is left at the whole sum; the core owes nothing throughout. -/
theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0, before19_1]
  rw [show (dat19 V c).owesAt () t.succ = (dat19 V c).owesAt () t.castSucc from rfl]
  rw [show (dat19 V c).Φ t.succ = PhiS19 V c (t.val + 1) t.isLt from rfl, PhiS19_succ]
  have hN : t.val < 16 := lt_of_lt_of_eq t.isLt (show cfg19.N = 16 from N_19)
  rw [show (dat19 V c).leavesExact 0 t = owns (c : Thread nD τ) (ms19_0 t) fullShare ((dat19 V c).after 0 t) from by
    unfold Dat.leavesExact; rw [liveAt19_0 t], after19_0]
  rw [show (dat19 V c).leavesExact 1 t = owns (c : Thread nD τ) (ms19_1 t) fullShare ((dat19 V c).after 1 t) from by
    unfold Dat.leavesExact; rw [liveAt19_1 t], after19_1]
  by_cases h0 : t.val % 16 = 0
  · have h1 : ¬t.val % 16 = 15 := by omega
    have hz : t.val = 0 := by omega
    rw [Dat.leavesExact_idle (dat19 V c) 2 t (idleAt19_2 t (fun h => h1 ((hcond19_1 t).mp h))) (noFlush19_2 t (fun h => h1 ((hcond19_1 t).mp h)))]
    rw [outsAt19_A V c t h0 h1]
    unfold sout19_A_0; (try dsimp only)
    rw [PhiS19_castSucc V c t, PhiS19_zero V c _ _ hz, PhiA19_eq]
    iintro ⟨⟨⟨HS0, Hrest⟩, Hg⟩, Ho, ⟨%d0, H0⟩, ⟨%d1, H1⟩, ⟨%d2, H2⟩⟩
    iapply ((kernelRun19_A c (grid19.coords t) _ _ _ _ _ _ _ _ ((hcond19_0 t).mpr h0) (fun h => h1 ((hcond19_1 t).mp h)) (iblk19 V c 0 t) (iblk19 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover19_A_0 c _ _ _ _ _ _ _ _ _ _ _ _ _)
        iexact Hrest
      iexact Hg
    isplitl [Ho]; · iexact Ho
    isplitl [H0]; · iexact H0
    isplitl [H1]; · iexact H1
    iexists _; iexact H2
  · have hz : t.val ≠ 0 := by omega
    by_cases h1 : t.val % 16 = 15
    · rw [show (dat19 V c).leavesExact 2 t = owns (c : Thread nD τ) (ms19_2 t) fullShare ((dat19 V c).after 2 t) from by
        unfold Dat.leavesExact; rw [liveAt19_2 t ((hcond19_1 t).mpr h1)], after19_2]
      rw [outsAt19_C V c t h0 h1]
      unfold out19_C_2 sout19_C_0; (try dsimp only)
      rw [PhiS19_castSucc V c t, PhiS19_pos V c _ _ hz]
      iintro ⟨⟨⟨HS0, Hrest⟩, Hg⟩, Ho, ⟨%d0, H0⟩, ⟨%d1, H1⟩, ⟨%d2, H2⟩⟩
      iapply ((kernelRun19_C c (grid19.coords t) _ _ _ _ _ _ _ _ (fun h => h0 ((hcond19_0 t).mp h)) ((hcond19_1 t).mpr h1) (iblk19 V c 0 t) (iblk19 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover19_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover19_C_2 c _ _ _ _ _ _ _ _ _ _ _ _ _ _)
    · rw [Dat.leavesExact_idle (dat19 V c) 2 t (idleAt19_2 t (fun h => h1 ((hcond19_1 t).mp h))) (noFlush19_2 t (fun h => h1 ((hcond19_1 t).mp h)))]
      rw [outsAt19_B V c t h0 h1]
      unfold sout19_B_0; (try dsimp only)
      rw [PhiS19_castSucc V c t, PhiS19_pos V c _ _ hz]
      iintro ⟨⟨⟨HS0, Hrest⟩, Hg⟩, Ho, ⟨%d0, H0⟩, ⟨%d1, H1⟩, ⟨%d2, H2⟩⟩
      iapply ((kernelRun19_B c (grid19.coords t) _ _ _ _ _ _ _ _ (fun h => h0 ((hcond19_0 t).mp h)) (fun h => h1 ((hcond19_1 t).mp h)) (iblk19 V c 0 t) (iblk19 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover19_B_0 c _ _ _ _ _ _ _ _ _ _ _ _ _ _)
          iexact Hrest
        iexact Hg
      isplitl [Ho]; · iexact Ho
      isplitl [H0]; · iexact H0
      isplitl [H1]; · iexact H1
      iexists _; iexact H2

/-- The body obligation, at every point. -/
theorem body_obligation19 (c : Dev nD) : BodyObligation (dat19 (F := F) V c) (defs₀ (F := F)) Variants.none () Set.univ := fun t => by
  rw [bigSep_W19, bigSep_W19]
  exact sound_body19 V c t

/-! ## Into the invariant and out of it -/

/-- What the launch hands the region — the generator register, no prefetched table, the scoped buffers no window
    stages — is the invariant before the first point. -/
theorem hin19 (c : Dev nD) :
    iprop((∃ r, prngReg c r) ∗ Pipeline.prefHeld (pcfgs (F := F) 19).pre c (fun _ => fullShare) ((cfgs 19).toPCfg_adm).1 ∗ Pipeline.scopedRest spec19 c)
      ⊢ (dat19 V c).Φ 0 := by
  rw [show (dat19 V c).Φ 0 = PhiS19 V c 0 (Nat.zero_le _) from rfl, PhiS19_zero V c 0 _ rfl]; unfold Pipeline.ΦA
  iintro ⟨Hp, -, Hr⟩
  isplitl [Hr]; · iexact Hr
  iexact Hp

/-- After any point but the first the invariant gives the scoped buffers and the register back: the accumulator's
    named contents are forgotten. -/
theorem Phi_out19 (c : Dev nD) (t : Fin (cfg19.N + 1)) (ht : t.val ≠ 0) : (dat19 V c).Φ t ⊢ Pipeline.ΦA spec19 c := by
  rw [show (dat19 V c).Φ t = PhiS19 V c t.val (Nat.le_of_lt_succ t.isLt) from rfl, PhiS19_pos V c _ _ ht, PhiA19_eq]
  iintro ⟨⟨HS0, Hrest⟩, Hg⟩
  isplitl [HS0 Hrest]
  · isplitl [HS0]
    · iexists _; iexact HS0
    iexact Hrest
  iexact Hg

/-- The same after the last point, as the region hands it back: the register, no semaphore of the kernel's own, the
    scoped buffers. -/
theorem hout19 (c : Dev nD) :
    (dat19 V c).Φ (Fin.last cfg19.N)
      ⊢ iprop((∃ r, prngReg c r) ∗ Pipeline.ownSems0 (Ix := Unit) (Name := ℕ) (U := UR sig nD τ) (Lvl := ℕ) (Val := Elt F) (τ := τ) (fun k : PEmpty => k.elim) c ∗ Pipeline.scopedRest spec19 c) := by
  refine (Phi_out19 V c _ (by rw [Fin.val_last]; have : cfg19.N = 16 := N_19; omega)).trans ?_
  rw [Pipeline.ownSems0_none]; unfold Pipeline.ΦA
  iintro ⟨Hr, Hp⟩
  isplitl [Hp]; · iexact Hp
  isplitr; · iempintro
  iexact Hr

end Cert.Kernel.Fr

end
-- ==== Proof.KB.Reg20.lean ====
import proofs.«126270_j6725918785969_1_alg».proof.Proof.Gen.Kernel.Launch
import proofs.«126270_j6725918785969_1_alg».proof.Proof.Gen.Kernel.Skeleton
import proofs.«126270_j6725918785969_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 20: a row-tiled matrix product

Two input windows and one output window. Window 0 cuts the left factor into blocks of rows (`S4096x128`);
window 1 is the whole right factor (`S128x128`), the same block at every grid point; window 2 is the block of
the result's rows (`S4096x128`). At a grid point the body loads both input blocks, multiplies them into a zero
accumulator and stores the result over the whole output block. Stated at a
parameter `V`, the buffer contents the region is entered from.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

/-- The left factor's current staging buffer holds its block of rows at every point. -/
theorem before20_0_of {c : Dev nD} (dat : Dat τ (Elt F) Unit ℕ (UR sig nD τ) ℕ cfg20 c) (hA : dat.A 0 = V c (Pipeline.arrRef spec20 0))
    (hafter : ∀ t, dat.after 0 t = iblk20 V c 0 t) (t : Fin cfg20.N) (d) : dat.before 0 t d = iblk20 V c 0 t :=
  (dat.before_in_eq_fetched 0 rfl (fun _ => rfl) (fun _ _ _ => rfl) (fun t => by rw [hafter]; unfold Dat.blockOf iblk20; rw [hA]; try rfl) t d).trans
    (by unfold Dat.fetched Dat.blockOf iblk20; rw [hA]; try rfl)

/-- The right factor's staging buffer holds the whole factor at every point: fetched at the first point, its
    block index never moves afterwards. -/
theorem before20_1_of {c : Dev nD} (dat : Dat τ (Elt F) Unit ℕ (UR sig nD τ) ℕ cfg20 c) (hA : dat.A 1 = V c (Pipeline.arrRef spec20 1))
    (hafter : ∀ t, dat.after 1 t = iblk20 V c 1 t) (t : Fin cfg20.N) (d) : dat.before 1 t d = iblk20 V c 1 t :=
  (dat.before_in_eq_fetched 1 rfl (fun _ => rfl) (fun _ _ _ => rfl) (fun t => by rw [hafter]; unfold Dat.blockOf iblk20; rw [hA]; try rfl) t d).trans
    (by unfold Dat.fetched Dat.blockOf iblk20; rw [hA]; try rfl)

/-- The rectangles the body reads and writes: each buffer whole. -/
abbrev r20_a : Rect S4096x128 := Rect.unit (s := S4096x128) ![0, 0] S4096x128.size inb_S4096x128_S4096x128_0_0
abbrev r20_b : Rect S128x128 := Rect.unit (s := S128x128) ![0, 0] S128x128.size inb_S128x128_S128x128_0_0

/-- The output buffer after the body: its one store, of the product of the two input blocks. -/
def out20_2 (x0 : Vec F S4096x128 .f32) (x1 : Vec F S128x128 .f32) : Vec F S4096x128 .f32 :=
  View.canon [⟨r20_a, k20_pay1 (View.ld x0 r20_a) (View.ld x1 r20_b)⟩]

/-- The store covers the buffer. -/
theorem cover20_2 (p0 : Vec F S4096x128 .f32) (y : S4096x128.Idx) :
    ∃ pc ∈ ([⟨r20_a, p0⟩] : List (View.Piece (Elt F) S4096x128 .f32)), y ∈ pc.1.set :=
  View.cover_of_tiled [⟨r20_a, p0⟩] S4096x128.size (by rfl) y

set_option maxHeartbeats 1000000 in
/-- The body on whole staging memrefs, the inputs' at contents `x0`, `x1` and the output's at anything, runs to the
    continuation with the inputs' as they were and the output's at `out20_2 x0 x1`. -/
theorem sound_kernel20 (c : Dev nD) (E : Set ℕ) (i : grid20.Coords) (arg0 : Memref sig .tc .vmem S4096x128 .f32) (harg0 : arg0.IsWhole) (arg1 : Memref sig .tc .vmem S128x128 .f32) (harg1 : arg1.IsWhole) (arg2 : Memref sig .tc .vmem S4096x128 .f32) (harg2 : arg2.IsWhole)
    (x0 : Vec F S4096x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out20_2 x0 x1)) -∗ K ⟨⟩))
      ⊢ wp frame (wpE (defs₀ (F := F)) Variants.none c none) E (cc20__mm_big_kernel i arg0 harg0 arg1 harg1 arg2 harg2) K := by
  simp only [cc20__mm_big_kernel_eq_skeleton]; unfold cc20__mm_big_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover20_2 _)

/-- The pipeline's proof data on core `c`: the arrays as the region finds them; after the body at point `t` each
    input's buffer at its block and the output's at `out20_2` of them; the invariant the scoped rest and the
    generator register, untouched; nothing owed; full shares. -/
def dat20 (c : Dev nD) : Dat τ (Elt F) Unit ℕ (UR sig nD τ) ℕ cfg20 c where
  A w := V c (Pipeline.arrRef spec20 w)
  after w t := match w with
    | ⟨0, _⟩ => iblk20 V c 0 t
    | ⟨1, _⟩ => iblk20 V c 1 t
    | ⟨2, _⟩ => out20_2 (iblk20 V c 0 t) (iblk20 V c 1 t)
  Φ _ := Pipeline.ΦA spec20 c
  q _ := fullShare
  owed _ := 0

theorem A_eq20 (c : Dev nD) (w : Fin cfg20.W) : (dat20 V c).A w = V c (Pipeline.arrRef spec20 w) := by
  dsimp only [dat20]

theorem after20_0 (c : Dev nD) (t : Fin cfg20.N) : (dat20 V c).after 0 t = iblk20 V c 0 t := by dsimp only [dat20]
theorem after20_1 (c : Dev nD) (t : Fin cfg20.N) : (dat20 V c).after 1 t = iblk20 V c 1 t := by dsimp only [dat20]
theorem after20_2 (c : Dev nD) (t : Fin cfg20.N) : (dat20 V c).after 2 t = out20_2 (iblk20 V c 0 t) (iblk20 V c 1 t) := by dsimp only [dat20]

theorem before20_0 (c : Dev nD) (t : Fin cfg20.N) (d) : (dat20 V c).before 0 t d = iblk20 V c 0 t :=
  before20_0_of V (dat20 V c) (A_eq20 V c 0) (after20_0 V c) t d
theorem before20_1 (c : Dev nD) (t : Fin cfg20.N) (d) : (dat20 V c).before 1 t d = iblk20 V c 1 t :=
  before20_1_of V (dat20 V c) (A_eq20 V c 1) (after20_1 V c) t d

/-- What the body is called with at point `t`, -/
def bodyPre20 (c : Dev nD) (t : Fin cfg20.N) : sProp 𝕄 :=
  iprop((dat20 V c).Φ t.castSucc ∗ (dat20 V c).owesAt () t.castSucc
    ∗ (∃ d, owns (c : Thread nD τ) (st20_0 t) fullShare ((dat20 V c).before 0 t d))
    ∗ (∃ d, owns (c : Thread nD τ) (st20_1 t) fullShare ((dat20 V c).before 1 t d))
    ∗ (∃ d, owns (c : Thread nD τ) (st20_2 t) fullShare ((dat20 V c).before 2 t d)))

/-- and what it returns. -/
def bodyPost20 (c : Dev nD) (t : Fin cfg20.N) : sProp 𝕄 :=
  iprop((dat20 V c).Φ t.succ ∗ (dat20 V c).owesAt () t.succ
    ∗ owns (c : Thread nD τ) (st20_0 t) fullShare ((dat20 V c).after 0 t)
    ∗ owns (c : Thread nD τ) (st20_1 t) fullShare ((dat20 V c).after 1 t)
    ∗ owns (c : Thread nD τ) (st20_2 t) fullShare ((dat20 V c).after 2 t))

/-- The body at any point: the inputs' memrefs hold their blocks, so the body's triple applies; the invariant
    and the core's dues pass through unread. -/
theorem sound_body20 (c : Dev nD) (t : Fin cfg20.N) :
    bodyPre20 V c t ⊢ wp frame (wpE (defs₀ (F := F)) Variants.none c none) Set.univ (bodyAt20 t) (fun _ => bodyPost20 V c t) := by
  unfold bodyPre20 bodyPost20 bodyAt20
  simp only [before20_0, before20_1]
  rw [show (dat20 V c).Φ t.succ = (dat20 V c).Φ t.castSucc from rfl,
    show (dat20 V c).owesAt () t.succ = (dat20 V c).owesAt () t.castSucc from rfl,
    after20_0, after20_1, after20_2]
  iintro ⟨HΦ, Ho, ⟨%d0, H0⟩, ⟨%d1, H1⟩, ⟨%d2, H2⟩⟩
  iapply (sound_kernel20 c Set.univ _ _ _ _ _ _ _ (iblk20 V c 0 t) (iblk20 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation20 (c : Dev nD) : BodyObligation (dat20 (F := F) V c) (defs₀ (F := F)) Variants.none () Set.univ := fun t => by
  rw [bigSep_W20, bigSep_W20]
  exact sound_body20 V c t

end Cert.Kernel.Fr

end
-- ==== Proof.KB.Reg21.lean ====
import proofs.«126270_j6725918785969_1_alg».proof.Proof.Gen.Kernel.Launch
import proofs.«126270_j6725918785969_1_alg».proof.Proof.Gen.Kernel.Skeleton
import proofs.«126270_j6725918785969_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 21: the row sums of `exp (x · yᵀ)` reduced over sixteen blocks of columns

Two input windows — the 4096 × 128 left factor whole, its block index never moving, and the right factor cut into
sixteen blocks of 256 rows — and one 4096 × 1 output window whose block index never moves. The kernel keeps a
4096 × 1 accumulator in a scratch buffer of its own: at the first grid point it zeroes it, at every point it adds,
row by row, the sum over the block's 256 columns of `exp (p / 1)`, where `p` is the product of the left factor and
the transposed right block (both rounded to bf16 before the product) and the division by the constant one is
entry by entry, and at the last point only it copies the accumulator into the output's staging buffer, which is
written back there and nowhere else. So the body has three control cases — first point, middle point, last
point —, the accumulator's contents are carried from point to point by the region invariant, and the output
window is idle everywhere but at the last point. Stated at a parameter `V`, the buffer contents the region is
entered from.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, decided over the grid -/

/-- The condition of the body's first conditional: the reduction coordinate is zero. -/
abbrev cond21_0 (i : grid21.Coords) : Prop := (Scalar.cmpi .ne (Scalar.extui (Scalar.cmpi .eq (BitVec.ofNat 32 (i 0).val) 0#32)) 0#32) = 1#1
/-- It holds at the first point only. -/
theorem hcond21_0 : ∀ t : Fin cfg21.N, cond21_0 (grid21.coords t) ↔ t.val % 16 = 0 :=
  (by decide +kernel : ∀ t : Fin grid21.N, cond21_0 (grid21.coords t) ↔ t.val % 16 = 0)

/-- The condition of the body's second conditional: the reduction coordinate is the last. -/
abbrev cond21_1 (i : grid21.Coords) : Prop := k21_cond2 i = 1#1
/-- It holds at the last point only. -/
theorem hcond21_1 : ∀ t : Fin cfg21.N, cond21_1 (grid21.coords t) ↔ t.val % 16 = 15 :=
  (by decide +kernel : ∀ t : Fin grid21.N, cond21_1 (grid21.coords t) ↔ t.val % 16 = 15)

/-! ## Where the windows are idle -/

/-- The two inputs are never idle. -/
theorem liveAt21_0 : ∀ t : Fin cfg21.N, cfg21.idle 0 (grid21.coords t) = false := by decide +kernel
theorem liveAt21_1 : ∀ t : Fin cfg21.N, cfg21.idle 1 (grid21.coords t) = false := by decide +kernel
/-- Where the second condition fails the output is idle and is not written back. -/
theorem idleAt21_2 : ∀ t : Fin cfg21.N, ¬cond21_1 (grid21.coords t) → cfg21.idle 2 (grid21.coords t) = true := by decide +kernel
theorem noFlush21_2 : ∀ t : Fin cfg21.N, ¬cond21_1 (grid21.coords t) → (cfg21.win 2).flush t = false := by decide +kernel
/-- Where it holds the output is live. -/
theorem liveAt21_2 : ∀ t : Fin cfg21.N, cond21_1 (grid21.coords t) → cfg21.idle 2 (grid21.coords t) = false := by decide +kernel

/-! ## The memrefs the body is called with -/

/-- One staging buffer of the output window, through which its contents are stated. -/
abbrev VO21_2 : View sig .tc .vmem S4096x1 .f32 := (Memref.whole cc21_stg2_0 : Memref sig .tc .vmem S4096x1 .f32).view
/-- Each window's current staging memref at point `t`, and its wholeness. -/
abbrev ms21_0 (t : Fin cfg21.N) : Memref sig .tc .vmem S4096x128 .f32 := win21_0.stage (cfg21.slots t 0)
abbrev hs21_0 (t : Fin cfg21.N) : (ms21_0 t).IsWhole := hstage21_0 ((cfg21.slots t 0).cast nbuf21_0)
abbrev ms21_1 (t : Fin cfg21.N) : Memref sig .tc .vmem S256x128 .f32 := win21_1.stage (cfg21.slots t 1)
abbrev hs21_1 (t : Fin cfg21.N) : (ms21_1 t).IsWhole := hstage21_1 ((cfg21.slots t 1).cast nbuf21_1)
abbrev ms21_2 (t : Fin cfg21.N) : Memref sig .tc .vmem S4096x1 .f32 := win21_2.stage (cfg21.slots t 2)
abbrev hs21_2 (t : Fin cfg21.N) : (ms21_2 t).IsWhole := hstage21_2 ((cfg21.slots t 2).cast nbuf21_2)
/-- The accumulator: a whole scoped buffer of the kernel's own, passed beside the windows. -/
abbrev scM21_0 : Memref sig .tc .vmem S4096x1 .f32 := Memref.whole cc21_scratch0
/-- The accumulator as a view: what it holds is stated through it. -/
abbrev VS21_0 : View sig .tc .vmem S4096x1 .f32 := scM21_0.view

/-- The region invariant of a body that need not describe its scratch, with the accumulator as a memref owned at
    some contents and every other scoped buffer unopened. -/
theorem PhiA21_eq (c : Dev nD) :
    (Pipeline.ΦA spec21 c : sProp 𝕄)
      = iprop(iprop(iprop((∃ d, owns (c : Thread nD τ) scM21_0 fullShare d))
          ∗ Pipeline.scopedRestBut (Ix := Unit) (Name := ℕ) (U := UR sig nD τ) (Lvl := ℕ) (Val := Elt F) spec21 c [cc21_scratch0]) ∗ (∃ r, prngReg c r)) := by
  unfold Pipeline.ΦA; rw [scopedRest21_split]; simp only [scM21_0, owns_whole]; try rfl

set_option maxHeartbeats 1000000 in
/-- THE FIRST POINT (the first conditional taken, the second not). On whole memrefs — the inputs' at their contents,
    the output's at contents handed back untouched, the accumulator at anything — the body runs to the continuation
    holding the inputs' and the output's as they were and the accumulator with its stores' pieces written (last
    first): zero, then zero plus the row sums of the exponentials of the two blocks' product. The pieces are what the run finds. -/
noncomputable def kernelRun21_A (c : Dev nD) (i : grid21.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : cond21_0 i) (hc1 : ¬cond21_1 i)
    (x0 : Vec F S4096x128 .f32) (x1 : Vec F S256x128 .f32) :
    Σ' (L2 : List (View.Piece (Elt F) S4096x1 .f32)), { LS0 : List (View.Piece (Elt F) S4096x1 .f32) //
      ∀ (xi2 : Vec F S4096x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc21__ssl_neg_kernel i arg1 harg1 arg2 harg2 arg3 harg3 arg4 harg4) K } := by
  refine ⟨[], ?_, fun xi2 E K => ?run⟩
  case run =>
    simp only [cc21__ssl_neg_kernel_eq_skeleton]; unfold cc21__ssl_neg_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A MIDDLE POINT (neither conditional taken). The accumulator comes in at the contents `xs0` the point before left
    and goes out with one piece written: `xs0` plus the row sums of the exponentials of the two blocks' product. The output is handed back untouched. -/
noncomputable def kernelRun21_B (c : Dev nD) (i : grid21.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond21_0 i) (hc1 : ¬cond21_1 i)
    (x0 : Vec F S4096x128 .f32) (x1 : Vec F S256x128 .f32) (xs0 : Vec F S4096x1 .f32) :
    Σ' (L2 : List (View.Piece (Elt F) S4096x1 .f32)), { LS0 : List (View.Piece (Elt F) S4096x1 .f32) //
      ∀ (xi2 : Vec F S4096x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc21__ssl_neg_kernel i arg1 harg1 arg2 harg2 arg3 harg3 arg4 harg4) K } := by
  refine ⟨[], ?_, fun xi2 E K => ?run⟩
  case run =>
    simp only [cc21__ssl_neg_kernel_eq_skeleton]; unfold cc21__ssl_neg_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- THE LAST POINT (the first conditional not taken, the second taken). The accumulator comes in at `xs0`, goes out
    with `xs0` plus the row sums written, and the output, at anything before, goes out with one piece written: the
    accumulator's final contents. -/
noncomputable def kernelRun21_C (c : Dev nD) (i : grid21.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond21_0 i) (hc1 : cond21_1 i)
    (x0 : Vec F S4096x128 .f32) (x1 : Vec F S256x128 .f32) (xs0 : Vec F S4096x1 .f32) :
    Σ' (L2 : List (View.Piece (Elt F) S4096x1 .f32)), { LS0 : List (View.Piece (Elt F) S4096x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc21__ssl_neg_kernel i arg1 harg1 arg2 harg2 arg3 harg3 arg4 harg4) K } := by
  refine ⟨?_, ?_, fun E K => ?run⟩
  case run =>
    simp only [cc21__ssl_neg_kernel_eq_skeleton]; unfold cc21__ssl_neg_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

variable (V : (c : Dev nD) → (b : Ref sig .tc) → Buf (Elt F) ((c : Thread nD τ).loc b))

/-! ## The windows' blocks -/

/-- Window `w`'s block at point `t`, read off its array as the region finds it. -/
def iblk21 (c : Dev nD) (w : Fin cfg21.W) (t : Fin cfg21.N) : ((cfg21.win w).xblock (cfg21.grid.coords t)).Idx → Elt F (cfg21.win w).elt :=
  ((cfg21.win w).blk t).view.read (Elt F) (V c (Pipeline.arrRef spec21 w))

/-- Each input's current staging buffer holds its block at every point, fetched there or not. -/
theorem before21_0_of {c : Dev nD} (dat : Dat τ (Elt F) Unit ℕ (UR sig nD τ) ℕ cfg21 c) (hA : dat.A 0 = V c (Pipeline.arrRef spec21 0))
    (hafter : ∀ t, dat.after 0 t = iblk21 V c 0 t) (t : Fin cfg21.N) (d) : dat.before 0 t d = iblk21 V c 0 t :=
  (dat.before_in_eq_fetched 0 rfl (fun _ => rfl) (fun _ _ _ => rfl) (fun t => by rw [hafter]; unfold Dat.blockOf iblk21; rw [hA]; try rfl) t d).trans
    (by unfold Dat.fetched Dat.blockOf iblk21; rw [hA]; try rfl)
theorem before21_1_of {c : Dev nD} (dat : Dat τ (Elt F) Unit ℕ (UR sig nD τ) ℕ cfg21 c) (hA : dat.A 1 = V c (Pipeline.arrRef spec21 1))
    (hafter : ∀ t, dat.after 1 t = iblk21 V c 1 t) (t : Fin cfg21.N) (d) : dat.before 1 t d = iblk21 V c 1 t :=
  (dat.before_in_eq_fetched 1 rfl (fun _ => rfl) (fun _ _ _ => rfl) (fun t => by rw [hafter]; unfold Dat.blockOf iblk21; rw [hA]; try rfl) t d).trans
    (by unfold Dat.fetched Dat.blockOf iblk21; rw [hA]; try rfl)

/-! ## What each case leaves in the output's buffer and in the accumulator -/

/-- The first point's stores cover the accumulator. -/
theorem scover21_A_0 (c : Dev nD) (i : grid21.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : cond21_0 i) (hc1 : ¬cond21_1 i)
    (x0 : Vec F S4096x128 .f32) (x1 : Vec F S256x128 .f32) (y : S4096x1.Idx) :
    ∃ pc ∈ (kernelRun21_A c i arg1 harg1 arg2 harg2 arg3 harg3 arg4 harg4 hc0 hc1 x0 x1).2.1, y ∈ pc.1.set :=
  View.cover_of_tiledL (kernelRun21_A c i arg1 harg1 arg2 harg2 arg3 harg3 arg4 harg4 hc0 hc1 x0 x1).2.1 S4096x1.size (by sl_kernel_rfl) y

/-- What the first point leaves in the accumulator: its pieces read back. -/
def sout21_A_0 (c : Dev nD) (i : grid21.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : cond21_0 i) (hc1 : ¬cond21_1 i)
    (x0 : Vec F S4096x128 .f32) (x1 : Vec F S256x128 .f32) : Vec F S4096x1 .f32 :=
  VS21_0.read (Elt F) (VS21_0.writes (Elt F) VS21_0.junk (kernelRun21_A c i arg1 harg1 arg2 harg2 arg3 harg3 arg4 harg4 hc0 hc1 x0 x1).2.1)

/-- A middle point's store covers the accumulator. -/
theorem scover21_B_0 (c : Dev nD) (i : grid21.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond21_0 i) (hc1 : ¬cond21_1 i)
    (x0 : Vec F S4096x128 .f32) (x1 : Vec F S256x128 .f32) (xs0 : Vec F S4096x1 .f32) (y : S4096x1.Idx) :
    ∃ pc ∈ (kernelRun21_B c i arg1 harg1 arg2 harg2 arg3 harg3 arg4 harg4 hc0 hc1 x0 x1 xs0).2.1, y ∈ pc.1.set :=
  View.cover_of_tiledL (kernelRun21_B c i arg1 harg1 arg2 harg2 arg3 harg3 arg4 harg4 hc0 hc1 x0 x1 xs0).2.1 S4096x1.size (by sl_kernel_rfl) y

/-- What a middle point leaves in the accumulator. -/
def sout21_B_0 (c : Dev nD) (i : grid21.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond21_0 i) (hc1 : ¬cond21_1 i)
    (x0 : Vec F S4096x128 .f32) (x1 : Vec F S256x128 .f32) (xs0 : Vec F S4096x1 .f32) : Vec F S4096x1 .f32 :=
  VS21_0.read (Elt F) (VS21_0.writes (Elt F) VS21_0.junk (kernelRun21_B c i arg1 harg1 arg2 harg2 arg3 harg3 arg4 harg4 hc0 hc1 x0 x1 xs0).2.1)

/-- The last point's store covers the output's buffer. -/
theorem cover21_C_2 (c : Dev nD) (i : grid21.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond21_0 i) (hc1 : cond21_1 i)
    (x0 : Vec F S4096x128 .f32) (x1 : Vec F S256x128 .f32) (xs0 : Vec F S4096x1 .f32) (y : S4096x1.Idx) :
    ∃ pc ∈ (kernelRun21_C c i arg1 harg1 arg2 harg2 arg3 harg3 arg4 harg4 hc0 hc1 x0 x1 xs0).1, y ∈ pc.1.set :=
  View.cover_of_tiledL (kernelRun21_C c i arg1 harg1 arg2 harg2 arg3 harg3 arg4 harg4 hc0 hc1 x0 x1 xs0).1 S4096x1.size (by sl_kernel_rfl) y

/-- What the last point leaves in the output's buffer. -/
def out21_C_2 (c : Dev nD) (i : grid21.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond21_0 i) (hc1 : cond21_1 i)
    (x0 : Vec F S4096x128 .f32) (x1 : Vec F S256x128 .f32) (xs0 : Vec F S4096x1 .f32) : Vec F S4096x1 .f32 :=
  VO21_2.read (Elt F) (VO21_2.writes (Elt F) VO21_2.junk (kernelRun21_C c i arg1 harg1 arg2 harg2 arg3 harg3 arg4 harg4 hc0 hc1 x0 x1 xs0).1)

/-- The last point's store covers the accumulator. -/
theorem scover21_C_0 (c : Dev nD) (i : grid21.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond21_0 i) (hc1 : cond21_1 i)
    (x0 : Vec F S4096x128 .f32) (x1 : Vec F S256x128 .f32) (xs0 : Vec F S4096x1 .f32) (y : S4096x1.Idx) :
    ∃ pc ∈ (kernelRun21_C c i arg1 harg1 arg2 harg2 arg3 harg3 arg4 harg4 hc0 hc1 x0 x1 xs0).2.1, y ∈ pc.1.set :=
  View.cover_of_tiledL (kernelRun21_C c i arg1 harg1 arg2 harg2 arg3 harg3 arg4 harg4 hc0 hc1 x0 x1 xs0).2.1 S4096x1.size (by sl_kernel_rfl) y

/-- What the last point leaves in the accumulator. -/
def sout21_C_0 (c : Dev nD) (i : grid21.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond21_0 i) (hc1 : cond21_1 i)
    (x0 : Vec F S4096x128 .f32) (x1 : Vec F S256x128 .f32) (xs0 : Vec F S4096x1 .f32) : Vec F S4096x1 .f32 :=
  VS21_0.read (Elt F) (VS21_0.writes (Elt F) VS21_0.junk (kernelRun21_C c i arg1 harg1 arg2 harg2 arg3 harg3 arg4 harg4 hc0 hc1 x0 x1 xs0).2.1)

/-! ## What the output's buffer and the accumulator hold after each point -/

/-- The output's buffer at a point that stores nothing into it: a placeholder nothing consults, the window being
    neither written back there nor read at the next point. -/
def idle21_2 : Vec F S4096x1 .f32 := VO21_2.read (Elt F) VO21_2.junk

/-- THE ACCUMULATION. What the output's staging buffer and the accumulator hold after the body at position `n`: the
    case the closed forms select at `n`, run at the point's memrefs and input blocks, the accumulator coming in at
    what position `n - 1` left in it. After the first point the accumulator is zero plus the first block's row sums;
    after a later point what it held plus that point's row sums; after the last point the output's buffer holds
    the whole sum. -/
def outsAt21 (c : Dev nD) : (n : ℕ) → n < cfg21.N → Vec F S4096x1 .f32 × Vec F S4096x1 .f32
  | 0, hn => (idle21_2, sout21_A_0 c (grid21.coords ⟨0, hn⟩) (ms21_0 ⟨0, hn⟩) (hs21_0 ⟨0, hn⟩) (ms21_1 ⟨0, hn⟩) (hs21_1 ⟨0, hn⟩) (ms21_2 ⟨0, hn⟩) (hs21_2 ⟨0, hn⟩) scM21_0 (Memref.isWhole_whole _) ((hcond21_0 ⟨0, hn⟩).mpr (Nat.zero_mod _)) (fun h => (fun h => by (try dsimp only at h); omega) ((hcond21_1 ⟨0, hn⟩).mp h)) (iblk21 V c 0 ⟨0, hn⟩) (iblk21 V c 1 ⟨0, hn⟩))
  | n + 1, hn =>
    if h0 : (n + 1) % 16 = 0 then
      if h1 : (n + 1) % 16 = 15 then
        False.elim (by omega)
      else
        (idle21_2, sout21_A_0 c (grid21.coords ⟨n + 1, hn⟩) (ms21_0 ⟨n + 1, hn⟩) (hs21_0 ⟨n + 1, hn⟩) (ms21_1 ⟨n + 1, hn⟩) (hs21_1 ⟨n + 1, hn⟩) (ms21_2 ⟨n + 1, hn⟩) (hs21_2 ⟨n + 1, hn⟩) scM21_0 (Memref.isWhole_whole _) ((hcond21_0 ⟨n + 1, hn⟩).mpr h0) (fun h => h1 ((hcond21_1 ⟨n + 1, hn⟩).mp h)) (iblk21 V c 0 ⟨n + 1, hn⟩) (iblk21 V c 1 ⟨n + 1, hn⟩))
    else
      if h1 : (n + 1) % 16 = 15 then
        (out21_C_2 c (grid21.coords ⟨n + 1, hn⟩) (ms21_0 ⟨n + 1, hn⟩) (hs21_0 ⟨n + 1, hn⟩) (ms21_1 ⟨n + 1, hn⟩) (hs21_1 ⟨n + 1, hn⟩) (ms21_2 ⟨n + 1, hn⟩) (hs21_2 ⟨n + 1, hn⟩) scM21_0 (Memref.isWhole_whole _) (fun h => h0 ((hcond21_0 ⟨n + 1, hn⟩).mp h)) ((hcond21_1 ⟨n + 1, hn⟩).mpr h1) (iblk21 V c 0 ⟨n + 1, hn⟩) (iblk21 V c 1 ⟨n + 1, hn⟩) (outsAt21 c n (Nat.lt_of_succ_lt hn)).2,
         sout21_C_0 c (grid21.coords ⟨n + 1, hn⟩) (ms21_0 ⟨n + 1, hn⟩) (hs21_0 ⟨n + 1, hn⟩) (ms21_1 ⟨n + 1, hn⟩) (hs21_1 ⟨n + 1, hn⟩) (ms21_2 ⟨n + 1, hn⟩) (hs21_2 ⟨n + 1, hn⟩) scM21_0 (Memref.isWhole_whole _) (fun h => h0 ((hcond21_0 ⟨n + 1, hn⟩).mp h)) ((hcond21_1 ⟨n + 1, hn⟩).mpr h1) (iblk21 V c 0 ⟨n + 1, hn⟩) (iblk21 V c 1 ⟨n + 1, hn⟩) (outsAt21 c n (Nat.lt_of_succ_lt hn)).2)
      else
        (idle21_2, sout21_B_0 c (grid21.coords ⟨n + 1, hn⟩) (ms21_0 ⟨n + 1, hn⟩) (hs21_0 ⟨n + 1, hn⟩) (ms21_1 ⟨n + 1, hn⟩) (hs21_1 ⟨n + 1, hn⟩) (ms21_2 ⟨n + 1, hn⟩) (hs21_2 ⟨n + 1, hn⟩) scM21_0 (Memref.isWhole_whole _) (fun h => h0 ((hcond21_0 ⟨n + 1, hn⟩).mp h)) (fun h => h1 ((hcond21_1 ⟨n + 1, hn⟩).mp h)) (iblk21 V c 0 ⟨n + 1, hn⟩) (iblk21 V c 1 ⟨n + 1, hn⟩) (outsAt21 c n (Nat.lt_of_succ_lt hn)).2)

/-- `outsAt21` at the first point. -/
theorem outsAt21_A (c : Dev nD) (t : Fin cfg21.N) (h0 : t.val % 16 = 0) (h1 : ¬t.val % 16 = 15) :
    outsAt21 V c t.val t.isLt = (idle21_2, sout21_A_0 c (grid21.coords t) (ms21_0 t) (hs21_0 t) (ms21_1 t) (hs21_1 t) (ms21_2 t) (hs21_2 t) scM21_0 (Memref.isWhole_whole _) ((hcond21_0 t).mpr h0) (fun h => h1 ((hcond21_1 t).mp h)) (iblk21 V c 0 t) (iblk21 V c 1 t)) := by
  obtain ⟨n, hn⟩ := t
  cases n with
  | zero => exact rfl
  | succ n => exact (dif_pos h0).trans ((dif_neg h1).trans rfl)

/-- `outsAt21` at a middle point: over what the point before left. -/
theorem outsAt21_B (c : Dev nD) (t : Fin cfg21.N) (h0 : ¬t.val % 16 = 0) (h1 : ¬t.val % 16 = 15) :
    outsAt21 V c t.val t.isLt = (idle21_2, sout21_B_0 c (grid21.coords t) (ms21_0 t) (hs21_0 t) (ms21_1 t) (hs21_1 t) (ms21_2 t) (hs21_2 t) scM21_0 (Memref.isWhole_whole _) (fun h => h0 ((hcond21_0 t).mp h)) (fun h => h1 ((hcond21_1 t).mp h)) (iblk21 V c 0 t) (iblk21 V c 1 t) (outsAt21 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt21` at the last point: over what the point before left. -/
theorem outsAt21_C (c : Dev nD) (t : Fin cfg21.N) (h0 : ¬t.val % 16 = 0) (h1 : t.val % 16 = 15) :
    outsAt21 V c t.val t.isLt = (out21_C_2 c (grid21.coords t) (ms21_0 t) (hs21_0 t) (ms21_1 t) (hs21_1 t) (ms21_2 t) (hs21_2 t) scM21_0 (Memref.isWhole_whole _) (fun h => h0 ((hcond21_0 t).mp h)) ((hcond21_1 t).mpr h1) (iblk21 V c 0 t) (iblk21 V c 1 t) (outsAt21 V c (t.val - 1) (Nat.lt_of_le_of_lt (Nat.sub_le _ _) t.isLt)).2,
      sout21_C_0 c (grid21.coords t) (ms21_0 t) (hs21_0 t) (ms21_1 t) (hs21_1 t) (ms21_2 t) (hs21_2 t) scM21_0 (Memref.isWhole_whole _) (fun h => h0 ((hcond21_0 t).mp h)) ((hcond21_1 t).mpr h1) (iblk21 V c 0 t) (iblk21 V c 1 t) (outsAt21 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point every scoped buffer that is no staging buffer at
    anything, and the generator register at some state; afterwards the accumulator at what the point before left in
    it (`outsAt21`'s second component), every other such buffer unopened, and the register. -/
def PhiS21 (c : Dev nD) : (n : ℕ) → n ≤ cfg21.N → sProp 𝕄
  | 0, _ => Pipeline.ΦA spec21 c
  | n + 1, hn => iprop(iprop(iprop(owns (c : Thread nD τ) scM21_0 fullShare ((outsAt21 V c n hn).2)) ∗ Pipeline.scopedRestBut (Ix := Unit) (Name := ℕ) (U := UR sig nD τ) (Lvl := ℕ) (Val := Elt F) spec21 c [cc21_scratch0]) ∗ (∃ r, prngReg c r))

theorem PhiS21_zero (c : Dev nD) (n : ℕ) (h : n ≤ cfg21.N) (hz : n = 0) : PhiS21 V c n h = Pipeline.ΦA spec21 c := by
  subst hz; rfl

theorem PhiS21_succ (c : Dev nD) (n : ℕ) (hn : n < cfg21.N) :
    PhiS21 V c (n + 1) hn = iprop(iprop(iprop(owns (c : Thread nD τ) scM21_0 fullShare ((outsAt21 V c n hn).2)) ∗ Pipeline.scopedRestBut (Ix := Unit) (Name := ℕ) (U := UR sig nD τ) (Lvl := ℕ) (Val := Elt F) spec21 c [cc21_scratch0]) ∗ (∃ r, prngReg c r)) := rfl

theorem PhiS21_pos (c : Dev nD) (n : ℕ) (h : n ≤ cfg21.N) (hz : n ≠ 0) :
    PhiS21 V c n h = iprop(iprop(iprop(owns (c : Thread nD τ) scM21_0 fullShare ((outsAt21 V c (n - 1) (by omega)).2)) ∗ Pipeline.scopedRestBut (Ix := Unit) (Name := ℕ) (U := UR sig nD τ) (Lvl := ℕ) (Val := Elt F) spec21 c [cc21_scratch0]) ∗ (∃ r, prngReg c r)) := by
  cases n with
  | zero => exact absurd rfl hz
  | succ n => rfl

/-! ## The pipeline's proof data -/

/-- The proof data on core `c`: the arrays as the region finds them; after the body at point `t` each input's
    buffer at its block and the output's at `outsAt21`'s first component; the invariant `PhiS21`; nothing owed; full
    shares. -/
def dat21 (c : Dev nD) : Dat τ (Elt F) Unit ℕ (UR sig nD τ) ℕ cfg21 c where
  A w := V c (Pipeline.arrRef spec21 w)
  after w t := match w with
    | ⟨0, _⟩ => iblk21 V c 0 t
    | ⟨1, _⟩ => iblk21 V c 1 t
    | ⟨2, _⟩ => (outsAt21 V c t.val t.isLt).1
  Φ t := PhiS21 V c t.val (Nat.le_of_lt_succ t.isLt)
  q _ := fullShare
  owed _ := 0

theorem A_eq21 (c : Dev nD) (w : Fin cfg21.W) : (dat21 V c).A w = V c (Pipeline.arrRef spec21 w) := by
  dsimp only [dat21]

theorem PhiS21_castSucc (c : Dev nD) (t : Fin cfg21.N) :
    (dat21 V c).Φ t.castSucc = PhiS21 V c t.val (Nat.le_of_lt t.isLt) := by
  dsimp only [dat21]; simp only [Fin.coe_castSucc]

theorem after21_0 (c : Dev nD) (t : Fin cfg21.N) : (dat21 V c).after 0 t = iblk21 V c 0 t := by dsimp only [dat21]
theorem after21_1 (c : Dev nD) (t : Fin cfg21.N) : (dat21 V c).after 1 t = iblk21 V c 1 t := by dsimp only [dat21]
theorem after21_2 (c : Dev nD) (t : Fin cfg21.N) : (dat21 V c).after 2 t = (outsAt21 V c t.val t.isLt).1 := by dsimp only [dat21]

theorem before21_0 (c : Dev nD) (t : Fin cfg21.N) (d) : (dat21 V c).before 0 t d = iblk21 V c 0 t :=
  before21_0_of V (dat21 V c) (A_eq21 V c 0) (after21_0 V c) t d
theorem before21_1 (c : Dev nD) (t : Fin cfg21.N) (d) : (dat21 V c).before 1 t d = iblk21 V c 1 t :=
  before21_1_of V (dat21 V c) (A_eq21 V c 1) (after21_1 V c) t d

/-! ## The body obligation -/

/-- What the body is called with at point `t`, -/
def bodyPre21 (c : Dev nD) (t : Fin cfg21.N) : sProp 𝕄 :=
  iprop((dat21 V c).Φ t.castSucc ∗ (dat21 V c).owesAt () t.castSucc
    ∗ (∃ d, owns (c : Thread nD τ) (ms21_0 t) fullShare ((dat21 V c).before 0 t d))
    ∗ (∃ d, owns (c : Thread nD τ) (ms21_1 t) fullShare ((dat21 V c).before 1 t d))
    ∗ (∃ d, owns (c : Thread nD τ) (ms21_2 t) fullShare ((dat21 V c).before 2 t d)))

/-- and what it returns. -/
def bodyPost21 (c : Dev nD) (t : Fin cfg21.N) : sProp 𝕄 :=
  iprop((dat21 V c).Φ t.succ ∗ (dat21 V c).owesAt () t.succ
    ∗ (dat21 V c).leavesExact 0 t
    ∗ (dat21 V c).leavesExact 1 t
    ∗ (dat21 V c).leavesExact 2 t)

set_option maxHeartbeats 4800000 in
/-- The body at any point. The inputs' memrefs hold their blocks; the closed forms say which case the point is in;
    the invariant hands the body the accumulator — at anything at the first point, at what the point before left
    afterwards —, every other scoped buffer and the generator register riding along unread, and takes the
    accumulator back at this point's contents; the output's buffer is handed back untouched except at the last
    point, where it is left at the whole sum; the core owes nothing throughout. -/
theorem sound_body21 (c : Dev nD) (t : Fin cfg21.N) :
    bodyPre21 V c t ⊢ wp frame (wpE (defs₀ (F := F)) Variants.none c none) Set.univ (bodyAt21 t) (fun _ => bodyPost21 V c t) := by
  unfold bodyPre21 bodyPost21 bodyAt21
  simp only [before21_0, before21_1]
  rw [show (dat21 V c).owesAt () t.succ = (dat21 V c).owesAt () t.castSucc from rfl]
  rw [show (dat21 V c).Φ t.succ = PhiS21 V c (t.val + 1) t.isLt from rfl, PhiS21_succ]
  have hN : t.val < 16 := lt_of_lt_of_eq t.isLt (show cfg21.N = 16 from N_21)
  rw [show (dat21 V c).leavesExact 0 t = owns (c : Thread nD τ) (ms21_0 t) fullShare ((dat21 V c).after 0 t) from by
    unfold Dat.leavesExact; rw [liveAt21_0 t], after21_0]
  rw [show (dat21 V c).leavesExact 1 t = owns (c : Thread nD τ) (ms21_1 t) fullShare ((dat21 V c).after 1 t) from by
    unfold Dat.leavesExact; rw [liveAt21_1 t], after21_1]
  by_cases h0 : t.val % 16 = 0
  · have h1 : ¬t.val % 16 = 15 := by omega
    have hz : t.val = 0 := by omega
    rw [Dat.leavesExact_idle (dat21 V c) 2 t (idleAt21_2 t (fun h => h1 ((hcond21_1 t).mp h))) (noFlush21_2 t (fun h => h1 ((hcond21_1 t).mp h)))]
    rw [outsAt21_A V c t h0 h1]
    unfold sout21_A_0; (try dsimp only)
    rw [PhiS21_castSucc V c t, PhiS21_zero V c _ _ hz, PhiA21_eq]
    iintro ⟨⟨⟨HS0, Hrest⟩, Hg⟩, Ho, ⟨%d0, H0⟩, ⟨%d1, H1⟩, ⟨%d2, H2⟩⟩
    iapply ((kernelRun21_A c (grid21.coords t) _ _ _ _ _ _ _ _ ((hcond21_0 t).mpr h0) (fun h => h1 ((hcond21_1 t).mp h)) (iblk21 V c 0 t) (iblk21 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover21_A_0 c _ _ _ _ _ _ _ _ _ _ _ _ _)
        iexact Hrest
      iexact Hg
    isplitl [Ho]; · iexact Ho
    isplitl [H0]; · iexact H0
    isplitl [H1]; · iexact H1
    iexists _; iexact H2
  · have hz : t.val ≠ 0 := by omega
    by_cases h1 : t.val % 16 = 15
    · rw [show (dat21 V c).leavesExact 2 t = owns (c : Thread nD τ) (ms21_2 t) fullShare ((dat21 V c).after 2 t) from by
        unfold Dat.leavesExact; rw [liveAt21_2 t ((hcond21_1 t).mpr h1)], after21_2]
      rw [outsAt21_C V c t h0 h1]
      unfold out21_C_2 sout21_C_0; (try dsimp only)
      rw [PhiS21_castSucc V c t, PhiS21_pos V c _ _ hz]
      iintro ⟨⟨⟨HS0, Hrest⟩, Hg⟩, Ho, ⟨%d0, H0⟩, ⟨%d1, H1⟩, ⟨%d2, H2⟩⟩
      iapply ((kernelRun21_C c (grid21.coords t) _ _ _ _ _ _ _ _ (fun h => h0 ((hcond21_0 t).mp h)) ((hcond21_1 t).mpr h1) (iblk21 V c 0 t) (iblk21 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover21_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover21_C_2 c _ _ _ _ _ _ _ _ _ _ _ _ _ _)
    · rw [Dat.leavesExact_idle (dat21 V c) 2 t (idleAt21_2 t (fun h => h1 ((hcond21_1 t).mp h))) (noFlush21_2 t (fun h => h1 ((hcond21_1 t).mp h)))]
      rw [outsAt21_B V c t h0 h1]
      unfold sout21_B_0; (try dsimp only)
      rw [PhiS21_castSucc V c t, PhiS21_pos V c _ _ hz]
      iintro ⟨⟨⟨HS0, Hrest⟩, Hg⟩, Ho, ⟨%d0, H0⟩, ⟨%d1, H1⟩, ⟨%d2, H2⟩⟩
      iapply ((kernelRun21_B c (grid21.coords t) _ _ _ _ _ _ _ _ (fun h => h0 ((hcond21_0 t).mp h)) (fun h => h1 ((hcond21_1 t).mp h)) (iblk21 V c 0 t) (iblk21 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover21_B_0 c _ _ _ _ _ _ _ _ _ _ _ _ _ _)
          iexact Hrest
        iexact Hg
      isplitl [Ho]; · iexact Ho
      isplitl [H0]; · iexact H0
      isplitl [H1]; · iexact H1
      iexists _; iexact H2

/-- The body obligation, at every point. -/
theorem body_obligation21 (c : Dev nD) : BodyObligation (dat21 (F := F) V c) (defs₀ (F := F)) Variants.none () Set.univ := fun t => by
  rw [bigSep_W21, bigSep_W21]
  exact sound_body21 V c t

/-! ## Into the invariant and out of it -/

/-- What the launch hands the region — the generator register, no prefetched table, the scoped buffers no window
    stages — is the invariant before the first point. -/
theorem hin21 (c : Dev nD) :
    iprop((∃ r, prngReg c r) ∗ Pipeline.prefHeld (pcfgs (F := F) 21).pre c (fun _ => fullShare) ((cfgs 21).toPCfg_adm).1 ∗ Pipeline.scopedRest spec21 c)
      ⊢ (dat21 V c).Φ 0 := by
  rw [show (dat21 V c).Φ 0 = PhiS21 V c 0 (Nat.zero_le _) from rfl, PhiS21_zero V c 0 _ rfl]; unfold Pipeline.ΦA
  iintro ⟨Hp, -, Hr⟩
  isplitl [Hr]; · iexact Hr
  iexact Hp

/-- After any point but the first the invariant gives the scoped buffers and the register back: the accumulator's
    named contents are forgotten. -/
theorem Phi_out21 (c : Dev nD) (t : Fin (cfg21.N + 1)) (ht : t.val ≠ 0) : (dat21 V c).Φ t ⊢ Pipeline.ΦA spec21 c := by
  rw [show (dat21 V c).Φ t = PhiS21 V c t.val (Nat.le_of_lt_succ t.isLt) from rfl, PhiS21_pos V c _ _ ht, PhiA21_eq]
  iintro ⟨⟨HS0, Hrest⟩, Hg⟩
  isplitl [HS0 Hrest]
  · isplitl [HS0]
    · iexists _; iexact HS0
    iexact Hrest
  iexact Hg

/-- The same after the last point, as the region hands it back: the register, no semaphore of the kernel's own, the
    scoped buffers. -/
theorem hout21 (c : Dev nD) :
    (dat21 V c).Φ (Fin.last cfg21.N)
      ⊢ iprop((∃ r, prngReg c r) ∗ Pipeline.ownSems0 (Ix := Unit) (Name := ℕ) (U := UR sig nD τ) (Lvl := ℕ) (Val := Elt F) (τ := τ) (fun k : PEmpty => k.elim) c ∗ Pipeline.scopedRest spec21 c) := by
  refine (Phi_out21 V c _ (by rw [Fin.val_last]; have : cfg21.N = 16 := N_21; omega)).trans ?_
  rw [Pipeline.ownSems0_none]; unfold Pipeline.ΦA
  iintro ⟨Hr, Hp⟩
  isplitl [Hp]; · iexact Hp
  isplitr; · iempintro
  iexact Hr

end Cert.Kernel.Fr

end
-- ==== Proof.KB.Chain.lean ====
import proofs.«126270_j6725918785969_1_alg».proof.Proof.KB.RegionsP
import proofs.«126270_j6725918785969_1_alg».proof.Proof.KB.Reg0
import proofs.«126270_j6725918785969_1_alg».proof.Proof.KB.Reg1
import proofs.«126270_j6725918785969_1_alg».proof.Proof.KB.Reg2
import proofs.«126270_j6725918785969_1_alg».proof.Proof.KB.Reg3
import proofs.«126270_j6725918785969_1_alg».proof.Proof.KB.Reg4
import proofs.«126270_j6725918785969_1_alg».proof.Proof.KB.Reg5
import proofs.«126270_j6725918785969_1_alg».proof.Proof.KB.Reg6
import proofs.«126270_j6725918785969_1_alg».proof.Proof.KB.Reg7
import proofs.«126270_j6725918785969_1_alg».proof.Proof.KB.Reg8
import proofs.«126270_j6725918785969_1_alg».proof.Proof.KB.Reg9
import proofs.«126270_j6725918785969_1_alg».proof.Proof.KB.Reg10
import proofs.«126270_j6725918785969_1_alg».proof.Proof.KB.Reg11
import proofs.«126270_j6725918785969_1_alg».proof.Proof.KB.Reg12
import proofs.«126270_j6725918785969_1_alg».proof.Proof.KB.Reg13
import proofs.«126270_j6725918785969_1_alg».proof.Proof.KB.Reg14
import proofs.«126270_j6725918785969_1_alg».proof.Proof.KB.Reg15
import proofs.«126270_j6725918785969_1_alg».proof.Proof.KB.Reg16
import proofs.«126270_j6725918785969_1_alg».proof.Proof.KB.Reg17
import proofs.«126270_j6725918785969_1_alg».proof.Proof.KB.Reg18
import proofs.«126270_j6725918785969_1_alg».proof.Proof.KB.Reg19
import proofs.«126270_j6725918785969_1_alg».proof.Proof.KB.Reg20
import proofs.«126270_j6725918785969_1_alg».proof.Proof.KB.Reg21

/-!
# The buffer contents between the program's items

The program is a list of 60 items: 22 kernel regions among 38 stretches of host operations. Core `c`'s unscoped
buffers hold, after item `J - 1`, the contents `WcJ c`: the launch memory (`Wc0`); after a host stretch the
stretch's operations applied to what it found; after a region the entry contents with the region's output array
replaced by what the pipeline's write-backs leave there (the proof data's `arrAt` at the last grid point). The
unknowns of the conditional frame are instantiated at this chain (`outsF`), and each of its valuations is the
chain's (`VJ_eq`).
-/

set_option maxRecDepth 16384

noncomputable section

namespace Cert.Kernel.Fr

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- Core `c`'s unscoped buffers at launch. -/
abbrev Wc0 (c : Dev nD) : Valuation τ sig (Elt F) := fun b => m (c, b)
/-- The same read at the TensorCore's references. -/
abbrev Vc0 : (c : Dev nD) → (b : Ref sig .tc) → Buf (Elt F) ((c : Thread nD τ).loc b) := fun c b => Wc0 m c b
/-- After region 0: `main_v0` at what the pipeline's write-backs leave, every other buffer as entered. -/
def Wc1 (c : Dev nD) : Valuation τ sig (Elt F) :=
  Function.update (Wc0 m c) main_v0 ((dat0 (Vc0 m) c).arrAt 2 cfg0.N)
abbrev Vc1 : (c : Dev nD) → (b : Ref sig .tc) → Buf (Elt F) ((c : Thread nD τ).loc b) := fun c b => Wc1 m c b
theorem Wc1_out (c : Dev nD) : Wc1 m c main_v0 = (dat0 (Vc0 m) c).arrAt 2 cfg0.N := by
  unfold Wc1; exact Function.update_self ..
/-- After region 1: `main_v1` at what the pipeline's write-backs leave, every other buffer as entered. -/
def Wc2 (c : Dev nD) : Valuation τ sig (Elt F) :=
  Function.update (Wc1 m c) main_v1 ((dat1 (Vc1 m) c).arrAt 2 cfg1.N)
abbrev Vc2 : (c : Dev nD) → (b : Ref sig .tc) → Buf (Elt F) ((c : Thread nD τ).loc b) := fun c b => Wc2 m c b
theorem Wc2_out (c : Dev nD) : Wc2 m c main_v1 = (dat1 (Vc1 m) c).arrAt 2 cfg1.N := by
  unfold Wc2; exact Function.update_self ..
/-- After the host stretch `hostOps2`. -/
abbrev Wc3 (c : Dev nD) : Valuation τ sig (Elt F) := StableHlo.after hostOps2 (Wc2 m c)
abbrev Vc3 : (c : Dev nD) → (b : Ref sig .tc) → Buf (Elt F) ((c : Thread nD τ).loc b) := fun c b => Wc3 m c b
/-- After region 2: `main_v28` at what the pipeline's write-backs leave, every other buffer as entered. -/
def Wc4 (c : Dev nD) : Valuation τ sig (Elt F) :=
  Function.update (Wc3 m c) main_v28 ((dat2 (Vc3 m) c).arrAt 1 cfg2.N)
abbrev Vc4 : (c : Dev nD) → (b : Ref sig .tc) → Buf (Elt F) ((c : Thread nD τ).loc b) := fun c b => Wc4 m c b
theorem Wc4_out (c : Dev nD) : Wc4 m c main_v28 = (dat2 (Vc3 m) c).arrAt 1 cfg2.N := by
  unfold Wc4; exact Function.update_self ..
/-- After region 3: `main_v29` at what the pipeline's write-backs leave, every other buffer as entered. -/
def Wc5 (c : Dev nD) : Valuation τ sig (Elt F) :=
  Function.update (Wc4 m c) main_v29 ((dat3 (Vc4 m) c).arrAt 1 cfg3.N)
abbrev Vc5 : (c : Dev nD) → (b : Ref sig .tc) → Buf (Elt F) ((c : Thread nD τ).loc b) := fun c b => Wc5 m c b
theorem Wc5_out (c : Dev nD) : Wc5 m c main_v29 = (dat3 (Vc4 m) c).arrAt 1 cfg3.N := by
  unfold Wc5; exact Function.update_self ..
/-- After the host stretch `hostOps4`. -/
abbrev Wc6 (c : Dev nD) : Valuation τ sig (Elt F) := StableHlo.after hostOps4 (Wc5 m c)
abbrev Vc6 : (c : Dev nD) → (b : Ref sig .tc) → Buf (Elt F) ((c : Thread nD τ).loc b) := fun c b => Wc6 m c b
/-- After region 4: `main_v32` at what the pipeline's write-backs leave, every other buffer as entered. -/
def Wc7 (c : Dev nD) : Valuation τ sig (Elt F) :=
  Function.update (Wc6 m c) main_v32 ((dat4 (Vc6 m) c).arrAt 2 cfg4.N)
abbrev Vc7 : (c : Dev nD) → (b : Ref sig .tc) → Buf (Elt F) ((c : Thread nD τ).loc b) := fun c b => Wc7 m c b
theorem Wc7_out (c : Dev nD) : Wc7 m c main_v32 = (dat4 (Vc6 m) c).arrAt 2 cfg4.N := by
  unfold Wc7; exact Function.update_self ..
/-- After the host stretch `hostOps5`. -/
abbrev Wc8 (c : Dev nD) : Valuation τ sig (Elt F) := StableHlo.after hostOps5 (Wc7 m c)
abbrev Vc8 : (c : Dev nD) → (b : Ref sig .tc) → Buf (Elt F) ((c : Thread nD τ).loc b) := fun c b => Wc8 m c b
/-- After region 5: `main_v57` at what the pipeline's write-backs leave, every other buffer as entered. -/
def Wc9 (c : Dev nD) : Valuation τ sig (Elt F) :=
  Function.update (Wc8 m c) main_v57 ((dat5 (Vc8 m) c).arrAt 2 cfg5.N)
abbrev Vc9 : (c : Dev nD) → (b : Ref sig .tc) → Buf (Elt F) ((c : Thread nD τ).loc b) := fun c b => Wc9 m c b
theorem Wc9_out (c : Dev nD) : Wc9 m c main_v57 = (dat5 (Vc8 m) c).arrAt 2 cfg5.N := by
  unfold Wc9; exact Function.update_self ..
/-- After the host stretch `hostOps6`. -/
abbrev Wc10 (c : Dev nD) : Valuation τ sig (Elt F) := StableHlo.after hostOps6 (Wc9 m c)
abbrev Vc10 : (c : Dev nD) → (b : Ref sig .tc) → Buf (Elt F) ((c : Thread nD τ).loc b) := fun c b => Wc10 m c b
/-- After region 6: `main_v60` at what the pipeline's write-backs leave, every other buffer as entered. -/
def Wc11 (c : Dev nD) : Valuation τ sig (Elt F) :=
  Function.update (Wc10 m c) main_v60 ((dat6 (Vc10 m) c).arrAt 2 cfg6.N)
abbrev Vc11 : (c : Dev nD) → (b : Ref sig .tc) → Buf (Elt F) ((c : Thread nD τ).loc b) := fun c b => Wc11 m c b
theorem Wc11_out (c : Dev nD) : Wc11 m c main_v60 = (dat6 (Vc10 m) c).arrAt 2 cfg6.N := by
  unfold Wc11; exact Function.update_self ..
/-- After the host stretch `hostOps7`. -/
abbrev Wc12 (c : Dev nD) : Valuation τ sig (Elt F) := StableHlo.after hostOps7 (Wc11 m c)
abbrev Vc12 : (c : Dev nD) → (b : Ref sig .tc) → Buf (Elt F) ((c : Thread nD τ).loc b) := fun c b => Wc12 m c b
/-- After region 7: `main_v85` at what the pipeline's write-backs leave, every other buffer as entered. -/
def Wc13 (c : Dev nD) : Valuation τ sig (Elt F) :=
  Function.update (Wc12 m c) main_v85 ((dat7 (Vc12 m) c).arrAt 2 cfg7.N)
abbrev Vc13 : (c : Dev nD) → (b : Ref sig .tc) → Buf (Elt F) ((c : Thread nD τ).loc b) := fun c b => Wc13 m c b
theorem Wc13_out (c : Dev nD) : Wc13 m c main_v85 = (dat7 (Vc12 m) c).arrAt 2 cfg7.N := by
  unfold Wc13; exact Function.update_self ..
/-- After the host stretch `hostOps8`. -/
abbrev Wc14 (c : Dev nD) : Valuation τ sig (Elt F) := StableHlo.after hostOps8 (Wc13 m c)
abbrev Vc14 : (c : Dev nD) → (b : Ref sig .tc) → Buf (Elt F) ((c : Thread nD τ).loc b) := fun c b => Wc14 m c b
/-- After region 8: `main_v116` at what the pipeline's write-backs leave, every other buffer as entered. -/
def Wc15 (c : Dev nD) : Valuation τ sig (Elt F) :=
  Function.update (Wc14 m c) main_v116 ((dat8 (Vc14 m) c).arrAt 1 cfg8.N)
abbrev Vc15 : (c : Dev nD) → (b : Ref sig .tc) → Buf (Elt F) ((c : Thread nD τ).loc b) := fun c b => Wc15 m c b
theorem Wc15_out (c : Dev nD) : Wc15 m c main_v116 = (dat8 (Vc14 m) c).arrAt 1 cfg8.N := by
  unfold Wc15; exact Function.update_self ..
/-- After region 9: `main_v117` at what the pipeline's write-backs leave, every other buffer as entered. -/
def Wc16 (c : Dev nD) : Valuation τ sig (Elt F) :=
  Function.update (Wc15 m c) main_v117 ((dat9 (Vc15 m) c).arrAt 1 cfg9.N)
abbrev Vc16 : (c : Dev nD) → (b : Ref sig .tc) → Buf (Elt F) ((c : Thread nD τ).loc b) := fun c b => Wc16 m c b
theorem Wc16_out (c : Dev nD) : Wc16 m c main_v117 = (dat9 (Vc15 m) c).arrAt 1 cfg9.N := by
  unfold Wc16; exact Function.update_self ..
/-- After the host stretch `hostOps10`. -/
abbrev Wc17 (c : Dev nD) : Valuation τ sig (Elt F) := StableHlo.after hostOps10 (Wc16 m c)
abbrev Vc17 : (c : Dev nD) → (b : Ref sig .tc) → Buf (Elt F) ((c : Thread nD τ).loc b) := fun c b => Wc17 m c b
/-- After region 10: `main_v120` at what the pipeline's write-backs leave, every other buffer as entered. -/
def Wc18 (c : Dev nD) : Valuation τ sig (Elt F) :=
  Function.update (Wc17 m c) main_v120 ((dat10 (Vc17 m) c).arrAt 2 cfg10.N)
abbrev Vc18 : (c : Dev nD) → (b : Ref sig .tc) → Buf (Elt F) ((c : Thread nD τ).loc b) := fun c b => Wc18 m c b
theorem Wc18_out (c : Dev nD) : Wc18 m c main_v120 = (dat10 (Vc17 m) c).arrAt 2 cfg10.N := by
  unfold Wc18; exact Function.update_self ..
/-- After the host stretch `hostOps11`. -/
abbrev Wc19 (c : Dev nD) : Valuation τ sig (Elt F) := StableHlo.after hostOps11 (Wc18 m c)
abbrev Vc19 : (c : Dev nD) → (b : Ref sig .tc) → Buf (Elt F) ((c : Thread nD τ).loc b) := fun c b => Wc19 m c b
/-- After region 11: `main_v145` at what the pipeline's write-backs leave, every other buffer as entered. -/
def Wc20 (c : Dev nD) : Valuation τ sig (Elt F) :=
  Function.update (Wc19 m c) main_v145 ((dat11 (Vc19 m) c).arrAt 2 cfg11.N)
abbrev Vc20 : (c : Dev nD) → (b : Ref sig .tc) → Buf (Elt F) ((c : Thread nD τ).loc b) := fun c b => Wc20 m c b
theorem Wc20_out (c : Dev nD) : Wc20 m c main_v145 = (dat11 (Vc19 m) c).arrAt 2 cfg11.N := by
  unfold Wc20; exact Function.update_self ..
/-- After the host stretch `hostOps12`. -/
abbrev Wc21 (c : Dev nD) : Valuation τ sig (Elt F) := StableHlo.after hostOps12 (Wc20 m c)
abbrev Vc21 : (c : Dev nD) → (b : Ref sig .tc) → Buf (Elt F) ((c : Thread nD τ).loc b) := fun c b => Wc21 m c b
/-- After region 12: `main_v148` at what the pipeline's write-backs leave, every other buffer as entered. -/
def Wc22 (c : Dev nD) : Valuation τ sig (Elt F) :=
  Function.update (Wc21 m c) main_v148 ((dat12 (Vc21 m) c).arrAt 2 cfg12.N)
abbrev Vc22 : (c : Dev nD) → (b : Ref sig .tc) → Buf (Elt F) ((c : Thread nD τ).loc b) := fun c b => Wc22 m c b
theorem Wc22_out (c : Dev nD) : Wc22 m c main_v148 = (dat12 (Vc21 m) c).arrAt 2 cfg12.N := by
  unfold Wc22; exact Function.update_self ..
/-- After the host stretch `hostOps13`. -/
abbrev Wc23 (c : Dev nD) : Valuation τ sig (Elt F) := StableHlo.after hostOps13 (Wc22 m c)
abbrev Vc23 : (c : Dev nD) → (b : Ref sig .tc) → Buf (Elt F) ((c : Thread nD τ).loc b) := fun c b => Wc23 m c b
/-- After region 13: `main_v173` at what the pipeline's write-backs leave, every other buffer as entered. -/
def Wc24 (c : Dev nD) : Valuation τ sig (Elt F) :=
  Function.update (Wc23 m c) main_v173 ((dat13 (Vc23 m) c).arrAt 2 cfg13.N)
abbrev Vc24 : (c : Dev nD) → (b : Ref sig .tc) → Buf (Elt F) ((c : Thread nD τ).loc b) := fun c b => Wc24 m c b
theorem Wc24_out (c : Dev nD) : Wc24 m c main_v173 = (dat13 (Vc23 m) c).arrAt 2 cfg13.N := by
  unfold Wc24; exact Function.update_self ..
/-- After the host stretch `hostOps14`. -/
abbrev Wc25 (c : Dev nD) : Valuation τ sig (Elt F) := StableHlo.after hostOps14 (Wc24 m c)
abbrev Vc25 : (c : Dev nD) → (b : Ref sig .tc) → Buf (Elt F) ((c : Thread nD τ).loc b) := fun c b => Wc25 m c b
/-- After the host stretch `hostOps14_1`. -/
abbrev Wc26 (c : Dev nD) : Valuation τ sig (Elt F) := StableHlo.after hostOps14_1 (Wc25 m c)
abbrev Vc26 : (c : Dev nD) → (b : Ref sig .tc) → Buf (Elt F) ((c : Thread nD τ).loc b) := fun c b => Wc26 m c b
/-- After the host stretch `hostOps14_2`. -/
abbrev Wc27 (c : Dev nD) : Valuation τ sig (Elt F) := StableHlo.after hostOps14_2 (Wc26 m c)
abbrev Vc27 : (c : Dev nD) → (b : Ref sig .tc) → Buf (Elt F) ((c : Thread nD τ).loc b) := fun c b => Wc27 m c b
/-- After the host stretch `hostOps14_3`. -/
abbrev Wc28 (c : Dev nD) : Valuation τ sig (Elt F) := StableHlo.after hostOps14_3 (Wc27 m c)
abbrev Vc28 : (c : Dev nD) → (b : Ref sig .tc) → Buf (Elt F) ((c : Thread nD τ).loc b) := fun c b => Wc28 m c b
/-- After the host stretch `hostOps14_4`. -/
abbrev Wc29 (c : Dev nD) : Valuation τ sig (Elt F) := StableHlo.after hostOps14_4 (Wc28 m c)
abbrev Vc29 : (c : Dev nD) → (b : Ref sig .tc) → Buf (Elt F) ((c : Thread nD τ).loc b) := fun c b => Wc29 m c b
/-- After the host stretch `hostOps14_5`. -/
abbrev Wc30 (c : Dev nD) : Valuation τ sig (Elt F) := StableHlo.after hostOps14_5 (Wc29 m c)
abbrev Vc30 : (c : Dev nD) → (b : Ref sig .tc) → Buf (Elt F) ((c : Thread nD τ).loc b) := fun c b => Wc30 m c b
/-- After the host stretch `hostOps14_6`. -/
abbrev Wc31 (c : Dev nD) : Valuation τ sig (Elt F) := StableHlo.after hostOps14_6 (Wc30 m c)
abbrev Vc31 : (c : Dev nD) → (b : Ref sig .tc) → Buf (Elt F) ((c : Thread nD τ).loc b) := fun c b => Wc31 m c b
/-- After the host stretch `hostOps14_7`. -/
abbrev Wc32 (c : Dev nD) : Valuation τ sig (Elt F) := StableHlo.after hostOps14_7 (Wc31 m c)
abbrev Vc32 : (c : Dev nD) → (b : Ref sig .tc) → Buf (Elt F) ((c : Thread nD τ).loc b) := fun c b => Wc32 m c b
/-- After region 14: `main_v230` at what the pipeline's write-backs leave, every other buffer as entered. -/
def Wc33 (c : Dev nD) : Valuation τ sig (Elt F) :=
  Function.update (Wc32 m c) main_v230 ((dat14 (Vc32 m) c).arrAt 2 cfg14.N)
abbrev Vc33 : (c : Dev nD) → (b : Ref sig .tc) → Buf (Elt F) ((c : Thread nD τ).loc b) := fun c b => Wc33 m c b
theorem Wc33_out (c : Dev nD) : Wc33 m c main_v230 = (dat14 (Vc32 m) c).arrAt 2 cfg14.N := by
  unfold Wc33; exact Function.update_self ..
/-- After the host stretch `hostOps15`. -/
abbrev Wc34 (c : Dev nD) : Valuation τ sig (Elt F) := StableHlo.after hostOps15 (Wc33 m c)
abbrev Vc34 : (c : Dev nD) → (b : Ref sig .tc) → Buf (Elt F) ((c : Thread nD τ).loc b) := fun c b => Wc34 m c b
/-- After region 15: `main_v236` at what the pipeline's write-backs leave, every other buffer as entered. -/
def Wc35 (c : Dev nD) : Valuation τ sig (Elt F) :=
  Function.update (Wc34 m c) main_v236 ((dat15 (Vc34 m) c).arrAt 2 cfg15.N)
abbrev Vc35 : (c : Dev nD) → (b : Ref sig .tc) → Buf (Elt F) ((c : Thread nD τ).loc b) := fun c b => Wc35 m c b
theorem Wc35_out (c : Dev nD) : Wc35 m c main_v236 = (dat15 (Vc34 m) c).arrAt 2 cfg15.N := by
  unfold Wc35; exact Function.update_self ..
/-- After the host stretch `hostOps16`. -/
abbrev Wc36 (c : Dev nD) : Valuation τ sig (Elt F) := StableHlo.after hostOps16 (Wc35 m c)
abbrev Vc36 : (c : Dev nD) → (b : Ref sig .tc) → Buf (Elt F) ((c : Thread nD τ).loc b) := fun c b => Wc36 m c b
/-- After the host stretch `hostOps16_1`. -/
abbrev Wc37 (c : Dev nD) : Valuation τ sig (Elt F) := StableHlo.after hostOps16_1 (Wc36 m c)
abbrev Vc37 : (c : Dev nD) → (b : Ref sig .tc) → Buf (Elt F) ((c : Thread nD τ).loc b) := fun c b => Wc37 m c b
/-- After the host stretch `hostOps16_2`. -/
abbrev Wc38 (c : Dev nD) : Valuation τ sig (Elt F) := StableHlo.after hostOps16_2 (Wc37 m c)
abbrev Vc38 : (c : Dev nD) → (b : Ref sig .tc) → Buf (Elt F) ((c : Thread nD τ).loc b) := fun c b => Wc38 m c b
/-- After the host stretch `hostOps16_3`. -/
abbrev Wc39 (c : Dev nD) : Valuation τ sig (Elt F) := StableHlo.after hostOps16_3 (Wc38 m c)
abbrev Vc39 : (c : Dev nD) → (b : Ref sig .tc) → Buf (Elt F) ((c : Thread nD τ).loc b) := fun c b => Wc39 m c b
/-- After the host stretch `hostOps16_4`. -/
abbrev Wc40 (c : Dev nD) : Valuation τ sig (Elt F) := StableHlo.after hostOps16_4 (Wc39 m c)
abbrev Vc40 : (c : Dev nD) → (b : Ref sig .tc) → Buf (Elt F) ((c : Thread nD τ).loc b) := fun c b => Wc40 m c b
/-- After region 16: `main_v273` at what the pipeline's write-backs leave, every other buffer as entered. -/
def Wc41 (c : Dev nD) : Valuation τ sig (Elt F) :=
  Function.update (Wc40 m c) main_v273 ((dat16 (Vc40 m) c).arrAt 2 cfg16.N)
abbrev Vc41 : (c : Dev nD) → (b : Ref sig .tc) → Buf (Elt F) ((c : Thread nD τ).loc b) := fun c b => Wc41 m c b
theorem Wc41_out (c : Dev nD) : Wc41 m c main_v273 = (dat16 (Vc40 m) c).arrAt 2 cfg16.N := by
  unfold Wc41; exact Function.update_self ..
/-- After the host stretch `hostOps17`. -/
abbrev Wc42 (c : Dev nD) : Valuation τ sig (Elt F) := StableHlo.after hostOps17 (Wc41 m c)
abbrev Vc42 : (c : Dev nD) → (b : Ref sig .tc) → Buf (Elt F) ((c : Thread nD τ).loc b) := fun c b => Wc42 m c b
/-- After region 17: `main_v279` at what the pipeline's write-backs leave, every other buffer as entered. -/
def Wc43 (c : Dev nD) : Valuation τ sig (Elt F) :=
  Function.update (Wc42 m c) main_v279 ((dat17 (Vc42 m) c).arrAt 2 cfg17.N)
abbrev Vc43 : (c : Dev nD) → (b : Ref sig .tc) → Buf (Elt F) ((c : Thread nD τ).loc b) := fun c b => Wc43 m c b
theorem Wc43_out (c : Dev nD) : Wc43 m c main_v279 = (dat17 (Vc42 m) c).arrAt 2 cfg17.N := by
  unfold Wc43; exact Function.update_self ..
/-- After the host stretch `hostOps18`. -/
abbrev Wc44 (c : Dev nD) : Valuation τ sig (Elt F) := StableHlo.after hostOps18 (Wc43 m c)
abbrev Vc44 : (c : Dev nD) → (b : Ref sig .tc) → Buf (Elt F) ((c : Thread nD τ).loc b) := fun c b => Wc44 m c b
/-- After the host stretch `hostOps18_1`. -/
abbrev Wc45 (c : Dev nD) : Valuation τ sig (Elt F) := StableHlo.after hostOps18_1 (Wc44 m c)
abbrev Vc45 : (c : Dev nD) → (b : Ref sig .tc) → Buf (Elt F) ((c : Thread nD τ).loc b) := fun c b => Wc45 m c b
/-- After the host stretch `hostOps18_2`. -/
abbrev Wc46 (c : Dev nD) : Valuation τ sig (Elt F) := StableHlo.after hostOps18_2 (Wc45 m c)
abbrev Vc46 : (c : Dev nD) → (b : Ref sig .tc) → Buf (Elt F) ((c : Thread nD τ).loc b) := fun c b => Wc46 m c b
/-- After the host stretch `hostOps18_3`. -/
abbrev Wc47 (c : Dev nD) : Valuation τ sig (Elt F) := StableHlo.after hostOps18_3 (Wc46 m c)
abbrev Vc47 : (c : Dev nD) → (b : Ref sig .tc) → Buf (Elt F) ((c : Thread nD τ).loc b) := fun c b => Wc47 m c b
/-- After the host stretch `hostOps18_4`. -/
abbrev Wc48 (c : Dev nD) : Valuation τ sig (Elt F) := StableHlo.after hostOps18_4 (Wc47 m c)
abbrev Vc48 : (c : Dev nD) → (b : Ref sig .tc) → Buf (Elt F) ((c : Thread nD τ).loc b) := fun c b => Wc48 m c b
/-- After region 18: `main_v316` at what the pipeline's write-backs leave, every other buffer as entered. -/
def Wc49 (c : Dev nD) : Valuation τ sig (Elt F) :=
  Function.update (Wc48 m c) main_v316 ((dat18 (Vc48 m) c).arrAt 2 cfg18.N)
abbrev Vc49 : (c : Dev nD) → (b : Ref sig .tc) → Buf (Elt F) ((c : Thread nD τ).loc b) := fun c b => Wc49 m c b
theorem Wc49_out (c : Dev nD) : Wc49 m c main_v316 = (dat18 (Vc48 m) c).arrAt 2 cfg18.N := by
  unfold Wc49; exact Function.update_self ..
/-- After the host stretch `hostOps19`. -/
abbrev Wc50 (c : Dev nD) : Valuation τ sig (Elt F) := StableHlo.after hostOps19 (Wc49 m c)
abbrev Vc50 : (c : Dev nD) → (b : Ref sig .tc) → Buf (Elt F) ((c : Thread nD τ).loc b) := fun c b => Wc50 m c b
/-- After region 19: `main_v322` at what the pipeline's write-backs leave, every other buffer as entered. -/
def Wc51 (c : Dev nD) : Valuation τ sig (Elt F) :=
  Function.update (Wc50 m c) main_v322 ((dat19 (Vc50 m) c).arrAt 2 cfg19.N)
abbrev Vc51 : (c : Dev nD) → (b : Ref sig .tc) → Buf (Elt F) ((c : Thread nD τ).loc b) := fun c b => Wc51 m c b
theorem Wc51_out (c : Dev nD) : Wc51 m c main_v322 = (dat19 (Vc50 m) c).arrAt 2 cfg19.N := by
  unfold Wc51; exact Function.update_self ..
/-- After the host stretch `hostOps20`. -/
abbrev Wc52 (c : Dev nD) : Valuation τ sig (Elt F) := StableHlo.after hostOps20 (Wc51 m c)
abbrev Vc52 : (c : Dev nD) → (b : Ref sig .tc) → Buf (Elt F) ((c : Thread nD τ).loc b) := fun c b => Wc52 m c b
/-- After the host stretch `hostOps20_1`. -/
abbrev Wc53 (c : Dev nD) : Valuation τ sig (Elt F) := StableHlo.after hostOps20_1 (Wc52 m c)
abbrev Vc53 : (c : Dev nD) → (b : Ref sig .tc) → Buf (Elt F) ((c : Thread nD τ).loc b) := fun c b => Wc53 m c b
/-- After the host stretch `hostOps20_2`. -/
abbrev Wc54 (c : Dev nD) : Valuation τ sig (Elt F) := StableHlo.after hostOps20_2 (Wc53 m c)
abbrev Vc54 : (c : Dev nD) → (b : Ref sig .tc) → Buf (Elt F) ((c : Thread nD τ).loc b) := fun c b => Wc54 m c b
/-- After the host stretch `hostOps20_3`. -/
abbrev Wc55 (c : Dev nD) : Valuation τ sig (Elt F) := StableHlo.after hostOps20_3 (Wc54 m c)
abbrev Vc55 : (c : Dev nD) → (b : Ref sig .tc) → Buf (Elt F) ((c : Thread nD τ).loc b) := fun c b => Wc55 m c b
/-- After the host stretch `hostOps20_4`. -/
abbrev Wc56 (c : Dev nD) : Valuation τ sig (Elt F) := StableHlo.after hostOps20_4 (Wc55 m c)
abbrev Vc56 : (c : Dev nD) → (b : Ref sig .tc) → Buf (Elt F) ((c : Thread nD τ).loc b) := fun c b => Wc56 m c b
/-- After region 20: `main_v359` at what the pipeline's write-backs leave, every other buffer as entered. -/
def Wc57 (c : Dev nD) : Valuation τ sig (Elt F) :=
  Function.update (Wc56 m c) main_v359 ((dat20 (Vc56 m) c).arrAt 2 cfg20.N)
abbrev Vc57 : (c : Dev nD) → (b : Ref sig .tc) → Buf (Elt F) ((c : Thread nD τ).loc b) := fun c b => Wc57 m c b
theorem Wc57_out (c : Dev nD) : Wc57 m c main_v359 = (dat20 (Vc56 m) c).arrAt 2 cfg20.N := by
  unfold Wc57; exact Function.update_self ..
/-- After the host stretch `hostOps21`. -/
abbrev Wc58 (c : Dev nD) : Valuation τ sig (Elt F) := StableHlo.after hostOps21 (Wc57 m c)
abbrev Vc58 : (c : Dev nD) → (b : Ref sig .tc) → Buf (Elt F) ((c : Thread nD τ).loc b) := fun c b => Wc58 m c b
/-- After region 21: `main_v365` at what the pipeline's write-backs leave, every other buffer as entered. -/
def Wc59 (c : Dev nD) : Valuation τ sig (Elt F) :=
  Function.update (Wc58 m c) main_v365 ((dat21 (Vc58 m) c).arrAt 2 cfg21.N)
abbrev Vc59 : (c : Dev nD) → (b : Ref sig .tc) → Buf (Elt F) ((c : Thread nD τ).loc b) := fun c b => Wc59 m c b
theorem Wc59_out (c : Dev nD) : Wc59 m c main_v365 = (dat21 (Vc58 m) c).arrAt 2 cfg21.N := by
  unfold Wc59; exact Function.update_self ..
/-- After the host stretch `hostOps22`. -/
abbrev Wc60 (c : Dev nD) : Valuation τ sig (Elt F) := StableHlo.after hostOps22 (Wc59 m c)
abbrev Vc60 : (c : Dev nD) → (b : Ref sig .tc) → Buf (Elt F) ((c : Thread nD τ).loc b) := fun c b => Wc60 m c b

/-- What the regions leave in the arrays they may change: the chain's contents, read at each region's exit. -/
def outsF : GenP.Outs (F := F) := fun J r c => match J with
  | 1 => Wc1 m c r
  | 2 => Wc2 m c r
  | 4 => Wc4 m c r
  | 5 => Wc5 m c r
  | 7 => Wc7 m c r
  | 9 => Wc9 m c r
  | 11 => Wc11 m c r
  | 13 => Wc13 m c r
  | 15 => Wc15 m c r
  | 16 => Wc16 m c r
  | 18 => Wc18 m c r
  | 20 => Wc20 m c r
  | 22 => Wc22 m c r
  | 24 => Wc24 m c r
  | 33 => Wc33 m c r
  | 35 => Wc35 m c r
  | 41 => Wc41 m c r
  | 43 => Wc43 m c r
  | 49 => Wc49 m c r
  | 51 => Wc51 m c r
  | 57 => Wc57 m c r
  | 59 => Wc59 m c r
  | _ => Wc0 m c r

theorem V0_eq (c : Dev nD) : GenP.V0 m c = Wc0 m c := rfl
theorem V1_eq (c : Dev nD) : GenP.V1 m (outsF m) c = Wc1 m c := by
  show Function.update (GenP.V0 m c) main_v0 (Wc1 m c main_v0) = _
  rw [V0_eq, Wc1_out]; rfl
theorem V2_eq (c : Dev nD) : GenP.V2 m (outsF m) c = Wc2 m c := by
  show Function.update (GenP.V1 m (outsF m) c) main_v1 (Wc2 m c main_v1) = _
  rw [V1_eq, Wc2_out]; rfl
theorem V3_eq (c : Dev nD) : GenP.V3 m (outsF m) c = Wc3 m c := by
  show StableHlo.after hostOps2 (GenP.V2 m (outsF m) c) = _
  rw [V2_eq]
theorem V4_eq (c : Dev nD) : GenP.V4 m (outsF m) c = Wc4 m c := by
  show Function.update (GenP.V3 m (outsF m) c) main_v28 (Wc4 m c main_v28) = _
  rw [V3_eq, Wc4_out]; rfl
theorem V5_eq (c : Dev nD) : GenP.V5 m (outsF m) c = Wc5 m c := by
  show Function.update (GenP.V4 m (outsF m) c) main_v29 (Wc5 m c main_v29) = _
  rw [V4_eq, Wc5_out]; rfl
theorem V6_eq (c : Dev nD) : GenP.V6 m (outsF m) c = Wc6 m c := by
  show StableHlo.after hostOps4 (GenP.V5 m (outsF m) c) = _
  rw [V5_eq]
theorem V7_eq (c : Dev nD) : GenP.V7 m (outsF m) c = Wc7 m c := by
  show Function.update (GenP.V6 m (outsF m) c) main_v32 (Wc7 m c main_v32) = _
  rw [V6_eq, Wc7_out]; rfl
theorem V8_eq (c : Dev nD) : GenP.V8 m (outsF m) c = Wc8 m c := by
  show StableHlo.after hostOps5 (GenP.V7 m (outsF m) c) = _
  rw [V7_eq]
theorem V9_eq (c : Dev nD) : GenP.V9 m (outsF m) c = Wc9 m c := by
  show Function.update (GenP.V8 m (outsF m) c) main_v57 (Wc9 m c main_v57) = _
  rw [V8_eq, Wc9_out]; rfl
theorem V10_eq (c : Dev nD) : GenP.V10 m (outsF m) c = Wc10 m c := by
  show StableHlo.after hostOps6 (GenP.V9 m (outsF m) c) = _
  rw [V9_eq]
theorem V11_eq (c : Dev nD) : GenP.V11 m (outsF m) c = Wc11 m c := by
  show Function.update (GenP.V10 m (outsF m) c) main_v60 (Wc11 m c main_v60) = _
  rw [V10_eq, Wc11_out]; rfl
theorem V12_eq (c : Dev nD) : GenP.V12 m (outsF m) c = Wc12 m c := by
  show StableHlo.after hostOps7 (GenP.V11 m (outsF m) c) = _
  rw [V11_eq]
theorem V13_eq (c : Dev nD) : GenP.V13 m (outsF m) c = Wc13 m c := by
  show Function.update (GenP.V12 m (outsF m) c) main_v85 (Wc13 m c main_v85) = _
  rw [V12_eq, Wc13_out]; rfl
theorem V14_eq (c : Dev nD) : GenP.V14 m (outsF m) c = Wc14 m c := by
  show StableHlo.after hostOps8 (GenP.V13 m (outsF m) c) = _
  rw [V13_eq]
theorem V15_eq (c : Dev nD) : GenP.V15 m (outsF m) c = Wc15 m c := by
  show Function.update (GenP.V14 m (outsF m) c) main_v116 (Wc15 m c main_v116) = _
  rw [V14_eq, Wc15_out]; rfl
theorem V16_eq (c : Dev nD) : GenP.V16 m (outsF m) c = Wc16 m c := by
  show Function.update (GenP.V15 m (outsF m) c) main_v117 (Wc16 m c main_v117) = _
  rw [V15_eq, Wc16_out]; rfl
theorem V17_eq (c : Dev nD) : GenP.V17 m (outsF m) c = Wc17 m c := by
  show StableHlo.after hostOps10 (GenP.V16 m (outsF m) c) = _
  rw [V16_eq]
theorem V18_eq (c : Dev nD) : GenP.V18 m (outsF m) c = Wc18 m c := by
  show Function.update (GenP.V17 m (outsF m) c) main_v120 (Wc18 m c main_v120) = _
  rw [V17_eq, Wc18_out]; rfl
theorem V19_eq (c : Dev nD) : GenP.V19 m (outsF m) c = Wc19 m c := by
  show StableHlo.after hostOps11 (GenP.V18 m (outsF m) c) = _
  rw [V18_eq]
theorem V20_eq (c : Dev nD) : GenP.V20 m (outsF m) c = Wc20 m c := by
  show Function.update (GenP.V19 m (outsF m) c) main_v145 (Wc20 m c main_v145) = _
  rw [V19_eq, Wc20_out]; rfl
theorem V21_eq (c : Dev nD) : GenP.V21 m (outsF m) c = Wc21 m c := by
  show StableHlo.after hostOps12 (GenP.V20 m (outsF m) c) = _
  rw [V20_eq]
theorem V22_eq (c : Dev nD) : GenP.V22 m (outsF m) c = Wc22 m c := by
  show Function.update (GenP.V21 m (outsF m) c) main_v148 (Wc22 m c main_v148) = _
  rw [V21_eq, Wc22_out]; rfl
theorem V23_eq (c : Dev nD) : GenP.V23 m (outsF m) c = Wc23 m c := by
  show StableHlo.after hostOps13 (GenP.V22 m (outsF m) c) = _
  rw [V22_eq]
theorem V24_eq (c : Dev nD) : GenP.V24 m (outsF m) c = Wc24 m c := by
  show Function.update (GenP.V23 m (outsF m) c) main_v173 (Wc24 m c main_v173) = _
  rw [V23_eq, Wc24_out]; rfl
theorem V25_eq (c : Dev nD) : GenP.V25 m (outsF m) c = Wc25 m c := by
  show StableHlo.after hostOps14 (GenP.V24 m (outsF m) c) = _
  rw [V24_eq]
theorem V26_eq (c : Dev nD) : GenP.V26 m (outsF m) c = Wc26 m c := by
  show StableHlo.after hostOps14_1 (GenP.V25 m (outsF m) c) = _
  rw [V25_eq]
theorem V27_eq (c : Dev nD) : GenP.V27 m (outsF m) c = Wc27 m c := by
  show StableHlo.after hostOps14_2 (GenP.V26 m (outsF m) c) = _
  rw [V26_eq]
theorem V28_eq (c : Dev nD) : GenP.V28 m (outsF m) c = Wc28 m c := by
  show StableHlo.after hostOps14_3 (GenP.V27 m (outsF m) c) = _
  rw [V27_eq]
theorem V29_eq (c : Dev nD) : GenP.V29 m (outsF m) c = Wc29 m c := by
  show StableHlo.after hostOps14_4 (GenP.V28 m (outsF m) c) = _
  rw [V28_eq]
theorem V30_eq (c : Dev nD) : GenP.V30 m (outsF m) c = Wc30 m c := by
  show StableHlo.after hostOps14_5 (GenP.V29 m (outsF m) c) = _
  rw [V29_eq]
theorem V31_eq (c : Dev nD) : GenP.V31 m (outsF m) c = Wc31 m c := by
  show StableHlo.after hostOps14_6 (GenP.V30 m (outsF m) c) = _
  rw [V30_eq]
theorem V32_eq (c : Dev nD) : GenP.V32 m (outsF m) c = Wc32 m c := by
  show StableHlo.after hostOps14_7 (GenP.V31 m (outsF m) c) = _
  rw [V31_eq]
theorem V33_eq (c : Dev nD) : GenP.V33 m (outsF m) c = Wc33 m c := by
  show Function.update (GenP.V32 m (outsF m) c) main_v230 (Wc33 m c main_v230) = _
  rw [V32_eq, Wc33_out]; rfl
theorem V34_eq (c : Dev nD) : GenP.V34 m (outsF m) c = Wc34 m c := by
  show StableHlo.after hostOps15 (GenP.V33 m (outsF m) c) = _
  rw [V33_eq]
theorem V35_eq (c : Dev nD) : GenP.V35 m (outsF m) c = Wc35 m c := by
  show Function.update (GenP.V34 m (outsF m) c) main_v236 (Wc35 m c main_v236) = _
  rw [V34_eq, Wc35_out]; rfl
theorem V36_eq (c : Dev nD) : GenP.V36 m (outsF m) c = Wc36 m c := by
  show StableHlo.after hostOps16 (GenP.V35 m (outsF m) c) = _
  rw [V35_eq]
theorem V37_eq (c : Dev nD) : GenP.V37 m (outsF m) c = Wc37 m c := by
  show StableHlo.after hostOps16_1 (GenP.V36 m (outsF m) c) = _
  rw [V36_eq]
theorem V38_eq (c : Dev nD) : GenP.V38 m (outsF m) c = Wc38 m c := by
  show StableHlo.after hostOps16_2 (GenP.V37 m (outsF m) c) = _
  rw [V37_eq]
theorem V39_eq (c : Dev nD) : GenP.V39 m (outsF m) c = Wc39 m c := by
  show StableHlo.after hostOps16_3 (GenP.V38 m (outsF m) c) = _
  rw [V38_eq]
theorem V40_eq (c : Dev nD) : GenP.V40 m (outsF m) c = Wc40 m c := by
  show StableHlo.after hostOps16_4 (GenP.V39 m (outsF m) c) = _
  rw [V39_eq]
theorem V41_eq (c : Dev nD) : GenP.V41 m (outsF m) c = Wc41 m c := by
  show Function.update (GenP.V40 m (outsF m) c) main_v273 (Wc41 m c main_v273) = _
  rw [V40_eq, Wc41_out]; rfl
theorem V42_eq (c : Dev nD) : GenP.V42 m (outsF m) c = Wc42 m c := by
  show StableHlo.after hostOps17 (GenP.V41 m (outsF m) c) = _
  rw [V41_eq]
theorem V43_eq (c : Dev nD) : GenP.V43 m (outsF m) c = Wc43 m c := by
  show Function.update (GenP.V42 m (outsF m) c) main_v279 (Wc43 m c main_v279) = _
  rw [V42_eq, Wc43_out]; rfl
theorem V44_eq (c : Dev nD) : GenP.V44 m (outsF m) c = Wc44 m c := by
  show StableHlo.after hostOps18 (GenP.V43 m (outsF m) c) = _
  rw [V43_eq]
theorem V45_eq (c : Dev nD) : GenP.V45 m (outsF m) c = Wc45 m c := by
  show StableHlo.after hostOps18_1 (GenP.V44 m (outsF m) c) = _
  rw [V44_eq]
theorem V46_eq (c : Dev nD) : GenP.V46 m (outsF m) c = Wc46 m c := by
  show StableHlo.after hostOps18_2 (GenP.V45 m (outsF m) c) = _
  rw [V45_eq]
theorem V47_eq (c : Dev nD) : GenP.V47 m (outsF m) c = Wc47 m c := by
  show StableHlo.after hostOps18_3 (GenP.V46 m (outsF m) c) = _
  rw [V46_eq]
theorem V48_eq (c : Dev nD) : GenP.V48 m (outsF m) c = Wc48 m c := by
  show StableHlo.after hostOps18_4 (GenP.V47 m (outsF m) c) = _
  rw [V47_eq]
theorem V49_eq (c : Dev nD) : GenP.V49 m (outsF m) c = Wc49 m c := by
  show Function.update (GenP.V48 m (outsF m) c) main_v316 (Wc49 m c main_v316) = _
  rw [V48_eq, Wc49_out]; rfl
theorem V50_eq (c : Dev nD) : GenP.V50 m (outsF m) c = Wc50 m c := by
  show StableHlo.after hostOps19 (GenP.V49 m (outsF m) c) = _
  rw [V49_eq]
theorem V51_eq (c : Dev nD) : GenP.V51 m (outsF m) c = Wc51 m c := by
  show Function.update (GenP.V50 m (outsF m) c) main_v322 (Wc51 m c main_v322) = _
  rw [V50_eq, Wc51_out]; rfl
theorem V52_eq (c : Dev nD) : GenP.V52 m (outsF m) c = Wc52 m c := by
  show StableHlo.after hostOps20 (GenP.V51 m (outsF m) c) = _
  rw [V51_eq]
theorem V53_eq (c : Dev nD) : GenP.V53 m (outsF m) c = Wc53 m c := by
  show StableHlo.after hostOps20_1 (GenP.V52 m (outsF m) c) = _
  rw [V52_eq]
theorem V54_eq (c : Dev nD) : GenP.V54 m (outsF m) c = Wc54 m c := by
  show StableHlo.after hostOps20_2 (GenP.V53 m (outsF m) c) = _
  rw [V53_eq]
theorem V55_eq (c : Dev nD) : GenP.V55 m (outsF m) c = Wc55 m c := by
  show StableHlo.after hostOps20_3 (GenP.V54 m (outsF m) c) = _
  rw [V54_eq]
theorem V56_eq (c : Dev nD) : GenP.V56 m (outsF m) c = Wc56 m c := by
  show StableHlo.after hostOps20_4 (GenP.V55 m (outsF m) c) = _
  rw [V55_eq]
theorem V57_eq (c : Dev nD) : GenP.V57 m (outsF m) c = Wc57 m c := by
  show Function.update (GenP.V56 m (outsF m) c) main_v359 (Wc57 m c main_v359) = _
  rw [V56_eq, Wc57_out]; rfl
theorem V58_eq (c : Dev nD) : GenP.V58 m (outsF m) c = Wc58 m c := by
  show StableHlo.after hostOps21 (GenP.V57 m (outsF m) c) = _
  rw [V57_eq]
theorem V59_eq (c : Dev nD) : GenP.V59 m (outsF m) c = Wc59 m c := by
  show Function.update (GenP.V58 m (outsF m) c) main_v365 (Wc59 m c main_v365) = _
  rw [V58_eq, Wc59_out]; rfl
theorem V60_eq (c : Dev nD) : GenP.V60 m (outsF m) c = Wc60 m c := by
  show StableHlo.after hostOps22 (GenP.V59 m (outsF m) c) = _
  rw [V59_eq]

/-- Every pipeline's proof data, each at its region's entry contents. -/
def pdats : (p : Fin 22) → (c : Dev nD) → Dat τ (Elt F) Unit ℕ (UR sig nD τ) ℕ (cfgs p) c
  | ⟨0, _⟩ => fun c => dat0 (Vc0 m) c
  | ⟨1, _⟩ => fun c => dat1 (Vc1 m) c
  | ⟨2, _⟩ => fun c => dat2 (Vc3 m) c
  | ⟨3, _⟩ => fun c => dat3 (Vc4 m) c
  | ⟨4, _⟩ => fun c => dat4 (Vc6 m) c
  | ⟨5, _⟩ => fun c => dat5 (Vc8 m) c
  | ⟨6, _⟩ => fun c => dat6 (Vc10 m) c
  | ⟨7, _⟩ => fun c => dat7 (Vc12 m) c
  | ⟨8, _⟩ => fun c => dat8 (Vc14 m) c
  | ⟨9, _⟩ => fun c => dat9 (Vc15 m) c
  | ⟨10, _⟩ => fun c => dat10 (Vc17 m) c
  | ⟨11, _⟩ => fun c => dat11 (Vc19 m) c
  | ⟨12, _⟩ => fun c => dat12 (Vc21 m) c
  | ⟨13, _⟩ => fun c => dat13 (Vc23 m) c
  | ⟨14, _⟩ => fun c => dat14 (Vc32 m) c
  | ⟨15, _⟩ => fun c => dat15 (Vc34 m) c
  | ⟨16, _⟩ => fun c => dat16 (Vc40 m) c
  | ⟨17, _⟩ => fun c => dat17 (Vc42 m) c
  | ⟨18, _⟩ => fun c => dat18 (Vc48 m) c
  | ⟨19, _⟩ => fun c => dat19 (Vc50 m) c
  | ⟨20, _⟩ => fun c => dat20 (Vc56 m) c
  | ⟨21, _⟩ => fun c => dat21 (Vc58 m) c
  | ⟨_ + 22, h⟩ => absurd h (Nat.not_lt.2 (Nat.le_add_left _ _))

end Cert.Kernel.Fr

end
-- ==== Proof.KB.Common.lean ====
import proofs.«126270_j6725918785969_1_alg».proof.Proof.KB.Chain

/-!
# What every region's segment shares

No level is assigned and no core owes another anything; beside the buffers every segment carries the core's
generator register at some state and its dues, at nothing.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
abbrev L : GSem nD τ sig → Finset Unit := fun _ => ∅
abbrev lv : GSem nD τ sig → Unit → ℕ := fun _ _ => 0
/-- What rides beside the buffers through every segment. -/
abbrev R (c : Dev nD) : sProp 𝕄 := iprop((∃ r, prngReg c r) ∗ ∃ W, owes (c : Thread nD τ) (0 : CellTallies nD τ sig Unit) W)

end Cert.Kernel.Fr

end
-- ==== Proof.KB.Seg0.lean ====
import proofs.«126270_j6725918785969_1_alg».proof.Proof.KB.Chain
import proofs.«126270_j6725918785969_1_alg».proof.Proof.KB.Common

/-!
# Region 0 as a segment of the program

Entered from every unscoped buffer at the contents `Wc0`, left at `Wc1`: the region's arrays are split out
of the unscoped buffers at entry and put back at exit, the output array `main_v0` at what the write-backs leave
and every other buffer as it was; the generator register goes into the pipeline's invariant and comes back;
nothing is owed; the kernel has no semaphore of its own.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF0 (c : Dev nD) (w : Fin cfg0.W) : (dat0 (Vc0 m) c).arrAt w cfg0.N = Vc1 m c (Pipeline.arrRef spec0 w) :=
  match w with
  | ⟨0, _⟩ => (((dat0 (Vc0 m) c).arrAt_in 0 rfl _).trans (A_eq0 (Vc0 m) c 0)).trans
      (Function.update_of_ne (StableHlo.devRef_ne_of_ne (by decide)) _ _).symm
  | ⟨1, _⟩ => (((dat0 (Vc0 m) c).arrAt_in 1 rfl _).trans (A_eq0 (Vc0 m) c 1)).trans
      (Function.update_of_ne (StableHlo.devRef_ne_of_ne (by decide)) _ _).symm
  | ⟨2, _⟩ => (Wc1_out m c).symm

/-- Every buffer that is none of the region's arrays holds at exit what it held at entry. -/
theorem hrest0 (c : Dev nD) : ∀ b, b ∉ Finset.univ.image (Pipeline.arrRef spec0) → Vc1 m c b = Vc0 m c b :=
  fun b hb => Function.update_of_ne (StableHlo.devRef_ne_of_ne fun e => hb (Finset.mem_image.mpr ⟨2, Finset.mem_univ _, e.symm⟩)) _ _

set_option backward.isDefEq.respectTransparency.types false in
def reg0 : Pipeline.RegionSeg (pcfgs (F := F)) GenP.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vc0 m) c).loose
  hwaits := Pipeline.hwaits_of_owed_zero _ _ _ _ L lv 0 fun _ _ => rfl
  pre c := iprop(StableHlo.held (c : Thread nD τ) (Pipeline.ucRefs τ sig) (Wc0 m c) ∗ R c)
  post c := iprop(StableHlo.held (c : Thread nD τ) (Pipeline.ucRefs τ sig) (Wc1 m c) ∗ R c)
  X c := iprop(∃ r, prngReg c r)
  Y c := iprop(∃ r, prngReg c r)
  Z c := Pipeline.unscopedRest (Ix := Unit) (Name := ℕ) (U := UR sig nD τ) (Lvl := ℕ) spec0 c (Vc0 m c)
  hentry c := by
    rw [Pipeline.ownSems0_none]
    have hsplit := Pipeline.arrays_of_unscopedBufs (p := 0) (pcfgs (F := F)) GenP.adm (pdats m) launch0.win launch0.arr_whole c
      ((pdats m 0 c).share_full fun _ => rfl) (Vc0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) GenP.adm (Ix := Unit) (Name := ℕ) (U := UR sig nD τ) (Lvl := ℕ)
      launch0.win launch0.arr_whole c (pdats m) ((pdats m 0 c).share_full fun _ => rfl)
      (Vc0 m c) (Vc1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg1.lean ====
import proofs.«126270_j6725918785969_1_alg».proof.Proof.KB.Chain
import proofs.«126270_j6725918785969_1_alg».proof.Proof.KB.Common

/-!
# Region 1 as a segment of the program

Entered from every unscoped buffer at the contents `Wc1`, left at `Wc2`: the region's arrays are split out
of the unscoped buffers at entry and put back at exit, the output array `main_v1` at what the write-backs leave
and every other buffer as it was; the generator register goes into the pipeline's invariant and comes back;
nothing is owed; the kernel has no semaphore of its own.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF1 (c : Dev nD) (w : Fin cfg1.W) : (dat1 (Vc1 m) c).arrAt w cfg1.N = Vc2 m c (Pipeline.arrRef spec1 w) :=
  match w with
  | ⟨0, _⟩ => (((dat1 (Vc1 m) c).arrAt_in 0 rfl _).trans (A_eq1 (Vc1 m) c 0)).trans
      (Function.update_of_ne (StableHlo.devRef_ne_of_ne (by decide)) _ _).symm
  | ⟨1, _⟩ => (((dat1 (Vc1 m) c).arrAt_in 1 rfl _).trans (A_eq1 (Vc1 m) c 1)).trans
      (Function.update_of_ne (StableHlo.devRef_ne_of_ne (by decide)) _ _).symm
  | ⟨2, _⟩ => (Wc2_out m c).symm

/-- Every buffer that is none of the region's arrays holds at exit what it held at entry. -/
theorem hrest1 (c : Dev nD) : ∀ b, b ∉ Finset.univ.image (Pipeline.arrRef spec1) → Vc2 m c b = Vc1 m c b :=
  fun b hb => Function.update_of_ne (StableHlo.devRef_ne_of_ne fun e => hb (Finset.mem_image.mpr ⟨2, Finset.mem_univ _, e.symm⟩)) _ _

set_option backward.isDefEq.respectTransparency.types false in
def reg1 : Pipeline.RegionSeg (pcfgs (F := F)) GenP.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vc1 m) c).loose
  hwaits := Pipeline.hwaits_of_owed_zero _ _ _ _ L lv 1 fun _ _ => rfl
  pre c := iprop(StableHlo.held (c : Thread nD τ) (Pipeline.ucRefs τ sig) (Wc1 m c) ∗ R c)
  post c := iprop(StableHlo.held (c : Thread nD τ) (Pipeline.ucRefs τ sig) (Wc2 m c) ∗ R c)
  X c := iprop(∃ r, prngReg c r)
  Y c := iprop(∃ r, prngReg c r)
  Z c := Pipeline.unscopedRest (Ix := Unit) (Name := ℕ) (U := UR sig nD τ) (Lvl := ℕ) spec1 c (Vc1 m c)
  hentry c := by
    rw [Pipeline.ownSems0_none]
    have hsplit := Pipeline.arrays_of_unscopedBufs (p := 1) (pcfgs (F := F)) GenP.adm (pdats m) launch1.win launch1.arr_whole c
      ((pdats m 1 c).share_full fun _ => rfl) (Vc1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) GenP.adm (Ix := Unit) (Name := ℕ) (U := UR sig nD τ) (Lvl := ℕ)
      launch1.win launch1.arr_whole c (pdats m) ((pdats m 1 c).share_full fun _ => rfl)
      (Vc1 m c) (Vc2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg2.lean ====
import proofs.«126270_j6725918785969_1_alg».proof.Proof.KB.Chain
import proofs.«126270_j6725918785969_1_alg».proof.Proof.KB.Common

/-!
# Region 2 as a segment of the program

Entered from every unscoped buffer at the contents `Wc3`, left at `Wc4`: the region's arrays are split out
of the unscoped buffers at entry and put back at exit, the output array `main_v28` at what the write-backs leave
and every other buffer as it was; the generator register goes into the pipeline's invariant and comes back;
nothing is owed; the kernel has no semaphore of its own.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF2 (c : Dev nD) (w : Fin cfg2.W) : (dat2 (Vc3 m) c).arrAt w cfg2.N = Vc4 m c (Pipeline.arrRef spec2 w) :=
  match w with
  | ⟨0, _⟩ => (((dat2 (Vc3 m) c).arrAt_in 0 rfl _).trans (A_eq2 (Vc3 m) c 0)).trans
      (Function.update_of_ne (StableHlo.devRef_ne_of_ne (by decide)) _ _).symm
  | ⟨1, _⟩ => (Wc4_out m c).symm

/-- Every buffer that is none of the region's arrays holds at exit what it held at entry. -/
theorem hrest2 (c : Dev nD) : ∀ b, b ∉ Finset.univ.image (Pipeline.arrRef spec2) → Vc4 m c b = Vc3 m c b :=
  fun b hb => Function.update_of_ne (StableHlo.devRef_ne_of_ne fun e => hb (Finset.mem_image.mpr ⟨1, Finset.mem_univ _, e.symm⟩)) _ _

set_option backward.isDefEq.respectTransparency.types false in
def reg2 : Pipeline.RegionSeg (pcfgs (F := F)) GenP.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vc3 m) c).loose
  hwaits := Pipeline.hwaits_of_owed_zero _ _ _ _ L lv 2 fun _ _ => rfl
  pre c := iprop(StableHlo.held (c : Thread nD τ) (Pipeline.ucRefs τ sig) (Wc3 m c) ∗ R c)
  post c := iprop(StableHlo.held (c : Thread nD τ) (Pipeline.ucRefs τ sig) (Wc4 m c) ∗ R c)
  X c := iprop(∃ r, prngReg c r)
  Y c := iprop(∃ r, prngReg c r)
  Z c := Pipeline.unscopedRest (Ix := Unit) (Name := ℕ) (U := UR sig nD τ) (Lvl := ℕ) spec2 c (Vc3 m c)
  hentry c := by
    rw [Pipeline.ownSems0_none]
    have hsplit := Pipeline.arrays_of_unscopedBufs (p := 2) (pcfgs (F := F)) GenP.adm (pdats m) launch2.win launch2.arr_whole c
      ((pdats m 2 c).share_full fun _ => rfl) (Vc3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) GenP.adm (Ix := Unit) (Name := ℕ) (U := UR sig nD τ) (Lvl := ℕ)
      launch2.win launch2.arr_whole c (pdats m) ((pdats m 2 c).share_full fun _ => rfl)
      (Vc3 m c) (Vc4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg3.lean ====
import proofs.«126270_j6725918785969_1_alg».proof.Proof.KB.Chain
import proofs.«126270_j6725918785969_1_alg».proof.Proof.KB.Common

/-!
# Region 3 as a segment of the program

Entered from every unscoped buffer at the contents `Wc4`, left at `Wc5`: the region's arrays are split out
of the unscoped buffers at entry and put back at exit, the output array `main_v29` at what the write-backs leave
and every other buffer as it was; the generator register goes into the pipeline's invariant and comes back;
nothing is owed; the kernel has no semaphore of its own.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF3 (c : Dev nD) (w : Fin cfg3.W) : (dat3 (Vc4 m) c).arrAt w cfg3.N = Vc5 m c (Pipeline.arrRef spec3 w) :=
  match w with
  | ⟨0, _⟩ => (((dat3 (Vc4 m) c).arrAt_in 0 rfl _).trans (A_eq3 (Vc4 m) c 0)).trans
      (Function.update_of_ne (StableHlo.devRef_ne_of_ne (by decide)) _ _).symm
  | ⟨1, _⟩ => (Wc5_out m c).symm

/-- Every buffer that is none of the region's arrays holds at exit what it held at entry. -/
theorem hrest3 (c : Dev nD) : ∀ b, b ∉ Finset.univ.image (Pipeline.arrRef spec3) → Vc5 m c b = Vc4 m c b :=
  fun b hb => Function.update_of_ne (StableHlo.devRef_ne_of_ne fun e => hb (Finset.mem_image.mpr ⟨1, Finset.mem_univ _, e.symm⟩)) _ _

set_option backward.isDefEq.respectTransparency.types false in
def reg3 : Pipeline.RegionSeg (pcfgs (F := F)) GenP.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vc4 m) c).loose
  hwaits := Pipeline.hwaits_of_owed_zero _ _ _ _ L lv 3 fun _ _ => rfl
  pre c := iprop(StableHlo.held (c : Thread nD τ) (Pipeline.ucRefs τ sig) (Wc4 m c) ∗ R c)
  post c := iprop(StableHlo.held (c : Thread nD τ) (Pipeline.ucRefs τ sig) (Wc5 m c) ∗ R c)
  X c := iprop(∃ r, prngReg c r)
  Y c := iprop(∃ r, prngReg c r)
  Z c := Pipeline.unscopedRest (Ix := Unit) (Name := ℕ) (U := UR sig nD τ) (Lvl := ℕ) spec3 c (Vc4 m c)
  hentry c := by
    rw [Pipeline.ownSems0_none]
    have hsplit := Pipeline.arrays_of_unscopedBufs (p := 3) (pcfgs (F := F)) GenP.adm (pdats m) launch3.win launch3.arr_whole c
      ((pdats m 3 c).share_full fun _ => rfl) (Vc4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) GenP.adm (Ix := Unit) (Name := ℕ) (U := UR sig nD τ) (Lvl := ℕ)
      launch3.win launch3.arr_whole c (pdats m) ((pdats m 3 c).share_full fun _ => rfl)
      (Vc4 m c) (Vc5 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg4.lean ====
import proofs.«126270_j6725918785969_1_alg».proof.Proof.KB.Chain
import proofs.«126270_j6725918785969_1_alg».proof.Proof.KB.Common

/-!
# Region 4 as a segment of the program

Entered from every unscoped buffer at the contents `Wc6`, left at `Wc7`: the region's arrays are split out
of the unscoped buffers at entry and put back at exit, the output array `main_v32` at what the write-backs leave
and every other buffer as it was; the generator register goes into the pipeline's invariant, which also carries the kernel's scratch accumulator from point to point, and comes back;
nothing is owed; the kernel has no semaphore of its own.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF4 (c : Dev nD) (w : Fin cfg4.W) : (dat4 (Vc6 m) c).arrAt w cfg4.N = Vc7 m c (Pipeline.arrRef spec4 w) :=
  match w with
  | ⟨0, _⟩ => (((dat4 (Vc6 m) c).arrAt_in 0 rfl _).trans (A_eq4 (Vc6 m) c 0)).trans
      (Function.update_of_ne (StableHlo.devRef_ne_of_ne (by decide)) _ _).symm
  | ⟨1, _⟩ => (((dat4 (Vc6 m) c).arrAt_in 1 rfl _).trans (A_eq4 (Vc6 m) c 1)).trans
      (Function.update_of_ne (StableHlo.devRef_ne_of_ne (by decide)) _ _).symm
  | ⟨2, _⟩ => (Wc7_out m c).symm

/-- Every buffer that is none of the region's arrays holds at exit what it held at entry. -/
theorem hrest4 (c : Dev nD) : ∀ b, b ∉ Finset.univ.image (Pipeline.arrRef spec4) → Vc7 m c b = Vc6 m c b :=
  fun b hb => Function.update_of_ne (StableHlo.devRef_ne_of_ne fun e => hb (Finset.mem_image.mpr ⟨2, Finset.mem_univ _, e.symm⟩)) _ _

set_option backward.isDefEq.respectTransparency.types false in
def reg4 : Pipeline.RegionSeg (pcfgs (F := F)) GenP.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vc6 m) c).loose
  hwaits := Pipeline.hwaits_of_owed_zero _ _ _ _ L lv 4 fun _ _ => rfl
  pre c := iprop(StableHlo.held (c : Thread nD τ) (Pipeline.ucRefs τ sig) (Wc6 m c) ∗ R c)
  post c := iprop(StableHlo.held (c : Thread nD τ) (Pipeline.ucRefs τ sig) (Wc7 m c) ∗ R c)
  X c := iprop(∃ r, prngReg c r)
  Y c := iprop(∃ r, prngReg c r)
  Z c := Pipeline.unscopedRest (Ix := Unit) (Name := ℕ) (U := UR sig nD τ) (Lvl := ℕ) spec4 c (Vc6 m c)
  hentry c := by
    rw [Pipeline.ownSems0_none]
    have hsplit := Pipeline.arrays_of_unscopedBufs (p := 4) (pcfgs (F := F)) GenP.adm (pdats m) launch4.win launch4.arr_whole c
      ((pdats m 4 c).share_full fun _ => rfl) (Vc6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin4 (Vc6 m) c
  hout c := hout4 (Vc6 m) c
  hexit c := by
    have hjoin := Pipeline.unscopedBufs_of_arrays (p := 4) (pcfgs (F := F)) GenP.adm (Ix := Unit) (Name := ℕ) (U := UR sig nD τ) (Lvl := ℕ)
      launch4.win launch4.arr_whole c (pdats m) ((pdats m 4 c).share_full fun _ => rfl)
      (Vc6 m c) (Vc7 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg5.lean ====
import proofs.«126270_j6725918785969_1_alg».proof.Proof.KB.Chain
import proofs.«126270_j6725918785969_1_alg».proof.Proof.KB.Common

/-!
# Region 5 as a segment of the program

Entered from every unscoped buffer at the contents `Wc8`, left at `Wc9`: the region's arrays are split out
of the unscoped buffers at entry and put back at exit, the output array `main_v57` at what the write-backs leave
and every other buffer as it was; the generator register goes into the pipeline's invariant and comes back;
nothing is owed; the kernel has no semaphore of its own.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF5 (c : Dev nD) (w : Fin cfg5.W) : (dat5 (Vc8 m) c).arrAt w cfg5.N = Vc9 m c (Pipeline.arrRef spec5 w) :=
  match w with
  | ⟨0, _⟩ => (((dat5 (Vc8 m) c).arrAt_in 0 rfl _).trans (A_eq5 (Vc8 m) c 0)).trans
      (Function.update_of_ne (StableHlo.devRef_ne_of_ne (by decide)) _ _).symm
  | ⟨1, _⟩ => (((dat5 (Vc8 m) c).arrAt_in 1 rfl _).trans (A_eq5 (Vc8 m) c 1)).trans
      (Function.update_of_ne (StableHlo.devRef_ne_of_ne (by decide)) _ _).symm
  | ⟨2, _⟩ => (Wc9_out m c).symm

/-- Every buffer that is none of the region's arrays holds at exit what it held at entry. -/
theorem hrest5 (c : Dev nD) : ∀ b, b ∉ Finset.univ.image (Pipeline.arrRef spec5) → Vc9 m c b = Vc8 m c b :=
  fun b hb => Function.update_of_ne (StableHlo.devRef_ne_of_ne fun e => hb (Finset.mem_image.mpr ⟨2, Finset.mem_univ _, e.symm⟩)) _ _

set_option backward.isDefEq.respectTransparency.types false in
def reg5 : Pipeline.RegionSeg (pcfgs (F := F)) GenP.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vc8 m) c).loose
  hwaits := Pipeline.hwaits_of_owed_zero _ _ _ _ L lv 5 fun _ _ => rfl
  pre c := iprop(StableHlo.held (c : Thread nD τ) (Pipeline.ucRefs τ sig) (Wc8 m c) ∗ R c)
  post c := iprop(StableHlo.held (c : Thread nD τ) (Pipeline.ucRefs τ sig) (Wc9 m c) ∗ R c)
  X c := iprop(∃ r, prngReg c r)
  Y c := iprop(∃ r, prngReg c r)
  Z c := Pipeline.unscopedRest (Ix := Unit) (Name := ℕ) (U := UR sig nD τ) (Lvl := ℕ) spec5 c (Vc8 m c)
  hentry c := by
    rw [Pipeline.ownSems0_none]
    have hsplit := Pipeline.arrays_of_unscopedBufs (p := 5) (pcfgs (F := F)) GenP.adm (pdats m) launch5.win launch5.arr_whole c
      ((pdats m 5 c).share_full fun _ => rfl) (Vc8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) GenP.adm (Ix := Unit) (Name := ℕ) (U := UR sig nD τ) (Lvl := ℕ)
      launch5.win launch5.arr_whole c (pdats m) ((pdats m 5 c).share_full fun _ => rfl)
      (Vc8 m c) (Vc9 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg6.lean ====
import proofs.«126270_j6725918785969_1_alg».proof.Proof.KB.Chain
import proofs.«126270_j6725918785969_1_alg».proof.Proof.KB.Common

/-!
# Region 6 as a segment of the program

Entered from every unscoped buffer at the contents `Wc10`, left at `Wc11`: the region's arrays are split out
of the unscoped buffers at entry and put back at exit, the output array `main_v60` at what the write-backs leave
and every other buffer as it was; the generator register goes into the pipeline's invariant, which also carries the kernel's scratch accumulator from point to point, and comes back;
nothing is owed; the kernel has no semaphore of its own.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF6 (c : Dev nD) (w : Fin cfg6.W) : (dat6 (Vc10 m) c).arrAt w cfg6.N = Vc11 m c (Pipeline.arrRef spec6 w) :=
  match w with
  | ⟨0, _⟩ => (((dat6 (Vc10 m) c).arrAt_in 0 rfl _).trans (A_eq6 (Vc10 m) c 0)).trans
      (Function.update_of_ne (StableHlo.devRef_ne_of_ne (by decide)) _ _).symm
  | ⟨1, _⟩ => (((dat6 (Vc10 m) c).arrAt_in 1 rfl _).trans (A_eq6 (Vc10 m) c 1)).trans
      (Function.update_of_ne (StableHlo.devRef_ne_of_ne (by decide)) _ _).symm
  | ⟨2, _⟩ => (Wc11_out m c).symm

/-- Every buffer that is none of the region's arrays holds at exit what it held at entry. -/
theorem hrest6 (c : Dev nD) : ∀ b, b ∉ Finset.univ.image (Pipeline.arrRef spec6) → Vc11 m c b = Vc10 m c b :=
  fun b hb => Function.update_of_ne (StableHlo.devRef_ne_of_ne fun e => hb (Finset.mem_image.mpr ⟨2, Finset.mem_univ _, e.symm⟩)) _ _

set_option backward.isDefEq.respectTransparency.types false in
def reg6 : Pipeline.RegionSeg (pcfgs (F := F)) GenP.adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vc10 m) c).loose
  hwaits := Pipeline.hwaits_of_owed_zero _ _ _ _ L lv 6 fun _ _ => rfl
  pre c := iprop(StableHlo.held (c : Thread nD τ) (Pipeline.ucRefs τ sig) (Wc10 m c) ∗ R c)
  post c := iprop(StableHlo.held (c : Thread nD τ) (Pipeline.ucRefs τ sig) (Wc11 m c) ∗ R c)
  X c := iprop(∃ r, prngReg c r)
  Y c := iprop(∃ r, prngReg c r)
  Z c := Pipeline.unscopedRest (Ix := Unit) (Name := ℕ) (U := UR sig nD τ) (Lvl := ℕ) spec6 c (Vc10 m c)
  hentry c := by
    rw [Pipeline.ownSems0_none]
    have hsplit := Pipeline.arrays_of_unscopedBufs (p := 6) (pcfgs (F := F)) GenP.adm (pdats m) launch6.win launch6.arr_whole c
      ((pdats m 6 c).share_full fun _ => rfl) (Vc10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin6 (Vc10 m) c
  hout c := hout6 (Vc10 m) c
  hexit c := by
    have hjoin := Pipeline.unscopedBufs_of_arrays (p := 6) (pcfgs (F := F)) GenP.adm (Ix := Unit) (Name := ℕ) (U := UR sig nD τ) (Lvl := ℕ)
      launch6.win launch6.arr_whole c (pdats m) ((pdats m 6 c).share_full fun _ => rfl)
      (Vc10 m c) (Vc11 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg7.lean ====
import proofs.«126270_j6725918785969_1_alg».proof.Proof.KB.Chain
import proofs.«126270_j6725918785969_1_alg».proof.Proof.KB.Common

/-!
# Region 7 as a segment of the program

Entered from every unscoped buffer at the contents `Wc12`, left at `Wc13`: the region's arrays are split out
of the unscoped buffers at entry and put back at exit, the output array `main_v85` at what the write-backs leave
and every other buffer as it was; the generator register goes into the pipeline's invariant and comes back;
nothing is owed; the kernel has no semaphore of its own.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF7 (c : Dev nD) (w : Fin cfg7.W) : (dat7 (Vc12 m) c).arrAt w cfg7.N = Vc13 m c (Pipeline.arrRef spec7 w) :=
  match w with
  | ⟨0, _⟩ => (((dat7 (Vc12 m) c).arrAt_in 0 rfl _).trans (A_eq7 (Vc12 m) c 0)).trans
      (Function.update_of_ne (StableHlo.devRef_ne_of_ne (by decide)) _ _).symm
  | ⟨1, _⟩ => (((dat7 (Vc12 m) c).arrAt_in 1 rfl _).trans (A_eq7 (Vc12 m) c 1)).trans
      (Function.update_of_ne (StableHlo.devRef_ne_of_ne (by decide)) _ _).symm
  | ⟨2, _⟩ => (Wc13_out m c).symm

/-- Every buffer that is none of the region's arrays holds at exit what it held at entry. -/
theorem hrest7 (c : Dev nD) : ∀ b, b ∉ Finset.univ.image (Pipeline.arrRef spec7) → Vc13 m c b = Vc12 m c b :=
  fun b hb => Function.update_of_ne (StableHlo.devRef_ne_of_ne fun e => hb (Finset.mem_image.mpr ⟨2, Finset.mem_univ _, e.symm⟩)) _ _

set_option backward.isDefEq.respectTransparency.types false in
def reg7 : Pipeline.RegionSeg (pcfgs (F := F)) GenP.adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Vc12 m) c).loose
  hwaits := Pipeline.hwaits_of_owed_zero _ _ _ _ L lv 7 fun _ _ => rfl
  pre c := iprop(StableHlo.held (c : Thread nD τ) (Pipeline.ucRefs τ sig) (Wc12 m c) ∗ R c)
  post c := iprop(StableHlo.held (c : Thread nD τ) (Pipeline.ucRefs τ sig) (Wc13 m c) ∗ R c)
  X c := iprop(∃ r, prngReg c r)
  Y c := iprop(∃ r, prngReg c r)
  Z c := Pipeline.unscopedRest (Ix := Unit) (Name := ℕ) (U := UR sig nD τ) (Lvl := ℕ) spec7 c (Vc12 m c)
  hentry c := by
    rw [Pipeline.ownSems0_none]
    have hsplit := Pipeline.arrays_of_unscopedBufs (p := 7) (pcfgs (F := F)) GenP.adm (pdats m) launch7.win launch7.arr_whole c
      ((pdats m 7 c).share_full fun _ => rfl) (Vc12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) GenP.adm (Ix := Unit) (Name := ℕ) (U := UR sig nD τ) (Lvl := ℕ)
      launch7.win launch7.arr_whole c (pdats m) ((pdats m 7 c).share_full fun _ => rfl)
      (Vc12 m c) (Vc13 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg8.lean ====
import proofs.«126270_j6725918785969_1_alg».proof.Proof.KB.Chain
import proofs.«126270_j6725918785969_1_alg».proof.Proof.KB.Common

/-!
# Region 8 as a segment of the program

Entered from every unscoped buffer at the contents `Wc14`, left at `Wc15`: the region's arrays are split out
of the unscoped buffers at entry and put back at exit, the output array `main_v116` at what the write-backs leave
and every other buffer as it was; the generator register goes into the pipeline's invariant and comes back;
nothing is owed; the kernel has no semaphore of its own.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF8 (c : Dev nD) (w : Fin cfg8.W) : (dat8 (Vc14 m) c).arrAt w cfg8.N = Vc15 m c (Pipeline.arrRef spec8 w) :=
  match w with
  | ⟨0, _⟩ => (((dat8 (Vc14 m) c).arrAt_in 0 rfl _).trans (A_eq8 (Vc14 m) c 0)).trans
      (Function.update_of_ne (StableHlo.devRef_ne_of_ne (by decide)) _ _).symm
  | ⟨1, _⟩ => (Wc15_out m c).symm

/-- Every buffer that is none of the region's arrays holds at exit what it held at entry. -/
theorem hrest8 (c : Dev nD) : ∀ b, b ∉ Finset.univ.image (Pipeline.arrRef spec8) → Vc15 m c b = Vc14 m c b :=
  fun b hb => Function.update_of_ne (StableHlo.devRef_ne_of_ne fun e => hb (Finset.mem_image.mpr ⟨1, Finset.mem_univ _, e.symm⟩)) _ _

set_option backward.isDefEq.respectTransparency.types false in
def reg8 : Pipeline.RegionSeg (pcfgs (F := F)) GenP.adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (Vc14 m) c).loose
  hwaits := Pipeline.hwaits_of_owed_zero _ _ _ _ L lv 8 fun _ _ => rfl
  pre c := iprop(StableHlo.held (c : Thread nD τ) (Pipeline.ucRefs τ sig) (Wc14 m c) ∗ R c)
  post c := iprop(StableHlo.held (c : Thread nD τ) (Pipeline.ucRefs τ sig) (Wc15 m c) ∗ R c)
  X c := iprop(∃ r, prngReg c r)
  Y c := iprop(∃ r, prngReg c r)
  Z c := Pipeline.unscopedRest (Ix := Unit) (Name := ℕ) (U := UR sig nD τ) (Lvl := ℕ) spec8 c (Vc14 m c)
  hentry c := by
    rw [Pipeline.ownSems0_none]
    have hsplit := Pipeline.arrays_of_unscopedBufs (p := 8) (pcfgs (F := F)) GenP.adm (pdats m) launch8.win launch8.arr_whole c
      ((pdats m 8 c).share_full fun _ => rfl) (Vc14 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) GenP.adm (Ix := Unit) (Name := ℕ) (U := UR sig nD τ) (Lvl := ℕ)
      launch8.win launch8.arr_whole c (pdats m) ((pdats m 8 c).share_full fun _ => rfl)
      (Vc14 m c) (Vc15 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg9.lean ====
import proofs.«126270_j6725918785969_1_alg».proof.Proof.KB.Chain
import proofs.«126270_j6725918785969_1_alg».proof.Proof.KB.Common

/-!
# Region 9 as a segment of the program

Entered from every unscoped buffer at the contents `Wc15`, left at `Wc16`: the region's arrays are split out
of the unscoped buffers at entry and put back at exit, the output array `main_v117` at what the write-backs leave
and every other buffer as it was; the generator register goes into the pipeline's invariant and comes back;
nothing is owed; the kernel has no semaphore of its own.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF9 (c : Dev nD) (w : Fin cfg9.W) : (dat9 (Vc15 m) c).arrAt w cfg9.N = Vc16 m c (Pipeline.arrRef spec9 w) :=
  match w with
  | ⟨0, _⟩ => (((dat9 (Vc15 m) c).arrAt_in 0 rfl _).trans (A_eq9 (Vc15 m) c 0)).trans
      (Function.update_of_ne (StableHlo.devRef_ne_of_ne (by decide)) _ _).symm
  | ⟨1, _⟩ => (Wc16_out m c).symm

/-- Every buffer that is none of the region's arrays holds at exit what it held at entry. -/
theorem hrest9 (c : Dev nD) : ∀ b, b ∉ Finset.univ.image (Pipeline.arrRef spec9) → Vc16 m c b = Vc15 m c b :=
  fun b hb => Function.update_of_ne (StableHlo.devRef_ne_of_ne fun e => hb (Finset.mem_image.mpr ⟨1, Finset.mem_univ _, e.symm⟩)) _ _

set_option backward.isDefEq.respectTransparency.types false in
def reg9 : Pipeline.RegionSeg (pcfgs (F := F)) GenP.adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (Vc15 m) c).loose
  hwaits := Pipeline.hwaits_of_owed_zero _ _ _ _ L lv 9 fun _ _ => rfl
  pre c := iprop(StableHlo.held (c : Thread nD τ) (Pipeline.ucRefs τ sig) (Wc15 m c) ∗ R c)
  post c := iprop(StableHlo.held (c : Thread nD τ) (Pipeline.ucRefs τ sig) (Wc16 m c) ∗ R c)
  X c := iprop(∃ r, prngReg c r)
  Y c := iprop(∃ r, prngReg c r)
  Z c := Pipeline.unscopedRest (Ix := Unit) (Name := ℕ) (U := UR sig nD τ) (Lvl := ℕ) spec9 c (Vc15 m c)
  hentry c := by
    rw [Pipeline.ownSems0_none]
    have hsplit := Pipeline.arrays_of_unscopedBufs (p := 9) (pcfgs (F := F)) GenP.adm (pdats m) launch9.win launch9.arr_whole c
      ((pdats m 9 c).share_full fun _ => rfl) (Vc15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) GenP.adm (Ix := Unit) (Name := ℕ) (U := UR sig nD τ) (Lvl := ℕ)
      launch9.win launch9.arr_whole c (pdats m) ((pdats m 9 c).share_full fun _ => rfl)
      (Vc15 m c) (Vc16 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg10.lean ====
import proofs.«126270_j6725918785969_1_alg».proof.Proof.KB.Chain
import proofs.«126270_j6725918785969_1_alg».proof.Proof.KB.Common

/-!
# Region 10 as a segment of the program

Entered from every unscoped buffer at the contents `Wc17`, left at `Wc18`: the region's arrays are split out
of the unscoped buffers at entry and put back at exit, the output array `main_v120` at what the write-backs leave
and every other buffer as it was; the generator register goes into the pipeline's invariant, which also carries the kernel's scratch accumulator from point to point, and comes back;
nothing is owed; the kernel has no semaphore of its own.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF10 (c : Dev nD) (w : Fin cfg10.W) : (dat10 (Vc17 m) c).arrAt w cfg10.N = Vc18 m c (Pipeline.arrRef spec10 w) :=
  match w with
  | ⟨0, _⟩ => (((dat10 (Vc17 m) c).arrAt_in 0 rfl _).trans (A_eq10 (Vc17 m) c 0)).trans
      (Function.update_of_ne (StableHlo.devRef_ne_of_ne (by decide)) _ _).symm
  | ⟨1, _⟩ => (((dat10 (Vc17 m) c).arrAt_in 1 rfl _).trans (A_eq10 (Vc17 m) c 1)).trans
      (Function.update_of_ne (StableHlo.devRef_ne_of_ne (by decide)) _ _).symm
  | ⟨2, _⟩ => (Wc18_out m c).symm

/-- Every buffer that is none of the region's arrays holds at exit what it held at entry. -/
theorem hrest10 (c : Dev nD) : ∀ b, b ∉ Finset.univ.image (Pipeline.arrRef spec10) → Vc18 m c b = Vc17 m c b :=
  fun b hb => Function.update_of_ne (StableHlo.devRef_ne_of_ne fun e => hb (Finset.mem_image.mpr ⟨2, Finset.mem_univ _, e.symm⟩)) _ _

set_option backward.isDefEq.respectTransparency.types false in
def reg10 : Pipeline.RegionSeg (pcfgs (F := F)) GenP.adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (Vc17 m) c).loose
  hwaits := Pipeline.hwaits_of_owed_zero _ _ _ _ L lv 10 fun _ _ => rfl
  pre c := iprop(StableHlo.held (c : Thread nD τ) (Pipeline.ucRefs τ sig) (Wc17 m c) ∗ R c)
  post c := iprop(StableHlo.held (c : Thread nD τ) (Pipeline.ucRefs τ sig) (Wc18 m c) ∗ R c)
  X c := iprop(∃ r, prngReg c r)
  Y c := iprop(∃ r, prngReg c r)
  Z c := Pipeline.unscopedRest (Ix := Unit) (Name := ℕ) (U := UR sig nD τ) (Lvl := ℕ) spec10 c (Vc17 m c)
  hentry c := by
    rw [Pipeline.ownSems0_none]
    have hsplit := Pipeline.arrays_of_unscopedBufs (p := 10) (pcfgs (F := F)) GenP.adm (pdats m) launch10.win launch10.arr_whole c
      ((pdats m 10 c).share_full fun _ => rfl) (Vc17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin10 (Vc17 m) c
  hout c := hout10 (Vc17 m) c
  hexit c := by
    have hjoin := Pipeline.unscopedBufs_of_arrays (p := 10) (pcfgs (F := F)) GenP.adm (Ix := Unit) (Name := ℕ) (U := UR sig nD τ) (Lvl := ℕ)
      launch10.win launch10.arr_whole c (pdats m) ((pdats m 10 c).share_full fun _ => rfl)
      (Vc17 m c) (Vc18 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg11.lean ====
import proofs.«126270_j6725918785969_1_alg».proof.Proof.KB.Chain
import proofs.«126270_j6725918785969_1_alg».proof.Proof.KB.Common

/-!
# Region 11 as a segment of the program

Entered from every unscoped buffer at the contents `Wc19`, left at `Wc20`: the region's arrays are split out
of the unscoped buffers at entry and put back at exit, the output array `main_v145` at what the write-backs leave
and every other buffer as it was; the generator register goes into the pipeline's invariant and comes back;
nothing is owed; the kernel has no semaphore of its own.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF11 (c : Dev nD) (w : Fin cfg11.W) : (dat11 (Vc19 m) c).arrAt w cfg11.N = Vc20 m c (Pipeline.arrRef spec11 w) :=
  match w with
  | ⟨0, _⟩ => (((dat11 (Vc19 m) c).arrAt_in 0 rfl _).trans (A_eq11 (Vc19 m) c 0)).trans
      (Function.update_of_ne (StableHlo.devRef_ne_of_ne (by decide)) _ _).symm
  | ⟨1, _⟩ => (((dat11 (Vc19 m) c).arrAt_in 1 rfl _).trans (A_eq11 (Vc19 m) c 1)).trans
      (Function.update_of_ne (StableHlo.devRef_ne_of_ne (by decide)) _ _).symm
  | ⟨2, _⟩ => (Wc20_out m c).symm

/-- Every buffer that is none of the region's arrays holds at exit what it held at entry. -/
theorem hrest11 (c : Dev nD) : ∀ b, b ∉ Finset.univ.image (Pipeline.arrRef spec11) → Vc20 m c b = Vc19 m c b :=
  fun b hb => Function.update_of_ne (StableHlo.devRef_ne_of_ne fun e => hb (Finset.mem_image.mpr ⟨2, Finset.mem_univ _, e.symm⟩)) _ _

set_option backward.isDefEq.respectTransparency.types false in
def reg11 : Pipeline.RegionSeg (pcfgs (F := F)) GenP.adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (Vc19 m) c).loose
  hwaits := Pipeline.hwaits_of_owed_zero _ _ _ _ L lv 11 fun _ _ => rfl
  pre c := iprop(StableHlo.held (c : Thread nD τ) (Pipeline.ucRefs τ sig) (Wc19 m c) ∗ R c)
  post c := iprop(StableHlo.held (c : Thread nD τ) (Pipeline.ucRefs τ sig) (Wc20 m c) ∗ R c)
  X c := iprop(∃ r, prngReg c r)
  Y c := iprop(∃ r, prngReg c r)
  Z c := Pipeline.unscopedRest (Ix := Unit) (Name := ℕ) (U := UR sig nD τ) (Lvl := ℕ) spec11 c (Vc19 m c)
  hentry c := by
    rw [Pipeline.ownSems0_none]
    have hsplit := Pipeline.arrays_of_unscopedBufs (p := 11) (pcfgs (F := F)) GenP.adm (pdats m) launch11.win launch11.arr_whole c
      ((pdats m 11 c).share_full fun _ => rfl) (Vc19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) GenP.adm (Ix := Unit) (Name := ℕ) (U := UR sig nD τ) (Lvl := ℕ)
      launch11.win launch11.arr_whole c (pdats m) ((pdats m 11 c).share_full fun _ => rfl)
      (Vc19 m c) (Vc20 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg12.lean ====
import proofs.«126270_j6725918785969_1_alg».proof.Proof.KB.Chain
import proofs.«126270_j6725918785969_1_alg».proof.Proof.KB.Common

/-!
# Region 12 as a segment of the program

Entered from every unscoped buffer at the contents `Wc21`, left at `Wc22`: the region's arrays are split out
of the unscoped buffers at entry and put back at exit, the output array `main_v148` at what the write-backs leave
and every other buffer as it was; the generator register goes into the pipeline's invariant, which also carries the kernel's scratch accumulator from point to point, and comes back;
nothing is owed; the kernel has no semaphore of its own.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF12 (c : Dev nD) (w : Fin cfg12.W) : (dat12 (Vc21 m) c).arrAt w cfg12.N = Vc22 m c (Pipeline.arrRef spec12 w) :=
  match w with
  | ⟨0, _⟩ => (((dat12 (Vc21 m) c).arrAt_in 0 rfl _).trans (A_eq12 (Vc21 m) c 0)).trans
      (Function.update_of_ne (StableHlo.devRef_ne_of_ne (by decide)) _ _).symm
  | ⟨1, _⟩ => (((dat12 (Vc21 m) c).arrAt_in 1 rfl _).trans (A_eq12 (Vc21 m) c 1)).trans
      (Function.update_of_ne (StableHlo.devRef_ne_of_ne (by decide)) _ _).symm
  | ⟨2, _⟩ => (Wc22_out m c).symm

/-- Every buffer that is none of the region's arrays holds at exit what it held at entry. -/
theorem hrest12 (c : Dev nD) : ∀ b, b ∉ Finset.univ.image (Pipeline.arrRef spec12) → Vc22 m c b = Vc21 m c b :=
  fun b hb => Function.update_of_ne (StableHlo.devRef_ne_of_ne fun e => hb (Finset.mem_image.mpr ⟨2, Finset.mem_univ _, e.symm⟩)) _ _

set_option backward.isDefEq.respectTransparency.types false in
def reg12 : Pipeline.RegionSeg (pcfgs (F := F)) GenP.adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (Vc21 m) c).loose
  hwaits := Pipeline.hwaits_of_owed_zero _ _ _ _ L lv 12 fun _ _ => rfl
  pre c := iprop(StableHlo.held (c : Thread nD τ) (Pipeline.ucRefs τ sig) (Wc21 m c) ∗ R c)
  post c := iprop(StableHlo.held (c : Thread nD τ) (Pipeline.ucRefs τ sig) (Wc22 m c) ∗ R c)
  X c := iprop(∃ r, prngReg c r)
  Y c := iprop(∃ r, prngReg c r)
  Z c := Pipeline.unscopedRest (Ix := Unit) (Name := ℕ) (U := UR sig nD τ) (Lvl := ℕ) spec12 c (Vc21 m c)
  hentry c := by
    rw [Pipeline.ownSems0_none]
    have hsplit := Pipeline.arrays_of_unscopedBufs (p := 12) (pcfgs (F := F)) GenP.adm (pdats m) launch12.win launch12.arr_whole c
      ((pdats m 12 c).share_full fun _ => rfl) (Vc21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin12 (Vc21 m) c
  hout c := hout12 (Vc21 m) c
  hexit c := by
    have hjoin := Pipeline.unscopedBufs_of_arrays (p := 12) (pcfgs (F := F)) GenP.adm (Ix := Unit) (Name := ℕ) (U := UR sig nD τ) (Lvl := ℕ)
      launch12.win launch12.arr_whole c (pdats m) ((pdats m 12 c).share_full fun _ => rfl)
      (Vc21 m c) (Vc22 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg13.lean ====
import proofs.«126270_j6725918785969_1_alg».proof.Proof.KB.Chain
import proofs.«126270_j6725918785969_1_alg».proof.Proof.KB.Common

/-!
# Region 13 as a segment of the program

Entered from every unscoped buffer at the contents `Wc23`, left at `Wc24`: the region's arrays are split out
of the unscoped buffers at entry and put back at exit, the output array `main_v173` at what the write-backs leave
and every other buffer as it was; the generator register goes into the pipeline's invariant and comes back;
nothing is owed; the kernel has no semaphore of its own.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF13 (c : Dev nD) (w : Fin cfg13.W) : (dat13 (Vc23 m) c).arrAt w cfg13.N = Vc24 m c (Pipeline.arrRef spec13 w) :=
  match w with
  | ⟨0, _⟩ => (((dat13 (Vc23 m) c).arrAt_in 0 rfl _).trans (A_eq13 (Vc23 m) c 0)).trans
      (Function.update_of_ne (StableHlo.devRef_ne_of_ne (by decide)) _ _).symm
  | ⟨1, _⟩ => (((dat13 (Vc23 m) c).arrAt_in 1 rfl _).trans (A_eq13 (Vc23 m) c 1)).trans
      (Function.update_of_ne (StableHlo.devRef_ne_of_ne (by decide)) _ _).symm
  | ⟨2, _⟩ => (Wc24_out m c).symm

/-- Every buffer that is none of the region's arrays holds at exit what it held at entry. -/
theorem hrest13 (c : Dev nD) : ∀ b, b ∉ Finset.univ.image (Pipeline.arrRef spec13) → Vc24 m c b = Vc23 m c b :=
  fun b hb => Function.update_of_ne (StableHlo.devRef_ne_of_ne fun e => hb (Finset.mem_image.mpr ⟨2, Finset.mem_univ _, e.symm⟩)) _ _

set_option backward.isDefEq.respectTransparency.types false in
def reg13 : Pipeline.RegionSeg (pcfgs (F := F)) GenP.adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (Vc23 m) c).loose
  hwaits := Pipeline.hwaits_of_owed_zero _ _ _ _ L lv 13 fun _ _ => rfl
  pre c := iprop(StableHlo.held (c : Thread nD τ) (Pipeline.ucRefs τ sig) (Wc23 m c) ∗ R c)
  post c := iprop(StableHlo.held (c : Thread nD τ) (Pipeline.ucRefs τ sig) (Wc24 m c) ∗ R c)
  X c := iprop(∃ r, prngReg c r)
  Y c := iprop(∃ r, prngReg c r)
  Z c := Pipeline.unscopedRest (Ix := Unit) (Name := ℕ) (U := UR sig nD τ) (Lvl := ℕ) spec13 c (Vc23 m c)
  hentry c := by
    rw [Pipeline.ownSems0_none]
    have hsplit := Pipeline.arrays_of_unscopedBufs (p := 13) (pcfgs (F := F)) GenP.adm (pdats m) launch13.win launch13.arr_whole c
      ((pdats m 13 c).share_full fun _ => rfl) (Vc23 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) GenP.adm (Ix := Unit) (Name := ℕ) (U := UR sig nD τ) (Lvl := ℕ)
      launch13.win launch13.arr_whole c (pdats m) ((pdats m 13 c).share_full fun _ => rfl)
      (Vc23 m c) (Vc24 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg14.lean ====
import proofs.«126270_j6725918785969_1_alg».proof.Proof.KB.Chain
import proofs.«126270_j6725918785969_1_alg».proof.Proof.KB.Common

/-!
# Region 14 as a segment of the program

Entered from every unscoped buffer at the contents `Wc32`, left at `Wc33`: the region's arrays are split out
of the unscoped buffers at entry and put back at exit, the output array `main_v230` at what the write-backs leave
and every other buffer as it was; the generator register goes into the pipeline's invariant and comes back;
nothing is owed; the kernel has no semaphore of its own.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF14 (c : Dev nD) (w : Fin cfg14.W) : (dat14 (Vc32 m) c).arrAt w cfg14.N = Vc33 m c (Pipeline.arrRef spec14 w) :=
  match w with
  | ⟨0, _⟩ => (((dat14 (Vc32 m) c).arrAt_in 0 rfl _).trans (A_eq14 (Vc32 m) c 0)).trans
      (Function.update_of_ne (StableHlo.devRef_ne_of_ne (by decide)) _ _).symm
  | ⟨1, _⟩ => (((dat14 (Vc32 m) c).arrAt_in 1 rfl _).trans (A_eq14 (Vc32 m) c 1)).trans
      (Function.update_of_ne (StableHlo.devRef_ne_of_ne (by decide)) _ _).symm
  | ⟨2, _⟩ => (Wc33_out m c).symm

/-- Every buffer that is none of the region's arrays holds at exit what it held at entry. -/
theorem hrest14 (c : Dev nD) : ∀ b, b ∉ Finset.univ.image (Pipeline.arrRef spec14) → Vc33 m c b = Vc32 m c b :=
  fun b hb => Function.update_of_ne (StableHlo.devRef_ne_of_ne fun e => hb (Finset.mem_image.mpr ⟨2, Finset.mem_univ _, e.symm⟩)) _ _

set_option backward.isDefEq.respectTransparency.types false in
def reg14 : Pipeline.RegionSeg (pcfgs (F := F)) GenP.adm (pdats m) () defs₀ 𝒱₀ L lv 14 where
  win := launch14.win.to₀
  block_pos := launch14.block_pos
  stage_whole := launch14.stage_whole
  K := PEmpty
  osem k := k.elim
  ho := Pipeline.OwnSemFacts.none _
  hbody c := (body_obligation14 (Vc32 m) c).loose
  hwaits := Pipeline.hwaits_of_owed_zero _ _ _ _ L lv 14 fun _ _ => rfl
  pre c := iprop(StableHlo.held (c : Thread nD τ) (Pipeline.ucRefs τ sig) (Wc32 m c) ∗ R c)
  post c := iprop(StableHlo.held (c : Thread nD τ) (Pipeline.ucRefs τ sig) (Wc33 m c) ∗ R c)
  X c := iprop(∃ r, prngReg c r)
  Y c := iprop(∃ r, prngReg c r)
  Z c := Pipeline.unscopedRest (Ix := Unit) (Name := ℕ) (U := UR sig nD τ) (Lvl := ℕ) spec14 c (Vc32 m c)
  hentry c := by
    rw [Pipeline.ownSems0_none]
    have hsplit := Pipeline.arrays_of_unscopedBufs (p := 14) (pcfgs (F := F)) GenP.adm (pdats m) launch14.win launch14.arr_whole c
      ((pdats m 14 c).share_full fun _ => rfl) (Vc32 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) GenP.adm (Ix := Unit) (Name := ℕ) (U := UR sig nD τ) (Lvl := ℕ)
      launch14.win launch14.arr_whole c (pdats m) ((pdats m 14 c).share_full fun _ => rfl)
      (Vc32 m c) (Vc33 m c) ((pdats m 14 c).arrAt · cfg14.N) (hF14 m c) (hrest14 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg15.lean ====
import proofs.«126270_j6725918785969_1_alg».proof.Proof.KB.Chain
import proofs.«126270_j6725918785969_1_alg».proof.Proof.KB.Common

/-!
# Region 15 as a segment of the program

Entered from every unscoped buffer at the contents `Wc34`, left at `Wc35`: the region's arrays are split out
of the unscoped buffers at entry and put back at exit, the output array `main_v236` at what the write-backs leave
and every other buffer as it was; the generator register goes into the pipeline's invariant, which also carries the kernel's scratch accumulator from point to point, and comes back;
nothing is owed; the kernel has no semaphore of its own.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF15 (c : Dev nD) (w : Fin cfg15.W) : (dat15 (Vc34 m) c).arrAt w cfg15.N = Vc35 m c (Pipeline.arrRef spec15 w) :=
  match w with
  | ⟨0, _⟩ => (((dat15 (Vc34 m) c).arrAt_in 0 rfl _).trans (A_eq15 (Vc34 m) c 0)).trans
      (Function.update_of_ne (StableHlo.devRef_ne_of_ne (by decide)) _ _).symm
  | ⟨1, _⟩ => (((dat15 (Vc34 m) c).arrAt_in 1 rfl _).trans (A_eq15 (Vc34 m) c 1)).trans
      (Function.update_of_ne (StableHlo.devRef_ne_of_ne (by decide)) _ _).symm
  | ⟨2, _⟩ => (Wc35_out m c).symm

/-- Every buffer that is none of the region's arrays holds at exit what it held at entry. -/
theorem hrest15 (c : Dev nD) : ∀ b, b ∉ Finset.univ.image (Pipeline.arrRef spec15) → Vc35 m c b = Vc34 m c b :=
  fun b hb => Function.update_of_ne (StableHlo.devRef_ne_of_ne fun e => hb (Finset.mem_image.mpr ⟨2, Finset.mem_univ _, e.symm⟩)) _ _

set_option backward.isDefEq.respectTransparency.types false in
def reg15 : Pipeline.RegionSeg (pcfgs (F := F)) GenP.adm (pdats m) () defs₀ 𝒱₀ L lv 15 where
  win := launch15.win.to₀
  block_pos := launch15.block_pos
  stage_whole := launch15.stage_whole
  K := PEmpty
  osem k := k.elim
  ho := Pipeline.OwnSemFacts.none _
  hbody c := (body_obligation15 (Vc34 m) c).loose
  hwaits := Pipeline.hwaits_of_owed_zero _ _ _ _ L lv 15 fun _ _ => rfl
  pre c := iprop(StableHlo.held (c : Thread nD τ) (Pipeline.ucRefs τ sig) (Wc34 m c) ∗ R c)
  post c := iprop(StableHlo.held (c : Thread nD τ) (Pipeline.ucRefs τ sig) (Wc35 m c) ∗ R c)
  X c := iprop(∃ r, prngReg c r)
  Y c := iprop(∃ r, prngReg c r)
  Z c := Pipeline.unscopedRest (Ix := Unit) (Name := ℕ) (U := UR sig nD τ) (Lvl := ℕ) spec15 c (Vc34 m c)
  hentry c := by
    rw [Pipeline.ownSems0_none]
    have hsplit := Pipeline.arrays_of_unscopedBufs (p := 15) (pcfgs (F := F)) GenP.adm (pdats m) launch15.win launch15.arr_whole c
      ((pdats m 15 c).share_full fun _ => rfl) (Vc34 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin15 (Vc34 m) c
  hout c := hout15 (Vc34 m) c
  hexit c := by
    have hjoin := Pipeline.unscopedBufs_of_arrays (p := 15) (pcfgs (F := F)) GenP.adm (Ix := Unit) (Name := ℕ) (U := UR sig nD τ) (Lvl := ℕ)
      launch15.win launch15.arr_whole c (pdats m) ((pdats m 15 c).share_full fun _ => rfl)
      (Vc34 m c) (Vc35 m c) ((pdats m 15 c).arrAt · cfg15.N) (hF15 m c) (hrest15 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg16.lean ====
import proofs.«126270_j6725918785969_1_alg».proof.Proof.KB.Chain
import proofs.«126270_j6725918785969_1_alg».proof.Proof.KB.Common

/-!
# Region 16 as a segment of the program

Entered from every unscoped buffer at the contents `Wc40`, left at `Wc41`: the region's arrays are split out
of the unscoped buffers at entry and put back at exit, the output array `main_v273` at what the write-backs leave
and every other buffer as it was; the generator register goes into the pipeline's invariant and comes back;
nothing is owed; the kernel has no semaphore of its own.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF16 (c : Dev nD) (w : Fin cfg16.W) : (dat16 (Vc40 m) c).arrAt w cfg16.N = Vc41 m c (Pipeline.arrRef spec16 w) :=
  match w with
  | ⟨0, _⟩ => (((dat16 (Vc40 m) c).arrAt_in 0 rfl _).trans (A_eq16 (Vc40 m) c 0)).trans
      (Function.update_of_ne (StableHlo.devRef_ne_of_ne (by decide)) _ _).symm
  | ⟨1, _⟩ => (((dat16 (Vc40 m) c).arrAt_in 1 rfl _).trans (A_eq16 (Vc40 m) c 1)).trans
      (Function.update_of_ne (StableHlo.devRef_ne_of_ne (by decide)) _ _).symm
  | ⟨2, _⟩ => (Wc41_out m c).symm

/-- Every buffer that is none of the region's arrays holds at exit what it held at entry. -/
theorem hrest16 (c : Dev nD) : ∀ b, b ∉ Finset.univ.image (Pipeline.arrRef spec16) → Vc41 m c b = Vc40 m c b :=
  fun b hb => Function.update_of_ne (StableHlo.devRef_ne_of_ne fun e => hb (Finset.mem_image.mpr ⟨2, Finset.mem_univ _, e.symm⟩)) _ _

set_option backward.isDefEq.respectTransparency.types false in
def reg16 : Pipeline.RegionSeg (pcfgs (F := F)) GenP.adm (pdats m) () defs₀ 𝒱₀ L lv 16 where
  win := launch16.win.to₀
  block_pos := launch16.block_pos
  stage_whole := launch16.stage_whole
  K := PEmpty
  osem k := k.elim
  ho := Pipeline.OwnSemFacts.none _
  hbody c := (body_obligation16 (Vc40 m) c).loose
  hwaits := Pipeline.hwaits_of_owed_zero _ _ _ _ L lv 16 fun _ _ => rfl
  pre c := iprop(StableHlo.held (c : Thread nD τ) (Pipeline.ucRefs τ sig) (Wc40 m c) ∗ R c)
  post c := iprop(StableHlo.held (c : Thread nD τ) (Pipeline.ucRefs τ sig) (Wc41 m c) ∗ R c)
  X c := iprop(∃ r, prngReg c r)
  Y c := iprop(∃ r, prngReg c r)
  Z c := Pipeline.unscopedRest (Ix := Unit) (Name := ℕ) (U := UR sig nD τ) (Lvl := ℕ) spec16 c (Vc40 m c)
  hentry c := by
    rw [Pipeline.ownSems0_none]
    have hsplit := Pipeline.arrays_of_unscopedBufs (p := 16) (pcfgs (F := F)) GenP.adm (pdats m) launch16.win launch16.arr_whole c
      ((pdats m 16 c).share_full fun _ => rfl) (Vc40 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m 16 c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) GenP.adm (Ix := Unit) (Name := ℕ) (U := UR sig nD τ) (Lvl := ℕ)
      launch16.win launch16.arr_whole c (pdats m) ((pdats m 16 c).share_full fun _ => rfl)
      (Vc40 m c) (Vc41 m c) ((pdats m 16 c).arrAt · cfg16.N) (hF16 m c) (hrest16 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg17.lean ====
import proofs.«126270_j6725918785969_1_alg».proof.Proof.KB.Chain
import proofs.«126270_j6725918785969_1_alg».proof.Proof.KB.Common

/-!
# Region 17 as a segment of the program

Entered from every unscoped buffer at the contents `Wc42`, left at `Wc43`: the region's arrays are split out
of the unscoped buffers at entry and put back at exit, the output array `main_v279` at what the write-backs leave
and every other buffer as it was; the generator register goes into the pipeline's invariant, which also carries the kernel's scratch accumulator from point to point, and comes back;
nothing is owed; the kernel has no semaphore of its own.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF17 (c : Dev nD) (w : Fin cfg17.W) : (dat17 (Vc42 m) c).arrAt w cfg17.N = Vc43 m c (Pipeline.arrRef spec17 w) :=
  match w with
  | ⟨0, _⟩ => (((dat17 (Vc42 m) c).arrAt_in 0 rfl _).trans (A_eq17 (Vc42 m) c 0)).trans
      (Function.update_of_ne (StableHlo.devRef_ne_of_ne (by decide)) _ _).symm
  | ⟨1, _⟩ => (((dat17 (Vc42 m) c).arrAt_in 1 rfl _).trans (A_eq17 (Vc42 m) c 1)).trans
      (Function.update_of_ne (StableHlo.devRef_ne_of_ne (by decide)) _ _).symm
  | ⟨2, _⟩ => (Wc43_out m c).symm

/-- Every buffer that is none of the region's arrays holds at exit what it held at entry. -/
theorem hrest17 (c : Dev nD) : ∀ b, b ∉ Finset.univ.image (Pipeline.arrRef spec17) → Vc43 m c b = Vc42 m c b :=
  fun b hb => Function.update_of_ne (StableHlo.devRef_ne_of_ne fun e => hb (Finset.mem_image.mpr ⟨2, Finset.mem_univ _, e.symm⟩)) _ _

set_option backward.isDefEq.respectTransparency.types false in
def reg17 : Pipeline.RegionSeg (pcfgs (F := F)) GenP.adm (pdats m) () defs₀ 𝒱₀ L lv 17 where
  win := launch17.win.to₀
  block_pos := launch17.block_pos
  stage_whole := launch17.stage_whole
  K := PEmpty
  osem k := k.elim
  ho := Pipeline.OwnSemFacts.none _
  hbody c := (body_obligation17 (Vc42 m) c).loose
  hwaits := Pipeline.hwaits_of_owed_zero _ _ _ _ L lv 17 fun _ _ => rfl
  pre c := iprop(StableHlo.held (c : Thread nD τ) (Pipeline.ucRefs τ sig) (Wc42 m c) ∗ R c)
  post c := iprop(StableHlo.held (c : Thread nD τ) (Pipeline.ucRefs τ sig) (Wc43 m c) ∗ R c)
  X c := iprop(∃ r, prngReg c r)
  Y c := iprop(∃ r, prngReg c r)
  Z c := Pipeline.unscopedRest (Ix := Unit) (Name := ℕ) (U := UR sig nD τ) (Lvl := ℕ) spec17 c (Vc42 m c)
  hentry c := by
    rw [Pipeline.ownSems0_none]
    have hsplit := Pipeline.arrays_of_unscopedBufs (p := 17) (pcfgs (F := F)) GenP.adm (pdats m) launch17.win launch17.arr_whole c
      ((pdats m 17 c).share_full fun _ => rfl) (Vc42 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin17 (Vc42 m) c
  hout c := hout17 (Vc42 m) c
  hexit c := by
    have hjoin := Pipeline.unscopedBufs_of_arrays (p := 17) (pcfgs (F := F)) GenP.adm (Ix := Unit) (Name := ℕ) (U := UR sig nD τ) (Lvl := ℕ)
      launch17.win launch17.arr_whole c (pdats m) ((pdats m 17 c).share_full fun _ => rfl)
      (Vc42 m c) (Vc43 m c) ((pdats m 17 c).arrAt · cfg17.N) (hF17 m c) (hrest17 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg18.lean ====
import proofs.«126270_j6725918785969_1_alg».proof.Proof.KB.Chain
import proofs.«126270_j6725918785969_1_alg».proof.Proof.KB.Common

/-!
# Region 18 as a segment of the program

Entered from every unscoped buffer at the contents `Wc48`, left at `Wc49`: the region's arrays are split out
of the unscoped buffers at entry and put back at exit, the output array `main_v316` at what the write-backs leave
and every other buffer as it was; the generator register goes into the pipeline's invariant and comes back;
nothing is owed; the kernel has no semaphore of its own.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF18 (c : Dev nD) (w : Fin cfg18.W) : (dat18 (Vc48 m) c).arrAt w cfg18.N = Vc49 m c (Pipeline.arrRef spec18 w) :=
  match w with
  | ⟨0, _⟩ => (((dat18 (Vc48 m) c).arrAt_in 0 rfl _).trans (A_eq18 (Vc48 m) c 0)).trans
      (Function.update_of_ne (StableHlo.devRef_ne_of_ne (by decide)) _ _).symm
  | ⟨1, _⟩ => (((dat18 (Vc48 m) c).arrAt_in 1 rfl _).trans (A_eq18 (Vc48 m) c 1)).trans
      (Function.update_of_ne (StableHlo.devRef_ne_of_ne (by decide)) _ _).symm
  | ⟨2, _⟩ => (Wc49_out m c).symm

/-- Every buffer that is none of the region's arrays holds at exit what it held at entry. -/
theorem hrest18 (c : Dev nD) : ∀ b, b ∉ Finset.univ.image (Pipeline.arrRef spec18) → Vc49 m c b = Vc48 m c b :=
  fun b hb => Function.update_of_ne (StableHlo.devRef_ne_of_ne fun e => hb (Finset.mem_image.mpr ⟨2, Finset.mem_univ _, e.symm⟩)) _ _

set_option backward.isDefEq.respectTransparency.types false in
def reg18 : Pipeline.RegionSeg (pcfgs (F := F)) GenP.adm (pdats m) () defs₀ 𝒱₀ L lv 18 where
  win := launch18.win.to₀
  block_pos := launch18.block_pos
  stage_whole := launch18.stage_whole
  K := PEmpty
  osem k := k.elim
  ho := Pipeline.OwnSemFacts.none _
  hbody c := (body_obligation18 (Vc48 m) c).loose
  hwaits := Pipeline.hwaits_of_owed_zero _ _ _ _ L lv 18 fun _ _ => rfl
  pre c := iprop(StableHlo.held (c : Thread nD τ) (Pipeline.ucRefs τ sig) (Wc48 m c) ∗ R c)
  post c := iprop(StableHlo.held (c : Thread nD τ) (Pipeline.ucRefs τ sig) (Wc49 m c) ∗ R c)
  X c := iprop(∃ r, prngReg c r)
  Y c := iprop(∃ r, prngReg c r)
  Z c := Pipeline.unscopedRest (Ix := Unit) (Name := ℕ) (U := UR sig nD τ) (Lvl := ℕ) spec18 c (Vc48 m c)
  hentry c := by
    rw [Pipeline.ownSems0_none]
    have hsplit := Pipeline.arrays_of_unscopedBufs (p := 18) (pcfgs (F := F)) GenP.adm (pdats m) launch18.win launch18.arr_whole c
      ((pdats m 18 c).share_full fun _ => rfl) (Vc48 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 18 c).Φ 0 = Pipeline.ΦA spec18 c from rfl]; unfold Pipeline.ΦA
    iintro ⟨Hp, -, Hr⟩
    isplitl [Hr]; · iexact Hr
    iexact Hp
  hout c := by
    rw [Pipeline.ownSems0_none, show (pdats m 18 c).Φ (Fin.last _) = Pipeline.ΦA spec18 c from rfl]; unfold Pipeline.ΦA
    iintro ⟨Hr, Hp⟩
    isplitl [Hp]; · iexact Hp
    isplitr; · iempintro
    iexact Hr
  hexit c := by
    have hjoin := Pipeline.unscopedBufs_of_arrays (p := 18) (pcfgs (F := F)) GenP.adm (Ix := Unit) (Name := ℕ) (U := UR sig nD τ) (Lvl := ℕ)
      launch18.win launch18.arr_whole c (pdats m) ((pdats m 18 c).share_full fun _ => rfl)
      (Vc48 m c) (Vc49 m c) ((pdats m 18 c).arrAt · cfg18.N) (hF18 m c) (hrest18 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg19.lean ====
import proofs.«126270_j6725918785969_1_alg».proof.Proof.KB.Chain
import proofs.«126270_j6725918785969_1_alg».proof.Proof.KB.Common

/-!
# Region 19 as a segment of the program

Entered from every unscoped buffer at the contents `Wc50`, left at `Wc51`: the region's arrays are split out
of the unscoped buffers at entry and put back at exit, the output array `main_v322` at what the write-backs leave
and every other buffer as it was; the generator register goes into the pipeline's invariant, which also carries the kernel's scratch accumulator from point to point, and comes back;
nothing is owed; the kernel has no semaphore of its own.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF19 (c : Dev nD) (w : Fin cfg19.W) : (dat19 (Vc50 m) c).arrAt w cfg19.N = Vc51 m c (Pipeline.arrRef spec19 w) :=
  match w with
  | ⟨0, _⟩ => (((dat19 (Vc50 m) c).arrAt_in 0 rfl _).trans (A_eq19 (Vc50 m) c 0)).trans
      (Function.update_of_ne (StableHlo.devRef_ne_of_ne (by decide)) _ _).symm
  | ⟨1, _⟩ => (((dat19 (Vc50 m) c).arrAt_in 1 rfl _).trans (A_eq19 (Vc50 m) c 1)).trans
      (Function.update_of_ne (StableHlo.devRef_ne_of_ne (by decide)) _ _).symm
  | ⟨2, _⟩ => (Wc51_out m c).symm

/-- Every buffer that is none of the region's arrays holds at exit what it held at entry. -/
theorem hrest19 (c : Dev nD) : ∀ b, b ∉ Finset.univ.image (Pipeline.arrRef spec19) → Vc51 m c b = Vc50 m c b :=
  fun b hb => Function.update_of_ne (StableHlo.devRef_ne_of_ne fun e => hb (Finset.mem_image.mpr ⟨2, Finset.mem_univ _, e.symm⟩)) _ _

set_option backward.isDefEq.respectTransparency.types false in
def reg19 : Pipeline.RegionSeg (pcfgs (F := F)) GenP.adm (pdats m) () defs₀ 𝒱₀ L lv 19 where
  win := launch19.win.to₀
  block_pos := launch19.block_pos
  stage_whole := launch19.stage_whole
  K := PEmpty
  osem k := k.elim
  ho := Pipeline.OwnSemFacts.none _
  hbody c := (body_obligation19 (Vc50 m) c).loose
  hwaits := Pipeline.hwaits_of_owed_zero _ _ _ _ L lv 19 fun _ _ => rfl
  pre c := iprop(StableHlo.held (c : Thread nD τ) (Pipeline.ucRefs τ sig) (Wc50 m c) ∗ R c)
  post c := iprop(StableHlo.held (c : Thread nD τ) (Pipeline.ucRefs τ sig) (Wc51 m c) ∗ R c)
  X c := iprop(∃ r, prngReg c r)
  Y c := iprop(∃ r, prngReg c r)
  Z c := Pipeline.unscopedRest (Ix := Unit) (Name := ℕ) (U := UR sig nD τ) (Lvl := ℕ) spec19 c (Vc50 m c)
  hentry c := by
    rw [Pipeline.ownSems0_none]
    have hsplit := Pipeline.arrays_of_unscopedBufs (p := 19) (pcfgs (F := F)) GenP.adm (pdats m) launch19.win launch19.arr_whole c
      ((pdats m 19 c).share_full fun _ => rfl) (Vc50 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin19 (Vc50 m) c
  hout c := hout19 (Vc50 m) c
  hexit c := by
    have hjoin := Pipeline.unscopedBufs_of_arrays (p := 19) (pcfgs (F := F)) GenP.adm (Ix := Unit) (Name := ℕ) (U := UR sig nD τ) (Lvl := ℕ)
      launch19.win launch19.arr_whole c (pdats m) ((pdats m 19 c).share_full fun _ => rfl)
      (Vc50 m c) (Vc51 m c) ((pdats m 19 c).arrAt · cfg19.N) (hF19 m c) (hrest19 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg20.lean ====
import proofs.«126270_j6725918785969_1_alg».proof.Proof.KB.Chain
import proofs.«126270_j6725918785969_1_alg».proof.Proof.KB.Common

/-!
# Region 20 as a segment of the program

Entered from every unscoped buffer at the contents `Wc56`, left at `Wc57`: the region's arrays are split out
of the unscoped buffers at entry and put back at exit, the output array `main_v359` at what the write-backs leave
and every other buffer as it was; the generator register goes into the pipeline's invariant and comes back;
nothing is owed; the kernel has no semaphore of its own.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF20 (c : Dev nD) (w : Fin cfg20.W) : (dat20 (Vc56 m) c).arrAt w cfg20.N = Vc57 m c (Pipeline.arrRef spec20 w) :=
  match w with
  | ⟨0, _⟩ => (((dat20 (Vc56 m) c).arrAt_in 0 rfl _).trans (A_eq20 (Vc56 m) c 0)).trans
      (Function.update_of_ne (StableHlo.devRef_ne_of_ne (by decide)) _ _).symm
  | ⟨1, _⟩ => (((dat20 (Vc56 m) c).arrAt_in 1 rfl _).trans (A_eq20 (Vc56 m) c 1)).trans
      (Function.update_of_ne (StableHlo.devRef_ne_of_ne (by decide)) _ _).symm
  | ⟨2, _⟩ => (Wc57_out m c).symm

/-- Every buffer that is none of the region's arrays holds at exit what it held at entry. -/
theorem hrest20 (c : Dev nD) : ∀ b, b ∉ Finset.univ.image (Pipeline.arrRef spec20) → Vc57 m c b = Vc56 m c b :=
  fun b hb => Function.update_of_ne (StableHlo.devRef_ne_of_ne fun e => hb (Finset.mem_image.mpr ⟨2, Finset.mem_univ _, e.symm⟩)) _ _

set_option backward.isDefEq.respectTransparency.types false in
def reg20 : Pipeline.RegionSeg (pcfgs (F := F)) GenP.adm (pdats m) () defs₀ 𝒱₀ L lv 20 where
  win := launch20.win.to₀
  block_pos := launch20.block_pos
  stage_whole := launch20.stage_whole
  K := PEmpty
  osem k := k.elim
  ho := Pipeline.OwnSemFacts.none _
  hbody c := (body_obligation20 (Vc56 m) c).loose
  hwaits := Pipeline.hwaits_of_owed_zero _ _ _ _ L lv 20 fun _ _ => rfl
  pre c := iprop(StableHlo.held (c : Thread nD τ) (Pipeline.ucRefs τ sig) (Wc56 m c) ∗ R c)
  post c := iprop(StableHlo.held (c : Thread nD τ) (Pipeline.ucRefs τ sig) (Wc57 m c) ∗ R c)
  X c := iprop(∃ r, prngReg c r)
  Y c := iprop(∃ r, prngReg c r)
  Z c := Pipeline.unscopedRest (Ix := Unit) (Name := ℕ) (U := UR sig nD τ) (Lvl := ℕ) spec20 c (Vc56 m c)
  hentry c := by
    rw [Pipeline.ownSems0_none]
    have hsplit := Pipeline.arrays_of_unscopedBufs (p := 20) (pcfgs (F := F)) GenP.adm (pdats m) launch20.win launch20.arr_whole c
      ((pdats m 20 c).share_full fun _ => rfl) (Vc56 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 20 c).Φ 0 = Pipeline.ΦA spec20 c from rfl]; unfold Pipeline.ΦA
    iintro ⟨Hp, -, Hr⟩
    isplitl [Hr]; · iexact Hr
    iexact Hp
  hout c := by
    rw [Pipeline.ownSems0_none, show (pdats m 20 c).Φ (Fin.last _) = Pipeline.ΦA spec20 c from rfl]; unfold Pipeline.ΦA
    iintro ⟨Hr, Hp⟩
    isplitl [Hp]; · iexact Hp
    isplitr; · iempintro
    iexact Hr
  hexit c := by
    have hjoin := Pipeline.unscopedBufs_of_arrays (p := 20) (pcfgs (F := F)) GenP.adm (Ix := Unit) (Name := ℕ) (U := UR sig nD τ) (Lvl := ℕ)
      launch20.win launch20.arr_whole c (pdats m) ((pdats m 20 c).share_full fun _ => rfl)
      (Vc56 m c) (Vc57 m c) ((pdats m 20 c).arrAt · cfg20.N) (hF20 m c) (hrest20 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg21.lean ====
import proofs.«126270_j6725918785969_1_alg».proof.Proof.KB.Chain
import proofs.«126270_j6725918785969_1_alg».proof.Proof.KB.Common

/-!
# Region 21 as a segment of the program

Entered from every unscoped buffer at the contents `Wc58`, left at `Wc59`: the region's arrays are split out
of the unscoped buffers at entry and put back at exit, the output array `main_v365` at what the write-backs leave
and every other buffer as it was; the generator register goes into the pipeline's invariant, which also carries the kernel's scratch accumulator from point to point, and comes back;
nothing is owed; the kernel has no semaphore of its own.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF21 (c : Dev nD) (w : Fin cfg21.W) : (dat21 (Vc58 m) c).arrAt w cfg21.N = Vc59 m c (Pipeline.arrRef spec21 w) :=
  match w with
  | ⟨0, _⟩ => (((dat21 (Vc58 m) c).arrAt_in 0 rfl _).trans (A_eq21 (Vc58 m) c 0)).trans
      (Function.update_of_ne (StableHlo.devRef_ne_of_ne (by decide)) _ _).symm
  | ⟨1, _⟩ => (((dat21 (Vc58 m) c).arrAt_in 1 rfl _).trans (A_eq21 (Vc58 m) c 1)).trans
      (Function.update_of_ne (StableHlo.devRef_ne_of_ne (by decide)) _ _).symm
  | ⟨2, _⟩ => (Wc59_out m c).symm

/-- Every buffer that is none of the region's arrays holds at exit what it held at entry. -/
theorem hrest21 (c : Dev nD) : ∀ b, b ∉ Finset.univ.image (Pipeline.arrRef spec21) → Vc59 m c b = Vc58 m c b :=
  fun b hb => Function.update_of_ne (StableHlo.devRef_ne_of_ne fun e => hb (Finset.mem_image.mpr ⟨2, Finset.mem_univ _, e.symm⟩)) _ _

set_option backward.isDefEq.respectTransparency.types false in
def reg21 : Pipeline.RegionSeg (pcfgs (F := F)) GenP.adm (pdats m) () defs₀ 𝒱₀ L lv 21 where
  win := launch21.win.to₀
  block_pos := launch21.block_pos
  stage_whole := launch21.stage_whole
  K := PEmpty
  osem k := k.elim
  ho := Pipeline.OwnSemFacts.none _
  hbody c := (body_obligation21 (Vc58 m) c).loose
  hwaits := Pipeline.hwaits_of_owed_zero _ _ _ _ L lv 21 fun _ _ => rfl
  pre c := iprop(StableHlo.held (c : Thread nD τ) (Pipeline.ucRefs τ sig) (Wc58 m c) ∗ R c)
  post c := iprop(StableHlo.held (c : Thread nD τ) (Pipeline.ucRefs τ sig) (Wc59 m c) ∗ R c)
  X c := iprop(∃ r, prngReg c r)
  Y c := iprop(∃ r, prngReg c r)
  Z c := Pipeline.unscopedRest (Ix := Unit) (Name := ℕ) (U := UR sig nD τ) (Lvl := ℕ) spec21 c (Vc58 m c)
  hentry c := by
    rw [Pipeline.ownSems0_none]
    have hsplit := Pipeline.arrays_of_unscopedBufs (p := 21) (pcfgs (F := F)) GenP.adm (pdats m) launch21.win launch21.arr_whole c
      ((pdats m 21 c).share_full fun _ => rfl) (Vc58 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin21 (Vc58 m) c
  hout c := hout21 (Vc58 m) c
  hexit c := by
    have hjoin := Pipeline.unscopedBufs_of_arrays (p := 21) (pcfgs (F := F)) GenP.adm (Ix := Unit) (Name := ℕ) (U := UR sig nD τ) (Lvl := ℕ)
      launch21.win launch21.arr_whole c (pdats m) ((pdats m 21 c).share_full fun _ => rfl)
      (Vc58 m c) (Vc59 m c) ((pdats m 21 c).arrAt · cfg21.N) (hF21 m c) (hrest21 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Frame.lean ====
import proofs.«126270_j6725918785969_1_alg».proof.Proof.KB.Common
import proofs.«126270_j6725918785969_1_alg».proof.Proof.KB.Seg0
import proofs.«126270_j6725918785969_1_alg».proof.Proof.KB.Seg1
import proofs.«126270_j6725918785969_1_alg».proof.Proof.KB.Seg2
import proofs.«126270_j6725918785969_1_alg».proof.Proof.KB.Seg3
import proofs.«126270_j6725918785969_1_alg».proof.Proof.KB.Seg4
import proofs.«126270_j6725918785969_1_alg».proof.Proof.KB.Seg5
import proofs.«126270_j6725918785969_1_alg».proof.Proof.KB.Seg6
import proofs.«126270_j6725918785969_1_alg».proof.Proof.KB.Seg7
import proofs.«126270_j6725918785969_1_alg».proof.Proof.KB.Seg8
import proofs.«126270_j6725918785969_1_alg».proof.Proof.KB.Seg9
import proofs.«126270_j6725918785969_1_alg».proof.Proof.KB.Seg10
import proofs.«126270_j6725918785969_1_alg».proof.Proof.KB.Seg11
import proofs.«126270_j6725918785969_1_alg».proof.Proof.KB.Seg12
import proofs.«126270_j6725918785969_1_alg».proof.Proof.KB.Seg13
import proofs.«126270_j6725918785969_1_alg».proof.Proof.KB.Seg14
import proofs.«126270_j6725918785969_1_alg».proof.Proof.KB.Seg15
import proofs.«126270_j6725918785969_1_alg».proof.Proof.KB.Seg16
import proofs.«126270_j6725918785969_1_alg».proof.Proof.KB.Seg17
import proofs.«126270_j6725918785969_1_alg».proof.Proof.KB.Seg18
import proofs.«126270_j6725918785969_1_alg».proof.Proof.KB.Seg19
import proofs.«126270_j6725918785969_1_alg».proof.Proof.KB.Seg20
import proofs.«126270_j6725918785969_1_alg».proof.Proof.KB.Seg21

/-!
# The frame of the program of 22 regions

Every weakly fair execution of the program from any memory with zero counters terminates, nothing faulting, and
every final memory holds each of the twelve argument arrays as launched: the conditional frame over the 60
items, instantiated at the chain of buffer contents and at one segment record per region; between two items a
core holds every unscoped buffer at the chain's contents, its generator register at some state, and owes nothing.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- The run of the whole program: it terminates, nothing faulting, and on every core every unscoped buffer ends at
    the chain's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = GenP.V60 m (outsF m) c b) :=
  GenP.run_cond m emb₁ () 𝒱₀ L lv (fun _ _ => rfl) ρ (outsF m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE22 := fun c => by iintro ⟨-, HO⟩; iexact HO)
    (R0 := reg0 m) (hpre0 := fun c => by rw [V0_eq]; exact .rfl) (hpost0 := fun c => by rw [V1_eq]; exact .rfl)
    (R1 := reg1 m) (hpre1 := fun c => by rw [V1_eq]; exact .rfl) (hpost1 := fun c => by rw [V2_eq]; exact .rfl)
    (R2 := reg2 m) (hpre2 := fun c => by rw [V3_eq]; exact .rfl) (hpost2 := fun c => by rw [V4_eq]; exact .rfl)
    (R3 := reg3 m) (hpre3 := fun c => by rw [V4_eq]; exact .rfl) (hpost3 := fun c => by rw [V5_eq]; exact .rfl)
    (R4 := reg4 m) (hpre4 := fun c => by rw [V6_eq]; exact .rfl) (hpost4 := fun c => by rw [V7_eq]; exact .rfl)
    (R5 := reg5 m) (hpre5 := fun c => by rw [V8_eq]; exact .rfl) (hpost5 := fun c => by rw [V9_eq]; exact .rfl)
    (R6 := reg6 m) (hpre6 := fun c => by rw [V10_eq]; exact .rfl) (hpost6 := fun c => by rw [V11_eq]; exact .rfl)
    (R7 := reg7 m) (hpre7 := fun c => by rw [V12_eq]; exact .rfl) (hpost7 := fun c => by rw [V13_eq]; exact .rfl)
    (R8 := reg8 m) (hpre8 := fun c => by rw [V14_eq]; exact .rfl) (hpost8 := fun c => by rw [V15_eq]; exact .rfl)
    (R9 := reg9 m) (hpre9 := fun c => by rw [V15_eq]; exact .rfl) (hpost9 := fun c => by rw [V16_eq]; exact .rfl)
    (R10 := reg10 m) (hpre10 := fun c => by rw [V17_eq]; exact .rfl) (hpost10 := fun c => by rw [V18_eq]; exact .rfl)
    (R11 := reg11 m) (hpre11 := fun c => by rw [V19_eq]; exact .rfl) (hpost11 := fun c => by rw [V20_eq]; exact .rfl)
    (R12 := reg12 m) (hpre12 := fun c => by rw [V21_eq]; exact .rfl) (hpost12 := fun c => by rw [V22_eq]; exact .rfl)
    (R13 := reg13 m) (hpre13 := fun c => by rw [V23_eq]; exact .rfl) (hpost13 := fun c => by rw [V24_eq]; exact .rfl)
    (R14 := reg14 m) (hpre14 := fun c => by rw [V32_eq]; exact .rfl) (hpost14 := fun c => by rw [V33_eq]; exact .rfl)
    (R15 := reg15 m) (hpre15 := fun c => by rw [V34_eq]; exact .rfl) (hpost15 := fun c => by rw [V35_eq]; exact .rfl)
    (R16 := reg16 m) (hpre16 := fun c => by rw [V40_eq]; exact .rfl) (hpost16 := fun c => by rw [V41_eq]; exact .rfl)
    (R17 := reg17 m) (hpre17 := fun c => by rw [V42_eq]; exact .rfl) (hpost17 := fun c => by rw [V43_eq]; exact .rfl)
    (R18 := reg18 m) (hpre18 := fun c => by rw [V48_eq]; exact .rfl) (hpost18 := fun c => by rw [V49_eq]; exact .rfl)
    (R19 := reg19 m) (hpre19 := fun c => by rw [V50_eq]; exact .rfl) (hpost19 := fun c => by rw [V51_eq]; exact .rfl)
    (R20 := reg20 m) (hpre20 := fun c => by rw [V56_eq]; exact .rfl) (hpost20 := fun c => by rw [V57_eq]; exact .rfl)
    (R21 := reg21 m) (hpre21 := fun c => by rw [V58_eq]; exact .rfl) (hpost21 := fun c => by rw [V59_eq]; exact .rfl)

/-- The frame: the twelve argument arrays end as launched — no host stretch writes one and no region may change one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨
    (h c (Proc.devRef .tc main_arg0) (Finset.mem_filter.mpr ⟨StableHlo.devRef_mem_tcRefs main_arg0, by decide⟩)).trans (GenP.V60_main_arg0 m (outsF m) c),
    (h c (Proc.devRef .tc main_arg1) (Finset.mem_filter.mpr ⟨StableHlo.devRef_mem_tcRefs main_arg1, by decide⟩)).trans (GenP.V60_main_arg1 m (outsF m) c),
    (h c (Proc.devRef .tc main_arg2) (Finset.mem_filter.mpr ⟨StableHlo.devRef_mem_tcRefs main_arg2, by decide⟩)).trans (GenP.V60_main_arg2 m (outsF m) c),
    (h c (Proc.devRef .tc main_arg3) (Finset.mem_filter.mpr ⟨StableHlo.devRef_mem_tcRefs main_arg3, by decide⟩)).trans (GenP.V60_main_arg3 m (outsF m) c),
    (h c (Proc.devRef .tc main_arg4) (Finset.mem_filter.mpr ⟨StableHlo.devRef_mem_tcRefs main_arg4, by decide⟩)).trans (GenP.V60_main_arg4 m (outsF m) c),
    (h c (Proc.devRef .tc main_arg5) (Finset.mem_filter.mpr ⟨StableHlo.devRef_mem_tcRefs main_arg5, by decide⟩)).trans (GenP.V60_main_arg5 m (outsF m) c),
    (h c (Proc.devRef .tc main_arg6) (Finset.mem_filter.mpr ⟨StableHlo.devRef_mem_tcRefs main_arg6, by decide⟩)).trans (GenP.V60_main_arg6 m (outsF m) c),
    (h c (Proc.devRef .tc main_arg7) (Finset.mem_filter.mpr ⟨StableHlo.devRef_mem_tcRefs main_arg7, by decide⟩)).trans (GenP.V60_main_arg7 m (outsF m) c),
    (h c (Proc.devRef .tc main_arg8) (Finset.mem_filter.mpr ⟨StableHlo.devRef_mem_tcRefs main_arg8, by decide⟩)).trans (GenP.V60_main_arg8 m (outsF m) c),
    (h c (Proc.devRef .tc main_arg9) (Finset.mem_filter.mpr ⟨StableHlo.devRef_mem_tcRefs main_arg9, by decide⟩)).trans (GenP.V60_main_arg9 m (outsF m) c),
    (h c (Proc.devRef .tc main_arg10) (Finset.mem_filter.mpr ⟨StableHlo.devRef_mem_tcRefs main_arg10, by decide⟩)).trans (GenP.V60_main_arg10 m (outsF m) c),
    (h c (Proc.devRef .tc main_arg11) (Finset.mem_filter.mpr ⟨StableHlo.devRef_mem_tcRefs main_arg11, by decide⟩)).trans (GenP.V60_main_arg11 m (outsF m) c)⟩)
    (run_all m ρ)

end Cert.Kernel.Fr

end
-- ==== Proof.KI.Reg0.lean ====
import proofs.«126270_j6725918785969_1_alg».proof.Proof.Gen.KernelIdeal.Launch
import proofs.«126270_j6725918785969_1_alg».proof.Proof.Gen.KernelIdeal.Skeleton
import proofs.«126270_j6725918785969_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: a row-tiled matrix product

Two input windows and one output window. Window 0 cuts the left factor into blocks of rows (`S2000x128`);
window 1 is the whole right factor (`S128x128`), the same block at every grid point; window 2 is the block of
the result's rows (`S2000x128`). At a grid point the body loads both input blocks, multiplies them into a zero
accumulator and stores the result over the whole output block. Stated at a
parameter `V`, the buffer contents the region is entered from.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's current staging buffer holds its block of rows at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right factor's staging buffer holds the whole factor at every point: fetched at the first point, its
    block index never moves afterwards. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes: each buffer whole. -/
abbrev r0_a : Rect S2000x128 := Rect.unit (s := S2000x128) ![0, 0] S2000x128.size inb_S2000x128_S2000x128_0_0
abbrev r0_b : Rect S128x128 := Rect.unit (s := S128x128) ![0, 0] S128x128.size inb_S128x128_S128x128_0_0

/-- The output buffer after the body: its one store, of the product of the two input blocks. -/
def out0_2 (x0 : Vec F S2000x128 .f32) (x1 : Vec F S128x128 .f32) : Vec F S2000x128 .f32 :=
  View.canon [⟨r0_a, k0_pay1 (View.ld x0 r0_a) (View.ld x1 r0_b)⟩]

/-- The store covers the buffer. -/
theorem cover0_2 (p0 : Vec F S2000x128 .f32) (y : S2000x128.Idx) :
    ∃ pc ∈ ([⟨r0_a, p0⟩] : List (View.Piece (Elt F) S2000x128 .f32)), y ∈ pc.1.set :=
  View.cover_of_tiled [⟨r0_a, p0⟩] S2000x128.size (by rfl) y

set_option maxHeartbeats 1000000 in
/-- The body on whole staging memrefs, the inputs' at contents `x0`, `x1` and the output's at anything, runs to the
    continuation with the inputs' as they were and the output's at `out0_2 x0 x1`. -/
theorem sound_kernel0 (c : Dev nD) (E : Set ℕ) (i : grid0.Coords) (arg0 : Memref sig .tc .vmem S2000x128 .f32) (harg0 : arg0.IsWhole) (arg1 : Memref sig .tc .vmem S128x128 .f32) (harg1 : arg1.IsWhole) (arg2 : Memref sig .tc .vmem S2000x128 .f32) (harg2 : arg2.IsWhole)
    (x0 : Vec F S2000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__mm_big_kernel i arg0 harg0 arg1 harg1 arg2 harg2) K := by
  simp only [cc0__mm_big_kernel_eq_skeleton]; unfold cc0__mm_big_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at point `t` each
    input's buffer at its block and the output's at `out0_2` of them; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant
    and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Reg1.lean ====
import proofs.«126270_j6725918785969_1_alg».proof.Proof.Gen.KernelIdeal.Launch
import proofs.«126270_j6725918785969_1_alg».proof.Proof.Gen.KernelIdeal.Skeleton
import proofs.«126270_j6725918785969_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: a row-tiled matrix product

Two input windows and one output window. Window 0 cuts the left factor into blocks of rows (`S2000x128`);
window 1 is the whole right factor (`S128x128`), the same block at every grid point; window 2 is the block of
the result's rows (`S2000x128`). At a grid point the body loads both input blocks, multiplies them into a zero
accumulator and stores the result over the whole output block. Stated at a
parameter `V`, the buffer contents the region is entered from.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left factor's current staging buffer holds its block of rows at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right factor's staging buffer holds the whole factor at every point: fetched at the first point, its
    block index never moves afterwards. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes: each buffer whole. -/
abbrev r1_a : Rect S2000x128 := Rect.unit (s := S2000x128) ![0, 0] S2000x128.size inb_S2000x128_S2000x128_0_0
abbrev r1_b : Rect S128x128 := Rect.unit (s := S128x128) ![0, 0] S128x128.size inb_S128x128_S128x128_0_0

/-- The output buffer after the body: its one store, of the product of the two input blocks. -/
def out1_2 (x0 : Vec F S2000x128 .f32) (x1 : Vec F S128x128 .f32) : Vec F S2000x128 .f32 :=
  View.canon [⟨r1_a, k1_pay1 (View.ld x0 r1_a) (View.ld x1 r1_b)⟩]

/-- The store covers the buffer. -/
theorem cover1_2 (p0 : Vec F S2000x128 .f32) (y : S2000x128.Idx) :
    ∃ pc ∈ ([⟨r1_a, p0⟩] : List (View.Piece (Elt F) S2000x128 .f32)), y ∈ pc.1.set :=
  View.cover_of_tiled [⟨r1_a, p0⟩] S2000x128.size (by rfl) y

set_option maxHeartbeats 1000000 in
/-- The body on whole staging memrefs, the inputs' at contents `x0`, `x1` and the output's at anything, runs to the
    continuation with the inputs' as they were and the output's at `out1_2 x0 x1`. -/
theorem sound_kernel1 (c : Dev nD) (E : Set ℕ) (i : grid1.Coords) (arg0 : Memref sig .tc .vmem S2000x128 .f32) (harg0 : arg0.IsWhole) (arg1 : Memref sig .tc .vmem S128x128 .f32) (harg1 : arg1.IsWhole) (arg2 : Memref sig .tc .vmem S2000x128 .f32) (harg2 : arg2.IsWhole)
    (x0 : Vec F S2000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__mm_big_kernel i arg0 harg0 arg1 harg1 arg2 harg2) K := by
  simp only [cc1__mm_big_kernel_eq_skeleton]; unfold cc1__mm_big_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core `c`: the arrays as the region finds them; after the body at point `t` each
    input's buffer at its block and the output's at `out1_2` of them; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant
    and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Reg2.lean ====
import proofs.«126270_j6725918785969_1_alg».proof.Proof.Gen.KernelIdeal.Launch
import proofs.«126270_j6725918785969_1_alg».proof.Proof.Gen.KernelIdeal.Skeleton
import proofs.«126270_j6725918785969_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: the row-tiled leaky rectifier `max (x / 2) x`

One input window and one output window, both cut into blocks of 2000 rows; at every grid point the body
loads the input block, computes `max (0.5 · x) x` entry by entry and stores the result over the whole
output block. Stated at a parameter `V`, the buffer contents the region is entered from: the block each
window holds at a point, what the body leaves in the output buffer, the body's triple, the pipeline's
proof data and the body obligation at every point.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point, for any proof data whose array
    is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The one rectangle the body reads and writes: the whole block. -/
abbrev r2_0 : Rect S2000x128 := Rect.unit (s := S2000x128) ![0, 0] S2000x128.size inb_S2000x128_S2000x128_0_0

/-- The output buffer after the body: its one store, of `max (0.5 · x) x` of the input block. -/
def out2_1 (x0 : Vec F S2000x128 .f32) : Vec F S2000x128 .f32 :=
  View.canon [⟨r2_0, k2_pay1 (View.ld x0 r2_0)⟩]

/-- The store covers the buffer. -/
theorem cover2_1 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

set_option maxHeartbeats 1000000 in
/-- The body on whole staging memrefs, the input's at contents `x0` and the output's at anything, runs to the
    continuation with the input's as it was and the output's at `out2_1 x0`. -/
theorem sound_kernel2 (c : Dev nD) (E : Set ℕ) (i : grid2.Coords) (arg0 : Memref sig .tc .vmem S2000x128 .f32) (harg0 : arg0.IsWhole) (arg1 : Memref sig .tc .vmem S2000x128 .f32) (harg1 : arg1.IsWhole)
    (x0 : Vec F S2000x128 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out2_1 x0)) -∗ K ⟨⟩))
      ⊢ wp frame (wpE (defs₀ (F := F)) Variants.none c none) E (cc2__leaky_kernel i arg0 harg0 arg1 harg1) K := by
  simp only [cc2__leaky_kernel_eq_skeleton]; unfold cc2__leaky_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-- The pipeline's proof data on core `c`: the arrays as the region finds them; after the body at point `t` the
    input's buffer at its block and the output's at `out2_1` of it; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]

theorem before2_0 (c : Dev nD) (t : Fin cfg2.N) (d) : (dat2 V c).before 0 t d = iblk2 V c 0 t :=
  before2_0_of V (dat2 V c) (A_eq2 V c 0) (after2_0 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

/-- The body at any point: the input's memref holds its block, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ _ _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Reg3.lean ====
import proofs.«126270_j6725918785969_1_alg».proof.Proof.Gen.KernelIdeal.Launch
import proofs.«126270_j6725918785969_1_alg».proof.Proof.Gen.KernelIdeal.Skeleton
import proofs.«126270_j6725918785969_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 3: the row-tiled leaky rectifier `max (x / 2) x`

One input window and one output window, both cut into blocks of 2000 rows; at every grid point the body
loads the input block, computes `max (0.5 · x) x` entry by entry and stores the result over the whole
output block. Stated at a parameter `V`, the buffer contents the region is entered from: the block each
window holds at a point, what the body leaves in the output buffer, the body's triple, the pipeline's
proof data and the body obligation at every point.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window's current staging buffer holds its block at every point, for any proof data whose array
    is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The one rectangle the body reads and writes: the whole block. -/
abbrev r3_0 : Rect S2000x128 := Rect.unit (s := S2000x128) ![0, 0] S2000x128.size inb_S2000x128_S2000x128_0_0

/-- The output buffer after the body: its one store, of `max (0.5 · x) x` of the input block. -/
def out3_1 (x0 : Vec F S2000x128 .f32) : Vec F S2000x128 .f32 :=
  View.canon [⟨r3_0, k3_pay1 (View.ld x0 r3_0)⟩]

/-- The store covers the buffer. -/
theorem cover3_1 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

set_option maxHeartbeats 1000000 in
/-- The body on whole staging memrefs, the input's at contents `x0` and the output's at anything, runs to the
    continuation with the input's as it was and the output's at `out3_1 x0`. -/
theorem sound_kernel3 (c : Dev nD) (E : Set ℕ) (i : grid3.Coords) (arg0 : Memref sig .tc .vmem S2000x128 .f32) (harg0 : arg0.IsWhole) (arg1 : Memref sig .tc .vmem S2000x128 .f32) (harg1 : arg1.IsWhole)
    (x0 : Vec F S2000x128 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out3_1 x0)) -∗ K ⟨⟩))
      ⊢ wp frame (wpE (defs₀ (F := F)) Variants.none c none) E (cc3__leaky_kernel i arg0 harg0 arg1 harg1) K := by
  simp only [cc3__leaky_kernel_eq_skeleton]; unfold cc3__leaky_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-- The pipeline's proof data on core `c`: the arrays as the region finds them; after the body at point `t` the
    input's buffer at its block and the output's at `out3_1` of it; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

theorem before3_0 (c : Dev nD) (t : Fin cfg3.N) (d) : (dat3 V c).before 0 t d = iblk3 V c 0 t :=
  before3_0_of V (dat3 V c) (A_eq3 V c 0) (after3_0 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

/-- The body at any point: the input's memref holds its block, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ _ _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.Reg4.lean ====
import proofs.«126270_j6725918785969_1_alg».proof.Proof.Gen.KernelIdeal.Launch
import proofs.«126270_j6725918785969_1_alg».proof.Proof.Gen.KernelIdeal.Skeleton
import proofs.«126270_j6725918785969_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 4: the product `lhsᵀ · rhs` reduced over fifty blocks of rows, then the leaky rectifier

Two input windows, each cut into fifty blocks of 2000 rows, and one 128 × 128 output window whose block index
never moves. The kernel keeps a 128 × 128 accumulator in a scratch buffer of its own: at the first grid point it
zeroes it, at every point it adds the product of the transposed left block and the right block, and at the last
point only it stores `max (x / 2) x` of the accumulator into the output's staging buffer, which is written back
there and nowhere else. So the body has three control cases — first point, middle point, last point —, the
accumulator's contents are carried from point to point by the region invariant, and the output window is idle
everywhere but at the last point. Stated at a parameter `V`, the buffer contents the region is entered from.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, decided over the grid -/

/-- The condition of the body's first conditional: the reduction coordinate is zero. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val % 50 = 0 :=
  (by decide +kernel : ∀ t : Fin grid4.N, cond4_0 (grid4.coords t) ↔ t.val % 50 = 0)

/-- The condition of the body's second conditional: the reduction coordinate is the last. -/
abbrev cond4_1 (i : grid4.Coords) : Prop := k4_cond2 i = 1#1
/-- It holds at the last point only. -/
theorem hcond4_1 : ∀ t : Fin cfg4.N, cond4_1 (grid4.coords t) ↔ t.val % 50 = 49 :=
  (by decide +kernel : ∀ t : Fin grid4.N, cond4_1 (grid4.coords t) ↔ t.val % 50 = 49)

/-! ## Where the windows are idle -/

/-- The two inputs are never idle. -/
theorem liveAt4_0 : ∀ t : Fin cfg4.N, cfg4.idle 0 (grid4.coords t) = false := by decide +kernel
theorem liveAt4_1 : ∀ t : Fin cfg4.N, cfg4.idle 1 (grid4.coords t) = false := by decide +kernel
/-- Where the second condition fails the output is idle and is not written back. -/
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
/-- Where it holds the output is live. -/
theorem liveAt4_2 : ∀ t : Fin cfg4.N, cond4_1 (grid4.coords t) → cfg4.idle 2 (grid4.coords t) = false := by decide +kernel

/-! ## The memrefs the body is called with -/

/-- One staging buffer of the output window, through which its contents are stated. -/
abbrev VO4_2 : View sig .tc .vmem S128x128 .f32 := (Memref.whole cc4_stg2_0 : Memref sig .tc .vmem S128x128 .f32).view
/-- Each window's current staging memref at point `t`, and its wholeness. -/
abbrev ms4_0 (t : Fin cfg4.N) : Memref sig .tc .vmem S2000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
/-- The accumulator: a whole scoped buffer of the kernel's own, passed beside the windows. -/
abbrev scM4_0 : Memref sig .tc .vmem S128x128 .f32 := Memref.whole cc4_scratch0
/-- The accumulator as a view: what it holds is stated through it. -/
abbrev VS4_0 : View sig .tc .vmem S128x128 .f32 := scM4_0.view

/-- The region invariant of a body that need not describe its scratch, with the accumulator as a memref owned at
    some contents and every other scoped buffer unopened. -/
theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

set_option maxHeartbeats 1000000 in
/-- THE FIRST POINT (the first conditional taken, the second not). On whole memrefs — the inputs' at their contents,
    the output's at contents handed back untouched, the accumulator at anything — the body runs to the continuation
    holding the inputs' and the output's as they were and the accumulator with its stores' pieces written (last
    first): zero, then zero plus the product of the two blocks. The pieces are what the run finds. -/
noncomputable def kernelRun4_A (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : cond4_0 i) (hc1 : ¬cond4_1 i)
    (x0 : Vec F S2000x128 .f32) (x1 : Vec F S2000x128 .f32) :
    Σ' (L2 : List (View.Piece (Elt F) S128x128 .f32)), { LS0 : List (View.Piece (Elt F) S128x128 .f32) //
      ∀ (xi2 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc4__mm_reduce_k_kernel i arg1 harg1 arg2 harg2 arg3 harg3 arg4 harg4) K } := by
  refine ⟨[], ?_, fun xi2 E K => ?run⟩
  case run =>
    simp only [cc4__mm_reduce_k_kernel_eq_skeleton]; unfold cc4__mm_reduce_k_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A MIDDLE POINT (neither conditional taken). The accumulator comes in at the contents `xs0` the point before left
    and goes out with one piece written: `xs0` plus the product of the two blocks. The output is handed back untouched. -/
noncomputable def kernelRun4_B (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond4_0 i) (hc1 : ¬cond4_1 i)
    (x0 : Vec F S2000x128 .f32) (x1 : Vec F S2000x128 .f32) (xs0 : Vec F S128x128 .f32) :
    Σ' (L2 : List (View.Piece (Elt F) S128x128 .f32)), { LS0 : List (View.Piece (Elt F) S128x128 .f32) //
      ∀ (xi2 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc4__mm_reduce_k_kernel i arg1 harg1 arg2 harg2 arg3 harg3 arg4 harg4) K } := by
  refine ⟨[], ?_, fun xi2 E K => ?run⟩
  case run =>
    simp only [cc4__mm_reduce_k_kernel_eq_skeleton]; unfold cc4__mm_reduce_k_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- THE LAST POINT (the first conditional not taken, the second taken). The accumulator comes in at `xs0`, goes out
    with `xs0` plus the product written, and the output, at anything before, goes out with one piece written: the
    rectifier of the accumulator's final contents. -/
noncomputable def kernelRun4_C (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond4_0 i) (hc1 : cond4_1 i)
    (x0 : Vec F S2000x128 .f32) (x1 : Vec F S2000x128 .f32) (xs0 : Vec F S128x128 .f32) :
    Σ' (L2 : List (View.Piece (Elt F) S128x128 .f32)), { LS0 : List (View.Piece (Elt F) S128x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc4__mm_reduce_k_kernel i arg1 harg1 arg2 harg2 arg3 harg3 arg4 harg4) K } := by
  refine ⟨?_, ?_, fun E K => ?run⟩
  case run =>
    simp only [cc4__mm_reduce_k_kernel_eq_skeleton]; unfold cc4__mm_reduce_k_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input's current staging buffer holds its block of rows at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## What each case leaves in the output's buffer and in the accumulator -/

/-- The first point's stores cover the accumulator. -/
theorem scover4_A_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : cond4_0 i) (hc1 : ¬cond4_1 i)
    (x0 : Vec F S2000x128 .f32) (x1 : Vec F S2000x128 .f32) (y : S128x128.Idx) :
    ∃ pc ∈ (kernelRun4_A c i arg1 harg1 arg2 harg2 arg3 harg3 arg4 harg4 hc0 hc1 x0 x1).2.1, y ∈ pc.1.set :=
  View.cover_of_tiledL (kernelRun4_A c i arg1 harg1 arg2 harg2 arg3 harg3 arg4 harg4 hc0 hc1 x0 x1).2.1 S128x128.size (by sl_kernel_rfl) y

/-- What the first point leaves in the accumulator: its pieces read back. -/
def sout4_A_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : cond4_0 i) (hc1 : ¬cond4_1 i)
    (x0 : Vec F S2000x128 .f32) (x1 : Vec F S2000x128 .f32) : Vec F S128x128 .f32 :=
  VS4_0.read (Elt F) (VS4_0.writes (Elt F) VS4_0.junk (kernelRun4_A c i arg1 harg1 arg2 harg2 arg3 harg3 arg4 harg4 hc0 hc1 x0 x1).2.1)

/-- A middle point's store covers the accumulator. -/
theorem scover4_B_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond4_0 i) (hc1 : ¬cond4_1 i)
    (x0 : Vec F S2000x128 .f32) (x1 : Vec F S2000x128 .f32) (xs0 : Vec F S128x128 .f32) (y : S128x128.Idx) :
    ∃ pc ∈ (kernelRun4_B c i arg1 harg1 arg2 harg2 arg3 harg3 arg4 harg4 hc0 hc1 x0 x1 xs0).2.1, y ∈ pc.1.set :=
  View.cover_of_tiledL (kernelRun4_B c i arg1 harg1 arg2 harg2 arg3 harg3 arg4 harg4 hc0 hc1 x0 x1 xs0).2.1 S128x128.size (by sl_kernel_rfl) y

/-- What a middle point leaves in the accumulator. -/
def sout4_B_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond4_0 i) (hc1 : ¬cond4_1 i)
    (x0 : Vec F S2000x128 .f32) (x1 : Vec F S2000x128 .f32) (xs0 : Vec F S128x128 .f32) : Vec F S128x128 .f32 :=
  VS4_0.read (Elt F) (VS4_0.writes (Elt F) VS4_0.junk (kernelRun4_B c i arg1 harg1 arg2 harg2 arg3 harg3 arg4 harg4 hc0 hc1 x0 x1 xs0).2.1)

/-- The last point's store covers the output's buffer. -/
theorem cover4_C_2 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond4_0 i) (hc1 : cond4_1 i)
    (x0 : Vec F S2000x128 .f32) (x1 : Vec F S2000x128 .f32) (xs0 : Vec F S128x128 .f32) (y : S128x128.Idx) :
    ∃ pc ∈ (kernelRun4_C c i arg1 harg1 arg2 harg2 arg3 harg3 arg4 harg4 hc0 hc1 x0 x1 xs0).1, y ∈ pc.1.set :=
  View.cover_of_tiledL (kernelRun4_C c i arg1 harg1 arg2 harg2 arg3 harg3 arg4 harg4 hc0 hc1 x0 x1 xs0).1 S128x128.size (by sl_kernel_rfl) y

/-- What the last point leaves in the output's buffer. -/
def out4_C_2 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond4_0 i) (hc1 : cond4_1 i)
    (x0 : Vec F S2000x128 .f32) (x1 : Vec F S2000x128 .f32) (xs0 : Vec F S128x128 .f32) : Vec F S128x128 .f32 :=
  VO4_2.read (Elt F) (VO4_2.writes (Elt F) VO4_2.junk (kernelRun4_C c i arg1 harg1 arg2 harg2 arg3 harg3 arg4 harg4 hc0 hc1 x0 x1 xs0).1)

/-- The last point's store covers the accumulator. -/
theorem scover4_C_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond4_0 i) (hc1 : cond4_1 i)
    (x0 : Vec F S2000x128 .f32) (x1 : Vec F S2000x128 .f32) (xs0 : Vec F S128x128 .f32) (y : S128x128.Idx) :
    ∃ pc ∈ (kernelRun4_C c i arg1 harg1 arg2 harg2 arg3 harg3 arg4 harg4 hc0 hc1 x0 x1 xs0).2.1, y ∈ pc.1.set :=
  View.cover_of_tiledL (kernelRun4_C c i arg1 harg1 arg2 harg2 arg3 harg3 arg4 harg4 hc0 hc1 x0 x1 xs0).2.1 S128x128.size (by sl_kernel_rfl) y

/-- What the last point leaves in the accumulator. -/
def sout4_C_0 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond4_0 i) (hc1 : cond4_1 i)
    (x0 : Vec F S2000x128 .f32) (x1 : Vec F S2000x128 .f32) (xs0 : Vec F S128x128 .f32) : Vec F S128x128 .f32 :=
  VS4_0.read (Elt F) (VS4_0.writes (Elt F) VS4_0.junk (kernelRun4_C c i arg1 harg1 arg2 harg2 arg3 harg3 arg4 harg4 hc0 hc1 x0 x1 xs0).2.1)

/-! ## What the output's buffer and the accumulator hold after each point -/

/-- The output's buffer at a point that stores nothing into it: a placeholder nothing consults, the window being
    neither written back there nor read at the next point. -/
def idle4_2 : Vec F S128x128 .f32 := VO4_2.read (Elt F) VO4_2.junk

/-- THE ACCUMULATION. What the output's staging buffer and the accumulator hold after the body at position `n`: the
    case the closed forms select at `n`, run at the point's memrefs and input blocks, the accumulator coming in at
    what position `n - 1` left in it. After the first point the accumulator is zero plus the first product; after a
    later point what it held plus that point's product; after the last point the output's buffer holds the
    rectifier of the whole sum. -/
def outsAt4 (c : Dev nD) : (n : ℕ) → n < cfg4.N → Vec F S128x128 .f32 × Vec F S128x128 .f32
  | 0, hn => (idle4_2, sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 50 = 0 then
      if h1 : (n + 1) % 50 = 49 then
        False.elim (by omega)
      else
        (idle4_2, sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 50 = 49 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2,
         sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2)
      else
        (idle4_2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2)

/-- `outsAt4` at the first point. -/
theorem outsAt4_A (c : Dev nD) (t : Fin cfg4.N) (h0 : t.val % 50 = 0) (h1 : ¬t.val % 50 = 49) :
    outsAt4 V c t.val t.isLt = (idle4_2, sout4_A_0 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

/-- `outsAt4` at a middle point: over what the point before left. -/
theorem outsAt4_B (c : Dev nD) (t : Fin cfg4.N) (h0 : ¬t.val % 50 = 0) (h1 : ¬t.val % 50 = 49) :
    outsAt4 V c t.val t.isLt = (idle4_2, sout4_B_0 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt4` at the last point: over what the point before left. -/
theorem outsAt4_C (c : Dev nD) (t : Fin cfg4.N) (h0 : ¬t.val % 50 = 0) (h1 : t.val % 50 = 49) :
    outsAt4 V c t.val t.isLt = (out4_C_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2,
      sout4_C_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point every scoped buffer that is no staging buffer at
    anything, and the generator register at some state; afterwards the accumulator at what the point before left in
    it (`outsAt4`'s second component), every other such buffer unopened, and the register. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2)) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare ((outsAt4 V c n hn).2)) ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2)) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The pipeline's proof data -/

/-- The proof data on core `c`: the arrays as the region finds them; after the body at point `t` each input's
    buffer at its block and the output's at `outsAt4`'s first component; the invariant `PhiS4`; nothing owed; full
    shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point. The inputs' memrefs hold their blocks; the closed forms say which case the point is in;
    the invariant hands the body the accumulator — at anything at the first point, at what the point before left
    afterwards —, every other scoped buffer and the generator register riding along unread, and takes the
    accumulator back at this point's contents; the output's buffer is handed back untouched except at the last
    point, where it is left at the rectifier of the sum; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 50 := lt_of_lt_of_eq t.isLt (show cfg4.N = 50 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  by_cases h0 : t.val % 50 = 0
  · have h1 : ¬t.val % 50 = 49 := by omega
    have hz : t.val = 0 := by omega
    rw [Dat.leavesExact_idle (dat4 V c) 2 t (idleAt4_2 t (fun h => h1 ((hcond4_1 t).mp h))) (noFlush4_2 t (fun h => h1 ((hcond4_1 t).mp h)))]
    rw [outsAt4_A V c t h0 h1]
    unfold sout4_A_0; (try dsimp only)
    rw [PhiS4_castSucc V c t, PhiS4_zero V c _ _ hz, PhiA4_eq]
    iintro ⟨⟨⟨HS0, Hrest⟩, Hg⟩, Ho, ⟨%d0, H0⟩, ⟨%d1, H1⟩, ⟨%d2, H2⟩⟩
    iapply ((kernelRun4_A c (grid4.coords t) _ _ _ _ _ _ _ _ ((hcond4_0 t).mpr h0) (fun h => h1 ((hcond4_1 t).mp h)) (iblk4 V c 0 t) (iblk4 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover4_A_0 c _ _ _ _ _ _ _ _ _ _ _ _ _)
        iexact Hrest
      iexact Hg
    isplitl [Ho]; · iexact Ho
    isplitl [H0]; · iexact H0
    isplitl [H1]; · iexact H1
    iexists _; iexact H2
  · have hz : t.val ≠ 0 := by omega
    by_cases h1 : t.val % 50 = 49
    · rw [show (dat4 V c).leavesExact 2 t = owns (c : Thread nD τ) (ms4_2 t) fullShare ((dat4 V c).after 2 t) from by
        unfold Dat.leavesExact; rw [liveAt4_2 t ((hcond4_1 t).mpr h1)], after4_2]
      rw [outsAt4_C V c t h0 h1]
      unfold out4_C_2 sout4_C_0; (try dsimp only)
      rw [PhiS4_castSucc V c t, PhiS4_pos V c _ _ hz]
      iintro ⟨⟨⟨HS0, Hrest⟩, Hg⟩, Ho, ⟨%d0, H0⟩, ⟨%d1, H1⟩, ⟨%d2, H2⟩⟩
      iapply ((kernelRun4_C c (grid4.coords t) _ _ _ _ _ _ _ _ (fun h => h0 ((hcond4_0 t).mp h)) ((hcond4_1 t).mpr h1) (iblk4 V c 0 t) (iblk4 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover4_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_C_2 c _ _ _ _ _ _ _ _ _ _ _ _ _ _)
    · rw [Dat.leavesExact_idle (dat4 V c) 2 t (idleAt4_2 t (fun h => h1 ((hcond4_1 t).mp h))) (noFlush4_2 t (fun h => h1 ((hcond4_1 t).mp h)))]
      rw [outsAt4_B V c t h0 h1]
      unfold sout4_B_0; (try dsimp only)
      rw [PhiS4_castSucc V c t, PhiS4_pos V c _ _ hz]
      iintro ⟨⟨⟨HS0, Hrest⟩, Hg⟩, Ho, ⟨%d0, H0⟩, ⟨%d1, H1⟩, ⟨%d2, H2⟩⟩
      iapply ((kernelRun4_B c (grid4.coords t) _ _ _ _ _ _ _ _ (fun h => h0 ((hcond4_0 t).mp h)) (fun h => h1 ((hcond4_1 t).mp h)) (iblk4 V c 0 t) (iblk4 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover4_B_0 c _ _ _ _ _ _ _ _ _ _ _ _ _ _)
          iexact Hrest
        iexact Hg
      isplitl [Ho]; · iexact Ho
      isplitl [H0]; · iexact H0
      isplitl [H1]; · iexact H1
      iexists _; iexact H2

/-- The body obligation, at every point. -/
theorem body_obligation4 (c : Dev nD) : BodyObligation (dat4 (F := F) V c) (defs₀ (F := F)) Variants.none () Set.univ := fun t => by
  rw [bigSep_W4, bigSep_W4]
  exact sound_body4 V c t

/-! ## Into the invariant and out of it -/

/-- What the launch hands the region — the generator register, no prefetched table, the scoped buffers no window
    stages — is the invariant before the first point. -/
theorem hin4 (c : Dev nD) :
    iprop((∃ r, prngReg c r) ∗ Pipeline.prefHeld (pcfgs (F := F) 4).pre c (fun _ => fullShare) ((cfgs 4).toPCfg_adm).1 ∗ Pipeline.scopedRest spec4 c)
      ⊢ (dat4 V c).Φ 0 := by
  rw [show (dat4 V c).Φ 0 = PhiS4 V c 0 (Nat.zero_le _) from rfl, PhiS4_zero V c 0 _ rfl]; unfold Pipeline.ΦA
  iintro ⟨Hp, -, Hr⟩
  isplitl [Hr]; · iexact Hr
  iexact Hp

/-- After any point but the first the invariant gives the scoped buffers and the register back: the accumulator's
    named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hrest⟩, Hg⟩
  isplitl [HS0 Hrest]
  · isplitl [HS0]
    · iexists _; iexact HS0
    iexact Hrest
  iexact Hg

/-- The same after the last point, as the region hands it back: the register, no semaphore of the kernel's own, the
    scoped buffers. -/
theorem hout4 (c : Dev nD) :
    (dat4 V c).Φ (Fin.last cfg4.N)
      ⊢ iprop((∃ r, prngReg c r) ∗ Pipeline.ownSems0 (Ix := Unit) (Name := ℕ) (U := UR sig nD τ) (Lvl := ℕ) (Val := Elt F) (τ := τ) (fun k : PEmpty => k.elim) c ∗ Pipeline.scopedRest spec4 c) := by
  refine (Phi_out4 V c _ (by rw [Fin.val_last]; have : cfg4.N = 50 := N_4; omega)).trans ?_
  rw [Pipeline.ownSems0_none]; unfold Pipeline.ΦA
  iintro ⟨Hr, Hp⟩
  isplitl [Hp]; · iexact Hp
  isplitr; · iempintro
  iexact Hr

end Cert.KernelIdeal.Fr

end
-- ==== Proof.KI.Reg5.lean ====
import proofs.«126270_j6725918785969_1_alg».proof.Proof.Gen.KernelIdeal.Launch
import proofs.«126270_j6725918785969_1_alg».proof.Proof.Gen.KernelIdeal.Skeleton
import proofs.«126270_j6725918785969_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 5: a row-tiled matrix product followed by the leaky rectifier

Two input windows and one output window. Window 0 cuts the left factor into blocks of rows (`S2000x128`);
window 1 is the whole right factor (`S128x128`), the same block at every grid point; window 2 is the block of
the result's rows (`S2000x128`). At a grid point the body loads both input blocks, multiplies them into a zero
accumulator, takes `max (0.5 · y) y` entry by entry and stores the result over the whole output block. Stated at a
parameter `V`, the buffer contents the region is entered from.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The left factor's current staging buffer holds its block of rows at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The right factor's staging buffer holds the whole factor at every point: fetched at the first point, its
    block index never moves afterwards. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The rectangles the body reads and writes: each buffer whole. -/
abbrev r5_a : Rect S2000x128 := Rect.unit (s := S2000x128) ![0, 0] S2000x128.size inb_S2000x128_S2000x128_0_0
abbrev r5_b : Rect S128x128 := Rect.unit (s := S128x128) ![0, 0] S128x128.size inb_S128x128_S128x128_0_0

/-- The output buffer after the body: its one store, of the product of the two input blocks. -/
def out5_2 (x0 : Vec F S2000x128 .f32) (x1 : Vec F S128x128 .f32) : Vec F S2000x128 .f32 :=
  View.canon [⟨r5_a, k5_pay1 (View.ld x0 r5_a) (View.ld x1 r5_b)⟩]

/-- The store covers the buffer. -/
theorem cover5_2 (p0 : Vec F S2000x128 .f32) (y : S2000x128.Idx) :
    ∃ pc ∈ ([⟨r5_a, p0⟩] : List (View.Piece (Elt F) S2000x128 .f32)), y ∈ pc.1.set :=
  View.cover_of_tiled [⟨r5_a, p0⟩] S2000x128.size (by rfl) y

set_option maxHeartbeats 1000000 in
/-- The body on whole staging memrefs, the inputs' at contents `x0`, `x1` and the output's at anything, runs to the
    continuation with the inputs' as they were and the output's at `out5_2 x0 x1`. -/
theorem sound_kernel5 (c : Dev nD) (E : Set ℕ) (i : grid5.Coords) (arg0 : Memref sig .tc .vmem S2000x128 .f32) (harg0 : arg0.IsWhole) (arg1 : Memref sig .tc .vmem S128x128 .f32) (harg1 : arg1.IsWhole) (arg2 : Memref sig .tc .vmem S2000x128 .f32) (harg2 : arg2.IsWhole)
    (x0 : Vec F S2000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out5_2 x0 x1)) -∗ K ⟨⟩))
      ⊢ wp frame (wpE (defs₀ (F := F)) Variants.none c none) E (cc5__mm_big_kernel i arg0 harg0 arg1 harg1 arg2 harg2) K := by
  simp only [cc5__mm_big_kernel_eq_skeleton]; unfold cc5__mm_big_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The pipeline's proof data on core `c`: the arrays as the region finds them; after the body at point `t` each
    input's buffer at its block and the output's at `out5_2` of them; the invariant the scoped rest and the
    generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so the body's triple applies; the invariant
    and the core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.KI.Reg6.lean ====
import proofs.«126270_j6725918785969_1_alg».proof.Proof.Gen.KernelIdeal.Launch
import proofs.«126270_j6725918785969_1_alg».proof.Proof.Gen.KernelIdeal.Skeleton
import proofs.«126270_j6725918785969_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 6: the product `lhsᵀ · rhs` reduced over twenty-five blocks of rows, then the leaky rectifier

Two input windows, each cut into twenty-five blocks of 2000 rows, and one 128 × 128 output window whose block index
never moves. The kernel keeps a 128 × 128 accumulator in a scratch buffer of its own: at the first grid point it
zeroes it, at every point it adds the product of the transposed left block and the right block, and at the last
point only it stores `max (x / 2) x` of the accumulator into the output's staging buffer, which is written back
there and nowhere else. So the body has three control cases — first point, middle point, last point —, the
accumulator's contents are carried from point to point by the region invariant, and the output window is idle
everywhere but at the last point. Stated at a parameter `V`, the buffer contents the region is entered from.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, decided over the grid -/

/-- The condition of the body's first conditional: the reduction coordinate is zero. -/
abbrev cond6_0 (i : grid6.Coords) : Prop := (Scalar.cmpi .ne (Scalar.extui (Scalar.cmpi .eq (BitVec.ofNat 32 (i 0).val) 0#32)) 0#32) = 1#1
/-- It holds at the first point only. -/
theorem hcond6_0 : ∀ t : Fin cfg6.N, cond6_0 (grid6.coords t) ↔ t.val % 25 = 0 :=
  (by decide +kernel : ∀ t : Fin grid6.N, cond6_0 (grid6.coords t) ↔ t.val % 25 = 0)

/-- The condition of the body's second conditional: the reduction coordinate is the last. -/
abbrev cond6_1 (i : grid6.Coords) : Prop := k6_cond2 i = 1#1
/-- It holds at the last point only. -/
theorem hcond6_1 : ∀ t : Fin cfg6.N, cond6_1 (grid6.coords t) ↔ t.val % 25 = 24 :=
  (by decide +kernel : ∀ t : Fin grid6.N, cond6_1 (grid6.coords t) ↔ t.val % 25 = 24)

/-! ## Where the windows are idle -/

/-- The two inputs are never idle. -/
theorem liveAt6_0 : ∀ t : Fin cfg6.N, cfg6.idle 0 (grid6.coords t) = false := by decide +kernel
theorem liveAt6_1 : ∀ t : Fin cfg6.N, cfg6.idle 1 (grid6.coords t) = false := by decide +kernel
/-- Where the second condition fails the output is idle and is not written back. -/
theorem idleAt6_2 : ∀ t : Fin cfg6.N, ¬cond6_1 (grid6.coords t) → cfg6.idle 2 (grid6.coords t) = true := by decide +kernel
theorem noFlush6_2 : ∀ t : Fin cfg6.N, ¬cond6_1 (grid6.coords t) → (cfg6.win 2).flush t = false := by decide +kernel
/-- Where it holds the output is live. -/
theorem liveAt6_2 : ∀ t : Fin cfg6.N, cond6_1 (grid6.coords t) → cfg6.idle 2 (grid6.coords t) = false := by decide +kernel

/-! ## The memrefs the body is called with -/

/-- One staging buffer of the output window, through which its contents are stated. -/
abbrev VO6_2 : View sig .tc .vmem S128x128 .f32 := (Memref.whole cc6_stg2_0 : Memref sig .tc .vmem S128x128 .f32).view
/-- Each window's current staging memref at point `t`, and its wholeness. -/
abbrev ms6_0 (t : Fin cfg6.N) : Memref sig .tc .vmem S2000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S2000x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S128x128 .f32 := win6_2.stage (cfg6.slots t 2)
abbrev hs6_2 (t : Fin cfg6.N) : (ms6_2 t).IsWhole := hstage6_2 ((cfg6.slots t 2).cast nbuf6_2)
/-- The accumulator: a whole scoped buffer of the kernel's own, passed beside the windows. -/
abbrev scM6_0 : Memref sig .tc .vmem S128x128 .f32 := Memref.whole cc6_scratch0
/-- The accumulator as a view: what it holds is stated through it. -/
abbrev VS6_0 : View sig .tc .vmem S128x128 .f32 := scM6_0.view

/-- The region invariant of a body that need not describe its scratch, with the accumulator as a memref owned at
    some contents and every other scoped buffer unopened. -/
theorem PhiA6_eq (c : Dev nD) :
    (Pipeline.ΦA spec6 c : sProp 𝕄)
      = iprop(iprop(iprop((∃ d, owns (c : Thread nD τ) scM6_0 fullShare d))
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6_0, owns_whole]; try rfl

set_option maxHeartbeats 1000000 in
/-- THE FIRST POINT (the first conditional taken, the second not). On whole memrefs — the inputs' at their contents,
    the output's at contents handed back untouched, the accumulator at anything — the body runs to the continuation
    holding the inputs' and the output's as they were and the accumulator with its stores' pieces written (last
    first): zero, then zero plus the product of the two blocks. The pieces are what the run finds. -/
noncomputable def kernelRun6_A (c : Dev nD) (i : grid6.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : cond6_0 i) (hc1 : ¬cond6_1 i)
    (x0 : Vec F S2000x128 .f32) (x1 : Vec F S2000x128 .f32) :
    Σ' (L2 : List (View.Piece (Elt F) S128x128 .f32)), { LS0 : List (View.Piece (Elt F) S128x128 .f32) //
      ∀ (xi2 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc6__mm_reduce_k_kernel i arg1 harg1 arg2 harg2 arg3 harg3 arg4 harg4) K } := by
  refine ⟨[], ?_, fun xi2 E K => ?run⟩
  case run =>
    simp only [cc6__mm_reduce_k_kernel_eq_skeleton]; unfold cc6__mm_reduce_k_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A MIDDLE POINT (neither conditional taken). The accumulator comes in at the contents `xs0` the point before left
    and goes out with one piece written: `xs0` plus the product of the two blocks. The output is handed back untouched. -/
noncomputable def kernelRun6_B (c : Dev nD) (i : grid6.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond6_0 i) (hc1 : ¬cond6_1 i)
    (x0 : Vec F S2000x128 .f32) (x1 : Vec F S2000x128 .f32) (xs0 : Vec F S128x128 .f32) :
    Σ' (L2 : List (View.Piece (Elt F) S128x128 .f32)), { LS0 : List (View.Piece (Elt F) S128x128 .f32) //
      ∀ (xi2 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc6__mm_reduce_k_kernel i arg1 harg1 arg2 harg2 arg3 harg3 arg4 harg4) K } := by
  refine ⟨[], ?_, fun xi2 E K => ?run⟩
  case run =>
    simp only [cc6__mm_reduce_k_kernel_eq_skeleton]; unfold cc6__mm_reduce_k_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- THE LAST POINT (the first conditional not taken, the second taken). The accumulator comes in at `xs0`, goes out
    with `xs0` plus the product written, and the output, at anything before, goes out with one piece written: the
    rectifier of the accumulator's final contents. -/
noncomputable def kernelRun6_C (c : Dev nD) (i : grid6.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond6_0 i) (hc1 : cond6_1 i)
    (x0 : Vec F S2000x128 .f32) (x1 : Vec F S2000x128 .f32) (xs0 : Vec F S128x128 .f32) :
    Σ' (L2 : List (View.Piece (Elt F) S128x128 .f32)), { LS0 : List (View.Piece (Elt F) S128x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc6__mm_reduce_k_kernel i arg1 harg1 arg2 harg2 arg3 harg3 arg4 harg4) K } := by
  refine ⟨?_, ?_, fun E K => ?run⟩
  case run =>
    simp only [cc6__mm_reduce_k_kernel_eq_skeleton]; unfold cc6__mm_reduce_k_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Each input's current staging buffer holds its block of rows at every point. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## What each case leaves in the output's buffer and in the accumulator -/

/-- The first point's stores cover the accumulator. -/
theorem scover6_A_0 (c : Dev nD) (i : grid6.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : cond6_0 i) (hc1 : ¬cond6_1 i)
    (x0 : Vec F S2000x128 .f32) (x1 : Vec F S2000x128 .f32) (y : S128x128.Idx) :
    ∃ pc ∈ (kernelRun6_A c i arg1 harg1 arg2 harg2 arg3 harg3 arg4 harg4 hc0 hc1 x0 x1).2.1, y ∈ pc.1.set :=
  View.cover_of_tiledL (kernelRun6_A c i arg1 harg1 arg2 harg2 arg3 harg3 arg4 harg4 hc0 hc1 x0 x1).2.1 S128x128.size (by sl_kernel_rfl) y

/-- What the first point leaves in the accumulator: its pieces read back. -/
def sout6_A_0 (c : Dev nD) (i : grid6.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : cond6_0 i) (hc1 : ¬cond6_1 i)
    (x0 : Vec F S2000x128 .f32) (x1 : Vec F S2000x128 .f32) : Vec F S128x128 .f32 :=
  VS6_0.read (Elt F) (VS6_0.writes (Elt F) VS6_0.junk (kernelRun6_A c i arg1 harg1 arg2 harg2 arg3 harg3 arg4 harg4 hc0 hc1 x0 x1).2.1)

/-- A middle point's store covers the accumulator. -/
theorem scover6_B_0 (c : Dev nD) (i : grid6.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond6_0 i) (hc1 : ¬cond6_1 i)
    (x0 : Vec F S2000x128 .f32) (x1 : Vec F S2000x128 .f32) (xs0 : Vec F S128x128 .f32) (y : S128x128.Idx) :
    ∃ pc ∈ (kernelRun6_B c i arg1 harg1 arg2 harg2 arg3 harg3 arg4 harg4 hc0 hc1 x0 x1 xs0).2.1, y ∈ pc.1.set :=
  View.cover_of_tiledL (kernelRun6_B c i arg1 harg1 arg2 harg2 arg3 harg3 arg4 harg4 hc0 hc1 x0 x1 xs0).2.1 S128x128.size (by sl_kernel_rfl) y

/-- What a middle point leaves in the accumulator. -/
def sout6_B_0 (c : Dev nD) (i : grid6.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond6_0 i) (hc1 : ¬cond6_1 i)
    (x0 : Vec F S2000x128 .f32) (x1 : Vec F S2000x128 .f32) (xs0 : Vec F S128x128 .f32) : Vec F S128x128 .f32 :=
  VS6_0.read (Elt F) (VS6_0.writes (Elt F) VS6_0.junk (kernelRun6_B c i arg1 harg1 arg2 harg2 arg3 harg3 arg4 harg4 hc0 hc1 x0 x1 xs0).2.1)

/-- The last point's store covers the output's buffer. -/
theorem cover6_C_2 (c : Dev nD) (i : grid6.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond6_0 i) (hc1 : cond6_1 i)
    (x0 : Vec F S2000x128 .f32) (x1 : Vec F S2000x128 .f32) (xs0 : Vec F S128x128 .f32) (y : S128x128.Idx) :
    ∃ pc ∈ (kernelRun6_C c i arg1 harg1 arg2 harg2 arg3 harg3 arg4 harg4 hc0 hc1 x0 x1 xs0).1, y ∈ pc.1.set :=
  View.cover_of_tiledL (kernelRun6_C c i arg1 harg1 arg2 harg2 arg3 harg3 arg4 harg4 hc0 hc1 x0 x1 xs0).1 S128x128.size (by sl_kernel_rfl) y

/-- What the last point leaves in the output's buffer. -/
def out6_C_2 (c : Dev nD) (i : grid6.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond6_0 i) (hc1 : cond6_1 i)
    (x0 : Vec F S2000x128 .f32) (x1 : Vec F S2000x128 .f32) (xs0 : Vec F S128x128 .f32) : Vec F S128x128 .f32 :=
  VO6_2.read (Elt F) (VO6_2.writes (Elt F) VO6_2.junk (kernelRun6_C c i arg1 harg1 arg2 harg2 arg3 harg3 arg4 harg4 hc0 hc1 x0 x1 xs0).1)

/-- The last point's store covers the accumulator. -/
theorem scover6_C_0 (c : Dev nD) (i : grid6.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond6_0 i) (hc1 : cond6_1 i)
    (x0 : Vec F S2000x128 .f32) (x1 : Vec F S2000x128 .f32) (xs0 : Vec F S128x128 .f32) (y : S128x128.Idx) :
    ∃ pc ∈ (kernelRun6_C c i arg1 harg1 arg2 harg2 arg3 harg3 arg4 harg4 hc0 hc1 x0 x1 xs0).2.1, y ∈ pc.1.set :=
  View.cover_of_tiledL (kernelRun6_C c i arg1 harg1 arg2 harg2 arg3 harg3 arg4 harg4 hc0 hc1 x0 x1 xs0).2.1 S128x128.size (by sl_kernel_rfl) y

/-- What the last point leaves in the accumulator. -/
def sout6_C_0 (c : Dev nD) (i : grid6.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond6_0 i) (hc1 : cond6_1 i)
    (x0 : Vec F S2000x128 .f32) (x1 : Vec F S2000x128 .f32) (xs0 : Vec F S128x128 .f32) : Vec F S128x128 .f32 :=
  VS6_0.read (Elt F) (VS6_0.writes (Elt F) VS6_0.junk (kernelRun6_C c i arg1 harg1 arg2 harg2 arg3 harg3 arg4 harg4 hc0 hc1 x0 x1 xs0).2.1)

/-! ## What the output's buffer and the accumulator hold after each point -/

/-- The output's buffer at a point that stores nothing into it: a placeholder nothing consults, the window being
    neither written back there nor read at the next point. -/
def idle6_2 : Vec F S128x128 .f32 := VO6_2.read (Elt F) VO6_2.junk

/-- THE ACCUMULATION. What the output's staging buffer and the accumulator hold after the body at position `n`: the
    case the closed forms select at `n`, run at the point's memrefs and input blocks, the accumulator coming in at
    what position `n - 1` left in it. After the first point the accumulator is zero plus the first product; after a
    later point what it held plus that point's product; after the last point the output's buffer holds the
    rectifier of the whole sum. -/
def outsAt6 (c : Dev nD) : (n : ℕ) → n < cfg6.N → Vec F S128x128 .f32 × Vec F S128x128 .f32
  | 0, hn => (idle6_2, sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩))
  | n + 1, hn =>
    if h0 : (n + 1) % 25 = 0 then
      if h1 : (n + 1) % 25 = 24 then
        False.elim (by omega)
      else
        (idle6_2, sout6_A_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩))
    else
      if h1 : (n + 1) % 25 = 24 then
        (out6_C_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (outsAt6 c n (Nat.lt_of_succ_lt hn)).2,
         sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (outsAt6 c n (Nat.lt_of_succ_lt hn)).2)
      else
        (idle6_2, sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (outsAt6 c n (Nat.lt_of_succ_lt hn)).2)

/-- `outsAt6` at the first point. -/
theorem outsAt6_A (c : Dev nD) (t : Fin cfg6.N) (h0 : t.val % 25 = 0) (h1 : ¬t.val % 25 = 24) :
    outsAt6 V c t.val t.isLt = (idle6_2, sout6_A_0 c (grid6.coords t) (ms6_0 t) (hs6_0 t) (ms6_1 t) (hs6_1 t) (ms6_2 t) (hs6_2 t) scM6_0 (Memref.isWhole_whole _) ((hcond6_0 t).mpr h0) (fun h => h1 ((hcond6_1 t).mp h)) (iblk6 V c 0 t) (iblk6 V c 1 t)) := by
  obtain ⟨n, hn⟩ := t
  cases n with
  | zero => exact rfl
  | succ n => exact (dif_pos h0).trans ((dif_neg h1).trans rfl)

/-- `outsAt6` at a middle point: over what the point before left. -/
theorem outsAt6_B (c : Dev nD) (t : Fin cfg6.N) (h0 : ¬t.val % 25 = 0) (h1 : ¬t.val % 25 = 24) :
    outsAt6 V c t.val t.isLt = (idle6_2, sout6_B_0 c (grid6.coords t) (ms6_0 t) (hs6_0 t) (ms6_1 t) (hs6_1 t) (ms6_2 t) (hs6_2 t) scM6_0 (Memref.isWhole_whole _) (fun h => h0 ((hcond6_0 t).mp h)) (fun h => h1 ((hcond6_1 t).mp h)) (iblk6 V c 0 t) (iblk6 V c 1 t) (outsAt6 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt6` at the last point: over what the point before left. -/
theorem outsAt6_C (c : Dev nD) (t : Fin cfg6.N) (h0 : ¬t.val % 25 = 0) (h1 : t.val % 25 = 24) :
    outsAt6 V c t.val t.isLt = (out6_C_2 c (grid6.coords t) (ms6_0 t) (hs6_0 t) (ms6_1 t) (hs6_1 t) (ms6_2 t) (hs6_2 t) scM6_0 (Memref.isWhole_whole _) (fun h => h0 ((hcond6_0 t).mp h)) ((hcond6_1 t).mpr h1) (iblk6 V c 0 t) (iblk6 V c 1 t) (outsAt6 V c (t.val - 1) (Nat.lt_of_le_of_lt (Nat.sub_le _ _) t.isLt)).2,
      sout6_C_0 c (grid6.coords t) (ms6_0 t) (hs6_0 t) (ms6_1 t) (hs6_1 t) (ms6_2 t) (hs6_2 t) scM6_0 (Memref.isWhole_whole _) (fun h => h0 ((hcond6_0 t).mp h)) ((hcond6_1 t).mpr h1) (iblk6 V c 0 t) (iblk6 V c 1 t) (outsAt6 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point every scoped buffer that is no staging buffer at
    anything, and the generator register at some state; afterwards the accumulator at what the point before left in
    it (`outsAt6`'s second component), every other such buffer unopened, and the register. -/
def PhiS6 (c : Dev nD) : (n : ℕ) → n ≤ cfg6.N → sProp 𝕄
  | 0, _ => Pipeline.ΦA spec6 c
  | n + 1, hn => iprop(iprop(iprop(owns (c : Thread nD τ) scM6_0 fullShare ((outsAt6 V c n hn).2)) ∗ Pipeline.scopedRestBut (Ix := Unit) (Name := ℕ) (U := UR sig nD τ) (Lvl := ℕ) (Val := Elt F) spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare ((outsAt6 V c n hn).2)) ∗ Pipeline.scopedRestBut (Ix := Unit) (Name := ℕ) (U := UR sig nD τ) (Lvl := ℕ) (Val := Elt F) spec6 c [cc6_scratch0]) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare ((outsAt6 V c (n - 1) (by omega)).2)) ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

/-! ## The pipeline's proof data -/

/-- The proof data on core `c`: the arrays as the region finds them; after the body at point `t` each input's
    buffer at its block and the output's at `outsAt6`'s first component; the invariant `PhiS6`; nothing owed; full
    shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = (outsAt6 V c t.val t.isLt).1 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation -/

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4800000 in
/-- The body at any point. The inputs' memrefs hold their blocks; the closed forms say which case the point is in;
    the invariant hands the body the accumulator — at anything at the first point, at what the point before left
    afterwards —, every other scoped buffer and the generator register riding along unread, and takes the
    accumulator back at this point's contents; the output's buffer is handed back untouched except at the last
    point, where it is left at the rectifier of the sum; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  have hN : t.val < 25 := lt_of_lt_of_eq t.isLt (show cfg6.N = 25 from N_6)
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  by_cases h0 : t.val % 25 = 0
  · have h1 : ¬t.val % 25 = 24 := by omega
    have hz : t.val = 0 := by omega
    rw [Dat.leavesExact_idle (dat6 V c) 2 t (idleAt6_2 t (fun h => h1 ((hcond6_1 t).mp h))) (noFlush6_2 t (fun h => h1 ((hcond6_1 t).mp h)))]
    rw [outsAt6_A V c t h0 h1]
    unfold sout6_A_0; (try dsimp only)
    rw [PhiS6_castSucc V c t, PhiS6_zero V c _ _ hz, PhiA6_eq]
    iintro ⟨⟨⟨HS0, Hrest⟩, Hg⟩, Ho, ⟨%d0, H0⟩, ⟨%d1, H1⟩, ⟨%d2, H2⟩⟩
    iapply ((kernelRun6_A c (grid6.coords t) _ _ _ _ _ _ _ _ ((hcond6_0 t).mpr h0) (fun h => h1 ((hcond6_1 t).mp h)) (iblk6 V c 0 t) (iblk6 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover6_A_0 c _ _ _ _ _ _ _ _ _ _ _ _ _)
        iexact Hrest
      iexact Hg
    isplitl [Ho]; · iexact Ho
    isplitl [H0]; · iexact H0
    isplitl [H1]; · iexact H1
    iexists _; iexact H2
  · have hz : t.val ≠ 0 := by omega
    by_cases h1 : t.val % 25 = 24
    · rw [show (dat6 V c).leavesExact 2 t = owns (c : Thread nD τ) (ms6_2 t) fullShare ((dat6 V c).after 2 t) from by
        unfold Dat.leavesExact; rw [liveAt6_2 t ((hcond6_1 t).mpr h1)], after6_2]
      rw [outsAt6_C V c t h0 h1]
      unfold out6_C_2 sout6_C_0; (try dsimp only)
      rw [PhiS6_castSucc V c t, PhiS6_pos V c _ _ hz]
      iintro ⟨⟨⟨HS0, Hrest⟩, Hg⟩, Ho, ⟨%d0, H0⟩, ⟨%d1, H1⟩, ⟨%d2, H2⟩⟩
      iapply ((kernelRun6_C c (grid6.coords t) _ _ _ _ _ _ _ _ (fun h => h0 ((hcond6_0 t).mp h)) ((hcond6_1 t).mpr h1) (iblk6 V c 0 t) (iblk6 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover6_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover6_C_2 c _ _ _ _ _ _ _ _ _ _ _ _ _ _)
    · rw [Dat.leavesExact_idle (dat6 V c) 2 t (idleAt6_2 t (fun h => h1 ((hcond6_1 t).mp h))) (noFlush6_2 t (fun h => h1 ((hcond6_1 t).mp h)))]
      rw [outsAt6_B V c t h0 h1]
      unfold sout6_B_0; (try dsimp only)
      rw [PhiS6_castSucc V c t, PhiS6_pos V c _ _ hz]
      iintro ⟨⟨⟨HS0, Hrest⟩, Hg⟩, Ho, ⟨%d0, H0⟩, ⟨%d1, H1⟩, ⟨%d2, H2⟩⟩
      iapply ((kernelRun6_B c (grid6.coords t) _ _ _ _ _ _ _ _ (fun h => h0 ((hcond6_0 t).mp h)) (fun h => h1 ((hcond6_1 t).mp h)) (iblk6 V c 0 t) (iblk6 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover6_B_0 c _ _ _ _ _ _ _ _ _ _ _ _ _ _)
          iexact Hrest
        iexact Hg
      isplitl [Ho]; · iexact Ho
      isplitl [H0]; · iexact H0
      isplitl [H1]; · iexact H1
      iexists _; iexact H2

/-- The body obligation, at every point. -/
theorem body_obligation6 (c : Dev nD) : BodyObligation (dat6 (F := F) V c) (defs₀ (F := F)) Variants.none () Set.univ := fun t => by
  rw [bigSep_W6, bigSep_W6]
  exact sound_body6 V c t

/-! ## Into the invariant and out of it -/

/-- What the launch hands the region — the generator register, no prefetched table, the scoped buffers no window
    stages — is the invariant before the first point. -/
theorem hin6 (c : Dev nD) :
    iprop((∃ r, prngReg c r) ∗ Pipeline.prefHeld (pcfgs (F := F) 6).pre c (fun _ => fullShare) ((cfgs 6).toPCfg_adm).1 ∗ Pipeline.scopedRest spec6 c)
      ⊢ (dat6 V c).Φ 0 := by
  rw [show (dat6 V c).Φ 0 = PhiS6 V c 0 (Nat.zero_le _) from rfl, PhiS6_zero V c 0 _ rfl]; unfold Pipeline.ΦA
  iintro ⟨Hp, -, Hr⟩
  isplitl [Hr]; · iexact Hr
  iexact Hp

/-- After any point but the first the invariant gives the scoped buffers and the register back: the accumulator's
    named contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS0, Hrest⟩, Hg⟩
  isplitl [HS0 Hrest]
  · isplitl [HS0]
    · iexists _; iexact HS0
    iexact Hrest
  iexact Hg

/-- The same after the last point, as the region hands it back: the register, no semaphore of the kernel's own, the
    scoped buffers. -/
theorem hout6 (c : Dev nD) :
    (dat6 V c).Φ (Fin.last cfg6.N)
      ⊢ iprop((∃ r, prngReg c r) ∗ Pipeline.ownSems0 (Ix := Unit) (Name := ℕ) (U := UR sig nD τ) (Lvl := ℕ) (Val := Elt F) (τ := τ) (fun k : PEmpty => k.elim) c ∗ Pipeline.scopedRest spec6 c) := by
  refine (Phi_out6 V c _ (by rw [Fin.val_last]; have : cfg6.N = 25 := N_6; omega)).trans ?_
  rw [Pipeline.ownSems0_none]; unfold Pipeline.ΦA
  iintro ⟨Hr, Hp⟩
  isplitl [Hp]; · iexact Hp
  isplitr; · iempintro
  iexact Hr

end Cert.KernelIdeal.Fr

end
-- ==== Proof.KI.Reg7.lean ====
import proofs.«126270_j6725918785969_1_alg».proof.Proof.Gen.KernelIdeal.Launch
import proofs.«126270_j6725918785969_1_alg».proof.Proof.Gen.KernelIdeal.Skeleton
import proofs.«126270_j6725918785969_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 7: a row-tiled matrix product followed by the leaky rectifier

Two input windows and one output window. Window 0 cuts the left factor into blocks of rows (`S2000x128`);
window 1 is the whole right factor (`S128x128`), the same block at every grid point; window 2 is the block of
the result's rows (`S2000x128`). At a grid point the body loads both input blocks, multiplies them into a zero
accumulator, takes `max (0.5 · y) y` entry by entry and stores the result over the whole output block. Stated at a
parameter `V`, the buffer contents the region is entered from.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The left factor's current staging buffer holds its block of rows at every point. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The right factor's staging buffer holds the whole factor at every point: fetched at the first point, its
    block index never moves afterwards. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- The rectangles the body reads and writes: each buffer whole. -/
abbrev r7_a : Rect S2000x128 := Rect.unit (s := S2000x128) ![0, 0] S2000x128.size inb_S2000x128_S2000x128_0_0
abbrev r7_b : Rect S128x128 := Rect.unit (s := S128x128) ![0, 0] S128x128.size inb_S128x128_S128x128_0_0

/-- The output buffer after the body: its one store, of the product of the two input blocks. -/
def out7_2 (x0 : Vec F S2000x128 .f32) (x1 : Vec F S128x128 .f32) : Vec F S2000x128 .f32 :=
  View.canon [⟨r7_a, k7_pay1 (View.ld x0 r7_a) (View.ld x1 r7_b)⟩]

/-- The store covers the buffer. -/
theorem cover7_2 (p0 : Vec F S2000x128 .f32) (y : S2000x128.Idx) :
    ∃ pc ∈ ([⟨r7_a, p0⟩] : List (View.Piece (Elt F) S2000x128 .f32)), y ∈ pc.1.set :=
  View.cover_of_tiled [⟨r7_a, p0⟩] S2000x128.size (by rfl) y

set_option maxHeartbeats 1000000 in
/-- The body on whole staging memrefs, the inputs' at contents `x0`, `x1` and the output's at anything, runs to the
    continuation with the inputs' as they were and the output's at `out7_2 x0 x1`. -/
theorem sound_kernel7 (c : Dev nD) (E : Set ℕ) (i : grid7.Coords) (arg0 : Memref sig .tc .vmem S2000x128 .f32) (harg0 : arg0.IsWhole) (arg1 : Memref sig .tc .vmem S128x128 .f32) (harg1 : arg1.IsWhole) (arg2 : Memref sig .tc .vmem S2000x128 .f32) (harg2 : arg2.IsWhole)
    (x0 : Vec F S2000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out7_2 x0 x1)) -∗ K ⟨⟩))
      ⊢ wp frame (wpE (defs₀ (F := F)) Variants.none c none) E (cc7__mm_big_kernel i arg0 harg0 arg1 harg1 arg2 harg2) K := by
  simp only [cc7__mm_big_kernel_eq_skeleton]; unfold cc7__mm_big_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-- The pipeline's proof data on core `c`: the arrays as the region finds them; after the body at point `t` each
    input's buffer at its block and the output's at `out7_2` of them; the invariant the scoped rest and the
    generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

/-- The body at any point: the inputs' memrefs hold their blocks, so the body's triple applies; the invariant
    and the core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Fr

end
-- ==== Proof.KI.Reg8.lean ====
import proofs.«126270_j6725918785969_1_alg».proof.Proof.Gen.KernelIdeal.Launch
import proofs.«126270_j6725918785969_1_alg».proof.Proof.Gen.KernelIdeal.Skeleton
import proofs.«126270_j6725918785969_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 8: the row-tiled leaky rectifier `max (x / 2) x`

One input window and one output window, both cut into blocks of 2000 rows; at every grid point the body
loads the input block, computes `max (0.5 · x) x` entry by entry and stores the result over the whole
output block. Stated at a parameter `V`, the buffer contents the region is entered from: the block each
window holds at a point, what the body leaves in the output buffer, the body's triple, the pipeline's
proof data and the body obligation at every point.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The input window's current staging buffer holds its block at every point, for any proof data whose array
    is the entry contents and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- The one rectangle the body reads and writes: the whole block. -/
abbrev r8_0 : Rect S2000x128 := Rect.unit (s := S2000x128) ![0, 0] S2000x128.size inb_S2000x128_S2000x128_0_0

/-- The output buffer after the body: its one store, of `max (0.5 · x) x` of the input block. -/
def out8_1 (x0 : Vec F S2000x128 .f32) : Vec F S2000x128 .f32 :=
  View.canon [⟨r8_0, k8_pay1 (View.ld x0 r8_0)⟩]

/-- The store covers the buffer. -/
theorem cover8_1 (p0 : Vec F S2000x128 .f32) (y : S2000x128.Idx) :
    ∃ pc ∈ ([⟨r8_0, p0⟩] : List (View.Piece (Elt F) S2000x128 .f32)), y ∈ pc.1.set :=
  View.cover_of_tiled [⟨r8_0, p0⟩] S2000x128.size (by rfl) y

set_option maxHeartbeats 1000000 in
/-- The body on whole staging memrefs, the input's at contents `x0` and the output's at anything, runs to the
    continuation with the input's as it was and the output's at `out8_1 x0`. -/
theorem sound_kernel8 (c : Dev nD) (E : Set ℕ) (i : grid8.Coords) (arg0 : Memref sig .tc .vmem S2000x128 .f32) (harg0 : arg0.IsWhole) (arg1 : Memref sig .tc .vmem S2000x128 .f32) (harg1 : arg1.IsWhole)
    (x0 : Vec F S2000x128 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out8_1 x0)) -∗ K ⟨⟩))
      ⊢ wp frame (wpE (defs₀ (F := F)) Variants.none c none) E (cc8__leaky_kernel i arg0 harg0 arg1 harg1) K := by
  simp only [cc8__leaky_kernel_eq_skeleton]; unfold cc8__leaky_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover8_1 _)

/-- The pipeline's proof data on core `c`: the arrays as the region finds them; after the body at point `t` the
    input's buffer at its block and the output's at `out8_1` of it; the invariant the scoped rest and the
    generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => out8_1 (iblk8 V c 0 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = out8_1 (iblk8 V c 0 t) := by dsimp only [dat8]

theorem before8_0 (c : Dev nD) (t : Fin cfg8.N) (d) : (dat8 V c).before 0 t d = iblk8 V c 0 t :=
  before8_0_of V (dat8 V c) (A_eq8 V c 0) (after8_0 V c) t d

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t))

/-- The body at any point: the input's memref holds its block, so the body's triple applies; the invariant and
    the core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0]
  rw [show (dat8 V c).Φ t.succ = (dat8 V c).Φ t.castSucc from rfl,
    show (dat8 V c).owesAt () t.succ = (dat8 V c).owesAt () t.castSucc from rfl,
    after8_0, after8_1]
  iintro ⟨HΦ, Ho, ⟨%d0, H0⟩, ⟨%d1, H1⟩⟩
  iapply (sound_kernel8 c Set.univ _ _ _ _ _ (iblk8 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Fr

end
-- ==== Proof.KI.Reg9.lean ====
import proofs.«126270_j6725918785969_1_alg».proof.Proof.Gen.KernelIdeal.Launch
import proofs.«126270_j6725918785969_1_alg».proof.Proof.Gen.KernelIdeal.Skeleton
import proofs.«126270_j6725918785969_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 9: the row-tiled leaky rectifier `max (x / 2) x`

One input window and one output window, both cut into blocks of 2000 rows; at every grid point the body
loads the input block, computes `max (0.5 · x) x` entry by entry and stores the result over the whole
output block. Stated at a parameter `V`, the buffer contents the region is entered from: the block each
window holds at a point, what the body leaves in the output buffer, the body's triple, the pipeline's
proof data and the body obligation at every point.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The input window's current staging buffer holds its block at every point, for any proof data whose array
    is the entry contents and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- The one rectangle the body reads and writes: the whole block. -/
abbrev r9_0 : Rect S2000x128 := Rect.unit (s := S2000x128) ![0, 0] S2000x128.size inb_S2000x128_S2000x128_0_0

/-- The output buffer after the body: its one store, of `max (0.5 · x) x` of the input block. -/
def out9_1 (x0 : Vec F S2000x128 .f32) : Vec F S2000x128 .f32 :=
  View.canon [⟨r9_0, k9_pay1 (View.ld x0 r9_0)⟩]

/-- The store covers the buffer. -/
theorem cover9_1 (p0 : Vec F S2000x128 .f32) (y : S2000x128.Idx) :
    ∃ pc ∈ ([⟨r9_0, p0⟩] : List (View.Piece (Elt F) S2000x128 .f32)), y ∈ pc.1.set :=
  View.cover_of_tiled [⟨r9_0, p0⟩] S2000x128.size (by rfl) y

set_option maxHeartbeats 1000000 in
/-- The body on whole staging memrefs, the input's at contents `x0` and the output's at anything, runs to the
    continuation with the input's as it was and the output's at `out9_1 x0`. -/
theorem sound_kernel9 (c : Dev nD) (E : Set ℕ) (i : grid9.Coords) (arg0 : Memref sig .tc .vmem S2000x128 .f32) (harg0 : arg0.IsWhole) (arg1 : Memref sig .tc .vmem S2000x128 .f32) (harg1 : arg1.IsWhole)
    (x0 : Vec F S2000x128 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out9_1 x0)) -∗ K ⟨⟩))
      ⊢ wp frame (wpE (defs₀ (F := F)) Variants.none c none) E (cc9__leaky_kernel i arg0 harg0 arg1 harg1) K := by
  simp only [cc9__leaky_kernel_eq_skeleton]; unfold cc9__leaky_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover9_1 _)

/-- The pipeline's proof data on core `c`: the arrays as the region finds them; after the body at point `t` the
    input's buffer at its block and the output's at `out9_1` of it; the invariant the scoped rest and the
    generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => out9_1 (iblk9 V c 0 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = out9_1 (iblk9 V c 0 t) := by dsimp only [dat9]

theorem before9_0 (c : Dev nD) (t : Fin cfg9.N) (d) : (dat9 V c).before 0 t d = iblk9 V c 0 t :=
  before9_0_of V (dat9 V c) (A_eq9 V c 0) (after9_0 V c) t d

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t))

/-- The body at any point: the input's memref holds its block, so the body's triple applies; the invariant and
    the core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0]
  rw [show (dat9 V c).Φ t.succ = (dat9 V c).Φ t.castSucc from rfl,
    show (dat9 V c).owesAt () t.succ = (dat9 V c).owesAt () t.castSucc from rfl,
    after9_0, after9_1]
  iintro ⟨HΦ, Ho, ⟨%d0, H0⟩, ⟨%d1, H1⟩⟩
  iapply (sound_kernel9 c Set.univ _ _ _ _ _ (iblk9 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Fr

end
-- ==== Proof.KI.Reg10.lean ====
import proofs.«126270_j6725918785969_1_alg».proof.Proof.Gen.KernelIdeal.Launch
import proofs.«126270_j6725918785969_1_alg».proof.Proof.Gen.KernelIdeal.Skeleton
import proofs.«126270_j6725918785969_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 10: the product `lhsᵀ · rhs` reduced over fifty blocks of rows, then the leaky rectifier

Two input windows, each cut into fifty blocks of 2000 rows, and one 128 × 128 output window whose block index
never moves. The kernel keeps a 128 × 128 accumulator in a scratch buffer of its own: at the first grid point it
zeroes it, at every point it adds the product of the transposed left block and the right block, and at the last
point only it stores `max (x / 2) x` of the accumulator into the output's staging buffer, which is written back
there and nowhere else. So the body has three control cases — first point, middle point, last point —, the
accumulator's contents are carried from point to point by the region invariant, and the output window is idle
everywhere but at the last point. Stated at a parameter `V`, the buffer contents the region is entered from.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, decided over the grid -/

/-- The condition of the body's first conditional: the reduction coordinate is zero. -/
abbrev cond10_0 (i : grid10.Coords) : Prop := (Scalar.cmpi .ne (Scalar.extui (Scalar.cmpi .eq (BitVec.ofNat 32 (i 0).val) 0#32)) 0#32) = 1#1
/-- It holds at the first point only. -/
theorem hcond10_0 : ∀ t : Fin cfg10.N, cond10_0 (grid10.coords t) ↔ t.val % 50 = 0 :=
  (by decide +kernel : ∀ t : Fin grid10.N, cond10_0 (grid10.coords t) ↔ t.val % 50 = 0)

/-- The condition of the body's second conditional: the reduction coordinate is the last. -/
abbrev cond10_1 (i : grid10.Coords) : Prop := k10_cond2 i = 1#1
/-- It holds at the last point only. -/
theorem hcond10_1 : ∀ t : Fin cfg10.N, cond10_1 (grid10.coords t) ↔ t.val % 50 = 49 :=
  (by decide +kernel : ∀ t : Fin grid10.N, cond10_1 (grid10.coords t) ↔ t.val % 50 = 49)

/-! ## Where the windows are idle -/

/-- The two inputs are never idle. -/
theorem liveAt10_0 : ∀ t : Fin cfg10.N, cfg10.idle 0 (grid10.coords t) = false := by decide +kernel
theorem liveAt10_1 : ∀ t : Fin cfg10.N, cfg10.idle 1 (grid10.coords t) = false := by decide +kernel
/-- Where the second condition fails the output is idle and is not written back. -/
theorem idleAt10_2 : ∀ t : Fin cfg10.N, ¬cond10_1 (grid10.coords t) → cfg10.idle 2 (grid10.coords t) = true := by decide +kernel
theorem noFlush10_2 : ∀ t : Fin cfg10.N, ¬cond10_1 (grid10.coords t) → (cfg10.win 2).flush t = false := by decide +kernel
/-- Where it holds the output is live. -/
theorem liveAt10_2 : ∀ t : Fin cfg10.N, cond10_1 (grid10.coords t) → cfg10.idle 2 (grid10.coords t) = false := by decide +kernel

/-! ## The memrefs the body is called with -/

/-- One staging buffer of the output window, through which its contents are stated. -/
abbrev VO10_2 : View sig .tc .vmem S128x128 .f32 := (Memref.whole cc10_stg2_0 : Memref sig .tc .vmem S128x128 .f32).view
/-- Each window's current staging memref at point `t`, and its wholeness. -/
abbrev ms10_0 (t : Fin cfg10.N) : Memref sig .tc .vmem S2000x128 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S2000x128 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S128x128 .f32 := win10_2.stage (cfg10.slots t 2)
abbrev hs10_2 (t : Fin cfg10.N) : (ms10_2 t).IsWhole := hstage10_2 ((cfg10.slots t 2).cast nbuf10_2)
/-- The accumulator: a whole scoped buffer of the kernel's own, passed beside the windows. -/
abbrev scM10_0 : Memref sig .tc .vmem S128x128 .f32 := Memref.whole cc10_scratch0
/-- The accumulator as a view: what it holds is stated through it. -/
abbrev VS10_0 : View sig .tc .vmem S128x128 .f32 := scM10_0.view

/-- The region invariant of a body that need not describe its scratch, with the accumulator as a memref owned at
    some contents and every other scoped buffer unopened. -/
theorem PhiA10_eq (c : Dev nD) :
    (Pipeline.ΦA spec10 c : sProp 𝕄)
      = iprop(iprop(iprop((∃ d, owns (c : Thread nD τ) scM10_0 fullShare d))
          ∗ Pipeline.scopedRestBut (Ix := Unit) (Name := ℕ) (U := UR sig nD τ) (Lvl := ℕ) (Val := Elt F) spec10 c [cc10_scratch0]) ∗ (∃ r, prngReg c r)) := by
  unfold Pipeline.ΦA; rw [scopedRest10_split]; simp only [scM10_0, owns_whole]; try rfl

set_option maxHeartbeats 1000000 in
/-- THE FIRST POINT (the first conditional taken, the second not). On whole memrefs — the inputs' at their contents,
    the output's at contents handed back untouched, the accumulator at anything — the body runs to the continuation
    holding the inputs' and the output's as they were and the accumulator with its stores' pieces written (last
    first): zero, then zero plus the product of the two blocks. The pieces are what the run finds. -/
noncomputable def kernelRun10_A (c : Dev nD) (i : grid10.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : cond10_0 i) (hc1 : ¬cond10_1 i)
    (x0 : Vec F S2000x128 .f32) (x1 : Vec F S2000x128 .f32) :
    Σ' (L2 : List (View.Piece (Elt F) S128x128 .f32)), { LS0 : List (View.Piece (Elt F) S128x128 .f32) //
      ∀ (xi2 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc10__mm_reduce_k_kernel i arg1 harg1 arg2 harg2 arg3 harg3 arg4 harg4) K } := by
  refine ⟨[], ?_, fun xi2 E K => ?run⟩
  case run =>
    simp only [cc10__mm_reduce_k_kernel_eq_skeleton]; unfold cc10__mm_reduce_k_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A MIDDLE POINT (neither conditional taken). The accumulator comes in at the contents `xs0` the point before left
    and goes out with one piece written: `xs0` plus the product of the two blocks. The output is handed back untouched. -/
noncomputable def kernelRun10_B (c : Dev nD) (i : grid10.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond10_0 i) (hc1 : ¬cond10_1 i)
    (x0 : Vec F S2000x128 .f32) (x1 : Vec F S2000x128 .f32) (xs0 : Vec F S128x128 .f32) :
    Σ' (L2 : List (View.Piece (Elt F) S128x128 .f32)), { LS0 : List (View.Piece (Elt F) S128x128 .f32) //
      ∀ (xi2 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc10__mm_reduce_k_kernel i arg1 harg1 arg2 harg2 arg3 harg3 arg4 harg4) K } := by
  refine ⟨[], ?_, fun xi2 E K => ?run⟩
  case run =>
    simp only [cc10__mm_reduce_k_kernel_eq_skeleton]; unfold cc10__mm_reduce_k_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- THE LAST POINT (the first conditional not taken, the second taken). The accumulator comes in at `xs0`, goes out
    with `xs0` plus the product written, and the output, at anything before, goes out with one piece written: the
    rectifier of the accumulator's final contents. -/
noncomputable def kernelRun10_C (c : Dev nD) (i : grid10.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond10_0 i) (hc1 : cond10_1 i)
    (x0 : Vec F S2000x128 .f32) (x1 : Vec F S2000x128 .f32) (xs0 : Vec F S128x128 .f32) :
    Σ' (L2 : List (View.Piece (Elt F) S128x128 .f32)), { LS0 : List (View.Piece (Elt F) S128x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc10__mm_reduce_k_kernel i arg1 harg1 arg2 harg2 arg3 harg3 arg4 harg4) K } := by
  refine ⟨?_, ?_, fun E K => ?run⟩
  case run =>
    simp only [cc10__mm_reduce_k_kernel_eq_skeleton]; unfold cc10__mm_reduce_k_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

variable (V : (c : Dev nD) → (b : Ref sig .tc) → Buf (Elt F) ((c : Thread nD τ).loc b))

/-! ## The windows' blocks -/

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Each input's current staging buffer holds its block of rows at every point. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## What each case leaves in the output's buffer and in the accumulator -/

/-- The first point's stores cover the accumulator. -/
theorem scover10_A_0 (c : Dev nD) (i : grid10.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : cond10_0 i) (hc1 : ¬cond10_1 i)
    (x0 : Vec F S2000x128 .f32) (x1 : Vec F S2000x128 .f32) (y : S128x128.Idx) :
    ∃ pc ∈ (kernelRun10_A c i arg1 harg1 arg2 harg2 arg3 harg3 arg4 harg4 hc0 hc1 x0 x1).2.1, y ∈ pc.1.set :=
  View.cover_of_tiledL (kernelRun10_A c i arg1 harg1 arg2 harg2 arg3 harg3 arg4 harg4 hc0 hc1 x0 x1).2.1 S128x128.size (by sl_kernel_rfl) y

/-- What the first point leaves in the accumulator: its pieces read back. -/
def sout10_A_0 (c : Dev nD) (i : grid10.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : cond10_0 i) (hc1 : ¬cond10_1 i)
    (x0 : Vec F S2000x128 .f32) (x1 : Vec F S2000x128 .f32) : Vec F S128x128 .f32 :=
  VS10_0.read (Elt F) (VS10_0.writes (Elt F) VS10_0.junk (kernelRun10_A c i arg1 harg1 arg2 harg2 arg3 harg3 arg4 harg4 hc0 hc1 x0 x1).2.1)

/-- A middle point's store covers the accumulator. -/
theorem scover10_B_0 (c : Dev nD) (i : grid10.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond10_0 i) (hc1 : ¬cond10_1 i)
    (x0 : Vec F S2000x128 .f32) (x1 : Vec F S2000x128 .f32) (xs0 : Vec F S128x128 .f32) (y : S128x128.Idx) :
    ∃ pc ∈ (kernelRun10_B c i arg1 harg1 arg2 harg2 arg3 harg3 arg4 harg4 hc0 hc1 x0 x1 xs0).2.1, y ∈ pc.1.set :=
  View.cover_of_tiledL (kernelRun10_B c i arg1 harg1 arg2 harg2 arg3 harg3 arg4 harg4 hc0 hc1 x0 x1 xs0).2.1 S128x128.size (by sl_kernel_rfl) y

/-- What a middle point leaves in the accumulator. -/
def sout10_B_0 (c : Dev nD) (i : grid10.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond10_0 i) (hc1 : ¬cond10_1 i)
    (x0 : Vec F S2000x128 .f32) (x1 : Vec F S2000x128 .f32) (xs0 : Vec F S128x128 .f32) : Vec F S128x128 .f32 :=
  VS10_0.read (Elt F) (VS10_0.writes (Elt F) VS10_0.junk (kernelRun10_B c i arg1 harg1 arg2 harg2 arg3 harg3 arg4 harg4 hc0 hc1 x0 x1 xs0).2.1)

/-- The last point's store covers the output's buffer. -/
theorem cover10_C_2 (c : Dev nD) (i : grid10.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond10_0 i) (hc1 : cond10_1 i)
    (x0 : Vec F S2000x128 .f32) (x1 : Vec F S2000x128 .f32) (xs0 : Vec F S128x128 .f32) (y : S128x128.Idx) :
    ∃ pc ∈ (kernelRun10_C c i arg1 harg1 arg2 harg2 arg3 harg3 arg4 harg4 hc0 hc1 x0 x1 xs0).1, y ∈ pc.1.set :=
  View.cover_of_tiledL (kernelRun10_C c i arg1 harg1 arg2 harg2 arg3 harg3 arg4 harg4 hc0 hc1 x0 x1 xs0).1 S128x128.size (by sl_kernel_rfl) y

/-- What the last point leaves in the output's buffer. -/
def out10_C_2 (c : Dev nD) (i : grid10.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond10_0 i) (hc1 : cond10_1 i)
    (x0 : Vec F S2000x128 .f32) (x1 : Vec F S2000x128 .f32) (xs0 : Vec F S128x128 .f32) : Vec F S128x128 .f32 :=
  VO10_2.read (Elt F) (VO10_2.writes (Elt F) VO10_2.junk (kernelRun10_C c i arg1 harg1 arg2 harg2 arg3 harg3 arg4 harg4 hc0 hc1 x0 x1 xs0).1)

/-- The last point's store covers the accumulator. -/
theorem scover10_C_0 (c : Dev nD) (i : grid10.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond10_0 i) (hc1 : cond10_1 i)
    (x0 : Vec F S2000x128 .f32) (x1 : Vec F S2000x128 .f32) (xs0 : Vec F S128x128 .f32) (y : S128x128.Idx) :
    ∃ pc ∈ (kernelRun10_C c i arg1 harg1 arg2 harg2 arg3 harg3 arg4 harg4 hc0 hc1 x0 x1 xs0).2.1, y ∈ pc.1.set :=
  View.cover_of_tiledL (kernelRun10_C c i arg1 harg1 arg2 harg2 arg3 harg3 arg4 harg4 hc0 hc1 x0 x1 xs0).2.1 S128x128.size (by sl_kernel_rfl) y

/-- What the last point leaves in the accumulator. -/
def sout10_C_0 (c : Dev nD) (i : grid10.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond10_0 i) (hc1 : cond10_1 i)
    (x0 : Vec F S2000x128 .f32) (x1 : Vec F S2000x128 .f32) (xs0 : Vec F S128x128 .f32) : Vec F S128x128 .f32 :=
  VS10_0.read (Elt F) (VS10_0.writes (Elt F) VS10_0.junk (kernelRun10_C c i arg1 harg1 arg2 harg2 arg3 harg3 arg4 harg4 hc0 hc1 x0 x1 xs0).2.1)

/-! ## What the output's buffer and the accumulator hold after each point -/

/-- The output's buffer at a point that stores nothing into it: a placeholder nothing consults, the window being
    neither written back there nor read at the next point. -/
def idle10_2 : Vec F S128x128 .f32 := VO10_2.read (Elt F) VO10_2.junk

/-- THE ACCUMULATION. What the output's staging buffer and the accumulator hold after the body at position `n`: the
    case the closed forms select at `n`, run at the point's memrefs and input blocks, the accumulator coming in at
    what position `n - 1` left in it. After the first point the accumulator is zero plus the first product; after a
    later point what it held plus that point's product; after the last point the output's buffer holds the
    rectifier of the whole sum. -/
def outsAt10 (c : Dev nD) : (n : ℕ) → n < cfg10.N → Vec F S128x128 .f32 × Vec F S128x128 .f32
  | 0, hn => (idle10_2, sout10_A_0 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) scM10_0 (Memref.isWhole_whole _) ((hcond10_0 ⟨0, hn⟩).mpr (Nat.zero_mod _)) (fun h => (fun h => by (try dsimp only at h); omega) ((hcond10_1 ⟨0, hn⟩).mp h)) (iblk10 V c 0 ⟨0, hn⟩) (iblk10 V c 1 ⟨0, hn⟩))
  | n + 1, hn =>
    if h0 : (n + 1) % 50 = 0 then
      if h1 : (n + 1) % 50 = 49 then
        False.elim (by omega)
      else
        (idle10_2, sout10_A_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) ((hcond10_0 ⟨n + 1, hn⟩).mpr h0) (fun h => h1 ((hcond10_1 ⟨n + 1, hn⟩).mp h)) (iblk10 V c 0 ⟨n + 1, hn⟩) (iblk10 V c 1 ⟨n + 1, hn⟩))
    else
      if h1 : (n + 1) % 50 = 49 then
        (out10_C_2 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => h0 ((hcond10_0 ⟨n + 1, hn⟩).mp h)) ((hcond10_1 ⟨n + 1, hn⟩).mpr h1) (iblk10 V c 0 ⟨n + 1, hn⟩) (iblk10 V c 1 ⟨n + 1, hn⟩) (outsAt10 c n (Nat.lt_of_succ_lt hn)).2,
         sout10_C_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => h0 ((hcond10_0 ⟨n + 1, hn⟩).mp h)) ((hcond10_1 ⟨n + 1, hn⟩).mpr h1) (iblk10 V c 0 ⟨n + 1, hn⟩) (iblk10 V c 1 ⟨n + 1, hn⟩) (outsAt10 c n (Nat.lt_of_succ_lt hn)).2)
      else
        (idle10_2, sout10_B_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => h0 ((hcond10_0 ⟨n + 1, hn⟩).mp h)) (fun h => h1 ((hcond10_1 ⟨n + 1, hn⟩).mp h)) (iblk10 V c 0 ⟨n + 1, hn⟩) (iblk10 V c 1 ⟨n + 1, hn⟩) (outsAt10 c n (Nat.lt_of_succ_lt hn)).2)

/-- `outsAt10` at the first point. -/
theorem outsAt10_A (c : Dev nD) (t : Fin cfg10.N) (h0 : t.val % 50 = 0) (h1 : ¬t.val % 50 = 49) :
    outsAt10 V c t.val t.isLt = (idle10_2, sout10_A_0 c (grid10.coords t) (ms10_0 t) (hs10_0 t) (ms10_1 t) (hs10_1 t) (ms10_2 t) (hs10_2 t) scM10_0 (Memref.isWhole_whole _) ((hcond10_0 t).mpr h0) (fun h => h1 ((hcond10_1 t).mp h)) (iblk10 V c 0 t) (iblk10 V c 1 t)) := by
  obtain ⟨n, hn⟩ := t
  cases n with
  | zero => exact rfl
  | succ n => exact (dif_pos h0).trans ((dif_neg h1).trans rfl)

/-- `outsAt10` at a middle point: over what the point before left. -/
theorem outsAt10_B (c : Dev nD) (t : Fin cfg10.N) (h0 : ¬t.val % 50 = 0) (h1 : ¬t.val % 50 = 49) :
    outsAt10 V c t.val t.isLt = (idle10_2, sout10_B_0 c (grid10.coords t) (ms10_0 t) (hs10_0 t) (ms10_1 t) (hs10_1 t) (ms10_2 t) (hs10_2 t) scM10_0 (Memref.isWhole_whole _) (fun h => h0 ((hcond10_0 t).mp h)) (fun h => h1 ((hcond10_1 t).mp h)) (iblk10 V c 0 t) (iblk10 V c 1 t) (outsAt10 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt10` at the last point: over what the point before left. -/
theorem outsAt10_C (c : Dev nD) (t : Fin cfg10.N) (h0 : ¬t.val % 50 = 0) (h1 : t.val % 50 = 49) :
    outsAt10 V c t.val t.isLt = (out10_C_2 c (grid10.coords t) (ms10_0 t) (hs10_0 t) (ms10_1 t) (hs10_1 t) (ms10_2 t) (hs10_2 t) scM10_0 (Memref.isWhole_whole _) (fun h => h0 ((hcond10_0 t).mp h)) ((hcond10_1 t).mpr h1) (iblk10 V c 0 t) (iblk10 V c 1 t) (outsAt10 V c (t.val - 1) (Nat.lt_of_le_of_lt (Nat.sub_le _ _) t.isLt)).2,
      sout10_C_0 c (grid10.coords t) (ms10_0 t) (hs10_0 t) (ms10_1 t) (hs10_1 t) (ms10_2 t) (hs10_2 t) scM10_0 (Memref.isWhole_whole _) (fun h => h0 ((hcond10_0 t).mp h)) ((hcond10_1 t).mpr h1) (iblk10 V c 0 t) (iblk10 V c 1 t) (outsAt10 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point every scoped buffer that is no staging buffer at
    anything, and the generator register at some state; afterwards the accumulator at what the point before left in
    it (`outsAt10`'s second component), every other such buffer unopened, and the register. -/
def PhiS10 (c : Dev nD) : (n : ℕ) → n ≤ cfg10.N → sProp 𝕄
  | 0, _ => Pipeline.ΦA spec10 c
  | n + 1, hn => iprop(iprop(iprop(owns (c : Thread nD τ) scM10_0 fullShare ((outsAt10 V c n hn).2)) ∗ Pipeline.scopedRestBut (Ix := Unit) (Name := ℕ) (U := UR sig nD τ) (Lvl := ℕ) (Val := Elt F) spec10 c [cc10_scratch0]) ∗ (∃ r, prngReg c r))

theorem PhiS10_zero (c : Dev nD) (n : ℕ) (h : n ≤ cfg10.N) (hz : n = 0) : PhiS10 V c n h = Pipeline.ΦA spec10 c := by
  subst hz; rfl

theorem PhiS10_succ (c : Dev nD) (n : ℕ) (hn : n < cfg10.N) :
    PhiS10 V c (n + 1) hn = iprop(iprop(iprop(owns (c : Thread nD τ) scM10_0 fullShare ((outsAt10 V c n hn).2)) ∗ Pipeline.scopedRestBut (Ix := Unit) (Name := ℕ) (U := UR sig nD τ) (Lvl := ℕ) (Val := Elt F) spec10 c [cc10_scratch0]) ∗ (∃ r, prngReg c r)) := rfl

theorem PhiS10_pos (c : Dev nD) (n : ℕ) (h : n ≤ cfg10.N) (hz : n ≠ 0) :
    PhiS10 V c n h = iprop(iprop(iprop(owns (c : Thread nD τ) scM10_0 fullShare ((outsAt10 V c (n - 1) (by omega)).2)) ∗ Pipeline.scopedRestBut (Ix := Unit) (Name := ℕ) (U := UR sig nD τ) (Lvl := ℕ) (Val := Elt F) spec10 c [cc10_scratch0]) ∗ (∃ r, prngReg c r)) := by
  cases n with
  | zero => exact absurd rfl hz
  | succ n => rfl

/-! ## The pipeline's proof data -/

/-- The proof data on core `c`: the arrays as the region finds them; after the body at point `t` each input's
    buffer at its block and the output's at `outsAt10`'s first component; the invariant `PhiS10`; nothing owed; full
    shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => (outsAt10 V c t.val t.isLt).1
  Φ t := PhiS10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem PhiS10_castSucc (c : Dev nD) (t : Fin cfg10.N) :
    (dat10 V c).Φ t.castSucc = PhiS10 V c t.val (Nat.le_of_lt t.isLt) := by
  dsimp only [dat10]; simp only [Fin.coe_castSucc]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = (outsAt10 V c t.val t.isLt).1 := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation -/

/-- What the body is called with at point `t`, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t)

set_option maxHeartbeats 4800000 in
/-- The body at any point. The inputs' memrefs hold their blocks; the closed forms say which case the point is in;
    the invariant hands the body the accumulator — at anything at the first point, at what the point before left
    afterwards —, every other scoped buffer and the generator register riding along unread, and takes the
    accumulator back at this point's contents; the output's buffer is handed back untouched except at the last
    point, where it is left at the rectifier of the sum; the core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl]
  rw [show (dat10 V c).Φ t.succ = PhiS10 V c (t.val + 1) t.isLt from rfl, PhiS10_succ]
  have hN : t.val < 50 := lt_of_lt_of_eq t.isLt (show cfg10.N = 50 from N_10)
  rw [show (dat10 V c).leavesExact 0 t = owns (c : Thread nD τ) (ms10_0 t) fullShare ((dat10 V c).after 0 t) from by
    unfold Dat.leavesExact; rw [liveAt10_0 t], after10_0]
  rw [show (dat10 V c).leavesExact 1 t = owns (c : Thread nD τ) (ms10_1 t) fullShare ((dat10 V c).after 1 t) from by
    unfold Dat.leavesExact; rw [liveAt10_1 t], after10_1]
  by_cases h0 : t.val % 50 = 0
  · have h1 : ¬t.val % 50 = 49 := by omega
    have hz : t.val = 0 := by omega
    rw [Dat.leavesExact_idle (dat10 V c) 2 t (idleAt10_2 t (fun h => h1 ((hcond10_1 t).mp h))) (noFlush10_2 t (fun h => h1 ((hcond10_1 t).mp h)))]
    rw [outsAt10_A V c t h0 h1]
    unfold sout10_A_0; (try dsimp only)
    rw [PhiS10_castSucc V c t, PhiS10_zero V c _ _ hz, PhiA10_eq]
    iintro ⟨⟨⟨HS0, Hrest⟩, Hg⟩, Ho, ⟨%d0, H0⟩, ⟨%d1, H1⟩, ⟨%d2, H2⟩⟩
    iapply ((kernelRun10_A c (grid10.coords t) _ _ _ _ _ _ _ _ ((hcond10_0 t).mpr h0) (fun h => h1 ((hcond10_1 t).mp h)) (iblk10 V c 0 t) (iblk10 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover10_A_0 c _ _ _ _ _ _ _ _ _ _ _ _ _)
        iexact Hrest
      iexact Hg
    isplitl [Ho]; · iexact Ho
    isplitl [H0]; · iexact H0
    isplitl [H1]; · iexact H1
    iexists _; iexact H2
  · have hz : t.val ≠ 0 := by omega
    by_cases h1 : t.val % 50 = 49
    · rw [show (dat10 V c).leavesExact 2 t = owns (c : Thread nD τ) (ms10_2 t) fullShare ((dat10 V c).after 2 t) from by
        unfold Dat.leavesExact; rw [liveAt10_2 t ((hcond10_1 t).mpr h1)], after10_2]
      rw [outsAt10_C V c t h0 h1]
      unfold out10_C_2 sout10_C_0; (try dsimp only)
      rw [PhiS10_castSucc V c t, PhiS10_pos V c _ _ hz]
      iintro ⟨⟨⟨HS0, Hrest⟩, Hg⟩, Ho, ⟨%d0, H0⟩, ⟨%d1, H1⟩, ⟨%d2, H2⟩⟩
      iapply ((kernelRun10_C c (grid10.coords t) _ _ _ _ _ _ _ _ (fun h => h0 ((hcond10_0 t).mp h)) ((hcond10_1 t).mpr h1) (iblk10 V c 0 t) (iblk10 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover10_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover10_C_2 c _ _ _ _ _ _ _ _ _ _ _ _ _ _)
    · rw [Dat.leavesExact_idle (dat10 V c) 2 t (idleAt10_2 t (fun h => h1 ((hcond10_1 t).mp h))) (noFlush10_2 t (fun h => h1 ((hcond10_1 t).mp h)))]
      rw [outsAt10_B V c t h0 h1]
      unfold sout10_B_0; (try dsimp only)
      rw [PhiS10_castSucc V c t, PhiS10_pos V c _ _ hz]
      iintro ⟨⟨⟨HS0, Hrest⟩, Hg⟩, Ho, ⟨%d0, H0⟩, ⟨%d1, H1⟩, ⟨%d2, H2⟩⟩
      iapply ((kernelRun10_B c (grid10.coords t) _ _ _ _ _ _ _ _ (fun h => h0 ((hcond10_0 t).mp h)) (fun h => h1 ((hcond10_1 t).mp h)) (iblk10 V c 0 t) (iblk10 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover10_B_0 c _ _ _ _ _ _ _ _ _ _ _ _ _ _)
          iexact Hrest
        iexact Hg
      isplitl [Ho]; · iexact Ho
      isplitl [H0]; · iexact H0
      isplitl [H1]; · iexact H1
      iexists _; iexact H2

/-- The body obligation, at every point. -/
theorem body_obligation10 (c : Dev nD) : BodyObligation (dat10 (F := F) V c) (defs₀ (F := F)) Variants.none () Set.univ := fun t => by
  rw [bigSep_W10, bigSep_W10]
  exact sound_body10 V c t

/-! ## Into the invariant and out of it -/

/-- What the launch hands the region — the generator register, no prefetched table, the scoped buffers no window
    stages — is the invariant before the first point. -/
theorem hin10 (c : Dev nD) :
    iprop((∃ r, prngReg c r) ∗ Pipeline.prefHeld (pcfgs (F := F) 10).pre c (fun _ => fullShare) ((cfgs 10).toPCfg_adm).1 ∗ Pipeline.scopedRest spec10 c)
      ⊢ (dat10 V c).Φ 0 := by
  rw [show (dat10 V c).Φ 0 = PhiS10 V c 0 (Nat.zero_le _) from rfl, PhiS10_zero V c 0 _ rfl]; unfold Pipeline.ΦA
  iintro ⟨Hp, -, Hr⟩
  isplitl [Hr]; · iexact Hr
  iexact Hp

/-- After any point but the first the invariant gives the scoped buffers and the register back: the accumulator's
    named contents are forgotten. -/
theorem Phi_out10 (c : Dev nD) (t : Fin (cfg10.N + 1)) (ht : t.val ≠ 0) : (dat10 V c).Φ t ⊢ Pipeline.ΦA spec10 c := by
  rw [show (dat10 V c).Φ t = PhiS10 V c t.val (Nat.le_of_lt_succ t.isLt) from rfl, PhiS10_pos V c _ _ ht, PhiA10_eq]
  iintro ⟨⟨HS0, Hrest⟩, Hg⟩
  isplitl [HS0 Hrest]
  · isplitl [HS0]
    · iexists _; iexact HS0
    iexact Hrest
  iexact Hg

/-- The same after the last point, as the region hands it back: the register, no semaphore of the kernel's own, the
    scoped buffers. -/
theorem hout10 (c : Dev nD) :
    (dat10 V c).Φ (Fin.last cfg10.N)
      ⊢ iprop((∃ r, prngReg c r) ∗ Pipeline.ownSems0 (Ix := Unit) (Name := ℕ) (U := UR sig nD τ) (Lvl := ℕ) (Val := Elt F) (τ := τ) (fun k : PEmpty => k.elim) c ∗ Pipeline.scopedRest spec10 c) := by
  refine (Phi_out10 V c _ (by rw [Fin.val_last]; have : cfg10.N = 50 := N_10; omega)).trans ?_
  rw [Pipeline.ownSems0_none]; unfold Pipeline.ΦA
  iintro ⟨Hr, Hp⟩
  isplitl [Hp]; · iexact Hp
  isplitr; · iempintro
  iexact Hr

end Cert.KernelIdeal.Fr

end
-- ==== Proof.KI.Reg11.lean ====
import proofs.«126270_j6725918785969_1_alg».proof.Proof.Gen.KernelIdeal.Launch
import proofs.«126270_j6725918785969_1_alg».proof.Proof.Gen.KernelIdeal.Skeleton
import proofs.«126270_j6725918785969_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 11: a row-tiled matrix product followed by the leaky rectifier

Two input windows and one output window. Window 0 cuts the left factor into blocks of rows (`S2000x128`);
window 1 is the whole right factor (`S128x128`), the same block at every grid point; window 2 is the block of
the result's rows (`S2000x128`). At a grid point the body loads both input blocks, multiplies them into a zero
accumulator, takes `max (0.5 · y) y` entry by entry and stores the result over the whole output block. Stated at a
parameter `V`, the buffer contents the region is entered from.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- The left factor's current staging buffer holds its block of rows at every point. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- The right factor's staging buffer holds the whole factor at every point: fetched at the first point, its
    block index never moves afterwards. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- The rectangles the body reads and writes: each buffer whole. -/
abbrev r11_a : Rect S2000x128 := Rect.unit (s := S2000x128) ![0, 0] S2000x128.size inb_S2000x128_S2000x128_0_0
abbrev r11_b : Rect S128x128 := Rect.unit (s := S128x128) ![0, 0] S128x128.size inb_S128x128_S128x128_0_0

/-- The output buffer after the body: its one store, of the product of the two input blocks. -/
def out11_2 (x0 : Vec F S2000x128 .f32) (x1 : Vec F S128x128 .f32) : Vec F S2000x128 .f32 :=
  View.canon [⟨r11_a, k11_pay1 (View.ld x0 r11_a) (View.ld x1 r11_b)⟩]

/-- The store covers the buffer. -/
theorem cover11_2 (p0 : Vec F S2000x128 .f32) (y : S2000x128.Idx) :
    ∃ pc ∈ ([⟨r11_a, p0⟩] : List (View.Piece (Elt F) S2000x128 .f32)), y ∈ pc.1.set :=
  View.cover_of_tiled [⟨r11_a, p0⟩] S2000x128.size (by rfl) y

set_option maxHeartbeats 1000000 in
/-- The body on whole staging memrefs, the inputs' at contents `x0`, `x1` and the output's at anything, runs to the
    continuation with the inputs' as they were and the output's at `out11_2 x0 x1`. -/
theorem sound_kernel11 (c : Dev nD) (E : Set ℕ) (i : grid11.Coords) (arg0 : Memref sig .tc .vmem S2000x128 .f32) (harg0 : arg0.IsWhole) (arg1 : Memref sig .tc .vmem S128x128 .f32) (harg1 : arg1.IsWhole) (arg2 : Memref sig .tc .vmem S2000x128 .f32) (harg2 : arg2.IsWhole)
    (x0 : Vec F S2000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out11_2 x0 x1)) -∗ K ⟨⟩))
      ⊢ wp frame (wpE (defs₀ (F := F)) Variants.none c none) E (cc11__mm_big_kernel i arg0 harg0 arg1 harg1 arg2 harg2) K := by
  simp only [cc11__mm_big_kernel_eq_skeleton]; unfold cc11__mm_big_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover11_2 _)

/-- The pipeline's proof data on core `c`: the arrays as the region finds them; after the body at point `t` each
    input's buffer at its block and the output's at `out11_2` of them; the invariant the scoped rest and the
    generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => out11_2 (iblk11 V c 0 t) (iblk11 V c 1 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = out11_2 (iblk11 V c 0 t) (iblk11 V c 1 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d

/-- What the body is called with at point `t`, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t))

/-- The body at any point: the inputs' memrefs hold their blocks, so the body's triple applies; the invariant
    and the core's dues pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).Φ t.succ = (dat11 V c).Φ t.castSucc from rfl,
    show (dat11 V c).owesAt () t.succ = (dat11 V c).owesAt () t.castSucc from rfl,
    after11_0, after11_1, after11_2]
  iintro ⟨HΦ, Ho, ⟨%d0, H0⟩, ⟨%d1, H1⟩, ⟨%d2, H2⟩⟩
  iapply (sound_kernel11 c Set.univ _ _ _ _ _ _ _ (iblk11 V c 0 t) (iblk11 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Fr

end
-- ==== Proof.KI.Reg12.lean ====
import proofs.«126270_j6725918785969_1_alg».proof.Proof.Gen.KernelIdeal.Launch
import proofs.«126270_j6725918785969_1_alg».proof.Proof.Gen.KernelIdeal.Skeleton
import proofs.«126270_j6725918785969_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 12: the product `lhsᵀ · rhs` reduced over twenty-five blocks of rows, then the leaky rectifier

Two input windows, each cut into twenty-five blocks of 2000 rows, and one 128 × 128 output window whose block index
never moves. The kernel keeps a 128 × 128 accumulator in a scratch buffer of its own: at the first grid point it
zeroes it, at every point it adds the product of the transposed left block and the right block, and at the last
point only it stores `max (x / 2) x` of the accumulator into the output's staging buffer, which is written back
there and nowhere else. So the body has three control cases — first point, middle point, last point —, the
accumulator's contents are carried from point to point by the region invariant, and the output window is idle
everywhere but at the last point. Stated at a parameter `V`, the buffer contents the region is entered from.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, decided over the grid -/

/-- The condition of the body's first conditional: the reduction coordinate is zero. -/
abbrev cond12_0 (i : grid12.Coords) : Prop := (Scalar.cmpi .ne (Scalar.extui (Scalar.cmpi .eq (BitVec.ofNat 32 (i 0).val) 0#32)) 0#32) = 1#1
/-- It holds at the first point only. -/
theorem hcond12_0 : ∀ t : Fin cfg12.N, cond12_0 (grid12.coords t) ↔ t.val % 25 = 0 :=
  (by decide +kernel : ∀ t : Fin grid12.N, cond12_0 (grid12.coords t) ↔ t.val % 25 = 0)

/-- The condition of the body's second conditional: the reduction coordinate is the last. -/
abbrev cond12_1 (i : grid12.Coords) : Prop := k12_cond2 i = 1#1
/-- It holds at the last point only. -/
theorem hcond12_1 : ∀ t : Fin cfg12.N, cond12_1 (grid12.coords t) ↔ t.val % 25 = 24 :=
  (by decide +kernel : ∀ t : Fin grid12.N, cond12_1 (grid12.coords t) ↔ t.val % 25 = 24)

/-! ## Where the windows are idle -/

/-- The two inputs are never idle. -/
theorem liveAt12_0 : ∀ t : Fin cfg12.N, cfg12.idle 0 (grid12.coords t) = false := by decide +kernel
theorem liveAt12_1 : ∀ t : Fin cfg12.N, cfg12.idle 1 (grid12.coords t) = false := by decide +kernel
/-- Where the second condition fails the output is idle and is not written back. -/
theorem idleAt12_2 : ∀ t : Fin cfg12.N, ¬cond12_1 (grid12.coords t) → cfg12.idle 2 (grid12.coords t) = true := by decide +kernel
theorem noFlush12_2 : ∀ t : Fin cfg12.N, ¬cond12_1 (grid12.coords t) → (cfg12.win 2).flush t = false := by decide +kernel
/-- Where it holds the output is live. -/
theorem liveAt12_2 : ∀ t : Fin cfg12.N, cond12_1 (grid12.coords t) → cfg12.idle 2 (grid12.coords t) = false := by decide +kernel

/-! ## The memrefs the body is called with -/

/-- One staging buffer of the output window, through which its contents are stated. -/
abbrev VO12_2 : View sig .tc .vmem S128x128 .f32 := (Memref.whole cc12_stg2_0 : Memref sig .tc .vmem S128x128 .f32).view
/-- Each window's current staging memref at point `t`, and its wholeness. -/
abbrev ms12_0 (t : Fin cfg12.N) : Memref sig .tc .vmem S2000x128 .f32 := win12_0.stage (cfg12.slots t 0)
abbrev hs12_0 (t : Fin cfg12.N) : (ms12_0 t).IsWhole := hstage12_0 ((cfg12.slots t 0).cast nbuf12_0)
abbrev ms12_1 (t : Fin cfg12.N) : Memref sig .tc .vmem S2000x128 .f32 := win12_1.stage (cfg12.slots t 1)
abbrev hs12_1 (t : Fin cfg12.N) : (ms12_1 t).IsWhole := hstage12_1 ((cfg12.slots t 1).cast nbuf12_1)
abbrev ms12_2 (t : Fin cfg12.N) : Memref sig .tc .vmem S128x128 .f32 := win12_2.stage (cfg12.slots t 2)
abbrev hs12_2 (t : Fin cfg12.N) : (ms12_2 t).IsWhole := hstage12_2 ((cfg12.slots t 2).cast nbuf12_2)
/-- The accumulator: a whole scoped buffer of the kernel's own, passed beside the windows. -/
abbrev scM12_0 : Memref sig .tc .vmem S128x128 .f32 := Memref.whole cc12_scratch0
/-- The accumulator as a view: what it holds is stated through it. -/
abbrev VS12_0 : View sig .tc .vmem S128x128 .f32 := scM12_0.view

/-- The region invariant of a body that need not describe its scratch, with the accumulator as a memref owned at
    some contents and every other scoped buffer unopened. -/
theorem PhiA12_eq (c : Dev nD) :
    (Pipeline.ΦA spec12 c : sProp 𝕄)
      = iprop(iprop(iprop((∃ d, owns (c : Thread nD τ) scM12_0 fullShare d))
          ∗ Pipeline.scopedRestBut (Ix := Unit) (Name := ℕ) (U := UR sig nD τ) (Lvl := ℕ) (Val := Elt F) spec12 c [cc12_scratch0]) ∗ (∃ r, prngReg c r)) := by
  unfold Pipeline.ΦA; rw [scopedRest12_split]; simp only [scM12_0, owns_whole]; try rfl

set_option maxHeartbeats 1000000 in
/-- THE FIRST POINT (the first conditional taken, the second not). On whole memrefs — the inputs' at their contents,
    the output's at contents handed back untouched, the accumulator at anything — the body runs to the continuation
    holding the inputs' and the output's as they were and the accumulator with its stores' pieces written (last
    first): zero, then zero plus the product of the two blocks. The pieces are what the run finds. -/
noncomputable def kernelRun12_A (c : Dev nD) (i : grid12.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : cond12_0 i) (hc1 : ¬cond12_1 i)
    (x0 : Vec F S2000x128 .f32) (x1 : Vec F S2000x128 .f32) :
    Σ' (L2 : List (View.Piece (Elt F) S128x128 .f32)), { LS0 : List (View.Piece (Elt F) S128x128 .f32) //
      ∀ (xi2 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc12__mm_reduce_k_kernel i arg1 harg1 arg2 harg2 arg3 harg3 arg4 harg4) K } := by
  refine ⟨[], ?_, fun xi2 E K => ?run⟩
  case run =>
    simp only [cc12__mm_reduce_k_kernel_eq_skeleton]; unfold cc12__mm_reduce_k_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A MIDDLE POINT (neither conditional taken). The accumulator comes in at the contents `xs0` the point before left
    and goes out with one piece written: `xs0` plus the product of the two blocks. The output is handed back untouched. -/
noncomputable def kernelRun12_B (c : Dev nD) (i : grid12.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond12_0 i) (hc1 : ¬cond12_1 i)
    (x0 : Vec F S2000x128 .f32) (x1 : Vec F S2000x128 .f32) (xs0 : Vec F S128x128 .f32) :
    Σ' (L2 : List (View.Piece (Elt F) S128x128 .f32)), { LS0 : List (View.Piece (Elt F) S128x128 .f32) //
      ∀ (xi2 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc12__mm_reduce_k_kernel i arg1 harg1 arg2 harg2 arg3 harg3 arg4 harg4) K } := by
  refine ⟨[], ?_, fun xi2 E K => ?run⟩
  case run =>
    simp only [cc12__mm_reduce_k_kernel_eq_skeleton]; unfold cc12__mm_reduce_k_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- THE LAST POINT (the first conditional not taken, the second taken). The accumulator comes in at `xs0`, goes out
    with `xs0` plus the product written, and the output, at anything before, goes out with one piece written: the
    rectifier of the accumulator's final contents. -/
noncomputable def kernelRun12_C (c : Dev nD) (i : grid12.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond12_0 i) (hc1 : cond12_1 i)
    (x0 : Vec F S2000x128 .f32) (x1 : Vec F S2000x128 .f32) (xs0 : Vec F S128x128 .f32) :
    Σ' (L2 : List (View.Piece (Elt F) S128x128 .f32)), { LS0 : List (View.Piece (Elt F) S128x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc12__mm_reduce_k_kernel i arg1 harg1 arg2 harg2 arg3 harg3 arg4 harg4) K } := by
  refine ⟨?_, ?_, fun E K => ?run⟩
  case run =>
    simp only [cc12__mm_reduce_k_kernel_eq_skeleton]; unfold cc12__mm_reduce_k_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

variable (V : (c : Dev nD) → (b : Ref sig .tc) → Buf (Elt F) ((c : Thread nD τ).loc b))

/-! ## The windows' blocks -/

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Each input's current staging buffer holds its block of rows at every point. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-! ## What each case leaves in the output's buffer and in the accumulator -/

/-- The first point's stores cover the accumulator. -/
theorem scover12_A_0 (c : Dev nD) (i : grid12.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : cond12_0 i) (hc1 : ¬cond12_1 i)
    (x0 : Vec F S2000x128 .f32) (x1 : Vec F S2000x128 .f32) (y : S128x128.Idx) :
    ∃ pc ∈ (kernelRun12_A c i arg1 harg1 arg2 harg2 arg3 harg3 arg4 harg4 hc0 hc1 x0 x1).2.1, y ∈ pc.1.set :=
  View.cover_of_tiledL (kernelRun12_A c i arg1 harg1 arg2 harg2 arg3 harg3 arg4 harg4 hc0 hc1 x0 x1).2.1 S128x128.size (by sl_kernel_rfl) y

/-- What the first point leaves in the accumulator: its pieces read back. -/
def sout12_A_0 (c : Dev nD) (i : grid12.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : cond12_0 i) (hc1 : ¬cond12_1 i)
    (x0 : Vec F S2000x128 .f32) (x1 : Vec F S2000x128 .f32) : Vec F S128x128 .f32 :=
  VS12_0.read (Elt F) (VS12_0.writes (Elt F) VS12_0.junk (kernelRun12_A c i arg1 harg1 arg2 harg2 arg3 harg3 arg4 harg4 hc0 hc1 x0 x1).2.1)

/-- A middle point's store covers the accumulator. -/
theorem scover12_B_0 (c : Dev nD) (i : grid12.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond12_0 i) (hc1 : ¬cond12_1 i)
    (x0 : Vec F S2000x128 .f32) (x1 : Vec F S2000x128 .f32) (xs0 : Vec F S128x128 .f32) (y : S128x128.Idx) :
    ∃ pc ∈ (kernelRun12_B c i arg1 harg1 arg2 harg2 arg3 harg3 arg4 harg4 hc0 hc1 x0 x1 xs0).2.1, y ∈ pc.1.set :=
  View.cover_of_tiledL (kernelRun12_B c i arg1 harg1 arg2 harg2 arg3 harg3 arg4 harg4 hc0 hc1 x0 x1 xs0).2.1 S128x128.size (by sl_kernel_rfl) y

/-- What a middle point leaves in the accumulator. -/
def sout12_B_0 (c : Dev nD) (i : grid12.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond12_0 i) (hc1 : ¬cond12_1 i)
    (x0 : Vec F S2000x128 .f32) (x1 : Vec F S2000x128 .f32) (xs0 : Vec F S128x128 .f32) : Vec F S128x128 .f32 :=
  VS12_0.read (Elt F) (VS12_0.writes (Elt F) VS12_0.junk (kernelRun12_B c i arg1 harg1 arg2 harg2 arg3 harg3 arg4 harg4 hc0 hc1 x0 x1 xs0).2.1)

/-- The last point's store covers the output's buffer. -/
theorem cover12_C_2 (c : Dev nD) (i : grid12.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond12_0 i) (hc1 : cond12_1 i)
    (x0 : Vec F S2000x128 .f32) (x1 : Vec F S2000x128 .f32) (xs0 : Vec F S128x128 .f32) (y : S128x128.Idx) :
    ∃ pc ∈ (kernelRun12_C c i arg1 harg1 arg2 harg2 arg3 harg3 arg4 harg4 hc0 hc1 x0 x1 xs0).1, y ∈ pc.1.set :=
  View.cover_of_tiledL (kernelRun12_C c i arg1 harg1 arg2 harg2 arg3 harg3 arg4 harg4 hc0 hc1 x0 x1 xs0).1 S128x128.size (by sl_kernel_rfl) y

/-- What the last point leaves in the output's buffer. -/
def out12_C_2 (c : Dev nD) (i : grid12.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond12_0 i) (hc1 : cond12_1 i)
    (x0 : Vec F S2000x128 .f32) (x1 : Vec F S2000x128 .f32) (xs0 : Vec F S128x128 .f32) : Vec F S128x128 .f32 :=
  VO12_2.read (Elt F) (VO12_2.writes (Elt F) VO12_2.junk (kernelRun12_C c i arg1 harg1 arg2 harg2 arg3 harg3 arg4 harg4 hc0 hc1 x0 x1 xs0).1)

/-- The last point's store covers the accumulator. -/
theorem scover12_C_0 (c : Dev nD) (i : grid12.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond12_0 i) (hc1 : cond12_1 i)
    (x0 : Vec F S2000x128 .f32) (x1 : Vec F S2000x128 .f32) (xs0 : Vec F S128x128 .f32) (y : S128x128.Idx) :
    ∃ pc ∈ (kernelRun12_C c i arg1 harg1 arg2 harg2 arg3 harg3 arg4 harg4 hc0 hc1 x0 x1 xs0).2.1, y ∈ pc.1.set :=
  View.cover_of_tiledL (kernelRun12_C c i arg1 harg1 arg2 harg2 arg3 harg3 arg4 harg4 hc0 hc1 x0 x1 xs0).2.1 S128x128.size (by sl_kernel_rfl) y

/-- What the last point leaves in the accumulator. -/
def sout12_C_0 (c : Dev nD) (i : grid12.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond12_0 i) (hc1 : cond12_1 i)
    (x0 : Vec F S2000x128 .f32) (x1 : Vec F S2000x128 .f32) (xs0 : Vec F S128x128 .f32) : Vec F S128x128 .f32 :=
  VS12_0.read (Elt F) (VS12_0.writes (Elt F) VS12_0.junk (kernelRun12_C c i arg1 harg1 arg2 harg2 arg3 harg3 arg4 harg4 hc0 hc1 x0 x1 xs0).2.1)

/-! ## What the output's buffer and the accumulator hold after each point -/

/-- The output's buffer at a point that stores nothing into it: a placeholder nothing consults, the window being
    neither written back there nor read at the next point. -/
def idle12_2 : Vec F S128x128 .f32 := VO12_2.read (Elt F) VO12_2.junk

/-- THE ACCUMULATION. What the output's staging buffer and the accumulator hold after the body at position `n`: the
    case the closed forms select at `n`, run at the point's memrefs and input blocks, the accumulator coming in at
    what position `n - 1` left in it. After the first point the accumulator is zero plus the first product; after a
    later point what it held plus that point's product; after the last point the output's buffer holds the
    rectifier of the whole sum. -/
def outsAt12 (c : Dev nD) : (n : ℕ) → n < cfg12.N → Vec F S128x128 .f32 × Vec F S128x128 .f32
  | 0, hn => (idle12_2, sout12_A_0 c (grid12.coords ⟨0, hn⟩) (ms12_0 ⟨0, hn⟩) (hs12_0 ⟨0, hn⟩) (ms12_1 ⟨0, hn⟩) (hs12_1 ⟨0, hn⟩) (ms12_2 ⟨0, hn⟩) (hs12_2 ⟨0, hn⟩) scM12_0 (Memref.isWhole_whole _) ((hcond12_0 ⟨0, hn⟩).mpr (Nat.zero_mod _)) (fun h => (fun h => by (try dsimp only at h); omega) ((hcond12_1 ⟨0, hn⟩).mp h)) (iblk12 V c 0 ⟨0, hn⟩) (iblk12 V c 1 ⟨0, hn⟩))
  | n + 1, hn =>
    if h0 : (n + 1) % 25 = 0 then
      if h1 : (n + 1) % 25 = 24 then
        False.elim (by omega)
      else
        (idle12_2, sout12_A_0 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) scM12_0 (Memref.isWhole_whole _) ((hcond12_0 ⟨n + 1, hn⟩).mpr h0) (fun h => h1 ((hcond12_1 ⟨n + 1, hn⟩).mp h)) (iblk12 V c 0 ⟨n + 1, hn⟩) (iblk12 V c 1 ⟨n + 1, hn⟩))
    else
      if h1 : (n + 1) % 25 = 24 then
        (out12_C_2 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) scM12_0 (Memref.isWhole_whole _) (fun h => h0 ((hcond12_0 ⟨n + 1, hn⟩).mp h)) ((hcond12_1 ⟨n + 1, hn⟩).mpr h1) (iblk12 V c 0 ⟨n + 1, hn⟩) (iblk12 V c 1 ⟨n + 1, hn⟩) (outsAt12 c n (Nat.lt_of_succ_lt hn)).2,
         sout12_C_0 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) scM12_0 (Memref.isWhole_whole _) (fun h => h0 ((hcond12_0 ⟨n + 1, hn⟩).mp h)) ((hcond12_1 ⟨n + 1, hn⟩).mpr h1) (iblk12 V c 0 ⟨n + 1, hn⟩) (iblk12 V c 1 ⟨n + 1, hn⟩) (outsAt12 c n (Nat.lt_of_succ_lt hn)).2)
      else
        (idle12_2, sout12_B_0 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) scM12_0 (Memref.isWhole_whole _) (fun h => h0 ((hcond12_0 ⟨n + 1, hn⟩).mp h)) (fun h => h1 ((hcond12_1 ⟨n + 1, hn⟩).mp h)) (iblk12 V c 0 ⟨n + 1, hn⟩) (iblk12 V c 1 ⟨n + 1, hn⟩) (outsAt12 c n (Nat.lt_of_succ_lt hn)).2)

/-- `outsAt12` at the first point. -/
theorem outsAt12_A (c : Dev nD) (t : Fin cfg12.N) (h0 : t.val % 25 = 0) (h1 : ¬t.val % 25 = 24) :
    outsAt12 V c t.val t.isLt = (idle12_2, sout12_A_0 c (grid12.coords t) (ms12_0 t) (hs12_0 t) (ms12_1 t) (hs12_1 t) (ms12_2 t) (hs12_2 t) scM12_0 (Memref.isWhole_whole _) ((hcond12_0 t).mpr h0) (fun h => h1 ((hcond12_1 t).mp h)) (iblk12 V c 0 t) (iblk12 V c 1 t)) := by
  obtain ⟨n, hn⟩ := t
  cases n with
  | zero => exact rfl
  | succ n => exact (dif_pos h0).trans ((dif_neg h1).trans rfl)

/-- `outsAt12` at a middle point: over what the point before left. -/
theorem outsAt12_B (c : Dev nD) (t : Fin cfg12.N) (h0 : ¬t.val % 25 = 0) (h1 : ¬t.val % 25 = 24) :
    outsAt12 V c t.val t.isLt = (idle12_2, sout12_B_0 c (grid12.coords t) (ms12_0 t) (hs12_0 t) (ms12_1 t) (hs12_1 t) (ms12_2 t) (hs12_2 t) scM12_0 (Memref.isWhole_whole _) (fun h => h0 ((hcond12_0 t).mp h)) (fun h => h1 ((hcond12_1 t).mp h)) (iblk12 V c 0 t) (iblk12 V c 1 t) (outsAt12 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt12` at the last point: over what the point before left. -/
theorem outsAt12_C (c : Dev nD) (t : Fin cfg12.N) (h0 : ¬t.val % 25 = 0) (h1 : t.val % 25 = 24) :
    outsAt12 V c t.val t.isLt = (out12_C_2 c (grid12.coords t) (ms12_0 t) (hs12_0 t) (ms12_1 t) (hs12_1 t) (ms12_2 t) (hs12_2 t) scM12_0 (Memref.isWhole_whole _) (fun h => h0 ((hcond12_0 t).mp h)) ((hcond12_1 t).mpr h1) (iblk12 V c 0 t) (iblk12 V c 1 t) (outsAt12 V c (t.val - 1) (Nat.lt_of_le_of_lt (Nat.sub_le _ _) t.isLt)).2,
      sout12_C_0 c (grid12.coords t) (ms12_0 t) (hs12_0 t) (ms12_1 t) (hs12_1 t) (ms12_2 t) (hs12_2 t) scM12_0 (Memref.isWhole_whole _) (fun h => h0 ((hcond12_0 t).mp h)) ((hcond12_1 t).mpr h1) (iblk12 V c 0 t) (iblk12 V c 1 t) (outsAt12 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point every scoped buffer that is no staging buffer at
    anything, and the generator register at some state; afterwards the accumulator at what the point before left in
    it (`outsAt12`'s second component), every other such buffer unopened, and the register. -/
def PhiS12 (c : Dev nD) : (n : ℕ) → n ≤ cfg12.N → sProp 𝕄
  | 0, _ => Pipeline.ΦA spec12 c
  | n + 1, hn => iprop(iprop(iprop(owns (c : Thread nD τ) scM12_0 fullShare ((outsAt12 V c n hn).2)) ∗ Pipeline.scopedRestBut (Ix := Unit) (Name := ℕ) (U := UR sig nD τ) (Lvl := ℕ) (Val := Elt F) spec12 c [cc12_scratch0]) ∗ (∃ r, prngReg c r))

theorem PhiS12_zero (c : Dev nD) (n : ℕ) (h : n ≤ cfg12.N) (hz : n = 0) : PhiS12 V c n h = Pipeline.ΦA spec12 c := by
  subst hz; rfl

theorem PhiS12_succ (c : Dev nD) (n : ℕ) (hn : n < cfg12.N) :
    PhiS12 V c (n + 1) hn = iprop(iprop(iprop(owns (c : Thread nD τ) scM12_0 fullShare ((outsAt12 V c n hn).2)) ∗ Pipeline.scopedRestBut (Ix := Unit) (Name := ℕ) (U := UR sig nD τ) (Lvl := ℕ) (Val := Elt F) spec12 c [cc12_scratch0]) ∗ (∃ r, prngReg c r)) := rfl

theorem PhiS12_pos (c : Dev nD) (n : ℕ) (h : n ≤ cfg12.N) (hz : n ≠ 0) :
    PhiS12 V c n h = iprop(iprop(iprop(owns (c : Thread nD τ) scM12_0 fullShare ((outsAt12 V c (n - 1) (by omega)).2)) ∗ Pipeline.scopedRestBut (Ix := Unit) (Name := ℕ) (U := UR sig nD τ) (Lvl := ℕ) (Val := Elt F) spec12 c [cc12_scratch0]) ∗ (∃ r, prngReg c r)) := by
  cases n with
  | zero => exact absurd rfl hz
  | succ n => rfl

/-! ## The pipeline's proof data -/

/-- The proof data on core `c`: the arrays as the region finds them; after the body at point `t` each input's
    buffer at its block and the output's at `outsAt12`'s first component; the invariant `PhiS12`; nothing owed; full
    shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => (outsAt12 V c t.val t.isLt).1
  Φ t := PhiS12 V c t.val (Nat.le_of_lt_succ t.isLt)
  q _ := fullShare
  owed _ := 0

theorem A_eq12 (c : Dev nD) (w : Fin cfg12.W) : (dat12 V c).A w = V c (Pipeline.arrRef spec12 w) := by
  dsimp only [dat12]

theorem PhiS12_castSucc (c : Dev nD) (t : Fin cfg12.N) :
    (dat12 V c).Φ t.castSucc = PhiS12 V c t.val (Nat.le_of_lt t.isLt) := by
  dsimp only [dat12]; simp only [Fin.coe_castSucc]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = (outsAt12 V c t.val t.isLt).1 := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-! ## The body obligation -/

/-- What the body is called with at point `t`, -/
def bodyPre12 (c : Dev nD) (t : Fin cfg12.N) : sProp 𝕄 :=
  iprop((dat12 V c).Φ t.castSucc ∗ (dat12 V c).owesAt () t.castSucc
    ∗ (∃ d, owns (c : Thread nD τ) (ms12_0 t) fullShare ((dat12 V c).before 0 t d))
    ∗ (∃ d, owns (c : Thread nD τ) (ms12_1 t) fullShare ((dat12 V c).before 1 t d))
    ∗ (∃ d, owns (c : Thread nD τ) (ms12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ (dat12 V c).leavesExact 0 t
    ∗ (dat12 V c).leavesExact 1 t
    ∗ (dat12 V c).leavesExact 2 t)

set_option maxHeartbeats 4800000 in
/-- The body at any point. The inputs' memrefs hold their blocks; the closed forms say which case the point is in;
    the invariant hands the body the accumulator — at anything at the first point, at what the point before left
    afterwards —, every other scoped buffer and the generator register riding along unread, and takes the
    accumulator back at this point's contents; the output's buffer is handed back untouched except at the last
    point, where it is left at the rectifier of the sum; the core owes nothing throughout. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).owesAt () t.succ = (dat12 V c).owesAt () t.castSucc from rfl]
  rw [show (dat12 V c).Φ t.succ = PhiS12 V c (t.val + 1) t.isLt from rfl, PhiS12_succ]
  have hN : t.val < 25 := lt_of_lt_of_eq t.isLt (show cfg12.N = 25 from N_12)
  rw [show (dat12 V c).leavesExact 0 t = owns (c : Thread nD τ) (ms12_0 t) fullShare ((dat12 V c).after 0 t) from by
    unfold Dat.leavesExact; rw [liveAt12_0 t], after12_0]
  rw [show (dat12 V c).leavesExact 1 t = owns (c : Thread nD τ) (ms12_1 t) fullShare ((dat12 V c).after 1 t) from by
    unfold Dat.leavesExact; rw [liveAt12_1 t], after12_1]
  by_cases h0 : t.val % 25 = 0
  · have h1 : ¬t.val % 25 = 24 := by omega
    have hz : t.val = 0 := by omega
    rw [Dat.leavesExact_idle (dat12 V c) 2 t (idleAt12_2 t (fun h => h1 ((hcond12_1 t).mp h))) (noFlush12_2 t (fun h => h1 ((hcond12_1 t).mp h)))]
    rw [outsAt12_A V c t h0 h1]
    unfold sout12_A_0; (try dsimp only)
    rw [PhiS12_castSucc V c t, PhiS12_zero V c _ _ hz, PhiA12_eq]
    iintro ⟨⟨⟨HS0, Hrest⟩, Hg⟩, Ho, ⟨%d0, H0⟩, ⟨%d1, H1⟩, ⟨%d2, H2⟩⟩
    iapply ((kernelRun12_A c (grid12.coords t) _ _ _ _ _ _ _ _ ((hcond12_0 t).mpr h0) (fun h => h1 ((hcond12_1 t).mp h)) (iblk12 V c 0 t) (iblk12 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover12_A_0 c _ _ _ _ _ _ _ _ _ _ _ _ _)
        iexact Hrest
      iexact Hg
    isplitl [Ho]; · iexact Ho
    isplitl [H0]; · iexact H0
    isplitl [H1]; · iexact H1
    iexists _; iexact H2
  · have hz : t.val ≠ 0 := by omega
    by_cases h1 : t.val % 25 = 24
    · rw [show (dat12 V c).leavesExact 2 t = owns (c : Thread nD τ) (ms12_2 t) fullShare ((dat12 V c).after 2 t) from by
        unfold Dat.leavesExact; rw [liveAt12_2 t ((hcond12_1 t).mpr h1)], after12_2]
      rw [outsAt12_C V c t h0 h1]
      unfold out12_C_2 sout12_C_0; (try dsimp only)
      rw [PhiS12_castSucc V c t, PhiS12_pos V c _ _ hz]
      iintro ⟨⟨⟨HS0, Hrest⟩, Hg⟩, Ho, ⟨%d0, H0⟩, ⟨%d1, H1⟩, ⟨%d2, H2⟩⟩
      iapply ((kernelRun12_C c (grid12.coords t) _ _ _ _ _ _ _ _ (fun h => h0 ((hcond12_0 t).mp h)) ((hcond12_1 t).mpr h1) (iblk12 V c 0 t) (iblk12 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover12_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover12_C_2 c _ _ _ _ _ _ _ _ _ _ _ _ _ _)
    · rw [Dat.leavesExact_idle (dat12 V c) 2 t (idleAt12_2 t (fun h => h1 ((hcond12_1 t).mp h))) (noFlush12_2 t (fun h => h1 ((hcond12_1 t).mp h)))]
      rw [outsAt12_B V c t h0 h1]
      unfold sout12_B_0; (try dsimp only)
      rw [PhiS12_castSucc V c t, PhiS12_pos V c _ _ hz]
      iintro ⟨⟨⟨HS0, Hrest⟩, Hg⟩, Ho, ⟨%d0, H0⟩, ⟨%d1, H1⟩, ⟨%d2, H2⟩⟩
      iapply ((kernelRun12_B c (grid12.coords t) _ _ _ _ _ _ _ _ (fun h => h0 ((hcond12_0 t).mp h)) (fun h => h1 ((hcond12_1 t).mp h)) (iblk12 V c 0 t) (iblk12 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover12_B_0 c _ _ _ _ _ _ _ _ _ _ _ _ _ _)
          iexact Hrest
        iexact Hg
      isplitl [Ho]; · iexact Ho
      isplitl [H0]; · iexact H0
      isplitl [H1]; · iexact H1
      iexists _; iexact H2

/-- The body obligation, at every point. -/
theorem body_obligation12 (c : Dev nD) : BodyObligation (dat12 (F := F) V c) (defs₀ (F := F)) Variants.none () Set.univ := fun t => by
  rw [bigSep_W12, bigSep_W12]
  exact sound_body12 V c t

/-! ## Into the invariant and out of it -/

/-- What the launch hands the region — the generator register, no prefetched table, the scoped buffers no window
    stages — is the invariant before the first point. -/
theorem hin12 (c : Dev nD) :
    iprop((∃ r, prngReg c r) ∗ Pipeline.prefHeld (pcfgs (F := F) 12).pre c (fun _ => fullShare) ((cfgs 12).toPCfg_adm).1 ∗ Pipeline.scopedRest spec12 c)
      ⊢ (dat12 V c).Φ 0 := by
  rw [show (dat12 V c).Φ 0 = PhiS12 V c 0 (Nat.zero_le _) from rfl, PhiS12_zero V c 0 _ rfl]; unfold Pipeline.ΦA
  iintro ⟨Hp, -, Hr⟩
  isplitl [Hr]; · iexact Hr
  iexact Hp

/-- After any point but the first the invariant gives the scoped buffers and the register back: the accumulator's
    named contents are forgotten. -/
theorem Phi_out12 (c : Dev nD) (t : Fin (cfg12.N + 1)) (ht : t.val ≠ 0) : (dat12 V c).Φ t ⊢ Pipeline.ΦA spec12 c := by
  rw [show (dat12 V c).Φ t = PhiS12 V c t.val (Nat.le_of_lt_succ t.isLt) from rfl, PhiS12_pos V c _ _ ht, PhiA12_eq]
  iintro ⟨⟨HS0, Hrest⟩, Hg⟩
  isplitl [HS0 Hrest]
  · isplitl [HS0]
    · iexists _; iexact HS0
    iexact Hrest
  iexact Hg

/-- The same after the last point, as the region hands it back: the register, no semaphore of the kernel's own, the
    scoped buffers. -/
theorem hout12 (c : Dev nD) :
    (dat12 V c).Φ (Fin.last cfg12.N)
      ⊢ iprop((∃ r, prngReg c r) ∗ Pipeline.ownSems0 (Ix := Unit) (Name := ℕ) (U := UR sig nD τ) (Lvl := ℕ) (Val := Elt F) (τ := τ) (fun k : PEmpty => k.elim) c ∗ Pipeline.scopedRest spec12 c) := by
  refine (Phi_out12 V c _ (by rw [Fin.val_last]; have : cfg12.N = 25 := N_12; omega)).trans ?_
  rw [Pipeline.ownSems0_none]; unfold Pipeline.ΦA
  iintro ⟨Hr, Hp⟩
  isplitl [Hp]; · iexact Hp
  isplitr; · iempintro
  iexact Hr

end Cert.KernelIdeal.Fr

end
-- ==== Proof.KI.Reg13.lean ====
import proofs.«126270_j6725918785969_1_alg».proof.Proof.Gen.KernelIdeal.Launch
import proofs.«126270_j6725918785969_1_alg».proof.Proof.Gen.KernelIdeal.Skeleton
import proofs.«126270_j6725918785969_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 13: a row-tiled matrix product followed by the leaky rectifier

Two input windows and one output window. Window 0 cuts the left factor into blocks of rows (`S2000x128`);
window 1 is the whole right factor (`S128x128`), the same block at every grid point; window 2 is the block of
the result's rows (`S2000x128`). At a grid point the body loads both input blocks, multiplies them into a zero
accumulator, takes `max (0.5 · y) y` entry by entry and stores the result over the whole output block. Stated at a
parameter `V`, the buffer contents the region is entered from.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- The left factor's current staging buffer holds its block of rows at every point. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- The right factor's staging buffer holds the whole factor at every point: fetched at the first point, its
    block index never moves afterwards. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- The rectangles the body reads and writes: each buffer whole. -/
abbrev r13_a : Rect S2000x128 := Rect.unit (s := S2000x128) ![0, 0] S2000x128.size inb_S2000x128_S2000x128_0_0
abbrev r13_b : Rect S128x128 := Rect.unit (s := S128x128) ![0, 0] S128x128.size inb_S128x128_S128x128_0_0

/-- The output buffer after the body: its one store, of the product of the two input blocks. -/
def out13_2 (x0 : Vec F S2000x128 .f32) (x1 : Vec F S128x128 .f32) : Vec F S2000x128 .f32 :=
  View.canon [⟨r13_a, k13_pay1 (View.ld x0 r13_a) (View.ld x1 r13_b)⟩]

/-- The store covers the buffer. -/
theorem cover13_2 (p0 : Vec F S2000x128 .f32) (y : S2000x128.Idx) :
    ∃ pc ∈ ([⟨r13_a, p0⟩] : List (View.Piece (Elt F) S2000x128 .f32)), y ∈ pc.1.set :=
  View.cover_of_tiled [⟨r13_a, p0⟩] S2000x128.size (by rfl) y

set_option maxHeartbeats 1000000 in
/-- The body on whole staging memrefs, the inputs' at contents `x0`, `x1` and the output's at anything, runs to the
    continuation with the inputs' as they were and the output's at `out13_2 x0 x1`. -/
theorem sound_kernel13 (c : Dev nD) (E : Set ℕ) (i : grid13.Coords) (arg0 : Memref sig .tc .vmem S2000x128 .f32) (harg0 : arg0.IsWhole) (arg1 : Memref sig .tc .vmem S128x128 .f32) (harg1 : arg1.IsWhole) (arg2 : Memref sig .tc .vmem S2000x128 .f32) (harg2 : arg2.IsWhole)
    (x0 : Vec F S2000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out13_2 x0 x1)) -∗ K ⟨⟩))
      ⊢ wp frame (wpE (defs₀ (F := F)) Variants.none c none) E (cc13__mm_big_kernel i arg0 harg0 arg1 harg1 arg2 harg2) K := by
  simp only [cc13__mm_big_kernel_eq_skeleton]; unfold cc13__mm_big_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover13_2 _)

/-- The pipeline's proof data on core `c`: the arrays as the region finds them; after the body at point `t` each
    input's buffer at its block and the output's at `out13_2` of them; the invariant the scoped rest and the
    generator register, untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => out13_2 (iblk13 V c 0 t) (iblk13 V c 1 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = out13_2 (iblk13 V c 0 t) (iblk13 V c 1 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

/-- What the body is called with at point `t`, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t))

/-- The body at any point: the inputs' memrefs hold their blocks, so the body's triple applies; the invariant
    and the core's dues pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).Φ t.succ = (dat13 V c).Φ t.castSucc from rfl,
    show (dat13 V c).owesAt () t.succ = (dat13 V c).owesAt () t.castSucc from rfl,
    after13_0, after13_1, after13_2]
  iintro ⟨HΦ, Ho, ⟨%d0, H0⟩, ⟨%d1, H1⟩, ⟨%d2, H2⟩⟩
  iapply (sound_kernel13 c Set.univ _ _ _ _ _ _ _ (iblk13 V c 0 t) (iblk13 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation13 (c : Dev nD) : BodyObligation (dat13 (F := F) V c) (defs₀ (F := F)) Variants.none () Set.univ := fun t => by
  rw [bigSep_W13, bigSep_W13]
  exact sound_body13 V c t

end Cert.KernelIdeal.Fr

end
-- ==== Proof.KI.Reg14.lean ====
import proofs.«126270_j6725918785969_1_alg».proof.Proof.Gen.KernelIdeal.Launch
import proofs.«126270_j6725918785969_1_alg».proof.Proof.Gen.KernelIdeal.Skeleton
import proofs.«126270_j6725918785969_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 14: a row-tiled matrix product

Two input windows and one output window. Window 0 cuts the left factor into blocks of rows (`S4096x128`);
window 1 is the whole right factor (`S128x128`), the same block at every grid point; window 2 is the block of
the result's rows (`S4096x128`). At a grid point the body loads both input blocks, multiplies them into a zero
accumulator and stores the result over the whole output block. Stated at a
parameter `V`, the buffer contents the region is entered from.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- The left factor's current staging buffer holds its block of rows at every point. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- The right factor's staging buffer holds the whole factor at every point: fetched at the first point, its
    block index never moves afterwards. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- The rectangles the body reads and writes: each buffer whole. -/
abbrev r14_a : Rect S4096x128 := Rect.unit (s := S4096x128) ![0, 0] S4096x128.size inb_S4096x128_S4096x128_0_0
abbrev r14_b : Rect S128x128 := Rect.unit (s := S128x128) ![0, 0] S128x128.size inb_S128x128_S128x128_0_0

/-- The output buffer after the body: its one store, of the product of the two input blocks. -/
def out14_2 (x0 : Vec F S4096x128 .f32) (x1 : Vec F S128x128 .f32) : Vec F S4096x128 .f32 :=
  View.canon [⟨r14_a, k14_pay1 (View.ld x0 r14_a) (View.ld x1 r14_b)⟩]

/-- The store covers the buffer. -/
theorem cover14_2 (p0 : Vec F S4096x128 .f32) (y : S4096x128.Idx) :
    ∃ pc ∈ ([⟨r14_a, p0⟩] : List (View.Piece (Elt F) S4096x128 .f32)), y ∈ pc.1.set :=
  View.cover_of_tiled [⟨r14_a, p0⟩] S4096x128.size (by rfl) y

set_option maxHeartbeats 1000000 in
/-- The body on whole staging memrefs, the inputs' at contents `x0`, `x1` and the output's at anything, runs to the
    continuation with the inputs' as they were and the output's at `out14_2 x0 x1`. -/
theorem sound_kernel14 (c : Dev nD) (E : Set ℕ) (i : grid14.Coords) (arg0 : Memref sig .tc .vmem S4096x128 .f32) (harg0 : arg0.IsWhole) (arg1 : Memref sig .tc .vmem S128x128 .f32) (harg1 : arg1.IsWhole) (arg2 : Memref sig .tc .vmem S4096x128 .f32) (harg2 : arg2.IsWhole)
    (x0 : Vec F S4096x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out14_2 x0 x1)) -∗ K ⟨⟩))
      ⊢ wp frame (wpE (defs₀ (F := F)) Variants.none c none) E (cc14__mm_big_kernel i arg0 harg0 arg1 harg1 arg2 harg2) K := by
  simp only [cc14__mm_big_kernel_eq_skeleton]; unfold cc14__mm_big_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover14_2 _)

/-- The pipeline's proof data on core `c`: the arrays as the region finds them; after the body at point `t` each
    input's buffer at its block and the output's at `out14_2` of them; the invariant the scoped rest and the
    generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => out14_2 (iblk14 V c 0 t) (iblk14 V c 1 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = out14_2 (iblk14 V c 0 t) (iblk14 V c 1 t) := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d

/-- What the body is called with at point `t`, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t))

/-- The body at any point: the inputs' memrefs hold their blocks, so the body's triple applies; the invariant
    and the core's dues pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1]
  rw [show (dat14 V c).Φ t.succ = (dat14 V c).Φ t.castSucc from rfl,
    show (dat14 V c).owesAt () t.succ = (dat14 V c).owesAt () t.castSucc from rfl,
    after14_0, after14_1, after14_2]
  iintro ⟨HΦ, Ho, ⟨%d0, H0⟩, ⟨%d1, H1⟩, ⟨%d2, H2⟩⟩
  iapply (sound_kernel14 c Set.univ _ _ _ _ _ _ _ (iblk14 V c 0 t) (iblk14 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation14 (c : Dev nD) : BodyObligation (dat14 (F := F) V c) (defs₀ (F := F)) Variants.none () Set.univ := fun t => by
  rw [bigSep_W14, bigSep_W14]
  exact sound_body14 V c t

end Cert.KernelIdeal.Fr

end
-- ==== Proof.KI.Reg15.lean ====
import proofs.«126270_j6725918785969_1_alg».proof.Proof.Gen.KernelIdeal.Launch
import proofs.«126270_j6725918785969_1_alg».proof.Proof.Gen.KernelIdeal.Skeleton
import proofs.«126270_j6725918785969_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 15: the row sums of `exp (x · yᵀ)` reduced over sixteen blocks of columns

Two input windows — the 4096 × 128 left factor whole, its block index never moving, and the right factor cut into
sixteen blocks of 256 rows — and one 4096 × 1 output window whose block index never moves. The kernel keeps a
4096 × 1 accumulator in a scratch buffer of its own: at the first grid point it zeroes it, at every point it adds,
row by row, the sum over the block's 256 columns of `exp (p / 1)`, where `p` is the product of the left factor and
the transposed right block (both rounded to bf16 before the product) and the division by the constant one is
entry by entry, and at the last point only it copies the accumulator into the output's staging buffer, which is
written back there and nowhere else. So the body has three control cases — first point, middle point, last
point —, the accumulator's contents are carried from point to point by the region invariant, and the output
window is idle everywhere but at the last point. Stated at a parameter `V`, the buffer contents the region is
entered from.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, decided over the grid -/

/-- The condition of the body's first conditional: the reduction coordinate is zero. -/
abbrev cond15_0 (i : grid15.Coords) : Prop := (Scalar.cmpi .ne (Scalar.extui (Scalar.cmpi .eq (BitVec.ofNat 32 (i 0).val) 0#32)) 0#32) = 1#1
/-- It holds at the first point only. -/
theorem hcond15_0 : ∀ t : Fin cfg15.N, cond15_0 (grid15.coords t) ↔ t.val % 16 = 0 :=
  (by decide +kernel : ∀ t : Fin grid15.N, cond15_0 (grid15.coords t) ↔ t.val % 16 = 0)

/-- The condition of the body's second conditional: the reduction coordinate is the last. -/
abbrev cond15_1 (i : grid15.Coords) : Prop := k15_cond2 i = 1#1
/-- It holds at the last point only. -/
theorem hcond15_1 : ∀ t : Fin cfg15.N, cond15_1 (grid15.coords t) ↔ t.val % 16 = 15 :=
  (by decide +kernel : ∀ t : Fin grid15.N, cond15_1 (grid15.coords t) ↔ t.val % 16 = 15)

/-! ## Where the windows are idle -/

/-- The two inputs are never idle. -/
theorem liveAt15_0 : ∀ t : Fin cfg15.N, cfg15.idle 0 (grid15.coords t) = false := by decide +kernel
theorem liveAt15_1 : ∀ t : Fin cfg15.N, cfg15.idle 1 (grid15.coords t) = false := by decide +kernel
/-- Where the second condition fails the output is idle and is not written back. -/
theorem idleAt15_2 : ∀ t : Fin cfg15.N, ¬cond15_1 (grid15.coords t) → cfg15.idle 2 (grid15.coords t) = true := by decide +kernel
theorem noFlush15_2 : ∀ t : Fin cfg15.N, ¬cond15_1 (grid15.coords t) → (cfg15.win 2).flush t = false := by decide +kernel
/-- Where it holds the output is live. -/
theorem liveAt15_2 : ∀ t : Fin cfg15.N, cond15_1 (grid15.coords t) → cfg15.idle 2 (grid15.coords t) = false := by decide +kernel

/-! ## The memrefs the body is called with -/

/-- One staging buffer of the output window, through which its contents are stated. -/
abbrev VO15_2 : View sig .tc .vmem S4096x1 .f32 := (Memref.whole cc15_stg2_0 : Memref sig .tc .vmem S4096x1 .f32).view
/-- Each window's current staging memref at point `t`, and its wholeness. -/
abbrev ms15_0 (t : Fin cfg15.N) : Memref sig .tc .vmem S4096x128 .f32 := win15_0.stage (cfg15.slots t 0)
abbrev hs15_0 (t : Fin cfg15.N) : (ms15_0 t).IsWhole := hstage15_0 ((cfg15.slots t 0).cast nbuf15_0)
abbrev ms15_1 (t : Fin cfg15.N) : Memref sig .tc .vmem S256x128 .f32 := win15_1.stage (cfg15.slots t 1)
abbrev hs15_1 (t : Fin cfg15.N) : (ms15_1 t).IsWhole := hstage15_1 ((cfg15.slots t 1).cast nbuf15_1)
abbrev ms15_2 (t : Fin cfg15.N) : Memref sig .tc .vmem S4096x1 .f32 := win15_2.stage (cfg15.slots t 2)
abbrev hs15_2 (t : Fin cfg15.N) : (ms15_2 t).IsWhole := hstage15_2 ((cfg15.slots t 2).cast nbuf15_2)
/-- The accumulator: a whole scoped buffer of the kernel's own, passed beside the windows. -/
abbrev scM15_0 : Memref sig .tc .vmem S4096x1 .f32 := Memref.whole cc15_scratch0
/-- The accumulator as a view: what it holds is stated through it. -/
abbrev VS15_0 : View sig .tc .vmem S4096x1 .f32 := scM15_0.view

/-- The region invariant of a body that need not describe its scratch, with the accumulator as a memref owned at
    some contents and every other scoped buffer unopened. -/
theorem PhiA15_eq (c : Dev nD) :
    (Pipeline.ΦA spec15 c : sProp 𝕄)
      = iprop(iprop(iprop((∃ d, owns (c : Thread nD τ) scM15_0 fullShare d))
          ∗ Pipeline.scopedRestBut (Ix := Unit) (Name := ℕ) (U := UR sig nD τ) (Lvl := ℕ) (Val := Elt F) spec15 c [cc15_scratch0]) ∗ (∃ r, prngReg c r)) := by
  unfold Pipeline.ΦA; rw [scopedRest15_split]; simp only [scM15_0, owns_whole]; try rfl

set_option maxHeartbeats 1000000 in
/-- THE FIRST POINT (the first conditional taken, the second not). On whole memrefs — the inputs' at their contents,
    the output's at contents handed back untouched, the accumulator at anything — the body runs to the continuation
    holding the inputs' and the output's as they were and the accumulator with its stores' pieces written (last
    first): zero, then zero plus the row sums of the exponentials of the two blocks' product. The pieces are what the run finds. -/
noncomputable def kernelRun15_A (c : Dev nD) (i : grid15.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : cond15_0 i) (hc1 : ¬cond15_1 i)
    (x0 : Vec F S4096x128 .f32) (x1 : Vec F S256x128 .f32) :
    Σ' (L2 : List (View.Piece (Elt F) S4096x1 .f32)), { LS0 : List (View.Piece (Elt F) S4096x1 .f32) //
      ∀ (xi2 : Vec F S4096x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc15__ssl_neg_kernel i arg1 harg1 arg2 harg2 arg3 harg3 arg4 harg4) K } := by
  refine ⟨[], ?_, fun xi2 E K => ?run⟩
  case run =>
    simp only [cc15__ssl_neg_kernel_eq_skeleton]; unfold cc15__ssl_neg_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A MIDDLE POINT (neither conditional taken). The accumulator comes in at the contents `xs0` the point before left
    and goes out with one piece written: `xs0` plus the row sums of the exponentials of the two blocks' product. The output is handed back untouched. -/
noncomputable def kernelRun15_B (c : Dev nD) (i : grid15.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond15_0 i) (hc1 : ¬cond15_1 i)
    (x0 : Vec F S4096x128 .f32) (x1 : Vec F S256x128 .f32) (xs0 : Vec F S4096x1 .f32) :
    Σ' (L2 : List (View.Piece (Elt F) S4096x1 .f32)), { LS0 : List (View.Piece (Elt F) S4096x1 .f32) //
      ∀ (xi2 : Vec F S4096x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc15__ssl_neg_kernel i arg1 harg1 arg2 harg2 arg3 harg3 arg4 harg4) K } := by
  refine ⟨[], ?_, fun xi2 E K => ?run⟩
  case run =>
    simp only [cc15__ssl_neg_kernel_eq_skeleton]; unfold cc15__ssl_neg_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- THE LAST POINT (the first conditional not taken, the second taken). The accumulator comes in at `xs0`, goes out
    with `xs0` plus the row sums written, and the output, at anything before, goes out with one piece written: the
    accumulator's final contents. -/
noncomputable def kernelRun15_C (c : Dev nD) (i : grid15.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond15_0 i) (hc1 : cond15_1 i)
    (x0 : Vec F S4096x128 .f32) (x1 : Vec F S256x128 .f32) (xs0 : Vec F S4096x1 .f32) :
    Σ' (L2 : List (View.Piece (Elt F) S4096x1 .f32)), { LS0 : List (View.Piece (Elt F) S4096x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc15__ssl_neg_kernel i arg1 harg1 arg2 harg2 arg3 harg3 arg4 harg4) K } := by
  refine ⟨?_, ?_, fun E K => ?run⟩
  case run =>
    simp only [cc15__ssl_neg_kernel_eq_skeleton]; unfold cc15__ssl_neg_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

variable (V : (c : Dev nD) → (b : Ref sig .tc) → Buf (Elt F) ((c : Thread nD τ).loc b))

/-! ## The windows' blocks -/

/-- Window `w`'s block at point `t`, read off its array as the region finds it. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- Each input's current staging buffer holds its block at every point, fetched there or not. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

/-! ## What each case leaves in the output's buffer and in the accumulator -/

/-- The first point's stores cover the accumulator. -/
theorem scover15_A_0 (c : Dev nD) (i : grid15.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : cond15_0 i) (hc1 : ¬cond15_1 i)
    (x0 : Vec F S4096x128 .f32) (x1 : Vec F S256x128 .f32) (y : S4096x1.Idx) :
    ∃ pc ∈ (kernelRun15_A c i arg1 harg1 arg2 harg2 arg3 harg3 arg4 harg4 hc0 hc1 x0 x1).2.1, y ∈ pc.1.set :=
  View.cover_of_tiledL (kernelRun15_A c i arg1 harg1 arg2 harg2 arg3 harg3 arg4 harg4 hc0 hc1 x0 x1).2.1 S4096x1.size (by sl_kernel_rfl) y

/-- What the first point leaves in the accumulator: its pieces read back. -/
def sout15_A_0 (c : Dev nD) (i : grid15.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : cond15_0 i) (hc1 : ¬cond15_1 i)
    (x0 : Vec F S4096x128 .f32) (x1 : Vec F S256x128 .f32) : Vec F S4096x1 .f32 :=
  VS15_0.read (Elt F) (VS15_0.writes (Elt F) VS15_0.junk (kernelRun15_A c i arg1 harg1 arg2 harg2 arg3 harg3 arg4 harg4 hc0 hc1 x0 x1).2.1)

/-- A middle point's store covers the accumulator. -/
theorem scover15_B_0 (c : Dev nD) (i : grid15.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond15_0 i) (hc1 : ¬cond15_1 i)
    (x0 : Vec F S4096x128 .f32) (x1 : Vec F S256x128 .f32) (xs0 : Vec F S4096x1 .f32) (y : S4096x1.Idx) :
    ∃ pc ∈ (kernelRun15_B c i arg1 harg1 arg2 harg2 arg3 harg3 arg4 harg4 hc0 hc1 x0 x1 xs0).2.1, y ∈ pc.1.set :=
  View.cover_of_tiledL (kernelRun15_B c i arg1 harg1 arg2 harg2 arg3 harg3 arg4 harg4 hc0 hc1 x0 x1 xs0).2.1 S4096x1.size (by sl_kernel_rfl) y

/-- What a middle point leaves in the accumulator. -/
def sout15_B_0 (c : Dev nD) (i : grid15.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond15_0 i) (hc1 : ¬cond15_1 i)
    (x0 : Vec F S4096x128 .f32) (x1 : Vec F S256x128 .f32) (xs0 : Vec F S4096x1 .f32) : Vec F S4096x1 .f32 :=
  VS15_0.read (Elt F) (VS15_0.writes (Elt F) VS15_0.junk (kernelRun15_B c i arg1 harg1 arg2 harg2 arg3 harg3 arg4 harg4 hc0 hc1 x0 x1 xs0).2.1)

/-- The last point's store covers the output's buffer. -/
theorem cover15_C_2 (c : Dev nD) (i : grid15.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond15_0 i) (hc1 : cond15_1 i)
    (x0 : Vec F S4096x128 .f32) (x1 : Vec F S256x128 .f32) (xs0 : Vec F S4096x1 .f32) (y : S4096x1.Idx) :
    ∃ pc ∈ (kernelRun15_C c i arg1 harg1 arg2 harg2 arg3 harg3 arg4 harg4 hc0 hc1 x0 x1 xs0).1, y ∈ pc.1.set :=
  View.cover_of_tiledL (kernelRun15_C c i arg1 harg1 arg2 harg2 arg3 harg3 arg4 harg4 hc0 hc1 x0 x1 xs0).1 S4096x1.size (by sl_kernel_rfl) y

/-- What the last point leaves in the output's buffer. -/
def out15_C_2 (c : Dev nD) (i : grid15.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond15_0 i) (hc1 : cond15_1 i)
    (x0 : Vec F S4096x128 .f32) (x1 : Vec F S256x128 .f32) (xs0 : Vec F S4096x1 .f32) : Vec F S4096x1 .f32 :=
  VO15_2.read (Elt F) (VO15_2.writes (Elt F) VO15_2.junk (kernelRun15_C c i arg1 harg1 arg2 harg2 arg3 harg3 arg4 harg4 hc0 hc1 x0 x1 xs0).1)

/-- The last point's store covers the accumulator. -/
theorem scover15_C_0 (c : Dev nD) (i : grid15.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond15_0 i) (hc1 : cond15_1 i)
    (x0 : Vec F S4096x128 .f32) (x1 : Vec F S256x128 .f32) (xs0 : Vec F S4096x1 .f32) (y : S4096x1.Idx) :
    ∃ pc ∈ (kernelRun15_C c i arg1 harg1 arg2 harg2 arg3 harg3 arg4 harg4 hc0 hc1 x0 x1 xs0).2.1, y ∈ pc.1.set :=
  View.cover_of_tiledL (kernelRun15_C c i arg1 harg1 arg2 harg2 arg3 harg3 arg4 harg4 hc0 hc1 x0 x1 xs0).2.1 S4096x1.size (by sl_kernel_rfl) y

/-- What the last point leaves in the accumulator. -/
def sout15_C_0 (c : Dev nD) (i : grid15.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond15_0 i) (hc1 : cond15_1 i)
    (x0 : Vec F S4096x128 .f32) (x1 : Vec F S256x128 .f32) (xs0 : Vec F S4096x1 .f32) : Vec F S4096x1 .f32 :=
  VS15_0.read (Elt F) (VS15_0.writes (Elt F) VS15_0.junk (kernelRun15_C c i arg1 harg1 arg2 harg2 arg3 harg3 arg4 harg4 hc0 hc1 x0 x1 xs0).2.1)

/-! ## What the output's buffer and the accumulator hold after each point -/

/-- The output's buffer at a point that stores nothing into it: a placeholder nothing consults, the window being
    neither written back there nor read at the next point. -/
def idle15_2 : Vec F S4096x1 .f32 := VO15_2.read (Elt F) VO15_2.junk

/-- THE ACCUMULATION. What the output's staging buffer and the accumulator hold after the body at position `n`: the
    case the closed forms select at `n`, run at the point's memrefs and input blocks, the accumulator coming in at
    what position `n - 1` left in it. After the first point the accumulator is zero plus the first block's row sums;
    after a later point what it held plus that point's row sums; after the last point the output's buffer holds
    the whole sum. -/
def outsAt15 (c : Dev nD) : (n : ℕ) → n < cfg15.N → Vec F S4096x1 .f32 × Vec F S4096x1 .f32
  | 0, hn => (idle15_2, sout15_A_0 c (grid15.coords ⟨0, hn⟩) (ms15_0 ⟨0, hn⟩) (hs15_0 ⟨0, hn⟩) (ms15_1 ⟨0, hn⟩) (hs15_1 ⟨0, hn⟩) (ms15_2 ⟨0, hn⟩) (hs15_2 ⟨0, hn⟩) scM15_0 (Memref.isWhole_whole _) ((hcond15_0 ⟨0, hn⟩).mpr (Nat.zero_mod _)) (fun h => (fun h => by (try dsimp only at h); omega) ((hcond15_1 ⟨0, hn⟩).mp h)) (iblk15 V c 0 ⟨0, hn⟩) (iblk15 V c 1 ⟨0, hn⟩))
  | n + 1, hn =>
    if h0 : (n + 1) % 16 = 0 then
      if h1 : (n + 1) % 16 = 15 then
        False.elim (by omega)
      else
        (idle15_2, sout15_A_0 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) scM15_0 (Memref.isWhole_whole _) ((hcond15_0 ⟨n + 1, hn⟩).mpr h0) (fun h => h1 ((hcond15_1 ⟨n + 1, hn⟩).mp h)) (iblk15 V c 0 ⟨n + 1, hn⟩) (iblk15 V c 1 ⟨n + 1, hn⟩))
    else
      if h1 : (n + 1) % 16 = 15 then
        (out15_C_2 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) scM15_0 (Memref.isWhole_whole _) (fun h => h0 ((hcond15_0 ⟨n + 1, hn⟩).mp h)) ((hcond15_1 ⟨n + 1, hn⟩).mpr h1) (iblk15 V c 0 ⟨n + 1, hn⟩) (iblk15 V c 1 ⟨n + 1, hn⟩) (outsAt15 c n (Nat.lt_of_succ_lt hn)).2,
         sout15_C_0 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) scM15_0 (Memref.isWhole_whole _) (fun h => h0 ((hcond15_0 ⟨n + 1, hn⟩).mp h)) ((hcond15_1 ⟨n + 1, hn⟩).mpr h1) (iblk15 V c 0 ⟨n + 1, hn⟩) (iblk15 V c 1 ⟨n + 1, hn⟩) (outsAt15 c n (Nat.lt_of_succ_lt hn)).2)
      else
        (idle15_2, sout15_B_0 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) scM15_0 (Memref.isWhole_whole _) (fun h => h0 ((hcond15_0 ⟨n + 1, hn⟩).mp h)) (fun h => h1 ((hcond15_1 ⟨n + 1, hn⟩).mp h)) (iblk15 V c 0 ⟨n + 1, hn⟩) (iblk15 V c 1 ⟨n + 1, hn⟩) (outsAt15 c n (Nat.lt_of_succ_lt hn)).2)

/-- `outsAt15` at the first point. -/
theorem outsAt15_A (c : Dev nD) (t : Fin cfg15.N) (h0 : t.val % 16 = 0) (h1 : ¬t.val % 16 = 15) :
    outsAt15 V c t.val t.isLt = (idle15_2, sout15_A_0 c (grid15.coords t) (ms15_0 t) (hs15_0 t) (ms15_1 t) (hs15_1 t) (ms15_2 t) (hs15_2 t) scM15_0 (Memref.isWhole_whole _) ((hcond15_0 t).mpr h0) (fun h => h1 ((hcond15_1 t).mp h)) (iblk15 V c 0 t) (iblk15 V c 1 t)) := by
  obtain ⟨n, hn⟩ := t
  cases n with
  | zero => exact rfl
  | succ n => exact (dif_pos h0).trans ((dif_neg h1).trans rfl)

/-- `outsAt15` at a middle point: over what the point before left. -/
theorem outsAt15_B (c : Dev nD) (t : Fin cfg15.N) (h0 : ¬t.val % 16 = 0) (h1 : ¬t.val % 16 = 15) :
    outsAt15 V c t.val t.isLt = (idle15_2, sout15_B_0 c (grid15.coords t) (ms15_0 t) (hs15_0 t) (ms15_1 t) (hs15_1 t) (ms15_2 t) (hs15_2 t) scM15_0 (Memref.isWhole_whole _) (fun h => h0 ((hcond15_0 t).mp h)) (fun h => h1 ((hcond15_1 t).mp h)) (iblk15 V c 0 t) (iblk15 V c 1 t) (outsAt15 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt15` at the last point: over what the point before left. -/
theorem outsAt15_C (c : Dev nD) (t : Fin cfg15.N) (h0 : ¬t.val % 16 = 0) (h1 : t.val % 16 = 15) :
    outsAt15 V c t.val t.isLt = (out15_C_2 c (grid15.coords t) (ms15_0 t) (hs15_0 t) (ms15_1 t) (hs15_1 t) (ms15_2 t) (hs15_2 t) scM15_0 (Memref.isWhole_whole _) (fun h => h0 ((hcond15_0 t).mp h)) ((hcond15_1 t).mpr h1) (iblk15 V c 0 t) (iblk15 V c 1 t) (outsAt15 V c (t.val - 1) (Nat.lt_of_le_of_lt (Nat.sub_le _ _) t.isLt)).2,
      sout15_C_0 c (grid15.coords t) (ms15_0 t) (hs15_0 t) (ms15_1 t) (hs15_1 t) (ms15_2 t) (hs15_2 t) scM15_0 (Memref.isWhole_whole _) (fun h => h0 ((hcond15_0 t).mp h)) ((hcond15_1 t).mpr h1) (iblk15 V c 0 t) (iblk15 V c 1 t) (outsAt15 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point every scoped buffer that is no staging buffer at
    anything, and the generator register at some state; afterwards the accumulator at what the point before left in
    it (`outsAt15`'s second component), every other such buffer unopened, and the register. -/
def PhiS15 (c : Dev nD) : (n : ℕ) → n ≤ cfg15.N → sProp 𝕄
  | 0, _ => Pipeline.ΦA spec15 c
  | n + 1, hn => iprop(iprop(iprop(owns (c : Thread nD τ) scM15_0 fullShare ((outsAt15 V c n hn).2)) ∗ Pipeline.scopedRestBut (Ix := Unit) (Name := ℕ) (U := UR sig nD τ) (Lvl := ℕ) (Val := Elt F) spec15 c [cc15_scratch0]) ∗ (∃ r, prngReg c r))

theorem PhiS15_zero (c : Dev nD) (n : ℕ) (h : n ≤ cfg15.N) (hz : n = 0) : PhiS15 V c n h = Pipeline.ΦA spec15 c := by
  subst hz; rfl

theorem PhiS15_succ (c : Dev nD) (n : ℕ) (hn : n < cfg15.N) :
    PhiS15 V c (n + 1) hn = iprop(iprop(iprop(owns (c : Thread nD τ) scM15_0 fullShare ((outsAt15 V c n hn).2)) ∗ Pipeline.scopedRestBut (Ix := Unit) (Name := ℕ) (U := UR sig nD τ) (Lvl := ℕ) (Val := Elt F) spec15 c [cc15_scratch0]) ∗ (∃ r, prngReg c r)) := rfl

theorem PhiS15_pos (c : Dev nD) (n : ℕ) (h : n ≤ cfg15.N) (hz : n ≠ 0) :
    PhiS15 V c n h = iprop(iprop(iprop(owns (c : Thread nD τ) scM15_0 fullShare ((outsAt15 V c (n - 1) (by omega)).2)) ∗ Pipeline.scopedRestBut (Ix := Unit) (Name := ℕ) (U := UR sig nD τ) (Lvl := ℕ) (Val := Elt F) spec15 c [cc15_scratch0]) ∗ (∃ r, prngReg c r)) := by
  cases n with
  | zero => exact absurd rfl hz
  | succ n => rfl

/-! ## The pipeline's proof data -/

/-- The proof data on core `c`: the arrays as the region finds them; after the body at point `t` each input's
    buffer at its block and the output's at `outsAt15`'s first component; the invariant `PhiS15`; nothing owed; full
    shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => (outsAt15 V c t.val t.isLt).1
  Φ t := PhiS15 V c t.val (Nat.le_of_lt_succ t.isLt)
  q _ := fullShare
  owed _ := 0

theorem A_eq15 (c : Dev nD) (w : Fin cfg15.W) : (dat15 V c).A w = V c (Pipeline.arrRef spec15 w) := by
  dsimp only [dat15]

theorem PhiS15_castSucc (c : Dev nD) (t : Fin cfg15.N) :
    (dat15 V c).Φ t.castSucc = PhiS15 V c t.val (Nat.le_of_lt t.isLt) := by
  dsimp only [dat15]; simp only [Fin.coe_castSucc]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = (outsAt15 V c t.val t.isLt).1 := by dsimp only [dat15]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d

/-! ## The body obligation -/

/-- What the body is called with at point `t`, -/
def bodyPre15 (c : Dev nD) (t : Fin cfg15.N) : sProp 𝕄 :=
  iprop((dat15 V c).Φ t.castSucc ∗ (dat15 V c).owesAt () t.castSucc
    ∗ (∃ d, owns (c : Thread nD τ) (ms15_0 t) fullShare ((dat15 V c).before 0 t d))
    ∗ (∃ d, owns (c : Thread nD τ) (ms15_1 t) fullShare ((dat15 V c).before 1 t d))
    ∗ (∃ d, owns (c : Thread nD τ) (ms15_2 t) fullShare ((dat15 V c).before 2 t d)))

/-- and what it returns. -/
def bodyPost15 (c : Dev nD) (t : Fin cfg15.N) : sProp 𝕄 :=
  iprop((dat15 V c).Φ t.succ ∗ (dat15 V c).owesAt () t.succ
    ∗ (dat15 V c).leavesExact 0 t
    ∗ (dat15 V c).leavesExact 1 t
    ∗ (dat15 V c).leavesExact 2 t)

set_option maxHeartbeats 4800000 in
/-- The body at any point. The inputs' memrefs hold their blocks; the closed forms say which case the point is in;
    the invariant hands the body the accumulator — at anything at the first point, at what the point before left
    afterwards —, every other scoped buffer and the generator register riding along unread, and takes the
    accumulator back at this point's contents; the output's buffer is handed back untouched except at the last
    point, where it is left at the whole sum; the core owes nothing throughout. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1]
  rw [show (dat15 V c).owesAt () t.succ = (dat15 V c).owesAt () t.castSucc from rfl]
  rw [show (dat15 V c).Φ t.succ = PhiS15 V c (t.val + 1) t.isLt from rfl, PhiS15_succ]
  have hN : t.val < 16 := lt_of_lt_of_eq t.isLt (show cfg15.N = 16 from N_15)
  rw [show (dat15 V c).leavesExact 0 t = owns (c : Thread nD τ) (ms15_0 t) fullShare ((dat15 V c).after 0 t) from by
    unfold Dat.leavesExact; rw [liveAt15_0 t], after15_0]
  rw [show (dat15 V c).leavesExact 1 t = owns (c : Thread nD τ) (ms15_1 t) fullShare ((dat15 V c).after 1 t) from by
    unfold Dat.leavesExact; rw [liveAt15_1 t], after15_1]
  by_cases h0 : t.val % 16 = 0
  · have h1 : ¬t.val % 16 = 15 := by omega
    have hz : t.val = 0 := by omega
    rw [Dat.leavesExact_idle (dat15 V c) 2 t (idleAt15_2 t (fun h => h1 ((hcond15_1 t).mp h))) (noFlush15_2 t (fun h => h1 ((hcond15_1 t).mp h)))]
    rw [outsAt15_A V c t h0 h1]
    unfold sout15_A_0; (try dsimp only)
    rw [PhiS15_castSucc V c t, PhiS15_zero V c _ _ hz, PhiA15_eq]
    iintro ⟨⟨⟨HS0, Hrest⟩, Hg⟩, Ho, ⟨%d0, H0⟩, ⟨%d1, H1⟩, ⟨%d2, H2⟩⟩
    iapply ((kernelRun15_A c (grid15.coords t) _ _ _ _ _ _ _ _ ((hcond15_0 t).mpr h0) (fun h => h1 ((hcond15_1 t).mp h)) (iblk15 V c 0 t) (iblk15 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover15_A_0 c _ _ _ _ _ _ _ _ _ _ _ _ _)
        iexact Hrest
      iexact Hg
    isplitl [Ho]; · iexact Ho
    isplitl [H0]; · iexact H0
    isplitl [H1]; · iexact H1
    iexists _; iexact H2
  · have hz : t.val ≠ 0 := by omega
    by_cases h1 : t.val % 16 = 15
    · rw [show (dat15 V c).leavesExact 2 t = owns (c : Thread nD τ) (ms15_2 t) fullShare ((dat15 V c).after 2 t) from by
        unfold Dat.leavesExact; rw [liveAt15_2 t ((hcond15_1 t).mpr h1)], after15_2]
      rw [outsAt15_C V c t h0 h1]
      unfold out15_C_2 sout15_C_0; (try dsimp only)
      rw [PhiS15_castSucc V c t, PhiS15_pos V c _ _ hz]
      iintro ⟨⟨⟨HS0, Hrest⟩, Hg⟩, Ho, ⟨%d0, H0⟩, ⟨%d1, H1⟩, ⟨%d2, H2⟩⟩
      iapply ((kernelRun15_C c (grid15.coords t) _ _ _ _ _ _ _ _ (fun h => h0 ((hcond15_0 t).mp h)) ((hcond15_1 t).mpr h1) (iblk15 V c 0 t) (iblk15 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover15_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover15_C_2 c _ _ _ _ _ _ _ _ _ _ _ _ _ _)
    · rw [Dat.leavesExact_idle (dat15 V c) 2 t (idleAt15_2 t (fun h => h1 ((hcond15_1 t).mp h))) (noFlush15_2 t (fun h => h1 ((hcond15_1 t).mp h)))]
      rw [outsAt15_B V c t h0 h1]
      unfold sout15_B_0; (try dsimp only)
      rw [PhiS15_castSucc V c t, PhiS15_pos V c _ _ hz]
      iintro ⟨⟨⟨HS0, Hrest⟩, Hg⟩, Ho, ⟨%d0, H0⟩, ⟨%d1, H1⟩, ⟨%d2, H2⟩⟩
      iapply ((kernelRun15_B c (grid15.coords t) _ _ _ _ _ _ _ _ (fun h => h0 ((hcond15_0 t).mp h)) (fun h => h1 ((hcond15_1 t).mp h)) (iblk15 V c 0 t) (iblk15 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover15_B_0 c _ _ _ _ _ _ _ _ _ _ _ _ _ _)
          iexact Hrest
        iexact Hg
      isplitl [Ho]; · iexact Ho
      isplitl [H0]; · iexact H0
      isplitl [H1]; · iexact H1
      iexists _; iexact H2

/-- The body obligation, at every point. -/
theorem body_obligation15 (c : Dev nD) : BodyObligation (dat15 (F := F) V c) (defs₀ (F := F)) Variants.none () Set.univ := fun t => by
  rw [bigSep_W15, bigSep_W15]
  exact sound_body15 V c t

/-! ## Into the invariant and out of it -/

/-- What the launch hands the region — the generator register, no prefetched table, the scoped buffers no window
    stages — is the invariant before the first point. -/
theorem hin15 (c : Dev nD) :
    iprop((∃ r, prngReg c r) ∗ Pipeline.prefHeld (pcfgs (F := F) 15).pre c (fun _ => fullShare) ((cfgs 15).toPCfg_adm).1 ∗ Pipeline.scopedRest spec15 c)
      ⊢ (dat15 V c).Φ 0 := by
  rw [show (dat15 V c).Φ 0 = PhiS15 V c 0 (Nat.zero_le _) from rfl, PhiS15_zero V c 0 _ rfl]; unfold Pipeline.ΦA
  iintro ⟨Hp, -, Hr⟩
  isplitl [Hr]; · iexact Hr
  iexact Hp

/-- After any point but the first the invariant gives the scoped buffers and the register back: the accumulator's
    named contents are forgotten. -/
theorem Phi_out15 (c : Dev nD) (t : Fin (cfg15.N + 1)) (ht : t.val ≠ 0) : (dat15 V c).Φ t ⊢ Pipeline.ΦA spec15 c := by
  rw [show (dat15 V c).Φ t = PhiS15 V c t.val (Nat.le_of_lt_succ t.isLt) from rfl, PhiS15_pos V c _ _ ht, PhiA15_eq]
  iintro ⟨⟨HS0, Hrest⟩, Hg⟩
  isplitl [HS0 Hrest]
  · isplitl [HS0]
    · iexists _; iexact HS0
    iexact Hrest
  iexact Hg

/-- The same after the last point, as the region hands it back: the register, no semaphore of the kernel's own, the
    scoped buffers. -/
theorem hout15 (c : Dev nD) :
    (dat15 V c).Φ (Fin.last cfg15.N)
      ⊢ iprop((∃ r, prngReg c r) ∗ Pipeline.ownSems0 (Ix := Unit) (Name := ℕ) (U := UR sig nD τ) (Lvl := ℕ) (Val := Elt F) (τ := τ) (fun k : PEmpty => k.elim) c ∗ Pipeline.scopedRest spec15 c) := by
  refine (Phi_out15 V c _ (by rw [Fin.val_last]; have : cfg15.N = 16 := N_15; omega)).trans ?_
  rw [Pipeline.ownSems0_none]; unfold Pipeline.ΦA
  iintro ⟨Hr, Hp⟩
  isplitl [Hp]; · iexact Hp
  isplitr; · iempintro
  iexact Hr

end Cert.KernelIdeal.Fr

end
-- ==== Proof.KI.Reg16.lean ====
import proofs.«126270_j6725918785969_1_alg».proof.Proof.Gen.KernelIdeal.Launch
import proofs.«126270_j6725918785969_1_alg».proof.Proof.Gen.KernelIdeal.Skeleton
import proofs.«126270_j6725918785969_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 16: a row-tiled matrix product

Two input windows and one output window. Window 0 cuts the left factor into blocks of rows (`S4096x128`);
window 1 is the whole right factor (`S128x128`), the same block at every grid point; window 2 is the block of
the result's rows (`S4096x128`). At a grid point the body loads both input blocks, multiplies them into a zero
accumulator and stores the result over the whole output block. Stated at a
parameter `V`, the buffer contents the region is entered from.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- The left factor's current staging buffer holds its block of rows at every point. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

/-- The right factor's staging buffer holds the whole factor at every point: fetched at the first point, its
    block index never moves afterwards. -/
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

/-- The rectangles the body reads and writes: each buffer whole. -/
abbrev r16_a : Rect S4096x128 := Rect.unit (s := S4096x128) ![0, 0] S4096x128.size inb_S4096x128_S4096x128_0_0
abbrev r16_b : Rect S128x128 := Rect.unit (s := S128x128) ![0, 0] S128x128.size inb_S128x128_S128x128_0_0

/-- The output buffer after the body: its one store, of the product of the two input blocks. -/
def out16_2 (x0 : Vec F S4096x128 .f32) (x1 : Vec F S128x128 .f32) : Vec F S4096x128 .f32 :=
  View.canon [⟨r16_a, k16_pay1 (View.ld x0 r16_a) (View.ld x1 r16_b)⟩]

/-- The store covers the buffer. -/
theorem cover16_2 (p0 : Vec F S4096x128 .f32) (y : S4096x128.Idx) :
    ∃ pc ∈ ([⟨r16_a, p0⟩] : List (View.Piece (Elt F) S4096x128 .f32)), y ∈ pc.1.set :=
  View.cover_of_tiled [⟨r16_a, p0⟩] S4096x128.size (by rfl) y

set_option maxHeartbeats 1000000 in
/-- The body on whole staging memrefs, the inputs' at contents `x0`, `x1` and the output's at anything, runs to the
    continuation with the inputs' as they were and the output's at `out16_2 x0 x1`. -/
theorem sound_kernel16 (c : Dev nD) (E : Set ℕ) (i : grid16.Coords) (arg0 : Memref sig .tc .vmem S4096x128 .f32) (harg0 : arg0.IsWhole) (arg1 : Memref sig .tc .vmem S128x128 .f32) (harg1 : arg1.IsWhole) (arg2 : Memref sig .tc .vmem S4096x128 .f32) (harg2 : arg2.IsWhole)
    (x0 : Vec F S4096x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out16_2 x0 x1)) -∗ K ⟨⟩))
      ⊢ wp frame (wpE (defs₀ (F := F)) Variants.none c none) E (cc16__mm_big_kernel i arg0 harg0 arg1 harg1 arg2 harg2) K := by
  simp only [cc16__mm_big_kernel_eq_skeleton]; unfold cc16__mm_big_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover16_2 _)

/-- The pipeline's proof data on core `c`: the arrays as the region finds them; after the body at point `t` each
    input's buffer at its block and the output's at `out16_2` of them; the invariant the scoped rest and the
    generator register, untouched; nothing owed; full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => out16_2 (iblk16 V c 0 t) (iblk16 V c 1 t)
  Φ _ := Pipeline.ΦA spec16 c
  q _ := fullShare
  owed _ := 0

theorem A_eq16 (c : Dev nD) (w : Fin cfg16.W) : (dat16 V c).A w = V c (Pipeline.arrRef spec16 w) := by
  dsimp only [dat16]

theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = out16_2 (iblk16 V c 0 t) (iblk16 V c 1 t) := by dsimp only [dat16]

theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d

/-- What the body is called with at point `t`, -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d)))

/-- and what it returns. -/
def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t))

/-- The body at any point: the inputs' memrefs hold their blocks, so the body's triple applies; the invariant
    and the core's dues pass through unread. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1]
  rw [show (dat16 V c).Φ t.succ = (dat16 V c).Φ t.castSucc from rfl,
    show (dat16 V c).owesAt () t.succ = (dat16 V c).owesAt () t.castSucc from rfl,
    after16_0, after16_1, after16_2]
  iintro ⟨HΦ, Ho, ⟨%d0, H0⟩, ⟨%d1, H1⟩, ⟨%d2, H2⟩⟩
  iapply (sound_kernel16 c Set.univ _ _ _ _ _ _ _ (iblk16 V c 0 t) (iblk16 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation16 (c : Dev nD) : BodyObligation (dat16 (F := F) V c) (defs₀ (F := F)) Variants.none () Set.univ := fun t => by
  rw [bigSep_W16, bigSep_W16]
  exact sound_body16 V c t

end Cert.KernelIdeal.Fr

end
-- ==== Proof.KI.Reg17.lean ====
import proofs.«126270_j6725918785969_1_alg».proof.Proof.Gen.KernelIdeal.Launch
import proofs.«126270_j6725918785969_1_alg».proof.Proof.Gen.KernelIdeal.Skeleton
import proofs.«126270_j6725918785969_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 17: the row sums of `exp (x · yᵀ)` reduced over sixteen blocks of columns

Two input windows — the 4096 × 128 left factor whole, its block index never moving, and the right factor cut into
sixteen blocks of 256 rows — and one 4096 × 1 output window whose block index never moves. The kernel keeps a
4096 × 1 accumulator in a scratch buffer of its own: at the first grid point it zeroes it, at every point it adds,
row by row, the sum over the block's 256 columns of `exp (p / 1)`, where `p` is the product of the left factor and
the transposed right block (both rounded to bf16 before the product) and the division by the constant one is
entry by entry, and at the last point only it copies the accumulator into the output's staging buffer, which is
written back there and nowhere else. So the body has three control cases — first point, middle point, last
point —, the accumulator's contents are carried from point to point by the region invariant, and the output
window is idle everywhere but at the last point. Stated at a parameter `V`, the buffer contents the region is
entered from.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, decided over the grid -/

/-- The condition of the body's first conditional: the reduction coordinate is zero. -/
abbrev cond17_0 (i : grid17.Coords) : Prop := (Scalar.cmpi .ne (Scalar.extui (Scalar.cmpi .eq (BitVec.ofNat 32 (i 0).val) 0#32)) 0#32) = 1#1
/-- It holds at the first point only. -/
theorem hcond17_0 : ∀ t : Fin cfg17.N, cond17_0 (grid17.coords t) ↔ t.val % 16 = 0 :=
  (by decide +kernel : ∀ t : Fin grid17.N, cond17_0 (grid17.coords t) ↔ t.val % 16 = 0)

/-- The condition of the body's second conditional: the reduction coordinate is the last. -/
abbrev cond17_1 (i : grid17.Coords) : Prop := k17_cond2 i = 1#1
/-- It holds at the last point only. -/
theorem hcond17_1 : ∀ t : Fin cfg17.N, cond17_1 (grid17.coords t) ↔ t.val % 16 = 15 :=
  (by decide +kernel : ∀ t : Fin grid17.N, cond17_1 (grid17.coords t) ↔ t.val % 16 = 15)

/-! ## Where the windows are idle -/

/-- The two inputs are never idle. -/
theorem liveAt17_0 : ∀ t : Fin cfg17.N, cfg17.idle 0 (grid17.coords t) = false := by decide +kernel
theorem liveAt17_1 : ∀ t : Fin cfg17.N, cfg17.idle 1 (grid17.coords t) = false := by decide +kernel
/-- Where the second condition fails the output is idle and is not written back. -/
theorem idleAt17_2 : ∀ t : Fin cfg17.N, ¬cond17_1 (grid17.coords t) → cfg17.idle 2 (grid17.coords t) = true := by decide +kernel
theorem noFlush17_2 : ∀ t : Fin cfg17.N, ¬cond17_1 (grid17.coords t) → (cfg17.win 2).flush t = false := by decide +kernel
/-- Where it holds the output is live. -/
theorem liveAt17_2 : ∀ t : Fin cfg17.N, cond17_1 (grid17.coords t) → cfg17.idle 2 (grid17.coords t) = false := by decide +kernel

/-! ## The memrefs the body is called with -/

/-- One staging buffer of the output window, through which its contents are stated. -/
abbrev VO17_2 : View sig .tc .vmem S4096x1 .f32 := (Memref.whole cc17_stg2_0 : Memref sig .tc .vmem S4096x1 .f32).view
/-- Each window's current staging memref at point `t`, and its wholeness. -/
abbrev ms17_0 (t : Fin cfg17.N) : Memref sig .tc .vmem S4096x128 .f32 := win17_0.stage (cfg17.slots t 0)
abbrev hs17_0 (t : Fin cfg17.N) : (ms17_0 t).IsWhole := hstage17_0 ((cfg17.slots t 0).cast nbuf17_0)
abbrev ms17_1 (t : Fin cfg17.N) : Memref sig .tc .vmem S256x128 .f32 := win17_1.stage (cfg17.slots t 1)
abbrev hs17_1 (t : Fin cfg17.N) : (ms17_1 t).IsWhole := hstage17_1 ((cfg17.slots t 1).cast nbuf17_1)
abbrev ms17_2 (t : Fin cfg17.N) : Memref sig .tc .vmem S4096x1 .f32 := win17_2.stage (cfg17.slots t 2)
abbrev hs17_2 (t : Fin cfg17.N) : (ms17_2 t).IsWhole := hstage17_2 ((cfg17.slots t 2).cast nbuf17_2)
/-- The accumulator: a whole scoped buffer of the kernel's own, passed beside the windows. -/
abbrev scM17_0 : Memref sig .tc .vmem S4096x1 .f32 := Memref.whole cc17_scratch0
/-- The accumulator as a view: what it holds is stated through it. -/
abbrev VS17_0 : View sig .tc .vmem S4096x1 .f32 := scM17_0.view

/-- The region invariant of a body that need not describe its scratch, with the accumulator as a memref owned at
    some contents and every other scoped buffer unopened. -/
theorem PhiA17_eq (c : Dev nD) :
    (Pipeline.ΦA spec17 c : sProp 𝕄)
      = iprop(iprop(iprop((∃ d, owns (c : Thread nD τ) scM17_0 fullShare d))
          ∗ Pipeline.scopedRestBut (Ix := Unit) (Name := ℕ) (U := UR sig nD τ) (Lvl := ℕ) (Val := Elt F) spec17 c [cc17_scratch0]) ∗ (∃ r, prngReg c r)) := by
  unfold Pipeline.ΦA; rw [scopedRest17_split]; simp only [scM17_0, owns_whole]; try rfl

set_option maxHeartbeats 1000000 in
/-- THE FIRST POINT (the first conditional taken, the second not). On whole memrefs — the inputs' at their contents,
    the output's at contents handed back untouched, the accumulator at anything — the body runs to the continuation
    holding the inputs' and the output's as they were and the accumulator with its stores' pieces written (last
    first): zero, then zero plus the row sums of the exponentials of the two blocks' product. The pieces are what the run finds. -/
noncomputable def kernelRun17_A (c : Dev nD) (i : grid17.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : cond17_0 i) (hc1 : ¬cond17_1 i)
    (x0 : Vec F S4096x128 .f32) (x1 : Vec F S256x128 .f32) :
    Σ' (L2 : List (View.Piece (Elt F) S4096x1 .f32)), { LS0 : List (View.Piece (Elt F) S4096x1 .f32) //
      ∀ (xi2 : Vec F S4096x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc17__ssl_neg_kernel i arg1 harg1 arg2 harg2 arg3 harg3 arg4 harg4) K } := by
  refine ⟨[], ?_, fun xi2 E K => ?run⟩
  case run =>
    simp only [cc17__ssl_neg_kernel_eq_skeleton]; unfold cc17__ssl_neg_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A MIDDLE POINT (neither conditional taken). The accumulator comes in at the contents `xs0` the point before left
    and goes out with one piece written: `xs0` plus the row sums of the exponentials of the two blocks' product. The output is handed back untouched. -/
noncomputable def kernelRun17_B (c : Dev nD) (i : grid17.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond17_0 i) (hc1 : ¬cond17_1 i)
    (x0 : Vec F S4096x128 .f32) (x1 : Vec F S256x128 .f32) (xs0 : Vec F S4096x1 .f32) :
    Σ' (L2 : List (View.Piece (Elt F) S4096x1 .f32)), { LS0 : List (View.Piece (Elt F) S4096x1 .f32) //
      ∀ (xi2 : Vec F S4096x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc17__ssl_neg_kernel i arg1 harg1 arg2 harg2 arg3 harg3 arg4 harg4) K } := by
  refine ⟨[], ?_, fun xi2 E K => ?run⟩
  case run =>
    simp only [cc17__ssl_neg_kernel_eq_skeleton]; unfold cc17__ssl_neg_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- THE LAST POINT (the first conditional not taken, the second taken). The accumulator comes in at `xs0`, goes out
    with `xs0` plus the row sums written, and the output, at anything before, goes out with one piece written: the
    accumulator's final contents. -/
noncomputable def kernelRun17_C (c : Dev nD) (i : grid17.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond17_0 i) (hc1 : cond17_1 i)
    (x0 : Vec F S4096x128 .f32) (x1 : Vec F S256x128 .f32) (xs0 : Vec F S4096x1 .f32) :
    Σ' (L2 : List (View.Piece (Elt F) S4096x1 .f32)), { LS0 : List (View.Piece (Elt F) S4096x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc17__ssl_neg_kernel i arg1 harg1 arg2 harg2 arg3 harg3 arg4 harg4) K } := by
  refine ⟨?_, ?_, fun E K => ?run⟩
  case run =>
    simp only [cc17__ssl_neg_kernel_eq_skeleton]; unfold cc17__ssl_neg_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

variable (V : (c : Dev nD) → (b : Ref sig .tc) → Buf (Elt F) ((c : Thread nD τ).loc b))

/-! ## The windows' blocks -/

/-- Window `w`'s block at point `t`, read off its array as the region finds it. -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- Each input's current staging buffer holds its block at every point, fetched there or not. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

/-! ## What each case leaves in the output's buffer and in the accumulator -/

/-- The first point's stores cover the accumulator. -/
theorem scover17_A_0 (c : Dev nD) (i : grid17.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : cond17_0 i) (hc1 : ¬cond17_1 i)
    (x0 : Vec F S4096x128 .f32) (x1 : Vec F S256x128 .f32) (y : S4096x1.Idx) :
    ∃ pc ∈ (kernelRun17_A c i arg1 harg1 arg2 harg2 arg3 harg3 arg4 harg4 hc0 hc1 x0 x1).2.1, y ∈ pc.1.set :=
  View.cover_of_tiledL (kernelRun17_A c i arg1 harg1 arg2 harg2 arg3 harg3 arg4 harg4 hc0 hc1 x0 x1).2.1 S4096x1.size (by sl_kernel_rfl) y

/-- What the first point leaves in the accumulator: its pieces read back. -/
def sout17_A_0 (c : Dev nD) (i : grid17.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : cond17_0 i) (hc1 : ¬cond17_1 i)
    (x0 : Vec F S4096x128 .f32) (x1 : Vec F S256x128 .f32) : Vec F S4096x1 .f32 :=
  VS17_0.read (Elt F) (VS17_0.writes (Elt F) VS17_0.junk (kernelRun17_A c i arg1 harg1 arg2 harg2 arg3 harg3 arg4 harg4 hc0 hc1 x0 x1).2.1)

/-- A middle point's store covers the accumulator. -/
theorem scover17_B_0 (c : Dev nD) (i : grid17.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond17_0 i) (hc1 : ¬cond17_1 i)
    (x0 : Vec F S4096x128 .f32) (x1 : Vec F S256x128 .f32) (xs0 : Vec F S4096x1 .f32) (y : S4096x1.Idx) :
    ∃ pc ∈ (kernelRun17_B c i arg1 harg1 arg2 harg2 arg3 harg3 arg4 harg4 hc0 hc1 x0 x1 xs0).2.1, y ∈ pc.1.set :=
  View.cover_of_tiledL (kernelRun17_B c i arg1 harg1 arg2 harg2 arg3 harg3 arg4 harg4 hc0 hc1 x0 x1 xs0).2.1 S4096x1.size (by sl_kernel_rfl) y

/-- What a middle point leaves in the accumulator. -/
def sout17_B_0 (c : Dev nD) (i : grid17.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond17_0 i) (hc1 : ¬cond17_1 i)
    (x0 : Vec F S4096x128 .f32) (x1 : Vec F S256x128 .f32) (xs0 : Vec F S4096x1 .f32) : Vec F S4096x1 .f32 :=
  VS17_0.read (Elt F) (VS17_0.writes (Elt F) VS17_0.junk (kernelRun17_B c i arg1 harg1 arg2 harg2 arg3 harg3 arg4 harg4 hc0 hc1 x0 x1 xs0).2.1)

/-- The last point's store covers the output's buffer. -/
theorem cover17_C_2 (c : Dev nD) (i : grid17.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond17_0 i) (hc1 : cond17_1 i)
    (x0 : Vec F S4096x128 .f32) (x1 : Vec F S256x128 .f32) (xs0 : Vec F S4096x1 .f32) (y : S4096x1.Idx) :
    ∃ pc ∈ (kernelRun17_C c i arg1 harg1 arg2 harg2 arg3 harg3 arg4 harg4 hc0 hc1 x0 x1 xs0).1, y ∈ pc.1.set :=
  View.cover_of_tiledL (kernelRun17_C c i arg1 harg1 arg2 harg2 arg3 harg3 arg4 harg4 hc0 hc1 x0 x1 xs0).1 S4096x1.size (by sl_kernel_rfl) y

/-- What the last point leaves in the output's buffer. -/
def out17_C_2 (c : Dev nD) (i : grid17.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond17_0 i) (hc1 : cond17_1 i)
    (x0 : Vec F S4096x128 .f32) (x1 : Vec F S256x128 .f32) (xs0 : Vec F S4096x1 .f32) : Vec F S4096x1 .f32 :=
  VO17_2.read (Elt F) (VO17_2.writes (Elt F) VO17_2.junk (kernelRun17_C c i arg1 harg1 arg2 harg2 arg3 harg3 arg4 harg4 hc0 hc1 x0 x1 xs0).1)

/-- The last point's store covers the accumulator. -/
theorem scover17_C_0 (c : Dev nD) (i : grid17.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond17_0 i) (hc1 : cond17_1 i)
    (x0 : Vec F S4096x128 .f32) (x1 : Vec F S256x128 .f32) (xs0 : Vec F S4096x1 .f32) (y : S4096x1.Idx) :
    ∃ pc ∈ (kernelRun17_C c i arg1 harg1 arg2 harg2 arg3 harg3 arg4 harg4 hc0 hc1 x0 x1 xs0).2.1, y ∈ pc.1.set :=
  View.cover_of_tiledL (kernelRun17_C c i arg1 harg1 arg2 harg2 arg3 harg3 arg4 harg4 hc0 hc1 x0 x1 xs0).2.1 S4096x1.size (by sl_kernel_rfl) y

/-- What the last point leaves in the accumulator. -/
def sout17_C_0 (c : Dev nD) (i : grid17.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond17_0 i) (hc1 : cond17_1 i)
    (x0 : Vec F S4096x128 .f32) (x1 : Vec F S256x128 .f32) (xs0 : Vec F S4096x1 .f32) : Vec F S4096x1 .f32 :=
  VS17_0.read (Elt F) (VS17_0.writes (Elt F) VS17_0.junk (kernelRun17_C c i arg1 harg1 arg2 harg2 arg3 harg3 arg4 harg4 hc0 hc1 x0 x1 xs0).2.1)

/-! ## What the output's buffer and the accumulator hold after each point -/

/-- The output's buffer at a point that stores nothing into it: a placeholder nothing consults, the window being
    neither written back there nor read at the next point. -/
def idle17_2 : Vec F S4096x1 .f32 := VO17_2.read (Elt F) VO17_2.junk

/-- THE ACCUMULATION. What the output's staging buffer and the accumulator hold after the body at position `n`: the
    case the closed forms select at `n`, run at the point's memrefs and input blocks, the accumulator coming in at
    what position `n - 1` left in it. After the first point the accumulator is zero plus the first block's row sums;
    after a later point what it held plus that point's row sums; after the last point the output's buffer holds
    the whole sum. -/
def outsAt17 (c : Dev nD) : (n : ℕ) → n < cfg17.N → Vec F S4096x1 .f32 × Vec F S4096x1 .f32
  | 0, hn => (idle17_2, sout17_A_0 c (grid17.coords ⟨0, hn⟩) (ms17_0 ⟨0, hn⟩) (hs17_0 ⟨0, hn⟩) (ms17_1 ⟨0, hn⟩) (hs17_1 ⟨0, hn⟩) (ms17_2 ⟨0, hn⟩) (hs17_2 ⟨0, hn⟩) scM17_0 (Memref.isWhole_whole _) ((hcond17_0 ⟨0, hn⟩).mpr (Nat.zero_mod _)) (fun h => (fun h => by (try dsimp only at h); omega) ((hcond17_1 ⟨0, hn⟩).mp h)) (iblk17 V c 0 ⟨0, hn⟩) (iblk17 V c 1 ⟨0, hn⟩))
  | n + 1, hn =>
    if h0 : (n + 1) % 16 = 0 then
      if h1 : (n + 1) % 16 = 15 then
        False.elim (by omega)
      else
        (idle17_2, sout17_A_0 c (grid17.coords ⟨n + 1, hn⟩) (ms17_0 ⟨n + 1, hn⟩) (hs17_0 ⟨n + 1, hn⟩) (ms17_1 ⟨n + 1, hn⟩) (hs17_1 ⟨n + 1, hn⟩) (ms17_2 ⟨n + 1, hn⟩) (hs17_2 ⟨n + 1, hn⟩) scM17_0 (Memref.isWhole_whole _) ((hcond17_0 ⟨n + 1, hn⟩).mpr h0) (fun h => h1 ((hcond17_1 ⟨n + 1, hn⟩).mp h)) (iblk17 V c 0 ⟨n + 1, hn⟩) (iblk17 V c 1 ⟨n + 1, hn⟩))
    else
      if h1 : (n + 1) % 16 = 15 then
        (out17_C_2 c (grid17.coords ⟨n + 1, hn⟩) (ms17_0 ⟨n + 1, hn⟩) (hs17_0 ⟨n + 1, hn⟩) (ms17_1 ⟨n + 1, hn⟩) (hs17_1 ⟨n + 1, hn⟩) (ms17_2 ⟨n + 1, hn⟩) (hs17_2 ⟨n + 1, hn⟩) scM17_0 (Memref.isWhole_whole _) (fun h => h0 ((hcond17_0 ⟨n + 1, hn⟩).mp h)) ((hcond17_1 ⟨n + 1, hn⟩).mpr h1) (iblk17 V c 0 ⟨n + 1, hn⟩) (iblk17 V c 1 ⟨n + 1, hn⟩) (outsAt17 c n (Nat.lt_of_succ_lt hn)).2,
         sout17_C_0 c (grid17.coords ⟨n + 1, hn⟩) (ms17_0 ⟨n + 1, hn⟩) (hs17_0 ⟨n + 1, hn⟩) (ms17_1 ⟨n + 1, hn⟩) (hs17_1 ⟨n + 1, hn⟩) (ms17_2 ⟨n + 1, hn⟩) (hs17_2 ⟨n + 1, hn⟩) scM17_0 (Memref.isWhole_whole _) (fun h => h0 ((hcond17_0 ⟨n + 1, hn⟩).mp h)) ((hcond17_1 ⟨n + 1, hn⟩).mpr h1) (iblk17 V c 0 ⟨n + 1, hn⟩) (iblk17 V c 1 ⟨n + 1, hn⟩) (outsAt17 c n (Nat.lt_of_succ_lt hn)).2)
      else
        (idle17_2, sout17_B_0 c (grid17.coords ⟨n + 1, hn⟩) (ms17_0 ⟨n + 1, hn⟩) (hs17_0 ⟨n + 1, hn⟩) (ms17_1 ⟨n + 1, hn⟩) (hs17_1 ⟨n + 1, hn⟩) (ms17_2 ⟨n + 1, hn⟩) (hs17_2 ⟨n + 1, hn⟩) scM17_0 (Memref.isWhole_whole _) (fun h => h0 ((hcond17_0 ⟨n + 1, hn⟩).mp h)) (fun h => h1 ((hcond17_1 ⟨n + 1, hn⟩).mp h)) (iblk17 V c 0 ⟨n + 1, hn⟩) (iblk17 V c 1 ⟨n + 1, hn⟩) (outsAt17 c n (Nat.lt_of_succ_lt hn)).2)

/-- `outsAt17` at the first point. -/
theorem outsAt17_A (c : Dev nD) (t : Fin cfg17.N) (h0 : t.val % 16 = 0) (h1 : ¬t.val % 16 = 15) :
    outsAt17 V c t.val t.isLt = (idle17_2, sout17_A_0 c (grid17.coords t) (ms17_0 t) (hs17_0 t) (ms17_1 t) (hs17_1 t) (ms17_2 t) (hs17_2 t) scM17_0 (Memref.isWhole_whole _) ((hcond17_0 t).mpr h0) (fun h => h1 ((hcond17_1 t).mp h)) (iblk17 V c 0 t) (iblk17 V c 1 t)) := by
  obtain ⟨n, hn⟩ := t
  cases n with
  | zero => exact rfl
  | succ n => exact (dif_pos h0).trans ((dif_neg h1).trans rfl)

/-- `outsAt17` at a middle point: over what the point before left. -/
theorem outsAt17_B (c : Dev nD) (t : Fin cfg17.N) (h0 : ¬t.val % 16 = 0) (h1 : ¬t.val % 16 = 15) :
    outsAt17 V c t.val t.isLt = (idle17_2, sout17_B_0 c (grid17.coords t) (ms17_0 t) (hs17_0 t) (ms17_1 t) (hs17_1 t) (ms17_2 t) (hs17_2 t) scM17_0 (Memref.isWhole_whole _) (fun h => h0 ((hcond17_0 t).mp h)) (fun h => h1 ((hcond17_1 t).mp h)) (iblk17 V c 0 t) (iblk17 V c 1 t) (outsAt17 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt17` at the last point: over what the point before left. -/
theorem outsAt17_C (c : Dev nD) (t : Fin cfg17.N) (h0 : ¬t.val % 16 = 0) (h1 : t.val % 16 = 15) :
    outsAt17 V c t.val t.isLt = (out17_C_2 c (grid17.coords t) (ms17_0 t) (hs17_0 t) (ms17_1 t) (hs17_1 t) (ms17_2 t) (hs17_2 t) scM17_0 (Memref.isWhole_whole _) (fun h => h0 ((hcond17_0 t).mp h)) ((hcond17_1 t).mpr h1) (iblk17 V c 0 t) (iblk17 V c 1 t) (outsAt17 V c (t.val - 1) (Nat.lt_of_le_of_lt (Nat.sub_le _ _) t.isLt)).2,
      sout17_C_0 c (grid17.coords t) (ms17_0 t) (hs17_0 t) (ms17_1 t) (hs17_1 t) (ms17_2 t) (hs17_2 t) scM17_0 (Memref.isWhole_whole _) (fun h => h0 ((hcond17_0 t).mp h)) ((hcond17_1 t).mpr h1) (iblk17 V c 0 t) (iblk17 V c 1 t) (outsAt17 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point every scoped buffer that is no staging buffer at
    anything, and the generator register at some state; afterwards the accumulator at what the point before left in
    it (`outsAt17`'s second component), every other such buffer unopened, and the register. -/
def PhiS17 (c : Dev nD) : (n : ℕ) → n ≤ cfg17.N → sProp 𝕄
  | 0, _ => Pipeline.ΦA spec17 c
  | n + 1, hn => iprop(iprop(iprop(owns (c : Thread nD τ) scM17_0 fullShare ((outsAt17 V c n hn).2)) ∗ Pipeline.scopedRestBut (Ix := Unit) (Name := ℕ) (U := UR sig nD τ) (Lvl := ℕ) (Val := Elt F) spec17 c [cc17_scratch0]) ∗ (∃ r, prngReg c r))

theorem PhiS17_zero (c : Dev nD) (n : ℕ) (h : n ≤ cfg17.N) (hz : n = 0) : PhiS17 V c n h = Pipeline.ΦA spec17 c := by
  subst hz; rfl

theorem PhiS17_succ (c : Dev nD) (n : ℕ) (hn : n < cfg17.N) :
    PhiS17 V c (n + 1) hn = iprop(iprop(iprop(owns (c : Thread nD τ) scM17_0 fullShare ((outsAt17 V c n hn).2)) ∗ Pipeline.scopedRestBut (Ix := Unit) (Name := ℕ) (U := UR sig nD τ) (Lvl := ℕ) (Val := Elt F) spec17 c [cc17_scratch0]) ∗ (∃ r, prngReg c r)) := rfl

theorem PhiS17_pos (c : Dev nD) (n : ℕ) (h : n ≤ cfg17.N) (hz : n ≠ 0) :
    PhiS17 V c n h = iprop(iprop(iprop(owns (c : Thread nD τ) scM17_0 fullShare ((outsAt17 V c (n - 1) (by omega)).2)) ∗ Pipeline.scopedRestBut (Ix := Unit) (Name := ℕ) (U := UR sig nD τ) (Lvl := ℕ) (Val := Elt F) spec17 c [cc17_scratch0]) ∗ (∃ r, prngReg c r)) := by
  cases n with
  | zero => exact absurd rfl hz
  | succ n => rfl

/-! ## The pipeline's proof data -/

/-- The proof data on core `c`: the arrays as the region finds them; after the body at point `t` each input's
    buffer at its block and the output's at `outsAt17`'s first component; the invariant `PhiS17`; nothing owed; full
    shares. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => (outsAt17 V c t.val t.isLt).1
  Φ t := PhiS17 V c t.val (Nat.le_of_lt_succ t.isLt)
  q _ := fullShare
  owed _ := 0

theorem A_eq17 (c : Dev nD) (w : Fin cfg17.W) : (dat17 V c).A w = V c (Pipeline.arrRef spec17 w) := by
  dsimp only [dat17]

theorem PhiS17_castSucc (c : Dev nD) (t : Fin cfg17.N) :
    (dat17 V c).Φ t.castSucc = PhiS17 V c t.val (Nat.le_of_lt t.isLt) := by
  dsimp only [dat17]; simp only [Fin.coe_castSucc]

theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = (outsAt17 V c t.val t.isLt).1 := by dsimp only [dat17]

theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d

/-! ## The body obligation -/

/-- What the body is called with at point `t`, -/
def bodyPre17 (c : Dev nD) (t : Fin cfg17.N) : sProp 𝕄 :=
  iprop((dat17 V c).Φ t.castSucc ∗ (dat17 V c).owesAt () t.castSucc
    ∗ (∃ d, owns (c : Thread nD τ) (ms17_0 t) fullShare ((dat17 V c).before 0 t d))
    ∗ (∃ d, owns (c : Thread nD τ) (ms17_1 t) fullShare ((dat17 V c).before 1 t d))
    ∗ (∃ d, owns (c : Thread nD τ) (ms17_2 t) fullShare ((dat17 V c).before 2 t d)))

/-- and what it returns. -/
def bodyPost17 (c : Dev nD) (t : Fin cfg17.N) : sProp 𝕄 :=
  iprop((dat17 V c).Φ t.succ ∗ (dat17 V c).owesAt () t.succ
    ∗ (dat17 V c).leavesExact 0 t
    ∗ (dat17 V c).leavesExact 1 t
    ∗ (dat17 V c).leavesExact 2 t)

set_option maxHeartbeats 4800000 in
/-- The body at any point. The inputs' memrefs hold their blocks; the closed forms say which case the point is in;
    the invariant hands the body the accumulator — at anything at the first point, at what the point before left
    afterwards —, every other scoped buffer and the generator register riding along unread, and takes the
    accumulator back at this point's contents; the output's buffer is handed back untouched except at the last
    point, where it is left at the whole sum; the core owes nothing throughout. -/
theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1]
  rw [show (dat17 V c).owesAt () t.succ = (dat17 V c).owesAt () t.castSucc from rfl]
  rw [show (dat17 V c).Φ t.succ = PhiS17 V c (t.val + 1) t.isLt from rfl, PhiS17_succ]
  have hN : t.val < 16 := lt_of_lt_of_eq t.isLt (show cfg17.N = 16 from N_17)
  rw [show (dat17 V c).leavesExact 0 t = owns (c : Thread nD τ) (ms17_0 t) fullShare ((dat17 V c).after 0 t) from by
    unfold Dat.leavesExact; rw [liveAt17_0 t], after17_0]
  rw [show (dat17 V c).leavesExact 1 t = owns (c : Thread nD τ) (ms17_1 t) fullShare ((dat17 V c).after 1 t) from by
    unfold Dat.leavesExact; rw [liveAt17_1 t], after17_1]
  by_cases h0 : t.val % 16 = 0
  · have h1 : ¬t.val % 16 = 15 := by omega
    have hz : t.val = 0 := by omega
    rw [Dat.leavesExact_idle (dat17 V c) 2 t (idleAt17_2 t (fun h => h1 ((hcond17_1 t).mp h))) (noFlush17_2 t (fun h => h1 ((hcond17_1 t).mp h)))]
    rw [outsAt17_A V c t h0 h1]
    unfold sout17_A_0; (try dsimp only)
    rw [PhiS17_castSucc V c t, PhiS17_zero V c _ _ hz, PhiA17_eq]
    iintro ⟨⟨⟨HS0, Hrest⟩, Hg⟩, Ho, ⟨%d0, H0⟩, ⟨%d1, H1⟩, ⟨%d2, H2⟩⟩
    iapply ((kernelRun17_A c (grid17.coords t) _ _ _ _ _ _ _ _ ((hcond17_0 t).mpr h0) (fun h => h1 ((hcond17_1 t).mp h)) (iblk17 V c 0 t) (iblk17 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover17_A_0 c _ _ _ _ _ _ _ _ _ _ _ _ _)
        iexact Hrest
      iexact Hg
    isplitl [Ho]; · iexact Ho
    isplitl [H0]; · iexact H0
    isplitl [H1]; · iexact H1
    iexists _; iexact H2
  · have hz : t.val ≠ 0 := by omega
    by_cases h1 : t.val % 16 = 15
    · rw [show (dat17 V c).leavesExact 2 t = owns (c : Thread nD τ) (ms17_2 t) fullShare ((dat17 V c).after 2 t) from by
        unfold Dat.leavesExact; rw [liveAt17_2 t ((hcond17_1 t).mpr h1)], after17_2]
      rw [outsAt17_C V c t h0 h1]
      unfold out17_C_2 sout17_C_0; (try dsimp only)
      rw [PhiS17_castSucc V c t, PhiS17_pos V c _ _ hz]
      iintro ⟨⟨⟨HS0, Hrest⟩, Hg⟩, Ho, ⟨%d0, H0⟩, ⟨%d1, H1⟩, ⟨%d2, H2⟩⟩
      iapply ((kernelRun17_C c (grid17.coords t) _ _ _ _ _ _ _ _ (fun h => h0 ((hcond17_0 t).mp h)) ((hcond17_1 t).mpr h1) (iblk17 V c 0 t) (iblk17 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover17_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover17_C_2 c _ _ _ _ _ _ _ _ _ _ _ _ _ _)
    · rw [Dat.leavesExact_idle (dat17 V c) 2 t (idleAt17_2 t (fun h => h1 ((hcond17_1 t).mp h))) (noFlush17_2 t (fun h => h1 ((hcond17_1 t).mp h)))]
      rw [outsAt17_B V c t h0 h1]
      unfold sout17_B_0; (try dsimp only)
      rw [PhiS17_castSucc V c t, PhiS17_pos V c _ _ hz]
      iintro ⟨⟨⟨HS0, Hrest⟩, Hg⟩, Ho, ⟨%d0, H0⟩, ⟨%d1, H1⟩, ⟨%d2, H2⟩⟩
      iapply ((kernelRun17_B c (grid17.coords t) _ _ _ _ _ _ _ _ (fun h => h0 ((hcond17_0 t).mp h)) (fun h => h1 ((hcond17_1 t).mp h)) (iblk17 V c 0 t) (iblk17 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover17_B_0 c _ _ _ _ _ _ _ _ _ _ _ _ _ _)
          iexact Hrest
        iexact Hg
      isplitl [Ho]; · iexact Ho
      isplitl [H0]; · iexact H0
      isplitl [H1]; · iexact H1
      iexists _; iexact H2

/-- The body obligation, at every point. -/
theorem body_obligation17 (c : Dev nD) : BodyObligation (dat17 (F := F) V c) (defs₀ (F := F)) Variants.none () Set.univ := fun t => by
  rw [bigSep_W17, bigSep_W17]
  exact sound_body17 V c t

/-! ## Into the invariant and out of it -/

/-- What the launch hands the region — the generator register, no prefetched table, the scoped buffers no window
    stages — is the invariant before the first point. -/
theorem hin17 (c : Dev nD) :
    iprop((∃ r, prngReg c r) ∗ Pipeline.prefHeld (pcfgs (F := F) 17).pre c (fun _ => fullShare) ((cfgs 17).toPCfg_adm).1 ∗ Pipeline.scopedRest spec17 c)
      ⊢ (dat17 V c).Φ 0 := by
  rw [show (dat17 V c).Φ 0 = PhiS17 V c 0 (Nat.zero_le _) from rfl, PhiS17_zero V c 0 _ rfl]; unfold Pipeline.ΦA
  iintro ⟨Hp, -, Hr⟩
  isplitl [Hr]; · iexact Hr
  iexact Hp

/-- After any point but the first the invariant gives the scoped buffers and the register back: the accumulator's
    named contents are forgotten. -/
theorem Phi_out17 (c : Dev nD) (t : Fin (cfg17.N + 1)) (ht : t.val ≠ 0) : (dat17 V c).Φ t ⊢ Pipeline.ΦA spec17 c := by
  rw [show (dat17 V c).Φ t = PhiS17 V c t.val (Nat.le_of_lt_succ t.isLt) from rfl, PhiS17_pos V c _ _ ht, PhiA17_eq]
  iintro ⟨⟨HS0, Hrest⟩, Hg⟩
  isplitl [HS0 Hrest]
  · isplitl [HS0]
    · iexists _; iexact HS0
    iexact Hrest
  iexact Hg

/-- The same after the last point, as the region hands it back: the register, no semaphore of the kernel's own, the
    scoped buffers. -/
theorem hout17 (c : Dev nD) :
    (dat17 V c).Φ (Fin.last cfg17.N)
      ⊢ iprop((∃ r, prngReg c r) ∗ Pipeline.ownSems0 (Ix := Unit) (Name := ℕ) (U := UR sig nD τ) (Lvl := ℕ) (Val := Elt F) (τ := τ) (fun k : PEmpty => k.elim) c ∗ Pipeline.scopedRest spec17 c) := by
  refine (Phi_out17 V c _ (by rw [Fin.val_last]; have : cfg17.N = 16 := N_17; omega)).trans ?_
  rw [Pipeline.ownSems0_none]; unfold Pipeline.ΦA
  iintro ⟨Hr, Hp⟩
  isplitl [Hp]; · iexact Hp
  isplitr; · iempintro
  iexact Hr

end Cert.KernelIdeal.Fr

end
-- ==== Proof.KI.Reg18.lean ====
import proofs.«126270_j6725918785969_1_alg».proof.Proof.Gen.KernelIdeal.Launch
import proofs.«126270_j6725918785969_1_alg».proof.Proof.Gen.KernelIdeal.Skeleton
import proofs.«126270_j6725918785969_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 18: a row-tiled matrix product

Two input windows and one output window. Window 0 cuts the left factor into blocks of rows (`S4096x128`);
window 1 is the whole right factor (`S128x128`), the same block at every grid point; window 2 is the block of
the result's rows (`S4096x128`). At a grid point the body loads both input blocks, multiplies them into a zero
accumulator and stores the result over the whole output block. Stated at a
parameter `V`, the buffer contents the region is entered from.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-- The left factor's current staging buffer holds its block of rows at every point. -/
theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)

/-- The right factor's staging buffer holds the whole factor at every point: fetched at the first point, its
    block index never moves afterwards. -/
theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

/-- The rectangles the body reads and writes: each buffer whole. -/
abbrev r18_a : Rect S4096x128 := Rect.unit (s := S4096x128) ![0, 0] S4096x128.size inb_S4096x128_S4096x128_0_0
abbrev r18_b : Rect S128x128 := Rect.unit (s := S128x128) ![0, 0] S128x128.size inb_S128x128_S128x128_0_0

/-- The output buffer after the body: its one store, of the product of the two input blocks. -/
def out18_2 (x0 : Vec F S4096x128 .f32) (x1 : Vec F S128x128 .f32) : Vec F S4096x128 .f32 :=
  View.canon [⟨r18_a, k18_pay1 (View.ld x0 r18_a) (View.ld x1 r18_b)⟩]

/-- The store covers the buffer. -/
theorem cover18_2 (p0 : Vec F S4096x128 .f32) (y : S4096x128.Idx) :
    ∃ pc ∈ ([⟨r18_a, p0⟩] : List (View.Piece (Elt F) S4096x128 .f32)), y ∈ pc.1.set :=
  View.cover_of_tiled [⟨r18_a, p0⟩] S4096x128.size (by rfl) y

set_option maxHeartbeats 1000000 in
/-- The body on whole staging memrefs, the inputs' at contents `x0`, `x1` and the output's at anything, runs to the
    continuation with the inputs' as they were and the output's at `out18_2 x0 x1`. -/
theorem sound_kernel18 (c : Dev nD) (E : Set ℕ) (i : grid18.Coords) (arg0 : Memref sig .tc .vmem S4096x128 .f32) (harg0 : arg0.IsWhole) (arg1 : Memref sig .tc .vmem S128x128 .f32) (harg1 : arg1.IsWhole) (arg2 : Memref sig .tc .vmem S4096x128 .f32) (harg2 : arg2.IsWhole)
    (x0 : Vec F S4096x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out18_2 x0 x1)) -∗ K ⟨⟩))
      ⊢ wp frame (wpE (defs₀ (F := F)) Variants.none c none) E (cc18__mm_big_kernel i arg0 harg0 arg1 harg1 arg2 harg2) K := by
  simp only [cc18__mm_big_kernel_eq_skeleton]; unfold cc18__mm_big_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover18_2 _)

/-- The pipeline's proof data on core `c`: the arrays as the region finds them; after the body at point `t` each
    input's buffer at its block and the output's at `out18_2` of them; the invariant the scoped rest and the
    generator register, untouched; nothing owed; full shares. -/
def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => out18_2 (iblk18 V c 0 t) (iblk18 V c 1 t)
  Φ _ := Pipeline.ΦA spec18 c
  q _ := fullShare
  owed _ := 0

theorem A_eq18 (c : Dev nD) (w : Fin cfg18.W) : (dat18 V c).A w = V c (Pipeline.arrRef spec18 w) := by
  dsimp only [dat18]

theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = out18_2 (iblk18 V c 0 t) (iblk18 V c 1 t) := by dsimp only [dat18]

theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d

/-- What the body is called with at point `t`, -/
def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d)))

/-- and what it returns. -/
def bodyPost18 (c : Dev nD) (t : Fin cfg18.N) : sProp 𝕄 :=
  iprop((dat18 V c).Φ t.succ ∗ (dat18 V c).owesAt () t.succ
    ∗ owns (c : Thread nD τ) (st18_0 t) fullShare ((dat18 V c).after 0 t)
    ∗ owns (c : Thread nD τ) (st18_1 t) fullShare ((dat18 V c).after 1 t)
    ∗ owns (c : Thread nD τ) (st18_2 t) fullShare ((dat18 V c).after 2 t))

/-- The body at any point: the inputs' memrefs hold their blocks, so the body's triple applies; the invariant
    and the core's dues pass through unread. -/
theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1]
  rw [show (dat18 V c).Φ t.succ = (dat18 V c).Φ t.castSucc from rfl,
    show (dat18 V c).owesAt () t.succ = (dat18 V c).owesAt () t.castSucc from rfl,
    after18_0, after18_1, after18_2]
  iintro ⟨HΦ, Ho, ⟨%d0, H0⟩, ⟨%d1, H1⟩, ⟨%d2, H2⟩⟩
  iapply (sound_kernel18 c Set.univ _ _ _ _ _ _ _ (iblk18 V c 0 t) (iblk18 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation18 (c : Dev nD) : BodyObligation (dat18 (F := F) V c) (defs₀ (F := F)) Variants.none () Set.univ := fun t => by
  rw [bigSep_W18, bigSep_W18]
  exact sound_body18 V c t

end Cert.KernelIdeal.Fr

end
-- ==== Proof.KI.Reg19.lean ====
import proofs.«126270_j6725918785969_1_alg».proof.Proof.Gen.KernelIdeal.Launch
import proofs.«126270_j6725918785969_1_alg».proof.Proof.Gen.KernelIdeal.Skeleton
import proofs.«126270_j6725918785969_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 19: the row sums of `exp (x · yᵀ)` reduced over sixteen blocks of columns

Two input windows — the 4096 × 128 left factor whole, its block index never moving, and the right factor cut into
sixteen blocks of 256 rows — and one 4096 × 1 output window whose block index never moves. The kernel keeps a
4096 × 1 accumulator in a scratch buffer of its own: at the first grid point it zeroes it, at every point it adds,
row by row, the sum over the block's 256 columns of `exp (p / 1)`, where `p` is the product of the left factor and
the transposed right block (both rounded to bf16 before the product) and the division by the constant one is
entry by entry, and at the last point only it copies the accumulator into the output's staging buffer, which is
written back there and nowhere else. So the body has three control cases — first point, middle point, last
point —, the accumulator's contents are carried from point to point by the region invariant, and the output
window is idle everywhere but at the last point. Stated at a parameter `V`, the buffer contents the region is
entered from.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, decided over the grid -/

/-- The condition of the body's first conditional: the reduction coordinate is zero. -/
abbrev cond19_0 (i : grid19.Coords) : Prop := (Scalar.cmpi .ne (Scalar.extui (Scalar.cmpi .eq (BitVec.ofNat 32 (i 0).val) 0#32)) 0#32) = 1#1
/-- It holds at the first point only. -/
theorem hcond19_0 : ∀ t : Fin cfg19.N, cond19_0 (grid19.coords t) ↔ t.val % 16 = 0 :=
  (by decide +kernel : ∀ t : Fin grid19.N, cond19_0 (grid19.coords t) ↔ t.val % 16 = 0)

/-- The condition of the body's second conditional: the reduction coordinate is the last. -/
abbrev cond19_1 (i : grid19.Coords) : Prop := k19_cond2 i = 1#1
/-- It holds at the last point only. -/
theorem hcond19_1 : ∀ t : Fin cfg19.N, cond19_1 (grid19.coords t) ↔ t.val % 16 = 15 :=
  (by decide +kernel : ∀ t : Fin grid19.N, cond19_1 (grid19.coords t) ↔ t.val % 16 = 15)

/-! ## Where the windows are idle -/

/-- The two inputs are never idle. -/
theorem liveAt19_0 : ∀ t : Fin cfg19.N, cfg19.idle 0 (grid19.coords t) = false := by decide +kernel
theorem liveAt19_1 : ∀ t : Fin cfg19.N, cfg19.idle 1 (grid19.coords t) = false := by decide +kernel
/-- Where the second condition fails the output is idle and is not written back. -/
theorem idleAt19_2 : ∀ t : Fin cfg19.N, ¬cond19_1 (grid19.coords t) → cfg19.idle 2 (grid19.coords t) = true := by decide +kernel
theorem noFlush19_2 : ∀ t : Fin cfg19.N, ¬cond19_1 (grid19.coords t) → (cfg19.win 2).flush t = false := by decide +kernel
/-- Where it holds the output is live. -/
theorem liveAt19_2 : ∀ t : Fin cfg19.N, cond19_1 (grid19.coords t) → cfg19.idle 2 (grid19.coords t) = false := by decide +kernel

/-! ## The memrefs the body is called with -/

/-- One staging buffer of the output window, through which its contents are stated. -/
abbrev VO19_2 : View sig .tc .vmem S4096x1 .f32 := (Memref.whole cc19_stg2_0 : Memref sig .tc .vmem S4096x1 .f32).view
/-- Each window's current staging memref at point `t`, and its wholeness. -/
abbrev ms19_0 (t : Fin cfg19.N) : Memref sig .tc .vmem S4096x128 .f32 := win19_0.stage (cfg19.slots t 0)
abbrev hs19_0 (t : Fin cfg19.N) : (ms19_0 t).IsWhole := hstage19_0 ((cfg19.slots t 0).cast nbuf19_0)
abbrev ms19_1 (t : Fin cfg19.N) : Memref sig .tc .vmem S256x128 .f32 := win19_1.stage (cfg19.slots t 1)
abbrev hs19_1 (t : Fin cfg19.N) : (ms19_1 t).IsWhole := hstage19_1 ((cfg19.slots t 1).cast nbuf19_1)
abbrev ms19_2 (t : Fin cfg19.N) : Memref sig .tc .vmem S4096x1 .f32 := win19_2.stage (cfg19.slots t 2)
abbrev hs19_2 (t : Fin cfg19.N) : (ms19_2 t).IsWhole := hstage19_2 ((cfg19.slots t 2).cast nbuf19_2)
/-- The accumulator: a whole scoped buffer of the kernel's own, passed beside the windows. -/
abbrev scM19_0 : Memref sig .tc .vmem S4096x1 .f32 := Memref.whole cc19_scratch0
/-- The accumulator as a view: what it holds is stated through it. -/
abbrev VS19_0 : View sig .tc .vmem S4096x1 .f32 := scM19_0.view

/-- The region invariant of a body that need not describe its scratch, with the accumulator as a memref owned at
    some contents and every other scoped buffer unopened. -/
theorem PhiA19_eq (c : Dev nD) :
    (Pipeline.ΦA spec19 c : sProp 𝕄)
      = iprop(iprop(iprop((∃ d, owns (c : Thread nD τ) scM19_0 fullShare d))
          ∗ Pipeline.scopedRestBut (Ix := Unit) (Name := ℕ) (U := UR sig nD τ) (Lvl := ℕ) (Val := Elt F) spec19 c [cc19_scratch0]) ∗ (∃ r, prngReg c r)) := by
  unfold Pipeline.ΦA; rw [scopedRest19_split]; simp only [scM19_0, owns_whole]; try rfl

set_option maxHeartbeats 1000000 in
/-- THE FIRST POINT (the first conditional taken, the second not). On whole memrefs — the inputs' at their contents,
    the output's at contents handed back untouched, the accumulator at anything — the body runs to the continuation
    holding the inputs' and the output's as they were and the accumulator with its stores' pieces written (last
    first): zero, then zero plus the row sums of the exponentials of the two blocks' product. The pieces are what the run finds. -/
noncomputable def kernelRun19_A (c : Dev nD) (i : grid19.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : cond19_0 i) (hc1 : ¬cond19_1 i)
    (x0 : Vec F S4096x128 .f32) (x1 : Vec F S256x128 .f32) :
    Σ' (L2 : List (View.Piece (Elt F) S4096x1 .f32)), { LS0 : List (View.Piece (Elt F) S4096x1 .f32) //
      ∀ (xi2 : Vec F S4096x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc19__ssl_neg_kernel i arg1 harg1 arg2 harg2 arg3 harg3 arg4 harg4) K } := by
  refine ⟨[], ?_, fun xi2 E K => ?run⟩
  case run =>
    simp only [cc19__ssl_neg_kernel_eq_skeleton]; unfold cc19__ssl_neg_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A MIDDLE POINT (neither conditional taken). The accumulator comes in at the contents `xs0` the point before left
    and goes out with one piece written: `xs0` plus the row sums of the exponentials of the two blocks' product. The output is handed back untouched. -/
noncomputable def kernelRun19_B (c : Dev nD) (i : grid19.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond19_0 i) (hc1 : ¬cond19_1 i)
    (x0 : Vec F S4096x128 .f32) (x1 : Vec F S256x128 .f32) (xs0 : Vec F S4096x1 .f32) :
    Σ' (L2 : List (View.Piece (Elt F) S4096x1 .f32)), { LS0 : List (View.Piece (Elt F) S4096x1 .f32) //
      ∀ (xi2 : Vec F S4096x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc19__ssl_neg_kernel i arg1 harg1 arg2 harg2 arg3 harg3 arg4 harg4) K } := by
  refine ⟨[], ?_, fun xi2 E K => ?run⟩
  case run =>
    simp only [cc19__ssl_neg_kernel_eq_skeleton]; unfold cc19__ssl_neg_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- THE LAST POINT (the first conditional not taken, the second taken). The accumulator comes in at `xs0`, goes out
    with `xs0` plus the row sums written, and the output, at anything before, goes out with one piece written: the
    accumulator's final contents. -/
noncomputable def kernelRun19_C (c : Dev nD) (i : grid19.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond19_0 i) (hc1 : cond19_1 i)
    (x0 : Vec F S4096x128 .f32) (x1 : Vec F S256x128 .f32) (xs0 : Vec F S4096x1 .f32) :
    Σ' (L2 : List (View.Piece (Elt F) S4096x1 .f32)), { LS0 : List (View.Piece (Elt F) S4096x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc19__ssl_neg_kernel i arg1 harg1 arg2 harg2 arg3 harg3 arg4 harg4) K } := by
  refine ⟨?_, ?_, fun E K => ?run⟩
  case run =>
    simp only [cc19__ssl_neg_kernel_eq_skeleton]; unfold cc19__ssl_neg_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

variable (V : (c : Dev nD) → (b : Ref sig .tc) → Buf (Elt F) ((c : Thread nD τ).loc b))

/-! ## The windows' blocks -/

/-- Window `w`'s block at point `t`, read off its array as the region finds it. -/
def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- Each input's current staging buffer holds its block at every point, fetched there or not. -/
theorem before19_0_of {c : Dev nD} (dat : Dat τ (Elt F) Unit ℕ (UR sig nD τ) ℕ cfg19 c) (hA : dat.A 0 = V c (Pipeline.arrRef spec19 0))
    (hafter : ∀ t, dat.after 0 t = iblk19 V c 0 t) (t : Fin cfg19.N) (d) : dat.before 0 t d = iblk19 V c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)
theorem before19_1_of {c : Dev nD} (dat : Dat τ (Elt F) Unit ℕ (UR sig nD τ) ℕ cfg19 c) (hA : dat.A 1 = V c (Pipeline.arrRef spec19 1))
    (hafter : ∀ t, dat.after 1 t = iblk19 V c 1 t) (t : Fin cfg19.N) (d) : dat.before 1 t d = iblk19 V c 1 t :=
  (dat.before_in_eq_fetched 1 rfl (fun _ => rfl) (fun _ _ _ => rfl) (fun t => by rw [hafter]; unfold Dat.blockOf iblk19; rw [hA]; try rfl) t d).trans
    (by unfold Dat.fetched Dat.blockOf iblk19; rw [hA]; try rfl)

/-! ## What each case leaves in the output's buffer and in the accumulator -/

/-- The first point's stores cover the accumulator. -/
theorem scover19_A_0 (c : Dev nD) (i : grid19.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : cond19_0 i) (hc1 : ¬cond19_1 i)
    (x0 : Vec F S4096x128 .f32) (x1 : Vec F S256x128 .f32) (y : S4096x1.Idx) :
    ∃ pc ∈ (kernelRun19_A c i arg1 harg1 arg2 harg2 arg3 harg3 arg4 harg4 hc0 hc1 x0 x1).2.1, y ∈ pc.1.set :=
  View.cover_of_tiledL (kernelRun19_A c i arg1 harg1 arg2 harg2 arg3 harg3 arg4 harg4 hc0 hc1 x0 x1).2.1 S4096x1.size (by sl_kernel_rfl) y

/-- What the first point leaves in the accumulator: its pieces read back. -/
def sout19_A_0 (c : Dev nD) (i : grid19.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : cond19_0 i) (hc1 : ¬cond19_1 i)
    (x0 : Vec F S4096x128 .f32) (x1 : Vec F S256x128 .f32) : Vec F S4096x1 .f32 :=
  VS19_0.read (Elt F) (VS19_0.writes (Elt F) VS19_0.junk (kernelRun19_A c i arg1 harg1 arg2 harg2 arg3 harg3 arg4 harg4 hc0 hc1 x0 x1).2.1)

/-- A middle point's store covers the accumulator. -/
theorem scover19_B_0 (c : Dev nD) (i : grid19.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond19_0 i) (hc1 : ¬cond19_1 i)
    (x0 : Vec F S4096x128 .f32) (x1 : Vec F S256x128 .f32) (xs0 : Vec F S4096x1 .f32) (y : S4096x1.Idx) :
    ∃ pc ∈ (kernelRun19_B c i arg1 harg1 arg2 harg2 arg3 harg3 arg4 harg4 hc0 hc1 x0 x1 xs0).2.1, y ∈ pc.1.set :=
  View.cover_of_tiledL (kernelRun19_B c i arg1 harg1 arg2 harg2 arg3 harg3 arg4 harg4 hc0 hc1 x0 x1 xs0).2.1 S4096x1.size (by sl_kernel_rfl) y

/-- What a middle point leaves in the accumulator. -/
def sout19_B_0 (c : Dev nD) (i : grid19.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond19_0 i) (hc1 : ¬cond19_1 i)
    (x0 : Vec F S4096x128 .f32) (x1 : Vec F S256x128 .f32) (xs0 : Vec F S4096x1 .f32) : Vec F S4096x1 .f32 :=
  VS19_0.read (Elt F) (VS19_0.writes (Elt F) VS19_0.junk (kernelRun19_B c i arg1 harg1 arg2 harg2 arg3 harg3 arg4 harg4 hc0 hc1 x0 x1 xs0).2.1)

/-- The last point's store covers the output's buffer. -/
theorem cover19_C_2 (c : Dev nD) (i : grid19.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond19_0 i) (hc1 : cond19_1 i)
    (x0 : Vec F S4096x128 .f32) (x1 : Vec F S256x128 .f32) (xs0 : Vec F S4096x1 .f32) (y : S4096x1.Idx) :
    ∃ pc ∈ (kernelRun19_C c i arg1 harg1 arg2 harg2 arg3 harg3 arg4 harg4 hc0 hc1 x0 x1 xs0).1, y ∈ pc.1.set :=
  View.cover_of_tiledL (kernelRun19_C c i arg1 harg1 arg2 harg2 arg3 harg3 arg4 harg4 hc0 hc1 x0 x1 xs0).1 S4096x1.size (by sl_kernel_rfl) y

/-- What the last point leaves in the output's buffer. -/
def out19_C_2 (c : Dev nD) (i : grid19.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond19_0 i) (hc1 : cond19_1 i)
    (x0 : Vec F S4096x128 .f32) (x1 : Vec F S256x128 .f32) (xs0 : Vec F S4096x1 .f32) : Vec F S4096x1 .f32 :=
  VO19_2.read (Elt F) (VO19_2.writes (Elt F) VO19_2.junk (kernelRun19_C c i arg1 harg1 arg2 harg2 arg3 harg3 arg4 harg4 hc0 hc1 x0 x1 xs0).1)

/-- The last point's store covers the accumulator. -/
theorem scover19_C_0 (c : Dev nD) (i : grid19.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond19_0 i) (hc1 : cond19_1 i)
    (x0 : Vec F S4096x128 .f32) (x1 : Vec F S256x128 .f32) (xs0 : Vec F S4096x1 .f32) (y : S4096x1.Idx) :
    ∃ pc ∈ (kernelRun19_C c i arg1 harg1 arg2 harg2 arg3 harg3 arg4 harg4 hc0 hc1 x0 x1 xs0).2.1, y ∈ pc.1.set :=
  View.cover_of_tiledL (kernelRun19_C c i arg1 harg1 arg2 harg2 arg3 harg3 arg4 harg4 hc0 hc1 x0 x1 xs0).2.1 S4096x1.size (by sl_kernel_rfl) y

/-- What the last point leaves in the accumulator. -/
def sout19_C_0 (c : Dev nD) (i : grid19.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond19_0 i) (hc1 : cond19_1 i)
    (x0 : Vec F S4096x128 .f32) (x1 : Vec F S256x128 .f32) (xs0 : Vec F S4096x1 .f32) : Vec F S4096x1 .f32 :=
  VS19_0.read (Elt F) (VS19_0.writes (Elt F) VS19_0.junk (kernelRun19_C c i arg1 harg1 arg2 harg2 arg3 harg3 arg4 harg4 hc0 hc1 x0 x1 xs0).2.1)

/-! ## What the output's buffer and the accumulator hold after each point -/

/-- The output's buffer at a point that stores nothing into it: a placeholder nothing consults, the window being
    neither written back there nor read at the next point. -/
def idle19_2 : Vec F S4096x1 .f32 := VO19_2.read (Elt F) VO19_2.junk

/-- THE ACCUMULATION. What the output's staging buffer and the accumulator hold after the body at position `n`: the
    case the closed forms select at `n`, run at the point's memrefs and input blocks, the accumulator coming in at
    what position `n - 1` left in it. After the first point the accumulator is zero plus the first block's row sums;
    after a later point what it held plus that point's row sums; after the last point the output's buffer holds
    the whole sum. -/
def outsAt19 (c : Dev nD) : (n : ℕ) → n < cfg19.N → Vec F S4096x1 .f32 × Vec F S4096x1 .f32
  | 0, hn => (idle19_2, sout19_A_0 c (grid19.coords ⟨0, hn⟩) (ms19_0 ⟨0, hn⟩) (hs19_0 ⟨0, hn⟩) (ms19_1 ⟨0, hn⟩) (hs19_1 ⟨0, hn⟩) (ms19_2 ⟨0, hn⟩) (hs19_2 ⟨0, hn⟩) scM19_0 (Memref.isWhole_whole _) ((hcond19_0 ⟨0, hn⟩).mpr (Nat.zero_mod _)) (fun h => (fun h => by (try dsimp only at h); omega) ((hcond19_1 ⟨0, hn⟩).mp h)) (iblk19 V c 0 ⟨0, hn⟩) (iblk19 V c 1 ⟨0, hn⟩))
  | n + 1, hn =>
    if h0 : (n + 1) % 16 = 0 then
      if h1 : (n + 1) % 16 = 15 then
        False.elim (by omega)
      else
        (idle19_2, sout19_A_0 c (grid19.coords ⟨n + 1, hn⟩) (ms19_0 ⟨n + 1, hn⟩) (hs19_0 ⟨n + 1, hn⟩) (ms19_1 ⟨n + 1, hn⟩) (hs19_1 ⟨n + 1, hn⟩) (ms19_2 ⟨n + 1, hn⟩) (hs19_2 ⟨n + 1, hn⟩) scM19_0 (Memref.isWhole_whole _) ((hcond19_0 ⟨n + 1, hn⟩).mpr h0) (fun h => h1 ((hcond19_1 ⟨n + 1, hn⟩).mp h)) (iblk19 V c 0 ⟨n + 1, hn⟩) (iblk19 V c 1 ⟨n + 1, hn⟩))
    else
      if h1 : (n + 1) % 16 = 15 then
        (out19_C_2 c (grid19.coords ⟨n + 1, hn⟩) (ms19_0 ⟨n + 1, hn⟩) (hs19_0 ⟨n + 1, hn⟩) (ms19_1 ⟨n + 1, hn⟩) (hs19_1 ⟨n + 1, hn⟩) (ms19_2 ⟨n + 1, hn⟩) (hs19_2 ⟨n + 1, hn⟩) scM19_0 (Memref.isWhole_whole _) (fun h => h0 ((hcond19_0 ⟨n + 1, hn⟩).mp h)) ((hcond19_1 ⟨n + 1, hn⟩).mpr h1) (iblk19 V c 0 ⟨n + 1, hn⟩) (iblk19 V c 1 ⟨n + 1, hn⟩) (outsAt19 c n (Nat.lt_of_succ_lt hn)).2,
         sout19_C_0 c (grid19.coords ⟨n + 1, hn⟩) (ms19_0 ⟨n + 1, hn⟩) (hs19_0 ⟨n + 1, hn⟩) (ms19_1 ⟨n + 1, hn⟩) (hs19_1 ⟨n + 1, hn⟩) (ms19_2 ⟨n + 1, hn⟩) (hs19_2 ⟨n + 1, hn⟩) scM19_0 (Memref.isWhole_whole _) (fun h => h0 ((hcond19_0 ⟨n + 1, hn⟩).mp h)) ((hcond19_1 ⟨n + 1, hn⟩).mpr h1) (iblk19 V c 0 ⟨n + 1, hn⟩) (iblk19 V c 1 ⟨n + 1, hn⟩) (outsAt19 c n (Nat.lt_of_succ_lt hn)).2)
      else
        (idle19_2, sout19_B_0 c (grid19.coords ⟨n + 1, hn⟩) (ms19_0 ⟨n + 1, hn⟩) (hs19_0 ⟨n + 1, hn⟩) (ms19_1 ⟨n + 1, hn⟩) (hs19_1 ⟨n + 1, hn⟩) (ms19_2 ⟨n + 1, hn⟩) (hs19_2 ⟨n + 1, hn⟩) scM19_0 (Memref.isWhole_whole _) (fun h => h0 ((hcond19_0 ⟨n + 1, hn⟩).mp h)) (fun h => h1 ((hcond19_1 ⟨n + 1, hn⟩).mp h)) (iblk19 V c 0 ⟨n + 1, hn⟩) (iblk19 V c 1 ⟨n + 1, hn⟩) (outsAt19 c n (Nat.lt_of_succ_lt hn)).2)

/-- `outsAt19` at the first point. -/
theorem outsAt19_A (c : Dev nD) (t : Fin cfg19.N) (h0 : t.val % 16 = 0) (h1 : ¬t.val % 16 = 15) :
    outsAt19 V c t.val t.isLt = (idle19_2, sout19_A_0 c (grid19.coords t) (ms19_0 t) (hs19_0 t) (ms19_1 t) (hs19_1 t) (ms19_2 t) (hs19_2 t) scM19_0 (Memref.isWhole_whole _) ((hcond19_0 t).mpr h0) (fun h => h1 ((hcond19_1 t).mp h)) (iblk19 V c 0 t) (iblk19 V c 1 t)) := by
  obtain ⟨n, hn⟩ := t
  cases n with
  | zero => exact rfl
  | succ n => exact (dif_pos h0).trans ((dif_neg h1).trans rfl)

/-- `outsAt19` at a middle point: over what the point before left. -/
theorem outsAt19_B (c : Dev nD) (t : Fin cfg19.N) (h0 : ¬t.val % 16 = 0) (h1 : ¬t.val % 16 = 15) :
    outsAt19 V c t.val t.isLt = (idle19_2, sout19_B_0 c (grid19.coords t) (ms19_0 t) (hs19_0 t) (ms19_1 t) (hs19_1 t) (ms19_2 t) (hs19_2 t) scM19_0 (Memref.isWhole_whole _) (fun h => h0 ((hcond19_0 t).mp h)) (fun h => h1 ((hcond19_1 t).mp h)) (iblk19 V c 0 t) (iblk19 V c 1 t) (outsAt19 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt19` at the last point: over what the point before left. -/
theorem outsAt19_C (c : Dev nD) (t : Fin cfg19.N) (h0 : ¬t.val % 16 = 0) (h1 : t.val % 16 = 15) :
    outsAt19 V c t.val t.isLt = (out19_C_2 c (grid19.coords t) (ms19_0 t) (hs19_0 t) (ms19_1 t) (hs19_1 t) (ms19_2 t) (hs19_2 t) scM19_0 (Memref.isWhole_whole _) (fun h => h0 ((hcond19_0 t).mp h)) ((hcond19_1 t).mpr h1) (iblk19 V c 0 t) (iblk19 V c 1 t) (outsAt19 V c (t.val - 1) (Nat.lt_of_le_of_lt (Nat.sub_le _ _) t.isLt)).2,
      sout19_C_0 c (grid19.coords t) (ms19_0 t) (hs19_0 t) (ms19_1 t) (hs19_1 t) (ms19_2 t) (hs19_2 t) scM19_0 (Memref.isWhole_whole _) (fun h => h0 ((hcond19_0 t).mp h)) ((hcond19_1 t).mpr h1) (iblk19 V c 0 t) (iblk19 V c 1 t) (outsAt19 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point every scoped buffer that is no staging buffer at
    anything, and the generator register at some state; afterwards the accumulator at what the point before left in
    it (`outsAt19`'s second component), every other such buffer unopened, and the register. -/
def PhiS19 (c : Dev nD) : (n : ℕ) → n ≤ cfg19.N → sProp 𝕄
  | 0, _ => Pipeline.ΦA spec19 c
  | n + 1, hn => iprop(iprop(iprop(owns (c : Thread nD τ) scM19_0 fullShare ((outsAt19 V c n hn).2)) ∗ Pipeline.scopedRestBut (Ix := Unit) (Name := ℕ) (U := UR sig nD τ) (Lvl := ℕ) (Val := Elt F) spec19 c [cc19_scratch0]) ∗ (∃ r, prngReg c r))

theorem PhiS19_zero (c : Dev nD) (n : ℕ) (h : n ≤ cfg19.N) (hz : n = 0) : PhiS19 V c n h = Pipeline.ΦA spec19 c := by
  subst hz; rfl

theorem PhiS19_succ (c : Dev nD) (n : ℕ) (hn : n < cfg19.N) :
    PhiS19 V c (n + 1) hn = iprop(iprop(iprop(owns (c : Thread nD τ) scM19_0 fullShare ((outsAt19 V c n hn).2)) ∗ Pipeline.scopedRestBut (Ix := Unit) (Name := ℕ) (U := UR sig nD τ) (Lvl := ℕ) (Val := Elt F) spec19 c [cc19_scratch0]) ∗ (∃ r, prngReg c r)) := rfl

theorem PhiS19_pos (c : Dev nD) (n : ℕ) (h : n ≤ cfg19.N) (hz : n ≠ 0) :
    PhiS19 V c n h = iprop(iprop(iprop(owns (c : Thread nD τ) scM19_0 fullShare ((outsAt19 V c (n - 1) (by omega)).2)) ∗ Pipeline.scopedRestBut (Ix := Unit) (Name := ℕ) (U := UR sig nD τ) (Lvl := ℕ) (Val := Elt F) spec19 c [cc19_scratch0]) ∗ (∃ r, prngReg c r)) := by
  cases n with
  | zero => exact absurd rfl hz
  | succ n => rfl

/-! ## The pipeline's proof data -/

/-- The proof data on core `c`: the arrays as the region finds them; after the body at point `t` each input's
    buffer at its block and the output's at `outsAt19`'s first component; the invariant `PhiS19`; nothing owed; full
    shares. -/
def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => (outsAt19 V c t.val t.isLt).1
  Φ t := PhiS19 V c t.val (Nat.le_of_lt_succ t.isLt)
  q _ := fullShare
  owed _ := 0

theorem A_eq19 (c : Dev nD) (w : Fin cfg19.W) : (dat19 V c).A w = V c (Pipeline.arrRef spec19 w) := by
  dsimp only [dat19]

theorem PhiS19_castSucc (c : Dev nD) (t : Fin cfg19.N) :
    (dat19 V c).Φ t.castSucc = PhiS19 V c t.val (Nat.le_of_lt t.isLt) := by
  dsimp only [dat19]; simp only [Fin.coe_castSucc]

theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = (outsAt19 V c t.val t.isLt).1 := by dsimp only [dat19]

theorem before19_0 (c : Dev nD) (t : Fin cfg19.N) (d) : (dat19 V c).before 0 t d = iblk19 V c 0 t :=
  before19_0_of V (dat19 V c) (A_eq19 V c 0) (after19_0 V c) t d
theorem before19_1 (c : Dev nD) (t : Fin cfg19.N) (d) : (dat19 V c).before 1 t d = iblk19 V c 1 t :=
  before19_1_of V (dat19 V c) (A_eq19 V c 1) (after19_1 V c) t d

/-! ## The body obligation -/

/-- What the body is called with at point `t`, -/
def bodyPre19 (c : Dev nD) (t : Fin cfg19.N) : sProp 𝕄 :=
  iprop((dat19 V c).Φ t.castSucc ∗ (dat19 V c).owesAt () t.castSucc
    ∗ (∃ d, owns (c : Thread nD τ) (ms19_0 t) fullShare ((dat19 V c).before 0 t d))
    ∗ (∃ d, owns (c : Thread nD τ) (ms19_1 t) fullShare ((dat19 V c).before 1 t d))
    ∗ (∃ d, owns (c : Thread nD τ) (ms19_2 t) fullShare ((dat19 V c).before 2 t d)))

/-- and what it returns. -/
def bodyPost19 (c : Dev nD) (t : Fin cfg19.N) : sProp 𝕄 :=
  iprop((dat19 V c).Φ t.succ ∗ (dat19 V c).owesAt () t.succ
    ∗ (dat19 V c).leavesExact 0 t
    ∗ (dat19 V c).leavesExact 1 t
    ∗ (dat19 V c).leavesExact 2 t)

set_option maxHeartbeats 4800000 in
/-- The body at any point. The inputs' memrefs hold their blocks; the closed forms say which case the point is in;
    the invariant hands the body the accumulator — at anything at the first point, at what the point before left
    afterwards —, every other scoped buffer and the generator register riding along unread, and takes the
    accumulator back at this point's contents; the output's buffer is handed back untouched except at the last
    point, where it is left at the whole sum; the core owes nothing throughout. -/
theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0, before19_1]
  rw [show (dat19 V c).owesAt () t.succ = (dat19 V c).owesAt () t.castSucc from rfl]
  rw [show (dat19 V c).Φ t.succ = PhiS19 V c (t.val + 1) t.isLt from rfl, PhiS19_succ]
  have hN : t.val < 16 := lt_of_lt_of_eq t.isLt (show cfg19.N = 16 from N_19)
  rw [show (dat19 V c).leavesExact 0 t = owns (c : Thread nD τ) (ms19_0 t) fullShare ((dat19 V c).after 0 t) from by
    unfold Dat.leavesExact; rw [liveAt19_0 t], after19_0]
  rw [show (dat19 V c).leavesExact 1 t = owns (c : Thread nD τ) (ms19_1 t) fullShare ((dat19 V c).after 1 t) from by
    unfold Dat.leavesExact; rw [liveAt19_1 t], after19_1]
  by_cases h0 : t.val % 16 = 0
  · have h1 : ¬t.val % 16 = 15 := by omega
    have hz : t.val = 0 := by omega
    rw [Dat.leavesExact_idle (dat19 V c) 2 t (idleAt19_2 t (fun h => h1 ((hcond19_1 t).mp h))) (noFlush19_2 t (fun h => h1 ((hcond19_1 t).mp h)))]
    rw [outsAt19_A V c t h0 h1]
    unfold sout19_A_0; (try dsimp only)
    rw [PhiS19_castSucc V c t, PhiS19_zero V c _ _ hz, PhiA19_eq]
    iintro ⟨⟨⟨HS0, Hrest⟩, Hg⟩, Ho, ⟨%d0, H0⟩, ⟨%d1, H1⟩, ⟨%d2, H2⟩⟩
    iapply ((kernelRun19_A c (grid19.coords t) _ _ _ _ _ _ _ _ ((hcond19_0 t).mpr h0) (fun h => h1 ((hcond19_1 t).mp h)) (iblk19 V c 0 t) (iblk19 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover19_A_0 c _ _ _ _ _ _ _ _ _ _ _ _ _)
        iexact Hrest
      iexact Hg
    isplitl [Ho]; · iexact Ho
    isplitl [H0]; · iexact H0
    isplitl [H1]; · iexact H1
    iexists _; iexact H2
  · have hz : t.val ≠ 0 := by omega
    by_cases h1 : t.val % 16 = 15
    · rw [show (dat19 V c).leavesExact 2 t = owns (c : Thread nD τ) (ms19_2 t) fullShare ((dat19 V c).after 2 t) from by
        unfold Dat.leavesExact; rw [liveAt19_2 t ((hcond19_1 t).mpr h1)], after19_2]
      rw [outsAt19_C V c t h0 h1]
      unfold out19_C_2 sout19_C_0; (try dsimp only)
      rw [PhiS19_castSucc V c t, PhiS19_pos V c _ _ hz]
      iintro ⟨⟨⟨HS0, Hrest⟩, Hg⟩, Ho, ⟨%d0, H0⟩, ⟨%d1, H1⟩, ⟨%d2, H2⟩⟩
      iapply ((kernelRun19_C c (grid19.coords t) _ _ _ _ _ _ _ _ (fun h => h0 ((hcond19_0 t).mp h)) ((hcond19_1 t).mpr h1) (iblk19 V c 0 t) (iblk19 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover19_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover19_C_2 c _ _ _ _ _ _ _ _ _ _ _ _ _ _)
    · rw [Dat.leavesExact_idle (dat19 V c) 2 t (idleAt19_2 t (fun h => h1 ((hcond19_1 t).mp h))) (noFlush19_2 t (fun h => h1 ((hcond19_1 t).mp h)))]
      rw [outsAt19_B V c t h0 h1]
      unfold sout19_B_0; (try dsimp only)
      rw [PhiS19_castSucc V c t, PhiS19_pos V c _ _ hz]
      iintro ⟨⟨⟨HS0, Hrest⟩, Hg⟩, Ho, ⟨%d0, H0⟩, ⟨%d1, H1⟩, ⟨%d2, H2⟩⟩
      iapply ((kernelRun19_B c (grid19.coords t) _ _ _ _ _ _ _ _ (fun h => h0 ((hcond19_0 t).mp h)) (fun h => h1 ((hcond19_1 t).mp h)) (iblk19 V c 0 t) (iblk19 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover19_B_0 c _ _ _ _ _ _ _ _ _ _ _ _ _ _)
          iexact Hrest
        iexact Hg
      isplitl [Ho]; · iexact Ho
      isplitl [H0]; · iexact H0
      isplitl [H1]; · iexact H1
      iexists _; iexact H2

/-- The body obligation, at every point. -/
theorem body_obligation19 (c : Dev nD) : BodyObligation (dat19 (F := F) V c) (defs₀ (F := F)) Variants.none () Set.univ := fun t => by
  rw [bigSep_W19, bigSep_W19]
  exact sound_body19 V c t

/-! ## Into the invariant and out of it -/

/-- What the launch hands the region — the generator register, no prefetched table, the scoped buffers no window
    stages — is the invariant before the first point. -/
theorem hin19 (c : Dev nD) :
    iprop((∃ r, prngReg c r) ∗ Pipeline.prefHeld (pcfgs (F := F) 19).pre c (fun _ => fullShare) ((cfgs 19).toPCfg_adm).1 ∗ Pipeline.scopedRest spec19 c)
      ⊢ (dat19 V c).Φ 0 := by
  rw [show (dat19 V c).Φ 0 = PhiS19 V c 0 (Nat.zero_le _) from rfl, PhiS19_zero V c 0 _ rfl]; unfold Pipeline.ΦA
  iintro ⟨Hp, -, Hr⟩
  isplitl [Hr]; · iexact Hr
  iexact Hp

/-- After any point but the first the invariant gives the scoped buffers and the register back: the accumulator's
    named contents are forgotten. -/
theorem Phi_out19 (c : Dev nD) (t : Fin (cfg19.N + 1)) (ht : t.val ≠ 0) : (dat19 V c).Φ t ⊢ Pipeline.ΦA spec19 c := by
  rw [show (dat19 V c).Φ t = PhiS19 V c t.val (Nat.le_of_lt_succ t.isLt) from rfl, PhiS19_pos V c _ _ ht, PhiA19_eq]
  iintro ⟨⟨HS0, Hrest⟩, Hg⟩
  isplitl [HS0 Hrest]
  · isplitl [HS0]
    · iexists _; iexact HS0
    iexact Hrest
  iexact Hg

/-- The same after the last point, as the region hands it back: the register, no semaphore of the kernel's own, the
    scoped buffers. -/
theorem hout19 (c : Dev nD) :
    (dat19 V c).Φ (Fin.last cfg19.N)
      ⊢ iprop((∃ r, prngReg c r) ∗ Pipeline.ownSems0 (Ix := Unit) (Name := ℕ) (U := UR sig nD τ) (Lvl := ℕ) (Val := Elt F) (τ := τ) (fun k : PEmpty => k.elim) c ∗ Pipeline.scopedRest spec19 c) := by
  refine (Phi_out19 V c _ (by rw [Fin.val_last]; have : cfg19.N = 16 := N_19; omega)).trans ?_
  rw [Pipeline.ownSems0_none]; unfold Pipeline.ΦA
  iintro ⟨Hr, Hp⟩
  isplitl [Hp]; · iexact Hp
  isplitr; · iempintro
  iexact Hr

end Cert.KernelIdeal.Fr

end
-- ==== Proof.KI.Reg20.lean ====
import proofs.«126270_j6725918785969_1_alg».proof.Proof.Gen.KernelIdeal.Launch
import proofs.«126270_j6725918785969_1_alg».proof.Proof.Gen.KernelIdeal.Skeleton
import proofs.«126270_j6725918785969_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 20: a row-tiled matrix product

Two input windows and one output window. Window 0 cuts the left factor into blocks of rows (`S4096x128`);
window 1 is the whole right factor (`S128x128`), the same block at every grid point; window 2 is the block of
the result's rows (`S4096x128`). At a grid point the body loads both input blocks, multiplies them into a zero
accumulator and stores the result over the whole output block. Stated at a
parameter `V`, the buffer contents the region is entered from.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

/-- The left factor's current staging buffer holds its block of rows at every point. -/
theorem before20_0_of {c : Dev nD} (dat : Dat τ (Elt F) Unit ℕ (UR sig nD τ) ℕ cfg20 c) (hA : dat.A 0 = V c (Pipeline.arrRef spec20 0))
    (hafter : ∀ t, dat.after 0 t = iblk20 V c 0 t) (t : Fin cfg20.N) (d) : dat.before 0 t d = iblk20 V c 0 t :=
  (dat.before_in_eq_fetched 0 rfl (fun _ => rfl) (fun _ _ _ => rfl) (fun t => by rw [hafter]; unfold Dat.blockOf iblk20; rw [hA]; try rfl) t d).trans
    (by unfold Dat.fetched Dat.blockOf iblk20; rw [hA]; try rfl)

/-- The right factor's staging buffer holds the whole factor at every point: fetched at the first point, its
    block index never moves afterwards. -/
theorem before20_1_of {c : Dev nD} (dat : Dat τ (Elt F) Unit ℕ (UR sig nD τ) ℕ cfg20 c) (hA : dat.A 1 = V c (Pipeline.arrRef spec20 1))
    (hafter : ∀ t, dat.after 1 t = iblk20 V c 1 t) (t : Fin cfg20.N) (d) : dat.before 1 t d = iblk20 V c 1 t :=
  (dat.before_in_eq_fetched 1 rfl (fun _ => rfl) (fun _ _ _ => rfl) (fun t => by rw [hafter]; unfold Dat.blockOf iblk20; rw [hA]; try rfl) t d).trans
    (by unfold Dat.fetched Dat.blockOf iblk20; rw [hA]; try rfl)

/-- The rectangles the body reads and writes: each buffer whole. -/
abbrev r20_a : Rect S4096x128 := Rect.unit (s := S4096x128) ![0, 0] S4096x128.size inb_S4096x128_S4096x128_0_0
abbrev r20_b : Rect S128x128 := Rect.unit (s := S128x128) ![0, 0] S128x128.size inb_S128x128_S128x128_0_0

/-- The output buffer after the body: its one store, of the product of the two input blocks. -/
def out20_2 (x0 : Vec F S4096x128 .f32) (x1 : Vec F S128x128 .f32) : Vec F S4096x128 .f32 :=
  View.canon [⟨r20_a, k20_pay1 (View.ld x0 r20_a) (View.ld x1 r20_b)⟩]

/-- The store covers the buffer. -/
theorem cover20_2 (p0 : Vec F S4096x128 .f32) (y : S4096x128.Idx) :
    ∃ pc ∈ ([⟨r20_a, p0⟩] : List (View.Piece (Elt F) S4096x128 .f32)), y ∈ pc.1.set :=
  View.cover_of_tiled [⟨r20_a, p0⟩] S4096x128.size (by rfl) y

set_option maxHeartbeats 1000000 in
/-- The body on whole staging memrefs, the inputs' at contents `x0`, `x1` and the output's at anything, runs to the
    continuation with the inputs' as they were and the output's at `out20_2 x0 x1`. -/
theorem sound_kernel20 (c : Dev nD) (E : Set ℕ) (i : grid20.Coords) (arg0 : Memref sig .tc .vmem S4096x128 .f32) (harg0 : arg0.IsWhole) (arg1 : Memref sig .tc .vmem S128x128 .f32) (harg1 : arg1.IsWhole) (arg2 : Memref sig .tc .vmem S4096x128 .f32) (harg2 : arg2.IsWhole)
    (x0 : Vec F S4096x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out20_2 x0 x1)) -∗ K ⟨⟩))
      ⊢ wp frame (wpE (defs₀ (F := F)) Variants.none c none) E (cc20__mm_big_kernel i arg0 harg0 arg1 harg1 arg2 harg2) K := by
  simp only [cc20__mm_big_kernel_eq_skeleton]; unfold cc20__mm_big_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover20_2 _)

/-- The pipeline's proof data on core `c`: the arrays as the region finds them; after the body at point `t` each
    input's buffer at its block and the output's at `out20_2` of them; the invariant the scoped rest and the
    generator register, untouched; nothing owed; full shares. -/
def dat20 (c : Dev nD) : Dat τ (Elt F) Unit ℕ (UR sig nD τ) ℕ cfg20 c where
  A w := V c (Pipeline.arrRef spec20 w)
  after w t := match w with
    | ⟨0, _⟩ => iblk20 V c 0 t
    | ⟨1, _⟩ => iblk20 V c 1 t
    | ⟨2, _⟩ => out20_2 (iblk20 V c 0 t) (iblk20 V c 1 t)
  Φ _ := Pipeline.ΦA spec20 c
  q _ := fullShare
  owed _ := 0

theorem A_eq20 (c : Dev nD) (w : Fin cfg20.W) : (dat20 V c).A w = V c (Pipeline.arrRef spec20 w) := by
  dsimp only [dat20]

theorem after20_0 (c : Dev nD) (t : Fin cfg20.N) : (dat20 V c).after 0 t = iblk20 V c 0 t := by dsimp only [dat20]
theorem after20_1 (c : Dev nD) (t : Fin cfg20.N) : (dat20 V c).after 1 t = iblk20 V c 1 t := by dsimp only [dat20]
theorem after20_2 (c : Dev nD) (t : Fin cfg20.N) : (dat20 V c).after 2 t = out20_2 (iblk20 V c 0 t) (iblk20 V c 1 t) := by dsimp only [dat20]

theorem before20_0 (c : Dev nD) (t : Fin cfg20.N) (d) : (dat20 V c).before 0 t d = iblk20 V c 0 t :=
  before20_0_of V (dat20 V c) (A_eq20 V c 0) (after20_0 V c) t d
theorem before20_1 (c : Dev nD) (t : Fin cfg20.N) (d) : (dat20 V c).before 1 t d = iblk20 V c 1 t :=
  before20_1_of V (dat20 V c) (A_eq20 V c 1) (after20_1 V c) t d

/-- What the body is called with at point `t`, -/
def bodyPre20 (c : Dev nD) (t : Fin cfg20.N) : sProp 𝕄 :=
  iprop((dat20 V c).Φ t.castSucc ∗ (dat20 V c).owesAt () t.castSucc
    ∗ (∃ d, owns (c : Thread nD τ) (st20_0 t) fullShare ((dat20 V c).before 0 t d))
    ∗ (∃ d, owns (c : Thread nD τ) (st20_1 t) fullShare ((dat20 V c).before 1 t d))
    ∗ (∃ d, owns (c : Thread nD τ) (st20_2 t) fullShare ((dat20 V c).before 2 t d)))

/-- and what it returns. -/
def bodyPost20 (c : Dev nD) (t : Fin cfg20.N) : sProp 𝕄 :=
  iprop((dat20 V c).Φ t.succ ∗ (dat20 V c).owesAt () t.succ
    ∗ owns (c : Thread nD τ) (st20_0 t) fullShare ((dat20 V c).after 0 t)
    ∗ owns (c : Thread nD τ) (st20_1 t) fullShare ((dat20 V c).after 1 t)
    ∗ owns (c : Thread nD τ) (st20_2 t) fullShare ((dat20 V c).after 2 t))

/-- The body at any point: the inputs' memrefs hold their blocks, so the body's triple applies; the invariant
    and the core's dues pass through unread. -/
theorem sound_body20 (c : Dev nD) (t : Fin cfg20.N) :
    bodyPre20 V c t ⊢ wp frame (wpE (defs₀ (F := F)) Variants.none c none) Set.univ (bodyAt20 t) (fun _ => bodyPost20 V c t) := by
  unfold bodyPre20 bodyPost20 bodyAt20
  simp only [before20_0, before20_1]
  rw [show (dat20 V c).Φ t.succ = (dat20 V c).Φ t.castSucc from rfl,
    show (dat20 V c).owesAt () t.succ = (dat20 V c).owesAt () t.castSucc from rfl,
    after20_0, after20_1, after20_2]
  iintro ⟨HΦ, Ho, ⟨%d0, H0⟩, ⟨%d1, H1⟩, ⟨%d2, H2⟩⟩
  iapply (sound_kernel20 c Set.univ _ _ _ _ _ _ _ (iblk20 V c 0 t) (iblk20 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation20 (c : Dev nD) : BodyObligation (dat20 (F := F) V c) (defs₀ (F := F)) Variants.none () Set.univ := fun t => by
  rw [bigSep_W20, bigSep_W20]
  exact sound_body20 V c t

end Cert.KernelIdeal.Fr

end
-- ==== Proof.KI.Reg21.lean ====
import proofs.«126270_j6725918785969_1_alg».proof.Proof.Gen.KernelIdeal.Launch
import proofs.«126270_j6725918785969_1_alg».proof.Proof.Gen.KernelIdeal.Skeleton
import proofs.«126270_j6725918785969_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 21: the row sums of `exp (x · yᵀ)` reduced over sixteen blocks of columns

Two input windows — the 4096 × 128 left factor whole, its block index never moving, and the right factor cut into
sixteen blocks of 256 rows — and one 4096 × 1 output window whose block index never moves. The kernel keeps a
4096 × 1 accumulator in a scratch buffer of its own: at the first grid point it zeroes it, at every point it adds,
row by row, the sum over the block's 256 columns of `exp (p / 1)`, where `p` is the product of the left factor and
the transposed right block (both rounded to bf16 before the product) and the division by the constant one is
entry by entry, and at the last point only it copies the accumulator into the output's staging buffer, which is
written back there and nowhere else. So the body has three control cases — first point, middle point, last
point —, the accumulator's contents are carried from point to point by the region invariant, and the output
window is idle everywhere but at the last point. Stated at a parameter `V`, the buffer contents the region is
entered from.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, decided over the grid -/

/-- The condition of the body's first conditional: the reduction coordinate is zero. -/
abbrev cond21_0 (i : grid21.Coords) : Prop := (Scalar.cmpi .ne (Scalar.extui (Scalar.cmpi .eq (BitVec.ofNat 32 (i 0).val) 0#32)) 0#32) = 1#1
/-- It holds at the first point only. -/
theorem hcond21_0 : ∀ t : Fin cfg21.N, cond21_0 (grid21.coords t) ↔ t.val % 16 = 0 :=
  (by decide +kernel : ∀ t : Fin grid21.N, cond21_0 (grid21.coords t) ↔ t.val % 16 = 0)

/-- The condition of the body's second conditional: the reduction coordinate is the last. -/
abbrev cond21_1 (i : grid21.Coords) : Prop := k21_cond2 i = 1#1
/-- It holds at the last point only. -/
theorem hcond21_1 : ∀ t : Fin cfg21.N, cond21_1 (grid21.coords t) ↔ t.val % 16 = 15 :=
  (by decide +kernel : ∀ t : Fin grid21.N, cond21_1 (grid21.coords t) ↔ t.val % 16 = 15)

/-! ## Where the windows are idle -/

/-- The two inputs are never idle. -/
theorem liveAt21_0 : ∀ t : Fin cfg21.N, cfg21.idle 0 (grid21.coords t) = false := by decide +kernel
theorem liveAt21_1 : ∀ t : Fin cfg21.N, cfg21.idle 1 (grid21.coords t) = false := by decide +kernel
/-- Where the second condition fails the output is idle and is not written back. -/
theorem idleAt21_2 : ∀ t : Fin cfg21.N, ¬cond21_1 (grid21.coords t) → cfg21.idle 2 (grid21.coords t) = true := by decide +kernel
theorem noFlush21_2 : ∀ t : Fin cfg21.N, ¬cond21_1 (grid21.coords t) → (cfg21.win 2).flush t = false := by decide +kernel
/-- Where it holds the output is live. -/
theorem liveAt21_2 : ∀ t : Fin cfg21.N, cond21_1 (grid21.coords t) → cfg21.idle 2 (grid21.coords t) = false := by decide +kernel

/-! ## The memrefs the body is called with -/

/-- One staging buffer of the output window, through which its contents are stated. -/
abbrev VO21_2 : View sig .tc .vmem S4096x1 .f32 := (Memref.whole cc21_stg2_0 : Memref sig .tc .vmem S4096x1 .f32).view
/-- Each window's current staging memref at point `t`, and its wholeness. -/
abbrev ms21_0 (t : Fin cfg21.N) : Memref sig .tc .vmem S4096x128 .f32 := win21_0.stage (cfg21.slots t 0)
abbrev hs21_0 (t : Fin cfg21.N) : (ms21_0 t).IsWhole := hstage21_0 ((cfg21.slots t 0).cast nbuf21_0)
abbrev ms21_1 (t : Fin cfg21.N) : Memref sig .tc .vmem S256x128 .f32 := win21_1.stage (cfg21.slots t 1)
abbrev hs21_1 (t : Fin cfg21.N) : (ms21_1 t).IsWhole := hstage21_1 ((cfg21.slots t 1).cast nbuf21_1)
abbrev ms21_2 (t : Fin cfg21.N) : Memref sig .tc .vmem S4096x1 .f32 := win21_2.stage (cfg21.slots t 2)
abbrev hs21_2 (t : Fin cfg21.N) : (ms21_2 t).IsWhole := hstage21_2 ((cfg21.slots t 2).cast nbuf21_2)
/-- The accumulator: a whole scoped buffer of the kernel's own, passed beside the windows. -/
abbrev scM21_0 : Memref sig .tc .vmem S4096x1 .f32 := Memref.whole cc21_scratch0
/-- The accumulator as a view: what it holds is stated through it. -/
abbrev VS21_0 : View sig .tc .vmem S4096x1 .f32 := scM21_0.view

/-- The region invariant of a body that need not describe its scratch, with the accumulator as a memref owned at
    some contents and every other scoped buffer unopened. -/
theorem PhiA21_eq (c : Dev nD) :
    (Pipeline.ΦA spec21 c : sProp 𝕄)
      = iprop(iprop(iprop((∃ d, owns (c : Thread nD τ) scM21_0 fullShare d))
          ∗ Pipeline.scopedRestBut (Ix := Unit) (Name := ℕ) (U := UR sig nD τ) (Lvl := ℕ) (Val := Elt F) spec21 c [cc21_scratch0]) ∗ (∃ r, prngReg c r)) := by
  unfold Pipeline.ΦA; rw [scopedRest21_split]; simp only [scM21_0, owns_whole]; try rfl

set_option maxHeartbeats 1000000 in
/-- THE FIRST POINT (the first conditional taken, the second not). On whole memrefs — the inputs' at their contents,
    the output's at contents handed back untouched, the accumulator at anything — the body runs to the continuation
    holding the inputs' and the output's as they were and the accumulator with its stores' pieces written (last
    first): zero, then zero plus the row sums of the exponentials of the two blocks' product. The pieces are what the run finds. -/
noncomputable def kernelRun21_A (c : Dev nD) (i : grid21.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : cond21_0 i) (hc1 : ¬cond21_1 i)
    (x0 : Vec F S4096x128 .f32) (x1 : Vec F S256x128 .f32) :
    Σ' (L2 : List (View.Piece (Elt F) S4096x1 .f32)), { LS0 : List (View.Piece (Elt F) S4096x1 .f32) //
      ∀ (xi2 : Vec F S4096x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc21__ssl_neg_kernel i arg1 harg1 arg2 harg2 arg3 harg3 arg4 harg4) K } := by
  refine ⟨[], ?_, fun xi2 E K => ?run⟩
  case run =>
    simp only [cc21__ssl_neg_kernel_eq_skeleton]; unfold cc21__ssl_neg_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A MIDDLE POINT (neither conditional taken). The accumulator comes in at the contents `xs0` the point before left
    and goes out with one piece written: `xs0` plus the row sums of the exponentials of the two blocks' product. The output is handed back untouched. -/
noncomputable def kernelRun21_B (c : Dev nD) (i : grid21.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond21_0 i) (hc1 : ¬cond21_1 i)
    (x0 : Vec F S4096x128 .f32) (x1 : Vec F S256x128 .f32) (xs0 : Vec F S4096x1 .f32) :
    Σ' (L2 : List (View.Piece (Elt F) S4096x1 .f32)), { LS0 : List (View.Piece (Elt F) S4096x1 .f32) //
      ∀ (xi2 : Vec F S4096x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc21__ssl_neg_kernel i arg1 harg1 arg2 harg2 arg3 harg3 arg4 harg4) K } := by
  refine ⟨[], ?_, fun xi2 E K => ?run⟩
  case run =>
    simp only [cc21__ssl_neg_kernel_eq_skeleton]; unfold cc21__ssl_neg_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- THE LAST POINT (the first conditional not taken, the second taken). The accumulator comes in at `xs0`, goes out
    with `xs0` plus the row sums written, and the output, at anything before, goes out with one piece written: the
    accumulator's final contents. -/
noncomputable def kernelRun21_C (c : Dev nD) (i : grid21.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond21_0 i) (hc1 : cond21_1 i)
    (x0 : Vec F S4096x128 .f32) (x1 : Vec F S256x128 .f32) (xs0 : Vec F S4096x1 .f32) :
    Σ' (L2 : List (View.Piece (Elt F) S4096x1 .f32)), { LS0 : List (View.Piece (Elt F) S4096x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc21__ssl_neg_kernel i arg1 harg1 arg2 harg2 arg3 harg3 arg4 harg4) K } := by
  refine ⟨?_, ?_, fun E K => ?run⟩
  case run =>
    simp only [cc21__ssl_neg_kernel_eq_skeleton]; unfold cc21__ssl_neg_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

variable (V : (c : Dev nD) → (b : Ref sig .tc) → Buf (Elt F) ((c : Thread nD τ).loc b))

/-! ## The windows' blocks -/

/-- Window `w`'s block at point `t`, read off its array as the region finds it. -/
def iblk21 (c : Dev nD) (w : Fin cfg21.W) (t : Fin cfg21.N) : ((cfg21.win w).xblock (cfg21.grid.coords t)).Idx → Elt F (cfg21.win w).elt :=
  ((cfg21.win w).blk t).view.read (Elt F) (V c (Pipeline.arrRef spec21 w))

/-- Each input's current staging buffer holds its block at every point, fetched there or not. -/
theorem before21_0_of {c : Dev nD} (dat : Dat τ (Elt F) Unit ℕ (UR sig nD τ) ℕ cfg21 c) (hA : dat.A 0 = V c (Pipeline.arrRef spec21 0))
    (hafter : ∀ t, dat.after 0 t = iblk21 V c 0 t) (t : Fin cfg21.N) (d) : dat.before 0 t d = iblk21 V c 0 t :=
  (dat.before_in_eq_fetched 0 rfl (fun _ => rfl) (fun _ _ _ => rfl) (fun t => by rw [hafter]; unfold Dat.blockOf iblk21; rw [hA]; try rfl) t d).trans
    (by unfold Dat.fetched Dat.blockOf iblk21; rw [hA]; try rfl)
theorem before21_1_of {c : Dev nD} (dat : Dat τ (Elt F) Unit ℕ (UR sig nD τ) ℕ cfg21 c) (hA : dat.A 1 = V c (Pipeline.arrRef spec21 1))
    (hafter : ∀ t, dat.after 1 t = iblk21 V c 1 t) (t : Fin cfg21.N) (d) : dat.before 1 t d = iblk21 V c 1 t :=
  (dat.before_in_eq_fetched 1 rfl (fun _ => rfl) (fun _ _ _ => rfl) (fun t => by rw [hafter]; unfold Dat.blockOf iblk21; rw [hA]; try rfl) t d).trans
    (by unfold Dat.fetched Dat.blockOf iblk21; rw [hA]; try rfl)

/-! ## What each case leaves in the output's buffer and in the accumulator -/

/-- The first point's stores cover the accumulator. -/
theorem scover21_A_0 (c : Dev nD) (i : grid21.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : cond21_0 i) (hc1 : ¬cond21_1 i)
    (x0 : Vec F S4096x128 .f32) (x1 : Vec F S256x128 .f32) (y : S4096x1.Idx) :
    ∃ pc ∈ (kernelRun21_A c i arg1 harg1 arg2 harg2 arg3 harg3 arg4 harg4 hc0 hc1 x0 x1).2.1, y ∈ pc.1.set :=
  View.cover_of_tiledL (kernelRun21_A c i arg1 harg1 arg2 harg2 arg3 harg3 arg4 harg4 hc0 hc1 x0 x1).2.1 S4096x1.size (by sl_kernel_rfl) y

/-- What the first point leaves in the accumulator: its pieces read back. -/
def sout21_A_0 (c : Dev nD) (i : grid21.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : cond21_0 i) (hc1 : ¬cond21_1 i)
    (x0 : Vec F S4096x128 .f32) (x1 : Vec F S256x128 .f32) : Vec F S4096x1 .f32 :=
  VS21_0.read (Elt F) (VS21_0.writes (Elt F) VS21_0.junk (kernelRun21_A c i arg1 harg1 arg2 harg2 arg3 harg3 arg4 harg4 hc0 hc1 x0 x1).2.1)

/-- A middle point's store covers the accumulator. -/
theorem scover21_B_0 (c : Dev nD) (i : grid21.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond21_0 i) (hc1 : ¬cond21_1 i)
    (x0 : Vec F S4096x128 .f32) (x1 : Vec F S256x128 .f32) (xs0 : Vec F S4096x1 .f32) (y : S4096x1.Idx) :
    ∃ pc ∈ (kernelRun21_B c i arg1 harg1 arg2 harg2 arg3 harg3 arg4 harg4 hc0 hc1 x0 x1 xs0).2.1, y ∈ pc.1.set :=
  View.cover_of_tiledL (kernelRun21_B c i arg1 harg1 arg2 harg2 arg3 harg3 arg4 harg4 hc0 hc1 x0 x1 xs0).2.1 S4096x1.size (by sl_kernel_rfl) y

/-- What a middle point leaves in the accumulator. -/
def sout21_B_0 (c : Dev nD) (i : grid21.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond21_0 i) (hc1 : ¬cond21_1 i)
    (x0 : Vec F S4096x128 .f32) (x1 : Vec F S256x128 .f32) (xs0 : Vec F S4096x1 .f32) : Vec F S4096x1 .f32 :=
  VS21_0.read (Elt F) (VS21_0.writes (Elt F) VS21_0.junk (kernelRun21_B c i arg1 harg1 arg2 harg2 arg3 harg3 arg4 harg4 hc0 hc1 x0 x1 xs0).2.1)

/-- The last point's store covers the output's buffer. -/
theorem cover21_C_2 (c : Dev nD) (i : grid21.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond21_0 i) (hc1 : cond21_1 i)
    (x0 : Vec F S4096x128 .f32) (x1 : Vec F S256x128 .f32) (xs0 : Vec F S4096x1 .f32) (y : S4096x1.Idx) :
    ∃ pc ∈ (kernelRun21_C c i arg1 harg1 arg2 harg2 arg3 harg3 arg4 harg4 hc0 hc1 x0 x1 xs0).1, y ∈ pc.1.set :=
  View.cover_of_tiledL (kernelRun21_C c i arg1 harg1 arg2 harg2 arg3 harg3 arg4 harg4 hc0 hc1 x0 x1 xs0).1 S4096x1.size (by sl_kernel_rfl) y

/-- What the last point leaves in the output's buffer. -/
def out21_C_2 (c : Dev nD) (i : grid21.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond21_0 i) (hc1 : cond21_1 i)
    (x0 : Vec F S4096x128 .f32) (x1 : Vec F S256x128 .f32) (xs0 : Vec F S4096x1 .f32) : Vec F S4096x1 .f32 :=
  VO21_2.read (Elt F) (VO21_2.writes (Elt F) VO21_2.junk (kernelRun21_C c i arg1 harg1 arg2 harg2 arg3 harg3 arg4 harg4 hc0 hc1 x0 x1 xs0).1)

/-- The last point's store covers the accumulator. -/
theorem scover21_C_0 (c : Dev nD) (i : grid21.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond21_0 i) (hc1 : cond21_1 i)
    (x0 : Vec F S4096x128 .f32) (x1 : Vec F S256x128 .f32) (xs0 : Vec F S4096x1 .f32) (y : S4096x1.Idx) :
    ∃ pc ∈ (kernelRun21_C c i arg1 harg1 arg2 harg2 arg3 harg3 arg4 harg4 hc0 hc1 x0 x1 xs0).2.1, y ∈ pc.1.set :=
  View.cover_of_tiledL (kernelRun21_C c i arg1 harg1 arg2 harg2 arg3 harg3 arg4 harg4 hc0 hc1 x0 x1 xs0).2.1 S4096x1.size (by sl_kernel_rfl) y

/-- What the last point leaves in the accumulator. -/
def sout21_C_0 (c : Dev nD) (i : grid21.Coords) (arg1 : Memref sig .tc .vmem S4096x128 .f32) (harg1 : arg1.IsWhole) (arg2 : Memref sig .tc .vmem S256x128 .f32) (harg2 : arg2.IsWhole) (arg3 : Memref sig .tc .vmem S4096x1 .f32) (harg3 : arg3.IsWhole) (arg4 : Memref sig .tc .vmem S4096x1 .f32) (harg4 : arg4.IsWhole) (hc0 : ¬cond21_0 i) (hc1 : cond21_1 i)
    (x0 : Vec F S4096x128 .f32) (x1 : Vec F S256x128 .f32) (xs0 : Vec F S4096x1 .f32) : Vec F S4096x1 .f32 :=
  VS21_0.read (Elt F) (VS21_0.writes (Elt F) VS21_0.junk (kernelRun21_C c i arg1 harg1 arg2 harg2 arg3 harg3 arg4 harg4 hc0 hc1 x0 x1 xs0).2.1)

/-! ## What the output's buffer and the accumulator hold after each point -/

/-- The output's buffer at a point that stores nothing into it: a placeholder nothing consults, the window being
    neither written back there nor read at the next point. -/
def idle21_2 : Vec F S4096x1 .f32 := VO21_2.read (Elt F) VO21_2.junk

/-- THE ACCUMULATION. What the output's staging buffer and the accumulator hold after the body at position `n`: the
    case the closed forms select at `n`, run at the point's memrefs and input blocks, the accumulator coming in at
    what position `n - 1` left in it. After the first point the accumulator is zero plus the first block's row sums;
    after a later point what it held plus that point's row sums; after the last point the output's buffer holds
    the whole sum. -/
def outsAt21 (c : Dev nD) : (n : ℕ) → n < cfg21.N → Vec F S4096x1 .f32 × Vec F S4096x1 .f32
  | 0, hn => (idle21_2, sout21_A_0 c (grid21.coords ⟨0, hn⟩) (ms21_0 ⟨0, hn⟩) (hs21_0 ⟨0, hn⟩) (ms21_1 ⟨0, hn⟩) (hs21_1 ⟨0, hn⟩) (ms21_2 ⟨0, hn⟩) (hs21_2 ⟨0, hn⟩) scM21_0 (Memref.isWhole_whole _) ((hcond21_0 ⟨0, hn⟩).mpr (Nat.zero_mod _)) (fun h => (fun h => by (try dsimp only at h); omega) ((hcond21_1 ⟨0, hn⟩).mp h)) (iblk21 V c 0 ⟨0, hn⟩) (iblk21 V c 1 ⟨0, hn⟩))
  | n + 1, hn =>
    if h0 : (n + 1) % 16 = 0 then
      if h1 : (n + 1) % 16 = 15 then
        False.elim (by omega)
      else
        (idle21_2, sout21_A_0 c (grid21.coords ⟨n + 1, hn⟩) (ms21_0 ⟨n + 1, hn⟩) (hs21_0 ⟨n + 1, hn⟩) (ms21_1 ⟨n + 1, hn⟩) (hs21_1 ⟨n + 1, hn⟩) (ms21_2 ⟨n + 1, hn⟩) (hs21_2 ⟨n + 1, hn⟩) scM21_0 (Memref.isWhole_whole _) ((hcond21_0 ⟨n + 1, hn⟩).mpr h0) (fun h => h1 ((hcond21_1 ⟨n + 1, hn⟩).mp h)) (iblk21 V c 0 ⟨n + 1, hn⟩) (iblk21 V c 1 ⟨n + 1, hn⟩))
    else
      if h1 : (n + 1) % 16 = 15 then
        (out21_C_2 c (grid21.coords ⟨n + 1, hn⟩) (ms21_0 ⟨n + 1, hn⟩) (hs21_0 ⟨n + 1, hn⟩) (ms21_1 ⟨n + 1, hn⟩) (hs21_1 ⟨n + 1, hn⟩) (ms21_2 ⟨n + 1, hn⟩) (hs21_2 ⟨n + 1, hn⟩) scM21_0 (Memref.isWhole_whole _) (fun h => h0 ((hcond21_0 ⟨n + 1, hn⟩).mp h)) ((hcond21_1 ⟨n + 1, hn⟩).mpr h1) (iblk21 V c 0 ⟨n + 1, hn⟩) (iblk21 V c 1 ⟨n + 1, hn⟩) (outsAt21 c n (Nat.lt_of_succ_lt hn)).2,
         sout21_C_0 c (grid21.coords ⟨n + 1, hn⟩) (ms21_0 ⟨n + 1, hn⟩) (hs21_0 ⟨n + 1, hn⟩) (ms21_1 ⟨n + 1, hn⟩) (hs21_1 ⟨n + 1, hn⟩) (ms21_2 ⟨n + 1, hn⟩) (hs21_2 ⟨n + 1, hn⟩) scM21_0 (Memref.isWhole_whole _) (fun h => h0 ((hcond21_0 ⟨n + 1, hn⟩).mp h)) ((hcond21_1 ⟨n + 1, hn⟩).mpr h1) (iblk21 V c 0 ⟨n + 1, hn⟩) (iblk21 V c 1 ⟨n + 1, hn⟩) (outsAt21 c n (Nat.lt_of_succ_lt hn)).2)
      else
        (idle21_2, sout21_B_0 c (grid21.coords ⟨n + 1, hn⟩) (ms21_0 ⟨n + 1, hn⟩) (hs21_0 ⟨n + 1, hn⟩) (ms21_1 ⟨n + 1, hn⟩) (hs21_1 ⟨n + 1, hn⟩) (ms21_2 ⟨n + 1, hn⟩) (hs21_2 ⟨n + 1, hn⟩) scM21_0 (Memref.isWhole_whole _) (fun h => h0 ((hcond21_0 ⟨n + 1, hn⟩).mp h)) (fun h => h1 ((hcond21_1 ⟨n + 1, hn⟩).mp h)) (iblk21 V c 0 ⟨n + 1, hn⟩) (iblk21 V c 1 ⟨n + 1, hn⟩) (outsAt21 c n (Nat.lt_of_succ_lt hn)).2)

/-- `outsAt21` at the first point. -/
theorem outsAt21_A (c : Dev nD) (t : Fin cfg21.N) (h0 : t.val % 16 = 0) (h1 : ¬t.val % 16 = 15) :
    outsAt21 V c t.val t.isLt = (idle21_2, sout21_A_0 c (grid21.coords t) (ms21_0 t) (hs21_0 t) (ms21_1 t) (hs21_1 t) (ms21_2 t) (hs21_2 t) scM21_0 (Memref.isWhole_whole _) ((hcond21_0 t).mpr h0) (fun h => h1 ((hcond21_1 t).mp h)) (iblk21 V c 0 t) (iblk21 V c 1 t)) := by
  obtain ⟨n, hn⟩ := t
  cases n with
  | zero => exact rfl
  | succ n => exact (dif_pos h0).trans ((dif_neg h1).trans rfl)

/-- `outsAt21` at a middle point: over what the point before left. -/
theorem outsAt21_B (c : Dev nD) (t : Fin cfg21.N) (h0 : ¬t.val % 16 = 0) (h1 : ¬t.val % 16 = 15) :
    outsAt21 V c t.val t.isLt = (idle21_2, sout21_B_0 c (grid21.coords t) (ms21_0 t) (hs21_0 t) (ms21_1 t) (hs21_1 t) (ms21_2 t) (hs21_2 t) scM21_0 (Memref.isWhole_whole _) (fun h => h0 ((hcond21_0 t).mp h)) (fun h => h1 ((hcond21_1 t).mp h)) (iblk21 V c 0 t) (iblk21 V c 1 t) (outsAt21 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt21` at the last point: over what the point before left. -/
theorem outsAt21_C (c : Dev nD) (t : Fin cfg21.N) (h0 : ¬t.val % 16 = 0) (h1 : t.val % 16 = 15) :
    outsAt21 V c t.val t.isLt = (out21_C_2 c (grid21.coords t) (ms21_0 t) (hs21_0 t) (ms21_1 t) (hs21_1 t) (ms21_2 t) (hs21_2 t) scM21_0 (Memref.isWhole_whole _) (fun h => h0 ((hcond21_0 t).mp h)) ((hcond21_1 t).mpr h1) (iblk21 V c 0 t) (iblk21 V c 1 t) (outsAt21 V c (t.val - 1) (Nat.lt_of_le_of_lt (Nat.sub_le _ _) t.isLt)).2,
      sout21_C_0 c (grid21.coords t) (ms21_0 t) (hs21_0 t) (ms21_1 t) (hs21_1 t) (ms21_2 t) (hs21_2 t) scM21_0 (Memref.isWhole_whole _) (fun h => h0 ((hcond21_0 t).mp h)) ((hcond21_1 t).mpr h1) (iblk21 V c 0 t) (iblk21 V c 1 t) (outsAt21 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point every scoped buffer that is no staging buffer at
    anything, and the generator register at some state; afterwards the accumulator at what the point before left in
    it (`outsAt21`'s second component), every other such buffer unopened, and the register. -/
def PhiS21 (c : Dev nD) : (n : ℕ) → n ≤ cfg21.N → sProp 𝕄
  | 0, _ => Pipeline.ΦA spec21 c
  | n + 1, hn => iprop(iprop(iprop(owns (c : Thread nD τ) scM21_0 fullShare ((outsAt21 V c n hn).2)) ∗ Pipeline.scopedRestBut (Ix := Unit) (Name := ℕ) (U := UR sig nD τ) (Lvl := ℕ) (Val := Elt F) spec21 c [cc21_scratch0]) ∗ (∃ r, prngReg c r))

theorem PhiS21_zero (c : Dev nD) (n : ℕ) (h : n ≤ cfg21.N) (hz : n = 0) : PhiS21 V c n h = Pipeline.ΦA spec21 c := by
  subst hz; rfl

theorem PhiS21_succ (c : Dev nD) (n : ℕ) (hn : n < cfg21.N) :
    PhiS21 V c (n + 1) hn = iprop(iprop(iprop(owns (c : Thread nD τ) scM21_0 fullShare ((outsAt21 V c n hn).2)) ∗ Pipeline.scopedRestBut (Ix := Unit) (Name := ℕ) (U := UR sig nD τ) (Lvl := ℕ) (Val := Elt F) spec21 c [cc21_scratch0]) ∗ (∃ r, prngReg c r)) := rfl

theorem PhiS21_pos (c : Dev nD) (n : ℕ) (h : n ≤ cfg21.N) (hz : n ≠ 0) :
    PhiS21 V c n h = iprop(iprop(iprop(owns (c : Thread nD τ) scM21_0 fullShare ((outsAt21 V c (n - 1) (by omega)).2)) ∗ Pipeline.scopedRestBut (Ix := Unit) (Name := ℕ) (U := UR sig nD τ) (Lvl := ℕ) (Val := Elt F) spec21 c [cc21_scratch0]) ∗ (∃ r, prngReg c r)) := by
  cases n with
  | zero => exact absurd rfl hz
  | succ n => rfl

/-! ## The pipeline's proof data -/

/-- The proof data on core `c`: the arrays as the region finds them; after the body at point `t` each input's
    buffer at its block and the output's at `outsAt21`'s first component; the invariant `PhiS21`; nothing owed; full
    shares. -/
def dat21 (c : Dev nD) : Dat τ (Elt F) Unit ℕ (UR sig nD τ) ℕ cfg21 c where
  A w := V c (Pipeline.arrRef spec21 w)
  after w t := match w with
    | ⟨0, _⟩ => iblk21 V c 0 t
    | ⟨1, _⟩ => iblk21 V c 1 t
    | ⟨2, _⟩ => (outsAt21 V c t.val t.isLt).1
  Φ t := PhiS21 V c t.val (Nat.le_of_lt_succ t.isLt)
  q _ := fullShare
  owed _ := 0

theorem A_eq21 (c : Dev nD) (w : Fin cfg21.W) : (dat21 V c).A w = V c (Pipeline.arrRef spec21 w) := by
  dsimp only [dat21]

theorem PhiS21_castSucc (c : Dev nD) (t : Fin cfg21.N) :
    (dat21 V c).Φ t.castSucc = PhiS21 V c t.val (Nat.le_of_lt t.isLt) := by
  dsimp only [dat21]; simp only [Fin.coe_castSucc]

theorem after21_0 (c : Dev nD) (t : Fin cfg21.N) : (dat21 V c).after 0 t = iblk21 V c 0 t := by dsimp only [dat21]
theorem after21_1 (c : Dev nD) (t : Fin cfg21.N) : (dat21 V c).after 1 t = iblk21 V c 1 t := by dsimp only [dat21]
theorem after21_2 (c : Dev nD) (t : Fin cfg21.N) : (dat21 V c).after 2 t = (outsAt21 V c t.val t.isLt).1 := by dsimp only [dat21]

theorem before21_0 (c : Dev nD) (t : Fin cfg21.N) (d) : (dat21 V c).before 0 t d = iblk21 V c 0 t :=
  before21_0_of V (dat21 V c) (A_eq21 V c 0) (after21_0 V c) t d
theorem before21_1 (c : Dev nD) (t : Fin cfg21.N) (d) : (dat21 V c).before 1 t d = iblk21 V c 1 t :=
  before21_1_of V (dat21 V c) (A_eq21 V c 1) (after21_1 V c) t d

/-! ## The body obligation -/

/-- What the body is called with at point `t`, -/
def bodyPre21 (c : Dev nD) (t : Fin cfg21.N) : sProp 𝕄 :=
  iprop((dat21 V c).Φ t.castSucc ∗ (dat21 V c).owesAt () t.castSucc
    ∗ (∃ d, owns (c : Thread nD τ) (ms21_0 t) fullShare ((dat21 V c).before 0 t d))
    ∗ (∃ d, owns (c : Thread nD τ) (ms21_1 t) fullShare ((dat21 V c).before 1 t d))
    ∗ (∃ d, owns (c : Thread nD τ) (ms21_2 t) fullShare ((dat21 V c).before 2 t d)))

/-- and what it returns. -/
def bodyPost21 (c : Dev nD) (t : Fin cfg21.N) : sProp 𝕄 :=
  iprop((dat21 V c).Φ t.succ ∗ (dat21 V c).owesAt () t.succ
    ∗ (dat21 V c).leavesExact 0 t
    ∗ (dat21 V c).leavesExact 1 t
    ∗ (dat21 V c).leavesExact 2 t)

set_option maxHeartbeats 4800000 in
/-- The body at any point. The inputs' memrefs hold their blocks; the closed forms say which case the point is in;
    the invariant hands the body the accumulator — at anything at the first point, at what the point before left
    afterwards —, every other scoped buffer and the generator register riding along unread, and takes the
    accumulator back at this point's contents; the output's buffer is handed back untouched except at the last
    point, where it is left at the whole sum; the core owes nothing throughout. -/
theorem sound_body21 (c : Dev nD) (t : Fin cfg21.N) :
    bodyPre21 V c t ⊢ wp frame (wpE (defs₀ (F := F)) Variants.none c none) Set.univ (bodyAt21 t) (fun _ => bodyPost21 V c t) := by
  unfold bodyPre21 bodyPost21 bodyAt21
  simp only [before21_0, before21_1]
  rw [show (dat21 V c).owesAt () t.succ = (dat21 V c).owesAt () t.castSucc from rfl]
  rw [show (dat21 V c).Φ t.succ = PhiS21 V c (t.val + 1) t.isLt from rfl, PhiS21_succ]
  have hN : t.val < 16 := lt_of_lt_of_eq t.isLt (show cfg21.N = 16 from N_21)
  rw [show (dat21 V c).leavesExact 0 t = owns (c : Thread nD τ) (ms21_0 t) fullShare ((dat21 V c).after 0 t) from by
    unfold Dat.leavesExact; rw [liveAt21_0 t], after21_0]
  rw [show (dat21 V c).leavesExact 1 t = owns (c : Thread nD τ) (ms21_1 t) fullShare ((dat21 V c).after 1 t) from by
    unfold Dat.leavesExact; rw [liveAt21_1 t], after21_1]
  by_cases h0 : t.val % 16 = 0
  · have h1 : ¬t.val % 16 = 15 := by omega
    have hz : t.val = 0 := by omega
    rw [Dat.leavesExact_idle (dat21 V c) 2 t (idleAt21_2 t (fun h => h1 ((hcond21_1 t).mp h))) (noFlush21_2 t (fun h => h1 ((hcond21_1 t).mp h)))]
    rw [outsAt21_A V c t h0 h1]
    unfold sout21_A_0; (try dsimp only)
    rw [PhiS21_castSucc V c t, PhiS21_zero V c _ _ hz, PhiA21_eq]
    iintro ⟨⟨⟨HS0, Hrest⟩, Hg⟩, Ho, ⟨%d0, H0⟩, ⟨%d1, H1⟩, ⟨%d2, H2⟩⟩
    iapply ((kernelRun21_A c (grid21.coords t) _ _ _ _ _ _ _ _ ((hcond21_0 t).mpr h0) (fun h => h1 ((hcond21_1 t).mp h)) (iblk21 V c 0 t) (iblk21 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover21_A_0 c _ _ _ _ _ _ _ _ _ _ _ _ _)
        iexact Hrest
      iexact Hg
    isplitl [Ho]; · iexact Ho
    isplitl [H0]; · iexact H0
    isplitl [H1]; · iexact H1
    iexists _; iexact H2
  · have hz : t.val ≠ 0 := by omega
    by_cases h1 : t.val % 16 = 15
    · rw [show (dat21 V c).leavesExact 2 t = owns (c : Thread nD τ) (ms21_2 t) fullShare ((dat21 V c).after 2 t) from by
        unfold Dat.leavesExact; rw [liveAt21_2 t ((hcond21_1 t).mpr h1)], after21_2]
      rw [outsAt21_C V c t h0 h1]
      unfold out21_C_2 sout21_C_0; (try dsimp only)
      rw [PhiS21_castSucc V c t, PhiS21_pos V c _ _ hz]
      iintro ⟨⟨⟨HS0, Hrest⟩, Hg⟩, Ho, ⟨%d0, H0⟩, ⟨%d1, H1⟩, ⟨%d2, H2⟩⟩
      iapply ((kernelRun21_C c (grid21.coords t) _ _ _ _ _ _ _ _ (fun h => h0 ((hcond21_0 t).mp h)) ((hcond21_1 t).mpr h1) (iblk21 V c 0 t) (iblk21 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover21_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover21_C_2 c _ _ _ _ _ _ _ _ _ _ _ _ _ _)
    · rw [Dat.leavesExact_idle (dat21 V c) 2 t (idleAt21_2 t (fun h => h1 ((hcond21_1 t).mp h))) (noFlush21_2 t (fun h => h1 ((hcond21_1 t).mp h)))]
      rw [outsAt21_B V c t h0 h1]
      unfold sout21_B_0; (try dsimp only)
      rw [PhiS21_castSucc V c t, PhiS21_pos V c _ _ hz]
      iintro ⟨⟨⟨HS0, Hrest⟩, Hg⟩, Ho, ⟨%d0, H0⟩, ⟨%d1, H1⟩, ⟨%d2, H2⟩⟩
      iapply ((kernelRun21_B c (grid21.coords t) _ _ _ _ _ _ _ _ (fun h => h0 ((hcond21_0 t).mp h)) (fun h => h1 ((hcond21_1 t).mp h)) (iblk21 V c 0 t) (iblk21 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover21_B_0 c _ _ _ _ _ _ _ _ _ _ _ _ _ _)
          iexact Hrest
        iexact Hg
      isplitl [Ho]; · iexact Ho
      isplitl [H0]; · iexact H0
      isplitl [H1]; · iexact H1
      iexists _; iexact H2

/-- The body obligation, at every point. -/
theorem body_obligation21 (c : Dev nD) : BodyObligation (dat21 (F := F) V c) (defs₀ (F := F)) Variants.none () Set.univ := fun t => by
  rw [bigSep_W21, bigSep_W21]
  exact sound_body21 V c t

/-! ## Into the invariant and out of it -/

/-- What the launch hands the region — the generator register, no prefetched table, the scoped buffers no window
    stages — is the invariant before the first point. -/
theorem hin21 (c : Dev nD) :
    iprop((∃ r, prngReg c r) ∗ Pipeline.prefHeld (pcfgs (F := F) 21).pre c (fun _ => fullShare) ((cfgs 21).toPCfg_adm).1 ∗ Pipeline.scopedRest spec21 c)
      ⊢ (dat21 V c).Φ 0 := by
  rw [show (dat21 V c).Φ 0 = PhiS21 V c 0 (Nat.zero_le _) from rfl, PhiS21_zero V c 0 _ rfl]; unfold Pipeline.ΦA
  iintro ⟨Hp, -, Hr⟩
  isplitl [Hr]; · iexact Hr
  iexact Hp

/-- After any point but the first the invariant gives the scoped buffers and the register back: the accumulator's
    named contents are forgotten. -/
theorem Phi_out21 (c : Dev nD) (t : Fin (cfg21.N + 1)) (ht : t.val ≠ 0) : (dat21 V c).Φ t ⊢ Pipeline.ΦA spec21 c := by
  rw [show (dat21 V c).Φ t = PhiS21 V c t.val (Nat.le_of_lt_succ t.isLt) from rfl, PhiS21_pos V c _ _ ht, PhiA21_eq]
  iintro ⟨⟨HS0, Hrest⟩, Hg⟩
  isplitl [HS0 Hrest]
  · isplitl [HS0]
    · iexists _; iexact HS0
    iexact Hrest
  iexact Hg

/-- The same after the last point, as the region hands it back: the register, no semaphore of the kernel's own, the
    scoped buffers. -/
theorem hout21 (c : Dev nD) :
    (dat21 V c).Φ (Fin.last cfg21.N)
      ⊢ iprop((∃ r, prngReg c r) ∗ Pipeline.ownSems0 (Ix := Unit) (Name := ℕ) (U := UR sig nD τ) (Lvl := ℕ) (Val := Elt F) (τ := τ) (fun k : PEmpty => k.elim) c ∗ Pipeline.scopedRest spec21 c) := by
  refine (Phi_out21 V c _ (by rw [Fin.val_last]; have : cfg21.N = 16 := N_21; omega)).trans ?_
  rw [Pipeline.ownSems0_none]; unfold Pipeline.ΦA
  iintro ⟨Hr, Hp⟩
  isplitl [Hp]; · iexact Hp
  isplitr; · iempintro
  iexact Hr

end Cert.KernelIdeal.Fr

end
-- ==== Proof.KI.Chain.lean ====
import proofs.«126270_j6725918785969_1_alg».proof.Proof.KI.RegionsP
import proofs.«126270_j6725918785969_1_alg».proof.Proof.KI.Reg0
import proofs.«126270_j6725918785969_1_alg».proof.Proof.KI.Reg1
import proofs.«126270_j6725918785969_1_alg».proof.Proof.KI.Reg2
import proofs.«126270_j6725918785969_1_alg».proof.Proof.KI.Reg3
import proofs.«126270_j6725918785969_1_alg».proof.Proof.KI.Reg4
import proofs.«126270_j6725918785969_1_alg».proof.Proof.KI.Reg5
import proofs.«126270_j6725918785969_1_alg».proof.Proof.KI.Reg6
import proofs.«126270_j6725918785969_1_alg».proof.Proof.KI.Reg7
import proofs.«126270_j6725918785969_1_alg».proof.Proof.KI.Reg8
import proofs.«126270_j6725918785969_1_alg».proof.Proof.KI.Reg9
import proofs.«126270_j6725918785969_1_alg».proof.Proof.KI.Reg10
import proofs.«126270_j6725918785969_1_alg».proof.Proof.KI.Reg11
import proofs.«126270_j6725918785969_1_alg».proof.Proof.KI.Reg12
import proofs.«126270_j6725918785969_1_alg».proof.Proof.KI.Reg13
import proofs.«126270_j6725918785969_1_alg».proof.Proof.KI.Reg14
import proofs.«126270_j6725918785969_1_alg».proof.Proof.KI.Reg15
import proofs.«126270_j6725918785969_1_alg».proof.Proof.KI.Reg16
import proofs.«126270_j6725918785969_1_alg».proof.Proof.KI.Reg17
import proofs.«126270_j6725918785969_1_alg».proof.Proof.KI.Reg18
import proofs.«126270_j6725918785969_1_alg».proof.Proof.KI.Reg19
import proofs.«126270_j6725918785969_1_alg».proof.Proof.KI.Reg20
import proofs.«126270_j6725918785969_1_alg».proof.Proof.KI.Reg21

/-!
# The buffer contents between the program's items

The program is a list of 60 items: 22 kernel regions among 38 stretches of host operations. Core `c`'s unscoped
buffers hold, after item `J - 1`, the contents `WcJ c`: the launch memory (`Wc0`); after a host stretch the
stretch's operations applied to what it found; after a region the entry contents with the region's output array
replaced by what the pipeline's write-backs leave there (the proof data's `arrAt` at the last grid point). The
unknowns of the conditional frame are instantiated at this chain (`outsF`), and each of its valuations is the
chain's (`VJ_eq`).
-/

set_option maxRecDepth 16384

noncomputable section

namespace Cert.KernelIdeal.Fr

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- Core `c`'s unscoped buffers at launch. -/
abbrev Wc0 (c : Dev nD) : Valuation τ sig (Elt F) := fun b => m (c, b)
/-- The same read at the TensorCore's references. -/
abbrev Vc0 : (c : Dev nD) → (b : Ref sig .tc) → Buf (Elt F) ((c : Thread nD τ).loc b) := fun c b => Wc0 m c b
/-- After region 0: `main_v0` at what the pipeline's write-backs leave, every other buffer as entered. -/
def Wc1 (c : Dev nD) : Valuation τ sig (Elt F) :=
  Function.update (Wc0 m c) main_v0 ((dat0 (Vc0 m) c).arrAt 2 cfg0.N)
abbrev Vc1 : (c : Dev nD) → (b : Ref sig .tc) → Buf (Elt F) ((c : Thread nD τ).loc b) := fun c b => Wc1 m c b
theorem Wc1_out (c : Dev nD) : Wc1 m c main_v0 = (dat0 (Vc0 m) c).arrAt 2 cfg0.N := by
  unfold Wc1; exact Function.update_self ..
/-- After region 1: `main_v1` at what the pipeline's write-backs leave, every other buffer as entered. -/
def Wc2 (c : Dev nD) : Valuation τ sig (Elt F) :=
  Function.update (Wc1 m c) main_v1 ((dat1 (Vc1 m) c).arrAt 2 cfg1.N)
abbrev Vc2 : (c : Dev nD) → (b : Ref sig .tc) → Buf (Elt F) ((c : Thread nD τ).loc b) := fun c b => Wc2 m c b
theorem Wc2_out (c : Dev nD) : Wc2 m c main_v1 = (dat1 (Vc1 m) c).arrAt 2 cfg1.N := by
  unfold Wc2; exact Function.update_self ..
/-- After the host stretch `hostOps2`. -/
abbrev Wc3 (c : Dev nD) : Valuation τ sig (Elt F) := StableHlo.after hostOps2 (Wc2 m c)
abbrev Vc3 : (c : Dev nD) → (b : Ref sig .tc) → Buf (Elt F) ((c : Thread nD τ).loc b) := fun c b => Wc3 m c b
/-- After region 2: `main_v28` at what the pipeline's write-backs leave, every other buffer as entered. -/
def Wc4 (c : Dev nD) : Valuation τ sig (Elt F) :=
  Function.update (Wc3 m c) main_v28 ((dat2 (Vc3 m) c).arrAt 1 cfg2.N)
abbrev Vc4 : (c : Dev nD) → (b : Ref sig .tc) → Buf (Elt F) ((c : Thread nD τ).loc b) := fun c b => Wc4 m c b
theorem Wc4_out (c : Dev nD) : Wc4 m c main_v28 = (dat2 (Vc3 m) c).arrAt 1 cfg2.N := by
  unfold Wc4; exact Function.update_self ..
/-- After region 3: `main_v29` at what the pipeline's write-backs leave, every other buffer as entered. -/
def Wc5 (c : Dev nD) : Valuation τ sig (Elt F) :=
  Function.update (Wc4 m c) main_v29 ((dat3 (Vc4 m) c).arrAt 1 cfg3.N)
abbrev Vc5 : (c : Dev nD) → (b : Ref sig .tc) → Buf (Elt F) ((c : Thread nD τ).loc b) := fun c b => Wc5 m c b
theorem Wc5_out (c : Dev nD) : Wc5 m c main_v29 = (dat3 (Vc4 m) c).arrAt 1 cfg3.N := by
  unfold Wc5; exact Function.update_self ..
/-- After the host stretch `hostOps4`. -/
abbrev Wc6 (c : Dev nD) : Valuation τ sig (Elt F) := StableHlo.after hostOps4 (Wc5 m c)
abbrev Vc6 : (c : Dev nD) → (b : Ref sig .tc) → Buf (Elt F) ((c : Thread nD τ).loc b) := fun c b => Wc6 m c b
/-- After region 4: `main_v32` at what the pipeline's write-backs leave, every other buffer as entered. -/
def Wc7 (c : Dev nD) : Valuation τ sig (Elt F) :=
  Function.update (Wc6 m c) main_v32 ((dat4 (Vc6 m) c).arrAt 2 cfg4.N)
abbrev Vc7 : (c : Dev nD) → (b : Ref sig .tc) → Buf (Elt F) ((c : Thread nD τ).loc b) := fun c b => Wc7 m c b
theorem Wc7_out (c : Dev nD) : Wc7 m c main_v32 = (dat4 (Vc6 m) c).arrAt 2 cfg4.N := by
  unfold Wc7; exact Function.update_self ..
/-- After the host stretch `hostOps5`. -/
abbrev Wc8 (c : Dev nD) : Valuation τ sig (Elt F) := StableHlo.after hostOps5 (Wc7 m c)
abbrev Vc8 : (c : Dev nD) → (b : Ref sig .tc) → Buf (Elt F) ((c : Thread nD τ).loc b) := fun c b => Wc8 m c b
/-- After region 5: `main_v57` at what the pipeline's write-backs leave, every other buffer as entered. -/
def Wc9 (c : Dev nD) : Valuation τ sig (Elt F) :=
  Function.update (Wc8 m c) main_v57 ((dat5 (Vc8 m) c).arrAt 2 cfg5.N)
abbrev Vc9 : (c : Dev nD) → (b : Ref sig .tc) → Buf (Elt F) ((c : Thread nD τ).loc b) := fun c b => Wc9 m c b
theorem Wc9_out (c : Dev nD) : Wc9 m c main_v57 = (dat5 (Vc8 m) c).arrAt 2 cfg5.N := by
  unfold Wc9; exact Function.update_self ..
/-- After the host stretch `hostOps6`. -/
abbrev Wc10 (c : Dev nD) : Valuation τ sig (Elt F) := StableHlo.after hostOps6 (Wc9 m c)
abbrev Vc10 : (c : Dev nD) → (b : Ref sig .tc) → Buf (Elt F) ((c : Thread nD τ).loc b) := fun c b => Wc10 m c b
/-- After region 6: `main_v60` at what the pipeline's write-backs leave, every other buffer as entered. -/
def Wc11 (c : Dev nD) : Valuation τ sig (Elt F) :=
  Function.update (Wc10 m c) main_v60 ((dat6 (Vc10 m) c).arrAt 2 cfg6.N)
abbrev Vc11 : (c : Dev nD) → (b : Ref sig .tc) → Buf (Elt F) ((c : Thread nD τ).loc b) := fun c b => Wc11 m c b
theorem Wc11_out (c : Dev nD) : Wc11 m c main_v60 = (dat6 (Vc10 m) c).arrAt 2 cfg6.N := by
  unfold Wc11; exact Function.update_self ..
/-- After the host stretch `hostOps7`. -/
abbrev Wc12 (c : Dev nD) : Valuation τ sig (Elt F) := StableHlo.after hostOps7 (Wc11 m c)
abbrev Vc12 : (c : Dev nD) → (b : Ref sig .tc) → Buf (Elt F) ((c : Thread nD τ).loc b) := fun c b => Wc12 m c b
/-- After region 7: `main_v85` at what the pipeline's write-backs leave, every other buffer as entered. -/
def Wc13 (c : Dev nD) : Valuation τ sig (Elt F) :=
  Function.update (Wc12 m c) main_v85 ((dat7 (Vc12 m) c).arrAt 2 cfg7.N)
abbrev Vc13 : (c : Dev nD) → (b : Ref sig .tc) → Buf (Elt F) ((c : Thread nD τ).loc b) := fun c b => Wc13 m c b
theorem Wc13_out (c : Dev nD) : Wc13 m c main_v85 = (dat7 (Vc12 m) c).arrAt 2 cfg7.N := by
  unfold Wc13; exact Function.update_self ..
/-- After the host stretch `hostOps8`. -/
abbrev Wc14 (c : Dev nD) : Valuation τ sig (Elt F) := StableHlo.after hostOps8 (Wc13 m c)
abbrev Vc14 : (c : Dev nD) → (b : Ref sig .tc) → Buf (Elt F) ((c : Thread nD τ).loc b) := fun c b => Wc14 m c b
/-- After region 8: `main_v116` at what the pipeline's write-backs leave, every other buffer as entered. -/
def Wc15 (c : Dev nD) : Valuation τ sig (Elt F) :=
  Function.update (Wc14 m c) main_v116 ((dat8 (Vc14 m) c).arrAt 1 cfg8.N)
abbrev Vc15 : (c : Dev nD) → (b : Ref sig .tc) → Buf (Elt F) ((c : Thread nD τ).loc b) := fun c b => Wc15 m c b
theorem Wc15_out (c : Dev nD) : Wc15 m c main_v116 = (dat8 (Vc14 m) c).arrAt 1 cfg8.N := by
  unfold Wc15; exact Function.update_self ..
/-- After region 9: `main_v117` at what the pipeline's write-backs leave, every other buffer as entered. -/
def Wc16 (c : Dev nD) : Valuation τ sig (Elt F) :=
  Function.update (Wc15 m c) main_v117 ((dat9 (Vc15 m) c).arrAt 1 cfg9.N)
abbrev Vc16 : (c : Dev nD) → (b : Ref sig .tc) → Buf (Elt F) ((c : Thread nD τ).loc b) := fun c b => Wc16 m c b
theorem Wc16_out (c : Dev nD) : Wc16 m c main_v117 = (dat9 (Vc15 m) c).arrAt 1 cfg9.N := by
  unfold Wc16; exact Function.update_self ..
/-- After the host stretch `hostOps10`. -/
abbrev Wc17 (c : Dev nD) : Valuation τ sig (Elt F) := StableHlo.after hostOps10 (Wc16 m c)
abbrev Vc17 : (c : Dev nD) → (b : Ref sig .tc) → Buf (Elt F) ((c : Thread nD τ).loc b) := fun c b => Wc17 m c b
/-- After region 10: `main_v120` at what the pipeline's write-backs leave, every other buffer as entered. -/
def Wc18 (c : Dev nD) : Valuation τ sig (Elt F) :=
  Function.update (Wc17 m c) main_v120 ((dat10 (Vc17 m) c).arrAt 2 cfg10.N)
abbrev Vc18 : (c : Dev nD) → (b : Ref sig .tc) → Buf (Elt F) ((c : Thread nD τ).loc b) := fun c b => Wc18 m c b
theorem Wc18_out (c : Dev nD) : Wc18 m c main_v120 = (dat10 (Vc17 m) c).arrAt 2 cfg10.N := by
  unfold Wc18; exact Function.update_self ..
/-- After the host stretch `hostOps11`. -/
abbrev Wc19 (c : Dev nD) : Valuation τ sig (Elt F) := StableHlo.after hostOps11 (Wc18 m c)
abbrev Vc19 : (c : Dev nD) → (b : Ref sig .tc) → Buf (Elt F) ((c : Thread nD τ).loc b) := fun c b => Wc19 m c b
/-- After region 11: `main_v145` at what the pipeline's write-backs leave, every other buffer as entered. -/
def Wc20 (c : Dev nD) : Valuation τ sig (Elt F) :=
  Function.update (Wc19 m c) main_v145 ((dat11 (Vc19 m) c).arrAt 2 cfg11.N)
abbrev Vc20 : (c : Dev nD) → (b : Ref sig .tc) → Buf (Elt F) ((c : Thread nD τ).loc b) := fun c b => Wc20 m c b
theorem Wc20_out (c : Dev nD) : Wc20 m c main_v145 = (dat11 (Vc19 m) c).arrAt 2 cfg11.N := by
  unfold Wc20; exact Function.update_self ..
/-- After the host stretch `hostOps12`. -/
abbrev Wc21 (c : Dev nD) : Valuation τ sig (Elt F) := StableHlo.after hostOps12 (Wc20 m c)
abbrev Vc21 : (c : Dev nD) → (b : Ref sig .tc) → Buf (Elt F) ((c : Thread nD τ).loc b) := fun c b => Wc21 m c b
/-- After region 12: `main_v148` at what the pipeline's write-backs leave, every other buffer as entered. -/
def Wc22 (c : Dev nD) : Valuation τ sig (Elt F) :=
  Function.update (Wc21 m c) main_v148 ((dat12 (Vc21 m) c).arrAt 2 cfg12.N)
abbrev Vc22 : (c : Dev nD) → (b : Ref sig .tc) → Buf (Elt F) ((c : Thread nD τ).loc b) := fun c b => Wc22 m c b
theorem Wc22_out (c : Dev nD) : Wc22 m c main_v148 = (dat12 (Vc21 m) c).arrAt 2 cfg12.N := by
  unfold Wc22; exact Function.update_self ..
/-- After the host stretch `hostOps13`. -/
abbrev Wc23 (c : Dev nD) : Valuation τ sig (Elt F) := StableHlo.after hostOps13 (Wc22 m c)
abbrev Vc23 : (c : Dev nD) → (b : Ref sig .tc) → Buf (Elt F) ((c : Thread nD τ).loc b) := fun c b => Wc23 m c b
/-- After region 13: `main_v173` at what the pipeline's write-backs leave, every other buffer as entered. -/
def Wc24 (c : Dev nD) : Valuation τ sig (Elt F) :=
  Function.update (Wc23 m c) main_v173 ((dat13 (Vc23 m) c).arrAt 2 cfg13.N)
abbrev Vc24 : (c : Dev nD) → (b : Ref sig .tc) → Buf (Elt F) ((c : Thread nD τ).loc b) := fun c b => Wc24 m c b
theorem Wc24_out (c : Dev nD) : Wc24 m c main_v173 = (dat13 (Vc23 m) c).arrAt 2 cfg13.N := by
  unfold Wc24; exact Function.update_self ..
/-- After the host stretch `hostOps14`. -/
abbrev Wc25 (c : Dev nD) : Valuation τ sig (Elt F) := StableHlo.after hostOps14 (Wc24 m c)
abbrev Vc25 : (c : Dev nD) → (b : Ref sig .tc) → Buf (Elt F) ((c : Thread nD τ).loc b) := fun c b => Wc25 m c b
/-- After the host stretch `hostOps14_1`. -/
abbrev Wc26 (c : Dev nD) : Valuation τ sig (Elt F) := StableHlo.after hostOps14_1 (Wc25 m c)
abbrev Vc26 : (c : Dev nD) → (b : Ref sig .tc) → Buf (Elt F) ((c : Thread nD τ).loc b) := fun c b => Wc26 m c b
/-- After the host stretch `hostOps14_2`. -/
abbrev Wc27 (c : Dev nD) : Valuation τ sig (Elt F) := StableHlo.after hostOps14_2 (Wc26 m c)
abbrev Vc27 : (c : Dev nD) → (b : Ref sig .tc) → Buf (Elt F) ((c : Thread nD τ).loc b) := fun c b => Wc27 m c b
/-- After the host stretch `hostOps14_3`. -/
abbrev Wc28 (c : Dev nD) : Valuation τ sig (Elt F) := StableHlo.after hostOps14_3 (Wc27 m c)
abbrev Vc28 : (c : Dev nD) → (b : Ref sig .tc) → Buf (Elt F) ((c : Thread nD τ).loc b) := fun c b => Wc28 m c b
/-- After the host stretch `hostOps14_4`. -/
abbrev Wc29 (c : Dev nD) : Valuation τ sig (Elt F) := StableHlo.after hostOps14_4 (Wc28 m c)
abbrev Vc29 : (c : Dev nD) → (b : Ref sig .tc) → Buf (Elt F) ((c : Thread nD τ).loc b) := fun c b => Wc29 m c b
/-- After the host stretch `hostOps14_5`. -/
abbrev Wc30 (c : Dev nD) : Valuation τ sig (Elt F) := StableHlo.after hostOps14_5 (Wc29 m c)
abbrev Vc30 : (c : Dev nD) → (b : Ref sig .tc) → Buf (Elt F) ((c : Thread nD τ).loc b) := fun c b => Wc30 m c b
/-- After the host stretch `hostOps14_6`. -/
abbrev Wc31 (c : Dev nD) : Valuation τ sig (Elt F) := StableHlo.after hostOps14_6 (Wc30 m c)
abbrev Vc31 : (c : Dev nD) → (b : Ref sig .tc) → Buf (Elt F) ((c : Thread nD τ).loc b) := fun c b => Wc31 m c b
/-- After the host stretch `hostOps14_7`. -/
abbrev Wc32 (c : Dev nD) : Valuation τ sig (Elt F) := StableHlo.after hostOps14_7 (Wc31 m c)
abbrev Vc32 : (c : Dev nD) → (b : Ref sig .tc) → Buf (Elt F) ((c : Thread nD τ).loc b) := fun c b => Wc32 m c b
/-- After region 14: `main_v230` at what the pipeline's write-backs leave, every other buffer as entered. -/
def Wc33 (c : Dev nD) : Valuation τ sig (Elt F) :=
  Function.update (Wc32 m c) main_v230 ((dat14 (Vc32 m) c).arrAt 2 cfg14.N)
abbrev Vc33 : (c : Dev nD) → (b : Ref sig .tc) → Buf (Elt F) ((c : Thread nD τ).loc b) := fun c b => Wc33 m c b
theorem Wc33_out (c : Dev nD) : Wc33 m c main_v230 = (dat14 (Vc32 m) c).arrAt 2 cfg14.N := by
  unfold Wc33; exact Function.update_self ..
/-- After the host stretch `hostOps15`. -/
abbrev Wc34 (c : Dev nD) : Valuation τ sig (Elt F) := StableHlo.after hostOps15 (Wc33 m c)
abbrev Vc34 : (c : Dev nD) → (b : Ref sig .tc) → Buf (Elt F) ((c : Thread nD τ).loc b) := fun c b => Wc34 m c b
/-- After region 15: `main_v236` at what the pipeline's write-backs leave, every other buffer as entered. -/
def Wc35 (c : Dev nD) : Valuation τ sig (Elt F) :=
  Function.update (Wc34 m c) main_v236 ((dat15 (Vc34 m) c).arrAt 2 cfg15.N)
abbrev Vc35 : (c : Dev nD) → (b : Ref sig .tc) → Buf (Elt F) ((c : Thread nD τ).loc b) := fun c b => Wc35 m c b
theorem Wc35_out (c : Dev nD) : Wc35 m c main_v236 = (dat15 (Vc34 m) c).arrAt 2 cfg15.N := by
  unfold Wc35; exact Function.update_self ..
/-- After the host stretch `hostOps16`. -/
abbrev Wc36 (c : Dev nD) : Valuation τ sig (Elt F) := StableHlo.after hostOps16 (Wc35 m c)
abbrev Vc36 : (c : Dev nD) → (b : Ref sig .tc) → Buf (Elt F) ((c : Thread nD τ).loc b) := fun c b => Wc36 m c b
/-- After the host stretch `hostOps16_1`. -/
abbrev Wc37 (c : Dev nD) : Valuation τ sig (Elt F) := StableHlo.after hostOps16_1 (Wc36 m c)
abbrev Vc37 : (c : Dev nD) → (b : Ref sig .tc) → Buf (Elt F) ((c : Thread nD τ).loc b) := fun c b => Wc37 m c b
/-- After the host stretch `hostOps16_2`. -/
abbrev Wc38 (c : Dev nD) : Valuation τ sig (Elt F) := StableHlo.after hostOps16_2 (Wc37 m c)
abbrev Vc38 : (c : Dev nD) → (b : Ref sig .tc) → Buf (Elt F) ((c : Thread nD τ).loc b) := fun c b => Wc38 m c b
/-- After the host stretch `hostOps16_3`. -/
abbrev Wc39 (c : Dev nD) : Valuation τ sig (Elt F) := StableHlo.after hostOps16_3 (Wc38 m c)
abbrev Vc39 : (c : Dev nD) → (b : Ref sig .tc) → Buf (Elt F) ((c : Thread nD τ).loc b) := fun c b => Wc39 m c b
/-- After the host stretch `hostOps16_4`. -/
abbrev Wc40 (c : Dev nD) : Valuation τ sig (Elt F) := StableHlo.after hostOps16_4 (Wc39 m c)
abbrev Vc40 : (c : Dev nD) → (b : Ref sig .tc) → Buf (Elt F) ((c : Thread nD τ).loc b) := fun c b => Wc40 m c b
/-- After region 16: `main_v273` at what the pipeline's write-backs leave, every other buffer as entered. -/
def Wc41 (c : Dev nD) : Valuation τ sig (Elt F) :=
  Function.update (Wc40 m c) main_v273 ((dat16 (Vc40 m) c).arrAt 2 cfg16.N)
abbrev Vc41 : (c : Dev nD) → (b : Ref sig .tc) → Buf (Elt F) ((c : Thread nD τ).loc b) := fun c b => Wc41 m c b
theorem Wc41_out (c : Dev nD) : Wc41 m c main_v273 = (dat16 (Vc40 m) c).arrAt 2 cfg16.N := by
  unfold Wc41; exact Function.update_self ..
/-- After the host stretch `hostOps17`. -/
abbrev Wc42 (c : Dev nD) : Valuation τ sig (Elt F) := StableHlo.after hostOps17 (Wc41 m c)
abbrev Vc42 : (c : Dev nD) → (b : Ref sig .tc) → Buf (Elt F) ((c : Thread nD τ).loc b) := fun c b => Wc42 m c b
/-- After region 17: `main_v279` at what the pipeline's write-backs leave, every other buffer as entered. -/
def Wc43 (c : Dev nD) : Valuation τ sig (Elt F) :=
  Function.update (Wc42 m c) main_v279 ((dat17 (Vc42 m) c).arrAt 2 cfg17.N)
abbrev Vc43 : (c : Dev nD) → (b : Ref sig .tc) → Buf (Elt F) ((c : Thread nD τ).loc b) := fun c b => Wc43 m c b
theorem Wc43_out (c : Dev nD) : Wc43 m c main_v279 = (dat17 (Vc42 m) c).arrAt 2 cfg17.N := by
  unfold Wc43; exact Function.update_self ..
/-- After the host stretch `hostOps18`. -/
abbrev Wc44 (c : Dev nD) : Valuation τ sig (Elt F) := StableHlo.after hostOps18 (Wc43 m c)
abbrev Vc44 : (c : Dev nD) → (b : Ref sig .tc) → Buf (Elt F) ((c : Thread nD τ).loc b) := fun c b => Wc44 m c b
/-- After the host stretch `hostOps18_1`. -/
abbrev Wc45 (c : Dev nD) : Valuation τ sig (Elt F) := StableHlo.after hostOps18_1 (Wc44 m c)
abbrev Vc45 : (c : Dev nD) → (b : Ref sig .tc) → Buf (Elt F) ((c : Thread nD τ).loc b) := fun c b => Wc45 m c b
/-- After the host stretch `hostOps18_2`. -/
abbrev Wc46 (c : Dev nD) : Valuation τ sig (Elt F) := StableHlo.after hostOps18_2 (Wc45 m c)
abbrev Vc46 : (c : Dev nD) → (b : Ref sig .tc) → Buf (Elt F) ((c : Thread nD τ).loc b) := fun c b => Wc46 m c b
/-- After the host stretch `hostOps18_3`. -/
abbrev Wc47 (c : Dev nD) : Valuation τ sig (Elt F) := StableHlo.after hostOps18_3 (Wc46 m c)
abbrev Vc47 : (c : Dev nD) → (b : Ref sig .tc) → Buf (Elt F) ((c : Thread nD τ).loc b) := fun c b => Wc47 m c b
/-- After the host stretch `hostOps18_4`. -/
abbrev Wc48 (c : Dev nD) : Valuation τ sig (Elt F) := StableHlo.after hostOps18_4 (Wc47 m c)
abbrev Vc48 : (c : Dev nD) → (b : Ref sig .tc) → Buf (Elt F) ((c : Thread nD τ).loc b) := fun c b => Wc48 m c b
/-- After region 18: `main_v316` at what the pipeline's write-backs leave, every other buffer as entered. -/
def Wc49 (c : Dev nD) : Valuation τ sig (Elt F) :=
  Function.update (Wc48 m c) main_v316 ((dat18 (Vc48 m) c).arrAt 2 cfg18.N)
abbrev Vc49 : (c : Dev nD) → (b : Ref sig .tc) → Buf (Elt F) ((c : Thread nD τ).loc b) := fun c b => Wc49 m c b
theorem Wc49_out (c : Dev nD) : Wc49 m c main_v316 = (dat18 (Vc48 m) c).arrAt 2 cfg18.N := by
  unfold Wc49; exact Function.update_self ..
/-- After the host stretch `hostOps19`. -/
abbrev Wc50 (c : Dev nD) : Valuation τ sig (Elt F) := StableHlo.after hostOps19 (Wc49 m c)
abbrev Vc50 : (c : Dev nD) → (b : Ref sig .tc) → Buf (Elt F) ((c : Thread nD τ).loc b) := fun c b => Wc50 m c b
/-- After region 19: `main_v322` at what the pipeline's write-backs leave, every other buffer as entered. -/
def Wc51 (c : Dev nD) : Valuation τ sig (Elt F) :=
  Function.update (Wc50 m c) main_v322 ((dat19 (Vc50 m) c).arrAt 2 cfg19.N)
abbrev Vc51 : (c : Dev nD) → (b : Ref sig .tc) → Buf (Elt F) ((c : Thread nD τ).loc b) := fun c b => Wc51 m c b
theorem Wc51_out (c : Dev nD) : Wc51 m c main_v322 = (dat19 (Vc50 m) c).arrAt 2 cfg19.N := by
  unfold Wc51; exact Function.update_self ..
/-- After the host stretch `hostOps20`. -/
abbrev Wc52 (c : Dev nD) : Valuation τ sig (Elt F) := StableHlo.after hostOps20 (Wc51 m c)
abbrev Vc52 : (c : Dev nD) → (b : Ref sig .tc) → Buf (Elt F) ((c : Thread nD τ).loc b) := fun c b => Wc52 m c b
/-- After the host stretch `hostOps20_1`. -/
abbrev Wc53 (c : Dev nD) : Valuation τ sig (Elt F) := StableHlo.after hostOps20_1 (Wc52 m c)
abbrev Vc53 : (c : Dev nD) → (b : Ref sig .tc) → Buf (Elt F) ((c : Thread nD τ).loc b) := fun c b => Wc53 m c b
/-- After the host stretch `hostOps20_2`. -/
abbrev Wc54 (c : Dev nD) : Valuation τ sig (Elt F) := StableHlo.after hostOps20_2 (Wc53 m c)
abbrev Vc54 : (c : Dev nD) → (b : Ref sig .tc) → Buf (Elt F) ((c : Thread nD τ).loc b) := fun c b => Wc54 m c b
/-- After the host stretch `hostOps20_3`. -/
abbrev Wc55 (c : Dev nD) : Valuation τ sig (Elt F) := StableHlo.after hostOps20_3 (Wc54 m c)
abbrev Vc55 : (c : Dev nD) → (b : Ref sig .tc) → Buf (Elt F) ((c : Thread nD τ).loc b) := fun c b => Wc55 m c b
/-- After the host stretch `hostOps20_4`. -/
abbrev Wc56 (c : Dev nD) : Valuation τ sig (Elt F) := StableHlo.after hostOps20_4 (Wc55 m c)
abbrev Vc56 : (c : Dev nD) → (b : Ref sig .tc) → Buf (Elt F) ((c : Thread nD τ).loc b) := fun c b => Wc56 m c b
/-- After region 20: `main_v359` at what the pipeline's write-backs leave, every other buffer as entered. -/
def Wc57 (c : Dev nD) : Valuation τ sig (Elt F) :=
  Function.update (Wc56 m c) main_v359 ((dat20 (Vc56 m) c).arrAt 2 cfg20.N)
abbrev Vc57 : (c : Dev nD) → (b : Ref sig .tc) → Buf (Elt F) ((c : Thread nD τ).loc b) := fun c b => Wc57 m c b
theorem Wc57_out (c : Dev nD) : Wc57 m c main_v359 = (dat20 (Vc56 m) c).arrAt 2 cfg20.N := by
  unfold Wc57; exact Function.update_self ..
/-- After the host stretch `hostOps21`. -/
abbrev Wc58 (c : Dev nD) : Valuation τ sig (Elt F) := StableHlo.after hostOps21 (Wc57 m c)
abbrev Vc58 : (c : Dev nD) → (b : Ref sig .tc) → Buf (Elt F) ((c : Thread nD τ).loc b) := fun c b => Wc58 m c b
/-- After region 21: `main_v365` at what the pipeline's write-backs leave, every other buffer as entered. -/
def Wc59 (c : Dev nD) : Valuation τ sig (Elt F) :=
  Function.update (Wc58 m c) main_v365 ((dat21 (Vc58 m) c).arrAt 2 cfg21.N)
abbrev Vc59 : (c : Dev nD) → (b : Ref sig .tc) → Buf (Elt F) ((c : Thread nD τ).loc b) := fun c b => Wc59 m c b
theorem Wc59_out (c : Dev nD) : Wc59 m c main_v365 = (dat21 (Vc58 m) c).arrAt 2 cfg21.N := by
  unfold Wc59; exact Function.update_self ..
/-- After the host stretch `hostOps22`. -/
abbrev Wc60 (c : Dev nD) : Valuation τ sig (Elt F) := StableHlo.after hostOps22 (Wc59 m c)
abbrev Vc60 : (c : Dev nD) → (b : Ref sig .tc) → Buf (Elt F) ((c : Thread nD τ).loc b) := fun c b => Wc60 m c b

/-- What the regions leave in the arrays they may change: the chain's contents, read at each region's exit. -/
def outsF : GenP.Outs (F := F) := fun J r c => match J with
  | 1 => Wc1 m c r
  | 2 => Wc2 m c r
  | 4 => Wc4 m c r
  | 5 => Wc5 m c r
  | 7 => Wc7 m c r
  | 9 => Wc9 m c r
  | 11 => Wc11 m c r
  | 13 => Wc13 m c r
  | 15 => Wc15 m c r
  | 16 => Wc16 m c r
  | 18 => Wc18 m c r
  | 20 => Wc20 m c r
  | 22 => Wc22 m c r
  | 24 => Wc24 m c r
  | 33 => Wc33 m c r
  | 35 => Wc35 m c r
  | 41 => Wc41 m c r
  | 43 => Wc43 m c r
  | 49 => Wc49 m c r
  | 51 => Wc51 m c r
  | 57 => Wc57 m c r
  | 59 => Wc59 m c r
  | _ => Wc0 m c r

theorem V0_eq (c : Dev nD) : GenP.V0 m c = Wc0 m c := rfl
theorem V1_eq (c : Dev nD) : GenP.V1 m (outsF m) c = Wc1 m c := by
  show Function.update (GenP.V0 m c) main_v0 (Wc1 m c main_v0) = _
  rw [V0_eq, Wc1_out]; rfl
theorem V2_eq (c : Dev nD) : GenP.V2 m (outsF m) c = Wc2 m c := by
  show Function.update (GenP.V1 m (outsF m) c) main_v1 (Wc2 m c main_v1) = _
  rw [V1_eq, Wc2_out]; rfl
theorem V3_eq (c : Dev nD) : GenP.V3 m (outsF m) c = Wc3 m c := by
  show StableHlo.after hostOps2 (GenP.V2 m (outsF m) c) = _
  rw [V2_eq]
theorem V4_eq (c : Dev nD) : GenP.V4 m (outsF m) c = Wc4 m c := by
  show Function.update (GenP.V3 m (outsF m) c) main_v28 (Wc4 m c main_v28) = _
  rw [V3_eq, Wc4_out]; rfl
theorem V5_eq (c : Dev nD) : GenP.V5 m (outsF m) c = Wc5 m c := by
  show Function.update (GenP.V4 m (outsF m) c) main_v29 (Wc5 m c main_v29) = _
  rw [V4_eq, Wc5_out]; rfl
theorem V6_eq (c : Dev nD) : GenP.V6 m (outsF m) c = Wc6 m c := by
  show StableHlo.after hostOps4 (GenP.V5 m (outsF m) c) = _
  rw [V5_eq]
theorem V7_eq (c : Dev nD) : GenP.V7 m (outsF m) c = Wc7 m c := by
  show Function.update (GenP.V6 m (outsF m) c) main_v32 (Wc7 m c main_v32) = _
  rw [V6_eq, Wc7_out]; rfl
theorem V8_eq (c : Dev nD) : GenP.V8 m (outsF m) c = Wc8 m c := by
  show StableHlo.after hostOps5 (GenP.V7 m (outsF m) c) = _
  rw [V7_eq]
theorem V9_eq (c : Dev nD) : GenP.V9 m (outsF m) c = Wc9 m c := by
  show Function.update (GenP.V8 m (outsF m) c) main_v57 (Wc9 m c main_v57) = _
  rw [V8_eq, Wc9_out]; rfl
theorem V10_eq (c : Dev nD) : GenP.V10 m (outsF m) c = Wc10 m c := by
  show StableHlo.after hostOps6 (GenP.V9 m (outsF m) c) = _
  rw [V9_eq]
theorem V11_eq (c : Dev nD) : GenP.V11 m (outsF m) c = Wc11 m c := by
  show Function.update (GenP.V10 m (outsF m) c) main_v60 (Wc11 m c main_v60) = _
  rw [V10_eq, Wc11_out]; rfl
theorem V12_eq (c : Dev nD) : GenP.V12 m (outsF m) c = Wc12 m c := by
  show StableHlo.after hostOps7 (GenP.V11 m (outsF m) c) = _
  rw [V11_eq]
theorem V13_eq (c : Dev nD) : GenP.V13 m (outsF m) c = Wc13 m c := by
  show Function.update (GenP.V12 m (outsF m) c) main_v85 (Wc13 m c main_v85) = _
  rw [V12_eq, Wc13_out]; rfl
theorem V14_eq (c : Dev nD) : GenP.V14 m (outsF m) c = Wc14 m c := by
  show StableHlo.after hostOps8 (GenP.V13 m (outsF m) c) = _
  rw [V13_eq]
theorem V15_eq (c : Dev nD) : GenP.V15 m (outsF m) c = Wc15 m c := by
  show Function.update (GenP.V14 m (outsF m) c) main_v116 (Wc15 m c main_v116) = _
  rw [V14_eq, Wc15_out]; rfl
theorem V16_eq (c : Dev nD) : GenP.V16 m (outsF m) c = Wc16 m c := by
  show Function.update (GenP.V15 m (outsF m) c) main_v117 (Wc16 m c main_v117) = _
  rw [V15_eq, Wc16_out]; rfl
theorem V17_eq (c : Dev nD) : GenP.V17 m (outsF m) c = Wc17 m c := by
  show StableHlo.after hostOps10 (GenP.V16 m (outsF m) c) = _
  rw [V16_eq]
theorem V18_eq (c : Dev nD) : GenP.V18 m (outsF m) c = Wc18 m c := by
  show Function.update (GenP.V17 m (outsF m) c) main_v120 (Wc18 m c main_v120) = _
  rw [V17_eq, Wc18_out]; rfl
theorem V19_eq (c : Dev nD) : GenP.V19 m (outsF m) c = Wc19 m c := by
  show StableHlo.after hostOps11 (GenP.V18 m (outsF m) c) = _
  rw [V18_eq]
theorem V20_eq (c : Dev nD) : GenP.V20 m (outsF m) c = Wc20 m c := by
  show Function.update (GenP.V19 m (outsF m) c) main_v145 (Wc20 m c main_v145) = _
  rw [V19_eq, Wc20_out]; rfl
theorem V21_eq (c : Dev nD) : GenP.V21 m (outsF m) c = Wc21 m c := by
  show StableHlo.after hostOps12 (GenP.V20 m (outsF m) c) = _
  rw [V20_eq]
theorem V22_eq (c : Dev nD) : GenP.V22 m (outsF m) c = Wc22 m c := by
  show Function.update (GenP.V21 m (outsF m) c) main_v148 (Wc22 m c main_v148) = _
  rw [V21_eq, Wc22_out]; rfl
theorem V23_eq (c : Dev nD) : GenP.V23 m (outsF m) c = Wc23 m c := by
  show StableHlo.after hostOps13 (GenP.V22 m (outsF m) c) = _
  rw [V22_eq]
theorem V24_eq (c : Dev nD) : GenP.V24 m (outsF m) c = Wc24 m c := by
  show Function.update (GenP.V23 m (outsF m) c) main_v173 (Wc24 m c main_v173) = _
  rw [V23_eq, Wc24_out]; rfl
theorem V25_eq (c : Dev nD) : GenP.V25 m (outsF m) c = Wc25 m c := by
  show StableHlo.after hostOps14 (GenP.V24 m (outsF m) c) = _
  rw [V24_eq]
theorem V26_eq (c : Dev nD) : GenP.V26 m (outsF m) c = Wc26 m c := by
  show StableHlo.after hostOps14_1 (GenP.V25 m (outsF m) c) = _
  rw [V25_eq]
theorem V27_eq (c : Dev nD) : GenP.V27 m (outsF m) c = Wc27 m c := by
  show StableHlo.after hostOps14_2 (GenP.V26 m (outsF m) c) = _
  rw [V26_eq]
theorem V28_eq (c : Dev nD) : GenP.V28 m (outsF m) c = Wc28 m c := by
  show StableHlo.after hostOps14_3 (GenP.V27 m (outsF m) c) = _
  rw [V27_eq]
theorem V29_eq (c : Dev nD) : GenP.V29 m (outsF m) c = Wc29 m c := by
  show StableHlo.after hostOps14_4 (GenP.V28 m (outsF m) c) = _
  rw [V28_eq]
theorem V30_eq (c : Dev nD) : GenP.V30 m (outsF m) c = Wc30 m c := by
  show StableHlo.after hostOps14_5 (GenP.V29 m (outsF m) c) = _
  rw [V29_eq]
theorem V31_eq (c : Dev nD) : GenP.V31 m (outsF m) c = Wc31 m c := by
  show StableHlo.after hostOps14_6 (GenP.V30 m (outsF m) c) = _
  rw [V30_eq]
theorem V32_eq (c : Dev nD) : GenP.V32 m (outsF m) c = Wc32 m c := by
  show StableHlo.after hostOps14_7 (GenP.V31 m (outsF m) c) = _
  rw [V31_eq]
theorem V33_eq (c : Dev nD) : GenP.V33 m (outsF m) c = Wc33 m c := by
  show Function.update (GenP.V32 m (outsF m) c) main_v230 (Wc33 m c main_v230) = _
  rw [V32_eq, Wc33_out]; rfl
theorem V34_eq (c : Dev nD) : GenP.V34 m (outsF m) c = Wc34 m c := by
  show StableHlo.after hostOps15 (GenP.V33 m (outsF m) c) = _
  rw [V33_eq]
theorem V35_eq (c : Dev nD) : GenP.V35 m (outsF m) c = Wc35 m c := by
  show Function.update (GenP.V34 m (outsF m) c) main_v236 (Wc35 m c main_v236) = _
  rw [V34_eq, Wc35_out]; rfl
theorem V36_eq (c : Dev nD) : GenP.V36 m (outsF m) c = Wc36 m c := by
  show StableHlo.after hostOps16 (GenP.V35 m (outsF m) c) = _
  rw [V35_eq]
theorem V37_eq (c : Dev nD) : GenP.V37 m (outsF m) c = Wc37 m c := by
  show StableHlo.after hostOps16_1 (GenP.V36 m (outsF m) c) = _
  rw [V36_eq]
theorem V38_eq (c : Dev nD) : GenP.V38 m (outsF m) c = Wc38 m c := by
  show StableHlo.after hostOps16_2 (GenP.V37 m (outsF m) c) = _
  rw [V37_eq]
theorem V39_eq (c : Dev nD) : GenP.V39 m (outsF m) c = Wc39 m c := by
  show StableHlo.after hostOps16_3 (GenP.V38 m (outsF m) c) = _
  rw [V38_eq]
theorem V40_eq (c : Dev nD) : GenP.V40 m (outsF m) c = Wc40 m c := by
  show StableHlo.after hostOps16_4 (GenP.V39 m (outsF m) c) = _
  rw [V39_eq]
theorem V41_eq (c : Dev nD) : GenP.V41 m (outsF m) c = Wc41 m c := by
  show Function.update (GenP.V40 m (outsF m) c) main_v273 (Wc41 m c main_v273) = _
  rw [V40_eq, Wc41_out]; rfl
theorem V42_eq (c : Dev nD) : GenP.V42 m (outsF m) c = Wc42 m c := by
  show StableHlo.after hostOps17 (GenP.V41 m (outsF m) c) = _
  rw [V41_eq]
theorem V43_eq (c : Dev nD) : GenP.V43 m (outsF m) c = Wc43 m c := by
  show Function.update (GenP.V42 m (outsF m) c) main_v279 (Wc43 m c main_v279) = _
  rw [V42_eq, Wc43_out]; rfl
theorem V44_eq (c : Dev nD) : GenP.V44 m (outsF m) c = Wc44 m c := by
  show StableHlo.after hostOps18 (GenP.V43 m (outsF m) c) = _
  rw [V43_eq]
theorem V45_eq (c : Dev nD) : GenP.V45 m (outsF m) c = Wc45 m c := by
  show StableHlo.after hostOps18_1 (GenP.V44 m (outsF m) c) = _
  rw [V44_eq]
theorem V46_eq (c : Dev nD) : GenP.V46 m (outsF m) c = Wc46 m c := by
  show StableHlo.after hostOps18_2 (GenP.V45 m (outsF m) c) = _
  rw [V45_eq]
theorem V47_eq (c : Dev nD) : GenP.V47 m (outsF m) c = Wc47 m c := by
  show StableHlo.after hostOps18_3 (GenP.V46 m (outsF m) c) = _
  rw [V46_eq]
theorem V48_eq (c : Dev nD) : GenP.V48 m (outsF m) c = Wc48 m c := by
  show StableHlo.after hostOps18_4 (GenP.V47 m (outsF m) c) = _
  rw [V47_eq]
theorem V49_eq (c : Dev nD) : GenP.V49 m (outsF m) c = Wc49 m c := by
  show Function.update (GenP.V48 m (outsF m) c) main_v316 (Wc49 m c main_v316) = _
  rw [V48_eq, Wc49_out]; rfl
theorem V50_eq (c : Dev nD) : GenP.V50 m (outsF m) c = Wc50 m c := by
  show StableHlo.after hostOps19 (GenP.V49 m (outsF m) c) = _
  rw [V49_eq]
theorem V51_eq (c : Dev nD) : GenP.V51 m (outsF m) c = Wc51 m c := by
  show Function.update (GenP.V50 m (outsF m) c) main_v322 (Wc51 m c main_v322) = _
  rw [V50_eq, Wc51_out]; rfl
theorem V52_eq (c : Dev nD) : GenP.V52 m (outsF m) c = Wc52 m c := by
  show StableHlo.after hostOps20 (GenP.V51 m (outsF m) c) = _
  rw [V51_eq]
theorem V53_eq (c : Dev nD) : GenP.V53 m (outsF m) c = Wc53 m c := by
  show StableHlo.after hostOps20_1 (GenP.V52 m (outsF m) c) = _
  rw [V52_eq]
theorem V54_eq (c : Dev nD) : GenP.V54 m (outsF m) c = Wc54 m c := by
  show StableHlo.after hostOps20_2 (GenP.V53 m (outsF m) c) = _
  rw [V53_eq]
theorem V55_eq (c : Dev nD) : GenP.V55 m (outsF m) c = Wc55 m c := by
  show StableHlo.after hostOps20_3 (GenP.V54 m (outsF m) c) = _
  rw [V54_eq]
theorem V56_eq (c : Dev nD) : GenP.V56 m (outsF m) c = Wc56 m c := by
  show StableHlo.after hostOps20_4 (GenP.V55 m (outsF m) c) = _
  rw [V55_eq]
theorem V57_eq (c : Dev nD) : GenP.V57 m (outsF m) c = Wc57 m c := by
  show Function.update (GenP.V56 m (outsF m) c) main_v359 (Wc57 m c main_v359) = _
  rw [V56_eq, Wc57_out]; rfl
theorem V58_eq (c : Dev nD) : GenP.V58 m (outsF m) c = Wc58 m c := by
  show StableHlo.after hostOps21 (GenP.V57 m (outsF m) c) = _
  rw [V57_eq]
theorem V59_eq (c : Dev nD) : GenP.V59 m (outsF m) c = Wc59 m c := by
  show Function.update (GenP.V58 m (outsF m) c) main_v365 (Wc59 m c main_v365) = _
  rw [V58_eq, Wc59_out]; rfl
theorem V60_eq (c : Dev nD) : GenP.V60 m (outsF m) c = Wc60 m c := by
  show StableHlo.after hostOps22 (GenP.V59 m (outsF m) c) = _
  rw [V59_eq]

/-- Every pipeline's proof data, each at its region's entry contents. -/
def pdats : (p : Fin 22) → (c : Dev nD) → Dat τ (Elt F) Unit ℕ (UR sig nD τ) ℕ (cfgs p) c
  | ⟨0, _⟩ => fun c => dat0 (Vc0 m) c
  | ⟨1, _⟩ => fun c => dat1 (Vc1 m) c
  | ⟨2, _⟩ => fun c => dat2 (Vc3 m) c
  | ⟨3, _⟩ => fun c => dat3 (Vc4 m) c
  | ⟨4, _⟩ => fun c => dat4 (Vc6 m) c
  | ⟨5, _⟩ => fun c => dat5 (Vc8 m) c
  | ⟨6, _⟩ => fun c => dat6 (Vc10 m) c
  | ⟨7, _⟩ => fun c => dat7 (Vc12 m) c
  | ⟨8, _⟩ => fun c => dat8 (Vc14 m) c
  | ⟨9, _⟩ => fun c => dat9 (Vc15 m) c
  | ⟨10, _⟩ => fun c => dat10 (Vc17 m) c
  | ⟨11, _⟩ => fun c => dat11 (Vc19 m) c
  | ⟨12, _⟩ => fun c => dat12 (Vc21 m) c
  | ⟨13, _⟩ => fun c => dat13 (Vc23 m) c
  | ⟨14, _⟩ => fun c => dat14 (Vc32 m) c
  | ⟨15, _⟩ => fun c => dat15 (Vc34 m) c
  | ⟨16, _⟩ => fun c => dat16 (Vc40 m) c
  | ⟨17, _⟩ => fun c => dat17 (Vc42 m) c
  | ⟨18, _⟩ => fun c => dat18 (Vc48 m) c
  | ⟨19, _⟩ => fun c => dat19 (Vc50 m) c
  | ⟨20, _⟩ => fun c => dat20 (Vc56 m) c
  | ⟨21, _⟩ => fun c => dat21 (Vc58 m) c
  | ⟨_ + 22, h⟩ => absurd h (Nat.not_lt.2 (Nat.le_add_left _ _))

end Cert.KernelIdeal.Fr

end
-- ==== Proof.KI.Common.lean ====
import proofs.«126270_j6725918785969_1_alg».proof.Proof.KI.Chain

/-!
# What every region's segment shares

No level is assigned and no core owes another anything; beside the buffers every segment carries the core's
generator register at some state and its dues, at nothing.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
abbrev L : GSem nD τ sig → Finset Unit := fun _ => ∅
abbrev lv : GSem nD τ sig → Unit → ℕ := fun _ _ => 0
/-- What rides beside the buffers through every segment. -/
abbrev R (c : Dev nD) : sProp 𝕄 := iprop((∃ r, prngReg c r) ∗ ∃ W, owes (c : Thread nD τ) (0 : CellTallies nD τ sig Unit) W)

end Cert.KernelIdeal.Fr

end
-- ==== Proof.KI.Seg0.lean ====
import proofs.«126270_j6725918785969_1_alg».proof.Proof.KI.Chain
import proofs.«126270_j6725918785969_1_alg».proof.Proof.KI.Common

/-!
# Region 0 as a segment of the program

Entered from every unscoped buffer at the contents `Wc0`, left at `Wc1`: the region's arrays are split out
of the unscoped buffers at entry and put back at exit, the output array `main_v0` at what the write-backs leave
and every other buffer as it was; the generator register goes into the pipeline's invariant and comes back;
nothing is owed; the kernel has no semaphore of its own.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF0 (c : Dev nD) (w : Fin cfg0.W) : (dat0 (Vc0 m) c).arrAt w cfg0.N = Vc1 m c (Pipeline.arrRef spec0 w) :=
  match w with
  | ⟨0, _⟩ => (((dat0 (Vc0 m) c).arrAt_in 0 rfl _).trans (A_eq0 (Vc0 m) c 0)).trans
      (Function.update_of_ne (StableHlo.devRef_ne_of_ne (by decide)) _ _).symm
  | ⟨1, _⟩ => (((dat0 (Vc0 m) c).arrAt_in 1 rfl _).trans (A_eq0 (Vc0 m) c 1)).trans
      (Function.update_of_ne (StableHlo.devRef_ne_of_ne (by decide)) _ _).symm
  | ⟨2, _⟩ => (Wc1_out m c).symm

/-- Every buffer that is none of the region's arrays holds at exit what it held at entry. -/
theorem hrest0 (c : Dev nD) : ∀ b, b ∉ Finset.univ.image (Pipeline.arrRef spec0) → Vc1 m c b = Vc0 m c b :=
  fun b hb => Function.update_of_ne (StableHlo.devRef_ne_of_ne fun e => hb (Finset.mem_image.mpr ⟨2, Finset.mem_univ _, e.symm⟩)) _ _

set_option backward.isDefEq.respectTransparency.types false in
def reg0 : Pipeline.RegionSeg (pcfgs (F := F)) GenP.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vc0 m) c).loose
  hwaits := Pipeline.hwaits_of_owed_zero _ _ _ _ L lv 0 fun _ _ => rfl
  pre c := iprop(StableHlo.held (c : Thread nD τ) (Pipeline.ucRefs τ sig) (Wc0 m c) ∗ R c)
  post c := iprop(StableHlo.held (c : Thread nD τ) (Pipeline.ucRefs τ sig) (Wc1 m c) ∗ R c)
  X c := iprop(∃ r, prngReg c r)
  Y c := iprop(∃ r, prngReg c r)
  Z c := Pipeline.unscopedRest (Ix := Unit) (Name := ℕ) (U := UR sig nD τ) (Lvl := ℕ) spec0 c (Vc0 m c)
  hentry c := by
    rw [Pipeline.ownSems0_none]
    have hsplit := Pipeline.arrays_of_unscopedBufs (p := 0) (pcfgs (F := F)) GenP.adm (pdats m) launch0.win launch0.arr_whole c
      ((pdats m 0 c).share_full fun _ => rfl) (Vc0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) GenP.adm (Ix := Unit) (Name := ℕ) (U := UR sig nD τ) (Lvl := ℕ)
      launch0.win launch0.arr_whole c (pdats m) ((pdats m 0 c).share_full fun _ => rfl)
      (Vc0 m c) (Vc1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg1.lean ====
import proofs.«126270_j6725918785969_1_alg».proof.Proof.KI.Chain
import proofs.«126270_j6725918785969_1_alg».proof.Proof.KI.Common

/-!
# Region 1 as a segment of the program

Entered from every unscoped buffer at the contents `Wc1`, left at `Wc2`: the region's arrays are split out
of the unscoped buffers at entry and put back at exit, the output array `main_v1` at what the write-backs leave
and every other buffer as it was; the generator register goes into the pipeline's invariant and comes back;
nothing is owed; the kernel has no semaphore of its own.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF1 (c : Dev nD) (w : Fin cfg1.W) : (dat1 (Vc1 m) c).arrAt w cfg1.N = Vc2 m c (Pipeline.arrRef spec1 w) :=
  match w with
  | ⟨0, _⟩ => (((dat1 (Vc1 m) c).arrAt_in 0 rfl _).trans (A_eq1 (Vc1 m) c 0)).trans
      (Function.update_of_ne (StableHlo.devRef_ne_of_ne (by decide)) _ _).symm
  | ⟨1, _⟩ => (((dat1 (Vc1 m) c).arrAt_in 1 rfl _).trans (A_eq1 (Vc1 m) c 1)).trans
      (Function.update_of_ne (StableHlo.devRef_ne_of_ne (by decide)) _ _).symm
  | ⟨2, _⟩ => (Wc2_out m c).symm

/-- Every buffer that is none of the region's arrays holds at exit what it held at entry. -/
theorem hrest1 (c : Dev nD) : ∀ b, b ∉ Finset.univ.image (Pipeline.arrRef spec1) → Vc2 m c b = Vc1 m c b :=
  fun b hb => Function.update_of_ne (StableHlo.devRef_ne_of_ne fun e => hb (Finset.mem_image.mpr ⟨2, Finset.mem_univ _, e.symm⟩)) _ _

set_option backward.isDefEq.respectTransparency.types false in
def reg1 : Pipeline.RegionSeg (pcfgs (F := F)) GenP.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vc1 m) c).loose
  hwaits := Pipeline.hwaits_of_owed_zero _ _ _ _ L lv 1 fun _ _ => rfl
  pre c := iprop(StableHlo.held (c : Thread nD τ) (Pipeline.ucRefs τ sig) (Wc1 m c) ∗ R c)
  post c := iprop(StableHlo.held (c : Thread nD τ) (Pipeline.ucRefs τ sig) (Wc2 m c) ∗ R c)
  X c := iprop(∃ r, prngReg c r)
  Y c := iprop(∃ r, prngReg c r)
  Z c := Pipeline.unscopedRest (Ix := Unit) (Name := ℕ) (U := UR sig nD τ) (Lvl := ℕ) spec1 c (Vc1 m c)
  hentry c := by
    rw [Pipeline.ownSems0_none]
    have hsplit := Pipeline.arrays_of_unscopedBufs (p := 1) (pcfgs (F := F)) GenP.adm (pdats m) launch1.win launch1.arr_whole c
      ((pdats m 1 c).share_full fun _ => rfl) (Vc1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) GenP.adm (Ix := Unit) (Name := ℕ) (U := UR sig nD τ) (Lvl := ℕ)
      launch1.win launch1.arr_whole c (pdats m) ((pdats m 1 c).share_full fun _ => rfl)
      (Vc1 m c) (Vc2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg2.lean ====
import proofs.«126270_j6725918785969_1_alg».proof.Proof.KI.Chain
import proofs.«126270_j6725918785969_1_alg».proof.Proof.KI.Common

/-!
# Region 2 as a segment of the program

Entered from every unscoped buffer at the contents `Wc3`, left at `Wc4`: the region's arrays are split out
of the unscoped buffers at entry and put back at exit, the output array `main_v28` at what the write-backs leave
and every other buffer as it was; the generator register goes into the pipeline's invariant and comes back;
nothing is owed; the kernel has no semaphore of its own.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF2 (c : Dev nD) (w : Fin cfg2.W) : (dat2 (Vc3 m) c).arrAt w cfg2.N = Vc4 m c (Pipeline.arrRef spec2 w) :=
  match w with
  | ⟨0, _⟩ => (((dat2 (Vc3 m) c).arrAt_in 0 rfl _).trans (A_eq2 (Vc3 m) c 0)).trans
      (Function.update_of_ne (StableHlo.devRef_ne_of_ne (by decide)) _ _).symm
  | ⟨1, _⟩ => (Wc4_out m c).symm

/-- Every buffer that is none of the region's arrays holds at exit what it held at entry. -/
theorem hrest2 (c : Dev nD) : ∀ b, b ∉ Finset.univ.image (Pipeline.arrRef spec2) → Vc4 m c b = Vc3 m c b :=
  fun b hb => Function.update_of_ne (StableHlo.devRef_ne_of_ne fun e => hb (Finset.mem_image.mpr ⟨1, Finset.mem_univ _, e.symm⟩)) _ _

set_option backward.isDefEq.respectTransparency.types false in
def reg2 : Pipeline.RegionSeg (pcfgs (F := F)) GenP.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vc3 m) c).loose
  hwaits := Pipeline.hwaits_of_owed_zero _ _ _ _ L lv 2 fun _ _ => rfl
  pre c := iprop(StableHlo.held (c : Thread nD τ) (Pipeline.ucRefs τ sig) (Wc3 m c) ∗ R c)
  post c := iprop(StableHlo.held (c : Thread nD τ) (Pipeline.ucRefs τ sig) (Wc4 m c) ∗ R c)
  X c := iprop(∃ r, prngReg c r)
  Y c := iprop(∃ r, prngReg c r)
  Z c := Pipeline.unscopedRest (Ix := Unit) (Name := ℕ) (U := UR sig nD τ) (Lvl := ℕ) spec2 c (Vc3 m c)
  hentry c := by
    rw [Pipeline.ownSems0_none]
    have hsplit := Pipeline.arrays_of_unscopedBufs (p := 2) (pcfgs (F := F)) GenP.adm (pdats m) launch2.win launch2.arr_whole c
      ((pdats m 2 c).share_full fun _ => rfl) (Vc3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) GenP.adm (Ix := Unit) (Name := ℕ) (U := UR sig nD τ) (Lvl := ℕ)
      launch2.win launch2.arr_whole c (pdats m) ((pdats m 2 c).share_full fun _ => rfl)
      (Vc3 m c) (Vc4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg3.lean ====
import proofs.«126270_j6725918785969_1_alg».proof.Proof.KI.Chain
import proofs.«126270_j6725918785969_1_alg».proof.Proof.KI.Common

/-!
# Region 3 as a segment of the program

Entered from every unscoped buffer at the contents `Wc4`, left at `Wc5`: the region's arrays are split out
of the unscoped buffers at entry and put back at exit, the output array `main_v29` at what the write-backs leave
and every other buffer as it was; the generator register goes into the pipeline's invariant and comes back;
nothing is owed; the kernel has no semaphore of its own.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF3 (c : Dev nD) (w : Fin cfg3.W) : (dat3 (Vc4 m) c).arrAt w cfg3.N = Vc5 m c (Pipeline.arrRef spec3 w) :=
  match w with
  | ⟨0, _⟩ => (((dat3 (Vc4 m) c).arrAt_in 0 rfl _).trans (A_eq3 (Vc4 m) c 0)).trans
      (Function.update_of_ne (StableHlo.devRef_ne_of_ne (by decide)) _ _).symm
  | ⟨1, _⟩ => (Wc5_out m c).symm

/-- Every buffer that is none of the region's arrays holds at exit what it held at entry. -/
theorem hrest3 (c : Dev nD) : ∀ b, b ∉ Finset.univ.image (Pipeline.arrRef spec3) → Vc5 m c b = Vc4 m c b :=
  fun b hb => Function.update_of_ne (StableHlo.devRef_ne_of_ne fun e => hb (Finset.mem_image.mpr ⟨1, Finset.mem_univ _, e.symm⟩)) _ _

set_option backward.isDefEq.respectTransparency.types false in
def reg3 : Pipeline.RegionSeg (pcfgs (F := F)) GenP.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vc4 m) c).loose
  hwaits := Pipeline.hwaits_of_owed_zero _ _ _ _ L lv 3 fun _ _ => rfl
  pre c := iprop(StableHlo.held (c : Thread nD τ) (Pipeline.ucRefs τ sig) (Wc4 m c) ∗ R c)
  post c := iprop(StableHlo.held (c : Thread nD τ) (Pipeline.ucRefs τ sig) (Wc5 m c) ∗ R c)
  X c := iprop(∃ r, prngReg c r)
  Y c := iprop(∃ r, prngReg c r)
  Z c := Pipeline.unscopedRest (Ix := Unit) (Name := ℕ) (U := UR sig nD τ) (Lvl := ℕ) spec3 c (Vc4 m c)
  hentry c := by
    rw [Pipeline.ownSems0_none]
    have hsplit := Pipeline.arrays_of_unscopedBufs (p := 3) (pcfgs (F := F)) GenP.adm (pdats m) launch3.win launch3.arr_whole c
      ((pdats m 3 c).share_full fun _ => rfl) (Vc4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) GenP.adm (Ix := Unit) (Name := ℕ) (U := UR sig nD τ) (Lvl := ℕ)
      launch3.win launch3.arr_whole c (pdats m) ((pdats m 3 c).share_full fun _ => rfl)
      (Vc4 m c) (Vc5 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg4.lean ====
import proofs.«126270_j6725918785969_1_alg».proof.Proof.KI.Chain
import proofs.«126270_j6725918785969_1_alg».proof.Proof.KI.Common

/-!
# Region 4 as a segment of the program

Entered from every unscoped buffer at the contents `Wc6`, left at `Wc7`: the region's arrays are split out
of the unscoped buffers at entry and put back at exit, the output array `main_v32` at what the write-backs leave
and every other buffer as it was; the generator register goes into the pipeline's invariant, which also carries the kernel's scratch accumulator from point to point, and comes back;
nothing is owed; the kernel has no semaphore of its own.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF4 (c : Dev nD) (w : Fin cfg4.W) : (dat4 (Vc6 m) c).arrAt w cfg4.N = Vc7 m c (Pipeline.arrRef spec4 w) :=
  match w with
  | ⟨0, _⟩ => (((dat4 (Vc6 m) c).arrAt_in 0 rfl _).trans (A_eq4 (Vc6 m) c 0)).trans
      (Function.update_of_ne (StableHlo.devRef_ne_of_ne (by decide)) _ _).symm
  | ⟨1, _⟩ => (((dat4 (Vc6 m) c).arrAt_in 1 rfl _).trans (A_eq4 (Vc6 m) c 1)).trans
      (Function.update_of_ne (StableHlo.devRef_ne_of_ne (by decide)) _ _).symm
  | ⟨2, _⟩ => (Wc7_out m c).symm

/-- Every buffer that is none of the region's arrays holds at exit what it held at entry. -/
theorem hrest4 (c : Dev nD) : ∀ b, b ∉ Finset.univ.image (Pipeline.arrRef spec4) → Vc7 m c b = Vc6 m c b :=
  fun b hb => Function.update_of_ne (StableHlo.devRef_ne_of_ne fun e => hb (Finset.mem_image.mpr ⟨2, Finset.mem_univ _, e.symm⟩)) _ _

set_option backward.isDefEq.respectTransparency.types false in
def reg4 : Pipeline.RegionSeg (pcfgs (F := F)) GenP.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vc6 m) c).loose
  hwaits := Pipeline.hwaits_of_owed_zero _ _ _ _ L lv 4 fun _ _ => rfl
  pre c := iprop(StableHlo.held (c : Thread nD τ) (Pipeline.ucRefs τ sig) (Wc6 m c) ∗ R c)
  post c := iprop(StableHlo.held (c : Thread nD τ) (Pipeline.ucRefs τ sig) (Wc7 m c) ∗ R c)
  X c := iprop(∃ r, prngReg c r)
  Y c := iprop(∃ r, prngReg c r)
  Z c := Pipeline.unscopedRest (Ix := Unit) (Name := ℕ) (U := UR sig nD τ) (Lvl := ℕ) spec4 c (Vc6 m c)
  hentry c := by
    rw [Pipeline.ownSems0_none]
    have hsplit := Pipeline.arrays_of_unscopedBufs (p := 4) (pcfgs (F := F)) GenP.adm (pdats m) launch4.win launch4.arr_whole c
      ((pdats m 4 c).share_full fun _ => rfl) (Vc6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin4 (Vc6 m) c
  hout c := hout4 (Vc6 m) c
  hexit c := by
    have hjoin := Pipeline.unscopedBufs_of_arrays (p := 4) (pcfgs (F := F)) GenP.adm (Ix := Unit) (Name := ℕ) (U := UR sig nD τ) (Lvl := ℕ)
      launch4.win launch4.arr_whole c (pdats m) ((pdats m 4 c).share_full fun _ => rfl)
      (Vc6 m c) (Vc7 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg5.lean ====
import proofs.«126270_j6725918785969_1_alg».proof.Proof.KI.Chain
import proofs.«126270_j6725918785969_1_alg».proof.Proof.KI.Common

/-!
# Region 5 as a segment of the program

Entered from every unscoped buffer at the contents `Wc8`, left at `Wc9`: the region's arrays are split out
of the unscoped buffers at entry and put back at exit, the output array `main_v57` at what the write-backs leave
and every other buffer as it was; the generator register goes into the pipeline's invariant and comes back;
nothing is owed; the kernel has no semaphore of its own.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF5 (c : Dev nD) (w : Fin cfg5.W) : (dat5 (Vc8 m) c).arrAt w cfg5.N = Vc9 m c (Pipeline.arrRef spec5 w) :=
  match w with
  | ⟨0, _⟩ => (((dat5 (Vc8 m) c).arrAt_in 0 rfl _).trans (A_eq5 (Vc8 m) c 0)).trans
      (Function.update_of_ne (StableHlo.devRef_ne_of_ne (by decide)) _ _).symm
  | ⟨1, _⟩ => (((dat5 (Vc8 m) c).arrAt_in 1 rfl _).trans (A_eq5 (Vc8 m) c 1)).trans
      (Function.update_of_ne (StableHlo.devRef_ne_of_ne (by decide)) _ _).symm
  | ⟨2, _⟩ => (Wc9_out m c).symm

/-- Every buffer that is none of the region's arrays holds at exit what it held at entry. -/
theorem hrest5 (c : Dev nD) : ∀ b, b ∉ Finset.univ.image (Pipeline.arrRef spec5) → Vc9 m c b = Vc8 m c b :=
  fun b hb => Function.update_of_ne (StableHlo.devRef_ne_of_ne fun e => hb (Finset.mem_image.mpr ⟨2, Finset.mem_univ _, e.symm⟩)) _ _

set_option backward.isDefEq.respectTransparency.types false in
def reg5 : Pipeline.RegionSeg (pcfgs (F := F)) GenP.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vc8 m) c).loose
  hwaits := Pipeline.hwaits_of_owed_zero _ _ _ _ L lv 5 fun _ _ => rfl
  pre c := iprop(StableHlo.held (c : Thread nD τ) (Pipeline.ucRefs τ sig) (Wc8 m c) ∗ R c)
  post c := iprop(StableHlo.held (c : Thread nD τ) (Pipeline.ucRefs τ sig) (Wc9 m c) ∗ R c)
  X c := iprop(∃ r, prngReg c r)
  Y c := iprop(∃ r, prngReg c r)
  Z c := Pipeline.unscopedRest (Ix := Unit) (Name := ℕ) (U := UR sig nD τ) (Lvl := ℕ) spec5 c (Vc8 m c)
  hentry c := by
    rw [Pipeline.ownSems0_none]
    have hsplit := Pipeline.arrays_of_unscopedBufs (p := 5) (pcfgs (F := F)) GenP.adm (pdats m) launch5.win launch5.arr_whole c
      ((pdats m 5 c).share_full fun _ => rfl) (Vc8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) GenP.adm (Ix := Unit) (Name := ℕ) (U := UR sig nD τ) (Lvl := ℕ)
      launch5.win launch5.arr_whole c (pdats m) ((pdats m 5 c).share_full fun _ => rfl)
      (Vc8 m c) (Vc9 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg6.lean ====
import proofs.«126270_j6725918785969_1_alg».proof.Proof.KI.Chain
import proofs.«126270_j6725918785969_1_alg».proof.Proof.KI.Common

/-!
# Region 6 as a segment of the program

Entered from every unscoped buffer at the contents `Wc10`, left at `Wc11`: the region's arrays are split out
of the unscoped buffers at entry and put back at exit, the output array `main_v60` at what the write-backs leave
and every other buffer as it was; the generator register goes into the pipeline's invariant, which also carries the kernel's scratch accumulator from point to point, and comes back;
nothing is owed; the kernel has no semaphore of its own.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF6 (c : Dev nD) (w : Fin cfg6.W) : (dat6 (Vc10 m) c).arrAt w cfg6.N = Vc11 m c (Pipeline.arrRef spec6 w) :=
  match w with
  | ⟨0, _⟩ => (((dat6 (Vc10 m) c).arrAt_in 0 rfl _).trans (A_eq6 (Vc10 m) c 0)).trans
      (Function.update_of_ne (StableHlo.devRef_ne_of_ne (by decide)) _ _).symm
  | ⟨1, _⟩ => (((dat6 (Vc10 m) c).arrAt_in 1 rfl _).trans (A_eq6 (Vc10 m) c 1)).trans
      (Function.update_of_ne (StableHlo.devRef_ne_of_ne (by decide)) _ _).symm
  | ⟨2, _⟩ => (Wc11_out m c).symm

/-- Every buffer that is none of the region's arrays holds at exit what it held at entry. -/
theorem hrest6 (c : Dev nD) : ∀ b, b ∉ Finset.univ.image (Pipeline.arrRef spec6) → Vc11 m c b = Vc10 m c b :=
  fun b hb => Function.update_of_ne (StableHlo.devRef_ne_of_ne fun e => hb (Finset.mem_image.mpr ⟨2, Finset.mem_univ _, e.symm⟩)) _ _

set_option backward.isDefEq.respectTransparency.types false in
def reg6 : Pipeline.RegionSeg (pcfgs (F := F)) GenP.adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vc10 m) c).loose
  hwaits := Pipeline.hwaits_of_owed_zero _ _ _ _ L lv 6 fun _ _ => rfl
  pre c := iprop(StableHlo.held (c : Thread nD τ) (Pipeline.ucRefs τ sig) (Wc10 m c) ∗ R c)
  post c := iprop(StableHlo.held (c : Thread nD τ) (Pipeline.ucRefs τ sig) (Wc11 m c) ∗ R c)
  X c := iprop(∃ r, prngReg c r)
  Y c := iprop(∃ r, prngReg c r)
  Z c := Pipeline.unscopedRest (Ix := Unit) (Name := ℕ) (U := UR sig nD τ) (Lvl := ℕ) spec6 c (Vc10 m c)
  hentry c := by
    rw [Pipeline.ownSems0_none]
    have hsplit := Pipeline.arrays_of_unscopedBufs (p := 6) (pcfgs (F := F)) GenP.adm (pdats m) launch6.win launch6.arr_whole c
      ((pdats m 6 c).share_full fun _ => rfl) (Vc10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin6 (Vc10 m) c
  hout c := hout6 (Vc10 m) c
  hexit c := by
    have hjoin := Pipeline.unscopedBufs_of_arrays (p := 6) (pcfgs (F := F)) GenP.adm (Ix := Unit) (Name := ℕ) (U := UR sig nD τ) (Lvl := ℕ)
      launch6.win launch6.arr_whole c (pdats m) ((pdats m 6 c).share_full fun _ => rfl)
      (Vc10 m c) (Vc11 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg7.lean ====
import proofs.«126270_j6725918785969_1_alg».proof.Proof.KI.Chain
import proofs.«126270_j6725918785969_1_alg».proof.Proof.KI.Common

/-!
# Region 7 as a segment of the program

Entered from every unscoped buffer at the contents `Wc12`, left at `Wc13`: the region's arrays are split out
of the unscoped buffers at entry and put back at exit, the output array `main_v85` at what the write-backs leave
and every other buffer as it was; the generator register goes into the pipeline's invariant and comes back;
nothing is owed; the kernel has no semaphore of its own.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF7 (c : Dev nD) (w : Fin cfg7.W) : (dat7 (Vc12 m) c).arrAt w cfg7.N = Vc13 m c (Pipeline.arrRef spec7 w) :=
  match w with
  | ⟨0, _⟩ => (((dat7 (Vc12 m) c).arrAt_in 0 rfl _).trans (A_eq7 (Vc12 m) c 0)).trans
      (Function.update_of_ne (StableHlo.devRef_ne_of_ne (by decide)) _ _).symm
  | ⟨1, _⟩ => (((dat7 (Vc12 m) c).arrAt_in 1 rfl _).trans (A_eq7 (Vc12 m) c 1)).trans
      (Function.update_of_ne (StableHlo.devRef_ne_of_ne (by decide)) _ _).symm
  | ⟨2, _⟩ => (Wc13_out m c).symm

/-- Every buffer that is none of the region's arrays holds at exit what it held at entry. -/
theorem hrest7 (c : Dev nD) : ∀ b, b ∉ Finset.univ.image (Pipeline.arrRef spec7) → Vc13 m c b = Vc12 m c b :=
  fun b hb => Function.update_of_ne (StableHlo.devRef_ne_of_ne fun e => hb (Finset.mem_image.mpr ⟨2, Finset.mem_univ _, e.symm⟩)) _ _

set_option backward.isDefEq.respectTransparency.types false in
def reg7 : Pipeline.RegionSeg (pcfgs (F := F)) GenP.adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Vc12 m) c).loose
  hwaits := Pipeline.hwaits_of_owed_zero _ _ _ _ L lv 7 fun _ _ => rfl
  pre c := iprop(StableHlo.held (c : Thread nD τ) (Pipeline.ucRefs τ sig) (Wc12 m c) ∗ R c)
  post c := iprop(StableHlo.held (c : Thread nD τ) (Pipeline.ucRefs τ sig) (Wc13 m c) ∗ R c)
  X c := iprop(∃ r, prngReg c r)
  Y c := iprop(∃ r, prngReg c r)
  Z c := Pipeline.unscopedRest (Ix := Unit) (Name := ℕ) (U := UR sig nD τ) (Lvl := ℕ) spec7 c (Vc12 m c)
  hentry c := by
    rw [Pipeline.ownSems0_none]
    have hsplit := Pipeline.arrays_of_unscopedBufs (p := 7) (pcfgs (F := F)) GenP.adm (pdats m) launch7.win launch7.arr_whole c
      ((pdats m 7 c).share_full fun _ => rfl) (Vc12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) GenP.adm (Ix := Unit) (Name := ℕ) (U := UR sig nD τ) (Lvl := ℕ)
      launch7.win launch7.arr_whole c (pdats m) ((pdats m 7 c).share_full fun _ => rfl)
      (Vc12 m c) (Vc13 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg8.lean ====
import proofs.«126270_j6725918785969_1_alg».proof.Proof.KI.Chain
import proofs.«126270_j6725918785969_1_alg».proof.Proof.KI.Common

/-!
# Region 8 as a segment of the program

Entered from every unscoped buffer at the contents `Wc14`, left at `Wc15`: the region's arrays are split out
of the unscoped buffers at entry and put back at exit, the output array `main_v116` at what the write-backs leave
and every other buffer as it was; the generator register goes into the pipeline's invariant and comes back;
nothing is owed; the kernel has no semaphore of its own.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF8 (c : Dev nD) (w : Fin cfg8.W) : (dat8 (Vc14 m) c).arrAt w cfg8.N = Vc15 m c (Pipeline.arrRef spec8 w) :=
  match w with
  | ⟨0, _⟩ => (((dat8 (Vc14 m) c).arrAt_in 0 rfl _).trans (A_eq8 (Vc14 m) c 0)).trans
      (Function.update_of_ne (StableHlo.devRef_ne_of_ne (by decide)) _ _).symm
  | ⟨1, _⟩ => (Wc15_out m c).symm

/-- Every buffer that is none of the region's arrays holds at exit what it held at entry. -/
theorem hrest8 (c : Dev nD) : ∀ b, b ∉ Finset.univ.image (Pipeline.arrRef spec8) → Vc15 m c b = Vc14 m c b :=
  fun b hb => Function.update_of_ne (StableHlo.devRef_ne_of_ne fun e => hb (Finset.mem_image.mpr ⟨1, Finset.mem_univ _, e.symm⟩)) _ _

set_option backward.isDefEq.respectTransparency.types false in
def reg8 : Pipeline.RegionSeg (pcfgs (F := F)) GenP.adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (Vc14 m) c).loose
  hwaits := Pipeline.hwaits_of_owed_zero _ _ _ _ L lv 8 fun _ _ => rfl
  pre c := iprop(StableHlo.held (c : Thread nD τ) (Pipeline.ucRefs τ sig) (Wc14 m c) ∗ R c)
  post c := iprop(StableHlo.held (c : Thread nD τ) (Pipeline.ucRefs τ sig) (Wc15 m c) ∗ R c)
  X c := iprop(∃ r, prngReg c r)
  Y c := iprop(∃ r, prngReg c r)
  Z c := Pipeline.unscopedRest (Ix := Unit) (Name := ℕ) (U := UR sig nD τ) (Lvl := ℕ) spec8 c (Vc14 m c)
  hentry c := by
    rw [Pipeline.ownSems0_none]
    have hsplit := Pipeline.arrays_of_unscopedBufs (p := 8) (pcfgs (F := F)) GenP.adm (pdats m) launch8.win launch8.arr_whole c
      ((pdats m 8 c).share_full fun _ => rfl) (Vc14 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) GenP.adm (Ix := Unit) (Name := ℕ) (U := UR sig nD τ) (Lvl := ℕ)
      launch8.win launch8.arr_whole c (pdats m) ((pdats m 8 c).share_full fun _ => rfl)
      (Vc14 m c) (Vc15 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg9.lean ====
import proofs.«126270_j6725918785969_1_alg».proof.Proof.KI.Chain
import proofs.«126270_j6725918785969_1_alg».proof.Proof.KI.Common

/-!
# Region 9 as a segment of the program

Entered from every unscoped buffer at the contents `Wc15`, left at `Wc16`: the region's arrays are split out
of the unscoped buffers at entry and put back at exit, the output array `main_v117` at what the write-backs leave
and every other buffer as it was; the generator register goes into the pipeline's invariant and comes back;
nothing is owed; the kernel has no semaphore of its own.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF9 (c : Dev nD) (w : Fin cfg9.W) : (dat9 (Vc15 m) c).arrAt w cfg9.N = Vc16 m c (Pipeline.arrRef spec9 w) :=
  match w with
  | ⟨0, _⟩ => (((dat9 (Vc15 m) c).arrAt_in 0 rfl _).trans (A_eq9 (Vc15 m) c 0)).trans
      (Function.update_of_ne (StableHlo.devRef_ne_of_ne (by decide)) _ _).symm
  | ⟨1, _⟩ => (Wc16_out m c).symm

/-- Every buffer that is none of the region's arrays holds at exit what it held at entry. -/
theorem hrest9 (c : Dev nD) : ∀ b, b ∉ Finset.univ.image (Pipeline.arrRef spec9) → Vc16 m c b = Vc15 m c b :=
  fun b hb => Function.update_of_ne (StableHlo.devRef_ne_of_ne fun e => hb (Finset.mem_image.mpr ⟨1, Finset.mem_univ _, e.symm⟩)) _ _

set_option backward.isDefEq.respectTransparency.types false in
def reg9 : Pipeline.RegionSeg (pcfgs (F := F)) GenP.adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (Vc15 m) c).loose
  hwaits := Pipeline.hwaits_of_owed_zero _ _ _ _ L lv 9 fun _ _ => rfl
  pre c := iprop(StableHlo.held (c : Thread nD τ) (Pipeline.ucRefs τ sig) (Wc15 m c) ∗ R c)
  post c := iprop(StableHlo.held (c : Thread nD τ) (Pipeline.ucRefs τ sig) (Wc16 m c) ∗ R c)
  X c := iprop(∃ r, prngReg c r)
  Y c := iprop(∃ r, prngReg c r)
  Z c := Pipeline.unscopedRest (Ix := Unit) (Name := ℕ) (U := UR sig nD τ) (Lvl := ℕ) spec9 c (Vc15 m c)
  hentry c := by
    rw [Pipeline.ownSems0_none]
    have hsplit := Pipeline.arrays_of_unscopedBufs (p := 9) (pcfgs (F := F)) GenP.adm (pdats m) launch9.win launch9.arr_whole c
      ((pdats m 9 c).share_full fun _ => rfl) (Vc15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) GenP.adm (Ix := Unit) (Name := ℕ) (U := UR sig nD τ) (Lvl := ℕ)
      launch9.win launch9.arr_whole c (pdats m) ((pdats m 9 c).share_full fun _ => rfl)
      (Vc15 m c) (Vc16 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg10.lean ====
import proofs.«126270_j6725918785969_1_alg».proof.Proof.KI.Chain
import proofs.«126270_j6725918785969_1_alg».proof.Proof.KI.Common

/-!
# Region 10 as a segment of the program

Entered from every unscoped buffer at the contents `Wc17`, left at `Wc18`: the region's arrays are split out
of the unscoped buffers at entry and put back at exit, the output array `main_v120` at what the write-backs leave
and every other buffer as it was; the generator register goes into the pipeline's invariant, which also carries the kernel's scratch accumulator from point to point, and comes back;
nothing is owed; the kernel has no semaphore of its own.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF10 (c : Dev nD) (w : Fin cfg10.W) : (dat10 (Vc17 m) c).arrAt w cfg10.N = Vc18 m c (Pipeline.arrRef spec10 w) :=
  match w with
  | ⟨0, _⟩ => (((dat10 (Vc17 m) c).arrAt_in 0 rfl _).trans (A_eq10 (Vc17 m) c 0)).trans
      (Function.update_of_ne (StableHlo.devRef_ne_of_ne (by decide)) _ _).symm
  | ⟨1, _⟩ => (((dat10 (Vc17 m) c).arrAt_in 1 rfl _).trans (A_eq10 (Vc17 m) c 1)).trans
      (Function.update_of_ne (StableHlo.devRef_ne_of_ne (by decide)) _ _).symm
  | ⟨2, _⟩ => (Wc18_out m c).symm

/-- Every buffer that is none of the region's arrays holds at exit what it held at entry. -/
theorem hrest10 (c : Dev nD) : ∀ b, b ∉ Finset.univ.image (Pipeline.arrRef spec10) → Vc18 m c b = Vc17 m c b :=
  fun b hb => Function.update_of_ne (StableHlo.devRef_ne_of_ne fun e => hb (Finset.mem_image.mpr ⟨2, Finset.mem_univ _, e.symm⟩)) _ _

set_option backward.isDefEq.respectTransparency.types false in
def reg10 : Pipeline.RegionSeg (pcfgs (F := F)) GenP.adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (Vc17 m) c).loose
  hwaits := Pipeline.hwaits_of_owed_zero _ _ _ _ L lv 10 fun _ _ => rfl
  pre c := iprop(StableHlo.held (c : Thread nD τ) (Pipeline.ucRefs τ sig) (Wc17 m c) ∗ R c)
  post c := iprop(StableHlo.held (c : Thread nD τ) (Pipeline.ucRefs τ sig) (Wc18 m c) ∗ R c)
  X c := iprop(∃ r, prngReg c r)
  Y c := iprop(∃ r, prngReg c r)
  Z c := Pipeline.unscopedRest (Ix := Unit) (Name := ℕ) (U := UR sig nD τ) (Lvl := ℕ) spec10 c (Vc17 m c)
  hentry c := by
    rw [Pipeline.ownSems0_none]
    have hsplit := Pipeline.arrays_of_unscopedBufs (p := 10) (pcfgs (F := F)) GenP.adm (pdats m) launch10.win launch10.arr_whole c
      ((pdats m 10 c).share_full fun _ => rfl) (Vc17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin10 (Vc17 m) c
  hout c := hout10 (Vc17 m) c
  hexit c := by
    have hjoin := Pipeline.unscopedBufs_of_arrays (p := 10) (pcfgs (F := F)) GenP.adm (Ix := Unit) (Name := ℕ) (U := UR sig nD τ) (Lvl := ℕ)
      launch10.win launch10.arr_whole c (pdats m) ((pdats m 10 c).share_full fun _ => rfl)
      (Vc17 m c) (Vc18 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg11.lean ====
import proofs.«126270_j6725918785969_1_alg».proof.Proof.KI.Chain
import proofs.«126270_j6725918785969_1_alg».proof.Proof.KI.Common

/-!
# Region 11 as a segment of the program

Entered from every unscoped buffer at the contents `Wc19`, left at `Wc20`: the region's arrays are split out
of the unscoped buffers at entry and put back at exit, the output array `main_v145` at what the write-backs leave
and every other buffer as it was; the generator register goes into the pipeline's invariant and comes back;
nothing is owed; the kernel has no semaphore of its own.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF11 (c : Dev nD) (w : Fin cfg11.W) : (dat11 (Vc19 m) c).arrAt w cfg11.N = Vc20 m c (Pipeline.arrRef spec11 w) :=
  match w with
  | ⟨0, _⟩ => (((dat11 (Vc19 m) c).arrAt_in 0 rfl _).trans (A_eq11 (Vc19 m) c 0)).trans
      (Function.update_of_ne (StableHlo.devRef_ne_of_ne (by decide)) _ _).symm
  | ⟨1, _⟩ => (((dat11 (Vc19 m) c).arrAt_in 1 rfl _).trans (A_eq11 (Vc19 m) c 1)).trans
      (Function.update_of_ne (StableHlo.devRef_ne_of_ne (by decide)) _ _).symm
  | ⟨2, _⟩ => (Wc20_out m c).symm

/-- Every buffer that is none of the region's arrays holds at exit what it held at entry. -/
theorem hrest11 (c : Dev nD) : ∀ b, b ∉ Finset.univ.image (Pipeline.arrRef spec11) → Vc20 m c b = Vc19 m c b :=
  fun b hb => Function.update_of_ne (StableHlo.devRef_ne_of_ne fun e => hb (Finset.mem_image.mpr ⟨2, Finset.mem_univ _, e.symm⟩)) _ _

set_option backward.isDefEq.respectTransparency.types false in
def reg11 : Pipeline.RegionSeg (pcfgs (F := F)) GenP.adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (Vc19 m) c).loose
  hwaits := Pipeline.hwaits_of_owed_zero _ _ _ _ L lv 11 fun _ _ => rfl
  pre c := iprop(StableHlo.held (c : Thread nD τ) (Pipeline.ucRefs τ sig) (Wc19 m c) ∗ R c)
  post c := iprop(StableHlo.held (c : Thread nD τ) (Pipeline.ucRefs τ sig) (Wc20 m c) ∗ R c)
  X c := iprop(∃ r, prngReg c r)
  Y c := iprop(∃ r, prngReg c r)
  Z c := Pipeline.unscopedRest (Ix := Unit) (Name := ℕ) (U := UR sig nD τ) (Lvl := ℕ) spec11 c (Vc19 m c)
  hentry c := by
    rw [Pipeline.ownSems0_none]
    have hsplit := Pipeline.arrays_of_unscopedBufs (p := 11) (pcfgs (F := F)) GenP.adm (pdats m) launch11.win launch11.arr_whole c
      ((pdats m 11 c).share_full fun _ => rfl) (Vc19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) GenP.adm (Ix := Unit) (Name := ℕ) (U := UR sig nD τ) (Lvl := ℕ)
      launch11.win launch11.arr_whole c (pdats m) ((pdats m 11 c).share_full fun _ => rfl)
      (Vc19 m c) (Vc20 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg12.lean ====
import proofs.«126270_j6725918785969_1_alg».proof.Proof.KI.Chain
import proofs.«126270_j6725918785969_1_alg».proof.Proof.KI.Common

/-!
# Region 12 as a segment of the program

Entered from every unscoped buffer at the contents `Wc21`, left at `Wc22`: the region's arrays are split out
of the unscoped buffers at entry and put back at exit, the output array `main_v148` at what the write-backs leave
and every other buffer as it was; the generator register goes into the pipeline's invariant, which also carries the kernel's scratch accumulator from point to point, and comes back;
nothing is owed; the kernel has no semaphore of its own.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF12 (c : Dev nD) (w : Fin cfg12.W) : (dat12 (Vc21 m) c).arrAt w cfg12.N = Vc22 m c (Pipeline.arrRef spec12 w) :=
  match w with
  | ⟨0, _⟩ => (((dat12 (Vc21 m) c).arrAt_in 0 rfl _).trans (A_eq12 (Vc21 m) c 0)).trans
      (Function.update_of_ne (StableHlo.devRef_ne_of_ne (by decide)) _ _).symm
  | ⟨1, _⟩ => (((dat12 (Vc21 m) c).arrAt_in 1 rfl _).trans (A_eq12 (Vc21 m) c 1)).trans
      (Function.update_of_ne (StableHlo.devRef_ne_of_ne (by decide)) _ _).symm
  | ⟨2, _⟩ => (Wc22_out m c).symm

/-- Every buffer that is none of the region's arrays holds at exit what it held at entry. -/
theorem hrest12 (c : Dev nD) : ∀ b, b ∉ Finset.univ.image (Pipeline.arrRef spec12) → Vc22 m c b = Vc21 m c b :=
  fun b hb => Function.update_of_ne (StableHlo.devRef_ne_of_ne fun e => hb (Finset.mem_image.mpr ⟨2, Finset.mem_univ _, e.symm⟩)) _ _

set_option backward.isDefEq.respectTransparency.types false in
def reg12 : Pipeline.RegionSeg (pcfgs (F := F)) GenP.adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (Vc21 m) c).loose
  hwaits := Pipeline.hwaits_of_owed_zero _ _ _ _ L lv 12 fun _ _ => rfl
  pre c := iprop(StableHlo.held (c : Thread nD τ) (Pipeline.ucRefs τ sig) (Wc21 m c) ∗ R c)
  post c := iprop(StableHlo.held (c : Thread nD τ) (Pipeline.ucRefs τ sig) (Wc22 m c) ∗ R c)
  X c := iprop(∃ r, prngReg c r)
  Y c := iprop(∃ r, prngReg c r)
  Z c := Pipeline.unscopedRest (Ix := Unit) (Name := ℕ) (U := UR sig nD τ) (Lvl := ℕ) spec12 c (Vc21 m c)
  hentry c := by
    rw [Pipeline.ownSems0_none]
    have hsplit := Pipeline.arrays_of_unscopedBufs (p := 12) (pcfgs (F := F)) GenP.adm (pdats m) launch12.win launch12.arr_whole c
      ((pdats m 12 c).share_full fun _ => rfl) (Vc21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin12 (Vc21 m) c
  hout c := hout12 (Vc21 m) c
  hexit c := by
    have hjoin := Pipeline.unscopedBufs_of_arrays (p := 12) (pcfgs (F := F)) GenP.adm (Ix := Unit) (Name := ℕ) (U := UR sig nD τ) (Lvl := ℕ)
      launch12.win launch12.arr_whole c (pdats m) ((pdats m 12 c).share_full fun _ => rfl)
      (Vc21 m c) (Vc22 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg13.lean ====
import proofs.«126270_j6725918785969_1_alg».proof.Proof.KI.Chain
import proofs.«126270_j6725918785969_1_alg».proof.Proof.KI.Common

/-!
# Region 13 as a segment of the program

Entered from every unscoped buffer at the contents `Wc23`, left at `Wc24`: the region's arrays are split out
of the unscoped buffers at entry and put back at exit, the output array `main_v173` at what the write-backs leave
and every other buffer as it was; the generator register goes into the pipeline's invariant and comes back;
nothing is owed; the kernel has no semaphore of its own.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF13 (c : Dev nD) (w : Fin cfg13.W) : (dat13 (Vc23 m) c).arrAt w cfg13.N = Vc24 m c (Pipeline.arrRef spec13 w) :=
  match w with
  | ⟨0, _⟩ => (((dat13 (Vc23 m) c).arrAt_in 0 rfl _).trans (A_eq13 (Vc23 m) c 0)).trans
      (Function.update_of_ne (StableHlo.devRef_ne_of_ne (by decide)) _ _).symm
  | ⟨1, _⟩ => (((dat13 (Vc23 m) c).arrAt_in 1 rfl _).trans (A_eq13 (Vc23 m) c 1)).trans
      (Function.update_of_ne (StableHlo.devRef_ne_of_ne (by decide)) _ _).symm
  | ⟨2, _⟩ => (Wc24_out m c).symm

/-- Every buffer that is none of the region's arrays holds at exit what it held at entry. -/
theorem hrest13 (c : Dev nD) : ∀ b, b ∉ Finset.univ.image (Pipeline.arrRef spec13) → Vc24 m c b = Vc23 m c b :=
  fun b hb => Function.update_of_ne (StableHlo.devRef_ne_of_ne fun e => hb (Finset.mem_image.mpr ⟨2, Finset.mem_univ _, e.symm⟩)) _ _

set_option backward.isDefEq.respectTransparency.types false in
def reg13 : Pipeline.RegionSeg (pcfgs (F := F)) GenP.adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (Vc23 m) c).loose
  hwaits := Pipeline.hwaits_of_owed_zero _ _ _ _ L lv 13 fun _ _ => rfl
  pre c := iprop(StableHlo.held (c : Thread nD τ) (Pipeline.ucRefs τ sig) (Wc23 m c) ∗ R c)
  post c := iprop(StableHlo.held (c : Thread nD τ) (Pipeline.ucRefs τ sig) (Wc24 m c) ∗ R c)
  X c := iprop(∃ r, prngReg c r)
  Y c := iprop(∃ r, prngReg c r)
  Z c := Pipeline.unscopedRest (Ix := Unit) (Name := ℕ) (U := UR sig nD τ) (Lvl := ℕ) spec13 c (Vc23 m c)
  hentry c := by
    rw [Pipeline.ownSems0_none]
    have hsplit := Pipeline.arrays_of_unscopedBufs (p := 13) (pcfgs (F := F)) GenP.adm (pdats m) launch13.win launch13.arr_whole c
      ((pdats m 13 c).share_full fun _ => rfl) (Vc23 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) GenP.adm (Ix := Unit) (Name := ℕ) (U := UR sig nD τ) (Lvl := ℕ)
      launch13.win launch13.arr_whole c (pdats m) ((pdats m 13 c).share_full fun _ => rfl)
      (Vc23 m c) (Vc24 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg14.lean ====
import proofs.«126270_j6725918785969_1_alg».proof.Proof.KI.Chain
import proofs.«126270_j6725918785969_1_alg».proof.Proof.KI.Common

/-!
# Region 14 as a segment of the program

Entered from every unscoped buffer at the contents `Wc32`, left at `Wc33`: the region's arrays are split out
of the unscoped buffers at entry and put back at exit, the output array `main_v230` at what the write-backs leave
and every other buffer as it was; the generator register goes into the pipeline's invariant and comes back;
nothing is owed; the kernel has no semaphore of its own.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF14 (c : Dev nD) (w : Fin cfg14.W) : (dat14 (Vc32 m) c).arrAt w cfg14.N = Vc33 m c (Pipeline.arrRef spec14 w) :=
  match w with
  | ⟨0, _⟩ => (((dat14 (Vc32 m) c).arrAt_in 0 rfl _).trans (A_eq14 (Vc32 m) c 0)).trans
      (Function.update_of_ne (StableHlo.devRef_ne_of_ne (by decide)) _ _).symm
  | ⟨1, _⟩ => (((dat14 (Vc32 m) c).arrAt_in 1 rfl _).trans (A_eq14 (Vc32 m) c 1)).trans
      (Function.update_of_ne (StableHlo.devRef_ne_of_ne (by decide)) _ _).symm
  | ⟨2, _⟩ => (Wc33_out m c).symm

/-- Every buffer that is none of the region's arrays holds at exit what it held at entry. -/
theorem hrest14 (c : Dev nD) : ∀ b, b ∉ Finset.univ.image (Pipeline.arrRef spec14) → Vc33 m c b = Vc32 m c b :=
  fun b hb => Function.update_of_ne (StableHlo.devRef_ne_of_ne fun e => hb (Finset.mem_image.mpr ⟨2, Finset.mem_univ _, e.symm⟩)) _ _

set_option backward.isDefEq.respectTransparency.types false in
def reg14 : Pipeline.RegionSeg (pcfgs (F := F)) GenP.adm (pdats m) () defs₀ 𝒱₀ L lv 14 where
  win := launch14.win.to₀
  block_pos := launch14.block_pos
  stage_whole := launch14.stage_whole
  K := PEmpty
  osem k := k.elim
  ho := Pipeline.OwnSemFacts.none _
  hbody c := (body_obligation14 (Vc32 m) c).loose
  hwaits := Pipeline.hwaits_of_owed_zero _ _ _ _ L lv 14 fun _ _ => rfl
  pre c := iprop(StableHlo.held (c : Thread nD τ) (Pipeline.ucRefs τ sig) (Wc32 m c) ∗ R c)
  post c := iprop(StableHlo.held (c : Thread nD τ) (Pipeline.ucRefs τ sig) (Wc33 m c) ∗ R c)
  X c := iprop(∃ r, prngReg c r)
  Y c := iprop(∃ r, prngReg c r)
  Z c := Pipeline.unscopedRest (Ix := Unit) (Name := ℕ) (U := UR sig nD τ) (Lvl := ℕ) spec14 c (Vc32 m c)
  hentry c := by
    rw [Pipeline.ownSems0_none]
    have hsplit := Pipeline.arrays_of_unscopedBufs (p := 14) (pcfgs (F := F)) GenP.adm (pdats m) launch14.win launch14.arr_whole c
      ((pdats m 14 c).share_full fun _ => rfl) (Vc32 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) GenP.adm (Ix := Unit) (Name := ℕ) (U := UR sig nD τ) (Lvl := ℕ)
      launch14.win launch14.arr_whole c (pdats m) ((pdats m 14 c).share_full fun _ => rfl)
      (Vc32 m c) (Vc33 m c) ((pdats m 14 c).arrAt · cfg14.N) (hF14 m c) (hrest14 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg15.lean ====
import proofs.«126270_j6725918785969_1_alg».proof.Proof.KI.Chain
import proofs.«126270_j6725918785969_1_alg».proof.Proof.KI.Common

/-!
# Region 15 as a segment of the program

Entered from every unscoped buffer at the contents `Wc34`, left at `Wc35`: the region's arrays are split out
of the unscoped buffers at entry and put back at exit, the output array `main_v236` at what the write-backs leave
and every other buffer as it was; the generator register goes into the pipeline's invariant, which also carries the kernel's scratch accumulator from point to point, and comes back;
nothing is owed; the kernel has no semaphore of its own.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF15 (c : Dev nD) (w : Fin cfg15.W) : (dat15 (Vc34 m) c).arrAt w cfg15.N = Vc35 m c (Pipeline.arrRef spec15 w) :=
  match w with
  | ⟨0, _⟩ => (((dat15 (Vc34 m) c).arrAt_in 0 rfl _).trans (A_eq15 (Vc34 m) c 0)).trans
      (Function.update_of_ne (StableHlo.devRef_ne_of_ne (by decide)) _ _).symm
  | ⟨1, _⟩ => (((dat15 (Vc34 m) c).arrAt_in 1 rfl _).trans (A_eq15 (Vc34 m) c 1)).trans
      (Function.update_of_ne (StableHlo.devRef_ne_of_ne (by decide)) _ _).symm
  | ⟨2, _⟩ => (Wc35_out m c).symm

/-- Every buffer that is none of the region's arrays holds at exit what it held at entry. -/
theorem hrest15 (c : Dev nD) : ∀ b, b ∉ Finset.univ.image (Pipeline.arrRef spec15) → Vc35 m c b = Vc34 m c b :=
  fun b hb => Function.update_of_ne (StableHlo.devRef_ne_of_ne fun e => hb (Finset.mem_image.mpr ⟨2, Finset.mem_univ _, e.symm⟩)) _ _

set_option backward.isDefEq.respectTransparency.types false in
def reg15 : Pipeline.RegionSeg (pcfgs (F := F)) GenP.adm (pdats m) () defs₀ 𝒱₀ L lv 15 where
  win := launch15.win.to₀
  block_pos := launch15.block_pos
  stage_whole := launch15.stage_whole
  K := PEmpty
  osem k := k.elim
  ho := Pipeline.OwnSemFacts.none _
  hbody c := (body_obligation15 (Vc34 m) c).loose
  hwaits := Pipeline.hwaits_of_owed_zero _ _ _ _ L lv 15 fun _ _ => rfl
  pre c := iprop(StableHlo.held (c : Thread nD τ) (Pipeline.ucRefs τ sig) (Wc34 m c) ∗ R c)
  post c := iprop(StableHlo.held (c : Thread nD τ) (Pipeline.ucRefs τ sig) (Wc35 m c) ∗ R c)
  X c := iprop(∃ r, prngReg c r)
  Y c := iprop(∃ r, prngReg c r)
  Z c := Pipeline.unscopedRest (Ix := Unit) (Name := ℕ) (U := UR sig nD τ) (Lvl := ℕ) spec15 c (Vc34 m c)
  hentry c := by
    rw [Pipeline.ownSems0_none]
    have hsplit := Pipeline.arrays_of_unscopedBufs (p := 15) (pcfgs (F := F)) GenP.adm (pdats m) launch15.win launch15.arr_whole c
      ((pdats m 15 c).share_full fun _ => rfl) (Vc34 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin15 (Vc34 m) c
  hout c := hout15 (Vc34 m) c
  hexit c := by
    have hjoin := Pipeline.unscopedBufs_of_arrays (p := 15) (pcfgs (F := F)) GenP.adm (Ix := Unit) (Name := ℕ) (U := UR sig nD τ) (Lvl := ℕ)
      launch15.win launch15.arr_whole c (pdats m) ((pdats m 15 c).share_full fun _ => rfl)
      (Vc34 m c) (Vc35 m c) ((pdats m 15 c).arrAt · cfg15.N) (hF15 m c) (hrest15 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg16.lean ====
import proofs.«126270_j6725918785969_1_alg».proof.Proof.KI.Chain
import proofs.«126270_j6725918785969_1_alg».proof.Proof.KI.Common

/-!
# Region 16 as a segment of the program

Entered from every unscoped buffer at the contents `Wc40`, left at `Wc41`: the region's arrays are split out
of the unscoped buffers at entry and put back at exit, the output array `main_v273` at what the write-backs leave
and every other buffer as it was; the generator register goes into the pipeline's invariant and comes back;
nothing is owed; the kernel has no semaphore of its own.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF16 (c : Dev nD) (w : Fin cfg16.W) : (dat16 (Vc40 m) c).arrAt w cfg16.N = Vc41 m c (Pipeline.arrRef spec16 w) :=
  match w with
  | ⟨0, _⟩ => (((dat16 (Vc40 m) c).arrAt_in 0 rfl _).trans (A_eq16 (Vc40 m) c 0)).trans
      (Function.update_of_ne (StableHlo.devRef_ne_of_ne (by decide)) _ _).symm
  | ⟨1, _⟩ => (((dat16 (Vc40 m) c).arrAt_in 1 rfl _).trans (A_eq16 (Vc40 m) c 1)).trans
      (Function.update_of_ne (StableHlo.devRef_ne_of_ne (by decide)) _ _).symm
  | ⟨2, _⟩ => (Wc41_out m c).symm

/-- Every buffer that is none of the region's arrays holds at exit what it held at entry. -/
theorem hrest16 (c : Dev nD) : ∀ b, b ∉ Finset.univ.image (Pipeline.arrRef spec16) → Vc41 m c b = Vc40 m c b :=
  fun b hb => Function.update_of_ne (StableHlo.devRef_ne_of_ne fun e => hb (Finset.mem_image.mpr ⟨2, Finset.mem_univ _, e.symm⟩)) _ _

set_option backward.isDefEq.respectTransparency.types false in
def reg16 : Pipeline.RegionSeg (pcfgs (F := F)) GenP.adm (pdats m) () defs₀ 𝒱₀ L lv 16 where
  win := launch16.win.to₀
  block_pos := launch16.block_pos
  stage_whole := launch16.stage_whole
  K := PEmpty
  osem k := k.elim
  ho := Pipeline.OwnSemFacts.none _
  hbody c := (body_obligation16 (Vc40 m) c).loose
  hwaits := Pipeline.hwaits_of_owed_zero _ _ _ _ L lv 16 fun _ _ => rfl
  pre c := iprop(StableHlo.held (c : Thread nD τ) (Pipeline.ucRefs τ sig) (Wc40 m c) ∗ R c)
  post c := iprop(StableHlo.held (c : Thread nD τ) (Pipeline.ucRefs τ sig) (Wc41 m c) ∗ R c)
  X c := iprop(∃ r, prngReg c r)
  Y c := iprop(∃ r, prngReg c r)
  Z c := Pipeline.unscopedRest (Ix := Unit) (Name := ℕ) (U := UR sig nD τ) (Lvl := ℕ) spec16 c (Vc40 m c)
  hentry c := by
    rw [Pipeline.ownSems0_none]
    have hsplit := Pipeline.arrays_of_unscopedBufs (p := 16) (pcfgs (F := F)) GenP.adm (pdats m) launch16.win launch16.arr_whole c
      ((pdats m 16 c).share_full fun _ => rfl) (Vc40 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m 16 c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) GenP.adm (Ix := Unit) (Name := ℕ) (U := UR sig nD τ) (Lvl := ℕ)
      launch16.win launch16.arr_whole c (pdats m) ((pdats m 16 c).share_full fun _ => rfl)
      (Vc40 m c) (Vc41 m c) ((pdats m 16 c).arrAt · cfg16.N) (hF16 m c) (hrest16 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg17.lean ====
import proofs.«126270_j6725918785969_1_alg».proof.Proof.KI.Chain
import proofs.«126270_j6725918785969_1_alg».proof.Proof.KI.Common

/-!
# Region 17 as a segment of the program

Entered from every unscoped buffer at the contents `Wc42`, left at `Wc43`: the region's arrays are split out
of the unscoped buffers at entry and put back at exit, the output array `main_v279` at what the write-backs leave
and every other buffer as it was; the generator register goes into the pipeline's invariant, which also carries the kernel's scratch accumulator from point to point, and comes back;
nothing is owed; the kernel has no semaphore of its own.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF17 (c : Dev nD) (w : Fin cfg17.W) : (dat17 (Vc42 m) c).arrAt w cfg17.N = Vc43 m c (Pipeline.arrRef spec17 w) :=
  match w with
  | ⟨0, _⟩ => (((dat17 (Vc42 m) c).arrAt_in 0 rfl _).trans (A_eq17 (Vc42 m) c 0)).trans
      (Function.update_of_ne (StableHlo.devRef_ne_of_ne (by decide)) _ _).symm
  | ⟨1, _⟩ => (((dat17 (Vc42 m) c).arrAt_in 1 rfl _).trans (A_eq17 (Vc42 m) c 1)).trans
      (Function.update_of_ne (StableHlo.devRef_ne_of_ne (by decide)) _ _).symm
  | ⟨2, _⟩ => (Wc43_out m c).symm

/-- Every buffer that is none of the region's arrays holds at exit what it held at entry. -/
theorem hrest17 (c : Dev nD) : ∀ b, b ∉ Finset.univ.image (Pipeline.arrRef spec17) → Vc43 m c b = Vc42 m c b :=
  fun b hb => Function.update_of_ne (StableHlo.devRef_ne_of_ne fun e => hb (Finset.mem_image.mpr ⟨2, Finset.mem_univ _, e.symm⟩)) _ _

set_option backward.isDefEq.respectTransparency.types false in
def reg17 : Pipeline.RegionSeg (pcfgs (F := F)) GenP.adm (pdats m) () defs₀ 𝒱₀ L lv 17 where
  win := launch17.win.to₀
  block_pos := launch17.block_pos
  stage_whole := launch17.stage_whole
  K := PEmpty
  osem k := k.elim
  ho := Pipeline.OwnSemFacts.none _
  hbody c := (body_obligation17 (Vc42 m) c).loose
  hwaits := Pipeline.hwaits_of_owed_zero _ _ _ _ L lv 17 fun _ _ => rfl
  pre c := iprop(StableHlo.held (c : Thread nD τ) (Pipeline.ucRefs τ sig) (Wc42 m c) ∗ R c)
  post c := iprop(StableHlo.held (c : Thread nD τ) (Pipeline.ucRefs τ sig) (Wc43 m c) ∗ R c)
  X c := iprop(∃ r, prngReg c r)
  Y c := iprop(∃ r, prngReg c r)
  Z c := Pipeline.unscopedRest (Ix := Unit) (Name := ℕ) (U := UR sig nD τ) (Lvl := ℕ) spec17 c (Vc42 m c)
  hentry c := by
    rw [Pipeline.ownSems0_none]
    have hsplit := Pipeline.arrays_of_unscopedBufs (p := 17) (pcfgs (F := F)) GenP.adm (pdats m) launch17.win launch17.arr_whole c
      ((pdats m 17 c).share_full fun _ => rfl) (Vc42 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin17 (Vc42 m) c
  hout c := hout17 (Vc42 m) c
  hexit c := by
    have hjoin := Pipeline.unscopedBufs_of_arrays (p := 17) (pcfgs (F := F)) GenP.adm (Ix := Unit) (Name := ℕ) (U := UR sig nD τ) (Lvl := ℕ)
      launch17.win launch17.arr_whole c (pdats m) ((pdats m 17 c).share_full fun _ => rfl)
      (Vc42 m c) (Vc43 m c) ((pdats m 17 c).arrAt · cfg17.N) (hF17 m c) (hrest17 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg18.lean ====
import proofs.«126270_j6725918785969_1_alg».proof.Proof.KI.Chain
import proofs.«126270_j6725918785969_1_alg».proof.Proof.KI.Common

/-!
# Region 18 as a segment of the program

Entered from every unscoped buffer at the contents `Wc48`, left at `Wc49`: the region's arrays are split out
of the unscoped buffers at entry and put back at exit, the output array `main_v316` at what the write-backs leave
and every other buffer as it was; the generator register goes into the pipeline's invariant and comes back;
nothing is owed; the kernel has no semaphore of its own.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF18 (c : Dev nD) (w : Fin cfg18.W) : (dat18 (Vc48 m) c).arrAt w cfg18.N = Vc49 m c (Pipeline.arrRef spec18 w) :=
  match w with
  | ⟨0, _⟩ => (((dat18 (Vc48 m) c).arrAt_in 0 rfl _).trans (A_eq18 (Vc48 m) c 0)).trans
      (Function.update_of_ne (StableHlo.devRef_ne_of_ne (by decide)) _ _).symm
  | ⟨1, _⟩ => (((dat18 (Vc48 m) c).arrAt_in 1 rfl _).trans (A_eq18 (Vc48 m) c 1)).trans
      (Function.update_of_ne (StableHlo.devRef_ne_of_ne (by decide)) _ _).symm
  | ⟨2, _⟩ => (Wc49_out m c).symm

/-- Every buffer that is none of the region's arrays holds at exit what it held at entry. -/
theorem hrest18 (c : Dev nD) : ∀ b, b ∉ Finset.univ.image (Pipeline.arrRef spec18) → Vc49 m c b = Vc48 m c b :=
  fun b hb => Function.update_of_ne (StableHlo.devRef_ne_of_ne fun e => hb (Finset.mem_image.mpr ⟨2, Finset.mem_univ _, e.symm⟩)) _ _

set_option backward.isDefEq.respectTransparency.types false in
def reg18 : Pipeline.RegionSeg (pcfgs (F := F)) GenP.adm (pdats m) () defs₀ 𝒱₀ L lv 18 where
  win := launch18.win.to₀
  block_pos := launch18.block_pos
  stage_whole := launch18.stage_whole
  K := PEmpty
  osem k := k.elim
  ho := Pipeline.OwnSemFacts.none _
  hbody c := (body_obligation18 (Vc48 m) c).loose
  hwaits := Pipeline.hwaits_of_owed_zero _ _ _ _ L lv 18 fun _ _ => rfl
  pre c := iprop(StableHlo.held (c : Thread nD τ) (Pipeline.ucRefs τ sig) (Wc48 m c) ∗ R c)
  post c := iprop(StableHlo.held (c : Thread nD τ) (Pipeline.ucRefs τ sig) (Wc49 m c) ∗ R c)
  X c := iprop(∃ r, prngReg c r)
  Y c := iprop(∃ r, prngReg c r)
  Z c := Pipeline.unscopedRest (Ix := Unit) (Name := ℕ) (U := UR sig nD τ) (Lvl := ℕ) spec18 c (Vc48 m c)
  hentry c := by
    rw [Pipeline.ownSems0_none]
    have hsplit := Pipeline.arrays_of_unscopedBufs (p := 18) (pcfgs (F := F)) GenP.adm (pdats m) launch18.win launch18.arr_whole c
      ((pdats m 18 c).share_full fun _ => rfl) (Vc48 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 18 c).Φ 0 = Pipeline.ΦA spec18 c from rfl]; unfold Pipeline.ΦA
    iintro ⟨Hp, -, Hr⟩
    isplitl [Hr]; · iexact Hr
    iexact Hp
  hout c := by
    rw [Pipeline.ownSems0_none, show (pdats m 18 c).Φ (Fin.last _) = Pipeline.ΦA spec18 c from rfl]; unfold Pipeline.ΦA
    iintro ⟨Hr, Hp⟩
    isplitl [Hp]; · iexact Hp
    isplitr; · iempintro
    iexact Hr
  hexit c := by
    have hjoin := Pipeline.unscopedBufs_of_arrays (p := 18) (pcfgs (F := F)) GenP.adm (Ix := Unit) (Name := ℕ) (U := UR sig nD τ) (Lvl := ℕ)
      launch18.win launch18.arr_whole c (pdats m) ((pdats m 18 c).share_full fun _ => rfl)
      (Vc48 m c) (Vc49 m c) ((pdats m 18 c).arrAt · cfg18.N) (hF18 m c) (hrest18 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg19.lean ====
import proofs.«126270_j6725918785969_1_alg».proof.Proof.KI.Chain
import proofs.«126270_j6725918785969_1_alg».proof.Proof.KI.Common

/-!
# Region 19 as a segment of the program

Entered from every unscoped buffer at the contents `Wc50`, left at `Wc51`: the region's arrays are split out
of the unscoped buffers at entry and put back at exit, the output array `main_v322` at what the write-backs leave
and every other buffer as it was; the generator register goes into the pipeline's invariant, which also carries the kernel's scratch accumulator from point to point, and comes back;
nothing is owed; the kernel has no semaphore of its own.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF19 (c : Dev nD) (w : Fin cfg19.W) : (dat19 (Vc50 m) c).arrAt w cfg19.N = Vc51 m c (Pipeline.arrRef spec19 w) :=
  match w with
  | ⟨0, _⟩ => (((dat19 (Vc50 m) c).arrAt_in 0 rfl _).trans (A_eq19 (Vc50 m) c 0)).trans
      (Function.update_of_ne (StableHlo.devRef_ne_of_ne (by decide)) _ _).symm
  | ⟨1, _⟩ => (((dat19 (Vc50 m) c).arrAt_in 1 rfl _).trans (A_eq19 (Vc50 m) c 1)).trans
      (Function.update_of_ne (StableHlo.devRef_ne_of_ne (by decide)) _ _).symm
  | ⟨2, _⟩ => (Wc51_out m c).symm

/-- Every buffer that is none of the region's arrays holds at exit what it held at entry. -/
theorem hrest19 (c : Dev nD) : ∀ b, b ∉ Finset.univ.image (Pipeline.arrRef spec19) → Vc51 m c b = Vc50 m c b :=
  fun b hb => Function.update_of_ne (StableHlo.devRef_ne_of_ne fun e => hb (Finset.mem_image.mpr ⟨2, Finset.mem_univ _, e.symm⟩)) _ _

set_option backward.isDefEq.respectTransparency.types false in
def reg19 : Pipeline.RegionSeg (pcfgs (F := F)) GenP.adm (pdats m) () defs₀ 𝒱₀ L lv 19 where
  win := launch19.win.to₀
  block_pos := launch19.block_pos
  stage_whole := launch19.stage_whole
  K := PEmpty
  osem k := k.elim
  ho := Pipeline.OwnSemFacts.none _
  hbody c := (body_obligation19 (Vc50 m) c).loose
  hwaits := Pipeline.hwaits_of_owed_zero _ _ _ _ L lv 19 fun _ _ => rfl
  pre c := iprop(StableHlo.held (c : Thread nD τ) (Pipeline.ucRefs τ sig) (Wc50 m c) ∗ R c)
  post c := iprop(StableHlo.held (c : Thread nD τ) (Pipeline.ucRefs τ sig) (Wc51 m c) ∗ R c)
  X c := iprop(∃ r, prngReg c r)
  Y c := iprop(∃ r, prngReg c r)
  Z c := Pipeline.unscopedRest (Ix := Unit) (Name := ℕ) (U := UR sig nD τ) (Lvl := ℕ) spec19 c (Vc50 m c)
  hentry c := by
    rw [Pipeline.ownSems0_none]
    have hsplit := Pipeline.arrays_of_unscopedBufs (p := 19) (pcfgs (F := F)) GenP.adm (pdats m) launch19.win launch19.arr_whole c
      ((pdats m 19 c).share_full fun _ => rfl) (Vc50 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin19 (Vc50 m) c
  hout c := hout19 (Vc50 m) c
  hexit c := by
    have hjoin := Pipeline.unscopedBufs_of_arrays (p := 19) (pcfgs (F := F)) GenP.adm (Ix := Unit) (Name := ℕ) (U := UR sig nD τ) (Lvl := ℕ)
      launch19.win launch19.arr_whole c (pdats m) ((pdats m 19 c).share_full fun _ => rfl)
      (Vc50 m c) (Vc51 m c) ((pdats m 19 c).arrAt · cfg19.N) (hF19 m c) (hrest19 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg20.lean ====
import proofs.«126270_j6725918785969_1_alg».proof.Proof.KI.Chain
import proofs.«126270_j6725918785969_1_alg».proof.Proof.KI.Common

/-!
# Region 20 as a segment of the program

Entered from every unscoped buffer at the contents `Wc56`, left at `Wc57`: the region's arrays are split out
of the unscoped buffers at entry and put back at exit, the output array `main_v359` at what the write-backs leave
and every other buffer as it was; the generator register goes into the pipeline's invariant and comes back;
nothing is owed; the kernel has no semaphore of its own.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF20 (c : Dev nD) (w : Fin cfg20.W) : (dat20 (Vc56 m) c).arrAt w cfg20.N = Vc57 m c (Pipeline.arrRef spec20 w) :=
  match w with
  | ⟨0, _⟩ => (((dat20 (Vc56 m) c).arrAt_in 0 rfl _).trans (A_eq20 (Vc56 m) c 0)).trans
      (Function.update_of_ne (StableHlo.devRef_ne_of_ne (by decide)) _ _).symm
  | ⟨1, _⟩ => (((dat20 (Vc56 m) c).arrAt_in 1 rfl _).trans (A_eq20 (Vc56 m) c 1)).trans
      (Function.update_of_ne (StableHlo.devRef_ne_of_ne (by decide)) _ _).symm
  | ⟨2, _⟩ => (Wc57_out m c).symm

/-- Every buffer that is none of the region's arrays holds at exit what it held at entry. -/
theorem hrest20 (c : Dev nD) : ∀ b, b ∉ Finset.univ.image (Pipeline.arrRef spec20) → Vc57 m c b = Vc56 m c b :=
  fun b hb => Function.update_of_ne (StableHlo.devRef_ne_of_ne fun e => hb (Finset.mem_image.mpr ⟨2, Finset.mem_univ _, e.symm⟩)) _ _

set_option backward.isDefEq.respectTransparency.types false in
def reg20 : Pipeline.RegionSeg (pcfgs (F := F)) GenP.adm (pdats m) () defs₀ 𝒱₀ L lv 20 where
  win := launch20.win.to₀
  block_pos := launch20.block_pos
  stage_whole := launch20.stage_whole
  K := PEmpty
  osem k := k.elim
  ho := Pipeline.OwnSemFacts.none _
  hbody c := (body_obligation20 (Vc56 m) c).loose
  hwaits := Pipeline.hwaits_of_owed_zero _ _ _ _ L lv 20 fun _ _ => rfl
  pre c := iprop(StableHlo.held (c : Thread nD τ) (Pipeline.ucRefs τ sig) (Wc56 m c) ∗ R c)
  post c := iprop(StableHlo.held (c : Thread nD τ) (Pipeline.ucRefs τ sig) (Wc57 m c) ∗ R c)
  X c := iprop(∃ r, prngReg c r)
  Y c := iprop(∃ r, prngReg c r)
  Z c := Pipeline.unscopedRest (Ix := Unit) (Name := ℕ) (U := UR sig nD τ) (Lvl := ℕ) spec20 c (Vc56 m c)
  hentry c := by
    rw [Pipeline.ownSems0_none]
    have hsplit := Pipeline.arrays_of_unscopedBufs (p := 20) (pcfgs (F := F)) GenP.adm (pdats m) launch20.win launch20.arr_whole c
      ((pdats m 20 c).share_full fun _ => rfl) (Vc56 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 20 c).Φ 0 = Pipeline.ΦA spec20 c from rfl]; unfold Pipeline.ΦA
    iintro ⟨Hp, -, Hr⟩
    isplitl [Hr]; · iexact Hr
    iexact Hp
  hout c := by
    rw [Pipeline.ownSems0_none, show (pdats m 20 c).Φ (Fin.last _) = Pipeline.ΦA spec20 c from rfl]; unfold Pipeline.ΦA
    iintro ⟨Hr, Hp⟩
    isplitl [Hp]; · iexact Hp
    isplitr; · iempintro
    iexact Hr
  hexit c := by
    have hjoin := Pipeline.unscopedBufs_of_arrays (p := 20) (pcfgs (F := F)) GenP.adm (Ix := Unit) (Name := ℕ) (U := UR sig nD τ) (Lvl := ℕ)
      launch20.win launch20.arr_whole c (pdats m) ((pdats m 20 c).share_full fun _ => rfl)
      (Vc56 m c) (Vc57 m c) ((pdats m 20 c).arrAt · cfg20.N) (hF20 m c) (hrest20 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg21.lean ====
import proofs.«126270_j6725918785969_1_alg».proof.Proof.KI.Chain
import proofs.«126270_j6725918785969_1_alg».proof.Proof.KI.Common

/-!
# Region 21 as a segment of the program

Entered from every unscoped buffer at the contents `Wc58`, left at `Wc59`: the region's arrays are split out
of the unscoped buffers at entry and put back at exit, the output array `main_v365` at what the write-backs leave
and every other buffer as it was; the generator register goes into the pipeline's invariant, which also carries the kernel's scratch accumulator from point to point, and comes back;
nothing is owed; the kernel has no semaphore of its own.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each of its arrays holds what the pipeline leaves: the output array by the chain's
    definition, an input array its entry contents. -/
theorem hF21 (c : Dev nD) (w : Fin cfg21.W) : (dat21 (Vc58 m) c).arrAt w cfg21.N = Vc59 m c (Pipeline.arrRef spec21 w) :=
  match w with
  | ⟨0, _⟩ => (((dat21 (Vc58 m) c).arrAt_in 0 rfl _).trans (A_eq21 (Vc58 m) c 0)).trans
      (Function.update_of_ne (StableHlo.devRef_ne_of_ne (by decide)) _ _).symm
  | ⟨1, _⟩ => (((dat21 (Vc58 m) c).arrAt_in 1 rfl _).trans (A_eq21 (Vc58 m) c 1)).trans
      (Function.update_of_ne (StableHlo.devRef_ne_of_ne (by decide)) _ _).symm
  | ⟨2, _⟩ => (Wc59_out m c).symm

/-- Every buffer that is none of the region's arrays holds at exit what it held at entry. -/
theorem hrest21 (c : Dev nD) : ∀ b, b ∉ Finset.univ.image (Pipeline.arrRef spec21) → Vc59 m c b = Vc58 m c b :=
  fun b hb => Function.update_of_ne (StableHlo.devRef_ne_of_ne fun e => hb (Finset.mem_image.mpr ⟨2, Finset.mem_univ _, e.symm⟩)) _ _

set_option backward.isDefEq.respectTransparency.types false in
def reg21 : Pipeline.RegionSeg (pcfgs (F := F)) GenP.adm (pdats m) () defs₀ 𝒱₀ L lv 21 where
  win := launch21.win.to₀
  block_pos := launch21.block_pos
  stage_whole := launch21.stage_whole
  K := PEmpty
  osem k := k.elim
  ho := Pipeline.OwnSemFacts.none _
  hbody c := (body_obligation21 (Vc58 m) c).loose
  hwaits := Pipeline.hwaits_of_owed_zero _ _ _ _ L lv 21 fun _ _ => rfl
  pre c := iprop(StableHlo.held (c : Thread nD τ) (Pipeline.ucRefs τ sig) (Wc58 m c) ∗ R c)
  post c := iprop(StableHlo.held (c : Thread nD τ) (Pipeline.ucRefs τ sig) (Wc59 m c) ∗ R c)
  X c := iprop(∃ r, prngReg c r)
  Y c := iprop(∃ r, prngReg c r)
  Z c := Pipeline.unscopedRest (Ix := Unit) (Name := ℕ) (U := UR sig nD τ) (Lvl := ℕ) spec21 c (Vc58 m c)
  hentry c := by
    rw [Pipeline.ownSems0_none]
    have hsplit := Pipeline.arrays_of_unscopedBufs (p := 21) (pcfgs (F := F)) GenP.adm (pdats m) launch21.win launch21.arr_whole c
      ((pdats m 21 c).share_full fun _ => rfl) (Vc58 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin21 (Vc58 m) c
  hout c := hout21 (Vc58 m) c
  hexit c := by
    have hjoin := Pipeline.unscopedBufs_of_arrays (p := 21) (pcfgs (F := F)) GenP.adm (Ix := Unit) (Name := ℕ) (U := UR sig nD τ) (Lvl := ℕ)
      launch21.win launch21.arr_whole c (pdats m) ((pdats m 21 c).share_full fun _ => rfl)
      (Vc58 m c) (Vc59 m c) ((pdats m 21 c).arrAt · cfg21.N) (hF21 m c) (hrest21 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Frame.lean ====
import proofs.«126270_j6725918785969_1_alg».proof.Proof.KI.Common
import proofs.«126270_j6725918785969_1_alg».proof.Proof.KI.Seg0
import proofs.«126270_j6725918785969_1_alg».proof.Proof.KI.Seg1
import proofs.«126270_j6725918785969_1_alg».proof.Proof.KI.Seg2
import proofs.«126270_j6725918785969_1_alg».proof.Proof.KI.Seg3
import proofs.«126270_j6725918785969_1_alg».proof.Proof.KI.Seg4
import proofs.«126270_j6725918785969_1_alg».proof.Proof.KI.Seg5
import proofs.«126270_j6725918785969_1_alg».proof.Proof.KI.Seg6
import proofs.«126270_j6725918785969_1_alg».proof.Proof.KI.Seg7
import proofs.«126270_j6725918785969_1_alg».proof.Proof.KI.Seg8
import proofs.«126270_j6725918785969_1_alg».proof.Proof.KI.Seg9
import proofs.«126270_j6725918785969_1_alg».proof.Proof.KI.Seg10
import proofs.«126270_j6725918785969_1_alg».proof.Proof.KI.Seg11
import proofs.«126270_j6725918785969_1_alg».proof.Proof.KI.Seg12
import proofs.«126270_j6725918785969_1_alg».proof.Proof.KI.Seg13
import proofs.«126270_j6725918785969_1_alg».proof.Proof.KI.Seg14
import proofs.«126270_j6725918785969_1_alg».proof.Proof.KI.Seg15
import proofs.«126270_j6725918785969_1_alg».proof.Proof.KI.Seg16
import proofs.«126270_j6725918785969_1_alg».proof.Proof.KI.Seg17
import proofs.«126270_j6725918785969_1_alg».proof.Proof.KI.Seg18
import proofs.«126270_j6725918785969_1_alg».proof.Proof.KI.Seg19
import proofs.«126270_j6725918785969_1_alg».proof.Proof.KI.Seg20
import proofs.«126270_j6725918785969_1_alg».proof.Proof.KI.Seg21

/-!
# The frame of the program of 22 regions

Every weakly fair execution of the program from any memory with zero counters terminates, nothing faulting, and
every final memory holds each of the twelve argument arrays as launched: the conditional frame over the 60
items, instantiated at the chain of buffer contents and at one segment record per region; between two items a
core holds every unscoped buffer at the chain's contents, its generator register at some state, and owes nothing.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- The run of the whole program: it terminates, nothing faulting, and on every core every unscoped buffer ends at
    the chain's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = GenP.V60 m (outsF m) c b) :=
  GenP.run_cond m emb₁ () 𝒱₀ L lv (fun _ _ => rfl) ρ (outsF m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE22 := fun c => by iintro ⟨-, HO⟩; iexact HO)
    (R0 := reg0 m) (hpre0 := fun c => by rw [V0_eq]; exact .rfl) (hpost0 := fun c => by rw [V1_eq]; exact .rfl)
    (R1 := reg1 m) (hpre1 := fun c => by rw [V1_eq]; exact .rfl) (hpost1 := fun c => by rw [V2_eq]; exact .rfl)
    (R2 := reg2 m) (hpre2 := fun c => by rw [V3_eq]; exact .rfl) (hpost2 := fun c => by rw [V4_eq]; exact .rfl)
    (R3 := reg3 m) (hpre3 := fun c => by rw [V4_eq]; exact .rfl) (hpost3 := fun c => by rw [V5_eq]; exact .rfl)
    (R4 := reg4 m) (hpre4 := fun c => by rw [V6_eq]; exact .rfl) (hpost4 := fun c => by rw [V7_eq]; exact .rfl)
    (R5 := reg5 m) (hpre5 := fun c => by rw [V8_eq]; exact .rfl) (hpost5 := fun c => by rw [V9_eq]; exact .rfl)
    (R6 := reg6 m) (hpre6 := fun c => by rw [V10_eq]; exact .rfl) (hpost6 := fun c => by rw [V11_eq]; exact .rfl)
    (R7 := reg7 m) (hpre7 := fun c => by rw [V12_eq]; exact .rfl) (hpost7 := fun c => by rw [V13_eq]; exact .rfl)
    (R8 := reg8 m) (hpre8 := fun c => by rw [V14_eq]; exact .rfl) (hpost8 := fun c => by rw [V15_eq]; exact .rfl)
    (R9 := reg9 m) (hpre9 := fun c => by rw [V15_eq]; exact .rfl) (hpost9 := fun c => by rw [V16_eq]; exact .rfl)
    (R10 := reg10 m) (hpre10 := fun c => by rw [V17_eq]; exact .rfl) (hpost10 := fun c => by rw [V18_eq]; exact .rfl)
    (R11 := reg11 m) (hpre11 := fun c => by rw [V19_eq]; exact .rfl) (hpost11 := fun c => by rw [V20_eq]; exact .rfl)
    (R12 := reg12 m) (hpre12 := fun c => by rw [V21_eq]; exact .rfl) (hpost12 := fun c => by rw [V22_eq]; exact .rfl)
    (R13 := reg13 m) (hpre13 := fun c => by rw [V23_eq]; exact .rfl) (hpost13 := fun c => by rw [V24_eq]; exact .rfl)
    (R14 := reg14 m) (hpre14 := fun c => by rw [V32_eq]; exact .rfl) (hpost14 := fun c => by rw [V33_eq]; exact .rfl)
    (R15 := reg15 m) (hpre15 := fun c => by rw [V34_eq]; exact .rfl) (hpost15 := fun c => by rw [V35_eq]; exact .rfl)
    (R16 := reg16 m) (hpre16 := fun c => by rw [V40_eq]; exact .rfl) (hpost16 := fun c => by rw [V41_eq]; exact .rfl)
    (R17 := reg17 m) (hpre17 := fun c => by rw [V42_eq]; exact .rfl) (hpost17 := fun c => by rw [V43_eq]; exact .rfl)
    (R18 := reg18 m) (hpre18 := fun c => by rw [V48_eq]; exact .rfl) (hpost18 := fun c => by rw [V49_eq]; exact .rfl)
    (R19 := reg19 m) (hpre19 := fun c => by rw [V50_eq]; exact .rfl) (hpost19 := fun c => by rw [V51_eq]; exact .rfl)
    (R20 := reg20 m) (hpre20 := fun c => by rw [V56_eq]; exact .rfl) (hpost20 := fun c => by rw [V57_eq]; exact .rfl)
    (R21 := reg21 m) (hpre21 := fun c => by rw [V58_eq]; exact .rfl) (hpost21 := fun c => by rw [V59_eq]; exact .rfl)

/-- The frame: the twelve argument arrays end as launched — no host stretch writes one and no region may change one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨
    (h c (Proc.devRef .tc main_arg0) (Finset.mem_filter.mpr ⟨StableHlo.devRef_mem_tcRefs main_arg0, by decide⟩)).trans (GenP.V60_main_arg0 m (outsF m) c),
    (h c (Proc.devRef .tc main_arg1) (Finset.mem_filter.mpr ⟨StableHlo.devRef_mem_tcRefs main_arg1, by decide⟩)).trans (GenP.V60_main_arg1 m (outsF m) c),
    (h c (Proc.devRef .tc main_arg2) (Finset.mem_filter.mpr ⟨StableHlo.devRef_mem_tcRefs main_arg2, by decide⟩)).trans (GenP.V60_main_arg2 m (outsF m) c),
    (h c (Proc.devRef .tc main_arg3) (Finset.mem_filter.mpr ⟨StableHlo.devRef_mem_tcRefs main_arg3, by decide⟩)).trans (GenP.V60_main_arg3 m (outsF m) c),
    (h c (Proc.devRef .tc main_arg4) (Finset.mem_filter.mpr ⟨StableHlo.devRef_mem_tcRefs main_arg4, by decide⟩)).trans (GenP.V60_main_arg4 m (outsF m) c),
    (h c (Proc.devRef .tc main_arg5) (Finset.mem_filter.mpr ⟨StableHlo.devRef_mem_tcRefs main_arg5, by decide⟩)).trans (GenP.V60_main_arg5 m (outsF m) c),
    (h c (Proc.devRef .tc main_arg6) (Finset.mem_filter.mpr ⟨StableHlo.devRef_mem_tcRefs main_arg6, by decide⟩)).trans (GenP.V60_main_arg6 m (outsF m) c),
    (h c (Proc.devRef .tc main_arg7) (Finset.mem_filter.mpr ⟨StableHlo.devRef_mem_tcRefs main_arg7, by decide⟩)).trans (GenP.V60_main_arg7 m (outsF m) c),
    (h c (Proc.devRef .tc main_arg8) (Finset.mem_filter.mpr ⟨StableHlo.devRef_mem_tcRefs main_arg8, by decide⟩)).trans (GenP.V60_main_arg8 m (outsF m) c),
    (h c (Proc.devRef .tc main_arg9) (Finset.mem_filter.mpr ⟨StableHlo.devRef_mem_tcRefs main_arg9, by decide⟩)).trans (GenP.V60_main_arg9 m (outsF m) c),
    (h c (Proc.devRef .tc main_arg10) (Finset.mem_filter.mpr ⟨StableHlo.devRef_mem_tcRefs main_arg10, by decide⟩)).trans (GenP.V60_main_arg10 m (outsF m) c),
    (h c (Proc.devRef .tc main_arg11) (Finset.mem_filter.mpr ⟨StableHlo.devRef_mem_tcRefs main_arg11, by decide⟩)).trans (GenP.V60_main_arg11 m (outsF m) c)⟩)
    (run_all m ρ)

end Cert.KernelIdeal.Fr

end
-- ==== Proof.RefRun.lean ====
/- The run of the reference's @main with every buffer at the folded contents, and the reference's frame.

   `ops` (module RefOps) lists @main's 571 operations in order, as the concatenation of nine lists. Run from buffer
   contents `V` they leave the buffers at `StableHlo.after ops V`: the fold that rewrites, operation by operation,
   the one buffer the operation writes and leaves every other buffer alone. `run_after` is the library's theorem
   about a straight line of operations (`StableHlo.run_seq`) at this list: every weakly fair execution terminates,
   faults nowhere, and ends with each buffer `b` of each core at `after ops` of the launch contents, at `b`.

   The frame follows because no operation writes an argument. Each operation writes exactly one buffer, the
   buffer of the value it defines, and the twelve arguments are defined by no operation (`no_arg_written`);
   a buffer that no operation of a line writes keeps its contents through the fold
   (`StableHlo.after_of_forall_not_mem`), so each argument ends at its launch contents (`after_arg`).
   Facts about all of `ops` are proved list by list and joined: a property holds of every element of a
   concatenation when it holds of every element of each part. -/
import proofs.«126270_j6725918785969_1_alg».proof.Defs
import proofs.«126270_j6725918785969_1_alg».proof.Proof.Gen.Pre_finite_inputs
import proofs.«126270_j6725918785969_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The run -/

set_option maxRecDepth 8192 in
theorem ops_fresh0 : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_fresh1 : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_fresh2 : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_fresh3 : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_fresh4 : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_fresh5 : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_fresh6 : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_fresh7 : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_fresh8 : (ops8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation determines the contents of the buffer it writes: none leaves a buffer to the machine's choice. -/
theorem ops_fresh : (ops : List (HloOp τ sig (Elt F))).Forall fun op => op.fresh = ∅ :=
  List.forall_append.mpr ⟨ops_fresh0, List.forall_append.mpr ⟨ops_fresh1, List.forall_append.mpr ⟨ops_fresh2, List.forall_append.mpr ⟨ops_fresh3, List.forall_append.mpr ⟨ops_fresh4, List.forall_append.mpr ⟨ops_fresh5, List.forall_append.mpr ⟨ops_fresh6, List.forall_append.mpr ⟨ops_fresh7, ops_fresh8⟩⟩⟩⟩⟩⟩⟩⟩

/-- On every core, for any float values, from any memory with zero counters: every weakly fair execution of @main
    terminates, and each buffer `b` ends at the operations' fold over the core's launch contents, at `b`. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = StableHlo.after ops (launchContents m c) (Proc.devRef .tc b) :=
  run_seq scopedRefs_eq scopedSems_eq defs main (fun _ => ops) main_eq (fun _ => ops_sub) m ρ
    (fun _ op hop => List.forall_iff_forall_mem.mp ops_fresh op hop)

/-! ## No operation writes an argument -/

/-- @main's twelve arguments. -/
abbrev args : List (Ref sig .tc) :=
  [main_arg0, main_arg1, main_arg2, main_arg3, main_arg4, main_arg5, main_arg6, main_arg7, main_arg8, main_arg9, main_arg10, main_arg11]

/-- An operation spares the arguments when the one buffer it writes is a reference that is not an argument. -/
def Spares (op : HloOp τ sig (Elt F)) : Prop :=
  ∃ y : Ref sig .tc, y ∉ args ∧ op.writes = {Proc.devRef .tc y}

/-! Each operation writes the buffer of the value it defines, named here operation by operation; that value is no
    argument (decided on the references), and that the operation writes exactly it holds by computation. -/

set_option maxRecDepth 8192 in
theorem no_arg_written0 : (ops0 : List (HloOp τ sig (Elt F))).Forall Spares :=
  ⟨⟨main_v0, by decide, rfl⟩, ⟨main_v1, by decide, rfl⟩, ⟨main_v2, by decide, rfl⟩, ⟨main_c, by decide, rfl⟩, ⟨main_v3, by decide, rfl⟩, ⟨main_v4, by decide, rfl⟩, ⟨main_c_0, by decide, rfl⟩, ⟨main_v5, by decide, rfl⟩, ⟨main_v6, by decide, rfl⟩, ⟨main_v7, by decide, rfl⟩, ⟨main_v8, by decide, rfl⟩, ⟨main_v9, by decide, rfl⟩, ⟨main_v10, by decide, rfl⟩, ⟨main_v11, by decide, rfl⟩, ⟨main_cst, by decide, rfl⟩, ⟨main_v12, by decide, rfl⟩, ⟨main_v13, by decide, rfl⟩, ⟨main_v14, by decide, rfl⟩, ⟨main_cst_1, by decide, rfl⟩, ⟨main_v15, by decide, rfl⟩, ⟨main_v16, by decide, rfl⟩, ⟨main_v17, by decide, rfl⟩, ⟨main_v18, by decide, rfl⟩, ⟨main_c_2, by decide, rfl⟩, ⟨main_v19, by decide, rfl⟩, ⟨main_v20, by decide, rfl⟩, ⟨main_c_3, by decide, rfl⟩, ⟨main_v21, by decide, rfl⟩, ⟨main_v22, by decide, rfl⟩, ⟨main_v23, by decide, rfl⟩, ⟨main_v24, by decide, rfl⟩, ⟨main_v25, by decide, rfl⟩, ⟨main_v26, by decide, rfl⟩, ⟨main_v27, by decide, rfl⟩, ⟨main_cst_4, by decide, rfl⟩, ⟨main_v28, by decide, rfl⟩, ⟨main_v29, by decide, rfl⟩, ⟨main_v30, by decide, rfl⟩, ⟨main_cst_5, by decide, rfl⟩, ⟨main_v31, by decide, rfl⟩, ⟨main_v32, by decide, rfl⟩, ⟨main_v33, by decide, rfl⟩, ⟨main_v34, by decide, rfl⟩, ⟨main_v35, by decide, rfl⟩, ⟨main_v36, by decide, rfl⟩, ⟨main_v37, by decide, rfl⟩, ⟨main_cst_6, by decide, rfl⟩, ⟨main_v38, by decide, rfl⟩, ⟨main_v39, by decide, rfl⟩, ⟨main_v40, by decide, rfl⟩, ⟨main_v41, by decide, rfl⟩, ⟨main_v42, by decide, rfl⟩, ⟨main_v43, by decide, rfl⟩, ⟨main_v44, by decide, rfl⟩, ⟨main_cst_7, by decide, rfl⟩, ⟨main_v45, by decide, rfl⟩, ⟨main_v46, by decide, rfl⟩, ⟨main_v47, by decide, rfl⟩, ⟨main_v48, by decide, rfl⟩, ⟨main_v49, by decide, rfl⟩⟩
set_option maxRecDepth 8192 in
theorem no_arg_written1 : (ops1 : List (HloOp τ sig (Elt F))).Forall Spares :=
  ⟨⟨main_v50, by decide, rfl⟩, ⟨main_v51, by decide, rfl⟩, ⟨main_v52, by decide, rfl⟩, ⟨main_cst_8, by decide, rfl⟩, ⟨main_v53, by decide, rfl⟩, ⟨main_v54, by decide, rfl⟩, ⟨main_v55, by decide, rfl⟩, ⟨main_v56, by decide, rfl⟩, ⟨main_v57, by decide, rfl⟩, ⟨main_v58, by decide, rfl⟩, ⟨main_v59, by decide, rfl⟩, ⟨main_v60, by decide, rfl⟩, ⟨main_cst_9, by decide, rfl⟩, ⟨main_v61, by decide, rfl⟩, ⟨main_v62, by decide, rfl⟩, ⟨main_v63, by decide, rfl⟩, ⟨main_v64, by decide, rfl⟩, ⟨main_v65, by decide, rfl⟩, ⟨main_cst_10, by decide, rfl⟩, ⟨main_v66, by decide, rfl⟩, ⟨main_v67, by decide, rfl⟩, ⟨main_v68, by decide, rfl⟩, ⟨main_v69, by decide, rfl⟩, ⟨main_v70, by decide, rfl⟩, ⟨main_v71, by decide, rfl⟩, ⟨main_v72, by decide, rfl⟩, ⟨main_cst_11, by decide, rfl⟩, ⟨main_v73, by decide, rfl⟩, ⟨main_v74, by decide, rfl⟩, ⟨main_v75, by decide, rfl⟩, ⟨main_v76, by decide, rfl⟩, ⟨main_v77, by decide, rfl⟩, ⟨main_v78, by decide, rfl⟩, ⟨main_v79, by decide, rfl⟩, ⟨main_cst_12, by decide, rfl⟩, ⟨main_v80, by decide, rfl⟩, ⟨main_v81, by decide, rfl⟩, ⟨main_v82, by decide, rfl⟩, ⟨main_v83, by decide, rfl⟩, ⟨main_v84, by decide, rfl⟩, ⟨main_v85, by decide, rfl⟩, ⟨main_v86, by decide, rfl⟩, ⟨main_v87, by decide, rfl⟩, ⟨main_cst_13, by decide, rfl⟩, ⟨main_v88, by decide, rfl⟩, ⟨main_v89, by decide, rfl⟩, ⟨main_v90, by decide, rfl⟩, ⟨main_v91, by decide, rfl⟩, ⟨main_v92, by decide, rfl⟩, ⟨main_v93, by decide, rfl⟩, ⟨main_v94, by decide, rfl⟩, ⟨main_v95, by decide, rfl⟩, ⟨main_cst_14, by decide, rfl⟩, ⟨main_v96, by decide, rfl⟩, ⟨main_v97, by decide, rfl⟩, ⟨main_v98, by decide, rfl⟩, ⟨main_v99, by decide, rfl⟩, ⟨main_v100, by decide, rfl⟩, ⟨main_cst_15, by decide, rfl⟩, ⟨main_v101, by decide, rfl⟩⟩
set_option maxRecDepth 8192 in
theorem no_arg_written2 : (ops2 : List (HloOp τ sig (Elt F))).Forall Spares :=
  ⟨⟨main_v102, by decide, rfl⟩, ⟨main_v103, by decide, rfl⟩, ⟨main_v104, by decide, rfl⟩, ⟨main_v105, by decide, rfl⟩, ⟨main_v106, by decide, rfl⟩, ⟨main_v107, by decide, rfl⟩, ⟨main_v108, by decide, rfl⟩, ⟨main_c_16, by decide, rfl⟩, ⟨main_v109, by decide, rfl⟩, ⟨main_v110, by decide, rfl⟩, ⟨main_c_17, by decide, rfl⟩, ⟨main_v111, by decide, rfl⟩, ⟨main_v112, by decide, rfl⟩, ⟨main_v113, by decide, rfl⟩, ⟨main_v114, by decide, rfl⟩, ⟨main_v115, by decide, rfl⟩, ⟨main_v116, by decide, rfl⟩, ⟨main_v117, by decide, rfl⟩, ⟨main_cst_18, by decide, rfl⟩, ⟨main_v118, by decide, rfl⟩, ⟨main_v119, by decide, rfl⟩, ⟨main_v120, by decide, rfl⟩, ⟨main_cst_19, by decide, rfl⟩, ⟨main_v121, by decide, rfl⟩, ⟨main_v122, by decide, rfl⟩, ⟨main_v123, by decide, rfl⟩, ⟨main_v124, by decide, rfl⟩, ⟨main_c_20, by decide, rfl⟩, ⟨main_v125, by decide, rfl⟩, ⟨main_v126, by decide, rfl⟩, ⟨main_c_21, by decide, rfl⟩, ⟨main_v127, by decide, rfl⟩, ⟨main_v128, by decide, rfl⟩, ⟨main_v129, by decide, rfl⟩, ⟨main_v130, by decide, rfl⟩, ⟨main_v131, by decide, rfl⟩, ⟨main_v132, by decide, rfl⟩, ⟨main_v133, by decide, rfl⟩, ⟨main_cst_22, by decide, rfl⟩, ⟨main_v134, by decide, rfl⟩, ⟨main_v135, by decide, rfl⟩, ⟨main_v136, by decide, rfl⟩, ⟨main_cst_23, by decide, rfl⟩, ⟨main_v137, by decide, rfl⟩, ⟨main_v138, by decide, rfl⟩, ⟨main_v139, by decide, rfl⟩, ⟨main_v140, by decide, rfl⟩, ⟨main_v141, by decide, rfl⟩, ⟨main_v142, by decide, rfl⟩, ⟨main_v143, by decide, rfl⟩, ⟨main_cst_24, by decide, rfl⟩, ⟨main_v144, by decide, rfl⟩, ⟨main_v145, by decide, rfl⟩, ⟨main_v146, by decide, rfl⟩, ⟨main_v147, by decide, rfl⟩, ⟨main_v148, by decide, rfl⟩, ⟨main_v149, by decide, rfl⟩, ⟨main_v150, by decide, rfl⟩, ⟨main_cst_25, by decide, rfl⟩, ⟨main_v151, by decide, rfl⟩⟩
set_option maxRecDepth 8192 in
theorem no_arg_written3 : (ops3 : List (HloOp τ sig (Elt F))).Forall Spares :=
  ⟨⟨main_v152, by decide, rfl⟩, ⟨main_v153, by decide, rfl⟩, ⟨main_v154, by decide, rfl⟩, ⟨main_v155, by decide, rfl⟩, ⟨main_v156, by decide, rfl⟩, ⟨main_v157, by decide, rfl⟩, ⟨main_v158, by decide, rfl⟩, ⟨main_cst_26, by decide, rfl⟩, ⟨main_v159, by decide, rfl⟩, ⟨main_v160, by decide, rfl⟩, ⟨main_v161, by decide, rfl⟩, ⟨main_v162, by decide, rfl⟩, ⟨main_v163, by decide, rfl⟩, ⟨main_v164, by decide, rfl⟩, ⟨main_v165, by decide, rfl⟩, ⟨main_v166, by decide, rfl⟩, ⟨main_cst_27, by decide, rfl⟩, ⟨main_v167, by decide, rfl⟩, ⟨main_v168, by decide, rfl⟩, ⟨main_v169, by decide, rfl⟩, ⟨main_v170, by decide, rfl⟩, ⟨main_v171, by decide, rfl⟩, ⟨main_cst_28, by decide, rfl⟩, ⟨main_v172, by decide, rfl⟩, ⟨main_v173, by decide, rfl⟩, ⟨main_v174, by decide, rfl⟩, ⟨main_v175, by decide, rfl⟩, ⟨main_v176, by decide, rfl⟩, ⟨main_v177, by decide, rfl⟩, ⟨main_v178, by decide, rfl⟩, ⟨main_cst_29, by decide, rfl⟩, ⟨main_v179, by decide, rfl⟩, ⟨main_v180, by decide, rfl⟩, ⟨main_v181, by decide, rfl⟩, ⟨main_v182, by decide, rfl⟩, ⟨main_v183, by decide, rfl⟩, ⟨main_v184, by decide, rfl⟩, ⟨main_v185, by decide, rfl⟩, ⟨main_cst_30, by decide, rfl⟩, ⟨main_v186, by decide, rfl⟩, ⟨main_v187, by decide, rfl⟩, ⟨main_v188, by decide, rfl⟩, ⟨main_v189, by decide, rfl⟩, ⟨main_v190, by decide, rfl⟩, ⟨main_v191, by decide, rfl⟩, ⟨main_v192, by decide, rfl⟩, ⟨main_v193, by decide, rfl⟩, ⟨main_cst_31, by decide, rfl⟩, ⟨main_v194, by decide, rfl⟩, ⟨main_v195, by decide, rfl⟩, ⟨main_v196, by decide, rfl⟩, ⟨main_v197, by decide, rfl⟩, ⟨main_v198, by decide, rfl⟩, ⟨main_v199, by decide, rfl⟩, ⟨main_v200, by decide, rfl⟩, ⟨main_v201, by decide, rfl⟩, ⟨main_cst_32, by decide, rfl⟩, ⟨main_v202, by decide, rfl⟩, ⟨main_v203, by decide, rfl⟩, ⟨main_v204, by decide, rfl⟩⟩
set_option maxRecDepth 8192 in
theorem no_arg_written4 : (ops4 : List (HloOp τ sig (Elt F))).Forall Spares :=
  ⟨⟨main_v205, by decide, rfl⟩, ⟨main_v206, by decide, rfl⟩, ⟨main_cst_33, by decide, rfl⟩, ⟨main_v207, by decide, rfl⟩, ⟨main_v208, by decide, rfl⟩, ⟨main_v209, by decide, rfl⟩, ⟨main_v210, by decide, rfl⟩, ⟨main_v211, by decide, rfl⟩, ⟨main_v212, by decide, rfl⟩, ⟨main_v213, by decide, rfl⟩, ⟨main_cst_34, by decide, rfl⟩, ⟨main_v214, by decide, rfl⟩, ⟨main_v215, by decide, rfl⟩, ⟨main_v216, by decide, rfl⟩, ⟨main_v217, by decide, rfl⟩, ⟨main_cst_35, by decide, rfl⟩, ⟨main_v218, by decide, rfl⟩, ⟨main_v219, by decide, rfl⟩, ⟨main_v220, by decide, rfl⟩, ⟨main_v221, by decide, rfl⟩, ⟨main_c_36, by decide, rfl⟩, ⟨main_v222, by decide, rfl⟩, ⟨main_v223, by decide, rfl⟩, ⟨main_c_37, by decide, rfl⟩, ⟨main_v224, by decide, rfl⟩, ⟨main_v225, by decide, rfl⟩, ⟨main_v226, by decide, rfl⟩, ⟨main_v227, by decide, rfl⟩, ⟨main_v228, by decide, rfl⟩, ⟨main_c_38, by decide, rfl⟩, ⟨main_v229, by decide, rfl⟩, ⟨main_v230, by decide, rfl⟩, ⟨main_c_39, by decide, rfl⟩, ⟨main_v231, by decide, rfl⟩, ⟨main_v232, by decide, rfl⟩, ⟨main_v233, by decide, rfl⟩, ⟨main_v234, by decide, rfl⟩, ⟨main_v235, by decide, rfl⟩, ⟨main_v236, by decide, rfl⟩, ⟨main_cst_40, by decide, rfl⟩, ⟨main_v237, by decide, rfl⟩, ⟨main_v238, by decide, rfl⟩, ⟨main_v239, by decide, rfl⟩, ⟨main_c_41, by decide, rfl⟩, ⟨main_v240, by decide, rfl⟩, ⟨main_v241, by decide, rfl⟩, ⟨main_c_42, by decide, rfl⟩, ⟨main_v242, by decide, rfl⟩, ⟨main_v243, by decide, rfl⟩, ⟨main_v244, by decide, rfl⟩, ⟨main_v245, by decide, rfl⟩, ⟨main_v246, by decide, rfl⟩, ⟨main_call2_v0, by decide, rfl⟩, ⟨main_call2_cst, by decide, rfl⟩, ⟨main_call2_v1, by decide, rfl⟩, ⟨main_call2_v2, by decide, rfl⟩, ⟨main_v247, by decide, rfl⟩, ⟨main_cst_43, by decide, rfl⟩, ⟨main_v248, by decide, rfl⟩, ⟨main_v249, by decide, rfl⟩, ⟨main_v250, by decide, rfl⟩, ⟨main_v251, by decide, rfl⟩, ⟨main_v252, by decide, rfl⟩, ⟨main_v253, by decide, rfl⟩⟩
set_option maxRecDepth 8192 in
theorem no_arg_written5 : (ops5 : List (HloOp τ sig (Elt F))).Forall Spares :=
  ⟨⟨main_v254, by decide, rfl⟩, ⟨main_c_44, by decide, rfl⟩, ⟨main_v255, by decide, rfl⟩, ⟨main_v256, by decide, rfl⟩, ⟨main_c_45, by decide, rfl⟩, ⟨main_v257, by decide, rfl⟩, ⟨main_v258, by decide, rfl⟩, ⟨main_v259, by decide, rfl⟩, ⟨main_v260, by decide, rfl⟩, ⟨main_v261, by decide, rfl⟩, ⟨main_call3_v0, by decide, rfl⟩, ⟨main_call3_cst, by decide, rfl⟩, ⟨main_call3_v1, by decide, rfl⟩, ⟨main_call3_v2, by decide, rfl⟩, ⟨main_v262, by decide, rfl⟩, ⟨main_cst_46, by decide, rfl⟩, ⟨main_v263, by decide, rfl⟩, ⟨main_v264, by decide, rfl⟩, ⟨main_v265, by decide, rfl⟩, ⟨main_v266, by decide, rfl⟩, ⟨main_v267, by decide, rfl⟩, ⟨main_cst_47, by decide, rfl⟩, ⟨main_v268, by decide, rfl⟩, ⟨main_cst_48, by decide, rfl⟩, ⟨main_v269, by decide, rfl⟩, ⟨main_v270, by decide, rfl⟩, ⟨main_v271, by decide, rfl⟩, ⟨main_v272, by decide, rfl⟩, ⟨main_v273, by decide, rfl⟩, ⟨main_cst_49, by decide, rfl⟩, ⟨main_v274, by decide, rfl⟩, ⟨main_v275, by decide, rfl⟩, ⟨main_v276, by decide, rfl⟩, ⟨main_cst_50, by decide, rfl⟩, ⟨main_v277, by decide, rfl⟩, ⟨main_cst_51, by decide, rfl⟩, ⟨main_v278, by decide, rfl⟩, ⟨main_v279, by decide, rfl⟩, ⟨main_v280, by decide, rfl⟩, ⟨main_cst_52, by decide, rfl⟩, ⟨main_v281, by decide, rfl⟩, ⟨main_v282, by decide, rfl⟩, ⟨main_v283, by decide, rfl⟩, ⟨main_v284, by decide, rfl⟩, ⟨main_cst_53, by decide, rfl⟩, ⟨main_v285, by decide, rfl⟩, ⟨main_cst_54, by decide, rfl⟩, ⟨main_v286, by decide, rfl⟩, ⟨main_c_55, by decide, rfl⟩, ⟨main_v287, by decide, rfl⟩, ⟨main_v288, by decide, rfl⟩, ⟨main_c_56, by decide, rfl⟩, ⟨main_v289, by decide, rfl⟩, ⟨main_v290, by decide, rfl⟩, ⟨main_v291, by decide, rfl⟩, ⟨main_v292, by decide, rfl⟩, ⟨main_v293, by decide, rfl⟩, ⟨main_call4_v0, by decide, rfl⟩, ⟨main_call4_cst, by decide, rfl⟩, ⟨main_call4_v1, by decide, rfl⟩, ⟨main_call4_v2, by decide, rfl⟩, ⟨main_v294, by decide, rfl⟩, ⟨main_cst_57, by decide, rfl⟩, ⟨main_v295, by decide, rfl⟩, ⟨main_v296, by decide, rfl⟩, ⟨main_v297, by decide, rfl⟩, ⟨main_v298, by decide, rfl⟩, ⟨main_v299, by decide, rfl⟩⟩
set_option maxRecDepth 8192 in
theorem no_arg_written6 : (ops6 : List (HloOp τ sig (Elt F))).Forall Spares :=
  ⟨⟨main_v300, by decide, rfl⟩, ⟨main_v301, by decide, rfl⟩, ⟨main_c_58, by decide, rfl⟩, ⟨main_v302, by decide, rfl⟩, ⟨main_v303, by decide, rfl⟩, ⟨main_c_59, by decide, rfl⟩, ⟨main_v304, by decide, rfl⟩, ⟨main_v305, by decide, rfl⟩, ⟨main_v306, by decide, rfl⟩, ⟨main_v307, by decide, rfl⟩, ⟨main_v308, by decide, rfl⟩, ⟨main_call5_v0, by decide, rfl⟩, ⟨main_call5_cst, by decide, rfl⟩, ⟨main_call5_v1, by decide, rfl⟩, ⟨main_call5_v2, by decide, rfl⟩, ⟨main_v309, by decide, rfl⟩, ⟨main_cst_60, by decide, rfl⟩, ⟨main_v310, by decide, rfl⟩, ⟨main_v311, by decide, rfl⟩, ⟨main_v312, by decide, rfl⟩, ⟨main_v313, by decide, rfl⟩, ⟨main_v314, by decide, rfl⟩, ⟨main_cst_61, by decide, rfl⟩, ⟨main_v315, by decide, rfl⟩, ⟨main_cst_62, by decide, rfl⟩, ⟨main_v316, by decide, rfl⟩, ⟨main_v317, by decide, rfl⟩, ⟨main_v318, by decide, rfl⟩, ⟨main_v319, by decide, rfl⟩, ⟨main_v320, by decide, rfl⟩, ⟨main_cst_63, by decide, rfl⟩, ⟨main_v321, by decide, rfl⟩, ⟨main_v322, by decide, rfl⟩, ⟨main_v323, by decide, rfl⟩, ⟨main_cst_64, by decide, rfl⟩, ⟨main_v324, by decide, rfl⟩, ⟨main_cst_65, by decide, rfl⟩, ⟨main_v325, by decide, rfl⟩, ⟨main_v326, by decide, rfl⟩, ⟨main_v327, by decide, rfl⟩, ⟨main_cst_66, by decide, rfl⟩, ⟨main_v328, by decide, rfl⟩, ⟨main_v329, by decide, rfl⟩, ⟨main_v330, by decide, rfl⟩, ⟨main_v331, by decide, rfl⟩, ⟨main_cst_67, by decide, rfl⟩, ⟨main_v332, by decide, rfl⟩, ⟨main_v333, by decide, rfl⟩, ⟨main_c_68, by decide, rfl⟩, ⟨main_v334, by decide, rfl⟩, ⟨main_v335, by decide, rfl⟩, ⟨main_c_69, by decide, rfl⟩, ⟨main_v336, by decide, rfl⟩, ⟨main_v337, by decide, rfl⟩, ⟨main_v338, by decide, rfl⟩, ⟨main_v339, by decide, rfl⟩, ⟨main_v340, by decide, rfl⟩, ⟨main_call6_v0, by decide, rfl⟩, ⟨main_call6_cst, by decide, rfl⟩, ⟨main_call6_v1, by decide, rfl⟩, ⟨main_call6_v2, by decide, rfl⟩, ⟨main_v341, by decide, rfl⟩, ⟨main_cst_70, by decide, rfl⟩, ⟨main_v342, by decide, rfl⟩, ⟨main_v343, by decide, rfl⟩, ⟨main_v344, by decide, rfl⟩, ⟨main_v345, by decide, rfl⟩, ⟨main_v346, by decide, rfl⟩⟩
set_option maxRecDepth 8192 in
theorem no_arg_written7 : (ops7 : List (HloOp τ sig (Elt F))).Forall Spares :=
  ⟨⟨main_v347, by decide, rfl⟩, ⟨main_v348, by decide, rfl⟩, ⟨main_c_71, by decide, rfl⟩, ⟨main_v349, by decide, rfl⟩, ⟨main_v350, by decide, rfl⟩, ⟨main_c_72, by decide, rfl⟩, ⟨main_v351, by decide, rfl⟩, ⟨main_v352, by decide, rfl⟩, ⟨main_v353, by decide, rfl⟩, ⟨main_v354, by decide, rfl⟩, ⟨main_v355, by decide, rfl⟩, ⟨main_call7_v0, by decide, rfl⟩, ⟨main_call7_cst, by decide, rfl⟩, ⟨main_call7_v1, by decide, rfl⟩, ⟨main_call7_v2, by decide, rfl⟩, ⟨main_v356, by decide, rfl⟩, ⟨main_cst_73, by decide, rfl⟩, ⟨main_v357, by decide, rfl⟩, ⟨main_v358, by decide, rfl⟩, ⟨main_v359, by decide, rfl⟩, ⟨main_v360, by decide, rfl⟩, ⟨main_v361, by decide, rfl⟩, ⟨main_cst_74, by decide, rfl⟩, ⟨main_v362, by decide, rfl⟩, ⟨main_cst_75, by decide, rfl⟩, ⟨main_v363, by decide, rfl⟩, ⟨main_v364, by decide, rfl⟩, ⟨main_v365, by decide, rfl⟩, ⟨main_v366, by decide, rfl⟩, ⟨main_v367, by decide, rfl⟩, ⟨main_cst_76, by decide, rfl⟩, ⟨main_v368, by decide, rfl⟩, ⟨main_v369, by decide, rfl⟩, ⟨main_v370, by decide, rfl⟩, ⟨main_cst_77, by decide, rfl⟩, ⟨main_v371, by decide, rfl⟩, ⟨main_cst_78, by decide, rfl⟩, ⟨main_v372, by decide, rfl⟩, ⟨main_v373, by decide, rfl⟩, ⟨main_v374, by decide, rfl⟩, ⟨main_cst_79, by decide, rfl⟩, ⟨main_v375, by decide, rfl⟩, ⟨main_v376, by decide, rfl⟩, ⟨main_v377, by decide, rfl⟩, ⟨main_v378, by decide, rfl⟩, ⟨main_cst_80, by decide, rfl⟩, ⟨main_v379, by decide, rfl⟩, ⟨main_v380, by decide, rfl⟩, ⟨main_c_81, by decide, rfl⟩, ⟨main_v381, by decide, rfl⟩, ⟨main_v382, by decide, rfl⟩, ⟨main_c_82, by decide, rfl⟩, ⟨main_v383, by decide, rfl⟩, ⟨main_v384, by decide, rfl⟩, ⟨main_v385, by decide, rfl⟩, ⟨main_v386, by decide, rfl⟩, ⟨main_v387, by decide, rfl⟩, ⟨main_call8_v0, by decide, rfl⟩, ⟨main_call8_cst, by decide, rfl⟩, ⟨main_call8_v1, by decide, rfl⟩, ⟨main_call8_v2, by decide, rfl⟩, ⟨main_v388, by decide, rfl⟩, ⟨main_cst_83, by decide, rfl⟩, ⟨main_v389, by decide, rfl⟩, ⟨main_v390, by decide, rfl⟩, ⟨main_v391, by decide, rfl⟩, ⟨main_v392, by decide, rfl⟩, ⟨main_v393, by decide, rfl⟩⟩
set_option maxRecDepth 8192 in
theorem no_arg_written8 : (ops8 : List (HloOp τ sig (Elt F))).Forall Spares :=
  ⟨⟨main_v394, by decide, rfl⟩, ⟨main_v395, by decide, rfl⟩, ⟨main_c_84, by decide, rfl⟩, ⟨main_v396, by decide, rfl⟩, ⟨main_v397, by decide, rfl⟩, ⟨main_c_85, by decide, rfl⟩, ⟨main_v398, by decide, rfl⟩, ⟨main_v399, by decide, rfl⟩, ⟨main_v400, by decide, rfl⟩, ⟨main_v401, by decide, rfl⟩, ⟨main_v402, by decide, rfl⟩, ⟨main_call9_v0, by decide, rfl⟩, ⟨main_call9_cst, by decide, rfl⟩, ⟨main_call9_v1, by decide, rfl⟩, ⟨main_call9_v2, by decide, rfl⟩, ⟨main_v403, by decide, rfl⟩, ⟨main_cst_86, by decide, rfl⟩, ⟨main_v404, by decide, rfl⟩, ⟨main_v405, by decide, rfl⟩, ⟨main_v406, by decide, rfl⟩, ⟨main_v407, by decide, rfl⟩, ⟨main_v408, by decide, rfl⟩, ⟨main_cst_87, by decide, rfl⟩, ⟨main_v409, by decide, rfl⟩, ⟨main_cst_88, by decide, rfl⟩, ⟨main_v410, by decide, rfl⟩, ⟨main_v411, by decide, rfl⟩, ⟨main_v412, by decide, rfl⟩, ⟨main_v413, by decide, rfl⟩, ⟨main_v414, by decide, rfl⟩, ⟨main_cst_89, by decide, rfl⟩, ⟨main_v415, by decide, rfl⟩, ⟨main_v416, by decide, rfl⟩, ⟨main_v417, by decide, rfl⟩, ⟨main_cst_90, by decide, rfl⟩, ⟨main_v418, by decide, rfl⟩, ⟨main_cst_91, by decide, rfl⟩, ⟨main_v419, by decide, rfl⟩, ⟨main_v420, by decide, rfl⟩, ⟨main_v421, by decide, rfl⟩, ⟨main_cst_92, by decide, rfl⟩, ⟨main_v422, by decide, rfl⟩, ⟨main_v423, by decide, rfl⟩, ⟨main_v424, by decide, rfl⟩, ⟨main_v425, by decide, rfl⟩, ⟨main_cst_93, by decide, rfl⟩, ⟨main_v426, by decide, rfl⟩, ⟨main_v427, by decide, rfl⟩, ⟨main_v428, by decide, rfl⟩, ⟨main_cst_94, by decide, rfl⟩, ⟨main_v429, by decide, rfl⟩, ⟨main_v430, by decide, rfl⟩, ⟨main_cst_95, by decide, rfl⟩, ⟨main_v431, by decide, rfl⟩, ⟨main_v432, by decide, rfl⟩, ⟨main_v433, by decide, rfl⟩, ⟨main_cst_96, by decide, rfl⟩, ⟨main_v434, by decide, rfl⟩, ⟨main_v435, by decide, rfl⟩, ⟨main_v436, by decide, rfl⟩, ⟨main_cst_97, by decide, rfl⟩, ⟨main_v437, by decide, rfl⟩, ⟨main_v438, by decide, rfl⟩⟩

/-- Every operation of @main spares the arguments. -/
theorem no_arg_written : (ops : List (HloOp τ sig (Elt F))).Forall Spares :=
  List.forall_append.mpr ⟨no_arg_written0, List.forall_append.mpr ⟨no_arg_written1, List.forall_append.mpr ⟨no_arg_written2, List.forall_append.mpr ⟨no_arg_written3, List.forall_append.mpr ⟨no_arg_written4, List.forall_append.mpr ⟨no_arg_written5, List.forall_append.mpr ⟨no_arg_written6, List.forall_append.mpr ⟨no_arg_written7, no_arg_written8⟩⟩⟩⟩⟩⟩⟩⟩

/-- An argument's buffer keeps its contents through the fold of @main's operations. -/
theorem after_arg (V : Valuation τ sig (Elt F)) {r : Ref sig .tc} (hr : r ∈ args) :
    StableHlo.after ops V (Proc.devRef .tc r) = V (Proc.devRef .tc r) :=
  after_of_forall_not_mem ops V fun op hop hb => by
    obtain ⟨y, hy, hw⟩ := List.forall_iff_forall_mem.mp no_arg_written op hop
    rw [hw, Finset.mem_singleton] at hb
    exact hy (Proc.devRef_injective _ hb ▸ hr)

/-! ## The frame -/

/-- Every weakly fair execution of the reference's @main terminates, faults nowhere, and leaves each of the twelve
    argument arrays as it was at launch. -/
theorem frame_ri : Cert.frame_ReferenceIdeal := fun m g _ =>
  (θ_run defs _ _).mono (fun _ h c =>
    ⟨(h c main_arg0).trans (after_arg _ (by decide)),
      (h c main_arg1).trans (after_arg _ (by decide)),
      (h c main_arg2).trans (after_arg _ (by decide)),
      (h c main_arg3).trans (after_arg _ (by decide)),
      (h c main_arg4).trans (after_arg _ (by decide)),
      (h c main_arg5).trans (after_arg _ (by decide)),
      (h c main_arg6).trans (after_arg _ (by decide)),
      (h c main_arg7).trans (after_arg _ (by decide)),
      (h c main_arg8).trans (after_arg _ (by decide)),
      (h c main_arg9).trans (after_arg _ (by decide)),
      (h c main_arg10).trans (after_arg _ (by decide)),
      (h c main_arg11).trans (after_arg _ (by decide))⟩)
    (run_after (F := Ideal) m g)

end Cert.ReferenceIdeal.RefRun

end
-- ==== Proof.LibSsa.lean ====
/-
  Straight lines of host operations in single-assignment form.

  A line `ops` of operations is in single-assignment form when every operation writes only buffers numbered at or
  after its own position (`Late`): the operation at position `j` writes nothing numbered below `j`. A printed
  program numbers its tensor values in program order, every operation writing one fresh value numbered after
  everything it reads, so its lines are of this form.

  For such a line the FINAL contents `W := after ops V` satisfy every operation's defining equation: if the
  operation at position `k` computes `y` from `x₁, x₂, …` (each numbered below its position) then
  `W y = f (W x₁) (W x₂) …`. Indeed nothing after position `k` writes `y` (`after_at`), and nothing from position
  `k` on writes an `xᵢ` (`after_take_eq`), so both sides may be read off the contents just before and just after
  position `k`. One such equation costs a walk to position `k`, not a walk of the whole fold per operand; a long
  line is then related to another buffer by buffer, each step a small lemma over the two final valuations.
-/
import Idealize.ShloMosaic.Lib.StableHlo.Run

noncomputable section

namespace Idealize.ShloMosaic.StableHlo

open Idealize.ShloMosaic.TcCoe

variable {τ : Topo} {sig : RefSig} {Val : EltTy → Type}

/-! ## A predicate of position and element, along a list -/

/-- `P` holds of every element of the list at its position, positions counted from `n`: on a literal list it
    unfolds to the plain conjunction `P n a₀ ∧ P (n + 1) a₁ ∧ … ∧ True`. -/
def ForallIdx {α : Type _} (P : ℕ → α → Prop) : ℕ → List α → Prop
  | _, [] => True
  | n, a :: l => P n a ∧ ForallIdx P (n + 1) l

/-- Over the empty list the predicate holds. -/
@[simp] theorem ForallIdx_nil {α : Type _} (P : ℕ → α → Prop) (n : ℕ) : ForallIdx P n [] ↔ True := Iff.rfl

/-- Over `a :: l` it holds of `a` at the first position and of `l` from the next position on. -/
theorem ForallIdx_cons {α : Type _} (P : ℕ → α → Prop) (n : ℕ) (a : α) (l : List α) :
    ForallIdx P n (a :: l) ↔ P n a ∧ ForallIdx P (n + 1) l := Iff.rfl

/-- The element at index `j` satisfies the predicate at position `n + j`. -/
theorem ForallIdx.get {α : Type _} {P : ℕ → α → Prop} :
    ∀ {n : ℕ} {l : List α}, ForallIdx P n l → ∀ (j : ℕ) (a : α), l[j]? = some a → P (n + j) a
  | _, [], _, j, a, h => by simp at h
  | n, b :: l, h, 0, a, hj => by
    have hb : b = a := by simpa using hj
    exact hb ▸ ((ForallIdx_cons P n b l).mp h).1
  | n, b :: l, h, j + 1, a, hj => by
    have := ForallIdx.get ((ForallIdx_cons P n b l).mp h).2 j a (by simpa using hj)
    rwa [Nat.add_assoc, Nat.add_comm 1 j] at this

/-- The list without its first `k` elements satisfies the predicate from position `n + k` on. -/
theorem ForallIdx.drop {α : Type _} {P : ℕ → α → Prop} :
    ∀ {n : ℕ} {l : List α}, ForallIdx P n l → ∀ k : ℕ, ForallIdx P (n + k) (l.drop k)
  | _, l, h, 0 => by simpa using h
  | _, [], _, k + 1 => by simp
  | n, b :: l, h, k + 1 => by
    have := ForallIdx.drop ((ForallIdx_cons P n b l).mp h).2 k
    rwa [Nat.add_assoc, Nat.add_comm 1 k] at this

/-! ## The fold of a concatenation -/

/-- Running two lines one after the other is running their concatenation. -/
theorem after_append_ssa (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-! ## Lines in single-assignment form -/

/-- Every operation writes only buffers numbered at or after its own position: the operation at position `j`
    (counted from `n₀`) writes no TensorCore reference whose index is below `j`. -/
def Late (n₀ : ℕ) (ops : List (HloOp τ sig Val)) : Prop :=
  ForallIdx (fun j op => ∀ r : Ref sig .tc, r.idx.val < j → (Proc.devRef (τ := τ) .tc r) ∉ op.writes) n₀ ops

/-- A reference numbered below the line's first position is written by no operation of the line. -/
theorem Late.not_writes :
    ∀ {n₀ : ℕ} {ops : List (HloOp τ sig Val)}, Late n₀ ops → ∀ x : Ref sig .tc, x.idx.val < n₀ →
      ∀ op ∈ ops, (Proc.devRef (τ := τ) .tc x) ∉ op.writes
  | _, [], _, _, _, _, hop => nomatch hop
  | n₀, o :: l, h, x, hx, op, hop => by
    have h' := (ForallIdx_cons _ n₀ o l).mp h
    rcases List.mem_cons.mp hop with rfl | hop
    · exact h'.1 x hx
    · exact Late.not_writes (n₀ := n₀ + 1) h'.2 x (Nat.lt_succ_of_lt hx) op hop

/-- What is left of the line after its first `k` operations is in single-assignment form from position `n₀ + k`. -/
theorem Late.drop {n₀ : ℕ} {ops : List (HloOp τ sig Val)} (h : Late n₀ ops) (k : ℕ) : Late (n₀ + k) (ops.drop k) :=
  ForallIdx.drop h k

/-- A reference numbered below position `n₀ + k` has its final contents already after the first `k` operations:
    no later operation writes it. -/
theorem after_take_eq {n₀ : ℕ} {ops : List (HloOp τ sig Val)} (h : Late n₀ ops) (V : Valuation τ sig Val) (k : ℕ)
    (x : Ref sig .tc) (hx : x.idx.val < n₀ + k) :
    after (ops.take k) V (Proc.devRef .tc x) = after ops V (Proc.devRef .tc x) := by
  conv_rhs => rw [← List.take_append_drop k ops, after_append_ssa]
  exact (after_of_forall_not_mem _ _ ((h.drop k).not_writes x hx)).symm

/-- A reference numbered below the line's first position keeps its launch contents. -/
theorem after_of_lt {n₀ : ℕ} {ops : List (HloOp τ sig Val)} (h : Late n₀ ops) (V : Valuation τ sig Val)
    (x : Ref sig .tc) (hx : x.idx.val < n₀) :
    after ops V (Proc.devRef .tc x) = V (Proc.devRef .tc x) :=
  after_of_forall_not_mem _ _ (h.not_writes x hx)

/-- A reference numbered at most position `n₀ + k` ends at what the operation at index `k` leaves there, run from
    the contents after the first `k` operations: no later operation writes it. -/
theorem after_at {n₀ : ℕ} {ops : List (HloOp τ sig Val)} (h : Late n₀ ops) (V : Valuation τ sig Val) (k : ℕ)
    (op : HloOp τ sig Val) (hk : ops[k]? = some op) (y : Ref sig .tc) (hy : y.idx.val < n₀ + k + 1) :
    after ops V (Proc.devRef .tc y) = op.result (after (ops.take k) V) (Proc.devRef .tc y) := by
  rw [← after_take_eq h V (k + 1) y hy, List.take_succ, hk, Option.toList_some, after_append_ssa, after_cons, after_nil]

/-! ## One equation per kind of operation

`W := after ops V` at the result of the operation at index `k` is the operation's function of `W` at its operands.
On a literal list `hk` is closed by `rfl` and the index facts by `decide`. -/

section Builders

variable {n₀ : ℕ} {ops : List (HloOp τ sig Val)}

/-- The result of a `nullary` at index `k` ends at its value. -/
theorem after_nullary (h : Late n₀ ops) (V : Valuation τ sig Val) (k : ℕ) {y : Ref sig .tc} (v : y.ty.Contents Val) (hy')
    (hk : ops[k]? = some (nullary y v hy')) (hy : y.idx.val < n₀ + k + 1) :
    after ops V (Proc.devRef .tc y) = v := by
  rw [after_at h V k _ hk y hy, nullary_result]

/-- The result of a `unary` at index `k` ends at its function of the operand's final contents. -/
theorem after_unary (h : Late n₀ ops) (V : Valuation τ sig Val) (k : ℕ) {x y : Ref sig .tc}
    (f : x.ty.Contents Val → y.ty.Contents Val) (hx' hy')
    (hk : ops[k]? = some (unary x y f hx' hy')) (hy : y.idx.val < n₀ + k + 1) (hx : x.idx.val < n₀ + k) :
    after ops V (Proc.devRef .tc y) = f (after ops V (Proc.devRef .tc x)) := by
  rw [after_at h V k _ hk y hy, unary_result, after_take_eq h V k x hx]

/-- The result of a `binary` at index `k` ends at its function of the operands' final contents. -/
theorem after_binary (h : Late n₀ ops) (V : Valuation τ sig Val) (k : ℕ) {a b y : Ref sig .tc}
    (f : a.ty.Contents Val → b.ty.Contents Val → y.ty.Contents Val) (ha' hb' hy')
    (hk : ops[k]? = some (binary a b y f ha' hb' hy')) (hy : y.idx.val < n₀ + k + 1)
    (ha : a.idx.val < n₀ + k) (hb : b.idx.val < n₀ + k) :
    after ops V (Proc.devRef .tc y) = f (after ops V (Proc.devRef .tc a)) (after ops V (Proc.devRef .tc b)) := by
  rw [after_at h V k _ hk y hy, binary_result, after_take_eq h V k a ha, after_take_eq h V k b hb]

/-- The result of a `ternary` at index `k` ends at its function of the operands' final contents. -/
theorem after_ternary (h : Late n₀ ops) (V : Valuation τ sig Val) (k : ℕ) {c a b y : Ref sig .tc}
    (f : c.ty.Contents Val → a.ty.Contents Val → b.ty.Contents Val → y.ty.Contents Val) (hc' ha' hb' hy')
    (hk : ops[k]? = some (ternary c a b y f hc' ha' hb' hy')) (hy : y.idx.val < n₀ + k + 1)
    (hc : c.idx.val < n₀ + k) (ha : a.idx.val < n₀ + k) (hb : b.idx.val < n₀ + k) :
    after ops V (Proc.devRef .tc y)
      = f (after ops V (Proc.devRef .tc c)) (after ops V (Proc.devRef .tc a)) (after ops V (Proc.devRef .tc b)) := by
  rw [after_at h V k _ hk y hy, ternary_result, after_take_eq h V k c hc, after_take_eq h V k a ha,
    after_take_eq h V k b hb]

/-- The result of a `quaternary` at index `k` ends at its function of the operands' final contents. -/
theorem after_quaternary (h : Late n₀ ops) (V : Valuation τ sig Val) (k : ℕ) {a b c e y : Ref sig .tc}
    (f : a.ty.Contents Val → b.ty.Contents Val → c.ty.Contents Val → e.ty.Contents Val → y.ty.Contents Val)
    (ha' hb' hc' he' hy')
    (hk : ops[k]? = some (quaternary a b c e y f ha' hb' hc' he' hy')) (hy : y.idx.val < n₀ + k + 1)
    (ha : a.idx.val < n₀ + k) (hb : b.idx.val < n₀ + k) (hc : c.idx.val < n₀ + k) (he : e.idx.val < n₀ + k) :
    after ops V (Proc.devRef .tc y)
      = f (after ops V (Proc.devRef .tc a)) (after ops V (Proc.devRef .tc b)) (after ops V (Proc.devRef .tc c))
          (after ops V (Proc.devRef .tc e)) := by
  rw [after_at h V k _ hk y hy, quaternary_result, after_take_eq h V k a ha, after_take_eq h V k b hb,
    after_take_eq h V k c hc, after_take_eq h V k e he]

/-- The result of a `reshape` at index `k` ends at the operand's final contents, read at the result's shape. -/
theorem after_reshape (h : Late n₀ ops) (V : Valuation τ sig Val) (k : ℕ) {x y : Ref sig .tc}
    (he : x.ty.elt = y.ty.elt) (hn : x.ty.shape.ShapeCasts y.ty.shape) (hx' hy')
    (hk : ops[k]? = some (reshape x y he hn hx' hy')) (hy : y.idx.val < n₀ + k + 1) (hx : x.idx.val < n₀ + k) :
    after ops V (Proc.devRef .tc y) = fun i => he ▸ shapeCast y.ty.shape (after ops V (Proc.devRef .tc x)) hn i := by
  rw [after_at h V k _ hk y hy, reshape_result, after_take_eq h V k x hx]

/-- The result of an `nary` at index `k` ends at its function of the family of the operands' final contents. -/
theorem after_nary (h : Late n₀ ops) (V : Valuation τ sig Val) (k : ℕ) {n : ℕ} (xs : Fin n → Ref sig .tc)
    {y : Ref sig .tc} (f : ((i : Fin n) → (xs i).ty.Contents Val) → y.ty.Contents Val) (hxs' hy')
    (hk : ops[k]? = some (nary xs y f hxs' hy')) (hy : y.idx.val < n₀ + k + 1)
    (hxs : ∀ i, (xs i).idx.val < n₀ + k) :
    after ops V (Proc.devRef .tc y) = f (fun i => after ops V (Proc.devRef .tc (xs i))) := by
  rw [after_at h V k _ hk y hy, nary_result]
  congr 1; funext i; exact after_take_eq h V k (xs i) (hxs i)

/-- `after_nary` over a literal family of four references, each operand's final contents at its own reference
    (the right-hand side of `nary4_result`). -/
theorem after_nary4 (h : Late n₀ ops) (V : Valuation τ sig Val) (k : ℕ) {x a b c y : Ref sig .tc}
    (f : ((i : Fin 4) → ((![x, a, b, c] : Fin 4 → Ref sig .tc) i).ty.Contents Val) → y.ty.Contents Val) (hxs' hy')
    (hk : ops[k]? = some (nary ![x, a, b, c] y f hxs' hy')) (hy : y.idx.val < n₀ + k + 1)
    (hx : x.idx.val < n₀ + k) (ha : a.idx.val < n₀ + k) (hb : b.idx.val < n₀ + k) (hc : c.idx.val < n₀ + k) :
    after ops V (Proc.devRef .tc y)
      = f (Fin.cons (after ops V (Proc.devRef .tc x)) (Fin.cons (after ops V (Proc.devRef .tc a))
          (Fin.cons (after ops V (Proc.devRef .tc b)) (Fin.cons (after ops V (Proc.devRef .tc c)) (fun i => i.elim0))))) := by
  rw [after_at h V k _ hk y hy, nary4_result, after_take_eq h V k x hx, after_take_eq h V k a ha,
    after_take_eq h V k b hb, after_take_eq h V k c hc]

end Builders

end Idealize.ShloMosaic.StableHlo

end
-- ==== Proof.LibSsaList.lean ====
/-
  A line of host operations is in single-assignment form (`Late`) as soon as its operations write, one each and
  in order, buffers numbered consecutively: the operation at position `j` writes exactly the buffer numbered `j`,
  so nothing numbered below `j`.
-/
import proofs.«126270_j6725918785969_1_alg».proof.Proof.LibSsa

noncomputable section

namespace Idealize.ShloMosaic.StableHlo

open Idealize.ShloMosaic.TcCoe

variable {τ : Topo} {sig : RefSig} {Val : EltTy → Type}

/-- If the operations of a line write, one each and in order, the references `ys`, and `ys` are numbered
    `n₀, n₀ + 1, …`, then the operation at position `j` writes nothing numbered below `j`. -/
theorem Late.of_writes : ∀ {n₀ : ℕ} {ops : List (HloOp τ sig Val)} {ys : List (Ref sig .tc)},
    List.Forall₂ (fun op y => op.writes = {Proc.devRef (τ := τ) .tc y}) ops ys →
    ys.map (fun y => y.idx.val) = List.range' n₀ ys.length → Late n₀ ops
  | _, [], [], _, _ => trivial
  | n₀, op :: ops, y :: ys, .cons hw hrest, hidx => by
    rw [List.map_cons, List.length_cons, List.range'_succ, List.cons.injEq] at hidx
    refine (ForallIdx_cons _ n₀ op ops).mpr ⟨fun r hr hmem => ?_, Late.of_writes hrest hidx.2⟩
    rw [hw, Finset.mem_singleton] at hmem
    have hry : r = y := Proc.devRef_injective _ hmem
    subst hry
    omega

end Idealize.ShloMosaic.StableHlo

end
-- ==== Proof.LibSsaEq.lean ====
/-
  The defining equations of a line in single-assignment form, for a NAMED final valuation.

  `LibSsa` proves, for a line `ops` in single-assignment form, that the final contents `after ops V` satisfy every
  operation's defining equation. Here the same equations are stated for any valuation `W` known to BE the final
  contents (`hW : W = after ops V`). A proof about a long line is then carried out over a variable `W` and its
  equations alone: the fold is never unfolded, and two of its values `W x`, `W y` are told apart by comparing the
  references `x`, `y`, not by computing the fold at each. At the end `W` is instantiated at `after ops V` with `rfl`.
-/
import proofs.«126270_j6725918785969_1_alg».proof.Proof.LibSsa

noncomputable section

namespace Idealize.ShloMosaic.StableHlo

open Idealize.ShloMosaic.TcCoe

variable {τ : Topo} {sig : RefSig} {Val : EltTy → Type}
variable {n₀ : ℕ} {ops : List (HloOp τ sig Val)} {V W : Valuation τ sig Val}

/-- A reference numbered below the line's first position: the final contents are the launch contents. -/
theorem eq_of_lt (h : Late n₀ ops) (hW : W = after ops V) (x : Ref sig .tc) (hx : x.idx.val < n₀) :
    W (Proc.devRef .tc x) = V (Proc.devRef .tc x) := hW ▸ after_of_lt h V x hx

/-- The result of a `nullary` at index `k`: its value. -/
theorem eq_nullary (h : Late n₀ ops) (hW : W = after ops V) (k : ℕ) {y : Ref sig .tc} (v : y.ty.Contents Val) (hy')
    (hk : ops[k]? = some (nullary y v hy')) (hy : y.idx.val < n₀ + k + 1) :
    W (Proc.devRef .tc y) = v := hW ▸ after_nullary h V k v hy' hk hy

/-- The result of a `unary` at index `k`: its function of the operand's final contents. -/
theorem eq_unary (h : Late n₀ ops) (hW : W = after ops V) (k : ℕ) {x y : Ref sig .tc}
    (f : x.ty.Contents Val → y.ty.Contents Val) (hx' hy')
    (hk : ops[k]? = some (unary x y f hx' hy')) (hy : y.idx.val < n₀ + k + 1) (hx : x.idx.val < n₀ + k) :
    W (Proc.devRef .tc y) = f (W (Proc.devRef .tc x)) := hW ▸ after_unary h V k f hx' hy' hk hy hx

/-- The result of a `binary` at index `k`: its function of the operands' final contents. -/
theorem eq_binary (h : Late n₀ ops) (hW : W = after ops V) (k : ℕ) {a b y : Ref sig .tc}
    (f : a.ty.Contents Val → b.ty.Contents Val → y.ty.Contents Val) (ha' hb' hy')
    (hk : ops[k]? = some (binary a b y f ha' hb' hy')) (hy : y.idx.val < n₀ + k + 1)
    (ha : a.idx.val < n₀ + k) (hb : b.idx.val < n₀ + k) :
    W (Proc.devRef .tc y) = f (W (Proc.devRef .tc a)) (W (Proc.devRef .tc b)) :=
  hW ▸ after_binary h V k f ha' hb' hy' hk hy ha hb

/-- The result of a `ternary` at index `k`: its function of the operands' final contents. -/
theorem eq_ternary (h : Late n₀ ops) (hW : W = after ops V) (k : ℕ) {c a b y : Ref sig .tc}
    (f : c.ty.Contents Val → a.ty.Contents Val → b.ty.Contents Val → y.ty.Contents Val) (hc' ha' hb' hy')
    (hk : ops[k]? = some (ternary c a b y f hc' ha' hb' hy')) (hy : y.idx.val < n₀ + k + 1)
    (hc : c.idx.val < n₀ + k) (ha : a.idx.val < n₀ + k) (hb : b.idx.val < n₀ + k) :
    W (Proc.devRef .tc y) = f (W (Proc.devRef .tc c)) (W (Proc.devRef .tc a)) (W (Proc.devRef .tc b)) :=
  hW ▸ after_ternary h V k f hc' ha' hb' hy' hk hy hc ha hb

/-- The result of a `quaternary` at index `k`: its function of the operands' final contents. -/
theorem eq_quaternary (h : Late n₀ ops) (hW : W = after ops V) (k : ℕ) {a b c e y : Ref sig .tc}
    (f : a.ty.Contents Val → b.ty.Contents Val → c.ty.Contents Val → e.ty.Contents Val → y.ty.Contents Val)
    (ha' hb' hc' he' hy')
    (hk : ops[k]? = some (quaternary a b c e y f ha' hb' hc' he' hy')) (hy : y.idx.val < n₀ + k + 1)
    (ha : a.idx.val < n₀ + k) (hb : b.idx.val < n₀ + k) (hc : c.idx.val < n₀ + k) (he : e.idx.val < n₀ + k) :
    W (Proc.devRef .tc y)
      = f (W (Proc.devRef .tc a)) (W (Proc.devRef .tc b)) (W (Proc.devRef .tc c)) (W (Proc.devRef .tc e)) :=
  hW ▸ after_quaternary h V k f ha' hb' hc' he' hy' hk hy ha hb hc he

/-- The result of a `reshape` at index `k`: the operand's final contents, read at the result's shape. -/
theorem eq_reshape (h : Late n₀ ops) (hW : W = after ops V) (k : ℕ) {x y : Ref sig .tc}
    (he : x.ty.elt = y.ty.elt) (hn : x.ty.shape.ShapeCasts y.ty.shape) (hx' hy')
    (hk : ops[k]? = some (reshape x y he hn hx' hy')) (hy : y.idx.val < n₀ + k + 1) (hx : x.idx.val < n₀ + k) :
    W (Proc.devRef .tc y) = fun i => he ▸ shapeCast y.ty.shape (W (Proc.devRef .tc x)) hn i :=
  hW ▸ after_reshape h V k he hn hx' hy' hk hy hx

/-- The result of an `nary` at index `k`: its function of the family of the operands' final contents. -/
theorem eq_nary (h : Late n₀ ops) (hW : W = after ops V) (k : ℕ) {n : ℕ} (xs : Fin n → Ref sig .tc)
    {y : Ref sig .tc} (f : ((i : Fin n) → (xs i).ty.Contents Val) → y.ty.Contents Val) (hxs' hy')
    (hk : ops[k]? = some (nary xs y f hxs' hy')) (hy : y.idx.val < n₀ + k + 1)
    (hxs : ∀ i, (xs i).idx.val < n₀ + k) :
    W (Proc.devRef .tc y) = f (fun i => W (Proc.devRef .tc (xs i))) :=
  hW ▸ after_nary h V k xs f hxs' hy' hk hy hxs

/-- `eq_nary` over a literal family of four references, each operand's final contents at its own reference. -/
theorem eq_nary4 (h : Late n₀ ops) (hW : W = after ops V) (k : ℕ) {x a b c y : Ref sig .tc}
    (f : ((i : Fin 4) → ((![x, a, b, c] : Fin 4 → Ref sig .tc) i).ty.Contents Val) → y.ty.Contents Val) (hxs' hy')
    (hk : ops[k]? = some (nary ![x, a, b, c] y f hxs' hy')) (hy : y.idx.val < n₀ + k + 1)
    (hx : x.idx.val < n₀ + k) (ha : a.idx.val < n₀ + k) (hb : b.idx.val < n₀ + k) (hc : c.idx.val < n₀ + k) :
    W (Proc.devRef .tc y)
      = f (Fin.cons (W (Proc.devRef .tc x)) (Fin.cons (W (Proc.devRef .tc a))
          (Fin.cons (W (Proc.devRef .tc b)) (Fin.cons (W (Proc.devRef .tc c)) (fun i => i.elim0))))) :=
  hW ▸ after_nary4 h V k f hxs' hy' hk hy hx ha hb hc

end Idealize.ShloMosaic.StableHlo

end
-- ==== Proof.KI.KEqBase.lean ====
import proofs.«126270_j6725918785969_1_alg».proof.Proof.KI.Chain
import proofs.«126270_j6725918785969_1_alg».proof.Proof.LibSsaList
import proofs.«126270_j6725918785969_1_alg».proof.Proof.LibSsaEq
import Idealize.ShloMosaic.PureOps.Ideal

/-!
# The idealized kernel program's final buffer contents, operation by operation: the groundwork

The program's tensor values are numbered in program order, so every stretch of host operations is in
single-assignment form from the number of its first result (`lateK_J`), an item changes no buffer numbered below
its first result (`stepK_J`), and a buffer numbered below item `J + 1`'s first result holds at the end what it
held after item `J` (`liftK_J`). An operation's defining equation, which holds of the contents right after its
stretch, is carried to the final contents by these (`lift_nullary` … `lift_reshape`).
-/

set_option maxRecDepth 16384

noncomputable section

namespace Cert.KernelIdeal.Fr

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

/-- The final contents of core `c`'s unscoped buffers. -/
abbrev WK : Valuation τ sig (Elt Ideal) := Wc60 (F := Ideal) m c

theorem lateK_3 : Late (τ := τ) 14 (hostOps2 : List (HloOp τ sig (Elt Ideal))) :=
  Late.of_writes (ys := GenP.hostOps2_W)
    (.cons (unary_writes ..) <| .cons (nullary_writes ..) <| .cons (unary_writes ..) <| .cons (binary_writes ..) <| .cons (nullary_writes ..) <| .cons (unary_writes ..) <| .cons (binary_writes ..) <| .cons (ternary_writes ..) <| .cons (unary_writes ..) <| .cons (binary_writes ..) <| .cons (unary_writes ..) <| .cons (binary_writes ..) <| .cons (nullary_writes ..) <| .cons (unary_writes ..) <| .cons (unary_writes ..) <| .cons (ternary_writes ..) <| .cons (unary_writes ..) <| .cons (nullary_writes ..) <| .cons (unary_writes ..) <| .cons (binary_writes ..) <| .cons (nullary_writes ..) <| .cons (unary_writes ..) <| .cons (binary_writes ..) <| .cons (ternary_writes ..) <| .cons (unary_writes ..) <| .cons (binary_writes ..) <| .cons (unary_writes ..) <| .cons (binary_writes ..) <| .cons (nullary_writes ..) <| .cons (unary_writes ..) <| .cons (unary_writes ..) <| .cons (ternary_writes ..) <| .nil)
    (by decide)
theorem lateK_6 : Late (τ := τ) 48 (hostOps4 : List (HloOp τ sig (Elt Ideal))) :=
  Late.of_writes (ys := GenP.hostOps4_W)
    (.cons (unary_writes ..) <| .cons (reshape_writes ..) <| .nil)
    (by decide)
theorem lateK_8 : Late (τ := τ) 51 (hostOps5 : List (HloOp τ sig (Elt Ideal))) :=
  Late.of_writes (ys := GenP.hostOps5_W)
    (.cons (unary_writes ..) <| .cons (reshape_writes ..) <| .cons (unary_writes ..) <| .cons (binary_writes ..) <| .cons (nullary_writes ..) <| .cons (unary_writes ..) <| .cons (binary_writes ..) <| .cons (binary_writes ..) <| .cons (binary_writes ..) <| .cons (unary_writes ..) <| .cons (reshape_writes ..) <| .cons (unary_writes ..) <| .cons (binary_writes ..) <| .cons (nullary_writes ..) <| .cons (unary_writes ..) <| .cons (binary_writes ..) <| .cons (binary_writes ..) <| .cons (binary_writes ..) <| .cons (unary_writes ..) <| .cons (reshape_writes ..) <| .cons (unary_writes ..) <| .cons (binary_writes ..) <| .cons (nullary_writes ..) <| .cons (unary_writes ..) <| .cons (binary_writes ..) <| .cons (binary_writes ..) <| .cons (binary_writes ..) <| .nil)
    (by decide)
theorem lateK_10 : Late (τ := τ) 79 (hostOps6 : List (HloOp τ sig (Elt Ideal))) :=
  Late.of_writes (ys := GenP.hostOps6_W)
    (.cons (unary_writes ..) <| .cons (reshape_writes ..) <| .nil)
    (by decide)
theorem lateK_12 : Late (τ := τ) 82 (hostOps7 : List (HloOp τ sig (Elt Ideal))) :=
  Late.of_writes (ys := GenP.hostOps7_W)
    (.cons (unary_writes ..) <| .cons (reshape_writes ..) <| .cons (unary_writes ..) <| .cons (binary_writes ..) <| .cons (nullary_writes ..) <| .cons (unary_writes ..) <| .cons (binary_writes ..) <| .cons (binary_writes ..) <| .cons (binary_writes ..) <| .cons (unary_writes ..) <| .cons (reshape_writes ..) <| .cons (unary_writes ..) <| .cons (binary_writes ..) <| .cons (nullary_writes ..) <| .cons (unary_writes ..) <| .cons (binary_writes ..) <| .cons (binary_writes ..) <| .cons (binary_writes ..) <| .cons (unary_writes ..) <| .cons (reshape_writes ..) <| .cons (unary_writes ..) <| .cons (binary_writes ..) <| .cons (nullary_writes ..) <| .cons (unary_writes ..) <| .cons (binary_writes ..) <| .cons (binary_writes ..) <| .cons (binary_writes ..) <| .nil)
    (by decide)
theorem lateK_14 : Late (τ := τ) 110 (hostOps8 : List (HloOp τ sig (Elt Ideal))) :=
  Late.of_writes (ys := GenP.hostOps8_W)
    (.cons (binary_writes ..) <| .cons (binary_writes ..) <| .cons (binary_writes ..) <| .cons (binary_writes ..) <| .cons (unary_writes ..) <| .cons (nullary_writes ..) <| .cons (unary_writes ..) <| .cons (binary_writes ..) <| .cons (nullary_writes ..) <| .cons (unary_writes ..) <| .cons (binary_writes ..) <| .cons (ternary_writes ..) <| .cons (unary_writes ..) <| .cons (binary_writes ..) <| .cons (unary_writes ..) <| .cons (binary_writes ..) <| .cons (nullary_writes ..) <| .cons (unary_writes ..) <| .cons (unary_writes ..) <| .cons (ternary_writes ..) <| .cons (unary_writes ..) <| .cons (nullary_writes ..) <| .cons (unary_writes ..) <| .cons (binary_writes ..) <| .cons (nullary_writes ..) <| .cons (unary_writes ..) <| .cons (binary_writes ..) <| .cons (ternary_writes ..) <| .cons (unary_writes ..) <| .cons (binary_writes ..) <| .cons (unary_writes ..) <| .cons (binary_writes ..) <| .cons (nullary_writes ..) <| .cons (unary_writes ..) <| .cons (unary_writes ..) <| .cons (ternary_writes ..) <| .nil)
    (by decide)
theorem lateK_17 : Late (τ := τ) 148 (hostOps10 : List (HloOp τ sig (Elt Ideal))) :=
  Late.of_writes (ys := GenP.hostOps10_W)
    (.cons (unary_writes ..) <| .cons (reshape_writes ..) <| .nil)
    (by decide)
theorem lateK_19 : Late (τ := τ) 151 (hostOps11 : List (HloOp τ sig (Elt Ideal))) :=
  Late.of_writes (ys := GenP.hostOps11_W)
    (.cons (unary_writes ..) <| .cons (reshape_writes ..) <| .cons (unary_writes ..) <| .cons (binary_writes ..) <| .cons (nullary_writes ..) <| .cons (unary_writes ..) <| .cons (binary_writes ..) <| .cons (binary_writes ..) <| .cons (binary_writes ..) <| .cons (unary_writes ..) <| .cons (reshape_writes ..) <| .cons (unary_writes ..) <| .cons (binary_writes ..) <| .cons (nullary_writes ..) <| .cons (unary_writes ..) <| .cons (binary_writes ..) <| .cons (binary_writes ..) <| .cons (binary_writes ..) <| .cons (unary_writes ..) <| .cons (reshape_writes ..) <| .cons (unary_writes ..) <| .cons (binary_writes ..) <| .cons (nullary_writes ..) <| .cons (unary_writes ..) <| .cons (binary_writes ..) <| .cons (binary_writes ..) <| .cons (binary_writes ..) <| .nil)
    (by decide)
theorem lateK_21 : Late (τ := τ) 179 (hostOps12 : List (HloOp τ sig (Elt Ideal))) :=
  Late.of_writes (ys := GenP.hostOps12_W)
    (.cons (unary_writes ..) <| .cons (reshape_writes ..) <| .nil)
    (by decide)
theorem lateK_23 : Late (τ := τ) 182 (hostOps13 : List (HloOp τ sig (Elt Ideal))) :=
  Late.of_writes (ys := GenP.hostOps13_W)
    (.cons (unary_writes ..) <| .cons (reshape_writes ..) <| .cons (unary_writes ..) <| .cons (binary_writes ..) <| .cons (nullary_writes ..) <| .cons (unary_writes ..) <| .cons (binary_writes ..) <| .cons (binary_writes ..) <| .cons (binary_writes ..) <| .cons (unary_writes ..) <| .cons (reshape_writes ..) <| .cons (unary_writes ..) <| .cons (binary_writes ..) <| .cons (nullary_writes ..) <| .cons (unary_writes ..) <| .cons (binary_writes ..) <| .cons (binary_writes ..) <| .cons (binary_writes ..) <| .cons (unary_writes ..) <| .cons (reshape_writes ..) <| .cons (unary_writes ..) <| .cons (binary_writes ..) <| .cons (nullary_writes ..) <| .cons (unary_writes ..) <| .cons (binary_writes ..) <| .cons (binary_writes ..) <| .cons (binary_writes ..) <| .nil)
    (by decide)
theorem lateK_25 : Late (τ := τ) 210 (hostOps14 : List (HloOp τ sig (Elt Ideal))) :=
  Late.of_writes (ys := GenP.hostOps14_W)
    (.cons (binary_writes ..) <| .cons (binary_writes ..) <| .cons (binary_writes ..) <| .cons (binary_writes ..) <| .cons (nullary_writes ..) <| .cons (unary_writes ..) <| .cons (binary_writes ..) <| .cons (binary_writes ..) <| .cons (binary_writes ..) <| .cons (nullary_writes ..) <| .cons (unary_writes ..) <| .cons (binary_writes ..) <| .cons (binary_writes ..) <| .cons (binary_writes ..) <| .cons (nullary_writes ..) <| .cons (unary_writes ..) <| .cons (binary_writes ..) <| .cons (nullary_writes ..) <| .cons (unary_writes ..) <| .cons (binary_writes ..) <| .cons (ternary_writes ..) <| .cons (unary_writes ..) <| .cons (binary_writes ..) <| .cons (nullary_writes ..) <| .cons (unary_writes ..) <| .cons (binary_writes ..) <| .cons (nullary_writes ..) <| .cons (unary_writes ..) <| .cons (binary_writes ..) <| .cons (ternary_writes ..) <| .cons (unary_writes ..) <| .cons (binary_writes ..) <| .cons (binary_writes ..) <| .cons (nullary_writes ..) <| .cons (binary_writes ..) <| .nil)
    (by decide)
theorem lateK_26 : Late (τ := τ) 245 (hostOps14_1 : List (HloOp τ sig (Elt Ideal))) :=
  Late.of_writes (ys := GenP.hostOps14_1_W)
    (.cons (unary_writes ..) <| .nil)
    (by decide)
theorem lateK_27 : Late (τ := τ) 246 (hostOps14_2 : List (HloOp τ sig (Elt Ideal))) :=
  Late.of_writes (ys := GenP.hostOps14_2_W)
    (.cons (unary_writes ..) <| .nil)
    (by decide)
theorem lateK_28 : Late (τ := τ) 247 (hostOps14_3 : List (HloOp τ sig (Elt Ideal))) :=
  Late.of_writes (ys := GenP.hostOps14_3_W)
    (.cons (nullary_writes ..) <| .cons (unary_writes ..) <| .cons (binary_writes ..) <| .cons (nullary_writes ..) <| .cons (unary_writes ..) <| .cons (binary_writes ..) <| .cons (ternary_writes ..) <| .cons (unary_writes ..) <| .cons (binary_writes ..) <| .cons (nullary_writes ..) <| .cons (unary_writes ..) <| .cons (binary_writes ..) <| .cons (nullary_writes ..) <| .cons (unary_writes ..) <| .cons (binary_writes ..) <| .cons (ternary_writes ..) <| .cons (unary_writes ..) <| .cons (binary_writes ..) <| .cons (unary_writes ..) <| .cons (reshape_writes ..) <| .nil)
    (by decide)
theorem lateK_29 : Late (τ := τ) 267 (hostOps14_4 : List (HloOp τ sig (Elt Ideal))) :=
  Late.of_writes (ys := GenP.hostOps14_4_W)
    (.cons (binary_writes ..) <| .cons (nullary_writes ..) <| .cons (binary_writes ..) <| .cons (unary_writes ..) <| .cons (unary_writes ..) <| .nil)
    (by decide)
theorem lateK_30 : Late (τ := τ) 272 (hostOps14_5 : List (HloOp τ sig (Elt Ideal))) :=
  Late.of_writes (ys := GenP.hostOps14_5_W)
    (.cons (nullary_writes ..) <| .cons (unary_writes ..) <| .cons (binary_writes ..) <| .cons (unary_writes ..) <| .cons (binary_writes ..) <| .nil)
    (by decide)
theorem lateK_31 : Late (τ := τ) 277 (hostOps14_6 : List (HloOp τ sig (Elt Ideal))) :=
  Late.of_writes (ys := GenP.hostOps14_6_W)
    (.cons (binary_writes ..) <| .cons (nullary_writes ..) <| .cons (binary_writes ..) <| .cons (unary_writes ..) <| .cons (unary_writes ..) <| .nil)
    (by decide)
theorem lateK_32 : Late (τ := τ) 282 (hostOps14_7 : List (HloOp τ sig (Elt Ideal))) :=
  Late.of_writes (ys := GenP.hostOps14_7_W)
    (.cons (nullary_writes ..) <| .cons (unary_writes ..) <| .cons (binary_writes ..) <| .cons (unary_writes ..) <| .cons (binary_writes ..) <| .nil)
    (by decide)
theorem lateK_34 : Late (τ := τ) 288 (hostOps15 : List (HloOp τ sig (Elt Ideal))) :=
  Late.of_writes (ys := GenP.hostOps15_W)
    (.cons (binary_writes ..) <| .cons (nullary_writes ..) <| .cons (binary_writes ..) <| .cons (nullary_writes ..) <| .cons (unary_writes ..) <| .cons (binary_writes ..) <| .cons (unary_writes ..) <| .nil)
    (by decide)
theorem lateK_36 : Late (τ := τ) 296 (hostOps16 : List (HloOp τ sig (Elt Ideal))) :=
  Late.of_writes (ys := GenP.hostOps16_W)
    (.cons (reshape_writes ..) <| .cons (nullary_writes ..) <| .cons (unary_writes ..) <| .cons (binary_writes ..) <| .cons (binary_writes ..) <| .cons (nullary_writes ..) <| .cons (unary_writes ..) <| .cons (binary_writes ..) <| .cons (unary_writes ..) <| .cons (unary_writes ..) <| .cons (nullary_writes ..) <| .cons (binary_writes ..) <| .cons (nullary_writes ..) <| .cons (binary_writes ..) <| .cons (nullary_writes ..) <| .cons (unary_writes ..) <| .cons (binary_writes ..) <| .cons (nullary_writes ..) <| .cons (unary_writes ..) <| .cons (binary_writes ..) <| .cons (ternary_writes ..) <| .cons (unary_writes ..) <| .cons (binary_writes ..) <| .cons (nullary_writes ..) <| .cons (unary_writes ..) <| .cons (binary_writes ..) <| .cons (nullary_writes ..) <| .cons (unary_writes ..) <| .cons (binary_writes ..) <| .cons (ternary_writes ..) <| .cons (unary_writes ..) <| .cons (binary_writes ..) <| .cons (unary_writes ..) <| .cons (reshape_writes ..) <| .nil)
    (by decide)
theorem lateK_37 : Late (τ := τ) 330 (hostOps16_1 : List (HloOp τ sig (Elt Ideal))) :=
  Late.of_writes (ys := GenP.hostOps16_1_W)
    (.cons (binary_writes ..) <| .cons (nullary_writes ..) <| .cons (binary_writes ..) <| .cons (unary_writes ..) <| .cons (unary_writes ..) <| .nil)
    (by decide)
theorem lateK_38 : Late (τ := τ) 335 (hostOps16_2 : List (HloOp τ sig (Elt Ideal))) :=
  Late.of_writes (ys := GenP.hostOps16_2_W)
    (.cons (nullary_writes ..) <| .cons (unary_writes ..) <| .cons (binary_writes ..) <| .cons (unary_writes ..) <| .cons (binary_writes ..) <| .nil)
    (by decide)
theorem lateK_39 : Late (τ := τ) 340 (hostOps16_3 : List (HloOp τ sig (Elt Ideal))) :=
  Late.of_writes (ys := GenP.hostOps16_3_W)
    (.cons (binary_writes ..) <| .cons (nullary_writes ..) <| .cons (binary_writes ..) <| .cons (unary_writes ..) <| .cons (unary_writes ..) <| .nil)
    (by decide)
theorem lateK_40 : Late (τ := τ) 345 (hostOps16_4 : List (HloOp τ sig (Elt Ideal))) :=
  Late.of_writes (ys := GenP.hostOps16_4_W)
    (.cons (nullary_writes ..) <| .cons (unary_writes ..) <| .cons (binary_writes ..) <| .cons (unary_writes ..) <| .cons (binary_writes ..) <| .nil)
    (by decide)
theorem lateK_42 : Late (τ := τ) 351 (hostOps17 : List (HloOp τ sig (Elt Ideal))) :=
  Late.of_writes (ys := GenP.hostOps17_W)
    (.cons (binary_writes ..) <| .cons (nullary_writes ..) <| .cons (binary_writes ..) <| .cons (nullary_writes ..) <| .cons (unary_writes ..) <| .cons (binary_writes ..) <| .cons (unary_writes ..) <| .nil)
    (by decide)
theorem lateK_44 : Late (τ := τ) 359 (hostOps18 : List (HloOp τ sig (Elt Ideal))) :=
  Late.of_writes (ys := GenP.hostOps18_W)
    (.cons (reshape_writes ..) <| .cons (nullary_writes ..) <| .cons (unary_writes ..) <| .cons (binary_writes ..) <| .cons (binary_writes ..) <| .cons (nullary_writes ..) <| .cons (unary_writes ..) <| .cons (binary_writes ..) <| .cons (unary_writes ..) <| .cons (unary_writes ..) <| .cons (nullary_writes ..) <| .cons (binary_writes ..) <| .cons (binary_writes ..) <| .cons (nullary_writes ..) <| .cons (unary_writes ..) <| .cons (binary_writes ..) <| .cons (nullary_writes ..) <| .cons (unary_writes ..) <| .cons (binary_writes ..) <| .cons (ternary_writes ..) <| .cons (unary_writes ..) <| .cons (binary_writes ..) <| .cons (nullary_writes ..) <| .cons (unary_writes ..) <| .cons (binary_writes ..) <| .cons (nullary_writes ..) <| .cons (unary_writes ..) <| .cons (binary_writes ..) <| .cons (ternary_writes ..) <| .cons (unary_writes ..) <| .cons (binary_writes ..) <| .cons (unary_writes ..) <| .cons (reshape_writes ..) <| .nil)
    (by decide)
theorem lateK_45 : Late (τ := τ) 392 (hostOps18_1 : List (HloOp τ sig (Elt Ideal))) :=
  Late.of_writes (ys := GenP.hostOps18_1_W)
    (.cons (binary_writes ..) <| .cons (nullary_writes ..) <| .cons (binary_writes ..) <| .cons (unary_writes ..) <| .cons (unary_writes ..) <| .nil)
    (by decide)
theorem lateK_46 : Late (τ := τ) 397 (hostOps18_2 : List (HloOp τ sig (Elt Ideal))) :=
  Late.of_writes (ys := GenP.hostOps18_2_W)
    (.cons (nullary_writes ..) <| .cons (unary_writes ..) <| .cons (binary_writes ..) <| .cons (unary_writes ..) <| .cons (binary_writes ..) <| .nil)
    (by decide)
theorem lateK_47 : Late (τ := τ) 402 (hostOps18_3 : List (HloOp τ sig (Elt Ideal))) :=
  Late.of_writes (ys := GenP.hostOps18_3_W)
    (.cons (binary_writes ..) <| .cons (nullary_writes ..) <| .cons (binary_writes ..) <| .cons (unary_writes ..) <| .cons (unary_writes ..) <| .nil)
    (by decide)
theorem lateK_48 : Late (τ := τ) 407 (hostOps18_4 : List (HloOp τ sig (Elt Ideal))) :=
  Late.of_writes (ys := GenP.hostOps18_4_W)
    (.cons (nullary_writes ..) <| .cons (unary_writes ..) <| .cons (binary_writes ..) <| .cons (unary_writes ..) <| .cons (binary_writes ..) <| .nil)
    (by decide)
theorem lateK_50 : Late (τ := τ) 413 (hostOps19 : List (HloOp τ sig (Elt Ideal))) :=
  Late.of_writes (ys := GenP.hostOps19_W)
    (.cons (binary_writes ..) <| .cons (nullary_writes ..) <| .cons (binary_writes ..) <| .cons (nullary_writes ..) <| .cons (unary_writes ..) <| .cons (binary_writes ..) <| .cons (unary_writes ..) <| .nil)
    (by decide)
theorem lateK_52 : Late (τ := τ) 421 (hostOps20 : List (HloOp τ sig (Elt Ideal))) :=
  Late.of_writes (ys := GenP.hostOps20_W)
    (.cons (reshape_writes ..) <| .cons (nullary_writes ..) <| .cons (unary_writes ..) <| .cons (binary_writes ..) <| .cons (binary_writes ..) <| .cons (nullary_writes ..) <| .cons (unary_writes ..) <| .cons (binary_writes ..) <| .cons (unary_writes ..) <| .cons (unary_writes ..) <| .cons (nullary_writes ..) <| .cons (binary_writes ..) <| .cons (binary_writes ..) <| .cons (nullary_writes ..) <| .cons (unary_writes ..) <| .cons (binary_writes ..) <| .cons (nullary_writes ..) <| .cons (unary_writes ..) <| .cons (binary_writes ..) <| .cons (ternary_writes ..) <| .cons (unary_writes ..) <| .cons (binary_writes ..) <| .cons (nullary_writes ..) <| .cons (unary_writes ..) <| .cons (binary_writes ..) <| .cons (nullary_writes ..) <| .cons (unary_writes ..) <| .cons (binary_writes ..) <| .cons (ternary_writes ..) <| .cons (unary_writes ..) <| .cons (binary_writes ..) <| .cons (unary_writes ..) <| .cons (reshape_writes ..) <| .nil)
    (by decide)
theorem lateK_53 : Late (τ := τ) 454 (hostOps20_1 : List (HloOp τ sig (Elt Ideal))) :=
  Late.of_writes (ys := GenP.hostOps20_1_W)
    (.cons (binary_writes ..) <| .cons (nullary_writes ..) <| .cons (binary_writes ..) <| .cons (unary_writes ..) <| .cons (unary_writes ..) <| .nil)
    (by decide)
theorem lateK_54 : Late (τ := τ) 459 (hostOps20_2 : List (HloOp τ sig (Elt Ideal))) :=
  Late.of_writes (ys := GenP.hostOps20_2_W)
    (.cons (nullary_writes ..) <| .cons (unary_writes ..) <| .cons (binary_writes ..) <| .cons (unary_writes ..) <| .cons (binary_writes ..) <| .nil)
    (by decide)
theorem lateK_55 : Late (τ := τ) 464 (hostOps20_3 : List (HloOp τ sig (Elt Ideal))) :=
  Late.of_writes (ys := GenP.hostOps20_3_W)
    (.cons (binary_writes ..) <| .cons (nullary_writes ..) <| .cons (binary_writes ..) <| .cons (unary_writes ..) <| .cons (unary_writes ..) <| .nil)
    (by decide)
theorem lateK_56 : Late (τ := τ) 469 (hostOps20_4 : List (HloOp τ sig (Elt Ideal))) :=
  Late.of_writes (ys := GenP.hostOps20_4_W)
    (.cons (nullary_writes ..) <| .cons (unary_writes ..) <| .cons (binary_writes ..) <| .cons (unary_writes ..) <| .cons (binary_writes ..) <| .nil)
    (by decide)
theorem lateK_58 : Late (τ := τ) 475 (hostOps21 : List (HloOp τ sig (Elt Ideal))) :=
  Late.of_writes (ys := GenP.hostOps21_W)
    (.cons (binary_writes ..) <| .cons (nullary_writes ..) <| .cons (binary_writes ..) <| .cons (nullary_writes ..) <| .cons (unary_writes ..) <| .cons (binary_writes ..) <| .cons (unary_writes ..) <| .nil)
    (by decide)
theorem lateK_60 : Late (τ := τ) 483 (hostOps22 : List (HloOp τ sig (Elt Ideal))) :=
  Late.of_writes (ys := GenP.hostOps22_W)
    (.cons (reshape_writes ..) <| .cons (nullary_writes ..) <| .cons (unary_writes ..) <| .cons (binary_writes ..) <| .cons (binary_writes ..) <| .cons (nullary_writes ..) <| .cons (unary_writes ..) <| .cons (binary_writes ..) <| .cons (unary_writes ..) <| .cons (unary_writes ..) <| .cons (nullary_writes ..) <| .cons (binary_writes ..) <| .cons (binary_writes ..) <| .cons (binary_writes ..) <| .cons (nullary_writes ..) <| .cons (binary_writes ..) <| .cons (binary_writes ..) <| .cons (nullary_writes ..) <| .cons (binary_writes ..) <| .cons (binary_writes ..) <| .cons (binary_writes ..) <| .cons (nullary_writes ..) <| .cons (binary_writes ..) <| .cons (binary_writes ..) <| .cons (binary_writes ..) <| .cons (nullary_writes ..) <| .cons (binary_writes ..) <| .cons (binary_writes ..) <| .nil)
    (by decide)

theorem stepK_1 (r : Ref sig .tc) (hr : r.idx.val < 12) : Wc1 m c r = Wc0 m c r :=
  Function.update_of_ne (devRef_ne_of_ne (by rintro rfl; exact absurd hr (by decide))) _ _
theorem stepK_2 (r : Ref sig .tc) (hr : r.idx.val < 13) : Wc2 m c r = Wc1 m c r :=
  Function.update_of_ne (devRef_ne_of_ne (by rintro rfl; exact absurd hr (by decide))) _ _
theorem stepK_3 (r : Ref sig .tc) (hr : r.idx.val < 14) : Wc3 m c r = Wc2 m c r :=
  eq_of_lt (lateK_3) (rfl : Wc3 m c = after hostOps2 (Wc2 m c)) r hr
theorem stepK_4 (r : Ref sig .tc) (hr : r.idx.val < 46) : Wc4 m c r = Wc3 m c r :=
  Function.update_of_ne (devRef_ne_of_ne (by rintro rfl; exact absurd hr (by decide))) _ _
theorem stepK_5 (r : Ref sig .tc) (hr : r.idx.val < 47) : Wc5 m c r = Wc4 m c r :=
  Function.update_of_ne (devRef_ne_of_ne (by rintro rfl; exact absurd hr (by decide))) _ _
theorem stepK_6 (r : Ref sig .tc) (hr : r.idx.val < 48) : Wc6 m c r = Wc5 m c r :=
  eq_of_lt (lateK_6) (rfl : Wc6 m c = after hostOps4 (Wc5 m c)) r hr
theorem stepK_7 (r : Ref sig .tc) (hr : r.idx.val < 50) : Wc7 m c r = Wc6 m c r :=
  Function.update_of_ne (devRef_ne_of_ne (by rintro rfl; exact absurd hr (by decide))) _ _
theorem stepK_8 (r : Ref sig .tc) (hr : r.idx.val < 51) : Wc8 m c r = Wc7 m c r :=
  eq_of_lt (lateK_8) (rfl : Wc8 m c = after hostOps5 (Wc7 m c)) r hr
theorem stepK_9 (r : Ref sig .tc) (hr : r.idx.val < 78) : Wc9 m c r = Wc8 m c r :=
  Function.update_of_ne (devRef_ne_of_ne (by rintro rfl; exact absurd hr (by decide))) _ _
theorem stepK_10 (r : Ref sig .tc) (hr : r.idx.val < 79) : Wc10 m c r = Wc9 m c r :=
  eq_of_lt (lateK_10) (rfl : Wc10 m c = after hostOps6 (Wc9 m c)) r hr
theorem stepK_11 (r : Ref sig .tc) (hr : r.idx.val < 81) : Wc11 m c r = Wc10 m c r :=
  Function.update_of_ne (devRef_ne_of_ne (by rintro rfl; exact absurd hr (by decide))) _ _
theorem stepK_12 (r : Ref sig .tc) (hr : r.idx.val < 82) : Wc12 m c r = Wc11 m c r :=
  eq_of_lt (lateK_12) (rfl : Wc12 m c = after hostOps7 (Wc11 m c)) r hr
theorem stepK_13 (r : Ref sig .tc) (hr : r.idx.val < 109) : Wc13 m c r = Wc12 m c r :=
  Function.update_of_ne (devRef_ne_of_ne (by rintro rfl; exact absurd hr (by decide))) _ _
theorem stepK_14 (r : Ref sig .tc) (hr : r.idx.val < 110) : Wc14 m c r = Wc13 m c r :=
  eq_of_lt (lateK_14) (rfl : Wc14 m c = after hostOps8 (Wc13 m c)) r hr
theorem stepK_15 (r : Ref sig .tc) (hr : r.idx.val < 146) : Wc15 m c r = Wc14 m c r :=
  Function.update_of_ne (devRef_ne_of_ne (by rintro rfl; exact absurd hr (by decide))) _ _
theorem stepK_16 (r : Ref sig .tc) (hr : r.idx.val < 147) : Wc16 m c r = Wc15 m c r :=
  Function.update_of_ne (devRef_ne_of_ne (by rintro rfl; exact absurd hr (by decide))) _ _
theorem stepK_17 (r : Ref sig .tc) (hr : r.idx.val < 148) : Wc17 m c r = Wc16 m c r :=
  eq_of_lt (lateK_17) (rfl : Wc17 m c = after hostOps10 (Wc16 m c)) r hr
theorem stepK_18 (r : Ref sig .tc) (hr : r.idx.val < 150) : Wc18 m c r = Wc17 m c r :=
  Function.update_of_ne (devRef_ne_of_ne (by rintro rfl; exact absurd hr (by decide))) _ _
theorem stepK_19 (r : Ref sig .tc) (hr : r.idx.val < 151) : Wc19 m c r = Wc18 m c r :=
  eq_of_lt (lateK_19) (rfl : Wc19 m c = after hostOps11 (Wc18 m c)) r hr
theorem stepK_20 (r : Ref sig .tc) (hr : r.idx.val < 178) : Wc20 m c r = Wc19 m c r :=
  Function.update_of_ne (devRef_ne_of_ne (by rintro rfl; exact absurd hr (by decide))) _ _
theorem stepK_21 (r : Ref sig .tc) (hr : r.idx.val < 179) : Wc21 m c r = Wc20 m c r :=
  eq_of_lt (lateK_21) (rfl : Wc21 m c = after hostOps12 (Wc20 m c)) r hr
theorem stepK_22 (r : Ref sig .tc) (hr : r.idx.val < 181) : Wc22 m c r = Wc21 m c r :=
  Function.update_of_ne (devRef_ne_of_ne (by rintro rfl; exact absurd hr (by decide))) _ _
theorem stepK_23 (r : Ref sig .tc) (hr : r.idx.val < 182) : Wc23 m c r = Wc22 m c r :=
  eq_of_lt (lateK_23) (rfl : Wc23 m c = after hostOps13 (Wc22 m c)) r hr
theorem stepK_24 (r : Ref sig .tc) (hr : r.idx.val < 209) : Wc24 m c r = Wc23 m c r :=
  Function.update_of_ne (devRef_ne_of_ne (by rintro rfl; exact absurd hr (by decide))) _ _
theorem stepK_25 (r : Ref sig .tc) (hr : r.idx.val < 210) : Wc25 m c r = Wc24 m c r :=
  eq_of_lt (lateK_25) (rfl : Wc25 m c = after hostOps14 (Wc24 m c)) r hr
theorem stepK_26 (r : Ref sig .tc) (hr : r.idx.val < 245) : Wc26 m c r = Wc25 m c r :=
  eq_of_lt (lateK_26) (rfl : Wc26 m c = after hostOps14_1 (Wc25 m c)) r hr
theorem stepK_27 (r : Ref sig .tc) (hr : r.idx.val < 246) : Wc27 m c r = Wc26 m c r :=
  eq_of_lt (lateK_27) (rfl : Wc27 m c = after hostOps14_2 (Wc26 m c)) r hr
theorem stepK_28 (r : Ref sig .tc) (hr : r.idx.val < 247) : Wc28 m c r = Wc27 m c r :=
  eq_of_lt (lateK_28) (rfl : Wc28 m c = after hostOps14_3 (Wc27 m c)) r hr
theorem stepK_29 (r : Ref sig .tc) (hr : r.idx.val < 267) : Wc29 m c r = Wc28 m c r :=
  eq_of_lt (lateK_29) (rfl : Wc29 m c = after hostOps14_4 (Wc28 m c)) r hr
theorem stepK_30 (r : Ref sig .tc) (hr : r.idx.val < 272) : Wc30 m c r = Wc29 m c r :=
  eq_of_lt (lateK_30) (rfl : Wc30 m c = after hostOps14_5 (Wc29 m c)) r hr
theorem stepK_31 (r : Ref sig .tc) (hr : r.idx.val < 277) : Wc31 m c r = Wc30 m c r :=
  eq_of_lt (lateK_31) (rfl : Wc31 m c = after hostOps14_6 (Wc30 m c)) r hr
theorem stepK_32 (r : Ref sig .tc) (hr : r.idx.val < 282) : Wc32 m c r = Wc31 m c r :=
  eq_of_lt (lateK_32) (rfl : Wc32 m c = after hostOps14_7 (Wc31 m c)) r hr
theorem stepK_33 (r : Ref sig .tc) (hr : r.idx.val < 287) : Wc33 m c r = Wc32 m c r :=
  Function.update_of_ne (devRef_ne_of_ne (by rintro rfl; exact absurd hr (by decide))) _ _
theorem stepK_34 (r : Ref sig .tc) (hr : r.idx.val < 288) : Wc34 m c r = Wc33 m c r :=
  eq_of_lt (lateK_34) (rfl : Wc34 m c = after hostOps15 (Wc33 m c)) r hr
theorem stepK_35 (r : Ref sig .tc) (hr : r.idx.val < 295) : Wc35 m c r = Wc34 m c r :=
  Function.update_of_ne (devRef_ne_of_ne (by rintro rfl; exact absurd hr (by decide))) _ _
theorem stepK_36 (r : Ref sig .tc) (hr : r.idx.val < 296) : Wc36 m c r = Wc35 m c r :=
  eq_of_lt (lateK_36) (rfl : Wc36 m c = after hostOps16 (Wc35 m c)) r hr
theorem stepK_37 (r : Ref sig .tc) (hr : r.idx.val < 330) : Wc37 m c r = Wc36 m c r :=
  eq_of_lt (lateK_37) (rfl : Wc37 m c = after hostOps16_1 (Wc36 m c)) r hr
theorem stepK_38 (r : Ref sig .tc) (hr : r.idx.val < 335) : Wc38 m c r = Wc37 m c r :=
  eq_of_lt (lateK_38) (rfl : Wc38 m c = after hostOps16_2 (Wc37 m c)) r hr
theorem stepK_39 (r : Ref sig .tc) (hr : r.idx.val < 340) : Wc39 m c r = Wc38 m c r :=
  eq_of_lt (lateK_39) (rfl : Wc39 m c = after hostOps16_3 (Wc38 m c)) r hr
theorem stepK_40 (r : Ref sig .tc) (hr : r.idx.val < 345) : Wc40 m c r = Wc39 m c r :=
  eq_of_lt (lateK_40) (rfl : Wc40 m c = after hostOps16_4 (Wc39 m c)) r hr
theorem stepK_41 (r : Ref sig .tc) (hr : r.idx.val < 350) : Wc41 m c r = Wc40 m c r :=
  Function.update_of_ne (devRef_ne_of_ne (by rintro rfl; exact absurd hr (by decide))) _ _
theorem stepK_42 (r : Ref sig .tc) (hr : r.idx.val < 351) : Wc42 m c r = Wc41 m c r :=
  eq_of_lt (lateK_42) (rfl : Wc42 m c = after hostOps17 (Wc41 m c)) r hr
theorem stepK_43 (r : Ref sig .tc) (hr : r.idx.val < 358) : Wc43 m c r = Wc42 m c r :=
  Function.update_of_ne (devRef_ne_of_ne (by rintro rfl; exact absurd hr (by decide))) _ _
theorem stepK_44 (r : Ref sig .tc) (hr : r.idx.val < 359) : Wc44 m c r = Wc43 m c r :=
  eq_of_lt (lateK_44) (rfl : Wc44 m c = after hostOps18 (Wc43 m c)) r hr
theorem stepK_45 (r : Ref sig .tc) (hr : r.idx.val < 392) : Wc45 m c r = Wc44 m c r :=
  eq_of_lt (lateK_45) (rfl : Wc45 m c = after hostOps18_1 (Wc44 m c)) r hr
theorem stepK_46 (r : Ref sig .tc) (hr : r.idx.val < 397) : Wc46 m c r = Wc45 m c r :=
  eq_of_lt (lateK_46) (rfl : Wc46 m c = after hostOps18_2 (Wc45 m c)) r hr
theorem stepK_47 (r : Ref sig .tc) (hr : r.idx.val < 402) : Wc47 m c r = Wc46 m c r :=
  eq_of_lt (lateK_47) (rfl : Wc47 m c = after hostOps18_3 (Wc46 m c)) r hr
theorem stepK_48 (r : Ref sig .tc) (hr : r.idx.val < 407) : Wc48 m c r = Wc47 m c r :=
  eq_of_lt (lateK_48) (rfl : Wc48 m c = after hostOps18_4 (Wc47 m c)) r hr
theorem stepK_49 (r : Ref sig .tc) (hr : r.idx.val < 412) : Wc49 m c r = Wc48 m c r :=
  Function.update_of_ne (devRef_ne_of_ne (by rintro rfl; exact absurd hr (by decide))) _ _
theorem stepK_50 (r : Ref sig .tc) (hr : r.idx.val < 413) : Wc50 m c r = Wc49 m c r :=
  eq_of_lt (lateK_50) (rfl : Wc50 m c = after hostOps19 (Wc49 m c)) r hr
theorem stepK_51 (r : Ref sig .tc) (hr : r.idx.val < 420) : Wc51 m c r = Wc50 m c r :=
  Function.update_of_ne (devRef_ne_of_ne (by rintro rfl; exact absurd hr (by decide))) _ _
theorem stepK_52 (r : Ref sig .tc) (hr : r.idx.val < 421) : Wc52 m c r = Wc51 m c r :=
  eq_of_lt (lateK_52) (rfl : Wc52 m c = after hostOps20 (Wc51 m c)) r hr
theorem stepK_53 (r : Ref sig .tc) (hr : r.idx.val < 454) : Wc53 m c r = Wc52 m c r :=
  eq_of_lt (lateK_53) (rfl : Wc53 m c = after hostOps20_1 (Wc52 m c)) r hr
theorem stepK_54 (r : Ref sig .tc) (hr : r.idx.val < 459) : Wc54 m c r = Wc53 m c r :=
  eq_of_lt (lateK_54) (rfl : Wc54 m c = after hostOps20_2 (Wc53 m c)) r hr
theorem stepK_55 (r : Ref sig .tc) (hr : r.idx.val < 464) : Wc55 m c r = Wc54 m c r :=
  eq_of_lt (lateK_55) (rfl : Wc55 m c = after hostOps20_3 (Wc54 m c)) r hr
theorem stepK_56 (r : Ref sig .tc) (hr : r.idx.val < 469) : Wc56 m c r = Wc55 m c r :=
  eq_of_lt (lateK_56) (rfl : Wc56 m c = after hostOps20_4 (Wc55 m c)) r hr
theorem stepK_57 (r : Ref sig .tc) (hr : r.idx.val < 474) : Wc57 m c r = Wc56 m c r :=
  Function.update_of_ne (devRef_ne_of_ne (by rintro rfl; exact absurd hr (by decide))) _ _
theorem stepK_58 (r : Ref sig .tc) (hr : r.idx.val < 475) : Wc58 m c r = Wc57 m c r :=
  eq_of_lt (lateK_58) (rfl : Wc58 m c = after hostOps21 (Wc57 m c)) r hr
theorem stepK_59 (r : Ref sig .tc) (hr : r.idx.val < 482) : Wc59 m c r = Wc58 m c r :=
  Function.update_of_ne (devRef_ne_of_ne (by rintro rfl; exact absurd hr (by decide))) _ _
theorem stepK_60 (r : Ref sig .tc) (hr : r.idx.val < 483) : Wc60 m c r = Wc59 m c r :=
  eq_of_lt (lateK_60) (rfl : Wc60 m c = after hostOps22 (Wc59 m c)) r hr

theorem liftK_59 (r : Ref sig .tc) (hr : r.idx.val < 483) : Wc60 m c r = Wc59 m c r :=
  stepK_60 m c r hr
theorem liftK_58 (r : Ref sig .tc) (hr : r.idx.val < 482) : Wc60 m c r = Wc58 m c r :=
  (liftK_59 m c r (lt_trans hr (by decide))).trans (stepK_59 m c r hr)
theorem liftK_57 (r : Ref sig .tc) (hr : r.idx.val < 475) : Wc60 m c r = Wc57 m c r :=
  (liftK_58 m c r (lt_trans hr (by decide))).trans (stepK_58 m c r hr)
theorem liftK_56 (r : Ref sig .tc) (hr : r.idx.val < 474) : Wc60 m c r = Wc56 m c r :=
  (liftK_57 m c r (lt_trans hr (by decide))).trans (stepK_57 m c r hr)
theorem liftK_55 (r : Ref sig .tc) (hr : r.idx.val < 469) : Wc60 m c r = Wc55 m c r :=
  (liftK_56 m c r (lt_trans hr (by decide))).trans (stepK_56 m c r hr)
theorem liftK_54 (r : Ref sig .tc) (hr : r.idx.val < 464) : Wc60 m c r = Wc54 m c r :=
  (liftK_55 m c r (lt_trans hr (by decide))).trans (stepK_55 m c r hr)
theorem liftK_53 (r : Ref sig .tc) (hr : r.idx.val < 459) : Wc60 m c r = Wc53 m c r :=
  (liftK_54 m c r (lt_trans hr (by decide))).trans (stepK_54 m c r hr)
theorem liftK_52 (r : Ref sig .tc) (hr : r.idx.val < 454) : Wc60 m c r = Wc52 m c r :=
  (liftK_53 m c r (lt_trans hr (by decide))).trans (stepK_53 m c r hr)
theorem liftK_51 (r : Ref sig .tc) (hr : r.idx.val < 421) : Wc60 m c r = Wc51 m c r :=
  (liftK_52 m c r (lt_trans hr (by decide))).trans (stepK_52 m c r hr)
theorem liftK_50 (r : Ref sig .tc) (hr : r.idx.val < 420) : Wc60 m c r = Wc50 m c r :=
  (liftK_51 m c r (lt_trans hr (by decide))).trans (stepK_51 m c r hr)
theorem liftK_49 (r : Ref sig .tc) (hr : r.idx.val < 413) : Wc60 m c r = Wc49 m c r :=
  (liftK_50 m c r (lt_trans hr (by decide))).trans (stepK_50 m c r hr)
theorem liftK_48 (r : Ref sig .tc) (hr : r.idx.val < 412) : Wc60 m c r = Wc48 m c r :=
  (liftK_49 m c r (lt_trans hr (by decide))).trans (stepK_49 m c r hr)
theorem liftK_47 (r : Ref sig .tc) (hr : r.idx.val < 407) : Wc60 m c r = Wc47 m c r :=
  (liftK_48 m c r (lt_trans hr (by decide))).trans (stepK_48 m c r hr)
theorem liftK_46 (r : Ref sig .tc) (hr : r.idx.val < 402) : Wc60 m c r = Wc46 m c r :=
  (liftK_47 m c r (lt_trans hr (by decide))).trans (stepK_47 m c r hr)
theorem liftK_45 (r : Ref sig .tc) (hr : r.idx.val < 397) : Wc60 m c r = Wc45 m c r :=
  (liftK_46 m c r (lt_trans hr (by decide))).trans (stepK_46 m c r hr)
theorem liftK_44 (r : Ref sig .tc) (hr : r.idx.val < 392) : Wc60 m c r = Wc44 m c r :=
  (liftK_45 m c r (lt_trans hr (by decide))).trans (stepK_45 m c r hr)
theorem liftK_43 (r : Ref sig .tc) (hr : r.idx.val < 359) : Wc60 m c r = Wc43 m c r :=
  (liftK_44 m c r (lt_trans hr (by decide))).trans (stepK_44 m c r hr)
theorem liftK_42 (r : Ref sig .tc) (hr : r.idx.val < 358) : Wc60 m c r = Wc42 m c r :=
  (liftK_43 m c r (lt_trans hr (by decide))).trans (stepK_43 m c r hr)
theorem liftK_41 (r : Ref sig .tc) (hr : r.idx.val < 351) : Wc60 m c r = Wc41 m c r :=
  (liftK_42 m c r (lt_trans hr (by decide))).trans (stepK_42 m c r hr)
theorem liftK_40 (r : Ref sig .tc) (hr : r.idx.val < 350) : Wc60 m c r = Wc40 m c r :=
  (liftK_41 m c r (lt_trans hr (by decide))).trans (stepK_41 m c r hr)
theorem liftK_39 (r : Ref sig .tc) (hr : r.idx.val < 345) : Wc60 m c r = Wc39 m c r :=
  (liftK_40 m c r (lt_trans hr (by decide))).trans (stepK_40 m c r hr)
theorem liftK_38 (r : Ref sig .tc) (hr : r.idx.val < 340) : Wc60 m c r = Wc38 m c r :=
  (liftK_39 m c r (lt_trans hr (by decide))).trans (stepK_39 m c r hr)
theorem liftK_37 (r : Ref sig .tc) (hr : r.idx.val < 335) : Wc60 m c r = Wc37 m c r :=
  (liftK_38 m c r (lt_trans hr (by decide))).trans (stepK_38 m c r hr)
theorem liftK_36 (r : Ref sig .tc) (hr : r.idx.val < 330) : Wc60 m c r = Wc36 m c r :=
  (liftK_37 m c r (lt_trans hr (by decide))).trans (stepK_37 m c r hr)
theorem liftK_35 (r : Ref sig .tc) (hr : r.idx.val < 296) : Wc60 m c r = Wc35 m c r :=
  (liftK_36 m c r (lt_trans hr (by decide))).trans (stepK_36 m c r hr)
theorem liftK_34 (r : Ref sig .tc) (hr : r.idx.val < 295) : Wc60 m c r = Wc34 m c r :=
  (liftK_35 m c r (lt_trans hr (by decide))).trans (stepK_35 m c r hr)
theorem liftK_33 (r : Ref sig .tc) (hr : r.idx.val < 288) : Wc60 m c r = Wc33 m c r :=
  (liftK_34 m c r (lt_trans hr (by decide))).trans (stepK_34 m c r hr)
theorem liftK_32 (r : Ref sig .tc) (hr : r.idx.val < 287) : Wc60 m c r = Wc32 m c r :=
  (liftK_33 m c r (lt_trans hr (by decide))).trans (stepK_33 m c r hr)
theorem liftK_31 (r : Ref sig .tc) (hr : r.idx.val < 282) : Wc60 m c r = Wc31 m c r :=
  (liftK_32 m c r (lt_trans hr (by decide))).trans (stepK_32 m c r hr)
theorem liftK_30 (r : Ref sig .tc) (hr : r.idx.val < 277) : Wc60 m c r = Wc30 m c r :=
  (liftK_31 m c r (lt_trans hr (by decide))).trans (stepK_31 m c r hr)
theorem liftK_29 (r : Ref sig .tc) (hr : r.idx.val < 272) : Wc60 m c r = Wc29 m c r :=
  (liftK_30 m c r (lt_trans hr (by decide))).trans (stepK_30 m c r hr)
theorem liftK_28 (r : Ref sig .tc) (hr : r.idx.val < 267) : Wc60 m c r = Wc28 m c r :=
  (liftK_29 m c r (lt_trans hr (by decide))).trans (stepK_29 m c r hr)
theorem liftK_27 (r : Ref sig .tc) (hr : r.idx.val < 247) : Wc60 m c r = Wc27 m c r :=
  (liftK_28 m c r (lt_trans hr (by decide))).trans (stepK_28 m c r hr)
theorem liftK_26 (r : Ref sig .tc) (hr : r.idx.val < 246) : Wc60 m c r = Wc26 m c r :=
  (liftK_27 m c r (lt_trans hr (by decide))).trans (stepK_27 m c r hr)
theorem liftK_25 (r : Ref sig .tc) (hr : r.idx.val < 245) : Wc60 m c r = Wc25 m c r :=
  (liftK_26 m c r (lt_trans hr (by decide))).trans (stepK_26 m c r hr)
theorem liftK_24 (r : Ref sig .tc) (hr : r.idx.val < 210) : Wc60 m c r = Wc24 m c r :=
  (liftK_25 m c r (lt_trans hr (by decide))).trans (stepK_25 m c r hr)
theorem liftK_23 (r : Ref sig .tc) (hr : r.idx.val < 209) : Wc60 m c r = Wc23 m c r :=
  (liftK_24 m c r (lt_trans hr (by decide))).trans (stepK_24 m c r hr)
theorem liftK_22 (r : Ref sig .tc) (hr : r.idx.val < 182) : Wc60 m c r = Wc22 m c r :=
  (liftK_23 m c r (lt_trans hr (by decide))).trans (stepK_23 m c r hr)
theorem liftK_21 (r : Ref sig .tc) (hr : r.idx.val < 181) : Wc60 m c r = Wc21 m c r :=
  (liftK_22 m c r (lt_trans hr (by decide))).trans (stepK_22 m c r hr)
theorem liftK_20 (r : Ref sig .tc) (hr : r.idx.val < 179) : Wc60 m c r = Wc20 m c r :=
  (liftK_21 m c r (lt_trans hr (by decide))).trans (stepK_21 m c r hr)
theorem liftK_19 (r : Ref sig .tc) (hr : r.idx.val < 178) : Wc60 m c r = Wc19 m c r :=
  (liftK_20 m c r (lt_trans hr (by decide))).trans (stepK_20 m c r hr)
theorem liftK_18 (r : Ref sig .tc) (hr : r.idx.val < 151) : Wc60 m c r = Wc18 m c r :=
  (liftK_19 m c r (lt_trans hr (by decide))).trans (stepK_19 m c r hr)
theorem liftK_17 (r : Ref sig .tc) (hr : r.idx.val < 150) : Wc60 m c r = Wc17 m c r :=
  (liftK_18 m c r (lt_trans hr (by decide))).trans (stepK_18 m c r hr)
theorem liftK_16 (r : Ref sig .tc) (hr : r.idx.val < 148) : Wc60 m c r = Wc16 m c r :=
  (liftK_17 m c r (lt_trans hr (by decide))).trans (stepK_17 m c r hr)
theorem liftK_15 (r : Ref sig .tc) (hr : r.idx.val < 147) : Wc60 m c r = Wc15 m c r :=
  (liftK_16 m c r (lt_trans hr (by decide))).trans (stepK_16 m c r hr)
theorem liftK_14 (r : Ref sig .tc) (hr : r.idx.val < 146) : Wc60 m c r = Wc14 m c r :=
  (liftK_15 m c r (lt_trans hr (by decide))).trans (stepK_15 m c r hr)
theorem liftK_13 (r : Ref sig .tc) (hr : r.idx.val < 110) : Wc60 m c r = Wc13 m c r :=
  (liftK_14 m c r (lt_trans hr (by decide))).trans (stepK_14 m c r hr)
theorem liftK_12 (r : Ref sig .tc) (hr : r.idx.val < 109) : Wc60 m c r = Wc12 m c r :=
  (liftK_13 m c r (lt_trans hr (by decide))).trans (stepK_13 m c r hr)
theorem liftK_11 (r : Ref sig .tc) (hr : r.idx.val < 82) : Wc60 m c r = Wc11 m c r :=
  (liftK_12 m c r (lt_trans hr (by decide))).trans (stepK_12 m c r hr)
theorem liftK_10 (r : Ref sig .tc) (hr : r.idx.val < 81) : Wc60 m c r = Wc10 m c r :=
  (liftK_11 m c r (lt_trans hr (by decide))).trans (stepK_11 m c r hr)
theorem liftK_9 (r : Ref sig .tc) (hr : r.idx.val < 79) : Wc60 m c r = Wc9 m c r :=
  (liftK_10 m c r (lt_trans hr (by decide))).trans (stepK_10 m c r hr)
theorem liftK_8 (r : Ref sig .tc) (hr : r.idx.val < 78) : Wc60 m c r = Wc8 m c r :=
  (liftK_9 m c r (lt_trans hr (by decide))).trans (stepK_9 m c r hr)
theorem liftK_7 (r : Ref sig .tc) (hr : r.idx.val < 51) : Wc60 m c r = Wc7 m c r :=
  (liftK_8 m c r (lt_trans hr (by decide))).trans (stepK_8 m c r hr)
theorem liftK_6 (r : Ref sig .tc) (hr : r.idx.val < 50) : Wc60 m c r = Wc6 m c r :=
  (liftK_7 m c r (lt_trans hr (by decide))).trans (stepK_7 m c r hr)
theorem liftK_5 (r : Ref sig .tc) (hr : r.idx.val < 48) : Wc60 m c r = Wc5 m c r :=
  (liftK_6 m c r (lt_trans hr (by decide))).trans (stepK_6 m c r hr)
theorem liftK_4 (r : Ref sig .tc) (hr : r.idx.val < 47) : Wc60 m c r = Wc4 m c r :=
  (liftK_5 m c r (lt_trans hr (by decide))).trans (stepK_5 m c r hr)
theorem liftK_3 (r : Ref sig .tc) (hr : r.idx.val < 46) : Wc60 m c r = Wc3 m c r :=
  (liftK_4 m c r (lt_trans hr (by decide))).trans (stepK_4 m c r hr)
theorem liftK_2 (r : Ref sig .tc) (hr : r.idx.val < 14) : Wc60 m c r = Wc2 m c r :=
  (liftK_3 m c r (lt_trans hr (by decide))).trans (stepK_3 m c r hr)
theorem liftK_1 (r : Ref sig .tc) (hr : r.idx.val < 13) : Wc60 m c r = Wc1 m c r :=
  (liftK_2 m c r (lt_trans hr (by decide))).trans (stepK_2 m c r hr)
theorem liftK_0 (r : Ref sig .tc) (hr : r.idx.val < 12) : Wc60 m c r = Wc0 m c r :=
  (liftK_1 m c r (lt_trans hr (by decide))).trans (stepK_1 m c r hr)

/-! ## Carrying an operation's equation from the contents after its stretch to the final contents -/

section Lift
variable {W₁ W₂ : Valuation τ sig (Elt Ideal)}
theorem lift_nullary {y : Ref sig .tc} {v : y.ty.Contents (Elt Ideal)}
    (hy : W₂ (Proc.devRef .tc y) = W₁ (Proc.devRef .tc y)) (h : W₁ (Proc.devRef .tc y) = v) : W₂ (Proc.devRef .tc y) = v := hy.trans h
theorem lift_unary {x y : Ref sig .tc} {f : x.ty.Contents (Elt Ideal) → y.ty.Contents (Elt Ideal)}
    (hy : W₂ (Proc.devRef .tc y) = W₁ (Proc.devRef .tc y)) (hx : W₂ (Proc.devRef .tc x) = W₁ (Proc.devRef .tc x))
    (h : W₁ (Proc.devRef .tc y) = f (W₁ (Proc.devRef .tc x))) : W₂ (Proc.devRef .tc y) = f (W₂ (Proc.devRef .tc x)) := by
  rw [hy, hx]; exact h
theorem lift_binary {a b y : Ref sig .tc} {f : a.ty.Contents (Elt Ideal) → b.ty.Contents (Elt Ideal) → y.ty.Contents (Elt Ideal)}
    (hy : W₂ (Proc.devRef .tc y) = W₁ (Proc.devRef .tc y)) (ha : W₂ (Proc.devRef .tc a) = W₁ (Proc.devRef .tc a))
    (hb : W₂ (Proc.devRef .tc b) = W₁ (Proc.devRef .tc b))
    (h : W₁ (Proc.devRef .tc y) = f (W₁ (Proc.devRef .tc a)) (W₁ (Proc.devRef .tc b))) :
    W₂ (Proc.devRef .tc y) = f (W₂ (Proc.devRef .tc a)) (W₂ (Proc.devRef .tc b)) := by
  rw [hy, ha, hb]; exact h
theorem lift_ternary {p a b y : Ref sig .tc}
    {f : p.ty.Contents (Elt Ideal) → a.ty.Contents (Elt Ideal) → b.ty.Contents (Elt Ideal) → y.ty.Contents (Elt Ideal)}
    (hy : W₂ (Proc.devRef .tc y) = W₁ (Proc.devRef .tc y)) (hp : W₂ (Proc.devRef .tc p) = W₁ (Proc.devRef .tc p))
    (ha : W₂ (Proc.devRef .tc a) = W₁ (Proc.devRef .tc a)) (hb : W₂ (Proc.devRef .tc b) = W₁ (Proc.devRef .tc b))
    (h : W₁ (Proc.devRef .tc y) = f (W₁ (Proc.devRef .tc p)) (W₁ (Proc.devRef .tc a)) (W₁ (Proc.devRef .tc b))) :
    W₂ (Proc.devRef .tc y) = f (W₂ (Proc.devRef .tc p)) (W₂ (Proc.devRef .tc a)) (W₂ (Proc.devRef .tc b)) := by
  rw [hy, hp, ha, hb]; exact h
theorem lift_reshape {x y : Ref sig .tc} (he : x.ty.elt = y.ty.elt) (hn : x.ty.shape.ShapeCasts y.ty.shape)
    (hy : W₂ (Proc.devRef .tc y) = W₁ (Proc.devRef .tc y)) (hx : W₂ (Proc.devRef .tc x) = W₁ (Proc.devRef .tc x))
    (h : W₁ (Proc.devRef .tc y) = fun i => he ▸ shapeCast y.ty.shape (W₁ (Proc.devRef .tc x)) hn i) :
    W₂ (Proc.devRef .tc y) = fun i => he ▸ shapeCast y.ty.shape (W₂ (Proc.devRef .tc x)) hn i := by
  rw [hy, hx]; exact h
end Lift

end Cert.KernelIdeal.Fr

end
-- ==== Proof.KI.KNDefs.lean ====
import proofs.«126270_j6725918785969_1_alg».proof.Proof.KI.KEqBase

/-!
# The final contents of the kernel program's buffers, each at its plain tensor type

A buffer's contents are typed through the program's buffer signature; here each is named once at the plain type
`⟨shape, element⟩` of its tensor, so that a statement about two programs' buffers mentions neither signature.
-/

set_option maxRecDepth 16384

noncomputable section

namespace Cert.KernelIdeal.Fr

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

def nK_main_arg0 : (⟨S4096, .i32⟩ : BufTy).Contents (Elt Ideal) := Wc60 m c main_arg0
def nK_main_arg1 : (⟨S4096, .i32⟩ : BufTy).Contents (Elt Ideal) := Wc60 m c main_arg1
def nK_main_arg2 : (⟨S1000000, .i32⟩ : BufTy).Contents (Elt Ideal) := Wc60 m c main_arg2
def nK_main_arg3 : (⟨S1000000, .i32⟩ : BufTy).Contents (Elt Ideal) := Wc60 m c main_arg3
def nK_main_arg4 : (⟨S1000000, .f32⟩ : BufTy).Contents (Elt Ideal) := Wc60 m c main_arg4
def nK_main_arg5 : (⟨S100000x128, .f32⟩ : BufTy).Contents (Elt Ideal) := Wc60 m c main_arg5
def nK_main_arg6 : (⟨S50000x128, .f32⟩ : BufTy).Contents (Elt Ideal) := Wc60 m c main_arg6
def nK_main_arg7 : (⟨S128x128, .f32⟩ : BufTy).Contents (Elt Ideal) := Wc60 m c main_arg7
def nK_main_arg8 : (⟨S128x128, .f32⟩ : BufTy).Contents (Elt Ideal) := Wc60 m c main_arg8
def nK_main_arg9 : (⟨S2x3x128x128, .f32⟩ : BufTy).Contents (Elt Ideal) := Wc60 m c main_arg9
def nK_main_arg10 : (⟨S2x3x128x128, .f32⟩ : BufTy).Contents (Elt Ideal) := Wc60 m c main_arg10
def nK_main_arg11 : (⟨S2x128x128, .f32⟩ : BufTy).Contents (Elt Ideal) := Wc60 m c main_arg11
def nK_main_v0 : (⟨S100000x128, .f32⟩ : BufTy).Contents (Elt Ideal) := Wc60 m c main_v0
def nK_main_v1 : (⟨S50000x128, .f32⟩ : BufTy).Contents (Elt Ideal) := Wc60 m c main_v1
def nK_main_v2 : (⟨S1000000x1, .f32⟩ : BufTy).Contents (Elt Ideal) := Wc60 m c main_v2
def nK_main_c : (⟨S_, .i32⟩ : BufTy).Contents (Elt Ideal) := Wc60 m c main_c
def nK_main_v3 : (⟨S1000000, .i32⟩ : BufTy).Contents (Elt Ideal) := Wc60 m c main_v3
def nK_main_v4 : (⟨S1000000, .i1⟩ : BufTy).Contents (Elt Ideal) := Wc60 m c main_v4
def nK_main_c_0 : (⟨S_, .i32⟩ : BufTy).Contents (Elt Ideal) := Wc60 m c main_c_0
def nK_main_v5 : (⟨S1000000, .i32⟩ : BufTy).Contents (Elt Ideal) := Wc60 m c main_v5
def nK_main_v6 : (⟨S1000000, .i32⟩ : BufTy).Contents (Elt Ideal) := Wc60 m c main_v6
def nK_main_v7 : (⟨S1000000, .i32⟩ : BufTy).Contents (Elt Ideal) := Wc60 m c main_v7
def nK_main_v8 : (⟨S1000000x1, .i32⟩ : BufTy).Contents (Elt Ideal) := Wc60 m c main_v8
def nK_main_v9 : (⟨S1000000x128, .f32⟩ : BufTy).Contents (Elt Ideal) := Wc60 m c main_v9
def nK_main_v10 : (⟨S1000000x128, .f32⟩ : BufTy).Contents (Elt Ideal) := Wc60 m c main_v10
def nK_main_v11 : (⟨S1000000x128, .f32⟩ : BufTy).Contents (Elt Ideal) := Wc60 m c main_v11
def nK_main_cst : (⟨S_, .f32⟩ : BufTy).Contents (Elt Ideal) := Wc60 m c main_cst
def nK_main_v12 : (⟨S100000x128, .f32⟩ : BufTy).Contents (Elt Ideal) := Wc60 m c main_v12
def nK_main_v13 : (⟨S1000000x1, .i32⟩ : BufTy).Contents (Elt Ideal) := Wc60 m c main_v13
def nK_main_v14 : (⟨S100000x128, .f32⟩ : BufTy).Contents (Elt Ideal) := Wc60 m c main_v14
def nK_main_v15 : (⟨S1000000x1, .f32⟩ : BufTy).Contents (Elt Ideal) := Wc60 m c main_v15
def nK_main_c_1 : (⟨S_, .i32⟩ : BufTy).Contents (Elt Ideal) := Wc60 m c main_c_1
def nK_main_v16 : (⟨S1000000, .i32⟩ : BufTy).Contents (Elt Ideal) := Wc60 m c main_v16
def nK_main_v17 : (⟨S1000000, .i1⟩ : BufTy).Contents (Elt Ideal) := Wc60 m c main_v17
def nK_main_c_2 : (⟨S_, .i32⟩ : BufTy).Contents (Elt Ideal) := Wc60 m c main_c_2
def nK_main_v18 : (⟨S1000000, .i32⟩ : BufTy).Contents (Elt Ideal) := Wc60 m c main_v18
def nK_main_v19 : (⟨S1000000, .i32⟩ : BufTy).Contents (Elt Ideal) := Wc60 m c main_v19
def nK_main_v20 : (⟨S1000000, .i32⟩ : BufTy).Contents (Elt Ideal) := Wc60 m c main_v20
def nK_main_v21 : (⟨S1000000x1, .i32⟩ : BufTy).Contents (Elt Ideal) := Wc60 m c main_v21
def nK_main_v22 : (⟨S1000000x128, .f32⟩ : BufTy).Contents (Elt Ideal) := Wc60 m c main_v22
def nK_main_v23 : (⟨S1000000x128, .f32⟩ : BufTy).Contents (Elt Ideal) := Wc60 m c main_v23
def nK_main_v24 : (⟨S1000000x128, .f32⟩ : BufTy).Contents (Elt Ideal) := Wc60 m c main_v24
def nK_main_cst_3 : (⟨S_, .f32⟩ : BufTy).Contents (Elt Ideal) := Wc60 m c main_cst_3
def nK_main_v25 : (⟨S50000x128, .f32⟩ : BufTy).Contents (Elt Ideal) := Wc60 m c main_v25
def nK_main_v26 : (⟨S1000000x1, .i32⟩ : BufTy).Contents (Elt Ideal) := Wc60 m c main_v26
def nK_main_v27 : (⟨S50000x128, .f32⟩ : BufTy).Contents (Elt Ideal) := Wc60 m c main_v27
def nK_main_v28 : (⟨S100000x128, .f32⟩ : BufTy).Contents (Elt Ideal) := Wc60 m c main_v28
def nK_main_v29 : (⟨S50000x128, .f32⟩ : BufTy).Contents (Elt Ideal) := Wc60 m c main_v29
def nK_main_v30 : (⟨S1x3x128x128, .f32⟩ : BufTy).Contents (Elt Ideal) := Wc60 m c main_v30
def nK_main_v31 : (⟨S3x128x128, .f32⟩ : BufTy).Contents (Elt Ideal) := Wc60 m c main_v31
def nK_main_v32 : (⟨S128x128, .f32⟩ : BufTy).Contents (Elt Ideal) := Wc60 m c main_v32
def nK_main_v33 : (⟨S1x128x128, .f32⟩ : BufTy).Contents (Elt Ideal) := Wc60 m c main_v33
def nK_main_v34 : (⟨S128x128, .f32⟩ : BufTy).Contents (Elt Ideal) := Wc60 m c main_v34
def nK_main_v35 : (⟨S128x128, .f32⟩ : BufTy).Contents (Elt Ideal) := Wc60 m c main_v35
def nK_main_v36 : (⟨S128x128, .f32⟩ : BufTy).Contents (Elt Ideal) := Wc60 m c main_v36
def nK_main_cst_4 : (⟨S_, .f32⟩ : BufTy).Contents (Elt Ideal) := Wc60 m c main_cst_4
def nK_main_v37 : (⟨S128x128, .f32⟩ : BufTy).Contents (Elt Ideal) := Wc60 m c main_v37
def nK_main_v38 : (⟨S128x128, .f32⟩ : BufTy).Contents (Elt Ideal) := Wc60 m c main_v38
def nK_main_v39 : (⟨S128x128, .f32⟩ : BufTy).Contents (Elt Ideal) := Wc60 m c main_v39
def nK_main_v40 : (⟨S128x128, .f32⟩ : BufTy).Contents (Elt Ideal) := Wc60 m c main_v40
def nK_main_v41 : (⟨S1x128x128, .f32⟩ : BufTy).Contents (Elt Ideal) := Wc60 m c main_v41
def nK_main_v42 : (⟨S128x128, .f32⟩ : BufTy).Contents (Elt Ideal) := Wc60 m c main_v42
def nK_main_v43 : (⟨S128x128, .f32⟩ : BufTy).Contents (Elt Ideal) := Wc60 m c main_v43
def nK_main_v44 : (⟨S128x128, .f32⟩ : BufTy).Contents (Elt Ideal) := Wc60 m c main_v44
def nK_main_cst_5 : (⟨S_, .f32⟩ : BufTy).Contents (Elt Ideal) := Wc60 m c main_cst_5
def nK_main_v45 : (⟨S128x128, .f32⟩ : BufTy).Contents (Elt Ideal) := Wc60 m c main_v45
def nK_main_v46 : (⟨S128x128, .f32⟩ : BufTy).Contents (Elt Ideal) := Wc60 m c main_v46
def nK_main_v47 : (⟨S128x128, .f32⟩ : BufTy).Contents (Elt Ideal) := Wc60 m c main_v47
def nK_main_v48 : (⟨S128x128, .f32⟩ : BufTy).Contents (Elt Ideal) := Wc60 m c main_v48
def nK_main_v49 : (⟨S1x128x128, .f32⟩ : BufTy).Contents (Elt Ideal) := Wc60 m c main_v49
def nK_main_v50 : (⟨S128x128, .f32⟩ : BufTy).Contents (Elt Ideal) := Wc60 m c main_v50
def nK_main_v51 : (⟨S128x128, .f32⟩ : BufTy).Contents (Elt Ideal) := Wc60 m c main_v51
def nK_main_v52 : (⟨S128x128, .f32⟩ : BufTy).Contents (Elt Ideal) := Wc60 m c main_v52
def nK_main_cst_6 : (⟨S_, .f32⟩ : BufTy).Contents (Elt Ideal) := Wc60 m c main_cst_6
def nK_main_v53 : (⟨S128x128, .f32⟩ : BufTy).Contents (Elt Ideal) := Wc60 m c main_v53
def nK_main_v54 : (⟨S128x128, .f32⟩ : BufTy).Contents (Elt Ideal) := Wc60 m c main_v54
def nK_main_v55 : (⟨S128x128, .f32⟩ : BufTy).Contents (Elt Ideal) := Wc60 m c main_v55
def nK_main_v56 : (⟨S128x128, .f32⟩ : BufTy).Contents (Elt Ideal) := Wc60 m c main_v56
def nK_main_v57 : (⟨S100000x128, .f32⟩ : BufTy).Contents (Elt Ideal) := Wc60 m c main_v57
def nK_main_v58 : (⟨S1x3x128x128, .f32⟩ : BufTy).Contents (Elt Ideal) := Wc60 m c main_v58
def nK_main_v59 : (⟨S3x128x128, .f32⟩ : BufTy).Contents (Elt Ideal) := Wc60 m c main_v59
def nK_main_v60 : (⟨S128x128, .f32⟩ : BufTy).Contents (Elt Ideal) := Wc60 m c main_v60
def nK_main_v61 : (⟨S1x128x128, .f32⟩ : BufTy).Contents (Elt Ideal) := Wc60 m c main_v61
def nK_main_v62 : (⟨S128x128, .f32⟩ : BufTy).Contents (Elt Ideal) := Wc60 m c main_v62
def nK_main_v63 : (⟨S128x128, .f32⟩ : BufTy).Contents (Elt Ideal) := Wc60 m c main_v63
def nK_main_v64 : (⟨S128x128, .f32⟩ : BufTy).Contents (Elt Ideal) := Wc60 m c main_v64
def nK_main_cst_7 : (⟨S_, .f32⟩ : BufTy).Contents (Elt Ideal) := Wc60 m c main_cst_7
def nK_main_v65 : (⟨S128x128, .f32⟩ : BufTy).Contents (Elt Ideal) := Wc60 m c main_v65
def nK_main_v66 : (⟨S128x128, .f32⟩ : BufTy).Contents (Elt Ideal) := Wc60 m c main_v66
def nK_main_v67 : (⟨S128x128, .f32⟩ : BufTy).Contents (Elt Ideal) := Wc60 m c main_v67
def nK_main_v68 : (⟨S128x128, .f32⟩ : BufTy).Contents (Elt Ideal) := Wc60 m c main_v68
def nK_main_v69 : (⟨S1x128x128, .f32⟩ : BufTy).Contents (Elt Ideal) := Wc60 m c main_v69
def nK_main_v70 : (⟨S128x128, .f32⟩ : BufTy).Contents (Elt Ideal) := Wc60 m c main_v70
def nK_main_v71 : (⟨S128x128, .f32⟩ : BufTy).Contents (Elt Ideal) := Wc60 m c main_v71
def nK_main_v72 : (⟨S128x128, .f32⟩ : BufTy).Contents (Elt Ideal) := Wc60 m c main_v72
def nK_main_cst_8 : (⟨S_, .f32⟩ : BufTy).Contents (Elt Ideal) := Wc60 m c main_cst_8
def nK_main_v73 : (⟨S128x128, .f32⟩ : BufTy).Contents (Elt Ideal) := Wc60 m c main_v73
def nK_main_v74 : (⟨S128x128, .f32⟩ : BufTy).Contents (Elt Ideal) := Wc60 m c main_v74
def nK_main_v75 : (⟨S128x128, .f32⟩ : BufTy).Contents (Elt Ideal) := Wc60 m c main_v75
def nK_main_v76 : (⟨S128x128, .f32⟩ : BufTy).Contents (Elt Ideal) := Wc60 m c main_v76
def nK_main_v77 : (⟨S1x128x128, .f32⟩ : BufTy).Contents (Elt Ideal) := Wc60 m c main_v77
def nK_main_v78 : (⟨S128x128, .f32⟩ : BufTy).Contents (Elt Ideal) := Wc60 m c main_v78
def nK_main_v79 : (⟨S128x128, .f32⟩ : BufTy).Contents (Elt Ideal) := Wc60 m c main_v79
def nK_main_v80 : (⟨S128x128, .f32⟩ : BufTy).Contents (Elt Ideal) := Wc60 m c main_v80
def nK_main_cst_9 : (⟨S_, .f32⟩ : BufTy).Contents (Elt Ideal) := Wc60 m c main_cst_9
def nK_main_v81 : (⟨S128x128, .f32⟩ : BufTy).Contents (Elt Ideal) := Wc60 m c main_v81
def nK_main_v82 : (⟨S128x128, .f32⟩ : BufTy).Contents (Elt Ideal) := Wc60 m c main_v82
def nK_main_v83 : (⟨S128x128, .f32⟩ : BufTy).Contents (Elt Ideal) := Wc60 m c main_v83
def nK_main_v84 : (⟨S128x128, .f32⟩ : BufTy).Contents (Elt Ideal) := Wc60 m c main_v84
def nK_main_v85 : (⟨S50000x128, .f32⟩ : BufTy).Contents (Elt Ideal) := Wc60 m c main_v85
def nK_main_v86 : (⟨S100000x128, .f32⟩ : BufTy).Contents (Elt Ideal) := Wc60 m c main_v86
def nK_main_v87 : (⟨S100000x128, .f32⟩ : BufTy).Contents (Elt Ideal) := Wc60 m c main_v87
def nK_main_v88 : (⟨S50000x128, .f32⟩ : BufTy).Contents (Elt Ideal) := Wc60 m c main_v88
def nK_main_v89 : (⟨S50000x128, .f32⟩ : BufTy).Contents (Elt Ideal) := Wc60 m c main_v89
def nK_main_v90 : (⟨S1000000x1, .f32⟩ : BufTy).Contents (Elt Ideal) := Wc60 m c main_v90
def nK_main_c_10 : (⟨S_, .i32⟩ : BufTy).Contents (Elt Ideal) := Wc60 m c main_c_10
def nK_main_v91 : (⟨S1000000, .i32⟩ : BufTy).Contents (Elt Ideal) := Wc60 m c main_v91
def nK_main_v92 : (⟨S1000000, .i1⟩ : BufTy).Contents (Elt Ideal) := Wc60 m c main_v92
def nK_main_c_11 : (⟨S_, .i32⟩ : BufTy).Contents (Elt Ideal) := Wc60 m c main_c_11
def nK_main_v93 : (⟨S1000000, .i32⟩ : BufTy).Contents (Elt Ideal) := Wc60 m c main_v93
def nK_main_v94 : (⟨S1000000, .i32⟩ : BufTy).Contents (Elt Ideal) := Wc60 m c main_v94
def nK_main_v95 : (⟨S1000000, .i32⟩ : BufTy).Contents (Elt Ideal) := Wc60 m c main_v95
def nK_main_v96 : (⟨S1000000x1, .i32⟩ : BufTy).Contents (Elt Ideal) := Wc60 m c main_v96
def nK_main_v97 : (⟨S1000000x128, .f32⟩ : BufTy).Contents (Elt Ideal) := Wc60 m c main_v97
def nK_main_v98 : (⟨S1000000x128, .f32⟩ : BufTy).Contents (Elt Ideal) := Wc60 m c main_v98
def nK_main_v99 : (⟨S1000000x128, .f32⟩ : BufTy).Contents (Elt Ideal) := Wc60 m c main_v99
def nK_main_cst_12 : (⟨S_, .f32⟩ : BufTy).Contents (Elt Ideal) := Wc60 m c main_cst_12
def nK_main_v100 : (⟨S100000x128, .f32⟩ : BufTy).Contents (Elt Ideal) := Wc60 m c main_v100
def nK_main_v101 : (⟨S1000000x1, .i32⟩ : BufTy).Contents (Elt Ideal) := Wc60 m c main_v101
def nK_main_v102 : (⟨S100000x128, .f32⟩ : BufTy).Contents (Elt Ideal) := Wc60 m c main_v102
def nK_main_v103 : (⟨S1000000x1, .f32⟩ : BufTy).Contents (Elt Ideal) := Wc60 m c main_v103
def nK_main_c_13 : (⟨S_, .i32⟩ : BufTy).Contents (Elt Ideal) := Wc60 m c main_c_13
def nK_main_v104 : (⟨S1000000, .i32⟩ : BufTy).Contents (Elt Ideal) := Wc60 m c main_v104
def nK_main_v105 : (⟨S1000000, .i1⟩ : BufTy).Contents (Elt Ideal) := Wc60 m c main_v105
def nK_main_c_14 : (⟨S_, .i32⟩ : BufTy).Contents (Elt Ideal) := Wc60 m c main_c_14
def nK_main_v106 : (⟨S1000000, .i32⟩ : BufTy).Contents (Elt Ideal) := Wc60 m c main_v106
def nK_main_v107 : (⟨S1000000, .i32⟩ : BufTy).Contents (Elt Ideal) := Wc60 m c main_v107
def nK_main_v108 : (⟨S1000000, .i32⟩ : BufTy).Contents (Elt Ideal) := Wc60 m c main_v108
def nK_main_v109 : (⟨S1000000x1, .i32⟩ : BufTy).Contents (Elt Ideal) := Wc60 m c main_v109
def nK_main_v110 : (⟨S1000000x128, .f32⟩ : BufTy).Contents (Elt Ideal) := Wc60 m c main_v110
def nK_main_v111 : (⟨S1000000x128, .f32⟩ : BufTy).Contents (Elt Ideal) := Wc60 m c main_v111
def nK_main_v112 : (⟨S1000000x128, .f32⟩ : BufTy).Contents (Elt Ideal) := Wc60 m c main_v112
def nK_main_cst_15 : (⟨S_, .f32⟩ : BufTy).Contents (Elt Ideal) := Wc60 m c main_cst_15
def nK_main_v113 : (⟨S50000x128, .f32⟩ : BufTy).Contents (Elt Ideal) := Wc60 m c main_v113
def nK_main_v114 : (⟨S1000000x1, .i32⟩ : BufTy).Contents (Elt Ideal) := Wc60 m c main_v114
def nK_main_v115 : (⟨S50000x128, .f32⟩ : BufTy).Contents (Elt Ideal) := Wc60 m c main_v115
def nK_main_v116 : (⟨S100000x128, .f32⟩ : BufTy).Contents (Elt Ideal) := Wc60 m c main_v116
def nK_main_v117 : (⟨S50000x128, .f32⟩ : BufTy).Contents (Elt Ideal) := Wc60 m c main_v117
def nK_main_v118 : (⟨S1x3x128x128, .f32⟩ : BufTy).Contents (Elt Ideal) := Wc60 m c main_v118
def nK_main_v119 : (⟨S3x128x128, .f32⟩ : BufTy).Contents (Elt Ideal) := Wc60 m c main_v119
def nK_main_v120 : (⟨S128x128, .f32⟩ : BufTy).Contents (Elt Ideal) := Wc60 m c main_v120
def nK_main_v121 : (⟨S1x128x128, .f32⟩ : BufTy).Contents (Elt Ideal) := Wc60 m c main_v121
def nK_main_v122 : (⟨S128x128, .f32⟩ : BufTy).Contents (Elt Ideal) := Wc60 m c main_v122
def nK_main_v123 : (⟨S128x128, .f32⟩ : BufTy).Contents (Elt Ideal) := Wc60 m c main_v123
def nK_main_v124 : (⟨S128x128, .f32⟩ : BufTy).Contents (Elt Ideal) := Wc60 m c main_v124
def nK_main_cst_16 : (⟨S_, .f32⟩ : BufTy).Contents (Elt Ideal) := Wc60 m c main_cst_16
def nK_main_v125 : (⟨S128x128, .f32⟩ : BufTy).Contents (Elt Ideal) := Wc60 m c main_v125
def nK_main_v126 : (⟨S128x128, .f32⟩ : BufTy).Contents (Elt Ideal) := Wc60 m c main_v126
def nK_main_v127 : (⟨S128x128, .f32⟩ : BufTy).Contents (Elt Ideal) := Wc60 m c main_v127
def nK_main_v128 : (⟨S128x128, .f32⟩ : BufTy).Contents (Elt Ideal) := Wc60 m c main_v128
def nK_main_v129 : (⟨S1x128x128, .f32⟩ : BufTy).Contents (Elt Ideal) := Wc60 m c main_v129
def nK_main_v130 : (⟨S128x128, .f32⟩ : BufTy).Contents (Elt Ideal) := Wc60 m c main_v130
def nK_main_v131 : (⟨S128x128, .f32⟩ : BufTy).Contents (Elt Ideal) := Wc60 m c main_v131
def nK_main_v132 : (⟨S128x128, .f32⟩ : BufTy).Contents (Elt Ideal) := Wc60 m c main_v132
def nK_main_cst_17 : (⟨S_, .f32⟩ : BufTy).Contents (Elt Ideal) := Wc60 m c main_cst_17
def nK_main_v133 : (⟨S128x128, .f32⟩ : BufTy).Contents (Elt Ideal) := Wc60 m c main_v133
def nK_main_v134 : (⟨S128x128, .f32⟩ : BufTy).Contents (Elt Ideal) := Wc60 m c main_v134
def nK_main_v135 : (⟨S128x128, .f32⟩ : BufTy).Contents (Elt Ideal) := Wc60 m c main_v135
def nK_main_v136 : (⟨S128x128, .f32⟩ : BufTy).Contents (Elt Ideal) := Wc60 m c main_v136
def nK_main_v137 : (⟨S1x128x128, .f32⟩ : BufTy).Contents (Elt Ideal) := Wc60 m c main_v137
def nK_main_v138 : (⟨S128x128, .f32⟩ : BufTy).Contents (Elt Ideal) := Wc60 m c main_v138
def nK_main_v139 : (⟨S128x128, .f32⟩ : BufTy).Contents (Elt Ideal) := Wc60 m c main_v139
def nK_main_v140 : (⟨S128x128, .f32⟩ : BufTy).Contents (Elt Ideal) := Wc60 m c main_v140
def nK_main_cst_18 : (⟨S_, .f32⟩ : BufTy).Contents (Elt Ideal) := Wc60 m c main_cst_18
def nK_main_v141 : (⟨S128x128, .f32⟩ : BufTy).Contents (Elt Ideal) := Wc60 m c main_v141
def nK_main_v142 : (⟨S128x128, .f32⟩ : BufTy).Contents (Elt Ideal) := Wc60 m c main_v142
def nK_main_v143 : (⟨S128x128, .f32⟩ : BufTy).Contents (Elt Ideal) := Wc60 m c main_v143
def nK_main_v144 : (⟨S128x128, .f32⟩ : BufTy).Contents (Elt Ideal) := Wc60 m c main_v144
def nK_main_v145 : (⟨S100000x128, .f32⟩ : BufTy).Contents (Elt Ideal) := Wc60 m c main_v145
def nK_main_v146 : (⟨S1x3x128x128, .f32⟩ : BufTy).Contents (Elt Ideal) := Wc60 m c main_v146
def nK_main_v147 : (⟨S3x128x128, .f32⟩ : BufTy).Contents (Elt Ideal) := Wc60 m c main_v147
def nK_main_v148 : (⟨S128x128, .f32⟩ : BufTy).Contents (Elt Ideal) := Wc60 m c main_v148
def nK_main_v149 : (⟨S1x128x128, .f32⟩ : BufTy).Contents (Elt Ideal) := Wc60 m c main_v149
def nK_main_v150 : (⟨S128x128, .f32⟩ : BufTy).Contents (Elt Ideal) := Wc60 m c main_v150
def nK_main_v151 : (⟨S128x128, .f32⟩ : BufTy).Contents (Elt Ideal) := Wc60 m c main_v151
def nK_main_v152 : (⟨S128x128, .f32⟩ : BufTy).Contents (Elt Ideal) := Wc60 m c main_v152
def nK_main_cst_19 : (⟨S_, .f32⟩ : BufTy).Contents (Elt Ideal) := Wc60 m c main_cst_19
def nK_main_v153 : (⟨S128x128, .f32⟩ : BufTy).Contents (Elt Ideal) := Wc60 m c main_v153
def nK_main_v154 : (⟨S128x128, .f32⟩ : BufTy).Contents (Elt Ideal) := Wc60 m c main_v154
def nK_main_v155 : (⟨S128x128, .f32⟩ : BufTy).Contents (Elt Ideal) := Wc60 m c main_v155
def nK_main_v156 : (⟨S128x128, .f32⟩ : BufTy).Contents (Elt Ideal) := Wc60 m c main_v156
def nK_main_v157 : (⟨S1x128x128, .f32⟩ : BufTy).Contents (Elt Ideal) := Wc60 m c main_v157
def nK_main_v158 : (⟨S128x128, .f32⟩ : BufTy).Contents (Elt Ideal) := Wc60 m c main_v158
def nK_main_v159 : (⟨S128x128, .f32⟩ : BufTy).Contents (Elt Ideal) := Wc60 m c main_v159
def nK_main_v160 : (⟨S128x128, .f32⟩ : BufTy).Contents (Elt Ideal) := Wc60 m c main_v160
def nK_main_cst_20 : (⟨S_, .f32⟩ : BufTy).Contents (Elt Ideal) := Wc60 m c main_cst_20
def nK_main_v161 : (⟨S128x128, .f32⟩ : BufTy).Contents (Elt Ideal) := Wc60 m c main_v161
def nK_main_v162 : (⟨S128x128, .f32⟩ : BufTy).Contents (Elt Ideal) := Wc60 m c main_v162
def nK_main_v163 : (⟨S128x128, .f32⟩ : BufTy).Contents (Elt Ideal) := Wc60 m c main_v163
def nK_main_v164 : (⟨S128x128, .f32⟩ : BufTy).Contents (Elt Ideal) := Wc60 m c main_v164
def nK_main_v165 : (⟨S1x128x128, .f32⟩ : BufTy).Contents (Elt Ideal) := Wc60 m c main_v165
def nK_main_v166 : (⟨S128x128, .f32⟩ : BufTy).Contents (Elt Ideal) := Wc60 m c main_v166
def nK_main_v167 : (⟨S128x128, .f32⟩ : BufTy).Contents (Elt Ideal) := Wc60 m c main_v167
def nK_main_v168 : (⟨S128x128, .f32⟩ : BufTy).Contents (Elt Ideal) := Wc60 m c main_v168
def nK_main_cst_21 : (⟨S_, .f32⟩ : BufTy).Contents (Elt Ideal) := Wc60 m c main_cst_21
def nK_main_v169 : (⟨S128x128, .f32⟩ : BufTy).Contents (Elt Ideal) := Wc60 m c main_v169
def nK_main_v170 : (⟨S128x128, .f32⟩ : BufTy).Contents (Elt Ideal) := Wc60 m c main_v170
def nK_main_v171 : (⟨S128x128, .f32⟩ : BufTy).Contents (Elt Ideal) := Wc60 m c main_v171
def nK_main_v172 : (⟨S128x128, .f32⟩ : BufTy).Contents (Elt Ideal) := Wc60 m c main_v172
def nK_main_v173 : (⟨S50000x128, .f32⟩ : BufTy).Contents (Elt Ideal) := Wc60 m c main_v173
def nK_main_v174 : (⟨S100000x128, .f32⟩ : BufTy).Contents (Elt Ideal) := Wc60 m c main_v174
def nK_main_v175 : (⟨S100000x128, .f32⟩ : BufTy).Contents (Elt Ideal) := Wc60 m c main_v175
def nK_main_v176 : (⟨S50000x128, .f32⟩ : BufTy).Contents (Elt Ideal) := Wc60 m c main_v176
def nK_main_v177 : (⟨S50000x128, .f32⟩ : BufTy).Contents (Elt Ideal) := Wc60 m c main_v177
def nK_main_cst_22 : (⟨S_, .f32⟩ : BufTy).Contents (Elt Ideal) := Wc60 m c main_cst_22
def nK_main_v178 : (⟨S100000x128, .f32⟩ : BufTy).Contents (Elt Ideal) := Wc60 m c main_v178
def nK_main_v179 : (⟨S100000x128, .f32⟩ : BufTy).Contents (Elt Ideal) := Wc60 m c main_v179
def nK_main_v180 : (⟨S100000x128, .f32⟩ : BufTy).Contents (Elt Ideal) := Wc60 m c main_v180
def nK_main_v181 : (⟨S100000x128, .f32⟩ : BufTy).Contents (Elt Ideal) := Wc60 m c main_v181
def nK_main_cst_23 : (⟨S_, .f32⟩ : BufTy).Contents (Elt Ideal) := Wc60 m c main_cst_23
def nK_main_v182 : (⟨S50000x128, .f32⟩ : BufTy).Contents (Elt Ideal) := Wc60 m c main_v182
def nK_main_v183 : (⟨S50000x128, .f32⟩ : BufTy).Contents (Elt Ideal) := Wc60 m c main_v183
def nK_main_v184 : (⟨S50000x128, .f32⟩ : BufTy).Contents (Elt Ideal) := Wc60 m c main_v184
def nK_main_v185 : (⟨S50000x128, .f32⟩ : BufTy).Contents (Elt Ideal) := Wc60 m c main_v185
def nK_main_c_24 : (⟨S_, .i32⟩ : BufTy).Contents (Elt Ideal) := Wc60 m c main_c_24
def nK_main_v186 : (⟨S4096, .i32⟩ : BufTy).Contents (Elt Ideal) := Wc60 m c main_v186
def nK_main_v187 : (⟨S4096, .i1⟩ : BufTy).Contents (Elt Ideal) := Wc60 m c main_v187
def nK_main_c_25 : (⟨S_, .i32⟩ : BufTy).Contents (Elt Ideal) := Wc60 m c main_c_25
def nK_main_v188 : (⟨S4096, .i32⟩ : BufTy).Contents (Elt Ideal) := Wc60 m c main_v188
def nK_main_v189 : (⟨S4096, .i32⟩ : BufTy).Contents (Elt Ideal) := Wc60 m c main_v189
def nK_main_v190 : (⟨S4096, .i32⟩ : BufTy).Contents (Elt Ideal) := Wc60 m c main_v190
def nK_main_v191 : (⟨S4096x1, .i32⟩ : BufTy).Contents (Elt Ideal) := Wc60 m c main_v191
def nK_main_v192 : (⟨S4096x128, .f32⟩ : BufTy).Contents (Elt Ideal) := Wc60 m c main_v192
def nK_main_c_26 : (⟨S_, .i32⟩ : BufTy).Contents (Elt Ideal) := Wc60 m c main_c_26
def nK_main_v193 : (⟨S4096, .i32⟩ : BufTy).Contents (Elt Ideal) := Wc60 m c main_v193
def nK_main_v194 : (⟨S4096, .i1⟩ : BufTy).Contents (Elt Ideal) := Wc60 m c main_v194
def nK_main_c_27 : (⟨S_, .i32⟩ : BufTy).Contents (Elt Ideal) := Wc60 m c main_c_27
def nK_main_v195 : (⟨S4096, .i32⟩ : BufTy).Contents (Elt Ideal) := Wc60 m c main_v195
def nK_main_v196 : (⟨S4096, .i32⟩ : BufTy).Contents (Elt Ideal) := Wc60 m c main_v196
def nK_main_v197 : (⟨S4096, .i32⟩ : BufTy).Contents (Elt Ideal) := Wc60 m c main_v197
def nK_main_v198 : (⟨S4096x1, .i32⟩ : BufTy).Contents (Elt Ideal) := Wc60 m c main_v198
def nK_main_v199 : (⟨S4096x128, .f32⟩ : BufTy).Contents (Elt Ideal) := Wc60 m c main_v199
def nK_main_v200 : (⟨S4096x128, .f32⟩ : BufTy).Contents (Elt Ideal) := Wc60 m c main_v200
def nK_main_cst_28 : (⟨S_, .f32⟩ : BufTy).Contents (Elt Ideal) := Wc60 m c main_cst_28
def nK_main_v201 : (⟨S4096, .f32⟩ : BufTy).Contents (Elt Ideal) := Wc60 m c main_v201
def nK_main_v202 : (⟨S4096, .i32⟩ : BufTy).Contents (Elt Ideal) := Wc60 m c main_v202
def nK_main_v203 : (⟨S4096, .i32⟩ : BufTy).Contents (Elt Ideal) := Wc60 m c main_v203
def nK_main_c_29 : (⟨S_, .i32⟩ : BufTy).Contents (Elt Ideal) := Wc60 m c main_c_29
def nK_main_v204 : (⟨S4096, .i32⟩ : BufTy).Contents (Elt Ideal) := Wc60 m c main_v204
def nK_main_v205 : (⟨S4096, .i1⟩ : BufTy).Contents (Elt Ideal) := Wc60 m c main_v205
def nK_main_c_30 : (⟨S_, .i32⟩ : BufTy).Contents (Elt Ideal) := Wc60 m c main_c_30
def nK_main_v206 : (⟨S4096, .i32⟩ : BufTy).Contents (Elt Ideal) := Wc60 m c main_v206
def nK_main_v207 : (⟨S4096, .i32⟩ : BufTy).Contents (Elt Ideal) := Wc60 m c main_v207
def nK_main_v208 : (⟨S4096, .i32⟩ : BufTy).Contents (Elt Ideal) := Wc60 m c main_v208
def nK_main_v209 : (⟨S4096x1, .i32⟩ : BufTy).Contents (Elt Ideal) := Wc60 m c main_v209
def nK_main_v210 : (⟨S4096x128, .f32⟩ : BufTy).Contents (Elt Ideal) := Wc60 m c main_v210
def nK_main_c_31 : (⟨S_, .i32⟩ : BufTy).Contents (Elt Ideal) := Wc60 m c main_c_31
def nK_main_v211 : (⟨S4096, .i32⟩ : BufTy).Contents (Elt Ideal) := Wc60 m c main_v211
def nK_main_v212 : (⟨S4096, .i1⟩ : BufTy).Contents (Elt Ideal) := Wc60 m c main_v212
def nK_main_c_32 : (⟨S_, .i32⟩ : BufTy).Contents (Elt Ideal) := Wc60 m c main_c_32
def nK_main_v213 : (⟨S4096, .i32⟩ : BufTy).Contents (Elt Ideal) := Wc60 m c main_v213
def nK_main_v214 : (⟨S4096, .i32⟩ : BufTy).Contents (Elt Ideal) := Wc60 m c main_v214
def nK_main_v215 : (⟨S4096, .i32⟩ : BufTy).Contents (Elt Ideal) := Wc60 m c main_v215
def nK_main_v216 : (⟨S4096x1, .i32⟩ : BufTy).Contents (Elt Ideal) := Wc60 m c main_v216
def nK_main_v217 : (⟨S4096x128, .f32⟩ : BufTy).Contents (Elt Ideal) := Wc60 m c main_v217
def nK_main_v218 : (⟨S1x128x128, .f32⟩ : BufTy).Contents (Elt Ideal) := Wc60 m c main_v218
def nK_main_v219 : (⟨S128x128, .f32⟩ : BufTy).Contents (Elt Ideal) := Wc60 m c main_v219
def nK_main_call2_v0 : (⟨S4096x128, .f32⟩ : BufTy).Contents (Elt Ideal) := Wc60 m c main_call2_v0
def nK_main_call2_cst : (⟨S_, .f32⟩ : BufTy).Contents (Elt Ideal) := Wc60 m c main_call2_cst
def nK_main_call2_v1 : (⟨S4096, .f32⟩ : BufTy).Contents (Elt Ideal) := Wc60 m c main_call2_v1
def nK_main_call2_v2 : (⟨S4096x1, .f32⟩ : BufTy).Contents (Elt Ideal) := Wc60 m c main_call2_v2
def nK_main_v220 : (⟨S4096x1, .f32⟩ : BufTy).Contents (Elt Ideal) := Wc60 m c main_v220
def nK_main_cst_33 : (⟨S_, .f32⟩ : BufTy).Contents (Elt Ideal) := Wc60 m c main_cst_33
def nK_main_v221 : (⟨S4096x1, .f32⟩ : BufTy).Contents (Elt Ideal) := Wc60 m c main_v221
def nK_main_v222 : (⟨S4096x1, .f32⟩ : BufTy).Contents (Elt Ideal) := Wc60 m c main_v222
def nK_main_v223 : (⟨S4096x128, .f32⟩ : BufTy).Contents (Elt Ideal) := Wc60 m c main_v223
def nK_main_v224 : (⟨S4096x128, .f32⟩ : BufTy).Contents (Elt Ideal) := Wc60 m c main_v224
def nK_main_call3_v0 : (⟨S4096x128, .f32⟩ : BufTy).Contents (Elt Ideal) := Wc60 m c main_call3_v0
def nK_main_call3_cst : (⟨S_, .f32⟩ : BufTy).Contents (Elt Ideal) := Wc60 m c main_call3_cst
def nK_main_call3_v1 : (⟨S4096, .f32⟩ : BufTy).Contents (Elt Ideal) := Wc60 m c main_call3_v1
def nK_main_call3_v2 : (⟨S4096x1, .f32⟩ : BufTy).Contents (Elt Ideal) := Wc60 m c main_call3_v2
def nK_main_v225 : (⟨S4096x1, .f32⟩ : BufTy).Contents (Elt Ideal) := Wc60 m c main_v225
def nK_main_cst_34 : (⟨S_, .f32⟩ : BufTy).Contents (Elt Ideal) := Wc60 m c main_cst_34
def nK_main_v226 : (⟨S4096x1, .f32⟩ : BufTy).Contents (Elt Ideal) := Wc60 m c main_v226
def nK_main_v227 : (⟨S4096x1, .f32⟩ : BufTy).Contents (Elt Ideal) := Wc60 m c main_v227
def nK_main_v228 : (⟨S4096x128, .f32⟩ : BufTy).Contents (Elt Ideal) := Wc60 m c main_v228
def nK_main_v229 : (⟨S4096x128, .f32⟩ : BufTy).Contents (Elt Ideal) := Wc60 m c main_v229
def nK_main_v230 : (⟨S4096x128, .f32⟩ : BufTy).Contents (Elt Ideal) := Wc60 m c main_v230
def nK_main_v231 : (⟨S4096x128, .f32⟩ : BufTy).Contents (Elt Ideal) := Wc60 m c main_v231
def nK_main_cst_35 : (⟨S_, .f32⟩ : BufTy).Contents (Elt Ideal) := Wc60 m c main_cst_35
def nK_main_v232 : (⟨S4096, .f32⟩ : BufTy).Contents (Elt Ideal) := Wc60 m c main_v232
def nK_main_cst_36 : (⟨S_, .f32⟩ : BufTy).Contents (Elt Ideal) := Wc60 m c main_cst_36
def nK_main_v233 : (⟨S4096, .f32⟩ : BufTy).Contents (Elt Ideal) := Wc60 m c main_v233
def nK_main_v234 : (⟨S4096, .f32⟩ : BufTy).Contents (Elt Ideal) := Wc60 m c main_v234
def nK_main_v235 : (⟨S4096, .f32⟩ : BufTy).Contents (Elt Ideal) := Wc60 m c main_v235
def nK_main_v236 : (⟨S4096x1, .f32⟩ : BufTy).Contents (Elt Ideal) := Wc60 m c main_v236
def nK_main_v237 : (⟨S4096, .f32⟩ : BufTy).Contents (Elt Ideal) := Wc60 m c main_v237
def nK_main_cst_37 : (⟨S_, .f32⟩ : BufTy).Contents (Elt Ideal) := Wc60 m c main_cst_37
def nK_main_v238 : (⟨S4096, .f32⟩ : BufTy).Contents (Elt Ideal) := Wc60 m c main_v238
def nK_main_v239 : (⟨S4096, .f32⟩ : BufTy).Contents (Elt Ideal) := Wc60 m c main_v239
def nK_main_v240 : (⟨S4096, .f32⟩ : BufTy).Contents (Elt Ideal) := Wc60 m c main_v240
def nK_main_cst_38 : (⟨S_, .f32⟩ : BufTy).Contents (Elt Ideal) := Wc60 m c main_cst_38
def nK_main_v241 : (⟨S4096, .f32⟩ : BufTy).Contents (Elt Ideal) := Wc60 m c main_v241
def nK_main_v242 : (⟨S4096, .f32⟩ : BufTy).Contents (Elt Ideal) := Wc60 m c main_v242
def nK_main_v243 : (⟨S4096, .f32⟩ : BufTy).Contents (Elt Ideal) := Wc60 m c main_v243
def nK_main_v244 : (⟨S4096, .f32⟩ : BufTy).Contents (Elt Ideal) := Wc60 m c main_v244
def nK_main_cst_39 : (⟨S_, .f32⟩ : BufTy).Contents (Elt Ideal) := Wc60 m c main_cst_39
def nK_main_v245 : (⟨S_, .f32⟩ : BufTy).Contents (Elt Ideal) := Wc60 m c main_v245
def nK_main_cst_40 : (⟨S_, .f32⟩ : BufTy).Contents (Elt Ideal) := Wc60 m c main_cst_40
def nK_main_v246 : (⟨S_, .f32⟩ : BufTy).Contents (Elt Ideal) := Wc60 m c main_v246
def nK_main_c_41 : (⟨S_, .i32⟩ : BufTy).Contents (Elt Ideal) := Wc60 m c main_c_41
def nK_main_v247 : (⟨S4096, .i32⟩ : BufTy).Contents (Elt Ideal) := Wc60 m c main_v247
def nK_main_v248 : (⟨S4096, .i1⟩ : BufTy).Contents (Elt Ideal) := Wc60 m c main_v248
def nK_main_c_42 : (⟨S_, .i32⟩ : BufTy).Contents (Elt Ideal) := Wc60 m c main_c_42
def nK_main_v249 : (⟨S4096, .i32⟩ : BufTy).Contents (Elt Ideal) := Wc60 m c main_v249
def nK_main_v250 : (⟨S4096, .i32⟩ : BufTy).Contents (Elt Ideal) := Wc60 m c main_v250
def nK_main_v251 : (⟨S4096, .i32⟩ : BufTy).Contents (Elt Ideal) := Wc60 m c main_v251
def nK_main_v252 : (⟨S4096x1, .i32⟩ : BufTy).Contents (Elt Ideal) := Wc60 m c main_v252
def nK_main_v253 : (⟨S4096x128, .f32⟩ : BufTy).Contents (Elt Ideal) := Wc60 m c main_v253
def nK_main_c_43 : (⟨S_, .i32⟩ : BufTy).Contents (Elt Ideal) := Wc60 m c main_c_43
def nK_main_v254 : (⟨S4096, .i32⟩ : BufTy).Contents (Elt Ideal) := Wc60 m c main_v254
def nK_main_v255 : (⟨S4096, .i1⟩ : BufTy).Contents (Elt Ideal) := Wc60 m c main_v255
def nK_main_c_44 : (⟨S_, .i32⟩ : BufTy).Contents (Elt Ideal) := Wc60 m c main_c_44
def nK_main_v256 : (⟨S4096, .i32⟩ : BufTy).Contents (Elt Ideal) := Wc60 m c main_v256
def nK_main_v257 : (⟨S4096, .i32⟩ : BufTy).Contents (Elt Ideal) := Wc60 m c main_v257
def nK_main_v258 : (⟨S4096, .i32⟩ : BufTy).Contents (Elt Ideal) := Wc60 m c main_v258
def nK_main_v259 : (⟨S4096x1, .i32⟩ : BufTy).Contents (Elt Ideal) := Wc60 m c main_v259
def nK_main_v260 : (⟨S4096x128, .f32⟩ : BufTy).Contents (Elt Ideal) := Wc60 m c main_v260
def nK_main_v261 : (⟨S1x128x128, .f32⟩ : BufTy).Contents (Elt Ideal) := Wc60 m c main_v261
def nK_main_v262 : (⟨S128x128, .f32⟩ : BufTy).Contents (Elt Ideal) := Wc60 m c main_v262
def nK_main_call4_v0 : (⟨S4096x128, .f32⟩ : BufTy).Contents (Elt Ideal) := Wc60 m c main_call4_v0
def nK_main_call4_cst : (⟨S_, .f32⟩ : BufTy).Contents (Elt Ideal) := Wc60 m c main_call4_cst
def nK_main_call4_v1 : (⟨S4096, .f32⟩ : BufTy).Contents (Elt Ideal) := Wc60 m c main_call4_v1
def nK_main_call4_v2 : (⟨S4096x1, .f32⟩ : BufTy).Contents (Elt Ideal) := Wc60 m c main_call4_v2
def nK_main_v263 : (⟨S4096x1, .f32⟩ : BufTy).Contents (Elt Ideal) := Wc60 m c main_v263
def nK_main_cst_45 : (⟨S_, .f32⟩ : BufTy).Contents (Elt Ideal) := Wc60 m c main_cst_45
def nK_main_v264 : (⟨S4096x1, .f32⟩ : BufTy).Contents (Elt Ideal) := Wc60 m c main_v264
def nK_main_v265 : (⟨S4096x1, .f32⟩ : BufTy).Contents (Elt Ideal) := Wc60 m c main_v265
def nK_main_v266 : (⟨S4096x128, .f32⟩ : BufTy).Contents (Elt Ideal) := Wc60 m c main_v266
def nK_main_v267 : (⟨S4096x128, .f32⟩ : BufTy).Contents (Elt Ideal) := Wc60 m c main_v267
def nK_main_call5_v0 : (⟨S4096x128, .f32⟩ : BufTy).Contents (Elt Ideal) := Wc60 m c main_call5_v0
def nK_main_call5_cst : (⟨S_, .f32⟩ : BufTy).Contents (Elt Ideal) := Wc60 m c main_call5_cst
def nK_main_call5_v1 : (⟨S4096, .f32⟩ : BufTy).Contents (Elt Ideal) := Wc60 m c main_call5_v1
def nK_main_call5_v2 : (⟨S4096x1, .f32⟩ : BufTy).Contents (Elt Ideal) := Wc60 m c main_call5_v2
def nK_main_v268 : (⟨S4096x1, .f32⟩ : BufTy).Contents (Elt Ideal) := Wc60 m c main_v268
def nK_main_cst_46 : (⟨S_, .f32⟩ : BufTy).Contents (Elt Ideal) := Wc60 m c main_cst_46
def nK_main_v269 : (⟨S4096x1, .f32⟩ : BufTy).Contents (Elt Ideal) := Wc60 m c main_v269
def nK_main_v270 : (⟨S4096x1, .f32⟩ : BufTy).Contents (Elt Ideal) := Wc60 m c main_v270
def nK_main_v271 : (⟨S4096x128, .f32⟩ : BufTy).Contents (Elt Ideal) := Wc60 m c main_v271
def nK_main_v272 : (⟨S4096x128, .f32⟩ : BufTy).Contents (Elt Ideal) := Wc60 m c main_v272
def nK_main_v273 : (⟨S4096x128, .f32⟩ : BufTy).Contents (Elt Ideal) := Wc60 m c main_v273
def nK_main_v274 : (⟨S4096x128, .f32⟩ : BufTy).Contents (Elt Ideal) := Wc60 m c main_v274
def nK_main_cst_47 : (⟨S_, .f32⟩ : BufTy).Contents (Elt Ideal) := Wc60 m c main_cst_47
def nK_main_v275 : (⟨S4096, .f32⟩ : BufTy).Contents (Elt Ideal) := Wc60 m c main_v275
def nK_main_cst_48 : (⟨S_, .f32⟩ : BufTy).Contents (Elt Ideal) := Wc60 m c main_cst_48
def nK_main_v276 : (⟨S4096, .f32⟩ : BufTy).Contents (Elt Ideal) := Wc60 m c main_v276
def nK_main_v277 : (⟨S4096, .f32⟩ : BufTy).Contents (Elt Ideal) := Wc60 m c main_v277
def nK_main_v278 : (⟨S4096, .f32⟩ : BufTy).Contents (Elt Ideal) := Wc60 m c main_v278
def nK_main_v279 : (⟨S4096x1, .f32⟩ : BufTy).Contents (Elt Ideal) := Wc60 m c main_v279
def nK_main_v280 : (⟨S4096, .f32⟩ : BufTy).Contents (Elt Ideal) := Wc60 m c main_v280
def nK_main_cst_49 : (⟨S_, .f32⟩ : BufTy).Contents (Elt Ideal) := Wc60 m c main_cst_49
def nK_main_v281 : (⟨S4096, .f32⟩ : BufTy).Contents (Elt Ideal) := Wc60 m c main_v281
def nK_main_v282 : (⟨S4096, .f32⟩ : BufTy).Contents (Elt Ideal) := Wc60 m c main_v282
def nK_main_v283 : (⟨S4096, .f32⟩ : BufTy).Contents (Elt Ideal) := Wc60 m c main_v283
def nK_main_cst_50 : (⟨S_, .f32⟩ : BufTy).Contents (Elt Ideal) := Wc60 m c main_cst_50
def nK_main_v284 : (⟨S4096, .f32⟩ : BufTy).Contents (Elt Ideal) := Wc60 m c main_v284
def nK_main_v285 : (⟨S4096, .f32⟩ : BufTy).Contents (Elt Ideal) := Wc60 m c main_v285
def nK_main_v286 : (⟨S4096, .f32⟩ : BufTy).Contents (Elt Ideal) := Wc60 m c main_v286
def nK_main_v287 : (⟨S4096, .f32⟩ : BufTy).Contents (Elt Ideal) := Wc60 m c main_v287
def nK_main_cst_51 : (⟨S_, .f32⟩ : BufTy).Contents (Elt Ideal) := Wc60 m c main_cst_51
def nK_main_v288 : (⟨S_, .f32⟩ : BufTy).Contents (Elt Ideal) := Wc60 m c main_v288
def nK_main_v289 : (⟨S_, .f32⟩ : BufTy).Contents (Elt Ideal) := Wc60 m c main_v289
def nK_main_c_52 : (⟨S_, .i32⟩ : BufTy).Contents (Elt Ideal) := Wc60 m c main_c_52
def nK_main_v290 : (⟨S4096, .i32⟩ : BufTy).Contents (Elt Ideal) := Wc60 m c main_v290
def nK_main_v291 : (⟨S4096, .i1⟩ : BufTy).Contents (Elt Ideal) := Wc60 m c main_v291
def nK_main_c_53 : (⟨S_, .i32⟩ : BufTy).Contents (Elt Ideal) := Wc60 m c main_c_53
def nK_main_v292 : (⟨S4096, .i32⟩ : BufTy).Contents (Elt Ideal) := Wc60 m c main_v292
def nK_main_v293 : (⟨S4096, .i32⟩ : BufTy).Contents (Elt Ideal) := Wc60 m c main_v293
def nK_main_v294 : (⟨S4096, .i32⟩ : BufTy).Contents (Elt Ideal) := Wc60 m c main_v294
def nK_main_v295 : (⟨S4096x1, .i32⟩ : BufTy).Contents (Elt Ideal) := Wc60 m c main_v295
def nK_main_v296 : (⟨S4096x128, .f32⟩ : BufTy).Contents (Elt Ideal) := Wc60 m c main_v296
def nK_main_c_54 : (⟨S_, .i32⟩ : BufTy).Contents (Elt Ideal) := Wc60 m c main_c_54
def nK_main_v297 : (⟨S4096, .i32⟩ : BufTy).Contents (Elt Ideal) := Wc60 m c main_v297
def nK_main_v298 : (⟨S4096, .i1⟩ : BufTy).Contents (Elt Ideal) := Wc60 m c main_v298
def nK_main_c_55 : (⟨S_, .i32⟩ : BufTy).Contents (Elt Ideal) := Wc60 m c main_c_55
def nK_main_v299 : (⟨S4096, .i32⟩ : BufTy).Contents (Elt Ideal) := Wc60 m c main_v299
def nK_main_v300 : (⟨S4096, .i32⟩ : BufTy).Contents (Elt Ideal) := Wc60 m c main_v300
def nK_main_v301 : (⟨S4096, .i32⟩ : BufTy).Contents (Elt Ideal) := Wc60 m c main_v301
def nK_main_v302 : (⟨S4096x1, .i32⟩ : BufTy).Contents (Elt Ideal) := Wc60 m c main_v302
def nK_main_v303 : (⟨S4096x128, .f32⟩ : BufTy).Contents (Elt Ideal) := Wc60 m c main_v303
def nK_main_v304 : (⟨S1x128x128, .f32⟩ : BufTy).Contents (Elt Ideal) := Wc60 m c main_v304
def nK_main_v305 : (⟨S128x128, .f32⟩ : BufTy).Contents (Elt Ideal) := Wc60 m c main_v305
def nK_main_call6_v0 : (⟨S4096x128, .f32⟩ : BufTy).Contents (Elt Ideal) := Wc60 m c main_call6_v0
def nK_main_call6_cst : (⟨S_, .f32⟩ : BufTy).Contents (Elt Ideal) := Wc60 m c main_call6_cst
def nK_main_call6_v1 : (⟨S4096, .f32⟩ : BufTy).Contents (Elt Ideal) := Wc60 m c main_call6_v1
def nK_main_call6_v2 : (⟨S4096x1, .f32⟩ : BufTy).Contents (Elt Ideal) := Wc60 m c main_call6_v2
def nK_main_v306 : (⟨S4096x1, .f32⟩ : BufTy).Contents (Elt Ideal) := Wc60 m c main_v306
def nK_main_cst_56 : (⟨S_, .f32⟩ : BufTy).Contents (Elt Ideal) := Wc60 m c main_cst_56
def nK_main_v307 : (⟨S4096x1, .f32⟩ : BufTy).Contents (Elt Ideal) := Wc60 m c main_v307
def nK_main_v308 : (⟨S4096x1, .f32⟩ : BufTy).Contents (Elt Ideal) := Wc60 m c main_v308
def nK_main_v309 : (⟨S4096x128, .f32⟩ : BufTy).Contents (Elt Ideal) := Wc60 m c main_v309
def nK_main_v310 : (⟨S4096x128, .f32⟩ : BufTy).Contents (Elt Ideal) := Wc60 m c main_v310
def nK_main_call7_v0 : (⟨S4096x128, .f32⟩ : BufTy).Contents (Elt Ideal) := Wc60 m c main_call7_v0
def nK_main_call7_cst : (⟨S_, .f32⟩ : BufTy).Contents (Elt Ideal) := Wc60 m c main_call7_cst
def nK_main_call7_v1 : (⟨S4096, .f32⟩ : BufTy).Contents (Elt Ideal) := Wc60 m c main_call7_v1
def nK_main_call7_v2 : (⟨S4096x1, .f32⟩ : BufTy).Contents (Elt Ideal) := Wc60 m c main_call7_v2
def nK_main_v311 : (⟨S4096x1, .f32⟩ : BufTy).Contents (Elt Ideal) := Wc60 m c main_v311
def nK_main_cst_57 : (⟨S_, .f32⟩ : BufTy).Contents (Elt Ideal) := Wc60 m c main_cst_57
def nK_main_v312 : (⟨S4096x1, .f32⟩ : BufTy).Contents (Elt Ideal) := Wc60 m c main_v312
def nK_main_v313 : (⟨S4096x1, .f32⟩ : BufTy).Contents (Elt Ideal) := Wc60 m c main_v313
def nK_main_v314 : (⟨S4096x128, .f32⟩ : BufTy).Contents (Elt Ideal) := Wc60 m c main_v314
def nK_main_v315 : (⟨S4096x128, .f32⟩ : BufTy).Contents (Elt Ideal) := Wc60 m c main_v315
def nK_main_v316 : (⟨S4096x128, .f32⟩ : BufTy).Contents (Elt Ideal) := Wc60 m c main_v316
def nK_main_v317 : (⟨S4096x128, .f32⟩ : BufTy).Contents (Elt Ideal) := Wc60 m c main_v317
def nK_main_cst_58 : (⟨S_, .f32⟩ : BufTy).Contents (Elt Ideal) := Wc60 m c main_cst_58
def nK_main_v318 : (⟨S4096, .f32⟩ : BufTy).Contents (Elt Ideal) := Wc60 m c main_v318
def nK_main_cst_59 : (⟨S_, .f32⟩ : BufTy).Contents (Elt Ideal) := Wc60 m c main_cst_59
def nK_main_v319 : (⟨S4096, .f32⟩ : BufTy).Contents (Elt Ideal) := Wc60 m c main_v319
def nK_main_v320 : (⟨S4096, .f32⟩ : BufTy).Contents (Elt Ideal) := Wc60 m c main_v320
def nK_main_v321 : (⟨S4096, .f32⟩ : BufTy).Contents (Elt Ideal) := Wc60 m c main_v321
def nK_main_v322 : (⟨S4096x1, .f32⟩ : BufTy).Contents (Elt Ideal) := Wc60 m c main_v322
def nK_main_v323 : (⟨S4096, .f32⟩ : BufTy).Contents (Elt Ideal) := Wc60 m c main_v323
def nK_main_cst_60 : (⟨S_, .f32⟩ : BufTy).Contents (Elt Ideal) := Wc60 m c main_cst_60
def nK_main_v324 : (⟨S4096, .f32⟩ : BufTy).Contents (Elt Ideal) := Wc60 m c main_v324
def nK_main_v325 : (⟨S4096, .f32⟩ : BufTy).Contents (Elt Ideal) := Wc60 m c main_v325
def nK_main_v326 : (⟨S4096, .f32⟩ : BufTy).Contents (Elt Ideal) := Wc60 m c main_v326
def nK_main_cst_61 : (⟨S_, .f32⟩ : BufTy).Contents (Elt Ideal) := Wc60 m c main_cst_61
def nK_main_v327 : (⟨S4096, .f32⟩ : BufTy).Contents (Elt Ideal) := Wc60 m c main_v327
def nK_main_v328 : (⟨S4096, .f32⟩ : BufTy).Contents (Elt Ideal) := Wc60 m c main_v328
def nK_main_v329 : (⟨S4096, .f32⟩ : BufTy).Contents (Elt Ideal) := Wc60 m c main_v329
def nK_main_v330 : (⟨S4096, .f32⟩ : BufTy).Contents (Elt Ideal) := Wc60 m c main_v330
def nK_main_cst_62 : (⟨S_, .f32⟩ : BufTy).Contents (Elt Ideal) := Wc60 m c main_cst_62
def nK_main_v331 : (⟨S_, .f32⟩ : BufTy).Contents (Elt Ideal) := Wc60 m c main_v331
def nK_main_v332 : (⟨S_, .f32⟩ : BufTy).Contents (Elt Ideal) := Wc60 m c main_v332
def nK_main_c_63 : (⟨S_, .i32⟩ : BufTy).Contents (Elt Ideal) := Wc60 m c main_c_63
def nK_main_v333 : (⟨S4096, .i32⟩ : BufTy).Contents (Elt Ideal) := Wc60 m c main_v333
def nK_main_v334 : (⟨S4096, .i1⟩ : BufTy).Contents (Elt Ideal) := Wc60 m c main_v334
def nK_main_c_64 : (⟨S_, .i32⟩ : BufTy).Contents (Elt Ideal) := Wc60 m c main_c_64
def nK_main_v335 : (⟨S4096, .i32⟩ : BufTy).Contents (Elt Ideal) := Wc60 m c main_v335
def nK_main_v336 : (⟨S4096, .i32⟩ : BufTy).Contents (Elt Ideal) := Wc60 m c main_v336
def nK_main_v337 : (⟨S4096, .i32⟩ : BufTy).Contents (Elt Ideal) := Wc60 m c main_v337
def nK_main_v338 : (⟨S4096x1, .i32⟩ : BufTy).Contents (Elt Ideal) := Wc60 m c main_v338
def nK_main_v339 : (⟨S4096x128, .f32⟩ : BufTy).Contents (Elt Ideal) := Wc60 m c main_v339
def nK_main_c_65 : (⟨S_, .i32⟩ : BufTy).Contents (Elt Ideal) := Wc60 m c main_c_65
def nK_main_v340 : (⟨S4096, .i32⟩ : BufTy).Contents (Elt Ideal) := Wc60 m c main_v340
def nK_main_v341 : (⟨S4096, .i1⟩ : BufTy).Contents (Elt Ideal) := Wc60 m c main_v341
def nK_main_c_66 : (⟨S_, .i32⟩ : BufTy).Contents (Elt Ideal) := Wc60 m c main_c_66
def nK_main_v342 : (⟨S4096, .i32⟩ : BufTy).Contents (Elt Ideal) := Wc60 m c main_v342
def nK_main_v343 : (⟨S4096, .i32⟩ : BufTy).Contents (Elt Ideal) := Wc60 m c main_v343
def nK_main_v344 : (⟨S4096, .i32⟩ : BufTy).Contents (Elt Ideal) := Wc60 m c main_v344
def nK_main_v345 : (⟨S4096x1, .i32⟩ : BufTy).Contents (Elt Ideal) := Wc60 m c main_v345
def nK_main_v346 : (⟨S4096x128, .f32⟩ : BufTy).Contents (Elt Ideal) := Wc60 m c main_v346
def nK_main_v347 : (⟨S1x128x128, .f32⟩ : BufTy).Contents (Elt Ideal) := Wc60 m c main_v347
def nK_main_v348 : (⟨S128x128, .f32⟩ : BufTy).Contents (Elt Ideal) := Wc60 m c main_v348
def nK_main_call8_v0 : (⟨S4096x128, .f32⟩ : BufTy).Contents (Elt Ideal) := Wc60 m c main_call8_v0
def nK_main_call8_cst : (⟨S_, .f32⟩ : BufTy).Contents (Elt Ideal) := Wc60 m c main_call8_cst
def nK_main_call8_v1 : (⟨S4096, .f32⟩ : BufTy).Contents (Elt Ideal) := Wc60 m c main_call8_v1
def nK_main_call8_v2 : (⟨S4096x1, .f32⟩ : BufTy).Contents (Elt Ideal) := Wc60 m c main_call8_v2
def nK_main_v349 : (⟨S4096x1, .f32⟩ : BufTy).Contents (Elt Ideal) := Wc60 m c main_v349
def nK_main_cst_67 : (⟨S_, .f32⟩ : BufTy).Contents (Elt Ideal) := Wc60 m c main_cst_67
def nK_main_v350 : (⟨S4096x1, .f32⟩ : BufTy).Contents (Elt Ideal) := Wc60 m c main_v350
def nK_main_v351 : (⟨S4096x1, .f32⟩ : BufTy).Contents (Elt Ideal) := Wc60 m c main_v351
def nK_main_v352 : (⟨S4096x128, .f32⟩ : BufTy).Contents (Elt Ideal) := Wc60 m c main_v352
def nK_main_v353 : (⟨S4096x128, .f32⟩ : BufTy).Contents (Elt Ideal) := Wc60 m c main_v353
def nK_main_call9_v0 : (⟨S4096x128, .f32⟩ : BufTy).Contents (Elt Ideal) := Wc60 m c main_call9_v0
def nK_main_call9_cst : (⟨S_, .f32⟩ : BufTy).Contents (Elt Ideal) := Wc60 m c main_call9_cst
def nK_main_call9_v1 : (⟨S4096, .f32⟩ : BufTy).Contents (Elt Ideal) := Wc60 m c main_call9_v1
def nK_main_call9_v2 : (⟨S4096x1, .f32⟩ : BufTy).Contents (Elt Ideal) := Wc60 m c main_call9_v2
def nK_main_v354 : (⟨S4096x1, .f32⟩ : BufTy).Contents (Elt Ideal) := Wc60 m c main_v354
def nK_main_cst_68 : (⟨S_, .f32⟩ : BufTy).Contents (Elt Ideal) := Wc60 m c main_cst_68
def nK_main_v355 : (⟨S4096x1, .f32⟩ : BufTy).Contents (Elt Ideal) := Wc60 m c main_v355
def nK_main_v356 : (⟨S4096x1, .f32⟩ : BufTy).Contents (Elt Ideal) := Wc60 m c main_v356
def nK_main_v357 : (⟨S4096x128, .f32⟩ : BufTy).Contents (Elt Ideal) := Wc60 m c main_v357
def nK_main_v358 : (⟨S4096x128, .f32⟩ : BufTy).Contents (Elt Ideal) := Wc60 m c main_v358
def nK_main_v359 : (⟨S4096x128, .f32⟩ : BufTy).Contents (Elt Ideal) := Wc60 m c main_v359
def nK_main_v360 : (⟨S4096x128, .f32⟩ : BufTy).Contents (Elt Ideal) := Wc60 m c main_v360
def nK_main_cst_69 : (⟨S_, .f32⟩ : BufTy).Contents (Elt Ideal) := Wc60 m c main_cst_69
def nK_main_v361 : (⟨S4096, .f32⟩ : BufTy).Contents (Elt Ideal) := Wc60 m c main_v361
def nK_main_cst_70 : (⟨S_, .f32⟩ : BufTy).Contents (Elt Ideal) := Wc60 m c main_cst_70
def nK_main_v362 : (⟨S4096, .f32⟩ : BufTy).Contents (Elt Ideal) := Wc60 m c main_v362
def nK_main_v363 : (⟨S4096, .f32⟩ : BufTy).Contents (Elt Ideal) := Wc60 m c main_v363
def nK_main_v364 : (⟨S4096, .f32⟩ : BufTy).Contents (Elt Ideal) := Wc60 m c main_v364
def nK_main_v365 : (⟨S4096x1, .f32⟩ : BufTy).Contents (Elt Ideal) := Wc60 m c main_v365
def nK_main_v366 : (⟨S4096, .f32⟩ : BufTy).Contents (Elt Ideal) := Wc60 m c main_v366
def nK_main_cst_71 : (⟨S_, .f32⟩ : BufTy).Contents (Elt Ideal) := Wc60 m c main_cst_71
def nK_main_v367 : (⟨S4096, .f32⟩ : BufTy).Contents (Elt Ideal) := Wc60 m c main_v367
def nK_main_v368 : (⟨S4096, .f32⟩ : BufTy).Contents (Elt Ideal) := Wc60 m c main_v368
def nK_main_v369 : (⟨S4096, .f32⟩ : BufTy).Contents (Elt Ideal) := Wc60 m c main_v369
def nK_main_cst_72 : (⟨S_, .f32⟩ : BufTy).Contents (Elt Ideal) := Wc60 m c main_cst_72
def nK_main_v370 : (⟨S4096, .f32⟩ : BufTy).Contents (Elt Ideal) := Wc60 m c main_v370
def nK_main_v371 : (⟨S4096, .f32⟩ : BufTy).Contents (Elt Ideal) := Wc60 m c main_v371
def nK_main_v372 : (⟨S4096, .f32⟩ : BufTy).Contents (Elt Ideal) := Wc60 m c main_v372
def nK_main_v373 : (⟨S4096, .f32⟩ : BufTy).Contents (Elt Ideal) := Wc60 m c main_v373
def nK_main_cst_73 : (⟨S_, .f32⟩ : BufTy).Contents (Elt Ideal) := Wc60 m c main_cst_73
def nK_main_v374 : (⟨S_, .f32⟩ : BufTy).Contents (Elt Ideal) := Wc60 m c main_v374
def nK_main_v375 : (⟨S_, .f32⟩ : BufTy).Contents (Elt Ideal) := Wc60 m c main_v375
def nK_main_v376 : (⟨S100000x128, .f32⟩ : BufTy).Contents (Elt Ideal) := Wc60 m c main_v376
def nK_main_cst_74 : (⟨S_, .f32⟩ : BufTy).Contents (Elt Ideal) := Wc60 m c main_cst_74
def nK_main_v377 : (⟨S_, .f32⟩ : BufTy).Contents (Elt Ideal) := Wc60 m c main_v377
def nK_main_v378 : (⟨S50000x128, .f32⟩ : BufTy).Contents (Elt Ideal) := Wc60 m c main_v378
def nK_main_cst_75 : (⟨S_, .f32⟩ : BufTy).Contents (Elt Ideal) := Wc60 m c main_cst_75
def nK_main_v379 : (⟨S_, .f32⟩ : BufTy).Contents (Elt Ideal) := Wc60 m c main_v379
def nK_main_v380 : (⟨S_, .f32⟩ : BufTy).Contents (Elt Ideal) := Wc60 m c main_v380
def nK_main_v381 : (⟨S128x128, .f32⟩ : BufTy).Contents (Elt Ideal) := Wc60 m c main_v381
def nK_main_cst_76 : (⟨S_, .f32⟩ : BufTy).Contents (Elt Ideal) := Wc60 m c main_cst_76
def nK_main_v382 : (⟨S_, .f32⟩ : BufTy).Contents (Elt Ideal) := Wc60 m c main_v382
def nK_main_v383 : (⟨S_, .f32⟩ : BufTy).Contents (Elt Ideal) := Wc60 m c main_v383
def nK_main_v384 : (⟨S128x128, .f32⟩ : BufTy).Contents (Elt Ideal) := Wc60 m c main_v384
def nK_main_cst_77 : (⟨S_, .f32⟩ : BufTy).Contents (Elt Ideal) := Wc60 m c main_cst_77
def nK_main_v385 : (⟨S_, .f32⟩ : BufTy).Contents (Elt Ideal) := Wc60 m c main_v385
def nK_main_v386 : (⟨S_, .f32⟩ : BufTy).Contents (Elt Ideal) := Wc60 m c main_v386

end Cert.KernelIdeal.Fr

end
-- ==== Proof.Ref.REqBase.lean ====
import proofs.«126270_j6725918785969_1_alg».proof.Proof.RefOps
import proofs.«126270_j6725918785969_1_alg».proof.Proof.LibSsaList
import proofs.«126270_j6725918785969_1_alg».proof.Proof.LibSsaEq
import Idealize.ShloMosaic.PureOps.Ideal

/-!
# The reference's final buffer contents, operation by operation: the groundwork

The reference's 571 host operations are nine consecutive windows; its tensor values are numbered in program
order, so every window is in single-assignment form from the number of its first result (`lateR_i`), a window
changes no buffer numbered below its first result, and a buffer numbered below window `i + 1`'s first result
holds at the end what it held after window `i` (`liftR_i`).
-/

set_option maxRecDepth 16384

noncomputable section

namespace Cert.ReferenceIdeal.RefRun

open Cert.ReferenceIdeal Cert.ReferenceIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

/-- Core `c`'s buffers at launch, and after each window. -/
abbrev Wr_init : Valuation τ sig (Elt Ideal) := fun b => m (c, b)
abbrev Wr0 : Valuation τ sig (Elt Ideal) := after (ops0 (F := Ideal)) (Wr_init m c)
abbrev Wr1 : Valuation τ sig (Elt Ideal) := after (ops1 (F := Ideal)) (Wr0 m c)
abbrev Wr2 : Valuation τ sig (Elt Ideal) := after (ops2 (F := Ideal)) (Wr1 m c)
abbrev Wr3 : Valuation τ sig (Elt Ideal) := after (ops3 (F := Ideal)) (Wr2 m c)
abbrev Wr4 : Valuation τ sig (Elt Ideal) := after (ops4 (F := Ideal)) (Wr3 m c)
abbrev Wr5 : Valuation τ sig (Elt Ideal) := after (ops5 (F := Ideal)) (Wr4 m c)
abbrev Wr6 : Valuation τ sig (Elt Ideal) := after (ops6 (F := Ideal)) (Wr5 m c)
abbrev Wr7 : Valuation τ sig (Elt Ideal) := after (ops7 (F := Ideal)) (Wr6 m c)
abbrev Wr8 : Valuation τ sig (Elt Ideal) := after (ops8 (F := Ideal)) (Wr7 m c)
/-- The final contents. -/
abbrev WR : Valuation τ sig (Elt Ideal) := Wr8 m c

theorem after_ops_eq : after (ops (F := Ideal)) (Wr_init m c) = WR m c := by
  unfold ops
  simp only [after_append_ssa]

theorem lateR_0 : Late (τ := τ) 12 (ops0 : List (HloOp τ sig (Elt Ideal))) :=
  Late.of_writes (ys := [main_v0, main_v1, main_v2, main_c, main_v3, main_v4, main_c_0, main_v5, main_v6, main_v7, main_v8, main_v9, main_v10, main_v11, main_cst, main_v12, main_v13, main_v14, main_cst_1, main_v15, main_v16, main_v17, main_v18, main_c_2, main_v19, main_v20, main_c_3, main_v21, main_v22, main_v23, main_v24, main_v25, main_v26, main_v27, main_cst_4, main_v28, main_v29, main_v30, main_cst_5, main_v31, main_v32, main_v33, main_v34, main_v35, main_v36, main_v37, main_cst_6, main_v38, main_v39, main_v40, main_v41, main_v42, main_v43, main_v44, main_cst_7, main_v45, main_v46, main_v47, main_v48, main_v49])
    (.cons (binary_writes ..) <| .cons (binary_writes ..) <| .cons (unary_writes ..) <| .cons (nullary_writes ..) <| .cons (unary_writes ..) <| .cons (binary_writes ..) <| .cons (nullary_writes ..) <| .cons (unary_writes ..) <| .cons (binary_writes ..) <| .cons (ternary_writes ..) <| .cons (unary_writes ..) <| .cons (binary_writes ..) <| .cons (unary_writes ..) <| .cons (binary_writes ..) <| .cons (nullary_writes ..) <| .cons (unary_writes ..) <| .cons (unary_writes ..) <| .cons (ternary_writes ..) <| .cons (nullary_writes ..) <| .cons (unary_writes ..) <| .cons (binary_writes ..) <| .cons (binary_writes ..) <| .cons (unary_writes ..) <| .cons (nullary_writes ..) <| .cons (unary_writes ..) <| .cons (binary_writes ..) <| .cons (nullary_writes ..) <| .cons (unary_writes ..) <| .cons (binary_writes ..) <| .cons (ternary_writes ..) <| .cons (unary_writes ..) <| .cons (binary_writes ..) <| .cons (unary_writes ..) <| .cons (binary_writes ..) <| .cons (nullary_writes ..) <| .cons (unary_writes ..) <| .cons (unary_writes ..) <| .cons (ternary_writes ..) <| .cons (nullary_writes ..) <| .cons (unary_writes ..) <| .cons (binary_writes ..) <| .cons (binary_writes ..) <| .cons (unary_writes ..) <| .cons (reshape_writes ..) <| .cons (unary_writes ..) <| .cons (binary_writes ..) <| .cons (nullary_writes ..) <| .cons (unary_writes ..) <| .cons (binary_writes ..) <| .cons (binary_writes ..) <| .cons (unary_writes ..) <| .cons (reshape_writes ..) <| .cons (unary_writes ..) <| .cons (binary_writes ..) <| .cons (nullary_writes ..) <| .cons (unary_writes ..) <| .cons (binary_writes ..) <| .cons (binary_writes ..) <| .cons (binary_writes ..) <| .cons (unary_writes ..) <| .nil)
    (by decide)
theorem lateR_1 : Late (τ := τ) 72 (ops1 : List (HloOp τ sig (Elt Ideal))) :=
  Late.of_writes (ys := [main_v50, main_v51, main_v52, main_cst_8, main_v53, main_v54, main_v55, main_v56, main_v57, main_v58, main_v59, main_v60, main_cst_9, main_v61, main_v62, main_v63, main_v64, main_v65, main_cst_10, main_v66, main_v67, main_v68, main_v69, main_v70, main_v71, main_v72, main_cst_11, main_v73, main_v74, main_v75, main_v76, main_v77, main_v78, main_v79, main_cst_12, main_v80, main_v81, main_v82, main_v83, main_v84, main_v85, main_v86, main_v87, main_cst_13, main_v88, main_v89, main_v90, main_v91, main_v92, main_v93, main_v94, main_v95, main_cst_14, main_v96, main_v97, main_v98, main_v99, main_v100, main_cst_15, main_v101])
    (.cons (reshape_writes ..) <| .cons (unary_writes ..) <| .cons (binary_writes ..) <| .cons (nullary_writes ..) <| .cons (unary_writes ..) <| .cons (binary_writes ..) <| .cons (binary_writes ..) <| .cons (binary_writes ..) <| .cons (unary_writes ..) <| .cons (reshape_writes ..) <| .cons (unary_writes ..) <| .cons (binary_writes ..) <| .cons (nullary_writes ..) <| .cons (unary_writes ..) <| .cons (binary_writes ..) <| .cons (binary_writes ..) <| .cons (binary_writes ..) <| .cons (binary_writes ..) <| .cons (nullary_writes ..) <| .cons (unary_writes ..) <| .cons (binary_writes ..) <| .cons (binary_writes ..) <| .cons (unary_writes ..) <| .cons (reshape_writes ..) <| .cons (unary_writes ..) <| .cons (binary_writes ..) <| .cons (nullary_writes ..) <| .cons (unary_writes ..) <| .cons (binary_writes ..) <| .cons (binary_writes ..) <| .cons (unary_writes ..) <| .cons (reshape_writes ..) <| .cons (unary_writes ..) <| .cons (binary_writes ..) <| .cons (nullary_writes ..) <| .cons (unary_writes ..) <| .cons (binary_writes ..) <| .cons (binary_writes ..) <| .cons (binary_writes ..) <| .cons (unary_writes ..) <| .cons (reshape_writes ..) <| .cons (unary_writes ..) <| .cons (binary_writes ..) <| .cons (nullary_writes ..) <| .cons (unary_writes ..) <| .cons (binary_writes ..) <| .cons (binary_writes ..) <| .cons (binary_writes ..) <| .cons (unary_writes ..) <| .cons (reshape_writes ..) <| .cons (unary_writes ..) <| .cons (binary_writes ..) <| .cons (nullary_writes ..) <| .cons (unary_writes ..) <| .cons (binary_writes ..) <| .cons (binary_writes ..) <| .cons (binary_writes ..) <| .cons (binary_writes ..) <| .cons (nullary_writes ..) <| .cons (unary_writes ..) <| .nil)
    (by decide)
theorem lateR_2 : Late (τ := τ) 132 (ops2 : List (HloOp τ sig (Elt Ideal))) :=
  Late.of_writes (ys := [main_v102, main_v103, main_v104, main_v105, main_v106, main_v107, main_v108, main_c_16, main_v109, main_v110, main_c_17, main_v111, main_v112, main_v113, main_v114, main_v115, main_v116, main_v117, main_cst_18, main_v118, main_v119, main_v120, main_cst_19, main_v121, main_v122, main_v123, main_v124, main_c_20, main_v125, main_v126, main_c_21, main_v127, main_v128, main_v129, main_v130, main_v131, main_v132, main_v133, main_cst_22, main_v134, main_v135, main_v136, main_cst_23, main_v137, main_v138, main_v139, main_v140, main_v141, main_v142, main_v143, main_cst_24, main_v144, main_v145, main_v146, main_v147, main_v148, main_v149, main_v150, main_cst_25, main_v151])
    (.cons (binary_writes ..) <| .cons (binary_writes ..) <| .cons (binary_writes ..) <| .cons (binary_writes ..) <| .cons (binary_writes ..) <| .cons (binary_writes ..) <| .cons (unary_writes ..) <| .cons (nullary_writes ..) <| .cons (unary_writes ..) <| .cons (binary_writes ..) <| .cons (nullary_writes ..) <| .cons (unary_writes ..) <| .cons (binary_writes ..) <| .cons (ternary_writes ..) <| .cons (unary_writes ..) <| .cons (binary_writes ..) <| .cons (unary_writes ..) <| .cons (binary_writes ..) <| .cons (nullary_writes ..) <| .cons (unary_writes ..) <| .cons (unary_writes ..) <| .cons (ternary_writes ..) <| .cons (nullary_writes ..) <| .cons (unary_writes ..) <| .cons (binary_writes ..) <| .cons (binary_writes ..) <| .cons (unary_writes ..) <| .cons (nullary_writes ..) <| .cons (unary_writes ..) <| .cons (binary_writes ..) <| .cons (nullary_writes ..) <| .cons (unary_writes ..) <| .cons (binary_writes ..) <| .cons (ternary_writes ..) <| .cons (unary_writes ..) <| .cons (binary_writes ..) <| .cons (unary_writes ..) <| .cons (binary_writes ..) <| .cons (nullary_writes ..) <| .cons (unary_writes ..) <| .cons (unary_writes ..) <| .cons (ternary_writes ..) <| .cons (nullary_writes ..) <| .cons (unary_writes ..) <| .cons (binary_writes ..) <| .cons (binary_writes ..) <| .cons (unary_writes ..) <| .cons (reshape_writes ..) <| .cons (unary_writes ..) <| .cons (binary_writes ..) <| .cons (nullary_writes ..) <| .cons (unary_writes ..) <| .cons (binary_writes ..) <| .cons (binary_writes ..) <| .cons (unary_writes ..) <| .cons (reshape_writes ..) <| .cons (unary_writes ..) <| .cons (binary_writes ..) <| .cons (nullary_writes ..) <| .cons (unary_writes ..) <| .nil)
    (by decide)
theorem lateR_3 : Late (τ := τ) 192 (ops3 : List (HloOp τ sig (Elt Ideal))) :=
  Late.of_writes (ys := [main_v152, main_v153, main_v154, main_v155, main_v156, main_v157, main_v158, main_cst_26, main_v159, main_v160, main_v161, main_v162, main_v163, main_v164, main_v165, main_v166, main_cst_27, main_v167, main_v168, main_v169, main_v170, main_v171, main_cst_28, main_v172, main_v173, main_v174, main_v175, main_v176, main_v177, main_v178, main_cst_29, main_v179, main_v180, main_v181, main_v182, main_v183, main_v184, main_v185, main_cst_30, main_v186, main_v187, main_v188, main_v189, main_v190, main_v191, main_v192, main_v193, main_cst_31, main_v194, main_v195, main_v196, main_v197, main_v198, main_v199, main_v200, main_v201, main_cst_32, main_v202, main_v203, main_v204])
    (.cons (binary_writes ..) <| .cons (binary_writes ..) <| .cons (binary_writes ..) <| .cons (unary_writes ..) <| .cons (reshape_writes ..) <| .cons (unary_writes ..) <| .cons (binary_writes ..) <| .cons (nullary_writes ..) <| .cons (unary_writes ..) <| .cons (binary_writes ..) <| .cons (binary_writes ..) <| .cons (binary_writes ..) <| .cons (unary_writes ..) <| .cons (reshape_writes ..) <| .cons (unary_writes ..) <| .cons (binary_writes ..) <| .cons (nullary_writes ..) <| .cons (unary_writes ..) <| .cons (binary_writes ..) <| .cons (binary_writes ..) <| .cons (binary_writes ..) <| .cons (binary_writes ..) <| .cons (nullary_writes ..) <| .cons (unary_writes ..) <| .cons (binary_writes ..) <| .cons (binary_writes ..) <| .cons (unary_writes ..) <| .cons (reshape_writes ..) <| .cons (unary_writes ..) <| .cons (binary_writes ..) <| .cons (nullary_writes ..) <| .cons (unary_writes ..) <| .cons (binary_writes ..) <| .cons (binary_writes ..) <| .cons (unary_writes ..) <| .cons (reshape_writes ..) <| .cons (unary_writes ..) <| .cons (binary_writes ..) <| .cons (nullary_writes ..) <| .cons (unary_writes ..) <| .cons (binary_writes ..) <| .cons (binary_writes ..) <| .cons (binary_writes ..) <| .cons (unary_writes ..) <| .cons (reshape_writes ..) <| .cons (unary_writes ..) <| .cons (binary_writes ..) <| .cons (nullary_writes ..) <| .cons (unary_writes ..) <| .cons (binary_writes ..) <| .cons (binary_writes ..) <| .cons (binary_writes ..) <| .cons (unary_writes ..) <| .cons (reshape_writes ..) <| .cons (unary_writes ..) <| .cons (binary_writes ..) <| .cons (nullary_writes ..) <| .cons (unary_writes ..) <| .cons (binary_writes ..) <| .cons (binary_writes ..) <| .nil)
    (by decide)
theorem lateR_4 : Late (τ := τ) 252 (ops4 : List (HloOp τ sig (Elt Ideal))) :=
  Late.of_writes (ys := [main_v205, main_v206, main_cst_33, main_v207, main_v208, main_v209, main_v210, main_v211, main_v212, main_v213, main_cst_34, main_v214, main_v215, main_v216, main_v217, main_cst_35, main_v218, main_v219, main_v220, main_v221, main_c_36, main_v222, main_v223, main_c_37, main_v224, main_v225, main_v226, main_v227, main_v228, main_c_38, main_v229, main_v230, main_c_39, main_v231, main_v232, main_v233, main_v234, main_v235, main_v236, main_cst_40, main_v237, main_v238, main_v239, main_c_41, main_v240, main_v241, main_c_42, main_v242, main_v243, main_v244, main_v245, main_v246, main_call2_v0, main_call2_cst, main_call2_v1, main_call2_v2, main_v247, main_cst_43, main_v248, main_v249, main_v250, main_v251, main_v252, main_v253])
    (.cons (binary_writes ..) <| .cons (binary_writes ..) <| .cons (nullary_writes ..) <| .cons (unary_writes ..) <| .cons (binary_writes ..) <| .cons (binary_writes ..) <| .cons (binary_writes ..) <| .cons (binary_writes ..) <| .cons (binary_writes ..) <| .cons (binary_writes ..) <| .cons (nullary_writes ..) <| .cons (unary_writes ..) <| .cons (binary_writes ..) <| .cons (binary_writes ..) <| .cons (binary_writes ..) <| .cons (nullary_writes ..) <| .cons (unary_writes ..) <| .cons (binary_writes ..) <| .cons (binary_writes ..) <| .cons (binary_writes ..) <| .cons (nullary_writes ..) <| .cons (unary_writes ..) <| .cons (binary_writes ..) <| .cons (nullary_writes ..) <| .cons (unary_writes ..) <| .cons (binary_writes ..) <| .cons (ternary_writes ..) <| .cons (unary_writes ..) <| .cons (binary_writes ..) <| .cons (nullary_writes ..) <| .cons (unary_writes ..) <| .cons (binary_writes ..) <| .cons (nullary_writes ..) <| .cons (unary_writes ..) <| .cons (binary_writes ..) <| .cons (ternary_writes ..) <| .cons (unary_writes ..) <| .cons (binary_writes ..) <| .cons (binary_writes ..) <| .cons (nullary_writes ..) <| .cons (binary_writes ..) <| .cons (unary_writes ..) <| .cons (unary_writes ..) <| .cons (nullary_writes ..) <| .cons (unary_writes ..) <| .cons (binary_writes ..) <| .cons (nullary_writes ..) <| .cons (unary_writes ..) <| .cons (binary_writes ..) <| .cons (ternary_writes ..) <| .cons (unary_writes ..) <| .cons (binary_writes ..) <| .cons (binary_writes ..) <| .cons (nullary_writes ..) <| .cons (binary_writes ..) <| .cons (unary_writes ..) <| .cons (unary_writes ..) <| .cons (nullary_writes ..) <| .cons (unary_writes ..) <| .cons (binary_writes ..) <| .cons (unary_writes ..) <| .cons (binary_writes ..) <| .cons (unary_writes ..) <| .cons (reshape_writes ..) <| .nil)
    (by decide)
theorem lateR_5 : Late (τ := τ) 316 (ops5 : List (HloOp τ sig (Elt Ideal))) :=
  Late.of_writes (ys := [main_v254, main_c_44, main_v255, main_v256, main_c_45, main_v257, main_v258, main_v259, main_v260, main_v261, main_call3_v0, main_call3_cst, main_call3_v1, main_call3_v2, main_v262, main_cst_46, main_v263, main_v264, main_v265, main_v266, main_v267, main_cst_47, main_v268, main_cst_48, main_v269, main_v270, main_v271, main_v272, main_v273, main_cst_49, main_v274, main_v275, main_v276, main_cst_50, main_v277, main_cst_51, main_v278, main_v279, main_v280, main_cst_52, main_v281, main_v282, main_v283, main_v284, main_cst_53, main_v285, main_cst_54, main_v286, main_c_55, main_v287, main_v288, main_c_56, main_v289, main_v290, main_v291, main_v292, main_v293, main_call4_v0, main_call4_cst, main_call4_v1, main_call4_v2, main_v294, main_cst_57, main_v295, main_v296, main_v297, main_v298, main_v299])
    (.cons (binary_writes ..) <| .cons (nullary_writes ..) <| .cons (unary_writes ..) <| .cons (binary_writes ..) <| .cons (nullary_writes ..) <| .cons (unary_writes ..) <| .cons (binary_writes ..) <| .cons (ternary_writes ..) <| .cons (unary_writes ..) <| .cons (binary_writes ..) <| .cons (binary_writes ..) <| .cons (nullary_writes ..) <| .cons (binary_writes ..) <| .cons (unary_writes ..) <| .cons (unary_writes ..) <| .cons (nullary_writes ..) <| .cons (unary_writes ..) <| .cons (binary_writes ..) <| .cons (unary_writes ..) <| .cons (binary_writes ..) <| .cons (binary_writes ..) <| .cons (nullary_writes ..) <| .cons (binary_writes ..) <| .cons (nullary_writes ..) <| .cons (unary_writes ..) <| .cons (binary_writes ..) <| .cons (unary_writes ..) <| .cons (unary_writes ..) <| .cons (binary_writes ..) <| .cons (nullary_writes ..) <| .cons (unary_writes ..) <| .cons (binary_writes ..) <| .cons (unary_writes ..) <| .cons (nullary_writes ..) <| .cons (binary_writes ..) <| .cons (nullary_writes ..) <| .cons (unary_writes ..) <| .cons (binary_writes ..) <| .cons (binary_writes ..) <| .cons (nullary_writes ..) <| .cons (unary_writes ..) <| .cons (binary_writes ..) <| .cons (unary_writes ..) <| .cons (unary_writes ..) <| .cons (nullary_writes ..) <| .cons (binary_writes ..) <| .cons (nullary_writes ..) <| .cons (binary_writes ..) <| .cons (nullary_writes ..) <| .cons (unary_writes ..) <| .cons (binary_writes ..) <| .cons (nullary_writes ..) <| .cons (unary_writes ..) <| .cons (binary_writes ..) <| .cons (ternary_writes ..) <| .cons (unary_writes ..) <| .cons (binary_writes ..) <| .cons (binary_writes ..) <| .cons (nullary_writes ..) <| .cons (binary_writes ..) <| .cons (unary_writes ..) <| .cons (unary_writes ..) <| .cons (nullary_writes ..) <| .cons (unary_writes ..) <| .cons (binary_writes ..) <| .cons (unary_writes ..) <| .cons (binary_writes ..) <| .cons (unary_writes ..) <| .nil)
    (by decide)
theorem lateR_6 : Late (τ := τ) 384 (ops6 : List (HloOp τ sig (Elt Ideal))) :=
  Late.of_writes (ys := [main_v300, main_v301, main_c_58, main_v302, main_v303, main_c_59, main_v304, main_v305, main_v306, main_v307, main_v308, main_call5_v0, main_call5_cst, main_call5_v1, main_call5_v2, main_v309, main_cst_60, main_v310, main_v311, main_v312, main_v313, main_v314, main_cst_61, main_v315, main_cst_62, main_v316, main_v317, main_v318, main_v319, main_v320, main_cst_63, main_v321, main_v322, main_v323, main_cst_64, main_v324, main_cst_65, main_v325, main_v326, main_v327, main_cst_66, main_v328, main_v329, main_v330, main_v331, main_cst_67, main_v332, main_v333, main_c_68, main_v334, main_v335, main_c_69, main_v336, main_v337, main_v338, main_v339, main_v340, main_call6_v0, main_call6_cst, main_call6_v1, main_call6_v2, main_v341, main_cst_70, main_v342, main_v343, main_v344, main_v345, main_v346])
    (.cons (reshape_writes ..) <| .cons (binary_writes ..) <| .cons (nullary_writes ..) <| .cons (unary_writes ..) <| .cons (binary_writes ..) <| .cons (nullary_writes ..) <| .cons (unary_writes ..) <| .cons (binary_writes ..) <| .cons (ternary_writes ..) <| .cons (unary_writes ..) <| .cons (binary_writes ..) <| .cons (binary_writes ..) <| .cons (nullary_writes ..) <| .cons (binary_writes ..) <| .cons (unary_writes ..) <| .cons (unary_writes ..) <| .cons (nullary_writes ..) <| .cons (unary_writes ..) <| .cons (binary_writes ..) <| .cons (unary_writes ..) <| .cons (binary_writes ..) <| .cons (binary_writes ..) <| .cons (nullary_writes ..) <| .cons (binary_writes ..) <| .cons (nullary_writes ..) <| .cons (unary_writes ..) <| .cons (binary_writes ..) <| .cons (unary_writes ..) <| .cons (unary_writes ..) <| .cons (binary_writes ..) <| .cons (nullary_writes ..) <| .cons (unary_writes ..) <| .cons (binary_writes ..) <| .cons (unary_writes ..) <| .cons (nullary_writes ..) <| .cons (binary_writes ..) <| .cons (nullary_writes ..) <| .cons (unary_writes ..) <| .cons (binary_writes ..) <| .cons (binary_writes ..) <| .cons (nullary_writes ..) <| .cons (unary_writes ..) <| .cons (binary_writes ..) <| .cons (unary_writes ..) <| .cons (unary_writes ..) <| .cons (nullary_writes ..) <| .cons (binary_writes ..) <| .cons (binary_writes ..) <| .cons (nullary_writes ..) <| .cons (unary_writes ..) <| .cons (binary_writes ..) <| .cons (nullary_writes ..) <| .cons (unary_writes ..) <| .cons (binary_writes ..) <| .cons (ternary_writes ..) <| .cons (unary_writes ..) <| .cons (binary_writes ..) <| .cons (binary_writes ..) <| .cons (nullary_writes ..) <| .cons (binary_writes ..) <| .cons (unary_writes ..) <| .cons (unary_writes ..) <| .cons (nullary_writes ..) <| .cons (unary_writes ..) <| .cons (binary_writes ..) <| .cons (unary_writes ..) <| .cons (binary_writes ..) <| .cons (unary_writes ..) <| .nil)
    (by decide)
theorem lateR_7 : Late (τ := τ) 452 (ops7 : List (HloOp τ sig (Elt Ideal))) :=
  Late.of_writes (ys := [main_v347, main_v348, main_c_71, main_v349, main_v350, main_c_72, main_v351, main_v352, main_v353, main_v354, main_v355, main_call7_v0, main_call7_cst, main_call7_v1, main_call7_v2, main_v356, main_cst_73, main_v357, main_v358, main_v359, main_v360, main_v361, main_cst_74, main_v362, main_cst_75, main_v363, main_v364, main_v365, main_v366, main_v367, main_cst_76, main_v368, main_v369, main_v370, main_cst_77, main_v371, main_cst_78, main_v372, main_v373, main_v374, main_cst_79, main_v375, main_v376, main_v377, main_v378, main_cst_80, main_v379, main_v380, main_c_81, main_v381, main_v382, main_c_82, main_v383, main_v384, main_v385, main_v386, main_v387, main_call8_v0, main_call8_cst, main_call8_v1, main_call8_v2, main_v388, main_cst_83, main_v389, main_v390, main_v391, main_v392, main_v393])
    (.cons (reshape_writes ..) <| .cons (binary_writes ..) <| .cons (nullary_writes ..) <| .cons (unary_writes ..) <| .cons (binary_writes ..) <| .cons (nullary_writes ..) <| .cons (unary_writes ..) <| .cons (binary_writes ..) <| .cons (ternary_writes ..) <| .cons (unary_writes ..) <| .cons (binary_writes ..) <| .cons (binary_writes ..) <| .cons (nullary_writes ..) <| .cons (binary_writes ..) <| .cons (unary_writes ..) <| .cons (unary_writes ..) <| .cons (nullary_writes ..) <| .cons (unary_writes ..) <| .cons (binary_writes ..) <| .cons (unary_writes ..) <| .cons (binary_writes ..) <| .cons (binary_writes ..) <| .cons (nullary_writes ..) <| .cons (binary_writes ..) <| .cons (nullary_writes ..) <| .cons (unary_writes ..) <| .cons (binary_writes ..) <| .cons (unary_writes ..) <| .cons (unary_writes ..) <| .cons (binary_writes ..) <| .cons (nullary_writes ..) <| .cons (unary_writes ..) <| .cons (binary_writes ..) <| .cons (unary_writes ..) <| .cons (nullary_writes ..) <| .cons (binary_writes ..) <| .cons (nullary_writes ..) <| .cons (unary_writes ..) <| .cons (binary_writes ..) <| .cons (binary_writes ..) <| .cons (nullary_writes ..) <| .cons (unary_writes ..) <| .cons (binary_writes ..) <| .cons (unary_writes ..) <| .cons (unary_writes ..) <| .cons (nullary_writes ..) <| .cons (binary_writes ..) <| .cons (binary_writes ..) <| .cons (nullary_writes ..) <| .cons (unary_writes ..) <| .cons (binary_writes ..) <| .cons (nullary_writes ..) <| .cons (unary_writes ..) <| .cons (binary_writes ..) <| .cons (ternary_writes ..) <| .cons (unary_writes ..) <| .cons (binary_writes ..) <| .cons (binary_writes ..) <| .cons (nullary_writes ..) <| .cons (binary_writes ..) <| .cons (unary_writes ..) <| .cons (unary_writes ..) <| .cons (nullary_writes ..) <| .cons (unary_writes ..) <| .cons (binary_writes ..) <| .cons (unary_writes ..) <| .cons (binary_writes ..) <| .cons (unary_writes ..) <| .nil)
    (by decide)
theorem lateR_8 : Late (τ := τ) 520 (ops8 : List (HloOp τ sig (Elt Ideal))) :=
  Late.of_writes (ys := [main_v394, main_v395, main_c_84, main_v396, main_v397, main_c_85, main_v398, main_v399, main_v400, main_v401, main_v402, main_call9_v0, main_call9_cst, main_call9_v1, main_call9_v2, main_v403, main_cst_86, main_v404, main_v405, main_v406, main_v407, main_v408, main_cst_87, main_v409, main_cst_88, main_v410, main_v411, main_v412, main_v413, main_v414, main_cst_89, main_v415, main_v416, main_v417, main_cst_90, main_v418, main_cst_91, main_v419, main_v420, main_v421, main_cst_92, main_v422, main_v423, main_v424, main_v425, main_cst_93, main_v426, main_v427, main_v428, main_cst_94, main_v429, main_v430, main_cst_95, main_v431, main_v432, main_v433, main_cst_96, main_v434, main_v435, main_v436, main_cst_97, main_v437, main_v438])
    (.cons (reshape_writes ..) <| .cons (binary_writes ..) <| .cons (nullary_writes ..) <| .cons (unary_writes ..) <| .cons (binary_writes ..) <| .cons (nullary_writes ..) <| .cons (unary_writes ..) <| .cons (binary_writes ..) <| .cons (ternary_writes ..) <| .cons (unary_writes ..) <| .cons (binary_writes ..) <| .cons (binary_writes ..) <| .cons (nullary_writes ..) <| .cons (binary_writes ..) <| .cons (unary_writes ..) <| .cons (unary_writes ..) <| .cons (nullary_writes ..) <| .cons (unary_writes ..) <| .cons (binary_writes ..) <| .cons (unary_writes ..) <| .cons (binary_writes ..) <| .cons (binary_writes ..) <| .cons (nullary_writes ..) <| .cons (binary_writes ..) <| .cons (nullary_writes ..) <| .cons (unary_writes ..) <| .cons (binary_writes ..) <| .cons (unary_writes ..) <| .cons (unary_writes ..) <| .cons (binary_writes ..) <| .cons (nullary_writes ..) <| .cons (unary_writes ..) <| .cons (binary_writes ..) <| .cons (unary_writes ..) <| .cons (nullary_writes ..) <| .cons (binary_writes ..) <| .cons (nullary_writes ..) <| .cons (unary_writes ..) <| .cons (binary_writes ..) <| .cons (binary_writes ..) <| .cons (nullary_writes ..) <| .cons (unary_writes ..) <| .cons (binary_writes ..) <| .cons (unary_writes ..) <| .cons (unary_writes ..) <| .cons (nullary_writes ..) <| .cons (binary_writes ..) <| .cons (binary_writes ..) <| .cons (binary_writes ..) <| .cons (nullary_writes ..) <| .cons (binary_writes ..) <| .cons (binary_writes ..) <| .cons (nullary_writes ..) <| .cons (binary_writes ..) <| .cons (binary_writes ..) <| .cons (binary_writes ..) <| .cons (nullary_writes ..) <| .cons (binary_writes ..) <| .cons (binary_writes ..) <| .cons (binary_writes ..) <| .cons (nullary_writes ..) <| .cons (binary_writes ..) <| .cons (binary_writes ..) <| .nil)
    (by decide)

theorem liftR_7 (r : Ref sig .tc) (hr : r.idx.val < 520) : WR m c r = Wr7 m c r :=
  eq_of_lt lateR_8 (rfl : Wr8 m c = after ops8 (Wr7 m c)) r hr
theorem liftR_6 (r : Ref sig .tc) (hr : r.idx.val < 452) : WR m c r = Wr6 m c r :=
  (liftR_7 m c r (lt_trans hr (by decide))).trans (eq_of_lt lateR_7 (rfl : Wr7 m c = after ops7 (Wr6 m c)) r hr)
theorem liftR_5 (r : Ref sig .tc) (hr : r.idx.val < 384) : WR m c r = Wr5 m c r :=
  (liftR_6 m c r (lt_trans hr (by decide))).trans (eq_of_lt lateR_6 (rfl : Wr6 m c = after ops6 (Wr5 m c)) r hr)
theorem liftR_4 (r : Ref sig .tc) (hr : r.idx.val < 316) : WR m c r = Wr4 m c r :=
  (liftR_5 m c r (lt_trans hr (by decide))).trans (eq_of_lt lateR_5 (rfl : Wr5 m c = after ops5 (Wr4 m c)) r hr)
theorem liftR_3 (r : Ref sig .tc) (hr : r.idx.val < 252) : WR m c r = Wr3 m c r :=
  (liftR_4 m c r (lt_trans hr (by decide))).trans (eq_of_lt lateR_4 (rfl : Wr4 m c = after ops4 (Wr3 m c)) r hr)
theorem liftR_2 (r : Ref sig .tc) (hr : r.idx.val < 192) : WR m c r = Wr2 m c r :=
  (liftR_3 m c r (lt_trans hr (by decide))).trans (eq_of_lt lateR_3 (rfl : Wr3 m c = after ops3 (Wr2 m c)) r hr)
theorem liftR_1 (r : Ref sig .tc) (hr : r.idx.val < 132) : WR m c r = Wr1 m c r :=
  (liftR_2 m c r (lt_trans hr (by decide))).trans (eq_of_lt lateR_2 (rfl : Wr2 m c = after ops2 (Wr1 m c)) r hr)
theorem liftR_0 (r : Ref sig .tc) (hr : r.idx.val < 72) : WR m c r = Wr0 m c r :=
  (liftR_1 m c r (lt_trans hr (by decide))).trans (eq_of_lt lateR_1 (rfl : Wr1 m c = after ops1 (Wr0 m c)) r hr)
theorem liftR_init (r : Ref sig .tc) (hr : r.idx.val < 12) : WR m c r = Wr_init m c r :=
  (liftR_0 m c r (lt_trans hr (by decide))).trans (eq_of_lt lateR_0 (rfl : Wr0 m c = after ops0 (Wr_init m c)) r hr)

section Lift
variable {W₁ W₂ : Valuation τ sig (Elt Ideal)}
theorem lift_nullary {y : Ref sig .tc} {v : y.ty.Contents (Elt Ideal)}
    (hy : W₂ (Proc.devRef .tc y) = W₁ (Proc.devRef .tc y)) (h : W₁ (Proc.devRef .tc y) = v) : W₂ (Proc.devRef .tc y) = v := hy.trans h
theorem lift_unary {x y : Ref sig .tc} {f : x.ty.Contents (Elt Ideal) → y.ty.Contents (Elt Ideal)}
    (hy : W₂ (Proc.devRef .tc y) = W₁ (Proc.devRef .tc y)) (hx : W₂ (Proc.devRef .tc x) = W₁ (Proc.devRef .tc x))
    (h : W₁ (Proc.devRef .tc y) = f (W₁ (Proc.devRef .tc x))) : W₂ (Proc.devRef .tc y) = f (W₂ (Proc.devRef .tc x)) := by
  rw [hy, hx]; exact h
theorem lift_binary {a b y : Ref sig .tc} {f : a.ty.Contents (Elt Ideal) → b.ty.Contents (Elt Ideal) → y.ty.Contents (Elt Ideal)}
    (hy : W₂ (Proc.devRef .tc y) = W₁ (Proc.devRef .tc y)) (ha : W₂ (Proc.devRef .tc a) = W₁ (Proc.devRef .tc a))
    (hb : W₂ (Proc.devRef .tc b) = W₁ (Proc.devRef .tc b))
    (h : W₁ (Proc.devRef .tc y) = f (W₁ (Proc.devRef .tc a)) (W₁ (Proc.devRef .tc b))) :
    W₂ (Proc.devRef .tc y) = f (W₂ (Proc.devRef .tc a)) (W₂ (Proc.devRef .tc b)) := by
  rw [hy, ha, hb]; exact h
theorem lift_ternary {p a b y : Ref sig .tc}
    {f : p.ty.Contents (Elt Ideal) → a.ty.Contents (Elt Ideal) → b.ty.Contents (Elt Ideal) → y.ty.Contents (Elt Ideal)}
    (hy : W₂ (Proc.devRef .tc y) = W₁ (Proc.devRef .tc y)) (hp : W₂ (Proc.devRef .tc p) = W₁ (Proc.devRef .tc p))
    (ha : W₂ (Proc.devRef .tc a) = W₁ (Proc.devRef .tc a)) (hb : W₂ (Proc.devRef .tc b) = W₁ (Proc.devRef .tc b))
    (h : W₁ (Proc.devRef .tc y) = f (W₁ (Proc.devRef .tc p)) (W₁ (Proc.devRef .tc a)) (W₁ (Proc.devRef .tc b))) :
    W₂ (Proc.devRef .tc y) = f (W₂ (Proc.devRef .tc p)) (W₂ (Proc.devRef .tc a)) (W₂ (Proc.devRef .tc b)) := by
  rw [hy, hp, ha, hb]; exact h
theorem lift_reshape {x y : Ref sig .tc} (he : x.ty.elt = y.ty.elt) (hn : x.ty.shape.ShapeCasts y.ty.shape)
    (hy : W₂ (Proc.devRef .tc y) = W₁ (Proc.devRef .tc y)) (hx : W₂ (Proc.devRef .tc x) = W₁ (Proc.devRef .tc x))
    (h : W₁ (Proc.devRef .tc y) = fun i => he ▸ shapeCast y.ty.shape (W₁ (Proc.devRef .tc x)) hn i) :
    W₂ (Proc.devRef .tc y) = fun i => he ▸ shapeCast y.ty.shape (W₂ (Proc.devRef .tc x)) hn i := by
  rw [hy, hx]; exact h
end Lift

end Cert.ReferenceIdeal.RefRun

end
-- ==== Proof.Ref.RNDefs.lean ====
import proofs.«126270_j6725918785969_1_alg».proof.Proof.Ref.REqBase

/-!
# The final contents of the reference's buffers, each at its plain tensor type
-/

set_option maxRecDepth 16384

noncomputable section

namespace Cert.ReferenceIdeal.RefRun

open Cert.ReferenceIdeal Cert.ReferenceIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

def nR_main_arg0 : (⟨S4096, .i32⟩ : BufTy).Contents (Elt Ideal) := WR m c main_arg0
def nR_main_arg1 : (⟨S4096, .i32⟩ : BufTy).Contents (Elt Ideal) := WR m c main_arg1
def nR_main_arg2 : (⟨S1000000, .i32⟩ : BufTy).Contents (Elt Ideal) := WR m c main_arg2
def nR_main_arg3 : (⟨S1000000, .i32⟩ : BufTy).Contents (Elt Ideal) := WR m c main_arg3
def nR_main_arg4 : (⟨S1000000, .f32⟩ : BufTy).Contents (Elt Ideal) := WR m c main_arg4
def nR_main_arg5 : (⟨S100000x128, .f32⟩ : BufTy).Contents (Elt Ideal) := WR m c main_arg5
def nR_main_arg6 : (⟨S50000x128, .f32⟩ : BufTy).Contents (Elt Ideal) := WR m c main_arg6
def nR_main_arg7 : (⟨S128x128, .f32⟩ : BufTy).Contents (Elt Ideal) := WR m c main_arg7
def nR_main_arg8 : (⟨S128x128, .f32⟩ : BufTy).Contents (Elt Ideal) := WR m c main_arg8
def nR_main_arg9 : (⟨S2x3x128x128, .f32⟩ : BufTy).Contents (Elt Ideal) := WR m c main_arg9
def nR_main_arg10 : (⟨S2x3x128x128, .f32⟩ : BufTy).Contents (Elt Ideal) := WR m c main_arg10
def nR_main_arg11 : (⟨S2x128x128, .f32⟩ : BufTy).Contents (Elt Ideal) := WR m c main_arg11
def nR_main_v0 : (⟨S100000x128, .f32⟩ : BufTy).Contents (Elt Ideal) := WR m c main_v0
def nR_main_v1 : (⟨S50000x128, .f32⟩ : BufTy).Contents (Elt Ideal) := WR m c main_v1
def nR_main_v2 : (⟨S1000000x1, .f32⟩ : BufTy).Contents (Elt Ideal) := WR m c main_v2
def nR_main_c : (⟨S_, .i32⟩ : BufTy).Contents (Elt Ideal) := WR m c main_c
def nR_main_v3 : (⟨S1000000, .i32⟩ : BufTy).Contents (Elt Ideal) := WR m c main_v3
def nR_main_v4 : (⟨S1000000, .i1⟩ : BufTy).Contents (Elt Ideal) := WR m c main_v4
def nR_main_c_0 : (⟨S_, .i32⟩ : BufTy).Contents (Elt Ideal) := WR m c main_c_0
def nR_main_v5 : (⟨S1000000, .i32⟩ : BufTy).Contents (Elt Ideal) := WR m c main_v5
def nR_main_v6 : (⟨S1000000, .i32⟩ : BufTy).Contents (Elt Ideal) := WR m c main_v6
def nR_main_v7 : (⟨S1000000, .i32⟩ : BufTy).Contents (Elt Ideal) := WR m c main_v7
def nR_main_v8 : (⟨S1000000x1, .i32⟩ : BufTy).Contents (Elt Ideal) := WR m c main_v8
def nR_main_v9 : (⟨S1000000x128, .f32⟩ : BufTy).Contents (Elt Ideal) := WR m c main_v9
def nR_main_v10 : (⟨S1000000x128, .f32⟩ : BufTy).Contents (Elt Ideal) := WR m c main_v10
def nR_main_v11 : (⟨S1000000x128, .f32⟩ : BufTy).Contents (Elt Ideal) := WR m c main_v11
def nR_main_cst : (⟨S_, .f32⟩ : BufTy).Contents (Elt Ideal) := WR m c main_cst
def nR_main_v12 : (⟨S100000x128, .f32⟩ : BufTy).Contents (Elt Ideal) := WR m c main_v12
def nR_main_v13 : (⟨S1000000x1, .i32⟩ : BufTy).Contents (Elt Ideal) := WR m c main_v13
def nR_main_v14 : (⟨S100000x128, .f32⟩ : BufTy).Contents (Elt Ideal) := WR m c main_v14
def nR_main_cst_1 : (⟨S_, .f32⟩ : BufTy).Contents (Elt Ideal) := WR m c main_cst_1
def nR_main_v15 : (⟨S100000x128, .f32⟩ : BufTy).Contents (Elt Ideal) := WR m c main_v15
def nR_main_v16 : (⟨S100000x128, .f32⟩ : BufTy).Contents (Elt Ideal) := WR m c main_v16
def nR_main_v17 : (⟨S100000x128, .f32⟩ : BufTy).Contents (Elt Ideal) := WR m c main_v17
def nR_main_v18 : (⟨S1000000x1, .f32⟩ : BufTy).Contents (Elt Ideal) := WR m c main_v18
def nR_main_c_2 : (⟨S_, .i32⟩ : BufTy).Contents (Elt Ideal) := WR m c main_c_2
def nR_main_v19 : (⟨S1000000, .i32⟩ : BufTy).Contents (Elt Ideal) := WR m c main_v19
def nR_main_v20 : (⟨S1000000, .i1⟩ : BufTy).Contents (Elt Ideal) := WR m c main_v20
def nR_main_c_3 : (⟨S_, .i32⟩ : BufTy).Contents (Elt Ideal) := WR m c main_c_3
def nR_main_v21 : (⟨S1000000, .i32⟩ : BufTy).Contents (Elt Ideal) := WR m c main_v21
def nR_main_v22 : (⟨S1000000, .i32⟩ : BufTy).Contents (Elt Ideal) := WR m c main_v22
def nR_main_v23 : (⟨S1000000, .i32⟩ : BufTy).Contents (Elt Ideal) := WR m c main_v23
def nR_main_v24 : (⟨S1000000x1, .i32⟩ : BufTy).Contents (Elt Ideal) := WR m c main_v24
def nR_main_v25 : (⟨S1000000x128, .f32⟩ : BufTy).Contents (Elt Ideal) := WR m c main_v25
def nR_main_v26 : (⟨S1000000x128, .f32⟩ : BufTy).Contents (Elt Ideal) := WR m c main_v26
def nR_main_v27 : (⟨S1000000x128, .f32⟩ : BufTy).Contents (Elt Ideal) := WR m c main_v27
def nR_main_cst_4 : (⟨S_, .f32⟩ : BufTy).Contents (Elt Ideal) := WR m c main_cst_4
def nR_main_v28 : (⟨S50000x128, .f32⟩ : BufTy).Contents (Elt Ideal) := WR m c main_v28
def nR_main_v29 : (⟨S1000000x1, .i32⟩ : BufTy).Contents (Elt Ideal) := WR m c main_v29
def nR_main_v30 : (⟨S50000x128, .f32⟩ : BufTy).Contents (Elt Ideal) := WR m c main_v30
def nR_main_cst_5 : (⟨S_, .f32⟩ : BufTy).Contents (Elt Ideal) := WR m c main_cst_5
def nR_main_v31 : (⟨S50000x128, .f32⟩ : BufTy).Contents (Elt Ideal) := WR m c main_v31
def nR_main_v32 : (⟨S50000x128, .f32⟩ : BufTy).Contents (Elt Ideal) := WR m c main_v32
def nR_main_v33 : (⟨S50000x128, .f32⟩ : BufTy).Contents (Elt Ideal) := WR m c main_v33
def nR_main_v34 : (⟨S1x3x128x128, .f32⟩ : BufTy).Contents (Elt Ideal) := WR m c main_v34
def nR_main_v35 : (⟨S3x128x128, .f32⟩ : BufTy).Contents (Elt Ideal) := WR m c main_v35
def nR_main_v36 : (⟨S128x100000, .f32⟩ : BufTy).Contents (Elt Ideal) := WR m c main_v36
def nR_main_v37 : (⟨S128x128, .f32⟩ : BufTy).Contents (Elt Ideal) := WR m c main_v37
def nR_main_cst_6 : (⟨S_, .f32⟩ : BufTy).Contents (Elt Ideal) := WR m c main_cst_6
def nR_main_v38 : (⟨S128x128, .f32⟩ : BufTy).Contents (Elt Ideal) := WR m c main_v38
def nR_main_v39 : (⟨S128x128, .f32⟩ : BufTy).Contents (Elt Ideal) := WR m c main_v39
def nR_main_v40 : (⟨S128x128, .f32⟩ : BufTy).Contents (Elt Ideal) := WR m c main_v40
def nR_main_v41 : (⟨S1x128x128, .f32⟩ : BufTy).Contents (Elt Ideal) := WR m c main_v41
def nR_main_v42 : (⟨S128x128, .f32⟩ : BufTy).Contents (Elt Ideal) := WR m c main_v42
def nR_main_v43 : (⟨S128x128, .f32⟩ : BufTy).Contents (Elt Ideal) := WR m c main_v43
def nR_main_v44 : (⟨S128x128, .f32⟩ : BufTy).Contents (Elt Ideal) := WR m c main_v44
def nR_main_cst_7 : (⟨S_, .f32⟩ : BufTy).Contents (Elt Ideal) := WR m c main_cst_7
def nR_main_v45 : (⟨S128x128, .f32⟩ : BufTy).Contents (Elt Ideal) := WR m c main_v45
def nR_main_v46 : (⟨S128x128, .f32⟩ : BufTy).Contents (Elt Ideal) := WR m c main_v46
def nR_main_v47 : (⟨S128x128, .f32⟩ : BufTy).Contents (Elt Ideal) := WR m c main_v47
def nR_main_v48 : (⟨S128x128, .f32⟩ : BufTy).Contents (Elt Ideal) := WR m c main_v48
def nR_main_v49 : (⟨S1x128x128, .f32⟩ : BufTy).Contents (Elt Ideal) := WR m c main_v49
def nR_main_v50 : (⟨S128x128, .f32⟩ : BufTy).Contents (Elt Ideal) := WR m c main_v50
def nR_main_v51 : (⟨S128x128, .f32⟩ : BufTy).Contents (Elt Ideal) := WR m c main_v51
def nR_main_v52 : (⟨S128x128, .f32⟩ : BufTy).Contents (Elt Ideal) := WR m c main_v52
def nR_main_cst_8 : (⟨S_, .f32⟩ : BufTy).Contents (Elt Ideal) := WR m c main_cst_8
def nR_main_v53 : (⟨S128x128, .f32⟩ : BufTy).Contents (Elt Ideal) := WR m c main_v53
def nR_main_v54 : (⟨S128x128, .f32⟩ : BufTy).Contents (Elt Ideal) := WR m c main_v54
def nR_main_v55 : (⟨S128x128, .f32⟩ : BufTy).Contents (Elt Ideal) := WR m c main_v55
def nR_main_v56 : (⟨S128x128, .f32⟩ : BufTy).Contents (Elt Ideal) := WR m c main_v56
def nR_main_v57 : (⟨S1x128x128, .f32⟩ : BufTy).Contents (Elt Ideal) := WR m c main_v57
def nR_main_v58 : (⟨S128x128, .f32⟩ : BufTy).Contents (Elt Ideal) := WR m c main_v58
def nR_main_v59 : (⟨S128x128, .f32⟩ : BufTy).Contents (Elt Ideal) := WR m c main_v59
def nR_main_v60 : (⟨S128x128, .f32⟩ : BufTy).Contents (Elt Ideal) := WR m c main_v60
def nR_main_cst_9 : (⟨S_, .f32⟩ : BufTy).Contents (Elt Ideal) := WR m c main_cst_9
def nR_main_v61 : (⟨S128x128, .f32⟩ : BufTy).Contents (Elt Ideal) := WR m c main_v61
def nR_main_v62 : (⟨S128x128, .f32⟩ : BufTy).Contents (Elt Ideal) := WR m c main_v62
def nR_main_v63 : (⟨S128x128, .f32⟩ : BufTy).Contents (Elt Ideal) := WR m c main_v63
def nR_main_v64 : (⟨S128x128, .f32⟩ : BufTy).Contents (Elt Ideal) := WR m c main_v64
def nR_main_v65 : (⟨S100000x128, .f32⟩ : BufTy).Contents (Elt Ideal) := WR m c main_v65
def nR_main_cst_10 : (⟨S_, .f32⟩ : BufTy).Contents (Elt Ideal) := WR m c main_cst_10
def nR_main_v66 : (⟨S100000x128, .f32⟩ : BufTy).Contents (Elt Ideal) := WR m c main_v66
def nR_main_v67 : (⟨S100000x128, .f32⟩ : BufTy).Contents (Elt Ideal) := WR m c main_v67
def nR_main_v68 : (⟨S100000x128, .f32⟩ : BufTy).Contents (Elt Ideal) := WR m c main_v68
def nR_main_v69 : (⟨S1x3x128x128, .f32⟩ : BufTy).Contents (Elt Ideal) := WR m c main_v69
def nR_main_v70 : (⟨S3x128x128, .f32⟩ : BufTy).Contents (Elt Ideal) := WR m c main_v70
def nR_main_v71 : (⟨S128x50000, .f32⟩ : BufTy).Contents (Elt Ideal) := WR m c main_v71
def nR_main_v72 : (⟨S128x128, .f32⟩ : BufTy).Contents (Elt Ideal) := WR m c main_v72
def nR_main_cst_11 : (⟨S_, .f32⟩ : BufTy).Contents (Elt Ideal) := WR m c main_cst_11
def nR_main_v73 : (⟨S128x128, .f32⟩ : BufTy).Contents (Elt Ideal) := WR m c main_v73
def nR_main_v74 : (⟨S128x128, .f32⟩ : BufTy).Contents (Elt Ideal) := WR m c main_v74
def nR_main_v75 : (⟨S128x128, .f32⟩ : BufTy).Contents (Elt Ideal) := WR m c main_v75
def nR_main_v76 : (⟨S1x128x128, .f32⟩ : BufTy).Contents (Elt Ideal) := WR m c main_v76
def nR_main_v77 : (⟨S128x128, .f32⟩ : BufTy).Contents (Elt Ideal) := WR m c main_v77
def nR_main_v78 : (⟨S128x128, .f32⟩ : BufTy).Contents (Elt Ideal) := WR m c main_v78
def nR_main_v79 : (⟨S128x128, .f32⟩ : BufTy).Contents (Elt Ideal) := WR m c main_v79
def nR_main_cst_12 : (⟨S_, .f32⟩ : BufTy).Contents (Elt Ideal) := WR m c main_cst_12
def nR_main_v80 : (⟨S128x128, .f32⟩ : BufTy).Contents (Elt Ideal) := WR m c main_v80
def nR_main_v81 : (⟨S128x128, .f32⟩ : BufTy).Contents (Elt Ideal) := WR m c main_v81
def nR_main_v82 : (⟨S128x128, .f32⟩ : BufTy).Contents (Elt Ideal) := WR m c main_v82
def nR_main_v83 : (⟨S128x128, .f32⟩ : BufTy).Contents (Elt Ideal) := WR m c main_v83
def nR_main_v84 : (⟨S1x128x128, .f32⟩ : BufTy).Contents (Elt Ideal) := WR m c main_v84
def nR_main_v85 : (⟨S128x128, .f32⟩ : BufTy).Contents (Elt Ideal) := WR m c main_v85
def nR_main_v86 : (⟨S128x128, .f32⟩ : BufTy).Contents (Elt Ideal) := WR m c main_v86
def nR_main_v87 : (⟨S128x128, .f32⟩ : BufTy).Contents (Elt Ideal) := WR m c main_v87
def nR_main_cst_13 : (⟨S_, .f32⟩ : BufTy).Contents (Elt Ideal) := WR m c main_cst_13
def nR_main_v88 : (⟨S128x128, .f32⟩ : BufTy).Contents (Elt Ideal) := WR m c main_v88
def nR_main_v89 : (⟨S128x128, .f32⟩ : BufTy).Contents (Elt Ideal) := WR m c main_v89
def nR_main_v90 : (⟨S128x128, .f32⟩ : BufTy).Contents (Elt Ideal) := WR m c main_v90
def nR_main_v91 : (⟨S128x128, .f32⟩ : BufTy).Contents (Elt Ideal) := WR m c main_v91
def nR_main_v92 : (⟨S1x128x128, .f32⟩ : BufTy).Contents (Elt Ideal) := WR m c main_v92
def nR_main_v93 : (⟨S128x128, .f32⟩ : BufTy).Contents (Elt Ideal) := WR m c main_v93
def nR_main_v94 : (⟨S128x128, .f32⟩ : BufTy).Contents (Elt Ideal) := WR m c main_v94
def nR_main_v95 : (⟨S128x128, .f32⟩ : BufTy).Contents (Elt Ideal) := WR m c main_v95
def nR_main_cst_14 : (⟨S_, .f32⟩ : BufTy).Contents (Elt Ideal) := WR m c main_cst_14
def nR_main_v96 : (⟨S128x128, .f32⟩ : BufTy).Contents (Elt Ideal) := WR m c main_v96
def nR_main_v97 : (⟨S128x128, .f32⟩ : BufTy).Contents (Elt Ideal) := WR m c main_v97
def nR_main_v98 : (⟨S128x128, .f32⟩ : BufTy).Contents (Elt Ideal) := WR m c main_v98
def nR_main_v99 : (⟨S128x128, .f32⟩ : BufTy).Contents (Elt Ideal) := WR m c main_v99
def nR_main_v100 : (⟨S50000x128, .f32⟩ : BufTy).Contents (Elt Ideal) := WR m c main_v100
def nR_main_cst_15 : (⟨S_, .f32⟩ : BufTy).Contents (Elt Ideal) := WR m c main_cst_15
def nR_main_v101 : (⟨S50000x128, .f32⟩ : BufTy).Contents (Elt Ideal) := WR m c main_v101
def nR_main_v102 : (⟨S50000x128, .f32⟩ : BufTy).Contents (Elt Ideal) := WR m c main_v102
def nR_main_v103 : (⟨S50000x128, .f32⟩ : BufTy).Contents (Elt Ideal) := WR m c main_v103
def nR_main_v104 : (⟨S100000x128, .f32⟩ : BufTy).Contents (Elt Ideal) := WR m c main_v104
def nR_main_v105 : (⟨S100000x128, .f32⟩ : BufTy).Contents (Elt Ideal) := WR m c main_v105
def nR_main_v106 : (⟨S50000x128, .f32⟩ : BufTy).Contents (Elt Ideal) := WR m c main_v106
def nR_main_v107 : (⟨S50000x128, .f32⟩ : BufTy).Contents (Elt Ideal) := WR m c main_v107
def nR_main_v108 : (⟨S1000000x1, .f32⟩ : BufTy).Contents (Elt Ideal) := WR m c main_v108
def nR_main_c_16 : (⟨S_, .i32⟩ : BufTy).Contents (Elt Ideal) := WR m c main_c_16
def nR_main_v109 : (⟨S1000000, .i32⟩ : BufTy).Contents (Elt Ideal) := WR m c main_v109
def nR_main_v110 : (⟨S1000000, .i1⟩ : BufTy).Contents (Elt Ideal) := WR m c main_v110
def nR_main_c_17 : (⟨S_, .i32⟩ : BufTy).Contents (Elt Ideal) := WR m c main_c_17
def nR_main_v111 : (⟨S1000000, .i32⟩ : BufTy).Contents (Elt Ideal) := WR m c main_v111
def nR_main_v112 : (⟨S1000000, .i32⟩ : BufTy).Contents (Elt Ideal) := WR m c main_v112
def nR_main_v113 : (⟨S1000000, .i32⟩ : BufTy).Contents (Elt Ideal) := WR m c main_v113
def nR_main_v114 : (⟨S1000000x1, .i32⟩ : BufTy).Contents (Elt Ideal) := WR m c main_v114
def nR_main_v115 : (⟨S1000000x128, .f32⟩ : BufTy).Contents (Elt Ideal) := WR m c main_v115
def nR_main_v116 : (⟨S1000000x128, .f32⟩ : BufTy).Contents (Elt Ideal) := WR m c main_v116
def nR_main_v117 : (⟨S1000000x128, .f32⟩ : BufTy).Contents (Elt Ideal) := WR m c main_v117
def nR_main_cst_18 : (⟨S_, .f32⟩ : BufTy).Contents (Elt Ideal) := WR m c main_cst_18
def nR_main_v118 : (⟨S100000x128, .f32⟩ : BufTy).Contents (Elt Ideal) := WR m c main_v118
def nR_main_v119 : (⟨S1000000x1, .i32⟩ : BufTy).Contents (Elt Ideal) := WR m c main_v119
def nR_main_v120 : (⟨S100000x128, .f32⟩ : BufTy).Contents (Elt Ideal) := WR m c main_v120
def nR_main_cst_19 : (⟨S_, .f32⟩ : BufTy).Contents (Elt Ideal) := WR m c main_cst_19
def nR_main_v121 : (⟨S100000x128, .f32⟩ : BufTy).Contents (Elt Ideal) := WR m c main_v121
def nR_main_v122 : (⟨S100000x128, .f32⟩ : BufTy).Contents (Elt Ideal) := WR m c main_v122
def nR_main_v123 : (⟨S100000x128, .f32⟩ : BufTy).Contents (Elt Ideal) := WR m c main_v123
def nR_main_v124 : (⟨S1000000x1, .f32⟩ : BufTy).Contents (Elt Ideal) := WR m c main_v124
def nR_main_c_20 : (⟨S_, .i32⟩ : BufTy).Contents (Elt Ideal) := WR m c main_c_20
def nR_main_v125 : (⟨S1000000, .i32⟩ : BufTy).Contents (Elt Ideal) := WR m c main_v125
def nR_main_v126 : (⟨S1000000, .i1⟩ : BufTy).Contents (Elt Ideal) := WR m c main_v126
def nR_main_c_21 : (⟨S_, .i32⟩ : BufTy).Contents (Elt Ideal) := WR m c main_c_21
def nR_main_v127 : (⟨S1000000, .i32⟩ : BufTy).Contents (Elt Ideal) := WR m c main_v127
def nR_main_v128 : (⟨S1000000, .i32⟩ : BufTy).Contents (Elt Ideal) := WR m c main_v128
def nR_main_v129 : (⟨S1000000, .i32⟩ : BufTy).Contents (Elt Ideal) := WR m c main_v129
def nR_main_v130 : (⟨S1000000x1, .i32⟩ : BufTy).Contents (Elt Ideal) := WR m c main_v130
def nR_main_v131 : (⟨S1000000x128, .f32⟩ : BufTy).Contents (Elt Ideal) := WR m c main_v131
def nR_main_v132 : (⟨S1000000x128, .f32⟩ : BufTy).Contents (Elt Ideal) := WR m c main_v132
def nR_main_v133 : (⟨S1000000x128, .f32⟩ : BufTy).Contents (Elt Ideal) := WR m c main_v133
def nR_main_cst_22 : (⟨S_, .f32⟩ : BufTy).Contents (Elt Ideal) := WR m c main_cst_22
def nR_main_v134 : (⟨S50000x128, .f32⟩ : BufTy).Contents (Elt Ideal) := WR m c main_v134
def nR_main_v135 : (⟨S1000000x1, .i32⟩ : BufTy).Contents (Elt Ideal) := WR m c main_v135
def nR_main_v136 : (⟨S50000x128, .f32⟩ : BufTy).Contents (Elt Ideal) := WR m c main_v136
def nR_main_cst_23 : (⟨S_, .f32⟩ : BufTy).Contents (Elt Ideal) := WR m c main_cst_23
def nR_main_v137 : (⟨S50000x128, .f32⟩ : BufTy).Contents (Elt Ideal) := WR m c main_v137
def nR_main_v138 : (⟨S50000x128, .f32⟩ : BufTy).Contents (Elt Ideal) := WR m c main_v138
def nR_main_v139 : (⟨S50000x128, .f32⟩ : BufTy).Contents (Elt Ideal) := WR m c main_v139
def nR_main_v140 : (⟨S1x3x128x128, .f32⟩ : BufTy).Contents (Elt Ideal) := WR m c main_v140
def nR_main_v141 : (⟨S3x128x128, .f32⟩ : BufTy).Contents (Elt Ideal) := WR m c main_v141
def nR_main_v142 : (⟨S128x100000, .f32⟩ : BufTy).Contents (Elt Ideal) := WR m c main_v142
def nR_main_v143 : (⟨S128x128, .f32⟩ : BufTy).Contents (Elt Ideal) := WR m c main_v143
def nR_main_cst_24 : (⟨S_, .f32⟩ : BufTy).Contents (Elt Ideal) := WR m c main_cst_24
def nR_main_v144 : (⟨S128x128, .f32⟩ : BufTy).Contents (Elt Ideal) := WR m c main_v144
def nR_main_v145 : (⟨S128x128, .f32⟩ : BufTy).Contents (Elt Ideal) := WR m c main_v145
def nR_main_v146 : (⟨S128x128, .f32⟩ : BufTy).Contents (Elt Ideal) := WR m c main_v146
def nR_main_v147 : (⟨S1x128x128, .f32⟩ : BufTy).Contents (Elt Ideal) := WR m c main_v147
def nR_main_v148 : (⟨S128x128, .f32⟩ : BufTy).Contents (Elt Ideal) := WR m c main_v148
def nR_main_v149 : (⟨S128x128, .f32⟩ : BufTy).Contents (Elt Ideal) := WR m c main_v149
def nR_main_v150 : (⟨S128x128, .f32⟩ : BufTy).Contents (Elt Ideal) := WR m c main_v150
def nR_main_cst_25 : (⟨S_, .f32⟩ : BufTy).Contents (Elt Ideal) := WR m c main_cst_25
def nR_main_v151 : (⟨S128x128, .f32⟩ : BufTy).Contents (Elt Ideal) := WR m c main_v151
def nR_main_v152 : (⟨S128x128, .f32⟩ : BufTy).Contents (Elt Ideal) := WR m c main_v152
def nR_main_v153 : (⟨S128x128, .f32⟩ : BufTy).Contents (Elt Ideal) := WR m c main_v153
def nR_main_v154 : (⟨S128x128, .f32⟩ : BufTy).Contents (Elt Ideal) := WR m c main_v154
def nR_main_v155 : (⟨S1x128x128, .f32⟩ : BufTy).Contents (Elt Ideal) := WR m c main_v155
def nR_main_v156 : (⟨S128x128, .f32⟩ : BufTy).Contents (Elt Ideal) := WR m c main_v156
def nR_main_v157 : (⟨S128x128, .f32⟩ : BufTy).Contents (Elt Ideal) := WR m c main_v157
def nR_main_v158 : (⟨S128x128, .f32⟩ : BufTy).Contents (Elt Ideal) := WR m c main_v158
def nR_main_cst_26 : (⟨S_, .f32⟩ : BufTy).Contents (Elt Ideal) := WR m c main_cst_26
def nR_main_v159 : (⟨S128x128, .f32⟩ : BufTy).Contents (Elt Ideal) := WR m c main_v159
def nR_main_v160 : (⟨S128x128, .f32⟩ : BufTy).Contents (Elt Ideal) := WR m c main_v160
def nR_main_v161 : (⟨S128x128, .f32⟩ : BufTy).Contents (Elt Ideal) := WR m c main_v161
def nR_main_v162 : (⟨S128x128, .f32⟩ : BufTy).Contents (Elt Ideal) := WR m c main_v162
def nR_main_v163 : (⟨S1x128x128, .f32⟩ : BufTy).Contents (Elt Ideal) := WR m c main_v163
def nR_main_v164 : (⟨S128x128, .f32⟩ : BufTy).Contents (Elt Ideal) := WR m c main_v164
def nR_main_v165 : (⟨S128x128, .f32⟩ : BufTy).Contents (Elt Ideal) := WR m c main_v165
def nR_main_v166 : (⟨S128x128, .f32⟩ : BufTy).Contents (Elt Ideal) := WR m c main_v166
def nR_main_cst_27 : (⟨S_, .f32⟩ : BufTy).Contents (Elt Ideal) := WR m c main_cst_27
def nR_main_v167 : (⟨S128x128, .f32⟩ : BufTy).Contents (Elt Ideal) := WR m c main_v167
def nR_main_v168 : (⟨S128x128, .f32⟩ : BufTy).Contents (Elt Ideal) := WR m c main_v168
def nR_main_v169 : (⟨S128x128, .f32⟩ : BufTy).Contents (Elt Ideal) := WR m c main_v169
def nR_main_v170 : (⟨S128x128, .f32⟩ : BufTy).Contents (Elt Ideal) := WR m c main_v170
def nR_main_v171 : (⟨S100000x128, .f32⟩ : BufTy).Contents (Elt Ideal) := WR m c main_v171
def nR_main_cst_28 : (⟨S_, .f32⟩ : BufTy).Contents (Elt Ideal) := WR m c main_cst_28
def nR_main_v172 : (⟨S100000x128, .f32⟩ : BufTy).Contents (Elt Ideal) := WR m c main_v172
def nR_main_v173 : (⟨S100000x128, .f32⟩ : BufTy).Contents (Elt Ideal) := WR m c main_v173
def nR_main_v174 : (⟨S100000x128, .f32⟩ : BufTy).Contents (Elt Ideal) := WR m c main_v174
def nR_main_v175 : (⟨S1x3x128x128, .f32⟩ : BufTy).Contents (Elt Ideal) := WR m c main_v175
def nR_main_v176 : (⟨S3x128x128, .f32⟩ : BufTy).Contents (Elt Ideal) := WR m c main_v176
def nR_main_v177 : (⟨S128x50000, .f32⟩ : BufTy).Contents (Elt Ideal) := WR m c main_v177
def nR_main_v178 : (⟨S128x128, .f32⟩ : BufTy).Contents (Elt Ideal) := WR m c main_v178
def nR_main_cst_29 : (⟨S_, .f32⟩ : BufTy).Contents (Elt Ideal) := WR m c main_cst_29
def nR_main_v179 : (⟨S128x128, .f32⟩ : BufTy).Contents (Elt Ideal) := WR m c main_v179
def nR_main_v180 : (⟨S128x128, .f32⟩ : BufTy).Contents (Elt Ideal) := WR m c main_v180
def nR_main_v181 : (⟨S128x128, .f32⟩ : BufTy).Contents (Elt Ideal) := WR m c main_v181
def nR_main_v182 : (⟨S1x128x128, .f32⟩ : BufTy).Contents (Elt Ideal) := WR m c main_v182
def nR_main_v183 : (⟨S128x128, .f32⟩ : BufTy).Contents (Elt Ideal) := WR m c main_v183
def nR_main_v184 : (⟨S128x128, .f32⟩ : BufTy).Contents (Elt Ideal) := WR m c main_v184
def nR_main_v185 : (⟨S128x128, .f32⟩ : BufTy).Contents (Elt Ideal) := WR m c main_v185
def nR_main_cst_30 : (⟨S_, .f32⟩ : BufTy).Contents (Elt Ideal) := WR m c main_cst_30
def nR_main_v186 : (⟨S128x128, .f32⟩ : BufTy).Contents (Elt Ideal) := WR m c main_v186
def nR_main_v187 : (⟨S128x128, .f32⟩ : BufTy).Contents (Elt Ideal) := WR m c main_v187
def nR_main_v188 : (⟨S128x128, .f32⟩ : BufTy).Contents (Elt Ideal) := WR m c main_v188
def nR_main_v189 : (⟨S128x128, .f32⟩ : BufTy).Contents (Elt Ideal) := WR m c main_v189
def nR_main_v190 : (⟨S1x128x128, .f32⟩ : BufTy).Contents (Elt Ideal) := WR m c main_v190
def nR_main_v191 : (⟨S128x128, .f32⟩ : BufTy).Contents (Elt Ideal) := WR m c main_v191
def nR_main_v192 : (⟨S128x128, .f32⟩ : BufTy).Contents (Elt Ideal) := WR m c main_v192
def nR_main_v193 : (⟨S128x128, .f32⟩ : BufTy).Contents (Elt Ideal) := WR m c main_v193
def nR_main_cst_31 : (⟨S_, .f32⟩ : BufTy).Contents (Elt Ideal) := WR m c main_cst_31
def nR_main_v194 : (⟨S128x128, .f32⟩ : BufTy).Contents (Elt Ideal) := WR m c main_v194
def nR_main_v195 : (⟨S128x128, .f32⟩ : BufTy).Contents (Elt Ideal) := WR m c main_v195
def nR_main_v196 : (⟨S128x128, .f32⟩ : BufTy).Contents (Elt Ideal) := WR m c main_v196
def nR_main_v197 : (⟨S128x128, .f32⟩ : BufTy).Contents (Elt Ideal) := WR m c main_v197
def nR_main_v198 : (⟨S1x128x128, .f32⟩ : BufTy).Contents (Elt Ideal) := WR m c main_v198
def nR_main_v199 : (⟨S128x128, .f32⟩ : BufTy).Contents (Elt Ideal) := WR m c main_v199
def nR_main_v200 : (⟨S128x128, .f32⟩ : BufTy).Contents (Elt Ideal) := WR m c main_v200
def nR_main_v201 : (⟨S128x128, .f32⟩ : BufTy).Contents (Elt Ideal) := WR m c main_v201
def nR_main_cst_32 : (⟨S_, .f32⟩ : BufTy).Contents (Elt Ideal) := WR m c main_cst_32
def nR_main_v202 : (⟨S128x128, .f32⟩ : BufTy).Contents (Elt Ideal) := WR m c main_v202
def nR_main_v203 : (⟨S128x128, .f32⟩ : BufTy).Contents (Elt Ideal) := WR m c main_v203
def nR_main_v204 : (⟨S128x128, .f32⟩ : BufTy).Contents (Elt Ideal) := WR m c main_v204
def nR_main_v205 : (⟨S128x128, .f32⟩ : BufTy).Contents (Elt Ideal) := WR m c main_v205
def nR_main_v206 : (⟨S50000x128, .f32⟩ : BufTy).Contents (Elt Ideal) := WR m c main_v206
def nR_main_cst_33 : (⟨S_, .f32⟩ : BufTy).Contents (Elt Ideal) := WR m c main_cst_33
def nR_main_v207 : (⟨S50000x128, .f32⟩ : BufTy).Contents (Elt Ideal) := WR m c main_v207
def nR_main_v208 : (⟨S50000x128, .f32⟩ : BufTy).Contents (Elt Ideal) := WR m c main_v208
def nR_main_v209 : (⟨S50000x128, .f32⟩ : BufTy).Contents (Elt Ideal) := WR m c main_v209
def nR_main_v210 : (⟨S100000x128, .f32⟩ : BufTy).Contents (Elt Ideal) := WR m c main_v210
def nR_main_v211 : (⟨S100000x128, .f32⟩ : BufTy).Contents (Elt Ideal) := WR m c main_v211
def nR_main_v212 : (⟨S50000x128, .f32⟩ : BufTy).Contents (Elt Ideal) := WR m c main_v212
def nR_main_v213 : (⟨S50000x128, .f32⟩ : BufTy).Contents (Elt Ideal) := WR m c main_v213
def nR_main_cst_34 : (⟨S_, .f32⟩ : BufTy).Contents (Elt Ideal) := WR m c main_cst_34
def nR_main_v214 : (⟨S100000x128, .f32⟩ : BufTy).Contents (Elt Ideal) := WR m c main_v214
def nR_main_v215 : (⟨S100000x128, .f32⟩ : BufTy).Contents (Elt Ideal) := WR m c main_v215
def nR_main_v216 : (⟨S100000x128, .f32⟩ : BufTy).Contents (Elt Ideal) := WR m c main_v216
def nR_main_v217 : (⟨S100000x128, .f32⟩ : BufTy).Contents (Elt Ideal) := WR m c main_v217
def nR_main_cst_35 : (⟨S_, .f32⟩ : BufTy).Contents (Elt Ideal) := WR m c main_cst_35
def nR_main_v218 : (⟨S50000x128, .f32⟩ : BufTy).Contents (Elt Ideal) := WR m c main_v218
def nR_main_v219 : (⟨S50000x128, .f32⟩ : BufTy).Contents (Elt Ideal) := WR m c main_v219
def nR_main_v220 : (⟨S50000x128, .f32⟩ : BufTy).Contents (Elt Ideal) := WR m c main_v220
def nR_main_v221 : (⟨S50000x128, .f32⟩ : BufTy).Contents (Elt Ideal) := WR m c main_v221
def nR_main_c_36 : (⟨S_, .i32⟩ : BufTy).Contents (Elt Ideal) := WR m c main_c_36
def nR_main_v222 : (⟨S4096, .i32⟩ : BufTy).Contents (Elt Ideal) := WR m c main_v222
def nR_main_v223 : (⟨S4096, .i1⟩ : BufTy).Contents (Elt Ideal) := WR m c main_v223
def nR_main_c_37 : (⟨S_, .i32⟩ : BufTy).Contents (Elt Ideal) := WR m c main_c_37
def nR_main_v224 : (⟨S4096, .i32⟩ : BufTy).Contents (Elt Ideal) := WR m c main_v224
def nR_main_v225 : (⟨S4096, .i32⟩ : BufTy).Contents (Elt Ideal) := WR m c main_v225
def nR_main_v226 : (⟨S4096, .i32⟩ : BufTy).Contents (Elt Ideal) := WR m c main_v226
def nR_main_v227 : (⟨S4096x1, .i32⟩ : BufTy).Contents (Elt Ideal) := WR m c main_v227
def nR_main_v228 : (⟨S4096x128, .f32⟩ : BufTy).Contents (Elt Ideal) := WR m c main_v228
def nR_main_c_38 : (⟨S_, .i32⟩ : BufTy).Contents (Elt Ideal) := WR m c main_c_38
def nR_main_v229 : (⟨S4096, .i32⟩ : BufTy).Contents (Elt Ideal) := WR m c main_v229
def nR_main_v230 : (⟨S4096, .i1⟩ : BufTy).Contents (Elt Ideal) := WR m c main_v230
def nR_main_c_39 : (⟨S_, .i32⟩ : BufTy).Contents (Elt Ideal) := WR m c main_c_39
def nR_main_v231 : (⟨S4096, .i32⟩ : BufTy).Contents (Elt Ideal) := WR m c main_v231
def nR_main_v232 : (⟨S4096, .i32⟩ : BufTy).Contents (Elt Ideal) := WR m c main_v232
def nR_main_v233 : (⟨S4096, .i32⟩ : BufTy).Contents (Elt Ideal) := WR m c main_v233
def nR_main_v234 : (⟨S4096x1, .i32⟩ : BufTy).Contents (Elt Ideal) := WR m c main_v234
def nR_main_v235 : (⟨S4096x128, .f32⟩ : BufTy).Contents (Elt Ideal) := WR m c main_v235
def nR_main_v236 : (⟨S4096x128, .f32⟩ : BufTy).Contents (Elt Ideal) := WR m c main_v236
def nR_main_cst_40 : (⟨S_, .f32⟩ : BufTy).Contents (Elt Ideal) := WR m c main_cst_40
def nR_main_v237 : (⟨S4096, .f32⟩ : BufTy).Contents (Elt Ideal) := WR m c main_v237
def nR_main_v238 : (⟨S4096, .i32⟩ : BufTy).Contents (Elt Ideal) := WR m c main_v238
def nR_main_v239 : (⟨S4096, .i32⟩ : BufTy).Contents (Elt Ideal) := WR m c main_v239
def nR_main_c_41 : (⟨S_, .i32⟩ : BufTy).Contents (Elt Ideal) := WR m c main_c_41
def nR_main_v240 : (⟨S4096, .i32⟩ : BufTy).Contents (Elt Ideal) := WR m c main_v240
def nR_main_v241 : (⟨S4096, .i1⟩ : BufTy).Contents (Elt Ideal) := WR m c main_v241
def nR_main_c_42 : (⟨S_, .i32⟩ : BufTy).Contents (Elt Ideal) := WR m c main_c_42
def nR_main_v242 : (⟨S4096, .i32⟩ : BufTy).Contents (Elt Ideal) := WR m c main_v242
def nR_main_v243 : (⟨S4096, .i32⟩ : BufTy).Contents (Elt Ideal) := WR m c main_v243
def nR_main_v244 : (⟨S4096, .i32⟩ : BufTy).Contents (Elt Ideal) := WR m c main_v244
def nR_main_v245 : (⟨S4096x1, .i32⟩ : BufTy).Contents (Elt Ideal) := WR m c main_v245
def nR_main_v246 : (⟨S4096x128, .f32⟩ : BufTy).Contents (Elt Ideal) := WR m c main_v246
def nR_main_call2_v0 : (⟨S4096x128, .f32⟩ : BufTy).Contents (Elt Ideal) := WR m c main_call2_v0
def nR_main_call2_cst : (⟨S_, .f32⟩ : BufTy).Contents (Elt Ideal) := WR m c main_call2_cst
def nR_main_call2_v1 : (⟨S4096, .f32⟩ : BufTy).Contents (Elt Ideal) := WR m c main_call2_v1
def nR_main_call2_v2 : (⟨S4096x1, .f32⟩ : BufTy).Contents (Elt Ideal) := WR m c main_call2_v2
def nR_main_v247 : (⟨S4096x1, .f32⟩ : BufTy).Contents (Elt Ideal) := WR m c main_v247
def nR_main_cst_43 : (⟨S_, .f32⟩ : BufTy).Contents (Elt Ideal) := WR m c main_cst_43
def nR_main_v248 : (⟨S4096x1, .f32⟩ : BufTy).Contents (Elt Ideal) := WR m c main_v248
def nR_main_v249 : (⟨S4096x1, .f32⟩ : BufTy).Contents (Elt Ideal) := WR m c main_v249
def nR_main_v250 : (⟨S4096x128, .f32⟩ : BufTy).Contents (Elt Ideal) := WR m c main_v250
def nR_main_v251 : (⟨S4096x128, .f32⟩ : BufTy).Contents (Elt Ideal) := WR m c main_v251
def nR_main_v252 : (⟨S1x128x128, .f32⟩ : BufTy).Contents (Elt Ideal) := WR m c main_v252
def nR_main_v253 : (⟨S128x128, .f32⟩ : BufTy).Contents (Elt Ideal) := WR m c main_v253
def nR_main_v254 : (⟨S4096x128, .f32⟩ : BufTy).Contents (Elt Ideal) := WR m c main_v254
def nR_main_c_44 : (⟨S_, .i32⟩ : BufTy).Contents (Elt Ideal) := WR m c main_c_44
def nR_main_v255 : (⟨S4096, .i32⟩ : BufTy).Contents (Elt Ideal) := WR m c main_v255
def nR_main_v256 : (⟨S4096, .i1⟩ : BufTy).Contents (Elt Ideal) := WR m c main_v256
def nR_main_c_45 : (⟨S_, .i32⟩ : BufTy).Contents (Elt Ideal) := WR m c main_c_45
def nR_main_v257 : (⟨S4096, .i32⟩ : BufTy).Contents (Elt Ideal) := WR m c main_v257
def nR_main_v258 : (⟨S4096, .i32⟩ : BufTy).Contents (Elt Ideal) := WR m c main_v258
def nR_main_v259 : (⟨S4096, .i32⟩ : BufTy).Contents (Elt Ideal) := WR m c main_v259
def nR_main_v260 : (⟨S4096x1, .i32⟩ : BufTy).Contents (Elt Ideal) := WR m c main_v260
def nR_main_v261 : (⟨S4096x128, .f32⟩ : BufTy).Contents (Elt Ideal) := WR m c main_v261
def nR_main_call3_v0 : (⟨S4096x128, .f32⟩ : BufTy).Contents (Elt Ideal) := WR m c main_call3_v0
def nR_main_call3_cst : (⟨S_, .f32⟩ : BufTy).Contents (Elt Ideal) := WR m c main_call3_cst
def nR_main_call3_v1 : (⟨S4096, .f32⟩ : BufTy).Contents (Elt Ideal) := WR m c main_call3_v1
def nR_main_call3_v2 : (⟨S4096x1, .f32⟩ : BufTy).Contents (Elt Ideal) := WR m c main_call3_v2
def nR_main_v262 : (⟨S4096x1, .f32⟩ : BufTy).Contents (Elt Ideal) := WR m c main_v262
def nR_main_cst_46 : (⟨S_, .f32⟩ : BufTy).Contents (Elt Ideal) := WR m c main_cst_46
def nR_main_v263 : (⟨S4096x1, .f32⟩ : BufTy).Contents (Elt Ideal) := WR m c main_v263
def nR_main_v264 : (⟨S4096x1, .f32⟩ : BufTy).Contents (Elt Ideal) := WR m c main_v264
def nR_main_v265 : (⟨S4096x128, .f32⟩ : BufTy).Contents (Elt Ideal) := WR m c main_v265
def nR_main_v266 : (⟨S4096x128, .f32⟩ : BufTy).Contents (Elt Ideal) := WR m c main_v266
def nR_main_v267 : (⟨S4096x128, .f32⟩ : BufTy).Contents (Elt Ideal) := WR m c main_v267
def nR_main_cst_47 : (⟨S_, .f32⟩ : BufTy).Contents (Elt Ideal) := WR m c main_cst_47
def nR_main_v268 : (⟨S4096, .f32⟩ : BufTy).Contents (Elt Ideal) := WR m c main_v268
def nR_main_cst_48 : (⟨S_, .f32⟩ : BufTy).Contents (Elt Ideal) := WR m c main_cst_48
def nR_main_v269 : (⟨S4096, .f32⟩ : BufTy).Contents (Elt Ideal) := WR m c main_v269
def nR_main_v270 : (⟨S4096, .f32⟩ : BufTy).Contents (Elt Ideal) := WR m c main_v270
def nR_main_v271 : (⟨S4096, .f32⟩ : BufTy).Contents (Elt Ideal) := WR m c main_v271
def nR_main_v272 : (⟨S128x4096, .f32⟩ : BufTy).Contents (Elt Ideal) := WR m c main_v272
def nR_main_v273 : (⟨S4096x4096, .f32⟩ : BufTy).Contents (Elt Ideal) := WR m c main_v273
def nR_main_cst_49 : (⟨S_, .f32⟩ : BufTy).Contents (Elt Ideal) := WR m c main_cst_49
def nR_main_v274 : (⟨S4096x4096, .f32⟩ : BufTy).Contents (Elt Ideal) := WR m c main_v274
def nR_main_v275 : (⟨S4096x4096, .f32⟩ : BufTy).Contents (Elt Ideal) := WR m c main_v275
def nR_main_v276 : (⟨S4096x4096, .f32⟩ : BufTy).Contents (Elt Ideal) := WR m c main_v276
def nR_main_cst_50 : (⟨S_, .f32⟩ : BufTy).Contents (Elt Ideal) := WR m c main_cst_50
def nR_main_v277 : (⟨S4096, .f32⟩ : BufTy).Contents (Elt Ideal) := WR m c main_v277
def nR_main_cst_51 : (⟨S_, .f32⟩ : BufTy).Contents (Elt Ideal) := WR m c main_cst_51
def nR_main_v278 : (⟨S4096, .f32⟩ : BufTy).Contents (Elt Ideal) := WR m c main_v278
def nR_main_v279 : (⟨S4096, .f32⟩ : BufTy).Contents (Elt Ideal) := WR m c main_v279
def nR_main_v280 : (⟨S4096, .f32⟩ : BufTy).Contents (Elt Ideal) := WR m c main_v280
def nR_main_cst_52 : (⟨S_, .f32⟩ : BufTy).Contents (Elt Ideal) := WR m c main_cst_52
def nR_main_v281 : (⟨S4096, .f32⟩ : BufTy).Contents (Elt Ideal) := WR m c main_v281
def nR_main_v282 : (⟨S4096, .f32⟩ : BufTy).Contents (Elt Ideal) := WR m c main_v282
def nR_main_v283 : (⟨S4096, .f32⟩ : BufTy).Contents (Elt Ideal) := WR m c main_v283
def nR_main_v284 : (⟨S4096, .f32⟩ : BufTy).Contents (Elt Ideal) := WR m c main_v284
def nR_main_cst_53 : (⟨S_, .f32⟩ : BufTy).Contents (Elt Ideal) := WR m c main_cst_53
def nR_main_v285 : (⟨S_, .f32⟩ : BufTy).Contents (Elt Ideal) := WR m c main_v285
def nR_main_cst_54 : (⟨S_, .f32⟩ : BufTy).Contents (Elt Ideal) := WR m c main_cst_54
def nR_main_v286 : (⟨S_, .f32⟩ : BufTy).Contents (Elt Ideal) := WR m c main_v286
def nR_main_c_55 : (⟨S_, .i32⟩ : BufTy).Contents (Elt Ideal) := WR m c main_c_55
def nR_main_v287 : (⟨S4096, .i32⟩ : BufTy).Contents (Elt Ideal) := WR m c main_v287
def nR_main_v288 : (⟨S4096, .i1⟩ : BufTy).Contents (Elt Ideal) := WR m c main_v288
def nR_main_c_56 : (⟨S_, .i32⟩ : BufTy).Contents (Elt Ideal) := WR m c main_c_56
def nR_main_v289 : (⟨S4096, .i32⟩ : BufTy).Contents (Elt Ideal) := WR m c main_v289
def nR_main_v290 : (⟨S4096, .i32⟩ : BufTy).Contents (Elt Ideal) := WR m c main_v290
def nR_main_v291 : (⟨S4096, .i32⟩ : BufTy).Contents (Elt Ideal) := WR m c main_v291
def nR_main_v292 : (⟨S4096x1, .i32⟩ : BufTy).Contents (Elt Ideal) := WR m c main_v292
def nR_main_v293 : (⟨S4096x128, .f32⟩ : BufTy).Contents (Elt Ideal) := WR m c main_v293
def nR_main_call4_v0 : (⟨S4096x128, .f32⟩ : BufTy).Contents (Elt Ideal) := WR m c main_call4_v0
def nR_main_call4_cst : (⟨S_, .f32⟩ : BufTy).Contents (Elt Ideal) := WR m c main_call4_cst
def nR_main_call4_v1 : (⟨S4096, .f32⟩ : BufTy).Contents (Elt Ideal) := WR m c main_call4_v1
def nR_main_call4_v2 : (⟨S4096x1, .f32⟩ : BufTy).Contents (Elt Ideal) := WR m c main_call4_v2
def nR_main_v294 : (⟨S4096x1, .f32⟩ : BufTy).Contents (Elt Ideal) := WR m c main_v294
def nR_main_cst_57 : (⟨S_, .f32⟩ : BufTy).Contents (Elt Ideal) := WR m c main_cst_57
def nR_main_v295 : (⟨S4096x1, .f32⟩ : BufTy).Contents (Elt Ideal) := WR m c main_v295
def nR_main_v296 : (⟨S4096x1, .f32⟩ : BufTy).Contents (Elt Ideal) := WR m c main_v296
def nR_main_v297 : (⟨S4096x128, .f32⟩ : BufTy).Contents (Elt Ideal) := WR m c main_v297
def nR_main_v298 : (⟨S4096x128, .f32⟩ : BufTy).Contents (Elt Ideal) := WR m c main_v298
def nR_main_v299 : (⟨S1x128x128, .f32⟩ : BufTy).Contents (Elt Ideal) := WR m c main_v299
def nR_main_v300 : (⟨S128x128, .f32⟩ : BufTy).Contents (Elt Ideal) := WR m c main_v300
def nR_main_v301 : (⟨S4096x128, .f32⟩ : BufTy).Contents (Elt Ideal) := WR m c main_v301
def nR_main_c_58 : (⟨S_, .i32⟩ : BufTy).Contents (Elt Ideal) := WR m c main_c_58
def nR_main_v302 : (⟨S4096, .i32⟩ : BufTy).Contents (Elt Ideal) := WR m c main_v302
def nR_main_v303 : (⟨S4096, .i1⟩ : BufTy).Contents (Elt Ideal) := WR m c main_v303
def nR_main_c_59 : (⟨S_, .i32⟩ : BufTy).Contents (Elt Ideal) := WR m c main_c_59
def nR_main_v304 : (⟨S4096, .i32⟩ : BufTy).Contents (Elt Ideal) := WR m c main_v304
def nR_main_v305 : (⟨S4096, .i32⟩ : BufTy).Contents (Elt Ideal) := WR m c main_v305
def nR_main_v306 : (⟨S4096, .i32⟩ : BufTy).Contents (Elt Ideal) := WR m c main_v306
def nR_main_v307 : (⟨S4096x1, .i32⟩ : BufTy).Contents (Elt Ideal) := WR m c main_v307
def nR_main_v308 : (⟨S4096x128, .f32⟩ : BufTy).Contents (Elt Ideal) := WR m c main_v308
def nR_main_call5_v0 : (⟨S4096x128, .f32⟩ : BufTy).Contents (Elt Ideal) := WR m c main_call5_v0
def nR_main_call5_cst : (⟨S_, .f32⟩ : BufTy).Contents (Elt Ideal) := WR m c main_call5_cst
def nR_main_call5_v1 : (⟨S4096, .f32⟩ : BufTy).Contents (Elt Ideal) := WR m c main_call5_v1
def nR_main_call5_v2 : (⟨S4096x1, .f32⟩ : BufTy).Contents (Elt Ideal) := WR m c main_call5_v2
def nR_main_v309 : (⟨S4096x1, .f32⟩ : BufTy).Contents (Elt Ideal) := WR m c main_v309
def nR_main_cst_60 : (⟨S_, .f32⟩ : BufTy).Contents (Elt Ideal) := WR m c main_cst_60
def nR_main_v310 : (⟨S4096x1, .f32⟩ : BufTy).Contents (Elt Ideal) := WR m c main_v310
def nR_main_v311 : (⟨S4096x1, .f32⟩ : BufTy).Contents (Elt Ideal) := WR m c main_v311
def nR_main_v312 : (⟨S4096x128, .f32⟩ : BufTy).Contents (Elt Ideal) := WR m c main_v312
def nR_main_v313 : (⟨S4096x128, .f32⟩ : BufTy).Contents (Elt Ideal) := WR m c main_v313
def nR_main_v314 : (⟨S4096x128, .f32⟩ : BufTy).Contents (Elt Ideal) := WR m c main_v314
def nR_main_cst_61 : (⟨S_, .f32⟩ : BufTy).Contents (Elt Ideal) := WR m c main_cst_61
def nR_main_v315 : (⟨S4096, .f32⟩ : BufTy).Contents (Elt Ideal) := WR m c main_v315
def nR_main_cst_62 : (⟨S_, .f32⟩ : BufTy).Contents (Elt Ideal) := WR m c main_cst_62
def nR_main_v316 : (⟨S4096, .f32⟩ : BufTy).Contents (Elt Ideal) := WR m c main_v316
def nR_main_v317 : (⟨S4096, .f32⟩ : BufTy).Contents (Elt Ideal) := WR m c main_v317
def nR_main_v318 : (⟨S4096, .f32⟩ : BufTy).Contents (Elt Ideal) := WR m c main_v318
def nR_main_v319 : (⟨S128x4096, .f32⟩ : BufTy).Contents (Elt Ideal) := WR m c main_v319
def nR_main_v320 : (⟨S4096x4096, .f32⟩ : BufTy).Contents (Elt Ideal) := WR m c main_v320
def nR_main_cst_63 : (⟨S_, .f32⟩ : BufTy).Contents (Elt Ideal) := WR m c main_cst_63
def nR_main_v321 : (⟨S4096x4096, .f32⟩ : BufTy).Contents (Elt Ideal) := WR m c main_v321
def nR_main_v322 : (⟨S4096x4096, .f32⟩ : BufTy).Contents (Elt Ideal) := WR m c main_v322
def nR_main_v323 : (⟨S4096x4096, .f32⟩ : BufTy).Contents (Elt Ideal) := WR m c main_v323
def nR_main_cst_64 : (⟨S_, .f32⟩ : BufTy).Contents (Elt Ideal) := WR m c main_cst_64
def nR_main_v324 : (⟨S4096, .f32⟩ : BufTy).Contents (Elt Ideal) := WR m c main_v324
def nR_main_cst_65 : (⟨S_, .f32⟩ : BufTy).Contents (Elt Ideal) := WR m c main_cst_65
def nR_main_v325 : (⟨S4096, .f32⟩ : BufTy).Contents (Elt Ideal) := WR m c main_v325
def nR_main_v326 : (⟨S4096, .f32⟩ : BufTy).Contents (Elt Ideal) := WR m c main_v326
def nR_main_v327 : (⟨S4096, .f32⟩ : BufTy).Contents (Elt Ideal) := WR m c main_v327
def nR_main_cst_66 : (⟨S_, .f32⟩ : BufTy).Contents (Elt Ideal) := WR m c main_cst_66
def nR_main_v328 : (⟨S4096, .f32⟩ : BufTy).Contents (Elt Ideal) := WR m c main_v328
def nR_main_v329 : (⟨S4096, .f32⟩ : BufTy).Contents (Elt Ideal) := WR m c main_v329
def nR_main_v330 : (⟨S4096, .f32⟩ : BufTy).Contents (Elt Ideal) := WR m c main_v330
def nR_main_v331 : (⟨S4096, .f32⟩ : BufTy).Contents (Elt Ideal) := WR m c main_v331
def nR_main_cst_67 : (⟨S_, .f32⟩ : BufTy).Contents (Elt Ideal) := WR m c main_cst_67
def nR_main_v332 : (⟨S_, .f32⟩ : BufTy).Contents (Elt Ideal) := WR m c main_v332
def nR_main_v333 : (⟨S_, .f32⟩ : BufTy).Contents (Elt Ideal) := WR m c main_v333
def nR_main_c_68 : (⟨S_, .i32⟩ : BufTy).Contents (Elt Ideal) := WR m c main_c_68
def nR_main_v334 : (⟨S4096, .i32⟩ : BufTy).Contents (Elt Ideal) := WR m c main_v334
def nR_main_v335 : (⟨S4096, .i1⟩ : BufTy).Contents (Elt Ideal) := WR m c main_v335
def nR_main_c_69 : (⟨S_, .i32⟩ : BufTy).Contents (Elt Ideal) := WR m c main_c_69
def nR_main_v336 : (⟨S4096, .i32⟩ : BufTy).Contents (Elt Ideal) := WR m c main_v336
def nR_main_v337 : (⟨S4096, .i32⟩ : BufTy).Contents (Elt Ideal) := WR m c main_v337
def nR_main_v338 : (⟨S4096, .i32⟩ : BufTy).Contents (Elt Ideal) := WR m c main_v338
def nR_main_v339 : (⟨S4096x1, .i32⟩ : BufTy).Contents (Elt Ideal) := WR m c main_v339
def nR_main_v340 : (⟨S4096x128, .f32⟩ : BufTy).Contents (Elt Ideal) := WR m c main_v340
def nR_main_call6_v0 : (⟨S4096x128, .f32⟩ : BufTy).Contents (Elt Ideal) := WR m c main_call6_v0
def nR_main_call6_cst : (⟨S_, .f32⟩ : BufTy).Contents (Elt Ideal) := WR m c main_call6_cst
def nR_main_call6_v1 : (⟨S4096, .f32⟩ : BufTy).Contents (Elt Ideal) := WR m c main_call6_v1
def nR_main_call6_v2 : (⟨S4096x1, .f32⟩ : BufTy).Contents (Elt Ideal) := WR m c main_call6_v2
def nR_main_v341 : (⟨S4096x1, .f32⟩ : BufTy).Contents (Elt Ideal) := WR m c main_v341
def nR_main_cst_70 : (⟨S_, .f32⟩ : BufTy).Contents (Elt Ideal) := WR m c main_cst_70
def nR_main_v342 : (⟨S4096x1, .f32⟩ : BufTy).Contents (Elt Ideal) := WR m c main_v342
def nR_main_v343 : (⟨S4096x1, .f32⟩ : BufTy).Contents (Elt Ideal) := WR m c main_v343
def nR_main_v344 : (⟨S4096x128, .f32⟩ : BufTy).Contents (Elt Ideal) := WR m c main_v344
def nR_main_v345 : (⟨S4096x128, .f32⟩ : BufTy).Contents (Elt Ideal) := WR m c main_v345
def nR_main_v346 : (⟨S1x128x128, .f32⟩ : BufTy).Contents (Elt Ideal) := WR m c main_v346
def nR_main_v347 : (⟨S128x128, .f32⟩ : BufTy).Contents (Elt Ideal) := WR m c main_v347
def nR_main_v348 : (⟨S4096x128, .f32⟩ : BufTy).Contents (Elt Ideal) := WR m c main_v348
def nR_main_c_71 : (⟨S_, .i32⟩ : BufTy).Contents (Elt Ideal) := WR m c main_c_71
def nR_main_v349 : (⟨S4096, .i32⟩ : BufTy).Contents (Elt Ideal) := WR m c main_v349
def nR_main_v350 : (⟨S4096, .i1⟩ : BufTy).Contents (Elt Ideal) := WR m c main_v350
def nR_main_c_72 : (⟨S_, .i32⟩ : BufTy).Contents (Elt Ideal) := WR m c main_c_72
def nR_main_v351 : (⟨S4096, .i32⟩ : BufTy).Contents (Elt Ideal) := WR m c main_v351
def nR_main_v352 : (⟨S4096, .i32⟩ : BufTy).Contents (Elt Ideal) := WR m c main_v352
def nR_main_v353 : (⟨S4096, .i32⟩ : BufTy).Contents (Elt Ideal) := WR m c main_v353
def nR_main_v354 : (⟨S4096x1, .i32⟩ : BufTy).Contents (Elt Ideal) := WR m c main_v354
def nR_main_v355 : (⟨S4096x128, .f32⟩ : BufTy).Contents (Elt Ideal) := WR m c main_v355
def nR_main_call7_v0 : (⟨S4096x128, .f32⟩ : BufTy).Contents (Elt Ideal) := WR m c main_call7_v0
def nR_main_call7_cst : (⟨S_, .f32⟩ : BufTy).Contents (Elt Ideal) := WR m c main_call7_cst
def nR_main_call7_v1 : (⟨S4096, .f32⟩ : BufTy).Contents (Elt Ideal) := WR m c main_call7_v1
def nR_main_call7_v2 : (⟨S4096x1, .f32⟩ : BufTy).Contents (Elt Ideal) := WR m c main_call7_v2
def nR_main_v356 : (⟨S4096x1, .f32⟩ : BufTy).Contents (Elt Ideal) := WR m c main_v356
def nR_main_cst_73 : (⟨S_, .f32⟩ : BufTy).Contents (Elt Ideal) := WR m c main_cst_73
def nR_main_v357 : (⟨S4096x1, .f32⟩ : BufTy).Contents (Elt Ideal) := WR m c main_v357
def nR_main_v358 : (⟨S4096x1, .f32⟩ : BufTy).Contents (Elt Ideal) := WR m c main_v358
def nR_main_v359 : (⟨S4096x128, .f32⟩ : BufTy).Contents (Elt Ideal) := WR m c main_v359
def nR_main_v360 : (⟨S4096x128, .f32⟩ : BufTy).Contents (Elt Ideal) := WR m c main_v360
def nR_main_v361 : (⟨S4096x128, .f32⟩ : BufTy).Contents (Elt Ideal) := WR m c main_v361
def nR_main_cst_74 : (⟨S_, .f32⟩ : BufTy).Contents (Elt Ideal) := WR m c main_cst_74
def nR_main_v362 : (⟨S4096, .f32⟩ : BufTy).Contents (Elt Ideal) := WR m c main_v362
def nR_main_cst_75 : (⟨S_, .f32⟩ : BufTy).Contents (Elt Ideal) := WR m c main_cst_75
def nR_main_v363 : (⟨S4096, .f32⟩ : BufTy).Contents (Elt Ideal) := WR m c main_v363
def nR_main_v364 : (⟨S4096, .f32⟩ : BufTy).Contents (Elt Ideal) := WR m c main_v364
def nR_main_v365 : (⟨S4096, .f32⟩ : BufTy).Contents (Elt Ideal) := WR m c main_v365
def nR_main_v366 : (⟨S128x4096, .f32⟩ : BufTy).Contents (Elt Ideal) := WR m c main_v366
def nR_main_v367 : (⟨S4096x4096, .f32⟩ : BufTy).Contents (Elt Ideal) := WR m c main_v367
def nR_main_cst_76 : (⟨S_, .f32⟩ : BufTy).Contents (Elt Ideal) := WR m c main_cst_76
def nR_main_v368 : (⟨S4096x4096, .f32⟩ : BufTy).Contents (Elt Ideal) := WR m c main_v368
def nR_main_v369 : (⟨S4096x4096, .f32⟩ : BufTy).Contents (Elt Ideal) := WR m c main_v369
def nR_main_v370 : (⟨S4096x4096, .f32⟩ : BufTy).Contents (Elt Ideal) := WR m c main_v370
def nR_main_cst_77 : (⟨S_, .f32⟩ : BufTy).Contents (Elt Ideal) := WR m c main_cst_77
def nR_main_v371 : (⟨S4096, .f32⟩ : BufTy).Contents (Elt Ideal) := WR m c main_v371
def nR_main_cst_78 : (⟨S_, .f32⟩ : BufTy).Contents (Elt Ideal) := WR m c main_cst_78
def nR_main_v372 : (⟨S4096, .f32⟩ : BufTy).Contents (Elt Ideal) := WR m c main_v372
def nR_main_v373 : (⟨S4096, .f32⟩ : BufTy).Contents (Elt Ideal) := WR m c main_v373
def nR_main_v374 : (⟨S4096, .f32⟩ : BufTy).Contents (Elt Ideal) := WR m c main_v374
def nR_main_cst_79 : (⟨S_, .f32⟩ : BufTy).Contents (Elt Ideal) := WR m c main_cst_79
def nR_main_v375 : (⟨S4096, .f32⟩ : BufTy).Contents (Elt Ideal) := WR m c main_v375
def nR_main_v376 : (⟨S4096, .f32⟩ : BufTy).Contents (Elt Ideal) := WR m c main_v376
def nR_main_v377 : (⟨S4096, .f32⟩ : BufTy).Contents (Elt Ideal) := WR m c main_v377
def nR_main_v378 : (⟨S4096, .f32⟩ : BufTy).Contents (Elt Ideal) := WR m c main_v378
def nR_main_cst_80 : (⟨S_, .f32⟩ : BufTy).Contents (Elt Ideal) := WR m c main_cst_80
def nR_main_v379 : (⟨S_, .f32⟩ : BufTy).Contents (Elt Ideal) := WR m c main_v379
def nR_main_v380 : (⟨S_, .f32⟩ : BufTy).Contents (Elt Ideal) := WR m c main_v380
def nR_main_c_81 : (⟨S_, .i32⟩ : BufTy).Contents (Elt Ideal) := WR m c main_c_81
def nR_main_v381 : (⟨S4096, .i32⟩ : BufTy).Contents (Elt Ideal) := WR m c main_v381
def nR_main_v382 : (⟨S4096, .i1⟩ : BufTy).Contents (Elt Ideal) := WR m c main_v382
def nR_main_c_82 : (⟨S_, .i32⟩ : BufTy).Contents (Elt Ideal) := WR m c main_c_82
def nR_main_v383 : (⟨S4096, .i32⟩ : BufTy).Contents (Elt Ideal) := WR m c main_v383
def nR_main_v384 : (⟨S4096, .i32⟩ : BufTy).Contents (Elt Ideal) := WR m c main_v384
def nR_main_v385 : (⟨S4096, .i32⟩ : BufTy).Contents (Elt Ideal) := WR m c main_v385
def nR_main_v386 : (⟨S4096x1, .i32⟩ : BufTy).Contents (Elt Ideal) := WR m c main_v386
def nR_main_v387 : (⟨S4096x128, .f32⟩ : BufTy).Contents (Elt Ideal) := WR m c main_v387
def nR_main_call8_v0 : (⟨S4096x128, .f32⟩ : BufTy).Contents (Elt Ideal) := WR m c main_call8_v0
def nR_main_call8_cst : (⟨S_, .f32⟩ : BufTy).Contents (Elt Ideal) := WR m c main_call8_cst
def nR_main_call8_v1 : (⟨S4096, .f32⟩ : BufTy).Contents (Elt Ideal) := WR m c main_call8_v1
def nR_main_call8_v2 : (⟨S4096x1, .f32⟩ : BufTy).Contents (Elt Ideal) := WR m c main_call8_v2
def nR_main_v388 : (⟨S4096x1, .f32⟩ : BufTy).Contents (Elt Ideal) := WR m c main_v388
def nR_main_cst_83 : (⟨S_, .f32⟩ : BufTy).Contents (Elt Ideal) := WR m c main_cst_83
def nR_main_v389 : (⟨S4096x1, .f32⟩ : BufTy).Contents (Elt Ideal) := WR m c main_v389
def nR_main_v390 : (⟨S4096x1, .f32⟩ : BufTy).Contents (Elt Ideal) := WR m c main_v390
def nR_main_v391 : (⟨S4096x128, .f32⟩ : BufTy).Contents (Elt Ideal) := WR m c main_v391
def nR_main_v392 : (⟨S4096x128, .f32⟩ : BufTy).Contents (Elt Ideal) := WR m c main_v392
def nR_main_v393 : (⟨S1x128x128, .f32⟩ : BufTy).Contents (Elt Ideal) := WR m c main_v393
def nR_main_v394 : (⟨S128x128, .f32⟩ : BufTy).Contents (Elt Ideal) := WR m c main_v394
def nR_main_v395 : (⟨S4096x128, .f32⟩ : BufTy).Contents (Elt Ideal) := WR m c main_v395
def nR_main_c_84 : (⟨S_, .i32⟩ : BufTy).Contents (Elt Ideal) := WR m c main_c_84
def nR_main_v396 : (⟨S4096, .i32⟩ : BufTy).Contents (Elt Ideal) := WR m c main_v396
def nR_main_v397 : (⟨S4096, .i1⟩ : BufTy).Contents (Elt Ideal) := WR m c main_v397
def nR_main_c_85 : (⟨S_, .i32⟩ : BufTy).Contents (Elt Ideal) := WR m c main_c_85
def nR_main_v398 : (⟨S4096, .i32⟩ : BufTy).Contents (Elt Ideal) := WR m c main_v398
def nR_main_v399 : (⟨S4096, .i32⟩ : BufTy).Contents (Elt Ideal) := WR m c main_v399
def nR_main_v400 : (⟨S4096, .i32⟩ : BufTy).Contents (Elt Ideal) := WR m c main_v400
def nR_main_v401 : (⟨S4096x1, .i32⟩ : BufTy).Contents (Elt Ideal) := WR m c main_v401
def nR_main_v402 : (⟨S4096x128, .f32⟩ : BufTy).Contents (Elt Ideal) := WR m c main_v402
def nR_main_call9_v0 : (⟨S4096x128, .f32⟩ : BufTy).Contents (Elt Ideal) := WR m c main_call9_v0
def nR_main_call9_cst : (⟨S_, .f32⟩ : BufTy).Contents (Elt Ideal) := WR m c main_call9_cst
def nR_main_call9_v1 : (⟨S4096, .f32⟩ : BufTy).Contents (Elt Ideal) := WR m c main_call9_v1
def nR_main_call9_v2 : (⟨S4096x1, .f32⟩ : BufTy).Contents (Elt Ideal) := WR m c main_call9_v2
def nR_main_v403 : (⟨S4096x1, .f32⟩ : BufTy).Contents (Elt Ideal) := WR m c main_v403
def nR_main_cst_86 : (⟨S_, .f32⟩ : BufTy).Contents (Elt Ideal) := WR m c main_cst_86
def nR_main_v404 : (⟨S4096x1, .f32⟩ : BufTy).Contents (Elt Ideal) := WR m c main_v404
def nR_main_v405 : (⟨S4096x1, .f32⟩ : BufTy).Contents (Elt Ideal) := WR m c main_v405
def nR_main_v406 : (⟨S4096x128, .f32⟩ : BufTy).Contents (Elt Ideal) := WR m c main_v406
def nR_main_v407 : (⟨S4096x128, .f32⟩ : BufTy).Contents (Elt Ideal) := WR m c main_v407
def nR_main_v408 : (⟨S4096x128, .f32⟩ : BufTy).Contents (Elt Ideal) := WR m c main_v408
def nR_main_cst_87 : (⟨S_, .f32⟩ : BufTy).Contents (Elt Ideal) := WR m c main_cst_87
def nR_main_v409 : (⟨S4096, .f32⟩ : BufTy).Contents (Elt Ideal) := WR m c main_v409
def nR_main_cst_88 : (⟨S_, .f32⟩ : BufTy).Contents (Elt Ideal) := WR m c main_cst_88
def nR_main_v410 : (⟨S4096, .f32⟩ : BufTy).Contents (Elt Ideal) := WR m c main_v410
def nR_main_v411 : (⟨S4096, .f32⟩ : BufTy).Contents (Elt Ideal) := WR m c main_v411
def nR_main_v412 : (⟨S4096, .f32⟩ : BufTy).Contents (Elt Ideal) := WR m c main_v412
def nR_main_v413 : (⟨S128x4096, .f32⟩ : BufTy).Contents (Elt Ideal) := WR m c main_v413
def nR_main_v414 : (⟨S4096x4096, .f32⟩ : BufTy).Contents (Elt Ideal) := WR m c main_v414
def nR_main_cst_89 : (⟨S_, .f32⟩ : BufTy).Contents (Elt Ideal) := WR m c main_cst_89
def nR_main_v415 : (⟨S4096x4096, .f32⟩ : BufTy).Contents (Elt Ideal) := WR m c main_v415
def nR_main_v416 : (⟨S4096x4096, .f32⟩ : BufTy).Contents (Elt Ideal) := WR m c main_v416
def nR_main_v417 : (⟨S4096x4096, .f32⟩ : BufTy).Contents (Elt Ideal) := WR m c main_v417
def nR_main_cst_90 : (⟨S_, .f32⟩ : BufTy).Contents (Elt Ideal) := WR m c main_cst_90
def nR_main_v418 : (⟨S4096, .f32⟩ : BufTy).Contents (Elt Ideal) := WR m c main_v418
def nR_main_cst_91 : (⟨S_, .f32⟩ : BufTy).Contents (Elt Ideal) := WR m c main_cst_91
def nR_main_v419 : (⟨S4096, .f32⟩ : BufTy).Contents (Elt Ideal) := WR m c main_v419
def nR_main_v420 : (⟨S4096, .f32⟩ : BufTy).Contents (Elt Ideal) := WR m c main_v420
def nR_main_v421 : (⟨S4096, .f32⟩ : BufTy).Contents (Elt Ideal) := WR m c main_v421
def nR_main_cst_92 : (⟨S_, .f32⟩ : BufTy).Contents (Elt Ideal) := WR m c main_cst_92
def nR_main_v422 : (⟨S4096, .f32⟩ : BufTy).Contents (Elt Ideal) := WR m c main_v422
def nR_main_v423 : (⟨S4096, .f32⟩ : BufTy).Contents (Elt Ideal) := WR m c main_v423
def nR_main_v424 : (⟨S4096, .f32⟩ : BufTy).Contents (Elt Ideal) := WR m c main_v424
def nR_main_v425 : (⟨S4096, .f32⟩ : BufTy).Contents (Elt Ideal) := WR m c main_v425
def nR_main_cst_93 : (⟨S_, .f32⟩ : BufTy).Contents (Elt Ideal) := WR m c main_cst_93
def nR_main_v426 : (⟨S_, .f32⟩ : BufTy).Contents (Elt Ideal) := WR m c main_v426
def nR_main_v427 : (⟨S_, .f32⟩ : BufTy).Contents (Elt Ideal) := WR m c main_v427
def nR_main_v428 : (⟨S100000x128, .f32⟩ : BufTy).Contents (Elt Ideal) := WR m c main_v428
def nR_main_cst_94 : (⟨S_, .f32⟩ : BufTy).Contents (Elt Ideal) := WR m c main_cst_94
def nR_main_v429 : (⟨S_, .f32⟩ : BufTy).Contents (Elt Ideal) := WR m c main_v429
def nR_main_v430 : (⟨S50000x128, .f32⟩ : BufTy).Contents (Elt Ideal) := WR m c main_v430
def nR_main_cst_95 : (⟨S_, .f32⟩ : BufTy).Contents (Elt Ideal) := WR m c main_cst_95
def nR_main_v431 : (⟨S_, .f32⟩ : BufTy).Contents (Elt Ideal) := WR m c main_v431
def nR_main_v432 : (⟨S_, .f32⟩ : BufTy).Contents (Elt Ideal) := WR m c main_v432
def nR_main_v433 : (⟨S128x128, .f32⟩ : BufTy).Contents (Elt Ideal) := WR m c main_v433
def nR_main_cst_96 : (⟨S_, .f32⟩ : BufTy).Contents (Elt Ideal) := WR m c main_cst_96
def nR_main_v434 : (⟨S_, .f32⟩ : BufTy).Contents (Elt Ideal) := WR m c main_v434
def nR_main_v435 : (⟨S_, .f32⟩ : BufTy).Contents (Elt Ideal) := WR m c main_v435
def nR_main_v436 : (⟨S128x128, .f32⟩ : BufTy).Contents (Elt Ideal) := WR m c main_v436
def nR_main_cst_97 : (⟨S_, .f32⟩ : BufTy).Contents (Elt Ideal) := WR m c main_cst_97
def nR_main_v437 : (⟨S_, .f32⟩ : BufTy).Contents (Elt Ideal) := WR m c main_v437
def nR_main_v438 : (⟨S_, .f32⟩ : BufTy).Contents (Elt Ideal) := WR m c main_v438

end Cert.ReferenceIdeal.RefRun

end
-- ==== Proof.Br.Agree.lean ====
import proofs.«126270_j6725918785969_1_alg».proof.Proof.KI.KNDefs
import proofs.«126270_j6725918785969_1_alg».proof.Proof.Ref.RNDefs

/-!
# Memories agreeing on the twelve arguments

The two programs are launched from memories that agree on the arguments; so the arguments' final contents, which
are their launch contents in both programs, agree.
-/

set_option maxRecDepth 16384

noncomputable section

namespace Cert.Bridge

open Idealize.ShloMosaic Idealize.ShloMosaic.TcCoe Idealize.ShloMosaic.StableHlo
open Idealize.SL Idealize.SL.Sem
open Cert.KernelIdeal.Fr Cert.ReferenceIdeal.RefRun

/-- The reference's memory holds at each argument what the kernel's memory holds there. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD) (hag : Agree m m')
include hag

theorem br_main_arg0 : nK_main_arg0 m c = nR_main_arg0 m' c :=
  ((Cert.KernelIdeal.Fr.liftK_0 m c Cert.KernelIdeal.main_arg0 (by decide)).trans ((hag c).1).symm).trans
    (liftR_init m' c Cert.ReferenceIdeal.main_arg0 (by decide)).symm
theorem br_main_arg1 : nK_main_arg1 m c = nR_main_arg1 m' c :=
  ((Cert.KernelIdeal.Fr.liftK_0 m c Cert.KernelIdeal.main_arg1 (by decide)).trans ((hag c).2.1).symm).trans
    (liftR_init m' c Cert.ReferenceIdeal.main_arg1 (by decide)).symm
theorem br_main_arg2 : nK_main_arg2 m c = nR_main_arg2 m' c :=
  ((Cert.KernelIdeal.Fr.liftK_0 m c Cert.KernelIdeal.main_arg2 (by decide)).trans ((hag c).2.2.1).symm).trans
    (liftR_init m' c Cert.ReferenceIdeal.main_arg2 (by decide)).symm
theorem br_main_arg3 : nK_main_arg3 m c = nR_main_arg3 m' c :=
  ((Cert.KernelIdeal.Fr.liftK_0 m c Cert.KernelIdeal.main_arg3 (by decide)).trans ((hag c).2.2.2.1).symm).trans
    (liftR_init m' c Cert.ReferenceIdeal.main_arg3 (by decide)).symm
theorem br_main_arg4 : nK_main_arg4 m c = nR_main_arg4 m' c :=
  ((Cert.KernelIdeal.Fr.liftK_0 m c Cert.KernelIdeal.main_arg4 (by decide)).trans ((hag c).2.2.2.2.1).symm).trans
    (liftR_init m' c Cert.ReferenceIdeal.main_arg4 (by decide)).symm
theorem br_main_arg5 : nK_main_arg5 m c = nR_main_arg5 m' c :=
  ((Cert.KernelIdeal.Fr.liftK_0 m c Cert.KernelIdeal.main_arg5 (by decide)).trans ((hag c).2.2.2.2.2.1).symm).trans
    (liftR_init m' c Cert.ReferenceIdeal.main_arg5 (by decide)).symm
theorem br_main_arg6 : nK_main_arg6 m c = nR_main_arg6 m' c :=
  ((Cert.KernelIdeal.Fr.liftK_0 m c Cert.KernelIdeal.main_arg6 (by decide)).trans ((hag c).2.2.2.2.2.2.1).symm).trans
    (liftR_init m' c Cert.ReferenceIdeal.main_arg6 (by decide)).symm
theorem br_main_arg7 : nK_main_arg7 m c = nR_main_arg7 m' c :=
  ((Cert.KernelIdeal.Fr.liftK_0 m c Cert.KernelIdeal.main_arg7 (by decide)).trans ((hag c).2.2.2.2.2.2.2.1).symm).trans
    (liftR_init m' c Cert.ReferenceIdeal.main_arg7 (by decide)).symm
theorem br_main_arg8 : nK_main_arg8 m c = nR_main_arg8 m' c :=
  ((Cert.KernelIdeal.Fr.liftK_0 m c Cert.KernelIdeal.main_arg8 (by decide)).trans ((hag c).2.2.2.2.2.2.2.2.1).symm).trans
    (liftR_init m' c Cert.ReferenceIdeal.main_arg8 (by decide)).symm
theorem br_main_arg9 : nK_main_arg9 m c = nR_main_arg9 m' c :=
  ((Cert.KernelIdeal.Fr.liftK_0 m c Cert.KernelIdeal.main_arg9 (by decide)).trans ((hag c).2.2.2.2.2.2.2.2.2.1).symm).trans
    (liftR_init m' c Cert.ReferenceIdeal.main_arg9 (by decide)).symm
theorem br_main_arg10 : nK_main_arg10 m c = nR_main_arg10 m' c :=
  ((Cert.KernelIdeal.Fr.liftK_0 m c Cert.KernelIdeal.main_arg10 (by decide)).trans ((hag c).2.2.2.2.2.2.2.2.2.2.1).symm).trans
    (liftR_init m' c Cert.ReferenceIdeal.main_arg10 (by decide)).symm
theorem br_main_arg11 : nK_main_arg11 m c = nR_main_arg11 m' c :=
  ((Cert.KernelIdeal.Fr.liftK_0 m c Cert.KernelIdeal.main_arg11 (by decide)).trans ((hag c).2.2.2.2.2.2.2.2.2.2.2).symm).trans
    (liftR_init m' c Cert.ReferenceIdeal.main_arg11 (by decide)).symm

end Cert.Bridge

end
-- ==== Proof.KI.KEq1.lean ====
import proofs.«126270_j6725918785969_1_alg».proof.Proof.KI.KEqBase

/-!
# The idealized kernel program's host operations, each as an equation between final buffer contents (part 1)

For every host operation `y = f x₁ x₂ …` of the stretches `hostOps2`, `hostOps4`, `hostOps5`, `hostOps6`: the final contents of `y` are `f` of the
final contents of the operands.
-/

set_option maxRecDepth 16384

noncomputable section

namespace Cert.KernelIdeal.Fr

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

/-! ### `hostOps2` -/
def kq_main_v2 := lift_unary (liftK_3 m c main_v2 (by decide)) (liftK_3 m c main_arg4 (by decide)) (eq_unary lateK_3 (rfl : Wc3 m c = after hostOps2 (Wc2 m c)) 0 _ _ _ rfl (by decide) (by decide))
def kq_main_c := lift_nullary (liftK_3 m c main_c (by decide)) (eq_nullary lateK_3 (rfl : Wc3 m c = after hostOps2 (Wc2 m c)) 1 _ _ rfl (by decide))
def kq_main_v3 := lift_unary (liftK_3 m c main_v3 (by decide)) (liftK_3 m c main_c (by decide)) (eq_unary lateK_3 (rfl : Wc3 m c = after hostOps2 (Wc2 m c)) 2 _ _ _ rfl (by decide) (by decide))
def kq_main_v4 := lift_binary (liftK_3 m c main_v4 (by decide)) (liftK_3 m c main_arg3 (by decide)) (liftK_3 m c main_v3 (by decide)) (eq_binary lateK_3 (rfl : Wc3 m c = after hostOps2 (Wc2 m c)) 3 _ _ _ _ rfl (by decide) (by decide) (by decide))
def kq_main_c_0 := lift_nullary (liftK_3 m c main_c_0 (by decide)) (eq_nullary lateK_3 (rfl : Wc3 m c = after hostOps2 (Wc2 m c)) 4 _ _ rfl (by decide))
def kq_main_v5 := lift_unary (liftK_3 m c main_v5 (by decide)) (liftK_3 m c main_c_0 (by decide)) (eq_unary lateK_3 (rfl : Wc3 m c = after hostOps2 (Wc2 m c)) 5 _ _ _ rfl (by decide) (by decide))
def kq_main_v6 := lift_binary (liftK_3 m c main_v6 (by decide)) (liftK_3 m c main_arg3 (by decide)) (liftK_3 m c main_v5 (by decide)) (eq_binary lateK_3 (rfl : Wc3 m c = after hostOps2 (Wc2 m c)) 6 _ _ _ _ rfl (by decide) (by decide) (by decide))
def kq_main_v7 := lift_ternary (liftK_3 m c main_v7 (by decide)) (liftK_3 m c main_v4 (by decide)) (liftK_3 m c main_v6 (by decide)) (liftK_3 m c main_arg3 (by decide)) (eq_ternary lateK_3 (rfl : Wc3 m c = after hostOps2 (Wc2 m c)) 7 _ _ _ _ _ rfl (by decide) (by decide) (by decide) (by decide))
def kq_main_v8 := lift_unary (liftK_3 m c main_v8 (by decide)) (liftK_3 m c main_v7 (by decide)) (eq_unary lateK_3 (rfl : Wc3 m c = after hostOps2 (Wc2 m c)) 8 _ _ _ rfl (by decide) (by decide))
def kq_main_v9 := lift_binary (liftK_3 m c main_v9 (by decide)) (liftK_3 m c main_arg6 (by decide)) (liftK_3 m c main_v8 (by decide)) (eq_binary lateK_3 (rfl : Wc3 m c = after hostOps2 (Wc2 m c)) 9 _ _ _ _ rfl (by decide) (by decide) (by decide))
def kq_main_v10 := lift_unary (liftK_3 m c main_v10 (by decide)) (liftK_3 m c main_v2 (by decide)) (eq_unary lateK_3 (rfl : Wc3 m c = after hostOps2 (Wc2 m c)) 10 _ _ _ rfl (by decide) (by decide))
def kq_main_v11 := lift_binary (liftK_3 m c main_v11 (by decide)) (liftK_3 m c main_v10 (by decide)) (liftK_3 m c main_v9 (by decide)) (eq_binary lateK_3 (rfl : Wc3 m c = after hostOps2 (Wc2 m c)) 11 _ _ _ _ rfl (by decide) (by decide) (by decide))
def kq_main_cst := lift_nullary (liftK_3 m c main_cst (by decide)) (eq_nullary lateK_3 (rfl : Wc3 m c = after hostOps2 (Wc2 m c)) 12 _ _ rfl (by decide))
def kq_main_v12 := lift_unary (liftK_3 m c main_v12 (by decide)) (liftK_3 m c main_cst (by decide)) (eq_unary lateK_3 (rfl : Wc3 m c = after hostOps2 (Wc2 m c)) 13 _ _ _ rfl (by decide) (by decide))
def kq_main_v13 := lift_unary (liftK_3 m c main_v13 (by decide)) (liftK_3 m c main_arg2 (by decide)) (eq_unary lateK_3 (rfl : Wc3 m c = after hostOps2 (Wc2 m c)) 14 _ _ _ rfl (by decide) (by decide))
def kq_main_v14 := lift_ternary (liftK_3 m c main_v14 (by decide)) (liftK_3 m c main_v12 (by decide)) (liftK_3 m c main_v13 (by decide)) (liftK_3 m c main_v11 (by decide)) (eq_ternary lateK_3 (rfl : Wc3 m c = after hostOps2 (Wc2 m c)) 15 _ _ _ _ _ rfl (by decide) (by decide) (by decide) (by decide))
def kq_main_v15 := lift_unary (liftK_3 m c main_v15 (by decide)) (liftK_3 m c main_arg4 (by decide)) (eq_unary lateK_3 (rfl : Wc3 m c = after hostOps2 (Wc2 m c)) 16 _ _ _ rfl (by decide) (by decide))
def kq_main_c_1 := lift_nullary (liftK_3 m c main_c_1 (by decide)) (eq_nullary lateK_3 (rfl : Wc3 m c = after hostOps2 (Wc2 m c)) 17 _ _ rfl (by decide))
def kq_main_v16 := lift_unary (liftK_3 m c main_v16 (by decide)) (liftK_3 m c main_c_1 (by decide)) (eq_unary lateK_3 (rfl : Wc3 m c = after hostOps2 (Wc2 m c)) 18 _ _ _ rfl (by decide) (by decide))
def kq_main_v17 := lift_binary (liftK_3 m c main_v17 (by decide)) (liftK_3 m c main_arg2 (by decide)) (liftK_3 m c main_v16 (by decide)) (eq_binary lateK_3 (rfl : Wc3 m c = after hostOps2 (Wc2 m c)) 19 _ _ _ _ rfl (by decide) (by decide) (by decide))
def kq_main_c_2 := lift_nullary (liftK_3 m c main_c_2 (by decide)) (eq_nullary lateK_3 (rfl : Wc3 m c = after hostOps2 (Wc2 m c)) 20 _ _ rfl (by decide))
def kq_main_v18 := lift_unary (liftK_3 m c main_v18 (by decide)) (liftK_3 m c main_c_2 (by decide)) (eq_unary lateK_3 (rfl : Wc3 m c = after hostOps2 (Wc2 m c)) 21 _ _ _ rfl (by decide) (by decide))
def kq_main_v19 := lift_binary (liftK_3 m c main_v19 (by decide)) (liftK_3 m c main_arg2 (by decide)) (liftK_3 m c main_v18 (by decide)) (eq_binary lateK_3 (rfl : Wc3 m c = after hostOps2 (Wc2 m c)) 22 _ _ _ _ rfl (by decide) (by decide) (by decide))
def kq_main_v20 := lift_ternary (liftK_3 m c main_v20 (by decide)) (liftK_3 m c main_v17 (by decide)) (liftK_3 m c main_v19 (by decide)) (liftK_3 m c main_arg2 (by decide)) (eq_ternary lateK_3 (rfl : Wc3 m c = after hostOps2 (Wc2 m c)) 23 _ _ _ _ _ rfl (by decide) (by decide) (by decide) (by decide))
def kq_main_v21 := lift_unary (liftK_3 m c main_v21 (by decide)) (liftK_3 m c main_v20 (by decide)) (eq_unary lateK_3 (rfl : Wc3 m c = after hostOps2 (Wc2 m c)) 24 _ _ _ rfl (by decide) (by decide))
def kq_main_v22 := lift_binary (liftK_3 m c main_v22 (by decide)) (liftK_3 m c main_arg5 (by decide)) (liftK_3 m c main_v21 (by decide)) (eq_binary lateK_3 (rfl : Wc3 m c = after hostOps2 (Wc2 m c)) 25 _ _ _ _ rfl (by decide) (by decide) (by decide))
def kq_main_v23 := lift_unary (liftK_3 m c main_v23 (by decide)) (liftK_3 m c main_v15 (by decide)) (eq_unary lateK_3 (rfl : Wc3 m c = after hostOps2 (Wc2 m c)) 26 _ _ _ rfl (by decide) (by decide))
def kq_main_v24 := lift_binary (liftK_3 m c main_v24 (by decide)) (liftK_3 m c main_v23 (by decide)) (liftK_3 m c main_v22 (by decide)) (eq_binary lateK_3 (rfl : Wc3 m c = after hostOps2 (Wc2 m c)) 27 _ _ _ _ rfl (by decide) (by decide) (by decide))
def kq_main_cst_3 := lift_nullary (liftK_3 m c main_cst_3 (by decide)) (eq_nullary lateK_3 (rfl : Wc3 m c = after hostOps2 (Wc2 m c)) 28 _ _ rfl (by decide))
def kq_main_v25 := lift_unary (liftK_3 m c main_v25 (by decide)) (liftK_3 m c main_cst_3 (by decide)) (eq_unary lateK_3 (rfl : Wc3 m c = after hostOps2 (Wc2 m c)) 29 _ _ _ rfl (by decide) (by decide))
def kq_main_v26 := lift_unary (liftK_3 m c main_v26 (by decide)) (liftK_3 m c main_arg3 (by decide)) (eq_unary lateK_3 (rfl : Wc3 m c = after hostOps2 (Wc2 m c)) 30 _ _ _ rfl (by decide) (by decide))
def kq_main_v27 := lift_ternary (liftK_3 m c main_v27 (by decide)) (liftK_3 m c main_v25 (by decide)) (liftK_3 m c main_v26 (by decide)) (liftK_3 m c main_v24 (by decide)) (eq_ternary lateK_3 (rfl : Wc3 m c = after hostOps2 (Wc2 m c)) 31 _ _ _ _ _ rfl (by decide) (by decide) (by decide) (by decide))

/-! ### `hostOps4` -/
def kq_main_v30 := lift_unary (liftK_6 m c main_v30 (by decide)) (liftK_6 m c main_arg9 (by decide)) (eq_unary lateK_6 (rfl : Wc6 m c = after hostOps4 (Wc5 m c)) 0 _ _ _ rfl (by decide) (by decide))
def kq_main_v31 := lift_reshape (x := main_v30) (y := main_v31) rfl shapeCasts_S1x3x128x128_S3x128x128 (liftK_6 m c main_v31 (by decide)) (liftK_6 m c main_v30 (by decide)) (eq_reshape (x := main_v30) (y := main_v31) lateK_6 (rfl : Wc6 m c = after hostOps4 (Wc5 m c)) 1 rfl shapeCasts_S1x3x128x128_S3x128x128 _ _ rfl (by decide) (by decide))

/-! ### `hostOps5` -/
def kq_main_v33 := lift_unary (liftK_8 m c main_v33 (by decide)) (liftK_8 m c main_v31 (by decide)) (eq_unary lateK_8 (rfl : Wc8 m c = after hostOps5 (Wc7 m c)) 0 _ _ _ rfl (by decide) (by decide))
def kq_main_v34 := lift_reshape (x := main_v33) (y := main_v34) rfl shapeCasts_S1x128x128_S128x128 (liftK_8 m c main_v34 (by decide)) (liftK_8 m c main_v33 (by decide)) (eq_reshape (x := main_v33) (y := main_v34) lateK_8 (rfl : Wc8 m c = after hostOps5 (Wc7 m c)) 1 rfl shapeCasts_S1x128x128_S128x128 _ _ rfl (by decide) (by decide))
def kq_main_v35 := lift_unary (liftK_8 m c main_v35 (by decide)) (liftK_8 m c main_v34 (by decide)) (eq_unary lateK_8 (rfl : Wc8 m c = after hostOps5 (Wc7 m c)) 2 _ _ _ rfl (by decide) (by decide))
def kq_main_v36 := lift_binary (liftK_8 m c main_v36 (by decide)) (liftK_8 m c main_v35 (by decide)) (liftK_8 m c main_v32 (by decide)) (eq_binary lateK_8 (rfl : Wc8 m c = after hostOps5 (Wc7 m c)) 3 _ _ _ _ rfl (by decide) (by decide) (by decide))
def kq_main_cst_4 := lift_nullary (liftK_8 m c main_cst_4 (by decide)) (eq_nullary lateK_8 (rfl : Wc8 m c = after hostOps5 (Wc7 m c)) 4 _ _ rfl (by decide))
def kq_main_v37 := lift_unary (liftK_8 m c main_v37 (by decide)) (liftK_8 m c main_cst_4 (by decide)) (eq_unary lateK_8 (rfl : Wc8 m c = after hostOps5 (Wc7 m c)) 5 _ _ _ rfl (by decide) (by decide))
def kq_main_v38 := lift_binary (liftK_8 m c main_v38 (by decide)) (liftK_8 m c main_v37 (by decide)) (liftK_8 m c main_v36 (by decide)) (eq_binary lateK_8 (rfl : Wc8 m c = after hostOps5 (Wc7 m c)) 6 _ _ _ _ rfl (by decide) (by decide) (by decide))
def kq_main_v39 := lift_binary (liftK_8 m c main_v39 (by decide)) (liftK_8 m c main_v38 (by decide)) (liftK_8 m c main_v36 (by decide)) (eq_binary lateK_8 (rfl : Wc8 m c = after hostOps5 (Wc7 m c)) 7 _ _ _ _ rfl (by decide) (by decide) (by decide))
def kq_main_v40 := lift_binary (liftK_8 m c main_v40 (by decide)) (liftK_8 m c main_v39 (by decide)) (liftK_8 m c main_v32 (by decide)) (eq_binary lateK_8 (rfl : Wc8 m c = after hostOps5 (Wc7 m c)) 8 _ _ _ _ rfl (by decide) (by decide) (by decide))
def kq_main_v41 := lift_unary (liftK_8 m c main_v41 (by decide)) (liftK_8 m c main_v31 (by decide)) (eq_unary lateK_8 (rfl : Wc8 m c = after hostOps5 (Wc7 m c)) 9 _ _ _ rfl (by decide) (by decide))
def kq_main_v42 := lift_reshape (x := main_v41) (y := main_v42) rfl shapeCasts_S1x128x128_S128x128 (liftK_8 m c main_v42 (by decide)) (liftK_8 m c main_v41 (by decide)) (eq_reshape (x := main_v41) (y := main_v42) lateK_8 (rfl : Wc8 m c = after hostOps5 (Wc7 m c)) 10 rfl shapeCasts_S1x128x128_S128x128 _ _ rfl (by decide) (by decide))
def kq_main_v43 := lift_unary (liftK_8 m c main_v43 (by decide)) (liftK_8 m c main_v42 (by decide)) (eq_unary lateK_8 (rfl : Wc8 m c = after hostOps5 (Wc7 m c)) 11 _ _ _ rfl (by decide) (by decide))
def kq_main_v44 := lift_binary (liftK_8 m c main_v44 (by decide)) (liftK_8 m c main_v43 (by decide)) (liftK_8 m c main_v40 (by decide)) (eq_binary lateK_8 (rfl : Wc8 m c = after hostOps5 (Wc7 m c)) 12 _ _ _ _ rfl (by decide) (by decide) (by decide))
def kq_main_cst_5 := lift_nullary (liftK_8 m c main_cst_5 (by decide)) (eq_nullary lateK_8 (rfl : Wc8 m c = after hostOps5 (Wc7 m c)) 13 _ _ rfl (by decide))
def kq_main_v45 := lift_unary (liftK_8 m c main_v45 (by decide)) (liftK_8 m c main_cst_5 (by decide)) (eq_unary lateK_8 (rfl : Wc8 m c = after hostOps5 (Wc7 m c)) 14 _ _ _ rfl (by decide) (by decide))
def kq_main_v46 := lift_binary (liftK_8 m c main_v46 (by decide)) (liftK_8 m c main_v45 (by decide)) (liftK_8 m c main_v44 (by decide)) (eq_binary lateK_8 (rfl : Wc8 m c = after hostOps5 (Wc7 m c)) 15 _ _ _ _ rfl (by decide) (by decide) (by decide))
def kq_main_v47 := lift_binary (liftK_8 m c main_v47 (by decide)) (liftK_8 m c main_v46 (by decide)) (liftK_8 m c main_v44 (by decide)) (eq_binary lateK_8 (rfl : Wc8 m c = after hostOps5 (Wc7 m c)) 16 _ _ _ _ rfl (by decide) (by decide) (by decide))
def kq_main_v48 := lift_binary (liftK_8 m c main_v48 (by decide)) (liftK_8 m c main_v47 (by decide)) (liftK_8 m c main_v40 (by decide)) (eq_binary lateK_8 (rfl : Wc8 m c = after hostOps5 (Wc7 m c)) 17 _ _ _ _ rfl (by decide) (by decide) (by decide))
def kq_main_v49 := lift_unary (liftK_8 m c main_v49 (by decide)) (liftK_8 m c main_v31 (by decide)) (eq_unary lateK_8 (rfl : Wc8 m c = after hostOps5 (Wc7 m c)) 18 _ _ _ rfl (by decide) (by decide))
def kq_main_v50 := lift_reshape (x := main_v49) (y := main_v50) rfl shapeCasts_S1x128x128_S128x128 (liftK_8 m c main_v50 (by decide)) (liftK_8 m c main_v49 (by decide)) (eq_reshape (x := main_v49) (y := main_v50) lateK_8 (rfl : Wc8 m c = after hostOps5 (Wc7 m c)) 19 rfl shapeCasts_S1x128x128_S128x128 _ _ rfl (by decide) (by decide))
def kq_main_v51 := lift_unary (liftK_8 m c main_v51 (by decide)) (liftK_8 m c main_v50 (by decide)) (eq_unary lateK_8 (rfl : Wc8 m c = after hostOps5 (Wc7 m c)) 20 _ _ _ rfl (by decide) (by decide))
def kq_main_v52 := lift_binary (liftK_8 m c main_v52 (by decide)) (liftK_8 m c main_v51 (by decide)) (liftK_8 m c main_v48 (by decide)) (eq_binary lateK_8 (rfl : Wc8 m c = after hostOps5 (Wc7 m c)) 21 _ _ _ _ rfl (by decide) (by decide) (by decide))
def kq_main_cst_6 := lift_nullary (liftK_8 m c main_cst_6 (by decide)) (eq_nullary lateK_8 (rfl : Wc8 m c = after hostOps5 (Wc7 m c)) 22 _ _ rfl (by decide))
def kq_main_v53 := lift_unary (liftK_8 m c main_v53 (by decide)) (liftK_8 m c main_cst_6 (by decide)) (eq_unary lateK_8 (rfl : Wc8 m c = after hostOps5 (Wc7 m c)) 23 _ _ _ rfl (by decide) (by decide))
def kq_main_v54 := lift_binary (liftK_8 m c main_v54 (by decide)) (liftK_8 m c main_v53 (by decide)) (liftK_8 m c main_v52 (by decide)) (eq_binary lateK_8 (rfl : Wc8 m c = after hostOps5 (Wc7 m c)) 24 _ _ _ _ rfl (by decide) (by decide) (by decide))
def kq_main_v55 := lift_binary (liftK_8 m c main_v55 (by decide)) (liftK_8 m c main_v54 (by decide)) (liftK_8 m c main_v52 (by decide)) (eq_binary lateK_8 (rfl : Wc8 m c = after hostOps5 (Wc7 m c)) 25 _ _ _ _ rfl (by decide) (by decide) (by decide))
def kq_main_v56 := lift_binary (liftK_8 m c main_v56 (by decide)) (liftK_8 m c main_v55 (by decide)) (liftK_8 m c main_v48 (by decide)) (eq_binary lateK_8 (rfl : Wc8 m c = after hostOps5 (Wc7 m c)) 26 _ _ _ _ rfl (by decide) (by decide) (by decide))

/-! ### `hostOps6` -/
def kq_main_v58 := lift_unary (liftK_10 m c main_v58 (by decide)) (liftK_10 m c main_arg10 (by decide)) (eq_unary lateK_10 (rfl : Wc10 m c = after hostOps6 (Wc9 m c)) 0 _ _ _ rfl (by decide) (by decide))
def kq_main_v59 := lift_reshape (x := main_v58) (y := main_v59) rfl shapeCasts_S1x3x128x128_S3x128x128 (liftK_10 m c main_v59 (by decide)) (liftK_10 m c main_v58 (by decide)) (eq_reshape (x := main_v58) (y := main_v59) lateK_10 (rfl : Wc10 m c = after hostOps6 (Wc9 m c)) 1 rfl shapeCasts_S1x3x128x128_S3x128x128 _ _ rfl (by decide) (by decide))

end Cert.KernelIdeal.Fr

end
-- ==== Proof.KI.KN1.lean ====
import proofs.«126270_j6725918785969_1_alg».proof.Proof.KI.KNDefs
import proofs.«126270_j6725918785969_1_alg».proof.Proof.KI.KEq1

/-!
# The kernel program's host operations as equations between plainly typed contents (part 1)
-/

set_option maxRecDepth 16384

noncomputable section

namespace Cert.KernelIdeal.Fr

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

theorem nkq_main_v2 : nK_main_v2 m c = (broadcastInDim S1000000x1 ![0] bcast_S1000000_S1000000x1_0 : (⟨S1000000, .f32⟩ : BufTy).Contents (Elt Ideal) → (⟨S1000000x1, .f32⟩ : BufTy).Contents (Elt Ideal)) (nK_main_arg4 m c) := kq_main_v2 m c
theorem nkq_main_c : nK_main_c m c = (constantI S_ 32 0#32) := kq_main_c m c
theorem nkq_main_v3 : nK_main_v3 m c = (broadcastInDim S1000000 ![] bcast_S_S1000000 : (⟨S_, .i32⟩ : BufTy).Contents (Elt Ideal) → (⟨S1000000, .i32⟩ : BufTy).Contents (Elt Ideal)) (nK_main_c m c) := kq_main_v3 m c
theorem nkq_main_v4 : nK_main_v4 m c = (cmpi .slt : (⟨S1000000, .i32⟩ : BufTy).Contents (Elt Ideal) → (⟨S1000000, .i32⟩ : BufTy).Contents (Elt Ideal) → (⟨S1000000, .i1⟩ : BufTy).Contents (Elt Ideal)) (nK_main_arg3 m c) (nK_main_v3 m c) := kq_main_v4 m c
theorem nkq_main_c_0 : nK_main_c_0 m c = (constantI S_ 32 50000#32) := kq_main_c_0 m c
theorem nkq_main_v5 : nK_main_v5 m c = (broadcastInDim S1000000 ![] bcast_S_S1000000 : (⟨S_, .i32⟩ : BufTy).Contents (Elt Ideal) → (⟨S1000000, .i32⟩ : BufTy).Contents (Elt Ideal)) (nK_main_c_0 m c) := kq_main_v5 m c
theorem nkq_main_v6 : nK_main_v6 m c = (addi : (⟨S1000000, .i32⟩ : BufTy).Contents (Elt Ideal) → (⟨S1000000, .i32⟩ : BufTy).Contents (Elt Ideal) → (⟨S1000000, .i32⟩ : BufTy).Contents (Elt Ideal)) (nK_main_arg3 m c) (nK_main_v5 m c) := kq_main_v6 m c
theorem nkq_main_v7 : nK_main_v7 m c = (select : (⟨S1000000, .i1⟩ : BufTy).Contents (Elt Ideal) → (⟨S1000000, .i32⟩ : BufTy).Contents (Elt Ideal) → (⟨S1000000, .i32⟩ : BufTy).Contents (Elt Ideal) → (⟨S1000000, .i32⟩ : BufTy).Contents (Elt Ideal)) (nK_main_v4 m c) (nK_main_v6 m c) (nK_main_arg3 m c) := kq_main_v7 m c
theorem nkq_main_v8 : nK_main_v8 m c = (broadcastInDim S1000000x1 ![0] bcast_S1000000_S1000000x1_0 : (⟨S1000000, .i32⟩ : BufTy).Contents (Elt Ideal) → (⟨S1000000x1, .i32⟩ : BufTy).Contents (Elt Ideal)) (nK_main_v7 m c) := kq_main_v8 m c
theorem nkq_main_v9 : nK_main_v9 m c = ((fun x i => Host.gather gather_S50000x128_S1000000x1_S1000000x128_1_0_n_n_0_1_1128 x i) : (⟨S50000x128, .f32⟩ : BufTy).Contents (Elt Ideal) → (⟨S1000000x1, .i32⟩ : BufTy).Contents (Elt Ideal) → (⟨S1000000x128, .f32⟩ : BufTy).Contents (Elt Ideal)) (nK_main_arg6 m c) (nK_main_v8 m c) := kq_main_v9 m c
theorem nkq_main_v10 : nK_main_v10 m c = (broadcastInDim S1000000x128 ![0, 1] bcast_S1000000x1_S1000000x128_0_1 : (⟨S1000000x1, .f32⟩ : BufTy).Contents (Elt Ideal) → (⟨S1000000x128, .f32⟩ : BufTy).Contents (Elt Ideal)) (nK_main_v2 m c) := kq_main_v10 m c
theorem nkq_main_v11 : nK_main_v11 m c = (mulf (F := Ideal) (φ := .f32) : (⟨S1000000x128, .f32⟩ : BufTy).Contents (Elt Ideal) → (⟨S1000000x128, .f32⟩ : BufTy).Contents (Elt Ideal) → (⟨S1000000x128, .f32⟩ : BufTy).Contents (Elt Ideal)) (nK_main_v10 m c) (nK_main_v9 m c) := kq_main_v11 m c
theorem nkq_main_cst : nK_main_cst m c = (constant (F := Ideal) S_ .f32 0x00000000#32) := kq_main_cst m c
theorem nkq_main_v12 : nK_main_v12 m c = (broadcastInDim S100000x128 ![] bcast_S_S100000x128 : (⟨S_, .f32⟩ : BufTy).Contents (Elt Ideal) → (⟨S100000x128, .f32⟩ : BufTy).Contents (Elt Ideal)) (nK_main_cst m c) := kq_main_v12 m c
theorem nkq_main_v13 : nK_main_v13 m c = (broadcastInDim S1000000x1 ![0] bcast_S1000000_S1000000x1_0 : (⟨S1000000, .i32⟩ : BufTy).Contents (Elt Ideal) → (⟨S1000000x1, .i32⟩ : BufTy).Contents (Elt Ideal)) (nK_main_arg2 m c) := kq_main_v13 m c
theorem nkq_main_v14 : nK_main_v14 m c = ((fun x i u => Host.scatterAdd (F := Ideal) (φ := .f32) scatter_S100000x128_S1000000x1_S1000000x128_1_0_0_1 x i u) : (⟨S100000x128, .f32⟩ : BufTy).Contents (Elt Ideal) → (⟨S1000000x1, .i32⟩ : BufTy).Contents (Elt Ideal) → (⟨S1000000x128, .f32⟩ : BufTy).Contents (Elt Ideal) → (⟨S100000x128, .f32⟩ : BufTy).Contents (Elt Ideal)) (nK_main_v12 m c) (nK_main_v13 m c) (nK_main_v11 m c) := kq_main_v14 m c
theorem nkq_main_v15 : nK_main_v15 m c = (broadcastInDim S1000000x1 ![0] bcast_S1000000_S1000000x1_0 : (⟨S1000000, .f32⟩ : BufTy).Contents (Elt Ideal) → (⟨S1000000x1, .f32⟩ : BufTy).Contents (Elt Ideal)) (nK_main_arg4 m c) := kq_main_v15 m c
theorem nkq_main_c_1 : nK_main_c_1 m c = (constantI S_ 32 0#32) := kq_main_c_1 m c
theorem nkq_main_v16 : nK_main_v16 m c = (broadcastInDim S1000000 ![] bcast_S_S1000000 : (⟨S_, .i32⟩ : BufTy).Contents (Elt Ideal) → (⟨S1000000, .i32⟩ : BufTy).Contents (Elt Ideal)) (nK_main_c_1 m c) := kq_main_v16 m c
theorem nkq_main_v17 : nK_main_v17 m c = (cmpi .slt : (⟨S1000000, .i32⟩ : BufTy).Contents (Elt Ideal) → (⟨S1000000, .i32⟩ : BufTy).Contents (Elt Ideal) → (⟨S1000000, .i1⟩ : BufTy).Contents (Elt Ideal)) (nK_main_arg2 m c) (nK_main_v16 m c) := kq_main_v17 m c
theorem nkq_main_c_2 : nK_main_c_2 m c = (constantI S_ 32 100000#32) := kq_main_c_2 m c
theorem nkq_main_v18 : nK_main_v18 m c = (broadcastInDim S1000000 ![] bcast_S_S1000000 : (⟨S_, .i32⟩ : BufTy).Contents (Elt Ideal) → (⟨S1000000, .i32⟩ : BufTy).Contents (Elt Ideal)) (nK_main_c_2 m c) := kq_main_v18 m c
theorem nkq_main_v19 : nK_main_v19 m c = (addi : (⟨S1000000, .i32⟩ : BufTy).Contents (Elt Ideal) → (⟨S1000000, .i32⟩ : BufTy).Contents (Elt Ideal) → (⟨S1000000, .i32⟩ : BufTy).Contents (Elt Ideal)) (nK_main_arg2 m c) (nK_main_v18 m c) := kq_main_v19 m c
theorem nkq_main_v20 : nK_main_v20 m c = (select : (⟨S1000000, .i1⟩ : BufTy).Contents (Elt Ideal) → (⟨S1000000, .i32⟩ : BufTy).Contents (Elt Ideal) → (⟨S1000000, .i32⟩ : BufTy).Contents (Elt Ideal) → (⟨S1000000, .i32⟩ : BufTy).Contents (Elt Ideal)) (nK_main_v17 m c) (nK_main_v19 m c) (nK_main_arg2 m c) := kq_main_v20 m c
theorem nkq_main_v21 : nK_main_v21 m c = (broadcastInDim S1000000x1 ![0] bcast_S1000000_S1000000x1_0 : (⟨S1000000, .i32⟩ : BufTy).Contents (Elt Ideal) → (⟨S1000000x1, .i32⟩ : BufTy).Contents (Elt Ideal)) (nK_main_v20 m c) := kq_main_v21 m c
theorem nkq_main_v22 : nK_main_v22 m c = ((fun x i => Host.gather gather_S100000x128_S1000000x1_S1000000x128_1_0_n_n_0_1_1128 x i) : (⟨S100000x128, .f32⟩ : BufTy).Contents (Elt Ideal) → (⟨S1000000x1, .i32⟩ : BufTy).Contents (Elt Ideal) → (⟨S1000000x128, .f32⟩ : BufTy).Contents (Elt Ideal)) (nK_main_arg5 m c) (nK_main_v21 m c) := kq_main_v22 m c
theorem nkq_main_v23 : nK_main_v23 m c = (broadcastInDim S1000000x128 ![0, 1] bcast_S1000000x1_S1000000x128_0_1 : (⟨S1000000x1, .f32⟩ : BufTy).Contents (Elt Ideal) → (⟨S1000000x128, .f32⟩ : BufTy).Contents (Elt Ideal)) (nK_main_v15 m c) := kq_main_v23 m c
theorem nkq_main_v24 : nK_main_v24 m c = (mulf (F := Ideal) (φ := .f32) : (⟨S1000000x128, .f32⟩ : BufTy).Contents (Elt Ideal) → (⟨S1000000x128, .f32⟩ : BufTy).Contents (Elt Ideal) → (⟨S1000000x128, .f32⟩ : BufTy).Contents (Elt Ideal)) (nK_main_v23 m c) (nK_main_v22 m c) := kq_main_v24 m c
theorem nkq_main_cst_3 : nK_main_cst_3 m c = (constant (F := Ideal) S_ .f32 0x00000000#32) := kq_main_cst_3 m c
theorem nkq_main_v25 : nK_main_v25 m c = (broadcastInDim S50000x128 ![] bcast_S_S50000x128 : (⟨S_, .f32⟩ : BufTy).Contents (Elt Ideal) → (⟨S50000x128, .f32⟩ : BufTy).Contents (Elt Ideal)) (nK_main_cst_3 m c) := kq_main_v25 m c
theorem nkq_main_v26 : nK_main_v26 m c = (broadcastInDim S1000000x1 ![0] bcast_S1000000_S1000000x1_0 : (⟨S1000000, .i32⟩ : BufTy).Contents (Elt Ideal) → (⟨S1000000x1, .i32⟩ : BufTy).Contents (Elt Ideal)) (nK_main_arg3 m c) := kq_main_v26 m c
theorem nkq_main_v27 : nK_main_v27 m c = ((fun x i u => Host.scatterAdd (F := Ideal) (φ := .f32) scatter_S50000x128_S1000000x1_S1000000x128_1_0_0_1 x i u) : (⟨S50000x128, .f32⟩ : BufTy).Contents (Elt Ideal) → (⟨S1000000x1, .i32⟩ : BufTy).Contents (Elt Ideal) → (⟨S1000000x128, .f32⟩ : BufTy).Contents (Elt Ideal) → (⟨S50000x128, .f32⟩ : BufTy).Contents (Elt Ideal)) (nK_main_v25 m c) (nK_main_v26 m c) (nK_main_v24 m c) := kq_main_v27 m c
theorem nkq_main_v30 : nK_main_v30 m c = ((extractStridedSlice S1x3x128x128 ![0, 0, 0, 0] · slices_S2x3x128x128_S1x3x128x128_0_0_0_0) : (⟨S2x3x128x128, .f32⟩ : BufTy).Contents (Elt Ideal) → (⟨S1x3x128x128, .f32⟩ : BufTy).Contents (Elt Ideal)) (nK_main_arg9 m c) := kq_main_v30 m c
theorem nkq_main_v31 : nK_main_v31 m c = fun i => shapeCast S3x128x128 (nK_main_v30 m c) shapeCasts_S1x3x128x128_S3x128x128 i := kq_main_v31 m c
theorem nkq_main_v33 : nK_main_v33 m c = ((extractStridedSlice S1x128x128 ![0, 0, 0] · slices_S3x128x128_S1x128x128_0_0_0) : (⟨S3x128x128, .f32⟩ : BufTy).Contents (Elt Ideal) → (⟨S1x128x128, .f32⟩ : BufTy).Contents (Elt Ideal)) (nK_main_v31 m c) := kq_main_v33 m c
theorem nkq_main_v34 : nK_main_v34 m c = fun i => shapeCast S128x128 (nK_main_v33 m c) shapeCasts_S1x128x128_S128x128 i := kq_main_v34 m c
theorem nkq_main_v35 : nK_main_v35 m c = ((transpose S128x128 [1, 0] · transposes_S128x128_S128x128_1_0) : (⟨S128x128, .f32⟩ : BufTy).Contents (Elt Ideal) → (⟨S128x128, .f32⟩ : BufTy).Contents (Elt Ideal)) (nK_main_v34 m c) := kq_main_v35 m c
theorem nkq_main_v36 : nK_main_v36 m c = ((fun l r => Host.dotGeneral (F := Ideal) (φ₁ := .f32) (φ₂ := .f32) dot_S128x128_S128x128_S128x128_1_0_0_1_n_n none l r) : (⟨S128x128, .f32⟩ : BufTy).Contents (Elt Ideal) → (⟨S128x128, .f32⟩ : BufTy).Contents (Elt Ideal) → (⟨S128x128, .f32⟩ : BufTy).Contents (Elt Ideal)) (nK_main_v35 m c) (nK_main_v32 m c) := kq_main_v36 m c
theorem nkq_main_cst_4 : nK_main_cst_4 m c = (constant (F := Ideal) S_ .f32 0x3F000000#32) := kq_main_cst_4 m c
theorem nkq_main_v37 : nK_main_v37 m c = (broadcastInDim S128x128 ![] bcast_S_S128x128 : (⟨S_, .f32⟩ : BufTy).Contents (Elt Ideal) → (⟨S128x128, .f32⟩ : BufTy).Contents (Elt Ideal)) (nK_main_cst_4 m c) := kq_main_v37 m c
theorem nkq_main_v38 : nK_main_v38 m c = (mulf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v37 m c) (nK_main_v36 m c) := kq_main_v38 m c
theorem nkq_main_v39 : nK_main_v39 m c = (maximumf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v38 m c) (nK_main_v36 m c) := kq_main_v39 m c
theorem nkq_main_v40 : nK_main_v40 m c = (addf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v39 m c) (nK_main_v32 m c) := kq_main_v40 m c
theorem nkq_main_v41 : nK_main_v41 m c = ((extractStridedSlice S1x128x128 ![1, 0, 0] · slices_S3x128x128_S1x128x128_1_0_0) : (⟨S3x128x128, .f32⟩ : BufTy).Contents (Elt Ideal) → (⟨S1x128x128, .f32⟩ : BufTy).Contents (Elt Ideal)) (nK_main_v31 m c) := kq_main_v41 m c
theorem nkq_main_v42 : nK_main_v42 m c = fun i => shapeCast S128x128 (nK_main_v41 m c) shapeCasts_S1x128x128_S128x128 i := kq_main_v42 m c
theorem nkq_main_v43 : nK_main_v43 m c = ((transpose S128x128 [1, 0] · transposes_S128x128_S128x128_1_0) : (⟨S128x128, .f32⟩ : BufTy).Contents (Elt Ideal) → (⟨S128x128, .f32⟩ : BufTy).Contents (Elt Ideal)) (nK_main_v42 m c) := kq_main_v43 m c
theorem nkq_main_v44 : nK_main_v44 m c = ((fun l r => Host.dotGeneral (F := Ideal) (φ₁ := .f32) (φ₂ := .f32) dot_S128x128_S128x128_S128x128_1_0_0_1_n_n none l r) : (⟨S128x128, .f32⟩ : BufTy).Contents (Elt Ideal) → (⟨S128x128, .f32⟩ : BufTy).Contents (Elt Ideal) → (⟨S128x128, .f32⟩ : BufTy).Contents (Elt Ideal)) (nK_main_v43 m c) (nK_main_v40 m c) := kq_main_v44 m c
theorem nkq_main_cst_5 : nK_main_cst_5 m c = (constant (F := Ideal) S_ .f32 0x3F000000#32) := kq_main_cst_5 m c
theorem nkq_main_v45 : nK_main_v45 m c = (broadcastInDim S128x128 ![] bcast_S_S128x128 : (⟨S_, .f32⟩ : BufTy).Contents (Elt Ideal) → (⟨S128x128, .f32⟩ : BufTy).Contents (Elt Ideal)) (nK_main_cst_5 m c) := kq_main_v45 m c
theorem nkq_main_v46 : nK_main_v46 m c = (mulf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v45 m c) (nK_main_v44 m c) := kq_main_v46 m c
theorem nkq_main_v47 : nK_main_v47 m c = (maximumf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v46 m c) (nK_main_v44 m c) := kq_main_v47 m c
theorem nkq_main_v48 : nK_main_v48 m c = (addf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v47 m c) (nK_main_v40 m c) := kq_main_v48 m c
theorem nkq_main_v49 : nK_main_v49 m c = ((extractStridedSlice S1x128x128 ![2, 0, 0] · slices_S3x128x128_S1x128x128_2_0_0) : (⟨S3x128x128, .f32⟩ : BufTy).Contents (Elt Ideal) → (⟨S1x128x128, .f32⟩ : BufTy).Contents (Elt Ideal)) (nK_main_v31 m c) := kq_main_v49 m c
theorem nkq_main_v50 : nK_main_v50 m c = fun i => shapeCast S128x128 (nK_main_v49 m c) shapeCasts_S1x128x128_S128x128 i := kq_main_v50 m c
theorem nkq_main_v51 : nK_main_v51 m c = ((transpose S128x128 [1, 0] · transposes_S128x128_S128x128_1_0) : (⟨S128x128, .f32⟩ : BufTy).Contents (Elt Ideal) → (⟨S128x128, .f32⟩ : BufTy).Contents (Elt Ideal)) (nK_main_v50 m c) := kq_main_v51 m c
theorem nkq_main_v52 : nK_main_v52 m c = ((fun l r => Host.dotGeneral (F := Ideal) (φ₁ := .f32) (φ₂ := .f32) dot_S128x128_S128x128_S128x128_1_0_0_1_n_n none l r) : (⟨S128x128, .f32⟩ : BufTy).Contents (Elt Ideal) → (⟨S128x128, .f32⟩ : BufTy).Contents (Elt Ideal) → (⟨S128x128, .f32⟩ : BufTy).Contents (Elt Ideal)) (nK_main_v51 m c) (nK_main_v48 m c) := kq_main_v52 m c
theorem nkq_main_cst_6 : nK_main_cst_6 m c = (constant (F := Ideal) S_ .f32 0x3F000000#32) := kq_main_cst_6 m c
theorem nkq_main_v53 : nK_main_v53 m c = (broadcastInDim S128x128 ![] bcast_S_S128x128 : (⟨S_, .f32⟩ : BufTy).Contents (Elt Ideal) → (⟨S128x128, .f32⟩ : BufTy).Contents (Elt Ideal)) (nK_main_cst_6 m c) := kq_main_v53 m c
theorem nkq_main_v54 : nK_main_v54 m c = (mulf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v53 m c) (nK_main_v52 m c) := kq_main_v54 m c
theorem nkq_main_v55 : nK_main_v55 m c = (maximumf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v54 m c) (nK_main_v52 m c) := kq_main_v55 m c
theorem nkq_main_v56 : nK_main_v56 m c = (addf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v55 m c) (nK_main_v48 m c) := kq_main_v56 m c
theorem nkq_main_v58 : nK_main_v58 m c = ((extractStridedSlice S1x3x128x128 ![0, 0, 0, 0] · slices_S2x3x128x128_S1x3x128x128_0_0_0_0) : (⟨S2x3x128x128, .f32⟩ : BufTy).Contents (Elt Ideal) → (⟨S1x3x128x128, .f32⟩ : BufTy).Contents (Elt Ideal)) (nK_main_arg10 m c) := kq_main_v58 m c
theorem nkq_main_v59 : nK_main_v59 m c = fun i => shapeCast S3x128x128 (nK_main_v58 m c) shapeCasts_S1x3x128x128_S3x128x128 i := kq_main_v59 m c

end Cert.KernelIdeal.Fr

end
-- ==== Proof.KI.KEq2.lean ====
import proofs.«126270_j6725918785969_1_alg».proof.Proof.KI.KEqBase

/-!
# The idealized kernel program's host operations, each as an equation between final buffer contents (part 2)

For every host operation `y = f x₁ x₂ …` of the stretches `hostOps7`, `hostOps8`, `hostOps10`: the final contents of `y` are `f` of the
final contents of the operands.
-/

set_option maxRecDepth 16384

noncomputable section

namespace Cert.KernelIdeal.Fr

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

/-! ### `hostOps7` -/
def kq_main_v61 := lift_unary (liftK_12 m c main_v61 (by decide)) (liftK_12 m c main_v59 (by decide)) (eq_unary lateK_12 (rfl : Wc12 m c = after hostOps7 (Wc11 m c)) 0 _ _ _ rfl (by decide) (by decide))
def kq_main_v62 := lift_reshape (x := main_v61) (y := main_v62) rfl shapeCasts_S1x128x128_S128x128 (liftK_12 m c main_v62 (by decide)) (liftK_12 m c main_v61 (by decide)) (eq_reshape (x := main_v61) (y := main_v62) lateK_12 (rfl : Wc12 m c = after hostOps7 (Wc11 m c)) 1 rfl shapeCasts_S1x128x128_S128x128 _ _ rfl (by decide) (by decide))
def kq_main_v63 := lift_unary (liftK_12 m c main_v63 (by decide)) (liftK_12 m c main_v62 (by decide)) (eq_unary lateK_12 (rfl : Wc12 m c = after hostOps7 (Wc11 m c)) 2 _ _ _ rfl (by decide) (by decide))
def kq_main_v64 := lift_binary (liftK_12 m c main_v64 (by decide)) (liftK_12 m c main_v63 (by decide)) (liftK_12 m c main_v60 (by decide)) (eq_binary lateK_12 (rfl : Wc12 m c = after hostOps7 (Wc11 m c)) 3 _ _ _ _ rfl (by decide) (by decide) (by decide))
def kq_main_cst_7 := lift_nullary (liftK_12 m c main_cst_7 (by decide)) (eq_nullary lateK_12 (rfl : Wc12 m c = after hostOps7 (Wc11 m c)) 4 _ _ rfl (by decide))
def kq_main_v65 := lift_unary (liftK_12 m c main_v65 (by decide)) (liftK_12 m c main_cst_7 (by decide)) (eq_unary lateK_12 (rfl : Wc12 m c = after hostOps7 (Wc11 m c)) 5 _ _ _ rfl (by decide) (by decide))
def kq_main_v66 := lift_binary (liftK_12 m c main_v66 (by decide)) (liftK_12 m c main_v65 (by decide)) (liftK_12 m c main_v64 (by decide)) (eq_binary lateK_12 (rfl : Wc12 m c = after hostOps7 (Wc11 m c)) 6 _ _ _ _ rfl (by decide) (by decide) (by decide))
def kq_main_v67 := lift_binary (liftK_12 m c main_v67 (by decide)) (liftK_12 m c main_v66 (by decide)) (liftK_12 m c main_v64 (by decide)) (eq_binary lateK_12 (rfl : Wc12 m c = after hostOps7 (Wc11 m c)) 7 _ _ _ _ rfl (by decide) (by decide) (by decide))
def kq_main_v68 := lift_binary (liftK_12 m c main_v68 (by decide)) (liftK_12 m c main_v67 (by decide)) (liftK_12 m c main_v60 (by decide)) (eq_binary lateK_12 (rfl : Wc12 m c = after hostOps7 (Wc11 m c)) 8 _ _ _ _ rfl (by decide) (by decide) (by decide))
def kq_main_v69 := lift_unary (liftK_12 m c main_v69 (by decide)) (liftK_12 m c main_v59 (by decide)) (eq_unary lateK_12 (rfl : Wc12 m c = after hostOps7 (Wc11 m c)) 9 _ _ _ rfl (by decide) (by decide))
def kq_main_v70 := lift_reshape (x := main_v69) (y := main_v70) rfl shapeCasts_S1x128x128_S128x128 (liftK_12 m c main_v70 (by decide)) (liftK_12 m c main_v69 (by decide)) (eq_reshape (x := main_v69) (y := main_v70) lateK_12 (rfl : Wc12 m c = after hostOps7 (Wc11 m c)) 10 rfl shapeCasts_S1x128x128_S128x128 _ _ rfl (by decide) (by decide))
def kq_main_v71 := lift_unary (liftK_12 m c main_v71 (by decide)) (liftK_12 m c main_v70 (by decide)) (eq_unary lateK_12 (rfl : Wc12 m c = after hostOps7 (Wc11 m c)) 11 _ _ _ rfl (by decide) (by decide))
def kq_main_v72 := lift_binary (liftK_12 m c main_v72 (by decide)) (liftK_12 m c main_v71 (by decide)) (liftK_12 m c main_v68 (by decide)) (eq_binary lateK_12 (rfl : Wc12 m c = after hostOps7 (Wc11 m c)) 12 _ _ _ _ rfl (by decide) (by decide) (by decide))
def kq_main_cst_8 := lift_nullary (liftK_12 m c main_cst_8 (by decide)) (eq_nullary lateK_12 (rfl : Wc12 m c = after hostOps7 (Wc11 m c)) 13 _ _ rfl (by decide))
def kq_main_v73 := lift_unary (liftK_12 m c main_v73 (by decide)) (liftK_12 m c main_cst_8 (by decide)) (eq_unary lateK_12 (rfl : Wc12 m c = after hostOps7 (Wc11 m c)) 14 _ _ _ rfl (by decide) (by decide))
def kq_main_v74 := lift_binary (liftK_12 m c main_v74 (by decide)) (liftK_12 m c main_v73 (by decide)) (liftK_12 m c main_v72 (by decide)) (eq_binary lateK_12 (rfl : Wc12 m c = after hostOps7 (Wc11 m c)) 15 _ _ _ _ rfl (by decide) (by decide) (by decide))
def kq_main_v75 := lift_binary (liftK_12 m c main_v75 (by decide)) (liftK_12 m c main_v74 (by decide)) (liftK_12 m c main_v72 (by decide)) (eq_binary lateK_12 (rfl : Wc12 m c = after hostOps7 (Wc11 m c)) 16 _ _ _ _ rfl (by decide) (by decide) (by decide))
def kq_main_v76 := lift_binary (liftK_12 m c main_v76 (by decide)) (liftK_12 m c main_v75 (by decide)) (liftK_12 m c main_v68 (by decide)) (eq_binary lateK_12 (rfl : Wc12 m c = after hostOps7 (Wc11 m c)) 17 _ _ _ _ rfl (by decide) (by decide) (by decide))
def kq_main_v77 := lift_unary (liftK_12 m c main_v77 (by decide)) (liftK_12 m c main_v59 (by decide)) (eq_unary lateK_12 (rfl : Wc12 m c = after hostOps7 (Wc11 m c)) 18 _ _ _ rfl (by decide) (by decide))
def kq_main_v78 := lift_reshape (x := main_v77) (y := main_v78) rfl shapeCasts_S1x128x128_S128x128 (liftK_12 m c main_v78 (by decide)) (liftK_12 m c main_v77 (by decide)) (eq_reshape (x := main_v77) (y := main_v78) lateK_12 (rfl : Wc12 m c = after hostOps7 (Wc11 m c)) 19 rfl shapeCasts_S1x128x128_S128x128 _ _ rfl (by decide) (by decide))
def kq_main_v79 := lift_unary (liftK_12 m c main_v79 (by decide)) (liftK_12 m c main_v78 (by decide)) (eq_unary lateK_12 (rfl : Wc12 m c = after hostOps7 (Wc11 m c)) 20 _ _ _ rfl (by decide) (by decide))
def kq_main_v80 := lift_binary (liftK_12 m c main_v80 (by decide)) (liftK_12 m c main_v79 (by decide)) (liftK_12 m c main_v76 (by decide)) (eq_binary lateK_12 (rfl : Wc12 m c = after hostOps7 (Wc11 m c)) 21 _ _ _ _ rfl (by decide) (by decide) (by decide))
def kq_main_cst_9 := lift_nullary (liftK_12 m c main_cst_9 (by decide)) (eq_nullary lateK_12 (rfl : Wc12 m c = after hostOps7 (Wc11 m c)) 22 _ _ rfl (by decide))
def kq_main_v81 := lift_unary (liftK_12 m c main_v81 (by decide)) (liftK_12 m c main_cst_9 (by decide)) (eq_unary lateK_12 (rfl : Wc12 m c = after hostOps7 (Wc11 m c)) 23 _ _ _ rfl (by decide) (by decide))
def kq_main_v82 := lift_binary (liftK_12 m c main_v82 (by decide)) (liftK_12 m c main_v81 (by decide)) (liftK_12 m c main_v80 (by decide)) (eq_binary lateK_12 (rfl : Wc12 m c = after hostOps7 (Wc11 m c)) 24 _ _ _ _ rfl (by decide) (by decide) (by decide))
def kq_main_v83 := lift_binary (liftK_12 m c main_v83 (by decide)) (liftK_12 m c main_v82 (by decide)) (liftK_12 m c main_v80 (by decide)) (eq_binary lateK_12 (rfl : Wc12 m c = after hostOps7 (Wc11 m c)) 25 _ _ _ _ rfl (by decide) (by decide) (by decide))
def kq_main_v84 := lift_binary (liftK_12 m c main_v84 (by decide)) (liftK_12 m c main_v83 (by decide)) (liftK_12 m c main_v76 (by decide)) (eq_binary lateK_12 (rfl : Wc12 m c = after hostOps7 (Wc11 m c)) 26 _ _ _ _ rfl (by decide) (by decide) (by decide))

/-! ### `hostOps8` -/
def kq_main_v86 := lift_binary (liftK_14 m c main_v86 (by decide)) (liftK_14 m c main_v28 (by decide)) (liftK_14 m c main_v57 (by decide)) (eq_binary lateK_14 (rfl : Wc14 m c = after hostOps8 (Wc13 m c)) 0 _ _ _ _ rfl (by decide) (by decide) (by decide))
def kq_main_v87 := lift_binary (liftK_14 m c main_v87 (by decide)) (liftK_14 m c main_v86 (by decide)) (liftK_14 m c main_arg5 (by decide)) (eq_binary lateK_14 (rfl : Wc14 m c = after hostOps8 (Wc13 m c)) 1 _ _ _ _ rfl (by decide) (by decide) (by decide))
def kq_main_v88 := lift_binary (liftK_14 m c main_v88 (by decide)) (liftK_14 m c main_v29 (by decide)) (liftK_14 m c main_v85 (by decide)) (eq_binary lateK_14 (rfl : Wc14 m c = after hostOps8 (Wc13 m c)) 2 _ _ _ _ rfl (by decide) (by decide) (by decide))
def kq_main_v89 := lift_binary (liftK_14 m c main_v89 (by decide)) (liftK_14 m c main_v88 (by decide)) (liftK_14 m c main_arg6 (by decide)) (eq_binary lateK_14 (rfl : Wc14 m c = after hostOps8 (Wc13 m c)) 3 _ _ _ _ rfl (by decide) (by decide) (by decide))
def kq_main_v90 := lift_unary (liftK_14 m c main_v90 (by decide)) (liftK_14 m c main_arg4 (by decide)) (eq_unary lateK_14 (rfl : Wc14 m c = after hostOps8 (Wc13 m c)) 4 _ _ _ rfl (by decide) (by decide))
def kq_main_c_10 := lift_nullary (liftK_14 m c main_c_10 (by decide)) (eq_nullary lateK_14 (rfl : Wc14 m c = after hostOps8 (Wc13 m c)) 5 _ _ rfl (by decide))
def kq_main_v91 := lift_unary (liftK_14 m c main_v91 (by decide)) (liftK_14 m c main_c_10 (by decide)) (eq_unary lateK_14 (rfl : Wc14 m c = after hostOps8 (Wc13 m c)) 6 _ _ _ rfl (by decide) (by decide))
def kq_main_v92 := lift_binary (liftK_14 m c main_v92 (by decide)) (liftK_14 m c main_arg3 (by decide)) (liftK_14 m c main_v91 (by decide)) (eq_binary lateK_14 (rfl : Wc14 m c = after hostOps8 (Wc13 m c)) 7 _ _ _ _ rfl (by decide) (by decide) (by decide))
def kq_main_c_11 := lift_nullary (liftK_14 m c main_c_11 (by decide)) (eq_nullary lateK_14 (rfl : Wc14 m c = after hostOps8 (Wc13 m c)) 8 _ _ rfl (by decide))
def kq_main_v93 := lift_unary (liftK_14 m c main_v93 (by decide)) (liftK_14 m c main_c_11 (by decide)) (eq_unary lateK_14 (rfl : Wc14 m c = after hostOps8 (Wc13 m c)) 9 _ _ _ rfl (by decide) (by decide))
def kq_main_v94 := lift_binary (liftK_14 m c main_v94 (by decide)) (liftK_14 m c main_arg3 (by decide)) (liftK_14 m c main_v93 (by decide)) (eq_binary lateK_14 (rfl : Wc14 m c = after hostOps8 (Wc13 m c)) 10 _ _ _ _ rfl (by decide) (by decide) (by decide))
def kq_main_v95 := lift_ternary (liftK_14 m c main_v95 (by decide)) (liftK_14 m c main_v92 (by decide)) (liftK_14 m c main_v94 (by decide)) (liftK_14 m c main_arg3 (by decide)) (eq_ternary lateK_14 (rfl : Wc14 m c = after hostOps8 (Wc13 m c)) 11 _ _ _ _ _ rfl (by decide) (by decide) (by decide) (by decide))
def kq_main_v96 := lift_unary (liftK_14 m c main_v96 (by decide)) (liftK_14 m c main_v95 (by decide)) (eq_unary lateK_14 (rfl : Wc14 m c = after hostOps8 (Wc13 m c)) 12 _ _ _ rfl (by decide) (by decide))
def kq_main_v97 := lift_binary (liftK_14 m c main_v97 (by decide)) (liftK_14 m c main_v89 (by decide)) (liftK_14 m c main_v96 (by decide)) (eq_binary lateK_14 (rfl : Wc14 m c = after hostOps8 (Wc13 m c)) 13 _ _ _ _ rfl (by decide) (by decide) (by decide))
def kq_main_v98 := lift_unary (liftK_14 m c main_v98 (by decide)) (liftK_14 m c main_v90 (by decide)) (eq_unary lateK_14 (rfl : Wc14 m c = after hostOps8 (Wc13 m c)) 14 _ _ _ rfl (by decide) (by decide))
def kq_main_v99 := lift_binary (liftK_14 m c main_v99 (by decide)) (liftK_14 m c main_v98 (by decide)) (liftK_14 m c main_v97 (by decide)) (eq_binary lateK_14 (rfl : Wc14 m c = after hostOps8 (Wc13 m c)) 15 _ _ _ _ rfl (by decide) (by decide) (by decide))
def kq_main_cst_12 := lift_nullary (liftK_14 m c main_cst_12 (by decide)) (eq_nullary lateK_14 (rfl : Wc14 m c = after hostOps8 (Wc13 m c)) 16 _ _ rfl (by decide))
def kq_main_v100 := lift_unary (liftK_14 m c main_v100 (by decide)) (liftK_14 m c main_cst_12 (by decide)) (eq_unary lateK_14 (rfl : Wc14 m c = after hostOps8 (Wc13 m c)) 17 _ _ _ rfl (by decide) (by decide))
def kq_main_v101 := lift_unary (liftK_14 m c main_v101 (by decide)) (liftK_14 m c main_arg2 (by decide)) (eq_unary lateK_14 (rfl : Wc14 m c = after hostOps8 (Wc13 m c)) 18 _ _ _ rfl (by decide) (by decide))
def kq_main_v102 := lift_ternary (liftK_14 m c main_v102 (by decide)) (liftK_14 m c main_v100 (by decide)) (liftK_14 m c main_v101 (by decide)) (liftK_14 m c main_v99 (by decide)) (eq_ternary lateK_14 (rfl : Wc14 m c = after hostOps8 (Wc13 m c)) 19 _ _ _ _ _ rfl (by decide) (by decide) (by decide) (by decide))
def kq_main_v103 := lift_unary (liftK_14 m c main_v103 (by decide)) (liftK_14 m c main_arg4 (by decide)) (eq_unary lateK_14 (rfl : Wc14 m c = after hostOps8 (Wc13 m c)) 20 _ _ _ rfl (by decide) (by decide))
def kq_main_c_13 := lift_nullary (liftK_14 m c main_c_13 (by decide)) (eq_nullary lateK_14 (rfl : Wc14 m c = after hostOps8 (Wc13 m c)) 21 _ _ rfl (by decide))
def kq_main_v104 := lift_unary (liftK_14 m c main_v104 (by decide)) (liftK_14 m c main_c_13 (by decide)) (eq_unary lateK_14 (rfl : Wc14 m c = after hostOps8 (Wc13 m c)) 22 _ _ _ rfl (by decide) (by decide))
def kq_main_v105 := lift_binary (liftK_14 m c main_v105 (by decide)) (liftK_14 m c main_arg2 (by decide)) (liftK_14 m c main_v104 (by decide)) (eq_binary lateK_14 (rfl : Wc14 m c = after hostOps8 (Wc13 m c)) 23 _ _ _ _ rfl (by decide) (by decide) (by decide))
def kq_main_c_14 := lift_nullary (liftK_14 m c main_c_14 (by decide)) (eq_nullary lateK_14 (rfl : Wc14 m c = after hostOps8 (Wc13 m c)) 24 _ _ rfl (by decide))
def kq_main_v106 := lift_unary (liftK_14 m c main_v106 (by decide)) (liftK_14 m c main_c_14 (by decide)) (eq_unary lateK_14 (rfl : Wc14 m c = after hostOps8 (Wc13 m c)) 25 _ _ _ rfl (by decide) (by decide))
def kq_main_v107 := lift_binary (liftK_14 m c main_v107 (by decide)) (liftK_14 m c main_arg2 (by decide)) (liftK_14 m c main_v106 (by decide)) (eq_binary lateK_14 (rfl : Wc14 m c = after hostOps8 (Wc13 m c)) 26 _ _ _ _ rfl (by decide) (by decide) (by decide))
def kq_main_v108 := lift_ternary (liftK_14 m c main_v108 (by decide)) (liftK_14 m c main_v105 (by decide)) (liftK_14 m c main_v107 (by decide)) (liftK_14 m c main_arg2 (by decide)) (eq_ternary lateK_14 (rfl : Wc14 m c = after hostOps8 (Wc13 m c)) 27 _ _ _ _ _ rfl (by decide) (by decide) (by decide) (by decide))
def kq_main_v109 := lift_unary (liftK_14 m c main_v109 (by decide)) (liftK_14 m c main_v108 (by decide)) (eq_unary lateK_14 (rfl : Wc14 m c = after hostOps8 (Wc13 m c)) 28 _ _ _ rfl (by decide) (by decide))
def kq_main_v110 := lift_binary (liftK_14 m c main_v110 (by decide)) (liftK_14 m c main_v87 (by decide)) (liftK_14 m c main_v109 (by decide)) (eq_binary lateK_14 (rfl : Wc14 m c = after hostOps8 (Wc13 m c)) 29 _ _ _ _ rfl (by decide) (by decide) (by decide))
def kq_main_v111 := lift_unary (liftK_14 m c main_v111 (by decide)) (liftK_14 m c main_v103 (by decide)) (eq_unary lateK_14 (rfl : Wc14 m c = after hostOps8 (Wc13 m c)) 30 _ _ _ rfl (by decide) (by decide))
def kq_main_v112 := lift_binary (liftK_14 m c main_v112 (by decide)) (liftK_14 m c main_v111 (by decide)) (liftK_14 m c main_v110 (by decide)) (eq_binary lateK_14 (rfl : Wc14 m c = after hostOps8 (Wc13 m c)) 31 _ _ _ _ rfl (by decide) (by decide) (by decide))
def kq_main_cst_15 := lift_nullary (liftK_14 m c main_cst_15 (by decide)) (eq_nullary lateK_14 (rfl : Wc14 m c = after hostOps8 (Wc13 m c)) 32 _ _ rfl (by decide))
def kq_main_v113 := lift_unary (liftK_14 m c main_v113 (by decide)) (liftK_14 m c main_cst_15 (by decide)) (eq_unary lateK_14 (rfl : Wc14 m c = after hostOps8 (Wc13 m c)) 33 _ _ _ rfl (by decide) (by decide))
def kq_main_v114 := lift_unary (liftK_14 m c main_v114 (by decide)) (liftK_14 m c main_arg3 (by decide)) (eq_unary lateK_14 (rfl : Wc14 m c = after hostOps8 (Wc13 m c)) 34 _ _ _ rfl (by decide) (by decide))
def kq_main_v115 := lift_ternary (liftK_14 m c main_v115 (by decide)) (liftK_14 m c main_v113 (by decide)) (liftK_14 m c main_v114 (by decide)) (liftK_14 m c main_v112 (by decide)) (eq_ternary lateK_14 (rfl : Wc14 m c = after hostOps8 (Wc13 m c)) 35 _ _ _ _ _ rfl (by decide) (by decide) (by decide) (by decide))

/-! ### `hostOps10` -/
def kq_main_v118 := lift_unary (liftK_17 m c main_v118 (by decide)) (liftK_17 m c main_arg9 (by decide)) (eq_unary lateK_17 (rfl : Wc17 m c = after hostOps10 (Wc16 m c)) 0 _ _ _ rfl (by decide) (by decide))
def kq_main_v119 := lift_reshape (x := main_v118) (y := main_v119) rfl shapeCasts_S1x3x128x128_S3x128x128 (liftK_17 m c main_v119 (by decide)) (liftK_17 m c main_v118 (by decide)) (eq_reshape (x := main_v118) (y := main_v119) lateK_17 (rfl : Wc17 m c = after hostOps10 (Wc16 m c)) 1 rfl shapeCasts_S1x3x128x128_S3x128x128 _ _ rfl (by decide) (by decide))

end Cert.KernelIdeal.Fr

end
-- ==== Proof.KI.KN2.lean ====
import proofs.«126270_j6725918785969_1_alg».proof.Proof.KI.KNDefs
import proofs.«126270_j6725918785969_1_alg».proof.Proof.KI.KEq2

/-!
# The kernel program's host operations as equations between plainly typed contents (part 2)
-/

set_option maxRecDepth 16384

noncomputable section

namespace Cert.KernelIdeal.Fr

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

theorem nkq_main_v61 : nK_main_v61 m c = ((extractStridedSlice S1x128x128 ![0, 0, 0] · slices_S3x128x128_S1x128x128_0_0_0) : (⟨S3x128x128, .f32⟩ : BufTy).Contents (Elt Ideal) → (⟨S1x128x128, .f32⟩ : BufTy).Contents (Elt Ideal)) (nK_main_v59 m c) := kq_main_v61 m c
theorem nkq_main_v62 : nK_main_v62 m c = fun i => shapeCast S128x128 (nK_main_v61 m c) shapeCasts_S1x128x128_S128x128 i := kq_main_v62 m c
theorem nkq_main_v63 : nK_main_v63 m c = ((transpose S128x128 [1, 0] · transposes_S128x128_S128x128_1_0) : (⟨S128x128, .f32⟩ : BufTy).Contents (Elt Ideal) → (⟨S128x128, .f32⟩ : BufTy).Contents (Elt Ideal)) (nK_main_v62 m c) := kq_main_v63 m c
theorem nkq_main_v64 : nK_main_v64 m c = ((fun l r => Host.dotGeneral (F := Ideal) (φ₁ := .f32) (φ₂ := .f32) dot_S128x128_S128x128_S128x128_1_0_0_1_n_n none l r) : (⟨S128x128, .f32⟩ : BufTy).Contents (Elt Ideal) → (⟨S128x128, .f32⟩ : BufTy).Contents (Elt Ideal) → (⟨S128x128, .f32⟩ : BufTy).Contents (Elt Ideal)) (nK_main_v63 m c) (nK_main_v60 m c) := kq_main_v64 m c
theorem nkq_main_cst_7 : nK_main_cst_7 m c = (constant (F := Ideal) S_ .f32 0x3F000000#32) := kq_main_cst_7 m c
theorem nkq_main_v65 : nK_main_v65 m c = (broadcastInDim S128x128 ![] bcast_S_S128x128 : (⟨S_, .f32⟩ : BufTy).Contents (Elt Ideal) → (⟨S128x128, .f32⟩ : BufTy).Contents (Elt Ideal)) (nK_main_cst_7 m c) := kq_main_v65 m c
theorem nkq_main_v66 : nK_main_v66 m c = (mulf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v65 m c) (nK_main_v64 m c) := kq_main_v66 m c
theorem nkq_main_v67 : nK_main_v67 m c = (maximumf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v66 m c) (nK_main_v64 m c) := kq_main_v67 m c
theorem nkq_main_v68 : nK_main_v68 m c = (addf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v67 m c) (nK_main_v60 m c) := kq_main_v68 m c
theorem nkq_main_v69 : nK_main_v69 m c = ((extractStridedSlice S1x128x128 ![1, 0, 0] · slices_S3x128x128_S1x128x128_1_0_0) : (⟨S3x128x128, .f32⟩ : BufTy).Contents (Elt Ideal) → (⟨S1x128x128, .f32⟩ : BufTy).Contents (Elt Ideal)) (nK_main_v59 m c) := kq_main_v69 m c
theorem nkq_main_v70 : nK_main_v70 m c = fun i => shapeCast S128x128 (nK_main_v69 m c) shapeCasts_S1x128x128_S128x128 i := kq_main_v70 m c
theorem nkq_main_v71 : nK_main_v71 m c = ((transpose S128x128 [1, 0] · transposes_S128x128_S128x128_1_0) : (⟨S128x128, .f32⟩ : BufTy).Contents (Elt Ideal) → (⟨S128x128, .f32⟩ : BufTy).Contents (Elt Ideal)) (nK_main_v70 m c) := kq_main_v71 m c
theorem nkq_main_v72 : nK_main_v72 m c = ((fun l r => Host.dotGeneral (F := Ideal) (φ₁ := .f32) (φ₂ := .f32) dot_S128x128_S128x128_S128x128_1_0_0_1_n_n none l r) : (⟨S128x128, .f32⟩ : BufTy).Contents (Elt Ideal) → (⟨S128x128, .f32⟩ : BufTy).Contents (Elt Ideal) → (⟨S128x128, .f32⟩ : BufTy).Contents (Elt Ideal)) (nK_main_v71 m c) (nK_main_v68 m c) := kq_main_v72 m c
theorem nkq_main_cst_8 : nK_main_cst_8 m c = (constant (F := Ideal) S_ .f32 0x3F000000#32) := kq_main_cst_8 m c
theorem nkq_main_v73 : nK_main_v73 m c = (broadcastInDim S128x128 ![] bcast_S_S128x128 : (⟨S_, .f32⟩ : BufTy).Contents (Elt Ideal) → (⟨S128x128, .f32⟩ : BufTy).Contents (Elt Ideal)) (nK_main_cst_8 m c) := kq_main_v73 m c
theorem nkq_main_v74 : nK_main_v74 m c = (mulf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v73 m c) (nK_main_v72 m c) := kq_main_v74 m c
theorem nkq_main_v75 : nK_main_v75 m c = (maximumf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v74 m c) (nK_main_v72 m c) := kq_main_v75 m c
theorem nkq_main_v76 : nK_main_v76 m c = (addf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v75 m c) (nK_main_v68 m c) := kq_main_v76 m c
theorem nkq_main_v77 : nK_main_v77 m c = ((extractStridedSlice S1x128x128 ![2, 0, 0] · slices_S3x128x128_S1x128x128_2_0_0) : (⟨S3x128x128, .f32⟩ : BufTy).Contents (Elt Ideal) → (⟨S1x128x128, .f32⟩ : BufTy).Contents (Elt Ideal)) (nK_main_v59 m c) := kq_main_v77 m c
theorem nkq_main_v78 : nK_main_v78 m c = fun i => shapeCast S128x128 (nK_main_v77 m c) shapeCasts_S1x128x128_S128x128 i := kq_main_v78 m c
theorem nkq_main_v79 : nK_main_v79 m c = ((transpose S128x128 [1, 0] · transposes_S128x128_S128x128_1_0) : (⟨S128x128, .f32⟩ : BufTy).Contents (Elt Ideal) → (⟨S128x128, .f32⟩ : BufTy).Contents (Elt Ideal)) (nK_main_v78 m c) := kq_main_v79 m c
theorem nkq_main_v80 : nK_main_v80 m c = ((fun l r => Host.dotGeneral (F := Ideal) (φ₁ := .f32) (φ₂ := .f32) dot_S128x128_S128x128_S128x128_1_0_0_1_n_n none l r) : (⟨S128x128, .f32⟩ : BufTy).Contents (Elt Ideal) → (⟨S128x128, .f32⟩ : BufTy).Contents (Elt Ideal) → (⟨S128x128, .f32⟩ : BufTy).Contents (Elt Ideal)) (nK_main_v79 m c) (nK_main_v76 m c) := kq_main_v80 m c
theorem nkq_main_cst_9 : nK_main_cst_9 m c = (constant (F := Ideal) S_ .f32 0x3F000000#32) := kq_main_cst_9 m c
theorem nkq_main_v81 : nK_main_v81 m c = (broadcastInDim S128x128 ![] bcast_S_S128x128 : (⟨S_, .f32⟩ : BufTy).Contents (Elt Ideal) → (⟨S128x128, .f32⟩ : BufTy).Contents (Elt Ideal)) (nK_main_cst_9 m c) := kq_main_v81 m c
theorem nkq_main_v82 : nK_main_v82 m c = (mulf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v81 m c) (nK_main_v80 m c) := kq_main_v82 m c
theorem nkq_main_v83 : nK_main_v83 m c = (maximumf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v82 m c) (nK_main_v80 m c) := kq_main_v83 m c
theorem nkq_main_v84 : nK_main_v84 m c = (addf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v83 m c) (nK_main_v76 m c) := kq_main_v84 m c
theorem nkq_main_v86 : nK_main_v86 m c = (addf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)) (nK_main_v28 m c) (nK_main_v57 m c) := kq_main_v86 m c
theorem nkq_main_v87 : nK_main_v87 m c = (addf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)) (nK_main_v86 m c) (nK_main_arg5 m c) := kq_main_v87 m c
theorem nkq_main_v88 : nK_main_v88 m c = (addf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) (nK_main_v29 m c) (nK_main_v85 m c) := kq_main_v88 m c
theorem nkq_main_v89 : nK_main_v89 m c = (addf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) (nK_main_v88 m c) (nK_main_arg6 m c) := kq_main_v89 m c
theorem nkq_main_v90 : nK_main_v90 m c = (broadcastInDim S1000000x1 ![0] bcast_S1000000_S1000000x1_0 : (⟨S1000000, .f32⟩ : BufTy).Contents (Elt Ideal) → (⟨S1000000x1, .f32⟩ : BufTy).Contents (Elt Ideal)) (nK_main_arg4 m c) := kq_main_v90 m c
theorem nkq_main_c_10 : nK_main_c_10 m c = (constantI S_ 32 0#32) := kq_main_c_10 m c
theorem nkq_main_v91 : nK_main_v91 m c = (broadcastInDim S1000000 ![] bcast_S_S1000000 : (⟨S_, .i32⟩ : BufTy).Contents (Elt Ideal) → (⟨S1000000, .i32⟩ : BufTy).Contents (Elt Ideal)) (nK_main_c_10 m c) := kq_main_v91 m c
theorem nkq_main_v92 : nK_main_v92 m c = (cmpi .slt : (⟨S1000000, .i32⟩ : BufTy).Contents (Elt Ideal) → (⟨S1000000, .i32⟩ : BufTy).Contents (Elt Ideal) → (⟨S1000000, .i1⟩ : BufTy).Contents (Elt Ideal)) (nK_main_arg3 m c) (nK_main_v91 m c) := kq_main_v92 m c
theorem nkq_main_c_11 : nK_main_c_11 m c = (constantI S_ 32 50000#32) := kq_main_c_11 m c
theorem nkq_main_v93 : nK_main_v93 m c = (broadcastInDim S1000000 ![] bcast_S_S1000000 : (⟨S_, .i32⟩ : BufTy).Contents (Elt Ideal) → (⟨S1000000, .i32⟩ : BufTy).Contents (Elt Ideal)) (nK_main_c_11 m c) := kq_main_v93 m c
theorem nkq_main_v94 : nK_main_v94 m c = (addi : (⟨S1000000, .i32⟩ : BufTy).Contents (Elt Ideal) → (⟨S1000000, .i32⟩ : BufTy).Contents (Elt Ideal) → (⟨S1000000, .i32⟩ : BufTy).Contents (Elt Ideal)) (nK_main_arg3 m c) (nK_main_v93 m c) := kq_main_v94 m c
theorem nkq_main_v95 : nK_main_v95 m c = (select : (⟨S1000000, .i1⟩ : BufTy).Contents (Elt Ideal) → (⟨S1000000, .i32⟩ : BufTy).Contents (Elt Ideal) → (⟨S1000000, .i32⟩ : BufTy).Contents (Elt Ideal) → (⟨S1000000, .i32⟩ : BufTy).Contents (Elt Ideal)) (nK_main_v92 m c) (nK_main_v94 m c) (nK_main_arg3 m c) := kq_main_v95 m c
theorem nkq_main_v96 : nK_main_v96 m c = (broadcastInDim S1000000x1 ![0] bcast_S1000000_S1000000x1_0 : (⟨S1000000, .i32⟩ : BufTy).Contents (Elt Ideal) → (⟨S1000000x1, .i32⟩ : BufTy).Contents (Elt Ideal)) (nK_main_v95 m c) := kq_main_v96 m c
theorem nkq_main_v97 : nK_main_v97 m c = ((fun x i => Host.gather gather_S50000x128_S1000000x1_S1000000x128_1_0_n_n_0_1_1128 x i) : (⟨S50000x128, .f32⟩ : BufTy).Contents (Elt Ideal) → (⟨S1000000x1, .i32⟩ : BufTy).Contents (Elt Ideal) → (⟨S1000000x128, .f32⟩ : BufTy).Contents (Elt Ideal)) (nK_main_v89 m c) (nK_main_v96 m c) := kq_main_v97 m c
theorem nkq_main_v98 : nK_main_v98 m c = (broadcastInDim S1000000x128 ![0, 1] bcast_S1000000x1_S1000000x128_0_1 : (⟨S1000000x1, .f32⟩ : BufTy).Contents (Elt Ideal) → (⟨S1000000x128, .f32⟩ : BufTy).Contents (Elt Ideal)) (nK_main_v90 m c) := kq_main_v98 m c
theorem nkq_main_v99 : nK_main_v99 m c = (mulf (F := Ideal) (φ := .f32) : (⟨S1000000x128, .f32⟩ : BufTy).Contents (Elt Ideal) → (⟨S1000000x128, .f32⟩ : BufTy).Contents (Elt Ideal) → (⟨S1000000x128, .f32⟩ : BufTy).Contents (Elt Ideal)) (nK_main_v98 m c) (nK_main_v97 m c) := kq_main_v99 m c
theorem nkq_main_cst_12 : nK_main_cst_12 m c = (constant (F := Ideal) S_ .f32 0x00000000#32) := kq_main_cst_12 m c
theorem nkq_main_v100 : nK_main_v100 m c = (broadcastInDim S100000x128 ![] bcast_S_S100000x128 : (⟨S_, .f32⟩ : BufTy).Contents (Elt Ideal) → (⟨S100000x128, .f32⟩ : BufTy).Contents (Elt Ideal)) (nK_main_cst_12 m c) := kq_main_v100 m c
theorem nkq_main_v101 : nK_main_v101 m c = (broadcastInDim S1000000x1 ![0] bcast_S1000000_S1000000x1_0 : (⟨S1000000, .i32⟩ : BufTy).Contents (Elt Ideal) → (⟨S1000000x1, .i32⟩ : BufTy).Contents (Elt Ideal)) (nK_main_arg2 m c) := kq_main_v101 m c
theorem nkq_main_v102 : nK_main_v102 m c = ((fun x i u => Host.scatterAdd (F := Ideal) (φ := .f32) scatter_S100000x128_S1000000x1_S1000000x128_1_0_0_1 x i u) : (⟨S100000x128, .f32⟩ : BufTy).Contents (Elt Ideal) → (⟨S1000000x1, .i32⟩ : BufTy).Contents (Elt Ideal) → (⟨S1000000x128, .f32⟩ : BufTy).Contents (Elt Ideal) → (⟨S100000x128, .f32⟩ : BufTy).Contents (Elt Ideal)) (nK_main_v100 m c) (nK_main_v101 m c) (nK_main_v99 m c) := kq_main_v102 m c
theorem nkq_main_v103 : nK_main_v103 m c = (broadcastInDim S1000000x1 ![0] bcast_S1000000_S1000000x1_0 : (⟨S1000000, .f32⟩ : BufTy).Contents (Elt Ideal) → (⟨S1000000x1, .f32⟩ : BufTy).Contents (Elt Ideal)) (nK_main_arg4 m c) := kq_main_v103 m c
theorem nkq_main_c_13 : nK_main_c_13 m c = (constantI S_ 32 0#32) := kq_main_c_13 m c
theorem nkq_main_v104 : nK_main_v104 m c = (broadcastInDim S1000000 ![] bcast_S_S1000000 : (⟨S_, .i32⟩ : BufTy).Contents (Elt Ideal) → (⟨S1000000, .i32⟩ : BufTy).Contents (Elt Ideal)) (nK_main_c_13 m c) := kq_main_v104 m c
theorem nkq_main_v105 : nK_main_v105 m c = (cmpi .slt : (⟨S1000000, .i32⟩ : BufTy).Contents (Elt Ideal) → (⟨S1000000, .i32⟩ : BufTy).Contents (Elt Ideal) → (⟨S1000000, .i1⟩ : BufTy).Contents (Elt Ideal)) (nK_main_arg2 m c) (nK_main_v104 m c) := kq_main_v105 m c
theorem nkq_main_c_14 : nK_main_c_14 m c = (constantI S_ 32 100000#32) := kq_main_c_14 m c
theorem nkq_main_v106 : nK_main_v106 m c = (broadcastInDim S1000000 ![] bcast_S_S1000000 : (⟨S_, .i32⟩ : BufTy).Contents (Elt Ideal) → (⟨S1000000, .i32⟩ : BufTy).Contents (Elt Ideal)) (nK_main_c_14 m c) := kq_main_v106 m c
theorem nkq_main_v107 : nK_main_v107 m c = (addi : (⟨S1000000, .i32⟩ : BufTy).Contents (Elt Ideal) → (⟨S1000000, .i32⟩ : BufTy).Contents (Elt Ideal) → (⟨S1000000, .i32⟩ : BufTy).Contents (Elt Ideal)) (nK_main_arg2 m c) (nK_main_v106 m c) := kq_main_v107 m c
theorem nkq_main_v108 : nK_main_v108 m c = (select : (⟨S1000000, .i1⟩ : BufTy).Contents (Elt Ideal) → (⟨S1000000, .i32⟩ : BufTy).Contents (Elt Ideal) → (⟨S1000000, .i32⟩ : BufTy).Contents (Elt Ideal) → (⟨S1000000, .i32⟩ : BufTy).Contents (Elt Ideal)) (nK_main_v105 m c) (nK_main_v107 m c) (nK_main_arg2 m c) := kq_main_v108 m c
theorem nkq_main_v109 : nK_main_v109 m c = (broadcastInDim S1000000x1 ![0] bcast_S1000000_S1000000x1_0 : (⟨S1000000, .i32⟩ : BufTy).Contents (Elt Ideal) → (⟨S1000000x1, .i32⟩ : BufTy).Contents (Elt Ideal)) (nK_main_v108 m c) := kq_main_v109 m c
theorem nkq_main_v110 : nK_main_v110 m c = ((fun x i => Host.gather gather_S100000x128_S1000000x1_S1000000x128_1_0_n_n_0_1_1128 x i) : (⟨S100000x128, .f32⟩ : BufTy).Contents (Elt Ideal) → (⟨S1000000x1, .i32⟩ : BufTy).Contents (Elt Ideal) → (⟨S1000000x128, .f32⟩ : BufTy).Contents (Elt Ideal)) (nK_main_v87 m c) (nK_main_v109 m c) := kq_main_v110 m c
theorem nkq_main_v111 : nK_main_v111 m c = (broadcastInDim S1000000x128 ![0, 1] bcast_S1000000x1_S1000000x128_0_1 : (⟨S1000000x1, .f32⟩ : BufTy).Contents (Elt Ideal) → (⟨S1000000x128, .f32⟩ : BufTy).Contents (Elt Ideal)) (nK_main_v103 m c) := kq_main_v111 m c
theorem nkq_main_v112 : nK_main_v112 m c = (mulf (F := Ideal) (φ := .f32) : (⟨S1000000x128, .f32⟩ : BufTy).Contents (Elt Ideal) → (⟨S1000000x128, .f32⟩ : BufTy).Contents (Elt Ideal) → (⟨S1000000x128, .f32⟩ : BufTy).Contents (Elt Ideal)) (nK_main_v111 m c) (nK_main_v110 m c) := kq_main_v112 m c
theorem nkq_main_cst_15 : nK_main_cst_15 m c = (constant (F := Ideal) S_ .f32 0x00000000#32) := kq_main_cst_15 m c
theorem nkq_main_v113 : nK_main_v113 m c = (broadcastInDim S50000x128 ![] bcast_S_S50000x128 : (⟨S_, .f32⟩ : BufTy).Contents (Elt Ideal) → (⟨S50000x128, .f32⟩ : BufTy).Contents (Elt Ideal)) (nK_main_cst_15 m c) := kq_main_v113 m c
theorem nkq_main_v114 : nK_main_v114 m c = (broadcastInDim S1000000x1 ![0] bcast_S1000000_S1000000x1_0 : (⟨S1000000, .i32⟩ : BufTy).Contents (Elt Ideal) → (⟨S1000000x1, .i32⟩ : BufTy).Contents (Elt Ideal)) (nK_main_arg3 m c) := kq_main_v114 m c
theorem nkq_main_v115 : nK_main_v115 m c = ((fun x i u => Host.scatterAdd (F := Ideal) (φ := .f32) scatter_S50000x128_S1000000x1_S1000000x128_1_0_0_1 x i u) : (⟨S50000x128, .f32⟩ : BufTy).Contents (Elt Ideal) → (⟨S1000000x1, .i32⟩ : BufTy).Contents (Elt Ideal) → (⟨S1000000x128, .f32⟩ : BufTy).Contents (Elt Ideal) → (⟨S50000x128, .f32⟩ : BufTy).Contents (Elt Ideal)) (nK_main_v113 m c) (nK_main_v114 m c) (nK_main_v112 m c) := kq_main_v115 m c
theorem nkq_main_v118 : nK_main_v118 m c = ((extractStridedSlice S1x3x128x128 ![1, 0, 0, 0] · slices_S2x3x128x128_S1x3x128x128_1_0_0_0) : (⟨S2x3x128x128, .f32⟩ : BufTy).Contents (Elt Ideal) → (⟨S1x3x128x128, .f32⟩ : BufTy).Contents (Elt Ideal)) (nK_main_arg9 m c) := kq_main_v118 m c
theorem nkq_main_v119 : nK_main_v119 m c = fun i => shapeCast S3x128x128 (nK_main_v118 m c) shapeCasts_S1x3x128x128_S3x128x128 i := kq_main_v119 m c

end Cert.KernelIdeal.Fr

end
-- ==== Proof.KI.KEq3.lean ====
import proofs.«126270_j6725918785969_1_alg».proof.Proof.KI.KEqBase

/-!
# The idealized kernel program's host operations, each as an equation between final buffer contents (part 3)

For every host operation `y = f x₁ x₂ …` of the stretches `hostOps11`, `hostOps12`, `hostOps13`: the final contents of `y` are `f` of the
final contents of the operands.
-/

set_option maxRecDepth 16384

noncomputable section

namespace Cert.KernelIdeal.Fr

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

/-! ### `hostOps11` -/
def kq_main_v121 := lift_unary (liftK_19 m c main_v121 (by decide)) (liftK_19 m c main_v119 (by decide)) (eq_unary lateK_19 (rfl : Wc19 m c = after hostOps11 (Wc18 m c)) 0 _ _ _ rfl (by decide) (by decide))
def kq_main_v122 := lift_reshape (x := main_v121) (y := main_v122) rfl shapeCasts_S1x128x128_S128x128 (liftK_19 m c main_v122 (by decide)) (liftK_19 m c main_v121 (by decide)) (eq_reshape (x := main_v121) (y := main_v122) lateK_19 (rfl : Wc19 m c = after hostOps11 (Wc18 m c)) 1 rfl shapeCasts_S1x128x128_S128x128 _ _ rfl (by decide) (by decide))
def kq_main_v123 := lift_unary (liftK_19 m c main_v123 (by decide)) (liftK_19 m c main_v122 (by decide)) (eq_unary lateK_19 (rfl : Wc19 m c = after hostOps11 (Wc18 m c)) 2 _ _ _ rfl (by decide) (by decide))
def kq_main_v124 := lift_binary (liftK_19 m c main_v124 (by decide)) (liftK_19 m c main_v123 (by decide)) (liftK_19 m c main_v120 (by decide)) (eq_binary lateK_19 (rfl : Wc19 m c = after hostOps11 (Wc18 m c)) 3 _ _ _ _ rfl (by decide) (by decide) (by decide))
def kq_main_cst_16 := lift_nullary (liftK_19 m c main_cst_16 (by decide)) (eq_nullary lateK_19 (rfl : Wc19 m c = after hostOps11 (Wc18 m c)) 4 _ _ rfl (by decide))
def kq_main_v125 := lift_unary (liftK_19 m c main_v125 (by decide)) (liftK_19 m c main_cst_16 (by decide)) (eq_unary lateK_19 (rfl : Wc19 m c = after hostOps11 (Wc18 m c)) 5 _ _ _ rfl (by decide) (by decide))
def kq_main_v126 := lift_binary (liftK_19 m c main_v126 (by decide)) (liftK_19 m c main_v125 (by decide)) (liftK_19 m c main_v124 (by decide)) (eq_binary lateK_19 (rfl : Wc19 m c = after hostOps11 (Wc18 m c)) 6 _ _ _ _ rfl (by decide) (by decide) (by decide))
def kq_main_v127 := lift_binary (liftK_19 m c main_v127 (by decide)) (liftK_19 m c main_v126 (by decide)) (liftK_19 m c main_v124 (by decide)) (eq_binary lateK_19 (rfl : Wc19 m c = after hostOps11 (Wc18 m c)) 7 _ _ _ _ rfl (by decide) (by decide) (by decide))
def kq_main_v128 := lift_binary (liftK_19 m c main_v128 (by decide)) (liftK_19 m c main_v127 (by decide)) (liftK_19 m c main_v120 (by decide)) (eq_binary lateK_19 (rfl : Wc19 m c = after hostOps11 (Wc18 m c)) 8 _ _ _ _ rfl (by decide) (by decide) (by decide))
def kq_main_v129 := lift_unary (liftK_19 m c main_v129 (by decide)) (liftK_19 m c main_v119 (by decide)) (eq_unary lateK_19 (rfl : Wc19 m c = after hostOps11 (Wc18 m c)) 9 _ _ _ rfl (by decide) (by decide))
def kq_main_v130 := lift_reshape (x := main_v129) (y := main_v130) rfl shapeCasts_S1x128x128_S128x128 (liftK_19 m c main_v130 (by decide)) (liftK_19 m c main_v129 (by decide)) (eq_reshape (x := main_v129) (y := main_v130) lateK_19 (rfl : Wc19 m c = after hostOps11 (Wc18 m c)) 10 rfl shapeCasts_S1x128x128_S128x128 _ _ rfl (by decide) (by decide))
def kq_main_v131 := lift_unary (liftK_19 m c main_v131 (by decide)) (liftK_19 m c main_v130 (by decide)) (eq_unary lateK_19 (rfl : Wc19 m c = after hostOps11 (Wc18 m c)) 11 _ _ _ rfl (by decide) (by decide))
def kq_main_v132 := lift_binary (liftK_19 m c main_v132 (by decide)) (liftK_19 m c main_v131 (by decide)) (liftK_19 m c main_v128 (by decide)) (eq_binary lateK_19 (rfl : Wc19 m c = after hostOps11 (Wc18 m c)) 12 _ _ _ _ rfl (by decide) (by decide) (by decide))
def kq_main_cst_17 := lift_nullary (liftK_19 m c main_cst_17 (by decide)) (eq_nullary lateK_19 (rfl : Wc19 m c = after hostOps11 (Wc18 m c)) 13 _ _ rfl (by decide))
def kq_main_v133 := lift_unary (liftK_19 m c main_v133 (by decide)) (liftK_19 m c main_cst_17 (by decide)) (eq_unary lateK_19 (rfl : Wc19 m c = after hostOps11 (Wc18 m c)) 14 _ _ _ rfl (by decide) (by decide))
def kq_main_v134 := lift_binary (liftK_19 m c main_v134 (by decide)) (liftK_19 m c main_v133 (by decide)) (liftK_19 m c main_v132 (by decide)) (eq_binary lateK_19 (rfl : Wc19 m c = after hostOps11 (Wc18 m c)) 15 _ _ _ _ rfl (by decide) (by decide) (by decide))
def kq_main_v135 := lift_binary (liftK_19 m c main_v135 (by decide)) (liftK_19 m c main_v134 (by decide)) (liftK_19 m c main_v132 (by decide)) (eq_binary lateK_19 (rfl : Wc19 m c = after hostOps11 (Wc18 m c)) 16 _ _ _ _ rfl (by decide) (by decide) (by decide))
def kq_main_v136 := lift_binary (liftK_19 m c main_v136 (by decide)) (liftK_19 m c main_v135 (by decide)) (liftK_19 m c main_v128 (by decide)) (eq_binary lateK_19 (rfl : Wc19 m c = after hostOps11 (Wc18 m c)) 17 _ _ _ _ rfl (by decide) (by decide) (by decide))
def kq_main_v137 := lift_unary (liftK_19 m c main_v137 (by decide)) (liftK_19 m c main_v119 (by decide)) (eq_unary lateK_19 (rfl : Wc19 m c = after hostOps11 (Wc18 m c)) 18 _ _ _ rfl (by decide) (by decide))
def kq_main_v138 := lift_reshape (x := main_v137) (y := main_v138) rfl shapeCasts_S1x128x128_S128x128 (liftK_19 m c main_v138 (by decide)) (liftK_19 m c main_v137 (by decide)) (eq_reshape (x := main_v137) (y := main_v138) lateK_19 (rfl : Wc19 m c = after hostOps11 (Wc18 m c)) 19 rfl shapeCasts_S1x128x128_S128x128 _ _ rfl (by decide) (by decide))
def kq_main_v139 := lift_unary (liftK_19 m c main_v139 (by decide)) (liftK_19 m c main_v138 (by decide)) (eq_unary lateK_19 (rfl : Wc19 m c = after hostOps11 (Wc18 m c)) 20 _ _ _ rfl (by decide) (by decide))
def kq_main_v140 := lift_binary (liftK_19 m c main_v140 (by decide)) (liftK_19 m c main_v139 (by decide)) (liftK_19 m c main_v136 (by decide)) (eq_binary lateK_19 (rfl : Wc19 m c = after hostOps11 (Wc18 m c)) 21 _ _ _ _ rfl (by decide) (by decide) (by decide))
def kq_main_cst_18 := lift_nullary (liftK_19 m c main_cst_18 (by decide)) (eq_nullary lateK_19 (rfl : Wc19 m c = after hostOps11 (Wc18 m c)) 22 _ _ rfl (by decide))
def kq_main_v141 := lift_unary (liftK_19 m c main_v141 (by decide)) (liftK_19 m c main_cst_18 (by decide)) (eq_unary lateK_19 (rfl : Wc19 m c = after hostOps11 (Wc18 m c)) 23 _ _ _ rfl (by decide) (by decide))
def kq_main_v142 := lift_binary (liftK_19 m c main_v142 (by decide)) (liftK_19 m c main_v141 (by decide)) (liftK_19 m c main_v140 (by decide)) (eq_binary lateK_19 (rfl : Wc19 m c = after hostOps11 (Wc18 m c)) 24 _ _ _ _ rfl (by decide) (by decide) (by decide))
def kq_main_v143 := lift_binary (liftK_19 m c main_v143 (by decide)) (liftK_19 m c main_v142 (by decide)) (liftK_19 m c main_v140 (by decide)) (eq_binary lateK_19 (rfl : Wc19 m c = after hostOps11 (Wc18 m c)) 25 _ _ _ _ rfl (by decide) (by decide) (by decide))
def kq_main_v144 := lift_binary (liftK_19 m c main_v144 (by decide)) (liftK_19 m c main_v143 (by decide)) (liftK_19 m c main_v136 (by decide)) (eq_binary lateK_19 (rfl : Wc19 m c = after hostOps11 (Wc18 m c)) 26 _ _ _ _ rfl (by decide) (by decide) (by decide))

/-! ### `hostOps12` -/
def kq_main_v146 := lift_unary (liftK_21 m c main_v146 (by decide)) (liftK_21 m c main_arg10 (by decide)) (eq_unary lateK_21 (rfl : Wc21 m c = after hostOps12 (Wc20 m c)) 0 _ _ _ rfl (by decide) (by decide))
def kq_main_v147 := lift_reshape (x := main_v146) (y := main_v147) rfl shapeCasts_S1x3x128x128_S3x128x128 (liftK_21 m c main_v147 (by decide)) (liftK_21 m c main_v146 (by decide)) (eq_reshape (x := main_v146) (y := main_v147) lateK_21 (rfl : Wc21 m c = after hostOps12 (Wc20 m c)) 1 rfl shapeCasts_S1x3x128x128_S3x128x128 _ _ rfl (by decide) (by decide))

/-! ### `hostOps13` -/
def kq_main_v149 := lift_unary (liftK_23 m c main_v149 (by decide)) (liftK_23 m c main_v147 (by decide)) (eq_unary lateK_23 (rfl : Wc23 m c = after hostOps13 (Wc22 m c)) 0 _ _ _ rfl (by decide) (by decide))
def kq_main_v150 := lift_reshape (x := main_v149) (y := main_v150) rfl shapeCasts_S1x128x128_S128x128 (liftK_23 m c main_v150 (by decide)) (liftK_23 m c main_v149 (by decide)) (eq_reshape (x := main_v149) (y := main_v150) lateK_23 (rfl : Wc23 m c = after hostOps13 (Wc22 m c)) 1 rfl shapeCasts_S1x128x128_S128x128 _ _ rfl (by decide) (by decide))
def kq_main_v151 := lift_unary (liftK_23 m c main_v151 (by decide)) (liftK_23 m c main_v150 (by decide)) (eq_unary lateK_23 (rfl : Wc23 m c = after hostOps13 (Wc22 m c)) 2 _ _ _ rfl (by decide) (by decide))
def kq_main_v152 := lift_binary (liftK_23 m c main_v152 (by decide)) (liftK_23 m c main_v151 (by decide)) (liftK_23 m c main_v148 (by decide)) (eq_binary lateK_23 (rfl : Wc23 m c = after hostOps13 (Wc22 m c)) 3 _ _ _ _ rfl (by decide) (by decide) (by decide))
def kq_main_cst_19 := lift_nullary (liftK_23 m c main_cst_19 (by decide)) (eq_nullary lateK_23 (rfl : Wc23 m c = after hostOps13 (Wc22 m c)) 4 _ _ rfl (by decide))
def kq_main_v153 := lift_unary (liftK_23 m c main_v153 (by decide)) (liftK_23 m c main_cst_19 (by decide)) (eq_unary lateK_23 (rfl : Wc23 m c = after hostOps13 (Wc22 m c)) 5 _ _ _ rfl (by decide) (by decide))
def kq_main_v154 := lift_binary (liftK_23 m c main_v154 (by decide)) (liftK_23 m c main_v153 (by decide)) (liftK_23 m c main_v152 (by decide)) (eq_binary lateK_23 (rfl : Wc23 m c = after hostOps13 (Wc22 m c)) 6 _ _ _ _ rfl (by decide) (by decide) (by decide))
def kq_main_v155 := lift_binary (liftK_23 m c main_v155 (by decide)) (liftK_23 m c main_v154 (by decide)) (liftK_23 m c main_v152 (by decide)) (eq_binary lateK_23 (rfl : Wc23 m c = after hostOps13 (Wc22 m c)) 7 _ _ _ _ rfl (by decide) (by decide) (by decide))
def kq_main_v156 := lift_binary (liftK_23 m c main_v156 (by decide)) (liftK_23 m c main_v155 (by decide)) (liftK_23 m c main_v148 (by decide)) (eq_binary lateK_23 (rfl : Wc23 m c = after hostOps13 (Wc22 m c)) 8 _ _ _ _ rfl (by decide) (by decide) (by decide))
def kq_main_v157 := lift_unary (liftK_23 m c main_v157 (by decide)) (liftK_23 m c main_v147 (by decide)) (eq_unary lateK_23 (rfl : Wc23 m c = after hostOps13 (Wc22 m c)) 9 _ _ _ rfl (by decide) (by decide))
def kq_main_v158 := lift_reshape (x := main_v157) (y := main_v158) rfl shapeCasts_S1x128x128_S128x128 (liftK_23 m c main_v158 (by decide)) (liftK_23 m c main_v157 (by decide)) (eq_reshape (x := main_v157) (y := main_v158) lateK_23 (rfl : Wc23 m c = after hostOps13 (Wc22 m c)) 10 rfl shapeCasts_S1x128x128_S128x128 _ _ rfl (by decide) (by decide))
def kq_main_v159 := lift_unary (liftK_23 m c main_v159 (by decide)) (liftK_23 m c main_v158 (by decide)) (eq_unary lateK_23 (rfl : Wc23 m c = after hostOps13 (Wc22 m c)) 11 _ _ _ rfl (by decide) (by decide))
def kq_main_v160 := lift_binary (liftK_23 m c main_v160 (by decide)) (liftK_23 m c main_v159 (by decide)) (liftK_23 m c main_v156 (by decide)) (eq_binary lateK_23 (rfl : Wc23 m c = after hostOps13 (Wc22 m c)) 12 _ _ _ _ rfl (by decide) (by decide) (by decide))
def kq_main_cst_20 := lift_nullary (liftK_23 m c main_cst_20 (by decide)) (eq_nullary lateK_23 (rfl : Wc23 m c = after hostOps13 (Wc22 m c)) 13 _ _ rfl (by decide))
def kq_main_v161 := lift_unary (liftK_23 m c main_v161 (by decide)) (liftK_23 m c main_cst_20 (by decide)) (eq_unary lateK_23 (rfl : Wc23 m c = after hostOps13 (Wc22 m c)) 14 _ _ _ rfl (by decide) (by decide))
def kq_main_v162 := lift_binary (liftK_23 m c main_v162 (by decide)) (liftK_23 m c main_v161 (by decide)) (liftK_23 m c main_v160 (by decide)) (eq_binary lateK_23 (rfl : Wc23 m c = after hostOps13 (Wc22 m c)) 15 _ _ _ _ rfl (by decide) (by decide) (by decide))
def kq_main_v163 := lift_binary (liftK_23 m c main_v163 (by decide)) (liftK_23 m c main_v162 (by decide)) (liftK_23 m c main_v160 (by decide)) (eq_binary lateK_23 (rfl : Wc23 m c = after hostOps13 (Wc22 m c)) 16 _ _ _ _ rfl (by decide) (by decide) (by decide))
def kq_main_v164 := lift_binary (liftK_23 m c main_v164 (by decide)) (liftK_23 m c main_v163 (by decide)) (liftK_23 m c main_v156 (by decide)) (eq_binary lateK_23 (rfl : Wc23 m c = after hostOps13 (Wc22 m c)) 17 _ _ _ _ rfl (by decide) (by decide) (by decide))
def kq_main_v165 := lift_unary (liftK_23 m c main_v165 (by decide)) (liftK_23 m c main_v147 (by decide)) (eq_unary lateK_23 (rfl : Wc23 m c = after hostOps13 (Wc22 m c)) 18 _ _ _ rfl (by decide) (by decide))
def kq_main_v166 := lift_reshape (x := main_v165) (y := main_v166) rfl shapeCasts_S1x128x128_S128x128 (liftK_23 m c main_v166 (by decide)) (liftK_23 m c main_v165 (by decide)) (eq_reshape (x := main_v165) (y := main_v166) lateK_23 (rfl : Wc23 m c = after hostOps13 (Wc22 m c)) 19 rfl shapeCasts_S1x128x128_S128x128 _ _ rfl (by decide) (by decide))
def kq_main_v167 := lift_unary (liftK_23 m c main_v167 (by decide)) (liftK_23 m c main_v166 (by decide)) (eq_unary lateK_23 (rfl : Wc23 m c = after hostOps13 (Wc22 m c)) 20 _ _ _ rfl (by decide) (by decide))
def kq_main_v168 := lift_binary (liftK_23 m c main_v168 (by decide)) (liftK_23 m c main_v167 (by decide)) (liftK_23 m c main_v164 (by decide)) (eq_binary lateK_23 (rfl : Wc23 m c = after hostOps13 (Wc22 m c)) 21 _ _ _ _ rfl (by decide) (by decide) (by decide))
def kq_main_cst_21 := lift_nullary (liftK_23 m c main_cst_21 (by decide)) (eq_nullary lateK_23 (rfl : Wc23 m c = after hostOps13 (Wc22 m c)) 22 _ _ rfl (by decide))
def kq_main_v169 := lift_unary (liftK_23 m c main_v169 (by decide)) (liftK_23 m c main_cst_21 (by decide)) (eq_unary lateK_23 (rfl : Wc23 m c = after hostOps13 (Wc22 m c)) 23 _ _ _ rfl (by decide) (by decide))
def kq_main_v170 := lift_binary (liftK_23 m c main_v170 (by decide)) (liftK_23 m c main_v169 (by decide)) (liftK_23 m c main_v168 (by decide)) (eq_binary lateK_23 (rfl : Wc23 m c = after hostOps13 (Wc22 m c)) 24 _ _ _ _ rfl (by decide) (by decide) (by decide))
def kq_main_v171 := lift_binary (liftK_23 m c main_v171 (by decide)) (liftK_23 m c main_v170 (by decide)) (liftK_23 m c main_v168 (by decide)) (eq_binary lateK_23 (rfl : Wc23 m c = after hostOps13 (Wc22 m c)) 25 _ _ _ _ rfl (by decide) (by decide) (by decide))
def kq_main_v172 := lift_binary (liftK_23 m c main_v172 (by decide)) (liftK_23 m c main_v171 (by decide)) (liftK_23 m c main_v164 (by decide)) (eq_binary lateK_23 (rfl : Wc23 m c = after hostOps13 (Wc22 m c)) 26 _ _ _ _ rfl (by decide) (by decide) (by decide))

end Cert.KernelIdeal.Fr

end
-- ==== Proof.KI.KN3.lean ====
import proofs.«126270_j6725918785969_1_alg».proof.Proof.KI.KNDefs
import proofs.«126270_j6725918785969_1_alg».proof.Proof.KI.KEq3

/-!
# The kernel program's host operations as equations between plainly typed contents (part 3)
-/

set_option maxRecDepth 16384

noncomputable section

namespace Cert.KernelIdeal.Fr

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

theorem nkq_main_v121 : nK_main_v121 m c = ((extractStridedSlice S1x128x128 ![0, 0, 0] · slices_S3x128x128_S1x128x128_0_0_0) : (⟨S3x128x128, .f32⟩ : BufTy).Contents (Elt Ideal) → (⟨S1x128x128, .f32⟩ : BufTy).Contents (Elt Ideal)) (nK_main_v119 m c) := kq_main_v121 m c
theorem nkq_main_v122 : nK_main_v122 m c = fun i => shapeCast S128x128 (nK_main_v121 m c) shapeCasts_S1x128x128_S128x128 i := kq_main_v122 m c
theorem nkq_main_v123 : nK_main_v123 m c = ((transpose S128x128 [1, 0] · transposes_S128x128_S128x128_1_0) : (⟨S128x128, .f32⟩ : BufTy).Contents (Elt Ideal) → (⟨S128x128, .f32⟩ : BufTy).Contents (Elt Ideal)) (nK_main_v122 m c) := kq_main_v123 m c
theorem nkq_main_v124 : nK_main_v124 m c = ((fun l r => Host.dotGeneral (F := Ideal) (φ₁ := .f32) (φ₂ := .f32) dot_S128x128_S128x128_S128x128_1_0_0_1_n_n none l r) : (⟨S128x128, .f32⟩ : BufTy).Contents (Elt Ideal) → (⟨S128x128, .f32⟩ : BufTy).Contents (Elt Ideal) → (⟨S128x128, .f32⟩ : BufTy).Contents (Elt Ideal)) (nK_main_v123 m c) (nK_main_v120 m c) := kq_main_v124 m c
theorem nkq_main_cst_16 : nK_main_cst_16 m c = (constant (F := Ideal) S_ .f32 0x3F000000#32) := kq_main_cst_16 m c
theorem nkq_main_v125 : nK_main_v125 m c = (broadcastInDim S128x128 ![] bcast_S_S128x128 : (⟨S_, .f32⟩ : BufTy).Contents (Elt Ideal) → (⟨S128x128, .f32⟩ : BufTy).Contents (Elt Ideal)) (nK_main_cst_16 m c) := kq_main_v125 m c
theorem nkq_main_v126 : nK_main_v126 m c = (mulf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v125 m c) (nK_main_v124 m c) := kq_main_v126 m c
theorem nkq_main_v127 : nK_main_v127 m c = (maximumf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v126 m c) (nK_main_v124 m c) := kq_main_v127 m c
theorem nkq_main_v128 : nK_main_v128 m c = (addf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v127 m c) (nK_main_v120 m c) := kq_main_v128 m c
theorem nkq_main_v129 : nK_main_v129 m c = ((extractStridedSlice S1x128x128 ![1, 0, 0] · slices_S3x128x128_S1x128x128_1_0_0) : (⟨S3x128x128, .f32⟩ : BufTy).Contents (Elt Ideal) → (⟨S1x128x128, .f32⟩ : BufTy).Contents (Elt Ideal)) (nK_main_v119 m c) := kq_main_v129 m c
theorem nkq_main_v130 : nK_main_v130 m c = fun i => shapeCast S128x128 (nK_main_v129 m c) shapeCasts_S1x128x128_S128x128 i := kq_main_v130 m c
theorem nkq_main_v131 : nK_main_v131 m c = ((transpose S128x128 [1, 0] · transposes_S128x128_S128x128_1_0) : (⟨S128x128, .f32⟩ : BufTy).Contents (Elt Ideal) → (⟨S128x128, .f32⟩ : BufTy).Contents (Elt Ideal)) (nK_main_v130 m c) := kq_main_v131 m c
theorem nkq_main_v132 : nK_main_v132 m c = ((fun l r => Host.dotGeneral (F := Ideal) (φ₁ := .f32) (φ₂ := .f32) dot_S128x128_S128x128_S128x128_1_0_0_1_n_n none l r) : (⟨S128x128, .f32⟩ : BufTy).Contents (Elt Ideal) → (⟨S128x128, .f32⟩ : BufTy).Contents (Elt Ideal) → (⟨S128x128, .f32⟩ : BufTy).Contents (Elt Ideal)) (nK_main_v131 m c) (nK_main_v128 m c) := kq_main_v132 m c
theorem nkq_main_cst_17 : nK_main_cst_17 m c = (constant (F := Ideal) S_ .f32 0x3F000000#32) := kq_main_cst_17 m c
theorem nkq_main_v133 : nK_main_v133 m c = (broadcastInDim S128x128 ![] bcast_S_S128x128 : (⟨S_, .f32⟩ : BufTy).Contents (Elt Ideal) → (⟨S128x128, .f32⟩ : BufTy).Contents (Elt Ideal)) (nK_main_cst_17 m c) := kq_main_v133 m c
theorem nkq_main_v134 : nK_main_v134 m c = (mulf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v133 m c) (nK_main_v132 m c) := kq_main_v134 m c
theorem nkq_main_v135 : nK_main_v135 m c = (maximumf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v134 m c) (nK_main_v132 m c) := kq_main_v135 m c
theorem nkq_main_v136 : nK_main_v136 m c = (addf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v135 m c) (nK_main_v128 m c) := kq_main_v136 m c
theorem nkq_main_v137 : nK_main_v137 m c = ((extractStridedSlice S1x128x128 ![2, 0, 0] · slices_S3x128x128_S1x128x128_2_0_0) : (⟨S3x128x128, .f32⟩ : BufTy).Contents (Elt Ideal) → (⟨S1x128x128, .f32⟩ : BufTy).Contents (Elt Ideal)) (nK_main_v119 m c) := kq_main_v137 m c
theorem nkq_main_v138 : nK_main_v138 m c = fun i => shapeCast S128x128 (nK_main_v137 m c) shapeCasts_S1x128x128_S128x128 i := kq_main_v138 m c
theorem nkq_main_v139 : nK_main_v139 m c = ((transpose S128x128 [1, 0] · transposes_S128x128_S128x128_1_0) : (⟨S128x128, .f32⟩ : BufTy).Contents (Elt Ideal) → (⟨S128x128, .f32⟩ : BufTy).Contents (Elt Ideal)) (nK_main_v138 m c) := kq_main_v139 m c
theorem nkq_main_v140 : nK_main_v140 m c = ((fun l r => Host.dotGeneral (F := Ideal) (φ₁ := .f32) (φ₂ := .f32) dot_S128x128_S128x128_S128x128_1_0_0_1_n_n none l r) : (⟨S128x128, .f32⟩ : BufTy).Contents (Elt Ideal) → (⟨S128x128, .f32⟩ : BufTy).Contents (Elt Ideal) → (⟨S128x128, .f32⟩ : BufTy).Contents (Elt Ideal)) (nK_main_v139 m c) (nK_main_v136 m c) := kq_main_v140 m c
theorem nkq_main_cst_18 : nK_main_cst_18 m c = (constant (F := Ideal) S_ .f32 0x3F000000#32) := kq_main_cst_18 m c
theorem nkq_main_v141 : nK_main_v141 m c = (broadcastInDim S128x128 ![] bcast_S_S128x128 : (⟨S_, .f32⟩ : BufTy).Contents (Elt Ideal) → (⟨S128x128, .f32⟩ : BufTy).Contents (Elt Ideal)) (nK_main_cst_18 m c) := kq_main_v141 m c
theorem nkq_main_v142 : nK_main_v142 m c = (mulf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v141 m c) (nK_main_v140 m c) := kq_main_v142 m c
theorem nkq_main_v143 : nK_main_v143 m c = (maximumf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v142 m c) (nK_main_v140 m c) := kq_main_v143 m c
theorem nkq_main_v144 : nK_main_v144 m c = (addf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v143 m c) (nK_main_v136 m c) := kq_main_v144 m c
theorem nkq_main_v146 : nK_main_v146 m c = ((extractStridedSlice S1x3x128x128 ![1, 0, 0, 0] · slices_S2x3x128x128_S1x3x128x128_1_0_0_0) : (⟨S2x3x128x128, .f32⟩ : BufTy).Contents (Elt Ideal) → (⟨S1x3x128x128, .f32⟩ : BufTy).Contents (Elt Ideal)) (nK_main_arg10 m c) := kq_main_v146 m c
theorem nkq_main_v147 : nK_main_v147 m c = fun i => shapeCast S3x128x128 (nK_main_v146 m c) shapeCasts_S1x3x128x128_S3x128x128 i := kq_main_v147 m c
theorem nkq_main_v149 : nK_main_v149 m c = ((extractStridedSlice S1x128x128 ![0, 0, 0] · slices_S3x128x128_S1x128x128_0_0_0) : (⟨S3x128x128, .f32⟩ : BufTy).Contents (Elt Ideal) → (⟨S1x128x128, .f32⟩ : BufTy).Contents (Elt Ideal)) (nK_main_v147 m c) := kq_main_v149 m c
theorem nkq_main_v150 : nK_main_v150 m c = fun i => shapeCast S128x128 (nK_main_v149 m c) shapeCasts_S1x128x128_S128x128 i := kq_main_v150 m c
theorem nkq_main_v151 : nK_main_v151 m c = ((transpose S128x128 [1, 0] · transposes_S128x128_S128x128_1_0) : (⟨S128x128, .f32⟩ : BufTy).Contents (Elt Ideal) → (⟨S128x128, .f32⟩ : BufTy).Contents (Elt Ideal)) (nK_main_v150 m c) := kq_main_v151 m c
theorem nkq_main_v152 : nK_main_v152 m c = ((fun l r => Host.dotGeneral (F := Ideal) (φ₁ := .f32) (φ₂ := .f32) dot_S128x128_S128x128_S128x128_1_0_0_1_n_n none l r) : (⟨S128x128, .f32⟩ : BufTy).Contents (Elt Ideal) → (⟨S128x128, .f32⟩ : BufTy).Contents (Elt Ideal) → (⟨S128x128, .f32⟩ : BufTy).Contents (Elt Ideal)) (nK_main_v151 m c) (nK_main_v148 m c) := kq_main_v152 m c
theorem nkq_main_cst_19 : nK_main_cst_19 m c = (constant (F := Ideal) S_ .f32 0x3F000000#32) := kq_main_cst_19 m c
theorem nkq_main_v153 : nK_main_v153 m c = (broadcastInDim S128x128 ![] bcast_S_S128x128 : (⟨S_, .f32⟩ : BufTy).Contents (Elt Ideal) → (⟨S128x128, .f32⟩ : BufTy).Contents (Elt Ideal)) (nK_main_cst_19 m c) := kq_main_v153 m c
theorem nkq_main_v154 : nK_main_v154 m c = (mulf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v153 m c) (nK_main_v152 m c) := kq_main_v154 m c
theorem nkq_main_v155 : nK_main_v155 m c = (maximumf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v154 m c) (nK_main_v152 m c) := kq_main_v155 m c
theorem nkq_main_v156 : nK_main_v156 m c = (addf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v155 m c) (nK_main_v148 m c) := kq_main_v156 m c
theorem nkq_main_v157 : nK_main_v157 m c = ((extractStridedSlice S1x128x128 ![1, 0, 0] · slices_S3x128x128_S1x128x128_1_0_0) : (⟨S3x128x128, .f32⟩ : BufTy).Contents (Elt Ideal) → (⟨S1x128x128, .f32⟩ : BufTy).Contents (Elt Ideal)) (nK_main_v147 m c) := kq_main_v157 m c
theorem nkq_main_v158 : nK_main_v158 m c = fun i => shapeCast S128x128 (nK_main_v157 m c) shapeCasts_S1x128x128_S128x128 i := kq_main_v158 m c
theorem nkq_main_v159 : nK_main_v159 m c = ((transpose S128x128 [1, 0] · transposes_S128x128_S128x128_1_0) : (⟨S128x128, .f32⟩ : BufTy).Contents (Elt Ideal) → (⟨S128x128, .f32⟩ : BufTy).Contents (Elt Ideal)) (nK_main_v158 m c) := kq_main_v159 m c
theorem nkq_main_v160 : nK_main_v160 m c = ((fun l r => Host.dotGeneral (F := Ideal) (φ₁ := .f32) (φ₂ := .f32) dot_S128x128_S128x128_S128x128_1_0_0_1_n_n none l r) : (⟨S128x128, .f32⟩ : BufTy).Contents (Elt Ideal) → (⟨S128x128, .f32⟩ : BufTy).Contents (Elt Ideal) → (⟨S128x128, .f32⟩ : BufTy).Contents (Elt Ideal)) (nK_main_v159 m c) (nK_main_v156 m c) := kq_main_v160 m c
theorem nkq_main_cst_20 : nK_main_cst_20 m c = (constant (F := Ideal) S_ .f32 0x3F000000#32) := kq_main_cst_20 m c
theorem nkq_main_v161 : nK_main_v161 m c = (broadcastInDim S128x128 ![] bcast_S_S128x128 : (⟨S_, .f32⟩ : BufTy).Contents (Elt Ideal) → (⟨S128x128, .f32⟩ : BufTy).Contents (Elt Ideal)) (nK_main_cst_20 m c) := kq_main_v161 m c
theorem nkq_main_v162 : nK_main_v162 m c = (mulf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v161 m c) (nK_main_v160 m c) := kq_main_v162 m c
theorem nkq_main_v163 : nK_main_v163 m c = (maximumf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v162 m c) (nK_main_v160 m c) := kq_main_v163 m c
theorem nkq_main_v164 : nK_main_v164 m c = (addf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v163 m c) (nK_main_v156 m c) := kq_main_v164 m c
theorem nkq_main_v165 : nK_main_v165 m c = ((extractStridedSlice S1x128x128 ![2, 0, 0] · slices_S3x128x128_S1x128x128_2_0_0) : (⟨S3x128x128, .f32⟩ : BufTy).Contents (Elt Ideal) → (⟨S1x128x128, .f32⟩ : BufTy).Contents (Elt Ideal)) (nK_main_v147 m c) := kq_main_v165 m c
theorem nkq_main_v166 : nK_main_v166 m c = fun i => shapeCast S128x128 (nK_main_v165 m c) shapeCasts_S1x128x128_S128x128 i := kq_main_v166 m c
theorem nkq_main_v167 : nK_main_v167 m c = ((transpose S128x128 [1, 0] · transposes_S128x128_S128x128_1_0) : (⟨S128x128, .f32⟩ : BufTy).Contents (Elt Ideal) → (⟨S128x128, .f32⟩ : BufTy).Contents (Elt Ideal)) (nK_main_v166 m c) := kq_main_v167 m c
theorem nkq_main_v168 : nK_main_v168 m c = ((fun l r => Host.dotGeneral (F := Ideal) (φ₁ := .f32) (φ₂ := .f32) dot_S128x128_S128x128_S128x128_1_0_0_1_n_n none l r) : (⟨S128x128, .f32⟩ : BufTy).Contents (Elt Ideal) → (⟨S128x128, .f32⟩ : BufTy).Contents (Elt Ideal) → (⟨S128x128, .f32⟩ : BufTy).Contents (Elt Ideal)) (nK_main_v167 m c) (nK_main_v164 m c) := kq_main_v168 m c
theorem nkq_main_cst_21 : nK_main_cst_21 m c = (constant (F := Ideal) S_ .f32 0x3F000000#32) := kq_main_cst_21 m c
theorem nkq_main_v169 : nK_main_v169 m c = (broadcastInDim S128x128 ![] bcast_S_S128x128 : (⟨S_, .f32⟩ : BufTy).Contents (Elt Ideal) → (⟨S128x128, .f32⟩ : BufTy).Contents (Elt Ideal)) (nK_main_cst_21 m c) := kq_main_v169 m c
theorem nkq_main_v170 : nK_main_v170 m c = (mulf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v169 m c) (nK_main_v168 m c) := kq_main_v170 m c
theorem nkq_main_v171 : nK_main_v171 m c = (maximumf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v170 m c) (nK_main_v168 m c) := kq_main_v171 m c
theorem nkq_main_v172 : nK_main_v172 m c = (addf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_v171 m c) (nK_main_v164 m c) := kq_main_v172 m c

end Cert.KernelIdeal.Fr

end
-- ==== Proof.KI.KEq4.lean ====
import proofs.«126270_j6725918785969_1_alg».proof.Proof.KI.KEqBase

/-!
# The idealized kernel program's host operations, each as an equation between final buffer contents (part 4)

For every host operation `y = f x₁ x₂ …` of the stretches `hostOps14`, `hostOps14_1`, `hostOps14_2`, `hostOps14_3`, `hostOps14_4`, `hostOps14_5`, `hostOps14_6`: the final contents of `y` are `f` of the
final contents of the operands.
-/

set_option maxRecDepth 16384

noncomputable section

namespace Cert.KernelIdeal.Fr

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

/-! ### `hostOps14` -/
def kq_main_v174 := lift_binary (liftK_25 m c main_v174 (by decide)) (liftK_25 m c main_v116 (by decide)) (liftK_25 m c main_v145 (by decide)) (eq_binary lateK_25 (rfl : Wc25 m c = after hostOps14 (Wc24 m c)) 0 _ _ _ _ rfl (by decide) (by decide) (by decide))
def kq_main_v175 := lift_binary (liftK_25 m c main_v175 (by decide)) (liftK_25 m c main_v174 (by decide)) (liftK_25 m c main_v87 (by decide)) (eq_binary lateK_25 (rfl : Wc25 m c = after hostOps14 (Wc24 m c)) 1 _ _ _ _ rfl (by decide) (by decide) (by decide))
def kq_main_v176 := lift_binary (liftK_25 m c main_v176 (by decide)) (liftK_25 m c main_v117 (by decide)) (liftK_25 m c main_v173 (by decide)) (eq_binary lateK_25 (rfl : Wc25 m c = after hostOps14 (Wc24 m c)) 2 _ _ _ _ rfl (by decide) (by decide) (by decide))
def kq_main_v177 := lift_binary (liftK_25 m c main_v177 (by decide)) (liftK_25 m c main_v176 (by decide)) (liftK_25 m c main_v89 (by decide)) (eq_binary lateK_25 (rfl : Wc25 m c = after hostOps14 (Wc24 m c)) 3 _ _ _ _ rfl (by decide) (by decide) (by decide))
def kq_main_cst_22 := lift_nullary (liftK_25 m c main_cst_22 (by decide)) (eq_nullary lateK_25 (rfl : Wc25 m c = after hostOps14 (Wc24 m c)) 4 _ _ rfl (by decide))
def kq_main_v178 := lift_unary (liftK_25 m c main_v178 (by decide)) (liftK_25 m c main_cst_22 (by decide)) (eq_unary lateK_25 (rfl : Wc25 m c = after hostOps14 (Wc24 m c)) 5 _ _ _ rfl (by decide) (by decide))
def kq_main_v179 := lift_binary (liftK_25 m c main_v179 (by decide)) (liftK_25 m c main_v178 (by decide)) (liftK_25 m c main_arg5 (by decide)) (eq_binary lateK_25 (rfl : Wc25 m c = after hostOps14 (Wc24 m c)) 6 _ _ _ _ rfl (by decide) (by decide) (by decide))
def kq_main_v180 := lift_binary (liftK_25 m c main_v180 (by decide)) (liftK_25 m c main_v179 (by decide)) (liftK_25 m c main_v87 (by decide)) (eq_binary lateK_25 (rfl : Wc25 m c = after hostOps14 (Wc24 m c)) 7 _ _ _ _ rfl (by decide) (by decide) (by decide))
def kq_main_v181 := lift_binary (liftK_25 m c main_v181 (by decide)) (liftK_25 m c main_v180 (by decide)) (liftK_25 m c main_v175 (by decide)) (eq_binary lateK_25 (rfl : Wc25 m c = after hostOps14 (Wc24 m c)) 8 _ _ _ _ rfl (by decide) (by decide) (by decide))
def kq_main_cst_23 := lift_nullary (liftK_25 m c main_cst_23 (by decide)) (eq_nullary lateK_25 (rfl : Wc25 m c = after hostOps14 (Wc24 m c)) 9 _ _ rfl (by decide))
def kq_main_v182 := lift_unary (liftK_25 m c main_v182 (by decide)) (liftK_25 m c main_cst_23 (by decide)) (eq_unary lateK_25 (rfl : Wc25 m c = after hostOps14 (Wc24 m c)) 10 _ _ _ rfl (by decide) (by decide))
def kq_main_v183 := lift_binary (liftK_25 m c main_v183 (by decide)) (liftK_25 m c main_v182 (by decide)) (liftK_25 m c main_arg6 (by decide)) (eq_binary lateK_25 (rfl : Wc25 m c = after hostOps14 (Wc24 m c)) 11 _ _ _ _ rfl (by decide) (by decide) (by decide))
def kq_main_v184 := lift_binary (liftK_25 m c main_v184 (by decide)) (liftK_25 m c main_v183 (by decide)) (liftK_25 m c main_v89 (by decide)) (eq_binary lateK_25 (rfl : Wc25 m c = after hostOps14 (Wc24 m c)) 12 _ _ _ _ rfl (by decide) (by decide) (by decide))
def kq_main_v185 := lift_binary (liftK_25 m c main_v185 (by decide)) (liftK_25 m c main_v184 (by decide)) (liftK_25 m c main_v177 (by decide)) (eq_binary lateK_25 (rfl : Wc25 m c = after hostOps14 (Wc24 m c)) 13 _ _ _ _ rfl (by decide) (by decide) (by decide))
def kq_main_c_24 := lift_nullary (liftK_25 m c main_c_24 (by decide)) (eq_nullary lateK_25 (rfl : Wc25 m c = after hostOps14 (Wc24 m c)) 14 _ _ rfl (by decide))
def kq_main_v186 := lift_unary (liftK_25 m c main_v186 (by decide)) (liftK_25 m c main_c_24 (by decide)) (eq_unary lateK_25 (rfl : Wc25 m c = after hostOps14 (Wc24 m c)) 15 _ _ _ rfl (by decide) (by decide))
def kq_main_v187 := lift_binary (liftK_25 m c main_v187 (by decide)) (liftK_25 m c main_arg0 (by decide)) (liftK_25 m c main_v186 (by decide)) (eq_binary lateK_25 (rfl : Wc25 m c = after hostOps14 (Wc24 m c)) 16 _ _ _ _ rfl (by decide) (by decide) (by decide))
def kq_main_c_25 := lift_nullary (liftK_25 m c main_c_25 (by decide)) (eq_nullary lateK_25 (rfl : Wc25 m c = after hostOps14 (Wc24 m c)) 17 _ _ rfl (by decide))
def kq_main_v188 := lift_unary (liftK_25 m c main_v188 (by decide)) (liftK_25 m c main_c_25 (by decide)) (eq_unary lateK_25 (rfl : Wc25 m c = after hostOps14 (Wc24 m c)) 18 _ _ _ rfl (by decide) (by decide))
def kq_main_v189 := lift_binary (liftK_25 m c main_v189 (by decide)) (liftK_25 m c main_arg0 (by decide)) (liftK_25 m c main_v188 (by decide)) (eq_binary lateK_25 (rfl : Wc25 m c = after hostOps14 (Wc24 m c)) 19 _ _ _ _ rfl (by decide) (by decide) (by decide))
def kq_main_v190 := lift_ternary (liftK_25 m c main_v190 (by decide)) (liftK_25 m c main_v187 (by decide)) (liftK_25 m c main_v189 (by decide)) (liftK_25 m c main_arg0 (by decide)) (eq_ternary lateK_25 (rfl : Wc25 m c = after hostOps14 (Wc24 m c)) 20 _ _ _ _ _ rfl (by decide) (by decide) (by decide) (by decide))
def kq_main_v191 := lift_unary (liftK_25 m c main_v191 (by decide)) (liftK_25 m c main_v190 (by decide)) (eq_unary lateK_25 (rfl : Wc25 m c = after hostOps14 (Wc24 m c)) 21 _ _ _ rfl (by decide) (by decide))
def kq_main_v192 := lift_binary (liftK_25 m c main_v192 (by decide)) (liftK_25 m c main_v181 (by decide)) (liftK_25 m c main_v191 (by decide)) (eq_binary lateK_25 (rfl : Wc25 m c = after hostOps14 (Wc24 m c)) 22 _ _ _ _ rfl (by decide) (by decide) (by decide))
def kq_main_c_26 := lift_nullary (liftK_25 m c main_c_26 (by decide)) (eq_nullary lateK_25 (rfl : Wc25 m c = after hostOps14 (Wc24 m c)) 23 _ _ rfl (by decide))
def kq_main_v193 := lift_unary (liftK_25 m c main_v193 (by decide)) (liftK_25 m c main_c_26 (by decide)) (eq_unary lateK_25 (rfl : Wc25 m c = after hostOps14 (Wc24 m c)) 24 _ _ _ rfl (by decide) (by decide))
def kq_main_v194 := lift_binary (liftK_25 m c main_v194 (by decide)) (liftK_25 m c main_arg1 (by decide)) (liftK_25 m c main_v193 (by decide)) (eq_binary lateK_25 (rfl : Wc25 m c = after hostOps14 (Wc24 m c)) 25 _ _ _ _ rfl (by decide) (by decide) (by decide))
def kq_main_c_27 := lift_nullary (liftK_25 m c main_c_27 (by decide)) (eq_nullary lateK_25 (rfl : Wc25 m c = after hostOps14 (Wc24 m c)) 26 _ _ rfl (by decide))
def kq_main_v195 := lift_unary (liftK_25 m c main_v195 (by decide)) (liftK_25 m c main_c_27 (by decide)) (eq_unary lateK_25 (rfl : Wc25 m c = after hostOps14 (Wc24 m c)) 27 _ _ _ rfl (by decide) (by decide))
def kq_main_v196 := lift_binary (liftK_25 m c main_v196 (by decide)) (liftK_25 m c main_arg1 (by decide)) (liftK_25 m c main_v195 (by decide)) (eq_binary lateK_25 (rfl : Wc25 m c = after hostOps14 (Wc24 m c)) 28 _ _ _ _ rfl (by decide) (by decide) (by decide))
def kq_main_v197 := lift_ternary (liftK_25 m c main_v197 (by decide)) (liftK_25 m c main_v194 (by decide)) (liftK_25 m c main_v196 (by decide)) (liftK_25 m c main_arg1 (by decide)) (eq_ternary lateK_25 (rfl : Wc25 m c = after hostOps14 (Wc24 m c)) 29 _ _ _ _ _ rfl (by decide) (by decide) (by decide) (by decide))
def kq_main_v198 := lift_unary (liftK_25 m c main_v198 (by decide)) (liftK_25 m c main_v197 (by decide)) (eq_unary lateK_25 (rfl : Wc25 m c = after hostOps14 (Wc24 m c)) 30 _ _ _ rfl (by decide) (by decide))
def kq_main_v199 := lift_binary (liftK_25 m c main_v199 (by decide)) (liftK_25 m c main_v185 (by decide)) (liftK_25 m c main_v198 (by decide)) (eq_binary lateK_25 (rfl : Wc25 m c = after hostOps14 (Wc24 m c)) 31 _ _ _ _ rfl (by decide) (by decide) (by decide))
def kq_main_v200 := lift_binary (liftK_25 m c main_v200 (by decide)) (liftK_25 m c main_v192 (by decide)) (liftK_25 m c main_v199 (by decide)) (eq_binary lateK_25 (rfl : Wc25 m c = after hostOps14 (Wc24 m c)) 32 _ _ _ _ rfl (by decide) (by decide) (by decide))
def kq_main_cst_28 := lift_nullary (liftK_25 m c main_cst_28 (by decide)) (eq_nullary lateK_25 (rfl : Wc25 m c = after hostOps14 (Wc24 m c)) 33 _ _ rfl (by decide))
def kq_main_v201 := lift_binary (liftK_25 m c main_v201 (by decide)) (liftK_25 m c main_v200 (by decide)) (liftK_25 m c main_cst_28 (by decide)) (eq_binary lateK_25 (rfl : Wc25 m c = after hostOps14 (Wc24 m c)) 34 _ _ _ _ rfl (by decide) (by decide) (by decide))

/-! ### `hostOps14_1` -/
def kq_main_v202 := lift_unary (liftK_26 m c main_v202 (by decide)) (liftK_26 m c main_arg0 (by decide)) (eq_unary lateK_26 (rfl : Wc26 m c = after hostOps14_1 (Wc25 m c)) 0 _ _ _ rfl (by decide) (by decide))

/-! ### `hostOps14_2` -/
def kq_main_v203 := lift_unary (liftK_27 m c main_v203 (by decide)) (liftK_27 m c main_arg1 (by decide)) (eq_unary lateK_27 (rfl : Wc27 m c = after hostOps14_2 (Wc26 m c)) 0 _ _ _ rfl (by decide) (by decide))

/-! ### `hostOps14_3` -/
def kq_main_c_29 := lift_nullary (liftK_28 m c main_c_29 (by decide)) (eq_nullary lateK_28 (rfl : Wc28 m c = after hostOps14_3 (Wc27 m c)) 0 _ _ rfl (by decide))
def kq_main_v204 := lift_unary (liftK_28 m c main_v204 (by decide)) (liftK_28 m c main_c_29 (by decide)) (eq_unary lateK_28 (rfl : Wc28 m c = after hostOps14_3 (Wc27 m c)) 1 _ _ _ rfl (by decide) (by decide))
def kq_main_v205 := lift_binary (liftK_28 m c main_v205 (by decide)) (liftK_28 m c main_v202 (by decide)) (liftK_28 m c main_v204 (by decide)) (eq_binary lateK_28 (rfl : Wc28 m c = after hostOps14_3 (Wc27 m c)) 2 _ _ _ _ rfl (by decide) (by decide) (by decide))
def kq_main_c_30 := lift_nullary (liftK_28 m c main_c_30 (by decide)) (eq_nullary lateK_28 (rfl : Wc28 m c = after hostOps14_3 (Wc27 m c)) 3 _ _ rfl (by decide))
def kq_main_v206 := lift_unary (liftK_28 m c main_v206 (by decide)) (liftK_28 m c main_c_30 (by decide)) (eq_unary lateK_28 (rfl : Wc28 m c = after hostOps14_3 (Wc27 m c)) 4 _ _ _ rfl (by decide) (by decide))
def kq_main_v207 := lift_binary (liftK_28 m c main_v207 (by decide)) (liftK_28 m c main_v202 (by decide)) (liftK_28 m c main_v206 (by decide)) (eq_binary lateK_28 (rfl : Wc28 m c = after hostOps14_3 (Wc27 m c)) 5 _ _ _ _ rfl (by decide) (by decide) (by decide))
def kq_main_v208 := lift_ternary (liftK_28 m c main_v208 (by decide)) (liftK_28 m c main_v205 (by decide)) (liftK_28 m c main_v207 (by decide)) (liftK_28 m c main_v202 (by decide)) (eq_ternary lateK_28 (rfl : Wc28 m c = after hostOps14_3 (Wc27 m c)) 6 _ _ _ _ _ rfl (by decide) (by decide) (by decide) (by decide))
def kq_main_v209 := lift_unary (liftK_28 m c main_v209 (by decide)) (liftK_28 m c main_v208 (by decide)) (eq_unary lateK_28 (rfl : Wc28 m c = after hostOps14_3 (Wc27 m c)) 7 _ _ _ rfl (by decide) (by decide))
def kq_main_v210 := lift_binary (liftK_28 m c main_v210 (by decide)) (liftK_28 m c main_v57 (by decide)) (liftK_28 m c main_v209 (by decide)) (eq_binary lateK_28 (rfl : Wc28 m c = after hostOps14_3 (Wc27 m c)) 8 _ _ _ _ rfl (by decide) (by decide) (by decide))
def kq_main_c_31 := lift_nullary (liftK_28 m c main_c_31 (by decide)) (eq_nullary lateK_28 (rfl : Wc28 m c = after hostOps14_3 (Wc27 m c)) 9 _ _ rfl (by decide))
def kq_main_v211 := lift_unary (liftK_28 m c main_v211 (by decide)) (liftK_28 m c main_c_31 (by decide)) (eq_unary lateK_28 (rfl : Wc28 m c = after hostOps14_3 (Wc27 m c)) 10 _ _ _ rfl (by decide) (by decide))
def kq_main_v212 := lift_binary (liftK_28 m c main_v212 (by decide)) (liftK_28 m c main_v202 (by decide)) (liftK_28 m c main_v211 (by decide)) (eq_binary lateK_28 (rfl : Wc28 m c = after hostOps14_3 (Wc27 m c)) 11 _ _ _ _ rfl (by decide) (by decide) (by decide))
def kq_main_c_32 := lift_nullary (liftK_28 m c main_c_32 (by decide)) (eq_nullary lateK_28 (rfl : Wc28 m c = after hostOps14_3 (Wc27 m c)) 12 _ _ rfl (by decide))
def kq_main_v213 := lift_unary (liftK_28 m c main_v213 (by decide)) (liftK_28 m c main_c_32 (by decide)) (eq_unary lateK_28 (rfl : Wc28 m c = after hostOps14_3 (Wc27 m c)) 13 _ _ _ rfl (by decide) (by decide))
def kq_main_v214 := lift_binary (liftK_28 m c main_v214 (by decide)) (liftK_28 m c main_v202 (by decide)) (liftK_28 m c main_v213 (by decide)) (eq_binary lateK_28 (rfl : Wc28 m c = after hostOps14_3 (Wc27 m c)) 14 _ _ _ _ rfl (by decide) (by decide) (by decide))
def kq_main_v215 := lift_ternary (liftK_28 m c main_v215 (by decide)) (liftK_28 m c main_v212 (by decide)) (liftK_28 m c main_v214 (by decide)) (liftK_28 m c main_v202 (by decide)) (eq_ternary lateK_28 (rfl : Wc28 m c = after hostOps14_3 (Wc27 m c)) 15 _ _ _ _ _ rfl (by decide) (by decide) (by decide) (by decide))
def kq_main_v216 := lift_unary (liftK_28 m c main_v216 (by decide)) (liftK_28 m c main_v215 (by decide)) (eq_unary lateK_28 (rfl : Wc28 m c = after hostOps14_3 (Wc27 m c)) 16 _ _ _ rfl (by decide) (by decide))
def kq_main_v217 := lift_binary (liftK_28 m c main_v217 (by decide)) (liftK_28 m c main_v28 (by decide)) (liftK_28 m c main_v216 (by decide)) (eq_binary lateK_28 (rfl : Wc28 m c = after hostOps14_3 (Wc27 m c)) 17 _ _ _ _ rfl (by decide) (by decide) (by decide))
def kq_main_v218 := lift_unary (liftK_28 m c main_v218 (by decide)) (liftK_28 m c main_arg11 (by decide)) (eq_unary lateK_28 (rfl : Wc28 m c = after hostOps14_3 (Wc27 m c)) 18 _ _ _ rfl (by decide) (by decide))
def kq_main_v219 := lift_reshape (x := main_v218) (y := main_v219) rfl shapeCasts_S1x128x128_S128x128 (liftK_28 m c main_v219 (by decide)) (liftK_28 m c main_v218 (by decide)) (eq_reshape (x := main_v218) (y := main_v219) lateK_28 (rfl : Wc28 m c = after hostOps14_3 (Wc27 m c)) 19 rfl shapeCasts_S1x128x128_S128x128 _ _ rfl (by decide) (by decide))

/-! ### `hostOps14_4` -/
def kq_main_call2_v0 := lift_binary (liftK_29 m c main_call2_v0 (by decide)) (liftK_29 m c main_v210 (by decide)) (liftK_29 m c main_v210 (by decide)) (eq_binary lateK_29 (rfl : Wc29 m c = after hostOps14_4 (Wc28 m c)) 0 _ _ _ _ rfl (by decide) (by decide) (by decide))
def kq_main_call2_cst := lift_nullary (liftK_29 m c main_call2_cst (by decide)) (eq_nullary lateK_29 (rfl : Wc29 m c = after hostOps14_4 (Wc28 m c)) 1 _ _ rfl (by decide))
def kq_main_call2_v1 := lift_binary (liftK_29 m c main_call2_v1 (by decide)) (liftK_29 m c main_call2_v0 (by decide)) (liftK_29 m c main_call2_cst (by decide)) (eq_binary lateK_29 (rfl : Wc29 m c = after hostOps14_4 (Wc28 m c)) 2 _ _ _ _ rfl (by decide) (by decide) (by decide))
def kq_main_call2_v2 := lift_unary (liftK_29 m c main_call2_v2 (by decide)) (liftK_29 m c main_call2_v1 (by decide)) (eq_unary lateK_29 (rfl : Wc29 m c = after hostOps14_4 (Wc28 m c)) 3 _ _ _ rfl (by decide) (by decide))
def kq_main_v220 := lift_unary (liftK_29 m c main_v220 (by decide)) (liftK_29 m c main_call2_v2 (by decide)) (eq_unary lateK_29 (rfl : Wc29 m c = after hostOps14_4 (Wc28 m c)) 4 _ _ _ rfl (by decide) (by decide))

/-! ### `hostOps14_5` -/
def kq_main_cst_33 := lift_nullary (liftK_30 m c main_cst_33 (by decide)) (eq_nullary lateK_30 (rfl : Wc30 m c = after hostOps14_5 (Wc29 m c)) 0 _ _ rfl (by decide))
def kq_main_v221 := lift_unary (liftK_30 m c main_v221 (by decide)) (liftK_30 m c main_cst_33 (by decide)) (eq_unary lateK_30 (rfl : Wc30 m c = after hostOps14_5 (Wc29 m c)) 1 _ _ _ rfl (by decide) (by decide))
def kq_main_v222 := lift_binary (liftK_30 m c main_v222 (by decide)) (liftK_30 m c main_v220 (by decide)) (liftK_30 m c main_v221 (by decide)) (eq_binary lateK_30 (rfl : Wc30 m c = after hostOps14_5 (Wc29 m c)) 2 _ _ _ _ rfl (by decide) (by decide) (by decide))
def kq_main_v223 := lift_unary (liftK_30 m c main_v223 (by decide)) (liftK_30 m c main_v222 (by decide)) (eq_unary lateK_30 (rfl : Wc30 m c = after hostOps14_5 (Wc29 m c)) 3 _ _ _ rfl (by decide) (by decide))
def kq_main_v224 := lift_binary (liftK_30 m c main_v224 (by decide)) (liftK_30 m c main_v210 (by decide)) (liftK_30 m c main_v223 (by decide)) (eq_binary lateK_30 (rfl : Wc30 m c = after hostOps14_5 (Wc29 m c)) 4 _ _ _ _ rfl (by decide) (by decide) (by decide))

/-! ### `hostOps14_6` -/
def kq_main_call3_v0 := lift_binary (liftK_31 m c main_call3_v0 (by decide)) (liftK_31 m c main_v217 (by decide)) (liftK_31 m c main_v217 (by decide)) (eq_binary lateK_31 (rfl : Wc31 m c = after hostOps14_6 (Wc30 m c)) 0 _ _ _ _ rfl (by decide) (by decide) (by decide))
def kq_main_call3_cst := lift_nullary (liftK_31 m c main_call3_cst (by decide)) (eq_nullary lateK_31 (rfl : Wc31 m c = after hostOps14_6 (Wc30 m c)) 1 _ _ rfl (by decide))
def kq_main_call3_v1 := lift_binary (liftK_31 m c main_call3_v1 (by decide)) (liftK_31 m c main_call3_v0 (by decide)) (liftK_31 m c main_call3_cst (by decide)) (eq_binary lateK_31 (rfl : Wc31 m c = after hostOps14_6 (Wc30 m c)) 2 _ _ _ _ rfl (by decide) (by decide) (by decide))
def kq_main_call3_v2 := lift_unary (liftK_31 m c main_call3_v2 (by decide)) (liftK_31 m c main_call3_v1 (by decide)) (eq_unary lateK_31 (rfl : Wc31 m c = after hostOps14_6 (Wc30 m c)) 3 _ _ _ rfl (by decide) (by decide))
def kq_main_v225 := lift_unary (liftK_31 m c main_v225 (by decide)) (liftK_31 m c main_call3_v2 (by decide)) (eq_unary lateK_31 (rfl : Wc31 m c = after hostOps14_6 (Wc30 m c)) 4 _ _ _ rfl (by decide) (by decide))

end Cert.KernelIdeal.Fr

end
-- ==== Proof.KI.KN4a.lean ====
import proofs.«126270_j6725918785969_1_alg».proof.Proof.KI.KNDefs
import proofs.«126270_j6725918785969_1_alg».proof.Proof.KI.KEq4

/-!
# The kernel program's host operations as equations between plainly typed contents (part 4a)
-/

set_option maxRecDepth 16384

noncomputable section

namespace Cert.KernelIdeal.Fr

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

theorem nkq_main_v174 : nK_main_v174 m c = (addf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)) (nK_main_v116 m c) (nK_main_v145 m c) := kq_main_v174 m c
theorem nkq_main_v175 : nK_main_v175 m c = (addf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)) (nK_main_v174 m c) (nK_main_v87 m c) := kq_main_v175 m c
theorem nkq_main_v176 : nK_main_v176 m c = (addf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) (nK_main_v117 m c) (nK_main_v173 m c) := kq_main_v176 m c
theorem nkq_main_v177 : nK_main_v177 m c = (addf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) (nK_main_v176 m c) (nK_main_v89 m c) := kq_main_v177 m c
theorem nkq_main_cst_22 : nK_main_cst_22 m c = (constant (F := Ideal) S_ .f32 0x00000000#32) := kq_main_cst_22 m c
theorem nkq_main_v178 : nK_main_v178 m c = (broadcastInDim S100000x128 ![] bcast_S_S100000x128 : (⟨S_, .f32⟩ : BufTy).Contents (Elt Ideal) → (⟨S100000x128, .f32⟩ : BufTy).Contents (Elt Ideal)) (nK_main_cst_22 m c) := kq_main_v178 m c
theorem nkq_main_v179 : nK_main_v179 m c = (addf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)) (nK_main_v178 m c) (nK_main_arg5 m c) := kq_main_v179 m c
theorem nkq_main_v180 : nK_main_v180 m c = (addf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)) (nK_main_v179 m c) (nK_main_v87 m c) := kq_main_v180 m c
theorem nkq_main_v181 : nK_main_v181 m c = (addf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)) (nK_main_v180 m c) (nK_main_v175 m c) := kq_main_v181 m c
theorem nkq_main_cst_23 : nK_main_cst_23 m c = (constant (F := Ideal) S_ .f32 0x00000000#32) := kq_main_cst_23 m c
theorem nkq_main_v182 : nK_main_v182 m c = (broadcastInDim S50000x128 ![] bcast_S_S50000x128 : (⟨S_, .f32⟩ : BufTy).Contents (Elt Ideal) → (⟨S50000x128, .f32⟩ : BufTy).Contents (Elt Ideal)) (nK_main_cst_23 m c) := kq_main_v182 m c
theorem nkq_main_v183 : nK_main_v183 m c = (addf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) (nK_main_v182 m c) (nK_main_arg6 m c) := kq_main_v183 m c
theorem nkq_main_v184 : nK_main_v184 m c = (addf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) (nK_main_v183 m c) (nK_main_v89 m c) := kq_main_v184 m c
theorem nkq_main_v185 : nK_main_v185 m c = (addf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) (nK_main_v184 m c) (nK_main_v177 m c) := kq_main_v185 m c
theorem nkq_main_c_24 : nK_main_c_24 m c = (constantI S_ 32 0#32) := kq_main_c_24 m c
theorem nkq_main_v186 : nK_main_v186 m c = (broadcastInDim S4096 ![] bcast_S_S4096 : (⟨S_, .i32⟩ : BufTy).Contents (Elt Ideal) → (⟨S4096, .i32⟩ : BufTy).Contents (Elt Ideal)) (nK_main_c_24 m c) := kq_main_v186 m c
theorem nkq_main_v187 : nK_main_v187 m c = (cmpi .slt : (⟨S4096, .i32⟩ : BufTy).Contents (Elt Ideal) → (⟨S4096, .i32⟩ : BufTy).Contents (Elt Ideal) → (⟨S4096, .i1⟩ : BufTy).Contents (Elt Ideal)) (nK_main_arg0 m c) (nK_main_v186 m c) := kq_main_v187 m c
theorem nkq_main_c_25 : nK_main_c_25 m c = (constantI S_ 32 100000#32) := kq_main_c_25 m c
theorem nkq_main_v188 : nK_main_v188 m c = (broadcastInDim S4096 ![] bcast_S_S4096 : (⟨S_, .i32⟩ : BufTy).Contents (Elt Ideal) → (⟨S4096, .i32⟩ : BufTy).Contents (Elt Ideal)) (nK_main_c_25 m c) := kq_main_v188 m c
theorem nkq_main_v189 : nK_main_v189 m c = (addi : (⟨S4096, .i32⟩ : BufTy).Contents (Elt Ideal) → (⟨S4096, .i32⟩ : BufTy).Contents (Elt Ideal) → (⟨S4096, .i32⟩ : BufTy).Contents (Elt Ideal)) (nK_main_arg0 m c) (nK_main_v188 m c) := kq_main_v189 m c
theorem nkq_main_v190 : nK_main_v190 m c = (select : (⟨S4096, .i1⟩ : BufTy).Contents (Elt Ideal) → (⟨S4096, .i32⟩ : BufTy).Contents (Elt Ideal) → (⟨S4096, .i32⟩ : BufTy).Contents (Elt Ideal) → (⟨S4096, .i32⟩ : BufTy).Contents (Elt Ideal)) (nK_main_v187 m c) (nK_main_v189 m c) (nK_main_arg0 m c) := kq_main_v190 m c
theorem nkq_main_v191 : nK_main_v191 m c = (broadcastInDim S4096x1 ![0] bcast_S4096_S4096x1_0 : (⟨S4096, .i32⟩ : BufTy).Contents (Elt Ideal) → (⟨S4096x1, .i32⟩ : BufTy).Contents (Elt Ideal)) (nK_main_v190 m c) := kq_main_v191 m c
theorem nkq_main_v192 : nK_main_v192 m c = ((fun x i => Host.gather gather_S100000x128_S4096x1_S4096x128_1_0_n_n_0_1_1128 x i) : (⟨S100000x128, .f32⟩ : BufTy).Contents (Elt Ideal) → (⟨S4096x1, .i32⟩ : BufTy).Contents (Elt Ideal) → (⟨S4096x128, .f32⟩ : BufTy).Contents (Elt Ideal)) (nK_main_v181 m c) (nK_main_v191 m c) := kq_main_v192 m c
theorem nkq_main_c_26 : nK_main_c_26 m c = (constantI S_ 32 0#32) := kq_main_c_26 m c
theorem nkq_main_v193 : nK_main_v193 m c = (broadcastInDim S4096 ![] bcast_S_S4096 : (⟨S_, .i32⟩ : BufTy).Contents (Elt Ideal) → (⟨S4096, .i32⟩ : BufTy).Contents (Elt Ideal)) (nK_main_c_26 m c) := kq_main_v193 m c
theorem nkq_main_v194 : nK_main_v194 m c = (cmpi .slt : (⟨S4096, .i32⟩ : BufTy).Contents (Elt Ideal) → (⟨S4096, .i32⟩ : BufTy).Contents (Elt Ideal) → (⟨S4096, .i1⟩ : BufTy).Contents (Elt Ideal)) (nK_main_arg1 m c) (nK_main_v193 m c) := kq_main_v194 m c
theorem nkq_main_c_27 : nK_main_c_27 m c = (constantI S_ 32 50000#32) := kq_main_c_27 m c
theorem nkq_main_v195 : nK_main_v195 m c = (broadcastInDim S4096 ![] bcast_S_S4096 : (⟨S_, .i32⟩ : BufTy).Contents (Elt Ideal) → (⟨S4096, .i32⟩ : BufTy).Contents (Elt Ideal)) (nK_main_c_27 m c) := kq_main_v195 m c
theorem nkq_main_v196 : nK_main_v196 m c = (addi : (⟨S4096, .i32⟩ : BufTy).Contents (Elt Ideal) → (⟨S4096, .i32⟩ : BufTy).Contents (Elt Ideal) → (⟨S4096, .i32⟩ : BufTy).Contents (Elt Ideal)) (nK_main_arg1 m c) (nK_main_v195 m c) := kq_main_v196 m c
theorem nkq_main_v197 : nK_main_v197 m c = (select : (⟨S4096, .i1⟩ : BufTy).Contents (Elt Ideal) → (⟨S4096, .i32⟩ : BufTy).Contents (Elt Ideal) → (⟨S4096, .i32⟩ : BufTy).Contents (Elt Ideal) → (⟨S4096, .i32⟩ : BufTy).Contents (Elt Ideal)) (nK_main_v194 m c) (nK_main_v196 m c) (nK_main_arg1 m c) := kq_main_v197 m c
theorem nkq_main_v198 : nK_main_v198 m c = (broadcastInDim S4096x1 ![0] bcast_S4096_S4096x1_0 : (⟨S4096, .i32⟩ : BufTy).Contents (Elt Ideal) → (⟨S4096x1, .i32⟩ : BufTy).Contents (Elt Ideal)) (nK_main_v197 m c) := kq_main_v198 m c
theorem nkq_main_v199 : nK_main_v199 m c = ((fun x i => Host.gather gather_S50000x128_S4096x1_S4096x128_1_0_n_n_0_1_1128 x i) : (⟨S50000x128, .f32⟩ : BufTy).Contents (Elt Ideal) → (⟨S4096x1, .i32⟩ : BufTy).Contents (Elt Ideal) → (⟨S4096x128, .f32⟩ : BufTy).Contents (Elt Ideal)) (nK_main_v185 m c) (nK_main_v198 m c) := kq_main_v199 m c
theorem nkq_main_v200 : nK_main_v200 m c = (mulf (F := Ideal) (φ := .f32) : (⟨S4096x128, .f32⟩ : BufTy).Contents (Elt Ideal) → (⟨S4096x128, .f32⟩ : BufTy).Contents (Elt Ideal) → (⟨S4096x128, .f32⟩ : BufTy).Contents (Elt Ideal)) (nK_main_v192 m c) (nK_main_v199 m c) := kq_main_v200 m c
theorem nkq_main_cst_28 : nK_main_cst_28 m c = (constant (F := Ideal) S_ .f32 0x00000000#32) := kq_main_cst_28 m c
theorem nkq_main_v201 : nK_main_v201 m c = ((fun x v => Host.reduceAdd (F := Ideal) (φ := .f32) x v reducesTo_S4096x128_S4096_d1 h_S_) : (⟨S4096x128, .f32⟩ : BufTy).Contents (Elt Ideal) → (⟨S_, .f32⟩ : BufTy).Contents (Elt Ideal) → (⟨S4096, .f32⟩ : BufTy).Contents (Elt Ideal)) (nK_main_v200 m c) (nK_main_cst_28 m c) := kq_main_v201 m c

end Cert.KernelIdeal.Fr

end
-- ==== Proof.KI.KN4b.lean ====
import proofs.«126270_j6725918785969_1_alg».proof.Proof.KI.KNDefs
import proofs.«126270_j6725918785969_1_alg».proof.Proof.KI.KEq4

/-!
# The kernel program's host operations as equations between plainly typed contents (part 4b)

The sort is kept as an unnamed function of the vector: the equation only moves the operation's defining equation to
the plainly typed contents.
-/

set_option maxRecDepth 16384

noncomputable section

namespace Cert.KernelIdeal.Fr

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

set_option maxHeartbeats 3200000 in
theorem nkq_main_v202 : nK_main_v202 m c = (fun x => Host.sort S4096 0 comparator_i32_d0 x) (nK_main_arg0 m c) := by
  have E := kq_main_v202 m c
  revert E
  generalize (fun x => Host.sort S4096 0 comparator_i32_d0 x : (⟨S4096, .i32⟩ : BufTy).Contents (Elt Ideal) → (⟨S4096, .i32⟩ : BufTy).Contents (Elt Ideal)) = F
  intro E
  exact E

end Cert.KernelIdeal.Fr

end
-- ==== Proof.KI.KN4c.lean ====
import proofs.«126270_j6725918785969_1_alg».proof.Proof.KI.KNDefs
import proofs.«126270_j6725918785969_1_alg».proof.Proof.KI.KEq4

/-!
# The kernel program's host operations as equations between plainly typed contents (part 4c)

The sort is kept as an unnamed function of the vector: the equation only moves the operation's defining equation to
the plainly typed contents.
-/

set_option maxRecDepth 16384

noncomputable section

namespace Cert.KernelIdeal.Fr

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

set_option maxHeartbeats 3200000 in
theorem nkq_main_v203 : nK_main_v203 m c = (fun x => Host.sort S4096 0 comparator_i32_d0 x) (nK_main_arg1 m c) := by
  have E := kq_main_v203 m c
  revert E
  generalize (fun x => Host.sort S4096 0 comparator_i32_d0 x : (⟨S4096, .i32⟩ : BufTy).Contents (Elt Ideal) → (⟨S4096, .i32⟩ : BufTy).Contents (Elt Ideal)) = F
  intro E
  exact E

end Cert.KernelIdeal.Fr

end
-- ==== Proof.KI.KN4d.lean ====
import proofs.«126270_j6725918785969_1_alg».proof.Proof.KI.KNDefs
import proofs.«126270_j6725918785969_1_alg».proof.Proof.KI.KEq4

/-!
# The kernel program's host operations as equations between plainly typed contents (part 4d)
-/

set_option maxRecDepth 16384

noncomputable section

namespace Cert.KernelIdeal.Fr

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

theorem nkq_main_c_29 : nK_main_c_29 m c = (constantI S_ 32 0#32) := kq_main_c_29 m c
theorem nkq_main_v204 : nK_main_v204 m c = (broadcastInDim S4096 ![] bcast_S_S4096 : (⟨S_, .i32⟩ : BufTy).Contents (Elt Ideal) → (⟨S4096, .i32⟩ : BufTy).Contents (Elt Ideal)) (nK_main_c_29 m c) := kq_main_v204 m c
theorem nkq_main_v205 : nK_main_v205 m c = (cmpi .slt : (⟨S4096, .i32⟩ : BufTy).Contents (Elt Ideal) → (⟨S4096, .i32⟩ : BufTy).Contents (Elt Ideal) → (⟨S4096, .i1⟩ : BufTy).Contents (Elt Ideal)) (nK_main_v202 m c) (nK_main_v204 m c) := kq_main_v205 m c
theorem nkq_main_c_30 : nK_main_c_30 m c = (constantI S_ 32 100000#32) := kq_main_c_30 m c
theorem nkq_main_v206 : nK_main_v206 m c = (broadcastInDim S4096 ![] bcast_S_S4096 : (⟨S_, .i32⟩ : BufTy).Contents (Elt Ideal) → (⟨S4096, .i32⟩ : BufTy).Contents (Elt Ideal)) (nK_main_c_30 m c) := kq_main_v206 m c
theorem nkq_main_v207 : nK_main_v207 m c = (addi : (⟨S4096, .i32⟩ : BufTy).Contents (Elt Ideal) → (⟨S4096, .i32⟩ : BufTy).Contents (Elt Ideal) → (⟨S4096, .i32⟩ : BufTy).Contents (Elt Ideal)) (nK_main_v202 m c) (nK_main_v206 m c) := kq_main_v207 m c
theorem nkq_main_v208 : nK_main_v208 m c = (select : (⟨S4096, .i1⟩ : BufTy).Contents (Elt Ideal) → (⟨S4096, .i32⟩ : BufTy).Contents (Elt Ideal) → (⟨S4096, .i32⟩ : BufTy).Contents (Elt Ideal) → (⟨S4096, .i32⟩ : BufTy).Contents (Elt Ideal)) (nK_main_v205 m c) (nK_main_v207 m c) (nK_main_v202 m c) := kq_main_v208 m c
theorem nkq_main_v209 : nK_main_v209 m c = (broadcastInDim S4096x1 ![0] bcast_S4096_S4096x1_0 : (⟨S4096, .i32⟩ : BufTy).Contents (Elt Ideal) → (⟨S4096x1, .i32⟩ : BufTy).Contents (Elt Ideal)) (nK_main_v208 m c) := kq_main_v209 m c
theorem nkq_main_v210 : nK_main_v210 m c = ((fun x i => Host.gather gather_S100000x128_S4096x1_S4096x128_1_0_n_n_0_1_1128 x i) : (⟨S100000x128, .f32⟩ : BufTy).Contents (Elt Ideal) → (⟨S4096x1, .i32⟩ : BufTy).Contents (Elt Ideal) → (⟨S4096x128, .f32⟩ : BufTy).Contents (Elt Ideal)) (nK_main_v57 m c) (nK_main_v209 m c) := kq_main_v210 m c
theorem nkq_main_c_31 : nK_main_c_31 m c = (constantI S_ 32 0#32) := kq_main_c_31 m c
theorem nkq_main_v211 : nK_main_v211 m c = (broadcastInDim S4096 ![] bcast_S_S4096 : (⟨S_, .i32⟩ : BufTy).Contents (Elt Ideal) → (⟨S4096, .i32⟩ : BufTy).Contents (Elt Ideal)) (nK_main_c_31 m c) := kq_main_v211 m c
theorem nkq_main_v212 : nK_main_v212 m c = (cmpi .slt : (⟨S4096, .i32⟩ : BufTy).Contents (Elt Ideal) → (⟨S4096, .i32⟩ : BufTy).Contents (Elt Ideal) → (⟨S4096, .i1⟩ : BufTy).Contents (Elt Ideal)) (nK_main_v202 m c) (nK_main_v211 m c) := kq_main_v212 m c
theorem nkq_main_c_32 : nK_main_c_32 m c = (constantI S_ 32 100000#32) := kq_main_c_32 m c
theorem nkq_main_v213 : nK_main_v213 m c = (broadcastInDim S4096 ![] bcast_S_S4096 : (⟨S_, .i32⟩ : BufTy).Contents (Elt Ideal) → (⟨S4096, .i32⟩ : BufTy).Contents (Elt Ideal)) (nK_main_c_32 m c) := kq_main_v213 m c
theorem nkq_main_v214 : nK_main_v214 m c = (addi : (⟨S4096, .i32⟩ : BufTy).Contents (Elt Ideal) → (⟨S4096, .i32⟩ : BufTy).Contents (Elt Ideal) → (⟨S4096, .i32⟩ : BufTy).Contents (Elt Ideal)) (nK_main_v202 m c) (nK_main_v213 m c) := kq_main_v214 m c
theorem nkq_main_v215 : nK_main_v215 m c = (select : (⟨S4096, .i1⟩ : BufTy).Contents (Elt Ideal) → (⟨S4096, .i32⟩ : BufTy).Contents (Elt Ideal) → (⟨S4096, .i32⟩ : BufTy).Contents (Elt Ideal) → (⟨S4096, .i32⟩ : BufTy).Contents (Elt Ideal)) (nK_main_v212 m c) (nK_main_v214 m c) (nK_main_v202 m c) := kq_main_v215 m c
theorem nkq_main_v216 : nK_main_v216 m c = (broadcastInDim S4096x1 ![0] bcast_S4096_S4096x1_0 : (⟨S4096, .i32⟩ : BufTy).Contents (Elt Ideal) → (⟨S4096x1, .i32⟩ : BufTy).Contents (Elt Ideal)) (nK_main_v215 m c) := kq_main_v216 m c
theorem nkq_main_v217 : nK_main_v217 m c = ((fun x i => Host.gather gather_S100000x128_S4096x1_S4096x128_1_0_n_n_0_1_1128 x i) : (⟨S100000x128, .f32⟩ : BufTy).Contents (Elt Ideal) → (⟨S4096x1, .i32⟩ : BufTy).Contents (Elt Ideal) → (⟨S4096x128, .f32⟩ : BufTy).Contents (Elt Ideal)) (nK_main_v28 m c) (nK_main_v216 m c) := kq_main_v217 m c
theorem nkq_main_v218 : nK_main_v218 m c = ((extractStridedSlice S1x128x128 ![0, 0, 0] · slices_S2x128x128_S1x128x128_0_0_0) : (⟨S2x128x128, .f32⟩ : BufTy).Contents (Elt Ideal) → (⟨S1x128x128, .f32⟩ : BufTy).Contents (Elt Ideal)) (nK_main_arg11 m c) := kq_main_v218 m c
theorem nkq_main_v219 : nK_main_v219 m c = fun i => shapeCast S128x128 (nK_main_v218 m c) shapeCasts_S1x128x128_S128x128 i := kq_main_v219 m c

end Cert.KernelIdeal.Fr

end
-- ==== Proof.KI.KN4e.lean ====
import proofs.«126270_j6725918785969_1_alg».proof.Proof.KI.KNDefs
import proofs.«126270_j6725918785969_1_alg».proof.Proof.KI.KEq4

/-!
# The kernel program's host operations as equations between plainly typed contents (part 4e)
-/

set_option maxRecDepth 16384

noncomputable section

namespace Cert.KernelIdeal.Fr

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

set_option maxHeartbeats 3200000 in
theorem nkq_main_call2_v0 : nK_main_call2_v0 m c = mulf (F := Ideal) (φ := .f32) (nK_main_v210 m c) (nK_main_v210 m c) := kq_main_call2_v0 m c
set_option maxHeartbeats 3200000 in
theorem nkq_main_call2_cst : nK_main_call2_cst m c = (constant (F := Ideal) S_ .f32 0x00000000#32) := kq_main_call2_cst m c
set_option maxHeartbeats 3200000 in
theorem nkq_main_call2_v1 : nK_main_call2_v1 m c = (fun x v => Host.reduceAdd (F := Ideal) (φ := .f32) x v reducesTo_S4096x128_S4096_d1 h_S_) (nK_main_call2_v0 m c) (nK_main_call2_cst m c) := kq_main_call2_v1 m c
set_option maxHeartbeats 3200000 in
theorem nkq_main_call2_v2 : nK_main_call2_v2 m c = (broadcastInDim S4096x1 ![0] bcast_S4096_S4096x1_0) (nK_main_call2_v1 m c) := kq_main_call2_v2 m c
set_option maxHeartbeats 3200000 in
theorem nkq_main_v220 : nK_main_v220 m c = Host.sqrt (F := Ideal) (φ := .f32) (nK_main_call2_v2 m c) := kq_main_v220 m c
theorem nkq_main_cst_33 : nK_main_cst_33 m c = (constant (F := Ideal) S_ .f32 0x2B8CBCCC#32) := kq_main_cst_33 m c
theorem nkq_main_v221 : nK_main_v221 m c = (broadcastInDim S4096x1 ![] bcast_S_S4096x1 : (⟨S_, .f32⟩ : BufTy).Contents (Elt Ideal) → (⟨S4096x1, .f32⟩ : BufTy).Contents (Elt Ideal)) (nK_main_cst_33 m c) := kq_main_v221 m c
theorem nkq_main_v222 : nK_main_v222 m c = (maximumf (F := Ideal) (φ := .f32) : (⟨S4096x1, .f32⟩ : BufTy).Contents (Elt Ideal) → (⟨S4096x1, .f32⟩ : BufTy).Contents (Elt Ideal) → (⟨S4096x1, .f32⟩ : BufTy).Contents (Elt Ideal)) (nK_main_v220 m c) (nK_main_v221 m c) := kq_main_v222 m c
theorem nkq_main_v223 : nK_main_v223 m c = (broadcastInDim S4096x128 ![0, 1] bcast_S4096x1_S4096x128_0_1 : (⟨S4096x1, .f32⟩ : BufTy).Contents (Elt Ideal) → (⟨S4096x128, .f32⟩ : BufTy).Contents (Elt Ideal)) (nK_main_v222 m c) := kq_main_v223 m c
theorem nkq_main_v224 : nK_main_v224 m c = (Host.divf (F := Ideal) (φ := .f32) : (⟨S4096x128, .f32⟩ : BufTy).Contents (Elt Ideal) → (⟨S4096x128, .f32⟩ : BufTy).Contents (Elt Ideal) → (⟨S4096x128, .f32⟩ : BufTy).Contents (Elt Ideal)) (nK_main_v210 m c) (nK_main_v223 m c) := kq_main_v224 m c

end Cert.KernelIdeal.Fr

end
-- ==== Proof.KI.KN4f.lean ====
import proofs.«126270_j6725918785969_1_alg».proof.Proof.KI.KNDefs
import proofs.«126270_j6725918785969_1_alg».proof.Proof.KI.KEq4

/-!
# The kernel program's host operations as equations between plainly typed contents (part 4f)
-/

set_option maxRecDepth 16384

noncomputable section

namespace Cert.KernelIdeal.Fr

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

set_option maxHeartbeats 3200000 in
theorem nkq_main_call3_v0 : nK_main_call3_v0 m c = mulf (F := Ideal) (φ := .f32) (nK_main_v217 m c) (nK_main_v217 m c) := kq_main_call3_v0 m c
set_option maxHeartbeats 3200000 in
theorem nkq_main_call3_cst : nK_main_call3_cst m c = (constant (F := Ideal) S_ .f32 0x00000000#32) := kq_main_call3_cst m c
set_option maxHeartbeats 3200000 in
theorem nkq_main_call3_v1 : nK_main_call3_v1 m c = (fun x v => Host.reduceAdd (F := Ideal) (φ := .f32) x v reducesTo_S4096x128_S4096_d1 h_S_) (nK_main_call3_v0 m c) (nK_main_call3_cst m c) := kq_main_call3_v1 m c
set_option maxHeartbeats 3200000 in
theorem nkq_main_call3_v2 : nK_main_call3_v2 m c = (broadcastInDim S4096x1 ![0] bcast_S4096_S4096x1_0) (nK_main_call3_v1 m c) := kq_main_call3_v2 m c
set_option maxHeartbeats 3200000 in
theorem nkq_main_v225 : nK_main_v225 m c = Host.sqrt (F := Ideal) (φ := .f32) (nK_main_call3_v2 m c) := kq_main_v225 m c

end Cert.KernelIdeal.Fr

end
-- ==== Proof.KI.KEq5.lean ====
import proofs.«126270_j6725918785969_1_alg».proof.Proof.KI.KEqBase

/-!
# The idealized kernel program's host operations, each as an equation between final buffer contents (part 5)

For every host operation `y = f x₁ x₂ …` of the stretches `hostOps14_7`, `hostOps15`, `hostOps16`, `hostOps16_1`, `hostOps16_2`, `hostOps16_3`, `hostOps16_4`, `hostOps17`: the final contents of `y` are `f` of the
final contents of the operands.
-/

set_option maxRecDepth 16384

noncomputable section

namespace Cert.KernelIdeal.Fr

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

/-! ### `hostOps14_7` -/
def kq_main_cst_34 := lift_nullary (liftK_32 m c main_cst_34 (by decide)) (eq_nullary lateK_32 (rfl : Wc32 m c = after hostOps14_7 (Wc31 m c)) 0 _ _ rfl (by decide))
def kq_main_v226 := lift_unary (liftK_32 m c main_v226 (by decide)) (liftK_32 m c main_cst_34 (by decide)) (eq_unary lateK_32 (rfl : Wc32 m c = after hostOps14_7 (Wc31 m c)) 1 _ _ _ rfl (by decide) (by decide))
def kq_main_v227 := lift_binary (liftK_32 m c main_v227 (by decide)) (liftK_32 m c main_v225 (by decide)) (liftK_32 m c main_v226 (by decide)) (eq_binary lateK_32 (rfl : Wc32 m c = after hostOps14_7 (Wc31 m c)) 2 _ _ _ _ rfl (by decide) (by decide) (by decide))
def kq_main_v228 := lift_unary (liftK_32 m c main_v228 (by decide)) (liftK_32 m c main_v227 (by decide)) (eq_unary lateK_32 (rfl : Wc32 m c = after hostOps14_7 (Wc31 m c)) 3 _ _ _ rfl (by decide) (by decide))
def kq_main_v229 := lift_binary (liftK_32 m c main_v229 (by decide)) (liftK_32 m c main_v217 (by decide)) (liftK_32 m c main_v228 (by decide)) (eq_binary lateK_32 (rfl : Wc32 m c = after hostOps14_7 (Wc31 m c)) 4 _ _ _ _ rfl (by decide) (by decide) (by decide))

/-! ### `hostOps15` -/
def kq_main_v231 := lift_binary (liftK_34 m c main_v231 (by decide)) (liftK_34 m c main_v230 (by decide)) (liftK_34 m c main_v229 (by decide)) (eq_binary lateK_34 (rfl : Wc34 m c = after hostOps15 (Wc33 m c)) 0 _ _ _ _ rfl (by decide) (by decide) (by decide))
def kq_main_cst_35 := lift_nullary (liftK_34 m c main_cst_35 (by decide)) (eq_nullary lateK_34 (rfl : Wc34 m c = after hostOps15 (Wc33 m c)) 1 _ _ rfl (by decide))
def kq_main_v232 := lift_binary (liftK_34 m c main_v232 (by decide)) (liftK_34 m c main_v231 (by decide)) (liftK_34 m c main_cst_35 (by decide)) (eq_binary lateK_34 (rfl : Wc34 m c = after hostOps15 (Wc33 m c)) 2 _ _ _ _ rfl (by decide) (by decide) (by decide))
def kq_main_cst_36 := lift_nullary (liftK_34 m c main_cst_36 (by decide)) (eq_nullary lateK_34 (rfl : Wc34 m c = after hostOps15 (Wc33 m c)) 3 _ _ rfl (by decide))
def kq_main_v233 := lift_unary (liftK_34 m c main_v233 (by decide)) (liftK_34 m c main_cst_36 (by decide)) (eq_unary lateK_34 (rfl : Wc34 m c = after hostOps15 (Wc33 m c)) 4 _ _ _ rfl (by decide) (by decide))
def kq_main_v234 := lift_binary (liftK_34 m c main_v234 (by decide)) (liftK_34 m c main_v232 (by decide)) (liftK_34 m c main_v233 (by decide)) (eq_binary lateK_34 (rfl : Wc34 m c = after hostOps15 (Wc33 m c)) 5 _ _ _ _ rfl (by decide) (by decide) (by decide))
def kq_main_v235 := lift_unary (liftK_34 m c main_v235 (by decide)) (liftK_34 m c main_v234 (by decide)) (eq_unary lateK_34 (rfl : Wc34 m c = after hostOps15 (Wc33 m c)) 6 _ _ _ rfl (by decide) (by decide))

/-! ### `hostOps16` -/
def kq_main_v237 := lift_reshape (x := main_v236) (y := main_v237) rfl shapeCasts_S4096x1_S4096 (liftK_36 m c main_v237 (by decide)) (liftK_36 m c main_v236 (by decide)) (eq_reshape (x := main_v236) (y := main_v237) lateK_36 (rfl : Wc36 m c = after hostOps16 (Wc35 m c)) 0 rfl shapeCasts_S4096x1_S4096 _ _ rfl (by decide) (by decide))
def kq_main_cst_37 := lift_nullary (liftK_36 m c main_cst_37 (by decide)) (eq_nullary lateK_36 (rfl : Wc36 m c = after hostOps16 (Wc35 m c)) 1 _ _ rfl (by decide))
def kq_main_v238 := lift_unary (liftK_36 m c main_v238 (by decide)) (liftK_36 m c main_cst_37 (by decide)) (eq_unary lateK_36 (rfl : Wc36 m c = after hostOps16 (Wc35 m c)) 2 _ _ _ rfl (by decide) (by decide))
def kq_main_v239 := lift_binary (liftK_36 m c main_v239 (by decide)) (liftK_36 m c main_v237 (by decide)) (liftK_36 m c main_v238 (by decide)) (eq_binary lateK_36 (rfl : Wc36 m c = after hostOps16 (Wc35 m c)) 3 _ _ _ _ rfl (by decide) (by decide) (by decide))
def kq_main_v240 := lift_binary (liftK_36 m c main_v240 (by decide)) (liftK_36 m c main_v235 (by decide)) (liftK_36 m c main_v239 (by decide)) (eq_binary lateK_36 (rfl : Wc36 m c = after hostOps16 (Wc35 m c)) 4 _ _ _ _ rfl (by decide) (by decide) (by decide))
def kq_main_cst_38 := lift_nullary (liftK_36 m c main_cst_38 (by decide)) (eq_nullary lateK_36 (rfl : Wc36 m c = after hostOps16 (Wc35 m c)) 5 _ _ rfl (by decide))
def kq_main_v241 := lift_unary (liftK_36 m c main_v241 (by decide)) (liftK_36 m c main_cst_38 (by decide)) (eq_unary lateK_36 (rfl : Wc36 m c = after hostOps16 (Wc35 m c)) 6 _ _ _ rfl (by decide) (by decide))
def kq_main_v242 := lift_binary (liftK_36 m c main_v242 (by decide)) (liftK_36 m c main_v240 (by decide)) (liftK_36 m c main_v241 (by decide)) (eq_binary lateK_36 (rfl : Wc36 m c = after hostOps16 (Wc35 m c)) 7 _ _ _ _ rfl (by decide) (by decide) (by decide))
def kq_main_v243 := lift_unary (liftK_36 m c main_v243 (by decide)) (liftK_36 m c main_v242 (by decide)) (eq_unary lateK_36 (rfl : Wc36 m c = after hostOps16 (Wc35 m c)) 8 _ _ _ rfl (by decide) (by decide))
def kq_main_v244 := lift_unary (liftK_36 m c main_v244 (by decide)) (liftK_36 m c main_v243 (by decide)) (eq_unary lateK_36 (rfl : Wc36 m c = after hostOps16 (Wc35 m c)) 9 _ _ _ rfl (by decide) (by decide))
def kq_main_cst_39 := lift_nullary (liftK_36 m c main_cst_39 (by decide)) (eq_nullary lateK_36 (rfl : Wc36 m c = after hostOps16 (Wc35 m c)) 10 _ _ rfl (by decide))
def kq_main_v245 := lift_binary (liftK_36 m c main_v245 (by decide)) (liftK_36 m c main_v244 (by decide)) (liftK_36 m c main_cst_39 (by decide)) (eq_binary lateK_36 (rfl : Wc36 m c = after hostOps16 (Wc35 m c)) 11 _ _ _ _ rfl (by decide) (by decide) (by decide))
def kq_main_cst_40 := lift_nullary (liftK_36 m c main_cst_40 (by decide)) (eq_nullary lateK_36 (rfl : Wc36 m c = after hostOps16 (Wc35 m c)) 12 _ _ rfl (by decide))
def kq_main_v246 := lift_binary (liftK_36 m c main_v246 (by decide)) (liftK_36 m c main_cst_40 (by decide)) (liftK_36 m c main_v245 (by decide)) (eq_binary lateK_36 (rfl : Wc36 m c = after hostOps16 (Wc35 m c)) 13 _ _ _ _ rfl (by decide) (by decide) (by decide))
def kq_main_c_41 := lift_nullary (liftK_36 m c main_c_41 (by decide)) (eq_nullary lateK_36 (rfl : Wc36 m c = after hostOps16 (Wc35 m c)) 14 _ _ rfl (by decide))
def kq_main_v247 := lift_unary (liftK_36 m c main_v247 (by decide)) (liftK_36 m c main_c_41 (by decide)) (eq_unary lateK_36 (rfl : Wc36 m c = after hostOps16 (Wc35 m c)) 15 _ _ _ rfl (by decide) (by decide))
def kq_main_v248 := lift_binary (liftK_36 m c main_v248 (by decide)) (liftK_36 m c main_v203 (by decide)) (liftK_36 m c main_v247 (by decide)) (eq_binary lateK_36 (rfl : Wc36 m c = after hostOps16 (Wc35 m c)) 16 _ _ _ _ rfl (by decide) (by decide) (by decide))
def kq_main_c_42 := lift_nullary (liftK_36 m c main_c_42 (by decide)) (eq_nullary lateK_36 (rfl : Wc36 m c = after hostOps16 (Wc35 m c)) 17 _ _ rfl (by decide))
def kq_main_v249 := lift_unary (liftK_36 m c main_v249 (by decide)) (liftK_36 m c main_c_42 (by decide)) (eq_unary lateK_36 (rfl : Wc36 m c = after hostOps16 (Wc35 m c)) 18 _ _ _ rfl (by decide) (by decide))
def kq_main_v250 := lift_binary (liftK_36 m c main_v250 (by decide)) (liftK_36 m c main_v203 (by decide)) (liftK_36 m c main_v249 (by decide)) (eq_binary lateK_36 (rfl : Wc36 m c = after hostOps16 (Wc35 m c)) 19 _ _ _ _ rfl (by decide) (by decide) (by decide))
def kq_main_v251 := lift_ternary (liftK_36 m c main_v251 (by decide)) (liftK_36 m c main_v248 (by decide)) (liftK_36 m c main_v250 (by decide)) (liftK_36 m c main_v203 (by decide)) (eq_ternary lateK_36 (rfl : Wc36 m c = after hostOps16 (Wc35 m c)) 20 _ _ _ _ _ rfl (by decide) (by decide) (by decide) (by decide))
def kq_main_v252 := lift_unary (liftK_36 m c main_v252 (by decide)) (liftK_36 m c main_v251 (by decide)) (eq_unary lateK_36 (rfl : Wc36 m c = after hostOps16 (Wc35 m c)) 21 _ _ _ rfl (by decide) (by decide))
def kq_main_v253 := lift_binary (liftK_36 m c main_v253 (by decide)) (liftK_36 m c main_v85 (by decide)) (liftK_36 m c main_v252 (by decide)) (eq_binary lateK_36 (rfl : Wc36 m c = after hostOps16 (Wc35 m c)) 22 _ _ _ _ rfl (by decide) (by decide) (by decide))
def kq_main_c_43 := lift_nullary (liftK_36 m c main_c_43 (by decide)) (eq_nullary lateK_36 (rfl : Wc36 m c = after hostOps16 (Wc35 m c)) 23 _ _ rfl (by decide))
def kq_main_v254 := lift_unary (liftK_36 m c main_v254 (by decide)) (liftK_36 m c main_c_43 (by decide)) (eq_unary lateK_36 (rfl : Wc36 m c = after hostOps16 (Wc35 m c)) 24 _ _ _ rfl (by decide) (by decide))
def kq_main_v255 := lift_binary (liftK_36 m c main_v255 (by decide)) (liftK_36 m c main_v203 (by decide)) (liftK_36 m c main_v254 (by decide)) (eq_binary lateK_36 (rfl : Wc36 m c = after hostOps16 (Wc35 m c)) 25 _ _ _ _ rfl (by decide) (by decide) (by decide))
def kq_main_c_44 := lift_nullary (liftK_36 m c main_c_44 (by decide)) (eq_nullary lateK_36 (rfl : Wc36 m c = after hostOps16 (Wc35 m c)) 26 _ _ rfl (by decide))
def kq_main_v256 := lift_unary (liftK_36 m c main_v256 (by decide)) (liftK_36 m c main_c_44 (by decide)) (eq_unary lateK_36 (rfl : Wc36 m c = after hostOps16 (Wc35 m c)) 27 _ _ _ rfl (by decide) (by decide))
def kq_main_v257 := lift_binary (liftK_36 m c main_v257 (by decide)) (liftK_36 m c main_v203 (by decide)) (liftK_36 m c main_v256 (by decide)) (eq_binary lateK_36 (rfl : Wc36 m c = after hostOps16 (Wc35 m c)) 28 _ _ _ _ rfl (by decide) (by decide) (by decide))
def kq_main_v258 := lift_ternary (liftK_36 m c main_v258 (by decide)) (liftK_36 m c main_v255 (by decide)) (liftK_36 m c main_v257 (by decide)) (liftK_36 m c main_v203 (by decide)) (eq_ternary lateK_36 (rfl : Wc36 m c = after hostOps16 (Wc35 m c)) 29 _ _ _ _ _ rfl (by decide) (by decide) (by decide) (by decide))
def kq_main_v259 := lift_unary (liftK_36 m c main_v259 (by decide)) (liftK_36 m c main_v258 (by decide)) (eq_unary lateK_36 (rfl : Wc36 m c = after hostOps16 (Wc35 m c)) 30 _ _ _ rfl (by decide) (by decide))
def kq_main_v260 := lift_binary (liftK_36 m c main_v260 (by decide)) (liftK_36 m c main_v29 (by decide)) (liftK_36 m c main_v259 (by decide)) (eq_binary lateK_36 (rfl : Wc36 m c = after hostOps16 (Wc35 m c)) 31 _ _ _ _ rfl (by decide) (by decide) (by decide))
def kq_main_v261 := lift_unary (liftK_36 m c main_v261 (by decide)) (liftK_36 m c main_arg11 (by decide)) (eq_unary lateK_36 (rfl : Wc36 m c = after hostOps16 (Wc35 m c)) 32 _ _ _ rfl (by decide) (by decide))
def kq_main_v262 := lift_reshape (x := main_v261) (y := main_v262) rfl shapeCasts_S1x128x128_S128x128 (liftK_36 m c main_v262 (by decide)) (liftK_36 m c main_v261 (by decide)) (eq_reshape (x := main_v261) (y := main_v262) lateK_36 (rfl : Wc36 m c = after hostOps16 (Wc35 m c)) 33 rfl shapeCasts_S1x128x128_S128x128 _ _ rfl (by decide) (by decide))

/-! ### `hostOps16_1` -/
def kq_main_call4_v0 := lift_binary (liftK_37 m c main_call4_v0 (by decide)) (liftK_37 m c main_v253 (by decide)) (liftK_37 m c main_v253 (by decide)) (eq_binary lateK_37 (rfl : Wc37 m c = after hostOps16_1 (Wc36 m c)) 0 _ _ _ _ rfl (by decide) (by decide) (by decide))
def kq_main_call4_cst := lift_nullary (liftK_37 m c main_call4_cst (by decide)) (eq_nullary lateK_37 (rfl : Wc37 m c = after hostOps16_1 (Wc36 m c)) 1 _ _ rfl (by decide))
def kq_main_call4_v1 := lift_binary (liftK_37 m c main_call4_v1 (by decide)) (liftK_37 m c main_call4_v0 (by decide)) (liftK_37 m c main_call4_cst (by decide)) (eq_binary lateK_37 (rfl : Wc37 m c = after hostOps16_1 (Wc36 m c)) 2 _ _ _ _ rfl (by decide) (by decide) (by decide))
def kq_main_call4_v2 := lift_unary (liftK_37 m c main_call4_v2 (by decide)) (liftK_37 m c main_call4_v1 (by decide)) (eq_unary lateK_37 (rfl : Wc37 m c = after hostOps16_1 (Wc36 m c)) 3 _ _ _ rfl (by decide) (by decide))
def kq_main_v263 := lift_unary (liftK_37 m c main_v263 (by decide)) (liftK_37 m c main_call4_v2 (by decide)) (eq_unary lateK_37 (rfl : Wc37 m c = after hostOps16_1 (Wc36 m c)) 4 _ _ _ rfl (by decide) (by decide))

/-! ### `hostOps16_2` -/
def kq_main_cst_45 := lift_nullary (liftK_38 m c main_cst_45 (by decide)) (eq_nullary lateK_38 (rfl : Wc38 m c = after hostOps16_2 (Wc37 m c)) 0 _ _ rfl (by decide))
def kq_main_v264 := lift_unary (liftK_38 m c main_v264 (by decide)) (liftK_38 m c main_cst_45 (by decide)) (eq_unary lateK_38 (rfl : Wc38 m c = after hostOps16_2 (Wc37 m c)) 1 _ _ _ rfl (by decide) (by decide))
def kq_main_v265 := lift_binary (liftK_38 m c main_v265 (by decide)) (liftK_38 m c main_v263 (by decide)) (liftK_38 m c main_v264 (by decide)) (eq_binary lateK_38 (rfl : Wc38 m c = after hostOps16_2 (Wc37 m c)) 2 _ _ _ _ rfl (by decide) (by decide) (by decide))
def kq_main_v266 := lift_unary (liftK_38 m c main_v266 (by decide)) (liftK_38 m c main_v265 (by decide)) (eq_unary lateK_38 (rfl : Wc38 m c = after hostOps16_2 (Wc37 m c)) 3 _ _ _ rfl (by decide) (by decide))
def kq_main_v267 := lift_binary (liftK_38 m c main_v267 (by decide)) (liftK_38 m c main_v253 (by decide)) (liftK_38 m c main_v266 (by decide)) (eq_binary lateK_38 (rfl : Wc38 m c = after hostOps16_2 (Wc37 m c)) 4 _ _ _ _ rfl (by decide) (by decide) (by decide))

/-! ### `hostOps16_3` -/
def kq_main_call5_v0 := lift_binary (liftK_39 m c main_call5_v0 (by decide)) (liftK_39 m c main_v260 (by decide)) (liftK_39 m c main_v260 (by decide)) (eq_binary lateK_39 (rfl : Wc39 m c = after hostOps16_3 (Wc38 m c)) 0 _ _ _ _ rfl (by decide) (by decide) (by decide))
def kq_main_call5_cst := lift_nullary (liftK_39 m c main_call5_cst (by decide)) (eq_nullary lateK_39 (rfl : Wc39 m c = after hostOps16_3 (Wc38 m c)) 1 _ _ rfl (by decide))
def kq_main_call5_v1 := lift_binary (liftK_39 m c main_call5_v1 (by decide)) (liftK_39 m c main_call5_v0 (by decide)) (liftK_39 m c main_call5_cst (by decide)) (eq_binary lateK_39 (rfl : Wc39 m c = after hostOps16_3 (Wc38 m c)) 2 _ _ _ _ rfl (by decide) (by decide) (by decide))
def kq_main_call5_v2 := lift_unary (liftK_39 m c main_call5_v2 (by decide)) (liftK_39 m c main_call5_v1 (by decide)) (eq_unary lateK_39 (rfl : Wc39 m c = after hostOps16_3 (Wc38 m c)) 3 _ _ _ rfl (by decide) (by decide))
def kq_main_v268 := lift_unary (liftK_39 m c main_v268 (by decide)) (liftK_39 m c main_call5_v2 (by decide)) (eq_unary lateK_39 (rfl : Wc39 m c = after hostOps16_3 (Wc38 m c)) 4 _ _ _ rfl (by decide) (by decide))

/-! ### `hostOps16_4` -/
def kq_main_cst_46 := lift_nullary (liftK_40 m c main_cst_46 (by decide)) (eq_nullary lateK_40 (rfl : Wc40 m c = after hostOps16_4 (Wc39 m c)) 0 _ _ rfl (by decide))
def kq_main_v269 := lift_unary (liftK_40 m c main_v269 (by decide)) (liftK_40 m c main_cst_46 (by decide)) (eq_unary lateK_40 (rfl : Wc40 m c = after hostOps16_4 (Wc39 m c)) 1 _ _ _ rfl (by decide) (by decide))
def kq_main_v270 := lift_binary (liftK_40 m c main_v270 (by decide)) (liftK_40 m c main_v268 (by decide)) (liftK_40 m c main_v269 (by decide)) (eq_binary lateK_40 (rfl : Wc40 m c = after hostOps16_4 (Wc39 m c)) 2 _ _ _ _ rfl (by decide) (by decide) (by decide))
def kq_main_v271 := lift_unary (liftK_40 m c main_v271 (by decide)) (liftK_40 m c main_v270 (by decide)) (eq_unary lateK_40 (rfl : Wc40 m c = after hostOps16_4 (Wc39 m c)) 3 _ _ _ rfl (by decide) (by decide))
def kq_main_v272 := lift_binary (liftK_40 m c main_v272 (by decide)) (liftK_40 m c main_v260 (by decide)) (liftK_40 m c main_v271 (by decide)) (eq_binary lateK_40 (rfl : Wc40 m c = after hostOps16_4 (Wc39 m c)) 4 _ _ _ _ rfl (by decide) (by decide) (by decide))

/-! ### `hostOps17` -/
def kq_main_v274 := lift_binary (liftK_42 m c main_v274 (by decide)) (liftK_42 m c main_v273 (by decide)) (liftK_42 m c main_v272 (by decide)) (eq_binary lateK_42 (rfl : Wc42 m c = after hostOps17 (Wc41 m c)) 0 _ _ _ _ rfl (by decide) (by decide) (by decide))
def kq_main_cst_47 := lift_nullary (liftK_42 m c main_cst_47 (by decide)) (eq_nullary lateK_42 (rfl : Wc42 m c = after hostOps17 (Wc41 m c)) 1 _ _ rfl (by decide))
def kq_main_v275 := lift_binary (liftK_42 m c main_v275 (by decide)) (liftK_42 m c main_v274 (by decide)) (liftK_42 m c main_cst_47 (by decide)) (eq_binary lateK_42 (rfl : Wc42 m c = after hostOps17 (Wc41 m c)) 2 _ _ _ _ rfl (by decide) (by decide) (by decide))
def kq_main_cst_48 := lift_nullary (liftK_42 m c main_cst_48 (by decide)) (eq_nullary lateK_42 (rfl : Wc42 m c = after hostOps17 (Wc41 m c)) 3 _ _ rfl (by decide))
def kq_main_v276 := lift_unary (liftK_42 m c main_v276 (by decide)) (liftK_42 m c main_cst_48 (by decide)) (eq_unary lateK_42 (rfl : Wc42 m c = after hostOps17 (Wc41 m c)) 4 _ _ _ rfl (by decide) (by decide))
def kq_main_v277 := lift_binary (liftK_42 m c main_v277 (by decide)) (liftK_42 m c main_v275 (by decide)) (liftK_42 m c main_v276 (by decide)) (eq_binary lateK_42 (rfl : Wc42 m c = after hostOps17 (Wc41 m c)) 5 _ _ _ _ rfl (by decide) (by decide) (by decide))
def kq_main_v278 := lift_unary (liftK_42 m c main_v278 (by decide)) (liftK_42 m c main_v277 (by decide)) (eq_unary lateK_42 (rfl : Wc42 m c = after hostOps17 (Wc41 m c)) 6 _ _ _ rfl (by decide) (by decide))

end Cert.KernelIdeal.Fr

end
-- ==== Proof.KI.KN5.lean ====
import proofs.«126270_j6725918785969_1_alg».proof.Proof.KI.KNDefs
import proofs.«126270_j6725918785969_1_alg».proof.Proof.KI.KEq5

/-!
# The kernel program's host operations as equations between plainly typed contents (part 5)
-/

set_option maxRecDepth 16384

noncomputable section

namespace Cert.KernelIdeal.Fr

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

theorem nkq_main_cst_34 : nK_main_cst_34 m c = (constant (F := Ideal) S_ .f32 0x2B8CBCCC#32) := kq_main_cst_34 m c
theorem nkq_main_v226 : nK_main_v226 m c = (broadcastInDim S4096x1 ![] bcast_S_S4096x1 : (⟨S_, .f32⟩ : BufTy).Contents (Elt Ideal) → (⟨S4096x1, .f32⟩ : BufTy).Contents (Elt Ideal)) (nK_main_cst_34 m c) := kq_main_v226 m c
theorem nkq_main_v227 : nK_main_v227 m c = (maximumf (F := Ideal) (φ := .f32) : (⟨S4096x1, .f32⟩ : BufTy).Contents (Elt Ideal) → (⟨S4096x1, .f32⟩ : BufTy).Contents (Elt Ideal) → (⟨S4096x1, .f32⟩ : BufTy).Contents (Elt Ideal)) (nK_main_v225 m c) (nK_main_v226 m c) := kq_main_v227 m c
theorem nkq_main_v228 : nK_main_v228 m c = (broadcastInDim S4096x128 ![0, 1] bcast_S4096x1_S4096x128_0_1 : (⟨S4096x1, .f32⟩ : BufTy).Contents (Elt Ideal) → (⟨S4096x128, .f32⟩ : BufTy).Contents (Elt Ideal)) (nK_main_v227 m c) := kq_main_v228 m c
theorem nkq_main_v229 : nK_main_v229 m c = (Host.divf (F := Ideal) (φ := .f32) : (⟨S4096x128, .f32⟩ : BufTy).Contents (Elt Ideal) → (⟨S4096x128, .f32⟩ : BufTy).Contents (Elt Ideal) → (⟨S4096x128, .f32⟩ : BufTy).Contents (Elt Ideal)) (nK_main_v217 m c) (nK_main_v228 m c) := kq_main_v229 m c
theorem nkq_main_v231 : nK_main_v231 m c = (mulf (F := Ideal) (φ := .f32) : (⟨S4096x128, .f32⟩ : BufTy).Contents (Elt Ideal) → (⟨S4096x128, .f32⟩ : BufTy).Contents (Elt Ideal) → (⟨S4096x128, .f32⟩ : BufTy).Contents (Elt Ideal)) (nK_main_v230 m c) (nK_main_v229 m c) := kq_main_v231 m c
theorem nkq_main_cst_35 : nK_main_cst_35 m c = (constant (F := Ideal) S_ .f32 0x00000000#32) := kq_main_cst_35 m c
theorem nkq_main_v232 : nK_main_v232 m c = ((fun x v => Host.reduceAdd (F := Ideal) (φ := .f32) x v reducesTo_S4096x128_S4096_d1 h_S_) : (⟨S4096x128, .f32⟩ : BufTy).Contents (Elt Ideal) → (⟨S_, .f32⟩ : BufTy).Contents (Elt Ideal) → (⟨S4096, .f32⟩ : BufTy).Contents (Elt Ideal)) (nK_main_v231 m c) (nK_main_cst_35 m c) := kq_main_v232 m c
theorem nkq_main_cst_36 : nK_main_cst_36 m c = (constant (F := Ideal) S_ .f32 0x3F800000#32) := kq_main_cst_36 m c
theorem nkq_main_v233 : nK_main_v233 m c = (broadcastInDim S4096 ![] bcast_S_S4096 : (⟨S_, .f32⟩ : BufTy).Contents (Elt Ideal) → (⟨S4096, .f32⟩ : BufTy).Contents (Elt Ideal)) (nK_main_cst_36 m c) := kq_main_v233 m c
theorem nkq_main_v234 : nK_main_v234 m c = (Host.divf (F := Ideal) (φ := .f32) : (⟨S4096, .f32⟩ : BufTy).Contents (Elt Ideal) → (⟨S4096, .f32⟩ : BufTy).Contents (Elt Ideal) → (⟨S4096, .f32⟩ : BufTy).Contents (Elt Ideal)) (nK_main_v232 m c) (nK_main_v233 m c) := kq_main_v234 m c
theorem nkq_main_v235 : nK_main_v235 m c = (Host.exp (F := Ideal) (φ := .f32) : (⟨S4096, .f32⟩ : BufTy).Contents (Elt Ideal) → (⟨S4096, .f32⟩ : BufTy).Contents (Elt Ideal)) (nK_main_v234 m c) := kq_main_v235 m c
theorem nkq_main_v237 : nK_main_v237 m c = fun i => shapeCast S4096 (nK_main_v236 m c) shapeCasts_S4096x1_S4096 i := kq_main_v237 m c
theorem nkq_main_cst_37 : nK_main_cst_37 m c = (constant (F := Ideal) S_ .f32 0x322BCC77#32) := kq_main_cst_37 m c
theorem nkq_main_v238 : nK_main_v238 m c = (broadcastInDim S4096 ![] bcast_S_S4096 : (⟨S_, .f32⟩ : BufTy).Contents (Elt Ideal) → (⟨S4096, .f32⟩ : BufTy).Contents (Elt Ideal)) (nK_main_cst_37 m c) := kq_main_v238 m c
theorem nkq_main_v239 : nK_main_v239 m c = (addf (F := Ideal) (φ := .f32) : (⟨S4096, .f32⟩ : BufTy).Contents (Elt Ideal) → (⟨S4096, .f32⟩ : BufTy).Contents (Elt Ideal) → (⟨S4096, .f32⟩ : BufTy).Contents (Elt Ideal)) (nK_main_v237 m c) (nK_main_v238 m c) := kq_main_v239 m c
theorem nkq_main_v240 : nK_main_v240 m c = (Host.divf (F := Ideal) (φ := .f32) : (⟨S4096, .f32⟩ : BufTy).Contents (Elt Ideal) → (⟨S4096, .f32⟩ : BufTy).Contents (Elt Ideal) → (⟨S4096, .f32⟩ : BufTy).Contents (Elt Ideal)) (nK_main_v235 m c) (nK_main_v239 m c) := kq_main_v240 m c
theorem nkq_main_cst_38 : nK_main_cst_38 m c = (constant (F := Ideal) S_ .f32 0x322BCC77#32) := kq_main_cst_38 m c
theorem nkq_main_v241 : nK_main_v241 m c = (broadcastInDim S4096 ![] bcast_S_S4096 : (⟨S_, .f32⟩ : BufTy).Contents (Elt Ideal) → (⟨S4096, .f32⟩ : BufTy).Contents (Elt Ideal)) (nK_main_cst_38 m c) := kq_main_v241 m c
theorem nkq_main_v242 : nK_main_v242 m c = (addf (F := Ideal) (φ := .f32) : (⟨S4096, .f32⟩ : BufTy).Contents (Elt Ideal) → (⟨S4096, .f32⟩ : BufTy).Contents (Elt Ideal) → (⟨S4096, .f32⟩ : BufTy).Contents (Elt Ideal)) (nK_main_v240 m c) (nK_main_v241 m c) := kq_main_v242 m c
theorem nkq_main_v243 : nK_main_v243 m c = (Host.log (F := Ideal) (φ := .f32) : (⟨S4096, .f32⟩ : BufTy).Contents (Elt Ideal) → (⟨S4096, .f32⟩ : BufTy).Contents (Elt Ideal)) (nK_main_v242 m c) := kq_main_v243 m c
theorem nkq_main_v244 : nK_main_v244 m c = (Host.negf (F := Ideal) (φ := .f32) : (⟨S4096, .f32⟩ : BufTy).Contents (Elt Ideal) → (⟨S4096, .f32⟩ : BufTy).Contents (Elt Ideal)) (nK_main_v243 m c) := kq_main_v244 m c
theorem nkq_main_cst_39 : nK_main_cst_39 m c = (constant (F := Ideal) S_ .f32 0x00000000#32) := kq_main_cst_39 m c
theorem nkq_main_v245 : nK_main_v245 m c = ((fun x v => Host.reduceAdd (F := Ideal) (φ := .f32) x v reducesTo_S4096_S_d0 h_S_) : (⟨S4096, .f32⟩ : BufTy).Contents (Elt Ideal) → (⟨S_, .f32⟩ : BufTy).Contents (Elt Ideal) → (⟨S_, .f32⟩ : BufTy).Contents (Elt Ideal)) (nK_main_v244 m c) (nK_main_cst_39 m c) := kq_main_v245 m c
theorem nkq_main_cst_40 : nK_main_cst_40 m c = (constant (F := Ideal) S_ .f32 0x00000000#32) := kq_main_cst_40 m c
theorem nkq_main_v246 : nK_main_v246 m c = (addf (F := Ideal) (φ := .f32) : (⟨S_, .f32⟩ : BufTy).Contents (Elt Ideal) → (⟨S_, .f32⟩ : BufTy).Contents (Elt Ideal) → (⟨S_, .f32⟩ : BufTy).Contents (Elt Ideal)) (nK_main_cst_40 m c) (nK_main_v245 m c) := kq_main_v246 m c
theorem nkq_main_c_41 : nK_main_c_41 m c = (constantI S_ 32 0#32) := kq_main_c_41 m c
theorem nkq_main_v247 : nK_main_v247 m c = (broadcastInDim S4096 ![] bcast_S_S4096 : (⟨S_, .i32⟩ : BufTy).Contents (Elt Ideal) → (⟨S4096, .i32⟩ : BufTy).Contents (Elt Ideal)) (nK_main_c_41 m c) := kq_main_v247 m c
theorem nkq_main_v248 : nK_main_v248 m c = (cmpi .slt : (⟨S4096, .i32⟩ : BufTy).Contents (Elt Ideal) → (⟨S4096, .i32⟩ : BufTy).Contents (Elt Ideal) → (⟨S4096, .i1⟩ : BufTy).Contents (Elt Ideal)) (nK_main_v203 m c) (nK_main_v247 m c) := kq_main_v248 m c
theorem nkq_main_c_42 : nK_main_c_42 m c = (constantI S_ 32 50000#32) := kq_main_c_42 m c
theorem nkq_main_v249 : nK_main_v249 m c = (broadcastInDim S4096 ![] bcast_S_S4096 : (⟨S_, .i32⟩ : BufTy).Contents (Elt Ideal) → (⟨S4096, .i32⟩ : BufTy).Contents (Elt Ideal)) (nK_main_c_42 m c) := kq_main_v249 m c
theorem nkq_main_v250 : nK_main_v250 m c = (addi : (⟨S4096, .i32⟩ : BufTy).Contents (Elt Ideal) → (⟨S4096, .i32⟩ : BufTy).Contents (Elt Ideal) → (⟨S4096, .i32⟩ : BufTy).Contents (Elt Ideal)) (nK_main_v203 m c) (nK_main_v249 m c) := kq_main_v250 m c
theorem nkq_main_v251 : nK_main_v251 m c = (select : (⟨S4096, .i1⟩ : BufTy).Contents (Elt Ideal) → (⟨S4096, .i32⟩ : BufTy).Contents (Elt Ideal) → (⟨S4096, .i32⟩ : BufTy).Contents (Elt Ideal) → (⟨S4096, .i32⟩ : BufTy).Contents (Elt Ideal)) (nK_main_v248 m c) (nK_main_v250 m c) (nK_main_v203 m c) := kq_main_v251 m c
theorem nkq_main_v252 : nK_main_v252 m c = (broadcastInDim S4096x1 ![0] bcast_S4096_S4096x1_0 : (⟨S4096, .i32⟩ : BufTy).Contents (Elt Ideal) → (⟨S4096x1, .i32⟩ : BufTy).Contents (Elt Ideal)) (nK_main_v251 m c) := kq_main_v252 m c
theorem nkq_main_v253 : nK_main_v253 m c = ((fun x i => Host.gather gather_S50000x128_S4096x1_S4096x128_1_0_n_n_0_1_1128 x i) : (⟨S50000x128, .f32⟩ : BufTy).Contents (Elt Ideal) → (⟨S4096x1, .i32⟩ : BufTy).Contents (Elt Ideal) → (⟨S4096x128, .f32⟩ : BufTy).Contents (Elt Ideal)) (nK_main_v85 m c) (nK_main_v252 m c) := kq_main_v253 m c
theorem nkq_main_c_43 : nK_main_c_43 m c = (constantI S_ 32 0#32) := kq_main_c_43 m c
theorem nkq_main_v254 : nK_main_v254 m c = (broadcastInDim S4096 ![] bcast_S_S4096 : (⟨S_, .i32⟩ : BufTy).Contents (Elt Ideal) → (⟨S4096, .i32⟩ : BufTy).Contents (Elt Ideal)) (nK_main_c_43 m c) := kq_main_v254 m c
theorem nkq_main_v255 : nK_main_v255 m c = (cmpi .slt : (⟨S4096, .i32⟩ : BufTy).Contents (Elt Ideal) → (⟨S4096, .i32⟩ : BufTy).Contents (Elt Ideal) → (⟨S4096, .i1⟩ : BufTy).Contents (Elt Ideal)) (nK_main_v203 m c) (nK_main_v254 m c) := kq_main_v255 m c
theorem nkq_main_c_44 : nK_main_c_44 m c = (constantI S_ 32 50000#32) := kq_main_c_44 m c
theorem nkq_main_v256 : nK_main_v256 m c = (broadcastInDim S4096 ![] bcast_S_S4096 : (⟨S_, .i32⟩ : BufTy).Contents (Elt Ideal) → (⟨S4096, .i32⟩ : BufTy).Contents (Elt Ideal)) (nK_main_c_44 m c) := kq_main_v256 m c
theorem nkq_main_v257 : nK_main_v257 m c = (addi : (⟨S4096, .i32⟩ : BufTy).Contents (Elt Ideal) → (⟨S4096, .i32⟩ : BufTy).Contents (Elt Ideal) → (⟨S4096, .i32⟩ : BufTy).Contents (Elt Ideal)) (nK_main_v203 m c) (nK_main_v256 m c) := kq_main_v257 m c
theorem nkq_main_v258 : nK_main_v258 m c = (select : (⟨S4096, .i1⟩ : BufTy).Contents (Elt Ideal) → (⟨S4096, .i32⟩ : BufTy).Contents (Elt Ideal) → (⟨S4096, .i32⟩ : BufTy).Contents (Elt Ideal) → (⟨S4096, .i32⟩ : BufTy).Contents (Elt Ideal)) (nK_main_v255 m c) (nK_main_v257 m c) (nK_main_v203 m c) := kq_main_v258 m c
theorem nkq_main_v259 : nK_main_v259 m c = (broadcastInDim S4096x1 ![0] bcast_S4096_S4096x1_0 : (⟨S4096, .i32⟩ : BufTy).Contents (Elt Ideal) → (⟨S4096x1, .i32⟩ : BufTy).Contents (Elt Ideal)) (nK_main_v258 m c) := kq_main_v259 m c
theorem nkq_main_v260 : nK_main_v260 m c = ((fun x i => Host.gather gather_S50000x128_S4096x1_S4096x128_1_0_n_n_0_1_1128 x i) : (⟨S50000x128, .f32⟩ : BufTy).Contents (Elt Ideal) → (⟨S4096x1, .i32⟩ : BufTy).Contents (Elt Ideal) → (⟨S4096x128, .f32⟩ : BufTy).Contents (Elt Ideal)) (nK_main_v29 m c) (nK_main_v259 m c) := kq_main_v260 m c
theorem nkq_main_v261 : nK_main_v261 m c = ((extractStridedSlice S1x128x128 ![0, 0, 0] · slices_S2x128x128_S1x128x128_0_0_0) : (⟨S2x128x128, .f32⟩ : BufTy).Contents (Elt Ideal) → (⟨S1x128x128, .f32⟩ : BufTy).Contents (Elt Ideal)) (nK_main_arg11 m c) := kq_main_v261 m c
theorem nkq_main_v262 : nK_main_v262 m c = fun i => shapeCast S128x128 (nK_main_v261 m c) shapeCasts_S1x128x128_S128x128 i := kq_main_v262 m c
set_option maxHeartbeats 3200000 in
theorem nkq_main_call4_v0 : nK_main_call4_v0 m c = mulf (F := Ideal) (φ := .f32) (nK_main_v253 m c) (nK_main_v253 m c) := kq_main_call4_v0 m c
set_option maxHeartbeats 3200000 in
theorem nkq_main_call4_cst : nK_main_call4_cst m c = (constant (F := Ideal) S_ .f32 0x00000000#32) := kq_main_call4_cst m c
set_option maxHeartbeats 3200000 in
theorem nkq_main_call4_v1 : nK_main_call4_v1 m c = (fun x v => Host.reduceAdd (F := Ideal) (φ := .f32) x v reducesTo_S4096x128_S4096_d1 h_S_) (nK_main_call4_v0 m c) (nK_main_call4_cst m c) := kq_main_call4_v1 m c
set_option maxHeartbeats 3200000 in
theorem nkq_main_call4_v2 : nK_main_call4_v2 m c = (broadcastInDim S4096x1 ![0] bcast_S4096_S4096x1_0) (nK_main_call4_v1 m c) := kq_main_call4_v2 m c
set_option maxHeartbeats 3200000 in
theorem nkq_main_v263 : nK_main_v263 m c = Host.sqrt (F := Ideal) (φ := .f32) (nK_main_call4_v2 m c) := kq_main_v263 m c
theorem nkq_main_cst_45 : nK_main_cst_45 m c = (constant (F := Ideal) S_ .f32 0x2B8CBCCC#32) := kq_main_cst_45 m c
theorem nkq_main_v264 : nK_main_v264 m c = (broadcastInDim S4096x1 ![] bcast_S_S4096x1 : (⟨S_, .f32⟩ : BufTy).Contents (Elt Ideal) → (⟨S4096x1, .f32⟩ : BufTy).Contents (Elt Ideal)) (nK_main_cst_45 m c) := kq_main_v264 m c
theorem nkq_main_v265 : nK_main_v265 m c = (maximumf (F := Ideal) (φ := .f32) : (⟨S4096x1, .f32⟩ : BufTy).Contents (Elt Ideal) → (⟨S4096x1, .f32⟩ : BufTy).Contents (Elt Ideal) → (⟨S4096x1, .f32⟩ : BufTy).Contents (Elt Ideal)) (nK_main_v263 m c) (nK_main_v264 m c) := kq_main_v265 m c
theorem nkq_main_v266 : nK_main_v266 m c = (broadcastInDim S4096x128 ![0, 1] bcast_S4096x1_S4096x128_0_1 : (⟨S4096x1, .f32⟩ : BufTy).Contents (Elt Ideal) → (⟨S4096x128, .f32⟩ : BufTy).Contents (Elt Ideal)) (nK_main_v265 m c) := kq_main_v266 m c
theorem nkq_main_v267 : nK_main_v267 m c = (Host.divf (F := Ideal) (φ := .f32) : (⟨S4096x128, .f32⟩ : BufTy).Contents (Elt Ideal) → (⟨S4096x128, .f32⟩ : BufTy).Contents (Elt Ideal) → (⟨S4096x128, .f32⟩ : BufTy).Contents (Elt Ideal)) (nK_main_v253 m c) (nK_main_v266 m c) := kq_main_v267 m c
set_option maxHeartbeats 3200000 in
theorem nkq_main_call5_v0 : nK_main_call5_v0 m c = mulf (F := Ideal) (φ := .f32) (nK_main_v260 m c) (nK_main_v260 m c) := kq_main_call5_v0 m c
set_option maxHeartbeats 3200000 in
theorem nkq_main_call5_cst : nK_main_call5_cst m c = (constant (F := Ideal) S_ .f32 0x00000000#32) := kq_main_call5_cst m c
set_option maxHeartbeats 3200000 in
theorem nkq_main_call5_v1 : nK_main_call5_v1 m c = (fun x v => Host.reduceAdd (F := Ideal) (φ := .f32) x v reducesTo_S4096x128_S4096_d1 h_S_) (nK_main_call5_v0 m c) (nK_main_call5_cst m c) := kq_main_call5_v1 m c
set_option maxHeartbeats 3200000 in
theorem nkq_main_call5_v2 : nK_main_call5_v2 m c = (broadcastInDim S4096x1 ![0] bcast_S4096_S4096x1_0) (nK_main_call5_v1 m c) := kq_main_call5_v2 m c
set_option maxHeartbeats 3200000 in
theorem nkq_main_v268 : nK_main_v268 m c = Host.sqrt (F := Ideal) (φ := .f32) (nK_main_call5_v2 m c) := kq_main_v268 m c
theorem nkq_main_cst_46 : nK_main_cst_46 m c = (constant (F := Ideal) S_ .f32 0x2B8CBCCC#32) := kq_main_cst_46 m c
theorem nkq_main_v269 : nK_main_v269 m c = (broadcastInDim S4096x1 ![] bcast_S_S4096x1 : (⟨S_, .f32⟩ : BufTy).Contents (Elt Ideal) → (⟨S4096x1, .f32⟩ : BufTy).Contents (Elt Ideal)) (nK_main_cst_46 m c) := kq_main_v269 m c
theorem nkq_main_v270 : nK_main_v270 m c = (maximumf (F := Ideal) (φ := .f32) : (⟨S4096x1, .f32⟩ : BufTy).Contents (Elt Ideal) → (⟨S4096x1, .f32⟩ : BufTy).Contents (Elt Ideal) → (⟨S4096x1, .f32⟩ : BufTy).Contents (Elt Ideal)) (nK_main_v268 m c) (nK_main_v269 m c) := kq_main_v270 m c
theorem nkq_main_v271 : nK_main_v271 m c = (broadcastInDim S4096x128 ![0, 1] bcast_S4096x1_S4096x128_0_1 : (⟨S4096x1, .f32⟩ : BufTy).Contents (Elt Ideal) → (⟨S4096x128, .f32⟩ : BufTy).Contents (Elt Ideal)) (nK_main_v270 m c) := kq_main_v271 m c
theorem nkq_main_v272 : nK_main_v272 m c = (Host.divf (F := Ideal) (φ := .f32) : (⟨S4096x128, .f32⟩ : BufTy).Contents (Elt Ideal) → (⟨S4096x128, .f32⟩ : BufTy).Contents (Elt Ideal) → (⟨S4096x128, .f32⟩ : BufTy).Contents (Elt Ideal)) (nK_main_v260 m c) (nK_main_v271 m c) := kq_main_v272 m c
theorem nkq_main_v274 : nK_main_v274 m c = (mulf (F := Ideal) (φ := .f32) : (⟨S4096x128, .f32⟩ : BufTy).Contents (Elt Ideal) → (⟨S4096x128, .f32⟩ : BufTy).Contents (Elt Ideal) → (⟨S4096x128, .f32⟩ : BufTy).Contents (Elt Ideal)) (nK_main_v273 m c) (nK_main_v272 m c) := kq_main_v274 m c
theorem nkq_main_cst_47 : nK_main_cst_47 m c = (constant (F := Ideal) S_ .f32 0x00000000#32) := kq_main_cst_47 m c
theorem nkq_main_v275 : nK_main_v275 m c = ((fun x v => Host.reduceAdd (F := Ideal) (φ := .f32) x v reducesTo_S4096x128_S4096_d1 h_S_) : (⟨S4096x128, .f32⟩ : BufTy).Contents (Elt Ideal) → (⟨S_, .f32⟩ : BufTy).Contents (Elt Ideal) → (⟨S4096, .f32⟩ : BufTy).Contents (Elt Ideal)) (nK_main_v274 m c) (nK_main_cst_47 m c) := kq_main_v275 m c
theorem nkq_main_cst_48 : nK_main_cst_48 m c = (constant (F := Ideal) S_ .f32 0x3F800000#32) := kq_main_cst_48 m c
theorem nkq_main_v276 : nK_main_v276 m c = (broadcastInDim S4096 ![] bcast_S_S4096 : (⟨S_, .f32⟩ : BufTy).Contents (Elt Ideal) → (⟨S4096, .f32⟩ : BufTy).Contents (Elt Ideal)) (nK_main_cst_48 m c) := kq_main_v276 m c
theorem nkq_main_v277 : nK_main_v277 m c = (Host.divf (F := Ideal) (φ := .f32) : (⟨S4096, .f32⟩ : BufTy).Contents (Elt Ideal) → (⟨S4096, .f32⟩ : BufTy).Contents (Elt Ideal) → (⟨S4096, .f32⟩ : BufTy).Contents (Elt Ideal)) (nK_main_v275 m c) (nK_main_v276 m c) := kq_main_v277 m c
theorem nkq_main_v278 : nK_main_v278 m c = (Host.exp (F := Ideal) (φ := .f32) : (⟨S4096, .f32⟩ : BufTy).Contents (Elt Ideal) → (⟨S4096, .f32⟩ : BufTy).Contents (Elt Ideal)) (nK_main_v277 m c) := kq_main_v278 m c

end Cert.KernelIdeal.Fr

end
-- ==== Proof.KI.KEq6.lean ====
import proofs.«126270_j6725918785969_1_alg».proof.Proof.KI.KEqBase

/-!
# The idealized kernel program's host operations, each as an equation between final buffer contents (part 6)

For every host operation `y = f x₁ x₂ …` of the stretches `hostOps18`, `hostOps18_1`, `hostOps18_2`, `hostOps18_3`, `hostOps18_4`, `hostOps19`: the final contents of `y` are `f` of the
final contents of the operands.
-/

set_option maxRecDepth 16384

noncomputable section

namespace Cert.KernelIdeal.Fr

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

/-! ### `hostOps18` -/
def kq_main_v280 := lift_reshape (x := main_v279) (y := main_v280) rfl shapeCasts_S4096x1_S4096 (liftK_44 m c main_v280 (by decide)) (liftK_44 m c main_v279 (by decide)) (eq_reshape (x := main_v279) (y := main_v280) lateK_44 (rfl : Wc44 m c = after hostOps18 (Wc43 m c)) 0 rfl shapeCasts_S4096x1_S4096 _ _ rfl (by decide) (by decide))
def kq_main_cst_49 := lift_nullary (liftK_44 m c main_cst_49 (by decide)) (eq_nullary lateK_44 (rfl : Wc44 m c = after hostOps18 (Wc43 m c)) 1 _ _ rfl (by decide))
def kq_main_v281 := lift_unary (liftK_44 m c main_v281 (by decide)) (liftK_44 m c main_cst_49 (by decide)) (eq_unary lateK_44 (rfl : Wc44 m c = after hostOps18 (Wc43 m c)) 2 _ _ _ rfl (by decide) (by decide))
def kq_main_v282 := lift_binary (liftK_44 m c main_v282 (by decide)) (liftK_44 m c main_v280 (by decide)) (liftK_44 m c main_v281 (by decide)) (eq_binary lateK_44 (rfl : Wc44 m c = after hostOps18 (Wc43 m c)) 3 _ _ _ _ rfl (by decide) (by decide) (by decide))
def kq_main_v283 := lift_binary (liftK_44 m c main_v283 (by decide)) (liftK_44 m c main_v278 (by decide)) (liftK_44 m c main_v282 (by decide)) (eq_binary lateK_44 (rfl : Wc44 m c = after hostOps18 (Wc43 m c)) 4 _ _ _ _ rfl (by decide) (by decide) (by decide))
def kq_main_cst_50 := lift_nullary (liftK_44 m c main_cst_50 (by decide)) (eq_nullary lateK_44 (rfl : Wc44 m c = after hostOps18 (Wc43 m c)) 5 _ _ rfl (by decide))
def kq_main_v284 := lift_unary (liftK_44 m c main_v284 (by decide)) (liftK_44 m c main_cst_50 (by decide)) (eq_unary lateK_44 (rfl : Wc44 m c = after hostOps18 (Wc43 m c)) 6 _ _ _ rfl (by decide) (by decide))
def kq_main_v285 := lift_binary (liftK_44 m c main_v285 (by decide)) (liftK_44 m c main_v283 (by decide)) (liftK_44 m c main_v284 (by decide)) (eq_binary lateK_44 (rfl : Wc44 m c = after hostOps18 (Wc43 m c)) 7 _ _ _ _ rfl (by decide) (by decide) (by decide))
def kq_main_v286 := lift_unary (liftK_44 m c main_v286 (by decide)) (liftK_44 m c main_v285 (by decide)) (eq_unary lateK_44 (rfl : Wc44 m c = after hostOps18 (Wc43 m c)) 8 _ _ _ rfl (by decide) (by decide))
def kq_main_v287 := lift_unary (liftK_44 m c main_v287 (by decide)) (liftK_44 m c main_v286 (by decide)) (eq_unary lateK_44 (rfl : Wc44 m c = after hostOps18 (Wc43 m c)) 9 _ _ _ rfl (by decide) (by decide))
def kq_main_cst_51 := lift_nullary (liftK_44 m c main_cst_51 (by decide)) (eq_nullary lateK_44 (rfl : Wc44 m c = after hostOps18 (Wc43 m c)) 10 _ _ rfl (by decide))
def kq_main_v288 := lift_binary (liftK_44 m c main_v288 (by decide)) (liftK_44 m c main_v287 (by decide)) (liftK_44 m c main_cst_51 (by decide)) (eq_binary lateK_44 (rfl : Wc44 m c = after hostOps18 (Wc43 m c)) 11 _ _ _ _ rfl (by decide) (by decide) (by decide))
def kq_main_v289 := lift_binary (liftK_44 m c main_v289 (by decide)) (liftK_44 m c main_v246 (by decide)) (liftK_44 m c main_v288 (by decide)) (eq_binary lateK_44 (rfl : Wc44 m c = after hostOps18 (Wc43 m c)) 12 _ _ _ _ rfl (by decide) (by decide) (by decide))
def kq_main_c_52 := lift_nullary (liftK_44 m c main_c_52 (by decide)) (eq_nullary lateK_44 (rfl : Wc44 m c = after hostOps18 (Wc43 m c)) 13 _ _ rfl (by decide))
def kq_main_v290 := lift_unary (liftK_44 m c main_v290 (by decide)) (liftK_44 m c main_c_52 (by decide)) (eq_unary lateK_44 (rfl : Wc44 m c = after hostOps18 (Wc43 m c)) 14 _ _ _ rfl (by decide) (by decide))
def kq_main_v291 := lift_binary (liftK_44 m c main_v291 (by decide)) (liftK_44 m c main_v202 (by decide)) (liftK_44 m c main_v290 (by decide)) (eq_binary lateK_44 (rfl : Wc44 m c = after hostOps18 (Wc43 m c)) 15 _ _ _ _ rfl (by decide) (by decide) (by decide))
def kq_main_c_53 := lift_nullary (liftK_44 m c main_c_53 (by decide)) (eq_nullary lateK_44 (rfl : Wc44 m c = after hostOps18 (Wc43 m c)) 16 _ _ rfl (by decide))
def kq_main_v292 := lift_unary (liftK_44 m c main_v292 (by decide)) (liftK_44 m c main_c_53 (by decide)) (eq_unary lateK_44 (rfl : Wc44 m c = after hostOps18 (Wc43 m c)) 17 _ _ _ rfl (by decide) (by decide))
def kq_main_v293 := lift_binary (liftK_44 m c main_v293 (by decide)) (liftK_44 m c main_v202 (by decide)) (liftK_44 m c main_v292 (by decide)) (eq_binary lateK_44 (rfl : Wc44 m c = after hostOps18 (Wc43 m c)) 18 _ _ _ _ rfl (by decide) (by decide) (by decide))
def kq_main_v294 := lift_ternary (liftK_44 m c main_v294 (by decide)) (liftK_44 m c main_v291 (by decide)) (liftK_44 m c main_v293 (by decide)) (liftK_44 m c main_v202 (by decide)) (eq_ternary lateK_44 (rfl : Wc44 m c = after hostOps18 (Wc43 m c)) 19 _ _ _ _ _ rfl (by decide) (by decide) (by decide) (by decide))
def kq_main_v295 := lift_unary (liftK_44 m c main_v295 (by decide)) (liftK_44 m c main_v294 (by decide)) (eq_unary lateK_44 (rfl : Wc44 m c = after hostOps18 (Wc43 m c)) 20 _ _ _ rfl (by decide) (by decide))
def kq_main_v296 := lift_binary (liftK_44 m c main_v296 (by decide)) (liftK_44 m c main_v145 (by decide)) (liftK_44 m c main_v295 (by decide)) (eq_binary lateK_44 (rfl : Wc44 m c = after hostOps18 (Wc43 m c)) 21 _ _ _ _ rfl (by decide) (by decide) (by decide))
def kq_main_c_54 := lift_nullary (liftK_44 m c main_c_54 (by decide)) (eq_nullary lateK_44 (rfl : Wc44 m c = after hostOps18 (Wc43 m c)) 22 _ _ rfl (by decide))
def kq_main_v297 := lift_unary (liftK_44 m c main_v297 (by decide)) (liftK_44 m c main_c_54 (by decide)) (eq_unary lateK_44 (rfl : Wc44 m c = after hostOps18 (Wc43 m c)) 23 _ _ _ rfl (by decide) (by decide))
def kq_main_v298 := lift_binary (liftK_44 m c main_v298 (by decide)) (liftK_44 m c main_v202 (by decide)) (liftK_44 m c main_v297 (by decide)) (eq_binary lateK_44 (rfl : Wc44 m c = after hostOps18 (Wc43 m c)) 24 _ _ _ _ rfl (by decide) (by decide) (by decide))
def kq_main_c_55 := lift_nullary (liftK_44 m c main_c_55 (by decide)) (eq_nullary lateK_44 (rfl : Wc44 m c = after hostOps18 (Wc43 m c)) 25 _ _ rfl (by decide))
def kq_main_v299 := lift_unary (liftK_44 m c main_v299 (by decide)) (liftK_44 m c main_c_55 (by decide)) (eq_unary lateK_44 (rfl : Wc44 m c = after hostOps18 (Wc43 m c)) 26 _ _ _ rfl (by decide) (by decide))
def kq_main_v300 := lift_binary (liftK_44 m c main_v300 (by decide)) (liftK_44 m c main_v202 (by decide)) (liftK_44 m c main_v299 (by decide)) (eq_binary lateK_44 (rfl : Wc44 m c = after hostOps18 (Wc43 m c)) 27 _ _ _ _ rfl (by decide) (by decide) (by decide))
def kq_main_v301 := lift_ternary (liftK_44 m c main_v301 (by decide)) (liftK_44 m c main_v298 (by decide)) (liftK_44 m c main_v300 (by decide)) (liftK_44 m c main_v202 (by decide)) (eq_ternary lateK_44 (rfl : Wc44 m c = after hostOps18 (Wc43 m c)) 28 _ _ _ _ _ rfl (by decide) (by decide) (by decide) (by decide))
def kq_main_v302 := lift_unary (liftK_44 m c main_v302 (by decide)) (liftK_44 m c main_v301 (by decide)) (eq_unary lateK_44 (rfl : Wc44 m c = after hostOps18 (Wc43 m c)) 29 _ _ _ rfl (by decide) (by decide))
def kq_main_v303 := lift_binary (liftK_44 m c main_v303 (by decide)) (liftK_44 m c main_v116 (by decide)) (liftK_44 m c main_v302 (by decide)) (eq_binary lateK_44 (rfl : Wc44 m c = after hostOps18 (Wc43 m c)) 30 _ _ _ _ rfl (by decide) (by decide) (by decide))
def kq_main_v304 := lift_unary (liftK_44 m c main_v304 (by decide)) (liftK_44 m c main_arg11 (by decide)) (eq_unary lateK_44 (rfl : Wc44 m c = after hostOps18 (Wc43 m c)) 31 _ _ _ rfl (by decide) (by decide))
def kq_main_v305 := lift_reshape (x := main_v304) (y := main_v305) rfl shapeCasts_S1x128x128_S128x128 (liftK_44 m c main_v305 (by decide)) (liftK_44 m c main_v304 (by decide)) (eq_reshape (x := main_v304) (y := main_v305) lateK_44 (rfl : Wc44 m c = after hostOps18 (Wc43 m c)) 32 rfl shapeCasts_S1x128x128_S128x128 _ _ rfl (by decide) (by decide))

/-! ### `hostOps18_1` -/
def kq_main_call6_v0 := lift_binary (liftK_45 m c main_call6_v0 (by decide)) (liftK_45 m c main_v296 (by decide)) (liftK_45 m c main_v296 (by decide)) (eq_binary lateK_45 (rfl : Wc45 m c = after hostOps18_1 (Wc44 m c)) 0 _ _ _ _ rfl (by decide) (by decide) (by decide))
def kq_main_call6_cst := lift_nullary (liftK_45 m c main_call6_cst (by decide)) (eq_nullary lateK_45 (rfl : Wc45 m c = after hostOps18_1 (Wc44 m c)) 1 _ _ rfl (by decide))
def kq_main_call6_v1 := lift_binary (liftK_45 m c main_call6_v1 (by decide)) (liftK_45 m c main_call6_v0 (by decide)) (liftK_45 m c main_call6_cst (by decide)) (eq_binary lateK_45 (rfl : Wc45 m c = after hostOps18_1 (Wc44 m c)) 2 _ _ _ _ rfl (by decide) (by decide) (by decide))
def kq_main_call6_v2 := lift_unary (liftK_45 m c main_call6_v2 (by decide)) (liftK_45 m c main_call6_v1 (by decide)) (eq_unary lateK_45 (rfl : Wc45 m c = after hostOps18_1 (Wc44 m c)) 3 _ _ _ rfl (by decide) (by decide))
def kq_main_v306 := lift_unary (liftK_45 m c main_v306 (by decide)) (liftK_45 m c main_call6_v2 (by decide)) (eq_unary lateK_45 (rfl : Wc45 m c = after hostOps18_1 (Wc44 m c)) 4 _ _ _ rfl (by decide) (by decide))

/-! ### `hostOps18_2` -/
def kq_main_cst_56 := lift_nullary (liftK_46 m c main_cst_56 (by decide)) (eq_nullary lateK_46 (rfl : Wc46 m c = after hostOps18_2 (Wc45 m c)) 0 _ _ rfl (by decide))
def kq_main_v307 := lift_unary (liftK_46 m c main_v307 (by decide)) (liftK_46 m c main_cst_56 (by decide)) (eq_unary lateK_46 (rfl : Wc46 m c = after hostOps18_2 (Wc45 m c)) 1 _ _ _ rfl (by decide) (by decide))
def kq_main_v308 := lift_binary (liftK_46 m c main_v308 (by decide)) (liftK_46 m c main_v306 (by decide)) (liftK_46 m c main_v307 (by decide)) (eq_binary lateK_46 (rfl : Wc46 m c = after hostOps18_2 (Wc45 m c)) 2 _ _ _ _ rfl (by decide) (by decide) (by decide))
def kq_main_v309 := lift_unary (liftK_46 m c main_v309 (by decide)) (liftK_46 m c main_v308 (by decide)) (eq_unary lateK_46 (rfl : Wc46 m c = after hostOps18_2 (Wc45 m c)) 3 _ _ _ rfl (by decide) (by decide))
def kq_main_v310 := lift_binary (liftK_46 m c main_v310 (by decide)) (liftK_46 m c main_v296 (by decide)) (liftK_46 m c main_v309 (by decide)) (eq_binary lateK_46 (rfl : Wc46 m c = after hostOps18_2 (Wc45 m c)) 4 _ _ _ _ rfl (by decide) (by decide) (by decide))

/-! ### `hostOps18_3` -/
def kq_main_call7_v0 := lift_binary (liftK_47 m c main_call7_v0 (by decide)) (liftK_47 m c main_v303 (by decide)) (liftK_47 m c main_v303 (by decide)) (eq_binary lateK_47 (rfl : Wc47 m c = after hostOps18_3 (Wc46 m c)) 0 _ _ _ _ rfl (by decide) (by decide) (by decide))
def kq_main_call7_cst := lift_nullary (liftK_47 m c main_call7_cst (by decide)) (eq_nullary lateK_47 (rfl : Wc47 m c = after hostOps18_3 (Wc46 m c)) 1 _ _ rfl (by decide))
def kq_main_call7_v1 := lift_binary (liftK_47 m c main_call7_v1 (by decide)) (liftK_47 m c main_call7_v0 (by decide)) (liftK_47 m c main_call7_cst (by decide)) (eq_binary lateK_47 (rfl : Wc47 m c = after hostOps18_3 (Wc46 m c)) 2 _ _ _ _ rfl (by decide) (by decide) (by decide))
def kq_main_call7_v2 := lift_unary (liftK_47 m c main_call7_v2 (by decide)) (liftK_47 m c main_call7_v1 (by decide)) (eq_unary lateK_47 (rfl : Wc47 m c = after hostOps18_3 (Wc46 m c)) 3 _ _ _ rfl (by decide) (by decide))
def kq_main_v311 := lift_unary (liftK_47 m c main_v311 (by decide)) (liftK_47 m c main_call7_v2 (by decide)) (eq_unary lateK_47 (rfl : Wc47 m c = after hostOps18_3 (Wc46 m c)) 4 _ _ _ rfl (by decide) (by decide))

/-! ### `hostOps18_4` -/
def kq_main_cst_57 := lift_nullary (liftK_48 m c main_cst_57 (by decide)) (eq_nullary lateK_48 (rfl : Wc48 m c = after hostOps18_4 (Wc47 m c)) 0 _ _ rfl (by decide))
def kq_main_v312 := lift_unary (liftK_48 m c main_v312 (by decide)) (liftK_48 m c main_cst_57 (by decide)) (eq_unary lateK_48 (rfl : Wc48 m c = after hostOps18_4 (Wc47 m c)) 1 _ _ _ rfl (by decide) (by decide))
def kq_main_v313 := lift_binary (liftK_48 m c main_v313 (by decide)) (liftK_48 m c main_v311 (by decide)) (liftK_48 m c main_v312 (by decide)) (eq_binary lateK_48 (rfl : Wc48 m c = after hostOps18_4 (Wc47 m c)) 2 _ _ _ _ rfl (by decide) (by decide) (by decide))
def kq_main_v314 := lift_unary (liftK_48 m c main_v314 (by decide)) (liftK_48 m c main_v313 (by decide)) (eq_unary lateK_48 (rfl : Wc48 m c = after hostOps18_4 (Wc47 m c)) 3 _ _ _ rfl (by decide) (by decide))
def kq_main_v315 := lift_binary (liftK_48 m c main_v315 (by decide)) (liftK_48 m c main_v303 (by decide)) (liftK_48 m c main_v314 (by decide)) (eq_binary lateK_48 (rfl : Wc48 m c = after hostOps18_4 (Wc47 m c)) 4 _ _ _ _ rfl (by decide) (by decide) (by decide))

/-! ### `hostOps19` -/
def kq_main_v317 := lift_binary (liftK_50 m c main_v317 (by decide)) (liftK_50 m c main_v316 (by decide)) (liftK_50 m c main_v315 (by decide)) (eq_binary lateK_50 (rfl : Wc50 m c = after hostOps19 (Wc49 m c)) 0 _ _ _ _ rfl (by decide) (by decide) (by decide))
def kq_main_cst_58 := lift_nullary (liftK_50 m c main_cst_58 (by decide)) (eq_nullary lateK_50 (rfl : Wc50 m c = after hostOps19 (Wc49 m c)) 1 _ _ rfl (by decide))
def kq_main_v318 := lift_binary (liftK_50 m c main_v318 (by decide)) (liftK_50 m c main_v317 (by decide)) (liftK_50 m c main_cst_58 (by decide)) (eq_binary lateK_50 (rfl : Wc50 m c = after hostOps19 (Wc49 m c)) 2 _ _ _ _ rfl (by decide) (by decide) (by decide))
def kq_main_cst_59 := lift_nullary (liftK_50 m c main_cst_59 (by decide)) (eq_nullary lateK_50 (rfl : Wc50 m c = after hostOps19 (Wc49 m c)) 3 _ _ rfl (by decide))
def kq_main_v319 := lift_unary (liftK_50 m c main_v319 (by decide)) (liftK_50 m c main_cst_59 (by decide)) (eq_unary lateK_50 (rfl : Wc50 m c = after hostOps19 (Wc49 m c)) 4 _ _ _ rfl (by decide) (by decide))
def kq_main_v320 := lift_binary (liftK_50 m c main_v320 (by decide)) (liftK_50 m c main_v318 (by decide)) (liftK_50 m c main_v319 (by decide)) (eq_binary lateK_50 (rfl : Wc50 m c = after hostOps19 (Wc49 m c)) 5 _ _ _ _ rfl (by decide) (by decide) (by decide))
def kq_main_v321 := lift_unary (liftK_50 m c main_v321 (by decide)) (liftK_50 m c main_v320 (by decide)) (eq_unary lateK_50 (rfl : Wc50 m c = after hostOps19 (Wc49 m c)) 6 _ _ _ rfl (by decide) (by decide))

end Cert.KernelIdeal.Fr

end
-- ==== Proof.KI.KN6.lean ====
import proofs.«126270_j6725918785969_1_alg».proof.Proof.KI.KNDefs
import proofs.«126270_j6725918785969_1_alg».proof.Proof.KI.KEq6

/-!
# The kernel program's host operations as equations between plainly typed contents (part 6)
-/

set_option maxRecDepth 16384

noncomputable section

namespace Cert.KernelIdeal.Fr

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

theorem nkq_main_v280 : nK_main_v280 m c = fun i => shapeCast S4096 (nK_main_v279 m c) shapeCasts_S4096x1_S4096 i := kq_main_v280 m c
theorem nkq_main_cst_49 : nK_main_cst_49 m c = (constant (F := Ideal) S_ .f32 0x322BCC77#32) := kq_main_cst_49 m c
theorem nkq_main_v281 : nK_main_v281 m c = (broadcastInDim S4096 ![] bcast_S_S4096 : (⟨S_, .f32⟩ : BufTy).Contents (Elt Ideal) → (⟨S4096, .f32⟩ : BufTy).Contents (Elt Ideal)) (nK_main_cst_49 m c) := kq_main_v281 m c
theorem nkq_main_v282 : nK_main_v282 m c = (addf (F := Ideal) (φ := .f32) : (⟨S4096, .f32⟩ : BufTy).Contents (Elt Ideal) → (⟨S4096, .f32⟩ : BufTy).Contents (Elt Ideal) → (⟨S4096, .f32⟩ : BufTy).Contents (Elt Ideal)) (nK_main_v280 m c) (nK_main_v281 m c) := kq_main_v282 m c
theorem nkq_main_v283 : nK_main_v283 m c = (Host.divf (F := Ideal) (φ := .f32) : (⟨S4096, .f32⟩ : BufTy).Contents (Elt Ideal) → (⟨S4096, .f32⟩ : BufTy).Contents (Elt Ideal) → (⟨S4096, .f32⟩ : BufTy).Contents (Elt Ideal)) (nK_main_v278 m c) (nK_main_v282 m c) := kq_main_v283 m c
theorem nkq_main_cst_50 : nK_main_cst_50 m c = (constant (F := Ideal) S_ .f32 0x322BCC77#32) := kq_main_cst_50 m c
theorem nkq_main_v284 : nK_main_v284 m c = (broadcastInDim S4096 ![] bcast_S_S4096 : (⟨S_, .f32⟩ : BufTy).Contents (Elt Ideal) → (⟨S4096, .f32⟩ : BufTy).Contents (Elt Ideal)) (nK_main_cst_50 m c) := kq_main_v284 m c
theorem nkq_main_v285 : nK_main_v285 m c = (addf (F := Ideal) (φ := .f32) : (⟨S4096, .f32⟩ : BufTy).Contents (Elt Ideal) → (⟨S4096, .f32⟩ : BufTy).Contents (Elt Ideal) → (⟨S4096, .f32⟩ : BufTy).Contents (Elt Ideal)) (nK_main_v283 m c) (nK_main_v284 m c) := kq_main_v285 m c
theorem nkq_main_v286 : nK_main_v286 m c = (Host.log (F := Ideal) (φ := .f32) : (⟨S4096, .f32⟩ : BufTy).Contents (Elt Ideal) → (⟨S4096, .f32⟩ : BufTy).Contents (Elt Ideal)) (nK_main_v285 m c) := kq_main_v286 m c
theorem nkq_main_v287 : nK_main_v287 m c = (Host.negf (F := Ideal) (φ := .f32) : (⟨S4096, .f32⟩ : BufTy).Contents (Elt Ideal) → (⟨S4096, .f32⟩ : BufTy).Contents (Elt Ideal)) (nK_main_v286 m c) := kq_main_v287 m c
theorem nkq_main_cst_51 : nK_main_cst_51 m c = (constant (F := Ideal) S_ .f32 0x00000000#32) := kq_main_cst_51 m c
theorem nkq_main_v288 : nK_main_v288 m c = ((fun x v => Host.reduceAdd (F := Ideal) (φ := .f32) x v reducesTo_S4096_S_d0 h_S_) : (⟨S4096, .f32⟩ : BufTy).Contents (Elt Ideal) → (⟨S_, .f32⟩ : BufTy).Contents (Elt Ideal) → (⟨S_, .f32⟩ : BufTy).Contents (Elt Ideal)) (nK_main_v287 m c) (nK_main_cst_51 m c) := kq_main_v288 m c
theorem nkq_main_v289 : nK_main_v289 m c = (addf (F := Ideal) (φ := .f32) : (⟨S_, .f32⟩ : BufTy).Contents (Elt Ideal) → (⟨S_, .f32⟩ : BufTy).Contents (Elt Ideal) → (⟨S_, .f32⟩ : BufTy).Contents (Elt Ideal)) (nK_main_v246 m c) (nK_main_v288 m c) := kq_main_v289 m c
theorem nkq_main_c_52 : nK_main_c_52 m c = (constantI S_ 32 0#32) := kq_main_c_52 m c
theorem nkq_main_v290 : nK_main_v290 m c = (broadcastInDim S4096 ![] bcast_S_S4096 : (⟨S_, .i32⟩ : BufTy).Contents (Elt Ideal) → (⟨S4096, .i32⟩ : BufTy).Contents (Elt Ideal)) (nK_main_c_52 m c) := kq_main_v290 m c
theorem nkq_main_v291 : nK_main_v291 m c = (cmpi .slt : (⟨S4096, .i32⟩ : BufTy).Contents (Elt Ideal) → (⟨S4096, .i32⟩ : BufTy).Contents (Elt Ideal) → (⟨S4096, .i1⟩ : BufTy).Contents (Elt Ideal)) (nK_main_v202 m c) (nK_main_v290 m c) := kq_main_v291 m c
theorem nkq_main_c_53 : nK_main_c_53 m c = (constantI S_ 32 100000#32) := kq_main_c_53 m c
theorem nkq_main_v292 : nK_main_v292 m c = (broadcastInDim S4096 ![] bcast_S_S4096 : (⟨S_, .i32⟩ : BufTy).Contents (Elt Ideal) → (⟨S4096, .i32⟩ : BufTy).Contents (Elt Ideal)) (nK_main_c_53 m c) := kq_main_v292 m c
theorem nkq_main_v293 : nK_main_v293 m c = (addi : (⟨S4096, .i32⟩ : BufTy).Contents (Elt Ideal) → (⟨S4096, .i32⟩ : BufTy).Contents (Elt Ideal) → (⟨S4096, .i32⟩ : BufTy).Contents (Elt Ideal)) (nK_main_v202 m c) (nK_main_v292 m c) := kq_main_v293 m c
theorem nkq_main_v294 : nK_main_v294 m c = (select : (⟨S4096, .i1⟩ : BufTy).Contents (Elt Ideal) → (⟨S4096, .i32⟩ : BufTy).Contents (Elt Ideal) → (⟨S4096, .i32⟩ : BufTy).Contents (Elt Ideal) → (⟨S4096, .i32⟩ : BufTy).Contents (Elt Ideal)) (nK_main_v291 m c) (nK_main_v293 m c) (nK_main_v202 m c) := kq_main_v294 m c
theorem nkq_main_v295 : nK_main_v295 m c = (broadcastInDim S4096x1 ![0] bcast_S4096_S4096x1_0 : (⟨S4096, .i32⟩ : BufTy).Contents (Elt Ideal) → (⟨S4096x1, .i32⟩ : BufTy).Contents (Elt Ideal)) (nK_main_v294 m c) := kq_main_v295 m c
theorem nkq_main_v296 : nK_main_v296 m c = ((fun x i => Host.gather gather_S100000x128_S4096x1_S4096x128_1_0_n_n_0_1_1128 x i) : (⟨S100000x128, .f32⟩ : BufTy).Contents (Elt Ideal) → (⟨S4096x1, .i32⟩ : BufTy).Contents (Elt Ideal) → (⟨S4096x128, .f32⟩ : BufTy).Contents (Elt Ideal)) (nK_main_v145 m c) (nK_main_v295 m c) := kq_main_v296 m c
theorem nkq_main_c_54 : nK_main_c_54 m c = (constantI S_ 32 0#32) := kq_main_c_54 m c
theorem nkq_main_v297 : nK_main_v297 m c = (broadcastInDim S4096 ![] bcast_S_S4096 : (⟨S_, .i32⟩ : BufTy).Contents (Elt Ideal) → (⟨S4096, .i32⟩ : BufTy).Contents (Elt Ideal)) (nK_main_c_54 m c) := kq_main_v297 m c
theorem nkq_main_v298 : nK_main_v298 m c = (cmpi .slt : (⟨S4096, .i32⟩ : BufTy).Contents (Elt Ideal) → (⟨S4096, .i32⟩ : BufTy).Contents (Elt Ideal) → (⟨S4096, .i1⟩ : BufTy).Contents (Elt Ideal)) (nK_main_v202 m c) (nK_main_v297 m c) := kq_main_v298 m c
theorem nkq_main_c_55 : nK_main_c_55 m c = (constantI S_ 32 100000#32) := kq_main_c_55 m c
theorem nkq_main_v299 : nK_main_v299 m c = (broadcastInDim S4096 ![] bcast_S_S4096 : (⟨S_, .i32⟩ : BufTy).Contents (Elt Ideal) → (⟨S4096, .i32⟩ : BufTy).Contents (Elt Ideal)) (nK_main_c_55 m c) := kq_main_v299 m c
theorem nkq_main_v300 : nK_main_v300 m c = (addi : (⟨S4096, .i32⟩ : BufTy).Contents (Elt Ideal) → (⟨S4096, .i32⟩ : BufTy).Contents (Elt Ideal) → (⟨S4096, .i32⟩ : BufTy).Contents (Elt Ideal)) (nK_main_v202 m c) (nK_main_v299 m c) := kq_main_v300 m c
theorem nkq_main_v301 : nK_main_v301 m c = (select : (⟨S4096, .i1⟩ : BufTy).Contents (Elt Ideal) → (⟨S4096, .i32⟩ : BufTy).Contents (Elt Ideal) → (⟨S4096, .i32⟩ : BufTy).Contents (Elt Ideal) → (⟨S4096, .i32⟩ : BufTy).Contents (Elt Ideal)) (nK_main_v298 m c) (nK_main_v300 m c) (nK_main_v202 m c) := kq_main_v301 m c
theorem nkq_main_v302 : nK_main_v302 m c = (broadcastInDim S4096x1 ![0] bcast_S4096_S4096x1_0 : (⟨S4096, .i32⟩ : BufTy).Contents (Elt Ideal) → (⟨S4096x1, .i32⟩ : BufTy).Contents (Elt Ideal)) (nK_main_v301 m c) := kq_main_v302 m c
theorem nkq_main_v303 : nK_main_v303 m c = ((fun x i => Host.gather gather_S100000x128_S4096x1_S4096x128_1_0_n_n_0_1_1128 x i) : (⟨S100000x128, .f32⟩ : BufTy).Contents (Elt Ideal) → (⟨S4096x1, .i32⟩ : BufTy).Contents (Elt Ideal) → (⟨S4096x128, .f32⟩ : BufTy).Contents (Elt Ideal)) (nK_main_v116 m c) (nK_main_v302 m c) := kq_main_v303 m c
theorem nkq_main_v304 : nK_main_v304 m c = ((extractStridedSlice S1x128x128 ![1, 0, 0] · slices_S2x128x128_S1x128x128_1_0_0) : (⟨S2x128x128, .f32⟩ : BufTy).Contents (Elt Ideal) → (⟨S1x128x128, .f32⟩ : BufTy).Contents (Elt Ideal)) (nK_main_arg11 m c) := kq_main_v304 m c
theorem nkq_main_v305 : nK_main_v305 m c = fun i => shapeCast S128x128 (nK_main_v304 m c) shapeCasts_S1x128x128_S128x128 i := kq_main_v305 m c
set_option maxHeartbeats 3200000 in
theorem nkq_main_call6_v0 : nK_main_call6_v0 m c = mulf (F := Ideal) (φ := .f32) (nK_main_v296 m c) (nK_main_v296 m c) := kq_main_call6_v0 m c
set_option maxHeartbeats 3200000 in
theorem nkq_main_call6_cst : nK_main_call6_cst m c = (constant (F := Ideal) S_ .f32 0x00000000#32) := kq_main_call6_cst m c
set_option maxHeartbeats 3200000 in
theorem nkq_main_call6_v1 : nK_main_call6_v1 m c = (fun x v => Host.reduceAdd (F := Ideal) (φ := .f32) x v reducesTo_S4096x128_S4096_d1 h_S_) (nK_main_call6_v0 m c) (nK_main_call6_cst m c) := kq_main_call6_v1 m c
set_option maxHeartbeats 3200000 in
theorem nkq_main_call6_v2 : nK_main_call6_v2 m c = (broadcastInDim S4096x1 ![0] bcast_S4096_S4096x1_0) (nK_main_call6_v1 m c) := kq_main_call6_v2 m c
set_option maxHeartbeats 3200000 in
theorem nkq_main_v306 : nK_main_v306 m c = Host.sqrt (F := Ideal) (φ := .f32) (nK_main_call6_v2 m c) := kq_main_v306 m c
theorem nkq_main_cst_56 : nK_main_cst_56 m c = (constant (F := Ideal) S_ .f32 0x2B8CBCCC#32) := kq_main_cst_56 m c
theorem nkq_main_v307 : nK_main_v307 m c = (broadcastInDim S4096x1 ![] bcast_S_S4096x1 : (⟨S_, .f32⟩ : BufTy).Contents (Elt Ideal) → (⟨S4096x1, .f32⟩ : BufTy).Contents (Elt Ideal)) (nK_main_cst_56 m c) := kq_main_v307 m c
theorem nkq_main_v308 : nK_main_v308 m c = (maximumf (F := Ideal) (φ := .f32) : (⟨S4096x1, .f32⟩ : BufTy).Contents (Elt Ideal) → (⟨S4096x1, .f32⟩ : BufTy).Contents (Elt Ideal) → (⟨S4096x1, .f32⟩ : BufTy).Contents (Elt Ideal)) (nK_main_v306 m c) (nK_main_v307 m c) := kq_main_v308 m c
theorem nkq_main_v309 : nK_main_v309 m c = (broadcastInDim S4096x128 ![0, 1] bcast_S4096x1_S4096x128_0_1 : (⟨S4096x1, .f32⟩ : BufTy).Contents (Elt Ideal) → (⟨S4096x128, .f32⟩ : BufTy).Contents (Elt Ideal)) (nK_main_v308 m c) := kq_main_v309 m c
theorem nkq_main_v310 : nK_main_v310 m c = (Host.divf (F := Ideal) (φ := .f32) : (⟨S4096x128, .f32⟩ : BufTy).Contents (Elt Ideal) → (⟨S4096x128, .f32⟩ : BufTy).Contents (Elt Ideal) → (⟨S4096x128, .f32⟩ : BufTy).Contents (Elt Ideal)) (nK_main_v296 m c) (nK_main_v309 m c) := kq_main_v310 m c
set_option maxHeartbeats 3200000 in
theorem nkq_main_call7_v0 : nK_main_call7_v0 m c = mulf (F := Ideal) (φ := .f32) (nK_main_v303 m c) (nK_main_v303 m c) := kq_main_call7_v0 m c
set_option maxHeartbeats 3200000 in
theorem nkq_main_call7_cst : nK_main_call7_cst m c = (constant (F := Ideal) S_ .f32 0x00000000#32) := kq_main_call7_cst m c
set_option maxHeartbeats 3200000 in
theorem nkq_main_call7_v1 : nK_main_call7_v1 m c = (fun x v => Host.reduceAdd (F := Ideal) (φ := .f32) x v reducesTo_S4096x128_S4096_d1 h_S_) (nK_main_call7_v0 m c) (nK_main_call7_cst m c) := kq_main_call7_v1 m c
set_option maxHeartbeats 3200000 in
theorem nkq_main_call7_v2 : nK_main_call7_v2 m c = (broadcastInDim S4096x1 ![0] bcast_S4096_S4096x1_0) (nK_main_call7_v1 m c) := kq_main_call7_v2 m c
set_option maxHeartbeats 3200000 in
theorem nkq_main_v311 : nK_main_v311 m c = Host.sqrt (F := Ideal) (φ := .f32) (nK_main_call7_v2 m c) := kq_main_v311 m c
theorem nkq_main_cst_57 : nK_main_cst_57 m c = (constant (F := Ideal) S_ .f32 0x2B8CBCCC#32) := kq_main_cst_57 m c
theorem nkq_main_v312 : nK_main_v312 m c = (broadcastInDim S4096x1 ![] bcast_S_S4096x1 : (⟨S_, .f32⟩ : BufTy).Contents (Elt Ideal) → (⟨S4096x1, .f32⟩ : BufTy).Contents (Elt Ideal)) (nK_main_cst_57 m c) := kq_main_v312 m c
theorem nkq_main_v313 : nK_main_v313 m c = (maximumf (F := Ideal) (φ := .f32) : (⟨S4096x1, .f32⟩ : BufTy).Contents (Elt Ideal) → (⟨S4096x1, .f32⟩ : BufTy).Contents (Elt Ideal) → (⟨S4096x1, .f32⟩ : BufTy).Contents (Elt Ideal)) (nK_main_v311 m c) (nK_main_v312 m c) := kq_main_v313 m c
theorem nkq_main_v314 : nK_main_v314 m c = (broadcastInDim S4096x128 ![0, 1] bcast_S4096x1_S4096x128_0_1 : (⟨S4096x1, .f32⟩ : BufTy).Contents (Elt Ideal) → (⟨S4096x128, .f32⟩ : BufTy).Contents (Elt Ideal)) (nK_main_v313 m c) := kq_main_v314 m c
theorem nkq_main_v315 : nK_main_v315 m c = (Host.divf (F := Ideal) (φ := .f32) : (⟨S4096x128, .f32⟩ : BufTy).Contents (Elt Ideal) → (⟨S4096x128, .f32⟩ : BufTy).Contents (Elt Ideal) → (⟨S4096x128, .f32⟩ : BufTy).Contents (Elt Ideal)) (nK_main_v303 m c) (nK_main_v314 m c) := kq_main_v315 m c
theorem nkq_main_v317 : nK_main_v317 m c = (mulf (F := Ideal) (φ := .f32) : (⟨S4096x128, .f32⟩ : BufTy).Contents (Elt Ideal) → (⟨S4096x128, .f32⟩ : BufTy).Contents (Elt Ideal) → (⟨S4096x128, .f32⟩ : BufTy).Contents (Elt Ideal)) (nK_main_v316 m c) (nK_main_v315 m c) := kq_main_v317 m c
theorem nkq_main_cst_58 : nK_main_cst_58 m c = (constant (F := Ideal) S_ .f32 0x00000000#32) := kq_main_cst_58 m c
theorem nkq_main_v318 : nK_main_v318 m c = ((fun x v => Host.reduceAdd (F := Ideal) (φ := .f32) x v reducesTo_S4096x128_S4096_d1 h_S_) : (⟨S4096x128, .f32⟩ : BufTy).Contents (Elt Ideal) → (⟨S_, .f32⟩ : BufTy).Contents (Elt Ideal) → (⟨S4096, .f32⟩ : BufTy).Contents (Elt Ideal)) (nK_main_v317 m c) (nK_main_cst_58 m c) := kq_main_v318 m c
theorem nkq_main_cst_59 : nK_main_cst_59 m c = (constant (F := Ideal) S_ .f32 0x3F800000#32) := kq_main_cst_59 m c
theorem nkq_main_v319 : nK_main_v319 m c = (broadcastInDim S4096 ![] bcast_S_S4096 : (⟨S_, .f32⟩ : BufTy).Contents (Elt Ideal) → (⟨S4096, .f32⟩ : BufTy).Contents (Elt Ideal)) (nK_main_cst_59 m c) := kq_main_v319 m c
theorem nkq_main_v320 : nK_main_v320 m c = (Host.divf (F := Ideal) (φ := .f32) : (⟨S4096, .f32⟩ : BufTy).Contents (Elt Ideal) → (⟨S4096, .f32⟩ : BufTy).Contents (Elt Ideal) → (⟨S4096, .f32⟩ : BufTy).Contents (Elt Ideal)) (nK_main_v318 m c) (nK_main_v319 m c) := kq_main_v320 m c
theorem nkq_main_v321 : nK_main_v321 m c = (Host.exp (F := Ideal) (φ := .f32) : (⟨S4096, .f32⟩ : BufTy).Contents (Elt Ideal) → (⟨S4096, .f32⟩ : BufTy).Contents (Elt Ideal)) (nK_main_v320 m c) := kq_main_v321 m c

end Cert.KernelIdeal.Fr

end
-- ==== Proof.KI.KEq7.lean ====
import proofs.«126270_j6725918785969_1_alg».proof.Proof.KI.KEqBase

/-!
# The idealized kernel program's host operations, each as an equation between final buffer contents (part 7)

For every host operation `y = f x₁ x₂ …` of the stretches `hostOps20`, `hostOps20_1`, `hostOps20_2`, `hostOps20_3`, `hostOps20_4`, `hostOps21`: the final contents of `y` are `f` of the
final contents of the operands.
-/

set_option maxRecDepth 16384

noncomputable section

namespace Cert.KernelIdeal.Fr

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

/-! ### `hostOps20` -/
def kq_main_v323 := lift_reshape (x := main_v322) (y := main_v323) rfl shapeCasts_S4096x1_S4096 (liftK_52 m c main_v323 (by decide)) (liftK_52 m c main_v322 (by decide)) (eq_reshape (x := main_v322) (y := main_v323) lateK_52 (rfl : Wc52 m c = after hostOps20 (Wc51 m c)) 0 rfl shapeCasts_S4096x1_S4096 _ _ rfl (by decide) (by decide))
def kq_main_cst_60 := lift_nullary (liftK_52 m c main_cst_60 (by decide)) (eq_nullary lateK_52 (rfl : Wc52 m c = after hostOps20 (Wc51 m c)) 1 _ _ rfl (by decide))
def kq_main_v324 := lift_unary (liftK_52 m c main_v324 (by decide)) (liftK_52 m c main_cst_60 (by decide)) (eq_unary lateK_52 (rfl : Wc52 m c = after hostOps20 (Wc51 m c)) 2 _ _ _ rfl (by decide) (by decide))
def kq_main_v325 := lift_binary (liftK_52 m c main_v325 (by decide)) (liftK_52 m c main_v323 (by decide)) (liftK_52 m c main_v324 (by decide)) (eq_binary lateK_52 (rfl : Wc52 m c = after hostOps20 (Wc51 m c)) 3 _ _ _ _ rfl (by decide) (by decide) (by decide))
def kq_main_v326 := lift_binary (liftK_52 m c main_v326 (by decide)) (liftK_52 m c main_v321 (by decide)) (liftK_52 m c main_v325 (by decide)) (eq_binary lateK_52 (rfl : Wc52 m c = after hostOps20 (Wc51 m c)) 4 _ _ _ _ rfl (by decide) (by decide) (by decide))
def kq_main_cst_61 := lift_nullary (liftK_52 m c main_cst_61 (by decide)) (eq_nullary lateK_52 (rfl : Wc52 m c = after hostOps20 (Wc51 m c)) 5 _ _ rfl (by decide))
def kq_main_v327 := lift_unary (liftK_52 m c main_v327 (by decide)) (liftK_52 m c main_cst_61 (by decide)) (eq_unary lateK_52 (rfl : Wc52 m c = after hostOps20 (Wc51 m c)) 6 _ _ _ rfl (by decide) (by decide))
def kq_main_v328 := lift_binary (liftK_52 m c main_v328 (by decide)) (liftK_52 m c main_v326 (by decide)) (liftK_52 m c main_v327 (by decide)) (eq_binary lateK_52 (rfl : Wc52 m c = after hostOps20 (Wc51 m c)) 7 _ _ _ _ rfl (by decide) (by decide) (by decide))
def kq_main_v329 := lift_unary (liftK_52 m c main_v329 (by decide)) (liftK_52 m c main_v328 (by decide)) (eq_unary lateK_52 (rfl : Wc52 m c = after hostOps20 (Wc51 m c)) 8 _ _ _ rfl (by decide) (by decide))
def kq_main_v330 := lift_unary (liftK_52 m c main_v330 (by decide)) (liftK_52 m c main_v329 (by decide)) (eq_unary lateK_52 (rfl : Wc52 m c = after hostOps20 (Wc51 m c)) 9 _ _ _ rfl (by decide) (by decide))
def kq_main_cst_62 := lift_nullary (liftK_52 m c main_cst_62 (by decide)) (eq_nullary lateK_52 (rfl : Wc52 m c = after hostOps20 (Wc51 m c)) 10 _ _ rfl (by decide))
def kq_main_v331 := lift_binary (liftK_52 m c main_v331 (by decide)) (liftK_52 m c main_v330 (by decide)) (liftK_52 m c main_cst_62 (by decide)) (eq_binary lateK_52 (rfl : Wc52 m c = after hostOps20 (Wc51 m c)) 11 _ _ _ _ rfl (by decide) (by decide) (by decide))
def kq_main_v332 := lift_binary (liftK_52 m c main_v332 (by decide)) (liftK_52 m c main_v289 (by decide)) (liftK_52 m c main_v331 (by decide)) (eq_binary lateK_52 (rfl : Wc52 m c = after hostOps20 (Wc51 m c)) 12 _ _ _ _ rfl (by decide) (by decide) (by decide))
def kq_main_c_63 := lift_nullary (liftK_52 m c main_c_63 (by decide)) (eq_nullary lateK_52 (rfl : Wc52 m c = after hostOps20 (Wc51 m c)) 13 _ _ rfl (by decide))
def kq_main_v333 := lift_unary (liftK_52 m c main_v333 (by decide)) (liftK_52 m c main_c_63 (by decide)) (eq_unary lateK_52 (rfl : Wc52 m c = after hostOps20 (Wc51 m c)) 14 _ _ _ rfl (by decide) (by decide))
def kq_main_v334 := lift_binary (liftK_52 m c main_v334 (by decide)) (liftK_52 m c main_v203 (by decide)) (liftK_52 m c main_v333 (by decide)) (eq_binary lateK_52 (rfl : Wc52 m c = after hostOps20 (Wc51 m c)) 15 _ _ _ _ rfl (by decide) (by decide) (by decide))
def kq_main_c_64 := lift_nullary (liftK_52 m c main_c_64 (by decide)) (eq_nullary lateK_52 (rfl : Wc52 m c = after hostOps20 (Wc51 m c)) 16 _ _ rfl (by decide))
def kq_main_v335 := lift_unary (liftK_52 m c main_v335 (by decide)) (liftK_52 m c main_c_64 (by decide)) (eq_unary lateK_52 (rfl : Wc52 m c = after hostOps20 (Wc51 m c)) 17 _ _ _ rfl (by decide) (by decide))
def kq_main_v336 := lift_binary (liftK_52 m c main_v336 (by decide)) (liftK_52 m c main_v203 (by decide)) (liftK_52 m c main_v335 (by decide)) (eq_binary lateK_52 (rfl : Wc52 m c = after hostOps20 (Wc51 m c)) 18 _ _ _ _ rfl (by decide) (by decide) (by decide))
def kq_main_v337 := lift_ternary (liftK_52 m c main_v337 (by decide)) (liftK_52 m c main_v334 (by decide)) (liftK_52 m c main_v336 (by decide)) (liftK_52 m c main_v203 (by decide)) (eq_ternary lateK_52 (rfl : Wc52 m c = after hostOps20 (Wc51 m c)) 19 _ _ _ _ _ rfl (by decide) (by decide) (by decide) (by decide))
def kq_main_v338 := lift_unary (liftK_52 m c main_v338 (by decide)) (liftK_52 m c main_v337 (by decide)) (eq_unary lateK_52 (rfl : Wc52 m c = after hostOps20 (Wc51 m c)) 20 _ _ _ rfl (by decide) (by decide))
def kq_main_v339 := lift_binary (liftK_52 m c main_v339 (by decide)) (liftK_52 m c main_v173 (by decide)) (liftK_52 m c main_v338 (by decide)) (eq_binary lateK_52 (rfl : Wc52 m c = after hostOps20 (Wc51 m c)) 21 _ _ _ _ rfl (by decide) (by decide) (by decide))
def kq_main_c_65 := lift_nullary (liftK_52 m c main_c_65 (by decide)) (eq_nullary lateK_52 (rfl : Wc52 m c = after hostOps20 (Wc51 m c)) 22 _ _ rfl (by decide))
def kq_main_v340 := lift_unary (liftK_52 m c main_v340 (by decide)) (liftK_52 m c main_c_65 (by decide)) (eq_unary lateK_52 (rfl : Wc52 m c = after hostOps20 (Wc51 m c)) 23 _ _ _ rfl (by decide) (by decide))
def kq_main_v341 := lift_binary (liftK_52 m c main_v341 (by decide)) (liftK_52 m c main_v203 (by decide)) (liftK_52 m c main_v340 (by decide)) (eq_binary lateK_52 (rfl : Wc52 m c = after hostOps20 (Wc51 m c)) 24 _ _ _ _ rfl (by decide) (by decide) (by decide))
def kq_main_c_66 := lift_nullary (liftK_52 m c main_c_66 (by decide)) (eq_nullary lateK_52 (rfl : Wc52 m c = after hostOps20 (Wc51 m c)) 25 _ _ rfl (by decide))
def kq_main_v342 := lift_unary (liftK_52 m c main_v342 (by decide)) (liftK_52 m c main_c_66 (by decide)) (eq_unary lateK_52 (rfl : Wc52 m c = after hostOps20 (Wc51 m c)) 26 _ _ _ rfl (by decide) (by decide))
def kq_main_v343 := lift_binary (liftK_52 m c main_v343 (by decide)) (liftK_52 m c main_v203 (by decide)) (liftK_52 m c main_v342 (by decide)) (eq_binary lateK_52 (rfl : Wc52 m c = after hostOps20 (Wc51 m c)) 27 _ _ _ _ rfl (by decide) (by decide) (by decide))
def kq_main_v344 := lift_ternary (liftK_52 m c main_v344 (by decide)) (liftK_52 m c main_v341 (by decide)) (liftK_52 m c main_v343 (by decide)) (liftK_52 m c main_v203 (by decide)) (eq_ternary lateK_52 (rfl : Wc52 m c = after hostOps20 (Wc51 m c)) 28 _ _ _ _ _ rfl (by decide) (by decide) (by decide) (by decide))
def kq_main_v345 := lift_unary (liftK_52 m c main_v345 (by decide)) (liftK_52 m c main_v344 (by decide)) (eq_unary lateK_52 (rfl : Wc52 m c = after hostOps20 (Wc51 m c)) 29 _ _ _ rfl (by decide) (by decide))
def kq_main_v346 := lift_binary (liftK_52 m c main_v346 (by decide)) (liftK_52 m c main_v117 (by decide)) (liftK_52 m c main_v345 (by decide)) (eq_binary lateK_52 (rfl : Wc52 m c = after hostOps20 (Wc51 m c)) 30 _ _ _ _ rfl (by decide) (by decide) (by decide))
def kq_main_v347 := lift_unary (liftK_52 m c main_v347 (by decide)) (liftK_52 m c main_arg11 (by decide)) (eq_unary lateK_52 (rfl : Wc52 m c = after hostOps20 (Wc51 m c)) 31 _ _ _ rfl (by decide) (by decide))
def kq_main_v348 := lift_reshape (x := main_v347) (y := main_v348) rfl shapeCasts_S1x128x128_S128x128 (liftK_52 m c main_v348 (by decide)) (liftK_52 m c main_v347 (by decide)) (eq_reshape (x := main_v347) (y := main_v348) lateK_52 (rfl : Wc52 m c = after hostOps20 (Wc51 m c)) 32 rfl shapeCasts_S1x128x128_S128x128 _ _ rfl (by decide) (by decide))

/-! ### `hostOps20_1` -/
def kq_main_call8_v0 := lift_binary (liftK_53 m c main_call8_v0 (by decide)) (liftK_53 m c main_v339 (by decide)) (liftK_53 m c main_v339 (by decide)) (eq_binary lateK_53 (rfl : Wc53 m c = after hostOps20_1 (Wc52 m c)) 0 _ _ _ _ rfl (by decide) (by decide) (by decide))
def kq_main_call8_cst := lift_nullary (liftK_53 m c main_call8_cst (by decide)) (eq_nullary lateK_53 (rfl : Wc53 m c = after hostOps20_1 (Wc52 m c)) 1 _ _ rfl (by decide))
def kq_main_call8_v1 := lift_binary (liftK_53 m c main_call8_v1 (by decide)) (liftK_53 m c main_call8_v0 (by decide)) (liftK_53 m c main_call8_cst (by decide)) (eq_binary lateK_53 (rfl : Wc53 m c = after hostOps20_1 (Wc52 m c)) 2 _ _ _ _ rfl (by decide) (by decide) (by decide))
def kq_main_call8_v2 := lift_unary (liftK_53 m c main_call8_v2 (by decide)) (liftK_53 m c main_call8_v1 (by decide)) (eq_unary lateK_53 (rfl : Wc53 m c = after hostOps20_1 (Wc52 m c)) 3 _ _ _ rfl (by decide) (by decide))
def kq_main_v349 := lift_unary (liftK_53 m c main_v349 (by decide)) (liftK_53 m c main_call8_v2 (by decide)) (eq_unary lateK_53 (rfl : Wc53 m c = after hostOps20_1 (Wc52 m c)) 4 _ _ _ rfl (by decide) (by decide))

/-! ### `hostOps20_2` -/
def kq_main_cst_67 := lift_nullary (liftK_54 m c main_cst_67 (by decide)) (eq_nullary lateK_54 (rfl : Wc54 m c = after hostOps20_2 (Wc53 m c)) 0 _ _ rfl (by decide))
def kq_main_v350 := lift_unary (liftK_54 m c main_v350 (by decide)) (liftK_54 m c main_cst_67 (by decide)) (eq_unary lateK_54 (rfl : Wc54 m c = after hostOps20_2 (Wc53 m c)) 1 _ _ _ rfl (by decide) (by decide))
def kq_main_v351 := lift_binary (liftK_54 m c main_v351 (by decide)) (liftK_54 m c main_v349 (by decide)) (liftK_54 m c main_v350 (by decide)) (eq_binary lateK_54 (rfl : Wc54 m c = after hostOps20_2 (Wc53 m c)) 2 _ _ _ _ rfl (by decide) (by decide) (by decide))
def kq_main_v352 := lift_unary (liftK_54 m c main_v352 (by decide)) (liftK_54 m c main_v351 (by decide)) (eq_unary lateK_54 (rfl : Wc54 m c = after hostOps20_2 (Wc53 m c)) 3 _ _ _ rfl (by decide) (by decide))
def kq_main_v353 := lift_binary (liftK_54 m c main_v353 (by decide)) (liftK_54 m c main_v339 (by decide)) (liftK_54 m c main_v352 (by decide)) (eq_binary lateK_54 (rfl : Wc54 m c = after hostOps20_2 (Wc53 m c)) 4 _ _ _ _ rfl (by decide) (by decide) (by decide))

/-! ### `hostOps20_3` -/
def kq_main_call9_v0 := lift_binary (liftK_55 m c main_call9_v0 (by decide)) (liftK_55 m c main_v346 (by decide)) (liftK_55 m c main_v346 (by decide)) (eq_binary lateK_55 (rfl : Wc55 m c = after hostOps20_3 (Wc54 m c)) 0 _ _ _ _ rfl (by decide) (by decide) (by decide))
def kq_main_call9_cst := lift_nullary (liftK_55 m c main_call9_cst (by decide)) (eq_nullary lateK_55 (rfl : Wc55 m c = after hostOps20_3 (Wc54 m c)) 1 _ _ rfl (by decide))
def kq_main_call9_v1 := lift_binary (liftK_55 m c main_call9_v1 (by decide)) (liftK_55 m c main_call9_v0 (by decide)) (liftK_55 m c main_call9_cst (by decide)) (eq_binary lateK_55 (rfl : Wc55 m c = after hostOps20_3 (Wc54 m c)) 2 _ _ _ _ rfl (by decide) (by decide) (by decide))
def kq_main_call9_v2 := lift_unary (liftK_55 m c main_call9_v2 (by decide)) (liftK_55 m c main_call9_v1 (by decide)) (eq_unary lateK_55 (rfl : Wc55 m c = after hostOps20_3 (Wc54 m c)) 3 _ _ _ rfl (by decide) (by decide))
def kq_main_v354 := lift_unary (liftK_55 m c main_v354 (by decide)) (liftK_55 m c main_call9_v2 (by decide)) (eq_unary lateK_55 (rfl : Wc55 m c = after hostOps20_3 (Wc54 m c)) 4 _ _ _ rfl (by decide) (by decide))

/-! ### `hostOps20_4` -/
def kq_main_cst_68 := lift_nullary (liftK_56 m c main_cst_68 (by decide)) (eq_nullary lateK_56 (rfl : Wc56 m c = after hostOps20_4 (Wc55 m c)) 0 _ _ rfl (by decide))
def kq_main_v355 := lift_unary (liftK_56 m c main_v355 (by decide)) (liftK_56 m c main_cst_68 (by decide)) (eq_unary lateK_56 (rfl : Wc56 m c = after hostOps20_4 (Wc55 m c)) 1 _ _ _ rfl (by decide) (by decide))
def kq_main_v356 := lift_binary (liftK_56 m c main_v356 (by decide)) (liftK_56 m c main_v354 (by decide)) (liftK_56 m c main_v355 (by decide)) (eq_binary lateK_56 (rfl : Wc56 m c = after hostOps20_4 (Wc55 m c)) 2 _ _ _ _ rfl (by decide) (by decide) (by decide))
def kq_main_v357 := lift_unary (liftK_56 m c main_v357 (by decide)) (liftK_56 m c main_v356 (by decide)) (eq_unary lateK_56 (rfl : Wc56 m c = after hostOps20_4 (Wc55 m c)) 3 _ _ _ rfl (by decide) (by decide))
def kq_main_v358 := lift_binary (liftK_56 m c main_v358 (by decide)) (liftK_56 m c main_v346 (by decide)) (liftK_56 m c main_v357 (by decide)) (eq_binary lateK_56 (rfl : Wc56 m c = after hostOps20_4 (Wc55 m c)) 4 _ _ _ _ rfl (by decide) (by decide) (by decide))

/-! ### `hostOps21` -/
def kq_main_v360 := lift_binary (liftK_58 m c main_v360 (by decide)) (liftK_58 m c main_v359 (by decide)) (liftK_58 m c main_v358 (by decide)) (eq_binary lateK_58 (rfl : Wc58 m c = after hostOps21 (Wc57 m c)) 0 _ _ _ _ rfl (by decide) (by decide) (by decide))
def kq_main_cst_69 := lift_nullary (liftK_58 m c main_cst_69 (by decide)) (eq_nullary lateK_58 (rfl : Wc58 m c = after hostOps21 (Wc57 m c)) 1 _ _ rfl (by decide))
def kq_main_v361 := lift_binary (liftK_58 m c main_v361 (by decide)) (liftK_58 m c main_v360 (by decide)) (liftK_58 m c main_cst_69 (by decide)) (eq_binary lateK_58 (rfl : Wc58 m c = after hostOps21 (Wc57 m c)) 2 _ _ _ _ rfl (by decide) (by decide) (by decide))
def kq_main_cst_70 := lift_nullary (liftK_58 m c main_cst_70 (by decide)) (eq_nullary lateK_58 (rfl : Wc58 m c = after hostOps21 (Wc57 m c)) 3 _ _ rfl (by decide))
def kq_main_v362 := lift_unary (liftK_58 m c main_v362 (by decide)) (liftK_58 m c main_cst_70 (by decide)) (eq_unary lateK_58 (rfl : Wc58 m c = after hostOps21 (Wc57 m c)) 4 _ _ _ rfl (by decide) (by decide))
def kq_main_v363 := lift_binary (liftK_58 m c main_v363 (by decide)) (liftK_58 m c main_v361 (by decide)) (liftK_58 m c main_v362 (by decide)) (eq_binary lateK_58 (rfl : Wc58 m c = after hostOps21 (Wc57 m c)) 5 _ _ _ _ rfl (by decide) (by decide) (by decide))
def kq_main_v364 := lift_unary (liftK_58 m c main_v364 (by decide)) (liftK_58 m c main_v363 (by decide)) (eq_unary lateK_58 (rfl : Wc58 m c = after hostOps21 (Wc57 m c)) 6 _ _ _ rfl (by decide) (by decide))

end Cert.KernelIdeal.Fr

end
-- ==== Proof.KI.KN7.lean ====
import proofs.«126270_j6725918785969_1_alg».proof.Proof.KI.KNDefs
import proofs.«126270_j6725918785969_1_alg».proof.Proof.KI.KEq7

/-!
# The kernel program's host operations as equations between plainly typed contents (part 7)
-/

set_option maxRecDepth 16384

noncomputable section

namespace Cert.KernelIdeal.Fr

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

theorem nkq_main_v323 : nK_main_v323 m c = fun i => shapeCast S4096 (nK_main_v322 m c) shapeCasts_S4096x1_S4096 i := kq_main_v323 m c
theorem nkq_main_cst_60 : nK_main_cst_60 m c = (constant (F := Ideal) S_ .f32 0x322BCC77#32) := kq_main_cst_60 m c
theorem nkq_main_v324 : nK_main_v324 m c = (broadcastInDim S4096 ![] bcast_S_S4096 : (⟨S_, .f32⟩ : BufTy).Contents (Elt Ideal) → (⟨S4096, .f32⟩ : BufTy).Contents (Elt Ideal)) (nK_main_cst_60 m c) := kq_main_v324 m c
theorem nkq_main_v325 : nK_main_v325 m c = (addf (F := Ideal) (φ := .f32) : (⟨S4096, .f32⟩ : BufTy).Contents (Elt Ideal) → (⟨S4096, .f32⟩ : BufTy).Contents (Elt Ideal) → (⟨S4096, .f32⟩ : BufTy).Contents (Elt Ideal)) (nK_main_v323 m c) (nK_main_v324 m c) := kq_main_v325 m c
theorem nkq_main_v326 : nK_main_v326 m c = (Host.divf (F := Ideal) (φ := .f32) : (⟨S4096, .f32⟩ : BufTy).Contents (Elt Ideal) → (⟨S4096, .f32⟩ : BufTy).Contents (Elt Ideal) → (⟨S4096, .f32⟩ : BufTy).Contents (Elt Ideal)) (nK_main_v321 m c) (nK_main_v325 m c) := kq_main_v326 m c
theorem nkq_main_cst_61 : nK_main_cst_61 m c = (constant (F := Ideal) S_ .f32 0x322BCC77#32) := kq_main_cst_61 m c
theorem nkq_main_v327 : nK_main_v327 m c = (broadcastInDim S4096 ![] bcast_S_S4096 : (⟨S_, .f32⟩ : BufTy).Contents (Elt Ideal) → (⟨S4096, .f32⟩ : BufTy).Contents (Elt Ideal)) (nK_main_cst_61 m c) := kq_main_v327 m c
theorem nkq_main_v328 : nK_main_v328 m c = (addf (F := Ideal) (φ := .f32) : (⟨S4096, .f32⟩ : BufTy).Contents (Elt Ideal) → (⟨S4096, .f32⟩ : BufTy).Contents (Elt Ideal) → (⟨S4096, .f32⟩ : BufTy).Contents (Elt Ideal)) (nK_main_v326 m c) (nK_main_v327 m c) := kq_main_v328 m c
theorem nkq_main_v329 : nK_main_v329 m c = (Host.log (F := Ideal) (φ := .f32) : (⟨S4096, .f32⟩ : BufTy).Contents (Elt Ideal) → (⟨S4096, .f32⟩ : BufTy).Contents (Elt Ideal)) (nK_main_v328 m c) := kq_main_v329 m c
theorem nkq_main_v330 : nK_main_v330 m c = (Host.negf (F := Ideal) (φ := .f32) : (⟨S4096, .f32⟩ : BufTy).Contents (Elt Ideal) → (⟨S4096, .f32⟩ : BufTy).Contents (Elt Ideal)) (nK_main_v329 m c) := kq_main_v330 m c
theorem nkq_main_cst_62 : nK_main_cst_62 m c = (constant (F := Ideal) S_ .f32 0x00000000#32) := kq_main_cst_62 m c
theorem nkq_main_v331 : nK_main_v331 m c = ((fun x v => Host.reduceAdd (F := Ideal) (φ := .f32) x v reducesTo_S4096_S_d0 h_S_) : (⟨S4096, .f32⟩ : BufTy).Contents (Elt Ideal) → (⟨S_, .f32⟩ : BufTy).Contents (Elt Ideal) → (⟨S_, .f32⟩ : BufTy).Contents (Elt Ideal)) (nK_main_v330 m c) (nK_main_cst_62 m c) := kq_main_v331 m c
theorem nkq_main_v332 : nK_main_v332 m c = (addf (F := Ideal) (φ := .f32) : (⟨S_, .f32⟩ : BufTy).Contents (Elt Ideal) → (⟨S_, .f32⟩ : BufTy).Contents (Elt Ideal) → (⟨S_, .f32⟩ : BufTy).Contents (Elt Ideal)) (nK_main_v289 m c) (nK_main_v331 m c) := kq_main_v332 m c
theorem nkq_main_c_63 : nK_main_c_63 m c = (constantI S_ 32 0#32) := kq_main_c_63 m c
theorem nkq_main_v333 : nK_main_v333 m c = (broadcastInDim S4096 ![] bcast_S_S4096 : (⟨S_, .i32⟩ : BufTy).Contents (Elt Ideal) → (⟨S4096, .i32⟩ : BufTy).Contents (Elt Ideal)) (nK_main_c_63 m c) := kq_main_v333 m c
theorem nkq_main_v334 : nK_main_v334 m c = (cmpi .slt : (⟨S4096, .i32⟩ : BufTy).Contents (Elt Ideal) → (⟨S4096, .i32⟩ : BufTy).Contents (Elt Ideal) → (⟨S4096, .i1⟩ : BufTy).Contents (Elt Ideal)) (nK_main_v203 m c) (nK_main_v333 m c) := kq_main_v334 m c
theorem nkq_main_c_64 : nK_main_c_64 m c = (constantI S_ 32 50000#32) := kq_main_c_64 m c
theorem nkq_main_v335 : nK_main_v335 m c = (broadcastInDim S4096 ![] bcast_S_S4096 : (⟨S_, .i32⟩ : BufTy).Contents (Elt Ideal) → (⟨S4096, .i32⟩ : BufTy).Contents (Elt Ideal)) (nK_main_c_64 m c) := kq_main_v335 m c
theorem nkq_main_v336 : nK_main_v336 m c = (addi : (⟨S4096, .i32⟩ : BufTy).Contents (Elt Ideal) → (⟨S4096, .i32⟩ : BufTy).Contents (Elt Ideal) → (⟨S4096, .i32⟩ : BufTy).Contents (Elt Ideal)) (nK_main_v203 m c) (nK_main_v335 m c) := kq_main_v336 m c
theorem nkq_main_v337 : nK_main_v337 m c = (select : (⟨S4096, .i1⟩ : BufTy).Contents (Elt Ideal) → (⟨S4096, .i32⟩ : BufTy).Contents (Elt Ideal) → (⟨S4096, .i32⟩ : BufTy).Contents (Elt Ideal) → (⟨S4096, .i32⟩ : BufTy).Contents (Elt Ideal)) (nK_main_v334 m c) (nK_main_v336 m c) (nK_main_v203 m c) := kq_main_v337 m c
theorem nkq_main_v338 : nK_main_v338 m c = (broadcastInDim S4096x1 ![0] bcast_S4096_S4096x1_0 : (⟨S4096, .i32⟩ : BufTy).Contents (Elt Ideal) → (⟨S4096x1, .i32⟩ : BufTy).Contents (Elt Ideal)) (nK_main_v337 m c) := kq_main_v338 m c
theorem nkq_main_v339 : nK_main_v339 m c = ((fun x i => Host.gather gather_S50000x128_S4096x1_S4096x128_1_0_n_n_0_1_1128 x i) : (⟨S50000x128, .f32⟩ : BufTy).Contents (Elt Ideal) → (⟨S4096x1, .i32⟩ : BufTy).Contents (Elt Ideal) → (⟨S4096x128, .f32⟩ : BufTy).Contents (Elt Ideal)) (nK_main_v173 m c) (nK_main_v338 m c) := kq_main_v339 m c
theorem nkq_main_c_65 : nK_main_c_65 m c = (constantI S_ 32 0#32) := kq_main_c_65 m c
theorem nkq_main_v340 : nK_main_v340 m c = (broadcastInDim S4096 ![] bcast_S_S4096 : (⟨S_, .i32⟩ : BufTy).Contents (Elt Ideal) → (⟨S4096, .i32⟩ : BufTy).Contents (Elt Ideal)) (nK_main_c_65 m c) := kq_main_v340 m c
theorem nkq_main_v341 : nK_main_v341 m c = (cmpi .slt : (⟨S4096, .i32⟩ : BufTy).Contents (Elt Ideal) → (⟨S4096, .i32⟩ : BufTy).Contents (Elt Ideal) → (⟨S4096, .i1⟩ : BufTy).Contents (Elt Ideal)) (nK_main_v203 m c) (nK_main_v340 m c) := kq_main_v341 m c
theorem nkq_main_c_66 : nK_main_c_66 m c = (constantI S_ 32 50000#32) := kq_main_c_66 m c
theorem nkq_main_v342 : nK_main_v342 m c = (broadcastInDim S4096 ![] bcast_S_S4096 : (⟨S_, .i32⟩ : BufTy).Contents (Elt Ideal) → (⟨S4096, .i32⟩ : BufTy).Contents (Elt Ideal)) (nK_main_c_66 m c) := kq_main_v342 m c
theorem nkq_main_v343 : nK_main_v343 m c = (addi : (⟨S4096, .i32⟩ : BufTy).Contents (Elt Ideal) → (⟨S4096, .i32⟩ : BufTy).Contents (Elt Ideal) → (⟨S4096, .i32⟩ : BufTy).Contents (Elt Ideal)) (nK_main_v203 m c) (nK_main_v342 m c) := kq_main_v343 m c
theorem nkq_main_v344 : nK_main_v344 m c = (select : (⟨S4096, .i1⟩ : BufTy).Contents (Elt Ideal) → (⟨S4096, .i32⟩ : BufTy).Contents (Elt Ideal) → (⟨S4096, .i32⟩ : BufTy).Contents (Elt Ideal) → (⟨S4096, .i32⟩ : BufTy).Contents (Elt Ideal)) (nK_main_v341 m c) (nK_main_v343 m c) (nK_main_v203 m c) := kq_main_v344 m c
theorem nkq_main_v345 : nK_main_v345 m c = (broadcastInDim S4096x1 ![0] bcast_S4096_S4096x1_0 : (⟨S4096, .i32⟩ : BufTy).Contents (Elt Ideal) → (⟨S4096x1, .i32⟩ : BufTy).Contents (Elt Ideal)) (nK_main_v344 m c) := kq_main_v345 m c
theorem nkq_main_v346 : nK_main_v346 m c = ((fun x i => Host.gather gather_S50000x128_S4096x1_S4096x128_1_0_n_n_0_1_1128 x i) : (⟨S50000x128, .f32⟩ : BufTy).Contents (Elt Ideal) → (⟨S4096x1, .i32⟩ : BufTy).Contents (Elt Ideal) → (⟨S4096x128, .f32⟩ : BufTy).Contents (Elt Ideal)) (nK_main_v117 m c) (nK_main_v345 m c) := kq_main_v346 m c
theorem nkq_main_v347 : nK_main_v347 m c = ((extractStridedSlice S1x128x128 ![1, 0, 0] · slices_S2x128x128_S1x128x128_1_0_0) : (⟨S2x128x128, .f32⟩ : BufTy).Contents (Elt Ideal) → (⟨S1x128x128, .f32⟩ : BufTy).Contents (Elt Ideal)) (nK_main_arg11 m c) := kq_main_v347 m c
theorem nkq_main_v348 : nK_main_v348 m c = fun i => shapeCast S128x128 (nK_main_v347 m c) shapeCasts_S1x128x128_S128x128 i := kq_main_v348 m c
set_option maxHeartbeats 3200000 in
theorem nkq_main_call8_v0 : nK_main_call8_v0 m c = mulf (F := Ideal) (φ := .f32) (nK_main_v339 m c) (nK_main_v339 m c) := kq_main_call8_v0 m c
set_option maxHeartbeats 3200000 in
theorem nkq_main_call8_cst : nK_main_call8_cst m c = (constant (F := Ideal) S_ .f32 0x00000000#32) := kq_main_call8_cst m c
set_option maxHeartbeats 3200000 in
theorem nkq_main_call8_v1 : nK_main_call8_v1 m c = (fun x v => Host.reduceAdd (F := Ideal) (φ := .f32) x v reducesTo_S4096x128_S4096_d1 h_S_) (nK_main_call8_v0 m c) (nK_main_call8_cst m c) := kq_main_call8_v1 m c
set_option maxHeartbeats 3200000 in
theorem nkq_main_call8_v2 : nK_main_call8_v2 m c = (broadcastInDim S4096x1 ![0] bcast_S4096_S4096x1_0) (nK_main_call8_v1 m c) := kq_main_call8_v2 m c
set_option maxHeartbeats 3200000 in
theorem nkq_main_v349 : nK_main_v349 m c = Host.sqrt (F := Ideal) (φ := .f32) (nK_main_call8_v2 m c) := kq_main_v349 m c
theorem nkq_main_cst_67 : nK_main_cst_67 m c = (constant (F := Ideal) S_ .f32 0x2B8CBCCC#32) := kq_main_cst_67 m c
theorem nkq_main_v350 : nK_main_v350 m c = (broadcastInDim S4096x1 ![] bcast_S_S4096x1 : (⟨S_, .f32⟩ : BufTy).Contents (Elt Ideal) → (⟨S4096x1, .f32⟩ : BufTy).Contents (Elt Ideal)) (nK_main_cst_67 m c) := kq_main_v350 m c
theorem nkq_main_v351 : nK_main_v351 m c = (maximumf (F := Ideal) (φ := .f32) : (⟨S4096x1, .f32⟩ : BufTy).Contents (Elt Ideal) → (⟨S4096x1, .f32⟩ : BufTy).Contents (Elt Ideal) → (⟨S4096x1, .f32⟩ : BufTy).Contents (Elt Ideal)) (nK_main_v349 m c) (nK_main_v350 m c) := kq_main_v351 m c
theorem nkq_main_v352 : nK_main_v352 m c = (broadcastInDim S4096x128 ![0, 1] bcast_S4096x1_S4096x128_0_1 : (⟨S4096x1, .f32⟩ : BufTy).Contents (Elt Ideal) → (⟨S4096x128, .f32⟩ : BufTy).Contents (Elt Ideal)) (nK_main_v351 m c) := kq_main_v352 m c
theorem nkq_main_v353 : nK_main_v353 m c = (Host.divf (F := Ideal) (φ := .f32) : (⟨S4096x128, .f32⟩ : BufTy).Contents (Elt Ideal) → (⟨S4096x128, .f32⟩ : BufTy).Contents (Elt Ideal) → (⟨S4096x128, .f32⟩ : BufTy).Contents (Elt Ideal)) (nK_main_v339 m c) (nK_main_v352 m c) := kq_main_v353 m c
set_option maxHeartbeats 3200000 in
theorem nkq_main_call9_v0 : nK_main_call9_v0 m c = mulf (F := Ideal) (φ := .f32) (nK_main_v346 m c) (nK_main_v346 m c) := kq_main_call9_v0 m c
set_option maxHeartbeats 3200000 in
theorem nkq_main_call9_cst : nK_main_call9_cst m c = (constant (F := Ideal) S_ .f32 0x00000000#32) := kq_main_call9_cst m c
set_option maxHeartbeats 3200000 in
theorem nkq_main_call9_v1 : nK_main_call9_v1 m c = (fun x v => Host.reduceAdd (F := Ideal) (φ := .f32) x v reducesTo_S4096x128_S4096_d1 h_S_) (nK_main_call9_v0 m c) (nK_main_call9_cst m c) := kq_main_call9_v1 m c
set_option maxHeartbeats 3200000 in
theorem nkq_main_call9_v2 : nK_main_call9_v2 m c = (broadcastInDim S4096x1 ![0] bcast_S4096_S4096x1_0) (nK_main_call9_v1 m c) := kq_main_call9_v2 m c
set_option maxHeartbeats 3200000 in
theorem nkq_main_v354 : nK_main_v354 m c = Host.sqrt (F := Ideal) (φ := .f32) (nK_main_call9_v2 m c) := kq_main_v354 m c
theorem nkq_main_cst_68 : nK_main_cst_68 m c = (constant (F := Ideal) S_ .f32 0x2B8CBCCC#32) := kq_main_cst_68 m c
theorem nkq_main_v355 : nK_main_v355 m c = (broadcastInDim S4096x1 ![] bcast_S_S4096x1 : (⟨S_, .f32⟩ : BufTy).Contents (Elt Ideal) → (⟨S4096x1, .f32⟩ : BufTy).Contents (Elt Ideal)) (nK_main_cst_68 m c) := kq_main_v355 m c
theorem nkq_main_v356 : nK_main_v356 m c = (maximumf (F := Ideal) (φ := .f32) : (⟨S4096x1, .f32⟩ : BufTy).Contents (Elt Ideal) → (⟨S4096x1, .f32⟩ : BufTy).Contents (Elt Ideal) → (⟨S4096x1, .f32⟩ : BufTy).Contents (Elt Ideal)) (nK_main_v354 m c) (nK_main_v355 m c) := kq_main_v356 m c
theorem nkq_main_v357 : nK_main_v357 m c = (broadcastInDim S4096x128 ![0, 1] bcast_S4096x1_S4096x128_0_1 : (⟨S4096x1, .f32⟩ : BufTy).Contents (Elt Ideal) → (⟨S4096x128, .f32⟩ : BufTy).Contents (Elt Ideal)) (nK_main_v356 m c) := kq_main_v357 m c
theorem nkq_main_v358 : nK_main_v358 m c = (Host.divf (F := Ideal) (φ := .f32) : (⟨S4096x128, .f32⟩ : BufTy).Contents (Elt Ideal) → (⟨S4096x128, .f32⟩ : BufTy).Contents (Elt Ideal) → (⟨S4096x128, .f32⟩ : BufTy).Contents (Elt Ideal)) (nK_main_v346 m c) (nK_main_v357 m c) := kq_main_v358 m c
theorem nkq_main_v360 : nK_main_v360 m c = (mulf (F := Ideal) (φ := .f32) : (⟨S4096x128, .f32⟩ : BufTy).Contents (Elt Ideal) → (⟨S4096x128, .f32⟩ : BufTy).Contents (Elt Ideal) → (⟨S4096x128, .f32⟩ : BufTy).Contents (Elt Ideal)) (nK_main_v359 m c) (nK_main_v358 m c) := kq_main_v360 m c
theorem nkq_main_cst_69 : nK_main_cst_69 m c = (constant (F := Ideal) S_ .f32 0x00000000#32) := kq_main_cst_69 m c
theorem nkq_main_v361 : nK_main_v361 m c = ((fun x v => Host.reduceAdd (F := Ideal) (φ := .f32) x v reducesTo_S4096x128_S4096_d1 h_S_) : (⟨S4096x128, .f32⟩ : BufTy).Contents (Elt Ideal) → (⟨S_, .f32⟩ : BufTy).Contents (Elt Ideal) → (⟨S4096, .f32⟩ : BufTy).Contents (Elt Ideal)) (nK_main_v360 m c) (nK_main_cst_69 m c) := kq_main_v361 m c
theorem nkq_main_cst_70 : nK_main_cst_70 m c = (constant (F := Ideal) S_ .f32 0x3F800000#32) := kq_main_cst_70 m c
theorem nkq_main_v362 : nK_main_v362 m c = (broadcastInDim S4096 ![] bcast_S_S4096 : (⟨S_, .f32⟩ : BufTy).Contents (Elt Ideal) → (⟨S4096, .f32⟩ : BufTy).Contents (Elt Ideal)) (nK_main_cst_70 m c) := kq_main_v362 m c
theorem nkq_main_v363 : nK_main_v363 m c = (Host.divf (F := Ideal) (φ := .f32) : (⟨S4096, .f32⟩ : BufTy).Contents (Elt Ideal) → (⟨S4096, .f32⟩ : BufTy).Contents (Elt Ideal) → (⟨S4096, .f32⟩ : BufTy).Contents (Elt Ideal)) (nK_main_v361 m c) (nK_main_v362 m c) := kq_main_v363 m c
theorem nkq_main_v364 : nK_main_v364 m c = (Host.exp (F := Ideal) (φ := .f32) : (⟨S4096, .f32⟩ : BufTy).Contents (Elt Ideal) → (⟨S4096, .f32⟩ : BufTy).Contents (Elt Ideal)) (nK_main_v363 m c) := kq_main_v364 m c

end Cert.KernelIdeal.Fr

end
-- ==== Proof.KI.KEq8.lean ====
import proofs.«126270_j6725918785969_1_alg».proof.Proof.KI.KEqBase

/-!
# The idealized kernel program's host operations, each as an equation between final buffer contents (part 8)

For every host operation `y = f x₁ x₂ …` of the stretches `hostOps22`: the final contents of `y` are `f` of the
final contents of the operands.
-/

set_option maxRecDepth 16384

noncomputable section

namespace Cert.KernelIdeal.Fr

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

/-! ### `hostOps22` -/
def kq_main_v366 := lift_reshape (x := main_v365) (y := main_v366) rfl shapeCasts_S4096x1_S4096 rfl rfl (eq_reshape (x := main_v365) (y := main_v366) lateK_60 (rfl : Wc60 m c = after hostOps22 (Wc59 m c)) 0 rfl shapeCasts_S4096x1_S4096 _ _ rfl (by decide) (by decide))
def kq_main_cst_71 := lift_nullary rfl (eq_nullary lateK_60 (rfl : Wc60 m c = after hostOps22 (Wc59 m c)) 1 _ _ rfl (by decide))
def kq_main_v367 := lift_unary rfl rfl (eq_unary lateK_60 (rfl : Wc60 m c = after hostOps22 (Wc59 m c)) 2 _ _ _ rfl (by decide) (by decide))
def kq_main_v368 := lift_binary rfl rfl rfl (eq_binary lateK_60 (rfl : Wc60 m c = after hostOps22 (Wc59 m c)) 3 _ _ _ _ rfl (by decide) (by decide) (by decide))
def kq_main_v369 := lift_binary rfl rfl rfl (eq_binary lateK_60 (rfl : Wc60 m c = after hostOps22 (Wc59 m c)) 4 _ _ _ _ rfl (by decide) (by decide) (by decide))
def kq_main_cst_72 := lift_nullary rfl (eq_nullary lateK_60 (rfl : Wc60 m c = after hostOps22 (Wc59 m c)) 5 _ _ rfl (by decide))
def kq_main_v370 := lift_unary rfl rfl (eq_unary lateK_60 (rfl : Wc60 m c = after hostOps22 (Wc59 m c)) 6 _ _ _ rfl (by decide) (by decide))
def kq_main_v371 := lift_binary rfl rfl rfl (eq_binary lateK_60 (rfl : Wc60 m c = after hostOps22 (Wc59 m c)) 7 _ _ _ _ rfl (by decide) (by decide) (by decide))
def kq_main_v372 := lift_unary rfl rfl (eq_unary lateK_60 (rfl : Wc60 m c = after hostOps22 (Wc59 m c)) 8 _ _ _ rfl (by decide) (by decide))
def kq_main_v373 := lift_unary rfl rfl (eq_unary lateK_60 (rfl : Wc60 m c = after hostOps22 (Wc59 m c)) 9 _ _ _ rfl (by decide) (by decide))
def kq_main_cst_73 := lift_nullary rfl (eq_nullary lateK_60 (rfl : Wc60 m c = after hostOps22 (Wc59 m c)) 10 _ _ rfl (by decide))
def kq_main_v374 := lift_binary rfl rfl rfl (eq_binary lateK_60 (rfl : Wc60 m c = after hostOps22 (Wc59 m c)) 11 _ _ _ _ rfl (by decide) (by decide) (by decide))
def kq_main_v375 := lift_binary rfl rfl rfl (eq_binary lateK_60 (rfl : Wc60 m c = after hostOps22 (Wc59 m c)) 12 _ _ _ _ rfl (by decide) (by decide) (by decide))
def kq_main_v376 := lift_binary rfl rfl rfl (eq_binary lateK_60 (rfl : Wc60 m c = after hostOps22 (Wc59 m c)) 13 _ _ _ _ rfl (by decide) (by decide) (by decide))
def kq_main_cst_74 := lift_nullary rfl (eq_nullary lateK_60 (rfl : Wc60 m c = after hostOps22 (Wc59 m c)) 14 _ _ rfl (by decide))
def kq_main_v377 := lift_binary rfl rfl rfl (eq_binary lateK_60 (rfl : Wc60 m c = after hostOps22 (Wc59 m c)) 15 _ _ _ _ rfl (by decide) (by decide) (by decide))
def kq_main_v378 := lift_binary rfl rfl rfl (eq_binary lateK_60 (rfl : Wc60 m c = after hostOps22 (Wc59 m c)) 16 _ _ _ _ rfl (by decide) (by decide) (by decide))
def kq_main_cst_75 := lift_nullary rfl (eq_nullary lateK_60 (rfl : Wc60 m c = after hostOps22 (Wc59 m c)) 17 _ _ rfl (by decide))
def kq_main_v379 := lift_binary rfl rfl rfl (eq_binary lateK_60 (rfl : Wc60 m c = after hostOps22 (Wc59 m c)) 18 _ _ _ _ rfl (by decide) (by decide) (by decide))
def kq_main_v380 := lift_binary rfl rfl rfl (eq_binary lateK_60 (rfl : Wc60 m c = after hostOps22 (Wc59 m c)) 19 _ _ _ _ rfl (by decide) (by decide) (by decide))
def kq_main_v381 := lift_binary rfl rfl rfl (eq_binary lateK_60 (rfl : Wc60 m c = after hostOps22 (Wc59 m c)) 20 _ _ _ _ rfl (by decide) (by decide) (by decide))
def kq_main_cst_76 := lift_nullary rfl (eq_nullary lateK_60 (rfl : Wc60 m c = after hostOps22 (Wc59 m c)) 21 _ _ rfl (by decide))
def kq_main_v382 := lift_binary rfl rfl rfl (eq_binary lateK_60 (rfl : Wc60 m c = after hostOps22 (Wc59 m c)) 22 _ _ _ _ rfl (by decide) (by decide) (by decide))
def kq_main_v383 := lift_binary rfl rfl rfl (eq_binary lateK_60 (rfl : Wc60 m c = after hostOps22 (Wc59 m c)) 23 _ _ _ _ rfl (by decide) (by decide) (by decide))
def kq_main_v384 := lift_binary rfl rfl rfl (eq_binary lateK_60 (rfl : Wc60 m c = after hostOps22 (Wc59 m c)) 24 _ _ _ _ rfl (by decide) (by decide) (by decide))
def kq_main_cst_77 := lift_nullary rfl (eq_nullary lateK_60 (rfl : Wc60 m c = after hostOps22 (Wc59 m c)) 25 _ _ rfl (by decide))
def kq_main_v385 := lift_binary rfl rfl rfl (eq_binary lateK_60 (rfl : Wc60 m c = after hostOps22 (Wc59 m c)) 26 _ _ _ _ rfl (by decide) (by decide) (by decide))
def kq_main_v386 := lift_binary rfl rfl rfl (eq_binary lateK_60 (rfl : Wc60 m c = after hostOps22 (Wc59 m c)) 27 _ _ _ _ rfl (by decide) (by decide) (by decide))

end Cert.KernelIdeal.Fr

end
-- ==== Proof.KI.KN8.lean ====
import proofs.«126270_j6725918785969_1_alg».proof.Proof.KI.KNDefs
import proofs.«126270_j6725918785969_1_alg».proof.Proof.KI.KEq8

/-!
# The kernel program's host operations as equations between plainly typed contents (part 8)
-/

set_option maxRecDepth 16384

noncomputable section

namespace Cert.KernelIdeal.Fr

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

theorem nkq_main_v366 : nK_main_v366 m c = fun i => shapeCast S4096 (nK_main_v365 m c) shapeCasts_S4096x1_S4096 i := kq_main_v366 m c
theorem nkq_main_cst_71 : nK_main_cst_71 m c = (constant (F := Ideal) S_ .f32 0x322BCC77#32) := kq_main_cst_71 m c
theorem nkq_main_v367 : nK_main_v367 m c = (broadcastInDim S4096 ![] bcast_S_S4096 : (⟨S_, .f32⟩ : BufTy).Contents (Elt Ideal) → (⟨S4096, .f32⟩ : BufTy).Contents (Elt Ideal)) (nK_main_cst_71 m c) := kq_main_v367 m c
theorem nkq_main_v368 : nK_main_v368 m c = (addf (F := Ideal) (φ := .f32) : (⟨S4096, .f32⟩ : BufTy).Contents (Elt Ideal) → (⟨S4096, .f32⟩ : BufTy).Contents (Elt Ideal) → (⟨S4096, .f32⟩ : BufTy).Contents (Elt Ideal)) (nK_main_v366 m c) (nK_main_v367 m c) := kq_main_v368 m c
theorem nkq_main_v369 : nK_main_v369 m c = (Host.divf (F := Ideal) (φ := .f32) : (⟨S4096, .f32⟩ : BufTy).Contents (Elt Ideal) → (⟨S4096, .f32⟩ : BufTy).Contents (Elt Ideal) → (⟨S4096, .f32⟩ : BufTy).Contents (Elt Ideal)) (nK_main_v364 m c) (nK_main_v368 m c) := kq_main_v369 m c
theorem nkq_main_cst_72 : nK_main_cst_72 m c = (constant (F := Ideal) S_ .f32 0x322BCC77#32) := kq_main_cst_72 m c
theorem nkq_main_v370 : nK_main_v370 m c = (broadcastInDim S4096 ![] bcast_S_S4096 : (⟨S_, .f32⟩ : BufTy).Contents (Elt Ideal) → (⟨S4096, .f32⟩ : BufTy).Contents (Elt Ideal)) (nK_main_cst_72 m c) := kq_main_v370 m c
theorem nkq_main_v371 : nK_main_v371 m c = (addf (F := Ideal) (φ := .f32) : (⟨S4096, .f32⟩ : BufTy).Contents (Elt Ideal) → (⟨S4096, .f32⟩ : BufTy).Contents (Elt Ideal) → (⟨S4096, .f32⟩ : BufTy).Contents (Elt Ideal)) (nK_main_v369 m c) (nK_main_v370 m c) := kq_main_v371 m c
theorem nkq_main_v372 : nK_main_v372 m c = (Host.log (F := Ideal) (φ := .f32) : (⟨S4096, .f32⟩ : BufTy).Contents (Elt Ideal) → (⟨S4096, .f32⟩ : BufTy).Contents (Elt Ideal)) (nK_main_v371 m c) := kq_main_v372 m c
theorem nkq_main_v373 : nK_main_v373 m c = (Host.negf (F := Ideal) (φ := .f32) : (⟨S4096, .f32⟩ : BufTy).Contents (Elt Ideal) → (⟨S4096, .f32⟩ : BufTy).Contents (Elt Ideal)) (nK_main_v372 m c) := kq_main_v373 m c
theorem nkq_main_cst_73 : nK_main_cst_73 m c = (constant (F := Ideal) S_ .f32 0x00000000#32) := kq_main_cst_73 m c
theorem nkq_main_v374 : nK_main_v374 m c = ((fun x v => Host.reduceAdd (F := Ideal) (φ := .f32) x v reducesTo_S4096_S_d0 h_S_) : (⟨S4096, .f32⟩ : BufTy).Contents (Elt Ideal) → (⟨S_, .f32⟩ : BufTy).Contents (Elt Ideal) → (⟨S_, .f32⟩ : BufTy).Contents (Elt Ideal)) (nK_main_v373 m c) (nK_main_cst_73 m c) := kq_main_v374 m c
theorem nkq_main_v375 : nK_main_v375 m c = (addf (F := Ideal) (φ := .f32) : (⟨S_, .f32⟩ : BufTy).Contents (Elt Ideal) → (⟨S_, .f32⟩ : BufTy).Contents (Elt Ideal) → (⟨S_, .f32⟩ : BufTy).Contents (Elt Ideal)) (nK_main_v332 m c) (nK_main_v374 m c) := kq_main_v375 m c
theorem nkq_main_v376 : nK_main_v376 m c = (mulf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)) (nK_main_arg5 m c) (nK_main_arg5 m c) := kq_main_v376 m c
theorem nkq_main_cst_74 : nK_main_cst_74 m c = (constant (F := Ideal) S_ .f32 0x00000000#32) := kq_main_cst_74 m c
theorem nkq_main_v377 : nK_main_v377 m c = ((fun x v => Host.reduceAdd (F := Ideal) (φ := .f32) x v reducesTo_S100000x128_S_d0_1 h_S_) : (⟨S100000x128, .f32⟩ : BufTy).Contents (Elt Ideal) → (⟨S_, .f32⟩ : BufTy).Contents (Elt Ideal) → (⟨S_, .f32⟩ : BufTy).Contents (Elt Ideal)) (nK_main_v376 m c) (nK_main_cst_74 m c) := kq_main_v377 m c
theorem nkq_main_v378 : nK_main_v378 m c = (mulf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) (nK_main_arg6 m c) (nK_main_arg6 m c) := kq_main_v378 m c
theorem nkq_main_cst_75 : nK_main_cst_75 m c = (constant (F := Ideal) S_ .f32 0x00000000#32) := kq_main_cst_75 m c
theorem nkq_main_v379 : nK_main_v379 m c = ((fun x v => Host.reduceAdd (F := Ideal) (φ := .f32) x v reducesTo_S50000x128_S_d0_1 h_S_) : (⟨S50000x128, .f32⟩ : BufTy).Contents (Elt Ideal) → (⟨S_, .f32⟩ : BufTy).Contents (Elt Ideal) → (⟨S_, .f32⟩ : BufTy).Contents (Elt Ideal)) (nK_main_v378 m c) (nK_main_cst_75 m c) := kq_main_v379 m c
theorem nkq_main_v380 : nK_main_v380 m c = (addf (F := Ideal) (φ := .f32) : (⟨S_, .f32⟩ : BufTy).Contents (Elt Ideal) → (⟨S_, .f32⟩ : BufTy).Contents (Elt Ideal) → (⟨S_, .f32⟩ : BufTy).Contents (Elt Ideal)) (nK_main_v377 m c) (nK_main_v379 m c) := kq_main_v380 m c
theorem nkq_main_v381 : nK_main_v381 m c = (mulf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_arg7 m c) (nK_main_arg7 m c) := kq_main_v381 m c
theorem nkq_main_cst_76 : nK_main_cst_76 m c = (constant (F := Ideal) S_ .f32 0x00000000#32) := kq_main_cst_76 m c
theorem nkq_main_v382 : nK_main_v382 m c = ((fun x v => Host.reduceAdd (F := Ideal) (φ := .f32) x v reducesTo_S128x128_S_d0_1 h_S_) : (⟨S128x128, .f32⟩ : BufTy).Contents (Elt Ideal) → (⟨S_, .f32⟩ : BufTy).Contents (Elt Ideal) → (⟨S_, .f32⟩ : BufTy).Contents (Elt Ideal)) (nK_main_v381 m c) (nK_main_cst_76 m c) := kq_main_v382 m c
theorem nkq_main_v383 : nK_main_v383 m c = (addf (F := Ideal) (φ := .f32) : (⟨S_, .f32⟩ : BufTy).Contents (Elt Ideal) → (⟨S_, .f32⟩ : BufTy).Contents (Elt Ideal) → (⟨S_, .f32⟩ : BufTy).Contents (Elt Ideal)) (nK_main_v380 m c) (nK_main_v382 m c) := kq_main_v383 m c
theorem nkq_main_v384 : nK_main_v384 m c = (mulf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nK_main_arg8 m c) (nK_main_arg8 m c) := kq_main_v384 m c
theorem nkq_main_cst_77 : nK_main_cst_77 m c = (constant (F := Ideal) S_ .f32 0x00000000#32) := kq_main_cst_77 m c
theorem nkq_main_v385 : nK_main_v385 m c = ((fun x v => Host.reduceAdd (F := Ideal) (φ := .f32) x v reducesTo_S128x128_S_d0_1 h_S_) : (⟨S128x128, .f32⟩ : BufTy).Contents (Elt Ideal) → (⟨S_, .f32⟩ : BufTy).Contents (Elt Ideal) → (⟨S_, .f32⟩ : BufTy).Contents (Elt Ideal)) (nK_main_v384 m c) (nK_main_cst_77 m c) := kq_main_v385 m c
theorem nkq_main_v386 : nK_main_v386 m c = (addf (F := Ideal) (φ := .f32) : (⟨S_, .f32⟩ : BufTy).Contents (Elt Ideal) → (⟨S_, .f32⟩ : BufTy).Contents (Elt Ideal) → (⟨S_, .f32⟩ : BufTy).Contents (Elt Ideal)) (nK_main_v383 m c) (nK_main_v385 m c) := kq_main_v386 m c

end Cert.KernelIdeal.Fr

end
-- ==== Proof.KI.Val0.lean ====
import proofs.«126270_j6725918785969_1_alg».proof.Proof.KI.Reg0
import proofs.«126270_j6725918785969_1_alg».proof.Proof.Gen.ReferenceIdeal
import Idealize.ShloMosaic.Lib.Pipeline.Value
import Idealize.ShloMosaic.Lib.ValueIdx
import Idealize.ShloMosaic.PureOps.Ideal.Laws

/-!
# Region 0, read: the result array is the matrix product of the two input arrays

At the extended reals a change of float format is the identity and the matrix unit's contraction into a zero
accumulator is the plain sum over the contracted axis, so the body's payload at row `p`, column `q` of a block is
`∑ d, x0 (p, d) · x1 (d, q)`. The left factor's block at grid point `t` is rows `2000·t …` of its array and the right
factor's is the whole array, so what point `t` writes back is block `t` of rows of the product; the blocks cover the
rows (row `r` lies in block `r / 2000`), so the array ends holding the product. The product is stated twice: as the
host's `dot_general` of the two arrays (the form the reference computes it in) and entry by entry as the sum.
-/

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat)

theorem hz0 : (![0, 0] : Fin 2 → Nat) = fun _ => 0 := funext fun a => by fin_cases a <;> rfl

/-! ## The body's contraction at an index -/

/-- The left block's index at output index `i` and contraction position `q`: the output's row, -/
theorem lhs0_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- and the contraction position. -/
theorem lhs0_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right block's: the contraction position, -/
theorem rhs0_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- and the output's column. -/
theorem rhs0_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The body's payload at row `p`, column `q`: the sum over the contracted axis of the products of the left block's row
    and the right block's column (the change of format is the identity on the extended reals, the accumulator is zero). -/
theorem pay0_apply (x0 : Vec Ideal S2000x128 .f32) (x1 : Vec Ideal S128x128 .f32) (p : Fin 2000) (q : Fin 128) :
    k0_pay1 x0 x1 (ix2 p q) = ∑ d : Fin 128, x0 (ix2 p d) * x1 (ix2 d q) := by
  unfold k0_pay1
  refine (Ideal.matmul_constant_zero_apply dot_S2000x128_S128x128_S2000x128_1_0_0_1_n_n none _ _ (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs0_0 _ _
    | ⟨1, _⟩ => exact (lhs0_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs0_0 _ _).trans hk
    | ⟨1, _⟩ => exact rhs0_1 _ _)
  rw [el, er]
  rfl

/-! ## The host's product of the whole arrays at an index -/

/-- The left array's index at output index `i` and contraction position `q`: the output's row, -/
theorem hlhs0_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
/-- and the contraction position. -/
theorem hlhs0_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
/-- The right array's: the contraction position, -/
theorem hrhs0_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
/-- and the output's column. -/
theorem hrhs0_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The host's product of a [100000,128] array and a [128,128] array at row `r`, column `s`: the sum over the
    contracted axis, in the extended reals. -/
theorem host0_apply (a : FVec Ideal S100000x128 .f32) (b : FVec Ideal S128x128 .f32) (r : Fin 100000) (s : Fin 128) :
    Host.dotGeneral (F := Ideal) Cert.ReferenceIdeal.dot_S100000x128_S128x128_S100000x128_1_0_0_1_n_n none a b (ix2 r s) = ∑ d : Fin 128, a (ix2 r d) * b (ix2 d s) := by
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r s) ((contrEquiv1 Cert.ReferenceIdeal.dot_S100000x128_S128x128_S100000x128_1_0_0_1_n_n 128 rfl rfl).symm k) = ix2 r k := funext fun a => Fin.ext (by
    match a with
    | ⟨0, _⟩ => exact hlhs0_0 _ _
    | ⟨1, _⟩ => exact (hlhs0_1 _ _).trans hk)
  have er : Cert.ReferenceIdeal.dot_S100000x128_S128x128_S100000x128_1_0_0_1_n_n.rhsIdx (ix2 r s) ((contrEquiv1 Cert.ReferenceIdeal.dot_S100000x128_S128x128_S100000x128_1_0_0_1_n_n 128 rfl rfl).symm k) = ix2 k s := funext fun a => Fin.ext (by
    match a with
    | ⟨0, _⟩ => exact (hrhs0_0 _ _).trans hk
    | ⟨1, _⟩ => exact hrhs0_1 _ _)
  rw [el, er]

/-! ## One block of rows -/

/-- One block of rows of the product: when the left block `x0` holds rows `n·2000 …` of `A` and the right block is `B`,
    the payload at a block index is the product's entry at the array index in the same place. -/
theorem pay0_block (A : FVec Ideal S100000x128 .f32) (B : FVec Ideal S128x128 .f32)
    (x0 : Vec Ideal S2000x128 .f32) (x1 : Vec Ideal S128x128 .f32) (n : Nat) (y : S2000x128.Idx) (i : S100000x128.Idx)
    (hx0 : ∀ (p : Fin 2000) (d : Fin 128) (r : Fin 100000), r.val = n * 2000 + p.val → x0 (ix2 p d) = A (ix2 r d))
    (hx1 : ∀ (d q : Fin 128), x1 (ix2 d q) = B (ix2 d q))
    (hi0 : (i 0).val = n * 2000 + (y 0).val) (hi1 : (i 1).val = (y 1).val) :
    k0_pay1 x0 x1 y = Host.dotGeneral (F := Ideal) Cert.ReferenceIdeal.dot_S100000x128_S128x128_S100000x128_1_0_0_1_n_n none A B i := by
  obtain ⟨p, q, rfl⟩ : ∃ (p : Fin 2000) (q : Fin 128), y = ix2 p q := ⟨y 0, y 1, eq_ix2 y⟩
  obtain ⟨r, s, rfl⟩ : ∃ (r : Fin 100000) (s : Fin 128), i = ix2 r s := ⟨i 0, i 1, eq_ix2 i⟩
  have hs : s = q := Fin.ext hi1
  subst hs
  rw [pay0_apply, host0_apply]
  exact Finset.sum_congr rfl fun d _ => by rw [hx0 p d r hi0, hx1 d s]

/-! ## From blocks to the array -/

/-- The printed index maps over the grid: the left factor's and the result's blocks are block `t` of rows, the right
    factor's is the one block. -/
theorem rows0_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the product of the two arrays as the region finds them. -/
theorem flushed0_eq (c : Dev nD) (t : Fin cfg0.N) :
    (dat0 (F := Ideal) V c).flushed 2 t
      = ((cfg0.win 2).blk t).view.read (Elt Ideal) (Host.dotGeneral (F := Ideal) (φ₁ := .f32) (φ₂ := .f32) Cert.ReferenceIdeal.dot_S100000x128_S128x128_S100000x128_1_0_0_1_n_n none (V c main_arg5) (V c main_arg7)) := by
  show (cfg0.win 2).cut (grid0.coords t) ((dat0 V c).after 2 t) = _
  rw [after0_2]
  unfold out0_2
  rw [View.canon_unit_zero hz0]
  simp only [View.ld_unit_zero (S := S2000x128) hz0, View.ld_unit_zero (S := S128x128) hz0]
  obtain ⟨e0, e1, e2, e3, e4, e5⟩ := rows0_facts t
  funext j
  show k0_pay1 (iblk0 V c 0 t) (iblk0 V c 1 t) j = Host.dotGeneral (F := Ideal) (φ₁ := .f32) (φ₂ := .f32) Cert.ReferenceIdeal.dot_S100000x128_S128x128_S100000x128_1_0_0_1_n_n none (V c main_arg5) (V c main_arg7) (((cfg0.win 2).blk t).view.emb j)
  refine pay0_block (V c main_arg5) (V c main_arg7) (iblk0 V c 0 t) (iblk0 V c 1 t) t.val j (((cfg0.win 2).blk t).view.emb j) ?_ ?_ ?_ ?_
  · intro p d r hr
    show V c main_arg5 (((cfg0.win 0).blk t).view.emb (ix2 p d)) = V c main_arg5 (ix2 r d)
    refine congrArg (V c main_arg5) (funext fun a => Fin.ext ?_)
    match a with
    | ⟨0, _⟩ => show win0_0.index t (0 : Fin 2) * 2000 + 1 * p.val = r.val; omega
    | ⟨1, _⟩ => show win0_0.index t (1 : Fin 2) * 128 + 1 * d.val = d.val; omega
  · intro d q
    show V c main_arg7 (((cfg0.win 1).blk t).view.emb (ix2 d q)) = V c main_arg7 (ix2 d q)
    refine congrArg (V c main_arg7) (funext fun a => Fin.ext ?_)
    match a with
    | ⟨0, _⟩ => show win0_1.index t (0 : Fin 2) * 128 + 1 * d.val = d.val; omega
    | ⟨1, _⟩ => show win0_1.index t (1 : Fin 2) * 128 + 1 * q.val = q.val; omega
  · show win0_2.index t (0 : Fin 2) * 2000 + 1 * (j 0).val = t.val * 2000 + (j 0).val; omega
  · show win0_2.index t (1 : Fin 2) * 128 + 1 * (j 1).val = (j 1).val; omega

/-- An index of the result array is in point `t`'s block iff each coordinate is in the block's range on its axis. -/
theorem mem_rows0 (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- Every row is in some point's block: row `r` in that of point `r / 2000`. -/
theorem rows0_cover (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  have hN : grid0.N = 50 := N_0
  have ht : (i 0).val / 2000 < grid0.N := by rw [hN]; omega
  obtain ⟨e0, e1, e2, e3, e4, e5⟩ := rows0_facts ⟨(i 0).val / 2000, ht⟩
  have e4' : win0_2.index ⟨(i 0).val / 2000, ht⟩ (0 : Fin 2) = (i 0).val / 2000 := e4
  refine ⟨⟨(i 0).val / 2000, ht⟩, flush0_2 _, ?_⟩
  rw [mem_rows0]
  intro a
  match a with
  | ⟨0, _⟩ => show win0_2.index ⟨(i 0).val / 2000, ht⟩ (0 : Fin 2) * 2000 ≤ (i 0).val ∧ (i 0).val < win0_2.index ⟨(i 0).val / 2000, ht⟩ (0 : Fin 2) * 2000 + 2000; omega
  | ⟨1, _⟩ => show win0_2.index ⟨(i 0).val / 2000, ht⟩ (1 : Fin 2) * 128 ≤ (i 1).val ∧ (i 1).val < win0_2.index ⟨(i 0).val / 2000, ht⟩ (1 : Fin 2) * 128 + 128; omega

/-- The result array after the region is the host's product of the two input arrays as the region finds them, -/
theorem val0_host (c : Dev nD) :
    (dat0 (F := Ideal) V c).arrAt 2 cfg0.N = Host.dotGeneral (F := Ideal) (φ₁ := .f32) (φ₂ := .f32) Cert.ReferenceIdeal.dot_S100000x128_S128x128_S100000x128_1_0_0_1_n_n none (V c main_arg5) (V c main_arg7) :=
  (dat0 (F := Ideal) V c).arrAt_eq_of_cover 2 (Host.dotGeneral (F := Ideal) (φ₁ := .f32) (φ₂ := .f32) Cert.ReferenceIdeal.dot_S100000x128_S128x128_S100000x128_1_0_0_1_n_n none (V c main_arg5) (V c main_arg7)) (fun t _ => flushed0_eq V c t) rows0_cover

/-- that is, entry by entry, the sum over the contracted axis of the products (`A`, `B`: the two input arrays as the
    region finds them). -/
theorem val0_apply (c : Dev nD) (A : FVec Ideal S100000x128 .f32) (B : FVec Ideal S128x128 .f32)
    (hA : V c main_arg5 = A) (hB : V c main_arg7 = B) (r : Fin 100000) (s : Fin 128) :
    (dat0 (F := Ideal) V c).arrAt 2 cfg0.N (ix2 r s) = ∑ d : Fin 128, A (ix2 r d) * B (ix2 d s) := by
  rw [val0_host, hA, hB]
  exact host0_apply A B r s

end Cert.KernelIdeal.Fr

end
-- ==== Proof.KI.Val1.lean ====
import proofs.«126270_j6725918785969_1_alg».proof.Proof.KI.Reg1
import proofs.«126270_j6725918785969_1_alg».proof.Proof.Gen.ReferenceIdeal
import Idealize.ShloMosaic.Lib.Pipeline.Value
import Idealize.ShloMosaic.Lib.ValueIdx
import Idealize.ShloMosaic.PureOps.Ideal.Laws

/-!
# Region 1, read: the result array is the matrix product of the two input arrays

At the extended reals a change of float format is the identity and the matrix unit's contraction into a zero
accumulator is the plain sum over the contracted axis, so the body's payload at row `p`, column `q` of a block is
`∑ d, x0 (p, d) · x1 (d, q)`. The left factor's block at grid point `t` is rows `2000·t …` of its array and the right
factor's is the whole array, so what point `t` writes back is block `t` of rows of the product; the blocks cover the
rows (row `r` lies in block `r / 2000`), so the array ends holding the product. The product is stated twice: as the
host's `dot_general` of the two arrays (the form the reference computes it in) and entry by entry as the sum.
-/

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat)

theorem hz1 : (![0, 0] : Fin 2 → Nat) = fun _ => 0 := funext fun a => by fin_cases a <;> rfl

/-! ## The body's contraction at an index -/

/-- The left block's index at output index `i` and contraction position `q`: the output's row, -/
theorem lhs1_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- and the contraction position. -/
theorem lhs1_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right block's: the contraction position, -/
theorem rhs1_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- and the output's column. -/
theorem rhs1_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The body's payload at row `p`, column `q`: the sum over the contracted axis of the products of the left block's row
    and the right block's column (the change of format is the identity on the extended reals, the accumulator is zero). -/
theorem pay1_apply (x0 : Vec Ideal S2000x128 .f32) (x1 : Vec Ideal S128x128 .f32) (p : Fin 2000) (q : Fin 128) :
    k1_pay1 x0 x1 (ix2 p q) = ∑ d : Fin 128, x0 (ix2 p d) * x1 (ix2 d q) := by
  unfold k1_pay1
  refine (Ideal.matmul_constant_zero_apply dot_S2000x128_S128x128_S2000x128_1_0_0_1_n_n none _ _ (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs1_0 _ _
    | ⟨1, _⟩ => exact (lhs1_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs1_0 _ _).trans hk
    | ⟨1, _⟩ => exact rhs1_1 _ _)
  rw [el, er]
  rfl

/-! ## The host's product of the whole arrays at an index -/

/-- The left array's index at output index `i` and contraction position `q`: the output's row, -/
theorem hlhs1_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
/-- and the contraction position. -/
theorem hlhs1_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
/-- The right array's: the contraction position, -/
theorem hrhs1_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
/-- and the output's column. -/
theorem hrhs1_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

/-- The host's product of a [50000,128] array and a [128,128] array at row `r`, column `s`: the sum over the
    contracted axis, in the extended reals. -/
theorem host1_apply (a : FVec Ideal S50000x128 .f32) (b : FVec Ideal S128x128 .f32) (r : Fin 50000) (s : Fin 128) :
    Host.dotGeneral (F := Ideal) Cert.ReferenceIdeal.dot_S50000x128_S128x128_S50000x128_1_0_0_1_n_n none a b (ix2 r s) = ∑ d : Fin 128, a (ix2 r d) * b (ix2 d s) := by
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 r s) ((contrEquiv1 Cert.ReferenceIdeal.dot_S50000x128_S128x128_S50000x128_1_0_0_1_n_n 128 rfl rfl).symm k) = ix2 r k := funext fun a => Fin.ext (by
    match a with
    | ⟨0, _⟩ => exact hlhs1_0 _ _
    | ⟨1, _⟩ => exact (hlhs1_1 _ _).trans hk)
  have er : Cert.ReferenceIdeal.dot_S50000x128_S128x128_S50000x128_1_0_0_1_n_n.rhsIdx (ix2 r s) ((contrEquiv1 Cert.ReferenceIdeal.dot_S50000x128_S128x128_S50000x128_1_0_0_1_n_n 128 rfl rfl).symm k) = ix2 k s := funext fun a => Fin.ext (by
    match a with
    | ⟨0, _⟩ => exact (hrhs1_0 _ _).trans hk
    | ⟨1, _⟩ => exact hrhs1_1 _ _)
  rw [el, er]

/-! ## One block of rows -/

/-- One block of rows of the product: when the left block `x0` holds rows `n·2000 …` of `A` and the right block is `B`,
    the payload at a block index is the product's entry at the array index in the same place. -/
theorem pay1_block (A : FVec Ideal S50000x128 .f32) (B : FVec Ideal S128x128 .f32)
    (x0 : Vec Ideal S2000x128 .f32) (x1 : Vec Ideal S128x128 .f32) (n : Nat) (y : S2000x128.Idx) (i : S50000x128.Idx)
    (hx0 : ∀ (p : Fin 2000) (d : Fin 128) (r : Fin 50000), r.val = n * 2000 + p.val → x0 (ix2 p d) = A (ix2 r d))
    (hx1 : ∀ (d q : Fin 128), x1 (ix2 d q) = B (ix2 d q))
    (hi0 : (i 0).val = n * 2000 + (y 0).val) (hi1 : (i 1).val = (y 1).val) :
    k1_pay1 x0 x1 y = Host.dotGeneral (F := Ideal) Cert.ReferenceIdeal.dot_S50000x128_S128x128_S50000x128_1_0_0_1_n_n none A B i := by
  obtain ⟨p, q, rfl⟩ : ∃ (p : Fin 2000) (q : Fin 128), y = ix2 p q := ⟨y 0, y 1, eq_ix2 y⟩
  obtain ⟨r, s, rfl⟩ : ∃ (r : Fin 50000) (s : Fin 128), i = ix2 r s := ⟨i 0, i 1, eq_ix2 i⟩
  have hs : s = q := Fin.ext hi1
  subst hs
  rw [pay1_apply, host1_apply]
  exact Finset.sum_congr rfl fun d _ => by rw [hx0 p d r hi0, hx1 d s]

/-! ## From blocks to the array -/

/-- The printed index maps over the grid: the left factor's and the result's blocks are block `t` of rows, the right
    factor's is the one block. -/
theorem rows1_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point `t` writes back is block `t` of the product of the two arrays as the region finds them. -/
theorem flushed1_eq (c : Dev nD) (t : Fin cfg1.N) :
    (dat1 (F := Ideal) V c).flushed 2 t
      = ((cfg1.win 2).blk t).view.read (Elt Ideal) (Host.dotGeneral (F := Ideal) (φ₁ := .f32) (φ₂ := .f32) Cert.ReferenceIdeal.dot_S50000x128_S128x128_S50000x128_1_0_0_1_n_n none (V c main_arg6) (V c main_arg8)) := by
  show (cfg1.win 2).cut (grid1.coords t) ((dat1 V c).after 2 t) = _
  rw [after1_2]
  unfold out1_2
  rw [View.canon_unit_zero hz1]
  simp only [View.ld_unit_zero (S := S2000x128) hz1, View.ld_unit_zero (S := S128x128) hz1]
  obtain ⟨e0, e1, e2, e3, e4, e5⟩ := rows1_facts t
  funext j
  show k1_pay1 (iblk1 V c 0 t) (iblk1 V c 1 t) j = Host.dotGeneral (F := Ideal) (φ₁ := .f32) (φ₂ := .f32) Cert.ReferenceIdeal.dot_S50000x128_S128x128_S50000x128_1_0_0_1_n_n none (V c main_arg6) (V c main_arg8) (((cfg1.win 2).blk t).view.emb j)
  refine pay1_block (V c main_arg6) (V c main_arg8) (iblk1 V c 0 t) (iblk1 V c 1 t) t.val j (((cfg1.win 2).blk t).view.emb j) ?_ ?_ ?_ ?_
  · intro p d r hr
    show V c main_arg6 (((cfg1.win 0).blk t).view.emb (ix2 p d)) = V c main_arg6 (ix2 r d)
    refine congrArg (V c main_arg6) (funext fun a => Fin.ext ?_)
    match a with
    | ⟨0, _⟩ => show win1_0.index t (0 : Fin 2) * 2000 + 1 * p.val = r.val; omega
    | ⟨1, _⟩ => show win1_0.index t (1 : Fin 2) * 128 + 1 * d.val = d.val; omega
  · intro d q
    show V c main_arg8 (((cfg1.win 1).blk t).view.emb (ix2 d q)) = V c main_arg8 (ix2 d q)
    refine congrArg (V c main_arg8) (funext fun a => Fin.ext ?_)
    match a with
    | ⟨0, _⟩ => show win1_1.index t (0 : Fin 2) * 128 + 1 * d.val = d.val; omega
    | ⟨1, _⟩ => show win1_1.index t (1 : Fin 2) * 128 + 1 * q.val = q.val; omega
  · show win1_2.index t (0 : Fin 2) * 2000 + 1 * (j 0).val = t.val * 2000 + (j 0).val; omega
  · show win1_2.index t (1 : Fin 2) * 128 + 1 * (j 1).val = (j 1).val; omega

/-- An index of the result array is in point `t`'s block iff each coordinate is in the block's range on its axis. -/
theorem mem_rows1 (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v1).slice (win1_2.rect t)).set ↔ _
  rw [View.set_slice_whole, Rect.mem_set_unit]
  exact Iff.rfl

/-- Every row is in some point's block: row `r` in that of point `r / 2000`. -/
theorem rows1_cover (i : S50000x128.Idx) :
    ∃ t : Fin cfg1.N, (cfg1.win 2).flush t = true ∧ i ∈ ((cfg1.win 2).blk t).view.set := by
  have hi0 : (i 0).val < 50000 := idx2_lt0 i
  have hi1 : (i 1).val < 128 := idx2_lt1 i
  have hN : grid1.N = 25 := N_1
  have ht : (i 0).val / 2000 < grid1.N := by rw [hN]; omega
  obtain ⟨e0, e1, e2, e3, e4, e5⟩ := rows1_facts ⟨(i 0).val / 2000, ht⟩
  have e4' : win1_2.index ⟨(i 0).val / 2000, ht⟩ (0 : Fin 2) = (i 0).val / 2000 := e4
  refine ⟨⟨(i 0).val / 2000, ht⟩, flush1_2 _, ?_⟩
  rw [mem_rows1]
  intro a
  match a with
  | ⟨0, _⟩ => show win1_2.index ⟨(i 0).val / 2000, ht⟩ (0 : Fin 2) * 2000 ≤ (i 0).val ∧ (i 0).val < win1_2.index ⟨(i 0).val / 2000, ht⟩ (0 : Fin 2) * 2000 + 2000; omega
  | ⟨1, _⟩ => show win1_2.index ⟨(i 0).val / 2000, ht⟩ (1 : Fin 2) * 128 ≤ (i 1).val ∧ (i 1).val < win1_2.index ⟨(i 0).val / 2000, ht⟩ (1 : Fin 2) * 128 + 128; omega

/-- The result array after the region is the host's product of the two input arrays as the region finds them, -/
theorem val1_host (c : Dev nD) :
    (dat1 (F := Ideal) V c).arrAt 2 cfg1.N = Host.dotGeneral (F := Ideal) (φ₁ := .f32) (φ₂ := .f32) Cert.ReferenceIdeal.dot_S50000x128_S128x128_S50000x128_1_0_0_1_n_n none (V c main_arg6) (V c main_arg8) :=
  (dat1 (F := Ideal) V c).arrAt_eq_of_cover 2 (Host.dotGeneral (F := Ideal) (φ₁ := .f32) (φ₂ := .f32) Cert.ReferenceIdeal.dot_S50000x128_S128x128_S50000x128_1_0_0_1_n_n none (V c main_arg6) (V c main_arg8)) (fun t _ => flushed1_eq V c t) rows1_cover

/-- that is, entry by entry, the sum over the contracted axis of the products (`A`, `B`: the two input arrays as the
    region finds them). -/
theorem val1_apply (c : Dev nD) (A : FVec Ideal S50000x128 .f32) (B : FVec Ideal S128x128 .f32)
    (hA : V c main_arg6 = A) (hB : V c main_arg8 = B) (r : Fin 50000) (s : Fin 128) :
    (dat1 (F := Ideal) V c).arrAt 2 cfg1.N (ix2 r s) = ∑ d : Fin 128, A (ix2 r d) * B (ix2 d s) := by
  rw [val1_host, hA, hB]
  exact host1_apply A B r s

end Cert.KernelIdeal.Fr

end
-- ==== Proof.KI.Val2.lean ====
import proofs.«126270_j6725918785969_1_alg».proof.Proof.KI.Reg2
import proofs.«126270_j6725918785969_1_alg».proof.Proof.Gen.ReferenceIdeal
import Idealize.ShloMosaic.Lib.Pipeline.Value
import Idealize.ShloMosaic.Lib.ValueIdx
import Idealize.ShloMosaic.PureOps.Ideal.Laws

/-!
# Region 2, read: the result array is `max (0.5 · x) x` of the input array, entry by entry

The body's payload is pointwise: at every index of a block, the larger of the input's entry and half of it. The
input's and the result's blocks at grid point `t` are both rows `2000·t …` of their arrays, so what point `t` writes
back is block `t` of rows of the pointwise function of the whole input array; the blocks cover the rows (row `r`
lies in block `r / 2000`). The result is stated twice: as the host's operations on the whole array (a scalar one half
broadcast, times the array, maximum with the array) and entry by entry.
-/

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat)

theorem hz2 : (![0, 0] : Fin 2 → Nat) = fun _ => 0 := funext fun a => by fin_cases a <;> rfl

/-- The body's payload at an index: the larger of the entry and half of it (the half is the same float word on
    both sides, never evaluated). -/
theorem pay2_apply (x0 : Vec Ideal S2000x128 .f32) (y : S2000x128.Idx) :
    k2_pay1 x0 y = max (Ideal.ofBits .f32 0x3F000000#32 * x0 y) (x0 y) := by
  unfold k2_pay1
  rw [shapeCast_self]
  rfl

/-- The host's form of the same on a whole [100000,128] array, at an index. -/
theorem host2_apply (A : FVec Ideal S100000x128 .f32) (i : S100000x128.Idx) :
    (maximumf (F := Ideal) (mulf (F := Ideal) (broadcastInDim Cert.ReferenceIdeal.S100000x128 ![] Cert.ReferenceIdeal.Facts₀.bcast_S_S100000x128 (constant (F := Ideal) Cert.ReferenceIdeal.S_ .f32 0x3F000000#32)) A) A) i = max (Ideal.ofBits .f32 0x3F000000#32 * A i) (A i) := rfl

/-- One block of rows: when the block `x0` holds rows `n·2000 …` of `A`, the payload at a block index is the host's
    term of `A` at the array index in the same place. -/
theorem pay2_block (A : FVec Ideal S100000x128 .f32) (x0 : Vec Ideal S2000x128 .f32) (y : S2000x128.Idx) (i : S100000x128.Idx)
    (hx0 : x0 y = A i) :
    k2_pay1 x0 y = (maximumf (F := Ideal) (mulf (F := Ideal) (broadcastInDim Cert.ReferenceIdeal.S100000x128 ![] Cert.ReferenceIdeal.Facts₀.bcast_S_S100000x128 (constant (F := Ideal) Cert.ReferenceIdeal.S_ .f32 0x3F000000#32)) A) A) i := by
  rw [pay2_apply, host2_apply, hx0]

/-! ## From blocks to the array -/

/-- The printed index maps over the grid: the input's and the result's blocks are block `t` of rows. -/
theorem rows2_facts : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

variable (V : (c : Dev nD) → (b : Ref sig .tc) → Buf (Elt Ideal) ((c : Thread nD τ).loc b))

/-- What point `t` writes back is block `t` of the pointwise function of the input array as the region finds it. -/
theorem flushed2_eq (c : Dev nD) (t : Fin cfg2.N) :
    (dat2 (F := Ideal) V c).flushed 1 t
      = ((cfg2.win 1).blk t).view.read (Elt Ideal) (maximumf (F := Ideal) (mulf (F := Ideal) (broadcastInDim Cert.ReferenceIdeal.S100000x128 ![] Cert.ReferenceIdeal.Facts₀.bcast_S_S100000x128 (constant (F := Ideal) Cert.ReferenceIdeal.S_ .f32 0x3F000000#32)) (V c main_v14)) (V c main_v14)) := by
  show (cfg2.win 1).cut (grid2.coords t) ((dat2 V c).after 1 t) = _
  rw [after2_1]
  unfold out2_1
  rw [View.canon_unit_zero hz2]
  simp only [View.ld_unit_zero (S := S2000x128) hz2]
  obtain ⟨e0, e1, e2, e3⟩ := rows2_facts t
  funext j
  show k2_pay1 (iblk2 V c 0 t) j = (maximumf (F := Ideal) (mulf (F := Ideal) (broadcastInDim Cert.ReferenceIdeal.S100000x128 ![] Cert.ReferenceIdeal.Facts₀.bcast_S_S100000x128 (constant (F := Ideal) Cert.ReferenceIdeal.S_ .f32 0x3F000000#32)) (V c main_v14)) (V c main_v14)) (((cfg2.win 1).blk t).view.emb j)
  refine pay2_block (V c main_v14) (iblk2 V c 0 t) j (((cfg2.win 1).blk t).view.emb j) ?_
  show V c main_v14 (((cfg2.win 0).blk t).view.emb j) = V c main_v14 (((cfg2.win 1).blk t).view.emb j)
  refine congrArg (V c main_v14) (funext fun a => Fin.ext ?_)
  match a with
  | ⟨0, _⟩ => show win2_0.index t (0 : Fin 2) * 2000 + 1 * (j 0).val = win2_1.index t (0 : Fin 2) * 2000 + 1 * (j 0).val; omega
  | ⟨1, _⟩ => show win2_0.index t (1 : Fin 2) * 128 + 1 * (j 1).val = win2_1.index t (1 : Fin 2) * 128 + 1 * (j 1).val; omega

/-- An index of the result array is in point `t`'s block iff each coordinate is in the block's range on its axis. -/
theorem mem_rows2 (t : Fin cfg2.N) (i : S100000x128.Idx) :
    i ∈ ((cfg2.win 1).blk t).view.set ↔ ∀ a : Fin 2, win2_1.index t a * S2000x128.size a ≤ (i a).val ∧ (i a).val < win2_1.index t a * S2000x128.size a + S2000x128.size a := by
  show i ∈ ((View.whole main_v28).slice (win2_1.rect t)).set ↔ _
  rw [View.set_slice_whole, Rect.mem_set_unit]
  exact Iff.rfl

/-- Every row is in some point's block: row `r` in that of point `r / 2000`. -/
theorem rows2_cover (i : S100000x128.Idx) :
    ∃ t : Fin cfg2.N, (cfg2.win 1).flush t = true ∧ i ∈ ((cfg2.win 1).blk t).view.set := by
  have hi0 : (i 0).val < 100000 := idx2_lt0 i
  have hi1 : (i 1).val < 128 := idx2_lt1 i
  have hN : grid2.N = 50 := N_2
  have ht : (i 0).val / 2000 < grid2.N := by rw [hN]; omega
  obtain ⟨e0, e1, e2, e3⟩ := rows2_facts ⟨(i 0).val / 2000, ht⟩
  have e2' : win2_1.index ⟨(i 0).val / 2000, ht⟩ (0 : Fin 2) = (i 0).val / 2000 := e2
  refine ⟨⟨(i 0).val / 2000, ht⟩, flush2_1 _, ?_⟩
  rw [mem_rows2]
  intro a
  match a with
  | ⟨0, _⟩ => show win2_1.index ⟨(i 0).val / 2000, ht⟩ (0 : Fin 2) * 2000 ≤ (i 0).val ∧ (i 0).val < win2_1.index ⟨(i 0).val / 2000, ht⟩ (0 : Fin 2) * 2000 + 2000; omega
  | ⟨1, _⟩ => show win2_1.index ⟨(i 0).val / 2000, ht⟩ (1 : Fin 2) * 128 ≤ (i 1).val ∧ (i 1).val < win2_1.index ⟨(i 0).val / 2000, ht⟩ (1 : Fin 2) * 128 + 128; omega

/-- The result array after the region is the host's `max (0.5 · x) x` of the input array as the region finds it, -/
theorem val2_host (c : Dev nD) :
    (dat2 (F := Ideal) V c).arrAt 1 cfg2.N = maximumf (F := Ideal) (mulf (F := Ideal) (broadcastInDim Cert.ReferenceIdeal.S100000x128 ![] Cert.ReferenceIdeal.Facts₀.bcast_S_S100000x128 (constant (F := Ideal) Cert.ReferenceIdeal.S_ .f32 0x3F000000#32)) (V c main_v14)) (V c main_v14) :=
  (dat2 (F := Ideal) V c).arrAt_eq_of_cover 1 (maximumf (F := Ideal) (mulf (F := Ideal) (broadcastInDim Cert.ReferenceIdeal.S100000x128 ![] Cert.ReferenceIdeal.Facts₀.bcast_S_S100000x128 (constant (F := Ideal) Cert.ReferenceIdeal.S_ .f32 0x3F000000#32)) (V c main_v14)) (V c main_v14)) (fun t _ => flushed2_eq V c t) rows2_cover

/-- that is, entry by entry, the larger of the input's entry and half of it (`A`: the input array as the region finds it). -/
theorem val2_apply (c : Dev nD) (A : FVec Ideal S100000x128 .f32) (hA : V c main_v14 = A) (i : S100000x128.Idx) :
    (dat2 (F := Ideal) V c).arrAt 1 cfg2.N i = max (Ideal.ofBits .f32 0x3F000000#32 * A i) (A i) := by
  rw [val2_host, hA]
  rfl

end Cert.KernelIdeal.Fr

end
-- ==== Proof.KI.Val3.lean ====
import proofs.«126270_j6725918785969_1_alg».proof.Proof.KI.Reg3
import proofs.«126270_j6725918785969_1_alg».proof.Proof.Gen.ReferenceIdeal
import Idealize.ShloMosaic.Lib.Pipeline.Value
import Idealize.ShloMosaic.Lib.ValueIdx
import Idealize.ShloMosaic.PureOps.Ideal.Laws

/-!
# Region 3, read: the result array is `max (0.5 · x) x` of the input array, entry by entry

The body's payload is pointwise: at every index of a block, the larger of the input's entry and half of it. The
input's and the result's blocks at grid point `t` are both rows `2000·t …` of their arrays, so what point `t` writes
back is block `t` of rows of the pointwise function of the whole input array; the blocks cover the rows (row `r`
lies in block `r / 2000`). The result is stated twice: as the host's operations on the whole array (a scalar one half
broadcast, times the array, maximum with the array) and entry by entry.
-/

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat)

theorem hz3 : (![0, 0] : Fin 2 → Nat) = fun _ => 0 := funext fun a => by fin_cases a <;> rfl

/-- The body's payload at an index: the larger of the entry and half of it (the half is the same float word on
    both sides, never evaluated). -/
theorem pay3_apply (x0 : Vec Ideal S2000x128 .f32) (y : S2000x128.Idx) :
    k3_pay1 x0 y = max (Ideal.ofBits .f32 0x3F000000#32 * x0 y) (x0 y) := by
  unfold k3_pay1
  rw [shapeCast_self]
  rfl

/-- The host's form of the same on a whole [50000,128] array, at an index. -/
theorem host3_apply (A : FVec Ideal S50000x128 .f32) (i : S50000x128.Idx) :
    (maximumf (F := Ideal) (mulf (F := Ideal) (broadcastInDim Cert.ReferenceIdeal.S50000x128 ![] Cert.ReferenceIdeal.Facts₀.bcast_S_S50000x128 (constant (F := Ideal) Cert.ReferenceIdeal.S_ .f32 0x3F000000#32)) A) A) i = max (Ideal.ofBits .f32 0x3F000000#32 * A i) (A i) := rfl

/-- One block of rows: when the block `x0` holds rows `n·2000 …` of `A`, the payload at a block index is the host's
    term of `A` at the array index in the same place. -/
theorem pay3_block (A : FVec Ideal S50000x128 .f32) (x0 : Vec Ideal S2000x128 .f32) (y : S2000x128.Idx) (i : S50000x128.Idx)
    (hx0 : x0 y = A i) :
    k3_pay1 x0 y = (maximumf (F := Ideal) (mulf (F := Ideal) (broadcastInDim Cert.ReferenceIdeal.S50000x128 ![] Cert.ReferenceIdeal.Facts₀.bcast_S_S50000x128 (constant (F := Ideal) Cert.ReferenceIdeal.S_ .f32 0x3F000000#32)) A) A) i := by
  rw [pay3_apply, host3_apply, hx0]

/-! ## From blocks to the array -/

/-- The printed index maps over the grid: the input's and the result's blocks are block `t` of rows. -/
theorem rows3_facts : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

variable (V : (c : Dev nD) → (b : Ref sig .tc) → Buf (Elt Ideal) ((c : Thread nD τ).loc b))

/-- What point `t` writes back is block `t` of the pointwise function of the input array as the region finds it. -/
theorem flushed3_eq (c : Dev nD) (t : Fin cfg3.N) :
    (dat3 (F := Ideal) V c).flushed 1 t
      = ((cfg3.win 1).blk t).view.read (Elt Ideal) (maximumf (F := Ideal) (mulf (F := Ideal) (broadcastInDim Cert.ReferenceIdeal.S50000x128 ![] Cert.ReferenceIdeal.Facts₀.bcast_S_S50000x128 (constant (F := Ideal) Cert.ReferenceIdeal.S_ .f32 0x3F000000#32)) (V c main_v27)) (V c main_v27)) := by
  show (cfg3.win 1).cut (grid3.coords t) ((dat3 V c).after 1 t) = _
  rw [after3_1]
  unfold out3_1
  rw [View.canon_unit_zero hz3]
  simp only [View.ld_unit_zero (S := S2000x128) hz3]
  obtain ⟨e0, e1, e2, e3⟩ := rows3_facts t
  funext j
  show k3_pay1 (iblk3 V c 0 t) j = (maximumf (F := Ideal) (mulf (F := Ideal) (broadcastInDim Cert.ReferenceIdeal.S50000x128 ![] Cert.ReferenceIdeal.Facts₀.bcast_S_S50000x128 (constant (F := Ideal) Cert.ReferenceIdeal.S_ .f32 0x3F000000#32)) (V c main_v27)) (V c main_v27)) (((cfg3.win 1).blk t).view.emb j)
  refine pay3_block (V c main_v27) (iblk3 V c 0 t) j (((cfg3.win 1).blk t).view.emb j) ?_
  show V c main_v27 (((cfg3.win 0).blk t).view.emb j) = V c main_v27 (((cfg3.win 1).blk t).view.emb j)
  refine congrArg (V c main_v27) (funext fun a => Fin.ext ?_)
  match a with
  | ⟨0, _⟩ => show win3_0.index t (0 : Fin 2) * 2000 + 1 * (j 0).val = win3_1.index t (0 : Fin 2) * 2000 + 1 * (j 0).val; omega
  | ⟨1, _⟩ => show win3_0.index t (1 : Fin 2) * 128 + 1 * (j 1).val = win3_1.index t (1 : Fin 2) * 128 + 1 * (j 1).val; omega

/-- An index of the result array is in point `t`'s block iff each coordinate is in the block's range on its axis. -/
theorem mem_rows3 (t : Fin cfg3.N) (i : S50000x128.Idx) :
    i ∈ ((cfg3.win 1).blk t).view.set ↔ ∀ a : Fin 2, win3_1.index t a * S2000x128.size a ≤ (i a).val ∧ (i a).val < win3_1.index t a * S2000x128.size a + S2000x128.size a := by
  show i ∈ ((View.whole main_v29).slice (win3_1.rect t)).set ↔ _
  rw [View.set_slice_whole, Rect.mem_set_unit]
  exact Iff.rfl

/-- Every row is in some point's block: row `r` in that of point `r / 2000`. -/
theorem rows3_cover (i : S50000x128.Idx) :
    ∃ t : Fin cfg3.N, (cfg3.win 1).flush t = true ∧ i ∈ ((cfg3.win 1).blk t).view.set := by
  have hi0 : (i 0).val < 50000 := idx2_lt0 i
  have hi1 : (i 1).val < 128 := idx2_lt1 i
  have hN : grid3.N = 25 := N_3
  have ht : (i 0).val / 2000 < grid3.N := by rw [hN]; omega
  obtain ⟨e0, e1, e2, e3⟩ := rows3_facts ⟨(i 0).val / 2000, ht⟩
  have e2' : win3_1.index ⟨(i 0).val / 2000, ht⟩ (0 : Fin 2) = (i 0).val / 2000 := e2
  refine ⟨⟨(i 0).val / 2000, ht⟩, flush3_1 _, ?_⟩
  rw [mem_rows3]
  intro a
  match a with
  | ⟨0, _⟩ => show win3_1.index ⟨(i 0).val / 2000, ht⟩ (0 : Fin 2) * 2000 ≤ (i 0).val ∧ (i 0).val < win3_1.index ⟨(i 0).val / 2000, ht⟩ (0 : Fin 2) * 2000 + 2000; omega
  | ⟨1, _⟩ => show win3_1.index ⟨(i 0).val / 2000, ht⟩ (1 : Fin 2) * 128 ≤ (i 1).val ∧ (i 1).val < win3_1.index ⟨(i 0).val / 2000, ht⟩ (1 : Fin 2) * 128 + 128; omega

/-- The result array after the region is the host's `max (0.5 · x) x` of the input array as the region finds it, -/
theorem val3_host (c : Dev nD) :
    (dat3 (F := Ideal) V c).arrAt 1 cfg3.N = maximumf (F := Ideal) (mulf (F := Ideal) (broadcastInDim Cert.ReferenceIdeal.S50000x128 ![] Cert.ReferenceIdeal.Facts₀.bcast_S_S50000x128 (constant (F := Ideal) Cert.ReferenceIdeal.S_ .f32 0x3F000000#32)) (V c main_v27)) (V c main_v27) :=
  (dat3 (F := Ideal) V c).arrAt_eq_of_cover 1 (maximumf (F := Ideal) (mulf (F := Ideal) (broadcastInDim Cert.ReferenceIdeal.S50000x128 ![] Cert.ReferenceIdeal.Facts₀.bcast_S_S50000x128 (constant (F := Ideal) Cert.ReferenceIdeal.S_ .f32 0x3F000000#32)) (V c main_v27)) (V c main_v27)) (fun t _ => flushed3_eq V c t) rows3_cover

/-- that is, entry by entry, the larger of the input's entry and half of it (`A`: the input array as the region finds it). -/
theorem val3_apply (c : Dev nD) (A : FVec Ideal S50000x128 .f32) (hA : V c main_v27 = A) (i : S50000x128.Idx) :
    (dat3 (F := Ideal) V c).arrAt 1 cfg3.N i = max (Ideal.ofBits .f32 0x3F000000#32 * A i) (A i) := by
  rw [val3_host, hA]
  rfl

end Cert.KernelIdeal.Fr

end
-- ==== Proof.LibBlockSum.lean ====
/-
  Block decomposition of a finite sum: a sum over `Fin (a * b)` is the sum over the `a` consecutive
  blocks of length `b` of the sums inside each block.  Stated in any additive commutative monoid, and
  once more at the literal sizes `8192 = 8 * 1024` with no cast in the statement.
-/
import Mathlib.Algebra.BigOperators.Fin
import Mathlib.Logic.Equiv.Fin.Basic

open scoped BigOperators

namespace Cert.Math

/-- The position `b * i + p` of entry `p` of block `i` lies below `a * b`. -/
theorem block_index_lt {a b : ℕ} (i : Fin a) (p : Fin b) : b * i.val + p.val < a * b := by
  have hi : i.val + 1 ≤ a := i.isLt
  have hp : p.val < b := p.isLt
  calc b * i.val + p.val < b * i.val + b := Nat.add_lt_add_left hp _
    _ = (i.val + 1) * b := by rw [Nat.succ_mul, Nat.mul_comm]
    _ ≤ a * b := Nat.mul_le_mul_right _ hi

/-- A sum over `Fin (a * b)` split into `a` consecutive blocks of length `b`: the pair `(i, p)`
    names position `b * i + p`, and the pairs enumerate every position exactly once. -/
theorem sum_fin_mul {M : Type*} [AddCommMonoid M] (a b : ℕ) (f : Fin (a * b) → M) :
    ∑ r, f r = ∑ i : Fin a, ∑ p : Fin b, f ⟨b * i.val + p.val, block_index_lt i p⟩ := by
  rw [← Equiv.sum_comp (finProdFinEquiv (m := a) (n := b)) f, Fintype.sum_prod_type]
  refine Finset.sum_congr rfl fun i _ => Finset.sum_congr rfl fun p _ => ?_
  congr 1
  apply Fin.ext
  show p.val + b * i.val = b * i.val + p.val
  exact Nat.add_comm _ _

/-- The same at `8192 = 8 * 1024`: eight blocks of 1024 consecutive positions. -/
theorem sum_blocks_8192 {M : Type*} [AddCommMonoid M] (f : Fin 8192 → M) :
    ∑ r : Fin 8192, f r
      = ∑ i : Fin 8, ∑ p : Fin 1024,
          f ⟨1024 * i.val + p.val, by have := i.isLt; have := p.isLt; omega⟩ :=
  sum_fin_mul 8 1024 f

end Cert.Math
-- ==== Proof.KI.Val4.lean ====
import proofs.«126270_j6725918785969_1_alg».proof.Proof.KI.Reg4
import proofs.«126270_j6725918785969_1_alg».proof.Proof.Gen.ReferenceIdeal
import proofs.«126270_j6725918785969_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws

/-!
# Region 4, read: the result array is `max (0.5 · D) D` of `D = xᵀ · y`, the product of the two input arrays

At the extended reals a change of float format is the identity and the matrix unit's contraction into a zero
accumulator is the plain sum over the contracted axis, so the accumulating payload at row `p`, column `q` is what the
accumulator held there plus `∑ d, x0 (d, p) · x1 (d, q)` over the block's 2000 rows. Each input's block at grid point
`t` is rows `2000·t …` of its array, so after point `n` the accumulator's entry `(p, q)` is the sum over blocks
`0 … n` of those partial sums (by induction on the point: zero plus the first block's at the first point, what it held
plus the next block's afterwards); a sum over the 100000 rows is the sum over fifty blocks of 2000 consecutive rows,
so after the last point the accumulator holds the whole contraction `∑ r, x (r, p) · y (r, q)`, which is the host's
product of the transposed left array and the right array. The last point stores the larger of each entry and half of
it into the output's one block, which is the whole result array and is written back there and nowhere else.
-/

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat)

theorem hz4 : (![0, 0] : Fin 2 → Nat) = fun _ => 0 := funext fun a => by fin_cases a <;> rfl

/-! ## What each case leaves, in closed form -/

section AnyF
variable {F : FTy → Type} [FloatOps F]

/-- A load of a whole memref held at the raw contents that read `X`, through the whole-shape rectangle at zero
    offsets, reads `X`. -/
theorem readAt_whole4 {S : Shape} {e : EltTy} (m : Memref sig .tc .vmem S e) (h : m.IsWhole) (X : S.Idx → Elt F e)
    {off : Fin S.rank → Nat} (ho : off = fun _ => 0) (inb : ∀ a, off a + S.size a ≤ S.size a) :
    View.readAt (Elt F) m.view (Rect.unit off S.size inb).toLoadRect (h.unread X) = X := by
  show View.ld (m.view.read (Elt F) (h.unread X)) (Rect.unit off S.size inb) = X
  rw [h.read_unread, View.ld_unit_zero ho]

/-- The first point leaves the accumulator at zero plus the product of the two blocks. -/
theorem sout4_A_0_eq (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : cond4_0 i) (hc1 : ¬cond4_1 i)
    (x0 : Vec F S2000x128 .f32) (x1 : Vec F S2000x128 .f32) :
    sout4_A_0 c i arg1 harg1 arg2 harg2 arg3 harg3 arg4 harg4 hc0 hc1 x0 x1 = k4_pay2 x0 x1 (k4_pay1 (F := F)) := by
  unfold sout4_A_0
  rw [View.read_writes_eq_canon _ _ _ (scover4_A_0 c i arg1 harg1 arg2 harg2 arg3 harg3 arg4 harg4 hc0 hc1 x0 x1)]
  unfold kernelRun4_A
  dsimp only
  unfold kernelRun4_A.sl.v8 kernelRun4_A.sl.HS0_1
  rw [View.canon_cons_unit_zero hz4, View.readCov_unit_zero _ hz4]
  rw [readAt_whole4 arg1 harg1 x0 hz4, readAt_whole4 arg2 harg2 x1 hz4]

/-- A middle point leaves it at what it held plus the product of the two blocks. -/
theorem sout4_B_0_eq (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond4_0 i) (hc1 : ¬cond4_1 i)
    (x0 : Vec F S2000x128 .f32) (x1 : Vec F S2000x128 .f32) (xs0 : Vec F S128x128 .f32) :
    sout4_B_0 c i arg1 harg1 arg2 harg2 arg3 harg3 arg4 harg4 hc0 hc1 x0 x1 xs0 = k4_pay2 x0 x1 xs0 := by
  unfold sout4_B_0
  rw [View.read_writes_eq_canon _ _ _ (scover4_B_0 c i arg1 harg1 arg2 harg2 arg3 harg3 arg4 harg4 hc0 hc1 x0 x1 xs0)]
  unfold kernelRun4_B
  dsimp only
  rw [View.canon_unit_zero hz4]
  rw [readAt_whole4 arg1 harg1 x0 hz4, readAt_whole4 arg2 harg2 x1 hz4, readAt_whole4 arg4 harg4 xs0 hz4]

/-- The last point leaves the accumulator at what it held plus the product of the two blocks, -/
theorem sout4_C_0_eq (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond4_0 i) (hc1 : cond4_1 i)
    (x0 : Vec F S2000x128 .f32) (x1 : Vec F S2000x128 .f32) (xs0 : Vec F S128x128 .f32) :
    sout4_C_0 c i arg1 harg1 arg2 harg2 arg3 harg3 arg4 harg4 hc0 hc1 x0 x1 xs0 = k4_pay2 x0 x1 xs0 := by
  unfold sout4_C_0
  rw [View.read_writes_eq_canon _ _ _ (scover4_C_0 c i arg1 harg1 arg2 harg2 arg3 harg3 arg4 harg4 hc0 hc1 x0 x1 xs0)]
  unfold kernelRun4_C
  dsimp only
  unfold kernelRun4_C.sl.HS0_1
  rw [View.canon_unit_zero hz4]
  rw [readAt_whole4 arg1 harg1 x0 hz4, readAt_whole4 arg2 harg2 x1 hz4, readAt_whole4 arg4 harg4 xs0 hz4]

/-- and the output's buffer at the rectifier of that. -/
theorem out4_C_2_eq (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond4_0 i) (hc1 : cond4_1 i)
    (x0 : Vec F S2000x128 .f32) (x1 : Vec F S2000x128 .f32) (xs0 : Vec F S128x128 .f32) :
    out4_C_2 c i arg1 harg1 arg2 harg2 arg3 harg3 arg4 harg4 hc0 hc1 x0 x1 xs0 = k4_pay3 (k4_pay2 x0 x1 xs0) := by
  unfold out4_C_2
  rw [View.read_writes_eq_canon _ _ _ (cover4_C_2 c i arg1 harg1 arg2 harg2 arg3 harg3 arg4 harg4 hc0 hc1 x0 x1 xs0)]
  unfold kernelRun4_C
  dsimp only
  unfold kernelRun4_C.sl.v17 kernelRun4_C.sl.HS0_1
  rw [View.canon_unit_zero hz4, View.readCov_unit_zero _ hz4]
  rw [readAt_whole4 arg1 harg1 x0 hz4, readAt_whole4 arg2 harg2 x1 hz4, readAt_whole4 arg4 harg4 xs0 hz4]

end AnyF

/-! ## The body's payloads at an index, at the extended reals -/

/-- The left block's index at output index `i` and contraction position `k`: the contraction position, -/
theorem lhs4_0 (i : S128x128.Idx) (k : dot_S2000x128_S2000x128_S128x128_0_0_1_1_n_n.contr.Idx) :
    (dot_S2000x128_S2000x128_S128x128_0_0_1_1_n_n.lhsIdx i k 0).val = (k ⟨0, by decide⟩).val :=
  dot_S2000x128_S2000x128_S128x128_0_0_1_1_n_n.lhsIdx_val_of_single rfl i k
/-- and the output's row. -/
theorem lhs4_1 (i : S128x128.Idx) (k : dot_S2000x128_S2000x128_S128x128_0_0_1_1_n_n.contr.Idx) :
    (dot_S2000x128_S2000x128_S128x128_0_0_1_1_n_n.lhsIdx i k 1).val = (i 0).val := by
  unfold DotDims.lhsIdx
  rw [dif_neg (show ¬(1 : Fin S2000x128.rank) ∈ dot_S2000x128_S2000x128_S128x128_0_0_1_1_n_n.lhsBatch by decide), dif_pos (show (1 : Fin S2000x128.rank) ∈ dot_S2000x128_S2000x128_S128x128_0_0_1_1_n_n.lhsNonContracting by decide)]
  rfl
/-- The right block's: the contraction position, -/
theorem rhs4_0 (i : S128x128.Idx) (k : dot_S2000x128_S2000x128_S128x128_0_0_1_1_n_n.contr.Idx) :
    (dot_S2000x128_S2000x128_S128x128_0_0_1_1_n_n.rhsIdx i k 0).val = (k ⟨0, by decide⟩).val :=
  dot_S2000x128_S2000x128_S128x128_0_0_1_1_n_n.rhsIdx_val_of_single rfl i k
/-- and the output's column. -/
theorem rhs4_1 (i : S128x128.Idx) (k : dot_S2000x128_S2000x128_S128x128_0_0_1_1_n_n.contr.Idx) :
    (dot_S2000x128_S2000x128_S128x128_0_0_1_1_n_n.rhsIdx i k 1).val = (i 1).val := by
  unfold DotDims.rhsIdx
  rw [dif_neg (show ¬(1 : Fin S2000x128.rank) ∈ dot_S2000x128_S2000x128_S128x128_0_0_1_1_n_n.rhsBatch by decide), dif_pos (show (1 : Fin S2000x128.rank) ∈ dot_S2000x128_S2000x128_S128x128_0_0_1_1_n_n.rhsNonContracting by decide)]
  rfl

/-- The zeroing payload is zero everywhere. -/
theorem pay4_1_apply (y : S128x128.Idx) : k4_pay1 (F := Ideal) y = 0 := by
  unfold k4_pay1
  rw [shapeCast_self]
  exact Ideal.ofBits_zero_f32

/-- The accumulating payload at row `p`, column `q`: what the accumulator held there plus the sum over the block's
    2000 rows of the products of the left block's column `p` and the right block's column `q` (the change of format is
    the identity on the extended reals, the matrix unit's own accumulator is zero). -/
theorem pay4_2_apply (v3 v6 : Vec Ideal S2000x128 .f32) (v8 : Vec Ideal S128x128 .f32) (p q : Fin 128) :
    k4_pay2 v3 v6 v8 (ix2 p q) = v8 (ix2 p q) + ∑ d : Fin 2000, v3 (ix2 d p) * v6 (ix2 d q) := by
  unfold k4_pay2
  rw [shapeCast_self]
  show v8 (ix2 p q) + FloatOps.matmul (F := Ideal) dot_S2000x128_S2000x128_S128x128_0_0_1_1_n_n none _ _ (constant S128x128 .f32 0x00000000#32) (ix2 p q) = _
  rw [Ideal.matmul_constant_zero_apply]
  congr 1
  rw [← Equiv.sum_comp (contrEquiv1 dot_S2000x128_S2000x128_S128x128_0_0_1_1_n_n 2000 rfl rfl).symm]
  refine Finset.sum_congr rfl fun k _ => ?_
  have hk := contrEquiv1_symm_val dot_S2000x128_S2000x128_S128x128_0_0_1_1_n_n 2000 rfl rfl k
  have el : dot_S2000x128_S2000x128_S128x128_0_0_1_1_n_n.lhsIdx (ix2 p q) ((contrEquiv1 dot_S2000x128_S2000x128_S128x128_0_0_1_1_n_n 2000 rfl rfl).symm k) = ix2 k p := funext fun a => Fin.ext (by
    match a with
    | ⟨0, _⟩ => exact (lhs4_0 _ _).trans hk
    | ⟨1, _⟩ => exact lhs4_1 _ _)
  have er : dot_S2000x128_S2000x128_S128x128_0_0_1_1_n_n.rhsIdx (ix2 p q) ((contrEquiv1 dot_S2000x128_S2000x128_S128x128_0_0_1_1_n_n 2000 rfl rfl).symm k) = ix2 k q := funext fun a => Fin.ext (by
    match a with
    | ⟨0, _⟩ => exact (rhs4_0 _ _).trans hk
    | ⟨1, _⟩ => exact rhs4_1 _ _)
  rw [el, er, truncf_apply, truncf_apply, shapeCast_self]

/-- The rectifier payload at an index: the larger of the entry and half of it. -/
theorem pay4_3_apply (v : Vec Ideal S128x128 .f32) (y : S128x128.Idx) :
    k4_pay3 v y = max (Ideal.ofBits .f32 0x3F000000#32 * v y) (v y) := by
  unfold k4_pay3
  rfl

/-! ## The host's product of the transposed left array and the right array, at an index -/

/-- The left operand's index at output index `i` and contraction position `k`: the output's row, -/
theorem hlhs4_0 (i : Cert.ReferenceIdeal.S128x128.Idx) (k : Cert.ReferenceIdeal.dot_S128x100000_S100000x128_S128x128_1_0_0_1_n_n.contr.Idx) :
    (Cert.ReferenceIdeal.dot_S128x100000_S100000x128_S128x128_1_0_0_1_n_n.lhsIdx i k 0).val = (i 0).val := by
  unfold DotDims.lhsIdx
  rw [dif_neg (show ¬(0 : Fin Cert.ReferenceIdeal.S128x100000.rank) ∈ Cert.ReferenceIdeal.dot_S128x100000_S100000x128_S128x128_1_0_0_1_n_n.lhsBatch by decide), dif_pos (show (0 : Fin Cert.ReferenceIdeal.S128x100000.rank) ∈ Cert.ReferenceIdeal.dot_S128x100000_S100000x128_S128x128_1_0_0_1_n_n.lhsNonContracting by decide)]
  rfl
/-- and the contraction position. -/
theorem hlhs4_1 (i : Cert.ReferenceIdeal.S128x128.Idx) (k : Cert.ReferenceIdeal.dot_S128x100000_S100000x128_S128x128_1_0_0_1_n_n.contr.Idx) :
    (Cert.ReferenceIdeal.dot_S128x100000_S100000x128_S128x128_1_0_0_1_n_n.lhsIdx i k 1).val = (k ⟨0, by decide⟩).val :=
  Cert.ReferenceIdeal.dot_S128x100000_S100000x128_S128x128_1_0_0_1_n_n.lhsIdx_val_of_single rfl i k
/-- The right operand's: the contraction position, -/
theorem hrhs4_0 (i : Cert.ReferenceIdeal.S128x128.Idx) (k : Cert.ReferenceIdeal.dot_S128x100000_S100000x128_S128x128_1_0_0_1_n_n.contr.Idx) :
    (Cert.ReferenceIdeal.dot_S128x100000_S100000x128_S128x128_1_0_0_1_n_n.rhsIdx i k 0).val = (k ⟨0, by decide⟩).val :=
  Cert.ReferenceIdeal.dot_S128x100000_S100000x128_S128x128_1_0_0_1_n_n.rhsIdx_val_of_single rfl i k
/-- and the output's column. -/
theorem hrhs4_1 (i : Cert.ReferenceIdeal.S128x128.Idx) (k : Cert.ReferenceIdeal.dot_S128x100000_S100000x128_S128x128_1_0_0_1_n_n.contr.Idx) :
    (Cert.ReferenceIdeal.dot_S128x100000_S100000x128_S128x128_1_0_0_1_n_n.rhsIdx i k 1).val = (i 1).val := by
  unfold DotDims.rhsIdx
  rw [dif_neg (show ¬(1 : Fin Cert.ReferenceIdeal.S100000x128.rank) ∈ Cert.ReferenceIdeal.dot_S128x100000_S100000x128_S128x128_1_0_0_1_n_n.rhsBatch by decide), dif_pos (show (1 : Fin Cert.ReferenceIdeal.S100000x128.rank) ∈ Cert.ReferenceIdeal.dot_S128x100000_S100000x128_S128x128_1_0_0_1_n_n.rhsNonContracting by decide)]
  rfl

/-- The host's product of the transposed [100000,128] array and a [100000,128] array at row `p`, column `q`: the sum
    over the 100000 rows of the products of the two arrays' columns `p` and `q`. -/
theorem host4_apply (A B : FVec Ideal S100000x128 .f32) (p q : Fin 128) :
    Host.dotGeneral (F := Ideal) Cert.ReferenceIdeal.dot_S128x100000_S100000x128_S128x128_1_0_0_1_n_n none
        (transpose Cert.ReferenceIdeal.S128x100000 [1, 0] A Cert.ReferenceIdeal.Facts₀.transposes_S100000x128_S128x100000_1_0) B (ix2 p q)
      = ∑ r : Fin 100000, A (ix2 r p) * B (ix2 r q) := by
  simp only [Host.dotGeneral]
  rw [Ideal.dotGeneral_apply, ← Equiv.sum_comp (contrEquiv1 Cert.ReferenceIdeal.dot_S128x100000_S100000x128_S128x128_1_0_0_1_n_n 100000 rfl rfl).symm]
  refine Finset.sum_congr rfl fun k _ => ?_
  have hk := contrEquiv1_symm_val Cert.ReferenceIdeal.dot_S128x100000_S100000x128_S128x128_1_0_0_1_n_n 100000 rfl rfl k
  have el : Cert.ReferenceIdeal.dot_S128x100000_S100000x128_S128x128_1_0_0_1_n_n.lhsIdx (ix2 p q) ((contrEquiv1 Cert.ReferenceIdeal.dot_S128x100000_S100000x128_S128x128_1_0_0_1_n_n 100000 rfl rfl).symm k) = ix2 p k := funext fun a => Fin.ext (by
    match a with
    | ⟨0, _⟩ => exact hlhs4_0 _ _
    | ⟨1, _⟩ => exact (hlhs4_1 _ _).trans hk)
  have er : Cert.ReferenceIdeal.dot_S128x100000_S100000x128_S128x128_1_0_0_1_n_n.rhsIdx (ix2 p q) ((contrEquiv1 Cert.ReferenceIdeal.dot_S128x100000_S100000x128_S128x128_1_0_0_1_n_n 100000 rfl rfl).symm k) = ix2 k q := funext fun a => Fin.ext (by
    match a with
    | ⟨0, _⟩ => exact (hrhs4_0 _ _).trans hk
    | ⟨1, _⟩ => exact hrhs4_1 _ _)
  rw [el, er]
  exact congrArg (· * B (ix2 k q)) (transpose_ix2_apply A _ p k)

/-! ## The accumulator, point by point -/

/-- The printed index maps over the grid: each input's block is block `t` of rows, the output's is the one block. -/
theorem rows4_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0 :=
  (by decide +kernel : ∀ t : Fin grid4.N, _)

variable (V : (c : Dev nD) → (b : Ref sig .tc) → Buf (Elt Ideal) ((c : Thread nD τ).loc b))

/-- The left input's block at point `t` is rows `2000·t …` of its array, -/
theorem blk4_0_apply (c : Dev nD) (t : Fin cfg4.N) (d : Fin 2000) (p : Fin 128) (r : Fin 100000) (hr : r.val = 2000 * t.val + d.val) :
    iblk4 V c 0 t (ix2 d p) = V c main_v0 (ix2 r p) := by
  obtain ⟨e0, e1, e2, e3, e4, e5⟩ := rows4_facts t
  show V c main_v0 (((cfg4.win 0).blk t).view.emb (ix2 d p)) = V c main_v0 (ix2 r p)
  refine congrArg (V c main_v0) (funext fun a => Fin.ext ?_)
  match a with
  | ⟨0, _⟩ => show win4_0.index t (0 : Fin 2) * 2000 + 1 * d.val = r.val; omega
  | ⟨1, _⟩ => show win4_0.index t (1 : Fin 2) * 128 + 1 * p.val = p.val; omega
/-- and so is the right input's. -/
theorem blk4_1_apply (c : Dev nD) (t : Fin cfg4.N) (d : Fin 2000) (p : Fin 128) (r : Fin 100000) (hr : r.val = 2000 * t.val + d.val) :
    iblk4 V c 1 t (ix2 d p) = V c main_arg5 (ix2 r p) := by
  obtain ⟨e0, e1, e2, e3, e4, e5⟩ := rows4_facts t
  show V c main_arg5 (((cfg4.win 1).blk t).view.emb (ix2 d p)) = V c main_arg5 (ix2 r p)
  refine congrArg (V c main_arg5) (funext fun a => Fin.ext ?_)
  match a with
  | ⟨0, _⟩ => show win4_1.index t (0 : Fin 2) * 2000 + 1 * d.val = r.val; omega
  | ⟨1, _⟩ => show win4_1.index t (1 : Fin 2) * 128 + 1 * p.val = p.val; omega

/-- After the first point the accumulator holds zero plus the first block's product; -/
theorem acc4_zero (c : Dev nD) (hn : 0 < cfg4.N) :
    (outsAt4 (F := Ideal) V c 0 hn).2 = k4_pay2 (iblk4 V c 0 ⟨0, hn⟩) (iblk4 V c 1 ⟨0, hn⟩) (k4_pay1 (F := Ideal)) := by
  refine (congrArg Prod.snd (outsAt4_A V c ⟨0, hn⟩ (Nat.zero_mod _) (show ¬(0 : ℕ) % 50 = 49 by decide))).trans ?_
  dsimp only
  exact sout4_A_0_eq (F := Ideal) _ _ _ _ _ _ _ _ _ _ _ _ _ _

/-- after a later point what it held plus that point's block's product. -/
theorem acc4_succ (c : Dev nD) (n : ℕ) (hn : n + 1 < cfg4.N) :
    (outsAt4 (F := Ideal) V c (n + 1) hn).2
      = k4_pay2 (iblk4 V c 0 ⟨n + 1, hn⟩) (iblk4 V c 1 ⟨n + 1, hn⟩) (outsAt4 (F := Ideal) V c n (Nat.lt_of_succ_lt hn)).2 := by
  have hN : n + 1 < 50 := lt_of_lt_of_eq hn N_4
  have h0 : ¬(n + 1) % 50 = 0 := by omega
  by_cases h1 : (n + 1) % 50 = 49
  · refine (congrArg Prod.snd (outsAt4_C V c ⟨n + 1, hn⟩ h0 h1)).trans ?_
    dsimp only
    exact sout4_C_0_eq (F := Ideal) _ _ _ _ _ _ _ _ _ _ _ _ _ _ _
  · refine (congrArg Prod.snd (outsAt4_B V c ⟨n + 1, hn⟩ h0 h1)).trans ?_
    dsimp only
    exact sout4_B_0_eq (F := Ideal) _ _ _ _ _ _ _ _ _ _ _ _ _ _ _

/-- At the last point the output's buffer is left at the rectifier of the accumulator's final contents. -/
theorem out4_last (c : Dev nD) (t : Fin cfg4.N) (h1 : t.val % 50 = 49) :
    (outsAt4 (F := Ideal) V c t.val t.isLt).1 = k4_pay3 (outsAt4 (F := Ideal) V c t.val t.isLt).2 := by
  have hN : t.val < 50 := lt_of_lt_of_eq t.isLt N_4
  have h0 : ¬t.val % 50 = 0 := by omega
  rw [outsAt4_C V c t h0 h1]
  dsimp only
  refine (out4_C_2_eq (F := Ideal) _ _ _ _ _ _ _ _ _ _ _ _ _ _ _).trans ?_
  refine congrArg k4_pay3 ?_
  exact (sout4_C_0_eq (F := Ideal) _ _ _ _ _ _ _ _ _ _ _ _ _ _ _).symm

/-- Block `s`'s share of entry `(p, q)` of the product: the sum over the block's 2000 rows of the products of the two
    arrays' columns `p` and `q` (zero for a block number past the last). -/
def term4 (A B : FVec Ideal S100000x128 .f32) (p q : Fin 128) (s : ℕ) : Ideal .f32 :=
  if h : s < 50 then ∑ d : Fin 2000, A (ix2 (⟨2000 * s + d.val, by omega⟩ : Fin 100000) p) * B (ix2 (⟨2000 * s + d.val, by omega⟩ : Fin 100000) q) else 0

/-- After point `n` the accumulator's entry `(p, q)` is the sum of the shares of blocks `0 … n`. -/
theorem acc4_apply (c : Dev nD) (p q : Fin 128) : ∀ (n : ℕ) (hn : n < cfg4.N),
    (outsAt4 (F := Ideal) V c n hn).2 (ix2 p q) = ∑ s ∈ Finset.range (n + 1), term4 (V c main_v0) (V c main_arg5) p q s := by
  intro n
  induction n with
  | zero =>
    intro hn
    rw [acc4_zero V c hn, pay4_2_apply, pay4_1_apply, zero_add, Finset.sum_range_one]
    unfold term4
    rw [dif_pos (by decide)]
    exact Finset.sum_congr rfl fun d _ => by
      rw [blk4_0_apply V c ⟨0, hn⟩ d p ⟨2000 * 0 + d.val, by omega⟩ rfl, blk4_1_apply V c ⟨0, hn⟩ d q ⟨2000 * 0 + d.val, by omega⟩ rfl]
  | succ n ih =>
    intro hn
    have hN : n + 1 < 50 := lt_of_lt_of_eq hn N_4
    rw [acc4_succ V c n hn, pay4_2_apply, ih (Nat.lt_of_succ_lt hn), Finset.sum_range_succ _ (n + 1)]
    congr 1
    unfold term4
    rw [dif_pos hN]
    exact Finset.sum_congr rfl fun d _ => by
      rw [blk4_0_apply V c ⟨n + 1, hn⟩ d p ⟨2000 * (n + 1) + d.val, by omega⟩ rfl, blk4_1_apply V c ⟨n + 1, hn⟩ d q ⟨2000 * (n + 1) + d.val, by omega⟩ rfl]

/-- The fifty blocks' shares add up to the whole sum over the 100000 rows. -/
theorem sum_term4 (A B : FVec Ideal S100000x128 .f32) (p q : Fin 128) :
    ∑ s ∈ Finset.range 50, term4 A B p q s = ∑ r : Fin 100000, A (ix2 r p) * B (ix2 r q) := by
  rw [Finset.sum_range, Cert.Math.sum_fin_mul 50 2000 (fun r : Fin (50 * 2000) => A (ix2 (r : Fin 100000) p) * B (ix2 (r : Fin 100000) q))]
  refine Finset.sum_congr rfl fun s _ => ?_
  unfold term4
  rw [dif_pos s.isLt]

/-! ## The result array -/

/-- What the last point writes back is the host's term of the two arrays as the region finds them. -/
theorem flushed4_eq (c : Dev nD) (t : Fin cfg4.N) (hf : (cfg4.win 2).flush t = true) :
    (dat4 (F := Ideal) V c).flushed 2 t = ((cfg4.win 2).blk t).view.read (Elt Ideal) (maximumf (F := Ideal) (mulf (F := Ideal) (broadcastInDim Cert.ReferenceIdeal.S128x128 ![] Cert.ReferenceIdeal.Facts₀.bcast_S_S128x128 (constant (F := Ideal) Cert.ReferenceIdeal.S_ .f32 0x3F000000#32)) (Host.dotGeneral (F := Ideal) (φ₁ := .f32) (φ₂ := .f32) Cert.ReferenceIdeal.dot_S128x100000_S100000x128_S128x128_1_0_0_1_n_n none
        (transpose Cert.ReferenceIdeal.S128x100000 [1, 0] (V c main_v0) Cert.ReferenceIdeal.Facts₀.transposes_S100000x128_S128x100000_1_0) (V c main_arg5))) (Host.dotGeneral (F := Ideal) (φ₁ := .f32) (φ₂ := .f32) Cert.ReferenceIdeal.dot_S128x100000_S100000x128_S128x128_1_0_0_1_n_n none
        (transpose Cert.ReferenceIdeal.S128x100000 [1, 0] (V c main_v0) Cert.ReferenceIdeal.Facts₀.transposes_S100000x128_S128x100000_1_0) (V c main_arg5))) := by
  have h1 : t.val % 50 = 49 := (flush4_2 t).mp hf
  have hN : t.val < 50 := lt_of_lt_of_eq t.isLt N_4
  have ht : t.val = 49 := by omega
  show (cfg4.win 2).cut (grid4.coords t) ((dat4 V c).after 2 t) = _
  rw [after4_2, out4_last V c t h1]
  obtain ⟨e0, e1, e2, e3, e4, e5⟩ := rows4_facts t
  funext j
  obtain ⟨p, q, rfl⟩ : ∃ (p : Fin 128) (q : Fin 128), j = ix2 p q := ⟨j 0, j 1, eq_ix2 j⟩
  have hemb : ((cfg4.win 2).blk t).view.emb (ix2 p q) = ix2 p q := funext fun a => Fin.ext (by
    match a with
    | ⟨0, _⟩ => show win4_2.index t (0 : Fin 2) * 128 + 1 * p.val = p.val; omega
    | ⟨1, _⟩ => show win4_2.index t (1 : Fin 2) * 128 + 1 * q.val = q.val; omega)
  show k4_pay3 (outsAt4 (F := Ideal) V c t.val t.isLt).2 (ix2 p q) = (maximumf (F := Ideal) (mulf (F := Ideal) (broadcastInDim Cert.ReferenceIdeal.S128x128 ![] Cert.ReferenceIdeal.Facts₀.bcast_S_S128x128 (constant (F := Ideal) Cert.ReferenceIdeal.S_ .f32 0x3F000000#32)) (Host.dotGeneral (F := Ideal) (φ₁ := .f32) (φ₂ := .f32) Cert.ReferenceIdeal.dot_S128x100000_S100000x128_S128x128_1_0_0_1_n_n none
        (transpose Cert.ReferenceIdeal.S128x100000 [1, 0] (V c main_v0) Cert.ReferenceIdeal.Facts₀.transposes_S100000x128_S128x100000_1_0) (V c main_arg5))) (Host.dotGeneral (F := Ideal) (φ₁ := .f32) (φ₂ := .f32) Cert.ReferenceIdeal.dot_S128x100000_S100000x128_S128x128_1_0_0_1_n_n none
        (transpose Cert.ReferenceIdeal.S128x100000 [1, 0] (V c main_v0) Cert.ReferenceIdeal.Facts₀.transposes_S100000x128_S128x100000_1_0) (V c main_arg5))) (((cfg4.win 2).blk t).view.emb (ix2 p q))
  rw [hemb, pay4_3_apply]
  show _ = max (Ideal.ofBits .f32 0x3F000000#32 * (Host.dotGeneral (F := Ideal) (φ₁ := .f32) (φ₂ := .f32) Cert.ReferenceIdeal.dot_S128x100000_S100000x128_S128x128_1_0_0_1_n_n none
        (transpose Cert.ReferenceIdeal.S128x100000 [1, 0] (V c main_v0) Cert.ReferenceIdeal.Facts₀.transposes_S100000x128_S128x100000_1_0) (V c main_arg5)) (ix2 p q)) ((Host.dotGeneral (F := Ideal) (φ₁ := .f32) (φ₂ := .f32) Cert.ReferenceIdeal.dot_S128x100000_S100000x128_S128x128_1_0_0_1_n_n none
        (transpose Cert.ReferenceIdeal.S128x100000 [1, 0] (V c main_v0) Cert.ReferenceIdeal.Facts₀.transposes_S100000x128_S128x100000_1_0) (V c main_arg5)) (ix2 p q))
  have hacc : (outsAt4 (F := Ideal) V c t.val t.isLt).2 (ix2 p q) = (Host.dotGeneral (F := Ideal) (φ₁ := .f32) (φ₂ := .f32) Cert.ReferenceIdeal.dot_S128x100000_S100000x128_S128x128_1_0_0_1_n_n none
        (transpose Cert.ReferenceIdeal.S128x100000 [1, 0] (V c main_v0) Cert.ReferenceIdeal.Facts₀.transposes_S100000x128_S128x100000_1_0) (V c main_arg5)) (ix2 p q) := by
    rw [acc4_apply V c p q t.val t.isLt, host4_apply, ← sum_term4 (V c main_v0) (V c main_arg5) p q, ht]
  rw [hacc]

/-- Every entry of the result array is in the last point's block: the one block is the whole array. -/
theorem cover4 (i : S128x128.Idx) :
    ∃ t : Fin cfg4.N, (cfg4.win 2).flush t = true ∧ i ∈ ((cfg4.win 2).blk t).view.set := by
  have hN : grid4.N = 50 := N_4
  have ht : 49 < grid4.N := by rw [hN]; decide
  obtain ⟨e0, e1, e2, e3, e4, e5⟩ := rows4_facts ⟨49, ht⟩
  have hi0 : (i 0).val < 128 := idx2_lt0 i
  have hi1 : (i 1).val < 128 := idx2_lt1 i
  refine ⟨⟨49, ht⟩, (flush4_2 _).mpr (show (49 : ℕ) % 50 = 49 by decide), ?_⟩
  show i ∈ ((View.whole main_v32).slice (win4_2.rect ⟨49, ht⟩)).set
  rw [View.set_slice_whole, Rect.mem_set_unit]
  intro a
  match a with
  | ⟨0, _⟩ => show win4_2.index ⟨49, ht⟩ (0 : Fin 2) * 128 ≤ (i 0).val ∧ (i 0).val < win4_2.index ⟨49, ht⟩ (0 : Fin 2) * 128 + 128; omega
  | ⟨1, _⟩ => show win4_2.index ⟨49, ht⟩ (1 : Fin 2) * 128 ≤ (i 1).val ∧ (i 1).val < win4_2.index ⟨49, ht⟩ (1 : Fin 2) * 128 + 128; omega

/-- The result array after the region is the host's `max (0.5 · D) D` of `D`, the product of the transposed left array
    and the right array as the region finds them. -/
theorem val4_host (c : Dev nD) :
    (dat4 (F := Ideal) V c).arrAt 2 cfg4.N = (maximumf (F := Ideal) (mulf (F := Ideal) (broadcastInDim Cert.ReferenceIdeal.S128x128 ![] Cert.ReferenceIdeal.Facts₀.bcast_S_S128x128 (constant (F := Ideal) Cert.ReferenceIdeal.S_ .f32 0x3F000000#32)) (Host.dotGeneral (F := Ideal) (φ₁ := .f32) (φ₂ := .f32) Cert.ReferenceIdeal.dot_S128x100000_S100000x128_S128x128_1_0_0_1_n_n none
        (transpose Cert.ReferenceIdeal.S128x100000 [1, 0] (V c main_v0) Cert.ReferenceIdeal.Facts₀.transposes_S100000x128_S128x100000_1_0) (V c main_arg5))) (Host.dotGeneral (F := Ideal) (φ₁ := .f32) (φ₂ := .f32) Cert.ReferenceIdeal.dot_S128x100000_S100000x128_S128x128_1_0_0_1_n_n none
        (transpose Cert.ReferenceIdeal.S128x100000 [1, 0] (V c main_v0) Cert.ReferenceIdeal.Facts₀.transposes_S100000x128_S128x100000_1_0) (V c main_arg5))) :=
  (dat4 (F := Ideal) V c).arrAt_eq_of_cover 2 (maximumf (F := Ideal) (mulf (F := Ideal) (broadcastInDim Cert.ReferenceIdeal.S128x128 ![] Cert.ReferenceIdeal.Facts₀.bcast_S_S128x128 (constant (F := Ideal) Cert.ReferenceIdeal.S_ .f32 0x3F000000#32)) (Host.dotGeneral (F := Ideal) (φ₁ := .f32) (φ₂ := .f32) Cert.ReferenceIdeal.dot_S128x100000_S100000x128_S128x128_1_0_0_1_n_n none
        (transpose Cert.ReferenceIdeal.S128x100000 [1, 0] (V c main_v0) Cert.ReferenceIdeal.Facts₀.transposes_S100000x128_S128x100000_1_0) (V c main_arg5))) (Host.dotGeneral (F := Ideal) (φ₁ := .f32) (φ₂ := .f32) Cert.ReferenceIdeal.dot_S128x100000_S100000x128_S128x128_1_0_0_1_n_n none
        (transpose Cert.ReferenceIdeal.S128x100000 [1, 0] (V c main_v0) Cert.ReferenceIdeal.Facts₀.transposes_S100000x128_S128x100000_1_0) (V c main_arg5))) (fun t hf => flushed4_eq V c t hf) cover4

end Cert.KernelIdeal.Fr

end
-- ==== Proof.KI.Val5.lean ====
import proofs.«126270_j6725918785969_1_alg».proof.Proof.KI.Reg5
import proofs.«126270_j6725918785969_1_alg».proof.Proof.Gen.ReferenceIdeal
import Idealize.ShloMosaic.Lib.Pipeline.Value
import Idealize.ShloMosaic.Lib.ValueIdx
import Idealize.ShloMosaic.PureOps.Ideal.Laws

/-!
# Region 5, read: the result array is `max (0.5 · y) y` of the matrix product `y` of the two input arrays

At the extended reals a change of float format is the identity and the matrix unit's contraction into a zero
accumulator is the plain sum over the contracted axis, so the product's entry at row `p`, column `q` of a block is
`∑ d, x0 (p, d) · x1 (d, q)`, and the body stores the larger of that entry and half of it. The left factor's block at
grid point `t` is rows `2000·t …` of its array and the right factor's is the whole array, so what point `t` writes back
is block `t` of rows of the same pointwise function of the whole product; the blocks cover the rows (row `r` lies in
block `r / 2000`). The result is stated twice: as the host's operations on the two arrays (their `dot_general`, a scalar
one half broadcast, times the product, maximum with the product) and entry by entry.
-/

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat)

theorem hz5 : (![0, 0] : Fin 2 → Nat) = fun _ => 0 := funext fun a => by fin_cases a <;> rfl

/-! ## The body's contraction at an index -/

/-- The left block's index at output index `i` and contraction position `q`: the output's row, -/
theorem lhs5_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- and the contraction position. -/
theorem lhs5_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right block's: the contraction position, -/
theorem rhs5_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- and the output's column. -/
theorem rhs5_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The matrix unit's product of two blocks into the zero accumulator at row `p`, column `q`: the sum over the
    contracted axis of the products of the left block's row and the right block's column. -/
theorem mm5_apply (a : FVec Ideal S2000x128 .bf16) (b : FVec Ideal S128x128 .bf16) (p : Fin 2000) (q : Fin 128) :
    matmul dot_S2000x128_S128x128_S2000x128_1_0_0_1_n_n none a b (constant (F := Ideal) S2000x128 .f32 0x00000000#32) (ix2 p q) = ∑ d : Fin 128, a (ix2 p d) * b (ix2 d q) := by
  refine (Ideal.matmul_constant_zero_apply dot_S2000x128_S128x128_S2000x128_1_0_0_1_n_n none _ _ (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs5_0 _ _
    | ⟨1, _⟩ => exact (lhs5_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs5_0 _ _).trans hk
    | ⟨1, _⟩ => exact rhs5_1 _ _)
  rw [el, er]

/-- The body's payload at row `p`, column `q`: the larger of the product's entry and half of it (the changes of format
    and the casts to the same shape are the identity on the extended reals; the half is the same float word on both
    sides, never evaluated). -/
theorem pay5_apply (x0 : Vec Ideal S2000x128 .f32) (x1 : Vec Ideal S128x128 .f32) (p : Fin 2000) (q : Fin 128) :
    k5_pay1 x0 x1 (ix2 p q) = max (Ideal.ofBits .f32 0x3F000000#32 * ∑ d : Fin 128, x0 (ix2 p d) * x1 (ix2 d q)) (∑ d : Fin 128, x0 (ix2 p d) * x1 (ix2 d q)) := by
  unfold k5_pay1
  rw [shapeCast_self, shapeCast_self]
  exact congrArg (fun m : EReal => max (Ideal.ofBits .f32 0x3F000000#32 * m) m) (mm5_apply (truncf .bf16 x0 (by decide)) (truncf .bf16 x1 (by decide)) p q)

/-! ## The host's product of the whole arrays at an index -/

/-- The left array's index at output index `i` and contraction position `q`: the output's row, -/
theorem hlhs5_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
/-- and the contraction position. -/
theorem hlhs5_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
/-- The right array's: the contraction position, -/
theorem hrhs5_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
/-- and the output's column. -/
theorem hrhs5_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The host's product of a [100000,128] array and a [128,128] array at row `r`, column `s`: the sum over the
    contracted axis, in the extended reals. -/
theorem host5_apply (a : FVec Ideal S100000x128 .f32) (b : FVec Ideal S128x128 .f32) (r : Fin 100000) (s : Fin 128) :
    Host.dotGeneral (F := Ideal) Cert.ReferenceIdeal.dot_S100000x128_S128x128_S100000x128_1_0_0_1_n_n none a b (ix2 r s) = ∑ d : Fin 128, a (ix2 r d) * b (ix2 d s) := by
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r s) ((contrEquiv1 Cert.ReferenceIdeal.dot_S100000x128_S128x128_S100000x128_1_0_0_1_n_n 128 rfl rfl).symm k) = ix2 r k := funext fun a => Fin.ext (by
    match a with
    | ⟨0, _⟩ => exact hlhs5_0 _ _
    | ⟨1, _⟩ => exact (hlhs5_1 _ _).trans hk)
  have er : Cert.ReferenceIdeal.dot_S100000x128_S128x128_S100000x128_1_0_0_1_n_n.rhsIdx (ix2 r s) ((contrEquiv1 Cert.ReferenceIdeal.dot_S100000x128_S128x128_S100000x128_1_0_0_1_n_n 128 rfl rfl).symm k) = ix2 k s := funext fun a => Fin.ext (by
    match a with
    | ⟨0, _⟩ => exact (hrhs5_0 _ _).trans hk
    | ⟨1, _⟩ => exact hrhs5_1 _ _)
  rw [el, er]

/-- The host's `max (0.5 · y) y` of that product at row `r`, column `s`. -/
theorem hostl5_apply (a : FVec Ideal S100000x128 .f32) (b : FVec Ideal S128x128 .f32) (r : Fin 100000) (s : Fin 128) :
    (maximumf (F := Ideal) (mulf (F := Ideal) (broadcastInDim Cert.ReferenceIdeal.S100000x128 ![] Cert.ReferenceIdeal.Facts₀.bcast_S_S100000x128 (constant (F := Ideal) Cert.ReferenceIdeal.S_ .f32 0x3F000000#32)) (Host.dotGeneral (F := Ideal) (φ₁ := .f32) (φ₂ := .f32) Cert.ReferenceIdeal.dot_S100000x128_S128x128_S100000x128_1_0_0_1_n_n none a b)) (Host.dotGeneral (F := Ideal) (φ₁ := .f32) (φ₂ := .f32) Cert.ReferenceIdeal.dot_S100000x128_S128x128_S100000x128_1_0_0_1_n_n none a b)) (ix2 r s)
      = max (Ideal.ofBits .f32 0x3F000000#32 * ∑ d : Fin 128, a (ix2 r d) * b (ix2 d s)) (∑ d : Fin 128, a (ix2 r d) * b (ix2 d s)) := by
  show max (Ideal.ofBits .f32 0x3F000000#32 * Host.dotGeneral (F := Ideal) (φ₁ := .f32) (φ₂ := .f32) Cert.ReferenceIdeal.dot_S100000x128_S128x128_S100000x128_1_0_0_1_n_n none a b (ix2 r s)) (Host.dotGeneral (F := Ideal) (φ₁ := .f32) (φ₂ := .f32) Cert.ReferenceIdeal.dot_S100000x128_S128x128_S100000x128_1_0_0_1_n_n none a b (ix2 r s)) = _
  rw [host5_apply]

/-! ## One block of rows -/

/-- One block of rows: when the left block `x0` holds rows `n·2000 …` of `A` and the right block is `B`, the payload at a
    block index is the host's term of `A`, `B` at the array index in the same place. -/
theorem pay5_block (A : FVec Ideal S100000x128 .f32) (B : FVec Ideal S128x128 .f32)
    (x0 : Vec Ideal S2000x128 .f32) (x1 : Vec Ideal S128x128 .f32) (n : Nat) (y : S2000x128.Idx) (i : S100000x128.Idx)
    (hx0 : ∀ (p : Fin 2000) (d : Fin 128) (r : Fin 100000), r.val = n * 2000 + p.val → x0 (ix2 p d) = A (ix2 r d))
    (hx1 : ∀ (d q : Fin 128), x1 (ix2 d q) = B (ix2 d q))
    (hi0 : (i 0).val = n * 2000 + (y 0).val) (hi1 : (i 1).val = (y 1).val) :
    k5_pay1 x0 x1 y = (maximumf (F := Ideal) (mulf (F := Ideal) (broadcastInDim Cert.ReferenceIdeal.S100000x128 ![] Cert.ReferenceIdeal.Facts₀.bcast_S_S100000x128 (constant (F := Ideal) Cert.ReferenceIdeal.S_ .f32 0x3F000000#32)) (Host.dotGeneral (F := Ideal) (φ₁ := .f32) (φ₂ := .f32) Cert.ReferenceIdeal.dot_S100000x128_S128x128_S100000x128_1_0_0_1_n_n none A B)) (Host.dotGeneral (F := Ideal) (φ₁ := .f32) (φ₂ := .f32) Cert.ReferenceIdeal.dot_S100000x128_S128x128_S100000x128_1_0_0_1_n_n none A B)) i := by
  obtain ⟨p, q, rfl⟩ : ∃ (p : Fin 2000) (q : Fin 128), y = ix2 p q := ⟨y 0, y 1, eq_ix2 y⟩
  obtain ⟨r, s, rfl⟩ : ∃ (r : Fin 100000) (s : Fin 128), i = ix2 r s := ⟨i 0, i 1, eq_ix2 i⟩
  have hs : s = q := Fin.ext hi1
  subst hs
  rw [pay5_apply, hostl5_apply]
  have hS : (∑ d : Fin 128, x0 (ix2 p d) * x1 (ix2 d s)) = ∑ d : Fin 128, A (ix2 r d) * B (ix2 d s) :=
    Finset.sum_congr rfl fun d _ => by rw [hx0 p d r hi0, hx1 d s]
  rw [hS]

/-! ## From blocks to the array -/

/-- The printed index maps over the grid: the left factor's and the result's blocks are block `t` of rows, the right
    factor's is the one block. -/
theorem rows5_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

variable (V : (c : Dev nD) → (b : Ref sig .tc) → Buf (Elt Ideal) ((c : Thread nD τ).loc b))

/-- What point `t` writes back is block `t` of `max (0.5 · y) y` of the product `y` of the two arrays as the region finds them. -/
theorem flushed5_eq (c : Dev nD) (t : Fin cfg5.N) :
    (dat5 (F := Ideal) V c).flushed 2 t
      = ((cfg5.win 2).blk t).view.read (Elt Ideal) (maximumf (F := Ideal) (mulf (F := Ideal) (broadcastInDim Cert.ReferenceIdeal.S100000x128 ![] Cert.ReferenceIdeal.Facts₀.bcast_S_S100000x128 (constant (F := Ideal) Cert.ReferenceIdeal.S_ .f32 0x3F000000#32)) (Host.dotGeneral (F := Ideal) (φ₁ := .f32) (φ₂ := .f32) Cert.ReferenceIdeal.dot_S100000x128_S128x128_S100000x128_1_0_0_1_n_n none (V c main_v0) (V c main_v56))) (Host.dotGeneral (F := Ideal) (φ₁ := .f32) (φ₂ := .f32) Cert.ReferenceIdeal.dot_S100000x128_S128x128_S100000x128_1_0_0_1_n_n none (V c main_v0) (V c main_v56))) := by
  show (cfg5.win 2).cut (grid5.coords t) ((dat5 V c).after 2 t) = _
  rw [after5_2]
  unfold out5_2
  rw [View.canon_unit_zero hz5]
  simp only [View.ld_unit_zero (S := S2000x128) hz5, View.ld_unit_zero (S := S128x128) hz5]
  obtain ⟨e0, e1, e2, e3, e4, e5⟩ := rows5_facts t
  funext j
  show k5_pay1 (iblk5 V c 0 t) (iblk5 V c 1 t) j = (maximumf (F := Ideal) (mulf (F := Ideal) (broadcastInDim Cert.ReferenceIdeal.S100000x128 ![] Cert.ReferenceIdeal.Facts₀.bcast_S_S100000x128 (constant (F := Ideal) Cert.ReferenceIdeal.S_ .f32 0x3F000000#32)) (Host.dotGeneral (F := Ideal) (φ₁ := .f32) (φ₂ := .f32) Cert.ReferenceIdeal.dot_S100000x128_S128x128_S100000x128_1_0_0_1_n_n none (V c main_v0) (V c main_v56))) (Host.dotGeneral (F := Ideal) (φ₁ := .f32) (φ₂ := .f32) Cert.ReferenceIdeal.dot_S100000x128_S128x128_S100000x128_1_0_0_1_n_n none (V c main_v0) (V c main_v56))) (((cfg5.win 2).blk t).view.emb j)
  refine pay5_block (V c main_v0) (V c main_v56) (iblk5 V c 0 t) (iblk5 V c 1 t) t.val j (((cfg5.win 2).blk t).view.emb j) ?_ ?_ ?_ ?_
  · intro p d r hr
    show V c main_v0 (((cfg5.win 0).blk t).view.emb (ix2 p d)) = V c main_v0 (ix2 r d)
    refine congrArg (V c main_v0) (funext fun a => Fin.ext ?_)
    match a with
    | ⟨0, _⟩ => show win5_0.index t (0 : Fin 2) * 2000 + 1 * p.val = r.val; omega
    | ⟨1, _⟩ => show win5_0.index t (1 : Fin 2) * 128 + 1 * d.val = d.val; omega
  · intro d q
    show V c main_v56 (((cfg5.win 1).blk t).view.emb (ix2 d q)) = V c main_v56 (ix2 d q)
    refine congrArg (V c main_v56) (funext fun a => Fin.ext ?_)
    match a with
    | ⟨0, _⟩ => show win5_1.index t (0 : Fin 2) * 128 + 1 * d.val = d.val; omega
    | ⟨1, _⟩ => show win5_1.index t (1 : Fin 2) * 128 + 1 * q.val = q.val; omega
  · show win5_2.index t (0 : Fin 2) * 2000 + 1 * (j 0).val = t.val * 2000 + (j 0).val; omega
  · show win5_2.index t (1 : Fin 2) * 128 + 1 * (j 1).val = (j 1).val; omega

/-- An index of the result array is in point `t`'s block iff each coordinate is in the block's range on its axis. -/
theorem mem_rows5 (t : Fin cfg5.N) (i : S100000x128.Idx) :
    i ∈ ((cfg5.win 2).blk t).view.set ↔ ∀ a : Fin 2, win5_2.index t a * S2000x128.size a ≤ (i a).val ∧ (i a).val < win5_2.index t a * S2000x128.size a + S2000x128.size a := by
  show i ∈ ((View.whole main_v57).slice (win5_2.rect t)).set ↔ _
  rw [View.set_slice_whole, Rect.mem_set_unit]
  exact Iff.rfl

/-- Every row is in some point's block: row `r` in that of point `r / 2000`. -/
theorem rows5_cover (i : S100000x128.Idx) :
    ∃ t : Fin cfg5.N, (cfg5.win 2).flush t = true ∧ i ∈ ((cfg5.win 2).blk t).view.set := by
  have hi0 : (i 0).val < 100000 := idx2_lt0 i
  have hi1 : (i 1).val < 128 := idx2_lt1 i
  have hN : grid5.N = 50 := N_5
  have ht : (i 0).val / 2000 < grid5.N := by rw [hN]; omega
  obtain ⟨e0, e1, e2, e3, e4, e5⟩ := rows5_facts ⟨(i 0).val / 2000, ht⟩
  have e4' : win5_2.index ⟨(i 0).val / 2000, ht⟩ (0 : Fin 2) = (i 0).val / 2000 := e4
  refine ⟨⟨(i 0).val / 2000, ht⟩, flush5_2 _, ?_⟩
  rw [mem_rows5]
  intro a
  match a with
  | ⟨0, _⟩ => show win5_2.index ⟨(i 0).val / 2000, ht⟩ (0 : Fin 2) * 2000 ≤ (i 0).val ∧ (i 0).val < win5_2.index ⟨(i 0).val / 2000, ht⟩ (0 : Fin 2) * 2000 + 2000; omega
  | ⟨1, _⟩ => show win5_2.index ⟨(i 0).val / 2000, ht⟩ (1 : Fin 2) * 128 ≤ (i 1).val ∧ (i 1).val < win5_2.index ⟨(i 0).val / 2000, ht⟩ (1 : Fin 2) * 128 + 128; omega

/-- The result array after the region is the host's `max (0.5 · y) y` of its product `y` of the two input arrays as the
    region finds them, -/
theorem val5_host (c : Dev nD) :
    (dat5 (F := Ideal) V c).arrAt 2 cfg5.N = maximumf (F := Ideal) (mulf (F := Ideal) (broadcastInDim Cert.ReferenceIdeal.S100000x128 ![] Cert.ReferenceIdeal.Facts₀.bcast_S_S100000x128 (constant (F := Ideal) Cert.ReferenceIdeal.S_ .f32 0x3F000000#32)) (Host.dotGeneral (F := Ideal) (φ₁ := .f32) (φ₂ := .f32) Cert.ReferenceIdeal.dot_S100000x128_S128x128_S100000x128_1_0_0_1_n_n none (V c main_v0) (V c main_v56))) (Host.dotGeneral (F := Ideal) (φ₁ := .f32) (φ₂ := .f32) Cert.ReferenceIdeal.dot_S100000x128_S128x128_S100000x128_1_0_0_1_n_n none (V c main_v0) (V c main_v56)) :=
  (dat5 (F := Ideal) V c).arrAt_eq_of_cover 2 (maximumf (F := Ideal) (mulf (F := Ideal) (broadcastInDim Cert.ReferenceIdeal.S100000x128 ![] Cert.ReferenceIdeal.Facts₀.bcast_S_S100000x128 (constant (F := Ideal) Cert.ReferenceIdeal.S_ .f32 0x3F000000#32)) (Host.dotGeneral (F := Ideal) (φ₁ := .f32) (φ₂ := .f32) Cert.ReferenceIdeal.dot_S100000x128_S128x128_S100000x128_1_0_0_1_n_n none (V c main_v0) (V c main_v56))) (Host.dotGeneral (F := Ideal) (φ₁ := .f32) (φ₂ := .f32) Cert.ReferenceIdeal.dot_S100000x128_S128x128_S100000x128_1_0_0_1_n_n none (V c main_v0) (V c main_v56))) (fun t _ => flushed5_eq V c t) rows5_cover

/-- that is, entry by entry, the larger of the product's entry and half of it (`A`, `B`: the two input arrays as the
    region finds them). -/
theorem val5_apply (c : Dev nD) (A : FVec Ideal S100000x128 .f32) (B : FVec Ideal S128x128 .f32)
    (hA : V c main_v0 = A) (hB : V c main_v56 = B) (r : Fin 100000) (s : Fin 128) :
    (dat5 (F := Ideal) V c).arrAt 2 cfg5.N (ix2 r s)
      = max (Ideal.ofBits .f32 0x3F000000#32 * ∑ d : Fin 128, A (ix2 r d) * B (ix2 d s)) (∑ d : Fin 128, A (ix2 r d) * B (ix2 d s)) := by
  rw [val5_host, hA, hB]
  exact hostl5_apply A B r s

end Cert.KernelIdeal.Fr

end
-- ==== Proof.KI.Val6.lean ====
import proofs.«126270_j6725918785969_1_alg».proof.Proof.KI.Reg6
import proofs.«126270_j6725918785969_1_alg».proof.Proof.Gen.ReferenceIdeal
import proofs.«126270_j6725918785969_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws

/-!
# Region 6, read: the result array is `max (0.5 · D) D` of `D = xᵀ · y`, the product of the two input arrays

At the extended reals a change of float format is the identity and the matrix unit's contraction into a zero
accumulator is the plain sum over the contracted axis, so the accumulating payload at row `p`, column `q` is what the
accumulator held there plus `∑ d, x0 (d, p) · x1 (d, q)` over the block's 2000 rows. Each input's block at grid point
`t` is rows `2000·t …` of its array, so after point `n` the accumulator's entry `(p, q)` is the sum over blocks
`0 … n` of those partial sums (by induction on the point: zero plus the first block's at the first point, what it held
plus the next block's afterwards); a sum over the 50000 rows is the sum over twenty-five blocks of 2000 consecutive rows,
so after the last point the accumulator holds the whole contraction `∑ r, x (r, p) · y (r, q)`, which is the host's
product of the transposed left array and the right array. The last point stores the larger of each entry and half of
it into the output's one block, which is the whole result array and is written back there and nowhere else.
-/

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat)

theorem hz6 : (![0, 0] : Fin 2 → Nat) = fun _ => 0 := funext fun a => by fin_cases a <;> rfl

/-! ## What each case leaves, in closed form -/

section AnyF
variable {F : FTy → Type} [FloatOps F]

/-- A load of a whole memref held at the raw contents that read `X`, through the whole-shape rectangle at zero
    offsets, reads `X`. -/
theorem readAt_whole6 {S : Shape} {e : EltTy} (m : Memref sig .tc .vmem S e) (h : m.IsWhole) (X : S.Idx → Elt F e)
    {off : Fin S.rank → Nat} (ho : off = fun _ => 0) (inb : ∀ a, off a + S.size a ≤ S.size a) :
    View.readAt (Elt F) m.view (Rect.unit off S.size inb).toLoadRect (h.unread X) = X := by
  show View.ld (m.view.read (Elt F) (h.unread X)) (Rect.unit off S.size inb) = X
  rw [h.read_unread, View.ld_unit_zero ho]

/-- The first point leaves the accumulator at zero plus the product of the two blocks. -/
theorem sout6_A_0_eq (c : Dev nD) (i : grid6.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : cond6_0 i) (hc1 : ¬cond6_1 i)
    (x0 : Vec F S2000x128 .f32) (x1 : Vec F S2000x128 .f32) :
    sout6_A_0 c i arg1 harg1 arg2 harg2 arg3 harg3 arg4 harg4 hc0 hc1 x0 x1 = k6_pay2 x0 x1 (k6_pay1 (F := F)) := by
  unfold sout6_A_0
  rw [View.read_writes_eq_canon _ _ _ (scover6_A_0 c i arg1 harg1 arg2 harg2 arg3 harg3 arg4 harg4 hc0 hc1 x0 x1)]
  unfold kernelRun6_A
  dsimp only
  unfold kernelRun6_A.sl.v8 kernelRun6_A.sl.HS0_1
  rw [View.canon_cons_unit_zero hz6, View.readCov_unit_zero _ hz6]
  rw [readAt_whole6 arg1 harg1 x0 hz6, readAt_whole6 arg2 harg2 x1 hz6]

/-- A middle point leaves it at what it held plus the product of the two blocks. -/
theorem sout6_B_0_eq (c : Dev nD) (i : grid6.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond6_0 i) (hc1 : ¬cond6_1 i)
    (x0 : Vec F S2000x128 .f32) (x1 : Vec F S2000x128 .f32) (xs0 : Vec F S128x128 .f32) :
    sout6_B_0 c i arg1 harg1 arg2 harg2 arg3 harg3 arg4 harg4 hc0 hc1 x0 x1 xs0 = k6_pay2 x0 x1 xs0 := by
  unfold sout6_B_0
  rw [View.read_writes_eq_canon _ _ _ (scover6_B_0 c i arg1 harg1 arg2 harg2 arg3 harg3 arg4 harg4 hc0 hc1 x0 x1 xs0)]
  unfold kernelRun6_B
  dsimp only
  rw [View.canon_unit_zero hz6]
  rw [readAt_whole6 arg1 harg1 x0 hz6, readAt_whole6 arg2 harg2 x1 hz6, readAt_whole6 arg4 harg4 xs0 hz6]

/-- The last point leaves the accumulator at what it held plus the product of the two blocks, -/
theorem sout6_C_0_eq (c : Dev nD) (i : grid6.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond6_0 i) (hc1 : cond6_1 i)
    (x0 : Vec F S2000x128 .f32) (x1 : Vec F S2000x128 .f32) (xs0 : Vec F S128x128 .f32) :
    sout6_C_0 c i arg1 harg1 arg2 harg2 arg3 harg3 arg4 harg4 hc0 hc1 x0 x1 xs0 = k6_pay2 x0 x1 xs0 := by
  unfold sout6_C_0
  rw [View.read_writes_eq_canon _ _ _ (scover6_C_0 c i arg1 harg1 arg2 harg2 arg3 harg3 arg4 harg4 hc0 hc1 x0 x1 xs0)]
  unfold kernelRun6_C
  dsimp only
  unfold kernelRun6_C.sl.HS0_1
  rw [View.canon_unit_zero hz6]
  rw [readAt_whole6 arg1 harg1 x0 hz6, readAt_whole6 arg2 harg2 x1 hz6, readAt_whole6 arg4 harg4 xs0 hz6]

/-- and the output's buffer at the rectifier of that. -/
theorem out6_C_2_eq (c : Dev nD) (i : grid6.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond6_0 i) (hc1 : cond6_1 i)
    (x0 : Vec F S2000x128 .f32) (x1 : Vec F S2000x128 .f32) (xs0 : Vec F S128x128 .f32) :
    out6_C_2 c i arg1 harg1 arg2 harg2 arg3 harg3 arg4 harg4 hc0 hc1 x0 x1 xs0 = k6_pay3 (k6_pay2 x0 x1 xs0) := by
  unfold out6_C_2
  rw [View.read_writes_eq_canon _ _ _ (cover6_C_2 c i arg1 harg1 arg2 harg2 arg3 harg3 arg4 harg4 hc0 hc1 x0 x1 xs0)]
  unfold kernelRun6_C
  dsimp only
  unfold kernelRun6_C.sl.v17 kernelRun6_C.sl.HS0_1
  rw [View.canon_unit_zero hz6, View.readCov_unit_zero _ hz6]
  rw [readAt_whole6 arg1 harg1 x0 hz6, readAt_whole6 arg2 harg2 x1 hz6, readAt_whole6 arg4 harg4 xs0 hz6]

end AnyF

/-! ## The body's payloads at an index, at the extended reals -/

/-- The left block's index at output index `i` and contraction position `k`: the contraction position, -/
theorem lhs6_0 (i : S128x128.Idx) (k : dot_S2000x128_S2000x128_S128x128_0_0_1_1_n_n.contr.Idx) :
    (dot_S2000x128_S2000x128_S128x128_0_0_1_1_n_n.lhsIdx i k 0).val = (k ⟨0, by decide⟩).val :=
  dot_S2000x128_S2000x128_S128x128_0_0_1_1_n_n.lhsIdx_val_of_single rfl i k
/-- and the output's row. -/
theorem lhs6_1 (i : S128x128.Idx) (k : dot_S2000x128_S2000x128_S128x128_0_0_1_1_n_n.contr.Idx) :
    (dot_S2000x128_S2000x128_S128x128_0_0_1_1_n_n.lhsIdx i k 1).val = (i 0).val := by
  unfold DotDims.lhsIdx
  rw [dif_neg (show ¬(1 : Fin S2000x128.rank) ∈ dot_S2000x128_S2000x128_S128x128_0_0_1_1_n_n.lhsBatch by decide), dif_pos (show (1 : Fin S2000x128.rank) ∈ dot_S2000x128_S2000x128_S128x128_0_0_1_1_n_n.lhsNonContracting by decide)]
  rfl
/-- The right block's: the contraction position, -/
theorem rhs6_0 (i : S128x128.Idx) (k : dot_S2000x128_S2000x128_S128x128_0_0_1_1_n_n.contr.Idx) :
    (dot_S2000x128_S2000x128_S128x128_0_0_1_1_n_n.rhsIdx i k 0).val = (k ⟨0, by decide⟩).val :=
  dot_S2000x128_S2000x128_S128x128_0_0_1_1_n_n.rhsIdx_val_of_single rfl i k
/-- and the output's column. -/
theorem rhs6_1 (i : S128x128.Idx) (k : dot_S2000x128_S2000x128_S128x128_0_0_1_1_n_n.contr.Idx) :
    (dot_S2000x128_S2000x128_S128x128_0_0_1_1_n_n.rhsIdx i k 1).val = (i 1).val := by
  unfold DotDims.rhsIdx
  rw [dif_neg (show ¬(1 : Fin S2000x128.rank) ∈ dot_S2000x128_S2000x128_S128x128_0_0_1_1_n_n.rhsBatch by decide), dif_pos (show (1 : Fin S2000x128.rank) ∈ dot_S2000x128_S2000x128_S128x128_0_0_1_1_n_n.rhsNonContracting by decide)]
  rfl

/-- The zeroing payload is zero everywhere. -/
theorem pay6_1_apply (y : S128x128.Idx) : k6_pay1 (F := Ideal) y = 0 := by
  unfold k6_pay1
  rw [shapeCast_self]
  exact Ideal.ofBits_zero_f32

/-- The accumulating payload at row `p`, column `q`: what the accumulator held there plus the sum over the block's
    2000 rows of the products of the left block's column `p` and the right block's column `q` (the change of format is
    the identity on the extended reals, the matrix unit's own accumulator is zero). -/
theorem pay6_2_apply (v3 v6 : Vec Ideal S2000x128 .f32) (v8 : Vec Ideal S128x128 .f32) (p q : Fin 128) :
    k6_pay2 v3 v6 v8 (ix2 p q) = v8 (ix2 p q) + ∑ d : Fin 2000, v3 (ix2 d p) * v6 (ix2 d q) := by
  unfold k6_pay2
  rw [shapeCast_self]
  show v8 (ix2 p q) + FloatOps.matmul (F := Ideal) dot_S2000x128_S2000x128_S128x128_0_0_1_1_n_n none _ _ (constant S128x128 .f32 0x00000000#32) (ix2 p q) = _
  rw [Ideal.matmul_constant_zero_apply]
  congr 1
  rw [← Equiv.sum_comp (contrEquiv1 dot_S2000x128_S2000x128_S128x128_0_0_1_1_n_n 2000 rfl rfl).symm]
  refine Finset.sum_congr rfl fun k _ => ?_
  have hk := contrEquiv1_symm_val dot_S2000x128_S2000x128_S128x128_0_0_1_1_n_n 2000 rfl rfl k
  have el : dot_S2000x128_S2000x128_S128x128_0_0_1_1_n_n.lhsIdx (ix2 p q) ((contrEquiv1 dot_S2000x128_S2000x128_S128x128_0_0_1_1_n_n 2000 rfl rfl).symm k) = ix2 k p := funext fun a => Fin.ext (by
    match a with
    | ⟨0, _⟩ => exact (lhs6_0 _ _).trans hk
    | ⟨1, _⟩ => exact lhs6_1 _ _)
  have er : dot_S2000x128_S2000x128_S128x128_0_0_1_1_n_n.rhsIdx (ix2 p q) ((contrEquiv1 dot_S2000x128_S2000x128_S128x128_0_0_1_1_n_n 2000 rfl rfl).symm k) = ix2 k q := funext fun a => Fin.ext (by
    match a with
    | ⟨0, _⟩ => exact (rhs6_0 _ _).trans hk
    | ⟨1, _⟩ => exact rhs6_1 _ _)
  rw [el, er, truncf_apply, truncf_apply, shapeCast_self]

/-- The rectifier payload at an index: the larger of the entry and half of it. -/
theorem pay6_3_apply (v : Vec Ideal S128x128 .f32) (y : S128x128.Idx) :
    k6_pay3 v y = max (Ideal.ofBits .f32 0x3F000000#32 * v y) (v y) := by
  unfold k6_pay3
  rfl

/-! ## The host's product of the transposed left array and the right array, at an index -/

/-- The left operand's index at output index `i` and contraction position `k`: the output's row, -/
theorem hlhs6_0 (i : Cert.ReferenceIdeal.S128x128.Idx) (k : Cert.ReferenceIdeal.dot_S128x50000_S50000x128_S128x128_1_0_0_1_n_n.contr.Idx) :
    (Cert.ReferenceIdeal.dot_S128x50000_S50000x128_S128x128_1_0_0_1_n_n.lhsIdx i k 0).val = (i 0).val := by
  unfold DotDims.lhsIdx
  rw [dif_neg (show ¬(0 : Fin Cert.ReferenceIdeal.S128x50000.rank) ∈ Cert.ReferenceIdeal.dot_S128x50000_S50000x128_S128x128_1_0_0_1_n_n.lhsBatch by decide), dif_pos (show (0 : Fin Cert.ReferenceIdeal.S128x50000.rank) ∈ Cert.ReferenceIdeal.dot_S128x50000_S50000x128_S128x128_1_0_0_1_n_n.lhsNonContracting by decide)]
  rfl
/-- and the contraction position. -/
theorem hlhs6_1 (i : Cert.ReferenceIdeal.S128x128.Idx) (k : Cert.ReferenceIdeal.dot_S128x50000_S50000x128_S128x128_1_0_0_1_n_n.contr.Idx) :
    (Cert.ReferenceIdeal.dot_S128x50000_S50000x128_S128x128_1_0_0_1_n_n.lhsIdx i k 1).val = (k ⟨0, by decide⟩).val :=
  Cert.ReferenceIdeal.dot_S128x50000_S50000x128_S128x128_1_0_0_1_n_n.lhsIdx_val_of_single rfl i k
/-- The right operand's: the contraction position, -/
theorem hrhs6_0 (i : Cert.ReferenceIdeal.S128x128.Idx) (k : Cert.ReferenceIdeal.dot_S128x50000_S50000x128_S128x128_1_0_0_1_n_n.contr.Idx) :
    (Cert.ReferenceIdeal.dot_S128x50000_S50000x128_S128x128_1_0_0_1_n_n.rhsIdx i k 0).val = (k ⟨0, by decide⟩).val :=
  Cert.ReferenceIdeal.dot_S128x50000_S50000x128_S128x128_1_0_0_1_n_n.rhsIdx_val_of_single rfl i k
/-- and the output's column. -/
theorem hrhs6_1 (i : Cert.ReferenceIdeal.S128x128.Idx) (k : Cert.ReferenceIdeal.dot_S128x50000_S50000x128_S128x128_1_0_0_1_n_n.contr.Idx) :
    (Cert.ReferenceIdeal.dot_S128x50000_S50000x128_S128x128_1_0_0_1_n_n.rhsIdx i k 1).val = (i 1).val := by
  unfold DotDims.rhsIdx
  rw [dif_neg (show ¬(1 : Fin Cert.ReferenceIdeal.S50000x128.rank) ∈ Cert.ReferenceIdeal.dot_S128x50000_S50000x128_S128x128_1_0_0_1_n_n.rhsBatch by decide), dif_pos (show (1 : Fin Cert.ReferenceIdeal.S50000x128.rank) ∈ Cert.ReferenceIdeal.dot_S128x50000_S50000x128_S128x128_1_0_0_1_n_n.rhsNonContracting by decide)]
  rfl

/-- The host's product of the transposed [50000,128] array and a [50000,128] array at row `p`, column `q`: the sum
    over the 50000 rows of the products of the two arrays' columns `p` and `q`. -/
theorem host6_apply (A B : FVec Ideal S50000x128 .f32) (p q : Fin 128) :
    Host.dotGeneral (F := Ideal) Cert.ReferenceIdeal.dot_S128x50000_S50000x128_S128x128_1_0_0_1_n_n none
        (transpose Cert.ReferenceIdeal.S128x50000 [1, 0] A Cert.ReferenceIdeal.Facts₀.transposes_S50000x128_S128x50000_1_0) B (ix2 p q)
      = ∑ r : Fin 50000, A (ix2 r p) * B (ix2 r q) := by
  simp only [Host.dotGeneral]
  rw [Ideal.dotGeneral_apply, ← Equiv.sum_comp (contrEquiv1 Cert.ReferenceIdeal.dot_S128x50000_S50000x128_S128x128_1_0_0_1_n_n 50000 rfl rfl).symm]
  refine Finset.sum_congr rfl fun k _ => ?_
  have hk := contrEquiv1_symm_val Cert.ReferenceIdeal.dot_S128x50000_S50000x128_S128x128_1_0_0_1_n_n 50000 rfl rfl k
  have el : Cert.ReferenceIdeal.dot_S128x50000_S50000x128_S128x128_1_0_0_1_n_n.lhsIdx (ix2 p q) ((contrEquiv1 Cert.ReferenceIdeal.dot_S128x50000_S50000x128_S128x128_1_0_0_1_n_n 50000 rfl rfl).symm k) = ix2 p k := funext fun a => Fin.ext (by
    match a with
    | ⟨0, _⟩ => exact hlhs6_0 _ _
    | ⟨1, _⟩ => exact (hlhs6_1 _ _).trans hk)
  have er : Cert.ReferenceIdeal.dot_S128x50000_S50000x128_S128x128_1_0_0_1_n_n.rhsIdx (ix2 p q) ((contrEquiv1 Cert.ReferenceIdeal.dot_S128x50000_S50000x128_S128x128_1_0_0_1_n_n 50000 rfl rfl).symm k) = ix2 k q := funext fun a => Fin.ext (by
    match a with
    | ⟨0, _⟩ => exact (hrhs6_0 _ _).trans hk
    | ⟨1, _⟩ => exact hrhs6_1 _ _)
  rw [el, er]
  exact congrArg (· * B (ix2 k q)) (transpose_ix2_apply A _ p k)

/-! ## The accumulator, point by point -/

/-- The printed index maps over the grid: each input's block is block `t` of rows, the output's is the one block. -/
theorem rows6_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0 :=
  (by decide +kernel : ∀ t : Fin grid6.N, _)

variable (V : (c : Dev nD) → (b : Ref sig .tc) → Buf (Elt Ideal) ((c : Thread nD τ).loc b))

/-- The left input's block at point `t` is rows `2000·t …` of its array, -/
theorem blk6_0_apply (c : Dev nD) (t : Fin cfg6.N) (d : Fin 2000) (p : Fin 128) (r : Fin 50000) (hr : r.val = 2000 * t.val + d.val) :
    iblk6 V c 0 t (ix2 d p) = V c main_v1 (ix2 r p) := by
  obtain ⟨e0, e1, e2, e3, e4, e5⟩ := rows6_facts t
  show V c main_v1 (((cfg6.win 0).blk t).view.emb (ix2 d p)) = V c main_v1 (ix2 r p)
  refine congrArg (V c main_v1) (funext fun a => Fin.ext ?_)
  match a with
  | ⟨0, _⟩ => show win6_0.index t (0 : Fin 2) * 2000 + 1 * d.val = r.val; omega
  | ⟨1, _⟩ => show win6_0.index t (1 : Fin 2) * 128 + 1 * p.val = p.val; omega
/-- and so is the right input's. -/
theorem blk6_1_apply (c : Dev nD) (t : Fin cfg6.N) (d : Fin 2000) (p : Fin 128) (r : Fin 50000) (hr : r.val = 2000 * t.val + d.val) :
    iblk6 V c 1 t (ix2 d p) = V c main_arg6 (ix2 r p) := by
  obtain ⟨e0, e1, e2, e3, e4, e5⟩ := rows6_facts t
  show V c main_arg6 (((cfg6.win 1).blk t).view.emb (ix2 d p)) = V c main_arg6 (ix2 r p)
  refine congrArg (V c main_arg6) (funext fun a => Fin.ext ?_)
  match a with
  | ⟨0, _⟩ => show win6_1.index t (0 : Fin 2) * 2000 + 1 * d.val = r.val; omega
  | ⟨1, _⟩ => show win6_1.index t (1 : Fin 2) * 128 + 1 * p.val = p.val; omega

/-- After the first point the accumulator holds zero plus the first block's product; -/
theorem acc6_zero (c : Dev nD) (hn : 0 < cfg6.N) :
    (outsAt6 (F := Ideal) V c 0 hn).2 = k6_pay2 (iblk6 V c 0 ⟨0, hn⟩) (iblk6 V c 1 ⟨0, hn⟩) (k6_pay1 (F := Ideal)) := by
  refine (congrArg Prod.snd (outsAt6_A V c ⟨0, hn⟩ (Nat.zero_mod _) (show ¬(0 : ℕ) % 25 = 24 by decide))).trans ?_
  dsimp only
  exact sout6_A_0_eq (F := Ideal) _ _ _ _ _ _ _ _ _ _ _ _ _ _

/-- after a later point what it held plus that point's block's product. -/
theorem acc6_succ (c : Dev nD) (n : ℕ) (hn : n + 1 < cfg6.N) :
    (outsAt6 (F := Ideal) V c (n + 1) hn).2
      = k6_pay2 (iblk6 V c 0 ⟨n + 1, hn⟩) (iblk6 V c 1 ⟨n + 1, hn⟩) (outsAt6 (F := Ideal) V c n (Nat.lt_of_succ_lt hn)).2 := by
  have hN : n + 1 < 25 := lt_of_lt_of_eq hn N_6
  have h0 : ¬(n + 1) % 25 = 0 := by omega
  by_cases h1 : (n + 1) % 25 = 24
  · refine (congrArg Prod.snd (outsAt6_C V c ⟨n + 1, hn⟩ h0 h1)).trans ?_
    dsimp only
    exact sout6_C_0_eq (F := Ideal) _ _ _ _ _ _ _ _ _ _ _ _ _ _ _
  · refine (congrArg Prod.snd (outsAt6_B V c ⟨n + 1, hn⟩ h0 h1)).trans ?_
    dsimp only
    exact sout6_B_0_eq (F := Ideal) _ _ _ _ _ _ _ _ _ _ _ _ _ _ _

/-- At the last point the output's buffer is left at the rectifier of the accumulator's final contents. -/
theorem out6_last (c : Dev nD) (t : Fin cfg6.N) (h1 : t.val % 25 = 24) :
    (outsAt6 (F := Ideal) V c t.val t.isLt).1 = k6_pay3 (outsAt6 (F := Ideal) V c t.val t.isLt).2 := by
  have hN : t.val < 25 := lt_of_lt_of_eq t.isLt N_6
  have h0 : ¬t.val % 25 = 0 := by omega
  rw [outsAt6_C V c t h0 h1]
  dsimp only
  refine (out6_C_2_eq (F := Ideal) _ _ _ _ _ _ _ _ _ _ _ _ _ _ _).trans ?_
  refine congrArg k6_pay3 ?_
  exact (sout6_C_0_eq (F := Ideal) _ _ _ _ _ _ _ _ _ _ _ _ _ _ _).symm

/-- Block `s`'s share of entry `(p, q)` of the product: the sum over the block's 2000 rows of the products of the two
    arrays' columns `p` and `q` (zero for a block number past the last). -/
def term6 (A B : FVec Ideal S50000x128 .f32) (p q : Fin 128) (s : ℕ) : Ideal .f32 :=
  if h : s < 25 then ∑ d : Fin 2000, A (ix2 (⟨2000 * s + d.val, by omega⟩ : Fin 50000) p) * B (ix2 (⟨2000 * s + d.val, by omega⟩ : Fin 50000) q) else 0

/-- After point `n` the accumulator's entry `(p, q)` is the sum of the shares of blocks `0 … n`. -/
theorem acc6_apply (c : Dev nD) (p q : Fin 128) : ∀ (n : ℕ) (hn : n < cfg6.N),
    (outsAt6 (F := Ideal) V c n hn).2 (ix2 p q) = ∑ s ∈ Finset.range (n + 1), term6 (V c main_v1) (V c main_arg6) p q s := by
  intro n
  induction n with
  | zero =>
    intro hn
    rw [acc6_zero V c hn, pay6_2_apply, pay6_1_apply, zero_add, Finset.sum_range_one]
    unfold term6
    rw [dif_pos (by decide)]
    exact Finset.sum_congr rfl fun d _ => by
      rw [blk6_0_apply V c ⟨0, hn⟩ d p ⟨2000 * 0 + d.val, by omega⟩ rfl, blk6_1_apply V c ⟨0, hn⟩ d q ⟨2000 * 0 + d.val, by omega⟩ rfl]
  | succ n ih =>
    intro hn
    have hN : n + 1 < 25 := lt_of_lt_of_eq hn N_6
    rw [acc6_succ V c n hn, pay6_2_apply, ih (Nat.lt_of_succ_lt hn), Finset.sum_range_succ _ (n + 1)]
    congr 1
    unfold term6
    rw [dif_pos hN]
    exact Finset.sum_congr rfl fun d _ => by
      rw [blk6_0_apply V c ⟨n + 1, hn⟩ d p ⟨2000 * (n + 1) + d.val, by omega⟩ rfl, blk6_1_apply V c ⟨n + 1, hn⟩ d q ⟨2000 * (n + 1) + d.val, by omega⟩ rfl]

/-- The twenty-five blocks' shares add up to the whole sum over the 50000 rows. -/
theorem sum_term6 (A B : FVec Ideal S50000x128 .f32) (p q : Fin 128) :
    ∑ s ∈ Finset.range 25, term6 A B p q s = ∑ r : Fin 50000, A (ix2 r p) * B (ix2 r q) := by
  rw [Finset.sum_range, Cert.Math.sum_fin_mul 25 2000 (fun r : Fin (25 * 2000) => A (ix2 (r : Fin 50000) p) * B (ix2 (r : Fin 50000) q))]
  refine Finset.sum_congr rfl fun s _ => ?_
  unfold term6
  rw [dif_pos s.isLt]

/-! ## The result array -/

/-- What the last point writes back is the host's term of the two arrays as the region finds them. -/
theorem flushed6_eq (c : Dev nD) (t : Fin cfg6.N) (hf : (cfg6.win 2).flush t = true) :
    (dat6 (F := Ideal) V c).flushed 2 t = ((cfg6.win 2).blk t).view.read (Elt Ideal) (maximumf (F := Ideal) (mulf (F := Ideal) (broadcastInDim Cert.ReferenceIdeal.S128x128 ![] Cert.ReferenceIdeal.Facts₀.bcast_S_S128x128 (constant (F := Ideal) Cert.ReferenceIdeal.S_ .f32 0x3F000000#32)) (Host.dotGeneral (F := Ideal) (φ₁ := .f32) (φ₂ := .f32) Cert.ReferenceIdeal.dot_S128x50000_S50000x128_S128x128_1_0_0_1_n_n none
        (transpose Cert.ReferenceIdeal.S128x50000 [1, 0] (V c main_v1) Cert.ReferenceIdeal.Facts₀.transposes_S50000x128_S128x50000_1_0) (V c main_arg6))) (Host.dotGeneral (F := Ideal) (φ₁ := .f32) (φ₂ := .f32) Cert.ReferenceIdeal.dot_S128x50000_S50000x128_S128x128_1_0_0_1_n_n none
        (transpose Cert.ReferenceIdeal.S128x50000 [1, 0] (V c main_v1) Cert.ReferenceIdeal.Facts₀.transposes_S50000x128_S128x50000_1_0) (V c main_arg6))) := by
  have h1 : t.val % 25 = 24 := (flush6_2 t).mp hf
  have hN : t.val < 25 := lt_of_lt_of_eq t.isLt N_6
  have ht : t.val = 24 := by omega
  show (cfg6.win 2).cut (grid6.coords t) ((dat6 V c).after 2 t) = _
  rw [after6_2, out6_last V c t h1]
  obtain ⟨e0, e1, e2, e3, e4, e5⟩ := rows6_facts t
  funext j
  obtain ⟨p, q, rfl⟩ : ∃ (p : Fin 128) (q : Fin 128), j = ix2 p q := ⟨j 0, j 1, eq_ix2 j⟩
  have hemb : ((cfg6.win 2).blk t).view.emb (ix2 p q) = ix2 p q := funext fun a => Fin.ext (by
    match a with
    | ⟨0, _⟩ => show win6_2.index t (0 : Fin 2) * 128 + 1 * p.val = p.val; omega
    | ⟨1, _⟩ => show win6_2.index t (1 : Fin 2) * 128 + 1 * q.val = q.val; omega)
  show k6_pay3 (outsAt6 (F := Ideal) V c t.val t.isLt).2 (ix2 p q) = (maximumf (F := Ideal) (mulf (F := Ideal) (broadcastInDim Cert.ReferenceIdeal.S128x128 ![] Cert.ReferenceIdeal.Facts₀.bcast_S_S128x128 (constant (F := Ideal) Cert.ReferenceIdeal.S_ .f32 0x3F000000#32)) (Host.dotGeneral (F := Ideal) (φ₁ := .f32) (φ₂ := .f32) Cert.ReferenceIdeal.dot_S128x50000_S50000x128_S128x128_1_0_0_1_n_n none
        (transpose Cert.ReferenceIdeal.S128x50000 [1, 0] (V c main_v1) Cert.ReferenceIdeal.Facts₀.transposes_S50000x128_S128x50000_1_0) (V c main_arg6))) (Host.dotGeneral (F := Ideal) (φ₁ := .f32) (φ₂ := .f32) Cert.ReferenceIdeal.dot_S128x50000_S50000x128_S128x128_1_0_0_1_n_n none
        (transpose Cert.ReferenceIdeal.S128x50000 [1, 0] (V c main_v1) Cert.ReferenceIdeal.Facts₀.transposes_S50000x128_S128x50000_1_0) (V c main_arg6))) (((cfg6.win 2).blk t).view.emb (ix2 p q))
  rw [hemb, pay6_3_apply]
  show _ = max (Ideal.ofBits .f32 0x3F000000#32 * (Host.dotGeneral (F := Ideal) (φ₁ := .f32) (φ₂ := .f32) Cert.ReferenceIdeal.dot_S128x50000_S50000x128_S128x128_1_0_0_1_n_n none
        (transpose Cert.ReferenceIdeal.S128x50000 [1, 0] (V c main_v1) Cert.ReferenceIdeal.Facts₀.transposes_S50000x128_S128x50000_1_0) (V c main_arg6)) (ix2 p q)) ((Host.dotGeneral (F := Ideal) (φ₁ := .f32) (φ₂ := .f32) Cert.ReferenceIdeal.dot_S128x50000_S50000x128_S128x128_1_0_0_1_n_n none
        (transpose Cert.ReferenceIdeal.S128x50000 [1, 0] (V c main_v1) Cert.ReferenceIdeal.Facts₀.transposes_S50000x128_S128x50000_1_0) (V c main_arg6)) (ix2 p q))
  have hacc : (outsAt6 (F := Ideal) V c t.val t.isLt).2 (ix2 p q) = (Host.dotGeneral (F := Ideal) (φ₁ := .f32) (φ₂ := .f32) Cert.ReferenceIdeal.dot_S128x50000_S50000x128_S128x128_1_0_0_1_n_n none
        (transpose Cert.ReferenceIdeal.S128x50000 [1, 0] (V c main_v1) Cert.ReferenceIdeal.Facts₀.transposes_S50000x128_S128x50000_1_0) (V c main_arg6)) (ix2 p q) := by
    rw [acc6_apply V c p q t.val t.isLt, host6_apply, ← sum_term6 (V c main_v1) (V c main_arg6) p q, ht]
  rw [hacc]

/-- Every entry of the result array is in the last point's block: the one block is the whole array. -/
theorem cover6 (i : S128x128.Idx) :
    ∃ t : Fin cfg6.N, (cfg6.win 2).flush t = true ∧ i ∈ ((cfg6.win 2).blk t).view.set := by
  have hN : grid6.N = 25 := N_6
  have ht : 24 < grid6.N := by rw [hN]; decide
  obtain ⟨e0, e1, e2, e3, e4, e5⟩ := rows6_facts ⟨24, ht⟩
  have hi0 : (i 0).val < 128 := idx2_lt0 i
  have hi1 : (i 1).val < 128 := idx2_lt1 i
  refine ⟨⟨24, ht⟩, (flush6_2 _).mpr (show (24 : ℕ) % 25 = 24 by decide), ?_⟩
  show i ∈ ((View.whole main_v60).slice (win6_2.rect ⟨24, ht⟩)).set
  rw [View.set_slice_whole, Rect.mem_set_unit]
  intro a
  match a with
  | ⟨0, _⟩ => show win6_2.index ⟨24, ht⟩ (0 : Fin 2) * 128 ≤ (i 0).val ∧ (i 0).val < win6_2.index ⟨24, ht⟩ (0 : Fin 2) * 128 + 128; omega
  | ⟨1, _⟩ => show win6_2.index ⟨24, ht⟩ (1 : Fin 2) * 128 ≤ (i 1).val ∧ (i 1).val < win6_2.index ⟨24, ht⟩ (1 : Fin 2) * 128 + 128; omega

/-- The result array after the region is the host's `max (0.5 · D) D` of `D`, the product of the transposed left array
    and the right array as the region finds them. -/
theorem val6_host (c : Dev nD) :
    (dat6 (F := Ideal) V c).arrAt 2 cfg6.N = (maximumf (F := Ideal) (mulf (F := Ideal) (broadcastInDim Cert.ReferenceIdeal.S128x128 ![] Cert.ReferenceIdeal.Facts₀.bcast_S_S128x128 (constant (F := Ideal) Cert.ReferenceIdeal.S_ .f32 0x3F000000#32)) (Host.dotGeneral (F := Ideal) (φ₁ := .f32) (φ₂ := .f32) Cert.ReferenceIdeal.dot_S128x50000_S50000x128_S128x128_1_0_0_1_n_n none
        (transpose Cert.ReferenceIdeal.S128x50000 [1, 0] (V c main_v1) Cert.ReferenceIdeal.Facts₀.transposes_S50000x128_S128x50000_1_0) (V c main_arg6))) (Host.dotGeneral (F := Ideal) (φ₁ := .f32) (φ₂ := .f32) Cert.ReferenceIdeal.dot_S128x50000_S50000x128_S128x128_1_0_0_1_n_n none
        (transpose Cert.ReferenceIdeal.S128x50000 [1, 0] (V c main_v1) Cert.ReferenceIdeal.Facts₀.transposes_S50000x128_S128x50000_1_0) (V c main_arg6))) :=
  (dat6 (F := Ideal) V c).arrAt_eq_of_cover 2 (maximumf (F := Ideal) (mulf (F := Ideal) (broadcastInDim Cert.ReferenceIdeal.S128x128 ![] Cert.ReferenceIdeal.Facts₀.bcast_S_S128x128 (constant (F := Ideal) Cert.ReferenceIdeal.S_ .f32 0x3F000000#32)) (Host.dotGeneral (F := Ideal) (φ₁ := .f32) (φ₂ := .f32) Cert.ReferenceIdeal.dot_S128x50000_S50000x128_S128x128_1_0_0_1_n_n none
        (transpose Cert.ReferenceIdeal.S128x50000 [1, 0] (V c main_v1) Cert.ReferenceIdeal.Facts₀.transposes_S50000x128_S128x50000_1_0) (V c main_arg6))) (Host.dotGeneral (F := Ideal) (φ₁ := .f32) (φ₂ := .f32) Cert.ReferenceIdeal.dot_S128x50000_S50000x128_S128x128_1_0_0_1_n_n none
        (transpose Cert.ReferenceIdeal.S128x50000 [1, 0] (V c main_v1) Cert.ReferenceIdeal.Facts₀.transposes_S50000x128_S128x50000_1_0) (V c main_arg6))) (fun t hf => flushed6_eq V c t hf) cover6

end Cert.KernelIdeal.Fr

end
-- ==== Proof.KI.Val7.lean ====
import proofs.«126270_j6725918785969_1_alg».proof.Proof.KI.Reg7
import proofs.«126270_j6725918785969_1_alg».proof.Proof.Gen.ReferenceIdeal
import Idealize.ShloMosaic.Lib.Pipeline.Value
import Idealize.ShloMosaic.Lib.ValueIdx
import Idealize.ShloMosaic.PureOps.Ideal.Laws

/-!
# Region 7, read: the result array is `max (0.5 · y) y` of the matrix product `y` of the two input arrays

At the extended reals a change of float format is the identity and the matrix unit's contraction into a zero
accumulator is the plain sum over the contracted axis, so the product's entry at row `p`, column `q` of a block is
`∑ d, x0 (p, d) · x1 (d, q)`, and the body stores the larger of that entry and half of it. The left factor's block at
grid point `t` is rows `2000·t …` of its array and the right factor's is the whole array, so what point `t` writes back
is block `t` of rows of the same pointwise function of the whole product; the blocks cover the rows (row `r` lies in
block `r / 2000`). The result is stated twice: as the host's operations on the two arrays (their `dot_general`, a scalar
one half broadcast, times the product, maximum with the product) and entry by entry.
-/

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat)

theorem hz7 : (![0, 0] : Fin 2 → Nat) = fun _ => 0 := funext fun a => by fin_cases a <;> rfl

/-! ## The body's contraction at an index -/

/-- The left block's index at output index `i` and contraction position `q`: the output's row, -/
theorem lhs7_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- and the contraction position. -/
theorem lhs7_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right block's: the contraction position, -/
theorem rhs7_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- and the output's column. -/
theorem rhs7_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The matrix unit's product of two blocks into the zero accumulator at row `p`, column `q`: the sum over the
    contracted axis of the products of the left block's row and the right block's column. -/
theorem mm7_apply (a : FVec Ideal S2000x128 .bf16) (b : FVec Ideal S128x128 .bf16) (p : Fin 2000) (q : Fin 128) :
    matmul dot_S2000x128_S128x128_S2000x128_1_0_0_1_n_n none a b (constant (F := Ideal) S2000x128 .f32 0x00000000#32) (ix2 p q) = ∑ d : Fin 128, a (ix2 p d) * b (ix2 d q) := by
  refine (Ideal.matmul_constant_zero_apply dot_S2000x128_S128x128_S2000x128_1_0_0_1_n_n none _ _ (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs7_0 _ _
    | ⟨1, _⟩ => exact (lhs7_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs7_0 _ _).trans hk
    | ⟨1, _⟩ => exact rhs7_1 _ _)
  rw [el, er]

/-- The body's payload at row `p`, column `q`: the larger of the product's entry and half of it (the changes of format
    and the casts to the same shape are the identity on the extended reals; the half is the same float word on both
    sides, never evaluated). -/
theorem pay7_apply (x0 : Vec Ideal S2000x128 .f32) (x1 : Vec Ideal S128x128 .f32) (p : Fin 2000) (q : Fin 128) :
    k7_pay1 x0 x1 (ix2 p q) = max (Ideal.ofBits .f32 0x3F000000#32 * ∑ d : Fin 128, x0 (ix2 p d) * x1 (ix2 d q)) (∑ d : Fin 128, x0 (ix2 p d) * x1 (ix2 d q)) := by
  unfold k7_pay1
  rw [shapeCast_self, shapeCast_self]
  exact congrArg (fun m : EReal => max (Ideal.ofBits .f32 0x3F000000#32 * m) m) (mm7_apply (truncf .bf16 x0 (by decide)) (truncf .bf16 x1 (by decide)) p q)

/-! ## The host's product of the whole arrays at an index -/

/-- The left array's index at output index `i` and contraction position `q`: the output's row, -/
theorem hlhs7_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
/-- and the contraction position. -/
theorem hlhs7_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
/-- The right array's: the contraction position, -/
theorem hrhs7_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
/-- and the output's column. -/
theorem hrhs7_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

/-- The host's product of a [50000,128] array and a [128,128] array at row `r`, column `s`: the sum over the
    contracted axis, in the extended reals. -/
theorem host7_apply (a : FVec Ideal S50000x128 .f32) (b : FVec Ideal S128x128 .f32) (r : Fin 50000) (s : Fin 128) :
    Host.dotGeneral (F := Ideal) Cert.ReferenceIdeal.dot_S50000x128_S128x128_S50000x128_1_0_0_1_n_n none a b (ix2 r s) = ∑ d : Fin 128, a (ix2 r d) * b (ix2 d s) := by
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 r s) ((contrEquiv1 Cert.ReferenceIdeal.dot_S50000x128_S128x128_S50000x128_1_0_0_1_n_n 128 rfl rfl).symm k) = ix2 r k := funext fun a => Fin.ext (by
    match a with
    | ⟨0, _⟩ => exact hlhs7_0 _ _
    | ⟨1, _⟩ => exact (hlhs7_1 _ _).trans hk)
  have er : Cert.ReferenceIdeal.dot_S50000x128_S128x128_S50000x128_1_0_0_1_n_n.rhsIdx (ix2 r s) ((contrEquiv1 Cert.ReferenceIdeal.dot_S50000x128_S128x128_S50000x128_1_0_0_1_n_n 128 rfl rfl).symm k) = ix2 k s := funext fun a => Fin.ext (by
    match a with
    | ⟨0, _⟩ => exact (hrhs7_0 _ _).trans hk
    | ⟨1, _⟩ => exact hrhs7_1 _ _)
  rw [el, er]

/-- The host's `max (0.5 · y) y` of that product at row `r`, column `s`. -/
theorem hostl7_apply (a : FVec Ideal S50000x128 .f32) (b : FVec Ideal S128x128 .f32) (r : Fin 50000) (s : Fin 128) :
    (maximumf (F := Ideal) (mulf (F := Ideal) (broadcastInDim Cert.ReferenceIdeal.S50000x128 ![] Cert.ReferenceIdeal.Facts₀.bcast_S_S50000x128 (constant (F := Ideal) Cert.ReferenceIdeal.S_ .f32 0x3F000000#32)) (Host.dotGeneral (F := Ideal) (φ₁ := .f32) (φ₂ := .f32) Cert.ReferenceIdeal.dot_S50000x128_S128x128_S50000x128_1_0_0_1_n_n none a b)) (Host.dotGeneral (F := Ideal) (φ₁ := .f32) (φ₂ := .f32) Cert.ReferenceIdeal.dot_S50000x128_S128x128_S50000x128_1_0_0_1_n_n none a b)) (ix2 r s)
      = max (Ideal.ofBits .f32 0x3F000000#32 * ∑ d : Fin 128, a (ix2 r d) * b (ix2 d s)) (∑ d : Fin 128, a (ix2 r d) * b (ix2 d s)) := by
  show max (Ideal.ofBits .f32 0x3F000000#32 * Host.dotGeneral (F := Ideal) (φ₁ := .f32) (φ₂ := .f32) Cert.ReferenceIdeal.dot_S50000x128_S128x128_S50000x128_1_0_0_1_n_n none a b (ix2 r s)) (Host.dotGeneral (F := Ideal) (φ₁ := .f32) (φ₂ := .f32) Cert.ReferenceIdeal.dot_S50000x128_S128x128_S50000x128_1_0_0_1_n_n none a b (ix2 r s)) = _
  rw [host7_apply]

/-! ## One block of rows -/

/-- One block of rows: when the left block `x0` holds rows `n·2000 …` of `A` and the right block is `B`, the payload at a
    block index is the host's term of `A`, `B` at the array index in the same place. -/
theorem pay7_block (A : FVec Ideal S50000x128 .f32) (B : FVec Ideal S128x128 .f32)
    (x0 : Vec Ideal S2000x128 .f32) (x1 : Vec Ideal S128x128 .f32) (n : Nat) (y : S2000x128.Idx) (i : S50000x128.Idx)
    (hx0 : ∀ (p : Fin 2000) (d : Fin 128) (r : Fin 50000), r.val = n * 2000 + p.val → x0 (ix2 p d) = A (ix2 r d))
    (hx1 : ∀ (d q : Fin 128), x1 (ix2 d q) = B (ix2 d q))
    (hi0 : (i 0).val = n * 2000 + (y 0).val) (hi1 : (i 1).val = (y 1).val) :
    k7_pay1 x0 x1 y = (maximumf (F := Ideal) (mulf (F := Ideal) (broadcastInDim Cert.ReferenceIdeal.S50000x128 ![] Cert.ReferenceIdeal.Facts₀.bcast_S_S50000x128 (constant (F := Ideal) Cert.ReferenceIdeal.S_ .f32 0x3F000000#32)) (Host.dotGeneral (F := Ideal) (φ₁ := .f32) (φ₂ := .f32) Cert.ReferenceIdeal.dot_S50000x128_S128x128_S50000x128_1_0_0_1_n_n none A B)) (Host.dotGeneral (F := Ideal) (φ₁ := .f32) (φ₂ := .f32) Cert.ReferenceIdeal.dot_S50000x128_S128x128_S50000x128_1_0_0_1_n_n none A B)) i := by
  obtain ⟨p, q, rfl⟩ : ∃ (p : Fin 2000) (q : Fin 128), y = ix2 p q := ⟨y 0, y 1, eq_ix2 y⟩
  obtain ⟨r, s, rfl⟩ : ∃ (r : Fin 50000) (s : Fin 128), i = ix2 r s := ⟨i 0, i 1, eq_ix2 i⟩
  have hs : s = q := Fin.ext hi1
  subst hs
  rw [pay7_apply, hostl7_apply]
  have hS : (∑ d : Fin 128, x0 (ix2 p d) * x1 (ix2 d s)) = ∑ d : Fin 128, A (ix2 r d) * B (ix2 d s) :=
    Finset.sum_congr rfl fun d _ => by rw [hx0 p d r hi0, hx1 d s]
  rw [hS]

/-! ## From blocks to the array -/

/-- The printed index maps over the grid: the left factor's and the result's blocks are block `t` of rows, the right
    factor's is the one block. -/
theorem rows7_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

variable (V : (c : Dev nD) → (b : Ref sig .tc) → Buf (Elt Ideal) ((c : Thread nD τ).loc b))

/-- What point `t` writes back is block `t` of `max (0.5 · y) y` of the product `y` of the two arrays as the region finds them. -/
theorem flushed7_eq (c : Dev nD) (t : Fin cfg7.N) :
    (dat7 (F := Ideal) V c).flushed 2 t
      = ((cfg7.win 2).blk t).view.read (Elt Ideal) (maximumf (F := Ideal) (mulf (F := Ideal) (broadcastInDim Cert.ReferenceIdeal.S50000x128 ![] Cert.ReferenceIdeal.Facts₀.bcast_S_S50000x128 (constant (F := Ideal) Cert.ReferenceIdeal.S_ .f32 0x3F000000#32)) (Host.dotGeneral (F := Ideal) (φ₁ := .f32) (φ₂ := .f32) Cert.ReferenceIdeal.dot_S50000x128_S128x128_S50000x128_1_0_0_1_n_n none (V c main_v1) (V c main_v84))) (Host.dotGeneral (F := Ideal) (φ₁ := .f32) (φ₂ := .f32) Cert.ReferenceIdeal.dot_S50000x128_S128x128_S50000x128_1_0_0_1_n_n none (V c main_v1) (V c main_v84))) := by
  show (cfg7.win 2).cut (grid7.coords t) ((dat7 V c).after 2 t) = _
  rw [after7_2]
  unfold out7_2
  rw [View.canon_unit_zero hz7]
  simp only [View.ld_unit_zero (S := S2000x128) hz7, View.ld_unit_zero (S := S128x128) hz7]
  obtain ⟨e0, e1, e2, e3, e4, e5⟩ := rows7_facts t
  funext j
  show k7_pay1 (iblk7 V c 0 t) (iblk7 V c 1 t) j = (maximumf (F := Ideal) (mulf (F := Ideal) (broadcastInDim Cert.ReferenceIdeal.S50000x128 ![] Cert.ReferenceIdeal.Facts₀.bcast_S_S50000x128 (constant (F := Ideal) Cert.ReferenceIdeal.S_ .f32 0x3F000000#32)) (Host.dotGeneral (F := Ideal) (φ₁ := .f32) (φ₂ := .f32) Cert.ReferenceIdeal.dot_S50000x128_S128x128_S50000x128_1_0_0_1_n_n none (V c main_v1) (V c main_v84))) (Host.dotGeneral (F := Ideal) (φ₁ := .f32) (φ₂ := .f32) Cert.ReferenceIdeal.dot_S50000x128_S128x128_S50000x128_1_0_0_1_n_n none (V c main_v1) (V c main_v84))) (((cfg7.win 2).blk t).view.emb j)
  refine pay7_block (V c main_v1) (V c main_v84) (iblk7 V c 0 t) (iblk7 V c 1 t) t.val j (((cfg7.win 2).blk t).view.emb j) ?_ ?_ ?_ ?_
  · intro p d r hr
    show V c main_v1 (((cfg7.win 0).blk t).view.emb (ix2 p d)) = V c main_v1 (ix2 r d)
    refine congrArg (V c main_v1) (funext fun a => Fin.ext ?_)
    match a with
    | ⟨0, _⟩ => show win7_0.index t (0 : Fin 2) * 2000 + 1 * p.val = r.val; omega
    | ⟨1, _⟩ => show win7_0.index t (1 : Fin 2) * 128 + 1 * d.val = d.val; omega
  · intro d q
    show V c main_v84 (((cfg7.win 1).blk t).view.emb (ix2 d q)) = V c main_v84 (ix2 d q)
    refine congrArg (V c main_v84) (funext fun a => Fin.ext ?_)
    match a with
    | ⟨0, _⟩ => show win7_1.index t (0 : Fin 2) * 128 + 1 * d.val = d.val; omega
    | ⟨1, _⟩ => show win7_1.index t (1 : Fin 2) * 128 + 1 * q.val = q.val; omega
  · show win7_2.index t (0 : Fin 2) * 2000 + 1 * (j 0).val = t.val * 2000 + (j 0).val; omega
  · show win7_2.index t (1 : Fin 2) * 128 + 1 * (j 1).val = (j 1).val; omega

/-- An index of the result array is in point `t`'s block iff each coordinate is in the block's range on its axis. -/
theorem mem_rows7 (t : Fin cfg7.N) (i : S50000x128.Idx) :
    i ∈ ((cfg7.win 2).blk t).view.set ↔ ∀ a : Fin 2, win7_2.index t a * S2000x128.size a ≤ (i a).val ∧ (i a).val < win7_2.index t a * S2000x128.size a + S2000x128.size a := by
  show i ∈ ((View.whole main_v85).slice (win7_2.rect t)).set ↔ _
  rw [View.set_slice_whole, Rect.mem_set_unit]
  exact Iff.rfl

/-- Every row is in some point's block: row `r` in that of point `r / 2000`. -/
theorem rows7_cover (i : S50000x128.Idx) :
    ∃ t : Fin cfg7.N, (cfg7.win 2).flush t = true ∧ i ∈ ((cfg7.win 2).blk t).view.set := by
  have hi0 : (i 0).val < 50000 := idx2_lt0 i
  have hi1 : (i 1).val < 128 := idx2_lt1 i
  have hN : grid7.N = 25 := N_7
  have ht : (i 0).val / 2000 < grid7.N := by rw [hN]; omega
  obtain ⟨e0, e1, e2, e3, e4, e5⟩ := rows7_facts ⟨(i 0).val / 2000, ht⟩
  have e4' : win7_2.index ⟨(i 0).val / 2000, ht⟩ (0 : Fin 2) = (i 0).val / 2000 := e4
  refine ⟨⟨(i 0).val / 2000, ht⟩, flush7_2 _, ?_⟩
  rw [mem_rows7]
  intro a
  match a with
  | ⟨0, _⟩ => show win7_2.index ⟨(i 0).val / 2000, ht⟩ (0 : Fin 2) * 2000 ≤ (i 0).val ∧ (i 0).val < win7_2.index ⟨(i 0).val / 2000, ht⟩ (0 : Fin 2) * 2000 + 2000; omega
  | ⟨1, _⟩ => show win7_2.index ⟨(i 0).val / 2000, ht⟩ (1 : Fin 2) * 128 ≤ (i 1).val ∧ (i 1).val < win7_2.index ⟨(i 0).val / 2000, ht⟩ (1 : Fin 2) * 128 + 128; omega

/-- The result array after the region is the host's `max (0.5 · y) y` of its product `y` of the two input arrays as the
    region finds them, -/
theorem val7_host (c : Dev nD) :
    (dat7 (F := Ideal) V c).arrAt 2 cfg7.N = maximumf (F := Ideal) (mulf (F := Ideal) (broadcastInDim Cert.ReferenceIdeal.S50000x128 ![] Cert.ReferenceIdeal.Facts₀.bcast_S_S50000x128 (constant (F := Ideal) Cert.ReferenceIdeal.S_ .f32 0x3F000000#32)) (Host.dotGeneral (F := Ideal) (φ₁ := .f32) (φ₂ := .f32) Cert.ReferenceIdeal.dot_S50000x128_S128x128_S50000x128_1_0_0_1_n_n none (V c main_v1) (V c main_v84))) (Host.dotGeneral (F := Ideal) (φ₁ := .f32) (φ₂ := .f32) Cert.ReferenceIdeal.dot_S50000x128_S128x128_S50000x128_1_0_0_1_n_n none (V c main_v1) (V c main_v84)) :=
  (dat7 (F := Ideal) V c).arrAt_eq_of_cover 2 (maximumf (F := Ideal) (mulf (F := Ideal) (broadcastInDim Cert.ReferenceIdeal.S50000x128 ![] Cert.ReferenceIdeal.Facts₀.bcast_S_S50000x128 (constant (F := Ideal) Cert.ReferenceIdeal.S_ .f32 0x3F000000#32)) (Host.dotGeneral (F := Ideal) (φ₁ := .f32) (φ₂ := .f32) Cert.ReferenceIdeal.dot_S50000x128_S128x128_S50000x128_1_0_0_1_n_n none (V c main_v1) (V c main_v84))) (Host.dotGeneral (F := Ideal) (φ₁ := .f32) (φ₂ := .f32) Cert.ReferenceIdeal.dot_S50000x128_S128x128_S50000x128_1_0_0_1_n_n none (V c main_v1) (V c main_v84))) (fun t _ => flushed7_eq V c t) rows7_cover

/-- that is, entry by entry, the larger of the product's entry and half of it (`A`, `B`: the two input arrays as the
    region finds them). -/
theorem val7_apply (c : Dev nD) (A : FVec Ideal S50000x128 .f32) (B : FVec Ideal S128x128 .f32)
    (hA : V c main_v1 = A) (hB : V c main_v84 = B) (r : Fin 50000) (s : Fin 128) :
    (dat7 (F := Ideal) V c).arrAt 2 cfg7.N (ix2 r s)
      = max (Ideal.ofBits .f32 0x3F000000#32 * ∑ d : Fin 128, A (ix2 r d) * B (ix2 d s)) (∑ d : Fin 128, A (ix2 r d) * B (ix2 d s)) := by
  rw [val7_host, hA, hB]
  exact hostl7_apply A B r s

end Cert.KernelIdeal.Fr

end
-- ==== Proof.KI.Val8.lean ====
import proofs.«126270_j6725918785969_1_alg».proof.Proof.KI.Reg8
import proofs.«126270_j6725918785969_1_alg».proof.Proof.Gen.ReferenceIdeal
import Idealize.ShloMosaic.Lib.Pipeline.Value
import Idealize.ShloMosaic.Lib.ValueIdx
import Idealize.ShloMosaic.PureOps.Ideal.Laws

/-!
# Region 8, read: the result array is `max (0.5 · x) x` of the input array, entry by entry

The body's payload is pointwise: at every index of a block, the larger of the input's entry and half of it. The
input's and the result's blocks at grid point `t` are both rows `2000·t …` of their arrays, so what point `t` writes
back is block `t` of rows of the pointwise function of the whole input array; the blocks cover the rows (row `r`
lies in block `r / 2000`). The result is stated twice: as the host's operations on the whole array (a scalar one half
broadcast, times the array, maximum with the array) and entry by entry.
-/

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat)

theorem hz8 : (![0, 0] : Fin 2 → Nat) = fun _ => 0 := funext fun a => by fin_cases a <;> rfl

/-- The body's payload at an index: the larger of the entry and half of it (the half is the same float word on
    both sides, never evaluated). -/
theorem pay8_apply (x0 : Vec Ideal S2000x128 .f32) (y : S2000x128.Idx) :
    k8_pay1 x0 y = max (Ideal.ofBits .f32 0x3F000000#32 * x0 y) (x0 y) := by
  unfold k8_pay1
  rw [shapeCast_self]
  rfl

/-- The host's form of the same on a whole [100000,128] array, at an index. -/
theorem host8_apply (A : FVec Ideal S100000x128 .f32) (i : S100000x128.Idx) :
    (maximumf (F := Ideal) (mulf (F := Ideal) (broadcastInDim Cert.ReferenceIdeal.S100000x128 ![] Cert.ReferenceIdeal.Facts₀.bcast_S_S100000x128 (constant (F := Ideal) Cert.ReferenceIdeal.S_ .f32 0x3F000000#32)) A) A) i = max (Ideal.ofBits .f32 0x3F000000#32 * A i) (A i) := rfl

/-- One block of rows: when the block `x0` holds rows `n·2000 …` of `A`, the payload at a block index is the host's
    term of `A` at the array index in the same place. -/
theorem pay8_block (A : FVec Ideal S100000x128 .f32) (x0 : Vec Ideal S2000x128 .f32) (y : S2000x128.Idx) (i : S100000x128.Idx)
    (hx0 : x0 y = A i) :
    k8_pay1 x0 y = (maximumf (F := Ideal) (mulf (F := Ideal) (broadcastInDim Cert.ReferenceIdeal.S100000x128 ![] Cert.ReferenceIdeal.Facts₀.bcast_S_S100000x128 (constant (F := Ideal) Cert.ReferenceIdeal.S_ .f32 0x3F000000#32)) A) A) i := by
  rw [pay8_apply, host8_apply, hx0]

/-! ## From blocks to the array -/

/-- The printed index maps over the grid: the input's and the result's blocks are block `t` of rows. -/
theorem rows8_facts : ∀ t : Fin cfg8.N, win8_0.index t (0 : Fin 2) = t.val ∧ win8_0.index t (1 : Fin 2) = 0
    ∧ win8_1.index t (0 : Fin 2) = t.val ∧ win8_1.index t (1 : Fin 2) = 0 :=
  (by decide +kernel : ∀ t : Fin grid8.N, _)

variable (V : (c : Dev nD) → (b : Ref sig .tc) → Buf (Elt Ideal) ((c : Thread nD τ).loc b))

/-- What point `t` writes back is block `t` of the pointwise function of the input array as the region finds it. -/
theorem flushed8_eq (c : Dev nD) (t : Fin cfg8.N) :
    (dat8 (F := Ideal) V c).flushed 1 t
      = ((cfg8.win 1).blk t).view.read (Elt Ideal) (maximumf (F := Ideal) (mulf (F := Ideal) (broadcastInDim Cert.ReferenceIdeal.S100000x128 ![] Cert.ReferenceIdeal.Facts₀.bcast_S_S100000x128 (constant (F := Ideal) Cert.ReferenceIdeal.S_ .f32 0x3F000000#32)) (V c main_v102)) (V c main_v102)) := by
  show (cfg8.win 1).cut (grid8.coords t) ((dat8 V c).after 1 t) = _
  rw [after8_1]
  unfold out8_1
  rw [View.canon_unit_zero hz8]
  simp only [View.ld_unit_zero (S := S2000x128) hz8]
  obtain ⟨e0, e1, e2, e3⟩ := rows8_facts t
  funext j
  show k8_pay1 (iblk8 V c 0 t) j = (maximumf (F := Ideal) (mulf (F := Ideal) (broadcastInDim Cert.ReferenceIdeal.S100000x128 ![] Cert.ReferenceIdeal.Facts₀.bcast_S_S100000x128 (constant (F := Ideal) Cert.ReferenceIdeal.S_ .f32 0x3F000000#32)) (V c main_v102)) (V c main_v102)) (((cfg8.win 1).blk t).view.emb j)
  refine pay8_block (V c main_v102) (iblk8 V c 0 t) j (((cfg8.win 1).blk t).view.emb j) ?_
  show V c main_v102 (((cfg8.win 0).blk t).view.emb j) = V c main_v102 (((cfg8.win 1).blk t).view.emb j)
  refine congrArg (V c main_v102) (funext fun a => Fin.ext ?_)
  match a with
  | ⟨0, _⟩ => show win8_0.index t (0 : Fin 2) * 2000 + 1 * (j 0).val = win8_1.index t (0 : Fin 2) * 2000 + 1 * (j 0).val; omega
  | ⟨1, _⟩ => show win8_0.index t (1 : Fin 2) * 128 + 1 * (j 1).val = win8_1.index t (1 : Fin 2) * 128 + 1 * (j 1).val; omega

/-- An index of the result array is in point `t`'s block iff each coordinate is in the block's range on its axis. -/
theorem mem_rows8 (t : Fin cfg8.N) (i : S100000x128.Idx) :
    i ∈ ((cfg8.win 1).blk t).view.set ↔ ∀ a : Fin 2, win8_1.index t a * S2000x128.size a ≤ (i a).val ∧ (i a).val < win8_1.index t a * S2000x128.size a + S2000x128.size a := by
  show i ∈ ((View.whole main_v116).slice (win8_1.rect t)).set ↔ _
  rw [View.set_slice_whole, Rect.mem_set_unit]
  exact Iff.rfl

/-- Every row is in some point's block: row `r` in that of point `r / 2000`. -/
theorem rows8_cover (i : S100000x128.Idx) :
    ∃ t : Fin cfg8.N, (cfg8.win 1).flush t = true ∧ i ∈ ((cfg8.win 1).blk t).view.set := by
  have hi0 : (i 0).val < 100000 := idx2_lt0 i
  have hi1 : (i 1).val < 128 := idx2_lt1 i
  have hN : grid8.N = 50 := N_8
  have ht : (i 0).val / 2000 < grid8.N := by rw [hN]; omega
  obtain ⟨e0, e1, e2, e3⟩ := rows8_facts ⟨(i 0).val / 2000, ht⟩
  have e2' : win8_1.index ⟨(i 0).val / 2000, ht⟩ (0 : Fin 2) = (i 0).val / 2000 := e2
  refine ⟨⟨(i 0).val / 2000, ht⟩, flush8_1 _, ?_⟩
  rw [mem_rows8]
  intro a
  match a with
  | ⟨0, _⟩ => show win8_1.index ⟨(i 0).val / 2000, ht⟩ (0 : Fin 2) * 2000 ≤ (i 0).val ∧ (i 0).val < win8_1.index ⟨(i 0).val / 2000, ht⟩ (0 : Fin 2) * 2000 + 2000; omega
  | ⟨1, _⟩ => show win8_1.index ⟨(i 0).val / 2000, ht⟩ (1 : Fin 2) * 128 ≤ (i 1).val ∧ (i 1).val < win8_1.index ⟨(i 0).val / 2000, ht⟩ (1 : Fin 2) * 128 + 128; omega

/-- The result array after the region is the host's `max (0.5 · x) x` of the input array as the region finds it, -/
theorem val8_host (c : Dev nD) :
    (dat8 (F := Ideal) V c).arrAt 1 cfg8.N = maximumf (F := Ideal) (mulf (F := Ideal) (broadcastInDim Cert.ReferenceIdeal.S100000x128 ![] Cert.ReferenceIdeal.Facts₀.bcast_S_S100000x128 (constant (F := Ideal) Cert.ReferenceIdeal.S_ .f32 0x3F000000#32)) (V c main_v102)) (V c main_v102) :=
  (dat8 (F := Ideal) V c).arrAt_eq_of_cover 1 (maximumf (F := Ideal) (mulf (F := Ideal) (broadcastInDim Cert.ReferenceIdeal.S100000x128 ![] Cert.ReferenceIdeal.Facts₀.bcast_S_S100000x128 (constant (F := Ideal) Cert.ReferenceIdeal.S_ .f32 0x3F000000#32)) (V c main_v102)) (V c main_v102)) (fun t _ => flushed8_eq V c t) rows8_cover

/-- that is, entry by entry, the larger of the input's entry and half of it (`A`: the input array as the region finds it). -/
theorem val8_apply (c : Dev nD) (A : FVec Ideal S100000x128 .f32) (hA : V c main_v102 = A) (i : S100000x128.Idx) :
    (dat8 (F := Ideal) V c).arrAt 1 cfg8.N i = max (Ideal.ofBits .f32 0x3F000000#32 * A i) (A i) := by
  rw [val8_host, hA]
  rfl

end Cert.KernelIdeal.Fr

end
-- ==== Proof.KI.Val9.lean ====
import proofs.«126270_j6725918785969_1_alg».proof.Proof.KI.Reg9
import proofs.«126270_j6725918785969_1_alg».proof.Proof.Gen.ReferenceIdeal
import Idealize.ShloMosaic.Lib.Pipeline.Value
import Idealize.ShloMosaic.Lib.ValueIdx
import Idealize.ShloMosaic.PureOps.Ideal.Laws

/-!
# Region 9, read: the result array is `max (0.5 · x) x` of the input array, entry by entry

The body's payload is pointwise: at every index of a block, the larger of the input's entry and half of it. The
input's and the result's blocks at grid point `t` are both rows `2000·t …` of their arrays, so what point `t` writes
back is block `t` of rows of the pointwise function of the whole input array; the blocks cover the rows (row `r`
lies in block `r / 2000`). The result is stated twice: as the host's operations on the whole array (a scalar one half
broadcast, times the array, maximum with the array) and entry by entry.
-/

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat)

theorem hz9 : (![0, 0] : Fin 2 → Nat) = fun _ => 0 := funext fun a => by fin_cases a <;> rfl

/-- The body's payload at an index: the larger of the entry and half of it (the half is the same float word on
    both sides, never evaluated). -/
theorem pay9_apply (x0 : Vec Ideal S2000x128 .f32) (y : S2000x128.Idx) :
    k9_pay1 x0 y = max (Ideal.ofBits .f32 0x3F000000#32 * x0 y) (x0 y) := by
  unfold k9_pay1
  rw [shapeCast_self]
  rfl

/-- The host's form of the same on a whole [50000,128] array, at an index. -/
theorem host9_apply (A : FVec Ideal S50000x128 .f32) (i : S50000x128.Idx) :
    (maximumf (F := Ideal) (mulf (F := Ideal) (broadcastInDim Cert.ReferenceIdeal.S50000x128 ![] Cert.ReferenceIdeal.Facts₀.bcast_S_S50000x128 (constant (F := Ideal) Cert.ReferenceIdeal.S_ .f32 0x3F000000#32)) A) A) i = max (Ideal.ofBits .f32 0x3F000000#32 * A i) (A i) := rfl

/-- One block of rows: when the block `x0` holds rows `n·2000 …` of `A`, the payload at a block index is the host's
    term of `A` at the array index in the same place. -/
theorem pay9_block (A : FVec Ideal S50000x128 .f32) (x0 : Vec Ideal S2000x128 .f32) (y : S2000x128.Idx) (i : S50000x128.Idx)
    (hx0 : x0 y = A i) :
    k9_pay1 x0 y = (maximumf (F := Ideal) (mulf (F := Ideal) (broadcastInDim Cert.ReferenceIdeal.S50000x128 ![] Cert.ReferenceIdeal.Facts₀.bcast_S_S50000x128 (constant (F := Ideal) Cert.ReferenceIdeal.S_ .f32 0x3F000000#32)) A) A) i := by
  rw [pay9_apply, host9_apply, hx0]

/-! ## From blocks to the array -/

/-- The printed index maps over the grid: the input's and the result's blocks are block `t` of rows. -/
theorem rows9_facts : ∀ t : Fin cfg9.N, win9_0.index t (0 : Fin 2) = t.val ∧ win9_0.index t (1 : Fin 2) = 0
    ∧ win9_1.index t (0 : Fin 2) = t.val ∧ win9_1.index t (1 : Fin 2) = 0 :=
  (by decide +kernel : ∀ t : Fin grid9.N, _)

variable (V : (c : Dev nD) → (b : Ref sig .tc) → Buf (Elt Ideal) ((c : Thread nD τ).loc b))

/-- What point `t` writes back is block `t` of the pointwise function of the input array as the region finds it. -/
theorem flushed9_eq (c : Dev nD) (t : Fin cfg9.N) :
    (dat9 (F := Ideal) V c).flushed 1 t
      = ((cfg9.win 1).blk t).view.read (Elt Ideal) (maximumf (F := Ideal) (mulf (F := Ideal) (broadcastInDim Cert.ReferenceIdeal.S50000x128 ![] Cert.ReferenceIdeal.Facts₀.bcast_S_S50000x128 (constant (F := Ideal) Cert.ReferenceIdeal.S_ .f32 0x3F000000#32)) (V c main_v115)) (V c main_v115)) := by
  show (cfg9.win 1).cut (grid9.coords t) ((dat9 V c).after 1 t) = _
  rw [after9_1]
  unfold out9_1
  rw [View.canon_unit_zero hz9]
  simp only [View.ld_unit_zero (S := S2000x128) hz9]
  obtain ⟨e0, e1, e2, e3⟩ := rows9_facts t
  funext j
  show k9_pay1 (iblk9 V c 0 t) j = (maximumf (F := Ideal) (mulf (F := Ideal) (broadcastInDim Cert.ReferenceIdeal.S50000x128 ![] Cert.ReferenceIdeal.Facts₀.bcast_S_S50000x128 (constant (F := Ideal) Cert.ReferenceIdeal.S_ .f32 0x3F000000#32)) (V c main_v115)) (V c main_v115)) (((cfg9.win 1).blk t).view.emb j)
  refine pay9_block (V c main_v115) (iblk9 V c 0 t) j (((cfg9.win 1).blk t).view.emb j) ?_
  show V c main_v115 (((cfg9.win 0).blk t).view.emb j) = V c main_v115 (((cfg9.win 1).blk t).view.emb j)
  refine congrArg (V c main_v115) (funext fun a => Fin.ext ?_)
  match a with
  | ⟨0, _⟩ => show win9_0.index t (0 : Fin 2) * 2000 + 1 * (j 0).val = win9_1.index t (0 : Fin 2) * 2000 + 1 * (j 0).val; omega
  | ⟨1, _⟩ => show win9_0.index t (1 : Fin 2) * 128 + 1 * (j 1).val = win9_1.index t (1 : Fin 2) * 128 + 1 * (j 1).val; omega

/-- An index of the result array is in point `t`'s block iff each coordinate is in the block's range on its axis. -/
theorem mem_rows9 (t : Fin cfg9.N) (i : S50000x128.Idx) :
    i ∈ ((cfg9.win 1).blk t).view.set ↔ ∀ a : Fin 2, win9_1.index t a * S2000x128.size a ≤ (i a).val ∧ (i a).val < win9_1.index t a * S2000x128.size a + S2000x128.size a := by
  show i ∈ ((View.whole main_v117).slice (win9_1.rect t)).set ↔ _
  rw [View.set_slice_whole, Rect.mem_set_unit]
  exact Iff.rfl

/-- Every row is in some point's block: row `r` in that of point `r / 2000`. -/
theorem rows9_cover (i : S50000x128.Idx) :
    ∃ t : Fin cfg9.N, (cfg9.win 1).flush t = true ∧ i ∈ ((cfg9.win 1).blk t).view.set := by
  have hi0 : (i 0).val < 50000 := idx2_lt0 i
  have hi1 : (i 1).val < 128 := idx2_lt1 i
  have hN : grid9.N = 25 := N_9
  have ht : (i 0).val / 2000 < grid9.N := by rw [hN]; omega
  obtain ⟨e0, e1, e2, e3⟩ := rows9_facts ⟨(i 0).val / 2000, ht⟩
  have e2' : win9_1.index ⟨(i 0).val / 2000, ht⟩ (0 : Fin 2) = (i 0).val / 2000 := e2
  refine ⟨⟨(i 0).val / 2000, ht⟩, flush9_1 _, ?_⟩
  rw [mem_rows9]
  intro a
  match a with
  | ⟨0, _⟩ => show win9_1.index ⟨(i 0).val / 2000, ht⟩ (0 : Fin 2) * 2000 ≤ (i 0).val ∧ (i 0).val < win9_1.index ⟨(i 0).val / 2000, ht⟩ (0 : Fin 2) * 2000 + 2000; omega
  | ⟨1, _⟩ => show win9_1.index ⟨(i 0).val / 2000, ht⟩ (1 : Fin 2) * 128 ≤ (i 1).val ∧ (i 1).val < win9_1.index ⟨(i 0).val / 2000, ht⟩ (1 : Fin 2) * 128 + 128; omega

/-- The result array after the region is the host's `max (0.5 · x) x` of the input array as the region finds it, -/
theorem val9_host (c : Dev nD) :
    (dat9 (F := Ideal) V c).arrAt 1 cfg9.N = maximumf (F := Ideal) (mulf (F := Ideal) (broadcastInDim Cert.ReferenceIdeal.S50000x128 ![] Cert.ReferenceIdeal.Facts₀.bcast_S_S50000x128 (constant (F := Ideal) Cert.ReferenceIdeal.S_ .f32 0x3F000000#32)) (V c main_v115)) (V c main_v115) :=
  (dat9 (F := Ideal) V c).arrAt_eq_of_cover 1 (maximumf (F := Ideal) (mulf (F := Ideal) (broadcastInDim Cert.ReferenceIdeal.S50000x128 ![] Cert.ReferenceIdeal.Facts₀.bcast_S_S50000x128 (constant (F := Ideal) Cert.ReferenceIdeal.S_ .f32 0x3F000000#32)) (V c main_v115)) (V c main_v115)) (fun t _ => flushed9_eq V c t) rows9_cover

/-- that is, entry by entry, the larger of the input's entry and half of it (`A`: the input array as the region finds it). -/
theorem val9_apply (c : Dev nD) (A : FVec Ideal S50000x128 .f32) (hA : V c main_v115 = A) (i : S50000x128.Idx) :
    (dat9 (F := Ideal) V c).arrAt 1 cfg9.N i = max (Ideal.ofBits .f32 0x3F000000#32 * A i) (A i) := by
  rw [val9_host, hA]
  rfl

end Cert.KernelIdeal.Fr

end
-- ==== Proof.KI.Val10.lean ====
import proofs.«126270_j6725918785969_1_alg».proof.Proof.KI.Reg10
import proofs.«126270_j6725918785969_1_alg».proof.Proof.Gen.ReferenceIdeal
import proofs.«126270_j6725918785969_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws

/-!
# Region 10, read: the result array is `max (0.5 · D) D` of `D = xᵀ · y`, the product of the two input arrays

At the extended reals a change of float format is the identity and the matrix unit's contraction into a zero
accumulator is the plain sum over the contracted axis, so the accumulating payload at row `p`, column `q` is what the
accumulator held there plus `∑ d, x0 (d, p) · x1 (d, q)` over the block's 2000 rows. Each input's block at grid point
`t` is rows `2000·t …` of its array, so after point `n` the accumulator's entry `(p, q)` is the sum over blocks
`0 … n` of those partial sums (by induction on the point: zero plus the first block's at the first point, what it held
plus the next block's afterwards); a sum over the 100000 rows is the sum over fifty blocks of 2000 consecutive rows,
so after the last point the accumulator holds the whole contraction `∑ r, x (r, p) · y (r, q)`, which is the host's
product of the transposed left array and the right array. The last point stores the larger of each entry and half of
it into the output's one block, which is the whole result array and is written back there and nowhere else.
-/

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat)

theorem hz10 : (![0, 0] : Fin 2 → Nat) = fun _ => 0 := funext fun a => by fin_cases a <;> rfl

/-! ## What each case leaves, in closed form -/

section AnyF
variable {F : FTy → Type} [FloatOps F]

/-- A load of a whole memref held at the raw contents that read `X`, through the whole-shape rectangle at zero
    offsets, reads `X`. -/
theorem readAt_whole10 {S : Shape} {e : EltTy} (m : Memref sig .tc .vmem S e) (h : m.IsWhole) (X : S.Idx → Elt F e)
    {off : Fin S.rank → Nat} (ho : off = fun _ => 0) (inb : ∀ a, off a + S.size a ≤ S.size a) :
    View.readAt (Elt F) m.view (Rect.unit off S.size inb).toLoadRect (h.unread X) = X := by
  show View.ld (m.view.read (Elt F) (h.unread X)) (Rect.unit off S.size inb) = X
  rw [h.read_unread, View.ld_unit_zero ho]

/-- The first point leaves the accumulator at zero plus the product of the two blocks. -/
theorem sout10_A_0_eq (c : Dev nD) (i : grid10.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : cond10_0 i) (hc1 : ¬cond10_1 i)
    (x0 : Vec F S2000x128 .f32) (x1 : Vec F S2000x128 .f32) :
    sout10_A_0 c i arg1 harg1 arg2 harg2 arg3 harg3 arg4 harg4 hc0 hc1 x0 x1 = k10_pay2 x0 x1 (k10_pay1 (F := F)) := by
  unfold sout10_A_0
  rw [View.read_writes_eq_canon _ _ _ (scover10_A_0 c i arg1 harg1 arg2 harg2 arg3 harg3 arg4 harg4 hc0 hc1 x0 x1)]
  unfold kernelRun10_A
  dsimp only
  unfold kernelRun10_A.sl.v9 kernelRun10_A.sl.HS0_1
  rw [View.canon_cons_unit_zero hz10, View.readCov_unit_zero _ hz10]
  rw [readAt_whole10 arg1 harg1 x0 hz10, readAt_whole10 arg2 harg2 x1 hz10]

/-- A middle point leaves it at what it held plus the product of the two blocks. -/
theorem sout10_B_0_eq (c : Dev nD) (i : grid10.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond10_0 i) (hc1 : ¬cond10_1 i)
    (x0 : Vec F S2000x128 .f32) (x1 : Vec F S2000x128 .f32) (xs0 : Vec F S128x128 .f32) :
    sout10_B_0 c i arg1 harg1 arg2 harg2 arg3 harg3 arg4 harg4 hc0 hc1 x0 x1 xs0 = k10_pay2 x0 x1 xs0 := by
  unfold sout10_B_0
  rw [View.read_writes_eq_canon _ _ _ (scover10_B_0 c i arg1 harg1 arg2 harg2 arg3 harg3 arg4 harg4 hc0 hc1 x0 x1 xs0)]
  unfold kernelRun10_B
  dsimp only
  rw [View.canon_unit_zero hz10]
  rw [readAt_whole10 arg1 harg1 x0 hz10, readAt_whole10 arg2 harg2 x1 hz10, readAt_whole10 arg4 harg4 xs0 hz10]

/-- The last point leaves the accumulator at what it held plus the product of the two blocks, -/
theorem sout10_C_0_eq (c : Dev nD) (i : grid10.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond10_0 i) (hc1 : cond10_1 i)
    (x0 : Vec F S2000x128 .f32) (x1 : Vec F S2000x128 .f32) (xs0 : Vec F S128x128 .f32) :
    sout10_C_0 c i arg1 harg1 arg2 harg2 arg3 harg3 arg4 harg4 hc0 hc1 x0 x1 xs0 = k10_pay2 x0 x1 xs0 := by
  unfold sout10_C_0
  rw [View.read_writes_eq_canon _ _ _ (scover10_C_0 c i arg1 harg1 arg2 harg2 arg3 harg3 arg4 harg4 hc0 hc1 x0 x1 xs0)]
  unfold kernelRun10_C
  dsimp only
  unfold kernelRun10_C.sl.HS0_1
  rw [View.canon_unit_zero hz10]
  rw [readAt_whole10 arg1 harg1 x0 hz10, readAt_whole10 arg2 harg2 x1 hz10, readAt_whole10 arg4 harg4 xs0 hz10]

/-- and the output's buffer at the rectifier of that. -/
theorem out10_C_2_eq (c : Dev nD) (i : grid10.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond10_0 i) (hc1 : cond10_1 i)
    (x0 : Vec F S2000x128 .f32) (x1 : Vec F S2000x128 .f32) (xs0 : Vec F S128x128 .f32) :
    out10_C_2 c i arg1 harg1 arg2 harg2 arg3 harg3 arg4 harg4 hc0 hc1 x0 x1 xs0 = k10_pay3 (k10_pay2 x0 x1 xs0) := by
  unfold out10_C_2
  rw [View.read_writes_eq_canon _ _ _ (cover10_C_2 c i arg1 harg1 arg2 harg2 arg3 harg3 arg4 harg4 hc0 hc1 x0 x1 xs0)]
  unfold kernelRun10_C
  dsimp only
  unfold kernelRun10_C.sl.v18 kernelRun10_C.sl.HS0_1
  rw [View.canon_unit_zero hz10, View.readCov_unit_zero _ hz10]
  rw [readAt_whole10 arg1 harg1 x0 hz10, readAt_whole10 arg2 harg2 x1 hz10, readAt_whole10 arg4 harg4 xs0 hz10]

end AnyF

/-! ## The body's payloads at an index, at the extended reals -/

/-- The left block's index at output index `i` and contraction position `k`: the contraction position, -/
theorem lhs10_0 (i : S128x128.Idx) (k : dot_S2000x128_S2000x128_S128x128_0_0_1_1_n_n.contr.Idx) :
    (dot_S2000x128_S2000x128_S128x128_0_0_1_1_n_n.lhsIdx i k 0).val = (k ⟨0, by decide⟩).val :=
  dot_S2000x128_S2000x128_S128x128_0_0_1_1_n_n.lhsIdx_val_of_single rfl i k
/-- and the output's row. -/
theorem lhs10_1 (i : S128x128.Idx) (k : dot_S2000x128_S2000x128_S128x128_0_0_1_1_n_n.contr.Idx) :
    (dot_S2000x128_S2000x128_S128x128_0_0_1_1_n_n.lhsIdx i k 1).val = (i 0).val := by
  unfold DotDims.lhsIdx
  rw [dif_neg (show ¬(1 : Fin S2000x128.rank) ∈ dot_S2000x128_S2000x128_S128x128_0_0_1_1_n_n.lhsBatch by decide), dif_pos (show (1 : Fin S2000x128.rank) ∈ dot_S2000x128_S2000x128_S128x128_0_0_1_1_n_n.lhsNonContracting by decide)]
  rfl
/-- The right block's: the contraction position, -/
theorem rhs10_0 (i : S128x128.Idx) (k : dot_S2000x128_S2000x128_S128x128_0_0_1_1_n_n.contr.Idx) :
    (dot_S2000x128_S2000x128_S128x128_0_0_1_1_n_n.rhsIdx i k 0).val = (k ⟨0, by decide⟩).val :=
  dot_S2000x128_S2000x128_S128x128_0_0_1_1_n_n.rhsIdx_val_of_single rfl i k
/-- and the output's column. -/
theorem rhs10_1 (i : S128x128.Idx) (k : dot_S2000x128_S2000x128_S128x128_0_0_1_1_n_n.contr.Idx) :
    (dot_S2000x128_S2000x128_S128x128_0_0_1_1_n_n.rhsIdx i k 1).val = (i 1).val := by
  unfold DotDims.rhsIdx
  rw [dif_neg (show ¬(1 : Fin S2000x128.rank) ∈ dot_S2000x128_S2000x128_S128x128_0_0_1_1_n_n.rhsBatch by decide), dif_pos (show (1 : Fin S2000x128.rank) ∈ dot_S2000x128_S2000x128_S128x128_0_0_1_1_n_n.rhsNonContracting by decide)]
  rfl

/-- The zeroing payload is zero everywhere. -/
theorem pay10_1_apply (y : S128x128.Idx) : k10_pay1 (F := Ideal) y = 0 := by
  unfold k10_pay1
  rw [shapeCast_self]
  exact Ideal.ofBits_zero_f32

/-- The accumulating payload at row `p`, column `q`: what the accumulator held there plus the sum over the block's
    2000 rows of the products of the left block's column `p` and the right block's column `q` (the change of format is
    the identity on the extended reals, the matrix unit's own accumulator is zero). -/
theorem pay10_2_apply (v3 v6 : Vec Ideal S2000x128 .f32) (v8 : Vec Ideal S128x128 .f32) (p q : Fin 128) :
    k10_pay2 v3 v6 v8 (ix2 p q) = v8 (ix2 p q) + ∑ d : Fin 2000, v3 (ix2 d p) * v6 (ix2 d q) := by
  unfold k10_pay2
  rw [shapeCast_self]
  show v8 (ix2 p q) + FloatOps.matmul (F := Ideal) dot_S2000x128_S2000x128_S128x128_0_0_1_1_n_n none _ _ (constant S128x128 .f32 0x00000000#32) (ix2 p q) = _
  rw [Ideal.matmul_constant_zero_apply]
  congr 1
  rw [← Equiv.sum_comp (contrEquiv1 dot_S2000x128_S2000x128_S128x128_0_0_1_1_n_n 2000 rfl rfl).symm]
  refine Finset.sum_congr rfl fun k _ => ?_
  have hk := contrEquiv1_symm_val dot_S2000x128_S2000x128_S128x128_0_0_1_1_n_n 2000 rfl rfl k
  have el : dot_S2000x128_S2000x128_S128x128_0_0_1_1_n_n.lhsIdx (ix2 p q) ((contrEquiv1 dot_S2000x128_S2000x128_S128x128_0_0_1_1_n_n 2000 rfl rfl).symm k) = ix2 k p := funext fun a => Fin.ext (by
    match a with
    | ⟨0, _⟩ => exact (lhs10_0 _ _).trans hk
    | ⟨1, _⟩ => exact lhs10_1 _ _)
  have er : dot_S2000x128_S2000x128_S128x128_0_0_1_1_n_n.rhsIdx (ix2 p q) ((contrEquiv1 dot_S2000x128_S2000x128_S128x128_0_0_1_1_n_n 2000 rfl rfl).symm k) = ix2 k q := funext fun a => Fin.ext (by
    match a with
    | ⟨0, _⟩ => exact (rhs10_0 _ _).trans hk
    | ⟨1, _⟩ => exact rhs10_1 _ _)
  rw [el, er, truncf_apply, truncf_apply, shapeCast_self, shapeCast_self]

/-- The rectifier payload at an index: the larger of the entry and half of it. -/
theorem pay10_3_apply (v : Vec Ideal S128x128 .f32) (y : S128x128.Idx) :
    k10_pay3 v y = max (Ideal.ofBits .f32 0x3F000000#32 * v y) (v y) := by
  unfold k10_pay3
  rfl

/-! ## The host's product of the transposed left array and the right array, at an index -/

/-- The left operand's index at output index `i` and contraction position `k`: the output's row, -/
theorem hlhs10_0 (i : Cert.ReferenceIdeal.S128x128.Idx) (k : Cert.ReferenceIdeal.dot_S128x100000_S100000x128_S128x128_1_0_0_1_n_n.contr.Idx) :
    (Cert.ReferenceIdeal.dot_S128x100000_S100000x128_S128x128_1_0_0_1_n_n.lhsIdx i k 0).val = (i 0).val := by
  unfold DotDims.lhsIdx
  rw [dif_neg (show ¬(0 : Fin Cert.ReferenceIdeal.S128x100000.rank) ∈ Cert.ReferenceIdeal.dot_S128x100000_S100000x128_S128x128_1_0_0_1_n_n.lhsBatch by decide), dif_pos (show (0 : Fin Cert.ReferenceIdeal.S128x100000.rank) ∈ Cert.ReferenceIdeal.dot_S128x100000_S100000x128_S128x128_1_0_0_1_n_n.lhsNonContracting by decide)]
  rfl
/-- and the contraction position. -/
theorem hlhs10_1 (i : Cert.ReferenceIdeal.S128x128.Idx) (k : Cert.ReferenceIdeal.dot_S128x100000_S100000x128_S128x128_1_0_0_1_n_n.contr.Idx) :
    (Cert.ReferenceIdeal.dot_S128x100000_S100000x128_S128x128_1_0_0_1_n_n.lhsIdx i k 1).val = (k ⟨0, by decide⟩).val :=
  Cert.ReferenceIdeal.dot_S128x100000_S100000x128_S128x128_1_0_0_1_n_n.lhsIdx_val_of_single rfl i k
/-- The right operand's: the contraction position, -/
theorem hrhs10_0 (i : Cert.ReferenceIdeal.S128x128.Idx) (k : Cert.ReferenceIdeal.dot_S128x100000_S100000x128_S128x128_1_0_0_1_n_n.contr.Idx) :
    (Cert.ReferenceIdeal.dot_S128x100000_S100000x128_S128x128_1_0_0_1_n_n.rhsIdx i k 0).val = (k ⟨0, by decide⟩).val :=
  Cert.ReferenceIdeal.dot_S128x100000_S100000x128_S128x128_1_0_0_1_n_n.rhsIdx_val_of_single rfl i k
/-- and the output's column. -/
theorem hrhs10_1 (i : Cert.ReferenceIdeal.S128x128.Idx) (k : Cert.ReferenceIdeal.dot_S128x100000_S100000x128_S128x128_1_0_0_1_n_n.contr.Idx) :
    (Cert.ReferenceIdeal.dot_S128x100000_S100000x128_S128x128_1_0_0_1_n_n.rhsIdx i k 1).val = (i 1).val := by
  unfold DotDims.rhsIdx
  rw [dif_neg (show ¬(1 : Fin Cert.ReferenceIdeal.S100000x128.rank) ∈ Cert.ReferenceIdeal.dot_S128x100000_S100000x128_S128x128_1_0_0_1_n_n.rhsBatch by decide), dif_pos (show (1 : Fin Cert.ReferenceIdeal.S100000x128.rank) ∈ Cert.ReferenceIdeal.dot_S128x100000_S100000x128_S128x128_1_0_0_1_n_n.rhsNonContracting by decide)]
  rfl

/-- The host's product of the transposed [100000,128] array and a [100000,128] array at row `p`, column `q`: the sum
    over the 100000 rows of the products of the two arrays' columns `p` and `q`. -/
theorem host10_apply (A B : FVec Ideal S100000x128 .f32) (p q : Fin 128) :
    Host.dotGeneral (F := Ideal) Cert.ReferenceIdeal.dot_S128x100000_S100000x128_S128x128_1_0_0_1_n_n none
        (transpose Cert.ReferenceIdeal.S128x100000 [1, 0] A Cert.ReferenceIdeal.Facts₀.transposes_S100000x128_S128x100000_1_0) B (ix2 p q)
      = ∑ r : Fin 100000, A (ix2 r p) * B (ix2 r q) := by
  simp only [Host.dotGeneral]
  rw [Ideal.dotGeneral_apply, ← Equiv.sum_comp (contrEquiv1 Cert.ReferenceIdeal.dot_S128x100000_S100000x128_S128x128_1_0_0_1_n_n 100000 rfl rfl).symm]
  refine Finset.sum_congr rfl fun k _ => ?_
  have hk := contrEquiv1_symm_val Cert.ReferenceIdeal.dot_S128x100000_S100000x128_S128x128_1_0_0_1_n_n 100000 rfl rfl k
  have el : Cert.ReferenceIdeal.dot_S128x100000_S100000x128_S128x128_1_0_0_1_n_n.lhsIdx (ix2 p q) ((contrEquiv1 Cert.ReferenceIdeal.dot_S128x100000_S100000x128_S128x128_1_0_0_1_n_n 100000 rfl rfl).symm k) = ix2 p k := funext fun a => Fin.ext (by
    match a with
    | ⟨0, _⟩ => exact hlhs10_0 _ _
    | ⟨1, _⟩ => exact (hlhs10_1 _ _).trans hk)
  have er : Cert.ReferenceIdeal.dot_S128x100000_S100000x128_S128x128_1_0_0_1_n_n.rhsIdx (ix2 p q) ((contrEquiv1 Cert.ReferenceIdeal.dot_S128x100000_S100000x128_S128x128_1_0_0_1_n_n 100000 rfl rfl).symm k) = ix2 k q := funext fun a => Fin.ext (by
    match a with
    | ⟨0, _⟩ => exact (hrhs10_0 _ _).trans hk
    | ⟨1, _⟩ => exact hrhs10_1 _ _)
  rw [el, er]
  exact congrArg (· * B (ix2 k q)) (transpose_ix2_apply A _ p k)

/-! ## The accumulator, point by point -/

/-- The printed index maps over the grid: each input's block is block `t` of rows, the output's is the one block. -/
theorem rows10_facts : ∀ t : Fin cfg10.N, win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0 :=
  (by decide +kernel : ∀ t : Fin grid10.N, _)

variable (V : (c : Dev nD) → (b : Ref sig .tc) → Buf (Elt Ideal) ((c : Thread nD τ).loc b))

/-- The left input's block at point `t` is rows `2000·t …` of its array, -/
theorem blk10_0_apply (c : Dev nD) (t : Fin cfg10.N) (d : Fin 2000) (p : Fin 128) (r : Fin 100000) (hr : r.val = 2000 * t.val + d.val) :
    iblk10 V c 0 t (ix2 d p) = V c main_v0 (ix2 r p) := by
  obtain ⟨e0, e1, e2, e3, e4, e5⟩ := rows10_facts t
  show V c main_v0 (((cfg10.win 0).blk t).view.emb (ix2 d p)) = V c main_v0 (ix2 r p)
  refine congrArg (V c main_v0) (funext fun a => Fin.ext ?_)
  match a with
  | ⟨0, _⟩ => show win10_0.index t (0 : Fin 2) * 2000 + 1 * d.val = r.val; omega
  | ⟨1, _⟩ => show win10_0.index t (1 : Fin 2) * 128 + 1 * p.val = p.val; omega
/-- and so is the right input's. -/
theorem blk10_1_apply (c : Dev nD) (t : Fin cfg10.N) (d : Fin 2000) (p : Fin 128) (r : Fin 100000) (hr : r.val = 2000 * t.val + d.val) :
    iblk10 V c 1 t (ix2 d p) = V c main_v87 (ix2 r p) := by
  obtain ⟨e0, e1, e2, e3, e4, e5⟩ := rows10_facts t
  show V c main_v87 (((cfg10.win 1).blk t).view.emb (ix2 d p)) = V c main_v87 (ix2 r p)
  refine congrArg (V c main_v87) (funext fun a => Fin.ext ?_)
  match a with
  | ⟨0, _⟩ => show win10_1.index t (0 : Fin 2) * 2000 + 1 * d.val = r.val; omega
  | ⟨1, _⟩ => show win10_1.index t (1 : Fin 2) * 128 + 1 * p.val = p.val; omega

/-- After the first point the accumulator holds zero plus the first block's product; -/
theorem acc10_zero (c : Dev nD) (hn : 0 < cfg10.N) :
    (outsAt10 (F := Ideal) V c 0 hn).2 = k10_pay2 (iblk10 V c 0 ⟨0, hn⟩) (iblk10 V c 1 ⟨0, hn⟩) (k10_pay1 (F := Ideal)) := by
  refine (congrArg Prod.snd (outsAt10_A V c ⟨0, hn⟩ (Nat.zero_mod _) (show ¬(0 : ℕ) % 50 = 49 by decide))).trans ?_
  dsimp only
  exact sout10_A_0_eq (F := Ideal) _ _ _ _ _ _ _ _ _ _ _ _ _ _

/-- after a later point what it held plus that point's block's product. -/
theorem acc10_succ (c : Dev nD) (n : ℕ) (hn : n + 1 < cfg10.N) :
    (outsAt10 (F := Ideal) V c (n + 1) hn).2
      = k10_pay2 (iblk10 V c 0 ⟨n + 1, hn⟩) (iblk10 V c 1 ⟨n + 1, hn⟩) (outsAt10 (F := Ideal) V c n (Nat.lt_of_succ_lt hn)).2 := by
  have hN : n + 1 < 50 := lt_of_lt_of_eq hn N_10
  have h0 : ¬(n + 1) % 50 = 0 := by omega
  by_cases h1 : (n + 1) % 50 = 49
  · refine (congrArg Prod.snd (outsAt10_C V c ⟨n + 1, hn⟩ h0 h1)).trans ?_
    dsimp only
    exact sout10_C_0_eq (F := Ideal) _ _ _ _ _ _ _ _ _ _ _ _ _ _ _
  · refine (congrArg Prod.snd (outsAt10_B V c ⟨n + 1, hn⟩ h0 h1)).trans ?_
    dsimp only
    exact sout10_B_0_eq (F := Ideal) _ _ _ _ _ _ _ _ _ _ _ _ _ _ _

/-- At the last point the output's buffer is left at the rectifier of the accumulator's final contents. -/
theorem out10_last (c : Dev nD) (t : Fin cfg10.N) (h1 : t.val % 50 = 49) :
    (outsAt10 (F := Ideal) V c t.val t.isLt).1 = k10_pay3 (outsAt10 (F := Ideal) V c t.val t.isLt).2 := by
  have hN : t.val < 50 := lt_of_lt_of_eq t.isLt N_10
  have h0 : ¬t.val % 50 = 0 := by omega
  rw [outsAt10_C V c t h0 h1]
  dsimp only
  refine (out10_C_2_eq (F := Ideal) _ _ _ _ _ _ _ _ _ _ _ _ _ _ _).trans ?_
  refine congrArg k10_pay3 ?_
  exact (sout10_C_0_eq (F := Ideal) _ _ _ _ _ _ _ _ _ _ _ _ _ _ _).symm

/-- Block `s`'s share of entry `(p, q)` of the product: the sum over the block's 2000 rows of the products of the two
    arrays' columns `p` and `q` (zero for a block number past the last). -/
def term10 (A B : FVec Ideal S100000x128 .f32) (p q : Fin 128) (s : ℕ) : Ideal .f32 :=
  if h : s < 50 then ∑ d : Fin 2000, A (ix2 (⟨2000 * s + d.val, by omega⟩ : Fin 100000) p) * B (ix2 (⟨2000 * s + d.val, by omega⟩ : Fin 100000) q) else 0

/-- After point `n` the accumulator's entry `(p, q)` is the sum of the shares of blocks `0 … n`. -/
theorem acc10_apply (c : Dev nD) (p q : Fin 128) : ∀ (n : ℕ) (hn : n < cfg10.N),
    (outsAt10 (F := Ideal) V c n hn).2 (ix2 p q) = ∑ s ∈ Finset.range (n + 1), term10 (V c main_v0) (V c main_v87) p q s := by
  intro n
  induction n with
  | zero =>
    intro hn
    rw [acc10_zero V c hn, pay10_2_apply, pay10_1_apply, zero_add, Finset.sum_range_one]
    unfold term10
    rw [dif_pos (by decide)]
    exact Finset.sum_congr rfl fun d _ => by
      rw [blk10_0_apply V c ⟨0, hn⟩ d p ⟨2000 * 0 + d.val, by omega⟩ rfl, blk10_1_apply V c ⟨0, hn⟩ d q ⟨2000 * 0 + d.val, by omega⟩ rfl]
  | succ n ih =>
    intro hn
    have hN : n + 1 < 50 := lt_of_lt_of_eq hn N_10
    rw [acc10_succ V c n hn, pay10_2_apply, ih (Nat.lt_of_succ_lt hn), Finset.sum_range_succ _ (n + 1)]
    congr 1
    unfold term10
    rw [dif_pos hN]
    exact Finset.sum_congr rfl fun d _ => by
      rw [blk10_0_apply V c ⟨n + 1, hn⟩ d p ⟨2000 * (n + 1) + d.val, by omega⟩ rfl, blk10_1_apply V c ⟨n + 1, hn⟩ d q ⟨2000 * (n + 1) + d.val, by omega⟩ rfl]

/-- The fifty blocks' shares add up to the whole sum over the 100000 rows. -/
theorem sum_term10 (A B : FVec Ideal S100000x128 .f32) (p q : Fin 128) :
    ∑ s ∈ Finset.range 50, term10 A B p q s = ∑ r : Fin 100000, A (ix2 r p) * B (ix2 r q) := by
  rw [Finset.sum_range, Cert.Math.sum_fin_mul 50 2000 (fun r : Fin (50 * 2000) => A (ix2 (r : Fin 100000) p) * B (ix2 (r : Fin 100000) q))]
  refine Finset.sum_congr rfl fun s _ => ?_
  unfold term10
  rw [dif_pos s.isLt]

/-! ## The result array -/

/-- What the last point writes back is the host's term of the two arrays as the region finds them. -/
theorem flushed10_eq (c : Dev nD) (t : Fin cfg10.N) (hf : (cfg10.win 2).flush t = true) :
    (dat10 (F := Ideal) V c).flushed 2 t = ((cfg10.win 2).blk t).view.read (Elt Ideal) (maximumf (F := Ideal) (mulf (F := Ideal) (broadcastInDim Cert.ReferenceIdeal.S128x128 ![] Cert.ReferenceIdeal.Facts₀.bcast_S_S128x128 (constant (F := Ideal) Cert.ReferenceIdeal.S_ .f32 0x3F000000#32)) (Host.dotGeneral (F := Ideal) (φ₁ := .f32) (φ₂ := .f32) Cert.ReferenceIdeal.dot_S128x100000_S100000x128_S128x128_1_0_0_1_n_n none
        (transpose Cert.ReferenceIdeal.S128x100000 [1, 0] (V c main_v0) Cert.ReferenceIdeal.Facts₀.transposes_S100000x128_S128x100000_1_0) (V c main_v87))) (Host.dotGeneral (F := Ideal) (φ₁ := .f32) (φ₂ := .f32) Cert.ReferenceIdeal.dot_S128x100000_S100000x128_S128x128_1_0_0_1_n_n none
        (transpose Cert.ReferenceIdeal.S128x100000 [1, 0] (V c main_v0) Cert.ReferenceIdeal.Facts₀.transposes_S100000x128_S128x100000_1_0) (V c main_v87))) := by
  have h1 : t.val % 50 = 49 := (flush10_2 t).mp hf
  have hN : t.val < 50 := lt_of_lt_of_eq t.isLt N_10
  have ht : t.val = 49 := by omega
  show (cfg10.win 2).cut (grid10.coords t) ((dat10 V c).after 2 t) = _
  rw [after10_2, out10_last V c t h1]
  obtain ⟨e0, e1, e2, e3, e4, e5⟩ := rows10_facts t
  funext j
  obtain ⟨p, q, rfl⟩ : ∃ (p : Fin 128) (q : Fin 128), j = ix2 p q := ⟨j 0, j 1, eq_ix2 j⟩
  have hemb : ((cfg10.win 2).blk t).view.emb (ix2 p q) = ix2 p q := funext fun a => Fin.ext (by
    match a with
    | ⟨0, _⟩ => show win10_2.index t (0 : Fin 2) * 128 + 1 * p.val = p.val; omega
    | ⟨1, _⟩ => show win10_2.index t (1 : Fin 2) * 128 + 1 * q.val = q.val; omega)
  show k10_pay3 (outsAt10 (F := Ideal) V c t.val t.isLt).2 (ix2 p q) = (maximumf (F := Ideal) (mulf (F := Ideal) (broadcastInDim Cert.ReferenceIdeal.S128x128 ![] Cert.ReferenceIdeal.Facts₀.bcast_S_S128x128 (constant (F := Ideal) Cert.ReferenceIdeal.S_ .f32 0x3F000000#32)) (Host.dotGeneral (F := Ideal) (φ₁ := .f32) (φ₂ := .f32) Cert.ReferenceIdeal.dot_S128x100000_S100000x128_S128x128_1_0_0_1_n_n none
        (transpose Cert.ReferenceIdeal.S128x100000 [1, 0] (V c main_v0) Cert.ReferenceIdeal.Facts₀.transposes_S100000x128_S128x100000_1_0) (V c main_v87))) (Host.dotGeneral (F := Ideal) (φ₁ := .f32) (φ₂ := .f32) Cert.ReferenceIdeal.dot_S128x100000_S100000x128_S128x128_1_0_0_1_n_n none
        (transpose Cert.ReferenceIdeal.S128x100000 [1, 0] (V c main_v0) Cert.ReferenceIdeal.Facts₀.transposes_S100000x128_S128x100000_1_0) (V c main_v87))) (((cfg10.win 2).blk t).view.emb (ix2 p q))
  rw [hemb, pay10_3_apply]
  show _ = max (Ideal.ofBits .f32 0x3F000000#32 * (Host.dotGeneral (F := Ideal) (φ₁ := .f32) (φ₂ := .f32) Cert.ReferenceIdeal.dot_S128x100000_S100000x128_S128x128_1_0_0_1_n_n none
        (transpose Cert.ReferenceIdeal.S128x100000 [1, 0] (V c main_v0) Cert.ReferenceIdeal.Facts₀.transposes_S100000x128_S128x100000_1_0) (V c main_v87)) (ix2 p q)) ((Host.dotGeneral (F := Ideal) (φ₁ := .f32) (φ₂ := .f32) Cert.ReferenceIdeal.dot_S128x100000_S100000x128_S128x128_1_0_0_1_n_n none
        (transpose Cert.ReferenceIdeal.S128x100000 [1, 0] (V c main_v0) Cert.ReferenceIdeal.Facts₀.transposes_S100000x128_S128x100000_1_0) (V c main_v87)) (ix2 p q))
  have hacc : (outsAt10 (F := Ideal) V c t.val t.isLt).2 (ix2 p q) = (Host.dotGeneral (F := Ideal) (φ₁ := .f32) (φ₂ := .f32) Cert.ReferenceIdeal.dot_S128x100000_S100000x128_S128x128_1_0_0_1_n_n none
        (transpose Cert.ReferenceIdeal.S128x100000 [1, 0] (V c main_v0) Cert.ReferenceIdeal.Facts₀.transposes_S100000x128_S128x100000_1_0) (V c main_v87)) (ix2 p q) := by
    rw [acc10_apply V c p q t.val t.isLt, host10_apply, ← sum_term10 (V c main_v0) (V c main_v87) p q, ht]
  rw [hacc]

/-- Every entry of the result array is in the last point's block: the one block is the whole array. -/
theorem cover10 (i : S128x128.Idx) :
    ∃ t : Fin cfg10.N, (cfg10.win 2).flush t = true ∧ i ∈ ((cfg10.win 2).blk t).view.set := by
  have hN : grid10.N = 50 := N_10
  have ht : 49 < grid10.N := by rw [hN]; decide
  obtain ⟨e0, e1, e2, e3, e4, e5⟩ := rows10_facts ⟨49, ht⟩
  have hi0 : (i 0).val < 128 := idx2_lt0 i
  have hi1 : (i 1).val < 128 := idx2_lt1 i
  refine ⟨⟨49, ht⟩, (flush10_2 _).mpr (show (49 : ℕ) % 50 = 49 by decide), ?_⟩
  show i ∈ ((View.whole main_v120).slice (win10_2.rect ⟨49, ht⟩)).set
  rw [View.set_slice_whole, Rect.mem_set_unit]
  intro a
  match a with
  | ⟨0, _⟩ => show win10_2.index ⟨49, ht⟩ (0 : Fin 2) * 128 ≤ (i 0).val ∧ (i 0).val < win10_2.index ⟨49, ht⟩ (0 : Fin 2) * 128 + 128; omega
  | ⟨1, _⟩ => show win10_2.index ⟨49, ht⟩ (1 : Fin 2) * 128 ≤ (i 1).val ∧ (i 1).val < win10_2.index ⟨49, ht⟩ (1 : Fin 2) * 128 + 128; omega

/-- The result array after the region is the host's `max (0.5 · D) D` of `D`, the product of the transposed left array
    and the right array as the region finds them. -/
theorem val10_host (c : Dev nD) :
    (dat10 (F := Ideal) V c).arrAt 2 cfg10.N = (maximumf (F := Ideal) (mulf (F := Ideal) (broadcastInDim Cert.ReferenceIdeal.S128x128 ![] Cert.ReferenceIdeal.Facts₀.bcast_S_S128x128 (constant (F := Ideal) Cert.ReferenceIdeal.S_ .f32 0x3F000000#32)) (Host.dotGeneral (F := Ideal) (φ₁ := .f32) (φ₂ := .f32) Cert.ReferenceIdeal.dot_S128x100000_S100000x128_S128x128_1_0_0_1_n_n none
        (transpose Cert.ReferenceIdeal.S128x100000 [1, 0] (V c main_v0) Cert.ReferenceIdeal.Facts₀.transposes_S100000x128_S128x100000_1_0) (V c main_v87))) (Host.dotGeneral (F := Ideal) (φ₁ := .f32) (φ₂ := .f32) Cert.ReferenceIdeal.dot_S128x100000_S100000x128_S128x128_1_0_0_1_n_n none
        (transpose Cert.ReferenceIdeal.S128x100000 [1, 0] (V c main_v0) Cert.ReferenceIdeal.Facts₀.transposes_S100000x128_S128x100000_1_0) (V c main_v87))) :=
  (dat10 (F := Ideal) V c).arrAt_eq_of_cover 2 (maximumf (F := Ideal) (mulf (F := Ideal) (broadcastInDim Cert.ReferenceIdeal.S128x128 ![] Cert.ReferenceIdeal.Facts₀.bcast_S_S128x128 (constant (F := Ideal) Cert.ReferenceIdeal.S_ .f32 0x3F000000#32)) (Host.dotGeneral (F := Ideal) (φ₁ := .f32) (φ₂ := .f32) Cert.ReferenceIdeal.dot_S128x100000_S100000x128_S128x128_1_0_0_1_n_n none
        (transpose Cert.ReferenceIdeal.S128x100000 [1, 0] (V c main_v0) Cert.ReferenceIdeal.Facts₀.transposes_S100000x128_S128x100000_1_0) (V c main_v87))) (Host.dotGeneral (F := Ideal) (φ₁ := .f32) (φ₂ := .f32) Cert.ReferenceIdeal.dot_S128x100000_S100000x128_S128x128_1_0_0_1_n_n none
        (transpose Cert.ReferenceIdeal.S128x100000 [1, 0] (V c main_v0) Cert.ReferenceIdeal.Facts₀.transposes_S100000x128_S128x100000_1_0) (V c main_v87))) (fun t hf => flushed10_eq V c t hf) cover10

end Cert.KernelIdeal.Fr

end
-- ==== Proof.KI.Val11.lean ====
import proofs.«126270_j6725918785969_1_alg».proof.Proof.KI.Reg11
import proofs.«126270_j6725918785969_1_alg».proof.Proof.Gen.ReferenceIdeal
import Idealize.ShloMosaic.Lib.Pipeline.Value
import Idealize.ShloMosaic.Lib.ValueIdx
import Idealize.ShloMosaic.PureOps.Ideal.Laws

/-!
# Region 11, read: the result array is `max (0.5 · y) y` of the matrix product `y` of the two input arrays

At the extended reals a change of float format is the identity and the matrix unit's contraction into a zero
accumulator is the plain sum over the contracted axis, so the product's entry at row `p`, column `q` of a block is
`∑ d, x0 (p, d) · x1 (d, q)`, and the body stores the larger of that entry and half of it. The left factor's block at
grid point `t` is rows `2000·t …` of its array and the right factor's is the whole array, so what point `t` writes back
is block `t` of rows of the same pointwise function of the whole product; the blocks cover the rows (row `r` lies in
block `r / 2000`). The result is stated twice: as the host's operations on the two arrays (their `dot_general`, a scalar
one half broadcast, times the product, maximum with the product) and entry by entry.
-/

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat)

theorem hz11 : (![0, 0] : Fin 2 → Nat) = fun _ => 0 := funext fun a => by fin_cases a <;> rfl

/-! ## The body's contraction at an index -/

/-- The left block's index at output index `i` and contraction position `q`: the output's row, -/
theorem lhs11_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- and the contraction position. -/
theorem lhs11_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right block's: the contraction position, -/
theorem rhs11_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- and the output's column. -/
theorem rhs11_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The matrix unit's product of two blocks into the zero accumulator at row `p`, column `q`: the sum over the
    contracted axis of the products of the left block's row and the right block's column. -/
theorem mm11_apply (a : FVec Ideal S2000x128 .bf16) (b : FVec Ideal S128x128 .bf16) (p : Fin 2000) (q : Fin 128) :
    matmul dot_S2000x128_S128x128_S2000x128_1_0_0_1_n_n none a b (constant (F := Ideal) S2000x128 .f32 0x00000000#32) (ix2 p q) = ∑ d : Fin 128, a (ix2 p d) * b (ix2 d q) := by
  refine (Ideal.matmul_constant_zero_apply dot_S2000x128_S128x128_S2000x128_1_0_0_1_n_n none _ _ (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs11_0 _ _
    | ⟨1, _⟩ => exact (lhs11_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs11_0 _ _).trans hk
    | ⟨1, _⟩ => exact rhs11_1 _ _)
  rw [el, er]

/-- The body's payload at row `p`, column `q`: the larger of the product's entry and half of it (the changes of format
    and the casts to the same shape are the identity on the extended reals; the half is the same float word on both
    sides, never evaluated). -/
theorem pay11_apply (x0 : Vec Ideal S2000x128 .f32) (x1 : Vec Ideal S128x128 .f32) (p : Fin 2000) (q : Fin 128) :
    k11_pay1 x0 x1 (ix2 p q) = max (Ideal.ofBits .f32 0x3F000000#32 * ∑ d : Fin 128, x0 (ix2 p d) * x1 (ix2 d q)) (∑ d : Fin 128, x0 (ix2 p d) * x1 (ix2 d q)) := by
  unfold k11_pay1
  rw [shapeCast_self, shapeCast_self]
  exact congrArg (fun m : EReal => max (Ideal.ofBits .f32 0x3F000000#32 * m) m) (mm11_apply (truncf .bf16 x0 (by decide)) (truncf .bf16 x1 (by decide)) p q)

/-! ## The host's product of the whole arrays at an index -/

/-- The left array's index at output index `i` and contraction position `q`: the output's row, -/
theorem hlhs11_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
/-- and the contraction position. -/
theorem hlhs11_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
/-- The right array's: the contraction position, -/
theorem hrhs11_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
/-- and the output's column. -/
theorem hrhs11_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The host's product of a [100000,128] array and a [128,128] array at row `r`, column `s`: the sum over the
    contracted axis, in the extended reals. -/
theorem host11_apply (a : FVec Ideal S100000x128 .f32) (b : FVec Ideal S128x128 .f32) (r : Fin 100000) (s : Fin 128) :
    Host.dotGeneral (F := Ideal) Cert.ReferenceIdeal.dot_S100000x128_S128x128_S100000x128_1_0_0_1_n_n none a b (ix2 r s) = ∑ d : Fin 128, a (ix2 r d) * b (ix2 d s) := by
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r s) ((contrEquiv1 Cert.ReferenceIdeal.dot_S100000x128_S128x128_S100000x128_1_0_0_1_n_n 128 rfl rfl).symm k) = ix2 r k := funext fun a => Fin.ext (by
    match a with
    | ⟨0, _⟩ => exact hlhs11_0 _ _
    | ⟨1, _⟩ => exact (hlhs11_1 _ _).trans hk)
  have er : Cert.ReferenceIdeal.dot_S100000x128_S128x128_S100000x128_1_0_0_1_n_n.rhsIdx (ix2 r s) ((contrEquiv1 Cert.ReferenceIdeal.dot_S100000x128_S128x128_S100000x128_1_0_0_1_n_n 128 rfl rfl).symm k) = ix2 k s := funext fun a => Fin.ext (by
    match a with
    | ⟨0, _⟩ => exact (hrhs11_0 _ _).trans hk
    | ⟨1, _⟩ => exact hrhs11_1 _ _)
  rw [el, er]

/-- The host's `max (0.5 · y) y` of that product at row `r`, column `s`. -/
theorem hostl11_apply (a : FVec Ideal S100000x128 .f32) (b : FVec Ideal S128x128 .f32) (r : Fin 100000) (s : Fin 128) :
    (maximumf (F := Ideal) (mulf (F := Ideal) (broadcastInDim Cert.ReferenceIdeal.S100000x128 ![] Cert.ReferenceIdeal.Facts₀.bcast_S_S100000x128 (constant (F := Ideal) Cert.ReferenceIdeal.S_ .f32 0x3F000000#32)) (Host.dotGeneral (F := Ideal) (φ₁ := .f32) (φ₂ := .f32) Cert.ReferenceIdeal.dot_S100000x128_S128x128_S100000x128_1_0_0_1_n_n none a b)) (Host.dotGeneral (F := Ideal) (φ₁ := .f32) (φ₂ := .f32) Cert.ReferenceIdeal.dot_S100000x128_S128x128_S100000x128_1_0_0_1_n_n none a b)) (ix2 r s)
      = max (Ideal.ofBits .f32 0x3F000000#32 * ∑ d : Fin 128, a (ix2 r d) * b (ix2 d s)) (∑ d : Fin 128, a (ix2 r d) * b (ix2 d s)) := by
  show max (Ideal.ofBits .f32 0x3F000000#32 * Host.dotGeneral (F := Ideal) (φ₁ := .f32) (φ₂ := .f32) Cert.ReferenceIdeal.dot_S100000x128_S128x128_S100000x128_1_0_0_1_n_n none a b (ix2 r s)) (Host.dotGeneral (F := Ideal) (φ₁ := .f32) (φ₂ := .f32) Cert.ReferenceIdeal.dot_S100000x128_S128x128_S100000x128_1_0_0_1_n_n none a b (ix2 r s)) = _
  rw [host11_apply]

/-! ## One block of rows -/

/-- One block of rows: when the left block `x0` holds rows `n·2000 …` of `A` and the right block is `B`, the payload at a
    block index is the host's term of `A`, `B` at the array index in the same place. -/
theorem pay11_block (A : FVec Ideal S100000x128 .f32) (B : FVec Ideal S128x128 .f32)
    (x0 : Vec Ideal S2000x128 .f32) (x1 : Vec Ideal S128x128 .f32) (n : Nat) (y : S2000x128.Idx) (i : S100000x128.Idx)
    (hx0 : ∀ (p : Fin 2000) (d : Fin 128) (r : Fin 100000), r.val = n * 2000 + p.val → x0 (ix2 p d) = A (ix2 r d))
    (hx1 : ∀ (d q : Fin 128), x1 (ix2 d q) = B (ix2 d q))
    (hi0 : (i 0).val = n * 2000 + (y 0).val) (hi1 : (i 1).val = (y 1).val) :
    k11_pay1 x0 x1 y = (maximumf (F := Ideal) (mulf (F := Ideal) (broadcastInDim Cert.ReferenceIdeal.S100000x128 ![] Cert.ReferenceIdeal.Facts₀.bcast_S_S100000x128 (constant (F := Ideal) Cert.ReferenceIdeal.S_ .f32 0x3F000000#32)) (Host.dotGeneral (F := Ideal) (φ₁ := .f32) (φ₂ := .f32) Cert.ReferenceIdeal.dot_S100000x128_S128x128_S100000x128_1_0_0_1_n_n none A B)) (Host.dotGeneral (F := Ideal) (φ₁ := .f32) (φ₂ := .f32) Cert.ReferenceIdeal.dot_S100000x128_S128x128_S100000x128_1_0_0_1_n_n none A B)) i := by
  obtain ⟨p, q, rfl⟩ : ∃ (p : Fin 2000) (q : Fin 128), y = ix2 p q := ⟨y 0, y 1, eq_ix2 y⟩
  obtain ⟨r, s, rfl⟩ : ∃ (r : Fin 100000) (s : Fin 128), i = ix2 r s := ⟨i 0, i 1, eq_ix2 i⟩
  have hs : s = q := Fin.ext hi1
  subst hs
  rw [pay11_apply, hostl11_apply]
  have hS : (∑ d : Fin 128, x0 (ix2 p d) * x1 (ix2 d s)) = ∑ d : Fin 128, A (ix2 r d) * B (ix2 d s) :=
    Finset.sum_congr rfl fun d _ => by rw [hx0 p d r hi0, hx1 d s]
  rw [hS]

/-! ## From blocks to the array -/

/-- The printed index maps over the grid: the left factor's and the result's blocks are block `t` of rows, the right
    factor's is the one block. -/
theorem rows11_facts : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = t.val ∧ win11_2.index t (1 : Fin 2) = 0 :=
  (by decide +kernel : ∀ t : Fin grid11.N, _)

variable (V : (c : Dev nD) → (b : Ref sig .tc) → Buf (Elt Ideal) ((c : Thread nD τ).loc b))

/-- What point `t` writes back is block `t` of `max (0.5 · y) y` of the product `y` of the two arrays as the region finds them. -/
theorem flushed11_eq (c : Dev nD) (t : Fin cfg11.N) :
    (dat11 (F := Ideal) V c).flushed 2 t
      = ((cfg11.win 2).blk t).view.read (Elt Ideal) (maximumf (F := Ideal) (mulf (F := Ideal) (broadcastInDim Cert.ReferenceIdeal.S100000x128 ![] Cert.ReferenceIdeal.Facts₀.bcast_S_S100000x128 (constant (F := Ideal) Cert.ReferenceIdeal.S_ .f32 0x3F000000#32)) (Host.dotGeneral (F := Ideal) (φ₁ := .f32) (φ₂ := .f32) Cert.ReferenceIdeal.dot_S100000x128_S128x128_S100000x128_1_0_0_1_n_n none (V c main_v0) (V c main_v144))) (Host.dotGeneral (F := Ideal) (φ₁ := .f32) (φ₂ := .f32) Cert.ReferenceIdeal.dot_S100000x128_S128x128_S100000x128_1_0_0_1_n_n none (V c main_v0) (V c main_v144))) := by
  show (cfg11.win 2).cut (grid11.coords t) ((dat11 V c).after 2 t) = _
  rw [after11_2]
  unfold out11_2
  rw [View.canon_unit_zero hz11]
  simp only [View.ld_unit_zero (S := S2000x128) hz11, View.ld_unit_zero (S := S128x128) hz11]
  obtain ⟨e0, e1, e2, e3, e4, e5⟩ := rows11_facts t
  funext j
  show k11_pay1 (iblk11 V c 0 t) (iblk11 V c 1 t) j = (maximumf (F := Ideal) (mulf (F := Ideal) (broadcastInDim Cert.ReferenceIdeal.S100000x128 ![] Cert.ReferenceIdeal.Facts₀.bcast_S_S100000x128 (constant (F := Ideal) Cert.ReferenceIdeal.S_ .f32 0x3F000000#32)) (Host.dotGeneral (F := Ideal) (φ₁ := .f32) (φ₂ := .f32) Cert.ReferenceIdeal.dot_S100000x128_S128x128_S100000x128_1_0_0_1_n_n none (V c main_v0) (V c main_v144))) (Host.dotGeneral (F := Ideal) (φ₁ := .f32) (φ₂ := .f32) Cert.ReferenceIdeal.dot_S100000x128_S128x128_S100000x128_1_0_0_1_n_n none (V c main_v0) (V c main_v144))) (((cfg11.win 2).blk t).view.emb j)
  refine pay11_block (V c main_v0) (V c main_v144) (iblk11 V c 0 t) (iblk11 V c 1 t) t.val j (((cfg11.win 2).blk t).view.emb j) ?_ ?_ ?_ ?_
  · intro p d r hr
    show V c main_v0 (((cfg11.win 0).blk t).view.emb (ix2 p d)) = V c main_v0 (ix2 r d)
    refine congrArg (V c main_v0) (funext fun a => Fin.ext ?_)
    match a with
    | ⟨0, _⟩ => show win11_0.index t (0 : Fin 2) * 2000 + 1 * p.val = r.val; omega
    | ⟨1, _⟩ => show win11_0.index t (1 : Fin 2) * 128 + 1 * d.val = d.val; omega
  · intro d q
    show V c main_v144 (((cfg11.win 1).blk t).view.emb (ix2 d q)) = V c main_v144 (ix2 d q)
    refine congrArg (V c main_v144) (funext fun a => Fin.ext ?_)
    match a with
    | ⟨0, _⟩ => show win11_1.index t (0 : Fin 2) * 128 + 1 * d.val = d.val; omega
    | ⟨1, _⟩ => show win11_1.index t (1 : Fin 2) * 128 + 1 * q.val = q.val; omega
  · show win11_2.index t (0 : Fin 2) * 2000 + 1 * (j 0).val = t.val * 2000 + (j 0).val; omega
  · show win11_2.index t (1 : Fin 2) * 128 + 1 * (j 1).val = (j 1).val; omega

/-- An index of the result array is in point `t`'s block iff each coordinate is in the block's range on its axis. -/
theorem mem_rows11 (t : Fin cfg11.N) (i : S100000x128.Idx) :
    i ∈ ((cfg11.win 2).blk t).view.set ↔ ∀ a : Fin 2, win11_2.index t a * S2000x128.size a ≤ (i a).val ∧ (i a).val < win11_2.index t a * S2000x128.size a + S2000x128.size a := by
  show i ∈ ((View.whole main_v145).slice (win11_2.rect t)).set ↔ _
  rw [View.set_slice_whole, Rect.mem_set_unit]
  exact Iff.rfl

/-- Every row is in some point's block: row `r` in that of point `r / 2000`. -/
theorem rows11_cover (i : S100000x128.Idx) :
    ∃ t : Fin cfg11.N, (cfg11.win 2).flush t = true ∧ i ∈ ((cfg11.win 2).blk t).view.set := by
  have hi0 : (i 0).val < 100000 := idx2_lt0 i
  have hi1 : (i 1).val < 128 := idx2_lt1 i
  have hN : grid11.N = 50 := N_11
  have ht : (i 0).val / 2000 < grid11.N := by rw [hN]; omega
  obtain ⟨e0, e1, e2, e3, e4, e5⟩ := rows11_facts ⟨(i 0).val / 2000, ht⟩
  have e4' : win11_2.index ⟨(i 0).val / 2000, ht⟩ (0 : Fin 2) = (i 0).val / 2000 := e4
  refine ⟨⟨(i 0).val / 2000, ht⟩, flush11_2 _, ?_⟩
  rw [mem_rows11]
  intro a
  match a with
  | ⟨0, _⟩ => show win11_2.index ⟨(i 0).val / 2000, ht⟩ (0 : Fin 2) * 2000 ≤ (i 0).val ∧ (i 0).val < win11_2.index ⟨(i 0).val / 2000, ht⟩ (0 : Fin 2) * 2000 + 2000; omega
  | ⟨1, _⟩ => show win11_2.index ⟨(i 0).val / 2000, ht⟩ (1 : Fin 2) * 128 ≤ (i 1).val ∧ (i 1).val < win11_2.index ⟨(i 0).val / 2000, ht⟩ (1 : Fin 2) * 128 + 128; omega

/-- The result array after the region is the host's `max (0.5 · y) y` of its product `y` of the two input arrays as the
    region finds them, -/
theorem val11_host (c : Dev nD) :
    (dat11 (F := Ideal) V c).arrAt 2 cfg11.N = maximumf (F := Ideal) (mulf (F := Ideal) (broadcastInDim Cert.ReferenceIdeal.S100000x128 ![] Cert.ReferenceIdeal.Facts₀.bcast_S_S100000x128 (constant (F := Ideal) Cert.ReferenceIdeal.S_ .f32 0x3F000000#32)) (Host.dotGeneral (F := Ideal) (φ₁ := .f32) (φ₂ := .f32) Cert.ReferenceIdeal.dot_S100000x128_S128x128_S100000x128_1_0_0_1_n_n none (V c main_v0) (V c main_v144))) (Host.dotGeneral (F := Ideal) (φ₁ := .f32) (φ₂ := .f32) Cert.ReferenceIdeal.dot_S100000x128_S128x128_S100000x128_1_0_0_1_n_n none (V c main_v0) (V c main_v144)) :=
  (dat11 (F := Ideal) V c).arrAt_eq_of_cover 2 (maximumf (F := Ideal) (mulf (F := Ideal) (broadcastInDim Cert.ReferenceIdeal.S100000x128 ![] Cert.ReferenceIdeal.Facts₀.bcast_S_S100000x128 (constant (F := Ideal) Cert.ReferenceIdeal.S_ .f32 0x3F000000#32)) (Host.dotGeneral (F := Ideal) (φ₁ := .f32) (φ₂ := .f32) Cert.ReferenceIdeal.dot_S100000x128_S128x128_S100000x128_1_0_0_1_n_n none (V c main_v0) (V c main_v144))) (Host.dotGeneral (F := Ideal) (φ₁ := .f32) (φ₂ := .f32) Cert.ReferenceIdeal.dot_S100000x128_S128x128_S100000x128_1_0_0_1_n_n none (V c main_v0) (V c main_v144))) (fun t _ => flushed11_eq V c t) rows11_cover

/-- that is, entry by entry, the larger of the product's entry and half of it (`A`, `B`: the two input arrays as the
    region finds them). -/
theorem val11_apply (c : Dev nD) (A : FVec Ideal S100000x128 .f32) (B : FVec Ideal S128x128 .f32)
    (hA : V c main_v0 = A) (hB : V c main_v144 = B) (r : Fin 100000) (s : Fin 128) :
    (dat11 (F := Ideal) V c).arrAt 2 cfg11.N (ix2 r s)
      = max (Ideal.ofBits .f32 0x3F000000#32 * ∑ d : Fin 128, A (ix2 r d) * B (ix2 d s)) (∑ d : Fin 128, A (ix2 r d) * B (ix2 d s)) := by
  rw [val11_host, hA, hB]
  exact hostl11_apply A B r s

end Cert.KernelIdeal.Fr

end
-- ==== Proof.KI.Val12.lean ====
import proofs.«126270_j6725918785969_1_alg».proof.Proof.KI.Reg12
import proofs.«126270_j6725918785969_1_alg».proof.Proof.Gen.ReferenceIdeal
import proofs.«126270_j6725918785969_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws

/-!
# Region 12, read: the result array is `max (0.5 · D) D` of `D = xᵀ · y`, the product of the two input arrays

At the extended reals a change of float format is the identity and the matrix unit's contraction into a zero
accumulator is the plain sum over the contracted axis, so the accumulating payload at row `p`, column `q` is what the
accumulator held there plus `∑ d, x0 (d, p) · x1 (d, q)` over the block's 2000 rows. Each input's block at grid point
`t` is rows `2000·t …` of its array, so after point `n` the accumulator's entry `(p, q)` is the sum over blocks
`0 … n` of those partial sums (by induction on the point: zero plus the first block's at the first point, what it held
plus the next block's afterwards); a sum over the 50000 rows is the sum over twenty-five blocks of 2000 consecutive rows,
so after the last point the accumulator holds the whole contraction `∑ r, x (r, p) · y (r, q)`, which is the host's
product of the transposed left array and the right array. The last point stores the larger of each entry and half of
it into the output's one block, which is the whole result array and is written back there and nowhere else.
-/

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat)

theorem hz12 : (![0, 0] : Fin 2 → Nat) = fun _ => 0 := funext fun a => by fin_cases a <;> rfl

/-! ## What each case leaves, in closed form -/

section AnyF
variable {F : FTy → Type} [FloatOps F]

/-- A load of a whole memref held at the raw contents that read `X`, through the whole-shape rectangle at zero
    offsets, reads `X`. -/
theorem readAt_whole12 {S : Shape} {e : EltTy} (m : Memref sig .tc .vmem S e) (h : m.IsWhole) (X : S.Idx → Elt F e)
    {off : Fin S.rank → Nat} (ho : off = fun _ => 0) (inb : ∀ a, off a + S.size a ≤ S.size a) :
    View.readAt (Elt F) m.view (Rect.unit off S.size inb).toLoadRect (h.unread X) = X := by
  show View.ld (m.view.read (Elt F) (h.unread X)) (Rect.unit off S.size inb) = X
  rw [h.read_unread, View.ld_unit_zero ho]

/-- The first point leaves the accumulator at zero plus the product of the two blocks. -/
theorem sout12_A_0_eq (c : Dev nD) (i : grid12.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : cond12_0 i) (hc1 : ¬cond12_1 i)
    (x0 : Vec F S2000x128 .f32) (x1 : Vec F S2000x128 .f32) :
    sout12_A_0 c i arg1 harg1 arg2 harg2 arg3 harg3 arg4 harg4 hc0 hc1 x0 x1 = k12_pay2 x0 x1 (k12_pay1 (F := F)) := by
  unfold sout12_A_0
  rw [View.read_writes_eq_canon _ _ _ (scover12_A_0 c i arg1 harg1 arg2 harg2 arg3 harg3 arg4 harg4 hc0 hc1 x0 x1)]
  unfold kernelRun12_A
  dsimp only
  unfold kernelRun12_A.sl.v9 kernelRun12_A.sl.HS0_1
  rw [View.canon_cons_unit_zero hz12, View.readCov_unit_zero _ hz12]
  rw [readAt_whole12 arg1 harg1 x0 hz12, readAt_whole12 arg2 harg2 x1 hz12]

/-- A middle point leaves it at what it held plus the product of the two blocks. -/
theorem sout12_B_0_eq (c : Dev nD) (i : grid12.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond12_0 i) (hc1 : ¬cond12_1 i)
    (x0 : Vec F S2000x128 .f32) (x1 : Vec F S2000x128 .f32) (xs0 : Vec F S128x128 .f32) :
    sout12_B_0 c i arg1 harg1 arg2 harg2 arg3 harg3 arg4 harg4 hc0 hc1 x0 x1 xs0 = k12_pay2 x0 x1 xs0 := by
  unfold sout12_B_0
  rw [View.read_writes_eq_canon _ _ _ (scover12_B_0 c i arg1 harg1 arg2 harg2 arg3 harg3 arg4 harg4 hc0 hc1 x0 x1 xs0)]
  unfold kernelRun12_B
  dsimp only
  rw [View.canon_unit_zero hz12]
  rw [readAt_whole12 arg1 harg1 x0 hz12, readAt_whole12 arg2 harg2 x1 hz12, readAt_whole12 arg4 harg4 xs0 hz12]

/-- The last point leaves the accumulator at what it held plus the product of the two blocks, -/
theorem sout12_C_0_eq (c : Dev nD) (i : grid12.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond12_0 i) (hc1 : cond12_1 i)
    (x0 : Vec F S2000x128 .f32) (x1 : Vec F S2000x128 .f32) (xs0 : Vec F S128x128 .f32) :
    sout12_C_0 c i arg1 harg1 arg2 harg2 arg3 harg3 arg4 harg4 hc0 hc1 x0 x1 xs0 = k12_pay2 x0 x1 xs0 := by
  unfold sout12_C_0
  rw [View.read_writes_eq_canon _ _ _ (scover12_C_0 c i arg1 harg1 arg2 harg2 arg3 harg3 arg4 harg4 hc0 hc1 x0 x1 xs0)]
  unfold kernelRun12_C
  dsimp only
  unfold kernelRun12_C.sl.HS0_1
  rw [View.canon_unit_zero hz12]
  rw [readAt_whole12 arg1 harg1 x0 hz12, readAt_whole12 arg2 harg2 x1 hz12, readAt_whole12 arg4 harg4 xs0 hz12]

/-- and the output's buffer at the rectifier of that. -/
theorem out12_C_2_eq (c : Dev nD) (i : grid12.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (hc0 : ¬cond12_0 i) (hc1 : cond12_1 i)
    (x0 : Vec F S2000x128 .f32) (x1 : Vec F S2000x128 .f32) (xs0 : Vec F S128x128 .f32) :
    out12_C_2 c i arg1 harg1 arg2 harg2 arg3 harg3 arg4 harg4 hc0 hc1 x0 x1 xs0 = k12_pay3 (k12_pay2 x0 x1 xs0) := by
  unfold out12_C_2
  rw [View.read_writes_eq_canon _ _ _ (cover12_C_2 c i arg1 harg1 arg2 harg2 arg3 harg3 arg4 harg4 hc0 hc1 x0 x1 xs0)]
  unfold kernelRun12_C
  dsimp only
  unfold kernelRun12_C.sl.v18 kernelRun12_C.sl.HS0_1
  rw [View.canon_unit_zero hz12, View.readCov_unit_zero _ hz12]
  rw [readAt_whole12 arg1 harg1 x0 hz12, readAt_whole12 arg2 harg2 x1 hz12, readAt_whole12 arg4 harg4 xs0 hz12]

end AnyF

/-! ## The body's payloads at an index, at the extended reals -/

/-- The left block's index at output index `i` and contraction position `k`: the contraction position, -/
theorem lhs12_0 (i : S128x128.Idx) (k : dot_S2000x128_S2000x128_S128x128_0_0_1_1_n_n.contr.Idx) :
    (dot_S2000x128_S2000x128_S128x128_0_0_1_1_n_n.lhsIdx i k 0).val = (k ⟨0, by decide⟩).val :=
  dot_S2000x128_S2000x128_S128x128_0_0_1_1_n_n.lhsIdx_val_of_single rfl i k
/-- and the output's row. -/
theorem lhs12_1 (i : S128x128.Idx) (k : dot_S2000x128_S2000x128_S128x128_0_0_1_1_n_n.contr.Idx) :
    (dot_S2000x128_S2000x128_S128x128_0_0_1_1_n_n.lhsIdx i k 1).val = (i 0).val := by
  unfold DotDims.lhsIdx
  rw [dif_neg (show ¬(1 : Fin S2000x128.rank) ∈ dot_S2000x128_S2000x128_S128x128_0_0_1_1_n_n.lhsBatch by decide), dif_pos (show (1 : Fin S2000x128.rank) ∈ dot_S2000x128_S2000x128_S128x128_0_0_1_1_n_n.lhsNonContracting by decide)]
  rfl
/-- The right block's: the contraction position, -/
theorem rhs12_0 (i : S128x128.Idx) (k : dot_S2000x128_S2000x128_S128x128_0_0_1_1_n_n.contr.Idx) :
    (dot_S2000x128_S2000x128_S128x128_0_0_1_1_n_n.rhsIdx i k 0).val = (k ⟨0, by decide⟩).val :=
  dot_S2000x128_S2000x128_S128x128_0_0_1_1_n_n.rhsIdx_val_of_single rfl i k
/-- and the output's column. -/
theorem rhs12_1 (i : S128x128.Idx) (k : dot_S2000x128_S2000x128_S128x128_0_0_1_1_n_n.contr.Idx) :
    (dot_S2000x128_S2000x128_S128x128_0_0_1_1_n_n.rhsIdx i k 1).val = (i 1).val := by
  unfold DotDims.rhsIdx
  rw [dif_neg (show ¬(1 : Fin S2000x128.rank) ∈ dot_S2000x128_S2000x128_S128x128_0_0_1_1_n_n.rhsBatch by decide), dif_pos (show (1 : Fin S2000x128.rank) ∈ dot_S2000x128_S2000x128_S128x128_0_0_1_1_n_n.rhsNonContracting by decide)]
  rfl

/-- The zeroing payload is zero everywhere. -/
theorem pay12_1_apply (y : S128x128.Idx) : k12_pay1 (F := Ideal) y = 0 := by
  unfold k12_pay1
  rw [shapeCast_self]
  exact Ideal.ofBits_zero_f32

/-- The accumulating payload at row `p`, column `q`: what the accumulator held there plus the sum over the block's
    2000 rows of the products of the left block's column `p` and the right block's column `q` (the change of format is
    the identity on the extended reals, the matrix unit's own accumulator is zero). -/
theorem pay12_2_apply (v3 v6 : Vec Ideal S2000x128 .f32) (v8 : Vec Ideal S128x128 .f32) (p q : Fin 128) :
    k12_pay2 v3 v6 v8 (ix2 p q) = v8 (ix2 p q) + ∑ d : Fin 2000, v3 (ix2 d p) * v6 (ix2 d q) := by
  unfold k12_pay2
  rw [shapeCast_self]
  show v8 (ix2 p q) + FloatOps.matmul (F := Ideal) dot_S2000x128_S2000x128_S128x128_0_0_1_1_n_n none _ _ (constant S128x128 .f32 0x00000000#32) (ix2 p q) = _
  rw [Ideal.matmul_constant_zero_apply]
  congr 1
  rw [← Equiv.sum_comp (contrEquiv1 dot_S2000x128_S2000x128_S128x128_0_0_1_1_n_n 2000 rfl rfl).symm]
  refine Finset.sum_congr rfl fun k _ => ?_
  have hk := contrEquiv1_symm_val dot_S2000x128_S2000x128_S128x128_0_0_1_1_n_n 2000 rfl rfl k
  have el : dot_S2000x128_S2000x128_S128x128_0_0_1_1_n_n.lhsIdx (ix2 p q) ((contrEquiv1 dot_S2000x128_S2000x128_S128x128_0_0_1_1_n_n 2000 rfl rfl).symm k) = ix2 k p := funext fun a => Fin.ext (by
    match a with
    | ⟨0, _⟩ => exact (lhs12_0 _ _).trans hk
    | ⟨1, _⟩ => exact lhs12_1 _ _)
  have er : dot_S2000x128_S2000x128_S128x128_0_0_1_1_n_n.rhsIdx (ix2 p q) ((contrEquiv1 dot_S2000x128_S2000x128_S128x128_0_0_1_1_n_n 2000 rfl rfl).symm k) = ix2 k q := funext fun a => Fin.ext (by
    match a with
    | ⟨0, _⟩ => exact (rhs12_0 _ _).trans hk
    | ⟨1, _⟩ => exact rhs12_1 _ _)
  rw [el, er, truncf_apply, truncf_apply, shapeCast_self, shapeCast_self]

/-- The rectifier payload at an index: the larger of the entry and half of it. -/
theorem pay12_3_apply (v : Vec Ideal S128x128 .f32) (y : S128x128.Idx) :
    k12_pay3 v y = max (Ideal.ofBits .f32 0x3F000000#32 * v y) (v y) := by
  unfold k12_pay3
  rfl

/-! ## The host's product of the transposed left array and the right array, at an index -/

/-- The left operand's index at output index `i` and contraction position `k`: the output's row, -/
theorem hlhs12_0 (i : Cert.ReferenceIdeal.S128x128.Idx) (k : Cert.ReferenceIdeal.dot_S128x50000_S50000x128_S128x128_1_0_0_1_n_n.contr.Idx) :
    (Cert.ReferenceIdeal.dot_S128x50000_S50000x128_S128x128_1_0_0_1_n_n.lhsIdx i k 0).val = (i 0).val := by
  unfold DotDims.lhsIdx
  rw [dif_neg (show ¬(0 : Fin Cert.ReferenceIdeal.S128x50000.rank) ∈ Cert.ReferenceIdeal.dot_S128x50000_S50000x128_S128x128_1_0_0_1_n_n.lhsBatch by decide), dif_pos (show (0 : Fin Cert.ReferenceIdeal.S128x50000.rank) ∈ Cert.ReferenceIdeal.dot_S128x50000_S50000x128_S128x128_1_0_0_1_n_n.lhsNonContracting by decide)]
  rfl
/-- and the contraction position. -/
theorem hlhs12_1 (i : Cert.ReferenceIdeal.S128x128.Idx) (k : Cert.ReferenceIdeal.dot_S128x50000_S50000x128_S128x128_1_0_0_1_n_n.contr.Idx) :
    (Cert.ReferenceIdeal.dot_S128x50000_S50000x128_S128x128_1_0_0_1_n_n.lhsIdx i k 1).val = (k ⟨0, by decide⟩).val :=
  Cert.ReferenceIdeal.dot_S128x50000_S50000x128_S128x128_1_0_0_1_n_n.lhsIdx_val_of_single rfl i k
/-- The right operand's: the contraction position, -/
theorem hrhs12_0 (i : Cert.ReferenceIdeal.S128x128.Idx) (k : Cert.ReferenceIdeal.dot_S128x50000_S50000x128_S128x128_1_0_0_1_n_n.contr.Idx) :
    (Cert.ReferenceIdeal.dot_S128x50000_S50000x128_S128x128_1_0_0_1_n_n.rhsIdx i k 0).val = (k ⟨0, by decide⟩).val :=
  Cert.ReferenceIdeal.dot_S128x50000_S50000x128_S128x128_1_0_0_1_n_n.rhsIdx_val_of_single rfl i k
/-- and the output's column. -/
theorem hrhs12_1 (i : Cert.ReferenceIdeal.S128x128.Idx) (k : Cert.ReferenceIdeal.dot_S128x50000_S50000x128_S128x128_1_0_0_1_n_n.contr.Idx) :
    (Cert.ReferenceIdeal.dot_S128x50000_S50000x128_S128x128_1_0_0_1_n_n.rhsIdx i k 1).val = (i 1).val := by
  unfold DotDims.rhsIdx
  rw [dif_neg (show ¬(1 : Fin Cert.ReferenceIdeal.S50000x128.rank) ∈ Cert.ReferenceIdeal.dot_S128x50000_S50000x128_S128x128_1_0_0_1_n_n.rhsBatch by decide), dif_pos (show (1 : Fin Cert.ReferenceIdeal.S50000x128.rank) ∈ Cert.ReferenceIdeal.dot_S128x50000_S50000x128_S128x128_1_0_0_1_n_n.rhsNonContracting by decide)]
  rfl

/-- The host's product of the transposed [50000,128] array and a [50000,128] array at row `p`, column `q`: the sum
    over the 50000 rows of the products of the two arrays' columns `p` and `q`. -/
theorem host12_apply (A B : FVec Ideal S50000x128 .f32) (p q : Fin 128) :
    Host.dotGeneral (F := Ideal) Cert.ReferenceIdeal.dot_S128x50000_S50000x128_S128x128_1_0_0_1_n_n none
        (transpose Cert.ReferenceIdeal.S128x50000 [1, 0] A Cert.ReferenceIdeal.Facts₀.transposes_S50000x128_S128x50000_1_0) B (ix2 p q)
      = ∑ r : Fin 50000, A (ix2 r p) * B (ix2 r q) := by
  simp only [Host.dotGeneral]
  rw [Ideal.dotGeneral_apply, ← Equiv.sum_comp (contrEquiv1 Cert.ReferenceIdeal.dot_S128x50000_S50000x128_S128x128_1_0_0_1_n_n 50000 rfl rfl).symm]
  refine Finset.sum_congr rfl fun k _ => ?_
  have hk := contrEquiv1_symm_val Cert.ReferenceIdeal.dot_S128x50000_S50000x128_S128x128_1_0_0_1_n_n 50000 rfl rfl k
  have el : Cert.ReferenceIdeal.dot_S128x50000_S50000x128_S128x128_1_0_0_1_n_n.lhsIdx (ix2 p q) ((contrEquiv1 Cert.ReferenceIdeal.dot_S128x50000_S50000x128_S128x128_1_0_0_1_n_n 50000 rfl rfl).symm k) = ix2 p k := funext fun a => Fin.ext (by
    match a with
    | ⟨0, _⟩ => exact hlhs12_0 _ _
    | ⟨1, _⟩ => exact (hlhs12_1 _ _).trans hk)
  have er : Cert.ReferenceIdeal.dot_S128x50000_S50000x128_S128x128_1_0_0_1_n_n.rhsIdx (ix2 p q) ((contrEquiv1 Cert.ReferenceIdeal.dot_S128x50000_S50000x128_S128x128_1_0_0_1_n_n 50000 rfl rfl).symm k) = ix2 k q := funext fun a => Fin.ext (by
    match a with
    | ⟨0, _⟩ => exact (hrhs12_0 _ _).trans hk
    | ⟨1, _⟩ => exact hrhs12_1 _ _)
  rw [el, er]
  exact congrArg (· * B (ix2 k q)) (transpose_ix2_apply A _ p k)

/-! ## The accumulator, point by point -/

/-- The printed index maps over the grid: each input's block is block `t` of rows, the output's is the one block. -/
theorem rows12_facts : ∀ t : Fin cfg12.N, win12_0.index t (0 : Fin 2) = t.val ∧ win12_0.index t (1 : Fin 2) = 0
    ∧ win12_1.index t (0 : Fin 2) = t.val ∧ win12_1.index t (1 : Fin 2) = 0
    ∧ win12_2.index t (0 : Fin 2) = 0 ∧ win12_2.index t (1 : Fin 2) = 0 :=
  (by decide +kernel : ∀ t : Fin grid12.N, _)

variable (V : (c : Dev nD) → (b : Ref sig .tc) → Buf (Elt Ideal) ((c : Thread nD τ).loc b))

/-- The left input's block at point `t` is rows `2000·t …` of its array, -/
theorem blk12_0_apply (c : Dev nD) (t : Fin cfg12.N) (d : Fin 2000) (p : Fin 128) (r : Fin 50000) (hr : r.val = 2000 * t.val + d.val) :
    iblk12 V c 0 t (ix2 d p) = V c main_v1 (ix2 r p) := by
  obtain ⟨e0, e1, e2, e3, e4, e5⟩ := rows12_facts t
  show V c main_v1 (((cfg12.win 0).blk t).view.emb (ix2 d p)) = V c main_v1 (ix2 r p)
  refine congrArg (V c main_v1) (funext fun a => Fin.ext ?_)
  match a with
  | ⟨0, _⟩ => show win12_0.index t (0 : Fin 2) * 2000 + 1 * d.val = r.val; omega
  | ⟨1, _⟩ => show win12_0.index t (1 : Fin 2) * 128 + 1 * p.val = p.val; omega
/-- and so is the right input's. -/
theorem blk12_1_apply (c : Dev nD) (t : Fin cfg12.N) (d : Fin 2000) (p : Fin 128) (r : Fin 50000) (hr : r.val = 2000 * t.val + d.val) :
    iblk12 V c 1 t (ix2 d p) = V c main_v89 (ix2 r p) := by
  obtain ⟨e0, e1, e2, e3, e4, e5⟩ := rows12_facts t
  show V c main_v89 (((cfg12.win 1).blk t).view.emb (ix2 d p)) = V c main_v89 (ix2 r p)
  refine congrArg (V c main_v89) (funext fun a => Fin.ext ?_)
  match a with
  | ⟨0, _⟩ => show win12_1.index t (0 : Fin 2) * 2000 + 1 * d.val = r.val; omega
  | ⟨1, _⟩ => show win12_1.index t (1 : Fin 2) * 128 + 1 * p.val = p.val; omega

/-- After the first point the accumulator holds zero plus the first block's product; -/
theorem acc12_zero (c : Dev nD) (hn : 0 < cfg12.N) :
    (outsAt12 (F := Ideal) V c 0 hn).2 = k12_pay2 (iblk12 V c 0 ⟨0, hn⟩) (iblk12 V c 1 ⟨0, hn⟩) (k12_pay1 (F := Ideal)) := by
  refine (congrArg Prod.snd (outsAt12_A V c ⟨0, hn⟩ (Nat.zero_mod _) (show ¬(0 : ℕ) % 25 = 24 by decide))).trans ?_
  dsimp only
  exact sout12_A_0_eq (F := Ideal) _ _ _ _ _ _ _ _ _ _ _ _ _ _

/-- after a later point what it held plus that point's block's product. -/
theorem acc12_succ (c : Dev nD) (n : ℕ) (hn : n + 1 < cfg12.N) :
    (outsAt12 (F := Ideal) V c (n + 1) hn).2
      = k12_pay2 (iblk12 V c 0 ⟨n + 1, hn⟩) (iblk12 V c 1 ⟨n + 1, hn⟩) (outsAt12 (F := Ideal) V c n (Nat.lt_of_succ_lt hn)).2 := by
  have hN : n + 1 < 25 := lt_of_lt_of_eq hn N_12
  have h0 : ¬(n + 1) % 25 = 0 := by omega
  by_cases h1 : (n + 1) % 25 = 24
  · refine (congrArg Prod.snd (outsAt12_C V c ⟨n + 1, hn⟩ h0 h1)).trans ?_
    dsimp only
    exact sout12_C_0_eq (F := Ideal) _ _ _ _ _ _ _ _ _ _ _ _ _ _ _
  · refine (congrArg Prod.snd (outsAt12_B V c ⟨n + 1, hn⟩ h0 h1)).trans ?_
    dsimp only
    exact sout12_B_0_eq (F := Ideal) _ _ _ _ _ _ _ _ _ _ _ _ _ _ _

/-- At the last point the output's buffer is left at the rectifier of the accumulator's final contents. -/
theorem out12_last (c : Dev nD) (t : Fin cfg12.N) (h1 : t.val % 25 = 24) :
    (outsAt12 (F := Ideal) V c t.val t.isLt).1 = k12_pay3 (outsAt12 (F := Ideal) V c t.val t.isLt).2 := by
  have hN : t.val < 25 := lt_of_lt_of_eq t.isLt N_12
  have h0 : ¬t.val % 25 = 0 := by omega
  rw [outsAt12_C V c t h0 h1]
  dsimp only
  refine (out12_C_2_eq (F := Ideal) _ _ _ _ _ _ _ _ _ _ _ _ _ _ _).trans ?_
  refine congrArg k12_pay3 ?_
  exact (sout12_C_0_eq (F := Ideal) _ _ _ _ _ _ _ _ _ _ _ _ _ _ _).symm

/-- Block `s`'s share of entry `(p, q)` of the product: the sum over the block's 2000 rows of the products of the two
    arrays' columns `p` and `q` (zero for a block number past the last). -/
def term12 (A B : FVec Ideal S50000x128 .f32) (p q : Fin 128) (s : ℕ) : Ideal .f32 :=
  if h : s < 25 then ∑ d : Fin 2000, A (ix2 (⟨2000 * s + d.val, by omega⟩ : Fin 50000) p) * B (ix2 (⟨2000 * s + d.val, by omega⟩ : Fin 50000) q) else 0

/-- After point `n` the accumulator's entry `(p, q)` is the sum of the shares of blocks `0 … n`. -/
theorem acc12_apply (c : Dev nD) (p q : Fin 128) : ∀ (n : ℕ) (hn : n < cfg12.N),
    (outsAt12 (F := Ideal) V c n hn).2 (ix2 p q) = ∑ s ∈ Finset.range (n + 1), term12 (V c main_v1) (V c main_v89) p q s := by
  intro n
  induction n with
  | zero =>
    intro hn
    rw [acc12_zero V c hn, pay12_2_apply, pay12_1_apply, zero_add, Finset.sum_range_one]
    unfold term12
    rw [dif_pos (by decide)]
    exact Finset.sum_congr rfl fun d _ => by
      rw [blk12_0_apply V c ⟨0, hn⟩ d p ⟨2000 * 0 + d.val, by omega⟩ rfl, blk12_1_apply V c ⟨0, hn⟩ d q ⟨2000 * 0 + d.val, by omega⟩ rfl]
  | succ n ih =>
    intro hn
    have hN : n + 1 < 25 := lt_of_lt_of_eq hn N_12
    rw [acc12_succ V c n hn, pay12_2_apply, ih (Nat.lt_of_succ_lt hn), Finset.sum_range_succ _ (n + 1)]
    congr 1
    unfold term12
    rw [dif_pos hN]
    exact Finset.sum_congr rfl fun d _ => by
      rw [blk12_0_apply V c ⟨n + 1, hn⟩ d p ⟨2000 * (n + 1) + d.val, by omega⟩ rfl, blk12_1_apply V c ⟨n + 1, hn⟩ d q ⟨2000 * (n + 1) + d.val, by omega⟩ rfl]

/-- The twenty-five blocks' shares add up to the whole sum over the 50000 rows. -/
theorem sum_term12 (A B : FVec Ideal S50000x128 .f32) (p q : Fin 128) :
    ∑ s ∈ Finset.range 25, term12 A B p q s = ∑ r : Fin 50000, A (ix2 r p) * B (ix2 r q) := by
  rw [Finset.sum_range, Cert.Math.sum_fin_mul 25 2000 (fun r : Fin (25 * 2000) => A (ix2 (r : Fin 50000) p) * B (ix2 (r : Fin 50000) q))]
  refine Finset.sum_congr rfl fun s _ => ?_
  unfold term12
  rw [dif_pos s.isLt]

/-! ## The result array -/

/-- What the last point writes back is the host's term of the two arrays as the region finds them. -/
theorem flushed12_eq (c : Dev nD) (t : Fin cfg12.N) (hf : (cfg12.win 2).flush t = true) :
    (dat12 (F := Ideal) V c).flushed 2 t = ((cfg12.win 2).blk t).view.read (Elt Ideal) (maximumf (F := Ideal) (mulf (F := Ideal) (broadcastInDim Cert.ReferenceIdeal.S128x128 ![] Cert.ReferenceIdeal.Facts₀.bcast_S_S128x128 (constant (F := Ideal) Cert.ReferenceIdeal.S_ .f32 0x3F000000#32)) (Host.dotGeneral (F := Ideal) (φ₁ := .f32) (φ₂ := .f32) Cert.ReferenceIdeal.dot_S128x50000_S50000x128_S128x128_1_0_0_1_n_n none
        (transpose Cert.ReferenceIdeal.S128x50000 [1, 0] (V c main_v1) Cert.ReferenceIdeal.Facts₀.transposes_S50000x128_S128x50000_1_0) (V c main_v89))) (Host.dotGeneral (F := Ideal) (φ₁ := .f32) (φ₂ := .f32) Cert.ReferenceIdeal.dot_S128x50000_S50000x128_S128x128_1_0_0_1_n_n none
        (transpose Cert.ReferenceIdeal.S128x50000 [1, 0] (V c main_v1) Cert.ReferenceIdeal.Facts₀.transposes_S50000x128_S128x50000_1_0) (V c main_v89))) := by
  have h1 : t.val % 25 = 24 := (flush12_2 t).mp hf
  have hN : t.val < 25 := lt_of_lt_of_eq t.isLt N_12
  have ht : t.val = 24 := by omega
  show (cfg12.win 2).cut (grid12.coords t) ((dat12 V c).after 2 t) = _
  rw [after12_2, out12_last V c t h1]
  obtain ⟨e0, e1, e2, e3, e4, e5⟩ := rows12_facts t
  funext j
  obtain ⟨p, q, rfl⟩ : ∃ (p : Fin 128) (q : Fin 128), j = ix2 p q := ⟨j 0, j 1, eq_ix2 j⟩
  have hemb : ((cfg12.win 2).blk t).view.emb (ix2 p q) = ix2 p q := funext fun a => Fin.ext (by
    match a with
    | ⟨0, _⟩ => show win12_2.index t (0 : Fin 2) * 128 + 1 * p.val = p.val; omega
    | ⟨1, _⟩ => show win12_2.index t (1 : Fin 2) * 128 + 1 * q.val = q.val; omega)
  show k12_pay3 (outsAt12 (F := Ideal) V c t.val t.isLt).2 (ix2 p q) = (maximumf (F := Ideal) (mulf (F := Ideal) (broadcastInDim Cert.ReferenceIdeal.S128x128 ![] Cert.ReferenceIdeal.Facts₀.bcast_S_S128x128 (constant (F := Ideal) Cert.ReferenceIdeal.S_ .f32 0x3F000000#32)) (Host.dotGeneral (F := Ideal) (φ₁ := .f32) (φ₂ := .f32) Cert.ReferenceIdeal.dot_S128x50000_S50000x128_S128x128_1_0_0_1_n_n none
        (transpose Cert.ReferenceIdeal.S128x50000 [1, 0] (V c main_v1) Cert.ReferenceIdeal.Facts₀.transposes_S50000x128_S128x50000_1_0) (V c main_v89))) (Host.dotGeneral (F := Ideal) (φ₁ := .f32) (φ₂ := .f32) Cert.ReferenceIdeal.dot_S128x50000_S50000x128_S128x128_1_0_0_1_n_n none
        (transpose Cert.ReferenceIdeal.S128x50000 [1, 0] (V c main_v1) Cert.ReferenceIdeal.Facts₀.transposes_S50000x128_S128x50000_1_0) (V c main_v89))) (((cfg12.win 2).blk t).view.emb (ix2 p q))
  rw [hemb, pay12_3_apply]
  show _ = max (Ideal.ofBits .f32 0x3F000000#32 * (Host.dotGeneral (F := Ideal) (φ₁ := .f32) (φ₂ := .f32) Cert.ReferenceIdeal.dot_S128x50000_S50000x128_S128x128_1_0_0_1_n_n none
        (transpose Cert.ReferenceIdeal.S128x50000 [1, 0] (V c main_v1) Cert.ReferenceIdeal.Facts₀.transposes_S50000x128_S128x50000_1_0) (V c main_v89)) (ix2 p q)) ((Host.dotGeneral (F := Ideal) (φ₁ := .f32) (φ₂ := .f32) Cert.ReferenceIdeal.dot_S128x50000_S50000x128_S128x128_1_0_0_1_n_n none
        (transpose Cert.ReferenceIdeal.S128x50000 [1, 0] (V c main_v1) Cert.ReferenceIdeal.Facts₀.transposes_S50000x128_S128x50000_1_0) (V c main_v89)) (ix2 p q))
  have hacc : (outsAt12 (F := Ideal) V c t.val t.isLt).2 (ix2 p q) = (Host.dotGeneral (F := Ideal) (φ₁ := .f32) (φ₂ := .f32) Cert.ReferenceIdeal.dot_S128x50000_S50000x128_S128x128_1_0_0_1_n_n none
        (transpose Cert.ReferenceIdeal.S128x50000 [1, 0] (V c main_v1) Cert.ReferenceIdeal.Facts₀.transposes_S50000x128_S128x50000_1_0) (V c main_v89)) (ix2 p q) := by
    rw [acc12_apply V c p q t.val t.isLt, host12_apply, ← sum_term12 (V c main_v1) (V c main_v89) p q, ht]
  rw [hacc]

/-- Every entry of the result array is in the last point's block: the one block is the whole array. -/
theorem cover12 (i : S128x128.Idx) :
    ∃ t : Fin cfg12.N, (cfg12.win 2).flush t = true ∧ i ∈ ((cfg12.win 2).blk t).view.set := by
  have hN : grid12.N = 25 := N_12
  have ht : 24 < grid12.N := by rw [hN]; decide
  obtain ⟨e0, e1, e2, e3, e4, e5⟩ := rows12_facts ⟨24, ht⟩
  have hi0 : (i 0).val < 128 := idx2_lt0 i
  have hi1 : (i 1).val < 128 := idx2_lt1 i
  refine ⟨⟨24, ht⟩, (flush12_2 _).mpr (show (24 : ℕ) % 25 = 24 by decide), ?_⟩
  show i ∈ ((View.whole main_v148).slice (win12_2.rect ⟨24, ht⟩)).set
  rw [View.set_slice_whole, Rect.mem_set_unit]
  intro a
  match a with
  | ⟨0, _⟩ => show win12_2.index ⟨24, ht⟩ (0 : Fin 2) * 128 ≤ (i 0).val ∧ (i 0).val < win12_2.index ⟨24, ht⟩ (0 : Fin 2) * 128 + 128; omega
  | ⟨1, _⟩ => show win12_2.index ⟨24, ht⟩ (1 : Fin 2) * 128 ≤ (i 1).val ∧ (i 1).val < win12_2.index ⟨24, ht⟩ (1 : Fin 2) * 128 + 128; omega

/-- The result array after the region is the host's `max (0.5 · D) D` of `D`, the product of the transposed left array
    and the right array as the region finds them. -/
theorem val12_host (c : Dev nD) :
    (dat12 (F := Ideal) V c).arrAt 2 cfg12.N = (maximumf (F := Ideal) (mulf (F := Ideal) (broadcastInDim Cert.ReferenceIdeal.S128x128 ![] Cert.ReferenceIdeal.Facts₀.bcast_S_S128x128 (constant (F := Ideal) Cert.ReferenceIdeal.S_ .f32 0x3F000000#32)) (Host.dotGeneral (F := Ideal) (φ₁ := .f32) (φ₂ := .f32) Cert.ReferenceIdeal.dot_S128x50000_S50000x128_S128x128_1_0_0_1_n_n none
        (transpose Cert.ReferenceIdeal.S128x50000 [1, 0] (V c main_v1) Cert.ReferenceIdeal.Facts₀.transposes_S50000x128_S128x50000_1_0) (V c main_v89))) (Host.dotGeneral (F := Ideal) (φ₁ := .f32) (φ₂ := .f32) Cert.ReferenceIdeal.dot_S128x50000_S50000x128_S128x128_1_0_0_1_n_n none
        (transpose Cert.ReferenceIdeal.S128x50000 [1, 0] (V c main_v1) Cert.ReferenceIdeal.Facts₀.transposes_S50000x128_S128x50000_1_0) (V c main_v89))) :=
  (dat12 (F := Ideal) V c).arrAt_eq_of_cover 2 (maximumf (F := Ideal) (mulf (F := Ideal) (broadcastInDim Cert.ReferenceIdeal.S128x128 ![] Cert.ReferenceIdeal.Facts₀.bcast_S_S128x128 (constant (F := Ideal) Cert.ReferenceIdeal.S_ .f32 0x3F000000#32)) (Host.dotGeneral (F := Ideal) (φ₁ := .f32) (φ₂ := .f32) Cert.ReferenceIdeal.dot_S128x50000_S50000x128_S128x128_1_0_0_1_n_n none
        (transpose Cert.ReferenceIdeal.S128x50000 [1, 0] (V c main_v1) Cert.ReferenceIdeal.Facts₀.transposes_S50000x128_S128x50000_1_0) (V c main_v89))) (Host.dotGeneral (F := Ideal) (φ₁ := .f32) (φ₂ := .f32) Cert.ReferenceIdeal.dot_S128x50000_S50000x128_S128x128_1_0_0_1_n_n none
        (transpose Cert.ReferenceIdeal.S128x50000 [1, 0] (V c main_v1) Cert.ReferenceIdeal.Facts₀.transposes_S50000x128_S128x50000_1_0) (V c main_v89))) (fun t hf => flushed12_eq V c t hf) cover12

end Cert.KernelIdeal.Fr

end
-- ==== Proof.KI.Val13.lean ====
import proofs.«126270_j6725918785969_1_alg».proof.Proof.KI.Reg13
import proofs.«126270_j6725918785969_1_alg».proof.Proof.Gen.ReferenceIdeal
import Idealize.ShloMosaic.Lib.Pipeline.Value
import Idealize.ShloMosaic.Lib.ValueIdx
import Idealize.ShloMosaic.PureOps.Ideal.Laws

/-!
# Region 13, read: the result array is `max (0.5 · y) y` of the matrix product `y` of the two input arrays

At the extended reals a change of float format is the identity and the matrix unit's contraction into a zero
accumulator is the plain sum over the contracted axis, so the product's entry at row `p`, column `q` of a block is
`∑ d, x0 (p, d) · x1 (d, q)`, and the body stores the larger of that entry and half of it. The left factor's block at
grid point `t` is rows `2000·t …` of its array and the right factor's is the whole array, so what point `t` writes back
is block `t` of rows of the same pointwise function of the whole product; the blocks cover the rows (row `r` lies in
block `r / 2000`). The result is stated twice: as the host's operations on the two arrays (their `dot_general`, a scalar
one half broadcast, times the product, maximum with the product) and entry by entry.
-/

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat)

theorem hz13 : (![0, 0] : Fin 2 → Nat) = fun _ => 0 := funext fun a => by fin_cases a <;> rfl

/-! ## The body's contraction at an index -/

/-- The left block's index at output index `i` and contraction position `q`: the output's row, -/
theorem lhs13_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- and the contraction position. -/
theorem lhs13_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right block's: the contraction position, -/
theorem rhs13_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- and the output's column. -/
theorem rhs13_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The matrix unit's product of two blocks into the zero accumulator at row `p`, column `q`: the sum over the
    contracted axis of the products of the left block's row and the right block's column. -/
theorem mm13_apply (a : FVec Ideal S2000x128 .bf16) (b : FVec Ideal S128x128 .bf16) (p : Fin 2000) (q : Fin 128) :
    matmul dot_S2000x128_S128x128_S2000x128_1_0_0_1_n_n none a b (constant (F := Ideal) S2000x128 .f32 0x00000000#32) (ix2 p q) = ∑ d : Fin 128, a (ix2 p d) * b (ix2 d q) := by
  refine (Ideal.matmul_constant_zero_apply dot_S2000x128_S128x128_S2000x128_1_0_0_1_n_n none _ _ (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs13_0 _ _
    | ⟨1, _⟩ => exact (lhs13_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs13_0 _ _).trans hk
    | ⟨1, _⟩ => exact rhs13_1 _ _)
  rw [el, er]

/-- The body's payload at row `p`, column `q`: the larger of the product's entry and half of it (the changes of format
    and the casts to the same shape are the identity on the extended reals; the half is the same float word on both
    sides, never evaluated). -/
theorem pay13_apply (x0 : Vec Ideal S2000x128 .f32) (x1 : Vec Ideal S128x128 .f32) (p : Fin 2000) (q : Fin 128) :
    k13_pay1 x0 x1 (ix2 p q) = max (Ideal.ofBits .f32 0x3F000000#32 * ∑ d : Fin 128, x0 (ix2 p d) * x1 (ix2 d q)) (∑ d : Fin 128, x0 (ix2 p d) * x1 (ix2 d q)) := by
  unfold k13_pay1
  rw [shapeCast_self, shapeCast_self]
  exact congrArg (fun m : EReal => max (Ideal.ofBits .f32 0x3F000000#32 * m) m) (mm13_apply (truncf .bf16 x0 (by decide)) (truncf .bf16 x1 (by decide)) p q)

/-! ## The host's product of the whole arrays at an index -/

/-- The left array's index at output index `i` and contraction position `q`: the output's row, -/
theorem hlhs13_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
/-- and the contraction position. -/
theorem hlhs13_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
/-- The right array's: the contraction position, -/
theorem hrhs13_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
/-- and the output's column. -/
theorem hrhs13_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

/-- The host's product of a [50000,128] array and a [128,128] array at row `r`, column `s`: the sum over the
    contracted axis, in the extended reals. -/
theorem host13_apply (a : FVec Ideal S50000x128 .f32) (b : FVec Ideal S128x128 .f32) (r : Fin 50000) (s : Fin 128) :
    Host.dotGeneral (F := Ideal) Cert.ReferenceIdeal.dot_S50000x128_S128x128_S50000x128_1_0_0_1_n_n none a b (ix2 r s) = ∑ d : Fin 128, a (ix2 r d) * b (ix2 d s) := by
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 r s) ((contrEquiv1 Cert.ReferenceIdeal.dot_S50000x128_S128x128_S50000x128_1_0_0_1_n_n 128 rfl rfl).symm k) = ix2 r k := funext fun a => Fin.ext (by
    match a with
    | ⟨0, _⟩ => exact hlhs13_0 _ _
    | ⟨1, _⟩ => exact (hlhs13_1 _ _).trans hk)
  have er : Cert.ReferenceIdeal.dot_S50000x128_S128x128_S50000x128_1_0_0_1_n_n.rhsIdx (ix2 r s) ((contrEquiv1 Cert.ReferenceIdeal.dot_S50000x128_S128x128_S50000x128_1_0_0_1_n_n 128 rfl rfl).symm k) = ix2 k s := funext fun a => Fin.ext (by
    match a with
    | ⟨0, _⟩ => exact (hrhs13_0 _ _).trans hk
    | ⟨1, _⟩ => exact hrhs13_1 _ _)
  rw [el, er]

/-- The host's `max (0.5 · y) y` of that product at row `r`, column `s`. -/
theorem hostl13_apply (a : FVec Ideal S50000x128 .f32) (b : FVec Ideal S128x128 .f32) (r : Fin 50000) (s : Fin 128) :
    (maximumf (F := Ideal) (mulf (F := Ideal) (broadcastInDim Cert.ReferenceIdeal.S50000x128 ![] Cert.ReferenceIdeal.Facts₀.bcast_S_S50000x128 (constant (F := Ideal) Cert.ReferenceIdeal.S_ .f32 0x3F000000#32)) (Host.dotGeneral (F := Ideal) (φ₁ := .f32) (φ₂ := .f32) Cert.ReferenceIdeal.dot_S50000x128_S128x128_S50000x128_1_0_0_1_n_n none a b)) (Host.dotGeneral (F := Ideal) (φ₁ := .f32) (φ₂ := .f32) Cert.ReferenceIdeal.dot_S50000x128_S128x128_S50000x128_1_0_0_1_n_n none a b)) (ix2 r s)
      = max (Ideal.ofBits .f32 0x3F000000#32 * ∑ d : Fin 128, a (ix2 r d) * b (ix2 d s)) (∑ d : Fin 128, a (ix2 r d) * b (ix2 d s)) := by
  show max (Ideal.ofBits .f32 0x3F000000#32 * Host.dotGeneral (F := Ideal) (φ₁ := .f32) (φ₂ := .f32) Cert.ReferenceIdeal.dot_S50000x128_S128x128_S50000x128_1_0_0_1_n_n none a b (ix2 r s)) (Host.dotGeneral (F := Ideal) (φ₁ := .f32) (φ₂ := .f32) Cert.ReferenceIdeal.dot_S50000x128_S128x128_S50000x128_1_0_0_1_n_n none a b (ix2 r s)) = _
  rw [host13_apply]

/-! ## One block of rows -/

/-- One block of rows: when the left block `x0` holds rows `n·2000 …` of `A` and the right block is `B`, the payload at a
    block index is the host's term of `A`, `B` at the array index in the same place. -/
theorem pay13_block (A : FVec Ideal S50000x128 .f32) (B : FVec Ideal S128x128 .f32)
    (x0 : Vec Ideal S2000x128 .f32) (x1 : Vec Ideal S128x128 .f32) (n : Nat) (y : S2000x128.Idx) (i : S50000x128.Idx)
    (hx0 : ∀ (p : Fin 2000) (d : Fin 128) (r : Fin 50000), r.val = n * 2000 + p.val → x0 (ix2 p d) = A (ix2 r d))
    (hx1 : ∀ (d q : Fin 128), x1 (ix2 d q) = B (ix2 d q))
    (hi0 : (i 0).val = n * 2000 + (y 0).val) (hi1 : (i 1).val = (y 1).val) :
    k13_pay1 x0 x1 y = (maximumf (F := Ideal) (mulf (F := Ideal) (broadcastInDim Cert.ReferenceIdeal.S50000x128 ![] Cert.ReferenceIdeal.Facts₀.bcast_S_S50000x128 (constant (F := Ideal) Cert.ReferenceIdeal.S_ .f32 0x3F000000#32)) (Host.dotGeneral (F := Ideal) (φ₁ := .f32) (φ₂ := .f32) Cert.ReferenceIdeal.dot_S50000x128_S128x128_S50000x128_1_0_0_1_n_n none A B)) (Host.dotGeneral (F := Ideal) (φ₁ := .f32) (φ₂ := .f32) Cert.ReferenceIdeal.dot_S50000x128_S128x128_S50000x128_1_0_0_1_n_n none A B)) i := by
  obtain ⟨p, q, rfl⟩ : ∃ (p : Fin 2000) (q : Fin 128), y = ix2 p q := ⟨y 0, y 1, eq_ix2 y⟩
  obtain ⟨r, s, rfl⟩ : ∃ (r : Fin 50000) (s : Fin 128), i = ix2 r s := ⟨i 0, i 1, eq_ix2 i⟩
  have hs : s = q := Fin.ext hi1
  subst hs
  rw [pay13_apply, hostl13_apply]
  have hS : (∑ d : Fin 128, x0 (ix2 p d) * x1 (ix2 d s)) = ∑ d : Fin 128, A (ix2 r d) * B (ix2 d s) :=
    Finset.sum_congr rfl fun d _ => by rw [hx0 p d r hi0, hx1 d s]
  rw [hS]

/-! ## From blocks to the array -/

/-- The printed index maps over the grid: the left factor's and the result's blocks are block `t` of rows, the right
    factor's is the one block. -/
theorem rows13_facts : ∀ t : Fin cfg13.N, win13_0.index t (0 : Fin 2) = t.val ∧ win13_0.index t (1 : Fin 2) = 0
    ∧ win13_1.index t (0 : Fin 2) = 0 ∧ win13_1.index t (1 : Fin 2) = 0
    ∧ win13_2.index t (0 : Fin 2) = t.val ∧ win13_2.index t (1 : Fin 2) = 0 :=
  (by decide +kernel : ∀ t : Fin grid13.N, _)

variable (V : (c : Dev nD) → (b : Ref sig .tc) → Buf (Elt Ideal) ((c : Thread nD τ).loc b))

/-- What point `t` writes back is block `t` of `max (0.5 · y) y` of the product `y` of the two arrays as the region finds them. -/
theorem flushed13_eq (c : Dev nD) (t : Fin cfg13.N) :
    (dat13 (F := Ideal) V c).flushed 2 t
      = ((cfg13.win 2).blk t).view.read (Elt Ideal) (maximumf (F := Ideal) (mulf (F := Ideal) (broadcastInDim Cert.ReferenceIdeal.S50000x128 ![] Cert.ReferenceIdeal.Facts₀.bcast_S_S50000x128 (constant (F := Ideal) Cert.ReferenceIdeal.S_ .f32 0x3F000000#32)) (Host.dotGeneral (F := Ideal) (φ₁ := .f32) (φ₂ := .f32) Cert.ReferenceIdeal.dot_S50000x128_S128x128_S50000x128_1_0_0_1_n_n none (V c main_v1) (V c main_v172))) (Host.dotGeneral (F := Ideal) (φ₁ := .f32) (φ₂ := .f32) Cert.ReferenceIdeal.dot_S50000x128_S128x128_S50000x128_1_0_0_1_n_n none (V c main_v1) (V c main_v172))) := by
  show (cfg13.win 2).cut (grid13.coords t) ((dat13 V c).after 2 t) = _
  rw [after13_2]
  unfold out13_2
  rw [View.canon_unit_zero hz13]
  simp only [View.ld_unit_zero (S := S2000x128) hz13, View.ld_unit_zero (S := S128x128) hz13]
  obtain ⟨e0, e1, e2, e3, e4, e5⟩ := rows13_facts t
  funext j
  show k13_pay1 (iblk13 V c 0 t) (iblk13 V c 1 t) j = (maximumf (F := Ideal) (mulf (F := Ideal) (broadcastInDim Cert.ReferenceIdeal.S50000x128 ![] Cert.ReferenceIdeal.Facts₀.bcast_S_S50000x128 (constant (F := Ideal) Cert.ReferenceIdeal.S_ .f32 0x3F000000#32)) (Host.dotGeneral (F := Ideal) (φ₁ := .f32) (φ₂ := .f32) Cert.ReferenceIdeal.dot_S50000x128_S128x128_S50000x128_1_0_0_1_n_n none (V c main_v1) (V c main_v172))) (Host.dotGeneral (F := Ideal) (φ₁ := .f32) (φ₂ := .f32) Cert.ReferenceIdeal.dot_S50000x128_S128x128_S50000x128_1_0_0_1_n_n none (V c main_v1) (V c main_v172))) (((cfg13.win 2).blk t).view.emb j)
  refine pay13_block (V c main_v1) (V c main_v172) (iblk13 V c 0 t) (iblk13 V c 1 t) t.val j (((cfg13.win 2).blk t).view.emb j) ?_ ?_ ?_ ?_
  · intro p d r hr
    show V c main_v1 (((cfg13.win 0).blk t).view.emb (ix2 p d)) = V c main_v1 (ix2 r d)
    refine congrArg (V c main_v1) (funext fun a => Fin.ext ?_)
    match a with
    | ⟨0, _⟩ => show win13_0.index t (0 : Fin 2) * 2000 + 1 * p.val = r.val; omega
    | ⟨1, _⟩ => show win13_0.index t (1 : Fin 2) * 128 + 1 * d.val = d.val; omega
  · intro d q
    show V c main_v172 (((cfg13.win 1).blk t).view.emb (ix2 d q)) = V c main_v172 (ix2 d q)
    refine congrArg (V c main_v172) (funext fun a => Fin.ext ?_)
    match a with
    | ⟨0, _⟩ => show win13_1.index t (0 : Fin 2) * 128 + 1 * d.val = d.val; omega
    | ⟨1, _⟩ => show win13_1.index t (1 : Fin 2) * 128 + 1 * q.val = q.val; omega
  · show win13_2.index t (0 : Fin 2) * 2000 + 1 * (j 0).val = t.val * 2000 + (j 0).val; omega
  · show win13_2.index t (1 : Fin 2) * 128 + 1 * (j 1).val = (j 1).val; omega

/-- An index of the result array is in point `t`'s block iff each coordinate is in the block's range on its axis. -/
theorem mem_rows13 (t : Fin cfg13.N) (i : S50000x128.Idx) :
    i ∈ ((cfg13.win 2).blk t).view.set ↔ ∀ a : Fin 2, win13_2.index t a * S2000x128.size a ≤ (i a).val ∧ (i a).val < win13_2.index t a * S2000x128.size a + S2000x128.size a := by
  show i ∈ ((View.whole main_v173).slice (win13_2.rect t)).set ↔ _
  rw [View.set_slice_whole, Rect.mem_set_unit]
  exact Iff.rfl

/-- Every row is in some point's block: row `r` in that of point `r / 2000`. -/
theorem rows13_cover (i : S50000x128.Idx) :
    ∃ t : Fin cfg13.N, (cfg13.win 2).flush t = true ∧ i ∈ ((cfg13.win 2).blk t).view.set := by
  have hi0 : (i 0).val < 50000 := idx2_lt0 i
  have hi1 : (i 1).val < 128 := idx2_lt1 i
  have hN : grid13.N = 25 := N_13
  have ht : (i 0).val / 2000 < grid13.N := by rw [hN]; omega
  obtain ⟨e0, e1, e2, e3, e4, e5⟩ := rows13_facts ⟨(i 0).val / 2000, ht⟩
  have e4' : win13_2.index ⟨(i 0).val / 2000, ht⟩ (0 : Fin 2) = (i 0).val / 2000 := e4
  refine ⟨⟨(i 0).val / 2000, ht⟩, flush13_2 _, ?_⟩
  rw [mem_rows13]
  intro a
  match a with
  | ⟨0, _⟩ => show win13_2.index ⟨(i 0).val / 2000, ht⟩ (0 : Fin 2) * 2000 ≤ (i 0).val ∧ (i 0).val < win13_2.index ⟨(i 0).val / 2000, ht⟩ (0 : Fin 2) * 2000 + 2000; omega
  | ⟨1, _⟩ => show win13_2.index ⟨(i 0).val / 2000, ht⟩ (1 : Fin 2) * 128 ≤ (i 1).val ∧ (i 1).val < win13_2.index ⟨(i 0).val / 2000, ht⟩ (1 : Fin 2) * 128 + 128; omega

/-- The result array after the region is the host's `max (0.5 · y) y` of its product `y` of the two input arrays as the
    region finds them, -/
theorem val13_host (c : Dev nD) :
    (dat13 (F := Ideal) V c).arrAt 2 cfg13.N = maximumf (F := Ideal) (mulf (F := Ideal) (broadcastInDim Cert.ReferenceIdeal.S50000x128 ![] Cert.ReferenceIdeal.Facts₀.bcast_S_S50000x128 (constant (F := Ideal) Cert.ReferenceIdeal.S_ .f32 0x3F000000#32)) (Host.dotGeneral (F := Ideal) (φ₁ := .f32) (φ₂ := .f32) Cert.ReferenceIdeal.dot_S50000x128_S128x128_S50000x128_1_0_0_1_n_n none (V c main_v1) (V c main_v172))) (Host.dotGeneral (F := Ideal) (φ₁ := .f32) (φ₂ := .f32) Cert.ReferenceIdeal.dot_S50000x128_S128x128_S50000x128_1_0_0_1_n_n none (V c main_v1) (V c main_v172)) :=
  (dat13 (F := Ideal) V c).arrAt_eq_of_cover 2 (maximumf (F := Ideal) (mulf (F := Ideal) (broadcastInDim Cert.ReferenceIdeal.S50000x128 ![] Cert.ReferenceIdeal.Facts₀.bcast_S_S50000x128 (constant (F := Ideal) Cert.ReferenceIdeal.S_ .f32 0x3F000000#32)) (Host.dotGeneral (F := Ideal) (φ₁ := .f32) (φ₂ := .f32) Cert.ReferenceIdeal.dot_S50000x128_S128x128_S50000x128_1_0_0_1_n_n none (V c main_v1) (V c main_v172))) (Host.dotGeneral (F := Ideal) (φ₁ := .f32) (φ₂ := .f32) Cert.ReferenceIdeal.dot_S50000x128_S128x128_S50000x128_1_0_0_1_n_n none (V c main_v1) (V c main_v172))) (fun t _ => flushed13_eq V c t) rows13_cover

/-- that is, entry by entry, the larger of the product's entry and half of it (`A`, `B`: the two input arrays as the
    region finds them). -/
theorem val13_apply (c : Dev nD) (A : FVec Ideal S50000x128 .f32) (B : FVec Ideal S128x128 .f32)
    (hA : V c main_v1 = A) (hB : V c main_v172 = B) (r : Fin 50000) (s : Fin 128) :
    (dat13 (F := Ideal) V c).arrAt 2 cfg13.N (ix2 r s)
      = max (Ideal.ofBits .f32 0x3F000000#32 * ∑ d : Fin 128, A (ix2 r d) * B (ix2 d s)) (∑ d : Fin 128, A (ix2 r d) * B (ix2 d s)) := by
  rw [val13_host, hA, hB]
  exact hostl13_apply A B r s

end Cert.KernelIdeal.Fr

end
-- ==== Proof.KI.Val14.lean ====
import proofs.«126270_j6725918785969_1_alg».proof.Proof.KI.Reg14
import proofs.«126270_j6725918785969_1_alg».proof.Proof.Gen.ReferenceIdeal
import Idealize.ShloMosaic.Lib.Pipeline.Value
import Idealize.ShloMosaic.Lib.ValueIdx
import Idealize.ShloMosaic.PureOps.Ideal.Laws

/-!
# Region 14, read: the result array is the matrix product of the two input arrays

At the extended reals a change of float format is the identity and the matrix unit's contraction into a zero
accumulator is the plain sum over the contracted axis, so the body's payload at row `p`, column `q` of a block is
`∑ d, x0 (p, d) · x1 (d, q)`. The grid has one point, and each window's block there is its whole array (block 0 of
4096 rows; row `r` lies in block `r / 4096 = 0`), so the array ends holding the product. The product is stated twice:
as the host's `dot_general` of the two arrays (the form the reference computes it in) and entry by entry as the sum.
-/

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat)

theorem hz14 : (![0, 0] : Fin 2 → Nat) = fun _ => 0 := funext fun a => by fin_cases a <;> rfl

/-! ## The body's contraction at an index -/

/-- The left block's index at output index `i` and contraction position `q`: the output's row, -/
theorem lhs14_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
/-- and the contraction position. -/
theorem lhs14_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
/-- The right block's: the contraction position, -/
theorem rhs14_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
/-- and the output's column. -/
theorem rhs14_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The body's payload at row `p`, column `q`: the sum over the contracted axis of the products of the left block's row
    and the right block's column (the change of format and the casts to the same shape are the identity on the extended reals, the accumulator is
    zero). -/
theorem pay14_apply (x0 : Vec Ideal S4096x128 .f32) (x1 : Vec Ideal S128x128 .f32) (p : Fin 4096) (q : Fin 128) :
    k14_pay1 x0 x1 (ix2 p q) = ∑ d : Fin 128, x0 (ix2 p d) * x1 (ix2 d q) := by
  unfold k14_pay1
  rw [shapeCast_self, shapeCast_self]
  refine (Ideal.matmul_constant_zero_apply dot_S4096x128_S128x128_S4096x128_1_0_0_1_n_n none _ _ (ix2 p q)).trans ?_
  rw [← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 p q) ((contrEquiv1 dot_S4096x128_S128x128_S4096x128_1_0_0_1_n_n 128 rfl rfl).symm k) = ix2 p k := funext fun a => Fin.ext (by
    match a with
    | ⟨0, _⟩ => exact lhs14_0 _ _
    | ⟨1, _⟩ => exact (lhs14_1 _ _).trans hk)
  have er : dot_S4096x128_S128x128_S4096x128_1_0_0_1_n_n.rhsIdx (ix2 p q) ((contrEquiv1 dot_S4096x128_S128x128_S4096x128_1_0_0_1_n_n 128 rfl rfl).symm k) = ix2 k q := funext fun a => Fin.ext (by
    match a with
    | ⟨0, _⟩ => exact (rhs14_0 _ _).trans hk
    | ⟨1, _⟩ => exact rhs14_1 _ _)
  rw [el, er]
  rfl

/-! ## The host's product of the whole arrays at an index -/

/-- The left array's index at output index `i` and contraction position `q`: the output's row, -/
theorem hlhs14_0 (i : Cert.ReferenceIdeal.S4096x128.Idx) (q : Cert.ReferenceIdeal.dot_S4096x128_S128x128_S4096x128_1_0_0_1_n_n.contr.Idx) :
    (Cert.ReferenceIdeal.dot_S4096x128_S128x128_S4096x128_1_0_0_1_n_n.lhsIdx i q 0).val = (i 0).val := by
  unfold DotDims.lhsIdx
  rw [dif_neg (show ¬(0 : Fin Cert.ReferenceIdeal.S4096x128.rank) ∈ Cert.ReferenceIdeal.dot_S4096x128_S128x128_S4096x128_1_0_0_1_n_n.lhsBatch by decide), dif_pos (show (0 : Fin Cert.ReferenceIdeal.S4096x128.rank) ∈ Cert.ReferenceIdeal.dot_S4096x128_S128x128_S4096x128_1_0_0_1_n_n.lhsNonContracting by decide)]
  rfl
/-- and the contraction position. -/
theorem hlhs14_1 (i : Cert.ReferenceIdeal.S4096x128.Idx) (q : Cert.ReferenceIdeal.dot_S4096x128_S128x128_S4096x128_1_0_0_1_n_n.contr.Idx) :
    (Cert.ReferenceIdeal.dot_S4096x128_S128x128_S4096x128_1_0_0_1_n_n.lhsIdx i q 1).val = (q ⟨0, by decide⟩).val :=
  Cert.ReferenceIdeal.dot_S4096x128_S128x128_S4096x128_1_0_0_1_n_n.lhsIdx_val_of_single rfl i q
/-- The right array's: the contraction position, -/
theorem hrhs14_0 (i : Cert.ReferenceIdeal.S4096x128.Idx) (q : Cert.ReferenceIdeal.dot_S4096x128_S128x128_S4096x128_1_0_0_1_n_n.contr.Idx) :
    (Cert.ReferenceIdeal.dot_S4096x128_S128x128_S4096x128_1_0_0_1_n_n.rhsIdx i q 0).val = (q ⟨0, by decide⟩).val :=
  Cert.ReferenceIdeal.dot_S4096x128_S128x128_S4096x128_1_0_0_1_n_n.rhsIdx_val_of_single rfl i q
/-- and the output's column. -/
theorem hrhs14_1 (i : Cert.ReferenceIdeal.S4096x128.Idx) (q : Cert.ReferenceIdeal.dot_S4096x128_S128x128_S4096x128_1_0_0_1_n_n.contr.Idx) :
    (Cert.ReferenceIdeal.dot_S4096x128_S128x128_S4096x128_1_0_0_1_n_n.rhsIdx i q 1).val = (i 1).val := by
  unfold DotDims.rhsIdx
  rw [dif_neg (show ¬(1 : Fin Cert.ReferenceIdeal.S128x128.rank) ∈ Cert.ReferenceIdeal.dot_S4096x128_S128x128_S4096x128_1_0_0_1_n_n.rhsBatch by decide), dif_pos (show (1 : Fin Cert.ReferenceIdeal.S128x128.rank) ∈ Cert.ReferenceIdeal.dot_S4096x128_S128x128_S4096x128_1_0_0_1_n_n.rhsNonContracting by decide)]
  rfl

/-- The host's product of a [4096,128] array and a [128,128] array at row `r`, column `s`: the sum over the
    contracted axis, in the extended reals. -/
theorem host14_apply (a : FVec Ideal S4096x128 .f32) (b : FVec Ideal S128x128 .f32) (r : Fin 4096) (s : Fin 128) :
    Host.dotGeneral (F := Ideal) Cert.ReferenceIdeal.dot_S4096x128_S128x128_S4096x128_1_0_0_1_n_n none a b (ix2 r s) = ∑ d : Fin 128, a (ix2 r d) * b (ix2 d s) := by
  simp only [Host.dotGeneral]
  rw [Ideal.dotGeneral_apply, ← Equiv.sum_comp (contrEquiv1 Cert.ReferenceIdeal.dot_S4096x128_S128x128_S4096x128_1_0_0_1_n_n 128 rfl rfl).symm]
  refine Finset.sum_congr rfl fun k _ => ?_
  have hk := contrEquiv1_symm_val Cert.ReferenceIdeal.dot_S4096x128_S128x128_S4096x128_1_0_0_1_n_n 128 rfl rfl k
  have el : Cert.ReferenceIdeal.dot_S4096x128_S128x128_S4096x128_1_0_0_1_n_n.lhsIdx (ix2 r s) ((contrEquiv1 Cert.ReferenceIdeal.dot_S4096x128_S128x128_S4096x128_1_0_0_1_n_n 128 rfl rfl).symm k) = ix2 r k := funext fun a => Fin.ext (by
    match a with
    | ⟨0, _⟩ => exact hlhs14_0 _ _
    | ⟨1, _⟩ => exact (hlhs14_1 _ _).trans hk)
  have er : Cert.ReferenceIdeal.dot_S4096x128_S128x128_S4096x128_1_0_0_1_n_n.rhsIdx (ix2 r s) ((contrEquiv1 Cert.ReferenceIdeal.dot_S4096x128_S128x128_S4096x128_1_0_0_1_n_n 128 rfl rfl).symm k) = ix2 k s := funext fun a => Fin.ext (by
    match a with
    | ⟨0, _⟩ => exact (hrhs14_0 _ _).trans hk
    | ⟨1, _⟩ => exact hrhs14_1 _ _)
  rw [el, er]

/-! ## One block of rows -/

/-- One block of rows of the product: when the left block `x0` holds rows `n·4096 …` of `A` and the right block is `B`,
    the payload at a block index is the product's entry at the array index in the same place. -/
theorem pay14_block (A : FVec Ideal S4096x128 .f32) (B : FVec Ideal S128x128 .f32)
    (x0 : Vec Ideal S4096x128 .f32) (x1 : Vec Ideal S128x128 .f32) (n : Nat) (y : S4096x128.Idx) (i : S4096x128.Idx)
    (hx0 : ∀ (p : Fin 4096) (d : Fin 128) (r : Fin 4096), r.val = n * 4096 + p.val → x0 (ix2 p d) = A (ix2 r d))
    (hx1 : ∀ (d q : Fin 128), x1 (ix2 d q) = B (ix2 d q))
    (hi0 : (i 0).val = n * 4096 + (y 0).val) (hi1 : (i 1).val = (y 1).val) :
    k14_pay1 x0 x1 y = Host.dotGeneral (F := Ideal) Cert.ReferenceIdeal.dot_S4096x128_S128x128_S4096x128_1_0_0_1_n_n none A B i := by
  obtain ⟨p, q, rfl⟩ : ∃ (p : Fin 4096) (q : Fin 128), y = ix2 p q := ⟨y 0, y 1, eq_ix2 y⟩
  obtain ⟨r, s, rfl⟩ : ∃ (r : Fin 4096) (s : Fin 128), i = ix2 r s := ⟨i 0, i 1, eq_ix2 i⟩
  have hs : s = q := Fin.ext hi1
  subst hs
  rw [pay14_apply, host14_apply]
  exact Finset.sum_congr rfl fun d _ => by rw [hx0 p d r hi0, hx1 d s]

/-! ## From blocks to the array -/

/-- The printed index maps over the grid: the left factor's and the result's blocks are block `t` of rows, the right
    factor's is the one block. -/
theorem rows14_facts : ∀ t : Fin cfg14.N, win14_0.index t (0 : Fin 2) = t.val ∧ win14_0.index t (1 : Fin 2) = 0
    ∧ win14_1.index t (0 : Fin 2) = 0 ∧ win14_1.index t (1 : Fin 2) = 0
    ∧ win14_2.index t (0 : Fin 2) = t.val ∧ win14_2.index t (1 : Fin 2) = 0 :=
  (by decide +kernel : ∀ t : Fin grid14.N, _)

variable (V : (c : Dev nD) → (b : Ref sig .tc) → Buf (Elt Ideal) ((c : Thread nD τ).loc b))

/-- What point `t` writes back is block `t` of the product of the two arrays as the region finds them. -/
theorem flushed14_eq (c : Dev nD) (t : Fin cfg14.N) :
    (dat14 (F := Ideal) V c).flushed 2 t
      = ((cfg14.win 2).blk t).view.read (Elt Ideal) (Host.dotGeneral (F := Ideal) (φ₁ := .f32) (φ₂ := .f32) Cert.ReferenceIdeal.dot_S4096x128_S128x128_S4096x128_1_0_0_1_n_n none (V c main_v224) (V c main_v219)) := by
  show (cfg14.win 2).cut (grid14.coords t) ((dat14 V c).after 2 t) = _
  rw [after14_2]
  unfold out14_2
  rw [View.canon_unit_zero hz14]
  simp only [View.ld_unit_zero (S := S4096x128) hz14, View.ld_unit_zero (S := S128x128) hz14]
  obtain ⟨e0, e1, e2, e3, e4, e5⟩ := rows14_facts t
  funext j
  show k14_pay1 (iblk14 V c 0 t) (iblk14 V c 1 t) j = Host.dotGeneral (F := Ideal) (φ₁ := .f32) (φ₂ := .f32) Cert.ReferenceIdeal.dot_S4096x128_S128x128_S4096x128_1_0_0_1_n_n none (V c main_v224) (V c main_v219) (((cfg14.win 2).blk t).view.emb j)
  refine pay14_block (V c main_v224) (V c main_v219) (iblk14 V c 0 t) (iblk14 V c 1 t) t.val j (((cfg14.win 2).blk t).view.emb j) ?_ ?_ ?_ ?_
  · intro p d r hr
    show V c main_v224 (((cfg14.win 0).blk t).view.emb (ix2 p d)) = V c main_v224 (ix2 r d)
    refine congrArg (V c main_v224) (funext fun a => Fin.ext ?_)
    match a with
    | ⟨0, _⟩ => show win14_0.index t (0 : Fin 2) * 4096 + 1 * p.val = r.val; omega
    | ⟨1, _⟩ => show win14_0.index t (1 : Fin 2) * 128 + 1 * d.val = d.val; omega
  · intro d q
    show V c main_v219 (((cfg14.win 1).blk t).view.emb (ix2 d q)) = V c main_v219 (ix2 d q)
    refine congrArg (V c main_v219) (funext fun a => Fin.ext ?_)
    match a with
    | ⟨0, _⟩ => show win14_1.index t (0 : Fin 2) * 128 + 1 * d.val = d.val; omega
    | ⟨1, _⟩ => show win14_1.index t (1 : Fin 2) * 128 + 1 * q.val = q.val; omega
  · show win14_2.index t (0 : Fin 2) * 4096 + 1 * (j 0).val = t.val * 4096 + (j 0).val; omega
  · show win14_2.index t (1 : Fin 2) * 128 + 1 * (j 1).val = (j 1).val; omega

/-- An index of the result array is in point `t`'s block iff each coordinate is in the block's range on its axis. -/
theorem mem_rows14 (t : Fin cfg14.N) (i : S4096x128.Idx) :
    i ∈ ((cfg14.win 2).blk t).view.set ↔ ∀ a : Fin 2, win14_2.index t a * S4096x128.size a ≤ (i a).val ∧ (i a).val < win14_2.index t a * S4096x128.size a + S4096x128.size a := by
  show i ∈ ((View.whole main_v230).slice (win14_2.rect t)).set ↔ _
  rw [View.set_slice_whole, Rect.mem_set_unit]
  exact Iff.rfl

/-- Every row is in some point's block: row `r` in that of point `r / 4096`. -/
theorem rows14_cover (i : S4096x128.Idx) :
    ∃ t : Fin cfg14.N, (cfg14.win 2).flush t = true ∧ i ∈ ((cfg14.win 2).blk t).view.set := by
  have hi0 : (i 0).val < 4096 := idx2_lt0 i
  have hi1 : (i 1).val < 128 := idx2_lt1 i
  have hN : grid14.N = 1 := N_14
  have ht : (i 0).val / 4096 < grid14.N := by rw [hN]; omega
  obtain ⟨e0, e1, e2, e3, e4, e5⟩ := rows14_facts ⟨(i 0).val / 4096, ht⟩
  have e4' : win14_2.index ⟨(i 0).val / 4096, ht⟩ (0 : Fin 2) = (i 0).val / 4096 := e4
  refine ⟨⟨(i 0).val / 4096, ht⟩, flush14_2 _, ?_⟩
  rw [mem_rows14]
  intro a
  match a with
  | ⟨0, _⟩ => show win14_2.index ⟨(i 0).val / 4096, ht⟩ (0 : Fin 2) * 4096 ≤ (i 0).val ∧ (i 0).val < win14_2.index ⟨(i 0).val / 4096, ht⟩ (0 : Fin 2) * 4096 + 4096; omega
  | ⟨1, _⟩ => show win14_2.index ⟨(i 0).val / 4096, ht⟩ (1 : Fin 2) * 128 ≤ (i 1).val ∧ (i 1).val < win14_2.index ⟨(i 0).val / 4096, ht⟩ (1 : Fin 2) * 128 + 128; omega

/-- The result array after the region is the host's product of the two input arrays as the region finds them, -/
theorem val14_host (c : Dev nD) :
    (dat14 (F := Ideal) V c).arrAt 2 cfg14.N = Host.dotGeneral (F := Ideal) (φ₁ := .f32) (φ₂ := .f32) Cert.ReferenceIdeal.dot_S4096x128_S128x128_S4096x128_1_0_0_1_n_n none (V c main_v224) (V c main_v219) :=
  (dat14 (F := Ideal) V c).arrAt_eq_of_cover 2 (Host.dotGeneral (F := Ideal) (φ₁ := .f32) (φ₂ := .f32) Cert.ReferenceIdeal.dot_S4096x128_S128x128_S4096x128_1_0_0_1_n_n none (V c main_v224) (V c main_v219)) (fun t _ => flushed14_eq V c t) rows14_cover

/-- that is, entry by entry, the sum over the contracted axis of the products (`A`, `B`: the two input arrays as the
    region finds them). -/
theorem val14_apply (c : Dev nD) (A : FVec Ideal S4096x128 .f32) (B : FVec Ideal S128x128 .f32)
    (hA : V c main_v224 = A) (hB : V c main_v219 = B) (r : Fin 4096) (s : Fin 128) :
    (dat14 (F := Ideal) V c).arrAt 2 cfg14.N (ix2 r s) = ∑ d : Fin 128, A (ix2 r d) * B (ix2 d s) := by
  rw [val14_host, hA, hB]
  exact host14_apply A B r s

end Cert.KernelIdeal.Fr

end
-- ==== Proof.KI.Val16.lean ====
import proofs.«126270_j6725918785969_1_alg».proof.Proof.KI.Reg16
import proofs.«126270_j6725918785969_1_alg».proof.Proof.Gen.ReferenceIdeal
import Idealize.ShloMosaic.Lib.Pipeline.Value
import Idealize.ShloMosaic.Lib.ValueIdx
import Idealize.ShloMosaic.PureOps.Ideal.Laws

/-!
# Region 16, read: the result array is the matrix product of the two input arrays

At the extended reals a change of float format is the identity and the matrix unit's contraction into a zero
accumulator is the plain sum over the contracted axis, so the body's payload at row `p`, column `q` of a block is
`∑ d, x0 (p, d) · x1 (d, q)`. The grid has one point, and each window's block there is its whole array (block 0 of
4096 rows; row `r` lies in block `r / 4096 = 0`), so the array ends holding the product. The product is stated twice:
as the host's `dot_general` of the two arrays (the form the reference computes it in) and entry by entry as the sum.
-/

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat)

theorem hz16 : (![0, 0] : Fin 2 → Nat) = fun _ => 0 := funext fun a => by fin_cases a <;> rfl

/-! ## The body's contraction at an index -/

/-- The left block's index at output index `i` and contraction position `q`: the output's row, -/
theorem lhs16_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
/-- and the contraction position. -/
theorem lhs16_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
/-- The right block's: the contraction position, -/
theorem rhs16_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
/-- and the output's column. -/
theorem rhs16_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The body's payload at row `p`, column `q`: the sum over the contracted axis of the products of the left block's row
    and the right block's column (the change of format and the casts to the same shape are the identity on the extended reals, the accumulator is
    zero). -/
theorem pay16_apply (x0 : Vec Ideal S4096x128 .f32) (x1 : Vec Ideal S128x128 .f32) (p : Fin 4096) (q : Fin 128) :
    k16_pay1 x0 x1 (ix2 p q) = ∑ d : Fin 128, x0 (ix2 p d) * x1 (ix2 d q) := by
  unfold k16_pay1
  rw [shapeCast_self, shapeCast_self]
  refine (Ideal.matmul_constant_zero_apply dot_S4096x128_S128x128_S4096x128_1_0_0_1_n_n none _ _ (ix2 p q)).trans ?_
  rw [← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 p q) ((contrEquiv1 dot_S4096x128_S128x128_S4096x128_1_0_0_1_n_n 128 rfl rfl).symm k) = ix2 p k := funext fun a => Fin.ext (by
    match a with
    | ⟨0, _⟩ => exact lhs16_0 _ _
    | ⟨1, _⟩ => exact (lhs16_1 _ _).trans hk)
  have er : dot_S4096x128_S128x128_S4096x128_1_0_0_1_n_n.rhsIdx (ix2 p q) ((contrEquiv1 dot_S4096x128_S128x128_S4096x128_1_0_0_1_n_n 128 rfl rfl).symm k) = ix2 k q := funext fun a => Fin.ext (by
    match a with
    | ⟨0, _⟩ => exact (rhs16_0 _ _).trans hk
    | ⟨1, _⟩ => exact rhs16_1 _ _)
  rw [el, er]
  rfl

/-! ## The host's product of the whole arrays at an index -/

/-- The left array's index at output index `i` and contraction position `q`: the output's row, -/
theorem hlhs16_0 (i : Cert.ReferenceIdeal.S4096x128.Idx) (q : Cert.ReferenceIdeal.dot_S4096x128_S128x128_S4096x128_1_0_0_1_n_n.contr.Idx) :
    (Cert.ReferenceIdeal.dot_S4096x128_S128x128_S4096x128_1_0_0_1_n_n.lhsIdx i q 0).val = (i 0).val := by
  unfold DotDims.lhsIdx
  rw [dif_neg (show ¬(0 : Fin Cert.ReferenceIdeal.S4096x128.rank) ∈ Cert.ReferenceIdeal.dot_S4096x128_S128x128_S4096x128_1_0_0_1_n_n.lhsBatch by decide), dif_pos (show (0 : Fin Cert.ReferenceIdeal.S4096x128.rank) ∈ Cert.ReferenceIdeal.dot_S4096x128_S128x128_S4096x128_1_0_0_1_n_n.lhsNonContracting by decide)]
  rfl
/-- and the contraction position. -/
theorem hlhs16_1 (i : Cert.ReferenceIdeal.S4096x128.Idx) (q : Cert.ReferenceIdeal.dot_S4096x128_S128x128_S4096x128_1_0_0_1_n_n.contr.Idx) :
    (Cert.ReferenceIdeal.dot_S4096x128_S128x128_S4096x128_1_0_0_1_n_n.lhsIdx i q 1).val = (q ⟨0, by decide⟩).val :=
  Cert.ReferenceIdeal.dot_S4096x128_S128x128_S4096x128_1_0_0_1_n_n.lhsIdx_val_of_single rfl i q
/-- The right array's: the contraction position, -/
theorem hrhs16_0 (i : Cert.ReferenceIdeal.S4096x128.Idx) (q : Cert.ReferenceIdeal.dot_S4096x128_S128x128_S4096x128_1_0_0_1_n_n.contr.Idx) :
    (Cert.ReferenceIdeal.dot_S4096x128_S128x128_S4096x128_1_0_0_1_n_n.rhsIdx i q 0).val = (q ⟨0, by decide⟩).val :=
  Cert.ReferenceIdeal.dot_S4096x128_S128x128_S4096x128_1_0_0_1_n_n.rhsIdx_val_of_single rfl i q
/-- and the output's column. -/
theorem hrhs16_1 (i : Cert.ReferenceIdeal.S4096x128.Idx) (q : Cert.ReferenceIdeal.dot_S4096x128_S128x128_S4096x128_1_0_0_1_n_n.contr.Idx) :
    (Cert.ReferenceIdeal.dot_S4096x128_S128x128_S4096x128_1_0_0_1_n_n.rhsIdx i q 1).val = (i 1).val := by
  unfold DotDims.rhsIdx
  rw [dif_neg (show ¬(1 : Fin Cert.ReferenceIdeal.S128x128.rank) ∈ Cert.ReferenceIdeal.dot_S4096x128_S128x128_S4096x128_1_0_0_1_n_n.rhsBatch by decide), dif_pos (show (1 : Fin Cert.ReferenceIdeal.S128x128.rank) ∈ Cert.ReferenceIdeal.dot_S4096x128_S128x128_S4096x128_1_0_0_1_n_n.rhsNonContracting by decide)]
  rfl

/-- The host's product of a [4096,128] array and a [128,128] array at row `r`, column `s`: the sum over the
    contracted axis, in the extended reals. -/
theorem host16_apply (a : FVec Ideal S4096x128 .f32) (b : FVec Ideal S128x128 .f32) (r : Fin 4096) (s : Fin 128) :
    Host.dotGeneral (F := Ideal) Cert.ReferenceIdeal.dot_S4096x128_S128x128_S4096x128_1_0_0_1_n_n none a b (ix2 r s) = ∑ d : Fin 128, a (ix2 r d) * b (ix2 d s) := by
  simp only [Host.dotGeneral]
  rw [Ideal.dotGeneral_apply, ← Equiv.sum_comp (contrEquiv1 Cert.ReferenceIdeal.dot_S4096x128_S128x128_S4096x128_1_0_0_1_n_n 128 rfl rfl).symm]
  refine Finset.sum_congr rfl fun k _ => ?_
  have hk := contrEquiv1_symm_val Cert.ReferenceIdeal.dot_S4096x128_S128x128_S4096x128_1_0_0_1_n_n 128 rfl rfl k
  have el : Cert.ReferenceIdeal.dot_S4096x128_S128x128_S4096x128_1_0_0_1_n_n.lhsIdx (ix2 r s) ((contrEquiv1 Cert.ReferenceIdeal.dot_S4096x128_S128x128_S4096x128_1_0_0_1_n_n 128 rfl rfl).symm k) = ix2 r k := funext fun a => Fin.ext (by
    match a with
    | ⟨0, _⟩ => exact hlhs16_0 _ _
    | ⟨1, _⟩ => exact (hlhs16_1 _ _).trans hk)
  have er : Cert.ReferenceIdeal.dot_S4096x128_S128x128_S4096x128_1_0_0_1_n_n.rhsIdx (ix2 r s) ((contrEquiv1 Cert.ReferenceIdeal.dot_S4096x128_S128x128_S4096x128_1_0_0_1_n_n 128 rfl rfl).symm k) = ix2 k s := funext fun a => Fin.ext (by
    match a with
    | ⟨0, _⟩ => exact (hrhs16_0 _ _).trans hk
    | ⟨1, _⟩ => exact hrhs16_1 _ _)
  rw [el, er]

/-! ## One block of rows -/

/-- One block of rows of the product: when the left block `x0` holds rows `n·4096 …` of `A` and the right block is `B`,
    the payload at a block index is the product's entry at the array index in the same place. -/
theorem pay16_block (A : FVec Ideal S4096x128 .f32) (B : FVec Ideal S128x128 .f32)
    (x0 : Vec Ideal S4096x128 .f32) (x1 : Vec Ideal S128x128 .f32) (n : Nat) (y : S4096x128.Idx) (i : S4096x128.Idx)
    (hx0 : ∀ (p : Fin 4096) (d : Fin 128) (r : Fin 4096), r.val = n * 4096 + p.val → x0 (ix2 p d) = A (ix2 r d))
    (hx1 : ∀ (d q : Fin 128), x1 (ix2 d q) = B (ix2 d q))
    (hi0 : (i 0).val = n * 4096 + (y 0).val) (hi1 : (i 1).val = (y 1).val) :
    k16_pay1 x0 x1 y = Host.dotGeneral (F := Ideal) Cert.ReferenceIdeal.dot_S4096x128_S128x128_S4096x128_1_0_0_1_n_n none A B i := by
  obtain ⟨p, q, rfl⟩ : ∃ (p : Fin 4096) (q : Fin 128), y = ix2 p q := ⟨y 0, y 1, eq_ix2 y⟩
  obtain ⟨r, s, rfl⟩ : ∃ (r : Fin 4096) (s : Fin 128), i = ix2 r s := ⟨i 0, i 1, eq_ix2 i⟩
  have hs : s = q := Fin.ext hi1
  subst hs
  rw [pay16_apply, host16_apply]
  exact Finset.sum_congr rfl fun d _ => by rw [hx0 p d r hi0, hx1 d s]

/-! ## From blocks to the array -/

/-- The printed index maps over the grid: the left factor's and the result's blocks are block `t` of rows, the right
    factor's is the one block. -/
theorem rows16_facts : ∀ t : Fin cfg16.N, win16_0.index t (0 : Fin 2) = t.val ∧ win16_0.index t (1 : Fin 2) = 0
    ∧ win16_1.index t (0 : Fin 2) = 0 ∧ win16_1.index t (1 : Fin 2) = 0
    ∧ win16_2.index t (0 : Fin 2) = t.val ∧ win16_2.index t (1 : Fin 2) = 0 :=
  (by decide +kernel : ∀ t : Fin grid16.N, _)

variable (V : (c : Dev nD) → (b : Ref sig .tc) → Buf (Elt Ideal) ((c : Thread nD τ).loc b))

/-- What point `t` writes back is block `t` of the product of the two arrays as the region finds them. -/
theorem flushed16_eq (c : Dev nD) (t : Fin cfg16.N) :
    (dat16 (F := Ideal) V c).flushed 2 t
      = ((cfg16.win 2).blk t).view.read (Elt Ideal) (Host.dotGeneral (F := Ideal) (φ₁ := .f32) (φ₂ := .f32) Cert.ReferenceIdeal.dot_S4096x128_S128x128_S4096x128_1_0_0_1_n_n none (V c main_v267) (V c main_v262)) := by
  show (cfg16.win 2).cut (grid16.coords t) ((dat16 V c).after 2 t) = _
  rw [after16_2]
  unfold out16_2
  rw [View.canon_unit_zero hz16]
  simp only [View.ld_unit_zero (S := S4096x128) hz16, View.ld_unit_zero (S := S128x128) hz16]
  obtain ⟨e0, e1, e2, e3, e4, e5⟩ := rows16_facts t
  funext j
  show k16_pay1 (iblk16 V c 0 t) (iblk16 V c 1 t) j = Host.dotGeneral (F := Ideal) (φ₁ := .f32) (φ₂ := .f32) Cert.ReferenceIdeal.dot_S4096x128_S128x128_S4096x128_1_0_0_1_n_n none (V c main_v267) (V c main_v262) (((cfg16.win 2).blk t).view.emb j)
  refine pay16_block (V c main_v267) (V c main_v262) (iblk16 V c 0 t) (iblk16 V c 1 t) t.val j (((cfg16.win 2).blk t).view.emb j) ?_ ?_ ?_ ?_
  · intro p d r hr
    show V c main_v267 (((cfg16.win 0).blk t).view.emb (ix2 p d)) = V c main_v267 (ix2 r d)
    refine congrArg (V c main_v267) (funext fun a => Fin.ext ?_)
    match a with
    | ⟨0, _⟩ => show win16_0.index t (0 : Fin 2) * 4096 + 1 * p.val = r.val; omega
    | ⟨1, _⟩ => show win16_0.index t (1 : Fin 2) * 128 + 1 * d.val = d.val; omega
  · intro d q
    show V c main_v262 (((cfg16.win 1).blk t).view.emb (ix2 d q)) = V c main_v262 (ix2 d q)
    refine congrArg (V c main_v262) (funext fun a => Fin.ext ?_)
    match a with
    | ⟨0, _⟩ => show win16_1.index t (0 : Fin 2) * 128 + 1 * d.val = d.val; omega
    | ⟨1, _⟩ => show win16_1.index t (1 : Fin 2) * 128 + 1 * q.val = q.val; omega
  · show win16_2.index t (0 : Fin 2) * 4096 + 1 * (j 0).val = t.val * 4096 + (j 0).val; omega
  · show win16_2.index t (1 : Fin 2) * 128 + 1 * (j 1).val = (j 1).val; omega

/-- An index of the result array is in point `t`'s block iff each coordinate is in the block's range on its axis. -/
theorem mem_rows16 (t : Fin cfg16.N) (i : S4096x128.Idx) :
    i ∈ ((cfg16.win 2).blk t).view.set ↔ ∀ a : Fin 2, win16_2.index t a * S4096x128.size a ≤ (i a).val ∧ (i a).val < win16_2.index t a * S4096x128.size a + S4096x128.size a := by
  show i ∈ ((View.whole main_v273).slice (win16_2.rect t)).set ↔ _
  rw [View.set_slice_whole, Rect.mem_set_unit]
  exact Iff.rfl

/-- Every row is in some point's block: row `r` in that of point `r / 4096`. -/
theorem rows16_cover (i : S4096x128.Idx) :
    ∃ t : Fin cfg16.N, (cfg16.win 2).flush t = true ∧ i ∈ ((cfg16.win 2).blk t).view.set := by
  have hi0 : (i 0).val < 4096 := idx2_lt0 i
  have hi1 : (i 1).val < 128 := idx2_lt1 i
  have hN : grid16.N = 1 := N_16
  have ht : (i 0).val / 4096 < grid16.N := by rw [hN]; omega
  obtain ⟨e0, e1, e2, e3, e4, e5⟩ := rows16_facts ⟨(i 0).val / 4096, ht⟩
  have e4' : win16_2.index ⟨(i 0).val / 4096, ht⟩ (0 : Fin 2) = (i 0).val / 4096 := e4
  refine ⟨⟨(i 0).val / 4096, ht⟩, flush16_2 _, ?_⟩
  rw [mem_rows16]
  intro a
  match a with
  | ⟨0, _⟩ => show win16_2.index ⟨(i 0).val / 4096, ht⟩ (0 : Fin 2) * 4096 ≤ (i 0).val ∧ (i 0).val < win16_2.index ⟨(i 0).val / 4096, ht⟩ (0 : Fin 2) * 4096 + 4096; omega
  | ⟨1, _⟩ => show win16_2.index ⟨(i 0).val / 4096, ht⟩ (1 : Fin 2) * 128 ≤ (i 1).val ∧ (i 1).val < win16_2.index ⟨(i 0).val / 4096, ht⟩ (1 : Fin 2) * 128 + 128; omega

/-- The result array after the region is the host's product of the two input arrays as the region finds them, -/
theorem val16_host (c : Dev nD) :
    (dat16 (F := Ideal) V c).arrAt 2 cfg16.N = Host.dotGeneral (F := Ideal) (φ₁ := .f32) (φ₂ := .f32) Cert.ReferenceIdeal.dot_S4096x128_S128x128_S4096x128_1_0_0_1_n_n none (V c main_v267) (V c main_v262) :=
  (dat16 (F := Ideal) V c).arrAt_eq_of_cover 2 (Host.dotGeneral (F := Ideal) (φ₁ := .f32) (φ₂ := .f32) Cert.ReferenceIdeal.dot_S4096x128_S128x128_S4096x128_1_0_0_1_n_n none (V c main_v267) (V c main_v262)) (fun t _ => flushed16_eq V c t) rows16_cover

/-- that is, entry by entry, the sum over the contracted axis of the products (`A`, `B`: the two input arrays as the
    region finds them). -/
theorem val16_apply (c : Dev nD) (A : FVec Ideal S4096x128 .f32) (B : FVec Ideal S128x128 .f32)
    (hA : V c main_v267 = A) (hB : V c main_v262 = B) (r : Fin 4096) (s : Fin 128) :
    (dat16 (F := Ideal) V c).arrAt 2 cfg16.N (ix2 r s) = ∑ d : Fin 128, A (ix2 r d) * B (ix2 d s) := by
  rw [val16_host, hA, hB]
  exact host16_apply A B r s

end Cert.KernelIdeal.Fr

end
-- ==== Proof.KI.Val18.lean ====
import proofs.«126270_j6725918785969_1_alg».proof.Proof.KI.Reg18
import proofs.«126270_j6725918785969_1_alg».proof.Proof.Gen.ReferenceIdeal
import Idealize.ShloMosaic.Lib.Pipeline.Value
import Idealize.ShloMosaic.Lib.ValueIdx
import Idealize.ShloMosaic.PureOps.Ideal.Laws

/-!
# Region 18, read: the result array is the matrix product of the two input arrays

At the extended reals a change of float format is the identity and the matrix unit's contraction into a zero
accumulator is the plain sum over the contracted axis, so the body's payload at row `p`, column `q` of a block is
`∑ d, x0 (p, d) · x1 (d, q)`. The grid has one point, and each window's block there is its whole array (block 0 of
4096 rows; row `r` lies in block `r / 4096 = 0`), so the array ends holding the product. The product is stated twice:
as the host's `dot_general` of the two arrays (the form the reference computes it in) and entry by entry as the sum.
-/

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat)

theorem hz18 : (![0, 0] : Fin 2 → Nat) = fun _ => 0 := funext fun a => by fin_cases a <;> rfl

/-! ## The body's contraction at an index -/

/-- The left block's index at output index `i` and contraction position `q`: the output's row, -/
theorem lhs18_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
/-- and the contraction position. -/
theorem lhs18_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
/-- The right block's: the contraction position, -/
theorem rhs18_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
/-- and the output's column. -/
theorem rhs18_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The body's payload at row `p`, column `q`: the sum over the contracted axis of the products of the left block's row
    and the right block's column (the change of format and the casts to the same shape are the identity on the extended reals, the accumulator is
    zero). -/
theorem pay18_apply (x0 : Vec Ideal S4096x128 .f32) (x1 : Vec Ideal S128x128 .f32) (p : Fin 4096) (q : Fin 128) :
    k18_pay1 x0 x1 (ix2 p q) = ∑ d : Fin 128, x0 (ix2 p d) * x1 (ix2 d q) := by
  unfold k18_pay1
  rw [shapeCast_self, shapeCast_self]
  refine (Ideal.matmul_constant_zero_apply dot_S4096x128_S128x128_S4096x128_1_0_0_1_n_n none _ _ (ix2 p q)).trans ?_
  rw [← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 p q) ((contrEquiv1 dot_S4096x128_S128x128_S4096x128_1_0_0_1_n_n 128 rfl rfl).symm k) = ix2 p k := funext fun a => Fin.ext (by
    match a with
    | ⟨0, _⟩ => exact lhs18_0 _ _
    | ⟨1, _⟩ => exact (lhs18_1 _ _).trans hk)
  have er : dot_S4096x128_S128x128_S4096x128_1_0_0_1_n_n.rhsIdx (ix2 p q) ((contrEquiv1 dot_S4096x128_S128x128_S4096x128_1_0_0_1_n_n 128 rfl rfl).symm k) = ix2 k q := funext fun a => Fin.ext (by
    match a with
    | ⟨0, _⟩ => exact (rhs18_0 _ _).trans hk
    | ⟨1, _⟩ => exact rhs18_1 _ _)
  rw [el, er]
  rfl

/-! ## The host's product of the whole arrays at an index -/

/-- The left array's index at output index `i` and contraction position `q`: the output's row, -/
theorem hlhs18_0 (i : Cert.ReferenceIdeal.S4096x128.Idx) (q : Cert.ReferenceIdeal.dot_S4096x128_S128x128_S4096x128_1_0_0_1_n_n.contr.Idx) :
    (Cert.ReferenceIdeal.dot_S4096x128_S128x128_S4096x128_1_0_0_1_n_n.lhsIdx i q 0).val = (i 0).val := by
  unfold DotDims.lhsIdx
  rw [dif_neg (show ¬(0 : Fin Cert.ReferenceIdeal.S4096x128.rank) ∈ Cert.ReferenceIdeal.dot_S4096x128_S128x128_S4096x128_1_0_0_1_n_n.lhsBatch by decide), dif_pos (show (0 : Fin Cert.ReferenceIdeal.S4096x128.rank) ∈ Cert.ReferenceIdeal.dot_S4096x128_S128x128_S4096x128_1_0_0_1_n_n.lhsNonContracting by decide)]
  rfl
/-- and the contraction position. -/
theorem hlhs18_1 (i : Cert.ReferenceIdeal.S4096x128.Idx) (q : Cert.ReferenceIdeal.dot_S4096x128_S128x128_S4096x128_1_0_0_1_n_n.contr.Idx) :
    (Cert.ReferenceIdeal.dot_S4096x128_S128x128_S4096x128_1_0_0_1_n_n.lhsIdx i q 1).val = (q ⟨0, by decide⟩).val :=
  Cert.ReferenceIdeal.dot_S4096x128_S128x128_S4096x128_1_0_0_1_n_n.lhsIdx_val_of_single rfl i q
/-- The right array's: the contraction position, -/
theorem hrhs18_0 (i : Cert.ReferenceIdeal.S4096x128.Idx) (q : Cert.ReferenceIdeal.dot_S4096x128_S128x128_S4096x128_1_0_0_1_n_n.contr.Idx) :
    (Cert.ReferenceIdeal.dot_S4096x128_S128x128_S4096x128_1_0_0_1_n_n.rhsIdx i q 0).val = (q ⟨0, by decide⟩).val :=
  Cert.ReferenceIdeal.dot_S4096x128_S128x128_S4096x128_1_0_0_1_n_n.rhsIdx_val_of_single rfl i q
/-- and the output's column. -/
theorem hrhs18_1 (i : Cert.ReferenceIdeal.S4096x128.Idx) (q : Cert.ReferenceIdeal.dot_S4096x128_S128x128_S4096x128_1_0_0_1_n_n.contr.Idx) :
    (Cert.ReferenceIdeal.dot_S4096x128_S128x128_S4096x128_1_0_0_1_n_n.rhsIdx i q 1).val = (i 1).val := by
  unfold DotDims.rhsIdx
  rw [dif_neg (show ¬(1 : Fin Cert.ReferenceIdeal.S128x128.rank) ∈ Cert.ReferenceIdeal.dot_S4096x128_S128x128_S4096x128_1_0_0_1_n_n.rhsBatch by decide), dif_pos (show (1 : Fin Cert.ReferenceIdeal.S128x128.rank) ∈ Cert.ReferenceIdeal.dot_S4096x128_S128x128_S4096x128_1_0_0_1_n_n.rhsNonContracting by decide)]
  rfl

/-- The host's product of a [4096,128] array and a [128,128] array at row `r`, column `s`: the sum over the
    contracted axis, in the extended reals. -/
theorem host18_apply (a : FVec Ideal S4096x128 .f32) (b : FVec Ideal S128x128 .f32) (r : Fin 4096) (s : Fin 128) :
    Host.dotGeneral (F := Ideal) Cert.ReferenceIdeal.dot_S4096x128_S128x128_S4096x128_1_0_0_1_n_n none a b (ix2 r s) = ∑ d : Fin 128, a (ix2 r d) * b (ix2 d s) := by
  simp only [Host.dotGeneral]
  rw [Ideal.dotGeneral_apply, ← Equiv.sum_comp (contrEquiv1 Cert.ReferenceIdeal.dot_S4096x128_S128x128_S4096x128_1_0_0_1_n_n 128 rfl rfl).symm]
  refine Finset.sum_congr rfl fun k _ => ?_
  have hk := contrEquiv1_symm_val Cert.ReferenceIdeal.dot_S4096x128_S128x128_S4096x128_1_0_0_1_n_n 128 rfl rfl k
  have el : Cert.ReferenceIdeal.dot_S4096x128_S128x128_S4096x128_1_0_0_1_n_n.lhsIdx (ix2 r s) ((contrEquiv1 Cert.ReferenceIdeal.dot_S4096x128_S128x128_S4096x128_1_0_0_1_n_n 128 rfl rfl).symm k) = ix2 r k := funext fun a => Fin.ext (by
    match a with
    | ⟨0, _⟩ => exact hlhs18_0 _ _
    | ⟨1, _⟩ => exact (hlhs18_1 _ _).trans hk)
  have er : Cert.ReferenceIdeal.dot_S4096x128_S128x128_S4096x128_1_0_0_1_n_n.rhsIdx (ix2 r s) ((contrEquiv1 Cert.ReferenceIdeal.dot_S4096x128_S128x128_S4096x128_1_0_0_1_n_n 128 rfl rfl).symm k) = ix2 k s := funext fun a => Fin.ext (by
    match a with
    | ⟨0, _⟩ => exact (hrhs18_0 _ _).trans hk
    | ⟨1, _⟩ => exact hrhs18_1 _ _)
  rw [el, er]

/-! ## One block of rows -/

/-- One block of rows of the product: when the left block `x0` holds rows `n·4096 …` of `A` and the right block is `B`,
    the payload at a block index is the product's entry at the array index in the same place. -/
theorem pay18_block (A : FVec Ideal S4096x128 .f32) (B : FVec Ideal S128x128 .f32)
    (x0 : Vec Ideal S4096x128 .f32) (x1 : Vec Ideal S128x128 .f32) (n : Nat) (y : S4096x128.Idx) (i : S4096x128.Idx)
    (hx0 : ∀ (p : Fin 4096) (d : Fin 128) (r : Fin 4096), r.val = n * 4096 + p.val → x0 (ix2 p d) = A (ix2 r d))
    (hx1 : ∀ (d q : Fin 128), x1 (ix2 d q) = B (ix2 d q))
    (hi0 : (i 0).val = n * 4096 + (y 0).val) (hi1 : (i 1).val = (y 1).val) :
    k18_pay1 x0 x1 y = Host.dotGeneral (F := Ideal) Cert.ReferenceIdeal.dot_S4096x128_S128x128_S4096x128_1_0_0_1_n_n none A B i := by
  obtain ⟨p, q, rfl⟩ : ∃ (p : Fin 4096) (q : Fin 128), y = ix2 p q := ⟨y 0, y 1, eq_ix2 y⟩
  obtain ⟨r, s, rfl⟩ : ∃ (r : Fin 4096) (s : Fin 128), i = ix2 r s := ⟨i 0, i 1, eq_ix2 i⟩
  have hs : s = q := Fin.ext hi1
  subst hs
  rw [pay18_apply, host18_apply]
  exact Finset.sum_congr rfl fun d _ => by rw [hx0 p d r hi0, hx1 d s]

/-! ## From blocks to the array -/

/-- The printed index maps over the grid: the left factor's and the result's blocks are block `t` of rows, the right
    factor's is the one block. -/
theorem rows18_facts : ∀ t : Fin cfg18.N, win18_0.index t (0 : Fin 2) = t.val ∧ win18_0.index t (1 : Fin 2) = 0
    ∧ win18_1.index t (0 : Fin 2) = 0 ∧ win18_1.index t (1 : Fin 2) = 0
    ∧ win18_2.index t (0 : Fin 2) = t.val ∧ win18_2.index t (1 : Fin 2) = 0 :=
  (by decide +kernel : ∀ t : Fin grid18.N, _)

variable (V : (c : Dev nD) → (b : Ref sig .tc) → Buf (Elt Ideal) ((c : Thread nD τ).loc b))

/-- What point `t` writes back is block `t` of the product of the two arrays as the region finds them. -/
theorem flushed18_eq (c : Dev nD) (t : Fin cfg18.N) :
    (dat18 (F := Ideal) V c).flushed 2 t
      = ((cfg18.win 2).blk t).view.read (Elt Ideal) (Host.dotGeneral (F := Ideal) (φ₁ := .f32) (φ₂ := .f32) Cert.ReferenceIdeal.dot_S4096x128_S128x128_S4096x128_1_0_0_1_n_n none (V c main_v310) (V c main_v305)) := by
  show (cfg18.win 2).cut (grid18.coords t) ((dat18 V c).after 2 t) = _
  rw [after18_2]
  unfold out18_2
  rw [View.canon_unit_zero hz18]
  simp only [View.ld_unit_zero (S := S4096x128) hz18, View.ld_unit_zero (S := S128x128) hz18]
  obtain ⟨e0, e1, e2, e3, e4, e5⟩ := rows18_facts t
  funext j
  show k18_pay1 (iblk18 V c 0 t) (iblk18 V c 1 t) j = Host.dotGeneral (F := Ideal) (φ₁ := .f32) (φ₂ := .f32) Cert.ReferenceIdeal.dot_S4096x128_S128x128_S4096x128_1_0_0_1_n_n none (V c main_v310) (V c main_v305) (((cfg18.win 2).blk t).view.emb j)
  refine pay18_block (V c main_v310) (V c main_v305) (iblk18 V c 0 t) (iblk18 V c 1 t) t.val j (((cfg18.win 2).blk t).view.emb j) ?_ ?_ ?_ ?_
  · intro p d r hr
    show V c main_v310 (((cfg18.win 0).blk t).view.emb (ix2 p d)) = V c main_v310 (ix2 r d)
    refine congrArg (V c main_v310) (funext fun a => Fin.ext ?_)
    match a with
    | ⟨0, _⟩ => show win18_0.index t (0 : Fin 2) * 4096 + 1 * p.val = r.val; omega
    | ⟨1, _⟩ => show win18_0.index t (1 : Fin 2) * 128 + 1 * d.val = d.val; omega
  · intro d q
    show V c main_v305 (((cfg18.win 1).blk t).view.emb (ix2 d q)) = V c main_v305 (ix2 d q)
    refine congrArg (V c main_v305) (funext fun a => Fin.ext ?_)
    match a with
    | ⟨0, _⟩ => show win18_1.index t (0 : Fin 2) * 128 + 1 * d.val = d.val; omega
    | ⟨1, _⟩ => show win18_1.index t (1 : Fin 2) * 128 + 1 * q.val = q.val; omega
  · show win18_2.index t (0 : Fin 2) * 4096 + 1 * (j 0).val = t.val * 4096 + (j 0).val; omega
  · show win18_2.index t (1 : Fin 2) * 128 + 1 * (j 1).val = (j 1).val; omega

/-- An index of the result array is in point `t`'s block iff each coordinate is in the block's range on its axis. -/
theorem mem_rows18 (t : Fin cfg18.N) (i : S4096x128.Idx) :
    i ∈ ((cfg18.win 2).blk t).view.set ↔ ∀ a : Fin 2, win18_2.index t a * S4096x128.size a ≤ (i a).val ∧ (i a).val < win18_2.index t a * S4096x128.size a + S4096x128.size a := by
  show i ∈ ((View.whole main_v316).slice (win18_2.rect t)).set ↔ _
  rw [View.set_slice_whole, Rect.mem_set_unit]
  exact Iff.rfl

/-- Every row is in some point's block: row `r` in that of point `r / 4096`. -/
theorem rows18_cover (i : S4096x128.Idx) :
    ∃ t : Fin cfg18.N, (cfg18.win 2).flush t = true ∧ i ∈ ((cfg18.win 2).blk t).view.set := by
  have hi0 : (i 0).val < 4096 := idx2_lt0 i
  have hi1 : (i 1).val < 128 := idx2_lt1 i
  have hN : grid18.N = 1 := N_18
  have ht : (i 0).val / 4096 < grid18.N := by rw [hN]; omega
  obtain ⟨e0, e1, e2, e3, e4, e5⟩ := rows18_facts ⟨(i 0).val / 4096, ht⟩
  have e4' : win18_2.index ⟨(i 0).val / 4096, ht⟩ (0 : Fin 2) = (i 0).val / 4096 := e4
  refine ⟨⟨(i 0).val / 4096, ht⟩, flush18_2 _, ?_⟩
  rw [mem_rows18]
  intro a
  match a with
  | ⟨0, _⟩ => show win18_2.index ⟨(i 0).val / 4096, ht⟩ (0 : Fin 2) * 4096 ≤ (i 0).val ∧ (i 0).val < win18_2.index ⟨(i 0).val / 4096, ht⟩ (0 : Fin 2) * 4096 + 4096; omega
  | ⟨1, _⟩ => show win18_2.index ⟨(i 0).val / 4096, ht⟩ (1 : Fin 2) * 128 ≤ (i 1).val ∧ (i 1).val < win18_2.index ⟨(i 0).val / 4096, ht⟩ (1 : Fin 2) * 128 + 128; omega

/-- The result array after the region is the host's product of the two input arrays as the region finds them, -/
theorem val18_host (c : Dev nD) :
    (dat18 (F := Ideal) V c).arrAt 2 cfg18.N = Host.dotGeneral (F := Ideal) (φ₁ := .f32) (φ₂ := .f32) Cert.ReferenceIdeal.dot_S4096x128_S128x128_S4096x128_1_0_0_1_n_n none (V c main_v310) (V c main_v305) :=
  (dat18 (F := Ideal) V c).arrAt_eq_of_cover 2 (Host.dotGeneral (F := Ideal) (φ₁ := .f32) (φ₂ := .f32) Cert.ReferenceIdeal.dot_S4096x128_S128x128_S4096x128_1_0_0_1_n_n none (V c main_v310) (V c main_v305)) (fun t _ => flushed18_eq V c t) rows18_cover

/-- that is, entry by entry, the sum over the contracted axis of the products (`A`, `B`: the two input arrays as the
    region finds them). -/
theorem val18_apply (c : Dev nD) (A : FVec Ideal S4096x128 .f32) (B : FVec Ideal S128x128 .f32)
    (hA : V c main_v310 = A) (hB : V c main_v305 = B) (r : Fin 4096) (s : Fin 128) :
    (dat18 (F := Ideal) V c).arrAt 2 cfg18.N (ix2 r s) = ∑ d : Fin 128, A (ix2 r d) * B (ix2 d s) := by
  rw [val18_host, hA, hB]
  exact host18_apply A B r s

end Cert.KernelIdeal.Fr

end
-- ==== Proof.KI.Val20.lean ====
import proofs.«126270_j6725918785969_1_alg».proof.Proof.KI.Reg20
import proofs.«126270_j6725918785969_1_alg».proof.Proof.Gen.ReferenceIdeal
import Idealize.ShloMosaic.Lib.Pipeline.Value
import Idealize.ShloMosaic.Lib.ValueIdx
import Idealize.ShloMosaic.PureOps.Ideal.Laws

/-!
# Region 20, read: the result array is the matrix product of the two input arrays

At the extended reals a change of float format is the identity and the matrix unit's contraction into a zero
accumulator is the plain sum over the contracted axis, so the body's payload at row `p`, column `q` of a block is
`∑ d, x0 (p, d) · x1 (d, q)`. The grid has one point, and each window's block there is its whole array (block 0 of
4096 rows; row `r` lies in block `r / 4096 = 0`), so the array ends holding the product. The product is stated twice:
as the host's `dot_general` of the two arrays (the form the reference computes it in) and entry by entry as the sum.
-/

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat)

theorem hz20 : (![0, 0] : Fin 2 → Nat) = fun _ => 0 := funext fun a => by fin_cases a <;> rfl

/-! ## The body's contraction at an index -/

/-- The left block's index at output index `i` and contraction position `q`: the output's row, -/
theorem lhs20_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
/-- and the contraction position. -/
theorem lhs20_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
/-- The right block's: the contraction position, -/
theorem rhs20_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
/-- and the output's column. -/
theorem rhs20_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The body's payload at row `p`, column `q`: the sum over the contracted axis of the products of the left block's row
    and the right block's column (the change of format and the casts to the same shape are the identity on the extended reals, the accumulator is
    zero). -/
theorem pay20_apply (x0 : Vec Ideal S4096x128 .f32) (x1 : Vec Ideal S128x128 .f32) (p : Fin 4096) (q : Fin 128) :
    k20_pay1 x0 x1 (ix2 p q) = ∑ d : Fin 128, x0 (ix2 p d) * x1 (ix2 d q) := by
  unfold k20_pay1
  rw [shapeCast_self, shapeCast_self]
  refine (Ideal.matmul_constant_zero_apply dot_S4096x128_S128x128_S4096x128_1_0_0_1_n_n none _ _ (ix2 p q)).trans ?_
  rw [← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 p q) ((contrEquiv1 dot_S4096x128_S128x128_S4096x128_1_0_0_1_n_n 128 rfl rfl).symm k) = ix2 p k := funext fun a => Fin.ext (by
    match a with
    | ⟨0, _⟩ => exact lhs20_0 _ _
    | ⟨1, _⟩ => exact (lhs20_1 _ _).trans hk)
  have er : dot_S4096x128_S128x128_S4096x128_1_0_0_1_n_n.rhsIdx (ix2 p q) ((contrEquiv1 dot_S4096x128_S128x128_S4096x128_1_0_0_1_n_n 128 rfl rfl).symm k) = ix2 k q := funext fun a => Fin.ext (by
    match a with
    | ⟨0, _⟩ => exact (rhs20_0 _ _).trans hk
    | ⟨1, _⟩ => exact rhs20_1 _ _)
  rw [el, er]
  rfl

/-! ## The host's product of the whole arrays at an index -/

/-- The left array's index at output index `i` and contraction position `q`: the output's row, -/
theorem hlhs20_0 (i : Cert.ReferenceIdeal.S4096x128.Idx) (q : Cert.ReferenceIdeal.dot_S4096x128_S128x128_S4096x128_1_0_0_1_n_n.contr.Idx) :
    (Cert.ReferenceIdeal.dot_S4096x128_S128x128_S4096x128_1_0_0_1_n_n.lhsIdx i q 0).val = (i 0).val := by
  unfold DotDims.lhsIdx
  rw [dif_neg (show ¬(0 : Fin Cert.ReferenceIdeal.S4096x128.rank) ∈ Cert.ReferenceIdeal.dot_S4096x128_S128x128_S4096x128_1_0_0_1_n_n.lhsBatch by decide), dif_pos (show (0 : Fin Cert.ReferenceIdeal.S4096x128.rank) ∈ Cert.ReferenceIdeal.dot_S4096x128_S128x128_S4096x128_1_0_0_1_n_n.lhsNonContracting by decide)]
  rfl
/-- and the contraction position. -/
theorem hlhs20_1 (i : Cert.ReferenceIdeal.S4096x128.Idx) (q : Cert.ReferenceIdeal.dot_S4096x128_S128x128_S4096x128_1_0_0_1_n_n.contr.Idx) :
    (Cert.ReferenceIdeal.dot_S4096x128_S128x128_S4096x128_1_0_0_1_n_n.lhsIdx i q 1).val = (q ⟨0, by decide⟩).val :=
  Cert.ReferenceIdeal.dot_S4096x128_S128x128_S4096x128_1_0_0_1_n_n.lhsIdx_val_of_single rfl i q
/-- The right array's: the contraction position, -/
theorem hrhs20_0 (i : Cert.ReferenceIdeal.S4096x128.Idx) (q : Cert.ReferenceIdeal.dot_S4096x128_S128x128_S4096x128_1_0_0_1_n_n.contr.Idx) :
    (Cert.ReferenceIdeal.dot_S4096x128_S128x128_S4096x128_1_0_0_1_n_n.rhsIdx i q 0).val = (q ⟨0, by decide⟩).val :=
  Cert.ReferenceIdeal.dot_S4096x128_S128x128_S4096x128_1_0_0_1_n_n.rhsIdx_val_of_single rfl i q
/-- and the output's column. -/
theorem hrhs20_1 (i : Cert.ReferenceIdeal.S4096x128.Idx) (q : Cert.ReferenceIdeal.dot_S4096x128_S128x128_S4096x128_1_0_0_1_n_n.contr.Idx) :
    (Cert.ReferenceIdeal.dot_S4096x128_S128x128_S4096x128_1_0_0_1_n_n.rhsIdx i q 1).val = (i 1).val := by
  unfold DotDims.rhsIdx
  rw [dif_neg (show ¬(1 : Fin Cert.ReferenceIdeal.S128x128.rank) ∈ Cert.ReferenceIdeal.dot_S4096x128_S128x128_S4096x128_1_0_0_1_n_n.rhsBatch by decide), dif_pos (show (1 : Fin Cert.ReferenceIdeal.S128x128.rank) ∈ Cert.ReferenceIdeal.dot_S4096x128_S128x128_S4096x128_1_0_0_1_n_n.rhsNonContracting by decide)]
  rfl

/-- The host's product of a [4096,128] array and a [128,128] array at row `r`, column `s`: the sum over the
    contracted axis, in the extended reals. -/
theorem host20_apply (a : FVec Ideal S4096x128 .f32) (b : FVec Ideal S128x128 .f32) (r : Fin 4096) (s : Fin 128) :
    Host.dotGeneral (F := Ideal) Cert.ReferenceIdeal.dot_S4096x128_S128x128_S4096x128_1_0_0_1_n_n none a b (ix2 r s) = ∑ d : Fin 128, a (ix2 r d) * b (ix2 d s) := by
  simp only [Host.dotGeneral]
  rw [Ideal.dotGeneral_apply, ← Equiv.sum_comp (contrEquiv1 Cert.ReferenceIdeal.dot_S4096x128_S128x128_S4096x128_1_0_0_1_n_n 128 rfl rfl).symm]
  refine Finset.sum_congr rfl fun k _ => ?_
  have hk := contrEquiv1_symm_val Cert.ReferenceIdeal.dot_S4096x128_S128x128_S4096x128_1_0_0_1_n_n 128 rfl rfl k
  have el : Cert.ReferenceIdeal.dot_S4096x128_S128x128_S4096x128_1_0_0_1_n_n.lhsIdx (ix2 r s) ((contrEquiv1 Cert.ReferenceIdeal.dot_S4096x128_S128x128_S4096x128_1_0_0_1_n_n 128 rfl rfl).symm k) = ix2 r k := funext fun a => Fin.ext (by
    match a with
    | ⟨0, _⟩ => exact hlhs20_0 _ _
    | ⟨1, _⟩ => exact (hlhs20_1 _ _).trans hk)
  have er : Cert.ReferenceIdeal.dot_S4096x128_S128x128_S4096x128_1_0_0_1_n_n.rhsIdx (ix2 r s) ((contrEquiv1 Cert.ReferenceIdeal.dot_S4096x128_S128x128_S4096x128_1_0_0_1_n_n 128 rfl rfl).symm k) = ix2 k s := funext fun a => Fin.ext (by
    match a with
    | ⟨0, _⟩ => exact (hrhs20_0 _ _).trans hk
    | ⟨1, _⟩ => exact hrhs20_1 _ _)
  rw [el, er]

/-! ## One block of rows -/

/-- One block of rows of the product: when the left block `x0` holds rows `n·4096 …` of `A` and the right block is `B`,
    the payload at a block index is the product's entry at the array index in the same place. -/
theorem pay20_block (A : FVec Ideal S4096x128 .f32) (B : FVec Ideal S128x128 .f32)
    (x0 : Vec Ideal S4096x128 .f32) (x1 : Vec Ideal S128x128 .f32) (n : Nat) (y : S4096x128.Idx) (i : S4096x128.Idx)
    (hx0 : ∀ (p : Fin 4096) (d : Fin 128) (r : Fin 4096), r.val = n * 4096 + p.val → x0 (ix2 p d) = A (ix2 r d))
    (hx1 : ∀ (d q : Fin 128), x1 (ix2 d q) = B (ix2 d q))
    (hi0 : (i 0).val = n * 4096 + (y 0).val) (hi1 : (i 1).val = (y 1).val) :
    k20_pay1 x0 x1 y = Host.dotGeneral (F := Ideal) Cert.ReferenceIdeal.dot_S4096x128_S128x128_S4096x128_1_0_0_1_n_n none A B i := by
  obtain ⟨p, q, rfl⟩ : ∃ (p : Fin 4096) (q : Fin 128), y = ix2 p q := ⟨y 0, y 1, eq_ix2 y⟩
  obtain ⟨r, s, rfl⟩ : ∃ (r : Fin 4096) (s : Fin 128), i = ix2 r s := ⟨i 0, i 1, eq_ix2 i⟩
  have hs : s = q := Fin.ext hi1
  subst hs
  rw [pay20_apply, host20_apply]
  exact Finset.sum_congr rfl fun d _ => by rw [hx0 p d r hi0, hx1 d s]

/-! ## From blocks to the array -/

/-- The printed index maps over the grid: the left factor's and the result's blocks are block `t` of rows, the right
    factor's is the one block. -/
theorem rows20_facts : ∀ t : Fin cfg20.N, win20_0.index t (0 : Fin 2) = t.val ∧ win20_0.index t (1 : Fin 2) = 0
    ∧ win20_1.index t (0 : Fin 2) = 0 ∧ win20_1.index t (1 : Fin 2) = 0
    ∧ win20_2.index t (0 : Fin 2) = t.val ∧ win20_2.index t (1 : Fin 2) = 0 :=
  (by decide +kernel : ∀ t : Fin grid20.N, _)

variable (V : (c : Dev nD) → (b : Ref sig .tc) → Buf (Elt Ideal) ((c : Thread nD τ).loc b))

/-- What point `t` writes back is block `t` of the product of the two arrays as the region finds them. -/
theorem flushed20_eq (c : Dev nD) (t : Fin cfg20.N) :
    (dat20 (F := Ideal) V c).flushed 2 t
      = ((cfg20.win 2).blk t).view.read (Elt Ideal) (Host.dotGeneral (F := Ideal) (φ₁ := .f32) (φ₂ := .f32) Cert.ReferenceIdeal.dot_S4096x128_S128x128_S4096x128_1_0_0_1_n_n none (V c main_v353) (V c main_v348)) := by
  show (cfg20.win 2).cut (grid20.coords t) ((dat20 V c).after 2 t) = _
  rw [after20_2]
  unfold out20_2
  rw [View.canon_unit_zero hz20]
  simp only [View.ld_unit_zero (S := S4096x128) hz20, View.ld_unit_zero (S := S128x128) hz20]
  obtain ⟨e0, e1, e2, e3, e4, e5⟩ := rows20_facts t
  funext j
  show k20_pay1 (iblk20 V c 0 t) (iblk20 V c 1 t) j = Host.dotGeneral (F := Ideal) (φ₁ := .f32) (φ₂ := .f32) Cert.ReferenceIdeal.dot_S4096x128_S128x128_S4096x128_1_0_0_1_n_n none (V c main_v353) (V c main_v348) (((cfg20.win 2).blk t).view.emb j)
  refine pay20_block (V c main_v353) (V c main_v348) (iblk20 V c 0 t) (iblk20 V c 1 t) t.val j (((cfg20.win 2).blk t).view.emb j) ?_ ?_ ?_ ?_
  · intro p d r hr
    show V c main_v353 (((cfg20.win 0).blk t).view.emb (ix2 p d)) = V c main_v353 (ix2 r d)
    refine congrArg (V c main_v353) (funext fun a => Fin.ext ?_)
    match a with
    | ⟨0, _⟩ => show win20_0.index t (0 : Fin 2) * 4096 + 1 * p.val = r.val; omega
    | ⟨1, _⟩ => show win20_0.index t (1 : Fin 2) * 128 + 1 * d.val = d.val; omega
  · intro d q
    show V c main_v348 (((cfg20.win 1).blk t).view.emb (ix2 d q)) = V c main_v348 (ix2 d q)
    refine congrArg (V c main_v348) (funext fun a => Fin.ext ?_)
    match a with
    | ⟨0, _⟩ => show win20_1.index t (0 : Fin 2) * 128 + 1 * d.val = d.val; omega
    | ⟨1, _⟩ => show win20_1.index t (1 : Fin 2) * 128 + 1 * q.val = q.val; omega
  · show win20_2.index t (0 : Fin 2) * 4096 + 1 * (j 0).val = t.val * 4096 + (j 0).val; omega
  · show win20_2.index t (1 : Fin 2) * 128 + 1 * (j 1).val = (j 1).val; omega

/-- An index of the result array is in point `t`'s block iff each coordinate is in the block's range on its axis. -/
theorem mem_rows20 (t : Fin cfg20.N) (i : S4096x128.Idx) :
    i ∈ ((cfg20.win 2).blk t).view.set ↔ ∀ a : Fin 2, win20_2.index t a * S4096x128.size a ≤ (i a).val ∧ (i a).val < win20_2.index t a * S4096x128.size a + S4096x128.size a := by
  show i ∈ ((View.whole main_v359).slice (win20_2.rect t)).set ↔ _
  rw [View.set_slice_whole, Rect.mem_set_unit]
  exact Iff.rfl

/-- Every row is in some point's block: row `r` in that of point `r / 4096`. -/
theorem rows20_cover (i : S4096x128.Idx) :
    ∃ t : Fin cfg20.N, (cfg20.win 2).flush t = true ∧ i ∈ ((cfg20.win 2).blk t).view.set := by
  have hi0 : (i 0).val < 4096 := idx2_lt0 i
  have hi1 : (i 1).val < 128 := idx2_lt1 i
  have hN : grid20.N = 1 := N_20
  have ht : (i 0).val / 4096 < grid20.N := by rw [hN]; omega
  obtain ⟨e0, e1, e2, e3, e4, e5⟩ := rows20_facts ⟨(i 0).val / 4096, ht⟩
  have e4' : win20_2.index ⟨(i 0).val / 4096, ht⟩ (0 : Fin 2) = (i 0).val / 4096 := e4
  refine ⟨⟨(i 0).val / 4096, ht⟩, flush20_2 _, ?_⟩
  rw [mem_rows20]
  intro a
  match a with
  | ⟨0, _⟩ => show win20_2.index ⟨(i 0).val / 4096, ht⟩ (0 : Fin 2) * 4096 ≤ (i 0).val ∧ (i 0).val < win20_2.index ⟨(i 0).val / 4096, ht⟩ (0 : Fin 2) * 4096 + 4096; omega
  | ⟨1, _⟩ => show win20_2.index ⟨(i 0).val / 4096, ht⟩ (1 : Fin 2) * 128 ≤ (i 1).val ∧ (i 1).val < win20_2.index ⟨(i 0).val / 4096, ht⟩ (1 : Fin 2) * 128 + 128; omega

/-- The result array after the region is the host's product of the two input arrays as the region finds them, -/
theorem val20_host (c : Dev nD) :
    (dat20 (F := Ideal) V c).arrAt 2 cfg20.N = Host.dotGeneral (F := Ideal) (φ₁ := .f32) (φ₂ := .f32) Cert.ReferenceIdeal.dot_S4096x128_S128x128_S4096x128_1_0_0_1_n_n none (V c main_v353) (V c main_v348) :=
  (dat20 (F := Ideal) V c).arrAt_eq_of_cover 2 (Host.dotGeneral (F := Ideal) (φ₁ := .f32) (φ₂ := .f32) Cert.ReferenceIdeal.dot_S4096x128_S128x128_S4096x128_1_0_0_1_n_n none (V c main_v353) (V c main_v348)) (fun t _ => flushed20_eq V c t) rows20_cover

/-- that is, entry by entry, the sum over the contracted axis of the products (`A`, `B`: the two input arrays as the
    region finds them). -/
theorem val20_apply (c : Dev nD) (A : FVec Ideal S4096x128 .f32) (B : FVec Ideal S128x128 .f32)
    (hA : V c main_v353 = A) (hB : V c main_v348 = B) (r : Fin 4096) (s : Fin 128) :
    (dat20 (F := Ideal) V c).arrAt 2 cfg20.N (ix2 r s) = ∑ d : Fin 128, A (ix2 r d) * B (ix2 d s) := by
  rw [val20_host, hA, hB]
  exact host20_apply A B r s

end Cert.KernelIdeal.Fr

end
-- ==== Proof.KI.KEqReg.lean ====
import proofs.«126270_j6725918785969_1_alg».proof.Proof.KI.KEqBase
import proofs.«126270_j6725918785969_1_alg».proof.Proof.KI.Val0
import proofs.«126270_j6725918785969_1_alg».proof.Proof.KI.Val1
import proofs.«126270_j6725918785969_1_alg».proof.Proof.KI.Val2
import proofs.«126270_j6725918785969_1_alg».proof.Proof.KI.Val3
import proofs.«126270_j6725918785969_1_alg».proof.Proof.KI.Val4
import proofs.«126270_j6725918785969_1_alg».proof.Proof.KI.Val5
import proofs.«126270_j6725918785969_1_alg».proof.Proof.KI.Val6
import proofs.«126270_j6725918785969_1_alg».proof.Proof.KI.Val7
import proofs.«126270_j6725918785969_1_alg».proof.Proof.KI.Val8
import proofs.«126270_j6725918785969_1_alg».proof.Proof.KI.Val9
import proofs.«126270_j6725918785969_1_alg».proof.Proof.KI.Val10
import proofs.«126270_j6725918785969_1_alg».proof.Proof.KI.Val11
import proofs.«126270_j6725918785969_1_alg».proof.Proof.KI.Val12
import proofs.«126270_j6725918785969_1_alg».proof.Proof.KI.Val13
import proofs.«126270_j6725918785969_1_alg».proof.Proof.KI.Val14
import proofs.«126270_j6725918785969_1_alg».proof.Proof.KI.Val16
import proofs.«126270_j6725918785969_1_alg».proof.Proof.KI.Val18
import proofs.«126270_j6725918785969_1_alg».proof.Proof.KI.Val20

/-!
# The idealized kernel program's regions, each as an equation between final buffer contents

For every kernel region: the final contents of its output array are the host-level function of the final
contents of its input arrays that the region computes — a matrix product, `max (0.5 · x) x`, or their composites.
-/

set_option maxRecDepth 16384

noncomputable section

namespace Cert.KernelIdeal.Fr

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

theorem kq_main_v0 : Wc60 m c main_v0 = Host.dotGeneral (F := Ideal) (φ₁ := .f32) (φ₂ := .f32) Cert.ReferenceIdeal.dot_S100000x128_S128x128_S100000x128_1_0_0_1_n_n none (Wc60 m c main_arg5) (Wc60 m c main_arg7) := by
  rw [liftK_1 m c main_v0 (by decide), liftK_0 m c main_arg5 (by decide), liftK_0 m c main_arg7 (by decide)]
  exact (Wc1_out m c).trans (val0_host (Vc0 m) c)

theorem kq_main_v1 : Wc60 m c main_v1 = Host.dotGeneral (F := Ideal) (φ₁ := .f32) (φ₂ := .f32) Cert.ReferenceIdeal.dot_S50000x128_S128x128_S50000x128_1_0_0_1_n_n none (Wc60 m c main_arg6) (Wc60 m c main_arg8) := by
  rw [liftK_2 m c main_v1 (by decide), liftK_1 m c main_arg6 (by decide), liftK_1 m c main_arg8 (by decide)]
  exact (Wc2_out m c).trans (val1_host (Vc1 m) c)

theorem kq_main_v28 : Wc60 m c main_v28 = maximumf (F := Ideal) (mulf (F := Ideal) (broadcastInDim Cert.ReferenceIdeal.S100000x128 ![] Cert.ReferenceIdeal.Facts₀.bcast_S_S100000x128 (constant (F := Ideal) Cert.ReferenceIdeal.S_ .f32 0x3F000000#32)) (Wc60 m c main_v14)) (Wc60 m c main_v14) := by
  rw [liftK_4 m c main_v28 (by decide), liftK_3 m c main_v14 (by decide)]
  exact (Wc4_out m c).trans (val2_host (Vc3 m) c)

theorem kq_main_v29 : Wc60 m c main_v29 = maximumf (F := Ideal) (mulf (F := Ideal) (broadcastInDim Cert.ReferenceIdeal.S50000x128 ![] Cert.ReferenceIdeal.Facts₀.bcast_S_S50000x128 (constant (F := Ideal) Cert.ReferenceIdeal.S_ .f32 0x3F000000#32)) (Wc60 m c main_v27)) (Wc60 m c main_v27) := by
  rw [liftK_5 m c main_v29 (by decide), liftK_4 m c main_v27 (by decide)]
  exact (Wc5_out m c).trans (val3_host (Vc4 m) c)

theorem kq_main_v32 : Wc60 m c main_v32 = (maximumf (F := Ideal) (mulf (F := Ideal) (broadcastInDim Cert.ReferenceIdeal.S128x128 ![] Cert.ReferenceIdeal.Facts₀.bcast_S_S128x128 (constant (F := Ideal) Cert.ReferenceIdeal.S_ .f32 0x3F000000#32)) (Host.dotGeneral (F := Ideal) (φ₁ := .f32) (φ₂ := .f32) Cert.ReferenceIdeal.dot_S128x100000_S100000x128_S128x128_1_0_0_1_n_n none
        (transpose Cert.ReferenceIdeal.S128x100000 [1, 0] (Wc60 m c main_v0) Cert.ReferenceIdeal.Facts₀.transposes_S100000x128_S128x100000_1_0) (Wc60 m c main_arg5))) (Host.dotGeneral (F := Ideal) (φ₁ := .f32) (φ₂ := .f32) Cert.ReferenceIdeal.dot_S128x100000_S100000x128_S128x128_1_0_0_1_n_n none
        (transpose Cert.ReferenceIdeal.S128x100000 [1, 0] (Wc60 m c main_v0) Cert.ReferenceIdeal.Facts₀.transposes_S100000x128_S128x100000_1_0) (Wc60 m c main_arg5))) := by
  rw [liftK_7 m c main_v32 (by decide), liftK_6 m c main_v0 (by decide), liftK_6 m c main_arg5 (by decide)]
  exact (Wc7_out m c).trans (val4_host (Vc6 m) c)

theorem kq_main_v57 : Wc60 m c main_v57 = maximumf (F := Ideal) (mulf (F := Ideal) (broadcastInDim Cert.ReferenceIdeal.S100000x128 ![] Cert.ReferenceIdeal.Facts₀.bcast_S_S100000x128 (constant (F := Ideal) Cert.ReferenceIdeal.S_ .f32 0x3F000000#32)) (Host.dotGeneral (F := Ideal) (φ₁ := .f32) (φ₂ := .f32) Cert.ReferenceIdeal.dot_S100000x128_S128x128_S100000x128_1_0_0_1_n_n none (Wc60 m c main_v0) (Wc60 m c main_v56))) (Host.dotGeneral (F := Ideal) (φ₁ := .f32) (φ₂ := .f32) Cert.ReferenceIdeal.dot_S100000x128_S128x128_S100000x128_1_0_0_1_n_n none (Wc60 m c main_v0) (Wc60 m c main_v56)) := by
  rw [liftK_9 m c main_v57 (by decide), liftK_8 m c main_v0 (by decide), liftK_8 m c main_v56 (by decide)]
  exact (Wc9_out m c).trans (val5_host (Vc8 m) c)

theorem kq_main_v60 : Wc60 m c main_v60 = (maximumf (F := Ideal) (mulf (F := Ideal) (broadcastInDim Cert.ReferenceIdeal.S128x128 ![] Cert.ReferenceIdeal.Facts₀.bcast_S_S128x128 (constant (F := Ideal) Cert.ReferenceIdeal.S_ .f32 0x3F000000#32)) (Host.dotGeneral (F := Ideal) (φ₁ := .f32) (φ₂ := .f32) Cert.ReferenceIdeal.dot_S128x50000_S50000x128_S128x128_1_0_0_1_n_n none
        (transpose Cert.ReferenceIdeal.S128x50000 [1, 0] (Wc60 m c main_v1) Cert.ReferenceIdeal.Facts₀.transposes_S50000x128_S128x50000_1_0) (Wc60 m c main_arg6))) (Host.dotGeneral (F := Ideal) (φ₁ := .f32) (φ₂ := .f32) Cert.ReferenceIdeal.dot_S128x50000_S50000x128_S128x128_1_0_0_1_n_n none
        (transpose Cert.ReferenceIdeal.S128x50000 [1, 0] (Wc60 m c main_v1) Cert.ReferenceIdeal.Facts₀.transposes_S50000x128_S128x50000_1_0) (Wc60 m c main_arg6))) := by
  rw [liftK_11 m c main_v60 (by decide), liftK_10 m c main_v1 (by decide), liftK_10 m c main_arg6 (by decide)]
  exact (Wc11_out m c).trans (val6_host (Vc10 m) c)

theorem kq_main_v85 : Wc60 m c main_v85 = maximumf (F := Ideal) (mulf (F := Ideal) (broadcastInDim Cert.ReferenceIdeal.S50000x128 ![] Cert.ReferenceIdeal.Facts₀.bcast_S_S50000x128 (constant (F := Ideal) Cert.ReferenceIdeal.S_ .f32 0x3F000000#32)) (Host.dotGeneral (F := Ideal) (φ₁ := .f32) (φ₂ := .f32) Cert.ReferenceIdeal.dot_S50000x128_S128x128_S50000x128_1_0_0_1_n_n none (Wc60 m c main_v1) (Wc60 m c main_v84))) (Host.dotGeneral (F := Ideal) (φ₁ := .f32) (φ₂ := .f32) Cert.ReferenceIdeal.dot_S50000x128_S128x128_S50000x128_1_0_0_1_n_n none (Wc60 m c main_v1) (Wc60 m c main_v84)) := by
  rw [liftK_13 m c main_v85 (by decide), liftK_12 m c main_v1 (by decide), liftK_12 m c main_v84 (by decide)]
  exact (Wc13_out m c).trans (val7_host (Vc12 m) c)

theorem kq_main_v116 : Wc60 m c main_v116 = maximumf (F := Ideal) (mulf (F := Ideal) (broadcastInDim Cert.ReferenceIdeal.S100000x128 ![] Cert.ReferenceIdeal.Facts₀.bcast_S_S100000x128 (constant (F := Ideal) Cert.ReferenceIdeal.S_ .f32 0x3F000000#32)) (Wc60 m c main_v102)) (Wc60 m c main_v102) := by
  rw [liftK_15 m c main_v116 (by decide), liftK_14 m c main_v102 (by decide)]
  exact (Wc15_out m c).trans (val8_host (Vc14 m) c)

theorem kq_main_v117 : Wc60 m c main_v117 = maximumf (F := Ideal) (mulf (F := Ideal) (broadcastInDim Cert.ReferenceIdeal.S50000x128 ![] Cert.ReferenceIdeal.Facts₀.bcast_S_S50000x128 (constant (F := Ideal) Cert.ReferenceIdeal.S_ .f32 0x3F000000#32)) (Wc60 m c main_v115)) (Wc60 m c main_v115) := by
  rw [liftK_16 m c main_v117 (by decide), liftK_15 m c main_v115 (by decide)]
  exact (Wc16_out m c).trans (val9_host (Vc15 m) c)

theorem kq_main_v120 : Wc60 m c main_v120 = (maximumf (F := Ideal) (mulf (F := Ideal) (broadcastInDim Cert.ReferenceIdeal.S128x128 ![] Cert.ReferenceIdeal.Facts₀.bcast_S_S128x128 (constant (F := Ideal) Cert.ReferenceIdeal.S_ .f32 0x3F000000#32)) (Host.dotGeneral (F := Ideal) (φ₁ := .f32) (φ₂ := .f32) Cert.ReferenceIdeal.dot_S128x100000_S100000x128_S128x128_1_0_0_1_n_n none
        (transpose Cert.ReferenceIdeal.S128x100000 [1, 0] (Wc60 m c main_v0) Cert.ReferenceIdeal.Facts₀.transposes_S100000x128_S128x100000_1_0) (Wc60 m c main_v87))) (Host.dotGeneral (F := Ideal) (φ₁ := .f32) (φ₂ := .f32) Cert.ReferenceIdeal.dot_S128x100000_S100000x128_S128x128_1_0_0_1_n_n none
        (transpose Cert.ReferenceIdeal.S128x100000 [1, 0] (Wc60 m c main_v0) Cert.ReferenceIdeal.Facts₀.transposes_S100000x128_S128x100000_1_0) (Wc60 m c main_v87))) := by
  rw [liftK_18 m c main_v120 (by decide), liftK_17 m c main_v0 (by decide), liftK_17 m c main_v87 (by decide)]
  exact (Wc18_out m c).trans (val10_host (Vc17 m) c)

theorem kq_main_v145 : Wc60 m c main_v145 = maximumf (F := Ideal) (mulf (F := Ideal) (broadcastInDim Cert.ReferenceIdeal.S100000x128 ![] Cert.ReferenceIdeal.Facts₀.bcast_S_S100000x128 (constant (F := Ideal) Cert.ReferenceIdeal.S_ .f32 0x3F000000#32)) (Host.dotGeneral (F := Ideal) (φ₁ := .f32) (φ₂ := .f32) Cert.ReferenceIdeal.dot_S100000x128_S128x128_S100000x128_1_0_0_1_n_n none (Wc60 m c main_v0) (Wc60 m c main_v144))) (Host.dotGeneral (F := Ideal) (φ₁ := .f32) (φ₂ := .f32) Cert.ReferenceIdeal.dot_S100000x128_S128x128_S100000x128_1_0_0_1_n_n none (Wc60 m c main_v0) (Wc60 m c main_v144)) := by
  rw [liftK_20 m c main_v145 (by decide), liftK_19 m c main_v0 (by decide), liftK_19 m c main_v144 (by decide)]
  exact (Wc20_out m c).trans (val11_host (Vc19 m) c)

theorem kq_main_v148 : Wc60 m c main_v148 = (maximumf (F := Ideal) (mulf (F := Ideal) (broadcastInDim Cert.ReferenceIdeal.S128x128 ![] Cert.ReferenceIdeal.Facts₀.bcast_S_S128x128 (constant (F := Ideal) Cert.ReferenceIdeal.S_ .f32 0x3F000000#32)) (Host.dotGeneral (F := Ideal) (φ₁ := .f32) (φ₂ := .f32) Cert.ReferenceIdeal.dot_S128x50000_S50000x128_S128x128_1_0_0_1_n_n none
        (transpose Cert.ReferenceIdeal.S128x50000 [1, 0] (Wc60 m c main_v1) Cert.ReferenceIdeal.Facts₀.transposes_S50000x128_S128x50000_1_0) (Wc60 m c main_v89))) (Host.dotGeneral (F := Ideal) (φ₁ := .f32) (φ₂ := .f32) Cert.ReferenceIdeal.dot_S128x50000_S50000x128_S128x128_1_0_0_1_n_n none
        (transpose Cert.ReferenceIdeal.S128x50000 [1, 0] (Wc60 m c main_v1) Cert.ReferenceIdeal.Facts₀.transposes_S50000x128_S128x50000_1_0) (Wc60 m c main_v89))) := by
  rw [liftK_22 m c main_v148 (by decide), liftK_21 m c main_v1 (by decide), liftK_21 m c main_v89 (by decide)]
  exact (Wc22_out m c).trans (val12_host (Vc21 m) c)

theorem kq_main_v173 : Wc60 m c main_v173 = maximumf (F := Ideal) (mulf (F := Ideal) (broadcastInDim Cert.ReferenceIdeal.S50000x128 ![] Cert.ReferenceIdeal.Facts₀.bcast_S_S50000x128 (constant (F := Ideal) Cert.ReferenceIdeal.S_ .f32 0x3F000000#32)) (Host.dotGeneral (F := Ideal) (φ₁ := .f32) (φ₂ := .f32) Cert.ReferenceIdeal.dot_S50000x128_S128x128_S50000x128_1_0_0_1_n_n none (Wc60 m c main_v1) (Wc60 m c main_v172))) (Host.dotGeneral (F := Ideal) (φ₁ := .f32) (φ₂ := .f32) Cert.ReferenceIdeal.dot_S50000x128_S128x128_S50000x128_1_0_0_1_n_n none (Wc60 m c main_v1) (Wc60 m c main_v172)) := by
  rw [liftK_24 m c main_v173 (by decide), liftK_23 m c main_v1 (by decide), liftK_23 m c main_v172 (by decide)]
  exact (Wc24_out m c).trans (val13_host (Vc23 m) c)

theorem kq_main_v230 : Wc60 m c main_v230 = Host.dotGeneral (F := Ideal) (φ₁ := .f32) (φ₂ := .f32) Cert.ReferenceIdeal.dot_S4096x128_S128x128_S4096x128_1_0_0_1_n_n none (Wc60 m c main_v224) (Wc60 m c main_v219) := by
  rw [liftK_33 m c main_v230 (by decide), liftK_32 m c main_v224 (by decide), liftK_32 m c main_v219 (by decide)]
  exact (Wc33_out m c).trans (val14_host (Vc32 m) c)

theorem kq_main_v273 : Wc60 m c main_v273 = Host.dotGeneral (F := Ideal) (φ₁ := .f32) (φ₂ := .f32) Cert.ReferenceIdeal.dot_S4096x128_S128x128_S4096x128_1_0_0_1_n_n none (Wc60 m c main_v267) (Wc60 m c main_v262) := by
  rw [liftK_41 m c main_v273 (by decide), liftK_40 m c main_v267 (by decide), liftK_40 m c main_v262 (by decide)]
  exact (Wc41_out m c).trans (val16_host (Vc40 m) c)

theorem kq_main_v316 : Wc60 m c main_v316 = Host.dotGeneral (F := Ideal) (φ₁ := .f32) (φ₂ := .f32) Cert.ReferenceIdeal.dot_S4096x128_S128x128_S4096x128_1_0_0_1_n_n none (Wc60 m c main_v310) (Wc60 m c main_v305) := by
  rw [liftK_49 m c main_v316 (by decide), liftK_48 m c main_v310 (by decide), liftK_48 m c main_v305 (by decide)]
  exact (Wc49_out m c).trans (val18_host (Vc48 m) c)

theorem kq_main_v359 : Wc60 m c main_v359 = Host.dotGeneral (F := Ideal) (φ₁ := .f32) (φ₂ := .f32) Cert.ReferenceIdeal.dot_S4096x128_S128x128_S4096x128_1_0_0_1_n_n none (Wc60 m c main_v353) (Wc60 m c main_v348) := by
  rw [liftK_57 m c main_v359 (by decide), liftK_56 m c main_v353 (by decide), liftK_56 m c main_v348 (by decide)]
  exact (Wc57_out m c).trans (val20_host (Vc56 m) c)

end Cert.KernelIdeal.Fr

end
-- ==== Proof.KI.Val15.lean ====
import proofs.«126270_j6725918785969_1_alg».proof.Proof.KI.Reg15
import proofs.«126270_j6725918785969_1_alg».proof.Proof.Gen.ReferenceIdeal
import proofs.«126270_j6725918785969_1_alg».proof.Proof.LibBlockSum
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Idealize.ShloMosaic.Lib.Tactic

/-!
# Region 15, read: the result column holds the row sums of `exp (g · hᵀ / 1)`

The accumulator is zeroed at the first grid point; every point adds, row by row, the sum over its block's 256 columns
of `exp (p / 1)`, where `p` is the product of the left factor and the transposed right block — at the extended reals
`p (r, q) = ∑ d, x0 (r, d) · x1 (q, d)`, the changes of format and the casts to the same shape being the identity;
the last point copies the accumulator into the output's buffer, which is written back there only. The right factor's
block at point `t` is rows `256·t …` of its array and the left factor's is its whole array, so after point `n` the
accumulator's row `r` holds the sum over the blocks `0 … n` of the blocks' row sums (by induction on the point),
after the last point the sum over all sixteen, and sixteen blocks of 256 consecutive columns are the 4096 columns.
So the result column's entry `r` is `∑ j, exp ((∑ d, g (r, d) · h (j, d)) / 1)`; the division by the float one is kept
as the same word on both sides where the host's term has it too, and removed (`x / 1 = x`) in the entry-by-entry form.
-/

set_option maxRecDepth 16384

noncomputable section

namespace Cert.KernelIdeal.Fr

open Cert.KernelIdeal Cert.KernelIdeal.Gen
open Idealize.ShloMosaic Idealize.ShloMosaic.TcCoe Idealize.ShloMosaic.ValueIdx Idealize.ShloMosaic.Tactic
open Idealize.ShloMosaic.Pipeline (Dat)

theorem hz15 : (![0, 0] : Fin 2 → Nat) = fun _ => 0 := funext fun a => by fin_cases a <;> rfl

/-! ## What each control case leaves behind, as the payload of its loads -/

section Pieces
variable {F : FTy → Type} [FloatOps F]

/-- The first point leaves in the accumulator the zero block plus the point's row sums. -/
theorem soutA15_eq (c : Dev nD) (i : grid15.Coords) (a1 : Memref sig .tc .vmem S4096x128 .f32) (h1 : a1.IsWhole) (a2 : Memref sig .tc .vmem S256x128 .f32) (h2 : a2.IsWhole) (a3 : Memref sig .tc .vmem S4096x1 .f32) (h3 : a3.IsWhole) (a4 : Memref sig .tc .vmem S4096x1 .f32) (h4 : a4.IsWhole) (hc0 : cond15_0 i) (hc1 : ¬cond15_1 i) (x0 : Vec F S4096x128 .f32) (x1 : Vec F S256x128 .f32) :
    sout15_A_0 c i a1 h1 a2 h2 a3 h3 a4 h4 hc0 hc1 x0 x1 = k15_pay2 x0 x1 k15_pay1 := by
  unfold sout15_A_0
  rw [View.read_writes_eq_canon _ _ _ (scover15_A_0 c i a1 h1 a2 h2 a3 h3 a4 h4 hc0 hc1 x0 x1)]
  unfold kernelRun15_A
  dsimp only
  try sl_unfold_words
  rw [View.canon_cons_unit_zero (S := S4096x1) hz15, View.readCov_unit_zero (S := S4096x1) _ hz15]
  simp only [View.readAt_eq_ld, h1.read_unread, h2.read_unread, View.ld_unit_zero (S := S4096x128) hz15, View.ld_unit_zero (S := S256x128) hz15]

/-- A middle point leaves in the accumulator what it held plus the point's row sums. -/
theorem soutB15_eq (c : Dev nD) (i : grid15.Coords) (a1 : Memref sig .tc .vmem S4096x128 .f32) (h1 : a1.IsWhole) (a2 : Memref sig .tc .vmem S256x128 .f32) (h2 : a2.IsWhole) (a3 : Memref sig .tc .vmem S4096x1 .f32) (h3 : a3.IsWhole) (a4 : Memref sig .tc .vmem S4096x1 .f32) (h4 : a4.IsWhole) (hc0 : ¬cond15_0 i) (hc1 : ¬cond15_1 i) (x0 : Vec F S4096x128 .f32) (x1 : Vec F S256x128 .f32) (xs0 : Vec F S4096x1 .f32) :
    sout15_B_0 c i a1 h1 a2 h2 a3 h3 a4 h4 hc0 hc1 x0 x1 xs0 = k15_pay2 x0 x1 xs0 := by
  unfold sout15_B_0
  rw [View.read_writes_eq_canon _ _ _ (scover15_B_0 c i a1 h1 a2 h2 a3 h3 a4 h4 hc0 hc1 x0 x1 xs0)]
  unfold kernelRun15_B
  dsimp only
  try sl_unfold_words
  rw [View.canon_unit_zero hz15]
  simp only [View.readAt_eq_ld, h1.read_unread, h2.read_unread, h4.read_unread, View.ld_unit_zero (S := S4096x128) hz15, View.ld_unit_zero (S := S256x128) hz15, View.ld_unit_zero (S := S4096x1) hz15]

/-- The last point leaves in the output's buffer the accumulator's final contents: what it held plus the point's row sums. -/
theorem outC15_eq (c : Dev nD) (i : grid15.Coords) (a1 : Memref sig .tc .vmem S4096x128 .f32) (h1 : a1.IsWhole) (a2 : Memref sig .tc .vmem S256x128 .f32) (h2 : a2.IsWhole) (a3 : Memref sig .tc .vmem S4096x1 .f32) (h3 : a3.IsWhole) (a4 : Memref sig .tc .vmem S4096x1 .f32) (h4 : a4.IsWhole) (hc0 : ¬cond15_0 i) (hc1 : cond15_1 i) (x0 : Vec F S4096x128 .f32) (x1 : Vec F S256x128 .f32) (xs0 : Vec F S4096x1 .f32) :
    out15_C_2 c i a1 h1 a2 h2 a3 h3 a4 h4 hc0 hc1 x0 x1 xs0 = k15_pay2 x0 x1 xs0 := by
  unfold out15_C_2
  rw [View.read_writes_eq_canon _ _ _ (cover15_C_2 c i a1 h1 a2 h2 a3 h3 a4 h4 hc0 hc1 x0 x1 xs0)]
  unfold kernelRun15_C
  dsimp only
  try sl_unfold_words
  rw [View.canon_unit_zero hz15, View.readCov_unit_zero (S := S4096x1) _ hz15]
  simp only [View.readAt_eq_ld, h1.read_unread, h2.read_unread, h4.read_unread, View.ld_unit_zero (S := S4096x128) hz15, View.ld_unit_zero (S := S256x128) hz15, View.ld_unit_zero (S := S4096x1) hz15]

end Pieces

/-! ## The payload at an index -/

/-- The left block's index at output index `i` and contraction position `q`: the output's row, -/
theorem lhs15_0 (i : S4096x256.Idx) (q : dot_S4096x128_S256x128_S4096x256_1_1_0_0_n_n.contr.Idx) :
    (dot_S4096x128_S256x128_S4096x256_1_1_0_0_n_n.lhsIdx i q 0).val = (i 0).val := by
  unfold DotDims.lhsIdx
  rw [dif_neg (show ¬(0 : Fin S4096x128.rank) ∈ dot_S4096x128_S256x128_S4096x256_1_1_0_0_n_n.lhsBatch by decide), dif_pos (show (0 : Fin S4096x128.rank) ∈ dot_S4096x128_S256x128_S4096x256_1_1_0_0_n_n.lhsNonContracting by decide)]
  rfl
/-- and the contraction position. -/
theorem lhs15_1 (i : S4096x256.Idx) (q : dot_S4096x128_S256x128_S4096x256_1_1_0_0_n_n.contr.Idx) :
    (dot_S4096x128_S256x128_S4096x256_1_1_0_0_n_n.lhsIdx i q 1).val = (q ⟨0, by decide⟩).val :=
  dot_S4096x128_S256x128_S4096x256_1_1_0_0_n_n.lhsIdx_val_of_single rfl i q
/-- The right block's: the output's column, -/
theorem rhs15_0 (i : S4096x256.Idx) (q : dot_S4096x128_S256x128_S4096x256_1_1_0_0_n_n.contr.Idx) :
    (dot_S4096x128_S256x128_S4096x256_1_1_0_0_n_n.rhsIdx i q 0).val = (i 1).val := by
  unfold DotDims.rhsIdx
  rw [dif_neg (show ¬(0 : Fin S256x128.rank) ∈ dot_S4096x128_S256x128_S4096x256_1_1_0_0_n_n.rhsBatch by decide), dif_pos (show (0 : Fin S256x128.rank) ∈ dot_S4096x128_S256x128_S4096x256_1_1_0_0_n_n.rhsNonContracting by decide)]
  rfl
/-- and the contraction position. -/
theorem rhs15_1 (i : S4096x256.Idx) (q : dot_S4096x128_S256x128_S4096x256_1_1_0_0_n_n.contr.Idx) :
    (dot_S4096x128_S256x128_S4096x256_1_1_0_0_n_n.rhsIdx i q 1).val = (q ⟨0, by decide⟩).val :=
  dot_S4096x128_S256x128_S4096x256_1_1_0_0_n_n.rhsIdx_val_of_single rfl i q

/-- The matrix unit's product of the left block and the transposed right block into the zero accumulator at row `r`,
    column `p`: the sum over the contracted axis of the products of the left block's row `r` and the right block's row `p`. -/
theorem mm15_apply (a : FVec Ideal S4096x128 .bf16) (b : FVec Ideal S256x128 .bf16) (r : Fin 4096) (p : Fin 256) :
    matmul dot_S4096x128_S256x128_S4096x256_1_1_0_0_n_n none a b (constant (F := Ideal) S4096x256 .f32 0x00000000#32) (ix2 r p) = ∑ d : Fin 128, a (ix2 r d) * b (ix2 p d) := by
  refine (Ideal.matmul_constant_zero_apply dot_S4096x128_S256x128_S4096x256_1_1_0_0_n_n none _ _ (ix2 r p)).trans ?_
  rw [← Equiv.sum_comp (contrEquiv1 dot_S4096x128_S256x128_S4096x256_1_1_0_0_n_n 128 rfl rfl).symm]
  refine Finset.sum_congr rfl fun k _ => ?_
  have hk := contrEquiv1_symm_val dot_S4096x128_S256x128_S4096x256_1_1_0_0_n_n 128 rfl rfl k
  have el : dot_S4096x128_S256x128_S4096x256_1_1_0_0_n_n.lhsIdx (ix2 r p) ((contrEquiv1 dot_S4096x128_S256x128_S4096x256_1_1_0_0_n_n 128 rfl rfl).symm k) = ix2 r k := funext fun a => Fin.ext (by
    match a with
    | ⟨0, _⟩ => exact lhs15_0 _ _
    | ⟨1, _⟩ => exact (lhs15_1 _ _).trans hk)
  have er : dot_S4096x128_S256x128_S4096x256_1_1_0_0_n_n.rhsIdx (ix2 r p) ((contrEquiv1 dot_S4096x128_S256x128_S4096x256_1_1_0_0_n_n 128 rfl rfl).symm k) = ix2 p k := funext fun a => Fin.ext (by
    match a with
    | ⟨0, _⟩ => exact rhs15_0 _ _
    | ⟨1, _⟩ => exact (rhs15_1 _ _).trans hk)
  rw [el, er]

/-- The sum over the columns of a [4096,256] block at row `r`. -/
theorem red15_apply (v : FVec Ideal S4096x256 .f32) (r : Fin 4096) :
    multiReduction .add [1] S4096 v 0x00000000#32 Facts₀.reduces_S4096x256_S4096 (.inl rfl) rfl (ix1 r) = ∑ p : Fin 256, v (ix2 r p) :=
  (Ideal.multiReduction_add_single v 0x00000000#32 Facts₀.reduces_S4096x256_S4096 (.inl rfl) rfl (ix1 r)).trans
    (Finset.sum_congr rfl fun p _ => congrArg v (funext fun a => Fin.ext (by
      match a with
      | ⟨0, _⟩ => rfl
      | ⟨1, _⟩ => rfl)))

/-- A vector cast to a one-column matrix reads, at `(i, u)`, the vector at `i`. -/
theorem colCast15_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A one-column matrix cast to a vector reads, at `i`, the matrix at `(i, 0)`. -/
theorem rowCast15_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_one, Shape.rowMajor_val_two]
    show i.val * 1 + 0 = i.val
    rw [Nat.mul_one, Nat.add_zero])

/-- The body's second payload, its casts to the same shape removed. -/
theorem pay15_eq (x0 : Vec Ideal S4096x128 .f32) (x1 : Vec Ideal S256x128 .f32) (acc : Vec Ideal S4096x1 .f32) :
    k15_pay2 x0 x1 acc
      = addf acc (shapeCast S4096x1 (multiReduction .add [1] S4096 (exp (divf (matmul dot_S4096x128_S256x128_S4096x256_1_1_0_0_n_n none (truncf .bf16 x0 Facts₀.bitsLt_bf16_f32) (truncf .bf16 x1 Facts₀.bitsLt_bf16_f32) (constant (F := Ideal) S4096x256 .f32 0x00000000#32)) (broadcast S4096x256 (Scalar.ofBits (F := Ideal) .f32 0x3F800000#32)))) 0x00000000#32 Facts₀.reduces_S4096x256_S4096 (.inl rfl) rfl) Facts₀.shapeCasts_S4096_S4096x1) := by
  unfold k15_pay2
  rw [shapeCast_self, shapeCast_self]
  exact shapeCast_self _ _

/-- The body's second payload at row `r`: what the accumulator held there plus the sum over the block's 256 columns of
    `exp (p / 1)`, `p` the product's entry. -/
theorem pay15_apply (x0 : Vec Ideal S4096x128 .f32) (x1 : Vec Ideal S256x128 .f32) (acc : Vec Ideal S4096x1 .f32) (r : Fin 4096) (u : Fin 1) :
    k15_pay2 x0 x1 acc (ix2 r u)
      = acc (ix2 r u) + ∑ p : Fin 256, Ideal.exp (Ideal.div (∑ d : Fin 128, x0 (ix2 r d) * x1 (ix2 p d)) (Ideal.ofBits .f32 0x3F800000#32)) := by
  rw [pay15_eq]
  exact congrArg (fun z : EReal => acc (ix2 r u) + z) ((colCast15_apply _ _ r u).trans ((red15_apply _ r).trans
    (Finset.sum_congr rfl fun p _ => congrArg (fun z : EReal => Ideal.exp (Ideal.div z (Ideal.ofBits .f32 0x3F800000#32))) (mm15_apply (truncf .bf16 x0 (by decide)) (truncf .bf16 x1 (by decide)) r p))))

/-- The first payload is the zero block. -/
theorem pay15_zero (r : Fin 4096) (u : Fin 1) : k15_pay1 (F := Ideal) (ix2 r u) = 0 := by
  unfold k15_pay1
  rw [shapeCast_self]
  exact Ideal.ofBits_zero_f32

/-! ## The blocks, and the accumulator after each point -/

/-- The printed index maps over the grid: the left factor's and the result's one block, the right factor's block `t` of rows. -/
theorem rows15_facts : ∀ t : Fin cfg15.N, win15_0.index t (0 : Fin 2) = 0 ∧ win15_0.index t (1 : Fin 2) = 0
    ∧ win15_1.index t (0 : Fin 2) = t.val ∧ win15_1.index t (1 : Fin 2) = 0
    ∧ win15_2.index t (0 : Fin 2) = 0 ∧ win15_2.index t (1 : Fin 2) = 0 :=
  (by decide +kernel : ∀ t : Fin grid15.N, _)

/-- Entry `(r, j)` of `exp (A · Bᵀ / 1)`. -/
def ex15 (A B : FVec Ideal S4096x128 .f32) (r j : Fin 4096) : EReal :=
  Ideal.exp (Ideal.div (∑ d : Fin 128, A (ix2 r d) * B (ix2 j d)) (Ideal.ofBits .f32 0x3F800000#32))

/-- Row `r`'s sum over the 256 columns of block `n`. -/
def blk15 (A B : FVec Ideal S4096x128 .f32) (r : Fin 4096) (n : ℕ) (hn : n < 16) : EReal :=
  ∑ p : Fin 256, ex15 A B r ⟨256 * n + p.val, by have := p.isLt; omega⟩

/-- One point: when the left block is `A` and the right block holds rows `256·n …` of `B`, the payload adds block `n`'s
    row sum onto what the accumulator held. -/
theorem pay15_block (A B : FVec Ideal S4096x128 .f32) (x0 : Vec Ideal S4096x128 .f32) (x1 : Vec Ideal S256x128 .f32)
    (acc : Vec Ideal S4096x1 .f32) (n : ℕ) (hn : n < 16) (r : Fin 4096) (u : Fin 1)
    (hx0 : ∀ (r : Fin 4096) (d : Fin 128), x0 (ix2 r d) = A (ix2 r d))
    (hx1 : ∀ (p : Fin 256) (d : Fin 128) (j : Fin 4096), j.val = 256 * n + p.val → x1 (ix2 p d) = B (ix2 j d)) :
    k15_pay2 x0 x1 acc (ix2 r u) = acc (ix2 r u) + blk15 A B r n hn := by
  rw [pay15_apply]
  unfold blk15 ex15
  refine congrArg (fun z : EReal => acc (ix2 r u) + z) (Finset.sum_congr rfl fun p _ => ?_)
  have hS : (∑ d : Fin 128, x0 (ix2 r d) * x1 (ix2 p d))
      = ∑ d : Fin 128, A (ix2 r d) * B (ix2 (⟨256 * n + p.val, by have := p.isLt; omega⟩ : Fin 4096) d) :=
    Finset.sum_congr rfl fun d _ => by rw [hx0 r d, hx1 p d ⟨256 * n + p.val, by have := p.isLt; omega⟩ rfl]
  rw [hS]

variable (V : (c : Dev nD) → (b : Ref sig .tc) → Buf (Elt Ideal) ((c : Thread nD τ).loc b))

/-- The same at a grid point, over the windows' blocks there. -/
theorem point15 (c : Dev nD) (t : Fin cfg15.N) (acc : Vec Ideal S4096x1 .f32) (r : Fin 4096) (u : Fin 1) (ht : t.val < 16) :
    k15_pay2 (iblk15 V c 0 t) (iblk15 V c 1 t) acc (ix2 r u)
      = acc (ix2 r u) + blk15 (V c main_v229) (V c main_v230) r t.val ht := by
  obtain ⟨e0, e1, e2, e3, e4, e5⟩ := rows15_facts t
  refine pay15_block (V c main_v229) (V c main_v230) (iblk15 V c 0 t) (iblk15 V c 1 t) acc t.val ht r u ?_ ?_
  · intro r d
    show V c main_v229 (((cfg15.win 0).blk t).view.emb (ix2 r d)) = V c main_v229 (ix2 r d)
    refine congrArg (V c main_v229) (funext fun a => Fin.ext ?_)
    match a with
    | ⟨0, _⟩ => show win15_0.index t (0 : Fin 2) * 4096 + 1 * r.val = r.val; omega
    | ⟨1, _⟩ => show win15_0.index t (1 : Fin 2) * 128 + 1 * d.val = d.val; omega
  · intro p d j hj
    show V c main_v230 (((cfg15.win 1).blk t).view.emb (ix2 p d)) = V c main_v230 (ix2 j d)
    refine congrArg (V c main_v230) (funext fun a => Fin.ext ?_)
    match a with
    | ⟨0, _⟩ => show win15_1.index t (0 : Fin 2) * 256 + 1 * p.val = j.val; omega
    | ⟨1, _⟩ => show win15_1.index t (1 : Fin 2) * 128 + 1 * d.val = d.val; omega

/-- After point `n`, before the last, the accumulator's row `r` holds the sum of the row sums of blocks `0 … n`: by
    induction on the point. -/
theorem acc15_eq (c : Dev nD) (r : Fin 4096) (u : Fin 1) : ∀ (n : ℕ) (hn : n < cfg15.N) (h15 : n < 15),
    (outsAt15 V c n hn).2 (ix2 r u)
      = ∑ t : Fin (n + 1), blk15 (V c main_v229) (V c main_v230) r t.val (by have := t.isLt; omega)
  | 0, hn, h15 => by
    rw [outsAt15_A V c ⟨0, hn⟩ rfl (by dsimp only; omega)]
    dsimp only
    rw [soutA15_eq]
    refine (point15 V c ⟨0, hn⟩ (k15_pay1 (F := Ideal)) r u (by dsimp only; omega)).trans ?_
    rw [pay15_zero, zero_add, Fin.sum_univ_one]
    rfl
  | n + 1, hn, h15 => by
    have h0 : ¬(⟨n + 1, hn⟩ : Fin cfg15.N).val % 16 = 0 := by dsimp only; omega
    have h1 : ¬(⟨n + 1, hn⟩ : Fin cfg15.N).val % 16 = 15 := by dsimp only; omega
    rw [outsAt15_B V c ⟨n + 1, hn⟩ h0 h1]
    dsimp only
    rw [soutB15_eq]
    refine (point15 V c ⟨n + 1, hn⟩ _ r u (by dsimp only; omega)).trans ?_
    rw [Fin.sum_univ_castSucc]
    refine congrArg₂ (fun a b : EReal => a + b) ?_ rfl
    exact acc15_eq c r u n (Nat.lt_of_succ_lt hn) (by omega)

/-- After the last point the output's buffer holds, in row `r`, the sum over all 4096 columns. -/
theorem out15_last (c : Dev nD) (t : Fin cfg15.N) (ht : t.val % 16 = 15) (r : Fin 4096) (u : Fin 1) :
    (outsAt15 V c t.val t.isLt).1 (ix2 r u) = ∑ j : Fin 4096, ex15 (V c main_v229) (V c main_v230) r j := by
  have hN : cfg15.N = 16 := N_15
  obtain ⟨n, hn⟩ := t
  obtain rfl : n = 15 := by dsimp only at ht; omega
  have h0 : ¬(⟨15, hn⟩ : Fin cfg15.N).val % 16 = 0 := by dsimp only; omega
  rw [outsAt15_C V c ⟨15, hn⟩ h0 ht]
  dsimp only
  rw [outC15_eq]
  refine (point15 V c ⟨15, hn⟩ _ r u (by dsimp only; omega)).trans ?_
  have hacc := acc15_eq V c r u 14 (by omega) (by decide)
  refine Eq.trans ?_ (Cert.Math.sum_fin_mul 16 256 (fun j : Fin 4096 => ex15 (V c main_v229) (V c main_v230) r j)).symm
  rw [Fin.sum_univ_castSucc]
  refine congrArg₂ (fun a b : EReal => a + b) ?_ rfl
  exact hacc

/-! ## From the last point to the array -/

/-- What the result column ends holding: in row `r` the sum over the 4096 columns `j` of `exp ((A · Bᵀ) (r, j) / 1)`. -/
def col15 (A B : FVec Ideal S4096x128 .f32) : FVec Ideal S4096x1 .f32 :=
  fun i => ∑ j : Fin 4096, ex15 A B ⟨(i 0).val, idx2_lt0 i⟩ j

/-- A buffer that holds those sums row by row is `col15`, read at an index with the same row. -/
theorem col15_of (A B : FVec Ideal S4096x128 .f32) (o : Vec Ideal S4096x1 .f32) (y i : S4096x1.Idx)
    (ho : ∀ (r : Fin 4096) (u : Fin 1), o (ix2 r u) = ∑ j : Fin 4096, ex15 A B r j) (hi : (i 0).val = (y 0).val) :
    o y = col15 A B i := by
  obtain ⟨r, u, rfl⟩ : ∃ (r : Fin 4096) (u : Fin 1), y = ix2 r u := ⟨y 0, y 1, eq_ix2 y⟩
  rw [ho]
  unfold col15
  have e : (⟨(i 0).val, idx2_lt0 i⟩ : Fin 4096) = r := Fin.ext hi
  rw [e]

/-- The one write-back, at the last point, writes `col15` of the two arrays as the region finds them. -/
theorem flushed15_eq (c : Dev nD) (t : Fin cfg15.N) (hf : (cfg15.win 2).flush t = true) :
    (dat15 (F := Ideal) V c).flushed 2 t
      = ((cfg15.win 2).blk t).view.read (Elt Ideal) (col15 (V c main_v229) (V c main_v230)) := by
  have ht : t.val % 16 = 15 := (flush15_2 t).mp hf
  obtain ⟨e0, e1, e2, e3, e4, e5⟩ := rows15_facts t
  show (cfg15.win 2).cut (grid15.coords t) ((dat15 V c).after 2 t) = _
  rw [after15_2]
  funext j
  show (outsAt15 V c t.val t.isLt).1 j = col15 (V c main_v229) (V c main_v230) (((cfg15.win 2).blk t).view.emb j)
  refine col15_of (V c main_v229) (V c main_v230) (outsAt15 V c t.val t.isLt).1 j (((cfg15.win 2).blk t).view.emb j) (fun r u => out15_last V c t ht r u) ?_
  show win15_2.index t (0 : Fin 2) * 4096 + 1 * (j 0).val = (j 0).val
  omega

/-- An index of the result column is in point `t`'s block iff each coordinate is in the block's range on its axis. -/
theorem mem_rows15 (t : Fin cfg15.N) (i : S4096x1.Idx) :
    i ∈ ((cfg15.win 2).blk t).view.set ↔ ∀ a : Fin 2, win15_2.index t a * S4096x1.size a ≤ (i a).val ∧ (i a).val < win15_2.index t a * S4096x1.size a + S4096x1.size a := by
  show i ∈ ((View.whole main_v236).slice (win15_2.rect t)).set ↔ _
  rw [View.set_slice_whole, Rect.mem_set_unit]
  exact Iff.rfl

/-- The last point's block is the whole column. -/
theorem rows15_cover (i : S4096x1.Idx) :
    ∃ t : Fin cfg15.N, (cfg15.win 2).flush t = true ∧ i ∈ ((cfg15.win 2).blk t).view.set := by
  have hi0 : (i 0).val < 4096 := idx2_lt0 i
  have hi1 : (i 1).val < 1 := idx2_lt1 i
  have hN : grid15.N = 16 := N_15
  have ht : 15 < grid15.N := by rw [hN]; omega
  obtain ⟨e0, e1, e2, e3, e4, e5⟩ := rows15_facts ⟨15, ht⟩
  refine ⟨⟨15, ht⟩, (flush15_2 ⟨15, ht⟩).mpr rfl, ?_⟩
  rw [mem_rows15]
  intro a
  match a with
  | ⟨0, _⟩ => show win15_2.index ⟨15, ht⟩ (0 : Fin 2) * 4096 ≤ (i 0).val ∧ (i 0).val < win15_2.index ⟨15, ht⟩ (0 : Fin 2) * 4096 + 4096; omega
  | ⟨1, _⟩ => show win15_2.index ⟨15, ht⟩ (1 : Fin 2) * 1 ≤ (i 1).val ∧ (i 1).val < win15_2.index ⟨15, ht⟩ (1 : Fin 2) * 1 + 1; omega

/-- The result column after the region: the row sums of `exp (g · hᵀ / 1)` of the two input arrays as the region finds them. -/
theorem val15 (c : Dev nD) :
    (dat15 (F := Ideal) V c).arrAt 2 cfg15.N = col15 (V c main_v229) (V c main_v230) :=
  (dat15 (F := Ideal) V c).arrAt_eq_of_cover 2 (col15 (V c main_v229) (V c main_v230)) (fun t hf => flushed15_eq V c t hf) rows15_cover

/-- Division by the float one is the identity on the extended reals. -/
theorem div_one15 (x : EReal) : Ideal.div x (Ideal.ofBits .f32 0x3F800000#32) = x := by
  rw [Ideal.ofBits_one_f32]
  unfold Ideal.div
  rw [if_neg one_ne_zero, inv_one, mul_one]

/-- Entry by entry, with the division by one removed (`A`, `B`: the two input arrays as the region finds them). -/
theorem val15_apply (c : Dev nD) (A B : FVec Ideal S4096x128 .f32) (hA : V c main_v229 = A) (hB : V c main_v230 = B)
    (r : Fin 4096) (u : Fin 1) :
    (dat15 (F := Ideal) V c).arrAt 2 cfg15.N (ix2 r u)
      = ∑ j : Fin 4096, Ideal.exp (∑ d : Fin 128, A (ix2 r d) * B (ix2 j d)) := by
  rw [val15, hA, hB]
  show ∑ j : Fin 4096, ex15 A B r j = _
  exact Finset.sum_congr rfl fun j _ => congrArg Ideal.exp (div_one15 _)

/-! ## The host's form -/

/-- The left array's index at output index `i` and contraction position `q`: the output's row, -/
theorem hlhs15_0 (i : Cert.ReferenceIdeal.S4096x4096.Idx) (q : Cert.ReferenceIdeal.dot_S4096x128_S128x4096_S4096x4096_1_0_0_1_n_n.contr.Idx) :
    (Cert.ReferenceIdeal.dot_S4096x128_S128x4096_S4096x4096_1_0_0_1_n_n.lhsIdx i q 0).val = (i 0).val := by
  unfold DotDims.lhsIdx
  rw [dif_neg (show ¬(0 : Fin Cert.ReferenceIdeal.S4096x128.rank) ∈ Cert.ReferenceIdeal.dot_S4096x128_S128x4096_S4096x4096_1_0_0_1_n_n.lhsBatch by decide), dif_pos (show (0 : Fin Cert.ReferenceIdeal.S4096x128.rank) ∈ Cert.ReferenceIdeal.dot_S4096x128_S128x4096_S4096x4096_1_0_0_1_n_n.lhsNonContracting by decide)]
  rfl
/-- and the contraction position. -/
theorem hlhs15_1 (i : Cert.ReferenceIdeal.S4096x4096.Idx) (q : Cert.ReferenceIdeal.dot_S4096x128_S128x4096_S4096x4096_1_0_0_1_n_n.contr.Idx) :
    (Cert.ReferenceIdeal.dot_S4096x128_S128x4096_S4096x4096_1_0_0_1_n_n.lhsIdx i q 1).val = (q ⟨0, by decide⟩).val :=
  Cert.ReferenceIdeal.dot_S4096x128_S128x4096_S4096x4096_1_0_0_1_n_n.lhsIdx_val_of_single rfl i q
/-- The right array's: the contraction position, -/
theorem hrhs15_0 (i : Cert.ReferenceIdeal.S4096x4096.Idx) (q : Cert.ReferenceIdeal.dot_S4096x128_S128x4096_S4096x4096_1_0_0_1_n_n.contr.Idx) :
    (Cert.ReferenceIdeal.dot_S4096x128_S128x4096_S4096x4096_1_0_0_1_n_n.rhsIdx i q 0).val = (q ⟨0, by decide⟩).val :=
  Cert.ReferenceIdeal.dot_S4096x128_S128x4096_S4096x4096_1_0_0_1_n_n.rhsIdx_val_of_single rfl i q
/-- and the output's column. -/
theorem hrhs15_1 (i : Cert.ReferenceIdeal.S4096x4096.Idx) (q : Cert.ReferenceIdeal.dot_S4096x128_S128x4096_S4096x4096_1_0_0_1_n_n.contr.Idx) :
    (Cert.ReferenceIdeal.dot_S4096x128_S128x4096_S4096x4096_1_0_0_1_n_n.rhsIdx i q 1).val = (i 1).val := by
  unfold DotDims.rhsIdx
  rw [dif_neg (show ¬(1 : Fin Cert.ReferenceIdeal.S128x4096.rank) ∈ Cert.ReferenceIdeal.dot_S4096x128_S128x4096_S4096x4096_1_0_0_1_n_n.rhsBatch by decide), dif_pos (show (1 : Fin Cert.ReferenceIdeal.S128x4096.rank) ∈ Cert.ReferenceIdeal.dot_S4096x128_S128x4096_S4096x4096_1_0_0_1_n_n.rhsNonContracting by decide)]
  rfl

/-- The host's product of a [4096,128] array and a [128,4096] array at an index in row `r`, column `s`: the sum over the
    contracted axis. -/
theorem hostmm15_apply (a : FVec Ideal S4096x128 .f32) (b : FVec Ideal Cert.ReferenceIdeal.S128x4096 .f32) (i : Cert.ReferenceIdeal.S4096x4096.Idx)
    (r s : Fin 4096) (hi0 : (i 0).val = r.val) (hi1 : (i 1).val = s.val) :
    Host.dotGeneral (F := Ideal) Cert.ReferenceIdeal.dot_S4096x128_S128x4096_S4096x4096_1_0_0_1_n_n none a b i = ∑ d : Fin 128, a (ix2 r d) * b (ix2 d s) := by
  simp only [Host.dotGeneral]
  rw [Ideal.dotGeneral_apply, ← Equiv.sum_comp (contrEquiv1 Cert.ReferenceIdeal.dot_S4096x128_S128x4096_S4096x4096_1_0_0_1_n_n 128 rfl rfl).symm]
  refine Finset.sum_congr rfl fun k _ => ?_
  have hk := contrEquiv1_symm_val Cert.ReferenceIdeal.dot_S4096x128_S128x4096_S4096x4096_1_0_0_1_n_n 128 rfl rfl k
  have el : Cert.ReferenceIdeal.dot_S4096x128_S128x4096_S4096x4096_1_0_0_1_n_n.lhsIdx i ((contrEquiv1 Cert.ReferenceIdeal.dot_S4096x128_S128x4096_S4096x4096_1_0_0_1_n_n 128 rfl rfl).symm k) = ix2 r k := funext fun a => Fin.ext (by
    match a with
    | ⟨0, _⟩ => exact (hlhs15_0 _ _).trans hi0
    | ⟨1, _⟩ => exact (hlhs15_1 _ _).trans hk)
  have er : Cert.ReferenceIdeal.dot_S4096x128_S128x4096_S4096x4096_1_0_0_1_n_n.rhsIdx i ((contrEquiv1 Cert.ReferenceIdeal.dot_S4096x128_S128x4096_S4096x4096_1_0_0_1_n_n 128 rfl rfl).symm k) = ix2 k s := funext fun a => Fin.ext (by
    match a with
    | ⟨0, _⟩ => exact (hrhs15_0 _ _).trans hk
    | ⟨1, _⟩ => exact (hrhs15_1 _ _).trans hi1)
  rw [el, er]

/-- The host's term — the product with the transposed right array, divided by the float one entry by entry, its
    exponential, summed over the columns from zero — at row `r`. -/
theorem host15_apply (g h : FVec Ideal S4096x128 .f32) (r : Fin 4096) :
    (Host.reduceAdd (F := Ideal) (Host.exp (Host.divf (Host.dotGeneral (F := Ideal) (φ₁ := .f32) (φ₂ := .f32) Cert.ReferenceIdeal.dot_S4096x128_S128x4096_S4096x4096_1_0_0_1_n_n none g (transpose Cert.ReferenceIdeal.S128x4096 [1, 0] h Cert.ReferenceIdeal.Facts₀.transposes_S4096x128_S128x4096_1_0)) (broadcastInDim Cert.ReferenceIdeal.S4096x4096 ![] Cert.ReferenceIdeal.Facts₀.bcast_S_S4096x4096 (constant (F := Ideal) Cert.ReferenceIdeal.S_ .f32 0x3F800000#32)))) (constant (F := Ideal) Cert.ReferenceIdeal.S_ .f32 0x00000000#32) Cert.ReferenceIdeal.Facts₀.reducesTo_S4096x4096_S4096_d1 Cert.ReferenceIdeal.Facts₀.h_S_) (ix1 r) = ∑ j : Fin 4096, ex15 g h r j := by
  have hR : Cert.ReferenceIdeal.S4096x4096.Reduces [1] Cert.ReferenceIdeal.S4096 := by decide
  refine (hostReduceAdd_apply _ _ _ _ (ix1 r)).trans ((Ideal.hostReduceAdd_single Cert.ReferenceIdeal.Facts₀.reducesTo_S4096x4096_S4096_d1 hR _ _ (ix1 r)).trans ?_)
  show Ideal.ofBits .f32 0x00000000#32 + ∑ k : Fin 4096, _ = _
  rw [Ideal.ofBits_zero_f32, zero_add]
  refine Finset.sum_congr rfl fun k _ => ?_
  have hm := hostmm15_apply g (transpose Cert.ReferenceIdeal.S128x4096 [1, 0] h Cert.ReferenceIdeal.Facts₀.transposes_S4096x128_S128x4096_1_0) (hR.lift (ix1 r) k) r k rfl rfl
  refine (congrArg (fun z : EReal => Ideal.exp (Ideal.div z (Ideal.ofBits .f32 0x3F800000#32))) hm).trans ?_
  unfold ex15
  refine congrArg (fun z : EReal => Ideal.exp (Ideal.div z (Ideal.ofBits .f32 0x3F800000#32))) (Finset.sum_congr rfl fun d _ => ?_)
  rw [transpose_ix2_apply]

/-- The result column cast to a vector is the host's term of the two input arrays as the region finds them. -/
theorem val15_host (c : Dev nD) (hc : S4096x1.ShapeCasts S4096) :
    shapeCast S4096 ((dat15 (F := Ideal) V c).arrAt 2 cfg15.N) hc
      = Host.reduceAdd (F := Ideal) (Host.exp (Host.divf (Host.dotGeneral (F := Ideal) (φ₁ := .f32) (φ₂ := .f32) Cert.ReferenceIdeal.dot_S4096x128_S128x4096_S4096x4096_1_0_0_1_n_n none (V c main_v229) (transpose Cert.ReferenceIdeal.S128x4096 [1, 0] (V c main_v230) Cert.ReferenceIdeal.Facts₀.transposes_S4096x128_S128x4096_1_0)) (broadcastInDim Cert.ReferenceIdeal.S4096x4096 ![] Cert.ReferenceIdeal.Facts₀.bcast_S_S4096x4096 (constant (F := Ideal) Cert.ReferenceIdeal.S_ .f32 0x3F800000#32)))) (constant (F := Ideal) Cert.ReferenceIdeal.S_ .f32 0x00000000#32) Cert.ReferenceIdeal.Facts₀.reducesTo_S4096x4096_S4096_d1 Cert.ReferenceIdeal.Facts₀.h_S_ := by
  funext i
  obtain ⟨r, rfl⟩ : ∃ r : Fin 4096, i = ix1 r := ⟨i 0, eq_ix1 i⟩
  rw [host15_apply]
  refine (rowCast15_apply _ hc r).trans ?_
  rw [val15]
  rfl

end Cert.KernelIdeal.Fr

end
-- ==== Proof.KI.Val17.lean ====
import proofs.«126270_j6725918785969_1_alg».proof.Proof.KI.Reg17
import proofs.«126270_j6725918785969_1_alg».proof.Proof.Gen.ReferenceIdeal
import proofs.«126270_j6725918785969_1_alg».proof.Proof.LibBlockSum
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Idealize.ShloMosaic.Lib.Tactic

/-!
# Region 17, read: the result column holds the row sums of `exp (g · hᵀ / 1)`

The accumulator is zeroed at the first grid point; every point adds, row by row, the sum over its block's 256 columns
of `exp (p / 1)`, where `p` is the product of the left factor and the transposed right block — at the extended reals
`p (r, q) = ∑ d, x0 (r, d) · x1 (q, d)`, the changes of format and the casts to the same shape being the identity;
the last point copies the accumulator into the output's buffer, which is written back there only. The right factor's
block at point `t` is rows `256·t …` of its array and the left factor's is its whole array, so after point `n` the
accumulator's row `r` holds the sum over the blocks `0 … n` of the blocks' row sums (by induction on the point),
after the last point the sum over all sixteen, and sixteen blocks of 256 consecutive columns are the 4096 columns.
So the result column's entry `r` is `∑ j, exp ((∑ d, g (r, d) · h (j, d)) / 1)`; the division by the float one is kept
as the same word on both sides where the host's term has it too, and removed (`x / 1 = x`) in the entry-by-entry form.
-/

set_option maxRecDepth 16384

noncomputable section

namespace Cert.KernelIdeal.Fr

open Cert.KernelIdeal Cert.KernelIdeal.Gen
open Idealize.ShloMosaic Idealize.ShloMosaic.TcCoe Idealize.ShloMosaic.ValueIdx Idealize.ShloMosaic.Tactic
open Idealize.ShloMosaic.Pipeline (Dat)

theorem hz17 : (![0, 0] : Fin 2 → Nat) = fun _ => 0 := funext fun a => by fin_cases a <;> rfl

/-! ## What each control case leaves behind, as the payload of its loads -/

section Pieces
variable {F : FTy → Type} [FloatOps F]

/-- The first point leaves in the accumulator the zero block plus the point's row sums. -/
theorem soutA17_eq (c : Dev nD) (i : grid17.Coords) (a1 : Memref sig .tc .vmem S4096x128 .f32) (h1 : a1.IsWhole) (a2 : Memref sig .tc .vmem S256x128 .f32) (h2 : a2.IsWhole) (a3 : Memref sig .tc .vmem S4096x1 .f32) (h3 : a3.IsWhole) (a4 : Memref sig .tc .vmem S4096x1 .f32) (h4 : a4.IsWhole) (hc0 : cond17_0 i) (hc1 : ¬cond17_1 i) (x0 : Vec F S4096x128 .f32) (x1 : Vec F S256x128 .f32) :
    sout17_A_0 c i a1 h1 a2 h2 a3 h3 a4 h4 hc0 hc1 x0 x1 = k17_pay2 x0 x1 k17_pay1 := by
  unfold sout17_A_0
  rw [View.read_writes_eq_canon _ _ _ (scover17_A_0 c i a1 h1 a2 h2 a3 h3 a4 h4 hc0 hc1 x0 x1)]
  unfold kernelRun17_A
  dsimp only
  try sl_unfold_words
  rw [View.canon_cons_unit_zero (S := S4096x1) hz17, View.readCov_unit_zero (S := S4096x1) _ hz17]
  simp only [View.readAt_eq_ld, h1.read_unread, h2.read_unread, View.ld_unit_zero (S := S4096x128) hz17, View.ld_unit_zero (S := S256x128) hz17]

/-- A middle point leaves in the accumulator what it held plus the point's row sums. -/
theorem soutB17_eq (c : Dev nD) (i : grid17.Coords) (a1 : Memref sig .tc .vmem S4096x128 .f32) (h1 : a1.IsWhole) (a2 : Memref sig .tc .vmem S256x128 .f32) (h2 : a2.IsWhole) (a3 : Memref sig .tc .vmem S4096x1 .f32) (h3 : a3.IsWhole) (a4 : Memref sig .tc .vmem S4096x1 .f32) (h4 : a4.IsWhole) (hc0 : ¬cond17_0 i) (hc1 : ¬cond17_1 i) (x0 : Vec F S4096x128 .f32) (x1 : Vec F S256x128 .f32) (xs0 : Vec F S4096x1 .f32) :
    sout17_B_0 c i a1 h1 a2 h2 a3 h3 a4 h4 hc0 hc1 x0 x1 xs0 = k17_pay2 x0 x1 xs0 := by
  unfold sout17_B_0
  rw [View.read_writes_eq_canon _ _ _ (scover17_B_0 c i a1 h1 a2 h2 a3 h3 a4 h4 hc0 hc1 x0 x1 xs0)]
  unfold kernelRun17_B
  dsimp only
  try sl_unfold_words
  rw [View.canon_unit_zero hz17]
  simp only [View.readAt_eq_ld, h1.read_unread, h2.read_unread, h4.read_unread, View.ld_unit_zero (S := S4096x128) hz17, View.ld_unit_zero (S := S256x128) hz17, View.ld_unit_zero (S := S4096x1) hz17]

/-- The last point leaves in the output's buffer the accumulator's final contents: what it held plus the point's row sums. -/
theorem outC17_eq (c : Dev nD) (i : grid17.Coords) (a1 : Memref sig .tc .vmem S4096x128 .f32) (h1 : a1.IsWhole) (a2 : Memref sig .tc .vmem S256x128 .f32) (h2 : a2.IsWhole) (a3 : Memref sig .tc .vmem S4096x1 .f32) (h3 : a3.IsWhole) (a4 : Memref sig .tc .vmem S4096x1 .f32) (h4 : a4.IsWhole) (hc0 : ¬cond17_0 i) (hc1 : cond17_1 i) (x0 : Vec F S4096x128 .f32) (x1 : Vec F S256x128 .f32) (xs0 : Vec F S4096x1 .f32) :
    out17_C_2 c i a1 h1 a2 h2 a3 h3 a4 h4 hc0 hc1 x0 x1 xs0 = k17_pay2 x0 x1 xs0 := by
  unfold out17_C_2
  rw [View.read_writes_eq_canon _ _ _ (cover17_C_2 c i a1 h1 a2 h2 a3 h3 a4 h4 hc0 hc1 x0 x1 xs0)]
  unfold kernelRun17_C
  dsimp only
  try sl_unfold_words
  rw [View.canon_unit_zero hz17, View.readCov_unit_zero (S := S4096x1) _ hz17]
  simp only [View.readAt_eq_ld, h1.read_unread, h2.read_unread, h4.read_unread, View.ld_unit_zero (S := S4096x128) hz17, View.ld_unit_zero (S := S256x128) hz17, View.ld_unit_zero (S := S4096x1) hz17]

end Pieces

/-! ## The payload at an index -/

/-- The left block's index at output index `i` and contraction position `q`: the output's row, -/
theorem lhs17_0 (i : S4096x256.Idx) (q : dot_S4096x128_S256x128_S4096x256_1_1_0_0_n_n.contr.Idx) :
    (dot_S4096x128_S256x128_S4096x256_1_1_0_0_n_n.lhsIdx i q 0).val = (i 0).val := by
  unfold DotDims.lhsIdx
  rw [dif_neg (show ¬(0 : Fin S4096x128.rank) ∈ dot_S4096x128_S256x128_S4096x256_1_1_0_0_n_n.lhsBatch by decide), dif_pos (show (0 : Fin S4096x128.rank) ∈ dot_S4096x128_S256x128_S4096x256_1_1_0_0_n_n.lhsNonContracting by decide)]
  rfl
/-- and the contraction position. -/
theorem lhs17_1 (i : S4096x256.Idx) (q : dot_S4096x128_S256x128_S4096x256_1_1_0_0_n_n.contr.Idx) :
    (dot_S4096x128_S256x128_S4096x256_1_1_0_0_n_n.lhsIdx i q 1).val = (q ⟨0, by decide⟩).val :=
  dot_S4096x128_S256x128_S4096x256_1_1_0_0_n_n.lhsIdx_val_of_single rfl i q
/-- The right block's: the output's column, -/
theorem rhs17_0 (i : S4096x256.Idx) (q : dot_S4096x128_S256x128_S4096x256_1_1_0_0_n_n.contr.Idx) :
    (dot_S4096x128_S256x128_S4096x256_1_1_0_0_n_n.rhsIdx i q 0).val = (i 1).val := by
  unfold DotDims.rhsIdx
  rw [dif_neg (show ¬(0 : Fin S256x128.rank) ∈ dot_S4096x128_S256x128_S4096x256_1_1_0_0_n_n.rhsBatch by decide), dif_pos (show (0 : Fin S256x128.rank) ∈ dot_S4096x128_S256x128_S4096x256_1_1_0_0_n_n.rhsNonContracting by decide)]
  rfl
/-- and the contraction position. -/
theorem rhs17_1 (i : S4096x256.Idx) (q : dot_S4096x128_S256x128_S4096x256_1_1_0_0_n_n.contr.Idx) :
    (dot_S4096x128_S256x128_S4096x256_1_1_0_0_n_n.rhsIdx i q 1).val = (q ⟨0, by decide⟩).val :=
  dot_S4096x128_S256x128_S4096x256_1_1_0_0_n_n.rhsIdx_val_of_single rfl i q

/-- The matrix unit's product of the left block and the transposed right block into the zero accumulator at row `r`,
    column `p`: the sum over the contracted axis of the products of the left block's row `r` and the right block's row `p`. -/
theorem mm17_apply (a : FVec Ideal S4096x128 .bf16) (b : FVec Ideal S256x128 .bf16) (r : Fin 4096) (p : Fin 256) :
    matmul dot_S4096x128_S256x128_S4096x256_1_1_0_0_n_n none a b (constant (F := Ideal) S4096x256 .f32 0x00000000#32) (ix2 r p) = ∑ d : Fin 128, a (ix2 r d) * b (ix2 p d) := by
  refine (Ideal.matmul_constant_zero_apply dot_S4096x128_S256x128_S4096x256_1_1_0_0_n_n none _ _ (ix2 r p)).trans ?_
  rw [← Equiv.sum_comp (contrEquiv1 dot_S4096x128_S256x128_S4096x256_1_1_0_0_n_n 128 rfl rfl).symm]
  refine Finset.sum_congr rfl fun k _ => ?_
  have hk := contrEquiv1_symm_val dot_S4096x128_S256x128_S4096x256_1_1_0_0_n_n 128 rfl rfl k
  have el : dot_S4096x128_S256x128_S4096x256_1_1_0_0_n_n.lhsIdx (ix2 r p) ((contrEquiv1 dot_S4096x128_S256x128_S4096x256_1_1_0_0_n_n 128 rfl rfl).symm k) = ix2 r k := funext fun a => Fin.ext (by
    match a with
    | ⟨0, _⟩ => exact lhs17_0 _ _
    | ⟨1, _⟩ => exact (lhs17_1 _ _).trans hk)
  have er : dot_S4096x128_S256x128_S4096x256_1_1_0_0_n_n.rhsIdx (ix2 r p) ((contrEquiv1 dot_S4096x128_S256x128_S4096x256_1_1_0_0_n_n 128 rfl rfl).symm k) = ix2 p k := funext fun a => Fin.ext (by
    match a with
    | ⟨0, _⟩ => exact rhs17_0 _ _
    | ⟨1, _⟩ => exact (rhs17_1 _ _).trans hk)
  rw [el, er]

/-- The sum over the columns of a [4096,256] block at row `r`. -/
theorem red17_apply (v : FVec Ideal S4096x256 .f32) (r : Fin 4096) :
    multiReduction .add [1] S4096 v 0x00000000#32 Facts₀.reduces_S4096x256_S4096 (.inl rfl) rfl (ix1 r) = ∑ p : Fin 256, v (ix2 r p) :=
  (Ideal.multiReduction_add_single v 0x00000000#32 Facts₀.reduces_S4096x256_S4096 (.inl rfl) rfl (ix1 r)).trans
    (Finset.sum_congr rfl fun p _ => congrArg v (funext fun a => Fin.ext (by
      match a with
      | ⟨0, _⟩ => rfl
      | ⟨1, _⟩ => rfl)))

/-- A vector cast to a one-column matrix reads, at `(i, u)`, the vector at `i`. -/
theorem colCast17_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A one-column matrix cast to a vector reads, at `i`, the matrix at `(i, 0)`. -/
theorem rowCast17_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_one, Shape.rowMajor_val_two]
    show i.val * 1 + 0 = i.val
    rw [Nat.mul_one, Nat.add_zero])

/-- The body's second payload, its casts to the same shape removed. -/
theorem pay17_eq (x0 : Vec Ideal S4096x128 .f32) (x1 : Vec Ideal S256x128 .f32) (acc : Vec Ideal S4096x1 .f32) :
    k17_pay2 x0 x1 acc
      = addf acc (shapeCast S4096x1 (multiReduction .add [1] S4096 (exp (divf (matmul dot_S4096x128_S256x128_S4096x256_1_1_0_0_n_n none (truncf .bf16 x0 Facts₀.bitsLt_bf16_f32) (truncf .bf16 x1 Facts₀.bitsLt_bf16_f32) (constant (F := Ideal) S4096x256 .f32 0x00000000#32)) (broadcast S4096x256 (Scalar.ofBits (F := Ideal) .f32 0x3F800000#32)))) 0x00000000#32 Facts₀.reduces_S4096x256_S4096 (.inl rfl) rfl) Facts₀.shapeCasts_S4096_S4096x1) := by
  unfold k17_pay2
  rw [shapeCast_self, shapeCast_self]
  exact shapeCast_self _ _

/-- The body's second payload at row `r`: what the accumulator held there plus the sum over the block's 256 columns of
    `exp (p / 1)`, `p` the product's entry. -/
theorem pay17_apply (x0 : Vec Ideal S4096x128 .f32) (x1 : Vec Ideal S256x128 .f32) (acc : Vec Ideal S4096x1 .f32) (r : Fin 4096) (u : Fin 1) :
    k17_pay2 x0 x1 acc (ix2 r u)
      = acc (ix2 r u) + ∑ p : Fin 256, Ideal.exp (Ideal.div (∑ d : Fin 128, x0 (ix2 r d) * x1 (ix2 p d)) (Ideal.ofBits .f32 0x3F800000#32)) := by
  rw [pay17_eq]
  exact congrArg (fun z : EReal => acc (ix2 r u) + z) ((colCast17_apply _ _ r u).trans ((red17_apply _ r).trans
    (Finset.sum_congr rfl fun p _ => congrArg (fun z : EReal => Ideal.exp (Ideal.div z (Ideal.ofBits .f32 0x3F800000#32))) (mm17_apply (truncf .bf16 x0 (by decide)) (truncf .bf16 x1 (by decide)) r p))))

/-- The first payload is the zero block. -/
theorem pay17_zero (r : Fin 4096) (u : Fin 1) : k17_pay1 (F := Ideal) (ix2 r u) = 0 := by
  unfold k17_pay1
  rw [shapeCast_self]
  exact Ideal.ofBits_zero_f32

/-! ## The blocks, and the accumulator after each point -/

/-- The printed index maps over the grid: the left factor's and the result's one block, the right factor's block `t` of rows. -/
theorem rows17_facts : ∀ t : Fin cfg17.N, win17_0.index t (0 : Fin 2) = 0 ∧ win17_0.index t (1 : Fin 2) = 0
    ∧ win17_1.index t (0 : Fin 2) = t.val ∧ win17_1.index t (1 : Fin 2) = 0
    ∧ win17_2.index t (0 : Fin 2) = 0 ∧ win17_2.index t (1 : Fin 2) = 0 :=
  (by decide +kernel : ∀ t : Fin grid17.N, _)

/-- Entry `(r, j)` of `exp (A · Bᵀ / 1)`. -/
def ex17 (A B : FVec Ideal S4096x128 .f32) (r j : Fin 4096) : EReal :=
  Ideal.exp (Ideal.div (∑ d : Fin 128, A (ix2 r d) * B (ix2 j d)) (Ideal.ofBits .f32 0x3F800000#32))

/-- Row `r`'s sum over the 256 columns of block `n`. -/
def blk17 (A B : FVec Ideal S4096x128 .f32) (r : Fin 4096) (n : ℕ) (hn : n < 16) : EReal :=
  ∑ p : Fin 256, ex17 A B r ⟨256 * n + p.val, by have := p.isLt; omega⟩

/-- One point: when the left block is `A` and the right block holds rows `256·n …` of `B`, the payload adds block `n`'s
    row sum onto what the accumulator held. -/
theorem pay17_block (A B : FVec Ideal S4096x128 .f32) (x0 : Vec Ideal S4096x128 .f32) (x1 : Vec Ideal S256x128 .f32)
    (acc : Vec Ideal S4096x1 .f32) (n : ℕ) (hn : n < 16) (r : Fin 4096) (u : Fin 1)
    (hx0 : ∀ (r : Fin 4096) (d : Fin 128), x0 (ix2 r d) = A (ix2 r d))
    (hx1 : ∀ (p : Fin 256) (d : Fin 128) (j : Fin 4096), j.val = 256 * n + p.val → x1 (ix2 p d) = B (ix2 j d)) :
    k17_pay2 x0 x1 acc (ix2 r u) = acc (ix2 r u) + blk17 A B r n hn := by
  rw [pay17_apply]
  unfold blk17 ex17
  refine congrArg (fun z : EReal => acc (ix2 r u) + z) (Finset.sum_congr rfl fun p _ => ?_)
  have hS : (∑ d : Fin 128, x0 (ix2 r d) * x1 (ix2 p d))
      = ∑ d : Fin 128, A (ix2 r d) * B (ix2 (⟨256 * n + p.val, by have := p.isLt; omega⟩ : Fin 4096) d) :=
    Finset.sum_congr rfl fun d _ => by rw [hx0 r d, hx1 p d ⟨256 * n + p.val, by have := p.isLt; omega⟩ rfl]
  rw [hS]

variable (V : (c : Dev nD) → (b : Ref sig .tc) → Buf (Elt Ideal) ((c : Thread nD τ).loc b))

/-- The same at a grid point, over the windows' blocks there. -/
theorem point17 (c : Dev nD) (t : Fin cfg17.N) (acc : Vec Ideal S4096x1 .f32) (r : Fin 4096) (u : Fin 1) (ht : t.val < 16) :
    k17_pay2 (iblk17 V c 0 t) (iblk17 V c 1 t) acc (ix2 r u)
      = acc (ix2 r u) + blk17 (V c main_v272) (V c main_v273) r t.val ht := by
  obtain ⟨e0, e1, e2, e3, e4, e5⟩ := rows17_facts t
  refine pay17_block (V c main_v272) (V c main_v273) (iblk17 V c 0 t) (iblk17 V c 1 t) acc t.val ht r u ?_ ?_
  · intro r d
    show V c main_v272 (((cfg17.win 0).blk t).view.emb (ix2 r d)) = V c main_v272 (ix2 r d)
    refine congrArg (V c main_v272) (funext fun a => Fin.ext ?_)
    match a with
    | ⟨0, _⟩ => show win17_0.index t (0 : Fin 2) * 4096 + 1 * r.val = r.val; omega
    | ⟨1, _⟩ => show win17_0.index t (1 : Fin 2) * 128 + 1 * d.val = d.val; omega
  · intro p d j hj
    show V c main_v273 (((cfg17.win 1).blk t).view.emb (ix2 p d)) = V c main_v273 (ix2 j d)
    refine congrArg (V c main_v273) (funext fun a => Fin.ext ?_)
    match a with
    | ⟨0, _⟩ => show win17_1.index t (0 : Fin 2) * 256 + 1 * p.val = j.val; omega
    | ⟨1, _⟩ => show win17_1.index t (1 : Fin 2) * 128 + 1 * d.val = d.val; omega

/-- After point `n`, before the last, the accumulator's row `r` holds the sum of the row sums of blocks `0 … n`: by
    induction on the point. -/
theorem acc17_eq (c : Dev nD) (r : Fin 4096) (u : Fin 1) : ∀ (n : ℕ) (hn : n < cfg17.N) (h17 : n < 15),
    (outsAt17 V c n hn).2 (ix2 r u)
      = ∑ t : Fin (n + 1), blk17 (V c main_v272) (V c main_v273) r t.val (by have := t.isLt; omega)
  | 0, hn, h17 => by
    rw [outsAt17_A V c ⟨0, hn⟩ rfl (by dsimp only; omega)]
    dsimp only
    rw [soutA17_eq]
    refine (point17 V c ⟨0, hn⟩ (k17_pay1 (F := Ideal)) r u (by dsimp only; omega)).trans ?_
    rw [pay17_zero, zero_add, Fin.sum_univ_one]
    rfl
  | n + 1, hn, h17 => by
    have h0 : ¬(⟨n + 1, hn⟩ : Fin cfg17.N).val % 16 = 0 := by dsimp only; omega
    have h1 : ¬(⟨n + 1, hn⟩ : Fin cfg17.N).val % 16 = 15 := by dsimp only; omega
    rw [outsAt17_B V c ⟨n + 1, hn⟩ h0 h1]
    dsimp only
    rw [soutB17_eq]
    refine (point17 V c ⟨n + 1, hn⟩ _ r u (by dsimp only; omega)).trans ?_
    rw [Fin.sum_univ_castSucc]
    refine congrArg₂ (fun a b : EReal => a + b) ?_ rfl
    exact acc17_eq c r u n (Nat.lt_of_succ_lt hn) (by omega)

/-- After the last point the output's buffer holds, in row `r`, the sum over all 4096 columns. -/
theorem out17_last (c : Dev nD) (t : Fin cfg17.N) (ht : t.val % 16 = 15) (r : Fin 4096) (u : Fin 1) :
    (outsAt17 V c t.val t.isLt).1 (ix2 r u) = ∑ j : Fin 4096, ex17 (V c main_v272) (V c main_v273) r j := by
  have hN : cfg17.N = 16 := N_17
  obtain ⟨n, hn⟩ := t
  obtain rfl : n = 15 := by dsimp only at ht; omega
  have h0 : ¬(⟨15, hn⟩ : Fin cfg17.N).val % 16 = 0 := by dsimp only; omega
  rw [outsAt17_C V c ⟨15, hn⟩ h0 ht]
  dsimp only
  rw [outC17_eq]
  refine (point17 V c ⟨15, hn⟩ _ r u (by dsimp only; omega)).trans ?_
  have hacc := acc17_eq V c r u 14 (by omega) (by decide)
  refine Eq.trans ?_ (Cert.Math.sum_fin_mul 16 256 (fun j : Fin 4096 => ex17 (V c main_v272) (V c main_v273) r j)).symm
  rw [Fin.sum_univ_castSucc]
  refine congrArg₂ (fun a b : EReal => a + b) ?_ rfl
  exact hacc

/-! ## From the last point to the array -/

/-- What the result column ends holding: in row `r` the sum over the 4096 columns `j` of `exp ((A · Bᵀ) (r, j) / 1)`. -/
def col17 (A B : FVec Ideal S4096x128 .f32) : FVec Ideal S4096x1 .f32 :=
  fun i => ∑ j : Fin 4096, ex17 A B ⟨(i 0).val, idx2_lt0 i⟩ j

/-- A buffer that holds those sums row by row is `col17`, read at an index with the same row. -/
theorem col17_of (A B : FVec Ideal S4096x128 .f32) (o : Vec Ideal S4096x1 .f32) (y i : S4096x1.Idx)
    (ho : ∀ (r : Fin 4096) (u : Fin 1), o (ix2 r u) = ∑ j : Fin 4096, ex17 A B r j) (hi : (i 0).val = (y 0).val) :
    o y = col17 A B i := by
  obtain ⟨r, u, rfl⟩ : ∃ (r : Fin 4096) (u : Fin 1), y = ix2 r u := ⟨y 0, y 1, eq_ix2 y⟩
  rw [ho]
  unfold col17
  have e : (⟨(i 0).val, idx2_lt0 i⟩ : Fin 4096) = r := Fin.ext hi
  rw [e]

/-- The one write-back, at the last point, writes `col17` of the two arrays as the region finds them. -/
theorem flushed17_eq (c : Dev nD) (t : Fin cfg17.N) (hf : (cfg17.win 2).flush t = true) :
    (dat17 (F := Ideal) V c).flushed 2 t
      = ((cfg17.win 2).blk t).view.read (Elt Ideal) (col17 (V c main_v272) (V c main_v273)) := by
  have ht : t.val % 16 = 15 := (flush17_2 t).mp hf
  obtain ⟨e0, e1, e2, e3, e4, e5⟩ := rows17_facts t
  show (cfg17.win 2).cut (grid17.coords t) ((dat17 V c).after 2 t) = _
  rw [after17_2]
  funext j
  show (outsAt17 V c t.val t.isLt).1 j = col17 (V c main_v272) (V c main_v273) (((cfg17.win 2).blk t).view.emb j)
  refine col17_of (V c main_v272) (V c main_v273) (outsAt17 V c t.val t.isLt).1 j (((cfg17.win 2).blk t).view.emb j) (fun r u => out17_last V c t ht r u) ?_
  show win17_2.index t (0 : Fin 2) * 4096 + 1 * (j 0).val = (j 0).val
  omega

/-- An index of the result column is in point `t`'s block iff each coordinate is in the block's range on its axis. -/
theorem mem_rows17 (t : Fin cfg17.N) (i : S4096x1.Idx) :
    i ∈ ((cfg17.win 2).blk t).view.set ↔ ∀ a : Fin 2, win17_2.index t a * S4096x1.size a ≤ (i a).val ∧ (i a).val < win17_2.index t a * S4096x1.size a + S4096x1.size a := by
  show i ∈ ((View.whole main_v279).slice (win17_2.rect t)).set ↔ _
  rw [View.set_slice_whole, Rect.mem_set_unit]
  exact Iff.rfl

/-- The last point's block is the whole column. -/
theorem rows17_cover (i : S4096x1.Idx) :
    ∃ t : Fin cfg17.N, (cfg17.win 2).flush t = true ∧ i ∈ ((cfg17.win 2).blk t).view.set := by
  have hi0 : (i 0).val < 4096 := idx2_lt0 i
  have hi1 : (i 1).val < 1 := idx2_lt1 i
  have hN : grid17.N = 16 := N_17
  have ht : 15 < grid17.N := by rw [hN]; omega
  obtain ⟨e0, e1, e2, e3, e4, e5⟩ := rows17_facts ⟨15, ht⟩
  refine ⟨⟨15, ht⟩, (flush17_2 ⟨15, ht⟩).mpr rfl, ?_⟩
  rw [mem_rows17]
  intro a
  match a with
  | ⟨0, _⟩ => show win17_2.index ⟨15, ht⟩ (0 : Fin 2) * 4096 ≤ (i 0).val ∧ (i 0).val < win17_2.index ⟨15, ht⟩ (0 : Fin 2) * 4096 + 4096; omega
  | ⟨1, _⟩ => show win17_2.index ⟨15, ht⟩ (1 : Fin 2) * 1 ≤ (i 1).val ∧ (i 1).val < win17_2.index ⟨15, ht⟩ (1 : Fin 2) * 1 + 1; omega

/-- The result column after the region: the row sums of `exp (g · hᵀ / 1)` of the two input arrays as the region finds them. -/
theorem val17 (c : Dev nD) :
    (dat17 (F := Ideal) V c).arrAt 2 cfg17.N = col17 (V c main_v272) (V c main_v273) :=
  (dat17 (F := Ideal) V c).arrAt_eq_of_cover 2 (col17 (V c main_v272) (V c main_v273)) (fun t hf => flushed17_eq V c t hf) rows17_cover

/-- Division by the float one is the identity on the extended reals. -/
theorem div_one17 (x : EReal) : Ideal.div x (Ideal.ofBits .f32 0x3F800000#32) = x := by
  rw [Ideal.ofBits_one_f32]
  unfold Ideal.div
  rw [if_neg one_ne_zero, inv_one, mul_one]

/-- Entry by entry, with the division by one removed (`A`, `B`: the two input arrays as the region finds them). -/
theorem val17_apply (c : Dev nD) (A B : FVec Ideal S4096x128 .f32) (hA : V c main_v272 = A) (hB : V c main_v273 = B)
    (r : Fin 4096) (u : Fin 1) :
    (dat17 (F := Ideal) V c).arrAt 2 cfg17.N (ix2 r u)
      = ∑ j : Fin 4096, Ideal.exp (∑ d : Fin 128, A (ix2 r d) * B (ix2 j d)) := by
  rw [val17, hA, hB]
  show ∑ j : Fin 4096, ex17 A B r j = _
  exact Finset.sum_congr rfl fun j _ => congrArg Ideal.exp (div_one17 _)

/-! ## The host's form -/

/-- The left array's index at output index `i` and contraction position `q`: the output's row, -/
theorem hlhs17_0 (i : Cert.ReferenceIdeal.S4096x4096.Idx) (q : Cert.ReferenceIdeal.dot_S4096x128_S128x4096_S4096x4096_1_0_0_1_n_n.contr.Idx) :
    (Cert.ReferenceIdeal.dot_S4096x128_S128x4096_S4096x4096_1_0_0_1_n_n.lhsIdx i q 0).val = (i 0).val := by
  unfold DotDims.lhsIdx
  rw [dif_neg (show ¬(0 : Fin Cert.ReferenceIdeal.S4096x128.rank) ∈ Cert.ReferenceIdeal.dot_S4096x128_S128x4096_S4096x4096_1_0_0_1_n_n.lhsBatch by decide), dif_pos (show (0 : Fin Cert.ReferenceIdeal.S4096x128.rank) ∈ Cert.ReferenceIdeal.dot_S4096x128_S128x4096_S4096x4096_1_0_0_1_n_n.lhsNonContracting by decide)]
  rfl
/-- and the contraction position. -/
theorem hlhs17_1 (i : Cert.ReferenceIdeal.S4096x4096.Idx) (q : Cert.ReferenceIdeal.dot_S4096x128_S128x4096_S4096x4096_1_0_0_1_n_n.contr.Idx) :
    (Cert.ReferenceIdeal.dot_S4096x128_S128x4096_S4096x4096_1_0_0_1_n_n.lhsIdx i q 1).val = (q ⟨0, by decide⟩).val :=
  Cert.ReferenceIdeal.dot_S4096x128_S128x4096_S4096x4096_1_0_0_1_n_n.lhsIdx_val_of_single rfl i q
/-- The right array's: the contraction position, -/
theorem hrhs17_0 (i : Cert.ReferenceIdeal.S4096x4096.Idx) (q : Cert.ReferenceIdeal.dot_S4096x128_S128x4096_S4096x4096_1_0_0_1_n_n.contr.Idx) :
    (Cert.ReferenceIdeal.dot_S4096x128_S128x4096_S4096x4096_1_0_0_1_n_n.rhsIdx i q 0).val = (q ⟨0, by decide⟩).val :=
  Cert.ReferenceIdeal.dot_S4096x128_S128x4096_S4096x4096_1_0_0_1_n_n.rhsIdx_val_of_single rfl i q
/-- and the output's column. -/
theorem hrhs17_1 (i : Cert.ReferenceIdeal.S4096x4096.Idx) (q : Cert.ReferenceIdeal.dot_S4096x128_S128x4096_S4096x4096_1_0_0_1_n_n.contr.Idx) :
    (Cert.ReferenceIdeal.dot_S4096x128_S128x4096_S4096x4096_1_0_0_1_n_n.rhsIdx i q 1).val = (i 1).val := by
  unfold DotDims.rhsIdx
  rw [dif_neg (show ¬(1 : Fin Cert.ReferenceIdeal.S128x4096.rank) ∈ Cert.ReferenceIdeal.dot_S4096x128_S128x4096_S4096x4096_1_0_0_1_n_n.rhsBatch by decide), dif_pos (show (1 : Fin Cert.ReferenceIdeal.S128x4096.rank) ∈ Cert.ReferenceIdeal.dot_S4096x128_S128x4096_S4096x4096_1_0_0_1_n_n.rhsNonContracting by decide)]
  rfl

/-- The host's product of a [4096,128] array and a [128,4096] array at an index in row `r`, column `s`: the sum over the
    contracted axis. -/
theorem hostmm17_apply (a : FVec Ideal S4096x128 .f32) (b : FVec Ideal Cert.ReferenceIdeal.S128x4096 .f32) (i : Cert.ReferenceIdeal.S4096x4096.Idx)
    (r s : Fin 4096) (hi0 : (i 0).val = r.val) (hi1 : (i 1).val = s.val) :
    Host.dotGeneral (F := Ideal) Cert.ReferenceIdeal.dot_S4096x128_S128x4096_S4096x4096_1_0_0_1_n_n none a b i = ∑ d : Fin 128, a (ix2 r d) * b (ix2 d s) := by
  simp only [Host.dotGeneral]
  rw [Ideal.dotGeneral_apply, ← Equiv.sum_comp (contrEquiv1 Cert.ReferenceIdeal.dot_S4096x128_S128x4096_S4096x4096_1_0_0_1_n_n 128 rfl rfl).symm]
  refine Finset.sum_congr rfl fun k _ => ?_
  have hk := contrEquiv1_symm_val Cert.ReferenceIdeal.dot_S4096x128_S128x4096_S4096x4096_1_0_0_1_n_n 128 rfl rfl k
  have el : Cert.ReferenceIdeal.dot_S4096x128_S128x4096_S4096x4096_1_0_0_1_n_n.lhsIdx i ((contrEquiv1 Cert.ReferenceIdeal.dot_S4096x128_S128x4096_S4096x4096_1_0_0_1_n_n 128 rfl rfl).symm k) = ix2 r k := funext fun a => Fin.ext (by
    match a with
    | ⟨0, _⟩ => exact (hlhs17_0 _ _).trans hi0
    | ⟨1, _⟩ => exact (hlhs17_1 _ _).trans hk)
  have er : Cert.ReferenceIdeal.dot_S4096x128_S128x4096_S4096x4096_1_0_0_1_n_n.rhsIdx i ((contrEquiv1 Cert.ReferenceIdeal.dot_S4096x128_S128x4096_S4096x4096_1_0_0_1_n_n 128 rfl rfl).symm k) = ix2 k s := funext fun a => Fin.ext (by
    match a with
    | ⟨0, _⟩ => exact (hrhs17_0 _ _).trans hk
    | ⟨1, _⟩ => exact (hrhs17_1 _ _).trans hi1)
  rw [el, er]

/-- The host's term — the product with the transposed right array, divided by the float one entry by entry, its
    exponential, summed over the columns from zero — at row `r`. -/
theorem host17_apply (g h : FVec Ideal S4096x128 .f32) (r : Fin 4096) :
    (Host.reduceAdd (F := Ideal) (Host.exp (Host.divf (Host.dotGeneral (F := Ideal) (φ₁ := .f32) (φ₂ := .f32) Cert.ReferenceIdeal.dot_S4096x128_S128x4096_S4096x4096_1_0_0_1_n_n none g (transpose Cert.ReferenceIdeal.S128x4096 [1, 0] h Cert.ReferenceIdeal.Facts₀.transposes_S4096x128_S128x4096_1_0)) (broadcastInDim Cert.ReferenceIdeal.S4096x4096 ![] Cert.ReferenceIdeal.Facts₀.bcast_S_S4096x4096 (constant (F := Ideal) Cert.ReferenceIdeal.S_ .f32 0x3F800000#32)))) (constant (F := Ideal) Cert.ReferenceIdeal.S_ .f32 0x00000000#32) Cert.ReferenceIdeal.Facts₀.reducesTo_S4096x4096_S4096_d1 Cert.ReferenceIdeal.Facts₀.h_S_) (ix1 r) = ∑ j : Fin 4096, ex17 g h r j := by
  have hR : Cert.ReferenceIdeal.S4096x4096.Reduces [1] Cert.ReferenceIdeal.S4096 := by decide
  refine (hostReduceAdd_apply _ _ _ _ (ix1 r)).trans ((Ideal.hostReduceAdd_single Cert.ReferenceIdeal.Facts₀.reducesTo_S4096x4096_S4096_d1 hR _ _ (ix1 r)).trans ?_)
  show Ideal.ofBits .f32 0x00000000#32 + ∑ k : Fin 4096, _ = _
  rw [Ideal.ofBits_zero_f32, zero_add]
  refine Finset.sum_congr rfl fun k _ => ?_
  have hm := hostmm17_apply g (transpose Cert.ReferenceIdeal.S128x4096 [1, 0] h Cert.ReferenceIdeal.Facts₀.transposes_S4096x128_S128x4096_1_0) (hR.lift (ix1 r) k) r k rfl rfl
  refine (congrArg (fun z : EReal => Ideal.exp (Ideal.div z (Ideal.ofBits .f32 0x3F800000#32))) hm).trans ?_
  unfold ex17
  refine congrArg (fun z : EReal => Ideal.exp (Ideal.div z (Ideal.ofBits .f32 0x3F800000#32))) (Finset.sum_congr rfl fun d _ => ?_)
  rw [transpose_ix2_apply]

/-- The result column cast to a vector is the host's term of the two input arrays as the region finds them. -/
theorem val17_host (c : Dev nD) (hc : S4096x1.ShapeCasts S4096) :
    shapeCast S4096 ((dat17 (F := Ideal) V c).arrAt 2 cfg17.N) hc
      = Host.reduceAdd (F := Ideal) (Host.exp (Host.divf (Host.dotGeneral (F := Ideal) (φ₁ := .f32) (φ₂ := .f32) Cert.ReferenceIdeal.dot_S4096x128_S128x4096_S4096x4096_1_0_0_1_n_n none (V c main_v272) (transpose Cert.ReferenceIdeal.S128x4096 [1, 0] (V c main_v273) Cert.ReferenceIdeal.Facts₀.transposes_S4096x128_S128x4096_1_0)) (broadcastInDim Cert.ReferenceIdeal.S4096x4096 ![] Cert.ReferenceIdeal.Facts₀.bcast_S_S4096x4096 (constant (F := Ideal) Cert.ReferenceIdeal.S_ .f32 0x3F800000#32)))) (constant (F := Ideal) Cert.ReferenceIdeal.S_ .f32 0x00000000#32) Cert.ReferenceIdeal.Facts₀.reducesTo_S4096x4096_S4096_d1 Cert.ReferenceIdeal.Facts₀.h_S_ := by
  funext i
  obtain ⟨r, rfl⟩ : ∃ r : Fin 4096, i = ix1 r := ⟨i 0, eq_ix1 i⟩
  rw [host17_apply]
  refine (rowCast17_apply _ hc r).trans ?_
  rw [val17]
  rfl

end Cert.KernelIdeal.Fr

end
-- ==== Proof.KI.Val19.lean ====
import proofs.«126270_j6725918785969_1_alg».proof.Proof.KI.Reg19
import proofs.«126270_j6725918785969_1_alg».proof.Proof.Gen.ReferenceIdeal
import proofs.«126270_j6725918785969_1_alg».proof.Proof.LibBlockSum
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Idealize.ShloMosaic.Lib.Tactic

/-!
# Region 19, read: the result column holds the row sums of `exp (g · hᵀ / 1)`

The accumulator is zeroed at the first grid point; every point adds, row by row, the sum over its block's 256 columns
of `exp (p / 1)`, where `p` is the product of the left factor and the transposed right block — at the extended reals
`p (r, q) = ∑ d, x0 (r, d) · x1 (q, d)`, the changes of format and the casts to the same shape being the identity;
the last point copies the accumulator into the output's buffer, which is written back there only. The right factor's
block at point `t` is rows `256·t …` of its array and the left factor's is its whole array, so after point `n` the
accumulator's row `r` holds the sum over the blocks `0 … n` of the blocks' row sums (by induction on the point),
after the last point the sum over all sixteen, and sixteen blocks of 256 consecutive columns are the 4096 columns.
So the result column's entry `r` is `∑ j, exp ((∑ d, g (r, d) · h (j, d)) / 1)`; the division by the float one is kept
as the same word on both sides where the host's term has it too, and removed (`x / 1 = x`) in the entry-by-entry form.
-/

set_option maxRecDepth 16384

noncomputable section

namespace Cert.KernelIdeal.Fr

open Cert.KernelIdeal Cert.KernelIdeal.Gen
open Idealize.ShloMosaic Idealize.ShloMosaic.TcCoe Idealize.ShloMosaic.ValueIdx Idealize.ShloMosaic.Tactic
open Idealize.ShloMosaic.Pipeline (Dat)

theorem hz19 : (![0, 0] : Fin 2 → Nat) = fun _ => 0 := funext fun a => by fin_cases a <;> rfl

/-! ## What each control case leaves behind, as the payload of its loads -/

section Pieces
variable {F : FTy → Type} [FloatOps F]

/-- The first point leaves in the accumulator the zero block plus the point's row sums. -/
theorem soutA19_eq (c : Dev nD) (i : grid19.Coords) (a1 : Memref sig .tc .vmem S4096x128 .f32) (h1 : a1.IsWhole) (a2 : Memref sig .tc .vmem S256x128 .f32) (h2 : a2.IsWhole) (a3 : Memref sig .tc .vmem S4096x1 .f32) (h3 : a3.IsWhole) (a4 : Memref sig .tc .vmem S4096x1 .f32) (h4 : a4.IsWhole) (hc0 : cond19_0 i) (hc1 : ¬cond19_1 i) (x0 : Vec F S4096x128 .f32) (x1 : Vec F S256x128 .f32) :
    sout19_A_0 c i a1 h1 a2 h2 a3 h3 a4 h4 hc0 hc1 x0 x1 = k19_pay2 x0 x1 k19_pay1 := by
  unfold sout19_A_0
  rw [View.read_writes_eq_canon _ _ _ (scover19_A_0 c i a1 h1 a2 h2 a3 h3 a4 h4 hc0 hc1 x0 x1)]
  unfold kernelRun19_A
  dsimp only
  try sl_unfold_words
  rw [View.canon_cons_unit_zero (S := S4096x1) hz19, View.readCov_unit_zero (S := S4096x1) _ hz19]
  simp only [View.readAt_eq_ld, h1.read_unread, h2.read_unread, View.ld_unit_zero (S := S4096x128) hz19, View.ld_unit_zero (S := S256x128) hz19]

/-- A middle point leaves in the accumulator what it held plus the point's row sums. -/
theorem soutB19_eq (c : Dev nD) (i : grid19.Coords) (a1 : Memref sig .tc .vmem S4096x128 .f32) (h1 : a1.IsWhole) (a2 : Memref sig .tc .vmem S256x128 .f32) (h2 : a2.IsWhole) (a3 : Memref sig .tc .vmem S4096x1 .f32) (h3 : a3.IsWhole) (a4 : Memref sig .tc .vmem S4096x1 .f32) (h4 : a4.IsWhole) (hc0 : ¬cond19_0 i) (hc1 : ¬cond19_1 i) (x0 : Vec F S4096x128 .f32) (x1 : Vec F S256x128 .f32) (xs0 : Vec F S4096x1 .f32) :
    sout19_B_0 c i a1 h1 a2 h2 a3 h3 a4 h4 hc0 hc1 x0 x1 xs0 = k19_pay2 x0 x1 xs0 := by
  unfold sout19_B_0
  rw [View.read_writes_eq_canon _ _ _ (scover19_B_0 c i a1 h1 a2 h2 a3 h3 a4 h4 hc0 hc1 x0 x1 xs0)]
  unfold kernelRun19_B
  dsimp only
  try sl_unfold_words
  rw [View.canon_unit_zero hz19]
  simp only [View.readAt_eq_ld, h1.read_unread, h2.read_unread, h4.read_unread, View.ld_unit_zero (S := S4096x128) hz19, View.ld_unit_zero (S := S256x128) hz19, View.ld_unit_zero (S := S4096x1) hz19]

/-- The last point leaves in the output's buffer the accumulator's final contents: what it held plus the point's row sums. -/
theorem outC19_eq (c : Dev nD) (i : grid19.Coords) (a1 : Memref sig .tc .vmem S4096x128 .f32) (h1 : a1.IsWhole) (a2 : Memref sig .tc .vmem S256x128 .f32) (h2 : a2.IsWhole) (a3 : Memref sig .tc .vmem S4096x1 .f32) (h3 : a3.IsWhole) (a4 : Memref sig .tc .vmem S4096x1 .f32) (h4 : a4.IsWhole) (hc0 : ¬cond19_0 i) (hc1 : cond19_1 i) (x0 : Vec F S4096x128 .f32) (x1 : Vec F S256x128 .f32) (xs0 : Vec F S4096x1 .f32) :
    out19_C_2 c i a1 h1 a2 h2 a3 h3 a4 h4 hc0 hc1 x0 x1 xs0 = k19_pay2 x0 x1 xs0 := by
  unfold out19_C_2
  rw [View.read_writes_eq_canon _ _ _ (cover19_C_2 c i a1 h1 a2 h2 a3 h3 a4 h4 hc0 hc1 x0 x1 xs0)]
  unfold kernelRun19_C
  dsimp only
  try sl_unfold_words
  rw [View.canon_unit_zero hz19, View.readCov_unit_zero (S := S4096x1) _ hz19]
  simp only [View.readAt_eq_ld, h1.read_unread, h2.read_unread, h4.read_unread, View.ld_unit_zero (S := S4096x128) hz19, View.ld_unit_zero (S := S256x128) hz19, View.ld_unit_zero (S := S4096x1) hz19]

end Pieces

/-! ## The payload at an index -/

/-- The left block's index at output index `i` and contraction position `q`: the output's row, -/
theorem lhs19_0 (i : S4096x256.Idx) (q : dot_S4096x128_S256x128_S4096x256_1_1_0_0_n_n.contr.Idx) :
    (dot_S4096x128_S256x128_S4096x256_1_1_0_0_n_n.lhsIdx i q 0).val = (i 0).val := by
  unfold DotDims.lhsIdx
  rw [dif_neg (show ¬(0 : Fin S4096x128.rank) ∈ dot_S4096x128_S256x128_S4096x256_1_1_0_0_n_n.lhsBatch by decide), dif_pos (show (0 : Fin S4096x128.rank) ∈ dot_S4096x128_S256x128_S4096x256_1_1_0_0_n_n.lhsNonContracting by decide)]
  rfl
/-- and the contraction position. -/
theorem lhs19_1 (i : S4096x256.Idx) (q : dot_S4096x128_S256x128_S4096x256_1_1_0_0_n_n.contr.Idx) :
    (dot_S4096x128_S256x128_S4096x256_1_1_0_0_n_n.lhsIdx i q 1).val = (q ⟨0, by decide⟩).val :=
  dot_S4096x128_S256x128_S4096x256_1_1_0_0_n_n.lhsIdx_val_of_single rfl i q
/-- The right block's: the output's column, -/
theorem rhs19_0 (i : S4096x256.Idx) (q : dot_S4096x128_S256x128_S4096x256_1_1_0_0_n_n.contr.Idx) :
    (dot_S4096x128_S256x128_S4096x256_1_1_0_0_n_n.rhsIdx i q 0).val = (i 1).val := by
  unfold DotDims.rhsIdx
  rw [dif_neg (show ¬(0 : Fin S256x128.rank) ∈ dot_S4096x128_S256x128_S4096x256_1_1_0_0_n_n.rhsBatch by decide), dif_pos (show (0 : Fin S256x128.rank) ∈ dot_S4096x128_S256x128_S4096x256_1_1_0_0_n_n.rhsNonContracting by decide)]
  rfl
/-- and the contraction position. -/
theorem rhs19_1 (i : S4096x256.Idx) (q : dot_S4096x128_S256x128_S4096x256_1_1_0_0_n_n.contr.Idx) :
    (dot_S4096x128_S256x128_S4096x256_1_1_0_0_n_n.rhsIdx i q 1).val = (q ⟨0, by decide⟩).val :=
  dot_S4096x128_S256x128_S4096x256_1_1_0_0_n_n.rhsIdx_val_of_single rfl i q

/-- The matrix unit's product of the left block and the transposed right block into the zero accumulator at row `r`,
    column `p`: the sum over the contracted axis of the products of the left block's row `r` and the right block's row `p`. -/
theorem mm19_apply (a : FVec Ideal S4096x128 .bf16) (b : FVec Ideal S256x128 .bf16) (r : Fin 4096) (p : Fin 256) :
    matmul dot_S4096x128_S256x128_S4096x256_1_1_0_0_n_n none a b (constant (F := Ideal) S4096x256 .f32 0x00000000#32) (ix2 r p) = ∑ d : Fin 128, a (ix2 r d) * b (ix2 p d) := by
  refine (Ideal.matmul_constant_zero_apply dot_S4096x128_S256x128_S4096x256_1_1_0_0_n_n none _ _ (ix2 r p)).trans ?_
  rw [← Equiv.sum_comp (contrEquiv1 dot_S4096x128_S256x128_S4096x256_1_1_0_0_n_n 128 rfl rfl).symm]
  refine Finset.sum_congr rfl fun k _ => ?_
  have hk := contrEquiv1_symm_val dot_S4096x128_S256x128_S4096x256_1_1_0_0_n_n 128 rfl rfl k
  have el : dot_S4096x128_S256x128_S4096x256_1_1_0_0_n_n.lhsIdx (ix2 r p) ((contrEquiv1 dot_S4096x128_S256x128_S4096x256_1_1_0_0_n_n 128 rfl rfl).symm k) = ix2 r k := funext fun a => Fin.ext (by
    match a with
    | ⟨0, _⟩ => exact lhs19_0 _ _
    | ⟨1, _⟩ => exact (lhs19_1 _ _).trans hk)
  have er : dot_S4096x128_S256x128_S4096x256_1_1_0_0_n_n.rhsIdx (ix2 r p) ((contrEquiv1 dot_S4096x128_S256x128_S4096x256_1_1_0_0_n_n 128 rfl rfl).symm k) = ix2 p k := funext fun a => Fin.ext (by
    match a with
    | ⟨0, _⟩ => exact rhs19_0 _ _
    | ⟨1, _⟩ => exact (rhs19_1 _ _).trans hk)
  rw [el, er]

/-- The sum over the columns of a [4096,256] block at row `r`. -/
theorem red19_apply (v : FVec Ideal S4096x256 .f32) (r : Fin 4096) :
    multiReduction .add [1] S4096 v 0x00000000#32 Facts₀.reduces_S4096x256_S4096 (.inl rfl) rfl (ix1 r) = ∑ p : Fin 256, v (ix2 r p) :=
  (Ideal.multiReduction_add_single v 0x00000000#32 Facts₀.reduces_S4096x256_S4096 (.inl rfl) rfl (ix1 r)).trans
    (Finset.sum_congr rfl fun p _ => congrArg v (funext fun a => Fin.ext (by
      match a with
      | ⟨0, _⟩ => rfl
      | ⟨1, _⟩ => rfl)))

/-- A vector cast to a one-column matrix reads, at `(i, u)`, the vector at `i`. -/
theorem colCast19_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A one-column matrix cast to a vector reads, at `i`, the matrix at `(i, 0)`. -/
theorem rowCast19_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_one, Shape.rowMajor_val_two]
    show i.val * 1 + 0 = i.val
    rw [Nat.mul_one, Nat.add_zero])

/-- The body's second payload, its casts to the same shape removed. -/
theorem pay19_eq (x0 : Vec Ideal S4096x128 .f32) (x1 : Vec Ideal S256x128 .f32) (acc : Vec Ideal S4096x1 .f32) :
    k19_pay2 x0 x1 acc
      = addf acc (shapeCast S4096x1 (multiReduction .add [1] S4096 (exp (divf (matmul dot_S4096x128_S256x128_S4096x256_1_1_0_0_n_n none (truncf .bf16 x0 Facts₀.bitsLt_bf16_f32) (truncf .bf16 x1 Facts₀.bitsLt_bf16_f32) (constant (F := Ideal) S4096x256 .f32 0x00000000#32)) (broadcast S4096x256 (Scalar.ofBits (F := Ideal) .f32 0x3F800000#32)))) 0x00000000#32 Facts₀.reduces_S4096x256_S4096 (.inl rfl) rfl) Facts₀.shapeCasts_S4096_S4096x1) := by
  unfold k19_pay2
  rw [shapeCast_self, shapeCast_self]
  exact shapeCast_self _ _

/-- The body's second payload at row `r`: what the accumulator held there plus the sum over the block's 256 columns of
    `exp (p / 1)`, `p` the product's entry. -/
theorem pay19_apply (x0 : Vec Ideal S4096x128 .f32) (x1 : Vec Ideal S256x128 .f32) (acc : Vec Ideal S4096x1 .f32) (r : Fin 4096) (u : Fin 1) :
    k19_pay2 x0 x1 acc (ix2 r u)
      = acc (ix2 r u) + ∑ p : Fin 256, Ideal.exp (Ideal.div (∑ d : Fin 128, x0 (ix2 r d) * x1 (ix2 p d)) (Ideal.ofBits .f32 0x3F800000#32)) := by
  rw [pay19_eq]
  exact congrArg (fun z : EReal => acc (ix2 r u) + z) ((colCast19_apply _ _ r u).trans ((red19_apply _ r).trans
    (Finset.sum_congr rfl fun p _ => congrArg (fun z : EReal => Ideal.exp (Ideal.div z (Ideal.ofBits .f32 0x3F800000#32))) (mm19_apply (truncf .bf16 x0 (by decide)) (truncf .bf16 x1 (by decide)) r p))))

/-- The first payload is the zero block. -/
theorem pay19_zero (r : Fin 4096) (u : Fin 1) : k19_pay1 (F := Ideal) (ix2 r u) = 0 := by
  unfold k19_pay1
  rw [shapeCast_self]
  exact Ideal.ofBits_zero_f32

/-! ## The blocks, and the accumulator after each point -/

/-- The printed index maps over the grid: the left factor's and the result's one block, the right factor's block `t` of rows. -/
theorem rows19_facts : ∀ t : Fin cfg19.N, win19_0.index t (0 : Fin 2) = 0 ∧ win19_0.index t (1 : Fin 2) = 0
    ∧ win19_1.index t (0 : Fin 2) = t.val ∧ win19_1.index t (1 : Fin 2) = 0
    ∧ win19_2.index t (0 : Fin 2) = 0 ∧ win19_2.index t (1 : Fin 2) = 0 :=
  (by decide +kernel : ∀ t : Fin grid19.N, _)

/-- Entry `(r, j)` of `exp (A · Bᵀ / 1)`. -/
def ex19 (A B : FVec Ideal S4096x128 .f32) (r j : Fin 4096) : EReal :=
  Ideal.exp (Ideal.div (∑ d : Fin 128, A (ix2 r d) * B (ix2 j d)) (Ideal.ofBits .f32 0x3F800000#32))

/-- Row `r`'s sum over the 256 columns of block `n`. -/
def blk19 (A B : FVec Ideal S4096x128 .f32) (r : Fin 4096) (n : ℕ) (hn : n < 16) : EReal :=
  ∑ p : Fin 256, ex19 A B r ⟨256 * n + p.val, by have := p.isLt; omega⟩

/-- One point: when the left block is `A` and the right block holds rows `256·n …` of `B`, the payload adds block `n`'s
    row sum onto what the accumulator held. -/
theorem pay19_block (A B : FVec Ideal S4096x128 .f32) (x0 : Vec Ideal S4096x128 .f32) (x1 : Vec Ideal S256x128 .f32)
    (acc : Vec Ideal S4096x1 .f32) (n : ℕ) (hn : n < 16) (r : Fin 4096) (u : Fin 1)
    (hx0 : ∀ (r : Fin 4096) (d : Fin 128), x0 (ix2 r d) = A (ix2 r d))
    (hx1 : ∀ (p : Fin 256) (d : Fin 128) (j : Fin 4096), j.val = 256 * n + p.val → x1 (ix2 p d) = B (ix2 j d)) :
    k19_pay2 x0 x1 acc (ix2 r u) = acc (ix2 r u) + blk19 A B r n hn := by
  rw [pay19_apply]
  unfold blk19 ex19
  refine congrArg (fun z : EReal => acc (ix2 r u) + z) (Finset.sum_congr rfl fun p _ => ?_)
  have hS : (∑ d : Fin 128, x0 (ix2 r d) * x1 (ix2 p d))
      = ∑ d : Fin 128, A (ix2 r d) * B (ix2 (⟨256 * n + p.val, by have := p.isLt; omega⟩ : Fin 4096) d) :=
    Finset.sum_congr rfl fun d _ => by rw [hx0 r d, hx1 p d ⟨256 * n + p.val, by have := p.isLt; omega⟩ rfl]
  rw [hS]

variable (V : (c : Dev nD) → (b : Ref sig .tc) → Buf (Elt Ideal) ((c : Thread nD τ).loc b))

/-- The same at a grid point, over the windows' blocks there. -/
theorem point19 (c : Dev nD) (t : Fin cfg19.N) (acc : Vec Ideal S4096x1 .f32) (r : Fin 4096) (u : Fin 1) (ht : t.val < 16) :
    k19_pay2 (iblk19 V c 0 t) (iblk19 V c 1 t) acc (ix2 r u)
      = acc (ix2 r u) + blk19 (V c main_v315) (V c main_v316) r t.val ht := by
  obtain ⟨e0, e1, e2, e3, e4, e5⟩ := rows19_facts t
  refine pay19_block (V c main_v315) (V c main_v316) (iblk19 V c 0 t) (iblk19 V c 1 t) acc t.val ht r u ?_ ?_
  · intro r d
    show V c main_v315 (((cfg19.win 0).blk t).view.emb (ix2 r d)) = V c main_v315 (ix2 r d)
    refine congrArg (V c main_v315) (funext fun a => Fin.ext ?_)
    match a with
    | ⟨0, _⟩ => show win19_0.index t (0 : Fin 2) * 4096 + 1 * r.val = r.val; omega
    | ⟨1, _⟩ => show win19_0.index t (1 : Fin 2) * 128 + 1 * d.val = d.val; omega
  · intro p d j hj
    show V c main_v316 (((cfg19.win 1).blk t).view.emb (ix2 p d)) = V c main_v316 (ix2 j d)
    refine congrArg (V c main_v316) (funext fun a => Fin.ext ?_)
    match a with
    | ⟨0, _⟩ => show win19_1.index t (0 : Fin 2) * 256 + 1 * p.val = j.val; omega
    | ⟨1, _⟩ => show win19_1.index t (1 : Fin 2) * 128 + 1 * d.val = d.val; omega

/-- After point `n`, before the last, the accumulator's row `r` holds the sum of the row sums of blocks `0 … n`: by
    induction on the point. -/
theorem acc19_eq (c : Dev nD) (r : Fin 4096) (u : Fin 1) : ∀ (n : ℕ) (hn : n < cfg19.N) (h19 : n < 15),
    (outsAt19 V c n hn).2 (ix2 r u)
      = ∑ t : Fin (n + 1), blk19 (V c main_v315) (V c main_v316) r t.val (by have := t.isLt; omega)
  | 0, hn, h19 => by
    rw [outsAt19_A V c ⟨0, hn⟩ rfl (by dsimp only; omega)]
    dsimp only
    rw [soutA19_eq]
    refine (point19 V c ⟨0, hn⟩ (k19_pay1 (F := Ideal)) r u (by dsimp only; omega)).trans ?_
    rw [pay19_zero, zero_add, Fin.sum_univ_one]
    rfl
  | n + 1, hn, h19 => by
    have h0 : ¬(⟨n + 1, hn⟩ : Fin cfg19.N).val % 16 = 0 := by dsimp only; omega
    have h1 : ¬(⟨n + 1, hn⟩ : Fin cfg19.N).val % 16 = 15 := by dsimp only; omega
    rw [outsAt19_B V c ⟨n + 1, hn⟩ h0 h1]
    dsimp only
    rw [soutB19_eq]
    refine (point19 V c ⟨n + 1, hn⟩ _ r u (by dsimp only; omega)).trans ?_
    rw [Fin.sum_univ_castSucc]
    refine congrArg₂ (fun a b : EReal => a + b) ?_ rfl
    exact acc19_eq c r u n (Nat.lt_of_succ_lt hn) (by omega)

/-- After the last point the output's buffer holds, in row `r`, the sum over all 4096 columns. -/
theorem out19_last (c : Dev nD) (t : Fin cfg19.N) (ht : t.val % 16 = 15) (r : Fin 4096) (u : Fin 1) :
    (outsAt19 V c t.val t.isLt).1 (ix2 r u) = ∑ j : Fin 4096, ex19 (V c main_v315) (V c main_v316) r j := by
  have hN : cfg19.N = 16 := N_19
  obtain ⟨n, hn⟩ := t
  obtain rfl : n = 15 := by dsimp only at ht; omega
  have h0 : ¬(⟨15, hn⟩ : Fin cfg19.N).val % 16 = 0 := by dsimp only; omega
  rw [outsAt19_C V c ⟨15, hn⟩ h0 ht]
  dsimp only
  rw [outC19_eq]
  refine (point19 V c ⟨15, hn⟩ _ r u (by dsimp only; omega)).trans ?_
  have hacc := acc19_eq V c r u 14 (by omega) (by decide)
  refine Eq.trans ?_ (Cert.Math.sum_fin_mul 16 256 (fun j : Fin 4096 => ex19 (V c main_v315) (V c main_v316) r j)).symm
  rw [Fin.sum_univ_castSucc]
  refine congrArg₂ (fun a b : EReal => a + b) ?_ rfl
  exact hacc

/-! ## From the last point to the array -/

/-- What the result column ends holding: in row `r` the sum over the 4096 columns `j` of `exp ((A · Bᵀ) (r, j) / 1)`. -/
def col19 (A B : FVec Ideal S4096x128 .f32) : FVec Ideal S4096x1 .f32 :=
  fun i => ∑ j : Fin 4096, ex19 A B ⟨(i 0).val, idx2_lt0 i⟩ j

/-- A buffer that holds those sums row by row is `col19`, read at an index with the same row. -/
theorem col19_of (A B : FVec Ideal S4096x128 .f32) (o : Vec Ideal S4096x1 .f32) (y i : S4096x1.Idx)
    (ho : ∀ (r : Fin 4096) (u : Fin 1), o (ix2 r u) = ∑ j : Fin 4096, ex19 A B r j) (hi : (i 0).val = (y 0).val) :
    o y = col19 A B i := by
  obtain ⟨r, u, rfl⟩ : ∃ (r : Fin 4096) (u : Fin 1), y = ix2 r u := ⟨y 0, y 1, eq_ix2 y⟩
  rw [ho]
  unfold col19
  have e : (⟨(i 0).val, idx2_lt0 i⟩ : Fin 4096) = r := Fin.ext hi
  rw [e]

/-- The one write-back, at the last point, writes `col19` of the two arrays as the region finds them. -/
theorem flushed19_eq (c : Dev nD) (t : Fin cfg19.N) (hf : (cfg19.win 2).flush t = true) :
    (dat19 (F := Ideal) V c).flushed 2 t
      = ((cfg19.win 2).blk t).view.read (Elt Ideal) (col19 (V c main_v315) (V c main_v316)) := by
  have ht : t.val % 16 = 15 := (flush19_2 t).mp hf
  obtain ⟨e0, e1, e2, e3, e4, e5⟩ := rows19_facts t
  show (cfg19.win 2).cut (grid19.coords t) ((dat19 V c).after 2 t) = _
  rw [after19_2]
  funext j
  show (outsAt19 V c t.val t.isLt).1 j = col19 (V c main_v315) (V c main_v316) (((cfg19.win 2).blk t).view.emb j)
  refine col19_of (V c main_v315) (V c main_v316) (outsAt19 V c t.val t.isLt).1 j (((cfg19.win 2).blk t).view.emb j) (fun r u => out19_last V c t ht r u) ?_
  show win19_2.index t (0 : Fin 2) * 4096 + 1 * (j 0).val = (j 0).val
  omega

/-- An index of the result column is in point `t`'s block iff each coordinate is in the block's range on its axis. -/
theorem mem_rows19 (t : Fin cfg19.N) (i : S4096x1.Idx) :
    i ∈ ((cfg19.win 2).blk t).view.set ↔ ∀ a : Fin 2, win19_2.index t a * S4096x1.size a ≤ (i a).val ∧ (i a).val < win19_2.index t a * S4096x1.size a + S4096x1.size a := by
  show i ∈ ((View.whole main_v322).slice (win19_2.rect t)).set ↔ _
  rw [View.set_slice_whole, Rect.mem_set_unit]
  exact Iff.rfl

/-- The last point's block is the whole column. -/
theorem rows19_cover (i : S4096x1.Idx) :
    ∃ t : Fin cfg19.N, (cfg19.win 2).flush t = true ∧ i ∈ ((cfg19.win 2).blk t).view.set := by
  have hi0 : (i 0).val < 4096 := idx2_lt0 i
  have hi1 : (i 1).val < 1 := idx2_lt1 i
  have hN : grid19.N = 16 := N_19
  have ht : 15 < grid19.N := by rw [hN]; omega
  obtain ⟨e0, e1, e2, e3, e4, e5⟩ := rows19_facts ⟨15, ht⟩
  refine ⟨⟨15, ht⟩, (flush19_2 ⟨15, ht⟩).mpr rfl, ?_⟩
  rw [mem_rows19]
  intro a
  match a with
  | ⟨0, _⟩ => show win19_2.index ⟨15, ht⟩ (0 : Fin 2) * 4096 ≤ (i 0).val ∧ (i 0).val < win19_2.index ⟨15, ht⟩ (0 : Fin 2) * 4096 + 4096; omega
  | ⟨1, _⟩ => show win19_2.index ⟨15, ht⟩ (1 : Fin 2) * 1 ≤ (i 1).val ∧ (i 1).val < win19_2.index ⟨15, ht⟩ (1 : Fin 2) * 1 + 1; omega

/-- The result column after the region: the row sums of `exp (g · hᵀ / 1)` of the two input arrays as the region finds them. -/
theorem val19 (c : Dev nD) :
    (dat19 (F := Ideal) V c).arrAt 2 cfg19.N = col19 (V c main_v315) (V c main_v316) :=
  (dat19 (F := Ideal) V c).arrAt_eq_of_cover 2 (col19 (V c main_v315) (V c main_v316)) (fun t hf => flushed19_eq V c t hf) rows19_cover

/-- Division by the float one is the identity on the extended reals. -/
theorem div_one19 (x : EReal) : Ideal.div x (Ideal.ofBits .f32 0x3F800000#32) = x := by
  rw [Ideal.ofBits_one_f32]
  unfold Ideal.div
  rw [if_neg one_ne_zero, inv_one, mul_one]

/-- Entry by entry, with the division by one removed (`A`, `B`: the two input arrays as the region finds them). -/
theorem val19_apply (c : Dev nD) (A B : FVec Ideal S4096x128 .f32) (hA : V c main_v315 = A) (hB : V c main_v316 = B)
    (r : Fin 4096) (u : Fin 1) :
    (dat19 (F := Ideal) V c).arrAt 2 cfg19.N (ix2 r u)
      = ∑ j : Fin 4096, Ideal.exp (∑ d : Fin 128, A (ix2 r d) * B (ix2 j d)) := by
  rw [val19, hA, hB]
  show ∑ j : Fin 4096, ex19 A B r j = _
  exact Finset.sum_congr rfl fun j _ => congrArg Ideal.exp (div_one19 _)

/-! ## The host's form -/

/-- The left array's index at output index `i` and contraction position `q`: the output's row, -/
theorem hlhs19_0 (i : Cert.ReferenceIdeal.S4096x4096.Idx) (q : Cert.ReferenceIdeal.dot_S4096x128_S128x4096_S4096x4096_1_0_0_1_n_n.contr.Idx) :
    (Cert.ReferenceIdeal.dot_S4096x128_S128x4096_S4096x4096_1_0_0_1_n_n.lhsIdx i q 0).val = (i 0).val := by
  unfold DotDims.lhsIdx
  rw [dif_neg (show ¬(0 : Fin Cert.ReferenceIdeal.S4096x128.rank) ∈ Cert.ReferenceIdeal.dot_S4096x128_S128x4096_S4096x4096_1_0_0_1_n_n.lhsBatch by decide), dif_pos (show (0 : Fin Cert.ReferenceIdeal.S4096x128.rank) ∈ Cert.ReferenceIdeal.dot_S4096x128_S128x4096_S4096x4096_1_0_0_1_n_n.lhsNonContracting by decide)]
  rfl
/-- and the contraction position. -/
theorem hlhs19_1 (i : Cert.ReferenceIdeal.S4096x4096.Idx) (q : Cert.ReferenceIdeal.dot_S4096x128_S128x4096_S4096x4096_1_0_0_1_n_n.contr.Idx) :
    (Cert.ReferenceIdeal.dot_S4096x128_S128x4096_S4096x4096_1_0_0_1_n_n.lhsIdx i q 1).val = (q ⟨0, by decide⟩).val :=
  Cert.ReferenceIdeal.dot_S4096x128_S128x4096_S4096x4096_1_0_0_1_n_n.lhsIdx_val_of_single rfl i q
/-- The right array's: the contraction position, -/
theorem hrhs19_0 (i : Cert.ReferenceIdeal.S4096x4096.Idx) (q : Cert.ReferenceIdeal.dot_S4096x128_S128x4096_S4096x4096_1_0_0_1_n_n.contr.Idx) :
    (Cert.ReferenceIdeal.dot_S4096x128_S128x4096_S4096x4096_1_0_0_1_n_n.rhsIdx i q 0).val = (q ⟨0, by decide⟩).val :=
  Cert.ReferenceIdeal.dot_S4096x128_S128x4096_S4096x4096_1_0_0_1_n_n.rhsIdx_val_of_single rfl i q
/-- and the output's column. -/
theorem hrhs19_1 (i : Cert.ReferenceIdeal.S4096x4096.Idx) (q : Cert.ReferenceIdeal.dot_S4096x128_S128x4096_S4096x4096_1_0_0_1_n_n.contr.Idx) :
    (Cert.ReferenceIdeal.dot_S4096x128_S128x4096_S4096x4096_1_0_0_1_n_n.rhsIdx i q 1).val = (i 1).val := by
  unfold DotDims.rhsIdx
  rw [dif_neg (show ¬(1 : Fin Cert.ReferenceIdeal.S128x4096.rank) ∈ Cert.ReferenceIdeal.dot_S4096x128_S128x4096_S4096x4096_1_0_0_1_n_n.rhsBatch by decide), dif_pos (show (1 : Fin Cert.ReferenceIdeal.S128x4096.rank) ∈ Cert.ReferenceIdeal.dot_S4096x128_S128x4096_S4096x4096_1_0_0_1_n_n.rhsNonContracting by decide)]
  rfl

/-- The host's product of a [4096,128] array and a [128,4096] array at an index in row `r`, column `s`: the sum over the
    contracted axis. -/
theorem hostmm19_apply (a : FVec Ideal S4096x128 .f32) (b : FVec Ideal Cert.ReferenceIdeal.S128x4096 .f32) (i : Cert.ReferenceIdeal.S4096x4096.Idx)
    (r s : Fin 4096) (hi0 : (i 0).val = r.val) (hi1 : (i 1).val = s.val) :
    Host.dotGeneral (F := Ideal) Cert.ReferenceIdeal.dot_S4096x128_S128x4096_S4096x4096_1_0_0_1_n_n none a b i = ∑ d : Fin 128, a (ix2 r d) * b (ix2 d s) := by
  simp only [Host.dotGeneral]
  rw [Ideal.dotGeneral_apply, ← Equiv.sum_comp (contrEquiv1 Cert.ReferenceIdeal.dot_S4096x128_S128x4096_S4096x4096_1_0_0_1_n_n 128 rfl rfl).symm]
  refine Finset.sum_congr rfl fun k _ => ?_
  have hk := contrEquiv1_symm_val Cert.ReferenceIdeal.dot_S4096x128_S128x4096_S4096x4096_1_0_0_1_n_n 128 rfl rfl k
  have el : Cert.ReferenceIdeal.dot_S4096x128_S128x4096_S4096x4096_1_0_0_1_n_n.lhsIdx i ((contrEquiv1 Cert.ReferenceIdeal.dot_S4096x128_S128x4096_S4096x4096_1_0_0_1_n_n 128 rfl rfl).symm k) = ix2 r k := funext fun a => Fin.ext (by
    match a with
    | ⟨0, _⟩ => exact (hlhs19_0 _ _).trans hi0
    | ⟨1, _⟩ => exact (hlhs19_1 _ _).trans hk)
  have er : Cert.ReferenceIdeal.dot_S4096x128_S128x4096_S4096x4096_1_0_0_1_n_n.rhsIdx i ((contrEquiv1 Cert.ReferenceIdeal.dot_S4096x128_S128x4096_S4096x4096_1_0_0_1_n_n 128 rfl rfl).symm k) = ix2 k s := funext fun a => Fin.ext (by
    match a with
    | ⟨0, _⟩ => exact (hrhs19_0 _ _).trans hk
    | ⟨1, _⟩ => exact (hrhs19_1 _ _).trans hi1)
  rw [el, er]

/-- The host's term — the product with the transposed right array, divided by the float one entry by entry, its
    exponential, summed over the columns from zero — at row `r`. -/
theorem host19_apply (g h : FVec Ideal S4096x128 .f32) (r : Fin 4096) :
    (Host.reduceAdd (F := Ideal) (Host.exp (Host.divf (Host.dotGeneral (F := Ideal) (φ₁ := .f32) (φ₂ := .f32) Cert.ReferenceIdeal.dot_S4096x128_S128x4096_S4096x4096_1_0_0_1_n_n none g (transpose Cert.ReferenceIdeal.S128x4096 [1, 0] h Cert.ReferenceIdeal.Facts₀.transposes_S4096x128_S128x4096_1_0)) (broadcastInDim Cert.ReferenceIdeal.S4096x4096 ![] Cert.ReferenceIdeal.Facts₀.bcast_S_S4096x4096 (constant (F := Ideal) Cert.ReferenceIdeal.S_ .f32 0x3F800000#32)))) (constant (F := Ideal) Cert.ReferenceIdeal.S_ .f32 0x00000000#32) Cert.ReferenceIdeal.Facts₀.reducesTo_S4096x4096_S4096_d1 Cert.ReferenceIdeal.Facts₀.h_S_) (ix1 r) = ∑ j : Fin 4096, ex19 g h r j := by
  have hR : Cert.ReferenceIdeal.S4096x4096.Reduces [1] Cert.ReferenceIdeal.S4096 := by decide
  refine (hostReduceAdd_apply _ _ _ _ (ix1 r)).trans ((Ideal.hostReduceAdd_single Cert.ReferenceIdeal.Facts₀.reducesTo_S4096x4096_S4096_d1 hR _ _ (ix1 r)).trans ?_)
  show Ideal.ofBits .f32 0x00000000#32 + ∑ k : Fin 4096, _ = _
  rw [Ideal.ofBits_zero_f32, zero_add]
  refine Finset.sum_congr rfl fun k _ => ?_
  have hm := hostmm19_apply g (transpose Cert.ReferenceIdeal.S128x4096 [1, 0] h Cert.ReferenceIdeal.Facts₀.transposes_S4096x128_S128x4096_1_0) (hR.lift (ix1 r) k) r k rfl rfl
  refine (congrArg (fun z : EReal => Ideal.exp (Ideal.div z (Ideal.ofBits .f32 0x3F800000#32))) hm).trans ?_
  unfold ex19
  refine congrArg (fun z : EReal => Ideal.exp (Ideal.div z (Ideal.ofBits .f32 0x3F800000#32))) (Finset.sum_congr rfl fun d _ => ?_)
  rw [transpose_ix2_apply]

/-- The result column cast to a vector is the host's term of the two input arrays as the region finds them. -/
theorem val19_host (c : Dev nD) (hc : S4096x1.ShapeCasts S4096) :
    shapeCast S4096 ((dat19 (F := Ideal) V c).arrAt 2 cfg19.N) hc
      = Host.reduceAdd (F := Ideal) (Host.exp (Host.divf (Host.dotGeneral (F := Ideal) (φ₁ := .f32) (φ₂ := .f32) Cert.ReferenceIdeal.dot_S4096x128_S128x4096_S4096x4096_1_0_0_1_n_n none (V c main_v315) (transpose Cert.ReferenceIdeal.S128x4096 [1, 0] (V c main_v316) Cert.ReferenceIdeal.Facts₀.transposes_S4096x128_S128x4096_1_0)) (broadcastInDim Cert.ReferenceIdeal.S4096x4096 ![] Cert.ReferenceIdeal.Facts₀.bcast_S_S4096x4096 (constant (F := Ideal) Cert.ReferenceIdeal.S_ .f32 0x3F800000#32)))) (constant (F := Ideal) Cert.ReferenceIdeal.S_ .f32 0x00000000#32) Cert.ReferenceIdeal.Facts₀.reducesTo_S4096x4096_S4096_d1 Cert.ReferenceIdeal.Facts₀.h_S_ := by
  funext i
  obtain ⟨r, rfl⟩ : ∃ r : Fin 4096, i = ix1 r := ⟨i 0, eq_ix1 i⟩
  rw [host19_apply]
  refine (rowCast19_apply _ hc r).trans ?_
  rw [val19]
  rfl

end Cert.KernelIdeal.Fr

end
-- ==== Proof.KI.Val21.lean ====
import proofs.«126270_j6725918785969_1_alg».proof.Proof.KI.Reg21
import proofs.«126270_j6725918785969_1_alg».proof.Proof.Gen.ReferenceIdeal
import proofs.«126270_j6725918785969_1_alg».proof.Proof.LibBlockSum
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Idealize.ShloMosaic.Lib.Tactic

/-!
# Region 21, read: the result column holds the row sums of `exp (g · hᵀ / 1)`

The accumulator is zeroed at the first grid point; every point adds, row by row, the sum over its block's 256 columns
of `exp (p / 1)`, where `p` is the product of the left factor and the transposed right block — at the extended reals
`p (r, q) = ∑ d, x0 (r, d) · x1 (q, d)`, the changes of format and the casts to the same shape being the identity;
the last point copies the accumulator into the output's buffer, which is written back there only. The right factor's
block at point `t` is rows `256·t …` of its array and the left factor's is its whole array, so after point `n` the
accumulator's row `r` holds the sum over the blocks `0 … n` of the blocks' row sums (by induction on the point),
after the last point the sum over all sixteen, and sixteen blocks of 256 consecutive columns are the 4096 columns.
So the result column's entry `r` is `∑ j, exp ((∑ d, g (r, d) · h (j, d)) / 1)`; the division by the float one is kept
as the same word on both sides where the host's term has it too, and removed (`x / 1 = x`) in the entry-by-entry form.
-/

set_option maxRecDepth 16384

noncomputable section

namespace Cert.KernelIdeal.Fr

open Cert.KernelIdeal Cert.KernelIdeal.Gen
open Idealize.ShloMosaic Idealize.ShloMosaic.TcCoe Idealize.ShloMosaic.ValueIdx Idealize.ShloMosaic.Tactic
open Idealize.ShloMosaic.Pipeline (Dat)

theorem hz21 : (![0, 0] : Fin 2 → Nat) = fun _ => 0 := funext fun a => by fin_cases a <;> rfl

/-! ## What each control case leaves behind, as the payload of its loads -/

section Pieces
variable {F : FTy → Type} [FloatOps F]

/-- The first point leaves in the accumulator the zero block plus the point's row sums. -/
theorem soutA21_eq (c : Dev nD) (i : grid21.Coords) (a1 : Memref sig .tc .vmem S4096x128 .f32) (h1 : a1.IsWhole) (a2 : Memref sig .tc .vmem S256x128 .f32) (h2 : a2.IsWhole) (a3 : Memref sig .tc .vmem S4096x1 .f32) (h3 : a3.IsWhole) (a4 : Memref sig .tc .vmem S4096x1 .f32) (h4 : a4.IsWhole) (hc0 : cond21_0 i) (hc1 : ¬cond21_1 i) (x0 : Vec F S4096x128 .f32) (x1 : Vec F S256x128 .f32) :
    sout21_A_0 c i a1 h1 a2 h2 a3 h3 a4 h4 hc0 hc1 x0 x1 = k21_pay2 x0 x1 k21_pay1 := by
  unfold sout21_A_0
  rw [View.read_writes_eq_canon _ _ _ (scover21_A_0 c i a1 h1 a2 h2 a3 h3 a4 h4 hc0 hc1 x0 x1)]
  unfold kernelRun21_A
  dsimp only
  try sl_unfold_words
  rw [View.canon_cons_unit_zero (S := S4096x1) hz21, View.readCov_unit_zero (S := S4096x1) _ hz21]
  simp only [View.readAt_eq_ld, h1.read_unread, h2.read_unread, View.ld_unit_zero (S := S4096x128) hz21, View.ld_unit_zero (S := S256x128) hz21]

/-- A middle point leaves in the accumulator what it held plus the point's row sums. -/
theorem soutB21_eq (c : Dev nD) (i : grid21.Coords) (a1 : Memref sig .tc .vmem S4096x128 .f32) (h1 : a1.IsWhole) (a2 : Memref sig .tc .vmem S256x128 .f32) (h2 : a2.IsWhole) (a3 : Memref sig .tc .vmem S4096x1 .f32) (h3 : a3.IsWhole) (a4 : Memref sig .tc .vmem S4096x1 .f32) (h4 : a4.IsWhole) (hc0 : ¬cond21_0 i) (hc1 : ¬cond21_1 i) (x0 : Vec F S4096x128 .f32) (x1 : Vec F S256x128 .f32) (xs0 : Vec F S4096x1 .f32) :
    sout21_B_0 c i a1 h1 a2 h2 a3 h3 a4 h4 hc0 hc1 x0 x1 xs0 = k21_pay2 x0 x1 xs0 := by
  unfold sout21_B_0
  rw [View.read_writes_eq_canon _ _ _ (scover21_B_0 c i a1 h1 a2 h2 a3 h3 a4 h4 hc0 hc1 x0 x1 xs0)]
  unfold kernelRun21_B
  dsimp only
  try sl_unfold_words
  rw [View.canon_unit_zero hz21]
  simp only [View.readAt_eq_ld, h1.read_unread, h2.read_unread, h4.read_unread, View.ld_unit_zero (S := S4096x128) hz21, View.ld_unit_zero (S := S256x128) hz21, View.ld_unit_zero (S := S4096x1) hz21]

/-- The last point leaves in the output's buffer the accumulator's final contents: what it held plus the point's row sums. -/
theorem outC21_eq (c : Dev nD) (i : grid21.Coords) (a1 : Memref sig .tc .vmem S4096x128 .f32) (h1 : a1.IsWhole) (a2 : Memref sig .tc .vmem S256x128 .f32) (h2 : a2.IsWhole) (a3 : Memref sig .tc .vmem S4096x1 .f32) (h3 : a3.IsWhole) (a4 : Memref sig .tc .vmem S4096x1 .f32) (h4 : a4.IsWhole) (hc0 : ¬cond21_0 i) (hc1 : cond21_1 i) (x0 : Vec F S4096x128 .f32) (x1 : Vec F S256x128 .f32) (xs0 : Vec F S4096x1 .f32) :
    out21_C_2 c i a1 h1 a2 h2 a3 h3 a4 h4 hc0 hc1 x0 x1 xs0 = k21_pay2 x0 x1 xs0 := by
  unfold out21_C_2
  rw [View.read_writes_eq_canon _ _ _ (cover21_C_2 c i a1 h1 a2 h2 a3 h3 a4 h4 hc0 hc1 x0 x1 xs0)]
  unfold kernelRun21_C
  dsimp only
  try sl_unfold_words
  rw [View.canon_unit_zero hz21, View.readCov_unit_zero (S := S4096x1) _ hz21]
  simp only [View.readAt_eq_ld, h1.read_unread, h2.read_unread, h4.read_unread, View.ld_unit_zero (S := S4096x128) hz21, View.ld_unit_zero (S := S256x128) hz21, View.ld_unit_zero (S := S4096x1) hz21]

end Pieces

/-! ## The payload at an index -/

/-- The left block's index at output index `i` and contraction position `q`: the output's row, -/
theorem lhs21_0 (i : S4096x256.Idx) (q : dot_S4096x128_S256x128_S4096x256_1_1_0_0_n_n.contr.Idx) :
    (dot_S4096x128_S256x128_S4096x256_1_1_0_0_n_n.lhsIdx i q 0).val = (i 0).val := by
  unfold DotDims.lhsIdx
  rw [dif_neg (show ¬(0 : Fin S4096x128.rank) ∈ dot_S4096x128_S256x128_S4096x256_1_1_0_0_n_n.lhsBatch by decide), dif_pos (show (0 : Fin S4096x128.rank) ∈ dot_S4096x128_S256x128_S4096x256_1_1_0_0_n_n.lhsNonContracting by decide)]
  rfl
/-- and the contraction position. -/
theorem lhs21_1 (i : S4096x256.Idx) (q : dot_S4096x128_S256x128_S4096x256_1_1_0_0_n_n.contr.Idx) :
    (dot_S4096x128_S256x128_S4096x256_1_1_0_0_n_n.lhsIdx i q 1).val = (q ⟨0, by decide⟩).val :=
  dot_S4096x128_S256x128_S4096x256_1_1_0_0_n_n.lhsIdx_val_of_single rfl i q
/-- The right block's: the output's column, -/
theorem rhs21_0 (i : S4096x256.Idx) (q : dot_S4096x128_S256x128_S4096x256_1_1_0_0_n_n.contr.Idx) :
    (dot_S4096x128_S256x128_S4096x256_1_1_0_0_n_n.rhsIdx i q 0).val = (i 1).val := by
  unfold DotDims.rhsIdx
  rw [dif_neg (show ¬(0 : Fin S256x128.rank) ∈ dot_S4096x128_S256x128_S4096x256_1_1_0_0_n_n.rhsBatch by decide), dif_pos (show (0 : Fin S256x128.rank) ∈ dot_S4096x128_S256x128_S4096x256_1_1_0_0_n_n.rhsNonContracting by decide)]
  rfl
/-- and the contraction position. -/
theorem rhs21_1 (i : S4096x256.Idx) (q : dot_S4096x128_S256x128_S4096x256_1_1_0_0_n_n.contr.Idx) :
    (dot_S4096x128_S256x128_S4096x256_1_1_0_0_n_n.rhsIdx i q 1).val = (q ⟨0, by decide⟩).val :=
  dot_S4096x128_S256x128_S4096x256_1_1_0_0_n_n.rhsIdx_val_of_single rfl i q

/-- The matrix unit's product of the left block and the transposed right block into the zero accumulator at row `r`,
    column `p`: the sum over the contracted axis of the products of the left block's row `r` and the right block's row `p`. -/
theorem mm21_apply (a : FVec Ideal S4096x128 .bf16) (b : FVec Ideal S256x128 .bf16) (r : Fin 4096) (p : Fin 256) :
    matmul dot_S4096x128_S256x128_S4096x256_1_1_0_0_n_n none a b (constant (F := Ideal) S4096x256 .f32 0x00000000#32) (ix2 r p) = ∑ d : Fin 128, a (ix2 r d) * b (ix2 p d) := by
  refine (Ideal.matmul_constant_zero_apply dot_S4096x128_S256x128_S4096x256_1_1_0_0_n_n none _ _ (ix2 r p)).trans ?_
  rw [← Equiv.sum_comp (contrEquiv1 dot_S4096x128_S256x128_S4096x256_1_1_0_0_n_n 128 rfl rfl).symm]
  refine Finset.sum_congr rfl fun k _ => ?_
  have hk := contrEquiv1_symm_val dot_S4096x128_S256x128_S4096x256_1_1_0_0_n_n 128 rfl rfl k
  have el : dot_S4096x128_S256x128_S4096x256_1_1_0_0_n_n.lhsIdx (ix2 r p) ((contrEquiv1 dot_S4096x128_S256x128_S4096x256_1_1_0_0_n_n 128 rfl rfl).symm k) = ix2 r k := funext fun a => Fin.ext (by
    match a with
    | ⟨0, _⟩ => exact lhs21_0 _ _
    | ⟨1, _⟩ => exact (lhs21_1 _ _).trans hk)
  have er : dot_S4096x128_S256x128_S4096x256_1_1_0_0_n_n.rhsIdx (ix2 r p) ((contrEquiv1 dot_S4096x128_S256x128_S4096x256_1_1_0_0_n_n 128 rfl rfl).symm k) = ix2 p k := funext fun a => Fin.ext (by
    match a with
    | ⟨0, _⟩ => exact rhs21_0 _ _
    | ⟨1, _⟩ => exact (rhs21_1 _ _).trans hk)
  rw [el, er]

/-- The sum over the columns of a [4096,256] block at row `r`. -/
theorem red21_apply (v : FVec Ideal S4096x256 .f32) (r : Fin 4096) :
    multiReduction .add [1] S4096 v 0x00000000#32 Facts₀.reduces_S4096x256_S4096 (.inl rfl) rfl (ix1 r) = ∑ p : Fin 256, v (ix2 r p) :=
  (Ideal.multiReduction_add_single v 0x00000000#32 Facts₀.reduces_S4096x256_S4096 (.inl rfl) rfl (ix1 r)).trans
    (Finset.sum_congr rfl fun p _ => congrArg v (funext fun a => Fin.ext (by
      match a with
      | ⟨0, _⟩ => rfl
      | ⟨1, _⟩ => rfl)))

/-- A vector cast to a one-column matrix reads, at `(i, u)`, the vector at `i`. -/
theorem colCast21_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A one-column matrix cast to a vector reads, at `i`, the matrix at `(i, 0)`. -/
theorem rowCast21_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_one, Shape.rowMajor_val_two]
    show i.val * 1 + 0 = i.val
    rw [Nat.mul_one, Nat.add_zero])

/-- The body's second payload, its casts to the same shape removed. -/
theorem pay21_eq (x0 : Vec Ideal S4096x128 .f32) (x1 : Vec Ideal S256x128 .f32) (acc : Vec Ideal S4096x1 .f32) :
    k21_pay2 x0 x1 acc
      = addf acc (shapeCast S4096x1 (multiReduction .add [1] S4096 (exp (divf (matmul dot_S4096x128_S256x128_S4096x256_1_1_0_0_n_n none (truncf .bf16 x0 Facts₀.bitsLt_bf16_f32) (truncf .bf16 x1 Facts₀.bitsLt_bf16_f32) (constant (F := Ideal) S4096x256 .f32 0x00000000#32)) (broadcast S4096x256 (Scalar.ofBits (F := Ideal) .f32 0x3F800000#32)))) 0x00000000#32 Facts₀.reduces_S4096x256_S4096 (.inl rfl) rfl) Facts₀.shapeCasts_S4096_S4096x1) := by
  unfold k21_pay2
  rw [shapeCast_self, shapeCast_self]
  exact shapeCast_self _ _

/-- The body's second payload at row `r`: what the accumulator held there plus the sum over the block's 256 columns of
    `exp (p / 1)`, `p` the product's entry. -/
theorem pay21_apply (x0 : Vec Ideal S4096x128 .f32) (x1 : Vec Ideal S256x128 .f32) (acc : Vec Ideal S4096x1 .f32) (r : Fin 4096) (u : Fin 1) :
    k21_pay2 x0 x1 acc (ix2 r u)
      = acc (ix2 r u) + ∑ p : Fin 256, Ideal.exp (Ideal.div (∑ d : Fin 128, x0 (ix2 r d) * x1 (ix2 p d)) (Ideal.ofBits .f32 0x3F800000#32)) := by
  rw [pay21_eq]
  exact congrArg (fun z : EReal => acc (ix2 r u) + z) ((colCast21_apply _ _ r u).trans ((red21_apply _ r).trans
    (Finset.sum_congr rfl fun p _ => congrArg (fun z : EReal => Ideal.exp (Ideal.div z (Ideal.ofBits .f32 0x3F800000#32))) (mm21_apply (truncf .bf16 x0 (by decide)) (truncf .bf16 x1 (by decide)) r p))))

/-- The first payload is the zero block. -/
theorem pay21_zero (r : Fin 4096) (u : Fin 1) : k21_pay1 (F := Ideal) (ix2 r u) = 0 := by
  unfold k21_pay1
  rw [shapeCast_self]
  exact Ideal.ofBits_zero_f32

/-! ## The blocks, and the accumulator after each point -/

/-- The printed index maps over the grid: the left factor's and the result's one block, the right factor's block `t` of rows. -/
theorem rows21_facts : ∀ t : Fin cfg21.N, win21_0.index t (0 : Fin 2) = 0 ∧ win21_0.index t (1 : Fin 2) = 0
    ∧ win21_1.index t (0 : Fin 2) = t.val ∧ win21_1.index t (1 : Fin 2) = 0
    ∧ win21_2.index t (0 : Fin 2) = 0 ∧ win21_2.index t (1 : Fin 2) = 0 :=
  (by decide +kernel : ∀ t : Fin grid21.N, _)

/-- Entry `(r, j)` of `exp (A · Bᵀ / 1)`. -/
def ex21 (A B : FVec Ideal S4096x128 .f32) (r j : Fin 4096) : EReal :=
  Ideal.exp (Ideal.div (∑ d : Fin 128, A (ix2 r d) * B (ix2 j d)) (Ideal.ofBits .f32 0x3F800000#32))

/-- Row `r`'s sum over the 256 columns of block `n`. -/
def blk21 (A B : FVec Ideal S4096x128 .f32) (r : Fin 4096) (n : ℕ) (hn : n < 16) : EReal :=
  ∑ p : Fin 256, ex21 A B r ⟨256 * n + p.val, by have := p.isLt; omega⟩

/-- One point: when the left block is `A` and the right block holds rows `256·n …` of `B`, the payload adds block `n`'s
    row sum onto what the accumulator held. -/
theorem pay21_block (A B : FVec Ideal S4096x128 .f32) (x0 : Vec Ideal S4096x128 .f32) (x1 : Vec Ideal S256x128 .f32)
    (acc : Vec Ideal S4096x1 .f32) (n : ℕ) (hn : n < 16) (r : Fin 4096) (u : Fin 1)
    (hx0 : ∀ (r : Fin 4096) (d : Fin 128), x0 (ix2 r d) = A (ix2 r d))
    (hx1 : ∀ (p : Fin 256) (d : Fin 128) (j : Fin 4096), j.val = 256 * n + p.val → x1 (ix2 p d) = B (ix2 j d)) :
    k21_pay2 x0 x1 acc (ix2 r u) = acc (ix2 r u) + blk21 A B r n hn := by
  rw [pay21_apply]
  unfold blk21 ex21
  refine congrArg (fun z : EReal => acc (ix2 r u) + z) (Finset.sum_congr rfl fun p _ => ?_)
  have hS : (∑ d : Fin 128, x0 (ix2 r d) * x1 (ix2 p d))
      = ∑ d : Fin 128, A (ix2 r d) * B (ix2 (⟨256 * n + p.val, by have := p.isLt; omega⟩ : Fin 4096) d) :=
    Finset.sum_congr rfl fun d _ => by rw [hx0 r d, hx1 p d ⟨256 * n + p.val, by have := p.isLt; omega⟩ rfl]
  rw [hS]

variable (V : (c : Dev nD) → (b : Ref sig .tc) → Buf (Elt Ideal) ((c : Thread nD τ).loc b))

/-- The same at a grid point, over the windows' blocks there. -/
theorem point21 (c : Dev nD) (t : Fin cfg21.N) (acc : Vec Ideal S4096x1 .f32) (r : Fin 4096) (u : Fin 1) (ht : t.val < 16) :
    k21_pay2 (iblk21 V c 0 t) (iblk21 V c 1 t) acc (ix2 r u)
      = acc (ix2 r u) + blk21 (V c main_v358) (V c main_v359) r t.val ht := by
  obtain ⟨e0, e1, e2, e3, e4, e5⟩ := rows21_facts t
  refine pay21_block (V c main_v358) (V c main_v359) (iblk21 V c 0 t) (iblk21 V c 1 t) acc t.val ht r u ?_ ?_
  · intro r d
    show V c main_v358 (((cfg21.win 0).blk t).view.emb (ix2 r d)) = V c main_v358 (ix2 r d)
    refine congrArg (V c main_v358) (funext fun a => Fin.ext ?_)
    match a with
    | ⟨0, _⟩ => show win21_0.index t (0 : Fin 2) * 4096 + 1 * r.val = r.val; omega
    | ⟨1, _⟩ => show win21_0.index t (1 : Fin 2) * 128 + 1 * d.val = d.val; omega
  · intro p d j hj
    show V c main_v359 (((cfg21.win 1).blk t).view.emb (ix2 p d)) = V c main_v359 (ix2 j d)
    refine congrArg (V c main_v359) (funext fun a => Fin.ext ?_)
    match a with
    | ⟨0, _⟩ => show win21_1.index t (0 : Fin 2) * 256 + 1 * p.val = j.val; omega
    | ⟨1, _⟩ => show win21_1.index t (1 : Fin 2) * 128 + 1 * d.val = d.val; omega

/-- After point `n`, before the last, the accumulator's row `r` holds the sum of the row sums of blocks `0 … n`: by
    induction on the point. -/
theorem acc21_eq (c : Dev nD) (r : Fin 4096) (u : Fin 1) : ∀ (n : ℕ) (hn : n < cfg21.N) (h21 : n < 15),
    (outsAt21 V c n hn).2 (ix2 r u)
      = ∑ t : Fin (n + 1), blk21 (V c main_v358) (V c main_v359) r t.val (by have := t.isLt; omega)
  | 0, hn, h21 => by
    rw [outsAt21_A V c ⟨0, hn⟩ rfl (by dsimp only; omega)]
    dsimp only
    rw [soutA21_eq]
    refine (point21 V c ⟨0, hn⟩ (k21_pay1 (F := Ideal)) r u (by dsimp only; omega)).trans ?_
    rw [pay21_zero, zero_add, Fin.sum_univ_one]
    rfl
  | n + 1, hn, h21 => by
    have h0 : ¬(⟨n + 1, hn⟩ : Fin cfg21.N).val % 16 = 0 := by dsimp only; omega
    have h1 : ¬(⟨n + 1, hn⟩ : Fin cfg21.N).val % 16 = 15 := by dsimp only; omega
    rw [outsAt21_B V c ⟨n + 1, hn⟩ h0 h1]
    dsimp only
    rw [soutB21_eq]
    refine (point21 V c ⟨n + 1, hn⟩ _ r u (by dsimp only; omega)).trans ?_
    rw [Fin.sum_univ_castSucc]
    refine congrArg₂ (fun a b : EReal => a + b) ?_ rfl
    exact acc21_eq c r u n (Nat.lt_of_succ_lt hn) (by omega)

/-- After the last point the output's buffer holds, in row `r`, the sum over all 4096 columns. -/
theorem out21_last (c : Dev nD) (t : Fin cfg21.N) (ht : t.val % 16 = 15) (r : Fin 4096) (u : Fin 1) :
    (outsAt21 V c t.val t.isLt).1 (ix2 r u) = ∑ j : Fin 4096, ex21 (V c main_v358) (V c main_v359) r j := by
  have hN : cfg21.N = 16 := N_21
  obtain ⟨n, hn⟩ := t
  obtain rfl : n = 15 := by dsimp only at ht; omega
  have h0 : ¬(⟨15, hn⟩ : Fin cfg21.N).val % 16 = 0 := by dsimp only; omega
  rw [outsAt21_C V c ⟨15, hn⟩ h0 ht]
  dsimp only
  rw [outC21_eq]
  refine (point21 V c ⟨15, hn⟩ _ r u (by dsimp only; omega)).trans ?_
  have hacc := acc21_eq V c r u 14 (by omega) (by decide)
  refine Eq.trans ?_ (Cert.Math.sum_fin_mul 16 256 (fun j : Fin 4096 => ex21 (V c main_v358) (V c main_v359) r j)).symm
  rw [Fin.sum_univ_castSucc]
  refine congrArg₂ (fun a b : EReal => a + b) ?_ rfl
  exact hacc

/-! ## From the last point to the array -/

/-- What the result column ends holding: in row `r` the sum over the 4096 columns `j` of `exp ((A · Bᵀ) (r, j) / 1)`. -/
def col21 (A B : FVec Ideal S4096x128 .f32) : FVec Ideal S4096x1 .f32 :=
  fun i => ∑ j : Fin 4096, ex21 A B ⟨(i 0).val, idx2_lt0 i⟩ j

/-- A buffer that holds those sums row by row is `col21`, read at an index with the same row. -/
theorem col21_of (A B : FVec Ideal S4096x128 .f32) (o : Vec Ideal S4096x1 .f32) (y i : S4096x1.Idx)
    (ho : ∀ (r : Fin 4096) (u : Fin 1), o (ix2 r u) = ∑ j : Fin 4096, ex21 A B r j) (hi : (i 0).val = (y 0).val) :
    o y = col21 A B i := by
  obtain ⟨r, u, rfl⟩ : ∃ (r : Fin 4096) (u : Fin 1), y = ix2 r u := ⟨y 0, y 1, eq_ix2 y⟩
  rw [ho]
  unfold col21
  have e : (⟨(i 0).val, idx2_lt0 i⟩ : Fin 4096) = r := Fin.ext hi
  rw [e]

/-- The one write-back, at the last point, writes `col21` of the two arrays as the region finds them. -/
theorem flushed21_eq (c : Dev nD) (t : Fin cfg21.N) (hf : (cfg21.win 2).flush t = true) :
    (dat21 (F := Ideal) V c).flushed 2 t
      = ((cfg21.win 2).blk t).view.read (Elt Ideal) (col21 (V c main_v358) (V c main_v359)) := by
  have ht : t.val % 16 = 15 := (flush21_2 t).mp hf
  obtain ⟨e0, e1, e2, e3, e4, e5⟩ := rows21_facts t
  show (cfg21.win 2).cut (grid21.coords t) ((dat21 V c).after 2 t) = _
  rw [after21_2]
  funext j
  show (outsAt21 V c t.val t.isLt).1 j = col21 (V c main_v358) (V c main_v359) (((cfg21.win 2).blk t).view.emb j)
  refine col21_of (V c main_v358) (V c main_v359) (outsAt21 V c t.val t.isLt).1 j (((cfg21.win 2).blk t).view.emb j) (fun r u => out21_last V c t ht r u) ?_
  show win21_2.index t (0 : Fin 2) * 4096 + 1 * (j 0).val = (j 0).val
  omega

/-- An index of the result column is in point `t`'s block iff each coordinate is in the block's range on its axis. -/
theorem mem_rows21 (t : Fin cfg21.N) (i : S4096x1.Idx) :
    i ∈ ((cfg21.win 2).blk t).view.set ↔ ∀ a : Fin 2, win21_2.index t a * S4096x1.size a ≤ (i a).val ∧ (i a).val < win21_2.index t a * S4096x1.size a + S4096x1.size a := by
  show i ∈ ((View.whole main_v365).slice (win21_2.rect t)).set ↔ _
  rw [View.set_slice_whole, Rect.mem_set_unit]
  exact Iff.rfl

/-- The last point's block is the whole column. -/
theorem rows21_cover (i : S4096x1.Idx) :
    ∃ t : Fin cfg21.N, (cfg21.win 2).flush t = true ∧ i ∈ ((cfg21.win 2).blk t).view.set := by
  have hi0 : (i 0).val < 4096 := idx2_lt0 i
  have hi1 : (i 1).val < 1 := idx2_lt1 i
  have hN : grid21.N = 16 := N_21
  have ht : 15 < grid21.N := by rw [hN]; omega
  obtain ⟨e0, e1, e2, e3, e4, e5⟩ := rows21_facts ⟨15, ht⟩
  refine ⟨⟨15, ht⟩, (flush21_2 ⟨15, ht⟩).mpr rfl, ?_⟩
  rw [mem_rows21]
  intro a
  match a with
  | ⟨0, _⟩ => show win21_2.index ⟨15, ht⟩ (0 : Fin 2) * 4096 ≤ (i 0).val ∧ (i 0).val < win21_2.index ⟨15, ht⟩ (0 : Fin 2) * 4096 + 4096; omega
  | ⟨1, _⟩ => show win21_2.index ⟨15, ht⟩ (1 : Fin 2) * 1 ≤ (i 1).val ∧ (i 1).val < win21_2.index ⟨15, ht⟩ (1 : Fin 2) * 1 + 1; omega

/-- The result column after the region: the row sums of `exp (g · hᵀ / 1)` of the two input arrays as the region finds them. -/
theorem val21 (c : Dev nD) :
    (dat21 (F := Ideal) V c).arrAt 2 cfg21.N = col21 (V c main_v358) (V c main_v359) :=
  (dat21 (F := Ideal) V c).arrAt_eq_of_cover 2 (col21 (V c main_v358) (V c main_v359)) (fun t hf => flushed21_eq V c t hf) rows21_cover

/-- Division by the float one is the identity on the extended reals. -/
theorem div_one21 (x : EReal) : Ideal.div x (Ideal.ofBits .f32 0x3F800000#32) = x := by
  rw [Ideal.ofBits_one_f32]
  unfold Ideal.div
  rw [if_neg one_ne_zero, inv_one, mul_one]

/-- Entry by entry, with the division by one removed (`A`, `B`: the two input arrays as the region finds them). -/
theorem val21_apply (c : Dev nD) (A B : FVec Ideal S4096x128 .f32) (hA : V c main_v358 = A) (hB : V c main_v359 = B)
    (r : Fin 4096) (u : Fin 1) :
    (dat21 (F := Ideal) V c).arrAt 2 cfg21.N (ix2 r u)
      = ∑ j : Fin 4096, Ideal.exp (∑ d : Fin 128, A (ix2 r d) * B (ix2 j d)) := by
  rw [val21, hA, hB]
  show ∑ j : Fin 4096, ex21 A B r j = _
  exact Finset.sum_congr rfl fun j _ => congrArg Ideal.exp (div_one21 _)

/-! ## The host's form -/

/-- The left array's index at output index `i` and contraction position `q`: the output's row, -/
theorem hlhs21_0 (i : Cert.ReferenceIdeal.S4096x4096.Idx) (q : Cert.ReferenceIdeal.dot_S4096x128_S128x4096_S4096x4096_1_0_0_1_n_n.contr.Idx) :
    (Cert.ReferenceIdeal.dot_S4096x128_S128x4096_S4096x4096_1_0_0_1_n_n.lhsIdx i q 0).val = (i 0).val := by
  unfold DotDims.lhsIdx
  rw [dif_neg (show ¬(0 : Fin Cert.ReferenceIdeal.S4096x128.rank) ∈ Cert.ReferenceIdeal.dot_S4096x128_S128x4096_S4096x4096_1_0_0_1_n_n.lhsBatch by decide), dif_pos (show (0 : Fin Cert.ReferenceIdeal.S4096x128.rank) ∈ Cert.ReferenceIdeal.dot_S4096x128_S128x4096_S4096x4096_1_0_0_1_n_n.lhsNonContracting by decide)]
  rfl
/-- and the contraction position. -/
theorem hlhs21_1 (i : Cert.ReferenceIdeal.S4096x4096.Idx) (q : Cert.ReferenceIdeal.dot_S4096x128_S128x4096_S4096x4096_1_0_0_1_n_n.contr.Idx) :
    (Cert.ReferenceIdeal.dot_S4096x128_S128x4096_S4096x4096_1_0_0_1_n_n.lhsIdx i q 1).val = (q ⟨0, by decide⟩).val :=
  Cert.ReferenceIdeal.dot_S4096x128_S128x4096_S4096x4096_1_0_0_1_n_n.lhsIdx_val_of_single rfl i q
/-- The right array's: the contraction position, -/
theorem hrhs21_0 (i : Cert.ReferenceIdeal.S4096x4096.Idx) (q : Cert.ReferenceIdeal.dot_S4096x128_S128x4096_S4096x4096_1_0_0_1_n_n.contr.Idx) :
    (Cert.ReferenceIdeal.dot_S4096x128_S128x4096_S4096x4096_1_0_0_1_n_n.rhsIdx i q 0).val = (q ⟨0, by decide⟩).val :=
  Cert.ReferenceIdeal.dot_S4096x128_S128x4096_S4096x4096_1_0_0_1_n_n.rhsIdx_val_of_single rfl i q
/-- and the output's column. -/
theorem hrhs21_1 (i : Cert.ReferenceIdeal.S4096x4096.Idx) (q : Cert.ReferenceIdeal.dot_S4096x128_S128x4096_S4096x4096_1_0_0_1_n_n.contr.Idx) :
    (Cert.ReferenceIdeal.dot_S4096x128_S128x4096_S4096x4096_1_0_0_1_n_n.rhsIdx i q 1).val = (i 1).val := by
  unfold DotDims.rhsIdx
  rw [dif_neg (show ¬(1 : Fin Cert.ReferenceIdeal.S128x4096.rank) ∈ Cert.ReferenceIdeal.dot_S4096x128_S128x4096_S4096x4096_1_0_0_1_n_n.rhsBatch by decide), dif_pos (show (1 : Fin Cert.ReferenceIdeal.S128x4096.rank) ∈ Cert.ReferenceIdeal.dot_S4096x128_S128x4096_S4096x4096_1_0_0_1_n_n.rhsNonContracting by decide)]
  rfl

/-- The host's product of a [4096,128] array and a [128,4096] array at an index in row `r`, column `s`: the sum over the
    contracted axis. -/
theorem hostmm21_apply (a : FVec Ideal S4096x128 .f32) (b : FVec Ideal Cert.ReferenceIdeal.S128x4096 .f32) (i : Cert.ReferenceIdeal.S4096x4096.Idx)
    (r s : Fin 4096) (hi0 : (i 0).val = r.val) (hi1 : (i 1).val = s.val) :
    Host.dotGeneral (F := Ideal) Cert.ReferenceIdeal.dot_S4096x128_S128x4096_S4096x4096_1_0_0_1_n_n none a b i = ∑ d : Fin 128, a (ix2 r d) * b (ix2 d s) := by
  simp only [Host.dotGeneral]
  rw [Ideal.dotGeneral_apply, ← Equiv.sum_comp (contrEquiv1 Cert.ReferenceIdeal.dot_S4096x128_S128x4096_S4096x4096_1_0_0_1_n_n 128 rfl rfl).symm]
  refine Finset.sum_congr rfl fun k _ => ?_
  have hk := contrEquiv1_symm_val Cert.ReferenceIdeal.dot_S4096x128_S128x4096_S4096x4096_1_0_0_1_n_n 128 rfl rfl k
  have el : Cert.ReferenceIdeal.dot_S4096x128_S128x4096_S4096x4096_1_0_0_1_n_n.lhsIdx i ((contrEquiv1 Cert.ReferenceIdeal.dot_S4096x128_S128x4096_S4096x4096_1_0_0_1_n_n 128 rfl rfl).symm k) = ix2 r k := funext fun a => Fin.ext (by
    match a with
    | ⟨0, _⟩ => exact (hlhs21_0 _ _).trans hi0
    | ⟨1, _⟩ => exact (hlhs21_1 _ _).trans hk)
  have er : Cert.ReferenceIdeal.dot_S4096x128_S128x4096_S4096x4096_1_0_0_1_n_n.rhsIdx i ((contrEquiv1 Cert.ReferenceIdeal.dot_S4096x128_S128x4096_S4096x4096_1_0_0_1_n_n 128 rfl rfl).symm k) = ix2 k s := funext fun a => Fin.ext (by
    match a with
    | ⟨0, _⟩ => exact (hrhs21_0 _ _).trans hk
    | ⟨1, _⟩ => exact (hrhs21_1 _ _).trans hi1)
  rw [el, er]

/-- The host's term — the product with the transposed right array, divided by the float one entry by entry, its
    exponential, summed over the columns from zero — at row `r`. -/
theorem host21_apply (g h : FVec Ideal S4096x128 .f32) (r : Fin 4096) :
    (Host.reduceAdd (F := Ideal) (Host.exp (Host.divf (Host.dotGeneral (F := Ideal) (φ₁ := .f32) (φ₂ := .f32) Cert.ReferenceIdeal.dot_S4096x128_S128x4096_S4096x4096_1_0_0_1_n_n none g (transpose Cert.ReferenceIdeal.S128x4096 [1, 0] h Cert.ReferenceIdeal.Facts₀.transposes_S4096x128_S128x4096_1_0)) (broadcastInDim Cert.ReferenceIdeal.S4096x4096 ![] Cert.ReferenceIdeal.Facts₀.bcast_S_S4096x4096 (constant (F := Ideal) Cert.ReferenceIdeal.S_ .f32 0x3F800000#32)))) (constant (F := Ideal) Cert.ReferenceIdeal.S_ .f32 0x00000000#32) Cert.ReferenceIdeal.Facts₀.reducesTo_S4096x4096_S4096_d1 Cert.ReferenceIdeal.Facts₀.h_S_) (ix1 r) = ∑ j : Fin 4096, ex21 g h r j := by
  have hR : Cert.ReferenceIdeal.S4096x4096.Reduces [1] Cert.ReferenceIdeal.S4096 := by decide
  refine (hostReduceAdd_apply _ _ _ _ (ix1 r)).trans ((Ideal.hostReduceAdd_single Cert.ReferenceIdeal.Facts₀.reducesTo_S4096x4096_S4096_d1 hR _ _ (ix1 r)).trans ?_)
  show Ideal.ofBits .f32 0x00000000#32 + ∑ k : Fin 4096, _ = _
  rw [Ideal.ofBits_zero_f32, zero_add]
  refine Finset.sum_congr rfl fun k _ => ?_
  have hm := hostmm21_apply g (transpose Cert.ReferenceIdeal.S128x4096 [1, 0] h Cert.ReferenceIdeal.Facts₀.transposes_S4096x128_S128x4096_1_0) (hR.lift (ix1 r) k) r k rfl rfl
  refine (congrArg (fun z : EReal => Ideal.exp (Ideal.div z (Ideal.ofBits .f32 0x3F800000#32))) hm).trans ?_
  unfold ex21
  refine congrArg (fun z : EReal => Ideal.exp (Ideal.div z (Ideal.ofBits .f32 0x3F800000#32))) (Finset.sum_congr rfl fun d _ => ?_)
  rw [transpose_ix2_apply]

/-- The result column cast to a vector is the host's term of the two input arrays as the region finds them. -/
theorem val21_host (c : Dev nD) (hc : S4096x1.ShapeCasts S4096) :
    shapeCast S4096 ((dat21 (F := Ideal) V c).arrAt 2 cfg21.N) hc
      = Host.reduceAdd (F := Ideal) (Host.exp (Host.divf (Host.dotGeneral (F := Ideal) (φ₁ := .f32) (φ₂ := .f32) Cert.ReferenceIdeal.dot_S4096x128_S128x4096_S4096x4096_1_0_0_1_n_n none (V c main_v358) (transpose Cert.ReferenceIdeal.S128x4096 [1, 0] (V c main_v359) Cert.ReferenceIdeal.Facts₀.transposes_S4096x128_S128x4096_1_0)) (broadcastInDim Cert.ReferenceIdeal.S4096x4096 ![] Cert.ReferenceIdeal.Facts₀.bcast_S_S4096x4096 (constant (F := Ideal) Cert.ReferenceIdeal.S_ .f32 0x3F800000#32)))) (constant (F := Ideal) Cert.ReferenceIdeal.S_ .f32 0x00000000#32) Cert.ReferenceIdeal.Facts₀.reducesTo_S4096x4096_S4096_d1 Cert.ReferenceIdeal.Facts₀.h_S_ := by
  funext i
  obtain ⟨r, rfl⟩ : ∃ r : Fin 4096, i = ix1 r := ⟨i 0, eq_ix1 i⟩
  rw [host21_apply]
  refine (rowCast21_apply _ hc r).trans ?_
  rw [val21]
  rfl

end Cert.KernelIdeal.Fr

end
-- ==== Proof.KI.KEqSsl.lean ====
import proofs.«126270_j6725918785969_1_alg».proof.Proof.KI.KEqBase
import proofs.«126270_j6725918785969_1_alg».proof.Proof.KI.KEq5
import proofs.«126270_j6725918785969_1_alg».proof.Proof.KI.KEq6
import proofs.«126270_j6725918785969_1_alg».proof.Proof.KI.KEq7
import proofs.«126270_j6725918785969_1_alg».proof.Proof.KI.KEq8
import proofs.«126270_j6725918785969_1_alg».proof.Proof.KI.Val15
import proofs.«126270_j6725918785969_1_alg».proof.Proof.KI.Val17
import proofs.«126270_j6725918785969_1_alg».proof.Proof.KI.Val19
import proofs.«126270_j6725918785969_1_alg».proof.Proof.KI.Val21

/-!
# The row sums of exponentials, read after the reshape that follows their region

Each of these four regions leaves a column `f32[4096, 1]`; the next host operation reads it as the vector
`f32[4096]`, and that vector is the host-level composite `Σ_j exp ((g · hᵀ) / 1)` of the region's two input arrays.
-/

set_option maxRecDepth 16384

noncomputable section

namespace Cert.KernelIdeal.Fr

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

theorem kqs_main_v237 : Wc60 m c main_v237 = Host.reduceAdd (F := Ideal) (Host.exp (Host.divf (Host.dotGeneral (F := Ideal) (φ₁ := .f32) (φ₂ := .f32) Cert.ReferenceIdeal.dot_S4096x128_S128x4096_S4096x4096_1_0_0_1_n_n none (Wc60 m c main_v229) (transpose Cert.ReferenceIdeal.S128x4096 [1, 0] (Wc60 m c main_v230) Cert.ReferenceIdeal.Facts₀.transposes_S4096x128_S128x4096_1_0)) (broadcastInDim Cert.ReferenceIdeal.S4096x4096 ![] Cert.ReferenceIdeal.Facts₀.bcast_S_S4096x4096 (constant (F := Ideal) Cert.ReferenceIdeal.S_ .f32 0x3F800000#32)))) (constant (F := Ideal) Cert.ReferenceIdeal.S_ .f32 0x00000000#32) Cert.ReferenceIdeal.Facts₀.reducesTo_S4096x4096_S4096_d1 Cert.ReferenceIdeal.Facts₀.h_S_ := by
  rw [kq_main_v237 m c, liftK_35 m c main_v236 (by decide), Wc35_out m c, liftK_34 m c main_v229 (by decide), liftK_34 m c main_v230 (by decide)]
  exact val15_host (Vc34 m) c _

theorem kqs_main_v280 : Wc60 m c main_v280 = Host.reduceAdd (F := Ideal) (Host.exp (Host.divf (Host.dotGeneral (F := Ideal) (φ₁ := .f32) (φ₂ := .f32) Cert.ReferenceIdeal.dot_S4096x128_S128x4096_S4096x4096_1_0_0_1_n_n none (Wc60 m c main_v272) (transpose Cert.ReferenceIdeal.S128x4096 [1, 0] (Wc60 m c main_v273) Cert.ReferenceIdeal.Facts₀.transposes_S4096x128_S128x4096_1_0)) (broadcastInDim Cert.ReferenceIdeal.S4096x4096 ![] Cert.ReferenceIdeal.Facts₀.bcast_S_S4096x4096 (constant (F := Ideal) Cert.ReferenceIdeal.S_ .f32 0x3F800000#32)))) (constant (F := Ideal) Cert.ReferenceIdeal.S_ .f32 0x00000000#32) Cert.ReferenceIdeal.Facts₀.reducesTo_S4096x4096_S4096_d1 Cert.ReferenceIdeal.Facts₀.h_S_ := by
  rw [kq_main_v280 m c, liftK_43 m c main_v279 (by decide), Wc43_out m c, liftK_42 m c main_v272 (by decide), liftK_42 m c main_v273 (by decide)]
  exact val17_host (Vc42 m) c _

theorem kqs_main_v323 : Wc60 m c main_v323 = Host.reduceAdd (F := Ideal) (Host.exp (Host.divf (Host.dotGeneral (F := Ideal) (φ₁ := .f32) (φ₂ := .f32) Cert.ReferenceIdeal.dot_S4096x128_S128x4096_S4096x4096_1_0_0_1_n_n none (Wc60 m c main_v315) (transpose Cert.ReferenceIdeal.S128x4096 [1, 0] (Wc60 m c main_v316) Cert.ReferenceIdeal.Facts₀.transposes_S4096x128_S128x4096_1_0)) (broadcastInDim Cert.ReferenceIdeal.S4096x4096 ![] Cert.ReferenceIdeal.Facts₀.bcast_S_S4096x4096 (constant (F := Ideal) Cert.ReferenceIdeal.S_ .f32 0x3F800000#32)))) (constant (F := Ideal) Cert.ReferenceIdeal.S_ .f32 0x00000000#32) Cert.ReferenceIdeal.Facts₀.reducesTo_S4096x4096_S4096_d1 Cert.ReferenceIdeal.Facts₀.h_S_ := by
  rw [kq_main_v323 m c, liftK_51 m c main_v322 (by decide), Wc51_out m c, liftK_50 m c main_v315 (by decide), liftK_50 m c main_v316 (by decide)]
  exact val19_host (Vc50 m) c _

theorem kqs_main_v366 : Wc60 m c main_v366 = Host.reduceAdd (F := Ideal) (Host.exp (Host.divf (Host.dotGeneral (F := Ideal) (φ₁ := .f32) (φ₂ := .f32) Cert.ReferenceIdeal.dot_S4096x128_S128x4096_S4096x4096_1_0_0_1_n_n none (Wc60 m c main_v358) (transpose Cert.ReferenceIdeal.S128x4096 [1, 0] (Wc60 m c main_v359) Cert.ReferenceIdeal.Facts₀.transposes_S4096x128_S128x4096_1_0)) (broadcastInDim Cert.ReferenceIdeal.S4096x4096 ![] Cert.ReferenceIdeal.Facts₀.bcast_S_S4096x4096 (constant (F := Ideal) Cert.ReferenceIdeal.S_ .f32 0x3F800000#32)))) (constant (F := Ideal) Cert.ReferenceIdeal.S_ .f32 0x00000000#32) Cert.ReferenceIdeal.Facts₀.reducesTo_S4096x4096_S4096_d1 Cert.ReferenceIdeal.Facts₀.h_S_ := by
  rw [kq_main_v366 m c, liftK_59 m c main_v365 (by decide), Wc59_out m c, liftK_58 m c main_v358 (by decide), liftK_58 m c main_v359 (by decide)]
  exact val21_host (Vc58 m) c _

end Cert.KernelIdeal.Fr

end
-- ==== Proof.KI.KNReg.lean ====
import proofs.«126270_j6725918785969_1_alg».proof.Proof.KI.KNDefs
import proofs.«126270_j6725918785969_1_alg».proof.Proof.KI.KEqReg
import proofs.«126270_j6725918785969_1_alg».proof.Proof.KI.KEqSsl

/-!
# The kernel program's regions as equations between plainly typed contents
-/

set_option maxRecDepth 16384

noncomputable section

namespace Cert.KernelIdeal.Fr

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

theorem nkq_main_v0 : nK_main_v0 m c = Host.dotGeneral (F := Ideal) (φ₁ := .f32) (φ₂ := .f32) Cert.ReferenceIdeal.dot_S100000x128_S128x128_S100000x128_1_0_0_1_n_n none (nK_main_arg5 m c) (nK_main_arg7 m c) := kq_main_v0 m c
theorem nkq_main_v1 : nK_main_v1 m c = Host.dotGeneral (F := Ideal) (φ₁ := .f32) (φ₂ := .f32) Cert.ReferenceIdeal.dot_S50000x128_S128x128_S50000x128_1_0_0_1_n_n none (nK_main_arg6 m c) (nK_main_arg8 m c) := kq_main_v1 m c
theorem nkq_main_v28 : nK_main_v28 m c = maximumf (F := Ideal) (mulf (F := Ideal) (broadcastInDim Cert.ReferenceIdeal.S100000x128 ![] Cert.ReferenceIdeal.Facts₀.bcast_S_S100000x128 (constant (F := Ideal) Cert.ReferenceIdeal.S_ .f32 0x3F000000#32)) (nK_main_v14 m c)) (nK_main_v14 m c) := kq_main_v28 m c
theorem nkq_main_v29 : nK_main_v29 m c = maximumf (F := Ideal) (mulf (F := Ideal) (broadcastInDim Cert.ReferenceIdeal.S50000x128 ![] Cert.ReferenceIdeal.Facts₀.bcast_S_S50000x128 (constant (F := Ideal) Cert.ReferenceIdeal.S_ .f32 0x3F000000#32)) (nK_main_v27 m c)) (nK_main_v27 m c) := kq_main_v29 m c
theorem nkq_main_v32 : nK_main_v32 m c = (maximumf (F := Ideal) (mulf (F := Ideal) (broadcastInDim Cert.ReferenceIdeal.S128x128 ![] Cert.ReferenceIdeal.Facts₀.bcast_S_S128x128 (constant (F := Ideal) Cert.ReferenceIdeal.S_ .f32 0x3F000000#32)) (Host.dotGeneral (F := Ideal) (φ₁ := .f32) (φ₂ := .f32) Cert.ReferenceIdeal.dot_S128x100000_S100000x128_S128x128_1_0_0_1_n_n none
        (transpose Cert.ReferenceIdeal.S128x100000 [1, 0] (nK_main_v0 m c) Cert.ReferenceIdeal.Facts₀.transposes_S100000x128_S128x100000_1_0) (nK_main_arg5 m c))) (Host.dotGeneral (F := Ideal) (φ₁ := .f32) (φ₂ := .f32) Cert.ReferenceIdeal.dot_S128x100000_S100000x128_S128x128_1_0_0_1_n_n none
        (transpose Cert.ReferenceIdeal.S128x100000 [1, 0] (nK_main_v0 m c) Cert.ReferenceIdeal.Facts₀.transposes_S100000x128_S128x100000_1_0) (nK_main_arg5 m c))) := kq_main_v32 m c
theorem nkq_main_v57 : nK_main_v57 m c = maximumf (F := Ideal) (mulf (F := Ideal) (broadcastInDim Cert.ReferenceIdeal.S100000x128 ![] Cert.ReferenceIdeal.Facts₀.bcast_S_S100000x128 (constant (F := Ideal) Cert.ReferenceIdeal.S_ .f32 0x3F000000#32)) (Host.dotGeneral (F := Ideal) (φ₁ := .f32) (φ₂ := .f32) Cert.ReferenceIdeal.dot_S100000x128_S128x128_S100000x128_1_0_0_1_n_n none (nK_main_v0 m c) (nK_main_v56 m c))) (Host.dotGeneral (F := Ideal) (φ₁ := .f32) (φ₂ := .f32) Cert.ReferenceIdeal.dot_S100000x128_S128x128_S100000x128_1_0_0_1_n_n none (nK_main_v0 m c) (nK_main_v56 m c)) := kq_main_v57 m c
theorem nkq_main_v60 : nK_main_v60 m c = (maximumf (F := Ideal) (mulf (F := Ideal) (broadcastInDim Cert.ReferenceIdeal.S128x128 ![] Cert.ReferenceIdeal.Facts₀.bcast_S_S128x128 (constant (F := Ideal) Cert.ReferenceIdeal.S_ .f32 0x3F000000#32)) (Host.dotGeneral (F := Ideal) (φ₁ := .f32) (φ₂ := .f32) Cert.ReferenceIdeal.dot_S128x50000_S50000x128_S128x128_1_0_0_1_n_n none
        (transpose Cert.ReferenceIdeal.S128x50000 [1, 0] (nK_main_v1 m c) Cert.ReferenceIdeal.Facts₀.transposes_S50000x128_S128x50000_1_0) (nK_main_arg6 m c))) (Host.dotGeneral (F := Ideal) (φ₁ := .f32) (φ₂ := .f32) Cert.ReferenceIdeal.dot_S128x50000_S50000x128_S128x128_1_0_0_1_n_n none
        (transpose Cert.ReferenceIdeal.S128x50000 [1, 0] (nK_main_v1 m c) Cert.ReferenceIdeal.Facts₀.transposes_S50000x128_S128x50000_1_0) (nK_main_arg6 m c))) := kq_main_v60 m c
theorem nkq_main_v85 : nK_main_v85 m c = maximumf (F := Ideal) (mulf (F := Ideal) (broadcastInDim Cert.ReferenceIdeal.S50000x128 ![] Cert.ReferenceIdeal.Facts₀.bcast_S_S50000x128 (constant (F := Ideal) Cert.ReferenceIdeal.S_ .f32 0x3F000000#32)) (Host.dotGeneral (F := Ideal) (φ₁ := .f32) (φ₂ := .f32) Cert.ReferenceIdeal.dot_S50000x128_S128x128_S50000x128_1_0_0_1_n_n none (nK_main_v1 m c) (nK_main_v84 m c))) (Host.dotGeneral (F := Ideal) (φ₁ := .f32) (φ₂ := .f32) Cert.ReferenceIdeal.dot_S50000x128_S128x128_S50000x128_1_0_0_1_n_n none (nK_main_v1 m c) (nK_main_v84 m c)) := kq_main_v85 m c
theorem nkq_main_v116 : nK_main_v116 m c = maximumf (F := Ideal) (mulf (F := Ideal) (broadcastInDim Cert.ReferenceIdeal.S100000x128 ![] Cert.ReferenceIdeal.Facts₀.bcast_S_S100000x128 (constant (F := Ideal) Cert.ReferenceIdeal.S_ .f32 0x3F000000#32)) (nK_main_v102 m c)) (nK_main_v102 m c) := kq_main_v116 m c
theorem nkq_main_v117 : nK_main_v117 m c = maximumf (F := Ideal) (mulf (F := Ideal) (broadcastInDim Cert.ReferenceIdeal.S50000x128 ![] Cert.ReferenceIdeal.Facts₀.bcast_S_S50000x128 (constant (F := Ideal) Cert.ReferenceIdeal.S_ .f32 0x3F000000#32)) (nK_main_v115 m c)) (nK_main_v115 m c) := kq_main_v117 m c
theorem nkq_main_v120 : nK_main_v120 m c = (maximumf (F := Ideal) (mulf (F := Ideal) (broadcastInDim Cert.ReferenceIdeal.S128x128 ![] Cert.ReferenceIdeal.Facts₀.bcast_S_S128x128 (constant (F := Ideal) Cert.ReferenceIdeal.S_ .f32 0x3F000000#32)) (Host.dotGeneral (F := Ideal) (φ₁ := .f32) (φ₂ := .f32) Cert.ReferenceIdeal.dot_S128x100000_S100000x128_S128x128_1_0_0_1_n_n none
        (transpose Cert.ReferenceIdeal.S128x100000 [1, 0] (nK_main_v0 m c) Cert.ReferenceIdeal.Facts₀.transposes_S100000x128_S128x100000_1_0) (nK_main_v87 m c))) (Host.dotGeneral (F := Ideal) (φ₁ := .f32) (φ₂ := .f32) Cert.ReferenceIdeal.dot_S128x100000_S100000x128_S128x128_1_0_0_1_n_n none
        (transpose Cert.ReferenceIdeal.S128x100000 [1, 0] (nK_main_v0 m c) Cert.ReferenceIdeal.Facts₀.transposes_S100000x128_S128x100000_1_0) (nK_main_v87 m c))) := kq_main_v120 m c
theorem nkq_main_v145 : nK_main_v145 m c = maximumf (F := Ideal) (mulf (F := Ideal) (broadcastInDim Cert.ReferenceIdeal.S100000x128 ![] Cert.ReferenceIdeal.Facts₀.bcast_S_S100000x128 (constant (F := Ideal) Cert.ReferenceIdeal.S_ .f32 0x3F000000#32)) (Host.dotGeneral (F := Ideal) (φ₁ := .f32) (φ₂ := .f32) Cert.ReferenceIdeal.dot_S100000x128_S128x128_S100000x128_1_0_0_1_n_n none (nK_main_v0 m c) (nK_main_v144 m c))) (Host.dotGeneral (F := Ideal) (φ₁ := .f32) (φ₂ := .f32) Cert.ReferenceIdeal.dot_S100000x128_S128x128_S100000x128_1_0_0_1_n_n none (nK_main_v0 m c) (nK_main_v144 m c)) := kq_main_v145 m c
theorem nkq_main_v148 : nK_main_v148 m c = (maximumf (F := Ideal) (mulf (F := Ideal) (broadcastInDim Cert.ReferenceIdeal.S128x128 ![] Cert.ReferenceIdeal.Facts₀.bcast_S_S128x128 (constant (F := Ideal) Cert.ReferenceIdeal.S_ .f32 0x3F000000#32)) (Host.dotGeneral (F := Ideal) (φ₁ := .f32) (φ₂ := .f32) Cert.ReferenceIdeal.dot_S128x50000_S50000x128_S128x128_1_0_0_1_n_n none
        (transpose Cert.ReferenceIdeal.S128x50000 [1, 0] (nK_main_v1 m c) Cert.ReferenceIdeal.Facts₀.transposes_S50000x128_S128x50000_1_0) (nK_main_v89 m c))) (Host.dotGeneral (F := Ideal) (φ₁ := .f32) (φ₂ := .f32) Cert.ReferenceIdeal.dot_S128x50000_S50000x128_S128x128_1_0_0_1_n_n none
        (transpose Cert.ReferenceIdeal.S128x50000 [1, 0] (nK_main_v1 m c) Cert.ReferenceIdeal.Facts₀.transposes_S50000x128_S128x50000_1_0) (nK_main_v89 m c))) := kq_main_v148 m c
theorem nkq_main_v173 : nK_main_v173 m c = maximumf (F := Ideal) (mulf (F := Ideal) (broadcastInDim Cert.ReferenceIdeal.S50000x128 ![] Cert.ReferenceIdeal.Facts₀.bcast_S_S50000x128 (constant (F := Ideal) Cert.ReferenceIdeal.S_ .f32 0x3F000000#32)) (Host.dotGeneral (F := Ideal) (φ₁ := .f32) (φ₂ := .f32) Cert.ReferenceIdeal.dot_S50000x128_S128x128_S50000x128_1_0_0_1_n_n none (nK_main_v1 m c) (nK_main_v172 m c))) (Host.dotGeneral (F := Ideal) (φ₁ := .f32) (φ₂ := .f32) Cert.ReferenceIdeal.dot_S50000x128_S128x128_S50000x128_1_0_0_1_n_n none (nK_main_v1 m c) (nK_main_v172 m c)) := kq_main_v173 m c
theorem nkq_main_v230 : nK_main_v230 m c = Host.dotGeneral (F := Ideal) (φ₁ := .f32) (φ₂ := .f32) Cert.ReferenceIdeal.dot_S4096x128_S128x128_S4096x128_1_0_0_1_n_n none (nK_main_v224 m c) (nK_main_v219 m c) := kq_main_v230 m c
theorem nkqs_main_v237 : nK_main_v237 m c = Host.reduceAdd (F := Ideal) (Host.exp (Host.divf (Host.dotGeneral (F := Ideal) (φ₁ := .f32) (φ₂ := .f32) Cert.ReferenceIdeal.dot_S4096x128_S128x4096_S4096x4096_1_0_0_1_n_n none (nK_main_v229 m c) (transpose Cert.ReferenceIdeal.S128x4096 [1, 0] (nK_main_v230 m c) Cert.ReferenceIdeal.Facts₀.transposes_S4096x128_S128x4096_1_0)) (broadcastInDim Cert.ReferenceIdeal.S4096x4096 ![] Cert.ReferenceIdeal.Facts₀.bcast_S_S4096x4096 (constant (F := Ideal) Cert.ReferenceIdeal.S_ .f32 0x3F800000#32)))) (constant (F := Ideal) Cert.ReferenceIdeal.S_ .f32 0x00000000#32) Cert.ReferenceIdeal.Facts₀.reducesTo_S4096x4096_S4096_d1 Cert.ReferenceIdeal.Facts₀.h_S_ := kqs_main_v237 m c
theorem nkq_main_v273 : nK_main_v273 m c = Host.dotGeneral (F := Ideal) (φ₁ := .f32) (φ₂ := .f32) Cert.ReferenceIdeal.dot_S4096x128_S128x128_S4096x128_1_0_0_1_n_n none (nK_main_v267 m c) (nK_main_v262 m c) := kq_main_v273 m c
theorem nkqs_main_v280 : nK_main_v280 m c = Host.reduceAdd (F := Ideal) (Host.exp (Host.divf (Host.dotGeneral (F := Ideal) (φ₁ := .f32) (φ₂ := .f32) Cert.ReferenceIdeal.dot_S4096x128_S128x4096_S4096x4096_1_0_0_1_n_n none (nK_main_v272 m c) (transpose Cert.ReferenceIdeal.S128x4096 [1, 0] (nK_main_v273 m c) Cert.ReferenceIdeal.Facts₀.transposes_S4096x128_S128x4096_1_0)) (broadcastInDim Cert.ReferenceIdeal.S4096x4096 ![] Cert.ReferenceIdeal.Facts₀.bcast_S_S4096x4096 (constant (F := Ideal) Cert.ReferenceIdeal.S_ .f32 0x3F800000#32)))) (constant (F := Ideal) Cert.ReferenceIdeal.S_ .f32 0x00000000#32) Cert.ReferenceIdeal.Facts₀.reducesTo_S4096x4096_S4096_d1 Cert.ReferenceIdeal.Facts₀.h_S_ := kqs_main_v280 m c
theorem nkq_main_v316 : nK_main_v316 m c = Host.dotGeneral (F := Ideal) (φ₁ := .f32) (φ₂ := .f32) Cert.ReferenceIdeal.dot_S4096x128_S128x128_S4096x128_1_0_0_1_n_n none (nK_main_v310 m c) (nK_main_v305 m c) := kq_main_v316 m c
theorem nkqs_main_v323 : nK_main_v323 m c = Host.reduceAdd (F := Ideal) (Host.exp (Host.divf (Host.dotGeneral (F := Ideal) (φ₁ := .f32) (φ₂ := .f32) Cert.ReferenceIdeal.dot_S4096x128_S128x4096_S4096x4096_1_0_0_1_n_n none (nK_main_v315 m c) (transpose Cert.ReferenceIdeal.S128x4096 [1, 0] (nK_main_v316 m c) Cert.ReferenceIdeal.Facts₀.transposes_S4096x128_S128x4096_1_0)) (broadcastInDim Cert.ReferenceIdeal.S4096x4096 ![] Cert.ReferenceIdeal.Facts₀.bcast_S_S4096x4096 (constant (F := Ideal) Cert.ReferenceIdeal.S_ .f32 0x3F800000#32)))) (constant (F := Ideal) Cert.ReferenceIdeal.S_ .f32 0x00000000#32) Cert.ReferenceIdeal.Facts₀.reducesTo_S4096x4096_S4096_d1 Cert.ReferenceIdeal.Facts₀.h_S_ := kqs_main_v323 m c
theorem nkq_main_v359 : nK_main_v359 m c = Host.dotGeneral (F := Ideal) (φ₁ := .f32) (φ₂ := .f32) Cert.ReferenceIdeal.dot_S4096x128_S128x128_S4096x128_1_0_0_1_n_n none (nK_main_v353 m c) (nK_main_v348 m c) := kq_main_v359 m c
theorem nkqs_main_v366 : nK_main_v366 m c = Host.reduceAdd (F := Ideal) (Host.exp (Host.divf (Host.dotGeneral (F := Ideal) (φ₁ := .f32) (φ₂ := .f32) Cert.ReferenceIdeal.dot_S4096x128_S128x4096_S4096x4096_1_0_0_1_n_n none (nK_main_v358 m c) (transpose Cert.ReferenceIdeal.S128x4096 [1, 0] (nK_main_v359 m c) Cert.ReferenceIdeal.Facts₀.transposes_S4096x128_S128x4096_1_0)) (broadcastInDim Cert.ReferenceIdeal.S4096x4096 ![] Cert.ReferenceIdeal.Facts₀.bcast_S_S4096x4096 (constant (F := Ideal) Cert.ReferenceIdeal.S_ .f32 0x3F800000#32)))) (constant (F := Ideal) Cert.ReferenceIdeal.S_ .f32 0x00000000#32) Cert.ReferenceIdeal.Facts₀.reducesTo_S4096x4096_S4096_d1 Cert.ReferenceIdeal.Facts₀.h_S_ := kqs_main_v366 m c

end Cert.KernelIdeal.Fr

end
-- ==== Proof.Ref.REq0.lean ====
import proofs.«126270_j6725918785969_1_alg».proof.Proof.Ref.REqBase

/-!
# The reference's host operations, each as an equation between final buffer contents (window 0)
-/

set_option maxRecDepth 16384

noncomputable section

namespace Cert.ReferenceIdeal.RefRun

open Cert.ReferenceIdeal Cert.ReferenceIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

def rq_main_v0 := lift_binary (liftR_0 m c main_v0 (by decide)) (liftR_0 m c main_arg5 (by decide)) (liftR_0 m c main_arg7 (by decide)) (eq_binary lateR_0 (rfl : Wr0 m c = after ops0 (Wr_init m c)) 0 _ _ _ _ rfl (by decide) (by decide) (by decide))
def rq_main_v1 := lift_binary (liftR_0 m c main_v1 (by decide)) (liftR_0 m c main_arg6 (by decide)) (liftR_0 m c main_arg8 (by decide)) (eq_binary lateR_0 (rfl : Wr0 m c = after ops0 (Wr_init m c)) 1 _ _ _ _ rfl (by decide) (by decide) (by decide))
def rq_main_v2 := lift_unary (liftR_0 m c main_v2 (by decide)) (liftR_0 m c main_arg4 (by decide)) (eq_unary lateR_0 (rfl : Wr0 m c = after ops0 (Wr_init m c)) 2 _ _ _ rfl (by decide) (by decide))
def rq_main_c := lift_nullary (liftR_0 m c main_c (by decide)) (eq_nullary lateR_0 (rfl : Wr0 m c = after ops0 (Wr_init m c)) 3 _ _ rfl (by decide))
def rq_main_v3 := lift_unary (liftR_0 m c main_v3 (by decide)) (liftR_0 m c main_c (by decide)) (eq_unary lateR_0 (rfl : Wr0 m c = after ops0 (Wr_init m c)) 4 _ _ _ rfl (by decide) (by decide))
def rq_main_v4 := lift_binary (liftR_0 m c main_v4 (by decide)) (liftR_0 m c main_arg3 (by decide)) (liftR_0 m c main_v3 (by decide)) (eq_binary lateR_0 (rfl : Wr0 m c = after ops0 (Wr_init m c)) 5 _ _ _ _ rfl (by decide) (by decide) (by decide))
def rq_main_c_0 := lift_nullary (liftR_0 m c main_c_0 (by decide)) (eq_nullary lateR_0 (rfl : Wr0 m c = after ops0 (Wr_init m c)) 6 _ _ rfl (by decide))
def rq_main_v5 := lift_unary (liftR_0 m c main_v5 (by decide)) (liftR_0 m c main_c_0 (by decide)) (eq_unary lateR_0 (rfl : Wr0 m c = after ops0 (Wr_init m c)) 7 _ _ _ rfl (by decide) (by decide))
def rq_main_v6 := lift_binary (liftR_0 m c main_v6 (by decide)) (liftR_0 m c main_arg3 (by decide)) (liftR_0 m c main_v5 (by decide)) (eq_binary lateR_0 (rfl : Wr0 m c = after ops0 (Wr_init m c)) 8 _ _ _ _ rfl (by decide) (by decide) (by decide))
def rq_main_v7 := lift_ternary (liftR_0 m c main_v7 (by decide)) (liftR_0 m c main_v4 (by decide)) (liftR_0 m c main_v6 (by decide)) (liftR_0 m c main_arg3 (by decide)) (eq_ternary lateR_0 (rfl : Wr0 m c = after ops0 (Wr_init m c)) 9 _ _ _ _ _ rfl (by decide) (by decide) (by decide) (by decide))
def rq_main_v8 := lift_unary (liftR_0 m c main_v8 (by decide)) (liftR_0 m c main_v7 (by decide)) (eq_unary lateR_0 (rfl : Wr0 m c = after ops0 (Wr_init m c)) 10 _ _ _ rfl (by decide) (by decide))
def rq_main_v9 := lift_binary (liftR_0 m c main_v9 (by decide)) (liftR_0 m c main_arg6 (by decide)) (liftR_0 m c main_v8 (by decide)) (eq_binary lateR_0 (rfl : Wr0 m c = after ops0 (Wr_init m c)) 11 _ _ _ _ rfl (by decide) (by decide) (by decide))
def rq_main_v10 := lift_unary (liftR_0 m c main_v10 (by decide)) (liftR_0 m c main_v2 (by decide)) (eq_unary lateR_0 (rfl : Wr0 m c = after ops0 (Wr_init m c)) 12 _ _ _ rfl (by decide) (by decide))
def rq_main_v11 := lift_binary (liftR_0 m c main_v11 (by decide)) (liftR_0 m c main_v10 (by decide)) (liftR_0 m c main_v9 (by decide)) (eq_binary lateR_0 (rfl : Wr0 m c = after ops0 (Wr_init m c)) 13 _ _ _ _ rfl (by decide) (by decide) (by decide))
def rq_main_cst := lift_nullary (liftR_0 m c main_cst (by decide)) (eq_nullary lateR_0 (rfl : Wr0 m c = after ops0 (Wr_init m c)) 14 _ _ rfl (by decide))
def rq_main_v12 := lift_unary (liftR_0 m c main_v12 (by decide)) (liftR_0 m c main_cst (by decide)) (eq_unary lateR_0 (rfl : Wr0 m c = after ops0 (Wr_init m c)) 15 _ _ _ rfl (by decide) (by decide))
def rq_main_v13 := lift_unary (liftR_0 m c main_v13 (by decide)) (liftR_0 m c main_arg2 (by decide)) (eq_unary lateR_0 (rfl : Wr0 m c = after ops0 (Wr_init m c)) 16 _ _ _ rfl (by decide) (by decide))
def rq_main_v14 := lift_ternary (liftR_0 m c main_v14 (by decide)) (liftR_0 m c main_v12 (by decide)) (liftR_0 m c main_v13 (by decide)) (liftR_0 m c main_v11 (by decide)) (eq_ternary lateR_0 (rfl : Wr0 m c = after ops0 (Wr_init m c)) 17 _ _ _ _ _ rfl (by decide) (by decide) (by decide) (by decide))
def rq_main_cst_1 := lift_nullary (liftR_0 m c main_cst_1 (by decide)) (eq_nullary lateR_0 (rfl : Wr0 m c = after ops0 (Wr_init m c)) 18 _ _ rfl (by decide))
def rq_main_v15 := lift_unary (liftR_0 m c main_v15 (by decide)) (liftR_0 m c main_cst_1 (by decide)) (eq_unary lateR_0 (rfl : Wr0 m c = after ops0 (Wr_init m c)) 19 _ _ _ rfl (by decide) (by decide))
def rq_main_v16 := lift_binary (liftR_0 m c main_v16 (by decide)) (liftR_0 m c main_v15 (by decide)) (liftR_0 m c main_v14 (by decide)) (eq_binary lateR_0 (rfl : Wr0 m c = after ops0 (Wr_init m c)) 20 _ _ _ _ rfl (by decide) (by decide) (by decide))
def rq_main_v17 := lift_binary (liftR_0 m c main_v17 (by decide)) (liftR_0 m c main_v16 (by decide)) (liftR_0 m c main_v14 (by decide)) (eq_binary lateR_0 (rfl : Wr0 m c = after ops0 (Wr_init m c)) 21 _ _ _ _ rfl (by decide) (by decide) (by decide))
def rq_main_v18 := lift_unary (liftR_0 m c main_v18 (by decide)) (liftR_0 m c main_arg4 (by decide)) (eq_unary lateR_0 (rfl : Wr0 m c = after ops0 (Wr_init m c)) 22 _ _ _ rfl (by decide) (by decide))
def rq_main_c_2 := lift_nullary (liftR_0 m c main_c_2 (by decide)) (eq_nullary lateR_0 (rfl : Wr0 m c = after ops0 (Wr_init m c)) 23 _ _ rfl (by decide))
def rq_main_v19 := lift_unary (liftR_0 m c main_v19 (by decide)) (liftR_0 m c main_c_2 (by decide)) (eq_unary lateR_0 (rfl : Wr0 m c = after ops0 (Wr_init m c)) 24 _ _ _ rfl (by decide) (by decide))
def rq_main_v20 := lift_binary (liftR_0 m c main_v20 (by decide)) (liftR_0 m c main_arg2 (by decide)) (liftR_0 m c main_v19 (by decide)) (eq_binary lateR_0 (rfl : Wr0 m c = after ops0 (Wr_init m c)) 25 _ _ _ _ rfl (by decide) (by decide) (by decide))
def rq_main_c_3 := lift_nullary (liftR_0 m c main_c_3 (by decide)) (eq_nullary lateR_0 (rfl : Wr0 m c = after ops0 (Wr_init m c)) 26 _ _ rfl (by decide))
def rq_main_v21 := lift_unary (liftR_0 m c main_v21 (by decide)) (liftR_0 m c main_c_3 (by decide)) (eq_unary lateR_0 (rfl : Wr0 m c = after ops0 (Wr_init m c)) 27 _ _ _ rfl (by decide) (by decide))
def rq_main_v22 := lift_binary (liftR_0 m c main_v22 (by decide)) (liftR_0 m c main_arg2 (by decide)) (liftR_0 m c main_v21 (by decide)) (eq_binary lateR_0 (rfl : Wr0 m c = after ops0 (Wr_init m c)) 28 _ _ _ _ rfl (by decide) (by decide) (by decide))
def rq_main_v23 := lift_ternary (liftR_0 m c main_v23 (by decide)) (liftR_0 m c main_v20 (by decide)) (liftR_0 m c main_v22 (by decide)) (liftR_0 m c main_arg2 (by decide)) (eq_ternary lateR_0 (rfl : Wr0 m c = after ops0 (Wr_init m c)) 29 _ _ _ _ _ rfl (by decide) (by decide) (by decide) (by decide))
def rq_main_v24 := lift_unary (liftR_0 m c main_v24 (by decide)) (liftR_0 m c main_v23 (by decide)) (eq_unary lateR_0 (rfl : Wr0 m c = after ops0 (Wr_init m c)) 30 _ _ _ rfl (by decide) (by decide))
def rq_main_v25 := lift_binary (liftR_0 m c main_v25 (by decide)) (liftR_0 m c main_arg5 (by decide)) (liftR_0 m c main_v24 (by decide)) (eq_binary lateR_0 (rfl : Wr0 m c = after ops0 (Wr_init m c)) 31 _ _ _ _ rfl (by decide) (by decide) (by decide))
def rq_main_v26 := lift_unary (liftR_0 m c main_v26 (by decide)) (liftR_0 m c main_v18 (by decide)) (eq_unary lateR_0 (rfl : Wr0 m c = after ops0 (Wr_init m c)) 32 _ _ _ rfl (by decide) (by decide))
def rq_main_v27 := lift_binary (liftR_0 m c main_v27 (by decide)) (liftR_0 m c main_v26 (by decide)) (liftR_0 m c main_v25 (by decide)) (eq_binary lateR_0 (rfl : Wr0 m c = after ops0 (Wr_init m c)) 33 _ _ _ _ rfl (by decide) (by decide) (by decide))
def rq_main_cst_4 := lift_nullary (liftR_0 m c main_cst_4 (by decide)) (eq_nullary lateR_0 (rfl : Wr0 m c = after ops0 (Wr_init m c)) 34 _ _ rfl (by decide))
def rq_main_v28 := lift_unary (liftR_0 m c main_v28 (by decide)) (liftR_0 m c main_cst_4 (by decide)) (eq_unary lateR_0 (rfl : Wr0 m c = after ops0 (Wr_init m c)) 35 _ _ _ rfl (by decide) (by decide))
def rq_main_v29 := lift_unary (liftR_0 m c main_v29 (by decide)) (liftR_0 m c main_arg3 (by decide)) (eq_unary lateR_0 (rfl : Wr0 m c = after ops0 (Wr_init m c)) 36 _ _ _ rfl (by decide) (by decide))
def rq_main_v30 := lift_ternary (liftR_0 m c main_v30 (by decide)) (liftR_0 m c main_v28 (by decide)) (liftR_0 m c main_v29 (by decide)) (liftR_0 m c main_v27 (by decide)) (eq_ternary lateR_0 (rfl : Wr0 m c = after ops0 (Wr_init m c)) 37 _ _ _ _ _ rfl (by decide) (by decide) (by decide) (by decide))
def rq_main_cst_5 := lift_nullary (liftR_0 m c main_cst_5 (by decide)) (eq_nullary lateR_0 (rfl : Wr0 m c = after ops0 (Wr_init m c)) 38 _ _ rfl (by decide))
def rq_main_v31 := lift_unary (liftR_0 m c main_v31 (by decide)) (liftR_0 m c main_cst_5 (by decide)) (eq_unary lateR_0 (rfl : Wr0 m c = after ops0 (Wr_init m c)) 39 _ _ _ rfl (by decide) (by decide))
def rq_main_v32 := lift_binary (liftR_0 m c main_v32 (by decide)) (liftR_0 m c main_v31 (by decide)) (liftR_0 m c main_v30 (by decide)) (eq_binary lateR_0 (rfl : Wr0 m c = after ops0 (Wr_init m c)) 40 _ _ _ _ rfl (by decide) (by decide) (by decide))
def rq_main_v33 := lift_binary (liftR_0 m c main_v33 (by decide)) (liftR_0 m c main_v32 (by decide)) (liftR_0 m c main_v30 (by decide)) (eq_binary lateR_0 (rfl : Wr0 m c = after ops0 (Wr_init m c)) 41 _ _ _ _ rfl (by decide) (by decide) (by decide))
def rq_main_v34 := lift_unary (liftR_0 m c main_v34 (by decide)) (liftR_0 m c main_arg9 (by decide)) (eq_unary lateR_0 (rfl : Wr0 m c = after ops0 (Wr_init m c)) 42 _ _ _ rfl (by decide) (by decide))
def rq_main_v35 := lift_reshape (by rfl) _ (liftR_0 m c main_v35 (by decide)) (liftR_0 m c main_v34 (by decide)) (eq_reshape lateR_0 (rfl : Wr0 m c = after ops0 (Wr_init m c)) 43 _ _ _ _ rfl (by decide) (by decide))
def rq_main_v36 := lift_unary (liftR_0 m c main_v36 (by decide)) (liftR_0 m c main_v0 (by decide)) (eq_unary lateR_0 (rfl : Wr0 m c = after ops0 (Wr_init m c)) 44 _ _ _ rfl (by decide) (by decide))
def rq_main_v37 := lift_binary (liftR_0 m c main_v37 (by decide)) (liftR_0 m c main_v36 (by decide)) (liftR_0 m c main_arg5 (by decide)) (eq_binary lateR_0 (rfl : Wr0 m c = after ops0 (Wr_init m c)) 45 _ _ _ _ rfl (by decide) (by decide) (by decide))
def rq_main_cst_6 := lift_nullary (liftR_0 m c main_cst_6 (by decide)) (eq_nullary lateR_0 (rfl : Wr0 m c = after ops0 (Wr_init m c)) 46 _ _ rfl (by decide))
def rq_main_v38 := lift_unary (liftR_0 m c main_v38 (by decide)) (liftR_0 m c main_cst_6 (by decide)) (eq_unary lateR_0 (rfl : Wr0 m c = after ops0 (Wr_init m c)) 47 _ _ _ rfl (by decide) (by decide))
def rq_main_v39 := lift_binary (liftR_0 m c main_v39 (by decide)) (liftR_0 m c main_v38 (by decide)) (liftR_0 m c main_v37 (by decide)) (eq_binary lateR_0 (rfl : Wr0 m c = after ops0 (Wr_init m c)) 48 _ _ _ _ rfl (by decide) (by decide) (by decide))
def rq_main_v40 := lift_binary (liftR_0 m c main_v40 (by decide)) (liftR_0 m c main_v39 (by decide)) (liftR_0 m c main_v37 (by decide)) (eq_binary lateR_0 (rfl : Wr0 m c = after ops0 (Wr_init m c)) 49 _ _ _ _ rfl (by decide) (by decide) (by decide))
def rq_main_v41 := lift_unary (liftR_0 m c main_v41 (by decide)) (liftR_0 m c main_v35 (by decide)) (eq_unary lateR_0 (rfl : Wr0 m c = after ops0 (Wr_init m c)) 50 _ _ _ rfl (by decide) (by decide))
def rq_main_v42 := lift_reshape (by rfl) _ (liftR_0 m c main_v42 (by decide)) (liftR_0 m c main_v41 (by decide)) (eq_reshape lateR_0 (rfl : Wr0 m c = after ops0 (Wr_init m c)) 51 _ _ _ _ rfl (by decide) (by decide))
def rq_main_v43 := lift_unary (liftR_0 m c main_v43 (by decide)) (liftR_0 m c main_v42 (by decide)) (eq_unary lateR_0 (rfl : Wr0 m c = after ops0 (Wr_init m c)) 52 _ _ _ rfl (by decide) (by decide))
def rq_main_v44 := lift_binary (liftR_0 m c main_v44 (by decide)) (liftR_0 m c main_v43 (by decide)) (liftR_0 m c main_v40 (by decide)) (eq_binary lateR_0 (rfl : Wr0 m c = after ops0 (Wr_init m c)) 53 _ _ _ _ rfl (by decide) (by decide) (by decide))
def rq_main_cst_7 := lift_nullary (liftR_0 m c main_cst_7 (by decide)) (eq_nullary lateR_0 (rfl : Wr0 m c = after ops0 (Wr_init m c)) 54 _ _ rfl (by decide))
def rq_main_v45 := lift_unary (liftR_0 m c main_v45 (by decide)) (liftR_0 m c main_cst_7 (by decide)) (eq_unary lateR_0 (rfl : Wr0 m c = after ops0 (Wr_init m c)) 55 _ _ _ rfl (by decide) (by decide))
def rq_main_v46 := lift_binary (liftR_0 m c main_v46 (by decide)) (liftR_0 m c main_v45 (by decide)) (liftR_0 m c main_v44 (by decide)) (eq_binary lateR_0 (rfl : Wr0 m c = after ops0 (Wr_init m c)) 56 _ _ _ _ rfl (by decide) (by decide) (by decide))
def rq_main_v47 := lift_binary (liftR_0 m c main_v47 (by decide)) (liftR_0 m c main_v46 (by decide)) (liftR_0 m c main_v44 (by decide)) (eq_binary lateR_0 (rfl : Wr0 m c = after ops0 (Wr_init m c)) 57 _ _ _ _ rfl (by decide) (by decide) (by decide))
def rq_main_v48 := lift_binary (liftR_0 m c main_v48 (by decide)) (liftR_0 m c main_v47 (by decide)) (liftR_0 m c main_v40 (by decide)) (eq_binary lateR_0 (rfl : Wr0 m c = after ops0 (Wr_init m c)) 58 _ _ _ _ rfl (by decide) (by decide) (by decide))
def rq_main_v49 := lift_unary (liftR_0 m c main_v49 (by decide)) (liftR_0 m c main_v35 (by decide)) (eq_unary lateR_0 (rfl : Wr0 m c = after ops0 (Wr_init m c)) 59 _ _ _ rfl (by decide) (by decide))

end Cert.ReferenceIdeal.RefRun

end
-- ==== Proof.Ref.RN0.lean ====
import proofs.«126270_j6725918785969_1_alg».proof.Proof.Ref.RNDefs
import proofs.«126270_j6725918785969_1_alg».proof.Proof.Ref.REq0

/-!
# The reference's host operations as equations between plainly typed contents (window 0)
-/

set_option maxRecDepth 16384

noncomputable section

namespace Cert.ReferenceIdeal.RefRun

open Cert.ReferenceIdeal Cert.ReferenceIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

theorem nrq_main_v0 : nR_main_v0 m c = ((fun l r => Host.dotGeneral (F := Ideal) (φ₁ := .f32) (φ₂ := .f32) dot_S100000x128_S128x128_S100000x128_1_0_0_1_n_n none l r) : (⟨S100000x128, .f32⟩ : BufTy).Contents (Elt Ideal) → (⟨S128x128, .f32⟩ : BufTy).Contents (Elt Ideal) → (⟨S100000x128, .f32⟩ : BufTy).Contents (Elt Ideal)) (nR_main_arg5 m c) (nR_main_arg7 m c) := rq_main_v0 m c
theorem nrq_main_v1 : nR_main_v1 m c = ((fun l r => Host.dotGeneral (F := Ideal) (φ₁ := .f32) (φ₂ := .f32) dot_S50000x128_S128x128_S50000x128_1_0_0_1_n_n none l r) : (⟨S50000x128, .f32⟩ : BufTy).Contents (Elt Ideal) → (⟨S128x128, .f32⟩ : BufTy).Contents (Elt Ideal) → (⟨S50000x128, .f32⟩ : BufTy).Contents (Elt Ideal)) (nR_main_arg6 m c) (nR_main_arg8 m c) := rq_main_v1 m c
theorem nrq_main_v2 : nR_main_v2 m c = (broadcastInDim S1000000x1 ![0] bcast_S1000000_S1000000x1_0 : (⟨S1000000, .f32⟩ : BufTy).Contents (Elt Ideal) → (⟨S1000000x1, .f32⟩ : BufTy).Contents (Elt Ideal)) (nR_main_arg4 m c) := rq_main_v2 m c
theorem nrq_main_c : nR_main_c m c = (constantI S_ 32 0#32) := rq_main_c m c
theorem nrq_main_v3 : nR_main_v3 m c = (broadcastInDim S1000000 ![] bcast_S_S1000000 : (⟨S_, .i32⟩ : BufTy).Contents (Elt Ideal) → (⟨S1000000, .i32⟩ : BufTy).Contents (Elt Ideal)) (nR_main_c m c) := rq_main_v3 m c
theorem nrq_main_v4 : nR_main_v4 m c = (cmpi .slt : (⟨S1000000, .i32⟩ : BufTy).Contents (Elt Ideal) → (⟨S1000000, .i32⟩ : BufTy).Contents (Elt Ideal) → (⟨S1000000, .i1⟩ : BufTy).Contents (Elt Ideal)) (nR_main_arg3 m c) (nR_main_v3 m c) := rq_main_v4 m c
theorem nrq_main_c_0 : nR_main_c_0 m c = (constantI S_ 32 50000#32) := rq_main_c_0 m c
theorem nrq_main_v5 : nR_main_v5 m c = (broadcastInDim S1000000 ![] bcast_S_S1000000 : (⟨S_, .i32⟩ : BufTy).Contents (Elt Ideal) → (⟨S1000000, .i32⟩ : BufTy).Contents (Elt Ideal)) (nR_main_c_0 m c) := rq_main_v5 m c
theorem nrq_main_v6 : nR_main_v6 m c = (addi : (⟨S1000000, .i32⟩ : BufTy).Contents (Elt Ideal) → (⟨S1000000, .i32⟩ : BufTy).Contents (Elt Ideal) → (⟨S1000000, .i32⟩ : BufTy).Contents (Elt Ideal)) (nR_main_arg3 m c) (nR_main_v5 m c) := rq_main_v6 m c
theorem nrq_main_v7 : nR_main_v7 m c = (select : (⟨S1000000, .i1⟩ : BufTy).Contents (Elt Ideal) → (⟨S1000000, .i32⟩ : BufTy).Contents (Elt Ideal) → (⟨S1000000, .i32⟩ : BufTy).Contents (Elt Ideal) → (⟨S1000000, .i32⟩ : BufTy).Contents (Elt Ideal)) (nR_main_v4 m c) (nR_main_v6 m c) (nR_main_arg3 m c) := rq_main_v7 m c
theorem nrq_main_v8 : nR_main_v8 m c = (broadcastInDim S1000000x1 ![0] bcast_S1000000_S1000000x1_0 : (⟨S1000000, .i32⟩ : BufTy).Contents (Elt Ideal) → (⟨S1000000x1, .i32⟩ : BufTy).Contents (Elt Ideal)) (nR_main_v7 m c) := rq_main_v8 m c
theorem nrq_main_v9 : nR_main_v9 m c = ((fun x i => Host.gather gather_S50000x128_S1000000x1_S1000000x128_1_0_n_n_0_1_1128 x i) : (⟨S50000x128, .f32⟩ : BufTy).Contents (Elt Ideal) → (⟨S1000000x1, .i32⟩ : BufTy).Contents (Elt Ideal) → (⟨S1000000x128, .f32⟩ : BufTy).Contents (Elt Ideal)) (nR_main_arg6 m c) (nR_main_v8 m c) := rq_main_v9 m c
theorem nrq_main_v10 : nR_main_v10 m c = (broadcastInDim S1000000x128 ![0, 1] bcast_S1000000x1_S1000000x128_0_1 : (⟨S1000000x1, .f32⟩ : BufTy).Contents (Elt Ideal) → (⟨S1000000x128, .f32⟩ : BufTy).Contents (Elt Ideal)) (nR_main_v2 m c) := rq_main_v10 m c
theorem nrq_main_v11 : nR_main_v11 m c = (mulf (F := Ideal) (φ := .f32) : (⟨S1000000x128, .f32⟩ : BufTy).Contents (Elt Ideal) → (⟨S1000000x128, .f32⟩ : BufTy).Contents (Elt Ideal) → (⟨S1000000x128, .f32⟩ : BufTy).Contents (Elt Ideal)) (nR_main_v10 m c) (nR_main_v9 m c) := rq_main_v11 m c
theorem nrq_main_cst : nR_main_cst m c = (constant (F := Ideal) S_ .f32 0x00000000#32) := rq_main_cst m c
theorem nrq_main_v12 : nR_main_v12 m c = (broadcastInDim S100000x128 ![] bcast_S_S100000x128 : (⟨S_, .f32⟩ : BufTy).Contents (Elt Ideal) → (⟨S100000x128, .f32⟩ : BufTy).Contents (Elt Ideal)) (nR_main_cst m c) := rq_main_v12 m c
theorem nrq_main_v13 : nR_main_v13 m c = (broadcastInDim S1000000x1 ![0] bcast_S1000000_S1000000x1_0 : (⟨S1000000, .i32⟩ : BufTy).Contents (Elt Ideal) → (⟨S1000000x1, .i32⟩ : BufTy).Contents (Elt Ideal)) (nR_main_arg2 m c) := rq_main_v13 m c
theorem nrq_main_v14 : nR_main_v14 m c = ((fun x i u => Host.scatterAdd (F := Ideal) (φ := .f32) scatter_S100000x128_S1000000x1_S1000000x128_1_0_0_1 x i u) : (⟨S100000x128, .f32⟩ : BufTy).Contents (Elt Ideal) → (⟨S1000000x1, .i32⟩ : BufTy).Contents (Elt Ideal) → (⟨S1000000x128, .f32⟩ : BufTy).Contents (Elt Ideal) → (⟨S100000x128, .f32⟩ : BufTy).Contents (Elt Ideal)) (nR_main_v12 m c) (nR_main_v13 m c) (nR_main_v11 m c) := rq_main_v14 m c
theorem nrq_main_cst_1 : nR_main_cst_1 m c = (constant (F := Ideal) S_ .f32 0x3F000000#32) := rq_main_cst_1 m c
theorem nrq_main_v15 : nR_main_v15 m c = (broadcastInDim S100000x128 ![] bcast_S_S100000x128 : (⟨S_, .f32⟩ : BufTy).Contents (Elt Ideal) → (⟨S100000x128, .f32⟩ : BufTy).Contents (Elt Ideal)) (nR_main_cst_1 m c) := rq_main_v15 m c
theorem nrq_main_v16 : nR_main_v16 m c = (mulf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)) (nR_main_v15 m c) (nR_main_v14 m c) := rq_main_v16 m c
theorem nrq_main_v17 : nR_main_v17 m c = (maximumf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)) (nR_main_v16 m c) (nR_main_v14 m c) := rq_main_v17 m c
theorem nrq_main_v18 : nR_main_v18 m c = (broadcastInDim S1000000x1 ![0] bcast_S1000000_S1000000x1_0 : (⟨S1000000, .f32⟩ : BufTy).Contents (Elt Ideal) → (⟨S1000000x1, .f32⟩ : BufTy).Contents (Elt Ideal)) (nR_main_arg4 m c) := rq_main_v18 m c
theorem nrq_main_c_2 : nR_main_c_2 m c = (constantI S_ 32 0#32) := rq_main_c_2 m c
theorem nrq_main_v19 : nR_main_v19 m c = (broadcastInDim S1000000 ![] bcast_S_S1000000 : (⟨S_, .i32⟩ : BufTy).Contents (Elt Ideal) → (⟨S1000000, .i32⟩ : BufTy).Contents (Elt Ideal)) (nR_main_c_2 m c) := rq_main_v19 m c
theorem nrq_main_v20 : nR_main_v20 m c = (cmpi .slt : (⟨S1000000, .i32⟩ : BufTy).Contents (Elt Ideal) → (⟨S1000000, .i32⟩ : BufTy).Contents (Elt Ideal) → (⟨S1000000, .i1⟩ : BufTy).Contents (Elt Ideal)) (nR_main_arg2 m c) (nR_main_v19 m c) := rq_main_v20 m c
theorem nrq_main_c_3 : nR_main_c_3 m c = (constantI S_ 32 100000#32) := rq_main_c_3 m c
theorem nrq_main_v21 : nR_main_v21 m c = (broadcastInDim S1000000 ![] bcast_S_S1000000 : (⟨S_, .i32⟩ : BufTy).Contents (Elt Ideal) → (⟨S1000000, .i32⟩ : BufTy).Contents (Elt Ideal)) (nR_main_c_3 m c) := rq_main_v21 m c
theorem nrq_main_v22 : nR_main_v22 m c = (addi : (⟨S1000000, .i32⟩ : BufTy).Contents (Elt Ideal) → (⟨S1000000, .i32⟩ : BufTy).Contents (Elt Ideal) → (⟨S1000000, .i32⟩ : BufTy).Contents (Elt Ideal)) (nR_main_arg2 m c) (nR_main_v21 m c) := rq_main_v22 m c
theorem nrq_main_v23 : nR_main_v23 m c = (select : (⟨S1000000, .i1⟩ : BufTy).Contents (Elt Ideal) → (⟨S1000000, .i32⟩ : BufTy).Contents (Elt Ideal) → (⟨S1000000, .i32⟩ : BufTy).Contents (Elt Ideal) → (⟨S1000000, .i32⟩ : BufTy).Contents (Elt Ideal)) (nR_main_v20 m c) (nR_main_v22 m c) (nR_main_arg2 m c) := rq_main_v23 m c
theorem nrq_main_v24 : nR_main_v24 m c = (broadcastInDim S1000000x1 ![0] bcast_S1000000_S1000000x1_0 : (⟨S1000000, .i32⟩ : BufTy).Contents (Elt Ideal) → (⟨S1000000x1, .i32⟩ : BufTy).Contents (Elt Ideal)) (nR_main_v23 m c) := rq_main_v24 m c
theorem nrq_main_v25 : nR_main_v25 m c = ((fun x i => Host.gather gather_S100000x128_S1000000x1_S1000000x128_1_0_n_n_0_1_1128 x i) : (⟨S100000x128, .f32⟩ : BufTy).Contents (Elt Ideal) → (⟨S1000000x1, .i32⟩ : BufTy).Contents (Elt Ideal) → (⟨S1000000x128, .f32⟩ : BufTy).Contents (Elt Ideal)) (nR_main_arg5 m c) (nR_main_v24 m c) := rq_main_v25 m c
theorem nrq_main_v26 : nR_main_v26 m c = (broadcastInDim S1000000x128 ![0, 1] bcast_S1000000x1_S1000000x128_0_1 : (⟨S1000000x1, .f32⟩ : BufTy).Contents (Elt Ideal) → (⟨S1000000x128, .f32⟩ : BufTy).Contents (Elt Ideal)) (nR_main_v18 m c) := rq_main_v26 m c
theorem nrq_main_v27 : nR_main_v27 m c = (mulf (F := Ideal) (φ := .f32) : (⟨S1000000x128, .f32⟩ : BufTy).Contents (Elt Ideal) → (⟨S1000000x128, .f32⟩ : BufTy).Contents (Elt Ideal) → (⟨S1000000x128, .f32⟩ : BufTy).Contents (Elt Ideal)) (nR_main_v26 m c) (nR_main_v25 m c) := rq_main_v27 m c
theorem nrq_main_cst_4 : nR_main_cst_4 m c = (constant (F := Ideal) S_ .f32 0x00000000#32) := rq_main_cst_4 m c
theorem nrq_main_v28 : nR_main_v28 m c = (broadcastInDim S50000x128 ![] bcast_S_S50000x128 : (⟨S_, .f32⟩ : BufTy).Contents (Elt Ideal) → (⟨S50000x128, .f32⟩ : BufTy).Contents (Elt Ideal)) (nR_main_cst_4 m c) := rq_main_v28 m c
theorem nrq_main_v29 : nR_main_v29 m c = (broadcastInDim S1000000x1 ![0] bcast_S1000000_S1000000x1_0 : (⟨S1000000, .i32⟩ : BufTy).Contents (Elt Ideal) → (⟨S1000000x1, .i32⟩ : BufTy).Contents (Elt Ideal)) (nR_main_arg3 m c) := rq_main_v29 m c
theorem nrq_main_v30 : nR_main_v30 m c = ((fun x i u => Host.scatterAdd (F := Ideal) (φ := .f32) scatter_S50000x128_S1000000x1_S1000000x128_1_0_0_1 x i u) : (⟨S50000x128, .f32⟩ : BufTy).Contents (Elt Ideal) → (⟨S1000000x1, .i32⟩ : BufTy).Contents (Elt Ideal) → (⟨S1000000x128, .f32⟩ : BufTy).Contents (Elt Ideal) → (⟨S50000x128, .f32⟩ : BufTy).Contents (Elt Ideal)) (nR_main_v28 m c) (nR_main_v29 m c) (nR_main_v27 m c) := rq_main_v30 m c
theorem nrq_main_cst_5 : nR_main_cst_5 m c = (constant (F := Ideal) S_ .f32 0x3F000000#32) := rq_main_cst_5 m c
theorem nrq_main_v31 : nR_main_v31 m c = (broadcastInDim S50000x128 ![] bcast_S_S50000x128 : (⟨S_, .f32⟩ : BufTy).Contents (Elt Ideal) → (⟨S50000x128, .f32⟩ : BufTy).Contents (Elt Ideal)) (nR_main_cst_5 m c) := rq_main_v31 m c
theorem nrq_main_v32 : nR_main_v32 m c = (mulf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) (nR_main_v31 m c) (nR_main_v30 m c) := rq_main_v32 m c
theorem nrq_main_v33 : nR_main_v33 m c = (maximumf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) (nR_main_v32 m c) (nR_main_v30 m c) := rq_main_v33 m c
theorem nrq_main_v34 : nR_main_v34 m c = ((extractStridedSlice S1x3x128x128 ![0, 0, 0, 0] · slices_S2x3x128x128_S1x3x128x128_0_0_0_0) : (⟨S2x3x128x128, .f32⟩ : BufTy).Contents (Elt Ideal) → (⟨S1x3x128x128, .f32⟩ : BufTy).Contents (Elt Ideal)) (nR_main_arg9 m c) := rq_main_v34 m c
theorem nrq_main_v35 : nR_main_v35 m c = fun i => shapeCast S3x128x128 (nR_main_v34 m c) shapeCasts_S1x3x128x128_S3x128x128 i := rq_main_v35 m c
theorem nrq_main_v36 : nR_main_v36 m c = ((transpose S128x100000 [1, 0] · transposes_S100000x128_S128x100000_1_0) : (⟨S100000x128, .f32⟩ : BufTy).Contents (Elt Ideal) → (⟨S128x100000, .f32⟩ : BufTy).Contents (Elt Ideal)) (nR_main_v0 m c) := rq_main_v36 m c
theorem nrq_main_v37 : nR_main_v37 m c = ((fun l r => Host.dotGeneral (F := Ideal) (φ₁ := .f32) (φ₂ := .f32) dot_S128x100000_S100000x128_S128x128_1_0_0_1_n_n none l r) : (⟨S128x100000, .f32⟩ : BufTy).Contents (Elt Ideal) → (⟨S100000x128, .f32⟩ : BufTy).Contents (Elt Ideal) → (⟨S128x128, .f32⟩ : BufTy).Contents (Elt Ideal)) (nR_main_v36 m c) (nR_main_arg5 m c) := rq_main_v37 m c
theorem nrq_main_cst_6 : nR_main_cst_6 m c = (constant (F := Ideal) S_ .f32 0x3F000000#32) := rq_main_cst_6 m c
theorem nrq_main_v38 : nR_main_v38 m c = (broadcastInDim S128x128 ![] bcast_S_S128x128 : (⟨S_, .f32⟩ : BufTy).Contents (Elt Ideal) → (⟨S128x128, .f32⟩ : BufTy).Contents (Elt Ideal)) (nR_main_cst_6 m c) := rq_main_v38 m c
theorem nrq_main_v39 : nR_main_v39 m c = (mulf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v38 m c) (nR_main_v37 m c) := rq_main_v39 m c
theorem nrq_main_v40 : nR_main_v40 m c = (maximumf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v39 m c) (nR_main_v37 m c) := rq_main_v40 m c
theorem nrq_main_v41 : nR_main_v41 m c = ((extractStridedSlice S1x128x128 ![0, 0, 0] · slices_S3x128x128_S1x128x128_0_0_0) : (⟨S3x128x128, .f32⟩ : BufTy).Contents (Elt Ideal) → (⟨S1x128x128, .f32⟩ : BufTy).Contents (Elt Ideal)) (nR_main_v35 m c) := rq_main_v41 m c
theorem nrq_main_v42 : nR_main_v42 m c = fun i => shapeCast S128x128 (nR_main_v41 m c) shapeCasts_S1x128x128_S128x128 i := rq_main_v42 m c
theorem nrq_main_v43 : nR_main_v43 m c = ((transpose S128x128 [1, 0] · transposes_S128x128_S128x128_1_0) : (⟨S128x128, .f32⟩ : BufTy).Contents (Elt Ideal) → (⟨S128x128, .f32⟩ : BufTy).Contents (Elt Ideal)) (nR_main_v42 m c) := rq_main_v43 m c
theorem nrq_main_v44 : nR_main_v44 m c = ((fun l r => Host.dotGeneral (F := Ideal) (φ₁ := .f32) (φ₂ := .f32) dot_S128x128_S128x128_S128x128_1_0_0_1_n_n none l r) : (⟨S128x128, .f32⟩ : BufTy).Contents (Elt Ideal) → (⟨S128x128, .f32⟩ : BufTy).Contents (Elt Ideal) → (⟨S128x128, .f32⟩ : BufTy).Contents (Elt Ideal)) (nR_main_v43 m c) (nR_main_v40 m c) := rq_main_v44 m c
theorem nrq_main_cst_7 : nR_main_cst_7 m c = (constant (F := Ideal) S_ .f32 0x3F000000#32) := rq_main_cst_7 m c
theorem nrq_main_v45 : nR_main_v45 m c = (broadcastInDim S128x128 ![] bcast_S_S128x128 : (⟨S_, .f32⟩ : BufTy).Contents (Elt Ideal) → (⟨S128x128, .f32⟩ : BufTy).Contents (Elt Ideal)) (nR_main_cst_7 m c) := rq_main_v45 m c
theorem nrq_main_v46 : nR_main_v46 m c = (mulf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v45 m c) (nR_main_v44 m c) := rq_main_v46 m c
theorem nrq_main_v47 : nR_main_v47 m c = (maximumf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v46 m c) (nR_main_v44 m c) := rq_main_v47 m c
theorem nrq_main_v48 : nR_main_v48 m c = (addf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v47 m c) (nR_main_v40 m c) := rq_main_v48 m c
theorem nrq_main_v49 : nR_main_v49 m c = ((extractStridedSlice S1x128x128 ![1, 0, 0] · slices_S3x128x128_S1x128x128_1_0_0) : (⟨S3x128x128, .f32⟩ : BufTy).Contents (Elt Ideal) → (⟨S1x128x128, .f32⟩ : BufTy).Contents (Elt Ideal)) (nR_main_v35 m c) := rq_main_v49 m c

end Cert.ReferenceIdeal.RefRun

end
-- ==== Proof.Ref.REq1.lean ====
import proofs.«126270_j6725918785969_1_alg».proof.Proof.Ref.REqBase

/-!
# The reference's host operations, each as an equation between final buffer contents (window 1)
-/

set_option maxRecDepth 16384

noncomputable section

namespace Cert.ReferenceIdeal.RefRun

open Cert.ReferenceIdeal Cert.ReferenceIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

def rq_main_v50 := lift_reshape (by rfl) _ (liftR_1 m c main_v50 (by decide)) (liftR_1 m c main_v49 (by decide)) (eq_reshape lateR_1 (rfl : Wr1 m c = after ops1 (Wr0 m c)) 0 _ _ _ _ rfl (by decide) (by decide))
def rq_main_v51 := lift_unary (liftR_1 m c main_v51 (by decide)) (liftR_1 m c main_v50 (by decide)) (eq_unary lateR_1 (rfl : Wr1 m c = after ops1 (Wr0 m c)) 1 _ _ _ rfl (by decide) (by decide))
def rq_main_v52 := lift_binary (liftR_1 m c main_v52 (by decide)) (liftR_1 m c main_v51 (by decide)) (liftR_1 m c main_v48 (by decide)) (eq_binary lateR_1 (rfl : Wr1 m c = after ops1 (Wr0 m c)) 2 _ _ _ _ rfl (by decide) (by decide) (by decide))
def rq_main_cst_8 := lift_nullary (liftR_1 m c main_cst_8 (by decide)) (eq_nullary lateR_1 (rfl : Wr1 m c = after ops1 (Wr0 m c)) 3 _ _ rfl (by decide))
def rq_main_v53 := lift_unary (liftR_1 m c main_v53 (by decide)) (liftR_1 m c main_cst_8 (by decide)) (eq_unary lateR_1 (rfl : Wr1 m c = after ops1 (Wr0 m c)) 4 _ _ _ rfl (by decide) (by decide))
def rq_main_v54 := lift_binary (liftR_1 m c main_v54 (by decide)) (liftR_1 m c main_v53 (by decide)) (liftR_1 m c main_v52 (by decide)) (eq_binary lateR_1 (rfl : Wr1 m c = after ops1 (Wr0 m c)) 5 _ _ _ _ rfl (by decide) (by decide) (by decide))
def rq_main_v55 := lift_binary (liftR_1 m c main_v55 (by decide)) (liftR_1 m c main_v54 (by decide)) (liftR_1 m c main_v52 (by decide)) (eq_binary lateR_1 (rfl : Wr1 m c = after ops1 (Wr0 m c)) 6 _ _ _ _ rfl (by decide) (by decide) (by decide))
def rq_main_v56 := lift_binary (liftR_1 m c main_v56 (by decide)) (liftR_1 m c main_v55 (by decide)) (liftR_1 m c main_v48 (by decide)) (eq_binary lateR_1 (rfl : Wr1 m c = after ops1 (Wr0 m c)) 7 _ _ _ _ rfl (by decide) (by decide) (by decide))
def rq_main_v57 := lift_unary (liftR_1 m c main_v57 (by decide)) (liftR_1 m c main_v35 (by decide)) (eq_unary lateR_1 (rfl : Wr1 m c = after ops1 (Wr0 m c)) 8 _ _ _ rfl (by decide) (by decide))
def rq_main_v58 := lift_reshape (by rfl) _ (liftR_1 m c main_v58 (by decide)) (liftR_1 m c main_v57 (by decide)) (eq_reshape lateR_1 (rfl : Wr1 m c = after ops1 (Wr0 m c)) 9 _ _ _ _ rfl (by decide) (by decide))
def rq_main_v59 := lift_unary (liftR_1 m c main_v59 (by decide)) (liftR_1 m c main_v58 (by decide)) (eq_unary lateR_1 (rfl : Wr1 m c = after ops1 (Wr0 m c)) 10 _ _ _ rfl (by decide) (by decide))
def rq_main_v60 := lift_binary (liftR_1 m c main_v60 (by decide)) (liftR_1 m c main_v59 (by decide)) (liftR_1 m c main_v56 (by decide)) (eq_binary lateR_1 (rfl : Wr1 m c = after ops1 (Wr0 m c)) 11 _ _ _ _ rfl (by decide) (by decide) (by decide))
def rq_main_cst_9 := lift_nullary (liftR_1 m c main_cst_9 (by decide)) (eq_nullary lateR_1 (rfl : Wr1 m c = after ops1 (Wr0 m c)) 12 _ _ rfl (by decide))
def rq_main_v61 := lift_unary (liftR_1 m c main_v61 (by decide)) (liftR_1 m c main_cst_9 (by decide)) (eq_unary lateR_1 (rfl : Wr1 m c = after ops1 (Wr0 m c)) 13 _ _ _ rfl (by decide) (by decide))
def rq_main_v62 := lift_binary (liftR_1 m c main_v62 (by decide)) (liftR_1 m c main_v61 (by decide)) (liftR_1 m c main_v60 (by decide)) (eq_binary lateR_1 (rfl : Wr1 m c = after ops1 (Wr0 m c)) 14 _ _ _ _ rfl (by decide) (by decide) (by decide))
def rq_main_v63 := lift_binary (liftR_1 m c main_v63 (by decide)) (liftR_1 m c main_v62 (by decide)) (liftR_1 m c main_v60 (by decide)) (eq_binary lateR_1 (rfl : Wr1 m c = after ops1 (Wr0 m c)) 15 _ _ _ _ rfl (by decide) (by decide) (by decide))
def rq_main_v64 := lift_binary (liftR_1 m c main_v64 (by decide)) (liftR_1 m c main_v63 (by decide)) (liftR_1 m c main_v56 (by decide)) (eq_binary lateR_1 (rfl : Wr1 m c = after ops1 (Wr0 m c)) 16 _ _ _ _ rfl (by decide) (by decide) (by decide))
def rq_main_v65 := lift_binary (liftR_1 m c main_v65 (by decide)) (liftR_1 m c main_v0 (by decide)) (liftR_1 m c main_v64 (by decide)) (eq_binary lateR_1 (rfl : Wr1 m c = after ops1 (Wr0 m c)) 17 _ _ _ _ rfl (by decide) (by decide) (by decide))
def rq_main_cst_10 := lift_nullary (liftR_1 m c main_cst_10 (by decide)) (eq_nullary lateR_1 (rfl : Wr1 m c = after ops1 (Wr0 m c)) 18 _ _ rfl (by decide))
def rq_main_v66 := lift_unary (liftR_1 m c main_v66 (by decide)) (liftR_1 m c main_cst_10 (by decide)) (eq_unary lateR_1 (rfl : Wr1 m c = after ops1 (Wr0 m c)) 19 _ _ _ rfl (by decide) (by decide))
def rq_main_v67 := lift_binary (liftR_1 m c main_v67 (by decide)) (liftR_1 m c main_v66 (by decide)) (liftR_1 m c main_v65 (by decide)) (eq_binary lateR_1 (rfl : Wr1 m c = after ops1 (Wr0 m c)) 20 _ _ _ _ rfl (by decide) (by decide) (by decide))
def rq_main_v68 := lift_binary (liftR_1 m c main_v68 (by decide)) (liftR_1 m c main_v67 (by decide)) (liftR_1 m c main_v65 (by decide)) (eq_binary lateR_1 (rfl : Wr1 m c = after ops1 (Wr0 m c)) 21 _ _ _ _ rfl (by decide) (by decide) (by decide))
def rq_main_v69 := lift_unary (liftR_1 m c main_v69 (by decide)) (liftR_1 m c main_arg10 (by decide)) (eq_unary lateR_1 (rfl : Wr1 m c = after ops1 (Wr0 m c)) 22 _ _ _ rfl (by decide) (by decide))
def rq_main_v70 := lift_reshape (by rfl) _ (liftR_1 m c main_v70 (by decide)) (liftR_1 m c main_v69 (by decide)) (eq_reshape lateR_1 (rfl : Wr1 m c = after ops1 (Wr0 m c)) 23 _ _ _ _ rfl (by decide) (by decide))
def rq_main_v71 := lift_unary (liftR_1 m c main_v71 (by decide)) (liftR_1 m c main_v1 (by decide)) (eq_unary lateR_1 (rfl : Wr1 m c = after ops1 (Wr0 m c)) 24 _ _ _ rfl (by decide) (by decide))
def rq_main_v72 := lift_binary (liftR_1 m c main_v72 (by decide)) (liftR_1 m c main_v71 (by decide)) (liftR_1 m c main_arg6 (by decide)) (eq_binary lateR_1 (rfl : Wr1 m c = after ops1 (Wr0 m c)) 25 _ _ _ _ rfl (by decide) (by decide) (by decide))
def rq_main_cst_11 := lift_nullary (liftR_1 m c main_cst_11 (by decide)) (eq_nullary lateR_1 (rfl : Wr1 m c = after ops1 (Wr0 m c)) 26 _ _ rfl (by decide))
def rq_main_v73 := lift_unary (liftR_1 m c main_v73 (by decide)) (liftR_1 m c main_cst_11 (by decide)) (eq_unary lateR_1 (rfl : Wr1 m c = after ops1 (Wr0 m c)) 27 _ _ _ rfl (by decide) (by decide))
def rq_main_v74 := lift_binary (liftR_1 m c main_v74 (by decide)) (liftR_1 m c main_v73 (by decide)) (liftR_1 m c main_v72 (by decide)) (eq_binary lateR_1 (rfl : Wr1 m c = after ops1 (Wr0 m c)) 28 _ _ _ _ rfl (by decide) (by decide) (by decide))
def rq_main_v75 := lift_binary (liftR_1 m c main_v75 (by decide)) (liftR_1 m c main_v74 (by decide)) (liftR_1 m c main_v72 (by decide)) (eq_binary lateR_1 (rfl : Wr1 m c = after ops1 (Wr0 m c)) 29 _ _ _ _ rfl (by decide) (by decide) (by decide))
def rq_main_v76 := lift_unary (liftR_1 m c main_v76 (by decide)) (liftR_1 m c main_v70 (by decide)) (eq_unary lateR_1 (rfl : Wr1 m c = after ops1 (Wr0 m c)) 30 _ _ _ rfl (by decide) (by decide))
def rq_main_v77 := lift_reshape (by rfl) _ (liftR_1 m c main_v77 (by decide)) (liftR_1 m c main_v76 (by decide)) (eq_reshape lateR_1 (rfl : Wr1 m c = after ops1 (Wr0 m c)) 31 _ _ _ _ rfl (by decide) (by decide))
def rq_main_v78 := lift_unary (liftR_1 m c main_v78 (by decide)) (liftR_1 m c main_v77 (by decide)) (eq_unary lateR_1 (rfl : Wr1 m c = after ops1 (Wr0 m c)) 32 _ _ _ rfl (by decide) (by decide))
def rq_main_v79 := lift_binary (liftR_1 m c main_v79 (by decide)) (liftR_1 m c main_v78 (by decide)) (liftR_1 m c main_v75 (by decide)) (eq_binary lateR_1 (rfl : Wr1 m c = after ops1 (Wr0 m c)) 33 _ _ _ _ rfl (by decide) (by decide) (by decide))
def rq_main_cst_12 := lift_nullary (liftR_1 m c main_cst_12 (by decide)) (eq_nullary lateR_1 (rfl : Wr1 m c = after ops1 (Wr0 m c)) 34 _ _ rfl (by decide))
def rq_main_v80 := lift_unary (liftR_1 m c main_v80 (by decide)) (liftR_1 m c main_cst_12 (by decide)) (eq_unary lateR_1 (rfl : Wr1 m c = after ops1 (Wr0 m c)) 35 _ _ _ rfl (by decide) (by decide))
def rq_main_v81 := lift_binary (liftR_1 m c main_v81 (by decide)) (liftR_1 m c main_v80 (by decide)) (liftR_1 m c main_v79 (by decide)) (eq_binary lateR_1 (rfl : Wr1 m c = after ops1 (Wr0 m c)) 36 _ _ _ _ rfl (by decide) (by decide) (by decide))
def rq_main_v82 := lift_binary (liftR_1 m c main_v82 (by decide)) (liftR_1 m c main_v81 (by decide)) (liftR_1 m c main_v79 (by decide)) (eq_binary lateR_1 (rfl : Wr1 m c = after ops1 (Wr0 m c)) 37 _ _ _ _ rfl (by decide) (by decide) (by decide))
def rq_main_v83 := lift_binary (liftR_1 m c main_v83 (by decide)) (liftR_1 m c main_v82 (by decide)) (liftR_1 m c main_v75 (by decide)) (eq_binary lateR_1 (rfl : Wr1 m c = after ops1 (Wr0 m c)) 38 _ _ _ _ rfl (by decide) (by decide) (by decide))
def rq_main_v84 := lift_unary (liftR_1 m c main_v84 (by decide)) (liftR_1 m c main_v70 (by decide)) (eq_unary lateR_1 (rfl : Wr1 m c = after ops1 (Wr0 m c)) 39 _ _ _ rfl (by decide) (by decide))
def rq_main_v85 := lift_reshape (by rfl) _ (liftR_1 m c main_v85 (by decide)) (liftR_1 m c main_v84 (by decide)) (eq_reshape lateR_1 (rfl : Wr1 m c = after ops1 (Wr0 m c)) 40 _ _ _ _ rfl (by decide) (by decide))
def rq_main_v86 := lift_unary (liftR_1 m c main_v86 (by decide)) (liftR_1 m c main_v85 (by decide)) (eq_unary lateR_1 (rfl : Wr1 m c = after ops1 (Wr0 m c)) 41 _ _ _ rfl (by decide) (by decide))
def rq_main_v87 := lift_binary (liftR_1 m c main_v87 (by decide)) (liftR_1 m c main_v86 (by decide)) (liftR_1 m c main_v83 (by decide)) (eq_binary lateR_1 (rfl : Wr1 m c = after ops1 (Wr0 m c)) 42 _ _ _ _ rfl (by decide) (by decide) (by decide))
def rq_main_cst_13 := lift_nullary (liftR_1 m c main_cst_13 (by decide)) (eq_nullary lateR_1 (rfl : Wr1 m c = after ops1 (Wr0 m c)) 43 _ _ rfl (by decide))
def rq_main_v88 := lift_unary (liftR_1 m c main_v88 (by decide)) (liftR_1 m c main_cst_13 (by decide)) (eq_unary lateR_1 (rfl : Wr1 m c = after ops1 (Wr0 m c)) 44 _ _ _ rfl (by decide) (by decide))
def rq_main_v89 := lift_binary (liftR_1 m c main_v89 (by decide)) (liftR_1 m c main_v88 (by decide)) (liftR_1 m c main_v87 (by decide)) (eq_binary lateR_1 (rfl : Wr1 m c = after ops1 (Wr0 m c)) 45 _ _ _ _ rfl (by decide) (by decide) (by decide))
def rq_main_v90 := lift_binary (liftR_1 m c main_v90 (by decide)) (liftR_1 m c main_v89 (by decide)) (liftR_1 m c main_v87 (by decide)) (eq_binary lateR_1 (rfl : Wr1 m c = after ops1 (Wr0 m c)) 46 _ _ _ _ rfl (by decide) (by decide) (by decide))
def rq_main_v91 := lift_binary (liftR_1 m c main_v91 (by decide)) (liftR_1 m c main_v90 (by decide)) (liftR_1 m c main_v83 (by decide)) (eq_binary lateR_1 (rfl : Wr1 m c = after ops1 (Wr0 m c)) 47 _ _ _ _ rfl (by decide) (by decide) (by decide))
def rq_main_v92 := lift_unary (liftR_1 m c main_v92 (by decide)) (liftR_1 m c main_v70 (by decide)) (eq_unary lateR_1 (rfl : Wr1 m c = after ops1 (Wr0 m c)) 48 _ _ _ rfl (by decide) (by decide))
def rq_main_v93 := lift_reshape (by rfl) _ (liftR_1 m c main_v93 (by decide)) (liftR_1 m c main_v92 (by decide)) (eq_reshape lateR_1 (rfl : Wr1 m c = after ops1 (Wr0 m c)) 49 _ _ _ _ rfl (by decide) (by decide))
def rq_main_v94 := lift_unary (liftR_1 m c main_v94 (by decide)) (liftR_1 m c main_v93 (by decide)) (eq_unary lateR_1 (rfl : Wr1 m c = after ops1 (Wr0 m c)) 50 _ _ _ rfl (by decide) (by decide))
def rq_main_v95 := lift_binary (liftR_1 m c main_v95 (by decide)) (liftR_1 m c main_v94 (by decide)) (liftR_1 m c main_v91 (by decide)) (eq_binary lateR_1 (rfl : Wr1 m c = after ops1 (Wr0 m c)) 51 _ _ _ _ rfl (by decide) (by decide) (by decide))
def rq_main_cst_14 := lift_nullary (liftR_1 m c main_cst_14 (by decide)) (eq_nullary lateR_1 (rfl : Wr1 m c = after ops1 (Wr0 m c)) 52 _ _ rfl (by decide))
def rq_main_v96 := lift_unary (liftR_1 m c main_v96 (by decide)) (liftR_1 m c main_cst_14 (by decide)) (eq_unary lateR_1 (rfl : Wr1 m c = after ops1 (Wr0 m c)) 53 _ _ _ rfl (by decide) (by decide))
def rq_main_v97 := lift_binary (liftR_1 m c main_v97 (by decide)) (liftR_1 m c main_v96 (by decide)) (liftR_1 m c main_v95 (by decide)) (eq_binary lateR_1 (rfl : Wr1 m c = after ops1 (Wr0 m c)) 54 _ _ _ _ rfl (by decide) (by decide) (by decide))
def rq_main_v98 := lift_binary (liftR_1 m c main_v98 (by decide)) (liftR_1 m c main_v97 (by decide)) (liftR_1 m c main_v95 (by decide)) (eq_binary lateR_1 (rfl : Wr1 m c = after ops1 (Wr0 m c)) 55 _ _ _ _ rfl (by decide) (by decide) (by decide))
def rq_main_v99 := lift_binary (liftR_1 m c main_v99 (by decide)) (liftR_1 m c main_v98 (by decide)) (liftR_1 m c main_v91 (by decide)) (eq_binary lateR_1 (rfl : Wr1 m c = after ops1 (Wr0 m c)) 56 _ _ _ _ rfl (by decide) (by decide) (by decide))
def rq_main_v100 := lift_binary (liftR_1 m c main_v100 (by decide)) (liftR_1 m c main_v1 (by decide)) (liftR_1 m c main_v99 (by decide)) (eq_binary lateR_1 (rfl : Wr1 m c = after ops1 (Wr0 m c)) 57 _ _ _ _ rfl (by decide) (by decide) (by decide))
def rq_main_cst_15 := lift_nullary (liftR_1 m c main_cst_15 (by decide)) (eq_nullary lateR_1 (rfl : Wr1 m c = after ops1 (Wr0 m c)) 58 _ _ rfl (by decide))
def rq_main_v101 := lift_unary (liftR_1 m c main_v101 (by decide)) (liftR_1 m c main_cst_15 (by decide)) (eq_unary lateR_1 (rfl : Wr1 m c = after ops1 (Wr0 m c)) 59 _ _ _ rfl (by decide) (by decide))

end Cert.ReferenceIdeal.RefRun

end
-- ==== Proof.Ref.RN1.lean ====
import proofs.«126270_j6725918785969_1_alg».proof.Proof.Ref.RNDefs
import proofs.«126270_j6725918785969_1_alg».proof.Proof.Ref.REq1

/-!
# The reference's host operations as equations between plainly typed contents (window 1)
-/

set_option maxRecDepth 16384

noncomputable section

namespace Cert.ReferenceIdeal.RefRun

open Cert.ReferenceIdeal Cert.ReferenceIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

theorem nrq_main_v50 : nR_main_v50 m c = fun i => shapeCast S128x128 (nR_main_v49 m c) shapeCasts_S1x128x128_S128x128 i := rq_main_v50 m c
theorem nrq_main_v51 : nR_main_v51 m c = ((transpose S128x128 [1, 0] · transposes_S128x128_S128x128_1_0) : (⟨S128x128, .f32⟩ : BufTy).Contents (Elt Ideal) → (⟨S128x128, .f32⟩ : BufTy).Contents (Elt Ideal)) (nR_main_v50 m c) := rq_main_v51 m c
theorem nrq_main_v52 : nR_main_v52 m c = ((fun l r => Host.dotGeneral (F := Ideal) (φ₁ := .f32) (φ₂ := .f32) dot_S128x128_S128x128_S128x128_1_0_0_1_n_n none l r) : (⟨S128x128, .f32⟩ : BufTy).Contents (Elt Ideal) → (⟨S128x128, .f32⟩ : BufTy).Contents (Elt Ideal) → (⟨S128x128, .f32⟩ : BufTy).Contents (Elt Ideal)) (nR_main_v51 m c) (nR_main_v48 m c) := rq_main_v52 m c
theorem nrq_main_cst_8 : nR_main_cst_8 m c = (constant (F := Ideal) S_ .f32 0x3F000000#32) := rq_main_cst_8 m c
theorem nrq_main_v53 : nR_main_v53 m c = (broadcastInDim S128x128 ![] bcast_S_S128x128 : (⟨S_, .f32⟩ : BufTy).Contents (Elt Ideal) → (⟨S128x128, .f32⟩ : BufTy).Contents (Elt Ideal)) (nR_main_cst_8 m c) := rq_main_v53 m c
theorem nrq_main_v54 : nR_main_v54 m c = (mulf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v53 m c) (nR_main_v52 m c) := rq_main_v54 m c
theorem nrq_main_v55 : nR_main_v55 m c = (maximumf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v54 m c) (nR_main_v52 m c) := rq_main_v55 m c
theorem nrq_main_v56 : nR_main_v56 m c = (addf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v55 m c) (nR_main_v48 m c) := rq_main_v56 m c
theorem nrq_main_v57 : nR_main_v57 m c = ((extractStridedSlice S1x128x128 ![2, 0, 0] · slices_S3x128x128_S1x128x128_2_0_0) : (⟨S3x128x128, .f32⟩ : BufTy).Contents (Elt Ideal) → (⟨S1x128x128, .f32⟩ : BufTy).Contents (Elt Ideal)) (nR_main_v35 m c) := rq_main_v57 m c
theorem nrq_main_v58 : nR_main_v58 m c = fun i => shapeCast S128x128 (nR_main_v57 m c) shapeCasts_S1x128x128_S128x128 i := rq_main_v58 m c
theorem nrq_main_v59 : nR_main_v59 m c = ((transpose S128x128 [1, 0] · transposes_S128x128_S128x128_1_0) : (⟨S128x128, .f32⟩ : BufTy).Contents (Elt Ideal) → (⟨S128x128, .f32⟩ : BufTy).Contents (Elt Ideal)) (nR_main_v58 m c) := rq_main_v59 m c
theorem nrq_main_v60 : nR_main_v60 m c = ((fun l r => Host.dotGeneral (F := Ideal) (φ₁ := .f32) (φ₂ := .f32) dot_S128x128_S128x128_S128x128_1_0_0_1_n_n none l r) : (⟨S128x128, .f32⟩ : BufTy).Contents (Elt Ideal) → (⟨S128x128, .f32⟩ : BufTy).Contents (Elt Ideal) → (⟨S128x128, .f32⟩ : BufTy).Contents (Elt Ideal)) (nR_main_v59 m c) (nR_main_v56 m c) := rq_main_v60 m c
theorem nrq_main_cst_9 : nR_main_cst_9 m c = (constant (F := Ideal) S_ .f32 0x3F000000#32) := rq_main_cst_9 m c
theorem nrq_main_v61 : nR_main_v61 m c = (broadcastInDim S128x128 ![] bcast_S_S128x128 : (⟨S_, .f32⟩ : BufTy).Contents (Elt Ideal) → (⟨S128x128, .f32⟩ : BufTy).Contents (Elt Ideal)) (nR_main_cst_9 m c) := rq_main_v61 m c
theorem nrq_main_v62 : nR_main_v62 m c = (mulf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v61 m c) (nR_main_v60 m c) := rq_main_v62 m c
theorem nrq_main_v63 : nR_main_v63 m c = (maximumf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v62 m c) (nR_main_v60 m c) := rq_main_v63 m c
theorem nrq_main_v64 : nR_main_v64 m c = (addf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v63 m c) (nR_main_v56 m c) := rq_main_v64 m c
theorem nrq_main_v65 : nR_main_v65 m c = ((fun l r => Host.dotGeneral (F := Ideal) (φ₁ := .f32) (φ₂ := .f32) dot_S100000x128_S128x128_S100000x128_1_0_0_1_n_n none l r) : (⟨S100000x128, .f32⟩ : BufTy).Contents (Elt Ideal) → (⟨S128x128, .f32⟩ : BufTy).Contents (Elt Ideal) → (⟨S100000x128, .f32⟩ : BufTy).Contents (Elt Ideal)) (nR_main_v0 m c) (nR_main_v64 m c) := rq_main_v65 m c
theorem nrq_main_cst_10 : nR_main_cst_10 m c = (constant (F := Ideal) S_ .f32 0x3F000000#32) := rq_main_cst_10 m c
theorem nrq_main_v66 : nR_main_v66 m c = (broadcastInDim S100000x128 ![] bcast_S_S100000x128 : (⟨S_, .f32⟩ : BufTy).Contents (Elt Ideal) → (⟨S100000x128, .f32⟩ : BufTy).Contents (Elt Ideal)) (nR_main_cst_10 m c) := rq_main_v66 m c
theorem nrq_main_v67 : nR_main_v67 m c = (mulf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)) (nR_main_v66 m c) (nR_main_v65 m c) := rq_main_v67 m c
theorem nrq_main_v68 : nR_main_v68 m c = (maximumf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)) (nR_main_v67 m c) (nR_main_v65 m c) := rq_main_v68 m c
theorem nrq_main_v69 : nR_main_v69 m c = ((extractStridedSlice S1x3x128x128 ![0, 0, 0, 0] · slices_S2x3x128x128_S1x3x128x128_0_0_0_0) : (⟨S2x3x128x128, .f32⟩ : BufTy).Contents (Elt Ideal) → (⟨S1x3x128x128, .f32⟩ : BufTy).Contents (Elt Ideal)) (nR_main_arg10 m c) := rq_main_v69 m c
theorem nrq_main_v70 : nR_main_v70 m c = fun i => shapeCast S3x128x128 (nR_main_v69 m c) shapeCasts_S1x3x128x128_S3x128x128 i := rq_main_v70 m c
theorem nrq_main_v71 : nR_main_v71 m c = ((transpose S128x50000 [1, 0] · transposes_S50000x128_S128x50000_1_0) : (⟨S50000x128, .f32⟩ : BufTy).Contents (Elt Ideal) → (⟨S128x50000, .f32⟩ : BufTy).Contents (Elt Ideal)) (nR_main_v1 m c) := rq_main_v71 m c
theorem nrq_main_v72 : nR_main_v72 m c = ((fun l r => Host.dotGeneral (F := Ideal) (φ₁ := .f32) (φ₂ := .f32) dot_S128x50000_S50000x128_S128x128_1_0_0_1_n_n none l r) : (⟨S128x50000, .f32⟩ : BufTy).Contents (Elt Ideal) → (⟨S50000x128, .f32⟩ : BufTy).Contents (Elt Ideal) → (⟨S128x128, .f32⟩ : BufTy).Contents (Elt Ideal)) (nR_main_v71 m c) (nR_main_arg6 m c) := rq_main_v72 m c
theorem nrq_main_cst_11 : nR_main_cst_11 m c = (constant (F := Ideal) S_ .f32 0x3F000000#32) := rq_main_cst_11 m c
theorem nrq_main_v73 : nR_main_v73 m c = (broadcastInDim S128x128 ![] bcast_S_S128x128 : (⟨S_, .f32⟩ : BufTy).Contents (Elt Ideal) → (⟨S128x128, .f32⟩ : BufTy).Contents (Elt Ideal)) (nR_main_cst_11 m c) := rq_main_v73 m c
theorem nrq_main_v74 : nR_main_v74 m c = (mulf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v73 m c) (nR_main_v72 m c) := rq_main_v74 m c
theorem nrq_main_v75 : nR_main_v75 m c = (maximumf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v74 m c) (nR_main_v72 m c) := rq_main_v75 m c
theorem nrq_main_v76 : nR_main_v76 m c = ((extractStridedSlice S1x128x128 ![0, 0, 0] · slices_S3x128x128_S1x128x128_0_0_0) : (⟨S3x128x128, .f32⟩ : BufTy).Contents (Elt Ideal) → (⟨S1x128x128, .f32⟩ : BufTy).Contents (Elt Ideal)) (nR_main_v70 m c) := rq_main_v76 m c
theorem nrq_main_v77 : nR_main_v77 m c = fun i => shapeCast S128x128 (nR_main_v76 m c) shapeCasts_S1x128x128_S128x128 i := rq_main_v77 m c
theorem nrq_main_v78 : nR_main_v78 m c = ((transpose S128x128 [1, 0] · transposes_S128x128_S128x128_1_0) : (⟨S128x128, .f32⟩ : BufTy).Contents (Elt Ideal) → (⟨S128x128, .f32⟩ : BufTy).Contents (Elt Ideal)) (nR_main_v77 m c) := rq_main_v78 m c
theorem nrq_main_v79 : nR_main_v79 m c = ((fun l r => Host.dotGeneral (F := Ideal) (φ₁ := .f32) (φ₂ := .f32) dot_S128x128_S128x128_S128x128_1_0_0_1_n_n none l r) : (⟨S128x128, .f32⟩ : BufTy).Contents (Elt Ideal) → (⟨S128x128, .f32⟩ : BufTy).Contents (Elt Ideal) → (⟨S128x128, .f32⟩ : BufTy).Contents (Elt Ideal)) (nR_main_v78 m c) (nR_main_v75 m c) := rq_main_v79 m c
theorem nrq_main_cst_12 : nR_main_cst_12 m c = (constant (F := Ideal) S_ .f32 0x3F000000#32) := rq_main_cst_12 m c
theorem nrq_main_v80 : nR_main_v80 m c = (broadcastInDim S128x128 ![] bcast_S_S128x128 : (⟨S_, .f32⟩ : BufTy).Contents (Elt Ideal) → (⟨S128x128, .f32⟩ : BufTy).Contents (Elt Ideal)) (nR_main_cst_12 m c) := rq_main_v80 m c
theorem nrq_main_v81 : nR_main_v81 m c = (mulf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v80 m c) (nR_main_v79 m c) := rq_main_v81 m c
theorem nrq_main_v82 : nR_main_v82 m c = (maximumf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v81 m c) (nR_main_v79 m c) := rq_main_v82 m c
theorem nrq_main_v83 : nR_main_v83 m c = (addf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v82 m c) (nR_main_v75 m c) := rq_main_v83 m c
theorem nrq_main_v84 : nR_main_v84 m c = ((extractStridedSlice S1x128x128 ![1, 0, 0] · slices_S3x128x128_S1x128x128_1_0_0) : (⟨S3x128x128, .f32⟩ : BufTy).Contents (Elt Ideal) → (⟨S1x128x128, .f32⟩ : BufTy).Contents (Elt Ideal)) (nR_main_v70 m c) := rq_main_v84 m c
theorem nrq_main_v85 : nR_main_v85 m c = fun i => shapeCast S128x128 (nR_main_v84 m c) shapeCasts_S1x128x128_S128x128 i := rq_main_v85 m c
theorem nrq_main_v86 : nR_main_v86 m c = ((transpose S128x128 [1, 0] · transposes_S128x128_S128x128_1_0) : (⟨S128x128, .f32⟩ : BufTy).Contents (Elt Ideal) → (⟨S128x128, .f32⟩ : BufTy).Contents (Elt Ideal)) (nR_main_v85 m c) := rq_main_v86 m c
theorem nrq_main_v87 : nR_main_v87 m c = ((fun l r => Host.dotGeneral (F := Ideal) (φ₁ := .f32) (φ₂ := .f32) dot_S128x128_S128x128_S128x128_1_0_0_1_n_n none l r) : (⟨S128x128, .f32⟩ : BufTy).Contents (Elt Ideal) → (⟨S128x128, .f32⟩ : BufTy).Contents (Elt Ideal) → (⟨S128x128, .f32⟩ : BufTy).Contents (Elt Ideal)) (nR_main_v86 m c) (nR_main_v83 m c) := rq_main_v87 m c
theorem nrq_main_cst_13 : nR_main_cst_13 m c = (constant (F := Ideal) S_ .f32 0x3F000000#32) := rq_main_cst_13 m c
theorem nrq_main_v88 : nR_main_v88 m c = (broadcastInDim S128x128 ![] bcast_S_S128x128 : (⟨S_, .f32⟩ : BufTy).Contents (Elt Ideal) → (⟨S128x128, .f32⟩ : BufTy).Contents (Elt Ideal)) (nR_main_cst_13 m c) := rq_main_v88 m c
theorem nrq_main_v89 : nR_main_v89 m c = (mulf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v88 m c) (nR_main_v87 m c) := rq_main_v89 m c
theorem nrq_main_v90 : nR_main_v90 m c = (maximumf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v89 m c) (nR_main_v87 m c) := rq_main_v90 m c
theorem nrq_main_v91 : nR_main_v91 m c = (addf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v90 m c) (nR_main_v83 m c) := rq_main_v91 m c
theorem nrq_main_v92 : nR_main_v92 m c = ((extractStridedSlice S1x128x128 ![2, 0, 0] · slices_S3x128x128_S1x128x128_2_0_0) : (⟨S3x128x128, .f32⟩ : BufTy).Contents (Elt Ideal) → (⟨S1x128x128, .f32⟩ : BufTy).Contents (Elt Ideal)) (nR_main_v70 m c) := rq_main_v92 m c
theorem nrq_main_v93 : nR_main_v93 m c = fun i => shapeCast S128x128 (nR_main_v92 m c) shapeCasts_S1x128x128_S128x128 i := rq_main_v93 m c
theorem nrq_main_v94 : nR_main_v94 m c = ((transpose S128x128 [1, 0] · transposes_S128x128_S128x128_1_0) : (⟨S128x128, .f32⟩ : BufTy).Contents (Elt Ideal) → (⟨S128x128, .f32⟩ : BufTy).Contents (Elt Ideal)) (nR_main_v93 m c) := rq_main_v94 m c
theorem nrq_main_v95 : nR_main_v95 m c = ((fun l r => Host.dotGeneral (F := Ideal) (φ₁ := .f32) (φ₂ := .f32) dot_S128x128_S128x128_S128x128_1_0_0_1_n_n none l r) : (⟨S128x128, .f32⟩ : BufTy).Contents (Elt Ideal) → (⟨S128x128, .f32⟩ : BufTy).Contents (Elt Ideal) → (⟨S128x128, .f32⟩ : BufTy).Contents (Elt Ideal)) (nR_main_v94 m c) (nR_main_v91 m c) := rq_main_v95 m c
theorem nrq_main_cst_14 : nR_main_cst_14 m c = (constant (F := Ideal) S_ .f32 0x3F000000#32) := rq_main_cst_14 m c
theorem nrq_main_v96 : nR_main_v96 m c = (broadcastInDim S128x128 ![] bcast_S_S128x128 : (⟨S_, .f32⟩ : BufTy).Contents (Elt Ideal) → (⟨S128x128, .f32⟩ : BufTy).Contents (Elt Ideal)) (nR_main_cst_14 m c) := rq_main_v96 m c
theorem nrq_main_v97 : nR_main_v97 m c = (mulf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v96 m c) (nR_main_v95 m c) := rq_main_v97 m c
theorem nrq_main_v98 : nR_main_v98 m c = (maximumf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v97 m c) (nR_main_v95 m c) := rq_main_v98 m c
theorem nrq_main_v99 : nR_main_v99 m c = (addf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v98 m c) (nR_main_v91 m c) := rq_main_v99 m c
theorem nrq_main_v100 : nR_main_v100 m c = ((fun l r => Host.dotGeneral (F := Ideal) (φ₁ := .f32) (φ₂ := .f32) dot_S50000x128_S128x128_S50000x128_1_0_0_1_n_n none l r) : (⟨S50000x128, .f32⟩ : BufTy).Contents (Elt Ideal) → (⟨S128x128, .f32⟩ : BufTy).Contents (Elt Ideal) → (⟨S50000x128, .f32⟩ : BufTy).Contents (Elt Ideal)) (nR_main_v1 m c) (nR_main_v99 m c) := rq_main_v100 m c
theorem nrq_main_cst_15 : nR_main_cst_15 m c = (constant (F := Ideal) S_ .f32 0x3F000000#32) := rq_main_cst_15 m c
theorem nrq_main_v101 : nR_main_v101 m c = (broadcastInDim S50000x128 ![] bcast_S_S50000x128 : (⟨S_, .f32⟩ : BufTy).Contents (Elt Ideal) → (⟨S50000x128, .f32⟩ : BufTy).Contents (Elt Ideal)) (nR_main_cst_15 m c) := rq_main_v101 m c

end Cert.ReferenceIdeal.RefRun

end
-- ==== Proof.Ref.REq2.lean ====
import proofs.«126270_j6725918785969_1_alg».proof.Proof.Ref.REqBase

/-!
# The reference's host operations, each as an equation between final buffer contents (window 2)
-/

set_option maxRecDepth 16384

noncomputable section

namespace Cert.ReferenceIdeal.RefRun

open Cert.ReferenceIdeal Cert.ReferenceIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

def rq_main_v102 := lift_binary (liftR_2 m c main_v102 (by decide)) (liftR_2 m c main_v101 (by decide)) (liftR_2 m c main_v100 (by decide)) (eq_binary lateR_2 (rfl : Wr2 m c = after ops2 (Wr1 m c)) 0 _ _ _ _ rfl (by decide) (by decide) (by decide))
def rq_main_v103 := lift_binary (liftR_2 m c main_v103 (by decide)) (liftR_2 m c main_v102 (by decide)) (liftR_2 m c main_v100 (by decide)) (eq_binary lateR_2 (rfl : Wr2 m c = after ops2 (Wr1 m c)) 1 _ _ _ _ rfl (by decide) (by decide) (by decide))
def rq_main_v104 := lift_binary (liftR_2 m c main_v104 (by decide)) (liftR_2 m c main_v17 (by decide)) (liftR_2 m c main_v68 (by decide)) (eq_binary lateR_2 (rfl : Wr2 m c = after ops2 (Wr1 m c)) 2 _ _ _ _ rfl (by decide) (by decide) (by decide))
def rq_main_v105 := lift_binary (liftR_2 m c main_v105 (by decide)) (liftR_2 m c main_v104 (by decide)) (liftR_2 m c main_arg5 (by decide)) (eq_binary lateR_2 (rfl : Wr2 m c = after ops2 (Wr1 m c)) 3 _ _ _ _ rfl (by decide) (by decide) (by decide))
def rq_main_v106 := lift_binary (liftR_2 m c main_v106 (by decide)) (liftR_2 m c main_v33 (by decide)) (liftR_2 m c main_v103 (by decide)) (eq_binary lateR_2 (rfl : Wr2 m c = after ops2 (Wr1 m c)) 4 _ _ _ _ rfl (by decide) (by decide) (by decide))
def rq_main_v107 := lift_binary (liftR_2 m c main_v107 (by decide)) (liftR_2 m c main_v106 (by decide)) (liftR_2 m c main_arg6 (by decide)) (eq_binary lateR_2 (rfl : Wr2 m c = after ops2 (Wr1 m c)) 5 _ _ _ _ rfl (by decide) (by decide) (by decide))
def rq_main_v108 := lift_unary (liftR_2 m c main_v108 (by decide)) (liftR_2 m c main_arg4 (by decide)) (eq_unary lateR_2 (rfl : Wr2 m c = after ops2 (Wr1 m c)) 6 _ _ _ rfl (by decide) (by decide))
def rq_main_c_16 := lift_nullary (liftR_2 m c main_c_16 (by decide)) (eq_nullary lateR_2 (rfl : Wr2 m c = after ops2 (Wr1 m c)) 7 _ _ rfl (by decide))
def rq_main_v109 := lift_unary (liftR_2 m c main_v109 (by decide)) (liftR_2 m c main_c_16 (by decide)) (eq_unary lateR_2 (rfl : Wr2 m c = after ops2 (Wr1 m c)) 8 _ _ _ rfl (by decide) (by decide))
def rq_main_v110 := lift_binary (liftR_2 m c main_v110 (by decide)) (liftR_2 m c main_arg3 (by decide)) (liftR_2 m c main_v109 (by decide)) (eq_binary lateR_2 (rfl : Wr2 m c = after ops2 (Wr1 m c)) 9 _ _ _ _ rfl (by decide) (by decide) (by decide))
def rq_main_c_17 := lift_nullary (liftR_2 m c main_c_17 (by decide)) (eq_nullary lateR_2 (rfl : Wr2 m c = after ops2 (Wr1 m c)) 10 _ _ rfl (by decide))
def rq_main_v111 := lift_unary (liftR_2 m c main_v111 (by decide)) (liftR_2 m c main_c_17 (by decide)) (eq_unary lateR_2 (rfl : Wr2 m c = after ops2 (Wr1 m c)) 11 _ _ _ rfl (by decide) (by decide))
def rq_main_v112 := lift_binary (liftR_2 m c main_v112 (by decide)) (liftR_2 m c main_arg3 (by decide)) (liftR_2 m c main_v111 (by decide)) (eq_binary lateR_2 (rfl : Wr2 m c = after ops2 (Wr1 m c)) 12 _ _ _ _ rfl (by decide) (by decide) (by decide))
def rq_main_v113 := lift_ternary (liftR_2 m c main_v113 (by decide)) (liftR_2 m c main_v110 (by decide)) (liftR_2 m c main_v112 (by decide)) (liftR_2 m c main_arg3 (by decide)) (eq_ternary lateR_2 (rfl : Wr2 m c = after ops2 (Wr1 m c)) 13 _ _ _ _ _ rfl (by decide) (by decide) (by decide) (by decide))
def rq_main_v114 := lift_unary (liftR_2 m c main_v114 (by decide)) (liftR_2 m c main_v113 (by decide)) (eq_unary lateR_2 (rfl : Wr2 m c = after ops2 (Wr1 m c)) 14 _ _ _ rfl (by decide) (by decide))
def rq_main_v115 := lift_binary (liftR_2 m c main_v115 (by decide)) (liftR_2 m c main_v107 (by decide)) (liftR_2 m c main_v114 (by decide)) (eq_binary lateR_2 (rfl : Wr2 m c = after ops2 (Wr1 m c)) 15 _ _ _ _ rfl (by decide) (by decide) (by decide))
def rq_main_v116 := lift_unary (liftR_2 m c main_v116 (by decide)) (liftR_2 m c main_v108 (by decide)) (eq_unary lateR_2 (rfl : Wr2 m c = after ops2 (Wr1 m c)) 16 _ _ _ rfl (by decide) (by decide))
def rq_main_v117 := lift_binary (liftR_2 m c main_v117 (by decide)) (liftR_2 m c main_v116 (by decide)) (liftR_2 m c main_v115 (by decide)) (eq_binary lateR_2 (rfl : Wr2 m c = after ops2 (Wr1 m c)) 17 _ _ _ _ rfl (by decide) (by decide) (by decide))
def rq_main_cst_18 := lift_nullary (liftR_2 m c main_cst_18 (by decide)) (eq_nullary lateR_2 (rfl : Wr2 m c = after ops2 (Wr1 m c)) 18 _ _ rfl (by decide))
def rq_main_v118 := lift_unary (liftR_2 m c main_v118 (by decide)) (liftR_2 m c main_cst_18 (by decide)) (eq_unary lateR_2 (rfl : Wr2 m c = after ops2 (Wr1 m c)) 19 _ _ _ rfl (by decide) (by decide))
def rq_main_v119 := lift_unary (liftR_2 m c main_v119 (by decide)) (liftR_2 m c main_arg2 (by decide)) (eq_unary lateR_2 (rfl : Wr2 m c = after ops2 (Wr1 m c)) 20 _ _ _ rfl (by decide) (by decide))
def rq_main_v120 := lift_ternary (liftR_2 m c main_v120 (by decide)) (liftR_2 m c main_v118 (by decide)) (liftR_2 m c main_v119 (by decide)) (liftR_2 m c main_v117 (by decide)) (eq_ternary lateR_2 (rfl : Wr2 m c = after ops2 (Wr1 m c)) 21 _ _ _ _ _ rfl (by decide) (by decide) (by decide) (by decide))
def rq_main_cst_19 := lift_nullary (liftR_2 m c main_cst_19 (by decide)) (eq_nullary lateR_2 (rfl : Wr2 m c = after ops2 (Wr1 m c)) 22 _ _ rfl (by decide))
def rq_main_v121 := lift_unary (liftR_2 m c main_v121 (by decide)) (liftR_2 m c main_cst_19 (by decide)) (eq_unary lateR_2 (rfl : Wr2 m c = after ops2 (Wr1 m c)) 23 _ _ _ rfl (by decide) (by decide))
def rq_main_v122 := lift_binary (liftR_2 m c main_v122 (by decide)) (liftR_2 m c main_v121 (by decide)) (liftR_2 m c main_v120 (by decide)) (eq_binary lateR_2 (rfl : Wr2 m c = after ops2 (Wr1 m c)) 24 _ _ _ _ rfl (by decide) (by decide) (by decide))
def rq_main_v123 := lift_binary (liftR_2 m c main_v123 (by decide)) (liftR_2 m c main_v122 (by decide)) (liftR_2 m c main_v120 (by decide)) (eq_binary lateR_2 (rfl : Wr2 m c = after ops2 (Wr1 m c)) 25 _ _ _ _ rfl (by decide) (by decide) (by decide))
def rq_main_v124 := lift_unary (liftR_2 m c main_v124 (by decide)) (liftR_2 m c main_arg4 (by decide)) (eq_unary lateR_2 (rfl : Wr2 m c = after ops2 (Wr1 m c)) 26 _ _ _ rfl (by decide) (by decide))
def rq_main_c_20 := lift_nullary (liftR_2 m c main_c_20 (by decide)) (eq_nullary lateR_2 (rfl : Wr2 m c = after ops2 (Wr1 m c)) 27 _ _ rfl (by decide))
def rq_main_v125 := lift_unary (liftR_2 m c main_v125 (by decide)) (liftR_2 m c main_c_20 (by decide)) (eq_unary lateR_2 (rfl : Wr2 m c = after ops2 (Wr1 m c)) 28 _ _ _ rfl (by decide) (by decide))
def rq_main_v126 := lift_binary (liftR_2 m c main_v126 (by decide)) (liftR_2 m c main_arg2 (by decide)) (liftR_2 m c main_v125 (by decide)) (eq_binary lateR_2 (rfl : Wr2 m c = after ops2 (Wr1 m c)) 29 _ _ _ _ rfl (by decide) (by decide) (by decide))
def rq_main_c_21 := lift_nullary (liftR_2 m c main_c_21 (by decide)) (eq_nullary lateR_2 (rfl : Wr2 m c = after ops2 (Wr1 m c)) 30 _ _ rfl (by decide))
def rq_main_v127 := lift_unary (liftR_2 m c main_v127 (by decide)) (liftR_2 m c main_c_21 (by decide)) (eq_unary lateR_2 (rfl : Wr2 m c = after ops2 (Wr1 m c)) 31 _ _ _ rfl (by decide) (by decide))
def rq_main_v128 := lift_binary (liftR_2 m c main_v128 (by decide)) (liftR_2 m c main_arg2 (by decide)) (liftR_2 m c main_v127 (by decide)) (eq_binary lateR_2 (rfl : Wr2 m c = after ops2 (Wr1 m c)) 32 _ _ _ _ rfl (by decide) (by decide) (by decide))
def rq_main_v129 := lift_ternary (liftR_2 m c main_v129 (by decide)) (liftR_2 m c main_v126 (by decide)) (liftR_2 m c main_v128 (by decide)) (liftR_2 m c main_arg2 (by decide)) (eq_ternary lateR_2 (rfl : Wr2 m c = after ops2 (Wr1 m c)) 33 _ _ _ _ _ rfl (by decide) (by decide) (by decide) (by decide))
def rq_main_v130 := lift_unary (liftR_2 m c main_v130 (by decide)) (liftR_2 m c main_v129 (by decide)) (eq_unary lateR_2 (rfl : Wr2 m c = after ops2 (Wr1 m c)) 34 _ _ _ rfl (by decide) (by decide))
def rq_main_v131 := lift_binary (liftR_2 m c main_v131 (by decide)) (liftR_2 m c main_v105 (by decide)) (liftR_2 m c main_v130 (by decide)) (eq_binary lateR_2 (rfl : Wr2 m c = after ops2 (Wr1 m c)) 35 _ _ _ _ rfl (by decide) (by decide) (by decide))
def rq_main_v132 := lift_unary (liftR_2 m c main_v132 (by decide)) (liftR_2 m c main_v124 (by decide)) (eq_unary lateR_2 (rfl : Wr2 m c = after ops2 (Wr1 m c)) 36 _ _ _ rfl (by decide) (by decide))
def rq_main_v133 := lift_binary (liftR_2 m c main_v133 (by decide)) (liftR_2 m c main_v132 (by decide)) (liftR_2 m c main_v131 (by decide)) (eq_binary lateR_2 (rfl : Wr2 m c = after ops2 (Wr1 m c)) 37 _ _ _ _ rfl (by decide) (by decide) (by decide))
def rq_main_cst_22 := lift_nullary (liftR_2 m c main_cst_22 (by decide)) (eq_nullary lateR_2 (rfl : Wr2 m c = after ops2 (Wr1 m c)) 38 _ _ rfl (by decide))
def rq_main_v134 := lift_unary (liftR_2 m c main_v134 (by decide)) (liftR_2 m c main_cst_22 (by decide)) (eq_unary lateR_2 (rfl : Wr2 m c = after ops2 (Wr1 m c)) 39 _ _ _ rfl (by decide) (by decide))
def rq_main_v135 := lift_unary (liftR_2 m c main_v135 (by decide)) (liftR_2 m c main_arg3 (by decide)) (eq_unary lateR_2 (rfl : Wr2 m c = after ops2 (Wr1 m c)) 40 _ _ _ rfl (by decide) (by decide))
def rq_main_v136 := lift_ternary (liftR_2 m c main_v136 (by decide)) (liftR_2 m c main_v134 (by decide)) (liftR_2 m c main_v135 (by decide)) (liftR_2 m c main_v133 (by decide)) (eq_ternary lateR_2 (rfl : Wr2 m c = after ops2 (Wr1 m c)) 41 _ _ _ _ _ rfl (by decide) (by decide) (by decide) (by decide))
def rq_main_cst_23 := lift_nullary (liftR_2 m c main_cst_23 (by decide)) (eq_nullary lateR_2 (rfl : Wr2 m c = after ops2 (Wr1 m c)) 42 _ _ rfl (by decide))
def rq_main_v137 := lift_unary (liftR_2 m c main_v137 (by decide)) (liftR_2 m c main_cst_23 (by decide)) (eq_unary lateR_2 (rfl : Wr2 m c = after ops2 (Wr1 m c)) 43 _ _ _ rfl (by decide) (by decide))
def rq_main_v138 := lift_binary (liftR_2 m c main_v138 (by decide)) (liftR_2 m c main_v137 (by decide)) (liftR_2 m c main_v136 (by decide)) (eq_binary lateR_2 (rfl : Wr2 m c = after ops2 (Wr1 m c)) 44 _ _ _ _ rfl (by decide) (by decide) (by decide))
def rq_main_v139 := lift_binary (liftR_2 m c main_v139 (by decide)) (liftR_2 m c main_v138 (by decide)) (liftR_2 m c main_v136 (by decide)) (eq_binary lateR_2 (rfl : Wr2 m c = after ops2 (Wr1 m c)) 45 _ _ _ _ rfl (by decide) (by decide) (by decide))
def rq_main_v140 := lift_unary (liftR_2 m c main_v140 (by decide)) (liftR_2 m c main_arg9 (by decide)) (eq_unary lateR_2 (rfl : Wr2 m c = after ops2 (Wr1 m c)) 46 _ _ _ rfl (by decide) (by decide))
def rq_main_v141 := lift_reshape (by rfl) _ (liftR_2 m c main_v141 (by decide)) (liftR_2 m c main_v140 (by decide)) (eq_reshape lateR_2 (rfl : Wr2 m c = after ops2 (Wr1 m c)) 47 _ _ _ _ rfl (by decide) (by decide))
def rq_main_v142 := lift_unary (liftR_2 m c main_v142 (by decide)) (liftR_2 m c main_v0 (by decide)) (eq_unary lateR_2 (rfl : Wr2 m c = after ops2 (Wr1 m c)) 48 _ _ _ rfl (by decide) (by decide))
def rq_main_v143 := lift_binary (liftR_2 m c main_v143 (by decide)) (liftR_2 m c main_v142 (by decide)) (liftR_2 m c main_v105 (by decide)) (eq_binary lateR_2 (rfl : Wr2 m c = after ops2 (Wr1 m c)) 49 _ _ _ _ rfl (by decide) (by decide) (by decide))
def rq_main_cst_24 := lift_nullary (liftR_2 m c main_cst_24 (by decide)) (eq_nullary lateR_2 (rfl : Wr2 m c = after ops2 (Wr1 m c)) 50 _ _ rfl (by decide))
def rq_main_v144 := lift_unary (liftR_2 m c main_v144 (by decide)) (liftR_2 m c main_cst_24 (by decide)) (eq_unary lateR_2 (rfl : Wr2 m c = after ops2 (Wr1 m c)) 51 _ _ _ rfl (by decide) (by decide))
def rq_main_v145 := lift_binary (liftR_2 m c main_v145 (by decide)) (liftR_2 m c main_v144 (by decide)) (liftR_2 m c main_v143 (by decide)) (eq_binary lateR_2 (rfl : Wr2 m c = after ops2 (Wr1 m c)) 52 _ _ _ _ rfl (by decide) (by decide) (by decide))
def rq_main_v146 := lift_binary (liftR_2 m c main_v146 (by decide)) (liftR_2 m c main_v145 (by decide)) (liftR_2 m c main_v143 (by decide)) (eq_binary lateR_2 (rfl : Wr2 m c = after ops2 (Wr1 m c)) 53 _ _ _ _ rfl (by decide) (by decide) (by decide))
def rq_main_v147 := lift_unary (liftR_2 m c main_v147 (by decide)) (liftR_2 m c main_v141 (by decide)) (eq_unary lateR_2 (rfl : Wr2 m c = after ops2 (Wr1 m c)) 54 _ _ _ rfl (by decide) (by decide))
def rq_main_v148 := lift_reshape (by rfl) _ (liftR_2 m c main_v148 (by decide)) (liftR_2 m c main_v147 (by decide)) (eq_reshape lateR_2 (rfl : Wr2 m c = after ops2 (Wr1 m c)) 55 _ _ _ _ rfl (by decide) (by decide))
def rq_main_v149 := lift_unary (liftR_2 m c main_v149 (by decide)) (liftR_2 m c main_v148 (by decide)) (eq_unary lateR_2 (rfl : Wr2 m c = after ops2 (Wr1 m c)) 56 _ _ _ rfl (by decide) (by decide))
def rq_main_v150 := lift_binary (liftR_2 m c main_v150 (by decide)) (liftR_2 m c main_v149 (by decide)) (liftR_2 m c main_v146 (by decide)) (eq_binary lateR_2 (rfl : Wr2 m c = after ops2 (Wr1 m c)) 57 _ _ _ _ rfl (by decide) (by decide) (by decide))
def rq_main_cst_25 := lift_nullary (liftR_2 m c main_cst_25 (by decide)) (eq_nullary lateR_2 (rfl : Wr2 m c = after ops2 (Wr1 m c)) 58 _ _ rfl (by decide))
def rq_main_v151 := lift_unary (liftR_2 m c main_v151 (by decide)) (liftR_2 m c main_cst_25 (by decide)) (eq_unary lateR_2 (rfl : Wr2 m c = after ops2 (Wr1 m c)) 59 _ _ _ rfl (by decide) (by decide))

end Cert.ReferenceIdeal.RefRun

end
-- ==== Proof.Ref.RN2.lean ====
import proofs.«126270_j6725918785969_1_alg».proof.Proof.Ref.RNDefs
import proofs.«126270_j6725918785969_1_alg».proof.Proof.Ref.REq2

/-!
# The reference's host operations as equations between plainly typed contents (window 2)
-/

set_option maxRecDepth 16384

noncomputable section

namespace Cert.ReferenceIdeal.RefRun

open Cert.ReferenceIdeal Cert.ReferenceIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

theorem nrq_main_v102 : nR_main_v102 m c = (mulf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) (nR_main_v101 m c) (nR_main_v100 m c) := rq_main_v102 m c
theorem nrq_main_v103 : nR_main_v103 m c = (maximumf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) (nR_main_v102 m c) (nR_main_v100 m c) := rq_main_v103 m c
theorem nrq_main_v104 : nR_main_v104 m c = (addf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)) (nR_main_v17 m c) (nR_main_v68 m c) := rq_main_v104 m c
theorem nrq_main_v105 : nR_main_v105 m c = (addf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)) (nR_main_v104 m c) (nR_main_arg5 m c) := rq_main_v105 m c
theorem nrq_main_v106 : nR_main_v106 m c = (addf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) (nR_main_v33 m c) (nR_main_v103 m c) := rq_main_v106 m c
theorem nrq_main_v107 : nR_main_v107 m c = (addf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) (nR_main_v106 m c) (nR_main_arg6 m c) := rq_main_v107 m c
theorem nrq_main_v108 : nR_main_v108 m c = (broadcastInDim S1000000x1 ![0] bcast_S1000000_S1000000x1_0 : (⟨S1000000, .f32⟩ : BufTy).Contents (Elt Ideal) → (⟨S1000000x1, .f32⟩ : BufTy).Contents (Elt Ideal)) (nR_main_arg4 m c) := rq_main_v108 m c
theorem nrq_main_c_16 : nR_main_c_16 m c = (constantI S_ 32 0#32) := rq_main_c_16 m c
theorem nrq_main_v109 : nR_main_v109 m c = (broadcastInDim S1000000 ![] bcast_S_S1000000 : (⟨S_, .i32⟩ : BufTy).Contents (Elt Ideal) → (⟨S1000000, .i32⟩ : BufTy).Contents (Elt Ideal)) (nR_main_c_16 m c) := rq_main_v109 m c
theorem nrq_main_v110 : nR_main_v110 m c = (cmpi .slt : (⟨S1000000, .i32⟩ : BufTy).Contents (Elt Ideal) → (⟨S1000000, .i32⟩ : BufTy).Contents (Elt Ideal) → (⟨S1000000, .i1⟩ : BufTy).Contents (Elt Ideal)) (nR_main_arg3 m c) (nR_main_v109 m c) := rq_main_v110 m c
theorem nrq_main_c_17 : nR_main_c_17 m c = (constantI S_ 32 50000#32) := rq_main_c_17 m c
theorem nrq_main_v111 : nR_main_v111 m c = (broadcastInDim S1000000 ![] bcast_S_S1000000 : (⟨S_, .i32⟩ : BufTy).Contents (Elt Ideal) → (⟨S1000000, .i32⟩ : BufTy).Contents (Elt Ideal)) (nR_main_c_17 m c) := rq_main_v111 m c
theorem nrq_main_v112 : nR_main_v112 m c = (addi : (⟨S1000000, .i32⟩ : BufTy).Contents (Elt Ideal) → (⟨S1000000, .i32⟩ : BufTy).Contents (Elt Ideal) → (⟨S1000000, .i32⟩ : BufTy).Contents (Elt Ideal)) (nR_main_arg3 m c) (nR_main_v111 m c) := rq_main_v112 m c
theorem nrq_main_v113 : nR_main_v113 m c = (select : (⟨S1000000, .i1⟩ : BufTy).Contents (Elt Ideal) → (⟨S1000000, .i32⟩ : BufTy).Contents (Elt Ideal) → (⟨S1000000, .i32⟩ : BufTy).Contents (Elt Ideal) → (⟨S1000000, .i32⟩ : BufTy).Contents (Elt Ideal)) (nR_main_v110 m c) (nR_main_v112 m c) (nR_main_arg3 m c) := rq_main_v113 m c
theorem nrq_main_v114 : nR_main_v114 m c = (broadcastInDim S1000000x1 ![0] bcast_S1000000_S1000000x1_0 : (⟨S1000000, .i32⟩ : BufTy).Contents (Elt Ideal) → (⟨S1000000x1, .i32⟩ : BufTy).Contents (Elt Ideal)) (nR_main_v113 m c) := rq_main_v114 m c
theorem nrq_main_v115 : nR_main_v115 m c = ((fun x i => Host.gather gather_S50000x128_S1000000x1_S1000000x128_1_0_n_n_0_1_1128 x i) : (⟨S50000x128, .f32⟩ : BufTy).Contents (Elt Ideal) → (⟨S1000000x1, .i32⟩ : BufTy).Contents (Elt Ideal) → (⟨S1000000x128, .f32⟩ : BufTy).Contents (Elt Ideal)) (nR_main_v107 m c) (nR_main_v114 m c) := rq_main_v115 m c
theorem nrq_main_v116 : nR_main_v116 m c = (broadcastInDim S1000000x128 ![0, 1] bcast_S1000000x1_S1000000x128_0_1 : (⟨S1000000x1, .f32⟩ : BufTy).Contents (Elt Ideal) → (⟨S1000000x128, .f32⟩ : BufTy).Contents (Elt Ideal)) (nR_main_v108 m c) := rq_main_v116 m c
theorem nrq_main_v117 : nR_main_v117 m c = (mulf (F := Ideal) (φ := .f32) : (⟨S1000000x128, .f32⟩ : BufTy).Contents (Elt Ideal) → (⟨S1000000x128, .f32⟩ : BufTy).Contents (Elt Ideal) → (⟨S1000000x128, .f32⟩ : BufTy).Contents (Elt Ideal)) (nR_main_v116 m c) (nR_main_v115 m c) := rq_main_v117 m c
theorem nrq_main_cst_18 : nR_main_cst_18 m c = (constant (F := Ideal) S_ .f32 0x00000000#32) := rq_main_cst_18 m c
theorem nrq_main_v118 : nR_main_v118 m c = (broadcastInDim S100000x128 ![] bcast_S_S100000x128 : (⟨S_, .f32⟩ : BufTy).Contents (Elt Ideal) → (⟨S100000x128, .f32⟩ : BufTy).Contents (Elt Ideal)) (nR_main_cst_18 m c) := rq_main_v118 m c
theorem nrq_main_v119 : nR_main_v119 m c = (broadcastInDim S1000000x1 ![0] bcast_S1000000_S1000000x1_0 : (⟨S1000000, .i32⟩ : BufTy).Contents (Elt Ideal) → (⟨S1000000x1, .i32⟩ : BufTy).Contents (Elt Ideal)) (nR_main_arg2 m c) := rq_main_v119 m c
theorem nrq_main_v120 : nR_main_v120 m c = ((fun x i u => Host.scatterAdd (F := Ideal) (φ := .f32) scatter_S100000x128_S1000000x1_S1000000x128_1_0_0_1 x i u) : (⟨S100000x128, .f32⟩ : BufTy).Contents (Elt Ideal) → (⟨S1000000x1, .i32⟩ : BufTy).Contents (Elt Ideal) → (⟨S1000000x128, .f32⟩ : BufTy).Contents (Elt Ideal) → (⟨S100000x128, .f32⟩ : BufTy).Contents (Elt Ideal)) (nR_main_v118 m c) (nR_main_v119 m c) (nR_main_v117 m c) := rq_main_v120 m c
theorem nrq_main_cst_19 : nR_main_cst_19 m c = (constant (F := Ideal) S_ .f32 0x3F000000#32) := rq_main_cst_19 m c
theorem nrq_main_v121 : nR_main_v121 m c = (broadcastInDim S100000x128 ![] bcast_S_S100000x128 : (⟨S_, .f32⟩ : BufTy).Contents (Elt Ideal) → (⟨S100000x128, .f32⟩ : BufTy).Contents (Elt Ideal)) (nR_main_cst_19 m c) := rq_main_v121 m c
theorem nrq_main_v122 : nR_main_v122 m c = (mulf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)) (nR_main_v121 m c) (nR_main_v120 m c) := rq_main_v122 m c
theorem nrq_main_v123 : nR_main_v123 m c = (maximumf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)) (nR_main_v122 m c) (nR_main_v120 m c) := rq_main_v123 m c
theorem nrq_main_v124 : nR_main_v124 m c = (broadcastInDim S1000000x1 ![0] bcast_S1000000_S1000000x1_0 : (⟨S1000000, .f32⟩ : BufTy).Contents (Elt Ideal) → (⟨S1000000x1, .f32⟩ : BufTy).Contents (Elt Ideal)) (nR_main_arg4 m c) := rq_main_v124 m c
theorem nrq_main_c_20 : nR_main_c_20 m c = (constantI S_ 32 0#32) := rq_main_c_20 m c
theorem nrq_main_v125 : nR_main_v125 m c = (broadcastInDim S1000000 ![] bcast_S_S1000000 : (⟨S_, .i32⟩ : BufTy).Contents (Elt Ideal) → (⟨S1000000, .i32⟩ : BufTy).Contents (Elt Ideal)) (nR_main_c_20 m c) := rq_main_v125 m c
theorem nrq_main_v126 : nR_main_v126 m c = (cmpi .slt : (⟨S1000000, .i32⟩ : BufTy).Contents (Elt Ideal) → (⟨S1000000, .i32⟩ : BufTy).Contents (Elt Ideal) → (⟨S1000000, .i1⟩ : BufTy).Contents (Elt Ideal)) (nR_main_arg2 m c) (nR_main_v125 m c) := rq_main_v126 m c
theorem nrq_main_c_21 : nR_main_c_21 m c = (constantI S_ 32 100000#32) := rq_main_c_21 m c
theorem nrq_main_v127 : nR_main_v127 m c = (broadcastInDim S1000000 ![] bcast_S_S1000000 : (⟨S_, .i32⟩ : BufTy).Contents (Elt Ideal) → (⟨S1000000, .i32⟩ : BufTy).Contents (Elt Ideal)) (nR_main_c_21 m c) := rq_main_v127 m c
theorem nrq_main_v128 : nR_main_v128 m c = (addi : (⟨S1000000, .i32⟩ : BufTy).Contents (Elt Ideal) → (⟨S1000000, .i32⟩ : BufTy).Contents (Elt Ideal) → (⟨S1000000, .i32⟩ : BufTy).Contents (Elt Ideal)) (nR_main_arg2 m c) (nR_main_v127 m c) := rq_main_v128 m c
theorem nrq_main_v129 : nR_main_v129 m c = (select : (⟨S1000000, .i1⟩ : BufTy).Contents (Elt Ideal) → (⟨S1000000, .i32⟩ : BufTy).Contents (Elt Ideal) → (⟨S1000000, .i32⟩ : BufTy).Contents (Elt Ideal) → (⟨S1000000, .i32⟩ : BufTy).Contents (Elt Ideal)) (nR_main_v126 m c) (nR_main_v128 m c) (nR_main_arg2 m c) := rq_main_v129 m c
theorem nrq_main_v130 : nR_main_v130 m c = (broadcastInDim S1000000x1 ![0] bcast_S1000000_S1000000x1_0 : (⟨S1000000, .i32⟩ : BufTy).Contents (Elt Ideal) → (⟨S1000000x1, .i32⟩ : BufTy).Contents (Elt Ideal)) (nR_main_v129 m c) := rq_main_v130 m c
theorem nrq_main_v131 : nR_main_v131 m c = ((fun x i => Host.gather gather_S100000x128_S1000000x1_S1000000x128_1_0_n_n_0_1_1128 x i) : (⟨S100000x128, .f32⟩ : BufTy).Contents (Elt Ideal) → (⟨S1000000x1, .i32⟩ : BufTy).Contents (Elt Ideal) → (⟨S1000000x128, .f32⟩ : BufTy).Contents (Elt Ideal)) (nR_main_v105 m c) (nR_main_v130 m c) := rq_main_v131 m c
theorem nrq_main_v132 : nR_main_v132 m c = (broadcastInDim S1000000x128 ![0, 1] bcast_S1000000x1_S1000000x128_0_1 : (⟨S1000000x1, .f32⟩ : BufTy).Contents (Elt Ideal) → (⟨S1000000x128, .f32⟩ : BufTy).Contents (Elt Ideal)) (nR_main_v124 m c) := rq_main_v132 m c
theorem nrq_main_v133 : nR_main_v133 m c = (mulf (F := Ideal) (φ := .f32) : (⟨S1000000x128, .f32⟩ : BufTy).Contents (Elt Ideal) → (⟨S1000000x128, .f32⟩ : BufTy).Contents (Elt Ideal) → (⟨S1000000x128, .f32⟩ : BufTy).Contents (Elt Ideal)) (nR_main_v132 m c) (nR_main_v131 m c) := rq_main_v133 m c
theorem nrq_main_cst_22 : nR_main_cst_22 m c = (constant (F := Ideal) S_ .f32 0x00000000#32) := rq_main_cst_22 m c
theorem nrq_main_v134 : nR_main_v134 m c = (broadcastInDim S50000x128 ![] bcast_S_S50000x128 : (⟨S_, .f32⟩ : BufTy).Contents (Elt Ideal) → (⟨S50000x128, .f32⟩ : BufTy).Contents (Elt Ideal)) (nR_main_cst_22 m c) := rq_main_v134 m c
theorem nrq_main_v135 : nR_main_v135 m c = (broadcastInDim S1000000x1 ![0] bcast_S1000000_S1000000x1_0 : (⟨S1000000, .i32⟩ : BufTy).Contents (Elt Ideal) → (⟨S1000000x1, .i32⟩ : BufTy).Contents (Elt Ideal)) (nR_main_arg3 m c) := rq_main_v135 m c
theorem nrq_main_v136 : nR_main_v136 m c = ((fun x i u => Host.scatterAdd (F := Ideal) (φ := .f32) scatter_S50000x128_S1000000x1_S1000000x128_1_0_0_1 x i u) : (⟨S50000x128, .f32⟩ : BufTy).Contents (Elt Ideal) → (⟨S1000000x1, .i32⟩ : BufTy).Contents (Elt Ideal) → (⟨S1000000x128, .f32⟩ : BufTy).Contents (Elt Ideal) → (⟨S50000x128, .f32⟩ : BufTy).Contents (Elt Ideal)) (nR_main_v134 m c) (nR_main_v135 m c) (nR_main_v133 m c) := rq_main_v136 m c
theorem nrq_main_cst_23 : nR_main_cst_23 m c = (constant (F := Ideal) S_ .f32 0x3F000000#32) := rq_main_cst_23 m c
theorem nrq_main_v137 : nR_main_v137 m c = (broadcastInDim S50000x128 ![] bcast_S_S50000x128 : (⟨S_, .f32⟩ : BufTy).Contents (Elt Ideal) → (⟨S50000x128, .f32⟩ : BufTy).Contents (Elt Ideal)) (nR_main_cst_23 m c) := rq_main_v137 m c
theorem nrq_main_v138 : nR_main_v138 m c = (mulf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) (nR_main_v137 m c) (nR_main_v136 m c) := rq_main_v138 m c
theorem nrq_main_v139 : nR_main_v139 m c = (maximumf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) (nR_main_v138 m c) (nR_main_v136 m c) := rq_main_v139 m c
theorem nrq_main_v140 : nR_main_v140 m c = ((extractStridedSlice S1x3x128x128 ![1, 0, 0, 0] · slices_S2x3x128x128_S1x3x128x128_1_0_0_0) : (⟨S2x3x128x128, .f32⟩ : BufTy).Contents (Elt Ideal) → (⟨S1x3x128x128, .f32⟩ : BufTy).Contents (Elt Ideal)) (nR_main_arg9 m c) := rq_main_v140 m c
theorem nrq_main_v141 : nR_main_v141 m c = fun i => shapeCast S3x128x128 (nR_main_v140 m c) shapeCasts_S1x3x128x128_S3x128x128 i := rq_main_v141 m c
theorem nrq_main_v142 : nR_main_v142 m c = ((transpose S128x100000 [1, 0] · transposes_S100000x128_S128x100000_1_0) : (⟨S100000x128, .f32⟩ : BufTy).Contents (Elt Ideal) → (⟨S128x100000, .f32⟩ : BufTy).Contents (Elt Ideal)) (nR_main_v0 m c) := rq_main_v142 m c
theorem nrq_main_v143 : nR_main_v143 m c = ((fun l r => Host.dotGeneral (F := Ideal) (φ₁ := .f32) (φ₂ := .f32) dot_S128x100000_S100000x128_S128x128_1_0_0_1_n_n none l r) : (⟨S128x100000, .f32⟩ : BufTy).Contents (Elt Ideal) → (⟨S100000x128, .f32⟩ : BufTy).Contents (Elt Ideal) → (⟨S128x128, .f32⟩ : BufTy).Contents (Elt Ideal)) (nR_main_v142 m c) (nR_main_v105 m c) := rq_main_v143 m c
theorem nrq_main_cst_24 : nR_main_cst_24 m c = (constant (F := Ideal) S_ .f32 0x3F000000#32) := rq_main_cst_24 m c
theorem nrq_main_v144 : nR_main_v144 m c = (broadcastInDim S128x128 ![] bcast_S_S128x128 : (⟨S_, .f32⟩ : BufTy).Contents (Elt Ideal) → (⟨S128x128, .f32⟩ : BufTy).Contents (Elt Ideal)) (nR_main_cst_24 m c) := rq_main_v144 m c
theorem nrq_main_v145 : nR_main_v145 m c = (mulf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v144 m c) (nR_main_v143 m c) := rq_main_v145 m c
theorem nrq_main_v146 : nR_main_v146 m c = (maximumf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v145 m c) (nR_main_v143 m c) := rq_main_v146 m c
theorem nrq_main_v147 : nR_main_v147 m c = ((extractStridedSlice S1x128x128 ![0, 0, 0] · slices_S3x128x128_S1x128x128_0_0_0) : (⟨S3x128x128, .f32⟩ : BufTy).Contents (Elt Ideal) → (⟨S1x128x128, .f32⟩ : BufTy).Contents (Elt Ideal)) (nR_main_v141 m c) := rq_main_v147 m c
theorem nrq_main_v148 : nR_main_v148 m c = fun i => shapeCast S128x128 (nR_main_v147 m c) shapeCasts_S1x128x128_S128x128 i := rq_main_v148 m c
theorem nrq_main_v149 : nR_main_v149 m c = ((transpose S128x128 [1, 0] · transposes_S128x128_S128x128_1_0) : (⟨S128x128, .f32⟩ : BufTy).Contents (Elt Ideal) → (⟨S128x128, .f32⟩ : BufTy).Contents (Elt Ideal)) (nR_main_v148 m c) := rq_main_v149 m c
theorem nrq_main_v150 : nR_main_v150 m c = ((fun l r => Host.dotGeneral (F := Ideal) (φ₁ := .f32) (φ₂ := .f32) dot_S128x128_S128x128_S128x128_1_0_0_1_n_n none l r) : (⟨S128x128, .f32⟩ : BufTy).Contents (Elt Ideal) → (⟨S128x128, .f32⟩ : BufTy).Contents (Elt Ideal) → (⟨S128x128, .f32⟩ : BufTy).Contents (Elt Ideal)) (nR_main_v149 m c) (nR_main_v146 m c) := rq_main_v150 m c
theorem nrq_main_cst_25 : nR_main_cst_25 m c = (constant (F := Ideal) S_ .f32 0x3F000000#32) := rq_main_cst_25 m c
theorem nrq_main_v151 : nR_main_v151 m c = (broadcastInDim S128x128 ![] bcast_S_S128x128 : (⟨S_, .f32⟩ : BufTy).Contents (Elt Ideal) → (⟨S128x128, .f32⟩ : BufTy).Contents (Elt Ideal)) (nR_main_cst_25 m c) := rq_main_v151 m c

end Cert.ReferenceIdeal.RefRun

end
-- ==== Proof.Ref.REq3.lean ====
import proofs.«126270_j6725918785969_1_alg».proof.Proof.Ref.REqBase

/-!
# The reference's host operations, each as an equation between final buffer contents (window 3)
-/

set_option maxRecDepth 16384

noncomputable section

namespace Cert.ReferenceIdeal.RefRun

open Cert.ReferenceIdeal Cert.ReferenceIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

def rq_main_v152 := lift_binary (liftR_3 m c main_v152 (by decide)) (liftR_3 m c main_v151 (by decide)) (liftR_3 m c main_v150 (by decide)) (eq_binary lateR_3 (rfl : Wr3 m c = after ops3 (Wr2 m c)) 0 _ _ _ _ rfl (by decide) (by decide) (by decide))
def rq_main_v153 := lift_binary (liftR_3 m c main_v153 (by decide)) (liftR_3 m c main_v152 (by decide)) (liftR_3 m c main_v150 (by decide)) (eq_binary lateR_3 (rfl : Wr3 m c = after ops3 (Wr2 m c)) 1 _ _ _ _ rfl (by decide) (by decide) (by decide))
def rq_main_v154 := lift_binary (liftR_3 m c main_v154 (by decide)) (liftR_3 m c main_v153 (by decide)) (liftR_3 m c main_v146 (by decide)) (eq_binary lateR_3 (rfl : Wr3 m c = after ops3 (Wr2 m c)) 2 _ _ _ _ rfl (by decide) (by decide) (by decide))
def rq_main_v155 := lift_unary (liftR_3 m c main_v155 (by decide)) (liftR_3 m c main_v141 (by decide)) (eq_unary lateR_3 (rfl : Wr3 m c = after ops3 (Wr2 m c)) 3 _ _ _ rfl (by decide) (by decide))
def rq_main_v156 := lift_reshape (by rfl) _ (liftR_3 m c main_v156 (by decide)) (liftR_3 m c main_v155 (by decide)) (eq_reshape lateR_3 (rfl : Wr3 m c = after ops3 (Wr2 m c)) 4 _ _ _ _ rfl (by decide) (by decide))
def rq_main_v157 := lift_unary (liftR_3 m c main_v157 (by decide)) (liftR_3 m c main_v156 (by decide)) (eq_unary lateR_3 (rfl : Wr3 m c = after ops3 (Wr2 m c)) 5 _ _ _ rfl (by decide) (by decide))
def rq_main_v158 := lift_binary (liftR_3 m c main_v158 (by decide)) (liftR_3 m c main_v157 (by decide)) (liftR_3 m c main_v154 (by decide)) (eq_binary lateR_3 (rfl : Wr3 m c = after ops3 (Wr2 m c)) 6 _ _ _ _ rfl (by decide) (by decide) (by decide))
def rq_main_cst_26 := lift_nullary (liftR_3 m c main_cst_26 (by decide)) (eq_nullary lateR_3 (rfl : Wr3 m c = after ops3 (Wr2 m c)) 7 _ _ rfl (by decide))
def rq_main_v159 := lift_unary (liftR_3 m c main_v159 (by decide)) (liftR_3 m c main_cst_26 (by decide)) (eq_unary lateR_3 (rfl : Wr3 m c = after ops3 (Wr2 m c)) 8 _ _ _ rfl (by decide) (by decide))
def rq_main_v160 := lift_binary (liftR_3 m c main_v160 (by decide)) (liftR_3 m c main_v159 (by decide)) (liftR_3 m c main_v158 (by decide)) (eq_binary lateR_3 (rfl : Wr3 m c = after ops3 (Wr2 m c)) 9 _ _ _ _ rfl (by decide) (by decide) (by decide))
def rq_main_v161 := lift_binary (liftR_3 m c main_v161 (by decide)) (liftR_3 m c main_v160 (by decide)) (liftR_3 m c main_v158 (by decide)) (eq_binary lateR_3 (rfl : Wr3 m c = after ops3 (Wr2 m c)) 10 _ _ _ _ rfl (by decide) (by decide) (by decide))
def rq_main_v162 := lift_binary (liftR_3 m c main_v162 (by decide)) (liftR_3 m c main_v161 (by decide)) (liftR_3 m c main_v154 (by decide)) (eq_binary lateR_3 (rfl : Wr3 m c = after ops3 (Wr2 m c)) 11 _ _ _ _ rfl (by decide) (by decide) (by decide))
def rq_main_v163 := lift_unary (liftR_3 m c main_v163 (by decide)) (liftR_3 m c main_v141 (by decide)) (eq_unary lateR_3 (rfl : Wr3 m c = after ops3 (Wr2 m c)) 12 _ _ _ rfl (by decide) (by decide))
def rq_main_v164 := lift_reshape (by rfl) _ (liftR_3 m c main_v164 (by decide)) (liftR_3 m c main_v163 (by decide)) (eq_reshape lateR_3 (rfl : Wr3 m c = after ops3 (Wr2 m c)) 13 _ _ _ _ rfl (by decide) (by decide))
def rq_main_v165 := lift_unary (liftR_3 m c main_v165 (by decide)) (liftR_3 m c main_v164 (by decide)) (eq_unary lateR_3 (rfl : Wr3 m c = after ops3 (Wr2 m c)) 14 _ _ _ rfl (by decide) (by decide))
def rq_main_v166 := lift_binary (liftR_3 m c main_v166 (by decide)) (liftR_3 m c main_v165 (by decide)) (liftR_3 m c main_v162 (by decide)) (eq_binary lateR_3 (rfl : Wr3 m c = after ops3 (Wr2 m c)) 15 _ _ _ _ rfl (by decide) (by decide) (by decide))
def rq_main_cst_27 := lift_nullary (liftR_3 m c main_cst_27 (by decide)) (eq_nullary lateR_3 (rfl : Wr3 m c = after ops3 (Wr2 m c)) 16 _ _ rfl (by decide))
def rq_main_v167 := lift_unary (liftR_3 m c main_v167 (by decide)) (liftR_3 m c main_cst_27 (by decide)) (eq_unary lateR_3 (rfl : Wr3 m c = after ops3 (Wr2 m c)) 17 _ _ _ rfl (by decide) (by decide))
def rq_main_v168 := lift_binary (liftR_3 m c main_v168 (by decide)) (liftR_3 m c main_v167 (by decide)) (liftR_3 m c main_v166 (by decide)) (eq_binary lateR_3 (rfl : Wr3 m c = after ops3 (Wr2 m c)) 18 _ _ _ _ rfl (by decide) (by decide) (by decide))
def rq_main_v169 := lift_binary (liftR_3 m c main_v169 (by decide)) (liftR_3 m c main_v168 (by decide)) (liftR_3 m c main_v166 (by decide)) (eq_binary lateR_3 (rfl : Wr3 m c = after ops3 (Wr2 m c)) 19 _ _ _ _ rfl (by decide) (by decide) (by decide))
def rq_main_v170 := lift_binary (liftR_3 m c main_v170 (by decide)) (liftR_3 m c main_v169 (by decide)) (liftR_3 m c main_v162 (by decide)) (eq_binary lateR_3 (rfl : Wr3 m c = after ops3 (Wr2 m c)) 20 _ _ _ _ rfl (by decide) (by decide) (by decide))
def rq_main_v171 := lift_binary (liftR_3 m c main_v171 (by decide)) (liftR_3 m c main_v0 (by decide)) (liftR_3 m c main_v170 (by decide)) (eq_binary lateR_3 (rfl : Wr3 m c = after ops3 (Wr2 m c)) 21 _ _ _ _ rfl (by decide) (by decide) (by decide))
def rq_main_cst_28 := lift_nullary (liftR_3 m c main_cst_28 (by decide)) (eq_nullary lateR_3 (rfl : Wr3 m c = after ops3 (Wr2 m c)) 22 _ _ rfl (by decide))
def rq_main_v172 := lift_unary (liftR_3 m c main_v172 (by decide)) (liftR_3 m c main_cst_28 (by decide)) (eq_unary lateR_3 (rfl : Wr3 m c = after ops3 (Wr2 m c)) 23 _ _ _ rfl (by decide) (by decide))
def rq_main_v173 := lift_binary (liftR_3 m c main_v173 (by decide)) (liftR_3 m c main_v172 (by decide)) (liftR_3 m c main_v171 (by decide)) (eq_binary lateR_3 (rfl : Wr3 m c = after ops3 (Wr2 m c)) 24 _ _ _ _ rfl (by decide) (by decide) (by decide))
def rq_main_v174 := lift_binary (liftR_3 m c main_v174 (by decide)) (liftR_3 m c main_v173 (by decide)) (liftR_3 m c main_v171 (by decide)) (eq_binary lateR_3 (rfl : Wr3 m c = after ops3 (Wr2 m c)) 25 _ _ _ _ rfl (by decide) (by decide) (by decide))
def rq_main_v175 := lift_unary (liftR_3 m c main_v175 (by decide)) (liftR_3 m c main_arg10 (by decide)) (eq_unary lateR_3 (rfl : Wr3 m c = after ops3 (Wr2 m c)) 26 _ _ _ rfl (by decide) (by decide))
def rq_main_v176 := lift_reshape (by rfl) _ (liftR_3 m c main_v176 (by decide)) (liftR_3 m c main_v175 (by decide)) (eq_reshape lateR_3 (rfl : Wr3 m c = after ops3 (Wr2 m c)) 27 _ _ _ _ rfl (by decide) (by decide))
def rq_main_v177 := lift_unary (liftR_3 m c main_v177 (by decide)) (liftR_3 m c main_v1 (by decide)) (eq_unary lateR_3 (rfl : Wr3 m c = after ops3 (Wr2 m c)) 28 _ _ _ rfl (by decide) (by decide))
def rq_main_v178 := lift_binary (liftR_3 m c main_v178 (by decide)) (liftR_3 m c main_v177 (by decide)) (liftR_3 m c main_v107 (by decide)) (eq_binary lateR_3 (rfl : Wr3 m c = after ops3 (Wr2 m c)) 29 _ _ _ _ rfl (by decide) (by decide) (by decide))
def rq_main_cst_29 := lift_nullary (liftR_3 m c main_cst_29 (by decide)) (eq_nullary lateR_3 (rfl : Wr3 m c = after ops3 (Wr2 m c)) 30 _ _ rfl (by decide))
def rq_main_v179 := lift_unary (liftR_3 m c main_v179 (by decide)) (liftR_3 m c main_cst_29 (by decide)) (eq_unary lateR_3 (rfl : Wr3 m c = after ops3 (Wr2 m c)) 31 _ _ _ rfl (by decide) (by decide))
def rq_main_v180 := lift_binary (liftR_3 m c main_v180 (by decide)) (liftR_3 m c main_v179 (by decide)) (liftR_3 m c main_v178 (by decide)) (eq_binary lateR_3 (rfl : Wr3 m c = after ops3 (Wr2 m c)) 32 _ _ _ _ rfl (by decide) (by decide) (by decide))
def rq_main_v181 := lift_binary (liftR_3 m c main_v181 (by decide)) (liftR_3 m c main_v180 (by decide)) (liftR_3 m c main_v178 (by decide)) (eq_binary lateR_3 (rfl : Wr3 m c = after ops3 (Wr2 m c)) 33 _ _ _ _ rfl (by decide) (by decide) (by decide))
def rq_main_v182 := lift_unary (liftR_3 m c main_v182 (by decide)) (liftR_3 m c main_v176 (by decide)) (eq_unary lateR_3 (rfl : Wr3 m c = after ops3 (Wr2 m c)) 34 _ _ _ rfl (by decide) (by decide))
def rq_main_v183 := lift_reshape (by rfl) _ (liftR_3 m c main_v183 (by decide)) (liftR_3 m c main_v182 (by decide)) (eq_reshape lateR_3 (rfl : Wr3 m c = after ops3 (Wr2 m c)) 35 _ _ _ _ rfl (by decide) (by decide))
def rq_main_v184 := lift_unary (liftR_3 m c main_v184 (by decide)) (liftR_3 m c main_v183 (by decide)) (eq_unary lateR_3 (rfl : Wr3 m c = after ops3 (Wr2 m c)) 36 _ _ _ rfl (by decide) (by decide))
def rq_main_v185 := lift_binary (liftR_3 m c main_v185 (by decide)) (liftR_3 m c main_v184 (by decide)) (liftR_3 m c main_v181 (by decide)) (eq_binary lateR_3 (rfl : Wr3 m c = after ops3 (Wr2 m c)) 37 _ _ _ _ rfl (by decide) (by decide) (by decide))
def rq_main_cst_30 := lift_nullary (liftR_3 m c main_cst_30 (by decide)) (eq_nullary lateR_3 (rfl : Wr3 m c = after ops3 (Wr2 m c)) 38 _ _ rfl (by decide))
def rq_main_v186 := lift_unary (liftR_3 m c main_v186 (by decide)) (liftR_3 m c main_cst_30 (by decide)) (eq_unary lateR_3 (rfl : Wr3 m c = after ops3 (Wr2 m c)) 39 _ _ _ rfl (by decide) (by decide))
def rq_main_v187 := lift_binary (liftR_3 m c main_v187 (by decide)) (liftR_3 m c main_v186 (by decide)) (liftR_3 m c main_v185 (by decide)) (eq_binary lateR_3 (rfl : Wr3 m c = after ops3 (Wr2 m c)) 40 _ _ _ _ rfl (by decide) (by decide) (by decide))
def rq_main_v188 := lift_binary (liftR_3 m c main_v188 (by decide)) (liftR_3 m c main_v187 (by decide)) (liftR_3 m c main_v185 (by decide)) (eq_binary lateR_3 (rfl : Wr3 m c = after ops3 (Wr2 m c)) 41 _ _ _ _ rfl (by decide) (by decide) (by decide))
def rq_main_v189 := lift_binary (liftR_3 m c main_v189 (by decide)) (liftR_3 m c main_v188 (by decide)) (liftR_3 m c main_v181 (by decide)) (eq_binary lateR_3 (rfl : Wr3 m c = after ops3 (Wr2 m c)) 42 _ _ _ _ rfl (by decide) (by decide) (by decide))
def rq_main_v190 := lift_unary (liftR_3 m c main_v190 (by decide)) (liftR_3 m c main_v176 (by decide)) (eq_unary lateR_3 (rfl : Wr3 m c = after ops3 (Wr2 m c)) 43 _ _ _ rfl (by decide) (by decide))
def rq_main_v191 := lift_reshape (by rfl) _ (liftR_3 m c main_v191 (by decide)) (liftR_3 m c main_v190 (by decide)) (eq_reshape lateR_3 (rfl : Wr3 m c = after ops3 (Wr2 m c)) 44 _ _ _ _ rfl (by decide) (by decide))
def rq_main_v192 := lift_unary (liftR_3 m c main_v192 (by decide)) (liftR_3 m c main_v191 (by decide)) (eq_unary lateR_3 (rfl : Wr3 m c = after ops3 (Wr2 m c)) 45 _ _ _ rfl (by decide) (by decide))
def rq_main_v193 := lift_binary (liftR_3 m c main_v193 (by decide)) (liftR_3 m c main_v192 (by decide)) (liftR_3 m c main_v189 (by decide)) (eq_binary lateR_3 (rfl : Wr3 m c = after ops3 (Wr2 m c)) 46 _ _ _ _ rfl (by decide) (by decide) (by decide))
def rq_main_cst_31 := lift_nullary (liftR_3 m c main_cst_31 (by decide)) (eq_nullary lateR_3 (rfl : Wr3 m c = after ops3 (Wr2 m c)) 47 _ _ rfl (by decide))
def rq_main_v194 := lift_unary (liftR_3 m c main_v194 (by decide)) (liftR_3 m c main_cst_31 (by decide)) (eq_unary lateR_3 (rfl : Wr3 m c = after ops3 (Wr2 m c)) 48 _ _ _ rfl (by decide) (by decide))
def rq_main_v195 := lift_binary (liftR_3 m c main_v195 (by decide)) (liftR_3 m c main_v194 (by decide)) (liftR_3 m c main_v193 (by decide)) (eq_binary lateR_3 (rfl : Wr3 m c = after ops3 (Wr2 m c)) 49 _ _ _ _ rfl (by decide) (by decide) (by decide))
def rq_main_v196 := lift_binary (liftR_3 m c main_v196 (by decide)) (liftR_3 m c main_v195 (by decide)) (liftR_3 m c main_v193 (by decide)) (eq_binary lateR_3 (rfl : Wr3 m c = after ops3 (Wr2 m c)) 50 _ _ _ _ rfl (by decide) (by decide) (by decide))
def rq_main_v197 := lift_binary (liftR_3 m c main_v197 (by decide)) (liftR_3 m c main_v196 (by decide)) (liftR_3 m c main_v189 (by decide)) (eq_binary lateR_3 (rfl : Wr3 m c = after ops3 (Wr2 m c)) 51 _ _ _ _ rfl (by decide) (by decide) (by decide))
def rq_main_v198 := lift_unary (liftR_3 m c main_v198 (by decide)) (liftR_3 m c main_v176 (by decide)) (eq_unary lateR_3 (rfl : Wr3 m c = after ops3 (Wr2 m c)) 52 _ _ _ rfl (by decide) (by decide))
def rq_main_v199 := lift_reshape (by rfl) _ (liftR_3 m c main_v199 (by decide)) (liftR_3 m c main_v198 (by decide)) (eq_reshape lateR_3 (rfl : Wr3 m c = after ops3 (Wr2 m c)) 53 _ _ _ _ rfl (by decide) (by decide))
def rq_main_v200 := lift_unary (liftR_3 m c main_v200 (by decide)) (liftR_3 m c main_v199 (by decide)) (eq_unary lateR_3 (rfl : Wr3 m c = after ops3 (Wr2 m c)) 54 _ _ _ rfl (by decide) (by decide))
def rq_main_v201 := lift_binary (liftR_3 m c main_v201 (by decide)) (liftR_3 m c main_v200 (by decide)) (liftR_3 m c main_v197 (by decide)) (eq_binary lateR_3 (rfl : Wr3 m c = after ops3 (Wr2 m c)) 55 _ _ _ _ rfl (by decide) (by decide) (by decide))
def rq_main_cst_32 := lift_nullary (liftR_3 m c main_cst_32 (by decide)) (eq_nullary lateR_3 (rfl : Wr3 m c = after ops3 (Wr2 m c)) 56 _ _ rfl (by decide))
def rq_main_v202 := lift_unary (liftR_3 m c main_v202 (by decide)) (liftR_3 m c main_cst_32 (by decide)) (eq_unary lateR_3 (rfl : Wr3 m c = after ops3 (Wr2 m c)) 57 _ _ _ rfl (by decide) (by decide))
def rq_main_v203 := lift_binary (liftR_3 m c main_v203 (by decide)) (liftR_3 m c main_v202 (by decide)) (liftR_3 m c main_v201 (by decide)) (eq_binary lateR_3 (rfl : Wr3 m c = after ops3 (Wr2 m c)) 58 _ _ _ _ rfl (by decide) (by decide) (by decide))
def rq_main_v204 := lift_binary (liftR_3 m c main_v204 (by decide)) (liftR_3 m c main_v203 (by decide)) (liftR_3 m c main_v201 (by decide)) (eq_binary lateR_3 (rfl : Wr3 m c = after ops3 (Wr2 m c)) 59 _ _ _ _ rfl (by decide) (by decide) (by decide))

end Cert.ReferenceIdeal.RefRun

end
-- ==== Proof.Ref.RN3.lean ====
import proofs.«126270_j6725918785969_1_alg».proof.Proof.Ref.RNDefs
import proofs.«126270_j6725918785969_1_alg».proof.Proof.Ref.REq3

/-!
# The reference's host operations as equations between plainly typed contents (window 3)
-/

set_option maxRecDepth 16384

noncomputable section

namespace Cert.ReferenceIdeal.RefRun

open Cert.ReferenceIdeal Cert.ReferenceIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

theorem nrq_main_v152 : nR_main_v152 m c = (mulf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v151 m c) (nR_main_v150 m c) := rq_main_v152 m c
theorem nrq_main_v153 : nR_main_v153 m c = (maximumf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v152 m c) (nR_main_v150 m c) := rq_main_v153 m c
theorem nrq_main_v154 : nR_main_v154 m c = (addf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v153 m c) (nR_main_v146 m c) := rq_main_v154 m c
theorem nrq_main_v155 : nR_main_v155 m c = ((extractStridedSlice S1x128x128 ![1, 0, 0] · slices_S3x128x128_S1x128x128_1_0_0) : (⟨S3x128x128, .f32⟩ : BufTy).Contents (Elt Ideal) → (⟨S1x128x128, .f32⟩ : BufTy).Contents (Elt Ideal)) (nR_main_v141 m c) := rq_main_v155 m c
theorem nrq_main_v156 : nR_main_v156 m c = fun i => shapeCast S128x128 (nR_main_v155 m c) shapeCasts_S1x128x128_S128x128 i := rq_main_v156 m c
theorem nrq_main_v157 : nR_main_v157 m c = ((transpose S128x128 [1, 0] · transposes_S128x128_S128x128_1_0) : (⟨S128x128, .f32⟩ : BufTy).Contents (Elt Ideal) → (⟨S128x128, .f32⟩ : BufTy).Contents (Elt Ideal)) (nR_main_v156 m c) := rq_main_v157 m c
theorem nrq_main_v158 : nR_main_v158 m c = ((fun l r => Host.dotGeneral (F := Ideal) (φ₁ := .f32) (φ₂ := .f32) dot_S128x128_S128x128_S128x128_1_0_0_1_n_n none l r) : (⟨S128x128, .f32⟩ : BufTy).Contents (Elt Ideal) → (⟨S128x128, .f32⟩ : BufTy).Contents (Elt Ideal) → (⟨S128x128, .f32⟩ : BufTy).Contents (Elt Ideal)) (nR_main_v157 m c) (nR_main_v154 m c) := rq_main_v158 m c
theorem nrq_main_cst_26 : nR_main_cst_26 m c = (constant (F := Ideal) S_ .f32 0x3F000000#32) := rq_main_cst_26 m c
theorem nrq_main_v159 : nR_main_v159 m c = (broadcastInDim S128x128 ![] bcast_S_S128x128 : (⟨S_, .f32⟩ : BufTy).Contents (Elt Ideal) → (⟨S128x128, .f32⟩ : BufTy).Contents (Elt Ideal)) (nR_main_cst_26 m c) := rq_main_v159 m c
theorem nrq_main_v160 : nR_main_v160 m c = (mulf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v159 m c) (nR_main_v158 m c) := rq_main_v160 m c
theorem nrq_main_v161 : nR_main_v161 m c = (maximumf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v160 m c) (nR_main_v158 m c) := rq_main_v161 m c
theorem nrq_main_v162 : nR_main_v162 m c = (addf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v161 m c) (nR_main_v154 m c) := rq_main_v162 m c
theorem nrq_main_v163 : nR_main_v163 m c = ((extractStridedSlice S1x128x128 ![2, 0, 0] · slices_S3x128x128_S1x128x128_2_0_0) : (⟨S3x128x128, .f32⟩ : BufTy).Contents (Elt Ideal) → (⟨S1x128x128, .f32⟩ : BufTy).Contents (Elt Ideal)) (nR_main_v141 m c) := rq_main_v163 m c
theorem nrq_main_v164 : nR_main_v164 m c = fun i => shapeCast S128x128 (nR_main_v163 m c) shapeCasts_S1x128x128_S128x128 i := rq_main_v164 m c
theorem nrq_main_v165 : nR_main_v165 m c = ((transpose S128x128 [1, 0] · transposes_S128x128_S128x128_1_0) : (⟨S128x128, .f32⟩ : BufTy).Contents (Elt Ideal) → (⟨S128x128, .f32⟩ : BufTy).Contents (Elt Ideal)) (nR_main_v164 m c) := rq_main_v165 m c
theorem nrq_main_v166 : nR_main_v166 m c = ((fun l r => Host.dotGeneral (F := Ideal) (φ₁ := .f32) (φ₂ := .f32) dot_S128x128_S128x128_S128x128_1_0_0_1_n_n none l r) : (⟨S128x128, .f32⟩ : BufTy).Contents (Elt Ideal) → (⟨S128x128, .f32⟩ : BufTy).Contents (Elt Ideal) → (⟨S128x128, .f32⟩ : BufTy).Contents (Elt Ideal)) (nR_main_v165 m c) (nR_main_v162 m c) := rq_main_v166 m c
theorem nrq_main_cst_27 : nR_main_cst_27 m c = (constant (F := Ideal) S_ .f32 0x3F000000#32) := rq_main_cst_27 m c
theorem nrq_main_v167 : nR_main_v167 m c = (broadcastInDim S128x128 ![] bcast_S_S128x128 : (⟨S_, .f32⟩ : BufTy).Contents (Elt Ideal) → (⟨S128x128, .f32⟩ : BufTy).Contents (Elt Ideal)) (nR_main_cst_27 m c) := rq_main_v167 m c
theorem nrq_main_v168 : nR_main_v168 m c = (mulf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v167 m c) (nR_main_v166 m c) := rq_main_v168 m c
theorem nrq_main_v169 : nR_main_v169 m c = (maximumf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v168 m c) (nR_main_v166 m c) := rq_main_v169 m c
theorem nrq_main_v170 : nR_main_v170 m c = (addf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v169 m c) (nR_main_v162 m c) := rq_main_v170 m c
theorem nrq_main_v171 : nR_main_v171 m c = ((fun l r => Host.dotGeneral (F := Ideal) (φ₁ := .f32) (φ₂ := .f32) dot_S100000x128_S128x128_S100000x128_1_0_0_1_n_n none l r) : (⟨S100000x128, .f32⟩ : BufTy).Contents (Elt Ideal) → (⟨S128x128, .f32⟩ : BufTy).Contents (Elt Ideal) → (⟨S100000x128, .f32⟩ : BufTy).Contents (Elt Ideal)) (nR_main_v0 m c) (nR_main_v170 m c) := rq_main_v171 m c
theorem nrq_main_cst_28 : nR_main_cst_28 m c = (constant (F := Ideal) S_ .f32 0x3F000000#32) := rq_main_cst_28 m c
theorem nrq_main_v172 : nR_main_v172 m c = (broadcastInDim S100000x128 ![] bcast_S_S100000x128 : (⟨S_, .f32⟩ : BufTy).Contents (Elt Ideal) → (⟨S100000x128, .f32⟩ : BufTy).Contents (Elt Ideal)) (nR_main_cst_28 m c) := rq_main_v172 m c
theorem nrq_main_v173 : nR_main_v173 m c = (mulf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)) (nR_main_v172 m c) (nR_main_v171 m c) := rq_main_v173 m c
theorem nrq_main_v174 : nR_main_v174 m c = (maximumf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)) (nR_main_v173 m c) (nR_main_v171 m c) := rq_main_v174 m c
theorem nrq_main_v175 : nR_main_v175 m c = ((extractStridedSlice S1x3x128x128 ![1, 0, 0, 0] · slices_S2x3x128x128_S1x3x128x128_1_0_0_0) : (⟨S2x3x128x128, .f32⟩ : BufTy).Contents (Elt Ideal) → (⟨S1x3x128x128, .f32⟩ : BufTy).Contents (Elt Ideal)) (nR_main_arg10 m c) := rq_main_v175 m c
theorem nrq_main_v176 : nR_main_v176 m c = fun i => shapeCast S3x128x128 (nR_main_v175 m c) shapeCasts_S1x3x128x128_S3x128x128 i := rq_main_v176 m c
theorem nrq_main_v177 : nR_main_v177 m c = ((transpose S128x50000 [1, 0] · transposes_S50000x128_S128x50000_1_0) : (⟨S50000x128, .f32⟩ : BufTy).Contents (Elt Ideal) → (⟨S128x50000, .f32⟩ : BufTy).Contents (Elt Ideal)) (nR_main_v1 m c) := rq_main_v177 m c
theorem nrq_main_v178 : nR_main_v178 m c = ((fun l r => Host.dotGeneral (F := Ideal) (φ₁ := .f32) (φ₂ := .f32) dot_S128x50000_S50000x128_S128x128_1_0_0_1_n_n none l r) : (⟨S128x50000, .f32⟩ : BufTy).Contents (Elt Ideal) → (⟨S50000x128, .f32⟩ : BufTy).Contents (Elt Ideal) → (⟨S128x128, .f32⟩ : BufTy).Contents (Elt Ideal)) (nR_main_v177 m c) (nR_main_v107 m c) := rq_main_v178 m c
theorem nrq_main_cst_29 : nR_main_cst_29 m c = (constant (F := Ideal) S_ .f32 0x3F000000#32) := rq_main_cst_29 m c
theorem nrq_main_v179 : nR_main_v179 m c = (broadcastInDim S128x128 ![] bcast_S_S128x128 : (⟨S_, .f32⟩ : BufTy).Contents (Elt Ideal) → (⟨S128x128, .f32⟩ : BufTy).Contents (Elt Ideal)) (nR_main_cst_29 m c) := rq_main_v179 m c
theorem nrq_main_v180 : nR_main_v180 m c = (mulf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v179 m c) (nR_main_v178 m c) := rq_main_v180 m c
theorem nrq_main_v181 : nR_main_v181 m c = (maximumf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v180 m c) (nR_main_v178 m c) := rq_main_v181 m c
theorem nrq_main_v182 : nR_main_v182 m c = ((extractStridedSlice S1x128x128 ![0, 0, 0] · slices_S3x128x128_S1x128x128_0_0_0) : (⟨S3x128x128, .f32⟩ : BufTy).Contents (Elt Ideal) → (⟨S1x128x128, .f32⟩ : BufTy).Contents (Elt Ideal)) (nR_main_v176 m c) := rq_main_v182 m c
theorem nrq_main_v183 : nR_main_v183 m c = fun i => shapeCast S128x128 (nR_main_v182 m c) shapeCasts_S1x128x128_S128x128 i := rq_main_v183 m c
theorem nrq_main_v184 : nR_main_v184 m c = ((transpose S128x128 [1, 0] · transposes_S128x128_S128x128_1_0) : (⟨S128x128, .f32⟩ : BufTy).Contents (Elt Ideal) → (⟨S128x128, .f32⟩ : BufTy).Contents (Elt Ideal)) (nR_main_v183 m c) := rq_main_v184 m c
theorem nrq_main_v185 : nR_main_v185 m c = ((fun l r => Host.dotGeneral (F := Ideal) (φ₁ := .f32) (φ₂ := .f32) dot_S128x128_S128x128_S128x128_1_0_0_1_n_n none l r) : (⟨S128x128, .f32⟩ : BufTy).Contents (Elt Ideal) → (⟨S128x128, .f32⟩ : BufTy).Contents (Elt Ideal) → (⟨S128x128, .f32⟩ : BufTy).Contents (Elt Ideal)) (nR_main_v184 m c) (nR_main_v181 m c) := rq_main_v185 m c
theorem nrq_main_cst_30 : nR_main_cst_30 m c = (constant (F := Ideal) S_ .f32 0x3F000000#32) := rq_main_cst_30 m c
theorem nrq_main_v186 : nR_main_v186 m c = (broadcastInDim S128x128 ![] bcast_S_S128x128 : (⟨S_, .f32⟩ : BufTy).Contents (Elt Ideal) → (⟨S128x128, .f32⟩ : BufTy).Contents (Elt Ideal)) (nR_main_cst_30 m c) := rq_main_v186 m c
theorem nrq_main_v187 : nR_main_v187 m c = (mulf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v186 m c) (nR_main_v185 m c) := rq_main_v187 m c
theorem nrq_main_v188 : nR_main_v188 m c = (maximumf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v187 m c) (nR_main_v185 m c) := rq_main_v188 m c
theorem nrq_main_v189 : nR_main_v189 m c = (addf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v188 m c) (nR_main_v181 m c) := rq_main_v189 m c
theorem nrq_main_v190 : nR_main_v190 m c = ((extractStridedSlice S1x128x128 ![1, 0, 0] · slices_S3x128x128_S1x128x128_1_0_0) : (⟨S3x128x128, .f32⟩ : BufTy).Contents (Elt Ideal) → (⟨S1x128x128, .f32⟩ : BufTy).Contents (Elt Ideal)) (nR_main_v176 m c) := rq_main_v190 m c
theorem nrq_main_v191 : nR_main_v191 m c = fun i => shapeCast S128x128 (nR_main_v190 m c) shapeCasts_S1x128x128_S128x128 i := rq_main_v191 m c
theorem nrq_main_v192 : nR_main_v192 m c = ((transpose S128x128 [1, 0] · transposes_S128x128_S128x128_1_0) : (⟨S128x128, .f32⟩ : BufTy).Contents (Elt Ideal) → (⟨S128x128, .f32⟩ : BufTy).Contents (Elt Ideal)) (nR_main_v191 m c) := rq_main_v192 m c
theorem nrq_main_v193 : nR_main_v193 m c = ((fun l r => Host.dotGeneral (F := Ideal) (φ₁ := .f32) (φ₂ := .f32) dot_S128x128_S128x128_S128x128_1_0_0_1_n_n none l r) : (⟨S128x128, .f32⟩ : BufTy).Contents (Elt Ideal) → (⟨S128x128, .f32⟩ : BufTy).Contents (Elt Ideal) → (⟨S128x128, .f32⟩ : BufTy).Contents (Elt Ideal)) (nR_main_v192 m c) (nR_main_v189 m c) := rq_main_v193 m c
theorem nrq_main_cst_31 : nR_main_cst_31 m c = (constant (F := Ideal) S_ .f32 0x3F000000#32) := rq_main_cst_31 m c
theorem nrq_main_v194 : nR_main_v194 m c = (broadcastInDim S128x128 ![] bcast_S_S128x128 : (⟨S_, .f32⟩ : BufTy).Contents (Elt Ideal) → (⟨S128x128, .f32⟩ : BufTy).Contents (Elt Ideal)) (nR_main_cst_31 m c) := rq_main_v194 m c
theorem nrq_main_v195 : nR_main_v195 m c = (mulf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v194 m c) (nR_main_v193 m c) := rq_main_v195 m c
theorem nrq_main_v196 : nR_main_v196 m c = (maximumf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v195 m c) (nR_main_v193 m c) := rq_main_v196 m c
theorem nrq_main_v197 : nR_main_v197 m c = (addf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v196 m c) (nR_main_v189 m c) := rq_main_v197 m c
theorem nrq_main_v198 : nR_main_v198 m c = ((extractStridedSlice S1x128x128 ![2, 0, 0] · slices_S3x128x128_S1x128x128_2_0_0) : (⟨S3x128x128, .f32⟩ : BufTy).Contents (Elt Ideal) → (⟨S1x128x128, .f32⟩ : BufTy).Contents (Elt Ideal)) (nR_main_v176 m c) := rq_main_v198 m c
theorem nrq_main_v199 : nR_main_v199 m c = fun i => shapeCast S128x128 (nR_main_v198 m c) shapeCasts_S1x128x128_S128x128 i := rq_main_v199 m c
theorem nrq_main_v200 : nR_main_v200 m c = ((transpose S128x128 [1, 0] · transposes_S128x128_S128x128_1_0) : (⟨S128x128, .f32⟩ : BufTy).Contents (Elt Ideal) → (⟨S128x128, .f32⟩ : BufTy).Contents (Elt Ideal)) (nR_main_v199 m c) := rq_main_v200 m c
theorem nrq_main_v201 : nR_main_v201 m c = ((fun l r => Host.dotGeneral (F := Ideal) (φ₁ := .f32) (φ₂ := .f32) dot_S128x128_S128x128_S128x128_1_0_0_1_n_n none l r) : (⟨S128x128, .f32⟩ : BufTy).Contents (Elt Ideal) → (⟨S128x128, .f32⟩ : BufTy).Contents (Elt Ideal) → (⟨S128x128, .f32⟩ : BufTy).Contents (Elt Ideal)) (nR_main_v200 m c) (nR_main_v197 m c) := rq_main_v201 m c
theorem nrq_main_cst_32 : nR_main_cst_32 m c = (constant (F := Ideal) S_ .f32 0x3F000000#32) := rq_main_cst_32 m c
theorem nrq_main_v202 : nR_main_v202 m c = (broadcastInDim S128x128 ![] bcast_S_S128x128 : (⟨S_, .f32⟩ : BufTy).Contents (Elt Ideal) → (⟨S128x128, .f32⟩ : BufTy).Contents (Elt Ideal)) (nR_main_cst_32 m c) := rq_main_v202 m c
theorem nrq_main_v203 : nR_main_v203 m c = (mulf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v202 m c) (nR_main_v201 m c) := rq_main_v203 m c
theorem nrq_main_v204 : nR_main_v204 m c = (maximumf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v203 m c) (nR_main_v201 m c) := rq_main_v204 m c

end Cert.ReferenceIdeal.RefRun

end
-- ==== Proof.Ref.REq4.lean ====
import proofs.«126270_j6725918785969_1_alg».proof.Proof.Ref.REqBase

/-!
# The reference's host operations, each as an equation between final buffer contents (window 4)
-/

set_option maxRecDepth 16384

noncomputable section

namespace Cert.ReferenceIdeal.RefRun

open Cert.ReferenceIdeal Cert.ReferenceIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

def rq_main_v205 := lift_binary (liftR_4 m c main_v205 (by decide)) (liftR_4 m c main_v204 (by decide)) (liftR_4 m c main_v197 (by decide)) (eq_binary lateR_4 (rfl : Wr4 m c = after ops4 (Wr3 m c)) 0 _ _ _ _ rfl (by decide) (by decide) (by decide))
def rq_main_v206 := lift_binary (liftR_4 m c main_v206 (by decide)) (liftR_4 m c main_v1 (by decide)) (liftR_4 m c main_v205 (by decide)) (eq_binary lateR_4 (rfl : Wr4 m c = after ops4 (Wr3 m c)) 1 _ _ _ _ rfl (by decide) (by decide) (by decide))
def rq_main_cst_33 := lift_nullary (liftR_4 m c main_cst_33 (by decide)) (eq_nullary lateR_4 (rfl : Wr4 m c = after ops4 (Wr3 m c)) 2 _ _ rfl (by decide))
def rq_main_v207 := lift_unary (liftR_4 m c main_v207 (by decide)) (liftR_4 m c main_cst_33 (by decide)) (eq_unary lateR_4 (rfl : Wr4 m c = after ops4 (Wr3 m c)) 3 _ _ _ rfl (by decide) (by decide))
def rq_main_v208 := lift_binary (liftR_4 m c main_v208 (by decide)) (liftR_4 m c main_v207 (by decide)) (liftR_4 m c main_v206 (by decide)) (eq_binary lateR_4 (rfl : Wr4 m c = after ops4 (Wr3 m c)) 4 _ _ _ _ rfl (by decide) (by decide) (by decide))
def rq_main_v209 := lift_binary (liftR_4 m c main_v209 (by decide)) (liftR_4 m c main_v208 (by decide)) (liftR_4 m c main_v206 (by decide)) (eq_binary lateR_4 (rfl : Wr4 m c = after ops4 (Wr3 m c)) 5 _ _ _ _ rfl (by decide) (by decide) (by decide))
def rq_main_v210 := lift_binary (liftR_4 m c main_v210 (by decide)) (liftR_4 m c main_v123 (by decide)) (liftR_4 m c main_v174 (by decide)) (eq_binary lateR_4 (rfl : Wr4 m c = after ops4 (Wr3 m c)) 6 _ _ _ _ rfl (by decide) (by decide) (by decide))
def rq_main_v211 := lift_binary (liftR_4 m c main_v211 (by decide)) (liftR_4 m c main_v210 (by decide)) (liftR_4 m c main_v105 (by decide)) (eq_binary lateR_4 (rfl : Wr4 m c = after ops4 (Wr3 m c)) 7 _ _ _ _ rfl (by decide) (by decide) (by decide))
def rq_main_v212 := lift_binary (liftR_4 m c main_v212 (by decide)) (liftR_4 m c main_v139 (by decide)) (liftR_4 m c main_v209 (by decide)) (eq_binary lateR_4 (rfl : Wr4 m c = after ops4 (Wr3 m c)) 8 _ _ _ _ rfl (by decide) (by decide) (by decide))
def rq_main_v213 := lift_binary (liftR_4 m c main_v213 (by decide)) (liftR_4 m c main_v212 (by decide)) (liftR_4 m c main_v107 (by decide)) (eq_binary lateR_4 (rfl : Wr4 m c = after ops4 (Wr3 m c)) 9 _ _ _ _ rfl (by decide) (by decide) (by decide))
def rq_main_cst_34 := lift_nullary (liftR_4 m c main_cst_34 (by decide)) (eq_nullary lateR_4 (rfl : Wr4 m c = after ops4 (Wr3 m c)) 10 _ _ rfl (by decide))
def rq_main_v214 := lift_unary (liftR_4 m c main_v214 (by decide)) (liftR_4 m c main_cst_34 (by decide)) (eq_unary lateR_4 (rfl : Wr4 m c = after ops4 (Wr3 m c)) 11 _ _ _ rfl (by decide) (by decide))
def rq_main_v215 := lift_binary (liftR_4 m c main_v215 (by decide)) (liftR_4 m c main_v214 (by decide)) (liftR_4 m c main_arg5 (by decide)) (eq_binary lateR_4 (rfl : Wr4 m c = after ops4 (Wr3 m c)) 12 _ _ _ _ rfl (by decide) (by decide) (by decide))
def rq_main_v216 := lift_binary (liftR_4 m c main_v216 (by decide)) (liftR_4 m c main_v215 (by decide)) (liftR_4 m c main_v105 (by decide)) (eq_binary lateR_4 (rfl : Wr4 m c = after ops4 (Wr3 m c)) 13 _ _ _ _ rfl (by decide) (by decide) (by decide))
def rq_main_v217 := lift_binary (liftR_4 m c main_v217 (by decide)) (liftR_4 m c main_v216 (by decide)) (liftR_4 m c main_v211 (by decide)) (eq_binary lateR_4 (rfl : Wr4 m c = after ops4 (Wr3 m c)) 14 _ _ _ _ rfl (by decide) (by decide) (by decide))
def rq_main_cst_35 := lift_nullary (liftR_4 m c main_cst_35 (by decide)) (eq_nullary lateR_4 (rfl : Wr4 m c = after ops4 (Wr3 m c)) 15 _ _ rfl (by decide))
def rq_main_v218 := lift_unary (liftR_4 m c main_v218 (by decide)) (liftR_4 m c main_cst_35 (by decide)) (eq_unary lateR_4 (rfl : Wr4 m c = after ops4 (Wr3 m c)) 16 _ _ _ rfl (by decide) (by decide))
def rq_main_v219 := lift_binary (liftR_4 m c main_v219 (by decide)) (liftR_4 m c main_v218 (by decide)) (liftR_4 m c main_arg6 (by decide)) (eq_binary lateR_4 (rfl : Wr4 m c = after ops4 (Wr3 m c)) 17 _ _ _ _ rfl (by decide) (by decide) (by decide))
def rq_main_v220 := lift_binary (liftR_4 m c main_v220 (by decide)) (liftR_4 m c main_v219 (by decide)) (liftR_4 m c main_v107 (by decide)) (eq_binary lateR_4 (rfl : Wr4 m c = after ops4 (Wr3 m c)) 18 _ _ _ _ rfl (by decide) (by decide) (by decide))
def rq_main_v221 := lift_binary (liftR_4 m c main_v221 (by decide)) (liftR_4 m c main_v220 (by decide)) (liftR_4 m c main_v213 (by decide)) (eq_binary lateR_4 (rfl : Wr4 m c = after ops4 (Wr3 m c)) 19 _ _ _ _ rfl (by decide) (by decide) (by decide))
def rq_main_c_36 := lift_nullary (liftR_4 m c main_c_36 (by decide)) (eq_nullary lateR_4 (rfl : Wr4 m c = after ops4 (Wr3 m c)) 20 _ _ rfl (by decide))
def rq_main_v222 := lift_unary (liftR_4 m c main_v222 (by decide)) (liftR_4 m c main_c_36 (by decide)) (eq_unary lateR_4 (rfl : Wr4 m c = after ops4 (Wr3 m c)) 21 _ _ _ rfl (by decide) (by decide))
def rq_main_v223 := lift_binary (liftR_4 m c main_v223 (by decide)) (liftR_4 m c main_arg0 (by decide)) (liftR_4 m c main_v222 (by decide)) (eq_binary lateR_4 (rfl : Wr4 m c = after ops4 (Wr3 m c)) 22 _ _ _ _ rfl (by decide) (by decide) (by decide))
def rq_main_c_37 := lift_nullary (liftR_4 m c main_c_37 (by decide)) (eq_nullary lateR_4 (rfl : Wr4 m c = after ops4 (Wr3 m c)) 23 _ _ rfl (by decide))
def rq_main_v224 := lift_unary (liftR_4 m c main_v224 (by decide)) (liftR_4 m c main_c_37 (by decide)) (eq_unary lateR_4 (rfl : Wr4 m c = after ops4 (Wr3 m c)) 24 _ _ _ rfl (by decide) (by decide))
def rq_main_v225 := lift_binary (liftR_4 m c main_v225 (by decide)) (liftR_4 m c main_arg0 (by decide)) (liftR_4 m c main_v224 (by decide)) (eq_binary lateR_4 (rfl : Wr4 m c = after ops4 (Wr3 m c)) 25 _ _ _ _ rfl (by decide) (by decide) (by decide))
def rq_main_v226 := lift_ternary (liftR_4 m c main_v226 (by decide)) (liftR_4 m c main_v223 (by decide)) (liftR_4 m c main_v225 (by decide)) (liftR_4 m c main_arg0 (by decide)) (eq_ternary lateR_4 (rfl : Wr4 m c = after ops4 (Wr3 m c)) 26 _ _ _ _ _ rfl (by decide) (by decide) (by decide) (by decide))
def rq_main_v227 := lift_unary (liftR_4 m c main_v227 (by decide)) (liftR_4 m c main_v226 (by decide)) (eq_unary lateR_4 (rfl : Wr4 m c = after ops4 (Wr3 m c)) 27 _ _ _ rfl (by decide) (by decide))
def rq_main_v228 := lift_binary (liftR_4 m c main_v228 (by decide)) (liftR_4 m c main_v217 (by decide)) (liftR_4 m c main_v227 (by decide)) (eq_binary lateR_4 (rfl : Wr4 m c = after ops4 (Wr3 m c)) 28 _ _ _ _ rfl (by decide) (by decide) (by decide))
def rq_main_c_38 := lift_nullary (liftR_4 m c main_c_38 (by decide)) (eq_nullary lateR_4 (rfl : Wr4 m c = after ops4 (Wr3 m c)) 29 _ _ rfl (by decide))
def rq_main_v229 := lift_unary (liftR_4 m c main_v229 (by decide)) (liftR_4 m c main_c_38 (by decide)) (eq_unary lateR_4 (rfl : Wr4 m c = after ops4 (Wr3 m c)) 30 _ _ _ rfl (by decide) (by decide))
def rq_main_v230 := lift_binary (liftR_4 m c main_v230 (by decide)) (liftR_4 m c main_arg1 (by decide)) (liftR_4 m c main_v229 (by decide)) (eq_binary lateR_4 (rfl : Wr4 m c = after ops4 (Wr3 m c)) 31 _ _ _ _ rfl (by decide) (by decide) (by decide))
def rq_main_c_39 := lift_nullary (liftR_4 m c main_c_39 (by decide)) (eq_nullary lateR_4 (rfl : Wr4 m c = after ops4 (Wr3 m c)) 32 _ _ rfl (by decide))
def rq_main_v231 := lift_unary (liftR_4 m c main_v231 (by decide)) (liftR_4 m c main_c_39 (by decide)) (eq_unary lateR_4 (rfl : Wr4 m c = after ops4 (Wr3 m c)) 33 _ _ _ rfl (by decide) (by decide))
def rq_main_v232 := lift_binary (liftR_4 m c main_v232 (by decide)) (liftR_4 m c main_arg1 (by decide)) (liftR_4 m c main_v231 (by decide)) (eq_binary lateR_4 (rfl : Wr4 m c = after ops4 (Wr3 m c)) 34 _ _ _ _ rfl (by decide) (by decide) (by decide))
def rq_main_v233 := lift_ternary (liftR_4 m c main_v233 (by decide)) (liftR_4 m c main_v230 (by decide)) (liftR_4 m c main_v232 (by decide)) (liftR_4 m c main_arg1 (by decide)) (eq_ternary lateR_4 (rfl : Wr4 m c = after ops4 (Wr3 m c)) 35 _ _ _ _ _ rfl (by decide) (by decide) (by decide) (by decide))
def rq_main_v234 := lift_unary (liftR_4 m c main_v234 (by decide)) (liftR_4 m c main_v233 (by decide)) (eq_unary lateR_4 (rfl : Wr4 m c = after ops4 (Wr3 m c)) 36 _ _ _ rfl (by decide) (by decide))
def rq_main_v235 := lift_binary (liftR_4 m c main_v235 (by decide)) (liftR_4 m c main_v221 (by decide)) (liftR_4 m c main_v234 (by decide)) (eq_binary lateR_4 (rfl : Wr4 m c = after ops4 (Wr3 m c)) 37 _ _ _ _ rfl (by decide) (by decide) (by decide))
def rq_main_v236 := lift_binary (liftR_4 m c main_v236 (by decide)) (liftR_4 m c main_v228 (by decide)) (liftR_4 m c main_v235 (by decide)) (eq_binary lateR_4 (rfl : Wr4 m c = after ops4 (Wr3 m c)) 38 _ _ _ _ rfl (by decide) (by decide) (by decide))
def rq_main_cst_40 := lift_nullary (liftR_4 m c main_cst_40 (by decide)) (eq_nullary lateR_4 (rfl : Wr4 m c = after ops4 (Wr3 m c)) 39 _ _ rfl (by decide))
def rq_main_v237 := lift_binary (liftR_4 m c main_v237 (by decide)) (liftR_4 m c main_v236 (by decide)) (liftR_4 m c main_cst_40 (by decide)) (eq_binary lateR_4 (rfl : Wr4 m c = after ops4 (Wr3 m c)) 40 _ _ _ _ rfl (by decide) (by decide) (by decide))
def rq_main_v238 := lift_unary (liftR_4 m c main_v238 (by decide)) (liftR_4 m c main_arg0 (by decide)) (eq_unary lateR_4 (rfl : Wr4 m c = after ops4 (Wr3 m c)) 41 _ _ _ rfl (by decide) (by decide))
def rq_main_v239 := lift_unary (liftR_4 m c main_v239 (by decide)) (liftR_4 m c main_arg1 (by decide)) (eq_unary lateR_4 (rfl : Wr4 m c = after ops4 (Wr3 m c)) 42 _ _ _ rfl (by decide) (by decide))
def rq_main_c_41 := lift_nullary (liftR_4 m c main_c_41 (by decide)) (eq_nullary lateR_4 (rfl : Wr4 m c = after ops4 (Wr3 m c)) 43 _ _ rfl (by decide))
def rq_main_v240 := lift_unary (liftR_4 m c main_v240 (by decide)) (liftR_4 m c main_c_41 (by decide)) (eq_unary lateR_4 (rfl : Wr4 m c = after ops4 (Wr3 m c)) 44 _ _ _ rfl (by decide) (by decide))
def rq_main_v241 := lift_binary (liftR_4 m c main_v241 (by decide)) (liftR_4 m c main_v238 (by decide)) (liftR_4 m c main_v240 (by decide)) (eq_binary lateR_4 (rfl : Wr4 m c = after ops4 (Wr3 m c)) 45 _ _ _ _ rfl (by decide) (by decide) (by decide))
def rq_main_c_42 := lift_nullary (liftR_4 m c main_c_42 (by decide)) (eq_nullary lateR_4 (rfl : Wr4 m c = after ops4 (Wr3 m c)) 46 _ _ rfl (by decide))
def rq_main_v242 := lift_unary (liftR_4 m c main_v242 (by decide)) (liftR_4 m c main_c_42 (by decide)) (eq_unary lateR_4 (rfl : Wr4 m c = after ops4 (Wr3 m c)) 47 _ _ _ rfl (by decide) (by decide))
def rq_main_v243 := lift_binary (liftR_4 m c main_v243 (by decide)) (liftR_4 m c main_v238 (by decide)) (liftR_4 m c main_v242 (by decide)) (eq_binary lateR_4 (rfl : Wr4 m c = after ops4 (Wr3 m c)) 48 _ _ _ _ rfl (by decide) (by decide) (by decide))
def rq_main_v244 := lift_ternary (liftR_4 m c main_v244 (by decide)) (liftR_4 m c main_v241 (by decide)) (liftR_4 m c main_v243 (by decide)) (liftR_4 m c main_v238 (by decide)) (eq_ternary lateR_4 (rfl : Wr4 m c = after ops4 (Wr3 m c)) 49 _ _ _ _ _ rfl (by decide) (by decide) (by decide) (by decide))
def rq_main_v245 := lift_unary (liftR_4 m c main_v245 (by decide)) (liftR_4 m c main_v244 (by decide)) (eq_unary lateR_4 (rfl : Wr4 m c = after ops4 (Wr3 m c)) 50 _ _ _ rfl (by decide) (by decide))
def rq_main_v246 := lift_binary (liftR_4 m c main_v246 (by decide)) (liftR_4 m c main_v68 (by decide)) (liftR_4 m c main_v245 (by decide)) (eq_binary lateR_4 (rfl : Wr4 m c = after ops4 (Wr3 m c)) 51 _ _ _ _ rfl (by decide) (by decide) (by decide))
def rq_main_call2_v0 := lift_binary (liftR_4 m c main_call2_v0 (by decide)) (liftR_4 m c main_v246 (by decide)) (liftR_4 m c main_v246 (by decide)) (eq_binary lateR_4 (rfl : Wr4 m c = after ops4 (Wr3 m c)) 52 _ _ _ _ rfl (by decide) (by decide) (by decide))
def rq_main_call2_cst := lift_nullary (liftR_4 m c main_call2_cst (by decide)) (eq_nullary lateR_4 (rfl : Wr4 m c = after ops4 (Wr3 m c)) 53 _ _ rfl (by decide))
def rq_main_call2_v1 := lift_binary (liftR_4 m c main_call2_v1 (by decide)) (liftR_4 m c main_call2_v0 (by decide)) (liftR_4 m c main_call2_cst (by decide)) (eq_binary lateR_4 (rfl : Wr4 m c = after ops4 (Wr3 m c)) 54 _ _ _ _ rfl (by decide) (by decide) (by decide))
def rq_main_call2_v2 := lift_unary (liftR_4 m c main_call2_v2 (by decide)) (liftR_4 m c main_call2_v1 (by decide)) (eq_unary lateR_4 (rfl : Wr4 m c = after ops4 (Wr3 m c)) 55 _ _ _ rfl (by decide) (by decide))
def rq_main_v247 := lift_unary (liftR_4 m c main_v247 (by decide)) (liftR_4 m c main_call2_v2 (by decide)) (eq_unary lateR_4 (rfl : Wr4 m c = after ops4 (Wr3 m c)) 56 _ _ _ rfl (by decide) (by decide))
def rq_main_cst_43 := lift_nullary (liftR_4 m c main_cst_43 (by decide)) (eq_nullary lateR_4 (rfl : Wr4 m c = after ops4 (Wr3 m c)) 57 _ _ rfl (by decide))
def rq_main_v248 := lift_unary (liftR_4 m c main_v248 (by decide)) (liftR_4 m c main_cst_43 (by decide)) (eq_unary lateR_4 (rfl : Wr4 m c = after ops4 (Wr3 m c)) 58 _ _ _ rfl (by decide) (by decide))
def rq_main_v249 := lift_binary (liftR_4 m c main_v249 (by decide)) (liftR_4 m c main_v247 (by decide)) (liftR_4 m c main_v248 (by decide)) (eq_binary lateR_4 (rfl : Wr4 m c = after ops4 (Wr3 m c)) 59 _ _ _ _ rfl (by decide) (by decide) (by decide))
def rq_main_v250 := lift_unary (liftR_4 m c main_v250 (by decide)) (liftR_4 m c main_v249 (by decide)) (eq_unary lateR_4 (rfl : Wr4 m c = after ops4 (Wr3 m c)) 60 _ _ _ rfl (by decide) (by decide))
def rq_main_v251 := lift_binary (liftR_4 m c main_v251 (by decide)) (liftR_4 m c main_v246 (by decide)) (liftR_4 m c main_v250 (by decide)) (eq_binary lateR_4 (rfl : Wr4 m c = after ops4 (Wr3 m c)) 61 _ _ _ _ rfl (by decide) (by decide) (by decide))
def rq_main_v252 := lift_unary (liftR_4 m c main_v252 (by decide)) (liftR_4 m c main_arg11 (by decide)) (eq_unary lateR_4 (rfl : Wr4 m c = after ops4 (Wr3 m c)) 62 _ _ _ rfl (by decide) (by decide))
def rq_main_v253 := lift_reshape (by rfl) _ (liftR_4 m c main_v253 (by decide)) (liftR_4 m c main_v252 (by decide)) (eq_reshape lateR_4 (rfl : Wr4 m c = after ops4 (Wr3 m c)) 63 _ _ _ _ rfl (by decide) (by decide))

end Cert.ReferenceIdeal.RefRun

end
-- ==== Proof.Ref.RN4.lean ====
import proofs.«126270_j6725918785969_1_alg».proof.Proof.Ref.RNDefs
import proofs.«126270_j6725918785969_1_alg».proof.Proof.Ref.REq4

/-!
# The reference's host operations as equations between plainly typed contents (window 4)
-/

set_option maxRecDepth 16384

noncomputable section

namespace Cert.ReferenceIdeal.RefRun

open Cert.ReferenceIdeal Cert.ReferenceIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

theorem nrq_main_v205 : nR_main_v205 m c = (addf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_v204 m c) (nR_main_v197 m c) := rq_main_v205 m c
theorem nrq_main_v206 : nR_main_v206 m c = ((fun l r => Host.dotGeneral (F := Ideal) (φ₁ := .f32) (φ₂ := .f32) dot_S50000x128_S128x128_S50000x128_1_0_0_1_n_n none l r) : (⟨S50000x128, .f32⟩ : BufTy).Contents (Elt Ideal) → (⟨S128x128, .f32⟩ : BufTy).Contents (Elt Ideal) → (⟨S50000x128, .f32⟩ : BufTy).Contents (Elt Ideal)) (nR_main_v1 m c) (nR_main_v205 m c) := rq_main_v206 m c
theorem nrq_main_cst_33 : nR_main_cst_33 m c = (constant (F := Ideal) S_ .f32 0x3F000000#32) := rq_main_cst_33 m c
theorem nrq_main_v207 : nR_main_v207 m c = (broadcastInDim S50000x128 ![] bcast_S_S50000x128 : (⟨S_, .f32⟩ : BufTy).Contents (Elt Ideal) → (⟨S50000x128, .f32⟩ : BufTy).Contents (Elt Ideal)) (nR_main_cst_33 m c) := rq_main_v207 m c
theorem nrq_main_v208 : nR_main_v208 m c = (mulf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) (nR_main_v207 m c) (nR_main_v206 m c) := rq_main_v208 m c
theorem nrq_main_v209 : nR_main_v209 m c = (maximumf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) (nR_main_v208 m c) (nR_main_v206 m c) := rq_main_v209 m c
theorem nrq_main_v210 : nR_main_v210 m c = (addf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)) (nR_main_v123 m c) (nR_main_v174 m c) := rq_main_v210 m c
theorem nrq_main_v211 : nR_main_v211 m c = (addf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)) (nR_main_v210 m c) (nR_main_v105 m c) := rq_main_v211 m c
theorem nrq_main_v212 : nR_main_v212 m c = (addf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) (nR_main_v139 m c) (nR_main_v209 m c) := rq_main_v212 m c
theorem nrq_main_v213 : nR_main_v213 m c = (addf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) (nR_main_v212 m c) (nR_main_v107 m c) := rq_main_v213 m c
theorem nrq_main_cst_34 : nR_main_cst_34 m c = (constant (F := Ideal) S_ .f32 0x00000000#32) := rq_main_cst_34 m c
theorem nrq_main_v214 : nR_main_v214 m c = (broadcastInDim S100000x128 ![] bcast_S_S100000x128 : (⟨S_, .f32⟩ : BufTy).Contents (Elt Ideal) → (⟨S100000x128, .f32⟩ : BufTy).Contents (Elt Ideal)) (nR_main_cst_34 m c) := rq_main_v214 m c
theorem nrq_main_v215 : nR_main_v215 m c = (addf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)) (nR_main_v214 m c) (nR_main_arg5 m c) := rq_main_v215 m c
theorem nrq_main_v216 : nR_main_v216 m c = (addf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)) (nR_main_v215 m c) (nR_main_v105 m c) := rq_main_v216 m c
theorem nrq_main_v217 : nR_main_v217 m c = (addf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)) (nR_main_v216 m c) (nR_main_v211 m c) := rq_main_v217 m c
theorem nrq_main_cst_35 : nR_main_cst_35 m c = (constant (F := Ideal) S_ .f32 0x00000000#32) := rq_main_cst_35 m c
theorem nrq_main_v218 : nR_main_v218 m c = (broadcastInDim S50000x128 ![] bcast_S_S50000x128 : (⟨S_, .f32⟩ : BufTy).Contents (Elt Ideal) → (⟨S50000x128, .f32⟩ : BufTy).Contents (Elt Ideal)) (nR_main_cst_35 m c) := rq_main_v218 m c
theorem nrq_main_v219 : nR_main_v219 m c = (addf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) (nR_main_v218 m c) (nR_main_arg6 m c) := rq_main_v219 m c
theorem nrq_main_v220 : nR_main_v220 m c = (addf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) (nR_main_v219 m c) (nR_main_v107 m c) := rq_main_v220 m c
theorem nrq_main_v221 : nR_main_v221 m c = (addf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) (nR_main_v220 m c) (nR_main_v213 m c) := rq_main_v221 m c
theorem nrq_main_c_36 : nR_main_c_36 m c = (constantI S_ 32 0#32) := rq_main_c_36 m c
theorem nrq_main_v222 : nR_main_v222 m c = (broadcastInDim S4096 ![] bcast_S_S4096 : (⟨S_, .i32⟩ : BufTy).Contents (Elt Ideal) → (⟨S4096, .i32⟩ : BufTy).Contents (Elt Ideal)) (nR_main_c_36 m c) := rq_main_v222 m c
theorem nrq_main_v223 : nR_main_v223 m c = (cmpi .slt : (⟨S4096, .i32⟩ : BufTy).Contents (Elt Ideal) → (⟨S4096, .i32⟩ : BufTy).Contents (Elt Ideal) → (⟨S4096, .i1⟩ : BufTy).Contents (Elt Ideal)) (nR_main_arg0 m c) (nR_main_v222 m c) := rq_main_v223 m c
theorem nrq_main_c_37 : nR_main_c_37 m c = (constantI S_ 32 100000#32) := rq_main_c_37 m c
theorem nrq_main_v224 : nR_main_v224 m c = (broadcastInDim S4096 ![] bcast_S_S4096 : (⟨S_, .i32⟩ : BufTy).Contents (Elt Ideal) → (⟨S4096, .i32⟩ : BufTy).Contents (Elt Ideal)) (nR_main_c_37 m c) := rq_main_v224 m c
theorem nrq_main_v225 : nR_main_v225 m c = (addi : (⟨S4096, .i32⟩ : BufTy).Contents (Elt Ideal) → (⟨S4096, .i32⟩ : BufTy).Contents (Elt Ideal) → (⟨S4096, .i32⟩ : BufTy).Contents (Elt Ideal)) (nR_main_arg0 m c) (nR_main_v224 m c) := rq_main_v225 m c
theorem nrq_main_v226 : nR_main_v226 m c = (select : (⟨S4096, .i1⟩ : BufTy).Contents (Elt Ideal) → (⟨S4096, .i32⟩ : BufTy).Contents (Elt Ideal) → (⟨S4096, .i32⟩ : BufTy).Contents (Elt Ideal) → (⟨S4096, .i32⟩ : BufTy).Contents (Elt Ideal)) (nR_main_v223 m c) (nR_main_v225 m c) (nR_main_arg0 m c) := rq_main_v226 m c
theorem nrq_main_v227 : nR_main_v227 m c = (broadcastInDim S4096x1 ![0] bcast_S4096_S4096x1_0 : (⟨S4096, .i32⟩ : BufTy).Contents (Elt Ideal) → (⟨S4096x1, .i32⟩ : BufTy).Contents (Elt Ideal)) (nR_main_v226 m c) := rq_main_v227 m c
theorem nrq_main_v228 : nR_main_v228 m c = ((fun x i => Host.gather gather_S100000x128_S4096x1_S4096x128_1_0_n_n_0_1_1128 x i) : (⟨S100000x128, .f32⟩ : BufTy).Contents (Elt Ideal) → (⟨S4096x1, .i32⟩ : BufTy).Contents (Elt Ideal) → (⟨S4096x128, .f32⟩ : BufTy).Contents (Elt Ideal)) (nR_main_v217 m c) (nR_main_v227 m c) := rq_main_v228 m c
theorem nrq_main_c_38 : nR_main_c_38 m c = (constantI S_ 32 0#32) := rq_main_c_38 m c
theorem nrq_main_v229 : nR_main_v229 m c = (broadcastInDim S4096 ![] bcast_S_S4096 : (⟨S_, .i32⟩ : BufTy).Contents (Elt Ideal) → (⟨S4096, .i32⟩ : BufTy).Contents (Elt Ideal)) (nR_main_c_38 m c) := rq_main_v229 m c
theorem nrq_main_v230 : nR_main_v230 m c = (cmpi .slt : (⟨S4096, .i32⟩ : BufTy).Contents (Elt Ideal) → (⟨S4096, .i32⟩ : BufTy).Contents (Elt Ideal) → (⟨S4096, .i1⟩ : BufTy).Contents (Elt Ideal)) (nR_main_arg1 m c) (nR_main_v229 m c) := rq_main_v230 m c
theorem nrq_main_c_39 : nR_main_c_39 m c = (constantI S_ 32 50000#32) := rq_main_c_39 m c
theorem nrq_main_v231 : nR_main_v231 m c = (broadcastInDim S4096 ![] bcast_S_S4096 : (⟨S_, .i32⟩ : BufTy).Contents (Elt Ideal) → (⟨S4096, .i32⟩ : BufTy).Contents (Elt Ideal)) (nR_main_c_39 m c) := rq_main_v231 m c
theorem nrq_main_v232 : nR_main_v232 m c = (addi : (⟨S4096, .i32⟩ : BufTy).Contents (Elt Ideal) → (⟨S4096, .i32⟩ : BufTy).Contents (Elt Ideal) → (⟨S4096, .i32⟩ : BufTy).Contents (Elt Ideal)) (nR_main_arg1 m c) (nR_main_v231 m c) := rq_main_v232 m c
theorem nrq_main_v233 : nR_main_v233 m c = (select : (⟨S4096, .i1⟩ : BufTy).Contents (Elt Ideal) → (⟨S4096, .i32⟩ : BufTy).Contents (Elt Ideal) → (⟨S4096, .i32⟩ : BufTy).Contents (Elt Ideal) → (⟨S4096, .i32⟩ : BufTy).Contents (Elt Ideal)) (nR_main_v230 m c) (nR_main_v232 m c) (nR_main_arg1 m c) := rq_main_v233 m c
theorem nrq_main_v234 : nR_main_v234 m c = (broadcastInDim S4096x1 ![0] bcast_S4096_S4096x1_0 : (⟨S4096, .i32⟩ : BufTy).Contents (Elt Ideal) → (⟨S4096x1, .i32⟩ : BufTy).Contents (Elt Ideal)) (nR_main_v233 m c) := rq_main_v234 m c
theorem nrq_main_v235 : nR_main_v235 m c = ((fun x i => Host.gather gather_S50000x128_S4096x1_S4096x128_1_0_n_n_0_1_1128 x i) : (⟨S50000x128, .f32⟩ : BufTy).Contents (Elt Ideal) → (⟨S4096x1, .i32⟩ : BufTy).Contents (Elt Ideal) → (⟨S4096x128, .f32⟩ : BufTy).Contents (Elt Ideal)) (nR_main_v221 m c) (nR_main_v234 m c) := rq_main_v235 m c
theorem nrq_main_v236 : nR_main_v236 m c = (mulf (F := Ideal) (φ := .f32) : (⟨S4096x128, .f32⟩ : BufTy).Contents (Elt Ideal) → (⟨S4096x128, .f32⟩ : BufTy).Contents (Elt Ideal) → (⟨S4096x128, .f32⟩ : BufTy).Contents (Elt Ideal)) (nR_main_v228 m c) (nR_main_v235 m c) := rq_main_v236 m c
theorem nrq_main_cst_40 : nR_main_cst_40 m c = (constant (F := Ideal) S_ .f32 0x00000000#32) := rq_main_cst_40 m c
theorem nrq_main_v237 : nR_main_v237 m c = ((fun x v => Host.reduceAdd (F := Ideal) (φ := .f32) x v reducesTo_S4096x128_S4096_d1 h_S_) : (⟨S4096x128, .f32⟩ : BufTy).Contents (Elt Ideal) → (⟨S_, .f32⟩ : BufTy).Contents (Elt Ideal) → (⟨S4096, .f32⟩ : BufTy).Contents (Elt Ideal)) (nR_main_v236 m c) (nR_main_cst_40 m c) := rq_main_v237 m c
theorem nrq_main_v238 : nR_main_v238 m c = (fun x => Host.sort S4096 0 comparator_i32_d0 x) (nR_main_arg0 m c) := rq_main_v238 m c
theorem nrq_main_v239 : nR_main_v239 m c = (fun x => Host.sort S4096 0 comparator_i32_d0 x) (nR_main_arg1 m c) := rq_main_v239 m c
theorem nrq_main_c_41 : nR_main_c_41 m c = (constantI S_ 32 0#32) := rq_main_c_41 m c
theorem nrq_main_v240 : nR_main_v240 m c = (broadcastInDim S4096 ![] bcast_S_S4096 : (⟨S_, .i32⟩ : BufTy).Contents (Elt Ideal) → (⟨S4096, .i32⟩ : BufTy).Contents (Elt Ideal)) (nR_main_c_41 m c) := rq_main_v240 m c
theorem nrq_main_v241 : nR_main_v241 m c = (cmpi .slt : (⟨S4096, .i32⟩ : BufTy).Contents (Elt Ideal) → (⟨S4096, .i32⟩ : BufTy).Contents (Elt Ideal) → (⟨S4096, .i1⟩ : BufTy).Contents (Elt Ideal)) (nR_main_v238 m c) (nR_main_v240 m c) := rq_main_v241 m c
theorem nrq_main_c_42 : nR_main_c_42 m c = (constantI S_ 32 100000#32) := rq_main_c_42 m c
theorem nrq_main_v242 : nR_main_v242 m c = (broadcastInDim S4096 ![] bcast_S_S4096 : (⟨S_, .i32⟩ : BufTy).Contents (Elt Ideal) → (⟨S4096, .i32⟩ : BufTy).Contents (Elt Ideal)) (nR_main_c_42 m c) := rq_main_v242 m c
theorem nrq_main_v243 : nR_main_v243 m c = (addi : (⟨S4096, .i32⟩ : BufTy).Contents (Elt Ideal) → (⟨S4096, .i32⟩ : BufTy).Contents (Elt Ideal) → (⟨S4096, .i32⟩ : BufTy).Contents (Elt Ideal)) (nR_main_v238 m c) (nR_main_v242 m c) := rq_main_v243 m c
theorem nrq_main_v244 : nR_main_v244 m c = (select : (⟨S4096, .i1⟩ : BufTy).Contents (Elt Ideal) → (⟨S4096, .i32⟩ : BufTy).Contents (Elt Ideal) → (⟨S4096, .i32⟩ : BufTy).Contents (Elt Ideal) → (⟨S4096, .i32⟩ : BufTy).Contents (Elt Ideal)) (nR_main_v241 m c) (nR_main_v243 m c) (nR_main_v238 m c) := rq_main_v244 m c
theorem nrq_main_v245 : nR_main_v245 m c = (broadcastInDim S4096x1 ![0] bcast_S4096_S4096x1_0 : (⟨S4096, .i32⟩ : BufTy).Contents (Elt Ideal) → (⟨S4096x1, .i32⟩ : BufTy).Contents (Elt Ideal)) (nR_main_v244 m c) := rq_main_v245 m c
theorem nrq_main_v246 : nR_main_v246 m c = ((fun x i => Host.gather gather_S100000x128_S4096x1_S4096x128_1_0_n_n_0_1_1128 x i) : (⟨S100000x128, .f32⟩ : BufTy).Contents (Elt Ideal) → (⟨S4096x1, .i32⟩ : BufTy).Contents (Elt Ideal) → (⟨S4096x128, .f32⟩ : BufTy).Contents (Elt Ideal)) (nR_main_v68 m c) (nR_main_v245 m c) := rq_main_v246 m c
theorem nrq_main_call2_v0 : nR_main_call2_v0 m c = mulf (F := Ideal) (φ := .f32) (nR_main_v246 m c) (nR_main_v246 m c) := rq_main_call2_v0 m c
theorem nrq_main_call2_cst : nR_main_call2_cst m c = (constant (F := Ideal) S_ .f32 0x00000000#32) := rq_main_call2_cst m c
theorem nrq_main_call2_v1 : nR_main_call2_v1 m c = (fun x v => Host.reduceAdd (F := Ideal) (φ := .f32) x v reducesTo_S4096x128_S4096_d1 h_S_) (nR_main_call2_v0 m c) (nR_main_call2_cst m c) := rq_main_call2_v1 m c
theorem nrq_main_call2_v2 : nR_main_call2_v2 m c = (broadcastInDim S4096x1 ![0] bcast_S4096_S4096x1_0) (nR_main_call2_v1 m c) := rq_main_call2_v2 m c
theorem nrq_main_v247 : nR_main_v247 m c = Host.sqrt (F := Ideal) (φ := .f32) (nR_main_call2_v2 m c) := rq_main_v247 m c
theorem nrq_main_cst_43 : nR_main_cst_43 m c = (constant (F := Ideal) S_ .f32 0x2B8CBCCC#32) := rq_main_cst_43 m c
theorem nrq_main_v248 : nR_main_v248 m c = (broadcastInDim S4096x1 ![] bcast_S_S4096x1 : (⟨S_, .f32⟩ : BufTy).Contents (Elt Ideal) → (⟨S4096x1, .f32⟩ : BufTy).Contents (Elt Ideal)) (nR_main_cst_43 m c) := rq_main_v248 m c
theorem nrq_main_v249 : nR_main_v249 m c = (maximumf (F := Ideal) (φ := .f32) : (⟨S4096x1, .f32⟩ : BufTy).Contents (Elt Ideal) → (⟨S4096x1, .f32⟩ : BufTy).Contents (Elt Ideal) → (⟨S4096x1, .f32⟩ : BufTy).Contents (Elt Ideal)) (nR_main_v247 m c) (nR_main_v248 m c) := rq_main_v249 m c
theorem nrq_main_v250 : nR_main_v250 m c = (broadcastInDim S4096x128 ![0, 1] bcast_S4096x1_S4096x128_0_1 : (⟨S4096x1, .f32⟩ : BufTy).Contents (Elt Ideal) → (⟨S4096x128, .f32⟩ : BufTy).Contents (Elt Ideal)) (nR_main_v249 m c) := rq_main_v250 m c
theorem nrq_main_v251 : nR_main_v251 m c = (Host.divf (F := Ideal) (φ := .f32) : (⟨S4096x128, .f32⟩ : BufTy).Contents (Elt Ideal) → (⟨S4096x128, .f32⟩ : BufTy).Contents (Elt Ideal) → (⟨S4096x128, .f32⟩ : BufTy).Contents (Elt Ideal)) (nR_main_v246 m c) (nR_main_v250 m c) := rq_main_v251 m c
theorem nrq_main_v252 : nR_main_v252 m c = ((extractStridedSlice S1x128x128 ![0, 0, 0] · slices_S2x128x128_S1x128x128_0_0_0) : (⟨S2x128x128, .f32⟩ : BufTy).Contents (Elt Ideal) → (⟨S1x128x128, .f32⟩ : BufTy).Contents (Elt Ideal)) (nR_main_arg11 m c) := rq_main_v252 m c
theorem nrq_main_v253 : nR_main_v253 m c = fun i => shapeCast S128x128 (nR_main_v252 m c) shapeCasts_S1x128x128_S128x128 i := rq_main_v253 m c

end Cert.ReferenceIdeal.RefRun

end
-- ==== Proof.Ref.REq5.lean ====
import proofs.«126270_j6725918785969_1_alg».proof.Proof.Ref.REqBase

/-!
# The reference's host operations, each as an equation between final buffer contents (window 5)
-/

set_option maxRecDepth 16384

noncomputable section

namespace Cert.ReferenceIdeal.RefRun

open Cert.ReferenceIdeal Cert.ReferenceIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

def rq_main_v254 := lift_binary (liftR_5 m c main_v254 (by decide)) (liftR_5 m c main_v251 (by decide)) (liftR_5 m c main_v253 (by decide)) (eq_binary lateR_5 (rfl : Wr5 m c = after ops5 (Wr4 m c)) 0 _ _ _ _ rfl (by decide) (by decide) (by decide))
def rq_main_c_44 := lift_nullary (liftR_5 m c main_c_44 (by decide)) (eq_nullary lateR_5 (rfl : Wr5 m c = after ops5 (Wr4 m c)) 1 _ _ rfl (by decide))
def rq_main_v255 := lift_unary (liftR_5 m c main_v255 (by decide)) (liftR_5 m c main_c_44 (by decide)) (eq_unary lateR_5 (rfl : Wr5 m c = after ops5 (Wr4 m c)) 2 _ _ _ rfl (by decide) (by decide))
def rq_main_v256 := lift_binary (liftR_5 m c main_v256 (by decide)) (liftR_5 m c main_v238 (by decide)) (liftR_5 m c main_v255 (by decide)) (eq_binary lateR_5 (rfl : Wr5 m c = after ops5 (Wr4 m c)) 3 _ _ _ _ rfl (by decide) (by decide) (by decide))
def rq_main_c_45 := lift_nullary (liftR_5 m c main_c_45 (by decide)) (eq_nullary lateR_5 (rfl : Wr5 m c = after ops5 (Wr4 m c)) 4 _ _ rfl (by decide))
def rq_main_v257 := lift_unary (liftR_5 m c main_v257 (by decide)) (liftR_5 m c main_c_45 (by decide)) (eq_unary lateR_5 (rfl : Wr5 m c = after ops5 (Wr4 m c)) 5 _ _ _ rfl (by decide) (by decide))
def rq_main_v258 := lift_binary (liftR_5 m c main_v258 (by decide)) (liftR_5 m c main_v238 (by decide)) (liftR_5 m c main_v257 (by decide)) (eq_binary lateR_5 (rfl : Wr5 m c = after ops5 (Wr4 m c)) 6 _ _ _ _ rfl (by decide) (by decide) (by decide))
def rq_main_v259 := lift_ternary (liftR_5 m c main_v259 (by decide)) (liftR_5 m c main_v256 (by decide)) (liftR_5 m c main_v258 (by decide)) (liftR_5 m c main_v238 (by decide)) (eq_ternary lateR_5 (rfl : Wr5 m c = after ops5 (Wr4 m c)) 7 _ _ _ _ _ rfl (by decide) (by decide) (by decide) (by decide))
def rq_main_v260 := lift_unary (liftR_5 m c main_v260 (by decide)) (liftR_5 m c main_v259 (by decide)) (eq_unary lateR_5 (rfl : Wr5 m c = after ops5 (Wr4 m c)) 8 _ _ _ rfl (by decide) (by decide))
def rq_main_v261 := lift_binary (liftR_5 m c main_v261 (by decide)) (liftR_5 m c main_v17 (by decide)) (liftR_5 m c main_v260 (by decide)) (eq_binary lateR_5 (rfl : Wr5 m c = after ops5 (Wr4 m c)) 9 _ _ _ _ rfl (by decide) (by decide) (by decide))
def rq_main_call3_v0 := lift_binary (liftR_5 m c main_call3_v0 (by decide)) (liftR_5 m c main_v261 (by decide)) (liftR_5 m c main_v261 (by decide)) (eq_binary lateR_5 (rfl : Wr5 m c = after ops5 (Wr4 m c)) 10 _ _ _ _ rfl (by decide) (by decide) (by decide))
def rq_main_call3_cst := lift_nullary (liftR_5 m c main_call3_cst (by decide)) (eq_nullary lateR_5 (rfl : Wr5 m c = after ops5 (Wr4 m c)) 11 _ _ rfl (by decide))
def rq_main_call3_v1 := lift_binary (liftR_5 m c main_call3_v1 (by decide)) (liftR_5 m c main_call3_v0 (by decide)) (liftR_5 m c main_call3_cst (by decide)) (eq_binary lateR_5 (rfl : Wr5 m c = after ops5 (Wr4 m c)) 12 _ _ _ _ rfl (by decide) (by decide) (by decide))
def rq_main_call3_v2 := lift_unary (liftR_5 m c main_call3_v2 (by decide)) (liftR_5 m c main_call3_v1 (by decide)) (eq_unary lateR_5 (rfl : Wr5 m c = after ops5 (Wr4 m c)) 13 _ _ _ rfl (by decide) (by decide))
def rq_main_v262 := lift_unary (liftR_5 m c main_v262 (by decide)) (liftR_5 m c main_call3_v2 (by decide)) (eq_unary lateR_5 (rfl : Wr5 m c = after ops5 (Wr4 m c)) 14 _ _ _ rfl (by decide) (by decide))
def rq_main_cst_46 := lift_nullary (liftR_5 m c main_cst_46 (by decide)) (eq_nullary lateR_5 (rfl : Wr5 m c = after ops5 (Wr4 m c)) 15 _ _ rfl (by decide))
def rq_main_v263 := lift_unary (liftR_5 m c main_v263 (by decide)) (liftR_5 m c main_cst_46 (by decide)) (eq_unary lateR_5 (rfl : Wr5 m c = after ops5 (Wr4 m c)) 16 _ _ _ rfl (by decide) (by decide))
def rq_main_v264 := lift_binary (liftR_5 m c main_v264 (by decide)) (liftR_5 m c main_v262 (by decide)) (liftR_5 m c main_v263 (by decide)) (eq_binary lateR_5 (rfl : Wr5 m c = after ops5 (Wr4 m c)) 17 _ _ _ _ rfl (by decide) (by decide) (by decide))
def rq_main_v265 := lift_unary (liftR_5 m c main_v265 (by decide)) (liftR_5 m c main_v264 (by decide)) (eq_unary lateR_5 (rfl : Wr5 m c = after ops5 (Wr4 m c)) 18 _ _ _ rfl (by decide) (by decide))
def rq_main_v266 := lift_binary (liftR_5 m c main_v266 (by decide)) (liftR_5 m c main_v261 (by decide)) (liftR_5 m c main_v265 (by decide)) (eq_binary lateR_5 (rfl : Wr5 m c = after ops5 (Wr4 m c)) 19 _ _ _ _ rfl (by decide) (by decide) (by decide))
def rq_main_v267 := lift_binary (liftR_5 m c main_v267 (by decide)) (liftR_5 m c main_v254 (by decide)) (liftR_5 m c main_v266 (by decide)) (eq_binary lateR_5 (rfl : Wr5 m c = after ops5 (Wr4 m c)) 20 _ _ _ _ rfl (by decide) (by decide) (by decide))
def rq_main_cst_47 := lift_nullary (liftR_5 m c main_cst_47 (by decide)) (eq_nullary lateR_5 (rfl : Wr5 m c = after ops5 (Wr4 m c)) 21 _ _ rfl (by decide))
def rq_main_v268 := lift_binary (liftR_5 m c main_v268 (by decide)) (liftR_5 m c main_v267 (by decide)) (liftR_5 m c main_cst_47 (by decide)) (eq_binary lateR_5 (rfl : Wr5 m c = after ops5 (Wr4 m c)) 22 _ _ _ _ rfl (by decide) (by decide) (by decide))
def rq_main_cst_48 := lift_nullary (liftR_5 m c main_cst_48 (by decide)) (eq_nullary lateR_5 (rfl : Wr5 m c = after ops5 (Wr4 m c)) 23 _ _ rfl (by decide))
def rq_main_v269 := lift_unary (liftR_5 m c main_v269 (by decide)) (liftR_5 m c main_cst_48 (by decide)) (eq_unary lateR_5 (rfl : Wr5 m c = after ops5 (Wr4 m c)) 24 _ _ _ rfl (by decide) (by decide))
def rq_main_v270 := lift_binary (liftR_5 m c main_v270 (by decide)) (liftR_5 m c main_v268 (by decide)) (liftR_5 m c main_v269 (by decide)) (eq_binary lateR_5 (rfl : Wr5 m c = after ops5 (Wr4 m c)) 25 _ _ _ _ rfl (by decide) (by decide) (by decide))
def rq_main_v271 := lift_unary (liftR_5 m c main_v271 (by decide)) (liftR_5 m c main_v270 (by decide)) (eq_unary lateR_5 (rfl : Wr5 m c = after ops5 (Wr4 m c)) 26 _ _ _ rfl (by decide) (by decide))
def rq_main_v272 := lift_unary (liftR_5 m c main_v272 (by decide)) (liftR_5 m c main_v254 (by decide)) (eq_unary lateR_5 (rfl : Wr5 m c = after ops5 (Wr4 m c)) 27 _ _ _ rfl (by decide) (by decide))
def rq_main_v273 := lift_binary (liftR_5 m c main_v273 (by decide)) (liftR_5 m c main_v266 (by decide)) (liftR_5 m c main_v272 (by decide)) (eq_binary lateR_5 (rfl : Wr5 m c = after ops5 (Wr4 m c)) 28 _ _ _ _ rfl (by decide) (by decide) (by decide))
def rq_main_cst_49 := lift_nullary (liftR_5 m c main_cst_49 (by decide)) (eq_nullary lateR_5 (rfl : Wr5 m c = after ops5 (Wr4 m c)) 29 _ _ rfl (by decide))
def rq_main_v274 := lift_unary (liftR_5 m c main_v274 (by decide)) (liftR_5 m c main_cst_49 (by decide)) (eq_unary lateR_5 (rfl : Wr5 m c = after ops5 (Wr4 m c)) 30 _ _ _ rfl (by decide) (by decide))
def rq_main_v275 := lift_binary (liftR_5 m c main_v275 (by decide)) (liftR_5 m c main_v273 (by decide)) (liftR_5 m c main_v274 (by decide)) (eq_binary lateR_5 (rfl : Wr5 m c = after ops5 (Wr4 m c)) 31 _ _ _ _ rfl (by decide) (by decide) (by decide))
def rq_main_v276 := lift_unary (liftR_5 m c main_v276 (by decide)) (liftR_5 m c main_v275 (by decide)) (eq_unary lateR_5 (rfl : Wr5 m c = after ops5 (Wr4 m c)) 32 _ _ _ rfl (by decide) (by decide))
def rq_main_cst_50 := lift_nullary (liftR_5 m c main_cst_50 (by decide)) (eq_nullary lateR_5 (rfl : Wr5 m c = after ops5 (Wr4 m c)) 33 _ _ rfl (by decide))
def rq_main_v277 := lift_binary (liftR_5 m c main_v277 (by decide)) (liftR_5 m c main_v276 (by decide)) (liftR_5 m c main_cst_50 (by decide)) (eq_binary lateR_5 (rfl : Wr5 m c = after ops5 (Wr4 m c)) 34 _ _ _ _ rfl (by decide) (by decide) (by decide))
def rq_main_cst_51 := lift_nullary (liftR_5 m c main_cst_51 (by decide)) (eq_nullary lateR_5 (rfl : Wr5 m c = after ops5 (Wr4 m c)) 35 _ _ rfl (by decide))
def rq_main_v278 := lift_unary (liftR_5 m c main_v278 (by decide)) (liftR_5 m c main_cst_51 (by decide)) (eq_unary lateR_5 (rfl : Wr5 m c = after ops5 (Wr4 m c)) 36 _ _ _ rfl (by decide) (by decide))
def rq_main_v279 := lift_binary (liftR_5 m c main_v279 (by decide)) (liftR_5 m c main_v277 (by decide)) (liftR_5 m c main_v278 (by decide)) (eq_binary lateR_5 (rfl : Wr5 m c = after ops5 (Wr4 m c)) 37 _ _ _ _ rfl (by decide) (by decide) (by decide))
def rq_main_v280 := lift_binary (liftR_5 m c main_v280 (by decide)) (liftR_5 m c main_v271 (by decide)) (liftR_5 m c main_v279 (by decide)) (eq_binary lateR_5 (rfl : Wr5 m c = after ops5 (Wr4 m c)) 38 _ _ _ _ rfl (by decide) (by decide) (by decide))
def rq_main_cst_52 := lift_nullary (liftR_5 m c main_cst_52 (by decide)) (eq_nullary lateR_5 (rfl : Wr5 m c = after ops5 (Wr4 m c)) 39 _ _ rfl (by decide))
def rq_main_v281 := lift_unary (liftR_5 m c main_v281 (by decide)) (liftR_5 m c main_cst_52 (by decide)) (eq_unary lateR_5 (rfl : Wr5 m c = after ops5 (Wr4 m c)) 40 _ _ _ rfl (by decide) (by decide))
def rq_main_v282 := lift_binary (liftR_5 m c main_v282 (by decide)) (liftR_5 m c main_v280 (by decide)) (liftR_5 m c main_v281 (by decide)) (eq_binary lateR_5 (rfl : Wr5 m c = after ops5 (Wr4 m c)) 41 _ _ _ _ rfl (by decide) (by decide) (by decide))
def rq_main_v283 := lift_unary (liftR_5 m c main_v283 (by decide)) (liftR_5 m c main_v282 (by decide)) (eq_unary lateR_5 (rfl : Wr5 m c = after ops5 (Wr4 m c)) 42 _ _ _ rfl (by decide) (by decide))
def rq_main_v284 := lift_unary (liftR_5 m c main_v284 (by decide)) (liftR_5 m c main_v283 (by decide)) (eq_unary lateR_5 (rfl : Wr5 m c = after ops5 (Wr4 m c)) 43 _ _ _ rfl (by decide) (by decide))
def rq_main_cst_53 := lift_nullary (liftR_5 m c main_cst_53 (by decide)) (eq_nullary lateR_5 (rfl : Wr5 m c = after ops5 (Wr4 m c)) 44 _ _ rfl (by decide))
def rq_main_v285 := lift_binary (liftR_5 m c main_v285 (by decide)) (liftR_5 m c main_v284 (by decide)) (liftR_5 m c main_cst_53 (by decide)) (eq_binary lateR_5 (rfl : Wr5 m c = after ops5 (Wr4 m c)) 45 _ _ _ _ rfl (by decide) (by decide) (by decide))
def rq_main_cst_54 := lift_nullary (liftR_5 m c main_cst_54 (by decide)) (eq_nullary lateR_5 (rfl : Wr5 m c = after ops5 (Wr4 m c)) 46 _ _ rfl (by decide))
def rq_main_v286 := lift_binary (liftR_5 m c main_v286 (by decide)) (liftR_5 m c main_cst_54 (by decide)) (liftR_5 m c main_v285 (by decide)) (eq_binary lateR_5 (rfl : Wr5 m c = after ops5 (Wr4 m c)) 47 _ _ _ _ rfl (by decide) (by decide) (by decide))
def rq_main_c_55 := lift_nullary (liftR_5 m c main_c_55 (by decide)) (eq_nullary lateR_5 (rfl : Wr5 m c = after ops5 (Wr4 m c)) 48 _ _ rfl (by decide))
def rq_main_v287 := lift_unary (liftR_5 m c main_v287 (by decide)) (liftR_5 m c main_c_55 (by decide)) (eq_unary lateR_5 (rfl : Wr5 m c = after ops5 (Wr4 m c)) 49 _ _ _ rfl (by decide) (by decide))
def rq_main_v288 := lift_binary (liftR_5 m c main_v288 (by decide)) (liftR_5 m c main_v239 (by decide)) (liftR_5 m c main_v287 (by decide)) (eq_binary lateR_5 (rfl : Wr5 m c = after ops5 (Wr4 m c)) 50 _ _ _ _ rfl (by decide) (by decide) (by decide))
def rq_main_c_56 := lift_nullary (liftR_5 m c main_c_56 (by decide)) (eq_nullary lateR_5 (rfl : Wr5 m c = after ops5 (Wr4 m c)) 51 _ _ rfl (by decide))
def rq_main_v289 := lift_unary (liftR_5 m c main_v289 (by decide)) (liftR_5 m c main_c_56 (by decide)) (eq_unary lateR_5 (rfl : Wr5 m c = after ops5 (Wr4 m c)) 52 _ _ _ rfl (by decide) (by decide))
def rq_main_v290 := lift_binary (liftR_5 m c main_v290 (by decide)) (liftR_5 m c main_v239 (by decide)) (liftR_5 m c main_v289 (by decide)) (eq_binary lateR_5 (rfl : Wr5 m c = after ops5 (Wr4 m c)) 53 _ _ _ _ rfl (by decide) (by decide) (by decide))
def rq_main_v291 := lift_ternary (liftR_5 m c main_v291 (by decide)) (liftR_5 m c main_v288 (by decide)) (liftR_5 m c main_v290 (by decide)) (liftR_5 m c main_v239 (by decide)) (eq_ternary lateR_5 (rfl : Wr5 m c = after ops5 (Wr4 m c)) 54 _ _ _ _ _ rfl (by decide) (by decide) (by decide) (by decide))
def rq_main_v292 := lift_unary (liftR_5 m c main_v292 (by decide)) (liftR_5 m c main_v291 (by decide)) (eq_unary lateR_5 (rfl : Wr5 m c = after ops5 (Wr4 m c)) 55 _ _ _ rfl (by decide) (by decide))
def rq_main_v293 := lift_binary (liftR_5 m c main_v293 (by decide)) (liftR_5 m c main_v103 (by decide)) (liftR_5 m c main_v292 (by decide)) (eq_binary lateR_5 (rfl : Wr5 m c = after ops5 (Wr4 m c)) 56 _ _ _ _ rfl (by decide) (by decide) (by decide))
def rq_main_call4_v0 := lift_binary (liftR_5 m c main_call4_v0 (by decide)) (liftR_5 m c main_v293 (by decide)) (liftR_5 m c main_v293 (by decide)) (eq_binary lateR_5 (rfl : Wr5 m c = after ops5 (Wr4 m c)) 57 _ _ _ _ rfl (by decide) (by decide) (by decide))
def rq_main_call4_cst := lift_nullary (liftR_5 m c main_call4_cst (by decide)) (eq_nullary lateR_5 (rfl : Wr5 m c = after ops5 (Wr4 m c)) 58 _ _ rfl (by decide))
def rq_main_call4_v1 := lift_binary (liftR_5 m c main_call4_v1 (by decide)) (liftR_5 m c main_call4_v0 (by decide)) (liftR_5 m c main_call4_cst (by decide)) (eq_binary lateR_5 (rfl : Wr5 m c = after ops5 (Wr4 m c)) 59 _ _ _ _ rfl (by decide) (by decide) (by decide))
def rq_main_call4_v2 := lift_unary (liftR_5 m c main_call4_v2 (by decide)) (liftR_5 m c main_call4_v1 (by decide)) (eq_unary lateR_5 (rfl : Wr5 m c = after ops5 (Wr4 m c)) 60 _ _ _ rfl (by decide) (by decide))
def rq_main_v294 := lift_unary (liftR_5 m c main_v294 (by decide)) (liftR_5 m c main_call4_v2 (by decide)) (eq_unary lateR_5 (rfl : Wr5 m c = after ops5 (Wr4 m c)) 61 _ _ _ rfl (by decide) (by decide))
def rq_main_cst_57 := lift_nullary (liftR_5 m c main_cst_57 (by decide)) (eq_nullary lateR_5 (rfl : Wr5 m c = after ops5 (Wr4 m c)) 62 _ _ rfl (by decide))
def rq_main_v295 := lift_unary (liftR_5 m c main_v295 (by decide)) (liftR_5 m c main_cst_57 (by decide)) (eq_unary lateR_5 (rfl : Wr5 m c = after ops5 (Wr4 m c)) 63 _ _ _ rfl (by decide) (by decide))
def rq_main_v296 := lift_binary (liftR_5 m c main_v296 (by decide)) (liftR_5 m c main_v294 (by decide)) (liftR_5 m c main_v295 (by decide)) (eq_binary lateR_5 (rfl : Wr5 m c = after ops5 (Wr4 m c)) 64 _ _ _ _ rfl (by decide) (by decide) (by decide))
def rq_main_v297 := lift_unary (liftR_5 m c main_v297 (by decide)) (liftR_5 m c main_v296 (by decide)) (eq_unary lateR_5 (rfl : Wr5 m c = after ops5 (Wr4 m c)) 65 _ _ _ rfl (by decide) (by decide))
def rq_main_v298 := lift_binary (liftR_5 m c main_v298 (by decide)) (liftR_5 m c main_v293 (by decide)) (liftR_5 m c main_v297 (by decide)) (eq_binary lateR_5 (rfl : Wr5 m c = after ops5 (Wr4 m c)) 66 _ _ _ _ rfl (by decide) (by decide) (by decide))
def rq_main_v299 := lift_unary (liftR_5 m c main_v299 (by decide)) (liftR_5 m c main_arg11 (by decide)) (eq_unary lateR_5 (rfl : Wr5 m c = after ops5 (Wr4 m c)) 67 _ _ _ rfl (by decide) (by decide))

end Cert.ReferenceIdeal.RefRun

end
-- ==== Proof.Ref.RN5.lean ====
import proofs.«126270_j6725918785969_1_alg».proof.Proof.Ref.RNDefs
import proofs.«126270_j6725918785969_1_alg».proof.Proof.Ref.REq5

/-!
# The reference's host operations as equations between plainly typed contents (window 5)
-/

set_option maxRecDepth 16384

noncomputable section

namespace Cert.ReferenceIdeal.RefRun

open Cert.ReferenceIdeal Cert.ReferenceIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

theorem nrq_main_v254 : nR_main_v254 m c = ((fun l r => Host.dotGeneral (F := Ideal) (φ₁ := .f32) (φ₂ := .f32) dot_S4096x128_S128x128_S4096x128_1_0_0_1_n_n none l r) : (⟨S4096x128, .f32⟩ : BufTy).Contents (Elt Ideal) → (⟨S128x128, .f32⟩ : BufTy).Contents (Elt Ideal) → (⟨S4096x128, .f32⟩ : BufTy).Contents (Elt Ideal)) (nR_main_v251 m c) (nR_main_v253 m c) := rq_main_v254 m c
theorem nrq_main_c_44 : nR_main_c_44 m c = (constantI S_ 32 0#32) := rq_main_c_44 m c
theorem nrq_main_v255 : nR_main_v255 m c = (broadcastInDim S4096 ![] bcast_S_S4096 : (⟨S_, .i32⟩ : BufTy).Contents (Elt Ideal) → (⟨S4096, .i32⟩ : BufTy).Contents (Elt Ideal)) (nR_main_c_44 m c) := rq_main_v255 m c
theorem nrq_main_v256 : nR_main_v256 m c = (cmpi .slt : (⟨S4096, .i32⟩ : BufTy).Contents (Elt Ideal) → (⟨S4096, .i32⟩ : BufTy).Contents (Elt Ideal) → (⟨S4096, .i1⟩ : BufTy).Contents (Elt Ideal)) (nR_main_v238 m c) (nR_main_v255 m c) := rq_main_v256 m c
theorem nrq_main_c_45 : nR_main_c_45 m c = (constantI S_ 32 100000#32) := rq_main_c_45 m c
theorem nrq_main_v257 : nR_main_v257 m c = (broadcastInDim S4096 ![] bcast_S_S4096 : (⟨S_, .i32⟩ : BufTy).Contents (Elt Ideal) → (⟨S4096, .i32⟩ : BufTy).Contents (Elt Ideal)) (nR_main_c_45 m c) := rq_main_v257 m c
theorem nrq_main_v258 : nR_main_v258 m c = (addi : (⟨S4096, .i32⟩ : BufTy).Contents (Elt Ideal) → (⟨S4096, .i32⟩ : BufTy).Contents (Elt Ideal) → (⟨S4096, .i32⟩ : BufTy).Contents (Elt Ideal)) (nR_main_v238 m c) (nR_main_v257 m c) := rq_main_v258 m c
theorem nrq_main_v259 : nR_main_v259 m c = (select : (⟨S4096, .i1⟩ : BufTy).Contents (Elt Ideal) → (⟨S4096, .i32⟩ : BufTy).Contents (Elt Ideal) → (⟨S4096, .i32⟩ : BufTy).Contents (Elt Ideal) → (⟨S4096, .i32⟩ : BufTy).Contents (Elt Ideal)) (nR_main_v256 m c) (nR_main_v258 m c) (nR_main_v238 m c) := rq_main_v259 m c
theorem nrq_main_v260 : nR_main_v260 m c = (broadcastInDim S4096x1 ![0] bcast_S4096_S4096x1_0 : (⟨S4096, .i32⟩ : BufTy).Contents (Elt Ideal) → (⟨S4096x1, .i32⟩ : BufTy).Contents (Elt Ideal)) (nR_main_v259 m c) := rq_main_v260 m c
theorem nrq_main_v261 : nR_main_v261 m c = ((fun x i => Host.gather gather_S100000x128_S4096x1_S4096x128_1_0_n_n_0_1_1128 x i) : (⟨S100000x128, .f32⟩ : BufTy).Contents (Elt Ideal) → (⟨S4096x1, .i32⟩ : BufTy).Contents (Elt Ideal) → (⟨S4096x128, .f32⟩ : BufTy).Contents (Elt Ideal)) (nR_main_v17 m c) (nR_main_v260 m c) := rq_main_v261 m c
theorem nrq_main_call3_v0 : nR_main_call3_v0 m c = mulf (F := Ideal) (φ := .f32) (nR_main_v261 m c) (nR_main_v261 m c) := rq_main_call3_v0 m c
theorem nrq_main_call3_cst : nR_main_call3_cst m c = (constant (F := Ideal) S_ .f32 0x00000000#32) := rq_main_call3_cst m c
theorem nrq_main_call3_v1 : nR_main_call3_v1 m c = (fun x v => Host.reduceAdd (F := Ideal) (φ := .f32) x v reducesTo_S4096x128_S4096_d1 h_S_) (nR_main_call3_v0 m c) (nR_main_call3_cst m c) := rq_main_call3_v1 m c
theorem nrq_main_call3_v2 : nR_main_call3_v2 m c = (broadcastInDim S4096x1 ![0] bcast_S4096_S4096x1_0) (nR_main_call3_v1 m c) := rq_main_call3_v2 m c
theorem nrq_main_v262 : nR_main_v262 m c = Host.sqrt (F := Ideal) (φ := .f32) (nR_main_call3_v2 m c) := rq_main_v262 m c
theorem nrq_main_cst_46 : nR_main_cst_46 m c = (constant (F := Ideal) S_ .f32 0x2B8CBCCC#32) := rq_main_cst_46 m c
theorem nrq_main_v263 : nR_main_v263 m c = (broadcastInDim S4096x1 ![] bcast_S_S4096x1 : (⟨S_, .f32⟩ : BufTy).Contents (Elt Ideal) → (⟨S4096x1, .f32⟩ : BufTy).Contents (Elt Ideal)) (nR_main_cst_46 m c) := rq_main_v263 m c
theorem nrq_main_v264 : nR_main_v264 m c = (maximumf (F := Ideal) (φ := .f32) : (⟨S4096x1, .f32⟩ : BufTy).Contents (Elt Ideal) → (⟨S4096x1, .f32⟩ : BufTy).Contents (Elt Ideal) → (⟨S4096x1, .f32⟩ : BufTy).Contents (Elt Ideal)) (nR_main_v262 m c) (nR_main_v263 m c) := rq_main_v264 m c
theorem nrq_main_v265 : nR_main_v265 m c = (broadcastInDim S4096x128 ![0, 1] bcast_S4096x1_S4096x128_0_1 : (⟨S4096x1, .f32⟩ : BufTy).Contents (Elt Ideal) → (⟨S4096x128, .f32⟩ : BufTy).Contents (Elt Ideal)) (nR_main_v264 m c) := rq_main_v265 m c
theorem nrq_main_v266 : nR_main_v266 m c = (Host.divf (F := Ideal) (φ := .f32) : (⟨S4096x128, .f32⟩ : BufTy).Contents (Elt Ideal) → (⟨S4096x128, .f32⟩ : BufTy).Contents (Elt Ideal) → (⟨S4096x128, .f32⟩ : BufTy).Contents (Elt Ideal)) (nR_main_v261 m c) (nR_main_v265 m c) := rq_main_v266 m c
theorem nrq_main_v267 : nR_main_v267 m c = (mulf (F := Ideal) (φ := .f32) : (⟨S4096x128, .f32⟩ : BufTy).Contents (Elt Ideal) → (⟨S4096x128, .f32⟩ : BufTy).Contents (Elt Ideal) → (⟨S4096x128, .f32⟩ : BufTy).Contents (Elt Ideal)) (nR_main_v254 m c) (nR_main_v266 m c) := rq_main_v267 m c
theorem nrq_main_cst_47 : nR_main_cst_47 m c = (constant (F := Ideal) S_ .f32 0x00000000#32) := rq_main_cst_47 m c
theorem nrq_main_v268 : nR_main_v268 m c = ((fun x v => Host.reduceAdd (F := Ideal) (φ := .f32) x v reducesTo_S4096x128_S4096_d1 h_S_) : (⟨S4096x128, .f32⟩ : BufTy).Contents (Elt Ideal) → (⟨S_, .f32⟩ : BufTy).Contents (Elt Ideal) → (⟨S4096, .f32⟩ : BufTy).Contents (Elt Ideal)) (nR_main_v267 m c) (nR_main_cst_47 m c) := rq_main_v268 m c
theorem nrq_main_cst_48 : nR_main_cst_48 m c = (constant (F := Ideal) S_ .f32 0x3F800000#32) := rq_main_cst_48 m c
theorem nrq_main_v269 : nR_main_v269 m c = (broadcastInDim S4096 ![] bcast_S_S4096 : (⟨S_, .f32⟩ : BufTy).Contents (Elt Ideal) → (⟨S4096, .f32⟩ : BufTy).Contents (Elt Ideal)) (nR_main_cst_48 m c) := rq_main_v269 m c
theorem nrq_main_v270 : nR_main_v270 m c = (Host.divf (F := Ideal) (φ := .f32) : (⟨S4096, .f32⟩ : BufTy).Contents (Elt Ideal) → (⟨S4096, .f32⟩ : BufTy).Contents (Elt Ideal) → (⟨S4096, .f32⟩ : BufTy).Contents (Elt Ideal)) (nR_main_v268 m c) (nR_main_v269 m c) := rq_main_v270 m c
theorem nrq_main_v271 : nR_main_v271 m c = (Host.exp (F := Ideal) (φ := .f32) : (⟨S4096, .f32⟩ : BufTy).Contents (Elt Ideal) → (⟨S4096, .f32⟩ : BufTy).Contents (Elt Ideal)) (nR_main_v270 m c) := rq_main_v271 m c
theorem nrq_main_v272 : nR_main_v272 m c = ((transpose S128x4096 [1, 0] · transposes_S4096x128_S128x4096_1_0) : (⟨S4096x128, .f32⟩ : BufTy).Contents (Elt Ideal) → (⟨S128x4096, .f32⟩ : BufTy).Contents (Elt Ideal)) (nR_main_v254 m c) := rq_main_v272 m c
theorem nrq_main_v273 : nR_main_v273 m c = ((fun l r => Host.dotGeneral (F := Ideal) (φ₁ := .f32) (φ₂ := .f32) dot_S4096x128_S128x4096_S4096x4096_1_0_0_1_n_n none l r) : (⟨S4096x128, .f32⟩ : BufTy).Contents (Elt Ideal) → (⟨S128x4096, .f32⟩ : BufTy).Contents (Elt Ideal) → (⟨S4096x4096, .f32⟩ : BufTy).Contents (Elt Ideal)) (nR_main_v266 m c) (nR_main_v272 m c) := rq_main_v273 m c
theorem nrq_main_cst_49 : nR_main_cst_49 m c = (constant (F := Ideal) S_ .f32 0x3F800000#32) := rq_main_cst_49 m c
theorem nrq_main_v274 : nR_main_v274 m c = (broadcastInDim S4096x4096 ![] bcast_S_S4096x4096 : (⟨S_, .f32⟩ : BufTy).Contents (Elt Ideal) → (⟨S4096x4096, .f32⟩ : BufTy).Contents (Elt Ideal)) (nR_main_cst_49 m c) := rq_main_v274 m c
theorem nrq_main_v275 : nR_main_v275 m c = (Host.divf (F := Ideal) (φ := .f32) : (⟨S4096x4096, .f32⟩ : BufTy).Contents (Elt Ideal) → (⟨S4096x4096, .f32⟩ : BufTy).Contents (Elt Ideal) → (⟨S4096x4096, .f32⟩ : BufTy).Contents (Elt Ideal)) (nR_main_v273 m c) (nR_main_v274 m c) := rq_main_v275 m c
theorem nrq_main_v276 : nR_main_v276 m c = (Host.exp (F := Ideal) (φ := .f32) : (⟨S4096x4096, .f32⟩ : BufTy).Contents (Elt Ideal) → (⟨S4096x4096, .f32⟩ : BufTy).Contents (Elt Ideal)) (nR_main_v275 m c) := rq_main_v276 m c
theorem nrq_main_cst_50 : nR_main_cst_50 m c = (constant (F := Ideal) S_ .f32 0x00000000#32) := rq_main_cst_50 m c
theorem nrq_main_v277 : nR_main_v277 m c = ((fun x v => Host.reduceAdd (F := Ideal) (φ := .f32) x v reducesTo_S4096x4096_S4096_d1 h_S_) : (⟨S4096x4096, .f32⟩ : BufTy).Contents (Elt Ideal) → (⟨S_, .f32⟩ : BufTy).Contents (Elt Ideal) → (⟨S4096, .f32⟩ : BufTy).Contents (Elt Ideal)) (nR_main_v276 m c) (nR_main_cst_50 m c) := rq_main_v277 m c
theorem nrq_main_cst_51 : nR_main_cst_51 m c = (constant (F := Ideal) S_ .f32 0x322BCC77#32) := rq_main_cst_51 m c
theorem nrq_main_v278 : nR_main_v278 m c = (broadcastInDim S4096 ![] bcast_S_S4096 : (⟨S_, .f32⟩ : BufTy).Contents (Elt Ideal) → (⟨S4096, .f32⟩ : BufTy).Contents (Elt Ideal)) (nR_main_cst_51 m c) := rq_main_v278 m c
theorem nrq_main_v279 : nR_main_v279 m c = (addf (F := Ideal) (φ := .f32) : (⟨S4096, .f32⟩ : BufTy).Contents (Elt Ideal) → (⟨S4096, .f32⟩ : BufTy).Contents (Elt Ideal) → (⟨S4096, .f32⟩ : BufTy).Contents (Elt Ideal)) (nR_main_v277 m c) (nR_main_v278 m c) := rq_main_v279 m c
theorem nrq_main_v280 : nR_main_v280 m c = (Host.divf (F := Ideal) (φ := .f32) : (⟨S4096, .f32⟩ : BufTy).Contents (Elt Ideal) → (⟨S4096, .f32⟩ : BufTy).Contents (Elt Ideal) → (⟨S4096, .f32⟩ : BufTy).Contents (Elt Ideal)) (nR_main_v271 m c) (nR_main_v279 m c) := rq_main_v280 m c
theorem nrq_main_cst_52 : nR_main_cst_52 m c = (constant (F := Ideal) S_ .f32 0x322BCC77#32) := rq_main_cst_52 m c
theorem nrq_main_v281 : nR_main_v281 m c = (broadcastInDim S4096 ![] bcast_S_S4096 : (⟨S_, .f32⟩ : BufTy).Contents (Elt Ideal) → (⟨S4096, .f32⟩ : BufTy).Contents (Elt Ideal)) (nR_main_cst_52 m c) := rq_main_v281 m c
theorem nrq_main_v282 : nR_main_v282 m c = (addf (F := Ideal) (φ := .f32) : (⟨S4096, .f32⟩ : BufTy).Contents (Elt Ideal) → (⟨S4096, .f32⟩ : BufTy).Contents (Elt Ideal) → (⟨S4096, .f32⟩ : BufTy).Contents (Elt Ideal)) (nR_main_v280 m c) (nR_main_v281 m c) := rq_main_v282 m c
theorem nrq_main_v283 : nR_main_v283 m c = (Host.log (F := Ideal) (φ := .f32) : (⟨S4096, .f32⟩ : BufTy).Contents (Elt Ideal) → (⟨S4096, .f32⟩ : BufTy).Contents (Elt Ideal)) (nR_main_v282 m c) := rq_main_v283 m c
theorem nrq_main_v284 : nR_main_v284 m c = (Host.negf (F := Ideal) (φ := .f32) : (⟨S4096, .f32⟩ : BufTy).Contents (Elt Ideal) → (⟨S4096, .f32⟩ : BufTy).Contents (Elt Ideal)) (nR_main_v283 m c) := rq_main_v284 m c
theorem nrq_main_cst_53 : nR_main_cst_53 m c = (constant (F := Ideal) S_ .f32 0x00000000#32) := rq_main_cst_53 m c
theorem nrq_main_v285 : nR_main_v285 m c = ((fun x v => Host.reduceAdd (F := Ideal) (φ := .f32) x v reducesTo_S4096_S_d0 h_S_) : (⟨S4096, .f32⟩ : BufTy).Contents (Elt Ideal) → (⟨S_, .f32⟩ : BufTy).Contents (Elt Ideal) → (⟨S_, .f32⟩ : BufTy).Contents (Elt Ideal)) (nR_main_v284 m c) (nR_main_cst_53 m c) := rq_main_v285 m c
theorem nrq_main_cst_54 : nR_main_cst_54 m c = (constant (F := Ideal) S_ .f32 0x00000000#32) := rq_main_cst_54 m c
theorem nrq_main_v286 : nR_main_v286 m c = (addf (F := Ideal) (φ := .f32) : (⟨S_, .f32⟩ : BufTy).Contents (Elt Ideal) → (⟨S_, .f32⟩ : BufTy).Contents (Elt Ideal) → (⟨S_, .f32⟩ : BufTy).Contents (Elt Ideal)) (nR_main_cst_54 m c) (nR_main_v285 m c) := rq_main_v286 m c
theorem nrq_main_c_55 : nR_main_c_55 m c = (constantI S_ 32 0#32) := rq_main_c_55 m c
theorem nrq_main_v287 : nR_main_v287 m c = (broadcastInDim S4096 ![] bcast_S_S4096 : (⟨S_, .i32⟩ : BufTy).Contents (Elt Ideal) → (⟨S4096, .i32⟩ : BufTy).Contents (Elt Ideal)) (nR_main_c_55 m c) := rq_main_v287 m c
theorem nrq_main_v288 : nR_main_v288 m c = (cmpi .slt : (⟨S4096, .i32⟩ : BufTy).Contents (Elt Ideal) → (⟨S4096, .i32⟩ : BufTy).Contents (Elt Ideal) → (⟨S4096, .i1⟩ : BufTy).Contents (Elt Ideal)) (nR_main_v239 m c) (nR_main_v287 m c) := rq_main_v288 m c
theorem nrq_main_c_56 : nR_main_c_56 m c = (constantI S_ 32 50000#32) := rq_main_c_56 m c
theorem nrq_main_v289 : nR_main_v289 m c = (broadcastInDim S4096 ![] bcast_S_S4096 : (⟨S_, .i32⟩ : BufTy).Contents (Elt Ideal) → (⟨S4096, .i32⟩ : BufTy).Contents (Elt Ideal)) (nR_main_c_56 m c) := rq_main_v289 m c
theorem nrq_main_v290 : nR_main_v290 m c = (addi : (⟨S4096, .i32⟩ : BufTy).Contents (Elt Ideal) → (⟨S4096, .i32⟩ : BufTy).Contents (Elt Ideal) → (⟨S4096, .i32⟩ : BufTy).Contents (Elt Ideal)) (nR_main_v239 m c) (nR_main_v289 m c) := rq_main_v290 m c
theorem nrq_main_v291 : nR_main_v291 m c = (select : (⟨S4096, .i1⟩ : BufTy).Contents (Elt Ideal) → (⟨S4096, .i32⟩ : BufTy).Contents (Elt Ideal) → (⟨S4096, .i32⟩ : BufTy).Contents (Elt Ideal) → (⟨S4096, .i32⟩ : BufTy).Contents (Elt Ideal)) (nR_main_v288 m c) (nR_main_v290 m c) (nR_main_v239 m c) := rq_main_v291 m c
theorem nrq_main_v292 : nR_main_v292 m c = (broadcastInDim S4096x1 ![0] bcast_S4096_S4096x1_0 : (⟨S4096, .i32⟩ : BufTy).Contents (Elt Ideal) → (⟨S4096x1, .i32⟩ : BufTy).Contents (Elt Ideal)) (nR_main_v291 m c) := rq_main_v292 m c
theorem nrq_main_v293 : nR_main_v293 m c = ((fun x i => Host.gather gather_S50000x128_S4096x1_S4096x128_1_0_n_n_0_1_1128 x i) : (⟨S50000x128, .f32⟩ : BufTy).Contents (Elt Ideal) → (⟨S4096x1, .i32⟩ : BufTy).Contents (Elt Ideal) → (⟨S4096x128, .f32⟩ : BufTy).Contents (Elt Ideal)) (nR_main_v103 m c) (nR_main_v292 m c) := rq_main_v293 m c
theorem nrq_main_call4_v0 : nR_main_call4_v0 m c = mulf (F := Ideal) (φ := .f32) (nR_main_v293 m c) (nR_main_v293 m c) := rq_main_call4_v0 m c
theorem nrq_main_call4_cst : nR_main_call4_cst m c = (constant (F := Ideal) S_ .f32 0x00000000#32) := rq_main_call4_cst m c
theorem nrq_main_call4_v1 : nR_main_call4_v1 m c = (fun x v => Host.reduceAdd (F := Ideal) (φ := .f32) x v reducesTo_S4096x128_S4096_d1 h_S_) (nR_main_call4_v0 m c) (nR_main_call4_cst m c) := rq_main_call4_v1 m c
theorem nrq_main_call4_v2 : nR_main_call4_v2 m c = (broadcastInDim S4096x1 ![0] bcast_S4096_S4096x1_0) (nR_main_call4_v1 m c) := rq_main_call4_v2 m c
theorem nrq_main_v294 : nR_main_v294 m c = Host.sqrt (F := Ideal) (φ := .f32) (nR_main_call4_v2 m c) := rq_main_v294 m c
theorem nrq_main_cst_57 : nR_main_cst_57 m c = (constant (F := Ideal) S_ .f32 0x2B8CBCCC#32) := rq_main_cst_57 m c
theorem nrq_main_v295 : nR_main_v295 m c = (broadcastInDim S4096x1 ![] bcast_S_S4096x1 : (⟨S_, .f32⟩ : BufTy).Contents (Elt Ideal) → (⟨S4096x1, .f32⟩ : BufTy).Contents (Elt Ideal)) (nR_main_cst_57 m c) := rq_main_v295 m c
theorem nrq_main_v296 : nR_main_v296 m c = (maximumf (F := Ideal) (φ := .f32) : (⟨S4096x1, .f32⟩ : BufTy).Contents (Elt Ideal) → (⟨S4096x1, .f32⟩ : BufTy).Contents (Elt Ideal) → (⟨S4096x1, .f32⟩ : BufTy).Contents (Elt Ideal)) (nR_main_v294 m c) (nR_main_v295 m c) := rq_main_v296 m c
theorem nrq_main_v297 : nR_main_v297 m c = (broadcastInDim S4096x128 ![0, 1] bcast_S4096x1_S4096x128_0_1 : (⟨S4096x1, .f32⟩ : BufTy).Contents (Elt Ideal) → (⟨S4096x128, .f32⟩ : BufTy).Contents (Elt Ideal)) (nR_main_v296 m c) := rq_main_v297 m c
theorem nrq_main_v298 : nR_main_v298 m c = (Host.divf (F := Ideal) (φ := .f32) : (⟨S4096x128, .f32⟩ : BufTy).Contents (Elt Ideal) → (⟨S4096x128, .f32⟩ : BufTy).Contents (Elt Ideal) → (⟨S4096x128, .f32⟩ : BufTy).Contents (Elt Ideal)) (nR_main_v293 m c) (nR_main_v297 m c) := rq_main_v298 m c
theorem nrq_main_v299 : nR_main_v299 m c = ((extractStridedSlice S1x128x128 ![0, 0, 0] · slices_S2x128x128_S1x128x128_0_0_0) : (⟨S2x128x128, .f32⟩ : BufTy).Contents (Elt Ideal) → (⟨S1x128x128, .f32⟩ : BufTy).Contents (Elt Ideal)) (nR_main_arg11 m c) := rq_main_v299 m c

end Cert.ReferenceIdeal.RefRun

end
-- ==== Proof.Ref.REq6.lean ====
import proofs.«126270_j6725918785969_1_alg».proof.Proof.Ref.REqBase

/-!
# The reference's host operations, each as an equation between final buffer contents (window 6)
-/

set_option maxRecDepth 16384

noncomputable section

namespace Cert.ReferenceIdeal.RefRun

open Cert.ReferenceIdeal Cert.ReferenceIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

def rq_main_v300 := lift_reshape (by rfl) _ (liftR_6 m c main_v300 (by decide)) (liftR_6 m c main_v299 (by decide)) (eq_reshape lateR_6 (rfl : Wr6 m c = after ops6 (Wr5 m c)) 0 _ _ _ _ rfl (by decide) (by decide))
def rq_main_v301 := lift_binary (liftR_6 m c main_v301 (by decide)) (liftR_6 m c main_v298 (by decide)) (liftR_6 m c main_v300 (by decide)) (eq_binary lateR_6 (rfl : Wr6 m c = after ops6 (Wr5 m c)) 1 _ _ _ _ rfl (by decide) (by decide) (by decide))
def rq_main_c_58 := lift_nullary (liftR_6 m c main_c_58 (by decide)) (eq_nullary lateR_6 (rfl : Wr6 m c = after ops6 (Wr5 m c)) 2 _ _ rfl (by decide))
def rq_main_v302 := lift_unary (liftR_6 m c main_v302 (by decide)) (liftR_6 m c main_c_58 (by decide)) (eq_unary lateR_6 (rfl : Wr6 m c = after ops6 (Wr5 m c)) 3 _ _ _ rfl (by decide) (by decide))
def rq_main_v303 := lift_binary (liftR_6 m c main_v303 (by decide)) (liftR_6 m c main_v239 (by decide)) (liftR_6 m c main_v302 (by decide)) (eq_binary lateR_6 (rfl : Wr6 m c = after ops6 (Wr5 m c)) 4 _ _ _ _ rfl (by decide) (by decide) (by decide))
def rq_main_c_59 := lift_nullary (liftR_6 m c main_c_59 (by decide)) (eq_nullary lateR_6 (rfl : Wr6 m c = after ops6 (Wr5 m c)) 5 _ _ rfl (by decide))
def rq_main_v304 := lift_unary (liftR_6 m c main_v304 (by decide)) (liftR_6 m c main_c_59 (by decide)) (eq_unary lateR_6 (rfl : Wr6 m c = after ops6 (Wr5 m c)) 6 _ _ _ rfl (by decide) (by decide))
def rq_main_v305 := lift_binary (liftR_6 m c main_v305 (by decide)) (liftR_6 m c main_v239 (by decide)) (liftR_6 m c main_v304 (by decide)) (eq_binary lateR_6 (rfl : Wr6 m c = after ops6 (Wr5 m c)) 7 _ _ _ _ rfl (by decide) (by decide) (by decide))
def rq_main_v306 := lift_ternary (liftR_6 m c main_v306 (by decide)) (liftR_6 m c main_v303 (by decide)) (liftR_6 m c main_v305 (by decide)) (liftR_6 m c main_v239 (by decide)) (eq_ternary lateR_6 (rfl : Wr6 m c = after ops6 (Wr5 m c)) 8 _ _ _ _ _ rfl (by decide) (by decide) (by decide) (by decide))
def rq_main_v307 := lift_unary (liftR_6 m c main_v307 (by decide)) (liftR_6 m c main_v306 (by decide)) (eq_unary lateR_6 (rfl : Wr6 m c = after ops6 (Wr5 m c)) 9 _ _ _ rfl (by decide) (by decide))
def rq_main_v308 := lift_binary (liftR_6 m c main_v308 (by decide)) (liftR_6 m c main_v33 (by decide)) (liftR_6 m c main_v307 (by decide)) (eq_binary lateR_6 (rfl : Wr6 m c = after ops6 (Wr5 m c)) 10 _ _ _ _ rfl (by decide) (by decide) (by decide))
def rq_main_call5_v0 := lift_binary (liftR_6 m c main_call5_v0 (by decide)) (liftR_6 m c main_v308 (by decide)) (liftR_6 m c main_v308 (by decide)) (eq_binary lateR_6 (rfl : Wr6 m c = after ops6 (Wr5 m c)) 11 _ _ _ _ rfl (by decide) (by decide) (by decide))
def rq_main_call5_cst := lift_nullary (liftR_6 m c main_call5_cst (by decide)) (eq_nullary lateR_6 (rfl : Wr6 m c = after ops6 (Wr5 m c)) 12 _ _ rfl (by decide))
def rq_main_call5_v1 := lift_binary (liftR_6 m c main_call5_v1 (by decide)) (liftR_6 m c main_call5_v0 (by decide)) (liftR_6 m c main_call5_cst (by decide)) (eq_binary lateR_6 (rfl : Wr6 m c = after ops6 (Wr5 m c)) 13 _ _ _ _ rfl (by decide) (by decide) (by decide))
def rq_main_call5_v2 := lift_unary (liftR_6 m c main_call5_v2 (by decide)) (liftR_6 m c main_call5_v1 (by decide)) (eq_unary lateR_6 (rfl : Wr6 m c = after ops6 (Wr5 m c)) 14 _ _ _ rfl (by decide) (by decide))
def rq_main_v309 := lift_unary (liftR_6 m c main_v309 (by decide)) (liftR_6 m c main_call5_v2 (by decide)) (eq_unary lateR_6 (rfl : Wr6 m c = after ops6 (Wr5 m c)) 15 _ _ _ rfl (by decide) (by decide))
def rq_main_cst_60 := lift_nullary (liftR_6 m c main_cst_60 (by decide)) (eq_nullary lateR_6 (rfl : Wr6 m c = after ops6 (Wr5 m c)) 16 _ _ rfl (by decide))
def rq_main_v310 := lift_unary (liftR_6 m c main_v310 (by decide)) (liftR_6 m c main_cst_60 (by decide)) (eq_unary lateR_6 (rfl : Wr6 m c = after ops6 (Wr5 m c)) 17 _ _ _ rfl (by decide) (by decide))
def rq_main_v311 := lift_binary (liftR_6 m c main_v311 (by decide)) (liftR_6 m c main_v309 (by decide)) (liftR_6 m c main_v310 (by decide)) (eq_binary lateR_6 (rfl : Wr6 m c = after ops6 (Wr5 m c)) 18 _ _ _ _ rfl (by decide) (by decide) (by decide))
def rq_main_v312 := lift_unary (liftR_6 m c main_v312 (by decide)) (liftR_6 m c main_v311 (by decide)) (eq_unary lateR_6 (rfl : Wr6 m c = after ops6 (Wr5 m c)) 19 _ _ _ rfl (by decide) (by decide))
def rq_main_v313 := lift_binary (liftR_6 m c main_v313 (by decide)) (liftR_6 m c main_v308 (by decide)) (liftR_6 m c main_v312 (by decide)) (eq_binary lateR_6 (rfl : Wr6 m c = after ops6 (Wr5 m c)) 20 _ _ _ _ rfl (by decide) (by decide) (by decide))
def rq_main_v314 := lift_binary (liftR_6 m c main_v314 (by decide)) (liftR_6 m c main_v301 (by decide)) (liftR_6 m c main_v313 (by decide)) (eq_binary lateR_6 (rfl : Wr6 m c = after ops6 (Wr5 m c)) 21 _ _ _ _ rfl (by decide) (by decide) (by decide))
def rq_main_cst_61 := lift_nullary (liftR_6 m c main_cst_61 (by decide)) (eq_nullary lateR_6 (rfl : Wr6 m c = after ops6 (Wr5 m c)) 22 _ _ rfl (by decide))
def rq_main_v315 := lift_binary (liftR_6 m c main_v315 (by decide)) (liftR_6 m c main_v314 (by decide)) (liftR_6 m c main_cst_61 (by decide)) (eq_binary lateR_6 (rfl : Wr6 m c = after ops6 (Wr5 m c)) 23 _ _ _ _ rfl (by decide) (by decide) (by decide))
def rq_main_cst_62 := lift_nullary (liftR_6 m c main_cst_62 (by decide)) (eq_nullary lateR_6 (rfl : Wr6 m c = after ops6 (Wr5 m c)) 24 _ _ rfl (by decide))
def rq_main_v316 := lift_unary (liftR_6 m c main_v316 (by decide)) (liftR_6 m c main_cst_62 (by decide)) (eq_unary lateR_6 (rfl : Wr6 m c = after ops6 (Wr5 m c)) 25 _ _ _ rfl (by decide) (by decide))
def rq_main_v317 := lift_binary (liftR_6 m c main_v317 (by decide)) (liftR_6 m c main_v315 (by decide)) (liftR_6 m c main_v316 (by decide)) (eq_binary lateR_6 (rfl : Wr6 m c = after ops6 (Wr5 m c)) 26 _ _ _ _ rfl (by decide) (by decide) (by decide))
def rq_main_v318 := lift_unary (liftR_6 m c main_v318 (by decide)) (liftR_6 m c main_v317 (by decide)) (eq_unary lateR_6 (rfl : Wr6 m c = after ops6 (Wr5 m c)) 27 _ _ _ rfl (by decide) (by decide))
def rq_main_v319 := lift_unary (liftR_6 m c main_v319 (by decide)) (liftR_6 m c main_v301 (by decide)) (eq_unary lateR_6 (rfl : Wr6 m c = after ops6 (Wr5 m c)) 28 _ _ _ rfl (by decide) (by decide))
def rq_main_v320 := lift_binary (liftR_6 m c main_v320 (by decide)) (liftR_6 m c main_v313 (by decide)) (liftR_6 m c main_v319 (by decide)) (eq_binary lateR_6 (rfl : Wr6 m c = after ops6 (Wr5 m c)) 29 _ _ _ _ rfl (by decide) (by decide) (by decide))
def rq_main_cst_63 := lift_nullary (liftR_6 m c main_cst_63 (by decide)) (eq_nullary lateR_6 (rfl : Wr6 m c = after ops6 (Wr5 m c)) 30 _ _ rfl (by decide))
def rq_main_v321 := lift_unary (liftR_6 m c main_v321 (by decide)) (liftR_6 m c main_cst_63 (by decide)) (eq_unary lateR_6 (rfl : Wr6 m c = after ops6 (Wr5 m c)) 31 _ _ _ rfl (by decide) (by decide))
def rq_main_v322 := lift_binary (liftR_6 m c main_v322 (by decide)) (liftR_6 m c main_v320 (by decide)) (liftR_6 m c main_v321 (by decide)) (eq_binary lateR_6 (rfl : Wr6 m c = after ops6 (Wr5 m c)) 32 _ _ _ _ rfl (by decide) (by decide) (by decide))
def rq_main_v323 := lift_unary (liftR_6 m c main_v323 (by decide)) (liftR_6 m c main_v322 (by decide)) (eq_unary lateR_6 (rfl : Wr6 m c = after ops6 (Wr5 m c)) 33 _ _ _ rfl (by decide) (by decide))
def rq_main_cst_64 := lift_nullary (liftR_6 m c main_cst_64 (by decide)) (eq_nullary lateR_6 (rfl : Wr6 m c = after ops6 (Wr5 m c)) 34 _ _ rfl (by decide))
def rq_main_v324 := lift_binary (liftR_6 m c main_v324 (by decide)) (liftR_6 m c main_v323 (by decide)) (liftR_6 m c main_cst_64 (by decide)) (eq_binary lateR_6 (rfl : Wr6 m c = after ops6 (Wr5 m c)) 35 _ _ _ _ rfl (by decide) (by decide) (by decide))
def rq_main_cst_65 := lift_nullary (liftR_6 m c main_cst_65 (by decide)) (eq_nullary lateR_6 (rfl : Wr6 m c = after ops6 (Wr5 m c)) 36 _ _ rfl (by decide))
def rq_main_v325 := lift_unary (liftR_6 m c main_v325 (by decide)) (liftR_6 m c main_cst_65 (by decide)) (eq_unary lateR_6 (rfl : Wr6 m c = after ops6 (Wr5 m c)) 37 _ _ _ rfl (by decide) (by decide))
def rq_main_v326 := lift_binary (liftR_6 m c main_v326 (by decide)) (liftR_6 m c main_v324 (by decide)) (liftR_6 m c main_v325 (by decide)) (eq_binary lateR_6 (rfl : Wr6 m c = after ops6 (Wr5 m c)) 38 _ _ _ _ rfl (by decide) (by decide) (by decide))
def rq_main_v327 := lift_binary (liftR_6 m c main_v327 (by decide)) (liftR_6 m c main_v318 (by decide)) (liftR_6 m c main_v326 (by decide)) (eq_binary lateR_6 (rfl : Wr6 m c = after ops6 (Wr5 m c)) 39 _ _ _ _ rfl (by decide) (by decide) (by decide))
def rq_main_cst_66 := lift_nullary (liftR_6 m c main_cst_66 (by decide)) (eq_nullary lateR_6 (rfl : Wr6 m c = after ops6 (Wr5 m c)) 40 _ _ rfl (by decide))
def rq_main_v328 := lift_unary (liftR_6 m c main_v328 (by decide)) (liftR_6 m c main_cst_66 (by decide)) (eq_unary lateR_6 (rfl : Wr6 m c = after ops6 (Wr5 m c)) 41 _ _ _ rfl (by decide) (by decide))
def rq_main_v329 := lift_binary (liftR_6 m c main_v329 (by decide)) (liftR_6 m c main_v327 (by decide)) (liftR_6 m c main_v328 (by decide)) (eq_binary lateR_6 (rfl : Wr6 m c = after ops6 (Wr5 m c)) 42 _ _ _ _ rfl (by decide) (by decide) (by decide))
def rq_main_v330 := lift_unary (liftR_6 m c main_v330 (by decide)) (liftR_6 m c main_v329 (by decide)) (eq_unary lateR_6 (rfl : Wr6 m c = after ops6 (Wr5 m c)) 43 _ _ _ rfl (by decide) (by decide))
def rq_main_v331 := lift_unary (liftR_6 m c main_v331 (by decide)) (liftR_6 m c main_v330 (by decide)) (eq_unary lateR_6 (rfl : Wr6 m c = after ops6 (Wr5 m c)) 44 _ _ _ rfl (by decide) (by decide))
def rq_main_cst_67 := lift_nullary (liftR_6 m c main_cst_67 (by decide)) (eq_nullary lateR_6 (rfl : Wr6 m c = after ops6 (Wr5 m c)) 45 _ _ rfl (by decide))
def rq_main_v332 := lift_binary (liftR_6 m c main_v332 (by decide)) (liftR_6 m c main_v331 (by decide)) (liftR_6 m c main_cst_67 (by decide)) (eq_binary lateR_6 (rfl : Wr6 m c = after ops6 (Wr5 m c)) 46 _ _ _ _ rfl (by decide) (by decide) (by decide))
def rq_main_v333 := lift_binary (liftR_6 m c main_v333 (by decide)) (liftR_6 m c main_v286 (by decide)) (liftR_6 m c main_v332 (by decide)) (eq_binary lateR_6 (rfl : Wr6 m c = after ops6 (Wr5 m c)) 47 _ _ _ _ rfl (by decide) (by decide) (by decide))
def rq_main_c_68 := lift_nullary (liftR_6 m c main_c_68 (by decide)) (eq_nullary lateR_6 (rfl : Wr6 m c = after ops6 (Wr5 m c)) 48 _ _ rfl (by decide))
def rq_main_v334 := lift_unary (liftR_6 m c main_v334 (by decide)) (liftR_6 m c main_c_68 (by decide)) (eq_unary lateR_6 (rfl : Wr6 m c = after ops6 (Wr5 m c)) 49 _ _ _ rfl (by decide) (by decide))
def rq_main_v335 := lift_binary (liftR_6 m c main_v335 (by decide)) (liftR_6 m c main_v238 (by decide)) (liftR_6 m c main_v334 (by decide)) (eq_binary lateR_6 (rfl : Wr6 m c = after ops6 (Wr5 m c)) 50 _ _ _ _ rfl (by decide) (by decide) (by decide))
def rq_main_c_69 := lift_nullary (liftR_6 m c main_c_69 (by decide)) (eq_nullary lateR_6 (rfl : Wr6 m c = after ops6 (Wr5 m c)) 51 _ _ rfl (by decide))
def rq_main_v336 := lift_unary (liftR_6 m c main_v336 (by decide)) (liftR_6 m c main_c_69 (by decide)) (eq_unary lateR_6 (rfl : Wr6 m c = after ops6 (Wr5 m c)) 52 _ _ _ rfl (by decide) (by decide))
def rq_main_v337 := lift_binary (liftR_6 m c main_v337 (by decide)) (liftR_6 m c main_v238 (by decide)) (liftR_6 m c main_v336 (by decide)) (eq_binary lateR_6 (rfl : Wr6 m c = after ops6 (Wr5 m c)) 53 _ _ _ _ rfl (by decide) (by decide) (by decide))
def rq_main_v338 := lift_ternary (liftR_6 m c main_v338 (by decide)) (liftR_6 m c main_v335 (by decide)) (liftR_6 m c main_v337 (by decide)) (liftR_6 m c main_v238 (by decide)) (eq_ternary lateR_6 (rfl : Wr6 m c = after ops6 (Wr5 m c)) 54 _ _ _ _ _ rfl (by decide) (by decide) (by decide) (by decide))
def rq_main_v339 := lift_unary (liftR_6 m c main_v339 (by decide)) (liftR_6 m c main_v338 (by decide)) (eq_unary lateR_6 (rfl : Wr6 m c = after ops6 (Wr5 m c)) 55 _ _ _ rfl (by decide) (by decide))
def rq_main_v340 := lift_binary (liftR_6 m c main_v340 (by decide)) (liftR_6 m c main_v174 (by decide)) (liftR_6 m c main_v339 (by decide)) (eq_binary lateR_6 (rfl : Wr6 m c = after ops6 (Wr5 m c)) 56 _ _ _ _ rfl (by decide) (by decide) (by decide))
def rq_main_call6_v0 := lift_binary (liftR_6 m c main_call6_v0 (by decide)) (liftR_6 m c main_v340 (by decide)) (liftR_6 m c main_v340 (by decide)) (eq_binary lateR_6 (rfl : Wr6 m c = after ops6 (Wr5 m c)) 57 _ _ _ _ rfl (by decide) (by decide) (by decide))
def rq_main_call6_cst := lift_nullary (liftR_6 m c main_call6_cst (by decide)) (eq_nullary lateR_6 (rfl : Wr6 m c = after ops6 (Wr5 m c)) 58 _ _ rfl (by decide))
def rq_main_call6_v1 := lift_binary (liftR_6 m c main_call6_v1 (by decide)) (liftR_6 m c main_call6_v0 (by decide)) (liftR_6 m c main_call6_cst (by decide)) (eq_binary lateR_6 (rfl : Wr6 m c = after ops6 (Wr5 m c)) 59 _ _ _ _ rfl (by decide) (by decide) (by decide))
def rq_main_call6_v2 := lift_unary (liftR_6 m c main_call6_v2 (by decide)) (liftR_6 m c main_call6_v1 (by decide)) (eq_unary lateR_6 (rfl : Wr6 m c = after ops6 (Wr5 m c)) 60 _ _ _ rfl (by decide) (by decide))
def rq_main_v341 := lift_unary (liftR_6 m c main_v341 (by decide)) (liftR_6 m c main_call6_v2 (by decide)) (eq_unary lateR_6 (rfl : Wr6 m c = after ops6 (Wr5 m c)) 61 _ _ _ rfl (by decide) (by decide))
def rq_main_cst_70 := lift_nullary (liftR_6 m c main_cst_70 (by decide)) (eq_nullary lateR_6 (rfl : Wr6 m c = after ops6 (Wr5 m c)) 62 _ _ rfl (by decide))
def rq_main_v342 := lift_unary (liftR_6 m c main_v342 (by decide)) (liftR_6 m c main_cst_70 (by decide)) (eq_unary lateR_6 (rfl : Wr6 m c = after ops6 (Wr5 m c)) 63 _ _ _ rfl (by decide) (by decide))
def rq_main_v343 := lift_binary (liftR_6 m c main_v343 (by decide)) (liftR_6 m c main_v341 (by decide)) (liftR_6 m c main_v342 (by decide)) (eq_binary lateR_6 (rfl : Wr6 m c = after ops6 (Wr5 m c)) 64 _ _ _ _ rfl (by decide) (by decide) (by decide))
def rq_main_v344 := lift_unary (liftR_6 m c main_v344 (by decide)) (liftR_6 m c main_v343 (by decide)) (eq_unary lateR_6 (rfl : Wr6 m c = after ops6 (Wr5 m c)) 65 _ _ _ rfl (by decide) (by decide))
def rq_main_v345 := lift_binary (liftR_6 m c main_v345 (by decide)) (liftR_6 m c main_v340 (by decide)) (liftR_6 m c main_v344 (by decide)) (eq_binary lateR_6 (rfl : Wr6 m c = after ops6 (Wr5 m c)) 66 _ _ _ _ rfl (by decide) (by decide) (by decide))
def rq_main_v346 := lift_unary (liftR_6 m c main_v346 (by decide)) (liftR_6 m c main_arg11 (by decide)) (eq_unary lateR_6 (rfl : Wr6 m c = after ops6 (Wr5 m c)) 67 _ _ _ rfl (by decide) (by decide))

end Cert.ReferenceIdeal.RefRun

end
-- ==== Proof.Ref.RN6.lean ====
import proofs.«126270_j6725918785969_1_alg».proof.Proof.Ref.RNDefs
import proofs.«126270_j6725918785969_1_alg».proof.Proof.Ref.REq6

/-!
# The reference's host operations as equations between plainly typed contents (window 6)
-/

set_option maxRecDepth 16384

noncomputable section

namespace Cert.ReferenceIdeal.RefRun

open Cert.ReferenceIdeal Cert.ReferenceIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

theorem nrq_main_v300 : nR_main_v300 m c = fun i => shapeCast S128x128 (nR_main_v299 m c) shapeCasts_S1x128x128_S128x128 i := rq_main_v300 m c
theorem nrq_main_v301 : nR_main_v301 m c = ((fun l r => Host.dotGeneral (F := Ideal) (φ₁ := .f32) (φ₂ := .f32) dot_S4096x128_S128x128_S4096x128_1_0_0_1_n_n none l r) : (⟨S4096x128, .f32⟩ : BufTy).Contents (Elt Ideal) → (⟨S128x128, .f32⟩ : BufTy).Contents (Elt Ideal) → (⟨S4096x128, .f32⟩ : BufTy).Contents (Elt Ideal)) (nR_main_v298 m c) (nR_main_v300 m c) := rq_main_v301 m c
theorem nrq_main_c_58 : nR_main_c_58 m c = (constantI S_ 32 0#32) := rq_main_c_58 m c
theorem nrq_main_v302 : nR_main_v302 m c = (broadcastInDim S4096 ![] bcast_S_S4096 : (⟨S_, .i32⟩ : BufTy).Contents (Elt Ideal) → (⟨S4096, .i32⟩ : BufTy).Contents (Elt Ideal)) (nR_main_c_58 m c) := rq_main_v302 m c
theorem nrq_main_v303 : nR_main_v303 m c = (cmpi .slt : (⟨S4096, .i32⟩ : BufTy).Contents (Elt Ideal) → (⟨S4096, .i32⟩ : BufTy).Contents (Elt Ideal) → (⟨S4096, .i1⟩ : BufTy).Contents (Elt Ideal)) (nR_main_v239 m c) (nR_main_v302 m c) := rq_main_v303 m c
theorem nrq_main_c_59 : nR_main_c_59 m c = (constantI S_ 32 50000#32) := rq_main_c_59 m c
theorem nrq_main_v304 : nR_main_v304 m c = (broadcastInDim S4096 ![] bcast_S_S4096 : (⟨S_, .i32⟩ : BufTy).Contents (Elt Ideal) → (⟨S4096, .i32⟩ : BufTy).Contents (Elt Ideal)) (nR_main_c_59 m c) := rq_main_v304 m c
theorem nrq_main_v305 : nR_main_v305 m c = (addi : (⟨S4096, .i32⟩ : BufTy).Contents (Elt Ideal) → (⟨S4096, .i32⟩ : BufTy).Contents (Elt Ideal) → (⟨S4096, .i32⟩ : BufTy).Contents (Elt Ideal)) (nR_main_v239 m c) (nR_main_v304 m c) := rq_main_v305 m c
theorem nrq_main_v306 : nR_main_v306 m c = (select : (⟨S4096, .i1⟩ : BufTy).Contents (Elt Ideal) → (⟨S4096, .i32⟩ : BufTy).Contents (Elt Ideal) → (⟨S4096, .i32⟩ : BufTy).Contents (Elt Ideal) → (⟨S4096, .i32⟩ : BufTy).Contents (Elt Ideal)) (nR_main_v303 m c) (nR_main_v305 m c) (nR_main_v239 m c) := rq_main_v306 m c
theorem nrq_main_v307 : nR_main_v307 m c = (broadcastInDim S4096x1 ![0] bcast_S4096_S4096x1_0 : (⟨S4096, .i32⟩ : BufTy).Contents (Elt Ideal) → (⟨S4096x1, .i32⟩ : BufTy).Contents (Elt Ideal)) (nR_main_v306 m c) := rq_main_v307 m c
theorem nrq_main_v308 : nR_main_v308 m c = ((fun x i => Host.gather gather_S50000x128_S4096x1_S4096x128_1_0_n_n_0_1_1128 x i) : (⟨S50000x128, .f32⟩ : BufTy).Contents (Elt Ideal) → (⟨S4096x1, .i32⟩ : BufTy).Contents (Elt Ideal) → (⟨S4096x128, .f32⟩ : BufTy).Contents (Elt Ideal)) (nR_main_v33 m c) (nR_main_v307 m c) := rq_main_v308 m c
theorem nrq_main_call5_v0 : nR_main_call5_v0 m c = mulf (F := Ideal) (φ := .f32) (nR_main_v308 m c) (nR_main_v308 m c) := rq_main_call5_v0 m c
theorem nrq_main_call5_cst : nR_main_call5_cst m c = (constant (F := Ideal) S_ .f32 0x00000000#32) := rq_main_call5_cst m c
theorem nrq_main_call5_v1 : nR_main_call5_v1 m c = (fun x v => Host.reduceAdd (F := Ideal) (φ := .f32) x v reducesTo_S4096x128_S4096_d1 h_S_) (nR_main_call5_v0 m c) (nR_main_call5_cst m c) := rq_main_call5_v1 m c
theorem nrq_main_call5_v2 : nR_main_call5_v2 m c = (broadcastInDim S4096x1 ![0] bcast_S4096_S4096x1_0) (nR_main_call5_v1 m c) := rq_main_call5_v2 m c
theorem nrq_main_v309 : nR_main_v309 m c = Host.sqrt (F := Ideal) (φ := .f32) (nR_main_call5_v2 m c) := rq_main_v309 m c
theorem nrq_main_cst_60 : nR_main_cst_60 m c = (constant (F := Ideal) S_ .f32 0x2B8CBCCC#32) := rq_main_cst_60 m c
theorem nrq_main_v310 : nR_main_v310 m c = (broadcastInDim S4096x1 ![] bcast_S_S4096x1 : (⟨S_, .f32⟩ : BufTy).Contents (Elt Ideal) → (⟨S4096x1, .f32⟩ : BufTy).Contents (Elt Ideal)) (nR_main_cst_60 m c) := rq_main_v310 m c
theorem nrq_main_v311 : nR_main_v311 m c = (maximumf (F := Ideal) (φ := .f32) : (⟨S4096x1, .f32⟩ : BufTy).Contents (Elt Ideal) → (⟨S4096x1, .f32⟩ : BufTy).Contents (Elt Ideal) → (⟨S4096x1, .f32⟩ : BufTy).Contents (Elt Ideal)) (nR_main_v309 m c) (nR_main_v310 m c) := rq_main_v311 m c
theorem nrq_main_v312 : nR_main_v312 m c = (broadcastInDim S4096x128 ![0, 1] bcast_S4096x1_S4096x128_0_1 : (⟨S4096x1, .f32⟩ : BufTy).Contents (Elt Ideal) → (⟨S4096x128, .f32⟩ : BufTy).Contents (Elt Ideal)) (nR_main_v311 m c) := rq_main_v312 m c
theorem nrq_main_v313 : nR_main_v313 m c = (Host.divf (F := Ideal) (φ := .f32) : (⟨S4096x128, .f32⟩ : BufTy).Contents (Elt Ideal) → (⟨S4096x128, .f32⟩ : BufTy).Contents (Elt Ideal) → (⟨S4096x128, .f32⟩ : BufTy).Contents (Elt Ideal)) (nR_main_v308 m c) (nR_main_v312 m c) := rq_main_v313 m c
theorem nrq_main_v314 : nR_main_v314 m c = (mulf (F := Ideal) (φ := .f32) : (⟨S4096x128, .f32⟩ : BufTy).Contents (Elt Ideal) → (⟨S4096x128, .f32⟩ : BufTy).Contents (Elt Ideal) → (⟨S4096x128, .f32⟩ : BufTy).Contents (Elt Ideal)) (nR_main_v301 m c) (nR_main_v313 m c) := rq_main_v314 m c
theorem nrq_main_cst_61 : nR_main_cst_61 m c = (constant (F := Ideal) S_ .f32 0x00000000#32) := rq_main_cst_61 m c
theorem nrq_main_v315 : nR_main_v315 m c = ((fun x v => Host.reduceAdd (F := Ideal) (φ := .f32) x v reducesTo_S4096x128_S4096_d1 h_S_) : (⟨S4096x128, .f32⟩ : BufTy).Contents (Elt Ideal) → (⟨S_, .f32⟩ : BufTy).Contents (Elt Ideal) → (⟨S4096, .f32⟩ : BufTy).Contents (Elt Ideal)) (nR_main_v314 m c) (nR_main_cst_61 m c) := rq_main_v315 m c
theorem nrq_main_cst_62 : nR_main_cst_62 m c = (constant (F := Ideal) S_ .f32 0x3F800000#32) := rq_main_cst_62 m c
theorem nrq_main_v316 : nR_main_v316 m c = (broadcastInDim S4096 ![] bcast_S_S4096 : (⟨S_, .f32⟩ : BufTy).Contents (Elt Ideal) → (⟨S4096, .f32⟩ : BufTy).Contents (Elt Ideal)) (nR_main_cst_62 m c) := rq_main_v316 m c
theorem nrq_main_v317 : nR_main_v317 m c = (Host.divf (F := Ideal) (φ := .f32) : (⟨S4096, .f32⟩ : BufTy).Contents (Elt Ideal) → (⟨S4096, .f32⟩ : BufTy).Contents (Elt Ideal) → (⟨S4096, .f32⟩ : BufTy).Contents (Elt Ideal)) (nR_main_v315 m c) (nR_main_v316 m c) := rq_main_v317 m c
theorem nrq_main_v318 : nR_main_v318 m c = (Host.exp (F := Ideal) (φ := .f32) : (⟨S4096, .f32⟩ : BufTy).Contents (Elt Ideal) → (⟨S4096, .f32⟩ : BufTy).Contents (Elt Ideal)) (nR_main_v317 m c) := rq_main_v318 m c
theorem nrq_main_v319 : nR_main_v319 m c = ((transpose S128x4096 [1, 0] · transposes_S4096x128_S128x4096_1_0) : (⟨S4096x128, .f32⟩ : BufTy).Contents (Elt Ideal) → (⟨S128x4096, .f32⟩ : BufTy).Contents (Elt Ideal)) (nR_main_v301 m c) := rq_main_v319 m c
theorem nrq_main_v320 : nR_main_v320 m c = ((fun l r => Host.dotGeneral (F := Ideal) (φ₁ := .f32) (φ₂ := .f32) dot_S4096x128_S128x4096_S4096x4096_1_0_0_1_n_n none l r) : (⟨S4096x128, .f32⟩ : BufTy).Contents (Elt Ideal) → (⟨S128x4096, .f32⟩ : BufTy).Contents (Elt Ideal) → (⟨S4096x4096, .f32⟩ : BufTy).Contents (Elt Ideal)) (nR_main_v313 m c) (nR_main_v319 m c) := rq_main_v320 m c
theorem nrq_main_cst_63 : nR_main_cst_63 m c = (constant (F := Ideal) S_ .f32 0x3F800000#32) := rq_main_cst_63 m c
theorem nrq_main_v321 : nR_main_v321 m c = (broadcastInDim S4096x4096 ![] bcast_S_S4096x4096 : (⟨S_, .f32⟩ : BufTy).Contents (Elt Ideal) → (⟨S4096x4096, .f32⟩ : BufTy).Contents (Elt Ideal)) (nR_main_cst_63 m c) := rq_main_v321 m c
theorem nrq_main_v322 : nR_main_v322 m c = (Host.divf (F := Ideal) (φ := .f32) : (⟨S4096x4096, .f32⟩ : BufTy).Contents (Elt Ideal) → (⟨S4096x4096, .f32⟩ : BufTy).Contents (Elt Ideal) → (⟨S4096x4096, .f32⟩ : BufTy).Contents (Elt Ideal)) (nR_main_v320 m c) (nR_main_v321 m c) := rq_main_v322 m c
theorem nrq_main_v323 : nR_main_v323 m c = (Host.exp (F := Ideal) (φ := .f32) : (⟨S4096x4096, .f32⟩ : BufTy).Contents (Elt Ideal) → (⟨S4096x4096, .f32⟩ : BufTy).Contents (Elt Ideal)) (nR_main_v322 m c) := rq_main_v323 m c
theorem nrq_main_cst_64 : nR_main_cst_64 m c = (constant (F := Ideal) S_ .f32 0x00000000#32) := rq_main_cst_64 m c
theorem nrq_main_v324 : nR_main_v324 m c = ((fun x v => Host.reduceAdd (F := Ideal) (φ := .f32) x v reducesTo_S4096x4096_S4096_d1 h_S_) : (⟨S4096x4096, .f32⟩ : BufTy).Contents (Elt Ideal) → (⟨S_, .f32⟩ : BufTy).Contents (Elt Ideal) → (⟨S4096, .f32⟩ : BufTy).Contents (Elt Ideal)) (nR_main_v323 m c) (nR_main_cst_64 m c) := rq_main_v324 m c
theorem nrq_main_cst_65 : nR_main_cst_65 m c = (constant (F := Ideal) S_ .f32 0x322BCC77#32) := rq_main_cst_65 m c
theorem nrq_main_v325 : nR_main_v325 m c = (broadcastInDim S4096 ![] bcast_S_S4096 : (⟨S_, .f32⟩ : BufTy).Contents (Elt Ideal) → (⟨S4096, .f32⟩ : BufTy).Contents (Elt Ideal)) (nR_main_cst_65 m c) := rq_main_v325 m c
theorem nrq_main_v326 : nR_main_v326 m c = (addf (F := Ideal) (φ := .f32) : (⟨S4096, .f32⟩ : BufTy).Contents (Elt Ideal) → (⟨S4096, .f32⟩ : BufTy).Contents (Elt Ideal) → (⟨S4096, .f32⟩ : BufTy).Contents (Elt Ideal)) (nR_main_v324 m c) (nR_main_v325 m c) := rq_main_v326 m c
theorem nrq_main_v327 : nR_main_v327 m c = (Host.divf (F := Ideal) (φ := .f32) : (⟨S4096, .f32⟩ : BufTy).Contents (Elt Ideal) → (⟨S4096, .f32⟩ : BufTy).Contents (Elt Ideal) → (⟨S4096, .f32⟩ : BufTy).Contents (Elt Ideal)) (nR_main_v318 m c) (nR_main_v326 m c) := rq_main_v327 m c
theorem nrq_main_cst_66 : nR_main_cst_66 m c = (constant (F := Ideal) S_ .f32 0x322BCC77#32) := rq_main_cst_66 m c
theorem nrq_main_v328 : nR_main_v328 m c = (broadcastInDim S4096 ![] bcast_S_S4096 : (⟨S_, .f32⟩ : BufTy).Contents (Elt Ideal) → (⟨S4096, .f32⟩ : BufTy).Contents (Elt Ideal)) (nR_main_cst_66 m c) := rq_main_v328 m c
theorem nrq_main_v329 : nR_main_v329 m c = (addf (F := Ideal) (φ := .f32) : (⟨S4096, .f32⟩ : BufTy).Contents (Elt Ideal) → (⟨S4096, .f32⟩ : BufTy).Contents (Elt Ideal) → (⟨S4096, .f32⟩ : BufTy).Contents (Elt Ideal)) (nR_main_v327 m c) (nR_main_v328 m c) := rq_main_v329 m c
theorem nrq_main_v330 : nR_main_v330 m c = (Host.log (F := Ideal) (φ := .f32) : (⟨S4096, .f32⟩ : BufTy).Contents (Elt Ideal) → (⟨S4096, .f32⟩ : BufTy).Contents (Elt Ideal)) (nR_main_v329 m c) := rq_main_v330 m c
theorem nrq_main_v331 : nR_main_v331 m c = (Host.negf (F := Ideal) (φ := .f32) : (⟨S4096, .f32⟩ : BufTy).Contents (Elt Ideal) → (⟨S4096, .f32⟩ : BufTy).Contents (Elt Ideal)) (nR_main_v330 m c) := rq_main_v331 m c
theorem nrq_main_cst_67 : nR_main_cst_67 m c = (constant (F := Ideal) S_ .f32 0x00000000#32) := rq_main_cst_67 m c
theorem nrq_main_v332 : nR_main_v332 m c = ((fun x v => Host.reduceAdd (F := Ideal) (φ := .f32) x v reducesTo_S4096_S_d0 h_S_) : (⟨S4096, .f32⟩ : BufTy).Contents (Elt Ideal) → (⟨S_, .f32⟩ : BufTy).Contents (Elt Ideal) → (⟨S_, .f32⟩ : BufTy).Contents (Elt Ideal)) (nR_main_v331 m c) (nR_main_cst_67 m c) := rq_main_v332 m c
theorem nrq_main_v333 : nR_main_v333 m c = (addf (F := Ideal) (φ := .f32) : (⟨S_, .f32⟩ : BufTy).Contents (Elt Ideal) → (⟨S_, .f32⟩ : BufTy).Contents (Elt Ideal) → (⟨S_, .f32⟩ : BufTy).Contents (Elt Ideal)) (nR_main_v286 m c) (nR_main_v332 m c) := rq_main_v333 m c
theorem nrq_main_c_68 : nR_main_c_68 m c = (constantI S_ 32 0#32) := rq_main_c_68 m c
theorem nrq_main_v334 : nR_main_v334 m c = (broadcastInDim S4096 ![] bcast_S_S4096 : (⟨S_, .i32⟩ : BufTy).Contents (Elt Ideal) → (⟨S4096, .i32⟩ : BufTy).Contents (Elt Ideal)) (nR_main_c_68 m c) := rq_main_v334 m c
theorem nrq_main_v335 : nR_main_v335 m c = (cmpi .slt : (⟨S4096, .i32⟩ : BufTy).Contents (Elt Ideal) → (⟨S4096, .i32⟩ : BufTy).Contents (Elt Ideal) → (⟨S4096, .i1⟩ : BufTy).Contents (Elt Ideal)) (nR_main_v238 m c) (nR_main_v334 m c) := rq_main_v335 m c
theorem nrq_main_c_69 : nR_main_c_69 m c = (constantI S_ 32 100000#32) := rq_main_c_69 m c
theorem nrq_main_v336 : nR_main_v336 m c = (broadcastInDim S4096 ![] bcast_S_S4096 : (⟨S_, .i32⟩ : BufTy).Contents (Elt Ideal) → (⟨S4096, .i32⟩ : BufTy).Contents (Elt Ideal)) (nR_main_c_69 m c) := rq_main_v336 m c
theorem nrq_main_v337 : nR_main_v337 m c = (addi : (⟨S4096, .i32⟩ : BufTy).Contents (Elt Ideal) → (⟨S4096, .i32⟩ : BufTy).Contents (Elt Ideal) → (⟨S4096, .i32⟩ : BufTy).Contents (Elt Ideal)) (nR_main_v238 m c) (nR_main_v336 m c) := rq_main_v337 m c
theorem nrq_main_v338 : nR_main_v338 m c = (select : (⟨S4096, .i1⟩ : BufTy).Contents (Elt Ideal) → (⟨S4096, .i32⟩ : BufTy).Contents (Elt Ideal) → (⟨S4096, .i32⟩ : BufTy).Contents (Elt Ideal) → (⟨S4096, .i32⟩ : BufTy).Contents (Elt Ideal)) (nR_main_v335 m c) (nR_main_v337 m c) (nR_main_v238 m c) := rq_main_v338 m c
theorem nrq_main_v339 : nR_main_v339 m c = (broadcastInDim S4096x1 ![0] bcast_S4096_S4096x1_0 : (⟨S4096, .i32⟩ : BufTy).Contents (Elt Ideal) → (⟨S4096x1, .i32⟩ : BufTy).Contents (Elt Ideal)) (nR_main_v338 m c) := rq_main_v339 m c
theorem nrq_main_v340 : nR_main_v340 m c = ((fun x i => Host.gather gather_S100000x128_S4096x1_S4096x128_1_0_n_n_0_1_1128 x i) : (⟨S100000x128, .f32⟩ : BufTy).Contents (Elt Ideal) → (⟨S4096x1, .i32⟩ : BufTy).Contents (Elt Ideal) → (⟨S4096x128, .f32⟩ : BufTy).Contents (Elt Ideal)) (nR_main_v174 m c) (nR_main_v339 m c) := rq_main_v340 m c
theorem nrq_main_call6_v0 : nR_main_call6_v0 m c = mulf (F := Ideal) (φ := .f32) (nR_main_v340 m c) (nR_main_v340 m c) := rq_main_call6_v0 m c
theorem nrq_main_call6_cst : nR_main_call6_cst m c = (constant (F := Ideal) S_ .f32 0x00000000#32) := rq_main_call6_cst m c
theorem nrq_main_call6_v1 : nR_main_call6_v1 m c = (fun x v => Host.reduceAdd (F := Ideal) (φ := .f32) x v reducesTo_S4096x128_S4096_d1 h_S_) (nR_main_call6_v0 m c) (nR_main_call6_cst m c) := rq_main_call6_v1 m c
theorem nrq_main_call6_v2 : nR_main_call6_v2 m c = (broadcastInDim S4096x1 ![0] bcast_S4096_S4096x1_0) (nR_main_call6_v1 m c) := rq_main_call6_v2 m c
theorem nrq_main_v341 : nR_main_v341 m c = Host.sqrt (F := Ideal) (φ := .f32) (nR_main_call6_v2 m c) := rq_main_v341 m c
theorem nrq_main_cst_70 : nR_main_cst_70 m c = (constant (F := Ideal) S_ .f32 0x2B8CBCCC#32) := rq_main_cst_70 m c
theorem nrq_main_v342 : nR_main_v342 m c = (broadcastInDim S4096x1 ![] bcast_S_S4096x1 : (⟨S_, .f32⟩ : BufTy).Contents (Elt Ideal) → (⟨S4096x1, .f32⟩ : BufTy).Contents (Elt Ideal)) (nR_main_cst_70 m c) := rq_main_v342 m c
theorem nrq_main_v343 : nR_main_v343 m c = (maximumf (F := Ideal) (φ := .f32) : (⟨S4096x1, .f32⟩ : BufTy).Contents (Elt Ideal) → (⟨S4096x1, .f32⟩ : BufTy).Contents (Elt Ideal) → (⟨S4096x1, .f32⟩ : BufTy).Contents (Elt Ideal)) (nR_main_v341 m c) (nR_main_v342 m c) := rq_main_v343 m c
theorem nrq_main_v344 : nR_main_v344 m c = (broadcastInDim S4096x128 ![0, 1] bcast_S4096x1_S4096x128_0_1 : (⟨S4096x1, .f32⟩ : BufTy).Contents (Elt Ideal) → (⟨S4096x128, .f32⟩ : BufTy).Contents (Elt Ideal)) (nR_main_v343 m c) := rq_main_v344 m c
theorem nrq_main_v345 : nR_main_v345 m c = (Host.divf (F := Ideal) (φ := .f32) : (⟨S4096x128, .f32⟩ : BufTy).Contents (Elt Ideal) → (⟨S4096x128, .f32⟩ : BufTy).Contents (Elt Ideal) → (⟨S4096x128, .f32⟩ : BufTy).Contents (Elt Ideal)) (nR_main_v340 m c) (nR_main_v344 m c) := rq_main_v345 m c
theorem nrq_main_v346 : nR_main_v346 m c = ((extractStridedSlice S1x128x128 ![1, 0, 0] · slices_S2x128x128_S1x128x128_1_0_0) : (⟨S2x128x128, .f32⟩ : BufTy).Contents (Elt Ideal) → (⟨S1x128x128, .f32⟩ : BufTy).Contents (Elt Ideal)) (nR_main_arg11 m c) := rq_main_v346 m c

end Cert.ReferenceIdeal.RefRun

end
-- ==== Proof.Ref.REq7.lean ====
import proofs.«126270_j6725918785969_1_alg».proof.Proof.Ref.REqBase

/-!
# The reference's host operations, each as an equation between final buffer contents (window 7)
-/

set_option maxRecDepth 16384

noncomputable section

namespace Cert.ReferenceIdeal.RefRun

open Cert.ReferenceIdeal Cert.ReferenceIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

def rq_main_v347 := lift_reshape (by rfl) _ (liftR_7 m c main_v347 (by decide)) (liftR_7 m c main_v346 (by decide)) (eq_reshape lateR_7 (rfl : Wr7 m c = after ops7 (Wr6 m c)) 0 _ _ _ _ rfl (by decide) (by decide))
def rq_main_v348 := lift_binary (liftR_7 m c main_v348 (by decide)) (liftR_7 m c main_v345 (by decide)) (liftR_7 m c main_v347 (by decide)) (eq_binary lateR_7 (rfl : Wr7 m c = after ops7 (Wr6 m c)) 1 _ _ _ _ rfl (by decide) (by decide) (by decide))
def rq_main_c_71 := lift_nullary (liftR_7 m c main_c_71 (by decide)) (eq_nullary lateR_7 (rfl : Wr7 m c = after ops7 (Wr6 m c)) 2 _ _ rfl (by decide))
def rq_main_v349 := lift_unary (liftR_7 m c main_v349 (by decide)) (liftR_7 m c main_c_71 (by decide)) (eq_unary lateR_7 (rfl : Wr7 m c = after ops7 (Wr6 m c)) 3 _ _ _ rfl (by decide) (by decide))
def rq_main_v350 := lift_binary (liftR_7 m c main_v350 (by decide)) (liftR_7 m c main_v238 (by decide)) (liftR_7 m c main_v349 (by decide)) (eq_binary lateR_7 (rfl : Wr7 m c = after ops7 (Wr6 m c)) 4 _ _ _ _ rfl (by decide) (by decide) (by decide))
def rq_main_c_72 := lift_nullary (liftR_7 m c main_c_72 (by decide)) (eq_nullary lateR_7 (rfl : Wr7 m c = after ops7 (Wr6 m c)) 5 _ _ rfl (by decide))
def rq_main_v351 := lift_unary (liftR_7 m c main_v351 (by decide)) (liftR_7 m c main_c_72 (by decide)) (eq_unary lateR_7 (rfl : Wr7 m c = after ops7 (Wr6 m c)) 6 _ _ _ rfl (by decide) (by decide))
def rq_main_v352 := lift_binary (liftR_7 m c main_v352 (by decide)) (liftR_7 m c main_v238 (by decide)) (liftR_7 m c main_v351 (by decide)) (eq_binary lateR_7 (rfl : Wr7 m c = after ops7 (Wr6 m c)) 7 _ _ _ _ rfl (by decide) (by decide) (by decide))
def rq_main_v353 := lift_ternary (liftR_7 m c main_v353 (by decide)) (liftR_7 m c main_v350 (by decide)) (liftR_7 m c main_v352 (by decide)) (liftR_7 m c main_v238 (by decide)) (eq_ternary lateR_7 (rfl : Wr7 m c = after ops7 (Wr6 m c)) 8 _ _ _ _ _ rfl (by decide) (by decide) (by decide) (by decide))
def rq_main_v354 := lift_unary (liftR_7 m c main_v354 (by decide)) (liftR_7 m c main_v353 (by decide)) (eq_unary lateR_7 (rfl : Wr7 m c = after ops7 (Wr6 m c)) 9 _ _ _ rfl (by decide) (by decide))
def rq_main_v355 := lift_binary (liftR_7 m c main_v355 (by decide)) (liftR_7 m c main_v123 (by decide)) (liftR_7 m c main_v354 (by decide)) (eq_binary lateR_7 (rfl : Wr7 m c = after ops7 (Wr6 m c)) 10 _ _ _ _ rfl (by decide) (by decide) (by decide))
def rq_main_call7_v0 := lift_binary (liftR_7 m c main_call7_v0 (by decide)) (liftR_7 m c main_v355 (by decide)) (liftR_7 m c main_v355 (by decide)) (eq_binary lateR_7 (rfl : Wr7 m c = after ops7 (Wr6 m c)) 11 _ _ _ _ rfl (by decide) (by decide) (by decide))
def rq_main_call7_cst := lift_nullary (liftR_7 m c main_call7_cst (by decide)) (eq_nullary lateR_7 (rfl : Wr7 m c = after ops7 (Wr6 m c)) 12 _ _ rfl (by decide))
def rq_main_call7_v1 := lift_binary (liftR_7 m c main_call7_v1 (by decide)) (liftR_7 m c main_call7_v0 (by decide)) (liftR_7 m c main_call7_cst (by decide)) (eq_binary lateR_7 (rfl : Wr7 m c = after ops7 (Wr6 m c)) 13 _ _ _ _ rfl (by decide) (by decide) (by decide))
def rq_main_call7_v2 := lift_unary (liftR_7 m c main_call7_v2 (by decide)) (liftR_7 m c main_call7_v1 (by decide)) (eq_unary lateR_7 (rfl : Wr7 m c = after ops7 (Wr6 m c)) 14 _ _ _ rfl (by decide) (by decide))
def rq_main_v356 := lift_unary (liftR_7 m c main_v356 (by decide)) (liftR_7 m c main_call7_v2 (by decide)) (eq_unary lateR_7 (rfl : Wr7 m c = after ops7 (Wr6 m c)) 15 _ _ _ rfl (by decide) (by decide))
def rq_main_cst_73 := lift_nullary (liftR_7 m c main_cst_73 (by decide)) (eq_nullary lateR_7 (rfl : Wr7 m c = after ops7 (Wr6 m c)) 16 _ _ rfl (by decide))
def rq_main_v357 := lift_unary (liftR_7 m c main_v357 (by decide)) (liftR_7 m c main_cst_73 (by decide)) (eq_unary lateR_7 (rfl : Wr7 m c = after ops7 (Wr6 m c)) 17 _ _ _ rfl (by decide) (by decide))
def rq_main_v358 := lift_binary (liftR_7 m c main_v358 (by decide)) (liftR_7 m c main_v356 (by decide)) (liftR_7 m c main_v357 (by decide)) (eq_binary lateR_7 (rfl : Wr7 m c = after ops7 (Wr6 m c)) 18 _ _ _ _ rfl (by decide) (by decide) (by decide))
def rq_main_v359 := lift_unary (liftR_7 m c main_v359 (by decide)) (liftR_7 m c main_v358 (by decide)) (eq_unary lateR_7 (rfl : Wr7 m c = after ops7 (Wr6 m c)) 19 _ _ _ rfl (by decide) (by decide))
def rq_main_v360 := lift_binary (liftR_7 m c main_v360 (by decide)) (liftR_7 m c main_v355 (by decide)) (liftR_7 m c main_v359 (by decide)) (eq_binary lateR_7 (rfl : Wr7 m c = after ops7 (Wr6 m c)) 20 _ _ _ _ rfl (by decide) (by decide) (by decide))
def rq_main_v361 := lift_binary (liftR_7 m c main_v361 (by decide)) (liftR_7 m c main_v348 (by decide)) (liftR_7 m c main_v360 (by decide)) (eq_binary lateR_7 (rfl : Wr7 m c = after ops7 (Wr6 m c)) 21 _ _ _ _ rfl (by decide) (by decide) (by decide))
def rq_main_cst_74 := lift_nullary (liftR_7 m c main_cst_74 (by decide)) (eq_nullary lateR_7 (rfl : Wr7 m c = after ops7 (Wr6 m c)) 22 _ _ rfl (by decide))
def rq_main_v362 := lift_binary (liftR_7 m c main_v362 (by decide)) (liftR_7 m c main_v361 (by decide)) (liftR_7 m c main_cst_74 (by decide)) (eq_binary lateR_7 (rfl : Wr7 m c = after ops7 (Wr6 m c)) 23 _ _ _ _ rfl (by decide) (by decide) (by decide))
def rq_main_cst_75 := lift_nullary (liftR_7 m c main_cst_75 (by decide)) (eq_nullary lateR_7 (rfl : Wr7 m c = after ops7 (Wr6 m c)) 24 _ _ rfl (by decide))
def rq_main_v363 := lift_unary (liftR_7 m c main_v363 (by decide)) (liftR_7 m c main_cst_75 (by decide)) (eq_unary lateR_7 (rfl : Wr7 m c = after ops7 (Wr6 m c)) 25 _ _ _ rfl (by decide) (by decide))
def rq_main_v364 := lift_binary (liftR_7 m c main_v364 (by decide)) (liftR_7 m c main_v362 (by decide)) (liftR_7 m c main_v363 (by decide)) (eq_binary lateR_7 (rfl : Wr7 m c = after ops7 (Wr6 m c)) 26 _ _ _ _ rfl (by decide) (by decide) (by decide))
def rq_main_v365 := lift_unary (liftR_7 m c main_v365 (by decide)) (liftR_7 m c main_v364 (by decide)) (eq_unary lateR_7 (rfl : Wr7 m c = after ops7 (Wr6 m c)) 27 _ _ _ rfl (by decide) (by decide))
def rq_main_v366 := lift_unary (liftR_7 m c main_v366 (by decide)) (liftR_7 m c main_v348 (by decide)) (eq_unary lateR_7 (rfl : Wr7 m c = after ops7 (Wr6 m c)) 28 _ _ _ rfl (by decide) (by decide))
def rq_main_v367 := lift_binary (liftR_7 m c main_v367 (by decide)) (liftR_7 m c main_v360 (by decide)) (liftR_7 m c main_v366 (by decide)) (eq_binary lateR_7 (rfl : Wr7 m c = after ops7 (Wr6 m c)) 29 _ _ _ _ rfl (by decide) (by decide) (by decide))
def rq_main_cst_76 := lift_nullary (liftR_7 m c main_cst_76 (by decide)) (eq_nullary lateR_7 (rfl : Wr7 m c = after ops7 (Wr6 m c)) 30 _ _ rfl (by decide))
def rq_main_v368 := lift_unary (liftR_7 m c main_v368 (by decide)) (liftR_7 m c main_cst_76 (by decide)) (eq_unary lateR_7 (rfl : Wr7 m c = after ops7 (Wr6 m c)) 31 _ _ _ rfl (by decide) (by decide))
def rq_main_v369 := lift_binary (liftR_7 m c main_v369 (by decide)) (liftR_7 m c main_v367 (by decide)) (liftR_7 m c main_v368 (by decide)) (eq_binary lateR_7 (rfl : Wr7 m c = after ops7 (Wr6 m c)) 32 _ _ _ _ rfl (by decide) (by decide) (by decide))
def rq_main_v370 := lift_unary (liftR_7 m c main_v370 (by decide)) (liftR_7 m c main_v369 (by decide)) (eq_unary lateR_7 (rfl : Wr7 m c = after ops7 (Wr6 m c)) 33 _ _ _ rfl (by decide) (by decide))
def rq_main_cst_77 := lift_nullary (liftR_7 m c main_cst_77 (by decide)) (eq_nullary lateR_7 (rfl : Wr7 m c = after ops7 (Wr6 m c)) 34 _ _ rfl (by decide))
def rq_main_v371 := lift_binary (liftR_7 m c main_v371 (by decide)) (liftR_7 m c main_v370 (by decide)) (liftR_7 m c main_cst_77 (by decide)) (eq_binary lateR_7 (rfl : Wr7 m c = after ops7 (Wr6 m c)) 35 _ _ _ _ rfl (by decide) (by decide) (by decide))
def rq_main_cst_78 := lift_nullary (liftR_7 m c main_cst_78 (by decide)) (eq_nullary lateR_7 (rfl : Wr7 m c = after ops7 (Wr6 m c)) 36 _ _ rfl (by decide))
def rq_main_v372 := lift_unary (liftR_7 m c main_v372 (by decide)) (liftR_7 m c main_cst_78 (by decide)) (eq_unary lateR_7 (rfl : Wr7 m c = after ops7 (Wr6 m c)) 37 _ _ _ rfl (by decide) (by decide))
def rq_main_v373 := lift_binary (liftR_7 m c main_v373 (by decide)) (liftR_7 m c main_v371 (by decide)) (liftR_7 m c main_v372 (by decide)) (eq_binary lateR_7 (rfl : Wr7 m c = after ops7 (Wr6 m c)) 38 _ _ _ _ rfl (by decide) (by decide) (by decide))
def rq_main_v374 := lift_binary (liftR_7 m c main_v374 (by decide)) (liftR_7 m c main_v365 (by decide)) (liftR_7 m c main_v373 (by decide)) (eq_binary lateR_7 (rfl : Wr7 m c = after ops7 (Wr6 m c)) 39 _ _ _ _ rfl (by decide) (by decide) (by decide))
def rq_main_cst_79 := lift_nullary (liftR_7 m c main_cst_79 (by decide)) (eq_nullary lateR_7 (rfl : Wr7 m c = after ops7 (Wr6 m c)) 40 _ _ rfl (by decide))
def rq_main_v375 := lift_unary (liftR_7 m c main_v375 (by decide)) (liftR_7 m c main_cst_79 (by decide)) (eq_unary lateR_7 (rfl : Wr7 m c = after ops7 (Wr6 m c)) 41 _ _ _ rfl (by decide) (by decide))
def rq_main_v376 := lift_binary (liftR_7 m c main_v376 (by decide)) (liftR_7 m c main_v374 (by decide)) (liftR_7 m c main_v375 (by decide)) (eq_binary lateR_7 (rfl : Wr7 m c = after ops7 (Wr6 m c)) 42 _ _ _ _ rfl (by decide) (by decide) (by decide))
def rq_main_v377 := lift_unary (liftR_7 m c main_v377 (by decide)) (liftR_7 m c main_v376 (by decide)) (eq_unary lateR_7 (rfl : Wr7 m c = after ops7 (Wr6 m c)) 43 _ _ _ rfl (by decide) (by decide))
def rq_main_v378 := lift_unary (liftR_7 m c main_v378 (by decide)) (liftR_7 m c main_v377 (by decide)) (eq_unary lateR_7 (rfl : Wr7 m c = after ops7 (Wr6 m c)) 44 _ _ _ rfl (by decide) (by decide))
def rq_main_cst_80 := lift_nullary (liftR_7 m c main_cst_80 (by decide)) (eq_nullary lateR_7 (rfl : Wr7 m c = after ops7 (Wr6 m c)) 45 _ _ rfl (by decide))
def rq_main_v379 := lift_binary (liftR_7 m c main_v379 (by decide)) (liftR_7 m c main_v378 (by decide)) (liftR_7 m c main_cst_80 (by decide)) (eq_binary lateR_7 (rfl : Wr7 m c = after ops7 (Wr6 m c)) 46 _ _ _ _ rfl (by decide) (by decide) (by decide))
def rq_main_v380 := lift_binary (liftR_7 m c main_v380 (by decide)) (liftR_7 m c main_v333 (by decide)) (liftR_7 m c main_v379 (by decide)) (eq_binary lateR_7 (rfl : Wr7 m c = after ops7 (Wr6 m c)) 47 _ _ _ _ rfl (by decide) (by decide) (by decide))
def rq_main_c_81 := lift_nullary (liftR_7 m c main_c_81 (by decide)) (eq_nullary lateR_7 (rfl : Wr7 m c = after ops7 (Wr6 m c)) 48 _ _ rfl (by decide))
def rq_main_v381 := lift_unary (liftR_7 m c main_v381 (by decide)) (liftR_7 m c main_c_81 (by decide)) (eq_unary lateR_7 (rfl : Wr7 m c = after ops7 (Wr6 m c)) 49 _ _ _ rfl (by decide) (by decide))
def rq_main_v382 := lift_binary (liftR_7 m c main_v382 (by decide)) (liftR_7 m c main_v239 (by decide)) (liftR_7 m c main_v381 (by decide)) (eq_binary lateR_7 (rfl : Wr7 m c = after ops7 (Wr6 m c)) 50 _ _ _ _ rfl (by decide) (by decide) (by decide))
def rq_main_c_82 := lift_nullary (liftR_7 m c main_c_82 (by decide)) (eq_nullary lateR_7 (rfl : Wr7 m c = after ops7 (Wr6 m c)) 51 _ _ rfl (by decide))
def rq_main_v383 := lift_unary (liftR_7 m c main_v383 (by decide)) (liftR_7 m c main_c_82 (by decide)) (eq_unary lateR_7 (rfl : Wr7 m c = after ops7 (Wr6 m c)) 52 _ _ _ rfl (by decide) (by decide))
def rq_main_v384 := lift_binary (liftR_7 m c main_v384 (by decide)) (liftR_7 m c main_v239 (by decide)) (liftR_7 m c main_v383 (by decide)) (eq_binary lateR_7 (rfl : Wr7 m c = after ops7 (Wr6 m c)) 53 _ _ _ _ rfl (by decide) (by decide) (by decide))
def rq_main_v385 := lift_ternary (liftR_7 m c main_v385 (by decide)) (liftR_7 m c main_v382 (by decide)) (liftR_7 m c main_v384 (by decide)) (liftR_7 m c main_v239 (by decide)) (eq_ternary lateR_7 (rfl : Wr7 m c = after ops7 (Wr6 m c)) 54 _ _ _ _ _ rfl (by decide) (by decide) (by decide) (by decide))
def rq_main_v386 := lift_unary (liftR_7 m c main_v386 (by decide)) (liftR_7 m c main_v385 (by decide)) (eq_unary lateR_7 (rfl : Wr7 m c = after ops7 (Wr6 m c)) 55 _ _ _ rfl (by decide) (by decide))
def rq_main_v387 := lift_binary (liftR_7 m c main_v387 (by decide)) (liftR_7 m c main_v209 (by decide)) (liftR_7 m c main_v386 (by decide)) (eq_binary lateR_7 (rfl : Wr7 m c = after ops7 (Wr6 m c)) 56 _ _ _ _ rfl (by decide) (by decide) (by decide))
def rq_main_call8_v0 := lift_binary (liftR_7 m c main_call8_v0 (by decide)) (liftR_7 m c main_v387 (by decide)) (liftR_7 m c main_v387 (by decide)) (eq_binary lateR_7 (rfl : Wr7 m c = after ops7 (Wr6 m c)) 57 _ _ _ _ rfl (by decide) (by decide) (by decide))
def rq_main_call8_cst := lift_nullary (liftR_7 m c main_call8_cst (by decide)) (eq_nullary lateR_7 (rfl : Wr7 m c = after ops7 (Wr6 m c)) 58 _ _ rfl (by decide))
def rq_main_call8_v1 := lift_binary (liftR_7 m c main_call8_v1 (by decide)) (liftR_7 m c main_call8_v0 (by decide)) (liftR_7 m c main_call8_cst (by decide)) (eq_binary lateR_7 (rfl : Wr7 m c = after ops7 (Wr6 m c)) 59 _ _ _ _ rfl (by decide) (by decide) (by decide))
def rq_main_call8_v2 := lift_unary (liftR_7 m c main_call8_v2 (by decide)) (liftR_7 m c main_call8_v1 (by decide)) (eq_unary lateR_7 (rfl : Wr7 m c = after ops7 (Wr6 m c)) 60 _ _ _ rfl (by decide) (by decide))
def rq_main_v388 := lift_unary (liftR_7 m c main_v388 (by decide)) (liftR_7 m c main_call8_v2 (by decide)) (eq_unary lateR_7 (rfl : Wr7 m c = after ops7 (Wr6 m c)) 61 _ _ _ rfl (by decide) (by decide))
def rq_main_cst_83 := lift_nullary (liftR_7 m c main_cst_83 (by decide)) (eq_nullary lateR_7 (rfl : Wr7 m c = after ops7 (Wr6 m c)) 62 _ _ rfl (by decide))
def rq_main_v389 := lift_unary (liftR_7 m c main_v389 (by decide)) (liftR_7 m c main_cst_83 (by decide)) (eq_unary lateR_7 (rfl : Wr7 m c = after ops7 (Wr6 m c)) 63 _ _ _ rfl (by decide) (by decide))
def rq_main_v390 := lift_binary (liftR_7 m c main_v390 (by decide)) (liftR_7 m c main_v388 (by decide)) (liftR_7 m c main_v389 (by decide)) (eq_binary lateR_7 (rfl : Wr7 m c = after ops7 (Wr6 m c)) 64 _ _ _ _ rfl (by decide) (by decide) (by decide))
def rq_main_v391 := lift_unary (liftR_7 m c main_v391 (by decide)) (liftR_7 m c main_v390 (by decide)) (eq_unary lateR_7 (rfl : Wr7 m c = after ops7 (Wr6 m c)) 65 _ _ _ rfl (by decide) (by decide))
def rq_main_v392 := lift_binary (liftR_7 m c main_v392 (by decide)) (liftR_7 m c main_v387 (by decide)) (liftR_7 m c main_v391 (by decide)) (eq_binary lateR_7 (rfl : Wr7 m c = after ops7 (Wr6 m c)) 66 _ _ _ _ rfl (by decide) (by decide) (by decide))
def rq_main_v393 := lift_unary (liftR_7 m c main_v393 (by decide)) (liftR_7 m c main_arg11 (by decide)) (eq_unary lateR_7 (rfl : Wr7 m c = after ops7 (Wr6 m c)) 67 _ _ _ rfl (by decide) (by decide))

end Cert.ReferenceIdeal.RefRun

end
-- ==== Proof.Ref.RN7.lean ====
import proofs.«126270_j6725918785969_1_alg».proof.Proof.Ref.RNDefs
import proofs.«126270_j6725918785969_1_alg».proof.Proof.Ref.REq7

/-!
# The reference's host operations as equations between plainly typed contents (window 7)
-/

set_option maxRecDepth 16384

noncomputable section

namespace Cert.ReferenceIdeal.RefRun

open Cert.ReferenceIdeal Cert.ReferenceIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

theorem nrq_main_v347 : nR_main_v347 m c = fun i => shapeCast S128x128 (nR_main_v346 m c) shapeCasts_S1x128x128_S128x128 i := rq_main_v347 m c
theorem nrq_main_v348 : nR_main_v348 m c = ((fun l r => Host.dotGeneral (F := Ideal) (φ₁ := .f32) (φ₂ := .f32) dot_S4096x128_S128x128_S4096x128_1_0_0_1_n_n none l r) : (⟨S4096x128, .f32⟩ : BufTy).Contents (Elt Ideal) → (⟨S128x128, .f32⟩ : BufTy).Contents (Elt Ideal) → (⟨S4096x128, .f32⟩ : BufTy).Contents (Elt Ideal)) (nR_main_v345 m c) (nR_main_v347 m c) := rq_main_v348 m c
theorem nrq_main_c_71 : nR_main_c_71 m c = (constantI S_ 32 0#32) := rq_main_c_71 m c
theorem nrq_main_v349 : nR_main_v349 m c = (broadcastInDim S4096 ![] bcast_S_S4096 : (⟨S_, .i32⟩ : BufTy).Contents (Elt Ideal) → (⟨S4096, .i32⟩ : BufTy).Contents (Elt Ideal)) (nR_main_c_71 m c) := rq_main_v349 m c
theorem nrq_main_v350 : nR_main_v350 m c = (cmpi .slt : (⟨S4096, .i32⟩ : BufTy).Contents (Elt Ideal) → (⟨S4096, .i32⟩ : BufTy).Contents (Elt Ideal) → (⟨S4096, .i1⟩ : BufTy).Contents (Elt Ideal)) (nR_main_v238 m c) (nR_main_v349 m c) := rq_main_v350 m c
theorem nrq_main_c_72 : nR_main_c_72 m c = (constantI S_ 32 100000#32) := rq_main_c_72 m c
theorem nrq_main_v351 : nR_main_v351 m c = (broadcastInDim S4096 ![] bcast_S_S4096 : (⟨S_, .i32⟩ : BufTy).Contents (Elt Ideal) → (⟨S4096, .i32⟩ : BufTy).Contents (Elt Ideal)) (nR_main_c_72 m c) := rq_main_v351 m c
theorem nrq_main_v352 : nR_main_v352 m c = (addi : (⟨S4096, .i32⟩ : BufTy).Contents (Elt Ideal) → (⟨S4096, .i32⟩ : BufTy).Contents (Elt Ideal) → (⟨S4096, .i32⟩ : BufTy).Contents (Elt Ideal)) (nR_main_v238 m c) (nR_main_v351 m c) := rq_main_v352 m c
theorem nrq_main_v353 : nR_main_v353 m c = (select : (⟨S4096, .i1⟩ : BufTy).Contents (Elt Ideal) → (⟨S4096, .i32⟩ : BufTy).Contents (Elt Ideal) → (⟨S4096, .i32⟩ : BufTy).Contents (Elt Ideal) → (⟨S4096, .i32⟩ : BufTy).Contents (Elt Ideal)) (nR_main_v350 m c) (nR_main_v352 m c) (nR_main_v238 m c) := rq_main_v353 m c
theorem nrq_main_v354 : nR_main_v354 m c = (broadcastInDim S4096x1 ![0] bcast_S4096_S4096x1_0 : (⟨S4096, .i32⟩ : BufTy).Contents (Elt Ideal) → (⟨S4096x1, .i32⟩ : BufTy).Contents (Elt Ideal)) (nR_main_v353 m c) := rq_main_v354 m c
theorem nrq_main_v355 : nR_main_v355 m c = ((fun x i => Host.gather gather_S100000x128_S4096x1_S4096x128_1_0_n_n_0_1_1128 x i) : (⟨S100000x128, .f32⟩ : BufTy).Contents (Elt Ideal) → (⟨S4096x1, .i32⟩ : BufTy).Contents (Elt Ideal) → (⟨S4096x128, .f32⟩ : BufTy).Contents (Elt Ideal)) (nR_main_v123 m c) (nR_main_v354 m c) := rq_main_v355 m c
theorem nrq_main_call7_v0 : nR_main_call7_v0 m c = mulf (F := Ideal) (φ := .f32) (nR_main_v355 m c) (nR_main_v355 m c) := rq_main_call7_v0 m c
theorem nrq_main_call7_cst : nR_main_call7_cst m c = (constant (F := Ideal) S_ .f32 0x00000000#32) := rq_main_call7_cst m c
theorem nrq_main_call7_v1 : nR_main_call7_v1 m c = (fun x v => Host.reduceAdd (F := Ideal) (φ := .f32) x v reducesTo_S4096x128_S4096_d1 h_S_) (nR_main_call7_v0 m c) (nR_main_call7_cst m c) := rq_main_call7_v1 m c
theorem nrq_main_call7_v2 : nR_main_call7_v2 m c = (broadcastInDim S4096x1 ![0] bcast_S4096_S4096x1_0) (nR_main_call7_v1 m c) := rq_main_call7_v2 m c
theorem nrq_main_v356 : nR_main_v356 m c = Host.sqrt (F := Ideal) (φ := .f32) (nR_main_call7_v2 m c) := rq_main_v356 m c
theorem nrq_main_cst_73 : nR_main_cst_73 m c = (constant (F := Ideal) S_ .f32 0x2B8CBCCC#32) := rq_main_cst_73 m c
theorem nrq_main_v357 : nR_main_v357 m c = (broadcastInDim S4096x1 ![] bcast_S_S4096x1 : (⟨S_, .f32⟩ : BufTy).Contents (Elt Ideal) → (⟨S4096x1, .f32⟩ : BufTy).Contents (Elt Ideal)) (nR_main_cst_73 m c) := rq_main_v357 m c
theorem nrq_main_v358 : nR_main_v358 m c = (maximumf (F := Ideal) (φ := .f32) : (⟨S4096x1, .f32⟩ : BufTy).Contents (Elt Ideal) → (⟨S4096x1, .f32⟩ : BufTy).Contents (Elt Ideal) → (⟨S4096x1, .f32⟩ : BufTy).Contents (Elt Ideal)) (nR_main_v356 m c) (nR_main_v357 m c) := rq_main_v358 m c
theorem nrq_main_v359 : nR_main_v359 m c = (broadcastInDim S4096x128 ![0, 1] bcast_S4096x1_S4096x128_0_1 : (⟨S4096x1, .f32⟩ : BufTy).Contents (Elt Ideal) → (⟨S4096x128, .f32⟩ : BufTy).Contents (Elt Ideal)) (nR_main_v358 m c) := rq_main_v359 m c
theorem nrq_main_v360 : nR_main_v360 m c = (Host.divf (F := Ideal) (φ := .f32) : (⟨S4096x128, .f32⟩ : BufTy).Contents (Elt Ideal) → (⟨S4096x128, .f32⟩ : BufTy).Contents (Elt Ideal) → (⟨S4096x128, .f32⟩ : BufTy).Contents (Elt Ideal)) (nR_main_v355 m c) (nR_main_v359 m c) := rq_main_v360 m c
theorem nrq_main_v361 : nR_main_v361 m c = (mulf (F := Ideal) (φ := .f32) : (⟨S4096x128, .f32⟩ : BufTy).Contents (Elt Ideal) → (⟨S4096x128, .f32⟩ : BufTy).Contents (Elt Ideal) → (⟨S4096x128, .f32⟩ : BufTy).Contents (Elt Ideal)) (nR_main_v348 m c) (nR_main_v360 m c) := rq_main_v361 m c
theorem nrq_main_cst_74 : nR_main_cst_74 m c = (constant (F := Ideal) S_ .f32 0x00000000#32) := rq_main_cst_74 m c
theorem nrq_main_v362 : nR_main_v362 m c = ((fun x v => Host.reduceAdd (F := Ideal) (φ := .f32) x v reducesTo_S4096x128_S4096_d1 h_S_) : (⟨S4096x128, .f32⟩ : BufTy).Contents (Elt Ideal) → (⟨S_, .f32⟩ : BufTy).Contents (Elt Ideal) → (⟨S4096, .f32⟩ : BufTy).Contents (Elt Ideal)) (nR_main_v361 m c) (nR_main_cst_74 m c) := rq_main_v362 m c
theorem nrq_main_cst_75 : nR_main_cst_75 m c = (constant (F := Ideal) S_ .f32 0x3F800000#32) := rq_main_cst_75 m c
theorem nrq_main_v363 : nR_main_v363 m c = (broadcastInDim S4096 ![] bcast_S_S4096 : (⟨S_, .f32⟩ : BufTy).Contents (Elt Ideal) → (⟨S4096, .f32⟩ : BufTy).Contents (Elt Ideal)) (nR_main_cst_75 m c) := rq_main_v363 m c
theorem nrq_main_v364 : nR_main_v364 m c = (Host.divf (F := Ideal) (φ := .f32) : (⟨S4096, .f32⟩ : BufTy).Contents (Elt Ideal) → (⟨S4096, .f32⟩ : BufTy).Contents (Elt Ideal) → (⟨S4096, .f32⟩ : BufTy).Contents (Elt Ideal)) (nR_main_v362 m c) (nR_main_v363 m c) := rq_main_v364 m c
theorem nrq_main_v365 : nR_main_v365 m c = (Host.exp (F := Ideal) (φ := .f32) : (⟨S4096, .f32⟩ : BufTy).Contents (Elt Ideal) → (⟨S4096, .f32⟩ : BufTy).Contents (Elt Ideal)) (nR_main_v364 m c) := rq_main_v365 m c
theorem nrq_main_v366 : nR_main_v366 m c = ((transpose S128x4096 [1, 0] · transposes_S4096x128_S128x4096_1_0) : (⟨S4096x128, .f32⟩ : BufTy).Contents (Elt Ideal) → (⟨S128x4096, .f32⟩ : BufTy).Contents (Elt Ideal)) (nR_main_v348 m c) := rq_main_v366 m c
theorem nrq_main_v367 : nR_main_v367 m c = ((fun l r => Host.dotGeneral (F := Ideal) (φ₁ := .f32) (φ₂ := .f32) dot_S4096x128_S128x4096_S4096x4096_1_0_0_1_n_n none l r) : (⟨S4096x128, .f32⟩ : BufTy).Contents (Elt Ideal) → (⟨S128x4096, .f32⟩ : BufTy).Contents (Elt Ideal) → (⟨S4096x4096, .f32⟩ : BufTy).Contents (Elt Ideal)) (nR_main_v360 m c) (nR_main_v366 m c) := rq_main_v367 m c
theorem nrq_main_cst_76 : nR_main_cst_76 m c = (constant (F := Ideal) S_ .f32 0x3F800000#32) := rq_main_cst_76 m c
theorem nrq_main_v368 : nR_main_v368 m c = (broadcastInDim S4096x4096 ![] bcast_S_S4096x4096 : (⟨S_, .f32⟩ : BufTy).Contents (Elt Ideal) → (⟨S4096x4096, .f32⟩ : BufTy).Contents (Elt Ideal)) (nR_main_cst_76 m c) := rq_main_v368 m c
theorem nrq_main_v369 : nR_main_v369 m c = (Host.divf (F := Ideal) (φ := .f32) : (⟨S4096x4096, .f32⟩ : BufTy).Contents (Elt Ideal) → (⟨S4096x4096, .f32⟩ : BufTy).Contents (Elt Ideal) → (⟨S4096x4096, .f32⟩ : BufTy).Contents (Elt Ideal)) (nR_main_v367 m c) (nR_main_v368 m c) := rq_main_v369 m c
theorem nrq_main_v370 : nR_main_v370 m c = (Host.exp (F := Ideal) (φ := .f32) : (⟨S4096x4096, .f32⟩ : BufTy).Contents (Elt Ideal) → (⟨S4096x4096, .f32⟩ : BufTy).Contents (Elt Ideal)) (nR_main_v369 m c) := rq_main_v370 m c
theorem nrq_main_cst_77 : nR_main_cst_77 m c = (constant (F := Ideal) S_ .f32 0x00000000#32) := rq_main_cst_77 m c
theorem nrq_main_v371 : nR_main_v371 m c = ((fun x v => Host.reduceAdd (F := Ideal) (φ := .f32) x v reducesTo_S4096x4096_S4096_d1 h_S_) : (⟨S4096x4096, .f32⟩ : BufTy).Contents (Elt Ideal) → (⟨S_, .f32⟩ : BufTy).Contents (Elt Ideal) → (⟨S4096, .f32⟩ : BufTy).Contents (Elt Ideal)) (nR_main_v370 m c) (nR_main_cst_77 m c) := rq_main_v371 m c
theorem nrq_main_cst_78 : nR_main_cst_78 m c = (constant (F := Ideal) S_ .f32 0x322BCC77#32) := rq_main_cst_78 m c
theorem nrq_main_v372 : nR_main_v372 m c = (broadcastInDim S4096 ![] bcast_S_S4096 : (⟨S_, .f32⟩ : BufTy).Contents (Elt Ideal) → (⟨S4096, .f32⟩ : BufTy).Contents (Elt Ideal)) (nR_main_cst_78 m c) := rq_main_v372 m c
theorem nrq_main_v373 : nR_main_v373 m c = (addf (F := Ideal) (φ := .f32) : (⟨S4096, .f32⟩ : BufTy).Contents (Elt Ideal) → (⟨S4096, .f32⟩ : BufTy).Contents (Elt Ideal) → (⟨S4096, .f32⟩ : BufTy).Contents (Elt Ideal)) (nR_main_v371 m c) (nR_main_v372 m c) := rq_main_v373 m c
theorem nrq_main_v374 : nR_main_v374 m c = (Host.divf (F := Ideal) (φ := .f32) : (⟨S4096, .f32⟩ : BufTy).Contents (Elt Ideal) → (⟨S4096, .f32⟩ : BufTy).Contents (Elt Ideal) → (⟨S4096, .f32⟩ : BufTy).Contents (Elt Ideal)) (nR_main_v365 m c) (nR_main_v373 m c) := rq_main_v374 m c
theorem nrq_main_cst_79 : nR_main_cst_79 m c = (constant (F := Ideal) S_ .f32 0x322BCC77#32) := rq_main_cst_79 m c
theorem nrq_main_v375 : nR_main_v375 m c = (broadcastInDim S4096 ![] bcast_S_S4096 : (⟨S_, .f32⟩ : BufTy).Contents (Elt Ideal) → (⟨S4096, .f32⟩ : BufTy).Contents (Elt Ideal)) (nR_main_cst_79 m c) := rq_main_v375 m c
theorem nrq_main_v376 : nR_main_v376 m c = (addf (F := Ideal) (φ := .f32) : (⟨S4096, .f32⟩ : BufTy).Contents (Elt Ideal) → (⟨S4096, .f32⟩ : BufTy).Contents (Elt Ideal) → (⟨S4096, .f32⟩ : BufTy).Contents (Elt Ideal)) (nR_main_v374 m c) (nR_main_v375 m c) := rq_main_v376 m c
theorem nrq_main_v377 : nR_main_v377 m c = (Host.log (F := Ideal) (φ := .f32) : (⟨S4096, .f32⟩ : BufTy).Contents (Elt Ideal) → (⟨S4096, .f32⟩ : BufTy).Contents (Elt Ideal)) (nR_main_v376 m c) := rq_main_v377 m c
theorem nrq_main_v378 : nR_main_v378 m c = (Host.negf (F := Ideal) (φ := .f32) : (⟨S4096, .f32⟩ : BufTy).Contents (Elt Ideal) → (⟨S4096, .f32⟩ : BufTy).Contents (Elt Ideal)) (nR_main_v377 m c) := rq_main_v378 m c
theorem nrq_main_cst_80 : nR_main_cst_80 m c = (constant (F := Ideal) S_ .f32 0x00000000#32) := rq_main_cst_80 m c
theorem nrq_main_v379 : nR_main_v379 m c = ((fun x v => Host.reduceAdd (F := Ideal) (φ := .f32) x v reducesTo_S4096_S_d0 h_S_) : (⟨S4096, .f32⟩ : BufTy).Contents (Elt Ideal) → (⟨S_, .f32⟩ : BufTy).Contents (Elt Ideal) → (⟨S_, .f32⟩ : BufTy).Contents (Elt Ideal)) (nR_main_v378 m c) (nR_main_cst_80 m c) := rq_main_v379 m c
theorem nrq_main_v380 : nR_main_v380 m c = (addf (F := Ideal) (φ := .f32) : (⟨S_, .f32⟩ : BufTy).Contents (Elt Ideal) → (⟨S_, .f32⟩ : BufTy).Contents (Elt Ideal) → (⟨S_, .f32⟩ : BufTy).Contents (Elt Ideal)) (nR_main_v333 m c) (nR_main_v379 m c) := rq_main_v380 m c
theorem nrq_main_c_81 : nR_main_c_81 m c = (constantI S_ 32 0#32) := rq_main_c_81 m c
theorem nrq_main_v381 : nR_main_v381 m c = (broadcastInDim S4096 ![] bcast_S_S4096 : (⟨S_, .i32⟩ : BufTy).Contents (Elt Ideal) → (⟨S4096, .i32⟩ : BufTy).Contents (Elt Ideal)) (nR_main_c_81 m c) := rq_main_v381 m c
theorem nrq_main_v382 : nR_main_v382 m c = (cmpi .slt : (⟨S4096, .i32⟩ : BufTy).Contents (Elt Ideal) → (⟨S4096, .i32⟩ : BufTy).Contents (Elt Ideal) → (⟨S4096, .i1⟩ : BufTy).Contents (Elt Ideal)) (nR_main_v239 m c) (nR_main_v381 m c) := rq_main_v382 m c
theorem nrq_main_c_82 : nR_main_c_82 m c = (constantI S_ 32 50000#32) := rq_main_c_82 m c
theorem nrq_main_v383 : nR_main_v383 m c = (broadcastInDim S4096 ![] bcast_S_S4096 : (⟨S_, .i32⟩ : BufTy).Contents (Elt Ideal) → (⟨S4096, .i32⟩ : BufTy).Contents (Elt Ideal)) (nR_main_c_82 m c) := rq_main_v383 m c
theorem nrq_main_v384 : nR_main_v384 m c = (addi : (⟨S4096, .i32⟩ : BufTy).Contents (Elt Ideal) → (⟨S4096, .i32⟩ : BufTy).Contents (Elt Ideal) → (⟨S4096, .i32⟩ : BufTy).Contents (Elt Ideal)) (nR_main_v239 m c) (nR_main_v383 m c) := rq_main_v384 m c
theorem nrq_main_v385 : nR_main_v385 m c = (select : (⟨S4096, .i1⟩ : BufTy).Contents (Elt Ideal) → (⟨S4096, .i32⟩ : BufTy).Contents (Elt Ideal) → (⟨S4096, .i32⟩ : BufTy).Contents (Elt Ideal) → (⟨S4096, .i32⟩ : BufTy).Contents (Elt Ideal)) (nR_main_v382 m c) (nR_main_v384 m c) (nR_main_v239 m c) := rq_main_v385 m c
theorem nrq_main_v386 : nR_main_v386 m c = (broadcastInDim S4096x1 ![0] bcast_S4096_S4096x1_0 : (⟨S4096, .i32⟩ : BufTy).Contents (Elt Ideal) → (⟨S4096x1, .i32⟩ : BufTy).Contents (Elt Ideal)) (nR_main_v385 m c) := rq_main_v386 m c
theorem nrq_main_v387 : nR_main_v387 m c = ((fun x i => Host.gather gather_S50000x128_S4096x1_S4096x128_1_0_n_n_0_1_1128 x i) : (⟨S50000x128, .f32⟩ : BufTy).Contents (Elt Ideal) → (⟨S4096x1, .i32⟩ : BufTy).Contents (Elt Ideal) → (⟨S4096x128, .f32⟩ : BufTy).Contents (Elt Ideal)) (nR_main_v209 m c) (nR_main_v386 m c) := rq_main_v387 m c
theorem nrq_main_call8_v0 : nR_main_call8_v0 m c = mulf (F := Ideal) (φ := .f32) (nR_main_v387 m c) (nR_main_v387 m c) := rq_main_call8_v0 m c
theorem nrq_main_call8_cst : nR_main_call8_cst m c = (constant (F := Ideal) S_ .f32 0x00000000#32) := rq_main_call8_cst m c
theorem nrq_main_call8_v1 : nR_main_call8_v1 m c = (fun x v => Host.reduceAdd (F := Ideal) (φ := .f32) x v reducesTo_S4096x128_S4096_d1 h_S_) (nR_main_call8_v0 m c) (nR_main_call8_cst m c) := rq_main_call8_v1 m c
theorem nrq_main_call8_v2 : nR_main_call8_v2 m c = (broadcastInDim S4096x1 ![0] bcast_S4096_S4096x1_0) (nR_main_call8_v1 m c) := rq_main_call8_v2 m c
theorem nrq_main_v388 : nR_main_v388 m c = Host.sqrt (F := Ideal) (φ := .f32) (nR_main_call8_v2 m c) := rq_main_v388 m c
theorem nrq_main_cst_83 : nR_main_cst_83 m c = (constant (F := Ideal) S_ .f32 0x2B8CBCCC#32) := rq_main_cst_83 m c
theorem nrq_main_v389 : nR_main_v389 m c = (broadcastInDim S4096x1 ![] bcast_S_S4096x1 : (⟨S_, .f32⟩ : BufTy).Contents (Elt Ideal) → (⟨S4096x1, .f32⟩ : BufTy).Contents (Elt Ideal)) (nR_main_cst_83 m c) := rq_main_v389 m c
theorem nrq_main_v390 : nR_main_v390 m c = (maximumf (F := Ideal) (φ := .f32) : (⟨S4096x1, .f32⟩ : BufTy).Contents (Elt Ideal) → (⟨S4096x1, .f32⟩ : BufTy).Contents (Elt Ideal) → (⟨S4096x1, .f32⟩ : BufTy).Contents (Elt Ideal)) (nR_main_v388 m c) (nR_main_v389 m c) := rq_main_v390 m c
theorem nrq_main_v391 : nR_main_v391 m c = (broadcastInDim S4096x128 ![0, 1] bcast_S4096x1_S4096x128_0_1 : (⟨S4096x1, .f32⟩ : BufTy).Contents (Elt Ideal) → (⟨S4096x128, .f32⟩ : BufTy).Contents (Elt Ideal)) (nR_main_v390 m c) := rq_main_v391 m c
theorem nrq_main_v392 : nR_main_v392 m c = (Host.divf (F := Ideal) (φ := .f32) : (⟨S4096x128, .f32⟩ : BufTy).Contents (Elt Ideal) → (⟨S4096x128, .f32⟩ : BufTy).Contents (Elt Ideal) → (⟨S4096x128, .f32⟩ : BufTy).Contents (Elt Ideal)) (nR_main_v387 m c) (nR_main_v391 m c) := rq_main_v392 m c
theorem nrq_main_v393 : nR_main_v393 m c = ((extractStridedSlice S1x128x128 ![1, 0, 0] · slices_S2x128x128_S1x128x128_1_0_0) : (⟨S2x128x128, .f32⟩ : BufTy).Contents (Elt Ideal) → (⟨S1x128x128, .f32⟩ : BufTy).Contents (Elt Ideal)) (nR_main_arg11 m c) := rq_main_v393 m c

end Cert.ReferenceIdeal.RefRun

end
-- ==== Proof.Ref.REq8.lean ====
import proofs.«126270_j6725918785969_1_alg».proof.Proof.Ref.REqBase

/-!
# The reference's host operations, each as an equation between final buffer contents (window 8)
-/

set_option maxRecDepth 16384

noncomputable section

namespace Cert.ReferenceIdeal.RefRun

open Cert.ReferenceIdeal Cert.ReferenceIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

def rq_main_v394 := lift_reshape (by decide) _ (rfl : WR m c main_v394 = Wr8 m c main_v394) (rfl : WR m c main_v393 = Wr8 m c main_v393) (eq_reshape lateR_8 (rfl : Wr8 m c = after ops8 (Wr7 m c)) 0 _ _ _ _ rfl (by decide) (by decide))
def rq_main_v395 := lift_binary (rfl : WR m c main_v395 = Wr8 m c main_v395) (rfl : WR m c main_v392 = Wr8 m c main_v392) (rfl : WR m c main_v394 = Wr8 m c main_v394) (eq_binary lateR_8 (rfl : Wr8 m c = after ops8 (Wr7 m c)) 1 _ _ _ _ rfl (by decide) (by decide) (by decide))
def rq_main_c_84 := lift_nullary (rfl : WR m c main_c_84 = Wr8 m c main_c_84) (eq_nullary lateR_8 (rfl : Wr8 m c = after ops8 (Wr7 m c)) 2 _ _ rfl (by decide))
def rq_main_v396 := lift_unary (rfl : WR m c main_v396 = Wr8 m c main_v396) (rfl : WR m c main_c_84 = Wr8 m c main_c_84) (eq_unary lateR_8 (rfl : Wr8 m c = after ops8 (Wr7 m c)) 3 _ _ _ rfl (by decide) (by decide))
def rq_main_v397 := lift_binary (rfl : WR m c main_v397 = Wr8 m c main_v397) (rfl : WR m c main_v239 = Wr8 m c main_v239) (rfl : WR m c main_v396 = Wr8 m c main_v396) (eq_binary lateR_8 (rfl : Wr8 m c = after ops8 (Wr7 m c)) 4 _ _ _ _ rfl (by decide) (by decide) (by decide))
def rq_main_c_85 := lift_nullary (rfl : WR m c main_c_85 = Wr8 m c main_c_85) (eq_nullary lateR_8 (rfl : Wr8 m c = after ops8 (Wr7 m c)) 5 _ _ rfl (by decide))
def rq_main_v398 := lift_unary (rfl : WR m c main_v398 = Wr8 m c main_v398) (rfl : WR m c main_c_85 = Wr8 m c main_c_85) (eq_unary lateR_8 (rfl : Wr8 m c = after ops8 (Wr7 m c)) 6 _ _ _ rfl (by decide) (by decide))
def rq_main_v399 := lift_binary (rfl : WR m c main_v399 = Wr8 m c main_v399) (rfl : WR m c main_v239 = Wr8 m c main_v239) (rfl : WR m c main_v398 = Wr8 m c main_v398) (eq_binary lateR_8 (rfl : Wr8 m c = after ops8 (Wr7 m c)) 7 _ _ _ _ rfl (by decide) (by decide) (by decide))
def rq_main_v400 := lift_ternary (rfl : WR m c main_v400 = Wr8 m c main_v400) (rfl : WR m c main_v397 = Wr8 m c main_v397) (rfl : WR m c main_v399 = Wr8 m c main_v399) (rfl : WR m c main_v239 = Wr8 m c main_v239) (eq_ternary lateR_8 (rfl : Wr8 m c = after ops8 (Wr7 m c)) 8 _ _ _ _ _ rfl (by decide) (by decide) (by decide) (by decide))
def rq_main_v401 := lift_unary (rfl : WR m c main_v401 = Wr8 m c main_v401) (rfl : WR m c main_v400 = Wr8 m c main_v400) (eq_unary lateR_8 (rfl : Wr8 m c = after ops8 (Wr7 m c)) 9 _ _ _ rfl (by decide) (by decide))
def rq_main_v402 := lift_binary (rfl : WR m c main_v402 = Wr8 m c main_v402) (rfl : WR m c main_v139 = Wr8 m c main_v139) (rfl : WR m c main_v401 = Wr8 m c main_v401) (eq_binary lateR_8 (rfl : Wr8 m c = after ops8 (Wr7 m c)) 10 _ _ _ _ rfl (by decide) (by decide) (by decide))
def rq_main_call9_v0 := lift_binary (rfl : WR m c main_call9_v0 = Wr8 m c main_call9_v0) (rfl : WR m c main_v402 = Wr8 m c main_v402) (rfl : WR m c main_v402 = Wr8 m c main_v402) (eq_binary lateR_8 (rfl : Wr8 m c = after ops8 (Wr7 m c)) 11 _ _ _ _ rfl (by decide) (by decide) (by decide))
def rq_main_call9_cst := lift_nullary (rfl : WR m c main_call9_cst = Wr8 m c main_call9_cst) (eq_nullary lateR_8 (rfl : Wr8 m c = after ops8 (Wr7 m c)) 12 _ _ rfl (by decide))
def rq_main_call9_v1 := lift_binary (rfl : WR m c main_call9_v1 = Wr8 m c main_call9_v1) (rfl : WR m c main_call9_v0 = Wr8 m c main_call9_v0) (rfl : WR m c main_call9_cst = Wr8 m c main_call9_cst) (eq_binary lateR_8 (rfl : Wr8 m c = after ops8 (Wr7 m c)) 13 _ _ _ _ rfl (by decide) (by decide) (by decide))
def rq_main_call9_v2 := lift_unary (rfl : WR m c main_call9_v2 = Wr8 m c main_call9_v2) (rfl : WR m c main_call9_v1 = Wr8 m c main_call9_v1) (eq_unary lateR_8 (rfl : Wr8 m c = after ops8 (Wr7 m c)) 14 _ _ _ rfl (by decide) (by decide))
def rq_main_v403 := lift_unary (rfl : WR m c main_v403 = Wr8 m c main_v403) (rfl : WR m c main_call9_v2 = Wr8 m c main_call9_v2) (eq_unary lateR_8 (rfl : Wr8 m c = after ops8 (Wr7 m c)) 15 _ _ _ rfl (by decide) (by decide))
def rq_main_cst_86 := lift_nullary (rfl : WR m c main_cst_86 = Wr8 m c main_cst_86) (eq_nullary lateR_8 (rfl : Wr8 m c = after ops8 (Wr7 m c)) 16 _ _ rfl (by decide))
def rq_main_v404 := lift_unary (rfl : WR m c main_v404 = Wr8 m c main_v404) (rfl : WR m c main_cst_86 = Wr8 m c main_cst_86) (eq_unary lateR_8 (rfl : Wr8 m c = after ops8 (Wr7 m c)) 17 _ _ _ rfl (by decide) (by decide))
def rq_main_v405 := lift_binary (rfl : WR m c main_v405 = Wr8 m c main_v405) (rfl : WR m c main_v403 = Wr8 m c main_v403) (rfl : WR m c main_v404 = Wr8 m c main_v404) (eq_binary lateR_8 (rfl : Wr8 m c = after ops8 (Wr7 m c)) 18 _ _ _ _ rfl (by decide) (by decide) (by decide))
def rq_main_v406 := lift_unary (rfl : WR m c main_v406 = Wr8 m c main_v406) (rfl : WR m c main_v405 = Wr8 m c main_v405) (eq_unary lateR_8 (rfl : Wr8 m c = after ops8 (Wr7 m c)) 19 _ _ _ rfl (by decide) (by decide))
def rq_main_v407 := lift_binary (rfl : WR m c main_v407 = Wr8 m c main_v407) (rfl : WR m c main_v402 = Wr8 m c main_v402) (rfl : WR m c main_v406 = Wr8 m c main_v406) (eq_binary lateR_8 (rfl : Wr8 m c = after ops8 (Wr7 m c)) 20 _ _ _ _ rfl (by decide) (by decide) (by decide))
def rq_main_v408 := lift_binary (rfl : WR m c main_v408 = Wr8 m c main_v408) (rfl : WR m c main_v395 = Wr8 m c main_v395) (rfl : WR m c main_v407 = Wr8 m c main_v407) (eq_binary lateR_8 (rfl : Wr8 m c = after ops8 (Wr7 m c)) 21 _ _ _ _ rfl (by decide) (by decide) (by decide))
def rq_main_cst_87 := lift_nullary (rfl : WR m c main_cst_87 = Wr8 m c main_cst_87) (eq_nullary lateR_8 (rfl : Wr8 m c = after ops8 (Wr7 m c)) 22 _ _ rfl (by decide))
def rq_main_v409 := lift_binary (rfl : WR m c main_v409 = Wr8 m c main_v409) (rfl : WR m c main_v408 = Wr8 m c main_v408) (rfl : WR m c main_cst_87 = Wr8 m c main_cst_87) (eq_binary lateR_8 (rfl : Wr8 m c = after ops8 (Wr7 m c)) 23 _ _ _ _ rfl (by decide) (by decide) (by decide))
def rq_main_cst_88 := lift_nullary (rfl : WR m c main_cst_88 = Wr8 m c main_cst_88) (eq_nullary lateR_8 (rfl : Wr8 m c = after ops8 (Wr7 m c)) 24 _ _ rfl (by decide))
def rq_main_v410 := lift_unary (rfl : WR m c main_v410 = Wr8 m c main_v410) (rfl : WR m c main_cst_88 = Wr8 m c main_cst_88) (eq_unary lateR_8 (rfl : Wr8 m c = after ops8 (Wr7 m c)) 25 _ _ _ rfl (by decide) (by decide))
def rq_main_v411 := lift_binary (rfl : WR m c main_v411 = Wr8 m c main_v411) (rfl : WR m c main_v409 = Wr8 m c main_v409) (rfl : WR m c main_v410 = Wr8 m c main_v410) (eq_binary lateR_8 (rfl : Wr8 m c = after ops8 (Wr7 m c)) 26 _ _ _ _ rfl (by decide) (by decide) (by decide))
def rq_main_v412 := lift_unary (rfl : WR m c main_v412 = Wr8 m c main_v412) (rfl : WR m c main_v411 = Wr8 m c main_v411) (eq_unary lateR_8 (rfl : Wr8 m c = after ops8 (Wr7 m c)) 27 _ _ _ rfl (by decide) (by decide))
def rq_main_v413 := lift_unary (rfl : WR m c main_v413 = Wr8 m c main_v413) (rfl : WR m c main_v395 = Wr8 m c main_v395) (eq_unary lateR_8 (rfl : Wr8 m c = after ops8 (Wr7 m c)) 28 _ _ _ rfl (by decide) (by decide))
def rq_main_v414 := lift_binary (rfl : WR m c main_v414 = Wr8 m c main_v414) (rfl : WR m c main_v407 = Wr8 m c main_v407) (rfl : WR m c main_v413 = Wr8 m c main_v413) (eq_binary lateR_8 (rfl : Wr8 m c = after ops8 (Wr7 m c)) 29 _ _ _ _ rfl (by decide) (by decide) (by decide))
def rq_main_cst_89 := lift_nullary (rfl : WR m c main_cst_89 = Wr8 m c main_cst_89) (eq_nullary lateR_8 (rfl : Wr8 m c = after ops8 (Wr7 m c)) 30 _ _ rfl (by decide))
def rq_main_v415 := lift_unary (rfl : WR m c main_v415 = Wr8 m c main_v415) (rfl : WR m c main_cst_89 = Wr8 m c main_cst_89) (eq_unary lateR_8 (rfl : Wr8 m c = after ops8 (Wr7 m c)) 31 _ _ _ rfl (by decide) (by decide))
def rq_main_v416 := lift_binary (rfl : WR m c main_v416 = Wr8 m c main_v416) (rfl : WR m c main_v414 = Wr8 m c main_v414) (rfl : WR m c main_v415 = Wr8 m c main_v415) (eq_binary lateR_8 (rfl : Wr8 m c = after ops8 (Wr7 m c)) 32 _ _ _ _ rfl (by decide) (by decide) (by decide))
def rq_main_v417 := lift_unary (rfl : WR m c main_v417 = Wr8 m c main_v417) (rfl : WR m c main_v416 = Wr8 m c main_v416) (eq_unary lateR_8 (rfl : Wr8 m c = after ops8 (Wr7 m c)) 33 _ _ _ rfl (by decide) (by decide))
def rq_main_cst_90 := lift_nullary (rfl : WR m c main_cst_90 = Wr8 m c main_cst_90) (eq_nullary lateR_8 (rfl : Wr8 m c = after ops8 (Wr7 m c)) 34 _ _ rfl (by decide))
def rq_main_v418 := lift_binary (rfl : WR m c main_v418 = Wr8 m c main_v418) (rfl : WR m c main_v417 = Wr8 m c main_v417) (rfl : WR m c main_cst_90 = Wr8 m c main_cst_90) (eq_binary lateR_8 (rfl : Wr8 m c = after ops8 (Wr7 m c)) 35 _ _ _ _ rfl (by decide) (by decide) (by decide))
def rq_main_cst_91 := lift_nullary (rfl : WR m c main_cst_91 = Wr8 m c main_cst_91) (eq_nullary lateR_8 (rfl : Wr8 m c = after ops8 (Wr7 m c)) 36 _ _ rfl (by decide))
def rq_main_v419 := lift_unary (rfl : WR m c main_v419 = Wr8 m c main_v419) (rfl : WR m c main_cst_91 = Wr8 m c main_cst_91) (eq_unary lateR_8 (rfl : Wr8 m c = after ops8 (Wr7 m c)) 37 _ _ _ rfl (by decide) (by decide))
def rq_main_v420 := lift_binary (rfl : WR m c main_v420 = Wr8 m c main_v420) (rfl : WR m c main_v418 = Wr8 m c main_v418) (rfl : WR m c main_v419 = Wr8 m c main_v419) (eq_binary lateR_8 (rfl : Wr8 m c = after ops8 (Wr7 m c)) 38 _ _ _ _ rfl (by decide) (by decide) (by decide))
def rq_main_v421 := lift_binary (rfl : WR m c main_v421 = Wr8 m c main_v421) (rfl : WR m c main_v412 = Wr8 m c main_v412) (rfl : WR m c main_v420 = Wr8 m c main_v420) (eq_binary lateR_8 (rfl : Wr8 m c = after ops8 (Wr7 m c)) 39 _ _ _ _ rfl (by decide) (by decide) (by decide))
def rq_main_cst_92 := lift_nullary (rfl : WR m c main_cst_92 = Wr8 m c main_cst_92) (eq_nullary lateR_8 (rfl : Wr8 m c = after ops8 (Wr7 m c)) 40 _ _ rfl (by decide))
def rq_main_v422 := lift_unary (rfl : WR m c main_v422 = Wr8 m c main_v422) (rfl : WR m c main_cst_92 = Wr8 m c main_cst_92) (eq_unary lateR_8 (rfl : Wr8 m c = after ops8 (Wr7 m c)) 41 _ _ _ rfl (by decide) (by decide))
def rq_main_v423 := lift_binary (rfl : WR m c main_v423 = Wr8 m c main_v423) (rfl : WR m c main_v421 = Wr8 m c main_v421) (rfl : WR m c main_v422 = Wr8 m c main_v422) (eq_binary lateR_8 (rfl : Wr8 m c = after ops8 (Wr7 m c)) 42 _ _ _ _ rfl (by decide) (by decide) (by decide))
def rq_main_v424 := lift_unary (rfl : WR m c main_v424 = Wr8 m c main_v424) (rfl : WR m c main_v423 = Wr8 m c main_v423) (eq_unary lateR_8 (rfl : Wr8 m c = after ops8 (Wr7 m c)) 43 _ _ _ rfl (by decide) (by decide))
def rq_main_v425 := lift_unary (rfl : WR m c main_v425 = Wr8 m c main_v425) (rfl : WR m c main_v424 = Wr8 m c main_v424) (eq_unary lateR_8 (rfl : Wr8 m c = after ops8 (Wr7 m c)) 44 _ _ _ rfl (by decide) (by decide))
def rq_main_cst_93 := lift_nullary (rfl : WR m c main_cst_93 = Wr8 m c main_cst_93) (eq_nullary lateR_8 (rfl : Wr8 m c = after ops8 (Wr7 m c)) 45 _ _ rfl (by decide))
def rq_main_v426 := lift_binary (rfl : WR m c main_v426 = Wr8 m c main_v426) (rfl : WR m c main_v425 = Wr8 m c main_v425) (rfl : WR m c main_cst_93 = Wr8 m c main_cst_93) (eq_binary lateR_8 (rfl : Wr8 m c = after ops8 (Wr7 m c)) 46 _ _ _ _ rfl (by decide) (by decide) (by decide))
def rq_main_v427 := lift_binary (rfl : WR m c main_v427 = Wr8 m c main_v427) (rfl : WR m c main_v380 = Wr8 m c main_v380) (rfl : WR m c main_v426 = Wr8 m c main_v426) (eq_binary lateR_8 (rfl : Wr8 m c = after ops8 (Wr7 m c)) 47 _ _ _ _ rfl (by decide) (by decide) (by decide))
def rq_main_v428 := lift_binary (rfl : WR m c main_v428 = Wr8 m c main_v428) (rfl : WR m c main_arg5 = Wr8 m c main_arg5) (rfl : WR m c main_arg5 = Wr8 m c main_arg5) (eq_binary lateR_8 (rfl : Wr8 m c = after ops8 (Wr7 m c)) 48 _ _ _ _ rfl (by decide) (by decide) (by decide))
def rq_main_cst_94 := lift_nullary (rfl : WR m c main_cst_94 = Wr8 m c main_cst_94) (eq_nullary lateR_8 (rfl : Wr8 m c = after ops8 (Wr7 m c)) 49 _ _ rfl (by decide))
def rq_main_v429 := lift_binary (rfl : WR m c main_v429 = Wr8 m c main_v429) (rfl : WR m c main_v428 = Wr8 m c main_v428) (rfl : WR m c main_cst_94 = Wr8 m c main_cst_94) (eq_binary lateR_8 (rfl : Wr8 m c = after ops8 (Wr7 m c)) 50 _ _ _ _ rfl (by decide) (by decide) (by decide))
def rq_main_v430 := lift_binary (rfl : WR m c main_v430 = Wr8 m c main_v430) (rfl : WR m c main_arg6 = Wr8 m c main_arg6) (rfl : WR m c main_arg6 = Wr8 m c main_arg6) (eq_binary lateR_8 (rfl : Wr8 m c = after ops8 (Wr7 m c)) 51 _ _ _ _ rfl (by decide) (by decide) (by decide))
def rq_main_cst_95 := lift_nullary (rfl : WR m c main_cst_95 = Wr8 m c main_cst_95) (eq_nullary lateR_8 (rfl : Wr8 m c = after ops8 (Wr7 m c)) 52 _ _ rfl (by decide))
def rq_main_v431 := lift_binary (rfl : WR m c main_v431 = Wr8 m c main_v431) (rfl : WR m c main_v430 = Wr8 m c main_v430) (rfl : WR m c main_cst_95 = Wr8 m c main_cst_95) (eq_binary lateR_8 (rfl : Wr8 m c = after ops8 (Wr7 m c)) 53 _ _ _ _ rfl (by decide) (by decide) (by decide))
def rq_main_v432 := lift_binary (rfl : WR m c main_v432 = Wr8 m c main_v432) (rfl : WR m c main_v429 = Wr8 m c main_v429) (rfl : WR m c main_v431 = Wr8 m c main_v431) (eq_binary lateR_8 (rfl : Wr8 m c = after ops8 (Wr7 m c)) 54 _ _ _ _ rfl (by decide) (by decide) (by decide))
def rq_main_v433 := lift_binary (rfl : WR m c main_v433 = Wr8 m c main_v433) (rfl : WR m c main_arg7 = Wr8 m c main_arg7) (rfl : WR m c main_arg7 = Wr8 m c main_arg7) (eq_binary lateR_8 (rfl : Wr8 m c = after ops8 (Wr7 m c)) 55 _ _ _ _ rfl (by decide) (by decide) (by decide))
def rq_main_cst_96 := lift_nullary (rfl : WR m c main_cst_96 = Wr8 m c main_cst_96) (eq_nullary lateR_8 (rfl : Wr8 m c = after ops8 (Wr7 m c)) 56 _ _ rfl (by decide))
def rq_main_v434 := lift_binary (rfl : WR m c main_v434 = Wr8 m c main_v434) (rfl : WR m c main_v433 = Wr8 m c main_v433) (rfl : WR m c main_cst_96 = Wr8 m c main_cst_96) (eq_binary lateR_8 (rfl : Wr8 m c = after ops8 (Wr7 m c)) 57 _ _ _ _ rfl (by decide) (by decide) (by decide))
def rq_main_v435 := lift_binary (rfl : WR m c main_v435 = Wr8 m c main_v435) (rfl : WR m c main_v432 = Wr8 m c main_v432) (rfl : WR m c main_v434 = Wr8 m c main_v434) (eq_binary lateR_8 (rfl : Wr8 m c = after ops8 (Wr7 m c)) 58 _ _ _ _ rfl (by decide) (by decide) (by decide))
def rq_main_v436 := lift_binary (rfl : WR m c main_v436 = Wr8 m c main_v436) (rfl : WR m c main_arg8 = Wr8 m c main_arg8) (rfl : WR m c main_arg8 = Wr8 m c main_arg8) (eq_binary lateR_8 (rfl : Wr8 m c = after ops8 (Wr7 m c)) 59 _ _ _ _ rfl (by decide) (by decide) (by decide))
def rq_main_cst_97 := lift_nullary (rfl : WR m c main_cst_97 = Wr8 m c main_cst_97) (eq_nullary lateR_8 (rfl : Wr8 m c = after ops8 (Wr7 m c)) 60 _ _ rfl (by decide))
def rq_main_v437 := lift_binary (rfl : WR m c main_v437 = Wr8 m c main_v437) (rfl : WR m c main_v436 = Wr8 m c main_v436) (rfl : WR m c main_cst_97 = Wr8 m c main_cst_97) (eq_binary lateR_8 (rfl : Wr8 m c = after ops8 (Wr7 m c)) 61 _ _ _ _ rfl (by decide) (by decide) (by decide))
def rq_main_v438 := lift_binary (rfl : WR m c main_v438 = Wr8 m c main_v438) (rfl : WR m c main_v435 = Wr8 m c main_v435) (rfl : WR m c main_v437 = Wr8 m c main_v437) (eq_binary lateR_8 (rfl : Wr8 m c = after ops8 (Wr7 m c)) 62 _ _ _ _ rfl (by decide) (by decide) (by decide))

end Cert.ReferenceIdeal.RefRun

end
-- ==== Proof.Ref.RN8.lean ====
import proofs.«126270_j6725918785969_1_alg».proof.Proof.Ref.RNDefs
import proofs.«126270_j6725918785969_1_alg».proof.Proof.Ref.REq8

/-!
# The reference's host operations as equations between plainly typed contents (window 8)
-/

set_option maxRecDepth 16384

noncomputable section

namespace Cert.ReferenceIdeal.RefRun

open Cert.ReferenceIdeal Cert.ReferenceIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

theorem nrq_main_v394 : nR_main_v394 m c = fun i => shapeCast S128x128 (nR_main_v393 m c) shapeCasts_S1x128x128_S128x128 i := rq_main_v394 m c
theorem nrq_main_v395 : nR_main_v395 m c = ((fun l r => Host.dotGeneral (F := Ideal) (φ₁ := .f32) (φ₂ := .f32) dot_S4096x128_S128x128_S4096x128_1_0_0_1_n_n none l r) : (⟨S4096x128, .f32⟩ : BufTy).Contents (Elt Ideal) → (⟨S128x128, .f32⟩ : BufTy).Contents (Elt Ideal) → (⟨S4096x128, .f32⟩ : BufTy).Contents (Elt Ideal)) (nR_main_v392 m c) (nR_main_v394 m c) := rq_main_v395 m c
theorem nrq_main_c_84 : nR_main_c_84 m c = (constantI S_ 32 0#32) := rq_main_c_84 m c
theorem nrq_main_v396 : nR_main_v396 m c = (broadcastInDim S4096 ![] bcast_S_S4096 : (⟨S_, .i32⟩ : BufTy).Contents (Elt Ideal) → (⟨S4096, .i32⟩ : BufTy).Contents (Elt Ideal)) (nR_main_c_84 m c) := rq_main_v396 m c
theorem nrq_main_v397 : nR_main_v397 m c = (cmpi .slt : (⟨S4096, .i32⟩ : BufTy).Contents (Elt Ideal) → (⟨S4096, .i32⟩ : BufTy).Contents (Elt Ideal) → (⟨S4096, .i1⟩ : BufTy).Contents (Elt Ideal)) (nR_main_v239 m c) (nR_main_v396 m c) := rq_main_v397 m c
theorem nrq_main_c_85 : nR_main_c_85 m c = (constantI S_ 32 50000#32) := rq_main_c_85 m c
theorem nrq_main_v398 : nR_main_v398 m c = (broadcastInDim S4096 ![] bcast_S_S4096 : (⟨S_, .i32⟩ : BufTy).Contents (Elt Ideal) → (⟨S4096, .i32⟩ : BufTy).Contents (Elt Ideal)) (nR_main_c_85 m c) := rq_main_v398 m c
theorem nrq_main_v399 : nR_main_v399 m c = (addi : (⟨S4096, .i32⟩ : BufTy).Contents (Elt Ideal) → (⟨S4096, .i32⟩ : BufTy).Contents (Elt Ideal) → (⟨S4096, .i32⟩ : BufTy).Contents (Elt Ideal)) (nR_main_v239 m c) (nR_main_v398 m c) := rq_main_v399 m c
theorem nrq_main_v400 : nR_main_v400 m c = (select : (⟨S4096, .i1⟩ : BufTy).Contents (Elt Ideal) → (⟨S4096, .i32⟩ : BufTy).Contents (Elt Ideal) → (⟨S4096, .i32⟩ : BufTy).Contents (Elt Ideal) → (⟨S4096, .i32⟩ : BufTy).Contents (Elt Ideal)) (nR_main_v397 m c) (nR_main_v399 m c) (nR_main_v239 m c) := rq_main_v400 m c
theorem nrq_main_v401 : nR_main_v401 m c = (broadcastInDim S4096x1 ![0] bcast_S4096_S4096x1_0 : (⟨S4096, .i32⟩ : BufTy).Contents (Elt Ideal) → (⟨S4096x1, .i32⟩ : BufTy).Contents (Elt Ideal)) (nR_main_v400 m c) := rq_main_v401 m c
theorem nrq_main_v402 : nR_main_v402 m c = ((fun x i => Host.gather gather_S50000x128_S4096x1_S4096x128_1_0_n_n_0_1_1128 x i) : (⟨S50000x128, .f32⟩ : BufTy).Contents (Elt Ideal) → (⟨S4096x1, .i32⟩ : BufTy).Contents (Elt Ideal) → (⟨S4096x128, .f32⟩ : BufTy).Contents (Elt Ideal)) (nR_main_v139 m c) (nR_main_v401 m c) := rq_main_v402 m c
theorem nrq_main_call9_v0 : nR_main_call9_v0 m c = mulf (F := Ideal) (φ := .f32) (nR_main_v402 m c) (nR_main_v402 m c) := rq_main_call9_v0 m c
theorem nrq_main_call9_cst : nR_main_call9_cst m c = (constant (F := Ideal) S_ .f32 0x00000000#32) := rq_main_call9_cst m c
theorem nrq_main_call9_v1 : nR_main_call9_v1 m c = (fun x v => Host.reduceAdd (F := Ideal) (φ := .f32) x v reducesTo_S4096x128_S4096_d1 h_S_) (nR_main_call9_v0 m c) (nR_main_call9_cst m c) := rq_main_call9_v1 m c
theorem nrq_main_call9_v2 : nR_main_call9_v2 m c = (broadcastInDim S4096x1 ![0] bcast_S4096_S4096x1_0) (nR_main_call9_v1 m c) := rq_main_call9_v2 m c
theorem nrq_main_v403 : nR_main_v403 m c = Host.sqrt (F := Ideal) (φ := .f32) (nR_main_call9_v2 m c) := rq_main_v403 m c
theorem nrq_main_cst_86 : nR_main_cst_86 m c = (constant (F := Ideal) S_ .f32 0x2B8CBCCC#32) := rq_main_cst_86 m c
theorem nrq_main_v404 : nR_main_v404 m c = (broadcastInDim S4096x1 ![] bcast_S_S4096x1 : (⟨S_, .f32⟩ : BufTy).Contents (Elt Ideal) → (⟨S4096x1, .f32⟩ : BufTy).Contents (Elt Ideal)) (nR_main_cst_86 m c) := rq_main_v404 m c
theorem nrq_main_v405 : nR_main_v405 m c = (maximumf (F := Ideal) (φ := .f32) : (⟨S4096x1, .f32⟩ : BufTy).Contents (Elt Ideal) → (⟨S4096x1, .f32⟩ : BufTy).Contents (Elt Ideal) → (⟨S4096x1, .f32⟩ : BufTy).Contents (Elt Ideal)) (nR_main_v403 m c) (nR_main_v404 m c) := rq_main_v405 m c
theorem nrq_main_v406 : nR_main_v406 m c = (broadcastInDim S4096x128 ![0, 1] bcast_S4096x1_S4096x128_0_1 : (⟨S4096x1, .f32⟩ : BufTy).Contents (Elt Ideal) → (⟨S4096x128, .f32⟩ : BufTy).Contents (Elt Ideal)) (nR_main_v405 m c) := rq_main_v406 m c
theorem nrq_main_v407 : nR_main_v407 m c = (Host.divf (F := Ideal) (φ := .f32) : (⟨S4096x128, .f32⟩ : BufTy).Contents (Elt Ideal) → (⟨S4096x128, .f32⟩ : BufTy).Contents (Elt Ideal) → (⟨S4096x128, .f32⟩ : BufTy).Contents (Elt Ideal)) (nR_main_v402 m c) (nR_main_v406 m c) := rq_main_v407 m c
theorem nrq_main_v408 : nR_main_v408 m c = (mulf (F := Ideal) (φ := .f32) : (⟨S4096x128, .f32⟩ : BufTy).Contents (Elt Ideal) → (⟨S4096x128, .f32⟩ : BufTy).Contents (Elt Ideal) → (⟨S4096x128, .f32⟩ : BufTy).Contents (Elt Ideal)) (nR_main_v395 m c) (nR_main_v407 m c) := rq_main_v408 m c
theorem nrq_main_cst_87 : nR_main_cst_87 m c = (constant (F := Ideal) S_ .f32 0x00000000#32) := rq_main_cst_87 m c
theorem nrq_main_v409 : nR_main_v409 m c = ((fun x v => Host.reduceAdd (F := Ideal) (φ := .f32) x v reducesTo_S4096x128_S4096_d1 h_S_) : (⟨S4096x128, .f32⟩ : BufTy).Contents (Elt Ideal) → (⟨S_, .f32⟩ : BufTy).Contents (Elt Ideal) → (⟨S4096, .f32⟩ : BufTy).Contents (Elt Ideal)) (nR_main_v408 m c) (nR_main_cst_87 m c) := rq_main_v409 m c
theorem nrq_main_cst_88 : nR_main_cst_88 m c = (constant (F := Ideal) S_ .f32 0x3F800000#32) := rq_main_cst_88 m c
theorem nrq_main_v410 : nR_main_v410 m c = (broadcastInDim S4096 ![] bcast_S_S4096 : (⟨S_, .f32⟩ : BufTy).Contents (Elt Ideal) → (⟨S4096, .f32⟩ : BufTy).Contents (Elt Ideal)) (nR_main_cst_88 m c) := rq_main_v410 m c
theorem nrq_main_v411 : nR_main_v411 m c = (Host.divf (F := Ideal) (φ := .f32) : (⟨S4096, .f32⟩ : BufTy).Contents (Elt Ideal) → (⟨S4096, .f32⟩ : BufTy).Contents (Elt Ideal) → (⟨S4096, .f32⟩ : BufTy).Contents (Elt Ideal)) (nR_main_v409 m c) (nR_main_v410 m c) := rq_main_v411 m c
theorem nrq_main_v412 : nR_main_v412 m c = (Host.exp (F := Ideal) (φ := .f32) : (⟨S4096, .f32⟩ : BufTy).Contents (Elt Ideal) → (⟨S4096, .f32⟩ : BufTy).Contents (Elt Ideal)) (nR_main_v411 m c) := rq_main_v412 m c
theorem nrq_main_v413 : nR_main_v413 m c = ((transpose S128x4096 [1, 0] · transposes_S4096x128_S128x4096_1_0) : (⟨S4096x128, .f32⟩ : BufTy).Contents (Elt Ideal) → (⟨S128x4096, .f32⟩ : BufTy).Contents (Elt Ideal)) (nR_main_v395 m c) := rq_main_v413 m c
theorem nrq_main_v414 : nR_main_v414 m c = ((fun l r => Host.dotGeneral (F := Ideal) (φ₁ := .f32) (φ₂ := .f32) dot_S4096x128_S128x4096_S4096x4096_1_0_0_1_n_n none l r) : (⟨S4096x128, .f32⟩ : BufTy).Contents (Elt Ideal) → (⟨S128x4096, .f32⟩ : BufTy).Contents (Elt Ideal) → (⟨S4096x4096, .f32⟩ : BufTy).Contents (Elt Ideal)) (nR_main_v407 m c) (nR_main_v413 m c) := rq_main_v414 m c
theorem nrq_main_cst_89 : nR_main_cst_89 m c = (constant (F := Ideal) S_ .f32 0x3F800000#32) := rq_main_cst_89 m c
theorem nrq_main_v415 : nR_main_v415 m c = (broadcastInDim S4096x4096 ![] bcast_S_S4096x4096 : (⟨S_, .f32⟩ : BufTy).Contents (Elt Ideal) → (⟨S4096x4096, .f32⟩ : BufTy).Contents (Elt Ideal)) (nR_main_cst_89 m c) := rq_main_v415 m c
theorem nrq_main_v416 : nR_main_v416 m c = (Host.divf (F := Ideal) (φ := .f32) : (⟨S4096x4096, .f32⟩ : BufTy).Contents (Elt Ideal) → (⟨S4096x4096, .f32⟩ : BufTy).Contents (Elt Ideal) → (⟨S4096x4096, .f32⟩ : BufTy).Contents (Elt Ideal)) (nR_main_v414 m c) (nR_main_v415 m c) := rq_main_v416 m c
theorem nrq_main_v417 : nR_main_v417 m c = (Host.exp (F := Ideal) (φ := .f32) : (⟨S4096x4096, .f32⟩ : BufTy).Contents (Elt Ideal) → (⟨S4096x4096, .f32⟩ : BufTy).Contents (Elt Ideal)) (nR_main_v416 m c) := rq_main_v417 m c
theorem nrq_main_cst_90 : nR_main_cst_90 m c = (constant (F := Ideal) S_ .f32 0x00000000#32) := rq_main_cst_90 m c
theorem nrq_main_v418 : nR_main_v418 m c = ((fun x v => Host.reduceAdd (F := Ideal) (φ := .f32) x v reducesTo_S4096x4096_S4096_d1 h_S_) : (⟨S4096x4096, .f32⟩ : BufTy).Contents (Elt Ideal) → (⟨S_, .f32⟩ : BufTy).Contents (Elt Ideal) → (⟨S4096, .f32⟩ : BufTy).Contents (Elt Ideal)) (nR_main_v417 m c) (nR_main_cst_90 m c) := rq_main_v418 m c
theorem nrq_main_cst_91 : nR_main_cst_91 m c = (constant (F := Ideal) S_ .f32 0x322BCC77#32) := rq_main_cst_91 m c
theorem nrq_main_v419 : nR_main_v419 m c = (broadcastInDim S4096 ![] bcast_S_S4096 : (⟨S_, .f32⟩ : BufTy).Contents (Elt Ideal) → (⟨S4096, .f32⟩ : BufTy).Contents (Elt Ideal)) (nR_main_cst_91 m c) := rq_main_v419 m c
theorem nrq_main_v420 : nR_main_v420 m c = (addf (F := Ideal) (φ := .f32) : (⟨S4096, .f32⟩ : BufTy).Contents (Elt Ideal) → (⟨S4096, .f32⟩ : BufTy).Contents (Elt Ideal) → (⟨S4096, .f32⟩ : BufTy).Contents (Elt Ideal)) (nR_main_v418 m c) (nR_main_v419 m c) := rq_main_v420 m c
theorem nrq_main_v421 : nR_main_v421 m c = (Host.divf (F := Ideal) (φ := .f32) : (⟨S4096, .f32⟩ : BufTy).Contents (Elt Ideal) → (⟨S4096, .f32⟩ : BufTy).Contents (Elt Ideal) → (⟨S4096, .f32⟩ : BufTy).Contents (Elt Ideal)) (nR_main_v412 m c) (nR_main_v420 m c) := rq_main_v421 m c
theorem nrq_main_cst_92 : nR_main_cst_92 m c = (constant (F := Ideal) S_ .f32 0x322BCC77#32) := rq_main_cst_92 m c
theorem nrq_main_v422 : nR_main_v422 m c = (broadcastInDim S4096 ![] bcast_S_S4096 : (⟨S_, .f32⟩ : BufTy).Contents (Elt Ideal) → (⟨S4096, .f32⟩ : BufTy).Contents (Elt Ideal)) (nR_main_cst_92 m c) := rq_main_v422 m c
theorem nrq_main_v423 : nR_main_v423 m c = (addf (F := Ideal) (φ := .f32) : (⟨S4096, .f32⟩ : BufTy).Contents (Elt Ideal) → (⟨S4096, .f32⟩ : BufTy).Contents (Elt Ideal) → (⟨S4096, .f32⟩ : BufTy).Contents (Elt Ideal)) (nR_main_v421 m c) (nR_main_v422 m c) := rq_main_v423 m c
theorem nrq_main_v424 : nR_main_v424 m c = (Host.log (F := Ideal) (φ := .f32) : (⟨S4096, .f32⟩ : BufTy).Contents (Elt Ideal) → (⟨S4096, .f32⟩ : BufTy).Contents (Elt Ideal)) (nR_main_v423 m c) := rq_main_v424 m c
theorem nrq_main_v425 : nR_main_v425 m c = (Host.negf (F := Ideal) (φ := .f32) : (⟨S4096, .f32⟩ : BufTy).Contents (Elt Ideal) → (⟨S4096, .f32⟩ : BufTy).Contents (Elt Ideal)) (nR_main_v424 m c) := rq_main_v425 m c
theorem nrq_main_cst_93 : nR_main_cst_93 m c = (constant (F := Ideal) S_ .f32 0x00000000#32) := rq_main_cst_93 m c
theorem nrq_main_v426 : nR_main_v426 m c = ((fun x v => Host.reduceAdd (F := Ideal) (φ := .f32) x v reducesTo_S4096_S_d0 h_S_) : (⟨S4096, .f32⟩ : BufTy).Contents (Elt Ideal) → (⟨S_, .f32⟩ : BufTy).Contents (Elt Ideal) → (⟨S_, .f32⟩ : BufTy).Contents (Elt Ideal)) (nR_main_v425 m c) (nR_main_cst_93 m c) := rq_main_v426 m c
theorem nrq_main_v427 : nR_main_v427 m c = (addf (F := Ideal) (φ := .f32) : (⟨S_, .f32⟩ : BufTy).Contents (Elt Ideal) → (⟨S_, .f32⟩ : BufTy).Contents (Elt Ideal) → (⟨S_, .f32⟩ : BufTy).Contents (Elt Ideal)) (nR_main_v380 m c) (nR_main_v426 m c) := rq_main_v427 m c
theorem nrq_main_v428 : nR_main_v428 m c = (mulf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)) (nR_main_arg5 m c) (nR_main_arg5 m c) := rq_main_v428 m c
theorem nrq_main_cst_94 : nR_main_cst_94 m c = (constant (F := Ideal) S_ .f32 0x00000000#32) := rq_main_cst_94 m c
theorem nrq_main_v429 : nR_main_v429 m c = ((fun x v => Host.reduceAdd (F := Ideal) (φ := .f32) x v reducesTo_S100000x128_S_d0_1 h_S_) : (⟨S100000x128, .f32⟩ : BufTy).Contents (Elt Ideal) → (⟨S_, .f32⟩ : BufTy).Contents (Elt Ideal) → (⟨S_, .f32⟩ : BufTy).Contents (Elt Ideal)) (nR_main_v428 m c) (nR_main_cst_94 m c) := rq_main_v429 m c
theorem nrq_main_v430 : nR_main_v430 m c = (mulf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) (nR_main_arg6 m c) (nR_main_arg6 m c) := rq_main_v430 m c
theorem nrq_main_cst_95 : nR_main_cst_95 m c = (constant (F := Ideal) S_ .f32 0x00000000#32) := rq_main_cst_95 m c
theorem nrq_main_v431 : nR_main_v431 m c = ((fun x v => Host.reduceAdd (F := Ideal) (φ := .f32) x v reducesTo_S50000x128_S_d0_1 h_S_) : (⟨S50000x128, .f32⟩ : BufTy).Contents (Elt Ideal) → (⟨S_, .f32⟩ : BufTy).Contents (Elt Ideal) → (⟨S_, .f32⟩ : BufTy).Contents (Elt Ideal)) (nR_main_v430 m c) (nR_main_cst_95 m c) := rq_main_v431 m c
theorem nrq_main_v432 : nR_main_v432 m c = (addf (F := Ideal) (φ := .f32) : (⟨S_, .f32⟩ : BufTy).Contents (Elt Ideal) → (⟨S_, .f32⟩ : BufTy).Contents (Elt Ideal) → (⟨S_, .f32⟩ : BufTy).Contents (Elt Ideal)) (nR_main_v429 m c) (nR_main_v431 m c) := rq_main_v432 m c
theorem nrq_main_v433 : nR_main_v433 m c = (mulf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_arg7 m c) (nR_main_arg7 m c) := rq_main_v433 m c
theorem nrq_main_cst_96 : nR_main_cst_96 m c = (constant (F := Ideal) S_ .f32 0x00000000#32) := rq_main_cst_96 m c
theorem nrq_main_v434 : nR_main_v434 m c = ((fun x v => Host.reduceAdd (F := Ideal) (φ := .f32) x v reducesTo_S128x128_S_d0_1 h_S_) : (⟨S128x128, .f32⟩ : BufTy).Contents (Elt Ideal) → (⟨S_, .f32⟩ : BufTy).Contents (Elt Ideal) → (⟨S_, .f32⟩ : BufTy).Contents (Elt Ideal)) (nR_main_v433 m c) (nR_main_cst_96 m c) := rq_main_v434 m c
theorem nrq_main_v435 : nR_main_v435 m c = (addf (F := Ideal) (φ := .f32) : (⟨S_, .f32⟩ : BufTy).Contents (Elt Ideal) → (⟨S_, .f32⟩ : BufTy).Contents (Elt Ideal) → (⟨S_, .f32⟩ : BufTy).Contents (Elt Ideal)) (nR_main_v432 m c) (nR_main_v434 m c) := rq_main_v435 m c
theorem nrq_main_v436 : nR_main_v436 m c = (mulf (F := Ideal) (φ := .f32) : (⟨S128x128, .f32⟩ : BufTy).Contents (Elt Ideal) → (⟨S128x128, .f32⟩ : BufTy).Contents (Elt Ideal) → (⟨S128x128, .f32⟩ : BufTy).Contents (Elt Ideal)) (nR_main_arg8 m c) (nR_main_arg8 m c) := rq_main_v436 m c
theorem nrq_main_cst_97 : nR_main_cst_97 m c = (constant (F := Ideal) S_ .f32 0x00000000#32) := rq_main_cst_97 m c
theorem nrq_main_v437 : nR_main_v437 m c = ((fun x v => Host.reduceAdd (F := Ideal) (φ := .f32) x v reducesTo_S128x128_S_d0_1 h_S_) : (⟨S128x128, .f32⟩ : BufTy).Contents (Elt Ideal) → (⟨S_, .f32⟩ : BufTy).Contents (Elt Ideal) → (⟨S_, .f32⟩ : BufTy).Contents (Elt Ideal)) (nR_main_v436 m c) (nR_main_cst_97 m c) := rq_main_v437 m c
theorem nrq_main_v438 : nR_main_v438 m c = (addf (F := Ideal) (φ := .f32) : (⟨S_, .f32⟩ : BufTy).Contents (Elt Ideal) → (⟨S_, .f32⟩ : BufTy).Contents (Elt Ideal) → (⟨S_, .f32⟩ : BufTy).Contents (Elt Ideal)) (nR_main_v435 m c) (nR_main_v437 m c) := rq_main_v438 m c

end Cert.ReferenceIdeal.RefRun

end
-- ==== Proof.Ref.RNDup.lean ====
import proofs.«126270_j6725918785969_1_alg».proof.Proof.Ref.RN0
import proofs.«126270_j6725918785969_1_alg».proof.Proof.Ref.RN1
import proofs.«126270_j6725918785969_1_alg».proof.Proof.Ref.RN2
import proofs.«126270_j6725918785969_1_alg».proof.Proof.Ref.RN3
import proofs.«126270_j6725918785969_1_alg».proof.Proof.Ref.RN4
import proofs.«126270_j6725918785969_1_alg».proof.Proof.Ref.RN5
import proofs.«126270_j6725918785969_1_alg».proof.Proof.Ref.RN6
import proofs.«126270_j6725918785969_1_alg».proof.Proof.Ref.RN7
import proofs.«126270_j6725918785969_1_alg».proof.Proof.Ref.RN8

/-!
# Reference buffers that hold the same value

The reference recomputes some values (a constant, its broadcast, the wrapped gather indices): two buffers
computed by the same operations from equal operands hold equal final contents.
-/

set_option maxRecDepth 16384

noncomputable section

namespace Cert.ReferenceIdeal.RefRun

open Cert.ReferenceIdeal Cert.ReferenceIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

theorem nre_c_c_2 : nR_main_c m c = nR_main_c_2 m c := by
  rw [nrq_main_c m c, nrq_main_c_2 m c]
  all_goals rfl
theorem nre_v3_v19 : nR_main_v3 m c = nR_main_v19 m c := by
  rw [nrq_main_v3 m c, nrq_main_v19 m c, nre_c_c_2 m c]
  all_goals rfl
theorem nre_v2_v18 : nR_main_v2 m c = nR_main_v18 m c := by
  rw [nrq_main_v2 m c, nrq_main_v18 m c]
  all_goals rfl
theorem nre_v10_v26 : nR_main_v10 m c = nR_main_v26 m c := by
  rw [nrq_main_v10 m c, nrq_main_v26 m c, nre_v2_v18 m c]
  all_goals rfl
theorem nre_cst_cst_4 : nR_main_cst m c = nR_main_cst_4 m c := by
  rw [nrq_main_cst m c, nrq_main_cst_4 m c]
  all_goals rfl
theorem nre_cst_1_cst_6 : nR_main_cst_1 m c = nR_main_cst_6 m c := by
  rw [nrq_main_cst_1 m c, nrq_main_cst_6 m c]
  all_goals rfl
theorem nre_cst_6_cst_7 : nR_main_cst_6 m c = nR_main_cst_7 m c := by
  rw [nrq_main_cst_6 m c, nrq_main_cst_7 m c]
  all_goals rfl
theorem nre_v38_v45 : nR_main_v38 m c = nR_main_v45 m c := by
  rw [nrq_main_v38 m c, nrq_main_v45 m c, nre_cst_6_cst_7 m c]
  all_goals rfl
theorem nre_cst_6_cst_8 : nR_main_cst_6 m c = nR_main_cst_8 m c := by
  rw [nrq_main_cst_6 m c, nrq_main_cst_8 m c]
  all_goals rfl
theorem nre_v38_v53 : nR_main_v38 m c = nR_main_v53 m c := by
  rw [nrq_main_v38 m c, nrq_main_v53 m c, nre_cst_6_cst_8 m c]
  all_goals rfl
theorem nre_cst_6_cst_9 : nR_main_cst_6 m c = nR_main_cst_9 m c := by
  rw [nrq_main_cst_6 m c, nrq_main_cst_9 m c]
  all_goals rfl
theorem nre_v38_v61 : nR_main_v38 m c = nR_main_v61 m c := by
  rw [nrq_main_v38 m c, nrq_main_v61 m c, nre_cst_6_cst_9 m c]
  all_goals rfl
theorem nre_cst_6_cst_12 : nR_main_cst_6 m c = nR_main_cst_12 m c := by
  rw [nrq_main_cst_6 m c, nrq_main_cst_12 m c]
  all_goals rfl
theorem nre_v38_v80 : nR_main_v38 m c = nR_main_v80 m c := by
  rw [nrq_main_v38 m c, nrq_main_v80 m c, nre_cst_6_cst_12 m c]
  all_goals rfl
theorem nre_cst_6_cst_13 : nR_main_cst_6 m c = nR_main_cst_13 m c := by
  rw [nrq_main_cst_6 m c, nrq_main_cst_13 m c]
  all_goals rfl
theorem nre_v38_v88 : nR_main_v38 m c = nR_main_v88 m c := by
  rw [nrq_main_v38 m c, nrq_main_v88 m c, nre_cst_6_cst_13 m c]
  all_goals rfl
theorem nre_cst_6_cst_14 : nR_main_cst_6 m c = nR_main_cst_14 m c := by
  rw [nrq_main_cst_6 m c, nrq_main_cst_14 m c]
  all_goals rfl
theorem nre_v38_v96 : nR_main_v38 m c = nR_main_v96 m c := by
  rw [nrq_main_v38 m c, nrq_main_v96 m c, nre_cst_6_cst_14 m c]
  all_goals rfl
theorem nre_c_c_16 : nR_main_c m c = nR_main_c_16 m c := by
  rw [nrq_main_c m c, nrq_main_c_16 m c]
  all_goals rfl
theorem nre_v3_v109 : nR_main_v3 m c = nR_main_v109 m c := by
  rw [nrq_main_v3 m c, nrq_main_v109 m c, nre_c_c_16 m c]
  all_goals rfl
theorem nre_v4_v110 : nR_main_v4 m c = nR_main_v110 m c := by
  rw [nrq_main_v4 m c, nrq_main_v110 m c, nre_v3_v109 m c]
  all_goals rfl
theorem nre_c_0_c_17 : nR_main_c_0 m c = nR_main_c_17 m c := by
  rw [nrq_main_c_0 m c, nrq_main_c_17 m c]
  all_goals rfl
theorem nre_v5_v111 : nR_main_v5 m c = nR_main_v111 m c := by
  rw [nrq_main_v5 m c, nrq_main_v111 m c, nre_c_0_c_17 m c]
  all_goals rfl
theorem nre_v6_v112 : nR_main_v6 m c = nR_main_v112 m c := by
  rw [nrq_main_v6 m c, nrq_main_v112 m c, nre_v5_v111 m c]
  all_goals rfl
theorem nre_v7_v113 : nR_main_v7 m c = nR_main_v113 m c := by
  rw [nrq_main_v7 m c, nrq_main_v113 m c, nre_v4_v110 m c, nre_v6_v112 m c]
  all_goals rfl
theorem nre_v8_v114 : nR_main_v8 m c = nR_main_v114 m c := by
  rw [nrq_main_v8 m c, nrq_main_v114 m c, nre_v7_v113 m c]
  all_goals rfl
theorem nre_v2_v108 : nR_main_v2 m c = nR_main_v108 m c := by
  rw [nrq_main_v2 m c, nrq_main_v108 m c]
  all_goals rfl
theorem nre_v10_v116 : nR_main_v10 m c = nR_main_v116 m c := by
  rw [nrq_main_v10 m c, nrq_main_v116 m c, nre_v2_v108 m c]
  all_goals rfl
theorem nre_cst_cst_18 : nR_main_cst m c = nR_main_cst_18 m c := by
  rw [nrq_main_cst m c, nrq_main_cst_18 m c]
  all_goals rfl
theorem nre_v12_v118 : nR_main_v12 m c = nR_main_v118 m c := by
  rw [nrq_main_v12 m c, nrq_main_v118 m c, nre_cst_cst_18 m c]
  all_goals rfl
theorem nre_v13_v119 : nR_main_v13 m c = nR_main_v119 m c := by
  rw [nrq_main_v13 m c, nrq_main_v119 m c]
  all_goals rfl
theorem nre_c_2_c_20 : nR_main_c_2 m c = nR_main_c_20 m c := by
  rw [nrq_main_c_2 m c, nrq_main_c_20 m c]
  all_goals rfl
theorem nre_v19_v125 : nR_main_v19 m c = nR_main_v125 m c := by
  rw [nrq_main_v19 m c, nrq_main_v125 m c, nre_c_2_c_20 m c]
  all_goals rfl
theorem nre_v20_v126 : nR_main_v20 m c = nR_main_v126 m c := by
  rw [nrq_main_v20 m c, nrq_main_v126 m c, nre_v19_v125 m c]
  all_goals rfl
theorem nre_c_3_c_21 : nR_main_c_3 m c = nR_main_c_21 m c := by
  rw [nrq_main_c_3 m c, nrq_main_c_21 m c]
  all_goals rfl
theorem nre_v21_v127 : nR_main_v21 m c = nR_main_v127 m c := by
  rw [nrq_main_v21 m c, nrq_main_v127 m c, nre_c_3_c_21 m c]
  all_goals rfl
theorem nre_v22_v128 : nR_main_v22 m c = nR_main_v128 m c := by
  rw [nrq_main_v22 m c, nrq_main_v128 m c, nre_v21_v127 m c]
  all_goals rfl
theorem nre_v23_v129 : nR_main_v23 m c = nR_main_v129 m c := by
  rw [nrq_main_v23 m c, nrq_main_v129 m c, nre_v20_v126 m c, nre_v22_v128 m c]
  all_goals rfl
theorem nre_v24_v130 : nR_main_v24 m c = nR_main_v130 m c := by
  rw [nrq_main_v24 m c, nrq_main_v130 m c, nre_v23_v129 m c]
  all_goals rfl
theorem nre_v2_v124 : nR_main_v2 m c = nR_main_v124 m c := by
  rw [nrq_main_v2 m c, nrq_main_v124 m c]
  all_goals rfl
theorem nre_v10_v132 : nR_main_v10 m c = nR_main_v132 m c := by
  rw [nrq_main_v10 m c, nrq_main_v132 m c, nre_v2_v124 m c]
  all_goals rfl
theorem nre_cst_4_cst_22 : nR_main_cst_4 m c = nR_main_cst_22 m c := by
  rw [nrq_main_cst_4 m c, nrq_main_cst_22 m c]
  all_goals rfl
theorem nre_v28_v134 : nR_main_v28 m c = nR_main_v134 m c := by
  rw [nrq_main_v28 m c, nrq_main_v134 m c, nre_cst_4_cst_22 m c]
  all_goals rfl
theorem nre_v29_v135 : nR_main_v29 m c = nR_main_v135 m c := by
  rw [nrq_main_v29 m c, nrq_main_v135 m c]
  all_goals rfl
theorem nre_cst_6_cst_25 : nR_main_cst_6 m c = nR_main_cst_25 m c := by
  rw [nrq_main_cst_6 m c, nrq_main_cst_25 m c]
  all_goals rfl
theorem nre_v38_v151 : nR_main_v38 m c = nR_main_v151 m c := by
  rw [nrq_main_v38 m c, nrq_main_v151 m c, nre_cst_6_cst_25 m c]
  all_goals rfl
theorem nre_cst_6_cst_26 : nR_main_cst_6 m c = nR_main_cst_26 m c := by
  rw [nrq_main_cst_6 m c, nrq_main_cst_26 m c]
  all_goals rfl
theorem nre_v38_v159 : nR_main_v38 m c = nR_main_v159 m c := by
  rw [nrq_main_v38 m c, nrq_main_v159 m c, nre_cst_6_cst_26 m c]
  all_goals rfl
theorem nre_cst_6_cst_27 : nR_main_cst_6 m c = nR_main_cst_27 m c := by
  rw [nrq_main_cst_6 m c, nrq_main_cst_27 m c]
  all_goals rfl
theorem nre_v38_v167 : nR_main_v38 m c = nR_main_v167 m c := by
  rw [nrq_main_v38 m c, nrq_main_v167 m c, nre_cst_6_cst_27 m c]
  all_goals rfl
theorem nre_cst_6_cst_30 : nR_main_cst_6 m c = nR_main_cst_30 m c := by
  rw [nrq_main_cst_6 m c, nrq_main_cst_30 m c]
  all_goals rfl
theorem nre_v38_v186 : nR_main_v38 m c = nR_main_v186 m c := by
  rw [nrq_main_v38 m c, nrq_main_v186 m c, nre_cst_6_cst_30 m c]
  all_goals rfl
theorem nre_cst_6_cst_31 : nR_main_cst_6 m c = nR_main_cst_31 m c := by
  rw [nrq_main_cst_6 m c, nrq_main_cst_31 m c]
  all_goals rfl
theorem nre_v38_v194 : nR_main_v38 m c = nR_main_v194 m c := by
  rw [nrq_main_v38 m c, nrq_main_v194 m c, nre_cst_6_cst_31 m c]
  all_goals rfl
theorem nre_cst_6_cst_32 : nR_main_cst_6 m c = nR_main_cst_32 m c := by
  rw [nrq_main_cst_6 m c, nrq_main_cst_32 m c]
  all_goals rfl
theorem nre_v38_v202 : nR_main_v38 m c = nR_main_v202 m c := by
  rw [nrq_main_v38 m c, nrq_main_v202 m c, nre_cst_6_cst_32 m c]
  all_goals rfl
theorem nre_cst_cst_34 : nR_main_cst m c = nR_main_cst_34 m c := by
  rw [nrq_main_cst m c, nrq_main_cst_34 m c]
  all_goals rfl
theorem nre_v12_v214 : nR_main_v12 m c = nR_main_v214 m c := by
  rw [nrq_main_v12 m c, nrq_main_v214 m c, nre_cst_cst_34 m c]
  all_goals rfl
theorem nre_cst_4_cst_35 : nR_main_cst_4 m c = nR_main_cst_35 m c := by
  rw [nrq_main_cst_4 m c, nrq_main_cst_35 m c]
  all_goals rfl
theorem nre_v28_v218 : nR_main_v28 m c = nR_main_v218 m c := by
  rw [nrq_main_v28 m c, nrq_main_v218 m c, nre_cst_4_cst_35 m c]
  all_goals rfl
theorem nre_c_c_36 : nR_main_c m c = nR_main_c_36 m c := by
  rw [nrq_main_c m c, nrq_main_c_36 m c]
  all_goals rfl
theorem nre_c_3_c_37 : nR_main_c_3 m c = nR_main_c_37 m c := by
  rw [nrq_main_c_3 m c, nrq_main_c_37 m c]
  all_goals rfl
theorem nre_c_36_c_38 : nR_main_c_36 m c = nR_main_c_38 m c := by
  rw [nrq_main_c_36 m c, nrq_main_c_38 m c]
  all_goals rfl
theorem nre_v222_v229 : nR_main_v222 m c = nR_main_v229 m c := by
  rw [nrq_main_v222 m c, nrq_main_v229 m c, nre_c_36_c_38 m c]
  all_goals rfl
theorem nre_c_0_c_39 : nR_main_c_0 m c = nR_main_c_39 m c := by
  rw [nrq_main_c_0 m c, nrq_main_c_39 m c]
  all_goals rfl
theorem nre_cst_cst_40 : nR_main_cst m c = nR_main_cst_40 m c := by
  rw [nrq_main_cst m c, nrq_main_cst_40 m c]
  all_goals rfl
theorem nre_c_36_c_41 : nR_main_c_36 m c = nR_main_c_41 m c := by
  rw [nrq_main_c_36 m c, nrq_main_c_41 m c]
  all_goals rfl
theorem nre_v222_v240 : nR_main_v222 m c = nR_main_v240 m c := by
  rw [nrq_main_v222 m c, nrq_main_v240 m c, nre_c_36_c_41 m c]
  all_goals rfl
theorem nre_c_37_c_42 : nR_main_c_37 m c = nR_main_c_42 m c := by
  rw [nrq_main_c_37 m c, nrq_main_c_42 m c]
  all_goals rfl
theorem nre_v224_v242 : nR_main_v224 m c = nR_main_v242 m c := by
  rw [nrq_main_v224 m c, nrq_main_v242 m c, nre_c_37_c_42 m c]
  all_goals rfl
theorem nre_c_41_c_44 : nR_main_c_41 m c = nR_main_c_44 m c := by
  rw [nrq_main_c_41 m c, nrq_main_c_44 m c]
  all_goals rfl
theorem nre_v240_v255 : nR_main_v240 m c = nR_main_v255 m c := by
  rw [nrq_main_v240 m c, nrq_main_v255 m c, nre_c_41_c_44 m c]
  all_goals rfl
theorem nre_v241_v256 : nR_main_v241 m c = nR_main_v256 m c := by
  rw [nrq_main_v241 m c, nrq_main_v256 m c, nre_v240_v255 m c]
  all_goals rfl
theorem nre_c_42_c_45 : nR_main_c_42 m c = nR_main_c_45 m c := by
  rw [nrq_main_c_42 m c, nrq_main_c_45 m c]
  all_goals rfl
theorem nre_v242_v257 : nR_main_v242 m c = nR_main_v257 m c := by
  rw [nrq_main_v242 m c, nrq_main_v257 m c, nre_c_42_c_45 m c]
  all_goals rfl
theorem nre_v243_v258 : nR_main_v243 m c = nR_main_v258 m c := by
  rw [nrq_main_v243 m c, nrq_main_v258 m c, nre_v242_v257 m c]
  all_goals rfl
theorem nre_v244_v259 : nR_main_v244 m c = nR_main_v259 m c := by
  rw [nrq_main_v244 m c, nrq_main_v259 m c, nre_v241_v256 m c, nre_v243_v258 m c]
  all_goals rfl
theorem nre_v245_v260 : nR_main_v245 m c = nR_main_v260 m c := by
  rw [nrq_main_v245 m c, nrq_main_v260 m c, nre_v244_v259 m c]
  all_goals rfl
theorem nre_cst_call2_cst : nR_main_cst m c = nR_main_call2_cst m c := by
  rw [nrq_main_cst m c, nrq_main_call2_cst m c]
  all_goals rfl
theorem nre_cst_call3_cst : nR_main_cst m c = nR_main_call3_cst m c := by
  rw [nrq_main_cst m c, nrq_main_call3_cst m c]
  all_goals rfl
theorem nre_cst_43_cst_46 : nR_main_cst_43 m c = nR_main_cst_46 m c := by
  rw [nrq_main_cst_43 m c, nrq_main_cst_46 m c]
  all_goals rfl
theorem nre_v248_v263 : nR_main_v248 m c = nR_main_v263 m c := by
  rw [nrq_main_v248 m c, nrq_main_v263 m c, nre_cst_43_cst_46 m c]
  all_goals rfl
theorem nre_cst_cst_47 : nR_main_cst m c = nR_main_cst_47 m c := by
  rw [nrq_main_cst m c, nrq_main_cst_47 m c]
  all_goals rfl
theorem nre_cst_51_cst_52 : nR_main_cst_51 m c = nR_main_cst_52 m c := by
  rw [nrq_main_cst_51 m c, nrq_main_cst_52 m c]
  all_goals rfl
theorem nre_v278_v281 : nR_main_v278 m c = nR_main_v281 m c := by
  rw [nrq_main_v278 m c, nrq_main_v281 m c, nre_cst_51_cst_52 m c]
  all_goals rfl
theorem nre_cst_cst_53 : nR_main_cst m c = nR_main_cst_53 m c := by
  rw [nrq_main_cst m c, nrq_main_cst_53 m c]
  all_goals rfl
theorem nre_cst_cst_54 : nR_main_cst m c = nR_main_cst_54 m c := by
  rw [nrq_main_cst m c, nrq_main_cst_54 m c]
  all_goals rfl
theorem nre_c_36_c_55 : nR_main_c_36 m c = nR_main_c_55 m c := by
  rw [nrq_main_c_36 m c, nrq_main_c_55 m c]
  all_goals rfl
theorem nre_v222_v287 : nR_main_v222 m c = nR_main_v287 m c := by
  rw [nrq_main_v222 m c, nrq_main_v287 m c, nre_c_36_c_55 m c]
  all_goals rfl
theorem nre_c_39_c_56 : nR_main_c_39 m c = nR_main_c_56 m c := by
  rw [nrq_main_c_39 m c, nrq_main_c_56 m c]
  all_goals rfl
theorem nre_v231_v289 : nR_main_v231 m c = nR_main_v289 m c := by
  rw [nrq_main_v231 m c, nrq_main_v289 m c, nre_c_39_c_56 m c]
  all_goals rfl
theorem nre_c_55_c_58 : nR_main_c_55 m c = nR_main_c_58 m c := by
  rw [nrq_main_c_55 m c, nrq_main_c_58 m c]
  all_goals rfl
theorem nre_v287_v302 : nR_main_v287 m c = nR_main_v302 m c := by
  rw [nrq_main_v287 m c, nrq_main_v302 m c, nre_c_55_c_58 m c]
  all_goals rfl
theorem nre_v288_v303 : nR_main_v288 m c = nR_main_v303 m c := by
  rw [nrq_main_v288 m c, nrq_main_v303 m c, nre_v287_v302 m c]
  all_goals rfl
theorem nre_c_56_c_59 : nR_main_c_56 m c = nR_main_c_59 m c := by
  rw [nrq_main_c_56 m c, nrq_main_c_59 m c]
  all_goals rfl
theorem nre_v289_v304 : nR_main_v289 m c = nR_main_v304 m c := by
  rw [nrq_main_v289 m c, nrq_main_v304 m c, nre_c_56_c_59 m c]
  all_goals rfl
theorem nre_v290_v305 : nR_main_v290 m c = nR_main_v305 m c := by
  rw [nrq_main_v290 m c, nrq_main_v305 m c, nre_v289_v304 m c]
  all_goals rfl
theorem nre_v291_v306 : nR_main_v291 m c = nR_main_v306 m c := by
  rw [nrq_main_v291 m c, nrq_main_v306 m c, nre_v288_v303 m c, nre_v290_v305 m c]
  all_goals rfl
theorem nre_v292_v307 : nR_main_v292 m c = nR_main_v307 m c := by
  rw [nrq_main_v292 m c, nrq_main_v307 m c, nre_v291_v306 m c]
  all_goals rfl
theorem nre_cst_call4_cst : nR_main_cst m c = nR_main_call4_cst m c := by
  rw [nrq_main_cst m c, nrq_main_call4_cst m c]
  all_goals rfl
theorem nre_cst_43_cst_57 : nR_main_cst_43 m c = nR_main_cst_57 m c := by
  rw [nrq_main_cst_43 m c, nrq_main_cst_57 m c]
  all_goals rfl
theorem nre_v248_v295 : nR_main_v248 m c = nR_main_v295 m c := by
  rw [nrq_main_v248 m c, nrq_main_v295 m c, nre_cst_43_cst_57 m c]
  all_goals rfl
theorem nre_cst_call5_cst : nR_main_cst m c = nR_main_call5_cst m c := by
  rw [nrq_main_cst m c, nrq_main_call5_cst m c]
  all_goals rfl
theorem nre_cst_43_cst_60 : nR_main_cst_43 m c = nR_main_cst_60 m c := by
  rw [nrq_main_cst_43 m c, nrq_main_cst_60 m c]
  all_goals rfl
theorem nre_v248_v310 : nR_main_v248 m c = nR_main_v310 m c := by
  rw [nrq_main_v248 m c, nrq_main_v310 m c, nre_cst_43_cst_60 m c]
  all_goals rfl
theorem nre_v252_v299 : nR_main_v252 m c = nR_main_v299 m c := by
  rw [nrq_main_v252 m c, nrq_main_v299 m c]
  all_goals rfl
theorem nre_v253_v300 : nR_main_v253 m c = nR_main_v300 m c := by
  rw [nrq_main_v253 m c, nrq_main_v300 m c, nre_v252_v299 m c]
  all_goals rfl
theorem nre_cst_cst_61 : nR_main_cst m c = nR_main_cst_61 m c := by
  rw [nrq_main_cst m c, nrq_main_cst_61 m c]
  all_goals rfl
theorem nre_cst_48_cst_62 : nR_main_cst_48 m c = nR_main_cst_62 m c := by
  rw [nrq_main_cst_48 m c, nrq_main_cst_62 m c]
  all_goals rfl
theorem nre_v269_v316 : nR_main_v269 m c = nR_main_v316 m c := by
  rw [nrq_main_v269 m c, nrq_main_v316 m c, nre_cst_48_cst_62 m c]
  all_goals rfl
theorem nre_cst_51_cst_65 : nR_main_cst_51 m c = nR_main_cst_65 m c := by
  rw [nrq_main_cst_51 m c, nrq_main_cst_65 m c]
  all_goals rfl
theorem nre_v278_v325 : nR_main_v278 m c = nR_main_v325 m c := by
  rw [nrq_main_v278 m c, nrq_main_v325 m c, nre_cst_51_cst_65 m c]
  all_goals rfl
theorem nre_cst_51_cst_66 : nR_main_cst_51 m c = nR_main_cst_66 m c := by
  rw [nrq_main_cst_51 m c, nrq_main_cst_66 m c]
  all_goals rfl
theorem nre_v278_v328 : nR_main_v278 m c = nR_main_v328 m c := by
  rw [nrq_main_v278 m c, nrq_main_v328 m c, nre_cst_51_cst_66 m c]
  all_goals rfl
theorem nre_cst_cst_67 : nR_main_cst m c = nR_main_cst_67 m c := by
  rw [nrq_main_cst m c, nrq_main_cst_67 m c]
  all_goals rfl
theorem nre_c_41_c_68 : nR_main_c_41 m c = nR_main_c_68 m c := by
  rw [nrq_main_c_41 m c, nrq_main_c_68 m c]
  all_goals rfl
theorem nre_v240_v334 : nR_main_v240 m c = nR_main_v334 m c := by
  rw [nrq_main_v240 m c, nrq_main_v334 m c, nre_c_41_c_68 m c]
  all_goals rfl
theorem nre_v241_v335 : nR_main_v241 m c = nR_main_v335 m c := by
  rw [nrq_main_v241 m c, nrq_main_v335 m c, nre_v240_v334 m c]
  all_goals rfl
theorem nre_c_42_c_69 : nR_main_c_42 m c = nR_main_c_69 m c := by
  rw [nrq_main_c_42 m c, nrq_main_c_69 m c]
  all_goals rfl
theorem nre_v242_v336 : nR_main_v242 m c = nR_main_v336 m c := by
  rw [nrq_main_v242 m c, nrq_main_v336 m c, nre_c_42_c_69 m c]
  all_goals rfl
theorem nre_v243_v337 : nR_main_v243 m c = nR_main_v337 m c := by
  rw [nrq_main_v243 m c, nrq_main_v337 m c, nre_v242_v336 m c]
  all_goals rfl
theorem nre_v244_v338 : nR_main_v244 m c = nR_main_v338 m c := by
  rw [nrq_main_v244 m c, nrq_main_v338 m c, nre_v241_v335 m c, nre_v243_v337 m c]
  all_goals rfl
theorem nre_v245_v339 : nR_main_v245 m c = nR_main_v339 m c := by
  rw [nrq_main_v245 m c, nrq_main_v339 m c, nre_v244_v338 m c]
  all_goals rfl
theorem nre_c_41_c_71 : nR_main_c_41 m c = nR_main_c_71 m c := by
  rw [nrq_main_c_41 m c, nrq_main_c_71 m c]
  all_goals rfl
theorem nre_v240_v349 : nR_main_v240 m c = nR_main_v349 m c := by
  rw [nrq_main_v240 m c, nrq_main_v349 m c, nre_c_41_c_71 m c]
  all_goals rfl
theorem nre_v241_v350 : nR_main_v241 m c = nR_main_v350 m c := by
  rw [nrq_main_v241 m c, nrq_main_v350 m c, nre_v240_v349 m c]
  all_goals rfl
theorem nre_c_42_c_72 : nR_main_c_42 m c = nR_main_c_72 m c := by
  rw [nrq_main_c_42 m c, nrq_main_c_72 m c]
  all_goals rfl
theorem nre_v242_v351 : nR_main_v242 m c = nR_main_v351 m c := by
  rw [nrq_main_v242 m c, nrq_main_v351 m c, nre_c_42_c_72 m c]
  all_goals rfl
theorem nre_v243_v352 : nR_main_v243 m c = nR_main_v352 m c := by
  rw [nrq_main_v243 m c, nrq_main_v352 m c, nre_v242_v351 m c]
  all_goals rfl
theorem nre_v244_v353 : nR_main_v244 m c = nR_main_v353 m c := by
  rw [nrq_main_v244 m c, nrq_main_v353 m c, nre_v241_v350 m c, nre_v243_v352 m c]
  all_goals rfl
theorem nre_v245_v354 : nR_main_v245 m c = nR_main_v354 m c := by
  rw [nrq_main_v245 m c, nrq_main_v354 m c, nre_v244_v353 m c]
  all_goals rfl
theorem nre_cst_call6_cst : nR_main_cst m c = nR_main_call6_cst m c := by
  rw [nrq_main_cst m c, nrq_main_call6_cst m c]
  all_goals rfl
theorem nre_cst_43_cst_70 : nR_main_cst_43 m c = nR_main_cst_70 m c := by
  rw [nrq_main_cst_43 m c, nrq_main_cst_70 m c]
  all_goals rfl
theorem nre_v248_v342 : nR_main_v248 m c = nR_main_v342 m c := by
  rw [nrq_main_v248 m c, nrq_main_v342 m c, nre_cst_43_cst_70 m c]
  all_goals rfl
theorem nre_cst_call7_cst : nR_main_cst m c = nR_main_call7_cst m c := by
  rw [nrq_main_cst m c, nrq_main_call7_cst m c]
  all_goals rfl
theorem nre_cst_43_cst_73 : nR_main_cst_43 m c = nR_main_cst_73 m c := by
  rw [nrq_main_cst_43 m c, nrq_main_cst_73 m c]
  all_goals rfl
theorem nre_v248_v357 : nR_main_v248 m c = nR_main_v357 m c := by
  rw [nrq_main_v248 m c, nrq_main_v357 m c, nre_cst_43_cst_73 m c]
  all_goals rfl
theorem nre_cst_cst_74 : nR_main_cst m c = nR_main_cst_74 m c := by
  rw [nrq_main_cst m c, nrq_main_cst_74 m c]
  all_goals rfl
theorem nre_cst_48_cst_75 : nR_main_cst_48 m c = nR_main_cst_75 m c := by
  rw [nrq_main_cst_48 m c, nrq_main_cst_75 m c]
  all_goals rfl
theorem nre_v269_v363 : nR_main_v269 m c = nR_main_v363 m c := by
  rw [nrq_main_v269 m c, nrq_main_v363 m c, nre_cst_48_cst_75 m c]
  all_goals rfl
theorem nre_cst_51_cst_78 : nR_main_cst_51 m c = nR_main_cst_78 m c := by
  rw [nrq_main_cst_51 m c, nrq_main_cst_78 m c]
  all_goals rfl
theorem nre_v278_v372 : nR_main_v278 m c = nR_main_v372 m c := by
  rw [nrq_main_v278 m c, nrq_main_v372 m c, nre_cst_51_cst_78 m c]
  all_goals rfl
theorem nre_cst_51_cst_79 : nR_main_cst_51 m c = nR_main_cst_79 m c := by
  rw [nrq_main_cst_51 m c, nrq_main_cst_79 m c]
  all_goals rfl
theorem nre_v278_v375 : nR_main_v278 m c = nR_main_v375 m c := by
  rw [nrq_main_v278 m c, nrq_main_v375 m c, nre_cst_51_cst_79 m c]
  all_goals rfl
theorem nre_cst_cst_80 : nR_main_cst m c = nR_main_cst_80 m c := by
  rw [nrq_main_cst m c, nrq_main_cst_80 m c]
  all_goals rfl
theorem nre_c_55_c_81 : nR_main_c_55 m c = nR_main_c_81 m c := by
  rw [nrq_main_c_55 m c, nrq_main_c_81 m c]
  all_goals rfl
theorem nre_v287_v381 : nR_main_v287 m c = nR_main_v381 m c := by
  rw [nrq_main_v287 m c, nrq_main_v381 m c, nre_c_55_c_81 m c]
  all_goals rfl
theorem nre_v288_v382 : nR_main_v288 m c = nR_main_v382 m c := by
  rw [nrq_main_v288 m c, nrq_main_v382 m c, nre_v287_v381 m c]
  all_goals rfl
theorem nre_c_56_c_82 : nR_main_c_56 m c = nR_main_c_82 m c := by
  rw [nrq_main_c_56 m c, nrq_main_c_82 m c]
  all_goals rfl
theorem nre_v289_v383 : nR_main_v289 m c = nR_main_v383 m c := by
  rw [nrq_main_v289 m c, nrq_main_v383 m c, nre_c_56_c_82 m c]
  all_goals rfl
theorem nre_v290_v384 : nR_main_v290 m c = nR_main_v384 m c := by
  rw [nrq_main_v290 m c, nrq_main_v384 m c, nre_v289_v383 m c]
  all_goals rfl
theorem nre_v291_v385 : nR_main_v291 m c = nR_main_v385 m c := by
  rw [nrq_main_v291 m c, nrq_main_v385 m c, nre_v288_v382 m c, nre_v290_v384 m c]
  all_goals rfl
theorem nre_v292_v386 : nR_main_v292 m c = nR_main_v386 m c := by
  rw [nrq_main_v292 m c, nrq_main_v386 m c, nre_v291_v385 m c]
  all_goals rfl
theorem nre_c_55_c_84 : nR_main_c_55 m c = nR_main_c_84 m c := by
  rw [nrq_main_c_55 m c, nrq_main_c_84 m c]
  all_goals rfl
theorem nre_v287_v396 : nR_main_v287 m c = nR_main_v396 m c := by
  rw [nrq_main_v287 m c, nrq_main_v396 m c, nre_c_55_c_84 m c]
  all_goals rfl
theorem nre_v288_v397 : nR_main_v288 m c = nR_main_v397 m c := by
  rw [nrq_main_v288 m c, nrq_main_v397 m c, nre_v287_v396 m c]
  all_goals rfl
theorem nre_c_56_c_85 : nR_main_c_56 m c = nR_main_c_85 m c := by
  rw [nrq_main_c_56 m c, nrq_main_c_85 m c]
  all_goals rfl
theorem nre_v289_v398 : nR_main_v289 m c = nR_main_v398 m c := by
  rw [nrq_main_v289 m c, nrq_main_v398 m c, nre_c_56_c_85 m c]
  all_goals rfl
theorem nre_v290_v399 : nR_main_v290 m c = nR_main_v399 m c := by
  rw [nrq_main_v290 m c, nrq_main_v399 m c, nre_v289_v398 m c]
  all_goals rfl
theorem nre_v291_v400 : nR_main_v291 m c = nR_main_v400 m c := by
  rw [nrq_main_v291 m c, nrq_main_v400 m c, nre_v288_v397 m c, nre_v290_v399 m c]
  all_goals rfl
theorem nre_v292_v401 : nR_main_v292 m c = nR_main_v401 m c := by
  rw [nrq_main_v292 m c, nrq_main_v401 m c, nre_v291_v400 m c]
  all_goals rfl
theorem nre_cst_call8_cst : nR_main_cst m c = nR_main_call8_cst m c := by
  rw [nrq_main_cst m c, nrq_main_call8_cst m c]
  all_goals rfl
theorem nre_cst_43_cst_83 : nR_main_cst_43 m c = nR_main_cst_83 m c := by
  rw [nrq_main_cst_43 m c, nrq_main_cst_83 m c]
  all_goals rfl
theorem nre_v248_v389 : nR_main_v248 m c = nR_main_v389 m c := by
  rw [nrq_main_v248 m c, nrq_main_v389 m c, nre_cst_43_cst_83 m c]
  all_goals rfl
theorem nre_cst_call9_cst : nR_main_cst m c = nR_main_call9_cst m c := by
  rw [nrq_main_cst m c, nrq_main_call9_cst m c]
  all_goals rfl
theorem nre_cst_43_cst_86 : nR_main_cst_43 m c = nR_main_cst_86 m c := by
  rw [nrq_main_cst_43 m c, nrq_main_cst_86 m c]
  all_goals rfl
theorem nre_v248_v404 : nR_main_v248 m c = nR_main_v404 m c := by
  rw [nrq_main_v248 m c, nrq_main_v404 m c, nre_cst_43_cst_86 m c]
  all_goals rfl
theorem nre_v346_v393 : nR_main_v346 m c = nR_main_v393 m c := by
  rw [nrq_main_v346 m c, nrq_main_v393 m c]
  all_goals rfl
theorem nre_v347_v394 : nR_main_v347 m c = nR_main_v394 m c := by
  rw [nrq_main_v347 m c, nrq_main_v394 m c, nre_v346_v393 m c]
  all_goals rfl
theorem nre_cst_cst_87 : nR_main_cst m c = nR_main_cst_87 m c := by
  rw [nrq_main_cst m c, nrq_main_cst_87 m c]
  all_goals rfl
theorem nre_cst_48_cst_88 : nR_main_cst_48 m c = nR_main_cst_88 m c := by
  rw [nrq_main_cst_48 m c, nrq_main_cst_88 m c]
  all_goals rfl
theorem nre_v269_v410 : nR_main_v269 m c = nR_main_v410 m c := by
  rw [nrq_main_v269 m c, nrq_main_v410 m c, nre_cst_48_cst_88 m c]
  all_goals rfl
theorem nre_cst_51_cst_91 : nR_main_cst_51 m c = nR_main_cst_91 m c := by
  rw [nrq_main_cst_51 m c, nrq_main_cst_91 m c]
  all_goals rfl
theorem nre_v278_v419 : nR_main_v278 m c = nR_main_v419 m c := by
  rw [nrq_main_v278 m c, nrq_main_v419 m c, nre_cst_51_cst_91 m c]
  all_goals rfl
theorem nre_cst_51_cst_92 : nR_main_cst_51 m c = nR_main_cst_92 m c := by
  rw [nrq_main_cst_51 m c, nrq_main_cst_92 m c]
  all_goals rfl
theorem nre_v278_v422 : nR_main_v278 m c = nR_main_v422 m c := by
  rw [nrq_main_v278 m c, nrq_main_v422 m c, nre_cst_51_cst_92 m c]
  all_goals rfl
theorem nre_cst_cst_93 : nR_main_cst m c = nR_main_cst_93 m c := by
  rw [nrq_main_cst m c, nrq_main_cst_93 m c]
  all_goals rfl
theorem nre_cst_cst_94 : nR_main_cst m c = nR_main_cst_94 m c := by
  rw [nrq_main_cst m c, nrq_main_cst_94 m c]
  all_goals rfl
theorem nre_cst_cst_95 : nR_main_cst m c = nR_main_cst_95 m c := by
  rw [nrq_main_cst m c, nrq_main_cst_95 m c]
  all_goals rfl
theorem nre_cst_cst_96 : nR_main_cst m c = nR_main_cst_96 m c := by
  rw [nrq_main_cst m c, nrq_main_cst_96 m c]
  all_goals rfl
theorem nre_cst_cst_97 : nR_main_cst m c = nR_main_cst_97 m c := by
  rw [nrq_main_cst m c, nrq_main_cst_97 m c]
  all_goals rfl

end Cert.ReferenceIdeal.RefRun

end
-- ==== Proof.Br.Br0.lean ====
import proofs.«126270_j6725918785969_1_alg».proof.Proof.Br.Agree
import proofs.«126270_j6725918785969_1_alg».proof.Proof.KI.KN1
import proofs.«126270_j6725918785969_1_alg».proof.Proof.KI.KN2
import proofs.«126270_j6725918785969_1_alg».proof.Proof.KI.KN3
import proofs.«126270_j6725918785969_1_alg».proof.Proof.KI.KN4a
import proofs.«126270_j6725918785969_1_alg».proof.Proof.KI.KN4b
import proofs.«126270_j6725918785969_1_alg».proof.Proof.KI.KN4c
import proofs.«126270_j6725918785969_1_alg».proof.Proof.KI.KN4d
import proofs.«126270_j6725918785969_1_alg».proof.Proof.KI.KN4e
import proofs.«126270_j6725918785969_1_alg».proof.Proof.KI.KN4f
import proofs.«126270_j6725918785969_1_alg».proof.Proof.KI.KN5
import proofs.«126270_j6725918785969_1_alg».proof.Proof.KI.KN6
import proofs.«126270_j6725918785969_1_alg».proof.Proof.KI.KN7
import proofs.«126270_j6725918785969_1_alg».proof.Proof.KI.KN8
import proofs.«126270_j6725918785969_1_alg».proof.Proof.KI.KNReg
import proofs.«126270_j6725918785969_1_alg».proof.Proof.Ref.RNDup

/-!
# Kernel buffers and reference buffers that hold the same value (part 0)

From memories agreeing on the twelve arguments, buffer by buffer in program order: a kernel buffer and the
reference buffer computed by the same operation from corresponding operands hold equal final contents; a kernel
region's output array corresponds to the reference buffer holding the same host-level composite.
-/

set_option maxRecDepth 16384

noncomputable section

namespace Cert.Bridge

open Idealize.ShloMosaic Idealize.ShloMosaic.TcCoe Idealize.ShloMosaic.StableHlo
open Idealize.SL Idealize.SL.Sem
open Cert.KernelIdeal.Fr Cert.ReferenceIdeal.RefRun

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD) (hag : Agree m m')
include hag

theorem br_main_v0 : nK_main_v0 m c = nR_main_v0 m' c := by
  rw [nkq_main_v0 m c, nrq_main_v0 m' c, br_main_arg5 m m' c hag, br_main_arg7 m m' c hag]
  all_goals rfl
theorem br_main_v1 : nK_main_v1 m c = nR_main_v1 m' c := by
  rw [nkq_main_v1 m c, nrq_main_v1 m' c, br_main_arg6 m m' c hag, br_main_arg8 m m' c hag]
  all_goals rfl
theorem br_main_v2 : nK_main_v2 m c = nR_main_v2 m' c := by
  rw [nkq_main_v2 m c, nrq_main_v2 m' c, br_main_arg4 m m' c hag]
  all_goals rfl
theorem br_main_c : nK_main_c m c = nR_main_c m' c := by
  rw [nkq_main_c m c, nrq_main_c m' c]
  all_goals rfl
theorem br_main_v3 : nK_main_v3 m c = nR_main_v3 m' c := by
  rw [nkq_main_v3 m c, nrq_main_v3 m' c, br_main_c m m' c hag]
  all_goals rfl
theorem br_main_v4 : nK_main_v4 m c = nR_main_v4 m' c := by
  rw [nkq_main_v4 m c, nrq_main_v4 m' c, br_main_arg3 m m' c hag, br_main_v3 m m' c hag]
  all_goals rfl
theorem br_main_c_0 : nK_main_c_0 m c = nR_main_c_0 m' c := by
  rw [nkq_main_c_0 m c, nrq_main_c_0 m' c]
  all_goals rfl
theorem br_main_v5 : nK_main_v5 m c = nR_main_v5 m' c := by
  rw [nkq_main_v5 m c, nrq_main_v5 m' c, br_main_c_0 m m' c hag]
  all_goals rfl
theorem br_main_v6 : nK_main_v6 m c = nR_main_v6 m' c := by
  rw [nkq_main_v6 m c, nrq_main_v6 m' c, br_main_arg3 m m' c hag, br_main_v5 m m' c hag]
  all_goals rfl
theorem br_main_v7 : nK_main_v7 m c = nR_main_v7 m' c := by
  rw [nkq_main_v7 m c, nrq_main_v7 m' c, br_main_v4 m m' c hag, br_main_v6 m m' c hag, br_main_arg3 m m' c hag]
  all_goals rfl
theorem br_main_v8 : nK_main_v8 m c = nR_main_v8 m' c := by
  rw [nkq_main_v8 m c, nrq_main_v8 m' c, br_main_v7 m m' c hag]
  all_goals rfl
theorem br_main_v9 : nK_main_v9 m c = nR_main_v9 m' c := by
  rw [nkq_main_v9 m c, nrq_main_v9 m' c, br_main_arg6 m m' c hag, br_main_v8 m m' c hag]
  all_goals rfl
theorem br_main_v10 : nK_main_v10 m c = nR_main_v10 m' c := by
  rw [nkq_main_v10 m c, nrq_main_v10 m' c, br_main_v2 m m' c hag]
  all_goals rfl
theorem br_main_v11 : nK_main_v11 m c = nR_main_v11 m' c := by
  rw [nkq_main_v11 m c, nrq_main_v11 m' c, br_main_v10 m m' c hag, br_main_v9 m m' c hag]
  all_goals rfl
theorem br_main_cst : nK_main_cst m c = nR_main_cst m' c := by
  rw [nkq_main_cst m c, nrq_main_cst m' c]
  all_goals rfl
theorem br_main_v12 : nK_main_v12 m c = nR_main_v12 m' c := by
  rw [nkq_main_v12 m c, nrq_main_v12 m' c, br_main_cst m m' c hag]
  all_goals rfl
theorem br_main_v13 : nK_main_v13 m c = nR_main_v13 m' c := by
  rw [nkq_main_v13 m c, nrq_main_v13 m' c, br_main_arg2 m m' c hag]
  all_goals rfl
theorem br_main_v14 : nK_main_v14 m c = nR_main_v14 m' c := by
  rw [nkq_main_v14 m c, nrq_main_v14 m' c, br_main_v12 m m' c hag, br_main_v13 m m' c hag, br_main_v11 m m' c hag]
  all_goals rfl
theorem br_main_v15 : nK_main_v15 m c = nR_main_v2 m' c := by
  rw [nkq_main_v15 m c, nrq_main_v2 m' c, br_main_arg4 m m' c hag]
  all_goals rfl
theorem br_main_c_1 : nK_main_c_1 m c = nR_main_c m' c := by
  rw [nkq_main_c_1 m c, nrq_main_c m' c]
  all_goals rfl
theorem br_main_v16 : nK_main_v16 m c = nR_main_v3 m' c := by
  rw [nkq_main_v16 m c, nrq_main_v3 m' c, br_main_c_1 m m' c hag]
  all_goals rfl
theorem br_main_v17 : nK_main_v17 m c = nR_main_v20 m' c := by
  rw [nkq_main_v17 m c, nrq_main_v20 m' c, br_main_arg2 m m' c hag, br_main_v16 m m' c hag, nre_v3_v19 m' c]
  all_goals rfl
theorem br_main_c_2 : nK_main_c_2 m c = nR_main_c_3 m' c := by
  rw [nkq_main_c_2 m c, nrq_main_c_3 m' c]
  all_goals rfl
theorem br_main_v18 : nK_main_v18 m c = nR_main_v21 m' c := by
  rw [nkq_main_v18 m c, nrq_main_v21 m' c, br_main_c_2 m m' c hag]
  all_goals rfl
theorem br_main_v19 : nK_main_v19 m c = nR_main_v22 m' c := by
  rw [nkq_main_v19 m c, nrq_main_v22 m' c, br_main_arg2 m m' c hag, br_main_v18 m m' c hag]
  all_goals rfl
theorem br_main_v20 : nK_main_v20 m c = nR_main_v23 m' c := by
  rw [nkq_main_v20 m c, nrq_main_v23 m' c, br_main_v17 m m' c hag, br_main_v19 m m' c hag, br_main_arg2 m m' c hag]
  all_goals rfl
theorem br_main_v21 : nK_main_v21 m c = nR_main_v24 m' c := by
  rw [nkq_main_v21 m c, nrq_main_v24 m' c, br_main_v20 m m' c hag]
  all_goals rfl
theorem br_main_v22 : nK_main_v22 m c = nR_main_v25 m' c := by
  rw [nkq_main_v22 m c, nrq_main_v25 m' c, br_main_arg5 m m' c hag, br_main_v21 m m' c hag]
  all_goals rfl
theorem br_main_v23 : nK_main_v23 m c = nR_main_v10 m' c := by
  rw [nkq_main_v23 m c, nrq_main_v10 m' c, br_main_v15 m m' c hag]
  all_goals rfl
theorem br_main_v24 : nK_main_v24 m c = nR_main_v27 m' c := by
  rw [nkq_main_v24 m c, nrq_main_v27 m' c, br_main_v23 m m' c hag, br_main_v22 m m' c hag, nre_v10_v26 m' c]
  all_goals rfl
theorem br_main_cst_3 : nK_main_cst_3 m c = nR_main_cst m' c := by
  rw [nkq_main_cst_3 m c, nrq_main_cst m' c]
  all_goals rfl
theorem br_main_v25 : nK_main_v25 m c = nR_main_v28 m' c := by
  rw [nkq_main_v25 m c, nrq_main_v28 m' c, br_main_cst_3 m m' c hag, nre_cst_cst_4 m' c]
  all_goals rfl
theorem br_main_v26 : nK_main_v26 m c = nR_main_v29 m' c := by
  rw [nkq_main_v26 m c, nrq_main_v29 m' c, br_main_arg3 m m' c hag]
  all_goals rfl
theorem br_main_v27 : nK_main_v27 m c = nR_main_v30 m' c := by
  rw [nkq_main_v27 m c, nrq_main_v30 m' c, br_main_v25 m m' c hag, br_main_v26 m m' c hag, br_main_v24 m m' c hag]
  all_goals rfl
theorem br_main_v28 : nK_main_v28 m c = nR_main_v17 m' c := by
  rw [nkq_main_v28 m c, nrq_main_v17 m' c, nrq_main_v16 m' c, nrq_main_v15 m' c, nrq_main_cst_1 m' c, br_main_v14 m m' c hag]
  all_goals rfl
theorem br_main_v29 : nK_main_v29 m c = nR_main_v33 m' c := by
  rw [nkq_main_v29 m c, nrq_main_v33 m' c, nrq_main_v32 m' c, nrq_main_v31 m' c, nrq_main_cst_5 m' c, br_main_v27 m m' c hag]
  all_goals rfl
theorem br_main_v30 : nK_main_v30 m c = nR_main_v34 m' c := by
  rw [nkq_main_v30 m c, nrq_main_v34 m' c, br_main_arg9 m m' c hag]
  all_goals rfl
theorem br_main_v31 : nK_main_v31 m c = nR_main_v35 m' c := by
  rw [nkq_main_v31 m c, nrq_main_v35 m' c, br_main_v30 m m' c hag]
  all_goals rfl
theorem br_main_v32 : nK_main_v32 m c = nR_main_v40 m' c := by
  rw [nkq_main_v32 m c, nrq_main_v40 m' c, nrq_main_v39 m' c, nrq_main_v38 m' c, nrq_main_cst_6 m' c, nrq_main_v37 m' c, nrq_main_v36 m' c, br_main_v0 m m' c hag, br_main_arg5 m m' c hag]
  all_goals rfl
theorem br_main_v33 : nK_main_v33 m c = nR_main_v41 m' c := by
  rw [nkq_main_v33 m c, nrq_main_v41 m' c, br_main_v31 m m' c hag]
  all_goals rfl
theorem br_main_v34 : nK_main_v34 m c = nR_main_v42 m' c := by
  rw [nkq_main_v34 m c, nrq_main_v42 m' c, br_main_v33 m m' c hag]
  all_goals rfl
theorem br_main_v35 : nK_main_v35 m c = nR_main_v43 m' c := by
  rw [nkq_main_v35 m c, nrq_main_v43 m' c, br_main_v34 m m' c hag]
  all_goals rfl
theorem br_main_v36 : nK_main_v36 m c = nR_main_v44 m' c := by
  rw [nkq_main_v36 m c, nrq_main_v44 m' c, br_main_v35 m m' c hag, br_main_v32 m m' c hag]
  all_goals rfl
theorem br_main_cst_4 : nK_main_cst_4 m c = nR_main_cst_1 m' c := by
  rw [nkq_main_cst_4 m c, nrq_main_cst_1 m' c]
  all_goals rfl
theorem br_main_v37 : nK_main_v37 m c = nR_main_v38 m' c := by
  rw [nkq_main_v37 m c, nrq_main_v38 m' c, br_main_cst_4 m m' c hag, nre_cst_1_cst_6 m' c]
  all_goals rfl
theorem br_main_v38 : nK_main_v38 m c = nR_main_v46 m' c := by
  rw [nkq_main_v38 m c, nrq_main_v46 m' c, br_main_v37 m m' c hag, br_main_v36 m m' c hag, nre_v38_v45 m' c]
  all_goals rfl
theorem br_main_v39 : nK_main_v39 m c = nR_main_v47 m' c := by
  rw [nkq_main_v39 m c, nrq_main_v47 m' c, br_main_v38 m m' c hag, br_main_v36 m m' c hag]
  all_goals rfl
theorem br_main_v40 : nK_main_v40 m c = nR_main_v48 m' c := by
  rw [nkq_main_v40 m c, nrq_main_v48 m' c, br_main_v39 m m' c hag, br_main_v32 m m' c hag]
  all_goals rfl
theorem br_main_v41 : nK_main_v41 m c = nR_main_v49 m' c := by
  rw [nkq_main_v41 m c, nrq_main_v49 m' c, br_main_v31 m m' c hag]
  all_goals rfl
theorem br_main_v42 : nK_main_v42 m c = nR_main_v50 m' c := by
  rw [nkq_main_v42 m c, nrq_main_v50 m' c, br_main_v41 m m' c hag]
  all_goals rfl
theorem br_main_v43 : nK_main_v43 m c = nR_main_v51 m' c := by
  rw [nkq_main_v43 m c, nrq_main_v51 m' c, br_main_v42 m m' c hag]
  all_goals rfl
theorem br_main_v44 : nK_main_v44 m c = nR_main_v52 m' c := by
  rw [nkq_main_v44 m c, nrq_main_v52 m' c, br_main_v43 m m' c hag, br_main_v40 m m' c hag]
  all_goals rfl
theorem br_main_cst_5 : nK_main_cst_5 m c = nR_main_cst_1 m' c := by
  rw [nkq_main_cst_5 m c, nrq_main_cst_1 m' c]
  all_goals rfl
theorem br_main_v45 : nK_main_v45 m c = nR_main_v38 m' c := by
  rw [nkq_main_v45 m c, nrq_main_v38 m' c, br_main_cst_5 m m' c hag, nre_cst_1_cst_6 m' c]
  all_goals rfl
theorem br_main_v46 : nK_main_v46 m c = nR_main_v54 m' c := by
  rw [nkq_main_v46 m c, nrq_main_v54 m' c, br_main_v45 m m' c hag, br_main_v44 m m' c hag, nre_v38_v53 m' c]
  all_goals rfl
theorem br_main_v47 : nK_main_v47 m c = nR_main_v55 m' c := by
  rw [nkq_main_v47 m c, nrq_main_v55 m' c, br_main_v46 m m' c hag, br_main_v44 m m' c hag]
  all_goals rfl
theorem br_main_v48 : nK_main_v48 m c = nR_main_v56 m' c := by
  rw [nkq_main_v48 m c, nrq_main_v56 m' c, br_main_v47 m m' c hag, br_main_v40 m m' c hag]
  all_goals rfl
theorem br_main_v49 : nK_main_v49 m c = nR_main_v57 m' c := by
  rw [nkq_main_v49 m c, nrq_main_v57 m' c, br_main_v31 m m' c hag]
  all_goals rfl
theorem br_main_v50 : nK_main_v50 m c = nR_main_v58 m' c := by
  rw [nkq_main_v50 m c, nrq_main_v58 m' c, br_main_v49 m m' c hag]
  all_goals rfl
theorem br_main_v51 : nK_main_v51 m c = nR_main_v59 m' c := by
  rw [nkq_main_v51 m c, nrq_main_v59 m' c, br_main_v50 m m' c hag]
  all_goals rfl
theorem br_main_v52 : nK_main_v52 m c = nR_main_v60 m' c := by
  rw [nkq_main_v52 m c, nrq_main_v60 m' c, br_main_v51 m m' c hag, br_main_v48 m m' c hag]
  all_goals rfl
theorem br_main_cst_6 : nK_main_cst_6 m c = nR_main_cst_1 m' c := by
  rw [nkq_main_cst_6 m c, nrq_main_cst_1 m' c]
  all_goals rfl
theorem br_main_v53 : nK_main_v53 m c = nR_main_v38 m' c := by
  rw [nkq_main_v53 m c, nrq_main_v38 m' c, br_main_cst_6 m m' c hag, nre_cst_1_cst_6 m' c]
  all_goals rfl
theorem br_main_v54 : nK_main_v54 m c = nR_main_v62 m' c := by
  rw [nkq_main_v54 m c, nrq_main_v62 m' c, br_main_v53 m m' c hag, br_main_v52 m m' c hag, nre_v38_v61 m' c]
  all_goals rfl
theorem br_main_v55 : nK_main_v55 m c = nR_main_v63 m' c := by
  rw [nkq_main_v55 m c, nrq_main_v63 m' c, br_main_v54 m m' c hag, br_main_v52 m m' c hag]
  all_goals rfl
theorem br_main_v56 : nK_main_v56 m c = nR_main_v64 m' c := by
  rw [nkq_main_v56 m c, nrq_main_v64 m' c, br_main_v55 m m' c hag, br_main_v48 m m' c hag]
  all_goals rfl
theorem br_main_v57 : nK_main_v57 m c = nR_main_v68 m' c := by
  rw [nkq_main_v57 m c, nrq_main_v68 m' c, nrq_main_v67 m' c, nrq_main_v66 m' c, nrq_main_cst_10 m' c, nrq_main_v65 m' c, br_main_v0 m m' c hag, br_main_v56 m m' c hag]
  all_goals rfl
theorem br_main_v58 : nK_main_v58 m c = nR_main_v69 m' c := by
  rw [nkq_main_v58 m c, nrq_main_v69 m' c, br_main_arg10 m m' c hag]
  all_goals rfl
theorem br_main_v59 : nK_main_v59 m c = nR_main_v70 m' c := by
  rw [nkq_main_v59 m c, nrq_main_v70 m' c, br_main_v58 m m' c hag]
  all_goals rfl
theorem br_main_v60 : nK_main_v60 m c = nR_main_v75 m' c := by
  rw [nkq_main_v60 m c, nrq_main_v75 m' c, nrq_main_v74 m' c, nrq_main_v73 m' c, nrq_main_cst_11 m' c, nrq_main_v72 m' c, nrq_main_v71 m' c, br_main_v1 m m' c hag, br_main_arg6 m m' c hag]
  all_goals rfl
theorem br_main_v61 : nK_main_v61 m c = nR_main_v76 m' c := by
  rw [nkq_main_v61 m c, nrq_main_v76 m' c, br_main_v59 m m' c hag]
  all_goals rfl
theorem br_main_v62 : nK_main_v62 m c = nR_main_v77 m' c := by
  rw [nkq_main_v62 m c, nrq_main_v77 m' c, br_main_v61 m m' c hag]
  all_goals rfl
theorem br_main_v63 : nK_main_v63 m c = nR_main_v78 m' c := by
  rw [nkq_main_v63 m c, nrq_main_v78 m' c, br_main_v62 m m' c hag]
  all_goals rfl
theorem br_main_v64 : nK_main_v64 m c = nR_main_v79 m' c := by
  rw [nkq_main_v64 m c, nrq_main_v79 m' c, br_main_v63 m m' c hag, br_main_v60 m m' c hag]
  all_goals rfl
theorem br_main_cst_7 : nK_main_cst_7 m c = nR_main_cst_1 m' c := by
  rw [nkq_main_cst_7 m c, nrq_main_cst_1 m' c]
  all_goals rfl
theorem br_main_v65 : nK_main_v65 m c = nR_main_v38 m' c := by
  rw [nkq_main_v65 m c, nrq_main_v38 m' c, br_main_cst_7 m m' c hag, nre_cst_1_cst_6 m' c]
  all_goals rfl
theorem br_main_v66 : nK_main_v66 m c = nR_main_v81 m' c := by
  rw [nkq_main_v66 m c, nrq_main_v81 m' c, br_main_v65 m m' c hag, br_main_v64 m m' c hag, nre_v38_v80 m' c]
  all_goals rfl
theorem br_main_v67 : nK_main_v67 m c = nR_main_v82 m' c := by
  rw [nkq_main_v67 m c, nrq_main_v82 m' c, br_main_v66 m m' c hag, br_main_v64 m m' c hag]
  all_goals rfl
theorem br_main_v68 : nK_main_v68 m c = nR_main_v83 m' c := by
  rw [nkq_main_v68 m c, nrq_main_v83 m' c, br_main_v67 m m' c hag, br_main_v60 m m' c hag]
  all_goals rfl
theorem br_main_v69 : nK_main_v69 m c = nR_main_v84 m' c := by
  rw [nkq_main_v69 m c, nrq_main_v84 m' c, br_main_v59 m m' c hag]
  all_goals rfl
theorem br_main_v70 : nK_main_v70 m c = nR_main_v85 m' c := by
  rw [nkq_main_v70 m c, nrq_main_v85 m' c, br_main_v69 m m' c hag]
  all_goals rfl
theorem br_main_v71 : nK_main_v71 m c = nR_main_v86 m' c := by
  rw [nkq_main_v71 m c, nrq_main_v86 m' c, br_main_v70 m m' c hag]
  all_goals rfl
theorem br_main_v72 : nK_main_v72 m c = nR_main_v87 m' c := by
  rw [nkq_main_v72 m c, nrq_main_v87 m' c, br_main_v71 m m' c hag, br_main_v68 m m' c hag]
  all_goals rfl
theorem br_main_cst_8 : nK_main_cst_8 m c = nR_main_cst_1 m' c := by
  rw [nkq_main_cst_8 m c, nrq_main_cst_1 m' c]
  all_goals rfl
theorem br_main_v73 : nK_main_v73 m c = nR_main_v38 m' c := by
  rw [nkq_main_v73 m c, nrq_main_v38 m' c, br_main_cst_8 m m' c hag, nre_cst_1_cst_6 m' c]
  all_goals rfl

end Cert.Bridge

end
-- ==== Proof.Br.Br1.lean ====
import proofs.«126270_j6725918785969_1_alg».proof.Proof.Br.Br0

/-!
# Kernel buffers and reference buffers that hold the same value (part 1)

From memories agreeing on the twelve arguments, buffer by buffer in program order: a kernel buffer and the
reference buffer computed by the same operation from corresponding operands hold equal final contents; a kernel
region's output array corresponds to the reference buffer holding the same host-level composite.
-/

set_option maxRecDepth 16384

noncomputable section

namespace Cert.Bridge

open Idealize.ShloMosaic Idealize.ShloMosaic.TcCoe Idealize.ShloMosaic.StableHlo
open Idealize.SL Idealize.SL.Sem
open Cert.KernelIdeal.Fr Cert.ReferenceIdeal.RefRun

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD) (hag : Agree m m')
include hag

theorem br_main_v74 : nK_main_v74 m c = nR_main_v89 m' c := by
  rw [nkq_main_v74 m c, nrq_main_v89 m' c, br_main_v73 m m' c hag, br_main_v72 m m' c hag, nre_v38_v88 m' c]
  all_goals rfl
theorem br_main_v75 : nK_main_v75 m c = nR_main_v90 m' c := by
  rw [nkq_main_v75 m c, nrq_main_v90 m' c, br_main_v74 m m' c hag, br_main_v72 m m' c hag]
  all_goals rfl
theorem br_main_v76 : nK_main_v76 m c = nR_main_v91 m' c := by
  rw [nkq_main_v76 m c, nrq_main_v91 m' c, br_main_v75 m m' c hag, br_main_v68 m m' c hag]
  all_goals rfl
theorem br_main_v77 : nK_main_v77 m c = nR_main_v92 m' c := by
  rw [nkq_main_v77 m c, nrq_main_v92 m' c, br_main_v59 m m' c hag]
  all_goals rfl
theorem br_main_v78 : nK_main_v78 m c = nR_main_v93 m' c := by
  rw [nkq_main_v78 m c, nrq_main_v93 m' c, br_main_v77 m m' c hag]
  all_goals rfl
theorem br_main_v79 : nK_main_v79 m c = nR_main_v94 m' c := by
  rw [nkq_main_v79 m c, nrq_main_v94 m' c, br_main_v78 m m' c hag]
  all_goals rfl
theorem br_main_v80 : nK_main_v80 m c = nR_main_v95 m' c := by
  rw [nkq_main_v80 m c, nrq_main_v95 m' c, br_main_v79 m m' c hag, br_main_v76 m m' c hag]
  all_goals rfl
theorem br_main_cst_9 : nK_main_cst_9 m c = nR_main_cst_1 m' c := by
  rw [nkq_main_cst_9 m c, nrq_main_cst_1 m' c]
  all_goals rfl
theorem br_main_v81 : nK_main_v81 m c = nR_main_v38 m' c := by
  rw [nkq_main_v81 m c, nrq_main_v38 m' c, br_main_cst_9 m m' c hag, nre_cst_1_cst_6 m' c]
  all_goals rfl
theorem br_main_v82 : nK_main_v82 m c = nR_main_v97 m' c := by
  rw [nkq_main_v82 m c, nrq_main_v97 m' c, br_main_v81 m m' c hag, br_main_v80 m m' c hag, nre_v38_v96 m' c]
  all_goals rfl
theorem br_main_v83 : nK_main_v83 m c = nR_main_v98 m' c := by
  rw [nkq_main_v83 m c, nrq_main_v98 m' c, br_main_v82 m m' c hag, br_main_v80 m m' c hag]
  all_goals rfl
theorem br_main_v84 : nK_main_v84 m c = nR_main_v99 m' c := by
  rw [nkq_main_v84 m c, nrq_main_v99 m' c, br_main_v83 m m' c hag, br_main_v76 m m' c hag]
  all_goals rfl
theorem br_main_v85 : nK_main_v85 m c = nR_main_v103 m' c := by
  rw [nkq_main_v85 m c, nrq_main_v103 m' c, nrq_main_v102 m' c, nrq_main_v101 m' c, nrq_main_cst_15 m' c, nrq_main_v100 m' c, br_main_v1 m m' c hag, br_main_v84 m m' c hag]
  all_goals rfl
theorem br_main_v86 : nK_main_v86 m c = nR_main_v104 m' c := by
  rw [nkq_main_v86 m c, nrq_main_v104 m' c, br_main_v28 m m' c hag, br_main_v57 m m' c hag]
  all_goals rfl
theorem br_main_v87 : nK_main_v87 m c = nR_main_v105 m' c := by
  rw [nkq_main_v87 m c, nrq_main_v105 m' c, br_main_v86 m m' c hag, br_main_arg5 m m' c hag]
  all_goals rfl
theorem br_main_v88 : nK_main_v88 m c = nR_main_v106 m' c := by
  rw [nkq_main_v88 m c, nrq_main_v106 m' c, br_main_v29 m m' c hag, br_main_v85 m m' c hag]
  all_goals rfl
theorem br_main_v89 : nK_main_v89 m c = nR_main_v107 m' c := by
  rw [nkq_main_v89 m c, nrq_main_v107 m' c, br_main_v88 m m' c hag, br_main_arg6 m m' c hag]
  all_goals rfl
theorem br_main_v90 : nK_main_v90 m c = nR_main_v2 m' c := by
  rw [nkq_main_v90 m c, nrq_main_v2 m' c, br_main_arg4 m m' c hag]
  all_goals rfl
theorem br_main_c_10 : nK_main_c_10 m c = nR_main_c m' c := by
  rw [nkq_main_c_10 m c, nrq_main_c m' c]
  all_goals rfl
theorem br_main_v91 : nK_main_v91 m c = nR_main_v3 m' c := by
  rw [nkq_main_v91 m c, nrq_main_v3 m' c, br_main_c_10 m m' c hag]
  all_goals rfl
theorem br_main_v92 : nK_main_v92 m c = nR_main_v4 m' c := by
  rw [nkq_main_v92 m c, nrq_main_v4 m' c, br_main_arg3 m m' c hag, br_main_v91 m m' c hag]
  all_goals rfl
theorem br_main_c_11 : nK_main_c_11 m c = nR_main_c_0 m' c := by
  rw [nkq_main_c_11 m c, nrq_main_c_0 m' c]
  all_goals rfl
theorem br_main_v93 : nK_main_v93 m c = nR_main_v5 m' c := by
  rw [nkq_main_v93 m c, nrq_main_v5 m' c, br_main_c_11 m m' c hag]
  all_goals rfl
theorem br_main_v94 : nK_main_v94 m c = nR_main_v6 m' c := by
  rw [nkq_main_v94 m c, nrq_main_v6 m' c, br_main_arg3 m m' c hag, br_main_v93 m m' c hag]
  all_goals rfl
theorem br_main_v95 : nK_main_v95 m c = nR_main_v7 m' c := by
  rw [nkq_main_v95 m c, nrq_main_v7 m' c, br_main_v92 m m' c hag, br_main_v94 m m' c hag, br_main_arg3 m m' c hag]
  all_goals rfl
theorem br_main_v96 : nK_main_v96 m c = nR_main_v8 m' c := by
  rw [nkq_main_v96 m c, nrq_main_v8 m' c, br_main_v95 m m' c hag]
  all_goals rfl
theorem br_main_v97 : nK_main_v97 m c = nR_main_v115 m' c := by
  rw [nkq_main_v97 m c, nrq_main_v115 m' c, br_main_v89 m m' c hag, br_main_v96 m m' c hag, nre_v8_v114 m' c]
  all_goals rfl
theorem br_main_v98 : nK_main_v98 m c = nR_main_v10 m' c := by
  rw [nkq_main_v98 m c, nrq_main_v10 m' c, br_main_v90 m m' c hag]
  all_goals rfl
theorem br_main_v99 : nK_main_v99 m c = nR_main_v117 m' c := by
  rw [nkq_main_v99 m c, nrq_main_v117 m' c, br_main_v98 m m' c hag, br_main_v97 m m' c hag, nre_v10_v116 m' c]
  all_goals rfl
theorem br_main_cst_12 : nK_main_cst_12 m c = nR_main_cst m' c := by
  rw [nkq_main_cst_12 m c, nrq_main_cst m' c]
  all_goals rfl
theorem br_main_v100 : nK_main_v100 m c = nR_main_v12 m' c := by
  rw [nkq_main_v100 m c, nrq_main_v12 m' c, br_main_cst_12 m m' c hag]
  all_goals rfl
theorem br_main_v101 : nK_main_v101 m c = nR_main_v13 m' c := by
  rw [nkq_main_v101 m c, nrq_main_v13 m' c, br_main_arg2 m m' c hag]
  all_goals rfl
theorem br_main_v102 : nK_main_v102 m c = nR_main_v120 m' c := by
  rw [nkq_main_v102 m c, nrq_main_v120 m' c, br_main_v100 m m' c hag, br_main_v101 m m' c hag, br_main_v99 m m' c hag, nre_v12_v118 m' c, nre_v13_v119 m' c]
  all_goals rfl
theorem br_main_v103 : nK_main_v103 m c = nR_main_v2 m' c := by
  rw [nkq_main_v103 m c, nrq_main_v2 m' c, br_main_arg4 m m' c hag]
  all_goals rfl
theorem br_main_c_13 : nK_main_c_13 m c = nR_main_c m' c := by
  rw [nkq_main_c_13 m c, nrq_main_c m' c]
  all_goals rfl
theorem br_main_v104 : nK_main_v104 m c = nR_main_v3 m' c := by
  rw [nkq_main_v104 m c, nrq_main_v3 m' c, br_main_c_13 m m' c hag]
  all_goals rfl
theorem br_main_v105 : nK_main_v105 m c = nR_main_v20 m' c := by
  rw [nkq_main_v105 m c, nrq_main_v20 m' c, br_main_arg2 m m' c hag, br_main_v104 m m' c hag, nre_v3_v19 m' c]
  all_goals rfl
theorem br_main_c_14 : nK_main_c_14 m c = nR_main_c_3 m' c := by
  rw [nkq_main_c_14 m c, nrq_main_c_3 m' c]
  all_goals rfl
theorem br_main_v106 : nK_main_v106 m c = nR_main_v21 m' c := by
  rw [nkq_main_v106 m c, nrq_main_v21 m' c, br_main_c_14 m m' c hag]
  all_goals rfl
theorem br_main_v107 : nK_main_v107 m c = nR_main_v22 m' c := by
  rw [nkq_main_v107 m c, nrq_main_v22 m' c, br_main_arg2 m m' c hag, br_main_v106 m m' c hag]
  all_goals rfl
theorem br_main_v108 : nK_main_v108 m c = nR_main_v23 m' c := by
  rw [nkq_main_v108 m c, nrq_main_v23 m' c, br_main_v105 m m' c hag, br_main_v107 m m' c hag, br_main_arg2 m m' c hag]
  all_goals rfl
theorem br_main_v109 : nK_main_v109 m c = nR_main_v24 m' c := by
  rw [nkq_main_v109 m c, nrq_main_v24 m' c, br_main_v108 m m' c hag]
  all_goals rfl
theorem br_main_v110 : nK_main_v110 m c = nR_main_v131 m' c := by
  rw [nkq_main_v110 m c, nrq_main_v131 m' c, br_main_v87 m m' c hag, br_main_v109 m m' c hag, nre_v24_v130 m' c]
  all_goals rfl
theorem br_main_v111 : nK_main_v111 m c = nR_main_v10 m' c := by
  rw [nkq_main_v111 m c, nrq_main_v10 m' c, br_main_v103 m m' c hag]
  all_goals rfl
theorem br_main_v112 : nK_main_v112 m c = nR_main_v133 m' c := by
  rw [nkq_main_v112 m c, nrq_main_v133 m' c, br_main_v111 m m' c hag, br_main_v110 m m' c hag, nre_v10_v132 m' c]
  all_goals rfl
theorem br_main_cst_15 : nK_main_cst_15 m c = nR_main_cst m' c := by
  rw [nkq_main_cst_15 m c, nrq_main_cst m' c]
  all_goals rfl
theorem br_main_v113 : nK_main_v113 m c = nR_main_v28 m' c := by
  rw [nkq_main_v113 m c, nrq_main_v28 m' c, br_main_cst_15 m m' c hag, nre_cst_cst_4 m' c]
  all_goals rfl
theorem br_main_v114 : nK_main_v114 m c = nR_main_v29 m' c := by
  rw [nkq_main_v114 m c, nrq_main_v29 m' c, br_main_arg3 m m' c hag]
  all_goals rfl
theorem br_main_v115 : nK_main_v115 m c = nR_main_v136 m' c := by
  rw [nkq_main_v115 m c, nrq_main_v136 m' c, br_main_v113 m m' c hag, br_main_v114 m m' c hag, br_main_v112 m m' c hag, nre_v28_v134 m' c, nre_v29_v135 m' c]
  all_goals rfl
theorem br_main_v116 : nK_main_v116 m c = nR_main_v123 m' c := by
  rw [nkq_main_v116 m c, nrq_main_v123 m' c, nrq_main_v122 m' c, nrq_main_v121 m' c, nrq_main_cst_19 m' c, br_main_v102 m m' c hag]
  all_goals rfl
theorem br_main_v117 : nK_main_v117 m c = nR_main_v139 m' c := by
  rw [nkq_main_v117 m c, nrq_main_v139 m' c, nrq_main_v138 m' c, nrq_main_v137 m' c, nrq_main_cst_23 m' c, br_main_v115 m m' c hag]
  all_goals rfl
theorem br_main_v118 : nK_main_v118 m c = nR_main_v140 m' c := by
  rw [nkq_main_v118 m c, nrq_main_v140 m' c, br_main_arg9 m m' c hag]
  all_goals rfl
theorem br_main_v119 : nK_main_v119 m c = nR_main_v141 m' c := by
  rw [nkq_main_v119 m c, nrq_main_v141 m' c, br_main_v118 m m' c hag]
  all_goals rfl
theorem br_main_v120 : nK_main_v120 m c = nR_main_v146 m' c := by
  rw [nkq_main_v120 m c, nrq_main_v146 m' c, nrq_main_v145 m' c, nrq_main_v144 m' c, nrq_main_cst_24 m' c, nrq_main_v143 m' c, nrq_main_v142 m' c, br_main_v0 m m' c hag, br_main_v87 m m' c hag]
  all_goals rfl
theorem br_main_v121 : nK_main_v121 m c = nR_main_v147 m' c := by
  rw [nkq_main_v121 m c, nrq_main_v147 m' c, br_main_v119 m m' c hag]
  all_goals rfl
theorem br_main_v122 : nK_main_v122 m c = nR_main_v148 m' c := by
  rw [nkq_main_v122 m c, nrq_main_v148 m' c, br_main_v121 m m' c hag]
  all_goals rfl
theorem br_main_v123 : nK_main_v123 m c = nR_main_v149 m' c := by
  rw [nkq_main_v123 m c, nrq_main_v149 m' c, br_main_v122 m m' c hag]
  all_goals rfl
theorem br_main_v124 : nK_main_v124 m c = nR_main_v150 m' c := by
  rw [nkq_main_v124 m c, nrq_main_v150 m' c, br_main_v123 m m' c hag, br_main_v120 m m' c hag]
  all_goals rfl
theorem br_main_cst_16 : nK_main_cst_16 m c = nR_main_cst_1 m' c := by
  rw [nkq_main_cst_16 m c, nrq_main_cst_1 m' c]
  all_goals rfl
theorem br_main_v125 : nK_main_v125 m c = nR_main_v38 m' c := by
  rw [nkq_main_v125 m c, nrq_main_v38 m' c, br_main_cst_16 m m' c hag, nre_cst_1_cst_6 m' c]
  all_goals rfl
theorem br_main_v126 : nK_main_v126 m c = nR_main_v152 m' c := by
  rw [nkq_main_v126 m c, nrq_main_v152 m' c, br_main_v125 m m' c hag, br_main_v124 m m' c hag, nre_v38_v151 m' c]
  all_goals rfl
theorem br_main_v127 : nK_main_v127 m c = nR_main_v153 m' c := by
  rw [nkq_main_v127 m c, nrq_main_v153 m' c, br_main_v126 m m' c hag, br_main_v124 m m' c hag]
  all_goals rfl
theorem br_main_v128 : nK_main_v128 m c = nR_main_v154 m' c := by
  rw [nkq_main_v128 m c, nrq_main_v154 m' c, br_main_v127 m m' c hag, br_main_v120 m m' c hag]
  all_goals rfl
theorem br_main_v129 : nK_main_v129 m c = nR_main_v155 m' c := by
  rw [nkq_main_v129 m c, nrq_main_v155 m' c, br_main_v119 m m' c hag]
  all_goals rfl
theorem br_main_v130 : nK_main_v130 m c = nR_main_v156 m' c := by
  rw [nkq_main_v130 m c, nrq_main_v156 m' c, br_main_v129 m m' c hag]
  all_goals rfl
theorem br_main_v131 : nK_main_v131 m c = nR_main_v157 m' c := by
  rw [nkq_main_v131 m c, nrq_main_v157 m' c, br_main_v130 m m' c hag]
  all_goals rfl
theorem br_main_v132 : nK_main_v132 m c = nR_main_v158 m' c := by
  rw [nkq_main_v132 m c, nrq_main_v158 m' c, br_main_v131 m m' c hag, br_main_v128 m m' c hag]
  all_goals rfl
theorem br_main_cst_17 : nK_main_cst_17 m c = nR_main_cst_1 m' c := by
  rw [nkq_main_cst_17 m c, nrq_main_cst_1 m' c]
  all_goals rfl
theorem br_main_v133 : nK_main_v133 m c = nR_main_v38 m' c := by
  rw [nkq_main_v133 m c, nrq_main_v38 m' c, br_main_cst_17 m m' c hag, nre_cst_1_cst_6 m' c]
  all_goals rfl
theorem br_main_v134 : nK_main_v134 m c = nR_main_v160 m' c := by
  rw [nkq_main_v134 m c, nrq_main_v160 m' c, br_main_v133 m m' c hag, br_main_v132 m m' c hag, nre_v38_v159 m' c]
  all_goals rfl
theorem br_main_v135 : nK_main_v135 m c = nR_main_v161 m' c := by
  rw [nkq_main_v135 m c, nrq_main_v161 m' c, br_main_v134 m m' c hag, br_main_v132 m m' c hag]
  all_goals rfl
theorem br_main_v136 : nK_main_v136 m c = nR_main_v162 m' c := by
  rw [nkq_main_v136 m c, nrq_main_v162 m' c, br_main_v135 m m' c hag, br_main_v128 m m' c hag]
  all_goals rfl
theorem br_main_v137 : nK_main_v137 m c = nR_main_v163 m' c := by
  rw [nkq_main_v137 m c, nrq_main_v163 m' c, br_main_v119 m m' c hag]
  all_goals rfl
theorem br_main_v138 : nK_main_v138 m c = nR_main_v164 m' c := by
  rw [nkq_main_v138 m c, nrq_main_v164 m' c, br_main_v137 m m' c hag]
  all_goals rfl
theorem br_main_v139 : nK_main_v139 m c = nR_main_v165 m' c := by
  rw [nkq_main_v139 m c, nrq_main_v165 m' c, br_main_v138 m m' c hag]
  all_goals rfl
theorem br_main_v140 : nK_main_v140 m c = nR_main_v166 m' c := by
  rw [nkq_main_v140 m c, nrq_main_v166 m' c, br_main_v139 m m' c hag, br_main_v136 m m' c hag]
  all_goals rfl
theorem br_main_cst_18 : nK_main_cst_18 m c = nR_main_cst_1 m' c := by
  rw [nkq_main_cst_18 m c, nrq_main_cst_1 m' c]
  all_goals rfl
theorem br_main_v141 : nK_main_v141 m c = nR_main_v38 m' c := by
  rw [nkq_main_v141 m c, nrq_main_v38 m' c, br_main_cst_18 m m' c hag, nre_cst_1_cst_6 m' c]
  all_goals rfl
theorem br_main_v142 : nK_main_v142 m c = nR_main_v168 m' c := by
  rw [nkq_main_v142 m c, nrq_main_v168 m' c, br_main_v141 m m' c hag, br_main_v140 m m' c hag, nre_v38_v167 m' c]
  all_goals rfl
theorem br_main_v143 : nK_main_v143 m c = nR_main_v169 m' c := by
  rw [nkq_main_v143 m c, nrq_main_v169 m' c, br_main_v142 m m' c hag, br_main_v140 m m' c hag]
  all_goals rfl
theorem br_main_v144 : nK_main_v144 m c = nR_main_v170 m' c := by
  rw [nkq_main_v144 m c, nrq_main_v170 m' c, br_main_v143 m m' c hag, br_main_v136 m m' c hag]
  all_goals rfl
theorem br_main_v145 : nK_main_v145 m c = nR_main_v174 m' c := by
  rw [nkq_main_v145 m c, nrq_main_v174 m' c, nrq_main_v173 m' c, nrq_main_v172 m' c, nrq_main_cst_28 m' c, nrq_main_v171 m' c, br_main_v0 m m' c hag, br_main_v144 m m' c hag]
  all_goals rfl
theorem br_main_v146 : nK_main_v146 m c = nR_main_v175 m' c := by
  rw [nkq_main_v146 m c, nrq_main_v175 m' c, br_main_arg10 m m' c hag]
  all_goals rfl
theorem br_main_v147 : nK_main_v147 m c = nR_main_v176 m' c := by
  rw [nkq_main_v147 m c, nrq_main_v176 m' c, br_main_v146 m m' c hag]
  all_goals rfl
theorem br_main_v148 : nK_main_v148 m c = nR_main_v181 m' c := by
  rw [nkq_main_v148 m c, nrq_main_v181 m' c, nrq_main_v180 m' c, nrq_main_v179 m' c, nrq_main_cst_29 m' c, nrq_main_v178 m' c, nrq_main_v177 m' c, br_main_v1 m m' c hag, br_main_v89 m m' c hag]
  all_goals rfl

end Cert.Bridge

end
-- ==== Proof.Br.Br2.lean ====
import proofs.«126270_j6725918785969_1_alg».proof.Proof.Br.Br1

/-!
# Kernel buffers and reference buffers that hold the same value (part 2)

From memories agreeing on the twelve arguments, buffer by buffer in program order: a kernel buffer and the
reference buffer computed by the same operation from corresponding operands hold equal final contents; a kernel
region's output array corresponds to the reference buffer holding the same host-level composite.
-/

set_option maxRecDepth 16384

noncomputable section

namespace Cert.Bridge

open Idealize.ShloMosaic Idealize.ShloMosaic.TcCoe Idealize.ShloMosaic.StableHlo
open Idealize.SL Idealize.SL.Sem
open Cert.KernelIdeal.Fr Cert.ReferenceIdeal.RefRun

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD) (hag : Agree m m')
include hag

theorem br_main_v149 : nK_main_v149 m c = nR_main_v182 m' c := by
  rw [nkq_main_v149 m c, nrq_main_v182 m' c, br_main_v147 m m' c hag]
  all_goals rfl
theorem br_main_v150 : nK_main_v150 m c = nR_main_v183 m' c := by
  rw [nkq_main_v150 m c, nrq_main_v183 m' c, br_main_v149 m m' c hag]
  all_goals rfl
theorem br_main_v151 : nK_main_v151 m c = nR_main_v184 m' c := by
  rw [nkq_main_v151 m c, nrq_main_v184 m' c, br_main_v150 m m' c hag]
  all_goals rfl
theorem br_main_v152 : nK_main_v152 m c = nR_main_v185 m' c := by
  rw [nkq_main_v152 m c, nrq_main_v185 m' c, br_main_v151 m m' c hag, br_main_v148 m m' c hag]
  all_goals rfl
theorem br_main_cst_19 : nK_main_cst_19 m c = nR_main_cst_1 m' c := by
  rw [nkq_main_cst_19 m c, nrq_main_cst_1 m' c]
  all_goals rfl
theorem br_main_v153 : nK_main_v153 m c = nR_main_v38 m' c := by
  rw [nkq_main_v153 m c, nrq_main_v38 m' c, br_main_cst_19 m m' c hag, nre_cst_1_cst_6 m' c]
  all_goals rfl
theorem br_main_v154 : nK_main_v154 m c = nR_main_v187 m' c := by
  rw [nkq_main_v154 m c, nrq_main_v187 m' c, br_main_v153 m m' c hag, br_main_v152 m m' c hag, nre_v38_v186 m' c]
  all_goals rfl
theorem br_main_v155 : nK_main_v155 m c = nR_main_v188 m' c := by
  rw [nkq_main_v155 m c, nrq_main_v188 m' c, br_main_v154 m m' c hag, br_main_v152 m m' c hag]
  all_goals rfl
theorem br_main_v156 : nK_main_v156 m c = nR_main_v189 m' c := by
  rw [nkq_main_v156 m c, nrq_main_v189 m' c, br_main_v155 m m' c hag, br_main_v148 m m' c hag]
  all_goals rfl
theorem br_main_v157 : nK_main_v157 m c = nR_main_v190 m' c := by
  rw [nkq_main_v157 m c, nrq_main_v190 m' c, br_main_v147 m m' c hag]
  all_goals rfl
theorem br_main_v158 : nK_main_v158 m c = nR_main_v191 m' c := by
  rw [nkq_main_v158 m c, nrq_main_v191 m' c, br_main_v157 m m' c hag]
  all_goals rfl
theorem br_main_v159 : nK_main_v159 m c = nR_main_v192 m' c := by
  rw [nkq_main_v159 m c, nrq_main_v192 m' c, br_main_v158 m m' c hag]
  all_goals rfl
theorem br_main_v160 : nK_main_v160 m c = nR_main_v193 m' c := by
  rw [nkq_main_v160 m c, nrq_main_v193 m' c, br_main_v159 m m' c hag, br_main_v156 m m' c hag]
  all_goals rfl
theorem br_main_cst_20 : nK_main_cst_20 m c = nR_main_cst_1 m' c := by
  rw [nkq_main_cst_20 m c, nrq_main_cst_1 m' c]
  all_goals rfl
theorem br_main_v161 : nK_main_v161 m c = nR_main_v38 m' c := by
  rw [nkq_main_v161 m c, nrq_main_v38 m' c, br_main_cst_20 m m' c hag, nre_cst_1_cst_6 m' c]
  all_goals rfl
theorem br_main_v162 : nK_main_v162 m c = nR_main_v195 m' c := by
  rw [nkq_main_v162 m c, nrq_main_v195 m' c, br_main_v161 m m' c hag, br_main_v160 m m' c hag, nre_v38_v194 m' c]
  all_goals rfl
theorem br_main_v163 : nK_main_v163 m c = nR_main_v196 m' c := by
  rw [nkq_main_v163 m c, nrq_main_v196 m' c, br_main_v162 m m' c hag, br_main_v160 m m' c hag]
  all_goals rfl
theorem br_main_v164 : nK_main_v164 m c = nR_main_v197 m' c := by
  rw [nkq_main_v164 m c, nrq_main_v197 m' c, br_main_v163 m m' c hag, br_main_v156 m m' c hag]
  all_goals rfl
theorem br_main_v165 : nK_main_v165 m c = nR_main_v198 m' c := by
  rw [nkq_main_v165 m c, nrq_main_v198 m' c, br_main_v147 m m' c hag]
  all_goals rfl
theorem br_main_v166 : nK_main_v166 m c = nR_main_v199 m' c := by
  rw [nkq_main_v166 m c, nrq_main_v199 m' c, br_main_v165 m m' c hag]
  all_goals rfl
theorem br_main_v167 : nK_main_v167 m c = nR_main_v200 m' c := by
  rw [nkq_main_v167 m c, nrq_main_v200 m' c, br_main_v166 m m' c hag]
  all_goals rfl
theorem br_main_v168 : nK_main_v168 m c = nR_main_v201 m' c := by
  rw [nkq_main_v168 m c, nrq_main_v201 m' c, br_main_v167 m m' c hag, br_main_v164 m m' c hag]
  all_goals rfl
theorem br_main_cst_21 : nK_main_cst_21 m c = nR_main_cst_1 m' c := by
  rw [nkq_main_cst_21 m c, nrq_main_cst_1 m' c]
  all_goals rfl
theorem br_main_v169 : nK_main_v169 m c = nR_main_v38 m' c := by
  rw [nkq_main_v169 m c, nrq_main_v38 m' c, br_main_cst_21 m m' c hag, nre_cst_1_cst_6 m' c]
  all_goals rfl
theorem br_main_v170 : nK_main_v170 m c = nR_main_v203 m' c := by
  rw [nkq_main_v170 m c, nrq_main_v203 m' c, br_main_v169 m m' c hag, br_main_v168 m m' c hag, nre_v38_v202 m' c]
  all_goals rfl
theorem br_main_v171 : nK_main_v171 m c = nR_main_v204 m' c := by
  rw [nkq_main_v171 m c, nrq_main_v204 m' c, br_main_v170 m m' c hag, br_main_v168 m m' c hag]
  all_goals rfl
theorem br_main_v172 : nK_main_v172 m c = nR_main_v205 m' c := by
  rw [nkq_main_v172 m c, nrq_main_v205 m' c, br_main_v171 m m' c hag, br_main_v164 m m' c hag]
  all_goals rfl
theorem br_main_v173 : nK_main_v173 m c = nR_main_v209 m' c := by
  rw [nkq_main_v173 m c, nrq_main_v209 m' c, nrq_main_v208 m' c, nrq_main_v207 m' c, nrq_main_cst_33 m' c, nrq_main_v206 m' c, br_main_v1 m m' c hag, br_main_v172 m m' c hag]
  all_goals rfl
theorem br_main_v174 : nK_main_v174 m c = nR_main_v210 m' c := by
  rw [nkq_main_v174 m c, nrq_main_v210 m' c, br_main_v116 m m' c hag, br_main_v145 m m' c hag]
  all_goals rfl
theorem br_main_v175 : nK_main_v175 m c = nR_main_v211 m' c := by
  rw [nkq_main_v175 m c, nrq_main_v211 m' c, br_main_v174 m m' c hag, br_main_v87 m m' c hag]
  all_goals rfl
theorem br_main_v176 : nK_main_v176 m c = nR_main_v212 m' c := by
  rw [nkq_main_v176 m c, nrq_main_v212 m' c, br_main_v117 m m' c hag, br_main_v173 m m' c hag]
  all_goals rfl
theorem br_main_v177 : nK_main_v177 m c = nR_main_v213 m' c := by
  rw [nkq_main_v177 m c, nrq_main_v213 m' c, br_main_v176 m m' c hag, br_main_v89 m m' c hag]
  all_goals rfl
theorem br_main_cst_22 : nK_main_cst_22 m c = nR_main_cst m' c := by
  rw [nkq_main_cst_22 m c, nrq_main_cst m' c]
  all_goals rfl
theorem br_main_v178 : nK_main_v178 m c = nR_main_v12 m' c := by
  rw [nkq_main_v178 m c, nrq_main_v12 m' c, br_main_cst_22 m m' c hag]
  all_goals rfl
theorem br_main_v179 : nK_main_v179 m c = nR_main_v215 m' c := by
  rw [nkq_main_v179 m c, nrq_main_v215 m' c, br_main_v178 m m' c hag, br_main_arg5 m m' c hag, nre_v12_v214 m' c]
  all_goals rfl
theorem br_main_v180 : nK_main_v180 m c = nR_main_v216 m' c := by
  rw [nkq_main_v180 m c, nrq_main_v216 m' c, br_main_v179 m m' c hag, br_main_v87 m m' c hag]
  all_goals rfl
theorem br_main_v181 : nK_main_v181 m c = nR_main_v217 m' c := by
  rw [nkq_main_v181 m c, nrq_main_v217 m' c, br_main_v180 m m' c hag, br_main_v175 m m' c hag]
  all_goals rfl
theorem br_main_cst_23 : nK_main_cst_23 m c = nR_main_cst m' c := by
  rw [nkq_main_cst_23 m c, nrq_main_cst m' c]
  all_goals rfl
theorem br_main_v182 : nK_main_v182 m c = nR_main_v28 m' c := by
  rw [nkq_main_v182 m c, nrq_main_v28 m' c, br_main_cst_23 m m' c hag, nre_cst_cst_4 m' c]
  all_goals rfl
theorem br_main_v183 : nK_main_v183 m c = nR_main_v219 m' c := by
  rw [nkq_main_v183 m c, nrq_main_v219 m' c, br_main_v182 m m' c hag, br_main_arg6 m m' c hag, nre_v28_v218 m' c]
  all_goals rfl
theorem br_main_v184 : nK_main_v184 m c = nR_main_v220 m' c := by
  rw [nkq_main_v184 m c, nrq_main_v220 m' c, br_main_v183 m m' c hag, br_main_v89 m m' c hag]
  all_goals rfl
theorem br_main_v185 : nK_main_v185 m c = nR_main_v221 m' c := by
  rw [nkq_main_v185 m c, nrq_main_v221 m' c, br_main_v184 m m' c hag, br_main_v177 m m' c hag]
  all_goals rfl
theorem br_main_c_24 : nK_main_c_24 m c = nR_main_c m' c := by
  rw [nkq_main_c_24 m c, nrq_main_c m' c]
  all_goals rfl
theorem br_main_v186 : nK_main_v186 m c = nR_main_v222 m' c := by
  rw [nkq_main_v186 m c, nrq_main_v222 m' c, br_main_c_24 m m' c hag, nre_c_c_36 m' c]
  all_goals rfl
theorem br_main_v187 : nK_main_v187 m c = nR_main_v223 m' c := by
  rw [nkq_main_v187 m c, nrq_main_v223 m' c, br_main_arg0 m m' c hag, br_main_v186 m m' c hag]
  all_goals rfl
theorem br_main_c_25 : nK_main_c_25 m c = nR_main_c_3 m' c := by
  rw [nkq_main_c_25 m c, nrq_main_c_3 m' c]
  all_goals rfl
theorem br_main_v188 : nK_main_v188 m c = nR_main_v224 m' c := by
  rw [nkq_main_v188 m c, nrq_main_v224 m' c, br_main_c_25 m m' c hag, nre_c_3_c_37 m' c]
  all_goals rfl
theorem br_main_v189 : nK_main_v189 m c = nR_main_v225 m' c := by
  rw [nkq_main_v189 m c, nrq_main_v225 m' c, br_main_arg0 m m' c hag, br_main_v188 m m' c hag]
  all_goals rfl
theorem br_main_v190 : nK_main_v190 m c = nR_main_v226 m' c := by
  rw [nkq_main_v190 m c, nrq_main_v226 m' c, br_main_v187 m m' c hag, br_main_v189 m m' c hag, br_main_arg0 m m' c hag]
  all_goals rfl
theorem br_main_v191 : nK_main_v191 m c = nR_main_v227 m' c := by
  rw [nkq_main_v191 m c, nrq_main_v227 m' c, br_main_v190 m m' c hag]
  all_goals rfl
theorem br_main_v192 : nK_main_v192 m c = nR_main_v228 m' c := by
  rw [nkq_main_v192 m c, nrq_main_v228 m' c, br_main_v181 m m' c hag, br_main_v191 m m' c hag]
  all_goals rfl
theorem br_main_c_26 : nK_main_c_26 m c = nR_main_c m' c := by
  rw [nkq_main_c_26 m c, nrq_main_c m' c]
  all_goals rfl
theorem br_main_v193 : nK_main_v193 m c = nR_main_v222 m' c := by
  rw [nkq_main_v193 m c, nrq_main_v222 m' c, br_main_c_26 m m' c hag, nre_c_c_36 m' c]
  all_goals rfl
theorem br_main_v194 : nK_main_v194 m c = nR_main_v230 m' c := by
  rw [nkq_main_v194 m c, nrq_main_v230 m' c, br_main_arg1 m m' c hag, br_main_v193 m m' c hag, nre_v222_v229 m' c]
  all_goals rfl
theorem br_main_c_27 : nK_main_c_27 m c = nR_main_c_0 m' c := by
  rw [nkq_main_c_27 m c, nrq_main_c_0 m' c]
  all_goals rfl
theorem br_main_v195 : nK_main_v195 m c = nR_main_v231 m' c := by
  rw [nkq_main_v195 m c, nrq_main_v231 m' c, br_main_c_27 m m' c hag, nre_c_0_c_39 m' c]
  all_goals rfl
theorem br_main_v196 : nK_main_v196 m c = nR_main_v232 m' c := by
  rw [nkq_main_v196 m c, nrq_main_v232 m' c, br_main_arg1 m m' c hag, br_main_v195 m m' c hag]
  all_goals rfl
theorem br_main_v197 : nK_main_v197 m c = nR_main_v233 m' c := by
  rw [nkq_main_v197 m c, nrq_main_v233 m' c, br_main_v194 m m' c hag, br_main_v196 m m' c hag, br_main_arg1 m m' c hag]
  all_goals rfl
theorem br_main_v198 : nK_main_v198 m c = nR_main_v234 m' c := by
  rw [nkq_main_v198 m c, nrq_main_v234 m' c, br_main_v197 m m' c hag]
  all_goals rfl
theorem br_main_v199 : nK_main_v199 m c = nR_main_v235 m' c := by
  rw [nkq_main_v199 m c, nrq_main_v235 m' c, br_main_v185 m m' c hag, br_main_v198 m m' c hag]
  all_goals rfl
theorem br_main_v200 : nK_main_v200 m c = nR_main_v236 m' c := by
  rw [nkq_main_v200 m c, nrq_main_v236 m' c, br_main_v192 m m' c hag, br_main_v199 m m' c hag]
  all_goals rfl
theorem br_main_cst_28 : nK_main_cst_28 m c = nR_main_cst m' c := by
  rw [nkq_main_cst_28 m c, nrq_main_cst m' c]
  all_goals rfl
theorem br_main_v201 : nK_main_v201 m c = nR_main_v237 m' c := by
  rw [nkq_main_v201 m c, nrq_main_v237 m' c, br_main_v200 m m' c hag, br_main_cst_28 m m' c hag, nre_cst_cst_40 m' c]
  all_goals rfl
theorem br_main_v202 : nK_main_v202 m c = nR_main_v238 m' c := by
  rw [nkq_main_v202 m c, nrq_main_v238 m' c, br_main_arg0 m m' c hag]
  all_goals rfl
theorem br_main_v203 : nK_main_v203 m c = nR_main_v239 m' c := by
  rw [nkq_main_v203 m c, nrq_main_v239 m' c, br_main_arg1 m m' c hag]
  all_goals rfl
theorem br_main_c_29 : nK_main_c_29 m c = nR_main_c m' c := by
  rw [nkq_main_c_29 m c, nrq_main_c m' c]
  all_goals rfl
theorem br_main_v204 : nK_main_v204 m c = nR_main_v222 m' c := by
  rw [nkq_main_v204 m c, nrq_main_v222 m' c, br_main_c_29 m m' c hag, nre_c_c_36 m' c]
  all_goals rfl
theorem br_main_v205 : nK_main_v205 m c = nR_main_v241 m' c := by
  rw [nkq_main_v205 m c, nrq_main_v241 m' c, br_main_v202 m m' c hag, br_main_v204 m m' c hag, nre_v222_v240 m' c]
  all_goals rfl
theorem br_main_c_30 : nK_main_c_30 m c = nR_main_c_3 m' c := by
  rw [nkq_main_c_30 m c, nrq_main_c_3 m' c]
  all_goals rfl
theorem br_main_v206 : nK_main_v206 m c = nR_main_v224 m' c := by
  rw [nkq_main_v206 m c, nrq_main_v224 m' c, br_main_c_30 m m' c hag, nre_c_3_c_37 m' c]
  all_goals rfl
theorem br_main_v207 : nK_main_v207 m c = nR_main_v243 m' c := by
  rw [nkq_main_v207 m c, nrq_main_v243 m' c, br_main_v202 m m' c hag, br_main_v206 m m' c hag, nre_v224_v242 m' c]
  all_goals rfl
theorem br_main_v208 : nK_main_v208 m c = nR_main_v244 m' c := by
  rw [nkq_main_v208 m c, nrq_main_v244 m' c, br_main_v205 m m' c hag, br_main_v207 m m' c hag, br_main_v202 m m' c hag]
  all_goals rfl
theorem br_main_v209 : nK_main_v209 m c = nR_main_v245 m' c := by
  rw [nkq_main_v209 m c, nrq_main_v245 m' c, br_main_v208 m m' c hag]
  all_goals rfl
theorem br_main_v210 : nK_main_v210 m c = nR_main_v246 m' c := by
  rw [nkq_main_v210 m c, nrq_main_v246 m' c, br_main_v57 m m' c hag, br_main_v209 m m' c hag]
  all_goals rfl
theorem br_main_c_31 : nK_main_c_31 m c = nR_main_c m' c := by
  rw [nkq_main_c_31 m c, nrq_main_c m' c]
  all_goals rfl
theorem br_main_v211 : nK_main_v211 m c = nR_main_v222 m' c := by
  rw [nkq_main_v211 m c, nrq_main_v222 m' c, br_main_c_31 m m' c hag, nre_c_c_36 m' c]
  all_goals rfl
theorem br_main_v212 : nK_main_v212 m c = nR_main_v241 m' c := by
  rw [nkq_main_v212 m c, nrq_main_v241 m' c, br_main_v202 m m' c hag, br_main_v211 m m' c hag, nre_v222_v240 m' c]
  all_goals rfl
theorem br_main_c_32 : nK_main_c_32 m c = nR_main_c_3 m' c := by
  rw [nkq_main_c_32 m c, nrq_main_c_3 m' c]
  all_goals rfl
theorem br_main_v213 : nK_main_v213 m c = nR_main_v224 m' c := by
  rw [nkq_main_v213 m c, nrq_main_v224 m' c, br_main_c_32 m m' c hag, nre_c_3_c_37 m' c]
  all_goals rfl
theorem br_main_v214 : nK_main_v214 m c = nR_main_v243 m' c := by
  rw [nkq_main_v214 m c, nrq_main_v243 m' c, br_main_v202 m m' c hag, br_main_v213 m m' c hag, nre_v224_v242 m' c]
  all_goals rfl
theorem br_main_v215 : nK_main_v215 m c = nR_main_v244 m' c := by
  rw [nkq_main_v215 m c, nrq_main_v244 m' c, br_main_v212 m m' c hag, br_main_v214 m m' c hag, br_main_v202 m m' c hag]
  all_goals rfl
theorem br_main_v216 : nK_main_v216 m c = nR_main_v245 m' c := by
  rw [nkq_main_v216 m c, nrq_main_v245 m' c, br_main_v215 m m' c hag]
  all_goals rfl
theorem br_main_v217 : nK_main_v217 m c = nR_main_v261 m' c := by
  rw [nkq_main_v217 m c, nrq_main_v261 m' c, br_main_v28 m m' c hag, br_main_v216 m m' c hag, nre_v245_v260 m' c]
  all_goals rfl
theorem br_main_v218 : nK_main_v218 m c = nR_main_v252 m' c := by
  rw [nkq_main_v218 m c, nrq_main_v252 m' c, br_main_arg11 m m' c hag]
  all_goals rfl
theorem br_main_v219 : nK_main_v219 m c = nR_main_v253 m' c := by
  rw [nkq_main_v219 m c, nrq_main_v253 m' c, br_main_v218 m m' c hag]
  all_goals rfl

end Cert.Bridge

end
-- ==== Proof.Br.Br3.lean ====
import proofs.«126270_j6725918785969_1_alg».proof.Proof.Br.Br2

/-!
# Kernel buffers and reference buffers that hold the same value (part 3)

From memories agreeing on the twelve arguments, buffer by buffer in program order: a kernel buffer and the
reference buffer computed by the same operation from corresponding operands hold equal final contents; a kernel
region's output array corresponds to the reference buffer holding the same host-level composite.
-/

set_option maxRecDepth 16384

noncomputable section

namespace Cert.Bridge

open Idealize.ShloMosaic Idealize.ShloMosaic.TcCoe Idealize.ShloMosaic.StableHlo
open Idealize.SL Idealize.SL.Sem
open Cert.KernelIdeal.Fr Cert.ReferenceIdeal.RefRun

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD) (hag : Agree m m')
include hag

theorem br_main_call2_v0 : nK_main_call2_v0 m c = nR_main_call2_v0 m' c := by
  rw [nkq_main_call2_v0 m c, nrq_main_call2_v0 m' c, br_main_v210 m m' c hag]
  all_goals rfl
theorem br_main_call2_cst : nK_main_call2_cst m c = nR_main_cst m' c := by
  rw [nkq_main_call2_cst m c, nrq_main_cst m' c]
  all_goals rfl
theorem br_main_call2_v1 : nK_main_call2_v1 m c = nR_main_call2_v1 m' c := by
  rw [nkq_main_call2_v1 m c, nrq_main_call2_v1 m' c, br_main_call2_v0 m m' c hag, br_main_call2_cst m m' c hag, nre_cst_call2_cst m' c]
  all_goals rfl
theorem br_main_call2_v2 : nK_main_call2_v2 m c = nR_main_call2_v2 m' c := by
  rw [nkq_main_call2_v2 m c, nrq_main_call2_v2 m' c, br_main_call2_v1 m m' c hag]
  all_goals rfl
theorem br_main_v220 : nK_main_v220 m c = nR_main_v247 m' c := by
  rw [nkq_main_v220 m c, nrq_main_v247 m' c, br_main_call2_v2 m m' c hag]
  all_goals rfl
theorem br_main_cst_33 : nK_main_cst_33 m c = nR_main_cst_43 m' c := by
  rw [nkq_main_cst_33 m c, nrq_main_cst_43 m' c]
  all_goals rfl
theorem br_main_v221 : nK_main_v221 m c = nR_main_v248 m' c := by
  rw [nkq_main_v221 m c, nrq_main_v248 m' c, br_main_cst_33 m m' c hag]
  all_goals rfl
theorem br_main_v222 : nK_main_v222 m c = nR_main_v249 m' c := by
  rw [nkq_main_v222 m c, nrq_main_v249 m' c, br_main_v220 m m' c hag, br_main_v221 m m' c hag]
  all_goals rfl
theorem br_main_v223 : nK_main_v223 m c = nR_main_v250 m' c := by
  rw [nkq_main_v223 m c, nrq_main_v250 m' c, br_main_v222 m m' c hag]
  all_goals rfl
theorem br_main_v224 : nK_main_v224 m c = nR_main_v251 m' c := by
  rw [nkq_main_v224 m c, nrq_main_v251 m' c, br_main_v210 m m' c hag, br_main_v223 m m' c hag]
  all_goals rfl
theorem br_main_call3_v0 : nK_main_call3_v0 m c = nR_main_call3_v0 m' c := by
  rw [nkq_main_call3_v0 m c, nrq_main_call3_v0 m' c, br_main_v217 m m' c hag]
  all_goals rfl
theorem br_main_call3_cst : nK_main_call3_cst m c = nR_main_cst m' c := by
  rw [nkq_main_call3_cst m c, nrq_main_cst m' c]
  all_goals rfl
theorem br_main_call3_v1 : nK_main_call3_v1 m c = nR_main_call3_v1 m' c := by
  rw [nkq_main_call3_v1 m c, nrq_main_call3_v1 m' c, br_main_call3_v0 m m' c hag, br_main_call3_cst m m' c hag, nre_cst_call3_cst m' c]
  all_goals rfl
theorem br_main_call3_v2 : nK_main_call3_v2 m c = nR_main_call3_v2 m' c := by
  rw [nkq_main_call3_v2 m c, nrq_main_call3_v2 m' c, br_main_call3_v1 m m' c hag]
  all_goals rfl
theorem br_main_v225 : nK_main_v225 m c = nR_main_v262 m' c := by
  rw [nkq_main_v225 m c, nrq_main_v262 m' c, br_main_call3_v2 m m' c hag]
  all_goals rfl
theorem br_main_cst_34 : nK_main_cst_34 m c = nR_main_cst_43 m' c := by
  rw [nkq_main_cst_34 m c, nrq_main_cst_43 m' c]
  all_goals rfl
theorem br_main_v226 : nK_main_v226 m c = nR_main_v248 m' c := by
  rw [nkq_main_v226 m c, nrq_main_v248 m' c, br_main_cst_34 m m' c hag]
  all_goals rfl
theorem br_main_v227 : nK_main_v227 m c = nR_main_v264 m' c := by
  rw [nkq_main_v227 m c, nrq_main_v264 m' c, br_main_v225 m m' c hag, br_main_v226 m m' c hag, nre_v248_v263 m' c]
  all_goals rfl
theorem br_main_v228 : nK_main_v228 m c = nR_main_v265 m' c := by
  rw [nkq_main_v228 m c, nrq_main_v265 m' c, br_main_v227 m m' c hag]
  all_goals rfl
theorem br_main_v229 : nK_main_v229 m c = nR_main_v266 m' c := by
  rw [nkq_main_v229 m c, nrq_main_v266 m' c, br_main_v217 m m' c hag, br_main_v228 m m' c hag]
  all_goals rfl
theorem br_main_v230 : nK_main_v230 m c = nR_main_v254 m' c := by
  rw [nkq_main_v230 m c, nrq_main_v254 m' c, br_main_v224 m m' c hag, br_main_v219 m m' c hag]
  all_goals rfl
theorem br_main_v231 : nK_main_v231 m c = nR_main_v267 m' c := by
  rw [nkq_main_v231 m c, nrq_main_v267 m' c, br_main_v230 m m' c hag, br_main_v229 m m' c hag]
  all_goals rfl
theorem br_main_cst_35 : nK_main_cst_35 m c = nR_main_cst m' c := by
  rw [nkq_main_cst_35 m c, nrq_main_cst m' c]
  all_goals rfl
theorem br_main_v232 : nK_main_v232 m c = nR_main_v268 m' c := by
  rw [nkq_main_v232 m c, nrq_main_v268 m' c, br_main_v231 m m' c hag, br_main_cst_35 m m' c hag, nre_cst_cst_47 m' c]
  all_goals rfl
theorem br_main_cst_36 : nK_main_cst_36 m c = nR_main_cst_48 m' c := by
  rw [nkq_main_cst_36 m c, nrq_main_cst_48 m' c]
  all_goals rfl
theorem br_main_v233 : nK_main_v233 m c = nR_main_v269 m' c := by
  rw [nkq_main_v233 m c, nrq_main_v269 m' c, br_main_cst_36 m m' c hag]
  all_goals rfl
theorem br_main_v234 : nK_main_v234 m c = nR_main_v270 m' c := by
  rw [nkq_main_v234 m c, nrq_main_v270 m' c, br_main_v232 m m' c hag, br_main_v233 m m' c hag]
  all_goals rfl
theorem br_main_v235 : nK_main_v235 m c = nR_main_v271 m' c := by
  rw [nkq_main_v235 m c, nrq_main_v271 m' c, br_main_v234 m m' c hag]
  all_goals rfl
theorem br_main_v237 : nK_main_v237 m c = nR_main_v277 m' c := by
  rw [nkqs_main_v237 m c, nrq_main_v277 m' c, nrq_main_v276 m' c, nrq_main_v275 m' c, nrq_main_v273 m' c, nrq_main_v272 m' c, nrq_main_v274 m' c, nrq_main_cst_49 m' c, nrq_main_cst_50 m' c, br_main_v229 m m' c hag, br_main_v230 m m' c hag]
  all_goals rfl
theorem br_main_cst_37 : nK_main_cst_37 m c = nR_main_cst_51 m' c := by
  rw [nkq_main_cst_37 m c, nrq_main_cst_51 m' c]
  all_goals rfl
theorem br_main_v238 : nK_main_v238 m c = nR_main_v278 m' c := by
  rw [nkq_main_v238 m c, nrq_main_v278 m' c, br_main_cst_37 m m' c hag]
  all_goals rfl
theorem br_main_v239 : nK_main_v239 m c = nR_main_v279 m' c := by
  rw [nkq_main_v239 m c, nrq_main_v279 m' c, br_main_v237 m m' c hag, br_main_v238 m m' c hag]
  all_goals rfl
theorem br_main_v240 : nK_main_v240 m c = nR_main_v280 m' c := by
  rw [nkq_main_v240 m c, nrq_main_v280 m' c, br_main_v235 m m' c hag, br_main_v239 m m' c hag]
  all_goals rfl
theorem br_main_cst_38 : nK_main_cst_38 m c = nR_main_cst_51 m' c := by
  rw [nkq_main_cst_38 m c, nrq_main_cst_51 m' c]
  all_goals rfl
theorem br_main_v241 : nK_main_v241 m c = nR_main_v278 m' c := by
  rw [nkq_main_v241 m c, nrq_main_v278 m' c, br_main_cst_38 m m' c hag]
  all_goals rfl
theorem br_main_v242 : nK_main_v242 m c = nR_main_v282 m' c := by
  rw [nkq_main_v242 m c, nrq_main_v282 m' c, br_main_v240 m m' c hag, br_main_v241 m m' c hag, nre_v278_v281 m' c]
  all_goals rfl
theorem br_main_v243 : nK_main_v243 m c = nR_main_v283 m' c := by
  rw [nkq_main_v243 m c, nrq_main_v283 m' c, br_main_v242 m m' c hag]
  all_goals rfl
theorem br_main_v244 : nK_main_v244 m c = nR_main_v284 m' c := by
  rw [nkq_main_v244 m c, nrq_main_v284 m' c, br_main_v243 m m' c hag]
  all_goals rfl
theorem br_main_cst_39 : nK_main_cst_39 m c = nR_main_cst m' c := by
  rw [nkq_main_cst_39 m c, nrq_main_cst m' c]
  all_goals rfl
theorem br_main_v245 : nK_main_v245 m c = nR_main_v285 m' c := by
  rw [nkq_main_v245 m c, nrq_main_v285 m' c, br_main_v244 m m' c hag, br_main_cst_39 m m' c hag, nre_cst_cst_53 m' c]
  all_goals rfl
theorem br_main_cst_40 : nK_main_cst_40 m c = nR_main_cst m' c := by
  rw [nkq_main_cst_40 m c, nrq_main_cst m' c]
  all_goals rfl
theorem br_main_v246 : nK_main_v246 m c = nR_main_v286 m' c := by
  rw [nkq_main_v246 m c, nrq_main_v286 m' c, br_main_cst_40 m m' c hag, br_main_v245 m m' c hag, nre_cst_cst_54 m' c]
  all_goals rfl
theorem br_main_c_41 : nK_main_c_41 m c = nR_main_c m' c := by
  rw [nkq_main_c_41 m c, nrq_main_c m' c]
  all_goals rfl
theorem br_main_v247 : nK_main_v247 m c = nR_main_v222 m' c := by
  rw [nkq_main_v247 m c, nrq_main_v222 m' c, br_main_c_41 m m' c hag, nre_c_c_36 m' c]
  all_goals rfl
theorem br_main_v248 : nK_main_v248 m c = nR_main_v288 m' c := by
  rw [nkq_main_v248 m c, nrq_main_v288 m' c, br_main_v203 m m' c hag, br_main_v247 m m' c hag, nre_v222_v287 m' c]
  all_goals rfl
theorem br_main_c_42 : nK_main_c_42 m c = nR_main_c_0 m' c := by
  rw [nkq_main_c_42 m c, nrq_main_c_0 m' c]
  all_goals rfl
theorem br_main_v249 : nK_main_v249 m c = nR_main_v231 m' c := by
  rw [nkq_main_v249 m c, nrq_main_v231 m' c, br_main_c_42 m m' c hag, nre_c_0_c_39 m' c]
  all_goals rfl
theorem br_main_v250 : nK_main_v250 m c = nR_main_v290 m' c := by
  rw [nkq_main_v250 m c, nrq_main_v290 m' c, br_main_v203 m m' c hag, br_main_v249 m m' c hag, nre_v231_v289 m' c]
  all_goals rfl
theorem br_main_v251 : nK_main_v251 m c = nR_main_v291 m' c := by
  rw [nkq_main_v251 m c, nrq_main_v291 m' c, br_main_v248 m m' c hag, br_main_v250 m m' c hag, br_main_v203 m m' c hag]
  all_goals rfl
theorem br_main_v252 : nK_main_v252 m c = nR_main_v292 m' c := by
  rw [nkq_main_v252 m c, nrq_main_v292 m' c, br_main_v251 m m' c hag]
  all_goals rfl
theorem br_main_v253 : nK_main_v253 m c = nR_main_v293 m' c := by
  rw [nkq_main_v253 m c, nrq_main_v293 m' c, br_main_v85 m m' c hag, br_main_v252 m m' c hag]
  all_goals rfl
theorem br_main_c_43 : nK_main_c_43 m c = nR_main_c m' c := by
  rw [nkq_main_c_43 m c, nrq_main_c m' c]
  all_goals rfl
theorem br_main_v254 : nK_main_v254 m c = nR_main_v222 m' c := by
  rw [nkq_main_v254 m c, nrq_main_v222 m' c, br_main_c_43 m m' c hag, nre_c_c_36 m' c]
  all_goals rfl
theorem br_main_v255 : nK_main_v255 m c = nR_main_v288 m' c := by
  rw [nkq_main_v255 m c, nrq_main_v288 m' c, br_main_v203 m m' c hag, br_main_v254 m m' c hag, nre_v222_v287 m' c]
  all_goals rfl
theorem br_main_c_44 : nK_main_c_44 m c = nR_main_c_0 m' c := by
  rw [nkq_main_c_44 m c, nrq_main_c_0 m' c]
  all_goals rfl
theorem br_main_v256 : nK_main_v256 m c = nR_main_v231 m' c := by
  rw [nkq_main_v256 m c, nrq_main_v231 m' c, br_main_c_44 m m' c hag, nre_c_0_c_39 m' c]
  all_goals rfl
theorem br_main_v257 : nK_main_v257 m c = nR_main_v290 m' c := by
  rw [nkq_main_v257 m c, nrq_main_v290 m' c, br_main_v203 m m' c hag, br_main_v256 m m' c hag, nre_v231_v289 m' c]
  all_goals rfl
theorem br_main_v258 : nK_main_v258 m c = nR_main_v291 m' c := by
  rw [nkq_main_v258 m c, nrq_main_v291 m' c, br_main_v255 m m' c hag, br_main_v257 m m' c hag, br_main_v203 m m' c hag]
  all_goals rfl
theorem br_main_v259 : nK_main_v259 m c = nR_main_v292 m' c := by
  rw [nkq_main_v259 m c, nrq_main_v292 m' c, br_main_v258 m m' c hag]
  all_goals rfl
theorem br_main_v260 : nK_main_v260 m c = nR_main_v308 m' c := by
  rw [nkq_main_v260 m c, nrq_main_v308 m' c, br_main_v29 m m' c hag, br_main_v259 m m' c hag, nre_v292_v307 m' c]
  all_goals rfl
theorem br_main_v261 : nK_main_v261 m c = nR_main_v252 m' c := by
  rw [nkq_main_v261 m c, nrq_main_v252 m' c, br_main_arg11 m m' c hag]
  all_goals rfl
theorem br_main_v262 : nK_main_v262 m c = nR_main_v253 m' c := by
  rw [nkq_main_v262 m c, nrq_main_v253 m' c, br_main_v261 m m' c hag]
  all_goals rfl
theorem br_main_call4_v0 : nK_main_call4_v0 m c = nR_main_call4_v0 m' c := by
  rw [nkq_main_call4_v0 m c, nrq_main_call4_v0 m' c, br_main_v253 m m' c hag]
  all_goals rfl
theorem br_main_call4_cst : nK_main_call4_cst m c = nR_main_cst m' c := by
  rw [nkq_main_call4_cst m c, nrq_main_cst m' c]
  all_goals rfl
theorem br_main_call4_v1 : nK_main_call4_v1 m c = nR_main_call4_v1 m' c := by
  rw [nkq_main_call4_v1 m c, nrq_main_call4_v1 m' c, br_main_call4_v0 m m' c hag, br_main_call4_cst m m' c hag, nre_cst_call4_cst m' c]
  all_goals rfl
theorem br_main_call4_v2 : nK_main_call4_v2 m c = nR_main_call4_v2 m' c := by
  rw [nkq_main_call4_v2 m c, nrq_main_call4_v2 m' c, br_main_call4_v1 m m' c hag]
  all_goals rfl
theorem br_main_v263 : nK_main_v263 m c = nR_main_v294 m' c := by
  rw [nkq_main_v263 m c, nrq_main_v294 m' c, br_main_call4_v2 m m' c hag]
  all_goals rfl
theorem br_main_cst_45 : nK_main_cst_45 m c = nR_main_cst_43 m' c := by
  rw [nkq_main_cst_45 m c, nrq_main_cst_43 m' c]
  all_goals rfl
theorem br_main_v264 : nK_main_v264 m c = nR_main_v248 m' c := by
  rw [nkq_main_v264 m c, nrq_main_v248 m' c, br_main_cst_45 m m' c hag]
  all_goals rfl
theorem br_main_v265 : nK_main_v265 m c = nR_main_v296 m' c := by
  rw [nkq_main_v265 m c, nrq_main_v296 m' c, br_main_v263 m m' c hag, br_main_v264 m m' c hag, nre_v248_v295 m' c]
  all_goals rfl
theorem br_main_v266 : nK_main_v266 m c = nR_main_v297 m' c := by
  rw [nkq_main_v266 m c, nrq_main_v297 m' c, br_main_v265 m m' c hag]
  all_goals rfl
theorem br_main_v267 : nK_main_v267 m c = nR_main_v298 m' c := by
  rw [nkq_main_v267 m c, nrq_main_v298 m' c, br_main_v253 m m' c hag, br_main_v266 m m' c hag]
  all_goals rfl
theorem br_main_call5_v0 : nK_main_call5_v0 m c = nR_main_call5_v0 m' c := by
  rw [nkq_main_call5_v0 m c, nrq_main_call5_v0 m' c, br_main_v260 m m' c hag]
  all_goals rfl
theorem br_main_call5_cst : nK_main_call5_cst m c = nR_main_cst m' c := by
  rw [nkq_main_call5_cst m c, nrq_main_cst m' c]
  all_goals rfl
theorem br_main_call5_v1 : nK_main_call5_v1 m c = nR_main_call5_v1 m' c := by
  rw [nkq_main_call5_v1 m c, nrq_main_call5_v1 m' c, br_main_call5_v0 m m' c hag, br_main_call5_cst m m' c hag, nre_cst_call5_cst m' c]
  all_goals rfl
theorem br_main_call5_v2 : nK_main_call5_v2 m c = nR_main_call5_v2 m' c := by
  rw [nkq_main_call5_v2 m c, nrq_main_call5_v2 m' c, br_main_call5_v1 m m' c hag]
  all_goals rfl
theorem br_main_v268 : nK_main_v268 m c = nR_main_v309 m' c := by
  rw [nkq_main_v268 m c, nrq_main_v309 m' c, br_main_call5_v2 m m' c hag]
  all_goals rfl
theorem br_main_cst_46 : nK_main_cst_46 m c = nR_main_cst_43 m' c := by
  rw [nkq_main_cst_46 m c, nrq_main_cst_43 m' c]
  all_goals rfl
theorem br_main_v269 : nK_main_v269 m c = nR_main_v248 m' c := by
  rw [nkq_main_v269 m c, nrq_main_v248 m' c, br_main_cst_46 m m' c hag]
  all_goals rfl
theorem br_main_v270 : nK_main_v270 m c = nR_main_v311 m' c := by
  rw [nkq_main_v270 m c, nrq_main_v311 m' c, br_main_v268 m m' c hag, br_main_v269 m m' c hag, nre_v248_v310 m' c]
  all_goals rfl
theorem br_main_v271 : nK_main_v271 m c = nR_main_v312 m' c := by
  rw [nkq_main_v271 m c, nrq_main_v312 m' c, br_main_v270 m m' c hag]
  all_goals rfl
theorem br_main_v272 : nK_main_v272 m c = nR_main_v313 m' c := by
  rw [nkq_main_v272 m c, nrq_main_v313 m' c, br_main_v260 m m' c hag, br_main_v271 m m' c hag]
  all_goals rfl
theorem br_main_v273 : nK_main_v273 m c = nR_main_v301 m' c := by
  rw [nkq_main_v273 m c, nrq_main_v301 m' c, br_main_v267 m m' c hag, br_main_v262 m m' c hag, nre_v253_v300 m' c]
  all_goals rfl
theorem br_main_v274 : nK_main_v274 m c = nR_main_v314 m' c := by
  rw [nkq_main_v274 m c, nrq_main_v314 m' c, br_main_v273 m m' c hag, br_main_v272 m m' c hag]
  all_goals rfl
theorem br_main_cst_47 : nK_main_cst_47 m c = nR_main_cst m' c := by
  rw [nkq_main_cst_47 m c, nrq_main_cst m' c]
  all_goals rfl

end Cert.Bridge

end
-- ==== Proof.Br.Br4.lean ====
import proofs.«126270_j6725918785969_1_alg».proof.Proof.Br.Br3

/-!
# Kernel buffers and reference buffers that hold the same value (part 4)

From memories agreeing on the twelve arguments, buffer by buffer in program order: a kernel buffer and the
reference buffer computed by the same operation from corresponding operands hold equal final contents; a kernel
region's output array corresponds to the reference buffer holding the same host-level composite.
-/

set_option maxRecDepth 16384

noncomputable section

namespace Cert.Bridge

open Idealize.ShloMosaic Idealize.ShloMosaic.TcCoe Idealize.ShloMosaic.StableHlo
open Idealize.SL Idealize.SL.Sem
open Cert.KernelIdeal.Fr Cert.ReferenceIdeal.RefRun

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD) (hag : Agree m m')
include hag

theorem br_main_v275 : nK_main_v275 m c = nR_main_v315 m' c := by
  rw [nkq_main_v275 m c, nrq_main_v315 m' c, br_main_v274 m m' c hag, br_main_cst_47 m m' c hag, nre_cst_cst_61 m' c]
  all_goals rfl
theorem br_main_cst_48 : nK_main_cst_48 m c = nR_main_cst_48 m' c := by
  rw [nkq_main_cst_48 m c, nrq_main_cst_48 m' c]
  all_goals rfl
theorem br_main_v276 : nK_main_v276 m c = nR_main_v269 m' c := by
  rw [nkq_main_v276 m c, nrq_main_v269 m' c, br_main_cst_48 m m' c hag]
  all_goals rfl
theorem br_main_v277 : nK_main_v277 m c = nR_main_v317 m' c := by
  rw [nkq_main_v277 m c, nrq_main_v317 m' c, br_main_v275 m m' c hag, br_main_v276 m m' c hag, nre_v269_v316 m' c]
  all_goals rfl
theorem br_main_v278 : nK_main_v278 m c = nR_main_v318 m' c := by
  rw [nkq_main_v278 m c, nrq_main_v318 m' c, br_main_v277 m m' c hag]
  all_goals rfl
theorem br_main_v280 : nK_main_v280 m c = nR_main_v324 m' c := by
  rw [nkqs_main_v280 m c, nrq_main_v324 m' c, nrq_main_v323 m' c, nrq_main_v322 m' c, nrq_main_v320 m' c, nrq_main_v319 m' c, nrq_main_v321 m' c, nrq_main_cst_63 m' c, nrq_main_cst_64 m' c, br_main_v272 m m' c hag, br_main_v273 m m' c hag]
  all_goals rfl
theorem br_main_cst_49 : nK_main_cst_49 m c = nR_main_cst_51 m' c := by
  rw [nkq_main_cst_49 m c, nrq_main_cst_51 m' c]
  all_goals rfl
theorem br_main_v281 : nK_main_v281 m c = nR_main_v278 m' c := by
  rw [nkq_main_v281 m c, nrq_main_v278 m' c, br_main_cst_49 m m' c hag]
  all_goals rfl
theorem br_main_v282 : nK_main_v282 m c = nR_main_v326 m' c := by
  rw [nkq_main_v282 m c, nrq_main_v326 m' c, br_main_v280 m m' c hag, br_main_v281 m m' c hag, nre_v278_v325 m' c]
  all_goals rfl
theorem br_main_v283 : nK_main_v283 m c = nR_main_v327 m' c := by
  rw [nkq_main_v283 m c, nrq_main_v327 m' c, br_main_v278 m m' c hag, br_main_v282 m m' c hag]
  all_goals rfl
theorem br_main_cst_50 : nK_main_cst_50 m c = nR_main_cst_51 m' c := by
  rw [nkq_main_cst_50 m c, nrq_main_cst_51 m' c]
  all_goals rfl
theorem br_main_v284 : nK_main_v284 m c = nR_main_v278 m' c := by
  rw [nkq_main_v284 m c, nrq_main_v278 m' c, br_main_cst_50 m m' c hag]
  all_goals rfl
theorem br_main_v285 : nK_main_v285 m c = nR_main_v329 m' c := by
  rw [nkq_main_v285 m c, nrq_main_v329 m' c, br_main_v283 m m' c hag, br_main_v284 m m' c hag, nre_v278_v328 m' c]
  all_goals rfl
theorem br_main_v286 : nK_main_v286 m c = nR_main_v330 m' c := by
  rw [nkq_main_v286 m c, nrq_main_v330 m' c, br_main_v285 m m' c hag]
  all_goals rfl
theorem br_main_v287 : nK_main_v287 m c = nR_main_v331 m' c := by
  rw [nkq_main_v287 m c, nrq_main_v331 m' c, br_main_v286 m m' c hag]
  all_goals rfl
theorem br_main_cst_51 : nK_main_cst_51 m c = nR_main_cst m' c := by
  rw [nkq_main_cst_51 m c, nrq_main_cst m' c]
  all_goals rfl
theorem br_main_v288 : nK_main_v288 m c = nR_main_v332 m' c := by
  rw [nkq_main_v288 m c, nrq_main_v332 m' c, br_main_v287 m m' c hag, br_main_cst_51 m m' c hag, nre_cst_cst_67 m' c]
  all_goals rfl
theorem br_main_v289 : nK_main_v289 m c = nR_main_v333 m' c := by
  rw [nkq_main_v289 m c, nrq_main_v333 m' c, br_main_v246 m m' c hag, br_main_v288 m m' c hag]
  all_goals rfl
theorem br_main_c_52 : nK_main_c_52 m c = nR_main_c m' c := by
  rw [nkq_main_c_52 m c, nrq_main_c m' c]
  all_goals rfl
theorem br_main_v290 : nK_main_v290 m c = nR_main_v222 m' c := by
  rw [nkq_main_v290 m c, nrq_main_v222 m' c, br_main_c_52 m m' c hag, nre_c_c_36 m' c]
  all_goals rfl
theorem br_main_v291 : nK_main_v291 m c = nR_main_v241 m' c := by
  rw [nkq_main_v291 m c, nrq_main_v241 m' c, br_main_v202 m m' c hag, br_main_v290 m m' c hag, nre_v222_v240 m' c]
  all_goals rfl
theorem br_main_c_53 : nK_main_c_53 m c = nR_main_c_3 m' c := by
  rw [nkq_main_c_53 m c, nrq_main_c_3 m' c]
  all_goals rfl
theorem br_main_v292 : nK_main_v292 m c = nR_main_v224 m' c := by
  rw [nkq_main_v292 m c, nrq_main_v224 m' c, br_main_c_53 m m' c hag, nre_c_3_c_37 m' c]
  all_goals rfl
theorem br_main_v293 : nK_main_v293 m c = nR_main_v243 m' c := by
  rw [nkq_main_v293 m c, nrq_main_v243 m' c, br_main_v202 m m' c hag, br_main_v292 m m' c hag, nre_v224_v242 m' c]
  all_goals rfl
theorem br_main_v294 : nK_main_v294 m c = nR_main_v244 m' c := by
  rw [nkq_main_v294 m c, nrq_main_v244 m' c, br_main_v291 m m' c hag, br_main_v293 m m' c hag, br_main_v202 m m' c hag]
  all_goals rfl
theorem br_main_v295 : nK_main_v295 m c = nR_main_v245 m' c := by
  rw [nkq_main_v295 m c, nrq_main_v245 m' c, br_main_v294 m m' c hag]
  all_goals rfl
theorem br_main_v296 : nK_main_v296 m c = nR_main_v340 m' c := by
  rw [nkq_main_v296 m c, nrq_main_v340 m' c, br_main_v145 m m' c hag, br_main_v295 m m' c hag, nre_v245_v339 m' c]
  all_goals rfl
theorem br_main_c_54 : nK_main_c_54 m c = nR_main_c m' c := by
  rw [nkq_main_c_54 m c, nrq_main_c m' c]
  all_goals rfl
theorem br_main_v297 : nK_main_v297 m c = nR_main_v222 m' c := by
  rw [nkq_main_v297 m c, nrq_main_v222 m' c, br_main_c_54 m m' c hag, nre_c_c_36 m' c]
  all_goals rfl
theorem br_main_v298 : nK_main_v298 m c = nR_main_v241 m' c := by
  rw [nkq_main_v298 m c, nrq_main_v241 m' c, br_main_v202 m m' c hag, br_main_v297 m m' c hag, nre_v222_v240 m' c]
  all_goals rfl
theorem br_main_c_55 : nK_main_c_55 m c = nR_main_c_3 m' c := by
  rw [nkq_main_c_55 m c, nrq_main_c_3 m' c]
  all_goals rfl
theorem br_main_v299 : nK_main_v299 m c = nR_main_v224 m' c := by
  rw [nkq_main_v299 m c, nrq_main_v224 m' c, br_main_c_55 m m' c hag, nre_c_3_c_37 m' c]
  all_goals rfl
theorem br_main_v300 : nK_main_v300 m c = nR_main_v243 m' c := by
  rw [nkq_main_v300 m c, nrq_main_v243 m' c, br_main_v202 m m' c hag, br_main_v299 m m' c hag, nre_v224_v242 m' c]
  all_goals rfl
theorem br_main_v301 : nK_main_v301 m c = nR_main_v244 m' c := by
  rw [nkq_main_v301 m c, nrq_main_v244 m' c, br_main_v298 m m' c hag, br_main_v300 m m' c hag, br_main_v202 m m' c hag]
  all_goals rfl
theorem br_main_v302 : nK_main_v302 m c = nR_main_v245 m' c := by
  rw [nkq_main_v302 m c, nrq_main_v245 m' c, br_main_v301 m m' c hag]
  all_goals rfl
theorem br_main_v303 : nK_main_v303 m c = nR_main_v355 m' c := by
  rw [nkq_main_v303 m c, nrq_main_v355 m' c, br_main_v116 m m' c hag, br_main_v302 m m' c hag, nre_v245_v354 m' c]
  all_goals rfl
theorem br_main_v304 : nK_main_v304 m c = nR_main_v346 m' c := by
  rw [nkq_main_v304 m c, nrq_main_v346 m' c, br_main_arg11 m m' c hag]
  all_goals rfl
theorem br_main_v305 : nK_main_v305 m c = nR_main_v347 m' c := by
  rw [nkq_main_v305 m c, nrq_main_v347 m' c, br_main_v304 m m' c hag]
  all_goals rfl
theorem br_main_call6_v0 : nK_main_call6_v0 m c = nR_main_call6_v0 m' c := by
  rw [nkq_main_call6_v0 m c, nrq_main_call6_v0 m' c, br_main_v296 m m' c hag]
  all_goals rfl
theorem br_main_call6_cst : nK_main_call6_cst m c = nR_main_cst m' c := by
  rw [nkq_main_call6_cst m c, nrq_main_cst m' c]
  all_goals rfl
theorem br_main_call6_v1 : nK_main_call6_v1 m c = nR_main_call6_v1 m' c := by
  rw [nkq_main_call6_v1 m c, nrq_main_call6_v1 m' c, br_main_call6_v0 m m' c hag, br_main_call6_cst m m' c hag, nre_cst_call6_cst m' c]
  all_goals rfl
theorem br_main_call6_v2 : nK_main_call6_v2 m c = nR_main_call6_v2 m' c := by
  rw [nkq_main_call6_v2 m c, nrq_main_call6_v2 m' c, br_main_call6_v1 m m' c hag]
  all_goals rfl
theorem br_main_v306 : nK_main_v306 m c = nR_main_v341 m' c := by
  rw [nkq_main_v306 m c, nrq_main_v341 m' c, br_main_call6_v2 m m' c hag]
  all_goals rfl
theorem br_main_cst_56 : nK_main_cst_56 m c = nR_main_cst_43 m' c := by
  rw [nkq_main_cst_56 m c, nrq_main_cst_43 m' c]
  all_goals rfl
theorem br_main_v307 : nK_main_v307 m c = nR_main_v248 m' c := by
  rw [nkq_main_v307 m c, nrq_main_v248 m' c, br_main_cst_56 m m' c hag]
  all_goals rfl
theorem br_main_v308 : nK_main_v308 m c = nR_main_v343 m' c := by
  rw [nkq_main_v308 m c, nrq_main_v343 m' c, br_main_v306 m m' c hag, br_main_v307 m m' c hag, nre_v248_v342 m' c]
  all_goals rfl
theorem br_main_v309 : nK_main_v309 m c = nR_main_v344 m' c := by
  rw [nkq_main_v309 m c, nrq_main_v344 m' c, br_main_v308 m m' c hag]
  all_goals rfl
theorem br_main_v310 : nK_main_v310 m c = nR_main_v345 m' c := by
  rw [nkq_main_v310 m c, nrq_main_v345 m' c, br_main_v296 m m' c hag, br_main_v309 m m' c hag]
  all_goals rfl
theorem br_main_call7_v0 : nK_main_call7_v0 m c = nR_main_call7_v0 m' c := by
  rw [nkq_main_call7_v0 m c, nrq_main_call7_v0 m' c, br_main_v303 m m' c hag]
  all_goals rfl
theorem br_main_call7_cst : nK_main_call7_cst m c = nR_main_cst m' c := by
  rw [nkq_main_call7_cst m c, nrq_main_cst m' c]
  all_goals rfl
theorem br_main_call7_v1 : nK_main_call7_v1 m c = nR_main_call7_v1 m' c := by
  rw [nkq_main_call7_v1 m c, nrq_main_call7_v1 m' c, br_main_call7_v0 m m' c hag, br_main_call7_cst m m' c hag, nre_cst_call7_cst m' c]
  all_goals rfl
theorem br_main_call7_v2 : nK_main_call7_v2 m c = nR_main_call7_v2 m' c := by
  rw [nkq_main_call7_v2 m c, nrq_main_call7_v2 m' c, br_main_call7_v1 m m' c hag]
  all_goals rfl
theorem br_main_v311 : nK_main_v311 m c = nR_main_v356 m' c := by
  rw [nkq_main_v311 m c, nrq_main_v356 m' c, br_main_call7_v2 m m' c hag]
  all_goals rfl
theorem br_main_cst_57 : nK_main_cst_57 m c = nR_main_cst_43 m' c := by
  rw [nkq_main_cst_57 m c, nrq_main_cst_43 m' c]
  all_goals rfl
theorem br_main_v312 : nK_main_v312 m c = nR_main_v248 m' c := by
  rw [nkq_main_v312 m c, nrq_main_v248 m' c, br_main_cst_57 m m' c hag]
  all_goals rfl
theorem br_main_v313 : nK_main_v313 m c = nR_main_v358 m' c := by
  rw [nkq_main_v313 m c, nrq_main_v358 m' c, br_main_v311 m m' c hag, br_main_v312 m m' c hag, nre_v248_v357 m' c]
  all_goals rfl
theorem br_main_v314 : nK_main_v314 m c = nR_main_v359 m' c := by
  rw [nkq_main_v314 m c, nrq_main_v359 m' c, br_main_v313 m m' c hag]
  all_goals rfl
theorem br_main_v315 : nK_main_v315 m c = nR_main_v360 m' c := by
  rw [nkq_main_v315 m c, nrq_main_v360 m' c, br_main_v303 m m' c hag, br_main_v314 m m' c hag]
  all_goals rfl
theorem br_main_v316 : nK_main_v316 m c = nR_main_v348 m' c := by
  rw [nkq_main_v316 m c, nrq_main_v348 m' c, br_main_v310 m m' c hag, br_main_v305 m m' c hag]
  all_goals rfl
theorem br_main_v317 : nK_main_v317 m c = nR_main_v361 m' c := by
  rw [nkq_main_v317 m c, nrq_main_v361 m' c, br_main_v316 m m' c hag, br_main_v315 m m' c hag]
  all_goals rfl
theorem br_main_cst_58 : nK_main_cst_58 m c = nR_main_cst m' c := by
  rw [nkq_main_cst_58 m c, nrq_main_cst m' c]
  all_goals rfl
theorem br_main_v318 : nK_main_v318 m c = nR_main_v362 m' c := by
  rw [nkq_main_v318 m c, nrq_main_v362 m' c, br_main_v317 m m' c hag, br_main_cst_58 m m' c hag, nre_cst_cst_74 m' c]
  all_goals rfl
theorem br_main_cst_59 : nK_main_cst_59 m c = nR_main_cst_48 m' c := by
  rw [nkq_main_cst_59 m c, nrq_main_cst_48 m' c]
  all_goals rfl
theorem br_main_v319 : nK_main_v319 m c = nR_main_v269 m' c := by
  rw [nkq_main_v319 m c, nrq_main_v269 m' c, br_main_cst_59 m m' c hag]
  all_goals rfl
theorem br_main_v320 : nK_main_v320 m c = nR_main_v364 m' c := by
  rw [nkq_main_v320 m c, nrq_main_v364 m' c, br_main_v318 m m' c hag, br_main_v319 m m' c hag, nre_v269_v363 m' c]
  all_goals rfl
theorem br_main_v321 : nK_main_v321 m c = nR_main_v365 m' c := by
  rw [nkq_main_v321 m c, nrq_main_v365 m' c, br_main_v320 m m' c hag]
  all_goals rfl
theorem br_main_v323 : nK_main_v323 m c = nR_main_v371 m' c := by
  rw [nkqs_main_v323 m c, nrq_main_v371 m' c, nrq_main_v370 m' c, nrq_main_v369 m' c, nrq_main_v367 m' c, nrq_main_v366 m' c, nrq_main_v368 m' c, nrq_main_cst_76 m' c, nrq_main_cst_77 m' c, br_main_v315 m m' c hag, br_main_v316 m m' c hag]
  all_goals rfl
theorem br_main_cst_60 : nK_main_cst_60 m c = nR_main_cst_51 m' c := by
  rw [nkq_main_cst_60 m c, nrq_main_cst_51 m' c]
  all_goals rfl
theorem br_main_v324 : nK_main_v324 m c = nR_main_v278 m' c := by
  rw [nkq_main_v324 m c, nrq_main_v278 m' c, br_main_cst_60 m m' c hag]
  all_goals rfl
theorem br_main_v325 : nK_main_v325 m c = nR_main_v373 m' c := by
  rw [nkq_main_v325 m c, nrq_main_v373 m' c, br_main_v323 m m' c hag, br_main_v324 m m' c hag, nre_v278_v372 m' c]
  all_goals rfl
theorem br_main_v326 : nK_main_v326 m c = nR_main_v374 m' c := by
  rw [nkq_main_v326 m c, nrq_main_v374 m' c, br_main_v321 m m' c hag, br_main_v325 m m' c hag]
  all_goals rfl
theorem br_main_cst_61 : nK_main_cst_61 m c = nR_main_cst_51 m' c := by
  rw [nkq_main_cst_61 m c, nrq_main_cst_51 m' c]
  all_goals rfl
theorem br_main_v327 : nK_main_v327 m c = nR_main_v278 m' c := by
  rw [nkq_main_v327 m c, nrq_main_v278 m' c, br_main_cst_61 m m' c hag]
  all_goals rfl
theorem br_main_v328 : nK_main_v328 m c = nR_main_v376 m' c := by
  rw [nkq_main_v328 m c, nrq_main_v376 m' c, br_main_v326 m m' c hag, br_main_v327 m m' c hag, nre_v278_v375 m' c]
  all_goals rfl
theorem br_main_v329 : nK_main_v329 m c = nR_main_v377 m' c := by
  rw [nkq_main_v329 m c, nrq_main_v377 m' c, br_main_v328 m m' c hag]
  all_goals rfl
theorem br_main_v330 : nK_main_v330 m c = nR_main_v378 m' c := by
  rw [nkq_main_v330 m c, nrq_main_v378 m' c, br_main_v329 m m' c hag]
  all_goals rfl
theorem br_main_cst_62 : nK_main_cst_62 m c = nR_main_cst m' c := by
  rw [nkq_main_cst_62 m c, nrq_main_cst m' c]
  all_goals rfl
theorem br_main_v331 : nK_main_v331 m c = nR_main_v379 m' c := by
  rw [nkq_main_v331 m c, nrq_main_v379 m' c, br_main_v330 m m' c hag, br_main_cst_62 m m' c hag, nre_cst_cst_80 m' c]
  all_goals rfl
theorem br_main_v332 : nK_main_v332 m c = nR_main_v380 m' c := by
  rw [nkq_main_v332 m c, nrq_main_v380 m' c, br_main_v289 m m' c hag, br_main_v331 m m' c hag]
  all_goals rfl
theorem br_main_c_63 : nK_main_c_63 m c = nR_main_c m' c := by
  rw [nkq_main_c_63 m c, nrq_main_c m' c]
  all_goals rfl
theorem br_main_v333 : nK_main_v333 m c = nR_main_v222 m' c := by
  rw [nkq_main_v333 m c, nrq_main_v222 m' c, br_main_c_63 m m' c hag, nre_c_c_36 m' c]
  all_goals rfl
theorem br_main_v334 : nK_main_v334 m c = nR_main_v288 m' c := by
  rw [nkq_main_v334 m c, nrq_main_v288 m' c, br_main_v203 m m' c hag, br_main_v333 m m' c hag, nre_v222_v287 m' c]
  all_goals rfl
theorem br_main_c_64 : nK_main_c_64 m c = nR_main_c_0 m' c := by
  rw [nkq_main_c_64 m c, nrq_main_c_0 m' c]
  all_goals rfl
theorem br_main_v335 : nK_main_v335 m c = nR_main_v231 m' c := by
  rw [nkq_main_v335 m c, nrq_main_v231 m' c, br_main_c_64 m m' c hag, nre_c_0_c_39 m' c]
  all_goals rfl
theorem br_main_v336 : nK_main_v336 m c = nR_main_v290 m' c := by
  rw [nkq_main_v336 m c, nrq_main_v290 m' c, br_main_v203 m m' c hag, br_main_v335 m m' c hag, nre_v231_v289 m' c]
  all_goals rfl

end Cert.Bridge

end
-- ==== Proof.Br.Br5.lean ====
import proofs.«126270_j6725918785969_1_alg».proof.Proof.Br.Br4

/-!
# Kernel buffers and reference buffers that hold the same value (part 5)

From memories agreeing on the twelve arguments, buffer by buffer in program order: a kernel buffer and the
reference buffer computed by the same operation from corresponding operands hold equal final contents; a kernel
region's output array corresponds to the reference buffer holding the same host-level composite.
-/

set_option maxRecDepth 16384

noncomputable section

namespace Cert.Bridge

open Idealize.ShloMosaic Idealize.ShloMosaic.TcCoe Idealize.ShloMosaic.StableHlo
open Idealize.SL Idealize.SL.Sem
open Cert.KernelIdeal.Fr Cert.ReferenceIdeal.RefRun

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD) (hag : Agree m m')
include hag

theorem br_main_v337 : nK_main_v337 m c = nR_main_v291 m' c := by
  rw [nkq_main_v337 m c, nrq_main_v291 m' c, br_main_v334 m m' c hag, br_main_v336 m m' c hag, br_main_v203 m m' c hag]
  all_goals rfl
theorem br_main_v338 : nK_main_v338 m c = nR_main_v292 m' c := by
  rw [nkq_main_v338 m c, nrq_main_v292 m' c, br_main_v337 m m' c hag]
  all_goals rfl
theorem br_main_v339 : nK_main_v339 m c = nR_main_v387 m' c := by
  rw [nkq_main_v339 m c, nrq_main_v387 m' c, br_main_v173 m m' c hag, br_main_v338 m m' c hag, nre_v292_v386 m' c]
  all_goals rfl
theorem br_main_c_65 : nK_main_c_65 m c = nR_main_c m' c := by
  rw [nkq_main_c_65 m c, nrq_main_c m' c]
  all_goals rfl
theorem br_main_v340 : nK_main_v340 m c = nR_main_v222 m' c := by
  rw [nkq_main_v340 m c, nrq_main_v222 m' c, br_main_c_65 m m' c hag, nre_c_c_36 m' c]
  all_goals rfl
theorem br_main_v341 : nK_main_v341 m c = nR_main_v288 m' c := by
  rw [nkq_main_v341 m c, nrq_main_v288 m' c, br_main_v203 m m' c hag, br_main_v340 m m' c hag, nre_v222_v287 m' c]
  all_goals rfl
theorem br_main_c_66 : nK_main_c_66 m c = nR_main_c_0 m' c := by
  rw [nkq_main_c_66 m c, nrq_main_c_0 m' c]
  all_goals rfl
theorem br_main_v342 : nK_main_v342 m c = nR_main_v231 m' c := by
  rw [nkq_main_v342 m c, nrq_main_v231 m' c, br_main_c_66 m m' c hag, nre_c_0_c_39 m' c]
  all_goals rfl
theorem br_main_v343 : nK_main_v343 m c = nR_main_v290 m' c := by
  rw [nkq_main_v343 m c, nrq_main_v290 m' c, br_main_v203 m m' c hag, br_main_v342 m m' c hag, nre_v231_v289 m' c]
  all_goals rfl
theorem br_main_v344 : nK_main_v344 m c = nR_main_v291 m' c := by
  rw [nkq_main_v344 m c, nrq_main_v291 m' c, br_main_v341 m m' c hag, br_main_v343 m m' c hag, br_main_v203 m m' c hag]
  all_goals rfl
theorem br_main_v345 : nK_main_v345 m c = nR_main_v292 m' c := by
  rw [nkq_main_v345 m c, nrq_main_v292 m' c, br_main_v344 m m' c hag]
  all_goals rfl
theorem br_main_v346 : nK_main_v346 m c = nR_main_v402 m' c := by
  rw [nkq_main_v346 m c, nrq_main_v402 m' c, br_main_v117 m m' c hag, br_main_v345 m m' c hag, nre_v292_v401 m' c]
  all_goals rfl
theorem br_main_v347 : nK_main_v347 m c = nR_main_v346 m' c := by
  rw [nkq_main_v347 m c, nrq_main_v346 m' c, br_main_arg11 m m' c hag]
  all_goals rfl
theorem br_main_v348 : nK_main_v348 m c = nR_main_v347 m' c := by
  rw [nkq_main_v348 m c, nrq_main_v347 m' c, br_main_v347 m m' c hag]
  all_goals rfl
theorem br_main_call8_v0 : nK_main_call8_v0 m c = nR_main_call8_v0 m' c := by
  rw [nkq_main_call8_v0 m c, nrq_main_call8_v0 m' c, br_main_v339 m m' c hag]
  all_goals rfl
theorem br_main_call8_cst : nK_main_call8_cst m c = nR_main_cst m' c := by
  rw [nkq_main_call8_cst m c, nrq_main_cst m' c]
  all_goals rfl
theorem br_main_call8_v1 : nK_main_call8_v1 m c = nR_main_call8_v1 m' c := by
  rw [nkq_main_call8_v1 m c, nrq_main_call8_v1 m' c, br_main_call8_v0 m m' c hag, br_main_call8_cst m m' c hag, nre_cst_call8_cst m' c]
  all_goals rfl
theorem br_main_call8_v2 : nK_main_call8_v2 m c = nR_main_call8_v2 m' c := by
  rw [nkq_main_call8_v2 m c, nrq_main_call8_v2 m' c, br_main_call8_v1 m m' c hag]
  all_goals rfl
theorem br_main_v349 : nK_main_v349 m c = nR_main_v388 m' c := by
  rw [nkq_main_v349 m c, nrq_main_v388 m' c, br_main_call8_v2 m m' c hag]
  all_goals rfl
theorem br_main_cst_67 : nK_main_cst_67 m c = nR_main_cst_43 m' c := by
  rw [nkq_main_cst_67 m c, nrq_main_cst_43 m' c]
  all_goals rfl
theorem br_main_v350 : nK_main_v350 m c = nR_main_v248 m' c := by
  rw [nkq_main_v350 m c, nrq_main_v248 m' c, br_main_cst_67 m m' c hag]
  all_goals rfl
theorem br_main_v351 : nK_main_v351 m c = nR_main_v390 m' c := by
  rw [nkq_main_v351 m c, nrq_main_v390 m' c, br_main_v349 m m' c hag, br_main_v350 m m' c hag, nre_v248_v389 m' c]
  all_goals rfl
theorem br_main_v352 : nK_main_v352 m c = nR_main_v391 m' c := by
  rw [nkq_main_v352 m c, nrq_main_v391 m' c, br_main_v351 m m' c hag]
  all_goals rfl
theorem br_main_v353 : nK_main_v353 m c = nR_main_v392 m' c := by
  rw [nkq_main_v353 m c, nrq_main_v392 m' c, br_main_v339 m m' c hag, br_main_v352 m m' c hag]
  all_goals rfl
theorem br_main_call9_v0 : nK_main_call9_v0 m c = nR_main_call9_v0 m' c := by
  rw [nkq_main_call9_v0 m c, nrq_main_call9_v0 m' c, br_main_v346 m m' c hag]
  all_goals rfl
theorem br_main_call9_cst : nK_main_call9_cst m c = nR_main_cst m' c := by
  rw [nkq_main_call9_cst m c, nrq_main_cst m' c]
  all_goals rfl
theorem br_main_call9_v1 : nK_main_call9_v1 m c = nR_main_call9_v1 m' c := by
  rw [nkq_main_call9_v1 m c, nrq_main_call9_v1 m' c, br_main_call9_v0 m m' c hag, br_main_call9_cst m m' c hag, nre_cst_call9_cst m' c]
  all_goals rfl
theorem br_main_call9_v2 : nK_main_call9_v2 m c = nR_main_call9_v2 m' c := by
  rw [nkq_main_call9_v2 m c, nrq_main_call9_v2 m' c, br_main_call9_v1 m m' c hag]
  all_goals rfl
theorem br_main_v354 : nK_main_v354 m c = nR_main_v403 m' c := by
  rw [nkq_main_v354 m c, nrq_main_v403 m' c, br_main_call9_v2 m m' c hag]
  all_goals rfl
theorem br_main_cst_68 : nK_main_cst_68 m c = nR_main_cst_43 m' c := by
  rw [nkq_main_cst_68 m c, nrq_main_cst_43 m' c]
  all_goals rfl
theorem br_main_v355 : nK_main_v355 m c = nR_main_v248 m' c := by
  rw [nkq_main_v355 m c, nrq_main_v248 m' c, br_main_cst_68 m m' c hag]
  all_goals rfl
theorem br_main_v356 : nK_main_v356 m c = nR_main_v405 m' c := by
  rw [nkq_main_v356 m c, nrq_main_v405 m' c, br_main_v354 m m' c hag, br_main_v355 m m' c hag, nre_v248_v404 m' c]
  all_goals rfl
theorem br_main_v357 : nK_main_v357 m c = nR_main_v406 m' c := by
  rw [nkq_main_v357 m c, nrq_main_v406 m' c, br_main_v356 m m' c hag]
  all_goals rfl
theorem br_main_v358 : nK_main_v358 m c = nR_main_v407 m' c := by
  rw [nkq_main_v358 m c, nrq_main_v407 m' c, br_main_v346 m m' c hag, br_main_v357 m m' c hag]
  all_goals rfl
theorem br_main_v359 : nK_main_v359 m c = nR_main_v395 m' c := by
  rw [nkq_main_v359 m c, nrq_main_v395 m' c, br_main_v353 m m' c hag, br_main_v348 m m' c hag, nre_v347_v394 m' c]
  all_goals rfl
theorem br_main_v360 : nK_main_v360 m c = nR_main_v408 m' c := by
  rw [nkq_main_v360 m c, nrq_main_v408 m' c, br_main_v359 m m' c hag, br_main_v358 m m' c hag]
  all_goals rfl
theorem br_main_cst_69 : nK_main_cst_69 m c = nR_main_cst m' c := by
  rw [nkq_main_cst_69 m c, nrq_main_cst m' c]
  all_goals rfl
theorem br_main_v361 : nK_main_v361 m c = nR_main_v409 m' c := by
  rw [nkq_main_v361 m c, nrq_main_v409 m' c, br_main_v360 m m' c hag, br_main_cst_69 m m' c hag, nre_cst_cst_87 m' c]
  all_goals rfl
theorem br_main_cst_70 : nK_main_cst_70 m c = nR_main_cst_48 m' c := by
  rw [nkq_main_cst_70 m c, nrq_main_cst_48 m' c]
  all_goals rfl
theorem br_main_v362 : nK_main_v362 m c = nR_main_v269 m' c := by
  rw [nkq_main_v362 m c, nrq_main_v269 m' c, br_main_cst_70 m m' c hag]
  all_goals rfl
theorem br_main_v363 : nK_main_v363 m c = nR_main_v411 m' c := by
  rw [nkq_main_v363 m c, nrq_main_v411 m' c, br_main_v361 m m' c hag, br_main_v362 m m' c hag, nre_v269_v410 m' c]
  all_goals rfl
theorem br_main_v364 : nK_main_v364 m c = nR_main_v412 m' c := by
  rw [nkq_main_v364 m c, nrq_main_v412 m' c, br_main_v363 m m' c hag]
  all_goals rfl
theorem br_main_v366 : nK_main_v366 m c = nR_main_v418 m' c := by
  rw [nkqs_main_v366 m c, nrq_main_v418 m' c, nrq_main_v417 m' c, nrq_main_v416 m' c, nrq_main_v414 m' c, nrq_main_v413 m' c, nrq_main_v415 m' c, nrq_main_cst_89 m' c, nrq_main_cst_90 m' c, br_main_v358 m m' c hag, br_main_v359 m m' c hag]
  all_goals rfl
theorem br_main_cst_71 : nK_main_cst_71 m c = nR_main_cst_51 m' c := by
  rw [nkq_main_cst_71 m c, nrq_main_cst_51 m' c]
  all_goals rfl
theorem br_main_v367 : nK_main_v367 m c = nR_main_v278 m' c := by
  rw [nkq_main_v367 m c, nrq_main_v278 m' c, br_main_cst_71 m m' c hag]
  all_goals rfl
theorem br_main_v368 : nK_main_v368 m c = nR_main_v420 m' c := by
  rw [nkq_main_v368 m c, nrq_main_v420 m' c, br_main_v366 m m' c hag, br_main_v367 m m' c hag, nre_v278_v419 m' c]
  all_goals rfl
theorem br_main_v369 : nK_main_v369 m c = nR_main_v421 m' c := by
  rw [nkq_main_v369 m c, nrq_main_v421 m' c, br_main_v364 m m' c hag, br_main_v368 m m' c hag]
  all_goals rfl
theorem br_main_cst_72 : nK_main_cst_72 m c = nR_main_cst_51 m' c := by
  rw [nkq_main_cst_72 m c, nrq_main_cst_51 m' c]
  all_goals rfl
theorem br_main_v370 : nK_main_v370 m c = nR_main_v278 m' c := by
  rw [nkq_main_v370 m c, nrq_main_v278 m' c, br_main_cst_72 m m' c hag]
  all_goals rfl
theorem br_main_v371 : nK_main_v371 m c = nR_main_v423 m' c := by
  rw [nkq_main_v371 m c, nrq_main_v423 m' c, br_main_v369 m m' c hag, br_main_v370 m m' c hag, nre_v278_v422 m' c]
  all_goals rfl
theorem br_main_v372 : nK_main_v372 m c = nR_main_v424 m' c := by
  rw [nkq_main_v372 m c, nrq_main_v424 m' c, br_main_v371 m m' c hag]
  all_goals rfl
theorem br_main_v373 : nK_main_v373 m c = nR_main_v425 m' c := by
  rw [nkq_main_v373 m c, nrq_main_v425 m' c, br_main_v372 m m' c hag]
  all_goals rfl
theorem br_main_cst_73 : nK_main_cst_73 m c = nR_main_cst m' c := by
  rw [nkq_main_cst_73 m c, nrq_main_cst m' c]
  all_goals rfl
theorem br_main_v374 : nK_main_v374 m c = nR_main_v426 m' c := by
  rw [nkq_main_v374 m c, nrq_main_v426 m' c, br_main_v373 m m' c hag, br_main_cst_73 m m' c hag, nre_cst_cst_93 m' c]
  all_goals rfl
theorem br_main_v375 : nK_main_v375 m c = nR_main_v427 m' c := by
  rw [nkq_main_v375 m c, nrq_main_v427 m' c, br_main_v332 m m' c hag, br_main_v374 m m' c hag]
  all_goals rfl
theorem br_main_v376 : nK_main_v376 m c = nR_main_v428 m' c := by
  rw [nkq_main_v376 m c, nrq_main_v428 m' c, br_main_arg5 m m' c hag]
  all_goals rfl
theorem br_main_cst_74 : nK_main_cst_74 m c = nR_main_cst m' c := by
  rw [nkq_main_cst_74 m c, nrq_main_cst m' c]
  all_goals rfl
theorem br_main_v377 : nK_main_v377 m c = nR_main_v429 m' c := by
  rw [nkq_main_v377 m c, nrq_main_v429 m' c, br_main_v376 m m' c hag, br_main_cst_74 m m' c hag, nre_cst_cst_94 m' c]
  all_goals rfl
theorem br_main_v378 : nK_main_v378 m c = nR_main_v430 m' c := by
  rw [nkq_main_v378 m c, nrq_main_v430 m' c, br_main_arg6 m m' c hag]
  all_goals rfl
theorem br_main_cst_75 : nK_main_cst_75 m c = nR_main_cst m' c := by
  rw [nkq_main_cst_75 m c, nrq_main_cst m' c]
  all_goals rfl
theorem br_main_v379 : nK_main_v379 m c = nR_main_v431 m' c := by
  rw [nkq_main_v379 m c, nrq_main_v431 m' c, br_main_v378 m m' c hag, br_main_cst_75 m m' c hag, nre_cst_cst_95 m' c]
  all_goals rfl
theorem br_main_v380 : nK_main_v380 m c = nR_main_v432 m' c := by
  rw [nkq_main_v380 m c, nrq_main_v432 m' c, br_main_v377 m m' c hag, br_main_v379 m m' c hag]
  all_goals rfl
theorem br_main_v381 : nK_main_v381 m c = nR_main_v433 m' c := by
  rw [nkq_main_v381 m c, nrq_main_v433 m' c, br_main_arg7 m m' c hag]
  all_goals rfl
theorem br_main_cst_76 : nK_main_cst_76 m c = nR_main_cst m' c := by
  rw [nkq_main_cst_76 m c, nrq_main_cst m' c]
  all_goals rfl
theorem br_main_v382 : nK_main_v382 m c = nR_main_v434 m' c := by
  rw [nkq_main_v382 m c, nrq_main_v434 m' c, br_main_v381 m m' c hag, br_main_cst_76 m m' c hag, nre_cst_cst_96 m' c]
  all_goals rfl
theorem br_main_v383 : nK_main_v383 m c = nR_main_v435 m' c := by
  rw [nkq_main_v383 m c, nrq_main_v435 m' c, br_main_v380 m m' c hag, br_main_v382 m m' c hag]
  all_goals rfl
theorem br_main_v384 : nK_main_v384 m c = nR_main_v436 m' c := by
  rw [nkq_main_v384 m c, nrq_main_v436 m' c, br_main_arg8 m m' c hag]
  all_goals rfl
theorem br_main_cst_77 : nK_main_cst_77 m c = nR_main_cst m' c := by
  rw [nkq_main_cst_77 m c, nrq_main_cst m' c]
  all_goals rfl
theorem br_main_v385 : nK_main_v385 m c = nR_main_v437 m' c := by
  rw [nkq_main_v385 m c, nrq_main_v437 m' c, br_main_v384 m m' c hag, br_main_cst_77 m m' c hag, nre_cst_cst_97 m' c]
  all_goals rfl
theorem br_main_v386 : nK_main_v386 m c = nR_main_v438 m' c := by
  rw [nkq_main_v386 m c, nrq_main_v438 m' c, br_main_v383 m m' c hag, br_main_v385 m m' c hag]
  all_goals rfl

end Cert.Bridge

end
-- ==== Proof.Alg.lean ====
import proofs.«126270_j6725918785969_1_alg».proof.Proof.KI.Frame
import proofs.«126270_j6725918785969_1_alg».proof.Proof.RefRun
import proofs.«126270_j6725918785969_1_alg».proof.Proof.Br.Br5
import proofs.«126270_j6725918785969_1_alg».proof.Defs

/-!
# The idealized kernel and the idealized reference compute the same three results

From memories agreeing on the twelve arguments both programs run to the end, leaving their arguments unchanged;
the kernel's three result buffers end at the final contents of the chain of items, the reference's at the final
contents of its line of operations, and these are equal buffer by buffer (the bridge): each kernel region computes,
at the extended reals, the host-level composite the reference computes in its place, and every other operation
is the same operation on corresponding operands.
-/

set_option maxRecDepth 16384

noncomputable section

namespace Cert.Proof.Alg

open Idealize.ShloMosaic Idealize.ShloMosaic.TcCoe Idealize.ShloMosaic.StableHlo
open Idealize.SL Idealize.SL.Sem

theorem algebraic : Cert.algebraic_KernelIdeal_ReferenceIdeal := by
  intro m g m' g' _ hag
  refine ⟨fun c => Cert.ReferenceIdeal.RefRun.WR m' c Cert.ReferenceIdeal.main_v237,
    fun c => Cert.ReferenceIdeal.RefRun.WR m' c Cert.ReferenceIdeal.main_v427,
    fun c => Cert.ReferenceIdeal.RefRun.WR m' c Cert.ReferenceIdeal.main_v438, ?_, ?_⟩
  · refine (θ_run Cert.KernelIdeal.defs _ _).mono (fun _ h c => ⟨?_, ?_, ?_,
      (h c (Proc.devRef .tc Cert.KernelIdeal.main_arg0) (Finset.mem_filter.mpr ⟨StableHlo.devRef_mem_tcRefs Cert.KernelIdeal.main_arg0, by decide⟩)).trans (Cert.KernelIdeal.GenP.V60_main_arg0 m (Cert.KernelIdeal.Fr.outsF m) c),
      (h c (Proc.devRef .tc Cert.KernelIdeal.main_arg1) (Finset.mem_filter.mpr ⟨StableHlo.devRef_mem_tcRefs Cert.KernelIdeal.main_arg1, by decide⟩)).trans (Cert.KernelIdeal.GenP.V60_main_arg1 m (Cert.KernelIdeal.Fr.outsF m) c),
      (h c (Proc.devRef .tc Cert.KernelIdeal.main_arg2) (Finset.mem_filter.mpr ⟨StableHlo.devRef_mem_tcRefs Cert.KernelIdeal.main_arg2, by decide⟩)).trans (Cert.KernelIdeal.GenP.V60_main_arg2 m (Cert.KernelIdeal.Fr.outsF m) c),
      (h c (Proc.devRef .tc Cert.KernelIdeal.main_arg3) (Finset.mem_filter.mpr ⟨StableHlo.devRef_mem_tcRefs Cert.KernelIdeal.main_arg3, by decide⟩)).trans (Cert.KernelIdeal.GenP.V60_main_arg3 m (Cert.KernelIdeal.Fr.outsF m) c),
      (h c (Proc.devRef .tc Cert.KernelIdeal.main_arg4) (Finset.mem_filter.mpr ⟨StableHlo.devRef_mem_tcRefs Cert.KernelIdeal.main_arg4, by decide⟩)).trans (Cert.KernelIdeal.GenP.V60_main_arg4 m (Cert.KernelIdeal.Fr.outsF m) c),
      (h c (Proc.devRef .tc Cert.KernelIdeal.main_arg5) (Finset.mem_filter.mpr ⟨StableHlo.devRef_mem_tcRefs Cert.KernelIdeal.main_arg5, by decide⟩)).trans (Cert.KernelIdeal.GenP.V60_main_arg5 m (Cert.KernelIdeal.Fr.outsF m) c),
      (h c (Proc.devRef .tc Cert.KernelIdeal.main_arg6) (Finset.mem_filter.mpr ⟨StableHlo.devRef_mem_tcRefs Cert.KernelIdeal.main_arg6, by decide⟩)).trans (Cert.KernelIdeal.GenP.V60_main_arg6 m (Cert.KernelIdeal.Fr.outsF m) c),
      (h c (Proc.devRef .tc Cert.KernelIdeal.main_arg7) (Finset.mem_filter.mpr ⟨StableHlo.devRef_mem_tcRefs Cert.KernelIdeal.main_arg7, by decide⟩)).trans (Cert.KernelIdeal.GenP.V60_main_arg7 m (Cert.KernelIdeal.Fr.outsF m) c),
      (h c (Proc.devRef .tc Cert.KernelIdeal.main_arg8) (Finset.mem_filter.mpr ⟨StableHlo.devRef_mem_tcRefs Cert.KernelIdeal.main_arg8, by decide⟩)).trans (Cert.KernelIdeal.GenP.V60_main_arg8 m (Cert.KernelIdeal.Fr.outsF m) c),
      (h c (Proc.devRef .tc Cert.KernelIdeal.main_arg9) (Finset.mem_filter.mpr ⟨StableHlo.devRef_mem_tcRefs Cert.KernelIdeal.main_arg9, by decide⟩)).trans (Cert.KernelIdeal.GenP.V60_main_arg9 m (Cert.KernelIdeal.Fr.outsF m) c),
      (h c (Proc.devRef .tc Cert.KernelIdeal.main_arg10) (Finset.mem_filter.mpr ⟨StableHlo.devRef_mem_tcRefs Cert.KernelIdeal.main_arg10, by decide⟩)).trans (Cert.KernelIdeal.GenP.V60_main_arg10 m (Cert.KernelIdeal.Fr.outsF m) c),
      (h c (Proc.devRef .tc Cert.KernelIdeal.main_arg11) (Finset.mem_filter.mpr ⟨StableHlo.devRef_mem_tcRefs Cert.KernelIdeal.main_arg11, by decide⟩)).trans (Cert.KernelIdeal.GenP.V60_main_arg11 m (Cert.KernelIdeal.Fr.outsF m) c)⟩)
      (Cert.KernelIdeal.Fr.run_all (F := Ideal) m g)
    · exact ((h c (Proc.devRef .tc Cert.KernelIdeal.main_v201) (Finset.mem_filter.mpr ⟨StableHlo.devRef_mem_tcRefs Cert.KernelIdeal.main_v201, by decide⟩)).trans
        (congrFun (Cert.KernelIdeal.Fr.V60_eq m c) _)).trans (Cert.Bridge.br_main_v201 m m' c hag)
    · exact ((h c (Proc.devRef .tc Cert.KernelIdeal.main_v375) (Finset.mem_filter.mpr ⟨StableHlo.devRef_mem_tcRefs Cert.KernelIdeal.main_v375, by decide⟩)).trans
        (congrFun (Cert.KernelIdeal.Fr.V60_eq m c) _)).trans (Cert.Bridge.br_main_v375 m m' c hag)
    · exact ((h c (Proc.devRef .tc Cert.KernelIdeal.main_v386) (Finset.mem_filter.mpr ⟨StableHlo.devRef_mem_tcRefs Cert.KernelIdeal.main_v386, by decide⟩)).trans
        (congrFun (Cert.KernelIdeal.Fr.V60_eq m c) _)).trans (Cert.Bridge.br_main_v386 m m' c hag)
  · refine (θ_run Cert.ReferenceIdeal.defs _ _).mono (fun _ h c => ⟨?_, ?_, ?_,
      (h c Cert.ReferenceIdeal.main_arg0).trans (Cert.ReferenceIdeal.RefRun.after_arg _ (by decide)),
      (h c Cert.ReferenceIdeal.main_arg1).trans (Cert.ReferenceIdeal.RefRun.after_arg _ (by decide)),
      (h c Cert.ReferenceIdeal.main_arg2).trans (Cert.ReferenceIdeal.RefRun.after_arg _ (by decide)),
      (h c Cert.ReferenceIdeal.main_arg3).trans (Cert.ReferenceIdeal.RefRun.after_arg _ (by decide)),
      (h c Cert.ReferenceIdeal.main_arg4).trans (Cert.ReferenceIdeal.RefRun.after_arg _ (by decide)),
      (h c Cert.ReferenceIdeal.main_arg5).trans (Cert.ReferenceIdeal.RefRun.after_arg _ (by decide)),
      (h c Cert.ReferenceIdeal.main_arg6).trans (Cert.ReferenceIdeal.RefRun.after_arg _ (by decide)),
      (h c Cert.ReferenceIdeal.main_arg7).trans (Cert.ReferenceIdeal.RefRun.after_arg _ (by decide)),
      (h c Cert.ReferenceIdeal.main_arg8).trans (Cert.ReferenceIdeal.RefRun.after_arg _ (by decide)),
      (h c Cert.ReferenceIdeal.main_arg9).trans (Cert.ReferenceIdeal.RefRun.after_arg _ (by decide)),
      (h c Cert.ReferenceIdeal.main_arg10).trans (Cert.ReferenceIdeal.RefRun.after_arg _ (by decide)),
      (h c Cert.ReferenceIdeal.main_arg11).trans (Cert.ReferenceIdeal.RefRun.after_arg _ (by decide))⟩)
      (Cert.ReferenceIdeal.RefRun.run_after (F := Ideal) m' g')
    · exact (h c Cert.ReferenceIdeal.main_v237).trans (congrFun (Cert.ReferenceIdeal.RefRun.after_ops_eq m' c) _)
    · exact (h c Cert.ReferenceIdeal.main_v427).trans (congrFun (Cert.ReferenceIdeal.RefRun.after_ops_eq m' c) _)
    · exact (h c Cert.ReferenceIdeal.main_v438).trans (congrFun (Cert.ReferenceIdeal.RefRun.after_ops_eq m' c) _)

end Cert.Proof.Alg

end
-- ==== Proof.lean ====
/-
  The five claims of this certificate.

  The word-level kernel program and its idealization (the ideal pass rewrote no operation, so the idealization
  claim is trivial) are each 22 kernel regions among 38 stretches of host operations. Their frames: every
  region's pipeline runs its body at every grid point (row-tiled matrix products, an entrywise max(x/2, x), two kinds
  of kernels that carry an accumulator in scratch memory across the grid), the regions' arrays are split out of and
  put back among the core's buffers, and no item writes an argument. The reference is one straight line of 571 host
  operations. At the extended reals each region's output array is the host-level composite the reference computes in
  its place (a matrix product in blocks of rows is the matrix product; a contraction accumulated block by block over
  the long axis is the whole contraction, addition of extended reals being commutative and associative), every other
  operation is the same on both sides, and so the three results agree.
-/
import proofs.«126270_j6725918785969_1_alg».proof.Defs
import proofs.«126270_j6725918785969_1_alg».proof.Proof.Gen.Kernel
import proofs.«126270_j6725918785969_1_alg».proof.Proof.Gen.KernelIdeal
import proofs.«126270_j6725918785969_1_alg».proof.Proof.Gen.ReferenceIdeal
import proofs.«126270_j6725918785969_1_alg».proof.Proof.Gen.Pre_finite_inputs
import proofs.«126270_j6725918785969_1_alg».proof.Proof.KB.Frame
import proofs.«126270_j6725918785969_1_alg».proof.Proof.KI.Frame
import proofs.«126270_j6725918785969_1_alg».proof.Proof.RefRun
import proofs.«126270_j6725918785969_1_alg».proof.Proof.Alg

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Fr.frame m ρ,
  fun m ρ _ => Cert.KernelIdeal.Fr.frame m ρ,
  Cert.ReferenceIdeal.RefRun.frame_ri,
  trivial,
  Cert.Proof.Alg.algebraic⟩

end Cert.Proof

end
